-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16 : Shape := ⟨2, ![10000, 16]⟩
abbrev S2x160000 : Shape := ⟨2, ![2, 160000]⟩
abbrev S10000 : Shape := ⟨1, ![10000]⟩
abbrev S16x512 : Shape := ⟨2, ![16, 512]⟩
abbrev S512 : Shape := ⟨1, ![512]⟩
abbrev S512x512 : Shape := ⟨2, ![512, 512]⟩
abbrev S4x512x512 : Shape := ⟨3, ![4, 512, 512]⟩
abbrev S4x512 : Shape := ⟨2, ![4, 512]⟩
abbrev S5x512 : Shape := ⟨2, ![5, 512]⟩
abbrev S512x18 : Shape := ⟨2, ![512, 18]⟩
abbrev S18 : Shape := ⟨1, ![18]⟩
abbrev S_ : Shape := ⟨0, ![]⟩

class Facts : Prop where
  bcast_S_S10000x16 : S_.BroadcastsInDim S10000x16 (![] : Fin 0 → Fin S10000x16.rank)
  reducesTo_S10000x16_S_d0_1 : S10000x16.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S5x512 : S_.BroadcastsInDim S5x512 (![] : Fin 0 → Fin S5x512.rank)
  reducesTo_S5x512_S_d0_1 : S5x512.ReducesTo [0, 1] S_
  bcast_S_S512x18 : S_.BroadcastsInDim S512x18 (![] : Fin 0 → Fin S512x18.rank)
  reducesTo_S512x18_S_d0_1 : S512x18.ReducesTo [0, 1] S_
  bcast_S_S18 : S_.BroadcastsInDim S18 (![] : Fin 0 → Fin S18.rank)
  reducesTo_S18_S_d0 : S18.ReducesTo [0] S_

variable [Facts]

def fn_part4 {F : FTy → Type} [FloatOps F] (main_arg16 : FVec F S18 .f32) (main_v63 : IVec S_ 1) (main_v67 : IVec S_ 1) : IVec S_ 1 :=
  let main_v68 : IVec S_ 1 := andi main_v63 main_v67
  let main_v69 : FVec F S18 .f32 := Host.absf main_arg16
  let main_cst_26 : FVec F S_ .f32 := constant S_ .f32 0x7F800000#32
  let main_v70 : FVec F S18 .f32 := broadcastInDim S18 ![] bcast_S_S18 main_cst_26
  let main_v71 : IVec S18 1 := cmpf .olt main_v69 main_v70
  let main_c_27 : IVec S_ 1 := constantI S_ 1 1#1
  let main_v72 : IVec S_ 1 := (fun x v => Host.reduce IntOp.andi x v reducesTo_S18_S_d0 h_S_) main_v71 main_c_27
  let main_v73 : IVec S_ 1 := andi main_v68 main_v72
  main_v73

def fn_part3 {F : FTy → Type} [FloatOps F] (main_arg13 : FVec F S512x512 .f32) (main_arg14 : FVec F S512 .f32) (main_arg15 : FVec F S512x18 .f32) (main_arg16 : FVec F S18 .f32) (main_v48 : IVec S_ 1) (main_v49 : FVec F S5x512 .f32) (main_v50 : FVec F S5x512 .f32) : IVec S_ 1 :=
  let main_v51 : IVec S5x512 1 := cmpf .olt main_v49 main_v50
  let main_c_19 : IVec S_ 1 := constantI S_ 1 1#1
  let main_v52 : IVec S_ 1 := (fun x v => Host.reduce IntOp.andi x v reducesTo_S5x512_S_d0_1 h_S_) main_v51 main_c_19
  let main_v53 : IVec S_ 1 := andi main_v48 main_v52
  let main_v54 : FVec F S512x512 .f32 := Host.absf main_arg13
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x18 .f32 := Host.absf main_arg15
  let main_cst_24 : FVec F S_ .f32 := constant S_ .f32 0x7F800000#32
  let main_v65 : FVec F S512x18 .f32 := broadcastInDim S512x18 ![] bcast_S_S512x18 main_cst_24
  let main_v66 : IVec S512x18 1 := cmpf .olt main_v64 main_v65
  let main_c_25 : IVec S_ 1 := constantI S_ 1 1#1
  let main_v67 : IVec S_ 1 := (fun x v => Host.reduce IntOp.andi x v reducesTo_S512x18_S_d0_1 h_S_) main_v66 main_c_25
  fn_part4 (F := F) main_arg16 main_v63 main_v67

def fn_part2 {F : FTy → Type} [FloatOps F] (main_arg9 : FVec F S4x512x512 .f32) (main_arg10 : FVec F S4x512 .f32) (main_arg11 : FVec F S5x512 .f32) (main_arg12 : FVec F S5x512 .f32) (main_arg13 : FVec F S512x512 .f32) (main_arg14 : FVec F S512 .f32) (main_arg15 : FVec F S512x18 .f32) (main_arg16 : FVec F S18 .f32) (main_v33 : IVec S_ 1) : IVec S_ 1 :=
  let main_v34 : FVec F S4x512x512 .f32 := Host.absf main_arg9
  let main_cst_12 : FVec F S_ .f32 := constant S_ .f32 0x7F800000#32
  let main_v35 : FVec F S4x512x512 .f32 := broadcastInDim S4x512x512 ![] bcast_S_S4x512x512 main_cst_12
  let main_v36 : IVec S4x512x512 1 := cmpf .olt main_v34 main_v35
  let main_c_13 : IVec S_ 1 := constantI S_ 1 1#1
  let main_v37 : IVec S_ 1 := (fun x v => Host.reduce IntOp.andi x v reducesTo_S4x512x512_S_d0_1_2 h_S_) main_v36 main_c_13
  let main_v38 : IVec S_ 1 := andi main_v33 main_v37
  let main_v39 : FVec F S4x512 .f32 := Host.absf main_arg10
  let main_cst_14 : FVec F S_ .f32 := constant S_ .f32 0x7F800000#32
  let main_v40 : FVec F S4x512 .f32 := broadcastInDim S4x512 ![] bcast_S_S4x512 main_cst_14
  let main_v41 : IVec S4x512 1 := cmpf .olt main_v39 main_v40
  let main_c_15 : IVec S_ 1 := constantI S_ 1 1#1
  let main_v42 : IVec S_ 1 := (fun x v => Host.reduce IntOp.andi x v reducesTo_S4x512_S_d0_1 h_S_) main_v41 main_c_15
  let main_v43 : IVec S_ 1 := andi main_v38 main_v42
  let main_v44 : FVec F S5x512 .f32 := Host.absf main_arg11
  let main_cst_16 : FVec F S_ .f32 := constant S_ .f32 0x7F800000#32
  let main_v45 : FVec F S5x512 .f32 := broadcastInDim S5x512 ![] bcast_S_S5x512 main_cst_16
  let main_v46 : IVec S5x512 1 := cmpf .olt main_v44 main_v45
  let main_c_17 : IVec S_ 1 := constantI S_ 1 1#1
  let main_v47 : IVec S_ 1 := (fun x v => Host.reduce IntOp.andi x v reducesTo_S5x512_S_d0_1 h_S_) main_v46 main_c_17
  let main_v48 : IVec S_ 1 := andi main_v43 main_v47
  let main_v49 : FVec F S5x512 .f32 := Host.absf main_arg12
  let main_cst_18 : FVec F S_ .f32 := constant S_ .f32 0x7F800000#32
  let main_v50 : FVec F S5x512 .f32 := broadcastInDim S5x512 ![] bcast_S_S5x512 main_cst_18
  fn_part3 (F := F) main_arg13 main_arg14 main_arg15 main_arg16 main_v48 main_v49 main_v50

def fn_part1 {F : FTy → Type} [FloatOps F] (main_arg6 : FVec F S512 .f32) (main_arg7 : FVec F S4x512x512 .f32) (main_arg8 : FVec F S4x512 .f32) (main_arg9 : FVec F S4x512x512 .f32) (main_arg10 : FVec F S4x512 .f32) (main_arg11 : FVec F S5x512 .f32) (main_arg12 : FVec F S5x512 .f32) (main_arg13 : FVec F S512x512 .f32) (main_arg14 : FVec F S512 .f32) (main_arg15 : FVec F S512x18 .f32) (main_arg16 : FVec F S18 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S4x512x512 .f32 := Host.absf main_arg7
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  let main_v29 : FVec F S4x512 .f32 := Host.absf main_arg8
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S10000x16 .f32) (main_arg1 : IVec S2x160000 32) (main_arg2 : IVec S10000 32) (main_arg3 : FVec F S16x512 .f32) (main_arg4 : FVec F S512 .f32) (main_arg5 : FVec F S512x512 .f32) (main_arg6 : FVec F S512 .f32) (main_arg7 : FVec F S4x512x512 .f32) (main_arg8 : FVec F S4x512 .f32) (main_arg9 : FVec F S4x512x512 .f32) (main_arg10 : FVec F S4x512 .f32) (main_arg11 : FVec F S5x512 .f32) (main_arg12 : FVec F S5x512 .f32) (main_arg13 : FVec F S512x512 .f32) (main_arg14 : FVec F S512 .f32) (main_arg15 : FVec F S512x18 .f32) (main_arg16 : FVec F S18 .f32) : IVec S_ 1 :=
  let main_v0 : FVec F S10000x16 .f32 := Host.absf main_arg0
  let main_cst : FVec F S_ .f32 := constant S_ .f32 0x7F800000#32
  let main_v1 : FVec F S10000x16 .f32 := broadcastInDim S10000x16 ![] bcast_S_S10000x16 main_cst
  let main_v2 : IVec S10000x16 1 := cmpf .olt main_v0 main_v1
  let main_c : IVec S_ 1 := constantI S_ 1 1#1
  let main_v3 : IVec S_ 1 := (fun x v => Host.reduce IntOp.andi x v reducesTo_S10000x16_S_d0_1 h_S_) main_v2 main_c
  let main_v4 : FVec F S16x512 .f32 := Host.absf main_arg3
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S10000x16 : Shape := ⟨2, ![10000, 16]⟩
abbrev S2x160000 : Shape := ⟨2, ![2, 160000]⟩
abbrev S10000 : Shape := ⟨1, ![10000]⟩
abbrev S16x512 : Shape := ⟨2, ![16, 512]⟩
abbrev S512 : Shape := ⟨1, ![512]⟩
abbrev S512x512 : Shape := ⟨2, ![512, 512]⟩
abbrev S4x512x512 : Shape := ⟨3, ![4, 512, 512]⟩
abbrev S4x512 : Shape := ⟨2, ![4, 512]⟩
abbrev S5x512 : Shape := ⟨2, ![5, 512]⟩
abbrev S512x18 : Shape := ⟨2, ![512, 18]⟩
abbrev S18 : Shape := ⟨1, ![18]⟩
abbrev S1x160000 : Shape := ⟨2, ![1, 160000]⟩
abbrev S160000 : Shape := ⟨1, ![160000]⟩
abbrev S1x512 : Shape := ⟨2, ![1, 512]⟩
abbrev S_ : Shape := ⟨0, ![]⟩
abbrev S160000x1 : Shape := ⟨2, ![160000, 1]⟩
abbrev S160000x16 : Shape := ⟨2, ![160000, 16]⟩
abbrev S10000x512 : Shape := ⟨2, ![10000, 512]⟩
abbrev S1000x16 : Shape := ⟨2, ![1000, 16]⟩
abbrev S1000x512 : Shape := ⟨2, ![1000, 512]⟩
abbrev S1x512x512 : Shape := ⟨3, ![1, 512, 512]⟩
abbrev S160000x512 : Shape := ⟨2, ![160000, 512]⟩
abbrev S64x512 : Shape := ⟨2, ![64, 512]⟩
abbrev S10000x1 : Shape := ⟨2, ![10000, 1]⟩
abbrev S64 : Shape := ⟨1, ![64]⟩
abbrev S64x1 : Shape := ⟨2, ![64, 1]⟩
abbrev S1x18 : Shape := ⟨2, ![1, 18]⟩
abbrev S64x18 : Shape := ⟨2, ![64, 18]⟩

abbrev nBuf : Space → Nat
  | .hbm => 202
  | .vmem => 106
  | .smem => 0
  | _ => 0

abbrev hbmTy0_0 (i : Nat) : BufTy := match i % 128 with
  | 0 => ⟨S10000x16, .f32⟩
  | 1 => ⟨S2x160000, .i32⟩
  | 2 => ⟨S10000, .i32⟩
  | 3 => ⟨S16x512, .f32⟩
  | 4 => ⟨S512, .f32⟩
  | 5 => ⟨S512x512, .f32⟩
  | 6 => ⟨S512, .f32⟩
  | 7 => ⟨S4x512x512, .f32⟩
  | 8 => ⟨S4x512, .f32⟩
  | 9 => ⟨S4x512x512, .f32⟩
  | 10 => ⟨S4x512, .f32⟩
  | 11 => ⟨S5x512, .f32⟩
  | 12 => ⟨S5x512, .f32⟩
  | 13 => ⟨S512x512, .f32⟩
  | 14 => ⟨S512, .f32⟩
  | 15 => ⟨S512x18, .f32⟩
  | 16 => ⟨S18, .f32⟩
  | 17 => ⟨S1x160000, .i32⟩
  | 18 => ⟨S160000, .i32⟩
  | 19 => ⟨S1x160000, .i32⟩
  | 20 => ⟨S160000, .i32⟩
  | 21 => ⟨S1x512, .f32⟩
  | 22 => ⟨S512, .f32⟩
  | 23 => ⟨S1x512, .f32⟩
  | 24 => ⟨S512, .f32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x16, .f32⟩
  | 34 => ⟨S_, .f32⟩
  | 35 => ⟨S10000x16, .f32⟩
  | 36 => ⟨S160000x1, .i32⟩
  | 37 => ⟨S10000x16, .f32⟩
  | 38 => ⟨S10000x16, .f32⟩
  | 39 => ⟨S1x512, .f32⟩
  | 40 => ⟨S1x512, .f32⟩
  | 41 => ⟨S10000x512, .f32⟩
  | 42 => ⟨S1x512, .f32⟩
  | 43 => ⟨S1x512, .f32⟩
  | 44 => ⟨S1x512, .f32⟩
  | 45 => ⟨S1x512, .f32⟩
  | 46 => ⟨S10000x512, .f32⟩
  | 47 => ⟨S1x512x512, .f32⟩
  | 48 => ⟨S512x512, .f32⟩
  | 49 => ⟨S1x512, .f32⟩
  | 50 => ⟨S512, .f32⟩
  | 51 => ⟨S1x512x512, .f32⟩
  | 52 => ⟨S512x512, .f32⟩
  | 53 => ⟨S1x512, .f32⟩
  | 54 => ⟨S512, .f32⟩
  | 55 => ⟨S1x512, .f32⟩
  | 56 => ⟨S512, .f32⟩
  | 57 => ⟨S1x512, .f32⟩
  | 58 => ⟨S512, .f32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S160000x1, .i32⟩
  | 67 => ⟨S160000x512, .f32⟩
  | 68 => ⟨S_, .f32⟩
  | 69 => ⟨S10000x512, .f32⟩
  | 70 => ⟨S160000x1, .i32⟩
  | 71 => ⟨S10000x512, .f32⟩
  | 72 => ⟨S10000x512, .f32⟩
  | 73 => ⟨S1x512, .f32⟩
  | 74 => ⟨S1x512, .f32⟩
  | 75 => ⟨S10000x512, .f32⟩
  | 76 => ⟨S1x512, .f32⟩
  | 77 => ⟨S1x512, .f32⟩
  | 78 => ⟨S1x512, .f32⟩
  | 79 => ⟨S1x512, .f32⟩
  | 80 => ⟨S10000x512, .f32⟩
  | 81 => ⟨S1x512x512, .f32⟩
  | 82 => ⟨S512x512, .f32⟩
  | 83 => ⟨S1x512, .f32⟩
  | 84 => ⟨S512, .f32⟩
  | 85 => ⟨S1x512x512, .f32⟩
  | 86 => ⟨S512x512, .f32⟩
  | 87 => ⟨S1x512, .f32⟩
  | 88 => ⟨S512, .f32⟩
  | 89 => ⟨S1x512, .f32⟩
  | 90 => ⟨S512, .f32⟩
  | 91 => ⟨S1x512, .f32⟩
  | 92 => ⟨S512, .f32⟩
  | 93 => ⟨S_, .i32⟩
  | 94 => ⟨S160000, .i32⟩
  | 95 => ⟨S160000, .i1⟩
  | 96 => ⟨S_, .i32⟩
  | 97 => ⟨S160000, .i32⟩
  | 98 => ⟨S160000, .i32⟩
  | 99 => ⟨S160000, .i32⟩
  | 100 => ⟨S160000x1, .i32⟩
  | 101 => ⟨S160000x512, .f32⟩
  | 102 => ⟨S_, .f32⟩
  | 103 => ⟨S10000x512, .f32⟩
  | 104 => ⟨S160000x1, .i32⟩
  | 105 => ⟨S10000x512, .f32⟩
  | 106 => ⟨S10000x512, .f32⟩
  | 107 => ⟨S1x512, .f32⟩
  | 108 => ⟨S1x512, .f32⟩
  | 109 => ⟨S10000x512, .f32⟩
  | 110 => ⟨S1x512, .f32⟩
  | 111 => ⟨S1x512, .f32⟩
  | 112 => ⟨S1x512, .f32⟩
  | 113 => ⟨S1x512, .f32⟩
  | 114 => ⟨S10000x512, .f32⟩
  | 115 => ⟨S1x512x512, .f32⟩
  | 116 => ⟨S512x512, .f32⟩
  | 117 => ⟨S1x512, .f32⟩
  | 118 => ⟨S512, .f32⟩
  | 119 => ⟨S1x512x512, .f32⟩
  | 120 => ⟨S512x512, .f32⟩
  | 121 => ⟨S1x512, .f32⟩
  | 122 => ⟨S512, .f32⟩
  | 123 => ⟨S1x512, .f32⟩
  | 124 => ⟨S512, .f32⟩
  | 125 => ⟨S1x512, .f32⟩
  | 126 => ⟨S512, .f32⟩
  | 127 => ⟨S_, .i32⟩
  | _ => ⟨S10000x16, .f32⟩

abbrev hbmTy0_1 (i : Nat) : BufTy := match i % 128 with
  | 0 => ⟨S160000, .i32⟩
  | 1 => ⟨S160000, .i1⟩
  | 2 => ⟨S_, .i32⟩
  | 3 => ⟨S160000, .i32⟩
  | 4 => ⟨S160000, .i32⟩
  | 5 => ⟨S160000, .i32⟩
  | 6 => ⟨S160000x1, .i32⟩
  | 7 => ⟨S160000x512, .f32⟩
  | 8 => ⟨S_, .f32⟩
  | 9 => ⟨S10000x512, .f32⟩
  | 10 => ⟨S160000x1, .i32⟩
  | 11 => ⟨S10000x512, .f32⟩
  | 12 => ⟨S10000x512, .f32⟩
  | 13 => ⟨S1x512, .f32⟩
  | 14 => ⟨S1x512, .f32⟩
  | 15 => ⟨S10000x512, .f32⟩
  | 16 => ⟨S1x512, .f32⟩
  | 17 => ⟨S1x512, .f32⟩
  | 18 => ⟨S1x512, .f32⟩
  | 19 => ⟨S1x512, .f32⟩
  | 20 => ⟨S10000x512, .f32⟩
  | 21 => ⟨S1x512x512, .f32⟩
  | 22 => ⟨S512x512, .f32⟩
  | 23 => ⟨S1x512, .f32⟩
  | 24 => ⟨S512, .f32⟩
  | 25 => ⟨S1x512x512, .f32⟩
  | 26 => ⟨S512x512, .f32⟩
  | 27 => ⟨S1x512, .f32⟩
  | 28 => ⟨S512, .f32⟩
  | 29 => ⟨S1x512, .f32⟩
  | 30 => ⟨S512, .f32⟩
  | 31 => ⟨S1x512, .f32⟩
  | 32 => ⟨S512, .f32⟩
  | 33 => ⟨S_, .i32⟩
  | 34 => ⟨S160000, .i32⟩
  | 35 => ⟨S160000, .i1⟩
  | 36 => ⟨S_, .i32⟩
  | 37 => ⟨S160000, .i32⟩
  | 38 => ⟨S160000, .i32⟩
  | 39 => ⟨S160000, .i32⟩
  | 40 => ⟨S160000x1, .i32⟩
  | 41 => ⟨S160000x512, .f32⟩
  | 42 => ⟨S_, .f32⟩
  | 43 => ⟨S10000x512, .f32⟩
  | 44 => ⟨S160000x1, .i32⟩
  | 45 => ⟨S10000x512, .f32⟩
  | 46 => ⟨S10000x512, .f32⟩
  | 47 => ⟨S1x512, .f32⟩
  | 48 => ⟨S1x512, .f32⟩
  | 49 => ⟨S10000x512, .f32⟩
  | 50 => ⟨S1x512, .f32⟩
  | 51 => ⟨S1x512, .f32⟩
  | 52 => ⟨S1x512, .f32⟩
  | 53 => ⟨S1x512, .f32⟩
  | 54 => ⟨S10000x512, .f32⟩
  | 55 => ⟨S_, .f32⟩
  | 56 => ⟨S64x512, .f32⟩
  | 57 => ⟨S10000x1, .i32⟩
  | 58 => ⟨S64x512, .f32⟩
  | 59 => ⟨S_, .f32⟩
  | 60 => ⟨S10000, .f32⟩
  | 61 => ⟨S_, .f32⟩
  | 62 => ⟨S64, .f32⟩
  | 63 => ⟨S10000x1, .i32⟩
  | 64 => ⟨S64, .f32⟩
  | 65 => ⟨S_, .f32⟩
  | 66 => ⟨S64, .f32⟩
  | 67 => ⟨S64, .f32⟩
  | 68 => ⟨S64x1, .f32⟩
  | 69 => ⟨S64x512, .f32⟩
  | 70 => ⟨S64x512, .f32⟩
  | 71 => ⟨S1x512, .f32⟩
  | 72 => ⟨S1x18, .f32⟩
  | 73 => ⟨S64x18, .f32⟩
  | _ => ⟨S10000x16, .f32⟩

abbrev hbmTy (i : Nat) : BufTy := match i / 128 with
  | 0 => hbmTy0_0 i
  | 1 => hbmTy0_1 i
  | _ => ⟨S10000x16, .f32⟩

abbrev bufTy : (tb : Table) → Fin (tcTables nBuf tb) → BufTy
  | .hbm, ⟨i, _⟩ => hbmTy i
  | .local _ .vmem, ⟨0, _⟩ => ⟨S1000x16, .f32⟩
  | .local _ .vmem, ⟨1, _⟩ => ⟨S1000x16, .f32⟩
  | .local _ .vmem, ⟨2, _⟩ => ⟨S16x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S1000x512, .f32⟩
  | .local _ .vmem, ⟨7, _⟩ => ⟨S1000x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1000x512, .f32⟩
  | .local _ .vmem, ⟨13, _⟩ => ⟨S1000x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S512x512, .f32⟩
  | .local _ .vmem, ⟨23, _⟩ => ⟨S1x512, .f32⟩
  | .local _ .vmem, ⟨24, _⟩ => ⟨S512x512, .f32⟩
  | .local _ .vmem, ⟨25, _⟩ => ⟨S1x512, .f32⟩
  | .local _ .vmem, ⟨26, _⟩ => ⟨S1000x512, .f32⟩
  | .local _ .vmem, ⟨27, _⟩ => ⟨S1000x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1000x512, .f32⟩
  | .local _ .vmem, ⟨33, _⟩ => ⟨S1000x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1000x512, .f32⟩
  | .local _ .vmem, ⟨39, _⟩ => ⟨S1000x512, .f32⟩
  | .local _ .vmem, ⟨40, _⟩ => ⟨S1000x512, .f32⟩
  | .local _ .vmem, ⟨41, _⟩ => ⟨S1000x512, .f32⟩
  | .local _ .vmem, ⟨42, _⟩ => ⟨S512x512, .f32⟩
  | .local _ .vmem, ⟨43, _⟩ => ⟨S1x512, .f32⟩
  | .local _ .vmem, ⟨44, _⟩ => ⟨S512x512, .f32⟩
  | .local _ .vmem, ⟨45, _⟩ => ⟨S1x512, .f32⟩
  | .local _ .vmem, ⟨46, _⟩ => ⟨S1000x512, .f32⟩
  | .local _ .vmem, ⟨47, _⟩ => ⟨S1000x512, .f32⟩
  | .local _ .vmem, ⟨48, _⟩ => ⟨S1x512, .f32⟩
  | .local _ .vmem, ⟨49, _⟩ => ⟨S1x512, .f32⟩
  | .local _ .vmem, ⟨50, _⟩ => ⟨S1x512, .f32⟩
  | .local _ .vmem, ⟨51, _⟩ => ⟨S1x512, .f32⟩
  | .local _ .vmem, ⟨52, _⟩ => ⟨S1000x512, .f32⟩
  | .local _ .vmem, ⟨53, _⟩ => ⟨S1000x512, .f32⟩
  | .local _ .vmem, ⟨54, _⟩ => ⟨S1x512, .f32⟩
  | .local _ .vmem, ⟨55, _⟩ => ⟨S1x512, .f32⟩
  | .local _ .vmem, ⟨56, _⟩ => ⟨S1x512, .f32⟩
  | .local _ .vmem, ⟨57, _⟩ => ⟨S1x512, .f32⟩
  | .local _ .vmem, ⟨58, _⟩ => ⟨S1000x512, .f32⟩
  | .local _ .vmem, ⟨59, _⟩ => ⟨S1000x512, .f32⟩
  | .local _ .vmem, ⟨60, _⟩ => ⟨S1000x512, .f32⟩
  | .local _ .vmem, ⟨61, _⟩ => ⟨S1000x512, .f32⟩
  | .local _ .vmem, ⟨62, _⟩ => ⟨S512x512, .f32⟩
  | .local _ .vmem, ⟨63, _⟩ => ⟨S1x512, .f32⟩
  | .local _ .vmem, ⟨64, _⟩ => ⟨S512x512, .f32⟩
  | .local _ .vmem, ⟨65, _⟩ => ⟨S1x512, .f32⟩
  | .local _ .vmem, ⟨66, _⟩ => ⟨S1000x512, .f32⟩
  | .local _ .vmem, ⟨67, _⟩ => ⟨S1000x512, .f32⟩
  | .local _ .vmem, ⟨68, _⟩ => ⟨S1x512, .f32⟩
  | .local _ .vmem, ⟨69, _⟩ => ⟨S1x512, .f32⟩
  | .local _ .vmem, ⟨70, _⟩ => ⟨S1x512, .f32⟩
  | .local _ .vmem, ⟨71, _⟩ => ⟨S1x512, .f32⟩
  | .local _ .vmem, ⟨72, _⟩ => ⟨S1000x512, .f32⟩
  | .local _ .vmem, ⟨73, _⟩ => ⟨S1000x512, .f32⟩
  | .local _ .vmem, ⟨74, _⟩ => ⟨S1x512, .f32⟩
  | .local _ .vmem, ⟨75, _⟩ => ⟨S1x512, .f32⟩
  | .local _ .vmem, ⟨76, _⟩ => ⟨S1x512, .f32⟩
  | .local _ .vmem, ⟨77, _⟩ => ⟨S1x512, .f32⟩
  | .local _ .vmem, ⟨78, _⟩ => ⟨S1000x512, .f32⟩
  | .local _ .vmem, ⟨79, _⟩ => ⟨S1000x512, .f32⟩
  | .local _ .vmem, ⟨80, _⟩ => ⟨S1000x512, .f32⟩
  | .local _ .vmem, ⟨81, _⟩ => ⟨S1000x512, .f32⟩
  | .local _ .vmem, ⟨82, _⟩ => ⟨S512x512, .f32⟩
  | .local _ .vmem, ⟨83, _⟩ => ⟨S1x512, .f32⟩
  | .local _ .vmem, ⟨84, _⟩ => ⟨S512x512, .f32⟩
  | .local _ .vmem, ⟨85, _⟩ => ⟨S1x512, .f32⟩
  | .local _ .vmem, ⟨86, _⟩ => ⟨S1000x512, .f32⟩
  | .local _ .vmem, ⟨87, _⟩ => ⟨S1000x512, .f32⟩
  | .local _ .vmem, ⟨88, _⟩ => ⟨S1x512, .f32⟩
  | .local _ .vmem, ⟨89, _⟩ => ⟨S1x512, .f32⟩
  | .local _ .vmem, ⟨90, _⟩ => ⟨S1x512, .f32⟩
  | .local _ .vmem, ⟨91, _⟩ => ⟨S1x512, .f32⟩
  | .local _ .vmem, ⟨92, _⟩ => ⟨S1000x512, .f32⟩
  | .local _ .vmem, ⟨93, _⟩ => ⟨S1000x512, .f32⟩
  | .local _ .vmem, ⟨94, _⟩ => ⟨S1x512, .f32⟩
  | .local _ .vmem, ⟨95, _⟩ => ⟨S1x512, .f32⟩
  | .local _ .vmem, ⟨96, _⟩ => ⟨S1x512, .f32⟩
  | .local _ .vmem, ⟨97, _⟩ => ⟨S1x512, .f32⟩
  | .local _ .vmem, ⟨98, _⟩ => ⟨S1000x512, .f32⟩
  | .local _ .vmem, ⟨99, _⟩ => ⟨S1000x512, .f32⟩
  | .local _ .vmem, ⟨100, _⟩ => ⟨S64x512, .f32⟩
  | .local _ .vmem, ⟨101, _⟩ => ⟨S512x512, .f32⟩
  | .local _ .vmem, ⟨102, _⟩ => ⟨S1x512, .f32⟩
  | .local _ .vmem, ⟨103, _⟩ => ⟨S512x18, .f32⟩
  | .local _ .vmem, ⟨104, _⟩ => ⟨S1x18, .f32⟩
  | .local _ .vmem, ⟨105, _⟩ => ⟨S64x18, .f32⟩
  | _, _ => ⟨S10000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_1 : Ref sig .tc := ⟨.hbm, 59, rfl⟩
abbrev main_v37 : Ref sig .tc := ⟨.hbm, 60, rfl⟩
abbrev main_v38 : Ref sig .tc := ⟨.hbm, 61, rfl⟩
abbrev main_c_2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_4 : Ref sig .tc := ⟨.hbm, 93, rfl⟩
abbrev main_v66 : Ref sig .tc := ⟨.hbm, 94, rfl⟩
abbrev main_v67 : Ref sig .tc := ⟨.hbm, 95, rfl⟩
abbrev main_c_5 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_6 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79_0 : Ref sig .tc := ⟨.hbm, 109, rfl⟩
abbrev main_v79_1 : Ref sig .tc := ⟨.hbm, 110, rfl⟩
abbrev main_v79_2 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_7 : Ref sig .tc := ⟨.hbm, 127, rfl⟩
abbrev main_v95 : Ref sig .tc := ⟨.hbm, 128, rfl⟩
abbrev main_v96 : Ref sig .tc := ⟨.hbm, 129, rfl⟩
abbrev main_c_8 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_9 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108_0 : Ref sig .tc := ⟨.hbm, 143, rfl⟩
abbrev main_v108_1 : Ref sig .tc := ⟨.hbm, 144, rfl⟩
abbrev main_v108_2 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_c_10 : Ref sig .tc := ⟨.hbm, 161, rfl⟩
abbrev main_v124 : Ref sig .tc := ⟨.hbm, 162, rfl⟩
abbrev main_v125 : Ref sig .tc := ⟨.hbm, 163, rfl⟩
abbrev main_c_11 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_12 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137_0 : Ref sig .tc := ⟨.hbm, 177, rfl⟩
abbrev main_v137_1 : Ref sig .tc := ⟨.hbm, 178, rfl⟩
abbrev main_v137_2 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_13 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_14 : Ref sig .tc := ⟨.hbm, 187, rfl⟩
abbrev main_v144 : Ref sig .tc := ⟨.hbm, 188, rfl⟩
abbrev main_cst_15 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_16 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg7_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc6_stg6_0 : Ref sig .tc := ⟨.vmem, 68, rfl⟩
abbrev cc6_stg7_0 : Ref sig .tc := ⟨.vmem, 69, rfl⟩
abbrev cc6_scratch0 : Ref sig .tc := ⟨.vmem, 70, rfl⟩
abbrev cc6_scratch1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg5_1 : Ref sig .tc := ⟨.vmem, 87, rfl⟩
abbrev cc8_stg6_0 : Ref sig .tc := ⟨.vmem, 88, rfl⟩
abbrev cc8_stg7_0 : Ref sig .tc := ⟨.vmem, 89, rfl⟩
abbrev cc8_scratch0 : Ref sig .tc := ⟨.vmem, 90, rfl⟩
abbrev cc8_scratch1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg2_0 : Ref sig .tc := ⟨.vmem, 95, rfl⟩
abbrev cc9_stg3_0 : Ref sig .tc := ⟨.vmem, 96, rfl⟩
abbrev cc9_stg4_0 : Ref sig .tc := ⟨.vmem, 97, rfl⟩
abbrev cc9_stg5_0 : Ref sig .tc := ⟨.vmem, 98, rfl⟩
abbrev cc9_stg5_1 : Ref sig .tc := ⟨.vmem, 99, rfl⟩
abbrev cc10_stg0_0 : Ref sig .tc := ⟨.vmem, 100, rfl⟩
abbrev cc10_stg1_0 : Ref sig .tc := ⟨.vmem, 101, rfl⟩
abbrev cc10_stg2_0 : Ref sig .tc := ⟨.vmem, 102, rfl⟩
abbrev cc10_stg3_0 : Ref sig .tc := ⟨.vmem, 103, rfl⟩
abbrev cc10_stg4_0 : Ref sig .tc := ⟨.vmem, 104, rfl⟩
abbrev cc10_stg5_0 : Ref sig .tc := ⟨.vmem, 105, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem7_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem4_0 : DmaSem sig := 77
abbrev cc8_sem5_0 : DmaSem sig := 78
abbrev cc8_sem5_1 : DmaSem sig := 79
abbrev cc8_sem6_0 : DmaSem sig := 80
abbrev cc8_sem7_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem1_0 : DmaSem sig := 91
abbrev cc10_sem2_0 : DmaSem sig := 92
abbrev cc10_sem3_0 : DmaSem sig := 93
abbrev cc10_sem4_0 : DmaSem sig := 94
abbrev cc10_sem5_0 : DmaSem sig := 95

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_25 : BitVec 32 := 0#32
  let v43 : BitVec 1 := Scalar.cmpi .ne v42 c0_i32_25
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_25 : BitVec 32 := 0#32
  let v45 : BitVec 1 := Scalar.cmpi .ne v44 c0_i32_25
  v45

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_25 : BitVec 32 := 0#32
  let v45 : BitVec 1 := Scalar.cmpi .ne v44 c0_i32_25
  v45

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_25 : BitVec 32 := 0#32
  let v45 : BitVec 1 := Scalar.cmpi .ne v44 c0_i32_25
  v45

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1000x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x512 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x512 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1000x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_25 : BitVec 32 := 0#32
  let v45 : BitVec 1 := Scalar.cmpi .ne v44 c0_i32_25
  v45

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1000x512 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x512 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x512 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S1000x512 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S64x512 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S512x512 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512x18 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x18 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x18 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  slices_S5x512_S1x512_0_0 : S5x512.Slices ![0, 0] S1x512
  shapeCasts_S1x512_S512 : S1x512.ShapeCasts S512
  bcast_S_S160000 : S_.BroadcastsInDim S160000 (![] : Fin 0 → Fin S160000.rank)
  bcast_S160000_S160000x1_0 : S160000.BroadcastsInDim S160000x1 (![0] : Fin 1 → Fin S160000x1.rank)
  bcast_S_S10000x16 : S_.BroadcastsInDim S10000x16 (![] : Fin 0 → Fin S10000x16.rank)
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  broadcasts_S1x512_S1000x512 : S1x512.Broadcasts S1000x512
  inb_S512x512_S512x512_0_0 : ∀ a, (![0, 0] : Fin 2 → Nat) a + S512x512.size a ≤ S512x512.size a
  h_S512x512 : 0 < S512x512.numel
  inb_S1000x512_S1000x512_0_0 : ∀ a, (![0, 0] : Fin 2 → Nat) a + S1000x512.size a ≤ S1000x512.size a
  h_S1000x512 : 0 < S1000x512.numel
  reduces_S1000x512_S512 : S1000x512.Reduces [0] S512
  shapeCasts_S1000x512_S1000x512 : S1000x512.ShapeCasts S1000x512
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  slices_S5x512_S1x512_1_0 : S5x512.Slices ![1, 0] S1x512
  bcast_S_S10000x512 : S_.BroadcastsInDim S10000x512 (![] : Fin 0 → Fin S10000x512.rank)
  shapeCasts_S512x512_S512x512 : S512x512.ShapeCasts S512x512
  slices_S4x512x512_S1x512x512_1_0_0 : S4x512x512.Slices ![1, 0, 0] S1x512x512
  slices_S4x512_S1x512_1_0 : S4x512.Slices ![1, 0] S1x512
  slices_S5x512_S1x512_2_0 : S5x512.Slices ![2, 0] S1x512
  slices_S4x512x512_S1x512x512_2_0_0 : S4x512x512.Slices ![2, 0, 0] S1x512x512
  slices_S4x512_S1x512_2_0 : S4x512.Slices ![2, 0] S1x512
  slices_S5x512_S1x512_3_0 : S5x512.Slices ![3, 0] S1x512
  slices_S4x512x512_S1x512x512_3_0_0 : S4x512x512.Slices ![3, 0, 0] S1x512x512
  slices_S4x512_S1x512_3_0 : S4x512.Slices ![3, 0] S1x512
  slices_S5x512_S1x512_4_0 : S5x512.Slices ![4, 0] S1x512
  bcast_S_S64x512 : S_.BroadcastsInDim S64x512 (![] : Fin 0 → Fin S64x512.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  shapeCasts_S18_S1x18 : S18.ShapeCasts S1x18
  inb_S64x512_S64x512_0_0 : ∀ a, (![0, 0] : Fin 2 → Nat) a + S64x512.size a ≤ S64x512.size a
  h_S64x512 : 0 < S64x512.numel
  shapeCasts_S64x512_S64x512 : S64x512.ShapeCasts S64x512
  broadcasts_S1x512_S64x512 : S1x512.Broadcasts S64x512
  inb_S512x18_S512x18_0_0 : ∀ a, (![0, 0] : Fin 2 → Nat) a + S512x18.size a ≤ S512x18.size a
  h_S512x18 : 0 < S512x18.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S64x18 : S1x18.Broadcasts S64x18
  inb_S64x18_S64x18_0_0 : ∀ a, (![0, 0] : Fin 2 → Nat) a + S64x18.size a ≤ S64x18.size a
  h_S64x18 : 0 < S64x18.numel
  gather_S10000x16_S160000x1_S160000x16_1_0_n_n_0_1_116_wf : GatherDims.WF S10000x16 S160000x1 S160000x16 [1] [0] [] [0] [] 1 ![1, 16]
  scatter_S10000x16_S160000x1_S160000x16_1_0_0_1_wf : ScatterDims.WF S10000x16 S160000x1 S160000x16 [1] [0] [0] 1
  dot_S1000x16_S16x512_S1000x512_1_0_0_1_n_n_wf : DotDims.WF S1000x16 S16x512 S1000x512 [1] [0] [0] [1] [] []
  dot_S1000x512_S512x512_S1000x512_1_0_0_1_n_n_wf : DotDims.WF S1000x512 S512x512 S1000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S64x512_S10000x1_S10000x512_1_0_0_1_wf : ScatterDims.WF S64x512 S10000x1 S10000x512 [1] [0] [0] 1
  scatter_S64_S10000x1_S10000_n_0_0_1_wf : ScatterDims.WF S64 S10000x1 S10000 [] [0] [0] 1
  dot_S64x512_S512x512_S64x512_1_0_0_1_n_n_wf : DotDims.WF S64x512 S512x512 S64x512 [1] [0] [0] [1] [] []
  dot_S64x512_S512x18_S64x18_1_0_0_1_n_n_wf : DotDims.WF S64x512 S512x18 S64x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16.size a ≤ S10000x16.size a
  hwx0_0 : ∀ i : grid0.Coords, EltTy.bits .f32 = 32 ∨ (Rect.block (s := S10000x16) S1000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S10000x512.size a
  hwx0_5 : ∀ i : grid0.Coords, EltTy.bits .f32 = 32 ∨ (Rect.block (s := S10000x512) S1000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S10000x512.size a
  hwx1_5 : ∀ i : grid1.Coords, EltTy.bits .f32 = 32 ∨ (Rect.block (s := S10000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S10000x512.size a
  hwx2_5 : ∀ i : grid2.Coords, EltTy.bits .f32 = 32 ∨ (Rect.block (s := S10000x512) S1000x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x512.size a
  hwx2_7 : ∀ i : grid2.Coords, EltTy.bits .f32 = 32 ∨ (Rect.block (s := S1x512) S1x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S10000x512.size a
  hwx3_0 : ∀ i : grid3.Coords, EltTy.bits .f32 = 32 ∨ (Rect.block (s := S10000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x512.size a ≤ S10000x512.size a
  hwx3_5 : ∀ i : grid3.Coords, EltTy.bits .f32 = 32 ∨ (Rect.block (s := S10000x512) S1000x512.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S10000x512.size a
  hwx4_0 : ∀ i : grid4.Coords, EltTy.bits .f32 = 32 ∨ (Rect.block (s := S10000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S512x512.size a
  hwx4_3 : ∀ i : grid4.Coords, EltTy.bits .f32 = 32 ∨ (Rect.block (s := S512x512) S512x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x512.size a ≤ S10000x512.size a
  hwx4_5 : ∀ i : grid4.Coords, EltTy.bits .f32 = 32 ∨ (Rect.block (s := S10000x512) S1000x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x512.size a ≤ S1x512.size a
  hwx4_6 : ∀ i : grid4.Coords, EltTy.bits .f32 = 32 ∨ (Rect.block (s := S1x512) S1x512.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x512.size a ≤ S1x512.size a
  hwx4_7 : ∀ i : grid4.Coords, EltTy.bits .f32 = 32 ∨ (Rect.block (s := S1x512) S1x512.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x512.size a ≤ S10000x512.size a
  hwx5_0 : ∀ i : grid5.Coords, EltTy.bits .f32 = 32 ∨ (Rect.block (s := S10000x512) S1000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x512.size a ≤ S10000x512.size a
  hwx5_5 : ∀ i : grid5.Coords, EltTy.bits .f32 = 32 ∨ (Rect.block (s := S10000x512) S1000x512.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x512.size a ≤ S10000x512.size a
  hwx6_0 : ∀ i : grid6.Coords, EltTy.bits .f32 = 32 ∨ (Rect.block (s := S10000x512) S1000x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S512x512.size a
  hwx6_1 : ∀ i : grid6.Coords, EltTy.bits .f32 = 32 ∨ (Rect.block (s := S512x512) S512x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x512.size a ≤ S512x512.size a
  hwx6_3 : ∀ i : grid6.Coords, EltTy.bits .f32 = 32 ∨ (Rect.block (s := S512x512) S512x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1000x512.size a ≤ S10000x512.size a
  hwx6_5 : ∀ i : grid6.Coords, EltTy.bits .f32 = 32 ∨ (Rect.block (s := S10000x512) S1000x512.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x512.size a ≤ S1x512.size a
  hwx6_6 : ∀ i : grid6.Coords, EltTy.bits .f32 = 32 ∨ (Rect.block (s := S1x512) S1x512.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x512.size a ≤ S1x512.size a
  hwx6_7 : ∀ i : grid6.Coords, EltTy.bits .f32 = 32 ∨ (Rect.block (s := S1x512) S1x512.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x512.size a ≤ S10000x512.size a
  hwx7_0 : ∀ i : grid7.Coords, EltTy.bits .f32 = 32 ∨ (Rect.block (s := S10000x512) S1000x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x512.size a ≤ S1x512.size a
  hwx7_1 : ∀ i : grid7.Coords, EltTy.bits .f32 = 32 ∨ (Rect.block (s := S1x512) S1x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1000x512.size a ≤ S10000x512.size a
  hwx7_5 : ∀ i : grid7.Coords, EltTy.bits .f32 = 32 ∨ (Rect.block (s := S10000x512) S1000x512.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x512.size a ≤ S10000x512.size a
  hwx8_0 : ∀ i : grid8.Coords, EltTy.bits .f32 = 32 ∨ (Rect.block (s := S10000x512) S1000x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S512x512.size a
  hwx8_1 : ∀ i : grid8.Coords, EltTy.bits .f32 = 32 ∨ (Rect.block (s := S512x512) S512x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S512x512.size a ≤ S512x512.size a
  hwx8_3 : ∀ i : grid8.Coords, EltTy.bits .f32 = 32 ∨ (Rect.block (s := S512x512) S512x512.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x512.size a ≤ S1x512.size a
  hwx8_4 : ∀ i : grid8.Coords, EltTy.bits .f32 = 32 ∨ (Rect.block (s := S1x512) S1x512.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1000x512.size a ≤ S10000x512.size a
  hwx8_5 : ∀ i : grid8.Coords, EltTy.bits .f32 = 32 ∨ (Rect.block (s := S10000x512) S1000x512.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x512.size a ≤ S1x512.size a
  hwx8_6 : ∀ i : grid8.Coords, EltTy.bits .f32 = 32 ∨ (Rect.block (s := S1x512) S1x512.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x512.size a ≤ S1x512.size a
  hwx8_7 : ∀ i : grid8.Coords, EltTy.bits .f32 = 32 ∨ (Rect.block (s := S1x512) S1x512.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x512.size a ≤ S10000x512.size a
  hwx9_0 : ∀ i : grid9.Coords, EltTy.bits .f32 = 32 ∨ (Rect.block (s := S10000x512) S1000x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x512.size a ≤ S1x512.size a
  hwx9_1 : ∀ i : grid9.Coords, EltTy.bits .f32 = 32 ∨ (Rect.block (s := S1x512) S1x512.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x512.size a ≤ S1x512.size a
  hwx9_2 : ∀ i : grid9.Coords, EltTy.bits .f32 = 32 ∨ (Rect.block (s := S1x512) S1x512.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x512.size a ≤ S1x512.size a
  hwx9_3 : ∀ i : grid9.Coords, EltTy.bits .f32 = 32 ∨ (Rect.block (s := S1x512) S1x512.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x512.size a ≤ S1x512.size a
  hwx9_4 : ∀ i : grid9.Coords, EltTy.bits .f32 = 32 ∨ (Rect.block (s := S1x512) S1x512.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1000x512.size a ≤ S10000x512.size a
  hwx9_5 : ∀ i : grid9.Coords, EltTy.bits .f32 = 32 ∨ (Rect.block (s := S10000x512) S1000x512.size (cc9_transform_5 i) (hinb9_5 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S64x512.size a ≤ S64x512.size a
  hwx10_0 : ∀ i : grid10.Coords, EltTy.bits .f32 = 32 ∨ (Rect.block (s := S64x512) S64x512.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x512.size a ≤ S512x512.size a
  hwx10_1 : ∀ i : grid10.Coords, EltTy.bits .f32 = 32 ∨ (Rect.block (s := S512x512) S512x512.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S512x18.size a ≤ S512x18.size a
  hwx10_3 : ∀ i : grid10.Coords, EltTy.bits .f32 = 32 ∨ (Rect.block (s := S512x18) S512x18.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x18.size a ≤ S1x18.size a
  hwx10_4 : ∀ i : grid10.Coords, EltTy.bits .f32 = 32 ∨ (Rect.block (s := S1x18) S1x18.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x18.size a ≤ S64x18.size a
  hwx10_5 : ∀ i : grid10.Coords, EltTy.bits .f32 = 32 ∨ (Rect.block (s := S64x18) S64x18.size (cc10_transform_5 i) (hinb10_5 i)).WholeWords (EltTy.packing .f32)

variable [Facts₀]

def gather_S10000x16_S160000x1_S160000x16_1_0_n_n_0_1_116 : GatherDims S10000x16 S160000x1 S160000x16 where
  offsetDims := [1]
  collapsedSliceDims := [0]
  operandBatchingDims := []
  startIndicesBatchingDims := []
  startIndexMap := [0]
  indexVectorDim := 1
  sliceSizes := ![1, 16]
  wf := gather_S10000x16_S160000x1_S160000x16_1_0_n_n_0_1_116_wf
def scatter_S10000x16_S160000x1_S160000x16_1_0_0_1 : ScatterDims S10000x16 S160000x1 S160000x16 where
  updateWindowDims := [1]
  insertedWindowDims := [0]
  scatterDimsToOperandDims := [0]
  indexVectorDim := 1
  wf := scatter_S10000x16_S160000x1_S160000x16_1_0_0_1_wf
def dot_S1000x16_S16x512_S1000x512_1_0_0_1_n_n : DotDims S1000x16 S16x512 S1000x512 where
  lhsContracting := [1]
  rhsContracting := [0]
  lhsNonContracting := [0]
  rhsNonContracting := [1]
  lhsBatch := []
  rhsBatch := []
  wf := dot_S1000x16_S16x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S64x512_S10000x1_S10000x512_1_0_0_1 : ScatterDims S64x512 S10000x1 S10000x512 where
  updateWindowDims := [1]
  insertedWindowDims := [0]
  scatterDimsToOperandDims := [0]
  indexVectorDim := 1
  wf := scatter_S64x512_S10000x1_S10000x512_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x18_S64x18_1_0_0_1_n_n : DotDims S64x512 S512x18 S64x18 where
  lhsContracting := [1]
  rhsContracting := [0]
  lhsNonContracting := [0]
  rhsNonContracting := [1]
  lhsBatch := []
  rhsBatch := []
  wf := dot_S64x512_S512x18_S64x18_1_0_0_1_n_n_wf

abbrev win0_0 : Pipeline.Window sig grid0 :=
  Pipeline.Window.ofSpec (Memref.whole main_v18) S1000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S1000x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S1x512.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_2) S1x512.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v21_0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_1) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21_2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50_0) S1000x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v50_1) S1x512.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50_2) S1x512.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v50_0) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50_1) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50_2) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S1000x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S512x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79_0) S1000x512.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v79_1) S1x512.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v79_2) S1x512.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v79_0) S1000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79_1) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79_2) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v82) S1000x512.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v105) S1000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S512x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S512x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v107) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v108_0) S1000x512.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v108_1) S1x512.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v108_2) S1x512.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev idle6 : Fin 8 → grid6.Coords → Bool := fun | 0 => fun _ => false | 1 => fun _ => false | 2 => fun _ => false | 3 => fun _ => false | 4 => fun _ => false | 5 => fun _ => false | 6 => fun i => !(k6_cond2 i == 1#1) | 7 => fun i => !(k6_cond2 i == 1#1) | ⟨_ + 8, h⟩ => absurd h (Nat.not_lt.2 (Nat.le_add_left _ _))

abbrev win7_0 : Pipeline.Window sig grid7 :=
  Pipeline.Window.ofSpec (Memref.whole main_v108_0) S1000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108_1) S1x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108_2) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v109) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v110) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v111) S1000x512.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v134) S1000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v113) S512x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v135) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v117) S512x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v136) S1x512.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v137_0) S1000x512.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v137_1) S1x512.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v137_2) S1x512.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev idle8 : Fin 8 → grid8.Coords → Bool := fun | 0 => fun _ => false | 1 => fun _ => false | 2 => fun _ => false | 3 => fun _ => false | 4 => fun _ => false | 5 => fun _ => false | 6 => fun i => !(k8_cond2 i == 1#1) | 7 => fun i => !(k8_cond2 i == 1#1) | ⟨_ + 8, h⟩ => absurd h (Nat.not_lt.2 (Nat.le_add_left _ _))

abbrev win9_0 : Pipeline.Window sig grid9 :=
  Pipeline.Window.ofSpec (Memref.whole main_v137_0) S1000x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v137_1) S1x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v137_2) S1x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v138) S1x512.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v139) S1x512.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v140) S1000x512.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v152) S64x512.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S512x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v153) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg15) S512x18.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v154) S1x18.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v155) S64x18.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S10000x16 : Shape := ⟨2, ![10000, 16]⟩
abbrev S2x160000 : Shape := ⟨2, ![2, 160000]⟩
abbrev S10000 : Shape := ⟨1, ![10000]⟩
abbrev S16x512 : Shape := ⟨2, ![16, 512]⟩
abbrev S512 : Shape := ⟨1, ![512]⟩
abbrev S512x512 : Shape := ⟨2, ![512, 512]⟩
abbrev S4x512x512 : Shape := ⟨3, ![4, 512, 512]⟩
abbrev S4x512 : Shape := ⟨2, ![4, 512]⟩
abbrev S5x512 : Shape := ⟨2, ![5, 512]⟩
abbrev S512x18 : Shape := ⟨2, ![512, 18]⟩
abbrev S18 : Shape := ⟨1, ![18]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x16 : Shape := ⟨2, ![160000, 16]⟩
abbrev S10000x512 : Shape := ⟨2, ![10000, 512]⟩
abbrev S1x512 : Shape := ⟨2, ![1, 512]⟩
abbrev S160000x512 : Shape := ⟨2, ![160000, 512]⟩
abbrev S1x512x512 : Shape := ⟨3, ![1, 512, 512]⟩
abbrev S64x512 : Shape := ⟨2, ![64, 512]⟩
abbrev S10000x1 : Shape := ⟨2, ![10000, 1]⟩
abbrev S64 : Shape := ⟨1, ![64]⟩
abbrev S64x1 : Shape := ⟨2, ![64, 1]⟩
abbrev S64x18 : Shape := ⟨2, ![64, 18]⟩
abbrev S1x18 : Shape := ⟨2, ![1, 18]⟩

abbrev nBuf : Space → Nat
  | .hbm => 448
  | .vmem => 0
  | .smem => 0
  | _ => 0

abbrev hbmTy0_0 (i : Nat) : BufTy := match i % 128 with
  | 0 => ⟨S10000x16, .f32⟩
  | 1 => ⟨S2x160000, .i32⟩
  | 2 => ⟨S10000, .i32⟩
  | 3 => ⟨S16x512, .f32⟩
  | 4 => ⟨S512, .f32⟩
  | 5 => ⟨S512x512, .f32⟩
  | 6 => ⟨S512, .f32⟩
  | 7 => ⟨S4x512x512, .f32⟩
  | 8 => ⟨S4x512, .f32⟩
  | 9 => ⟨S4x512x512, .f32⟩
  | 10 => ⟨S4x512, .f32⟩
  | 11 => ⟨S5x512, .f32⟩
  | 12 => ⟨S5x512, .f32⟩
  | 13 => ⟨S512x512, .f32⟩
  | 14 => ⟨S512, .f32⟩
  | 15 => ⟨S512x18, .f32⟩
  | 16 => ⟨S18, .f32⟩
  | 17 => ⟨S1x160000, .i32⟩
  | 18 => ⟨S160000, .i32⟩
  | 19 => ⟨S1x160000, .i32⟩
  | 20 => ⟨S160000, .i32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S160000x16, .f32⟩
  | 30 => ⟨S_, .f32⟩
  | 31 => ⟨S10000x16, .f32⟩
  | 32 => ⟨S160000x1, .i32⟩
  | 33 => ⟨S10000x16, .f32⟩
  | 34 => ⟨S10000x16, .f32⟩
  | 35 => ⟨S10000x512, .f32⟩
  | 36 => ⟨S1x512, .f32⟩
  | 37 => ⟨S10000x512, .f32⟩
  | 38 => ⟨S10000x512, .f32⟩
  | 39 => ⟨S_, .f32⟩
  | 40 => ⟨S10000x512, .f32⟩
  | 41 => ⟨S10000x512, .f32⟩
  | 42 => ⟨S10000x512, .f32⟩
  | 43 => ⟨S1x512, .f32⟩
  | 44 => ⟨S10000x512, .f32⟩
  | 45 => ⟨S10000x512, .f32⟩
  | 46 => ⟨S_, .f32⟩
  | 47 => ⟨S10000x512, .f32⟩
  | 48 => ⟨S10000x512, .f32⟩
  | 49 => ⟨S1x512, .f32⟩
  | 50 => ⟨S512, .f32⟩
  | 51 => ⟨S1x512, .f32⟩
  | 52 => ⟨S512, .f32⟩
  | 53 => ⟨S_, .f32⟩
  | 54 => ⟨S512, .f32⟩
  | 55 => ⟨S_, .f32⟩
  | 56 => ⟨S512, .f32⟩
  | 57 => ⟨S512, .f32⟩
  | 58 => ⟨S_, .i32⟩
  | 59 => ⟨S_, .f32⟩
  | 60 => ⟨S512, .f32⟩
  | 61 => ⟨S1x512, .f32⟩
  | 62 => ⟨S_, .f32⟩
  | 63 => ⟨S1x512, .f32⟩
  | 64 => ⟨S1x512, .f32⟩
  | 65 => ⟨S10000x512, .f32⟩
  | 66 => ⟨S10000x512, .f32⟩
  | 67 => ⟨S10000x512, .f32⟩
  | 68 => ⟨S_, .f32⟩
  | 69 => ⟨S_, .f32⟩
  | 70 => ⟨S_, .f32⟩
  | 71 => ⟨S_, .f32⟩
  | 72 => ⟨S512, .f32⟩
  | 73 => ⟨S512, .f32⟩
  | 74 => ⟨S512, .f32⟩
  | 75 => ⟨S_, .f32⟩
  | 76 => ⟨S_, .i1⟩
  | 77 => ⟨S_, .f32⟩
  | 78 => ⟨S_, .f32⟩
  | 79 => ⟨S512, .f32⟩
  | 80 => ⟨S512, .f32⟩
  | 81 => ⟨S1x512, .f32⟩
  | 82 => ⟨S10000x512, .f32⟩
  | 83 => ⟨S10000x512, .f32⟩
  | 84 => ⟨S_, .f32⟩
  | 85 => ⟨S512, .f32⟩
  | 86 => ⟨S512, .f32⟩
  | 87 => ⟨S512, .f32⟩
  | 88 => ⟨S512, .f32⟩
  | 89 => ⟨S1x512, .f32⟩
  | 90 => ⟨S10000x512, .f32⟩
  | 91 => ⟨S10000x512, .f32⟩
  | 92 => ⟨S1x512, .f32⟩
  | 93 => ⟨S10000x512, .f32⟩
  | 94 => ⟨S10000x512, .f32⟩
  | 95 => ⟨S_, .i32⟩
  | 96 => ⟨S160000, .i32⟩
  | 97 => ⟨S160000, .i1⟩
  | 98 => ⟨S_, .i32⟩
  | 99 => ⟨S160000, .i32⟩
  | 100 => ⟨S160000, .i32⟩
  | 101 => ⟨S160000, .i32⟩
  | 102 => ⟨S160000x1, .i32⟩
  | 103 => ⟨S160000x512, .f32⟩
  | 104 => ⟨S_, .f32⟩
  | 105 => ⟨S10000x512, .f32⟩
  | 106 => ⟨S160000x1, .i32⟩
  | 107 => ⟨S10000x512, .f32⟩
  | 108 => ⟨S10000x512, .f32⟩
  | 109 => ⟨S1x512x512, .f32⟩
  | 110 => ⟨S512x512, .f32⟩
  | 111 => ⟨S1x512, .f32⟩
  | 112 => ⟨S512, .f32⟩
  | 113 => ⟨S1x512x512, .f32⟩
  | 114 => ⟨S512x512, .f32⟩
  | 115 => ⟨S1x512, .f32⟩
  | 116 => ⟨S512, .f32⟩
  | 117 => ⟨S10000x512, .f32⟩
  | 118 => ⟨S1x512, .f32⟩
  | 119 => ⟨S10000x512, .f32⟩
  | 120 => ⟨S10000x512, .f32⟩
  | 121 => ⟨S_, .f32⟩
  | 122 => ⟨S10000x512, .f32⟩
  | 123 => ⟨S10000x512, .f32⟩
  | 124 => ⟨S10000x512, .f32⟩
  | 125 => ⟨S1x512, .f32⟩
  | 126 => ⟨S10000x512, .f32⟩
  | 127 => ⟨S10000x512, .f32⟩
  | _ => ⟨S10000x16, .f32⟩

abbrev hbmTy0_1 (i : Nat) : BufTy := match i % 128 with
  | 0 => ⟨S_, .f32⟩
  | 1 => ⟨S10000x512, .f32⟩
  | 2 => ⟨S10000x512, .f32⟩
  | 3 => ⟨S1x512, .f32⟩
  | 4 => ⟨S512, .f32⟩
  | 5 => ⟨S1x512, .f32⟩
  | 6 => ⟨S512, .f32⟩
  | 7 => ⟨S_, .f32⟩
  | 8 => ⟨S512, .f32⟩
  | 9 => ⟨S_, .f32⟩
  | 10 => ⟨S512, .f32⟩
  | 11 => ⟨S512, .f32⟩
  | 12 => ⟨S_, .i32⟩
  | 13 => ⟨S_, .f32⟩
  | 14 => ⟨S512, .f32⟩
  | 15 => ⟨S1x512, .f32⟩
  | 16 => ⟨S_, .f32⟩
  | 17 => ⟨S1x512, .f32⟩
  | 18 => ⟨S1x512, .f32⟩
  | 19 => ⟨S10000x512, .f32⟩
  | 20 => ⟨S10000x512, .f32⟩
  | 21 => ⟨S10000x512, .f32⟩
  | 22 => ⟨S_, .f32⟩
  | 23 => ⟨S_, .f32⟩
  | 24 => ⟨S_, .f32⟩
  | 25 => ⟨S_, .f32⟩
  | 26 => ⟨S512, .f32⟩
  | 27 => ⟨S512, .f32⟩
  | 28 => ⟨S512, .f32⟩
  | 29 => ⟨S_, .f32⟩
  | 30 => ⟨S_, .i1⟩
  | 31 => ⟨S_, .f32⟩
  | 32 => ⟨S_, .f32⟩
  | 33 => ⟨S512, .f32⟩
  | 34 => ⟨S512, .f32⟩
  | 35 => ⟨S1x512, .f32⟩
  | 36 => ⟨S10000x512, .f32⟩
  | 37 => ⟨S10000x512, .f32⟩
  | 38 => ⟨S_, .f32⟩
  | 39 => ⟨S512, .f32⟩
  | 40 => ⟨S512, .f32⟩
  | 41 => ⟨S512, .f32⟩
  | 42 => ⟨S512, .f32⟩
  | 43 => ⟨S1x512, .f32⟩
  | 44 => ⟨S10000x512, .f32⟩
  | 45 => ⟨S10000x512, .f32⟩
  | 46 => ⟨S1x512, .f32⟩
  | 47 => ⟨S10000x512, .f32⟩
  | 48 => ⟨S10000x512, .f32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S160000x1, .i32⟩
  | 57 => ⟨S160000x512, .f32⟩
  | 58 => ⟨S_, .f32⟩
  | 59 => ⟨S10000x512, .f32⟩
  | 60 => ⟨S160000x1, .i32⟩
  | 61 => ⟨S10000x512, .f32⟩
  | 62 => ⟨S10000x512, .f32⟩
  | 63 => ⟨S1x512x512, .f32⟩
  | 64 => ⟨S512x512, .f32⟩
  | 65 => ⟨S1x512, .f32⟩
  | 66 => ⟨S512, .f32⟩
  | 67 => ⟨S1x512x512, .f32⟩
  | 68 => ⟨S512x512, .f32⟩
  | 69 => ⟨S1x512, .f32⟩
  | 70 => ⟨S512, .f32⟩
  | 71 => ⟨S10000x512, .f32⟩
  | 72 => ⟨S1x512, .f32⟩
  | 73 => ⟨S10000x512, .f32⟩
  | 74 => ⟨S10000x512, .f32⟩
  | 75 => ⟨S_, .f32⟩
  | 76 => ⟨S10000x512, .f32⟩
  | 77 => ⟨S10000x512, .f32⟩
  | 78 => ⟨S10000x512, .f32⟩
  | 79 => ⟨S1x512, .f32⟩
  | 80 => ⟨S10000x512, .f32⟩
  | 81 => ⟨S10000x512, .f32⟩
  | 82 => ⟨S_, .f32⟩
  | 83 => ⟨S10000x512, .f32⟩
  | 84 => ⟨S10000x512, .f32⟩
  | 85 => ⟨S1x512, .f32⟩
  | 86 => ⟨S512, .f32⟩
  | 87 => ⟨S1x512, .f32⟩
  | 88 => ⟨S512, .f32⟩
  | 89 => ⟨S_, .f32⟩
  | 90 => ⟨S512, .f32⟩
  | 91 => ⟨S_, .f32⟩
  | 92 => ⟨S512, .f32⟩
  | 93 => ⟨S512, .f32⟩
  | 94 => ⟨S_, .i32⟩
  | 95 => ⟨S_, .f32⟩
  | 96 => ⟨S512, .f32⟩
  | 97 => ⟨S1x512, .f32⟩
  | 98 => ⟨S_, .f32⟩
  | 99 => ⟨S1x512, .f32⟩
  | 100 => ⟨S1x512, .f32⟩
  | 101 => ⟨S10000x512, .f32⟩
  | 102 => ⟨S10000x512, .f32⟩
  | 103 => ⟨S10000x512, .f32⟩
  | 104 => ⟨S_, .f32⟩
  | 105 => ⟨S_, .f32⟩
  | 106 => ⟨S_, .f32⟩
  | 107 => ⟨S_, .f32⟩
  | 108 => ⟨S512, .f32⟩
  | 109 => ⟨S512, .f32⟩
  | 110 => ⟨S512, .f32⟩
  | 111 => ⟨S_, .f32⟩
  | 112 => ⟨S_, .i1⟩
  | 113 => ⟨S_, .f32⟩
  | 114 => ⟨S_, .f32⟩
  | 115 => ⟨S512, .f32⟩
  | 116 => ⟨S512, .f32⟩
  | 117 => ⟨S1x512, .f32⟩
  | 118 => ⟨S10000x512, .f32⟩
  | 119 => ⟨S10000x512, .f32⟩
  | 120 => ⟨S_, .f32⟩
  | 121 => ⟨S512, .f32⟩
  | 122 => ⟨S512, .f32⟩
  | 123 => ⟨S512, .f32⟩
  | 124 => ⟨S512, .f32⟩
  | 125 => ⟨S1x512, .f32⟩
  | 126 => ⟨S10000x512, .f32⟩
  | 127 => ⟨S10000x512, .f32⟩
  | _ => ⟨S10000x16, .f32⟩

abbrev hbmTy0_2 (i : Nat) : BufTy := match i % 128 with
  | 0 => ⟨S1x512, .f32⟩
  | 1 => ⟨S10000x512, .f32⟩
  | 2 => ⟨S10000x512, .f32⟩
  | 3 => ⟨S_, .i32⟩
  | 4 => ⟨S160000, .i32⟩
  | 5 => ⟨S160000, .i1⟩
  | 6 => ⟨S_, .i32⟩
  | 7 => ⟨S160000, .i32⟩
  | 8 => ⟨S160000, .i32⟩
  | 9 => ⟨S160000, .i32⟩
  | 10 => ⟨S160000x1, .i32⟩
  | 11 => ⟨S160000x512, .f32⟩
  | 12 => ⟨S_, .f32⟩
  | 13 => ⟨S10000x512, .f32⟩
  | 14 => ⟨S160000x1, .i32⟩
  | 15 => ⟨S10000x512, .f32⟩
  | 16 => ⟨S10000x512, .f32⟩
  | 17 => ⟨S1x512x512, .f32⟩
  | 18 => ⟨S512x512, .f32⟩
  | 19 => ⟨S1x512, .f32⟩
  | 20 => ⟨S512, .f32⟩
  | 21 => ⟨S1x512x512, .f32⟩
  | 22 => ⟨S512x512, .f32⟩
  | 23 => ⟨S1x512, .f32⟩
  | 24 => ⟨S512, .f32⟩
  | 25 => ⟨S10000x512, .f32⟩
  | 26 => ⟨S1x512, .f32⟩
  | 27 => ⟨S10000x512, .f32⟩
  | 28 => ⟨S10000x512, .f32⟩
  | 29 => ⟨S_, .f32⟩
  | 30 => ⟨S10000x512, .f32⟩
  | 31 => ⟨S10000x512, .f32⟩
  | 32 => ⟨S10000x512, .f32⟩
  | 33 => ⟨S1x512, .f32⟩
  | 34 => ⟨S10000x512, .f32⟩
  | 35 => ⟨S10000x512, .f32⟩
  | 36 => ⟨S_, .f32⟩
  | 37 => ⟨S10000x512, .f32⟩
  | 38 => ⟨S10000x512, .f32⟩
  | 39 => ⟨S1x512, .f32⟩
  | 40 => ⟨S512, .f32⟩
  | 41 => ⟨S1x512, .f32⟩
  | 42 => ⟨S512, .f32⟩
  | 43 => ⟨S_, .f32⟩
  | 44 => ⟨S512, .f32⟩
  | 45 => ⟨S_, .f32⟩
  | 46 => ⟨S512, .f32⟩
  | 47 => ⟨S512, .f32⟩
  | 48 => ⟨S_, .i32⟩
  | 49 => ⟨S_, .f32⟩
  | 50 => ⟨S512, .f32⟩
  | 51 => ⟨S1x512, .f32⟩
  | 52 => ⟨S_, .f32⟩
  | 53 => ⟨S1x512, .f32⟩
  | 54 => ⟨S1x512, .f32⟩
  | 55 => ⟨S10000x512, .f32⟩
  | 56 => ⟨S10000x512, .f32⟩
  | 57 => ⟨S10000x512, .f32⟩
  | 58 => ⟨S_, .f32⟩
  | 59 => ⟨S_, .f32⟩
  | 60 => ⟨S_, .f32⟩
  | 61 => ⟨S_, .f32⟩
  | 62 => ⟨S512, .f32⟩
  | 63 => ⟨S512, .f32⟩
  | 64 => ⟨S512, .f32⟩
  | 65 => ⟨S_, .f32⟩
  | 66 => ⟨S_, .i1⟩
  | 67 => ⟨S_, .f32⟩
  | 68 => ⟨S_, .f32⟩
  | 69 => ⟨S512, .f32⟩
  | 70 => ⟨S512, .f32⟩
  | 71 => ⟨S1x512, .f32⟩
  | 72 => ⟨S10000x512, .f32⟩
  | 73 => ⟨S10000x512, .f32⟩
  | 74 => ⟨S_, .f32⟩
  | 75 => ⟨S512, .f32⟩
  | 76 => ⟨S512, .f32⟩
  | 77 => ⟨S512, .f32⟩
  | 78 => ⟨S512, .f32⟩
  | 79 => ⟨S1x512, .f32⟩
  | 80 => ⟨S10000x512, .f32⟩
  | 81 => ⟨S10000x512, .f32⟩
  | 82 => ⟨S1x512, .f32⟩
  | 83 => ⟨S10000x512, .f32⟩
  | 84 => ⟨S10000x512, .f32⟩
  | 85 => ⟨S_, .i32⟩
  | 86 => ⟨S160000, .i32⟩
  | 87 => ⟨S160000, .i1⟩
  | 88 => ⟨S_, .i32⟩
  | 89 => ⟨S160000, .i32⟩
  | 90 => ⟨S160000, .i32⟩
  | 91 => ⟨S160000, .i32⟩
  | 92 => ⟨S160000x1, .i32⟩
  | 93 => ⟨S160000x512, .f32⟩
  | 94 => ⟨S_, .f32⟩
  | 95 => ⟨S10000x512, .f32⟩
  | 96 => ⟨S160000x1, .i32⟩
  | 97 => ⟨S10000x512, .f32⟩
  | 98 => ⟨S10000x512, .f32⟩
  | 99 => ⟨S1x512x512, .f32⟩
  | 100 => ⟨S512x512, .f32⟩
  | 101 => ⟨S1x512, .f32⟩
  | 102 => ⟨S512, .f32⟩
  | 103 => ⟨S1x512x512, .f32⟩
  | 104 => ⟨S512x512, .f32⟩
  | 105 => ⟨S1x512, .f32⟩
  | 106 => ⟨S512, .f32⟩
  | 107 => ⟨S10000x512, .f32⟩
  | 108 => ⟨S1x512, .f32⟩
  | 109 => ⟨S10000x512, .f32⟩
  | 110 => ⟨S10000x512, .f32⟩
  | 111 => ⟨S_, .f32⟩
  | 112 => ⟨S10000x512, .f32⟩
  | 113 => ⟨S10000x512, .f32⟩
  | 114 => ⟨S10000x512, .f32⟩
  | 115 => ⟨S1x512, .f32⟩
  | 116 => ⟨S10000x512, .f32⟩
  | 117 => ⟨S10000x512, .f32⟩
  | 118 => ⟨S_, .f32⟩
  | 119 => ⟨S10000x512, .f32⟩
  | 120 => ⟨S10000x512, .f32⟩
  | 121 => ⟨S1x512, .f32⟩
  | 122 => ⟨S512, .f32⟩
  | 123 => ⟨S1x512, .f32⟩
  | 124 => ⟨S512, .f32⟩
  | 125 => ⟨S_, .f32⟩
  | 126 => ⟨S512, .f32⟩
  | 127 => ⟨S_, .f32⟩
  | _ => ⟨S10000x16, .f32⟩

abbrev hbmTy0_3 (i : Nat) : BufTy := match i % 128 with
  | 0 => ⟨S512, .f32⟩
  | 1 => ⟨S512, .f32⟩
  | 2 => ⟨S_, .i32⟩
  | 3 => ⟨S_, .f32⟩
  | 4 => ⟨S512, .f32⟩
  | 5 => ⟨S1x512, .f32⟩
  | 6 => ⟨S_, .f32⟩
  | 7 => ⟨S1x512, .f32⟩
  | 8 => ⟨S1x512, .f32⟩
  | 9 => ⟨S10000x512, .f32⟩
  | 10 => ⟨S10000x512, .f32⟩
  | 11 => ⟨S10000x512, .f32⟩
  | 12 => ⟨S_, .f32⟩
  | 13 => ⟨S_, .f32⟩
  | 14 => ⟨S_, .f32⟩
  | 15 => ⟨S_, .f32⟩
  | 16 => ⟨S512, .f32⟩
  | 17 => ⟨S512, .f32⟩
  | 18 => ⟨S512, .f32⟩
  | 19 => ⟨S_, .f32⟩
  | 20 => ⟨S_, .i1⟩
  | 21 => ⟨S_, .f32⟩
  | 22 => ⟨S_, .f32⟩
  | 23 => ⟨S512, .f32⟩
  | 24 => ⟨S512, .f32⟩
  | 25 => ⟨S1x512, .f32⟩
  | 26 => ⟨S10000x512, .f32⟩
  | 27 => ⟨S10000x512, .f32⟩
  | 28 => ⟨S_, .f32⟩
  | 29 => ⟨S512, .f32⟩
  | 30 => ⟨S512, .f32⟩
  | 31 => ⟨S512, .f32⟩
  | 32 => ⟨S512, .f32⟩
  | 33 => ⟨S1x512, .f32⟩
  | 34 => ⟨S10000x512, .f32⟩
  | 35 => ⟨S10000x512, .f32⟩
  | 36 => ⟨S1x512, .f32⟩
  | 37 => ⟨S10000x512, .f32⟩
  | 38 => ⟨S10000x512, .f32⟩
  | 39 => ⟨S_, .f32⟩
  | 40 => ⟨S64x512, .f32⟩
  | 41 => ⟨S10000x1, .i32⟩
  | 42 => ⟨S64x512, .f32⟩
  | 43 => ⟨S_, .f32⟩
  | 44 => ⟨S10000, .f32⟩
  | 45 => ⟨S_, .f32⟩
  | 46 => ⟨S64, .f32⟩
  | 47 => ⟨S10000x1, .i32⟩
  | 48 => ⟨S64, .f32⟩
  | 49 => ⟨S_, .f32⟩
  | 50 => ⟨S64, .f32⟩
  | 51 => ⟨S64, .f32⟩
  | 52 => ⟨S64x1, .f32⟩
  | 53 => ⟨S64x512, .f32⟩
  | 54 => ⟨S64x512, .f32⟩
  | 55 => ⟨S64x512, .f32⟩
  | 56 => ⟨S1x512, .f32⟩
  | 57 => ⟨S64x512, .f32⟩
  | 58 => ⟨S64x512, .f32⟩
  | 59 => ⟨S64x512, .f32⟩
  | 60 => ⟨S64x18, .f32⟩
  | 61 => ⟨S1x18, .f32⟩
  | 62 => ⟨S64x18, .f32⟩
  | 63 => ⟨S64x18, .f32⟩
  | _ => ⟨S10000x16, .f32⟩

abbrev hbmTy (i : Nat) : BufTy := match i / 128 with
  | 0 => hbmTy0_0 i
  | 1 => hbmTy0_1 i
  | 2 => hbmTy0_2 i
  | 3 => hbmTy0_3 i
  | _ => ⟨S10000x16, .f32⟩

abbrev bufTy : (tb : Table) → Fin (tcTables nBuf tb) → BufTy
  | .hbm, ⟨i, _⟩ => hbmTy i
  | _, _ => ⟨S10000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_1 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_v31 : Ref sig .tc := ⟨.hbm, 57, rfl⟩
abbrev main_c_3 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_cst_1 : Ref sig .tc := ⟨.hbm, 69, rfl⟩
abbrev main_call2_v8 : Ref sig .tc := ⟨.hbm, 70, rfl⟩
abbrev main_call2_cst_2 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_cst_3 : Ref sig .tc := ⟨.hbm, 75, rfl⟩
abbrev main_call2_v12 : Ref sig .tc := ⟨.hbm, 76, rfl⟩
abbrev main_call2_cst_4 : Ref sig .tc := ⟨.hbm, 77, rfl⟩
abbrev main_call2_call0_v0 : Ref sig .tc := ⟨.hbm, 78, rfl⟩
abbrev main_call2_call0_v1 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_4 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_c_5 : Ref sig .tc := ⟨.hbm, 95, rfl⟩
abbrev main_v46 : Ref sig .tc := ⟨.hbm, 96, rfl⟩
abbrev main_v47 : Ref sig .tc := ⟨.hbm, 97, rfl⟩
abbrev main_c_6 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_7 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_call3_cst : Ref sig .tc := ⟨.hbm, 121, rfl⟩
abbrev main_call3_v0 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call4_cst : Ref sig .tc := ⟨.hbm, 128, rfl⟩
abbrev main_call4_v0 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_8 : Ref sig .tc := ⟨.hbm, 135, rfl⟩
abbrev main_v79 : Ref sig .tc := ⟨.hbm, 136, rfl⟩
abbrev main_cst_9 : Ref sig .tc := ⟨.hbm, 137, rfl⟩
abbrev main_v80 : Ref sig .tc := ⟨.hbm, 138, rfl⟩
abbrev main_v81 : Ref sig .tc := ⟨.hbm, 139, rfl⟩
abbrev main_c_10 : Ref sig .tc := ⟨.hbm, 140, rfl⟩
abbrev main_call5_cst : Ref sig .tc := ⟨.hbm, 141, rfl⟩
abbrev main_call5_v0 : Ref sig .tc := ⟨.hbm, 142, rfl⟩
abbrev main_call5_v1 : Ref sig .tc := ⟨.hbm, 143, rfl⟩
abbrev main_call5_cst_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_v7 : Ref sig .tc := ⟨.hbm, 150, rfl⟩
abbrev main_call5_cst_1 : Ref sig .tc := ⟨.hbm, 151, rfl⟩
abbrev main_call5_v8 : Ref sig .tc := ⟨.hbm, 152, rfl⟩
abbrev main_call5_cst_2 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_cst_3 : Ref sig .tc := ⟨.hbm, 157, rfl⟩
abbrev main_call5_v12 : Ref sig .tc := ⟨.hbm, 158, rfl⟩
abbrev main_call5_cst_4 : Ref sig .tc := ⟨.hbm, 159, rfl⟩
abbrev main_call5_call0_v0 : Ref sig .tc := ⟨.hbm, 160, rfl⟩
abbrev main_call5_call0_v1 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_cst_11 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_c_12 : Ref sig .tc := ⟨.hbm, 177, rfl⟩
abbrev main_v96 : Ref sig .tc := ⟨.hbm, 178, rfl⟩
abbrev main_v97 : Ref sig .tc := ⟨.hbm, 179, rfl⟩
abbrev main_c_13 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_cst_14 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_call6_cst : Ref sig .tc := ⟨.hbm, 203, rfl⟩
abbrev main_call6_v0 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_call7_cst : Ref sig .tc := ⟨.hbm, 210, rfl⟩
abbrev main_call7_v0 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_cst_15 : Ref sig .tc := ⟨.hbm, 217, rfl⟩
abbrev main_v129 : Ref sig .tc := ⟨.hbm, 218, rfl⟩
abbrev main_cst_16 : Ref sig .tc := ⟨.hbm, 219, rfl⟩
abbrev main_v130 : Ref sig .tc := ⟨.hbm, 220, rfl⟩
abbrev main_v131 : Ref sig .tc := ⟨.hbm, 221, rfl⟩
abbrev main_c_17 : Ref sig .tc := ⟨.hbm, 222, rfl⟩
abbrev main_call8_cst : Ref sig .tc := ⟨.hbm, 223, rfl⟩
abbrev main_call8_v0 : Ref sig .tc := ⟨.hbm, 224, rfl⟩
abbrev main_call8_v1 : Ref sig .tc := ⟨.hbm, 225, rfl⟩
abbrev main_call8_cst_0 : Ref sig .tc := ⟨.hbm, 226, rfl⟩
abbrev main_call8_v2 : Ref sig .tc := ⟨.hbm, 227, rfl⟩
abbrev main_call8_v3 : Ref sig .tc := ⟨.hbm, 228, rfl⟩
abbrev main_call8_v4 : Ref sig .tc := ⟨.hbm, 229, rfl⟩
abbrev main_call8_v5 : Ref sig .tc := ⟨.hbm, 230, rfl⟩
abbrev main_call8_v6 : Ref sig .tc := ⟨.hbm, 231, rfl⟩
abbrev main_call8_v7 : Ref sig .tc := ⟨.hbm, 232, rfl⟩
abbrev main_call8_cst_1 : Ref sig .tc := ⟨.hbm, 233, rfl⟩
abbrev main_call8_v8 : Ref sig .tc := ⟨.hbm, 234, rfl⟩
abbrev main_call8_cst_2 : Ref sig .tc := ⟨.hbm, 235, rfl⟩
abbrev main_call8_v9 : Ref sig .tc := ⟨.hbm, 236, rfl⟩
abbrev main_call8_v10 : Ref sig .tc := ⟨.hbm, 237, rfl⟩
abbrev main_call8_v11 : Ref sig .tc := ⟨.hbm, 238, rfl⟩
abbrev main_call8_cst_3 : Ref sig .tc := ⟨.hbm, 239, rfl⟩
abbrev main_call8_v12 : Ref sig .tc := ⟨.hbm, 240, rfl⟩
abbrev main_call8_cst_4 : Ref sig .tc := ⟨.hbm, 241, rfl⟩
abbrev main_call8_call0_v0 : Ref sig .tc := ⟨.hbm, 242, rfl⟩
abbrev main_call8_call0_v1 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_cst_18 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_c_19 : Ref sig .tc := ⟨.hbm, 259, rfl⟩
abbrev main_v146 : Ref sig .tc := ⟨.hbm, 260, rfl⟩
abbrev main_v147 : Ref sig .tc := ⟨.hbm, 261, rfl⟩
abbrev main_c_20 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_cst_21 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_v166 : Ref sig .tc := ⟨.hbm, 282, rfl⟩
abbrev main_v167 : Ref sig .tc := ⟨.hbm, 283, rfl⟩
abbrev main_v168 : Ref sig .tc := ⟨.hbm, 284, rfl⟩
abbrev main_call9_cst : Ref sig .tc := ⟨.hbm, 285, rfl⟩
abbrev main_call9_v0 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_call10_cst : Ref sig .tc := ⟨.hbm, 292, rfl⟩
abbrev main_call10_v0 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_cst_22 : Ref sig .tc := ⟨.hbm, 299, rfl⟩
abbrev main_v179 : Ref sig .tc := ⟨.hbm, 300, rfl⟩
abbrev main_cst_23 : Ref sig .tc := ⟨.hbm, 301, rfl⟩
abbrev main_v180 : Ref sig .tc := ⟨.hbm, 302, rfl⟩
abbrev main_v181 : Ref sig .tc := ⟨.hbm, 303, rfl⟩
abbrev main_c_24 : Ref sig .tc := ⟨.hbm, 304, rfl⟩
abbrev main_call11_cst : Ref sig .tc := ⟨.hbm, 305, rfl⟩
abbrev main_call11_v0 : Ref sig .tc := ⟨.hbm, 306, rfl⟩
abbrev main_call11_v1 : Ref sig .tc := ⟨.hbm, 307, rfl⟩
abbrev main_call11_cst_0 : Ref sig .tc := ⟨.hbm, 308, rfl⟩
abbrev main_call11_v2 : Ref sig .tc := ⟨.hbm, 309, rfl⟩
abbrev main_call11_v3 : Ref sig .tc := ⟨.hbm, 310, rfl⟩
abbrev main_call11_v4 : Ref sig .tc := ⟨.hbm, 311, rfl⟩
abbrev main_call11_v5 : Ref sig .tc := ⟨.hbm, 312, rfl⟩
abbrev main_call11_v6 : Ref sig .tc := ⟨.hbm, 313, rfl⟩
abbrev main_call11_v7 : Ref sig .tc := ⟨.hbm, 314, rfl⟩
abbrev main_call11_cst_1 : Ref sig .tc := ⟨.hbm, 315, rfl⟩
abbrev main_call11_v8 : Ref sig .tc := ⟨.hbm, 316, rfl⟩
abbrev main_call11_cst_2 : Ref sig .tc := ⟨.hbm, 317, rfl⟩
abbrev main_call11_v9 : Ref sig .tc := ⟨.hbm, 318, rfl⟩
abbrev main_call11_v10 : Ref sig .tc := ⟨.hbm, 319, rfl⟩
abbrev main_call11_v11 : Ref sig .tc := ⟨.hbm, 320, rfl⟩
abbrev main_call11_cst_3 : Ref sig .tc := ⟨.hbm, 321, rfl⟩
abbrev main_call11_v12 : Ref sig .tc := ⟨.hbm, 322, rfl⟩
abbrev main_call11_cst_4 : Ref sig .tc := ⟨.hbm, 323, rfl⟩
abbrev main_call11_call0_v0 : Ref sig .tc := ⟨.hbm, 324, rfl⟩
abbrev main_call11_call0_v1 : Ref sig .tc := ⟨.hbm, 325, rfl⟩
abbrev main_v182 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_cst_25 : Ref sig .tc := ⟨.hbm, 330, rfl⟩
abbrev main_v186 : Ref sig .tc := ⟨.hbm, 331, rfl⟩
abbrev main_v187 : Ref sig .tc := ⟨.hbm, 332, rfl⟩
abbrev main_v188 : Ref sig .tc := ⟨.hbm, 333, rfl⟩
abbrev main_v189 : Ref sig .tc := ⟨.hbm, 334, rfl⟩
abbrev main_v190 : Ref sig .tc := ⟨.hbm, 335, rfl⟩
abbrev main_v191 : Ref sig .tc := ⟨.hbm, 336, rfl⟩
abbrev main_v192 : Ref sig .tc := ⟨.hbm, 337, rfl⟩
abbrev main_v193 : Ref sig .tc := ⟨.hbm, 338, rfl⟩
abbrev main_v194 : Ref sig .tc := ⟨.hbm, 339, rfl⟩
abbrev main_v195 : Ref sig .tc := ⟨.hbm, 340, rfl⟩
abbrev main_c_26 : Ref sig .tc := ⟨.hbm, 341, rfl⟩
abbrev main_v196 : Ref sig .tc := ⟨.hbm, 342, rfl⟩
abbrev main_v197 : Ref sig .tc := ⟨.hbm, 343, rfl⟩
abbrev main_c_27 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_v202 : Ref sig .tc := ⟨.hbm, 349, rfl⟩
abbrev main_cst_28 : Ref sig .tc := ⟨.hbm, 350, rfl⟩
abbrev main_v203 : Ref sig .tc := ⟨.hbm, 351, rfl⟩
abbrev main_v204 : Ref sig .tc := ⟨.hbm, 352, rfl⟩
abbrev main_v205 : Ref sig .tc := ⟨.hbm, 353, rfl⟩
abbrev main_v206 : Ref sig .tc := ⟨.hbm, 354, rfl⟩
abbrev main_v207 : Ref sig .tc := ⟨.hbm, 355, rfl⟩
abbrev main_v208 : Ref sig .tc := ⟨.hbm, 356, rfl⟩
abbrev main_v209 : Ref sig .tc := ⟨.hbm, 357, rfl⟩
abbrev main_v210 : Ref sig .tc := ⟨.hbm, 358, rfl⟩
abbrev main_v211 : Ref sig .tc := ⟨.hbm, 359, rfl⟩
abbrev main_v212 : Ref sig .tc := ⟨.hbm, 360, rfl⟩
abbrev main_v213 : Ref sig .tc := ⟨.hbm, 361, rfl⟩
abbrev main_v214 : Ref sig .tc := ⟨.hbm, 362, rfl⟩
abbrev main_v215 : Ref sig .tc := ⟨.hbm, 363, rfl⟩
abbrev main_v216 : Ref sig .tc := ⟨.hbm, 364, rfl⟩
abbrev main_v217 : Ref sig .tc := ⟨.hbm, 365, rfl⟩
abbrev main_v218 : Ref sig .tc := ⟨.hbm, 366, rfl⟩
abbrev main_call12_cst : Ref sig .tc := ⟨.hbm, 367, rfl⟩
abbrev main_call12_v0 : Ref sig .tc := ⟨.hbm, 368, rfl⟩
abbrev main_v219 : Ref sig .tc := ⟨.hbm, 369, rfl⟩
abbrev main_v220 : Ref sig .tc := ⟨.hbm, 370, rfl⟩
abbrev main_v221 : Ref sig .tc := ⟨.hbm, 371, rfl⟩
abbrev main_v222 : Ref sig .tc := ⟨.hbm, 372, rfl⟩
abbrev main_v223 : Ref sig .tc := ⟨.hbm, 373, rfl⟩
abbrev main_call13_cst : Ref sig .tc := ⟨.hbm, 374, rfl⟩
abbrev main_call13_v0 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_cst_29 : Ref sig .tc := ⟨.hbm, 381, rfl⟩
abbrev main_v229 : Ref sig .tc := ⟨.hbm, 382, rfl⟩
abbrev main_cst_30 : Ref sig .tc := ⟨.hbm, 383, rfl⟩
abbrev main_v230 : Ref sig .tc := ⟨.hbm, 384, rfl⟩
abbrev main_v231 : Ref sig .tc := ⟨.hbm, 385, rfl⟩
abbrev main_c_31 : Ref sig .tc := ⟨.hbm, 386, rfl⟩
abbrev main_call14_cst : Ref sig .tc := ⟨.hbm, 387, rfl⟩
abbrev main_call14_v0 : Ref sig .tc := ⟨.hbm, 388, rfl⟩
abbrev main_call14_v1 : Ref sig .tc := ⟨.hbm, 389, rfl⟩
abbrev main_call14_cst_0 : Ref sig .tc := ⟨.hbm, 390, rfl⟩
abbrev main_call14_v2 : Ref sig .tc := ⟨.hbm, 391, rfl⟩
abbrev main_call14_v3 : Ref sig .tc := ⟨.hbm, 392, rfl⟩
abbrev main_call14_v4 : Ref sig .tc := ⟨.hbm, 393, rfl⟩
abbrev main_call14_v5 : Ref sig .tc := ⟨.hbm, 394, rfl⟩
abbrev main_call14_v6 : Ref sig .tc := ⟨.hbm, 395, rfl⟩
abbrev main_call14_v7 : Ref sig .tc := ⟨.hbm, 396, rfl⟩
abbrev main_call14_cst_1 : Ref sig .tc := ⟨.hbm, 397, rfl⟩
abbrev main_call14_v8 : Ref sig .tc := ⟨.hbm, 398, rfl⟩
abbrev main_call14_cst_2 : Ref sig .tc := ⟨.hbm, 399, rfl⟩
abbrev main_call14_v9 : Ref sig .tc := ⟨.hbm, 400, rfl⟩
abbrev main_call14_v10 : Ref sig .tc := ⟨.hbm, 401, rfl⟩
abbrev main_call14_v11 : Ref sig .tc := ⟨.hbm, 402, rfl⟩
abbrev main_call14_cst_3 : Ref sig .tc := ⟨.hbm, 403, rfl⟩
abbrev main_call14_v12 : Ref sig .tc := ⟨.hbm, 404, rfl⟩
abbrev main_call14_cst_4 : Ref sig .tc := ⟨.hbm, 405, rfl⟩
abbrev main_call14_call0_v0 : Ref sig .tc := ⟨.hbm, 406, rfl⟩
abbrev main_call14_call0_v1 : Ref sig .tc := ⟨.hbm, 407, rfl⟩
abbrev main_v232 : Ref sig .tc := ⟨.hbm, 408, rfl⟩
abbrev main_v233 : Ref sig .tc := ⟨.hbm, 409, rfl⟩
abbrev main_v234 : Ref sig .tc := ⟨.hbm, 410, rfl⟩
abbrev main_v235 : Ref sig .tc := ⟨.hbm, 411, rfl⟩
abbrev main_cst_32 : Ref sig .tc := ⟨.hbm, 412, rfl⟩
abbrev main_v236 : Ref sig .tc := ⟨.hbm, 413, rfl⟩
abbrev main_v237 : Ref sig .tc := ⟨.hbm, 414, rfl⟩
abbrev main_v238 : Ref sig .tc := ⟨.hbm, 415, rfl⟩
abbrev main_v239 : Ref sig .tc := ⟨.hbm, 416, rfl⟩
abbrev main_v240 : Ref sig .tc := ⟨.hbm, 417, rfl⟩
abbrev main_v241 : Ref sig .tc := ⟨.hbm, 418, rfl⟩
abbrev main_v242 : Ref sig .tc := ⟨.hbm, 419, rfl⟩
abbrev main_v243 : Ref sig .tc := ⟨.hbm, 420, rfl⟩
abbrev main_v244 : Ref sig .tc := ⟨.hbm, 421, rfl⟩
abbrev main_v245 : Ref sig .tc := ⟨.hbm, 422, rfl⟩
abbrev main_cst_33 : Ref sig .tc := ⟨.hbm, 423, rfl⟩
abbrev main_v246 : Ref sig .tc := ⟨.hbm, 424, rfl⟩
abbrev main_v247 : Ref sig .tc := ⟨.hbm, 425, rfl⟩
abbrev main_v248 : Ref sig .tc := ⟨.hbm, 426, rfl⟩
abbrev main_cst_34 : Ref sig .tc := ⟨.hbm, 427, rfl⟩
abbrev main_v249 : Ref sig .tc := ⟨.hbm, 428, rfl⟩
abbrev main_cst_35 : Ref sig .tc := ⟨.hbm, 429, rfl⟩
abbrev main_v250 : Ref sig .tc := ⟨.hbm, 430, rfl⟩
abbrev main_v251 : Ref sig .tc := ⟨.hbm, 431, rfl⟩
abbrev main_v252 : Ref sig .tc := ⟨.hbm, 432, rfl⟩
abbrev main_cst_36 : Ref sig .tc := ⟨.hbm, 433, rfl⟩
abbrev main_v253 : Ref sig .tc := ⟨.hbm, 434, rfl⟩
abbrev main_v254 : Ref sig .tc := ⟨.hbm, 435, rfl⟩
abbrev main_v255 : Ref sig .tc := ⟨.hbm, 436, rfl⟩
abbrev main_v256 : Ref sig .tc := ⟨.hbm, 437, rfl⟩
abbrev main_v257 : Ref sig .tc := ⟨.hbm, 438, rfl⟩
abbrev main_v258 : Ref sig .tc := ⟨.hbm, 439, rfl⟩
abbrev main_v259 : Ref sig .tc := ⟨.hbm, 440, rfl⟩
abbrev main_v260 : Ref sig .tc := ⟨.hbm, 441, rfl⟩
abbrev main_v261 : Ref sig .tc := ⟨.hbm, 442, rfl⟩
abbrev main_v262 : Ref sig .tc := ⟨.hbm, 443, rfl⟩
abbrev main_v263 : Ref sig .tc := ⟨.hbm, 444, rfl⟩
abbrev main_v264 : Ref sig .tc := ⟨.hbm, 445, rfl⟩
abbrev main_v265 : Ref sig .tc := ⟨.hbm, 446, rfl⟩
abbrev main_v266 : Ref sig .tc := ⟨.hbm, 447, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x16 : S_.BroadcastsInDim S10000x16 (![] : Fin 0 → Fin S10000x16.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  slices_S5x512_S1x512_0_0 : S5x512.Slices ![0, 0] S1x512
  shapeCasts_S1x512_S512 : S1x512.ShapeCasts S512
  reducesTo_S10000x512_S512_d0 : S10000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  slices_S5x512_S1x512_1_0 : S5x512.Slices ![1, 0] S1x512
  slices_S4x512x512_S1x512x512_1_0_0 : S4x512x512.Slices ![1, 0, 0] S1x512x512
  slices_S4x512_S1x512_1_0 : S4x512.Slices ![1, 0] S1x512
  slices_S5x512_S1x512_2_0 : S5x512.Slices ![2, 0] S1x512
  slices_S4x512x512_S1x512x512_2_0_0 : S4x512x512.Slices ![2, 0, 0] S1x512x512
  slices_S4x512_S1x512_2_0 : S4x512.Slices ![2, 0] S1x512
  slices_S5x512_S1x512_3_0 : S5x512.Slices ![3, 0] S1x512
  slices_S4x512x512_S1x512x512_3_0_0 : S4x512x512.Slices ![3, 0, 0] S1x512x512
  slices_S4x512_S1x512_3_0 : S4x512.Slices ![3, 0] S1x512
  slices_S5x512_S1x512_4_0 : S5x512.Slices ![4, 0] S1x512
  bcast_S_S64x512 : S_.BroadcastsInDim S64x512 (![] : Fin 0 → Fin S64x512.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S1x512_S64x512_0_1 : S1x512.BroadcastsInDim S64x512 (![0, 1] : Fin 2 → Fin S64x512.rank)
  bcast_S18_S1x18_1 : S18.BroadcastsInDim S1x18 (![1] : Fin 1 → Fin S1x18.rank)
  bcast_S1x18_S64x18_0_1 : S1x18.BroadcastsInDim S64x18 (![0, 1] : Fin 2 → Fin S64x18.rank)
  gather_S10000x16_S160000x1_S160000x16_1_0_n_n_0_1_116_wf : GatherDims.WF S10000x16 S160000x1 S160000x16 [1] [0] [] [0] [] 1 ![1, 16]
  scatter_S10000x16_S160000x1_S160000x16_1_0_0_1_wf : ScatterDims.WF S10000x16 S160000x1 S160000x16 [1] [0] [0] 1
  dot_S10000x16_S16x512_S10000x512_1_0_0_1_n_n_wf : DotDims.WF S10000x16 S16x512 S10000x512 [1] [0] [0] [1] [] []
  dot_S10000x512_S512x512_S10000x512_1_0_0_1_n_n_wf : DotDims.WF S10000x512 S512x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S64x512_S10000x1_S10000x512_1_0_0_1_wf : ScatterDims.WF S64x512 S10000x1 S10000x512 [1] [0] [0] 1
  scatter_S64_S10000x1_S10000_n_0_0_1_wf : ScatterDims.WF S64 S10000x1 S10000 [] [0] [0] 1
  dot_S64x512_S512x512_S64x512_1_0_0_1_n_n_wf : DotDims.WF S64x512 S512x512 S64x512 [1] [0] [0] [1] [] []
  dot_S64x512_S512x18_S64x18_1_0_0_1_n_n_wf : DotDims.WF S64x512 S512x18 S64x18 [1] [0] [0] [1] [] []

variable [Facts₀]

def gather_S10000x16_S160000x1_S160000x16_1_0_n_n_0_1_116 : GatherDims S10000x16 S160000x1 S160000x16 where
  offsetDims := [1]
  collapsedSliceDims := [0]
  operandBatchingDims := []
  startIndicesBatchingDims := []
  startIndexMap := [0]
  indexVectorDim := 1
  sliceSizes := ![1, 16]
  wf := gather_S10000x16_S160000x1_S160000x16_1_0_n_n_0_1_116_wf
def scatter_S10000x16_S160000x1_S160000x16_1_0_0_1 : ScatterDims S10000x16 S160000x1 S160000x16 where
  updateWindowDims := [1]
  insertedWindowDims := [0]
  scatterDimsToOperandDims := [0]
  indexVectorDim := 1
  wf := scatter_S10000x16_S160000x1_S160000x16_1_0_0_1_wf
def dot_S10000x16_S16x512_S10000x512_1_0_0_1_n_n : DotDims S10000x16 S16x512 S10000x512 where
  lhsContracting := [1]
  rhsContracting := [0]
  lhsNonContracting := [0]
  rhsNonContracting := [1]
  lhsBatch := []
  rhsBatch := []
  wf := dot_S10000x16_S16x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S64x512_S10000x1_S10000x512_1_0_0_1 : ScatterDims S64x512 S10000x1 S10000x512 where
  updateWindowDims := [1]
  insertedWindowDims := [0]
  scatterDimsToOperandDims := [0]
  indexVectorDim := 1
  wf := scatter_S64x512_S10000x1_S10000x512_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x18_S64x18_1_0_0_1_n_n : DotDims S64x512 S512x18 S64x18 where
  lhsContracting := [1]
  rhsContracting := [0]
  lhsNonContracting := [0]
  rhsNonContracting := [1]
  lhsBatch := []
  rhsBatch := []
  wf := dot_S64x512_S512x18_S64x18_1_0_0_1_n_n_wf

class Facts : Prop extends Facts₀ where

variable [Facts]
-- ==== Proof.K.Norm1.lean ====
/-
  Region 1 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at every point, whether or not the pipeline fetched
    there: an unfetched point has the same block index as the point before. One statement per input window. -/
theorem found1_0 {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blockAt1 V c 4 t) (t : Fin cfg1.N) (d) : dat.before 4 t d = blockAt1 V c 4 t :=
  (dat.before_in_eq_fetched 4 rfl (fun _ => rfl) (fun _ _ _ => rfl) (fun t => by rw [hafter]; unfold Dat.blockOf blockAt1; rw [hA]; try rfl) t d).trans
    (by unfold Dat.fetched Dat.blockOf blockAt1; rw [hA]; try rfl)

abbrev tileRect1 : Rect S1000x512 := Rect.unit (s := S1000x512) ![0, 0] S1000x512.size inb_S1000x512_S1000x512_0_0
abbrev rowRect1 : Rect S1x512 := Rect.unit (s := S1x512) ![0, 0] S1x512.size inb_S1x512_S1x512_0_0

/-- The output tile after the body: its one store, of the normalized tile. -/
def normTile1 (a : Vec F S1000x512 .f32) (s q g b : Vec F S1x512 .f32) : Vec F S1000x512 .f32 :=
  View.canon [⟨tileRect1, k1_pay1 (View.ld s rowRect1) (View.ld q rowRect1) (View.ld a tileRect1) (View.ld g rowRect1) (View.ld b rowRect1)⟩]

theorem normTile1_cover (p0 : Vec F S1000x512 .f32) (y : S1000x512.Idx) :
    ∃ pc ∈ ([⟨tileRect1, p0⟩] : List (View.Piece (Elt F) S1000x512 .f32)), y ∈ pc.1.set :=
  View.cover_of_tiled [⟨tileRect1, p0⟩] S1000x512.size (by rfl) y

set_option maxHeartbeats 1000000 in
/-- The body on whole staging memrefs: the five inputs read and left as they were, the output tile left at the
    normalized tile. -/
theorem normBody1 (c : Dev nD) (E : Set ℕ) (i : grid1.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile1 a s q g b)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile1_cover _)

/-- The region's proof data on core c: the arrays as the region finds them; after the body at point t each input's
    buffer still at its block and the output's at the normalized tile of the five blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => normTile1 (blockAt1 V c 0 t) (blockAt1 V c 1 t) (blockAt1 V c 2 t) (blockAt1 V c 3 t) (blockAt1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blockAt1 V c 0 t := by dsimp only [dat1]
theorem dat1_after1 (c : Dev nD) (t : Fin cfg1.N) : (dat1 V c).after 1 t = blockAt1 V c 1 t := by dsimp only [dat1]
theorem dat1_after2 (c : Dev nD) (t : Fin cfg1.N) : (dat1 V c).after 2 t = blockAt1 V c 2 t := by dsimp only [dat1]
theorem dat1_after3 (c : Dev nD) (t : Fin cfg1.N) : (dat1 V c).after 3 t = blockAt1 V c 3 t := by dsimp only [dat1]
theorem dat1_after4 (c : Dev nD) (t : Fin cfg1.N) : (dat1 V c).after 4 t = blockAt1 V c 4 t := by dsimp only [dat1]
theorem dat1_after5 (c : Dev nD) (t : Fin cfg1.N) : (dat1 V c).after 5 t =
    normTile1 (blockAt1 V c 0 t) (blockAt1 V c 1 t) (blockAt1 V c 2 t) (blockAt1 V c 3 t) (blockAt1 V c 4 t) := by dsimp only [dat1]

theorem dat1_before0 (c : Dev nD) (t : Fin cfg1.N) (d) : (dat1 V c).before 0 t d = blockAt1 V c 0 t :=
  found1_0 V (dat1 V c) (dat1_A V c 0) (dat1_after0 V c) t d
theorem dat1_before1 (c : Dev nD) (t : Fin cfg1.N) (d) : (dat1 V c).before 1 t d = blockAt1 V c 1 t :=
  found1_1 V (dat1 V c) (dat1_A V c 1) (dat1_after1 V c) t d
theorem dat1_before2 (c : Dev nD) (t : Fin cfg1.N) (d) : (dat1 V c).before 2 t d = blockAt1 V c 2 t :=
  found1_2 V (dat1 V c) (dat1_A V c 2) (dat1_after2 V c) t d
theorem dat1_before3 (c : Dev nD) (t : Fin cfg1.N) (d) : (dat1 V c).before 3 t d = blockAt1 V c 3 t :=
  found1_3 V (dat1 V c) (dat1_A V c 3) (dat1_after3 V c) t d
theorem dat1_before4 (c : Dev nD) (t : Fin cfg1.N) (d) : (dat1 V c).before 4 t d = blockAt1 V c 4 t :=
  found1_4 V (dat1 V c) (dat1_A V c 4) (dat1_after4 V c) t d

/-- What the body is called with at point t, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem pointRun1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5]
  iintro ⟨HΦ, Ho, ⟨%d0, H0⟩, ⟨%d1, H1⟩, ⟨%d2, H2⟩, ⟨%d3, H3⟩, ⟨%d4, H4⟩, ⟨%d5, H5⟩⟩
  iapply (normBody1 c Set.univ _ _ _ _ _ _ _ _ _ _ _ _ _ (blockAt1 V c 0 t) (blockAt1 V c 1 t) (blockAt1 V c 2 t) (blockAt1 V c 3 t) (blockAt1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 1, at every point. -/
theorem obligation1 (c : Dev nD) : BodyObligation (dat1 (F := F) V c) (defs₀ (F := F)) Variants.none () Set.univ := fun t => by
  rw [bigSep_W1, bigSep_W1]
  exact pointRun1 V c t

end
end Cert.Kernel.Gen
end
-- ==== Proof.K.Norm3.lean ====
/-
  Region 3 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds the window's block at every point, whether or not the pipeline fetched
    there: an unfetched point has the same block index as the point before. One statement per input window. -/
theorem found3_0 {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)
theorem found3_1 {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)
theorem found3_2 {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)
theorem found3_3 {c : Dev nD} (dat : Dat τ (Elt F) Unit ℕ (UR sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)
theorem found3_4 {c : Dev nD} (dat : Dat τ (Elt F) Unit ℕ (UR sig nD τ) ℕ cfg3 c) (hA : dat.A 4 = V c (Pipeline.arrRef spec3 4))
    (hafter : ∀ t, dat.after 4 t = blockAt3 V c 4 t) (t : Fin cfg3.N) (d) : dat.before 4 t d = blockAt3 V c 4 t :=
  (dat.before_in_eq_fetched 4 rfl (fun _ => rfl) (fun _ _ _ => rfl) (fun t => by rw [hafter]; unfold Dat.blockOf blockAt3; rw [hA]; try rfl) t d).trans
    (by unfold Dat.fetched Dat.blockOf blockAt3; rw [hA]; try rfl)

abbrev tileRect3 : Rect S1000x512 := Rect.unit (s := S1000x512) ![0, 0] S1000x512.size inb_S1000x512_S1000x512_0_0
abbrev rowRect3 : Rect S1x512 := Rect.unit (s := S1x512) ![0, 0] S1x512.size inb_S1x512_S1x512_0_0

/-- The output tile after the body: its one store, of the normalized tile. -/
def normTile3 (a : Vec F S1000x512 .f32) (s q g b : Vec F S1x512 .f32) : Vec F S1000x512 .f32 :=
  View.canon [⟨tileRect3, k3_pay1 (View.ld s rowRect3) (View.ld q rowRect3) (View.ld a tileRect3) (View.ld g rowRect3) (View.ld b rowRect3)⟩]

theorem normTile3_cover (p0 : Vec F S1000x512 .f32) (y : S1000x512.Idx) :
    ∃ pc ∈ ([⟨tileRect3, p0⟩] : List (View.Piece (Elt F) S1000x512 .f32)), y ∈ pc.1.set :=
  View.cover_of_tiled [⟨tileRect3, p0⟩] S1000x512.size (by rfl) y

set_option maxHeartbeats 1000000 in
/-- The body on whole staging memrefs: the five inputs read and left as they were, the output tile left at the
    normalized tile. -/
theorem normBody3 (c : Dev nD) (E : Set ℕ) (i : grid3.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile3 a s q g b)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile3_cover _)

/-- The region's proof data on core c: the arrays as the region finds them; after the body at point t each input's
    buffer still at its block and the output's at the normalized tile of the five blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => normTile3 (blockAt3 V c 0 t) (blockAt3 V c 1 t) (blockAt3 V c 2 t) (blockAt3 V c 3 t) (blockAt3 V c 4 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blockAt3 V c 0 t := by dsimp only [dat3]
theorem dat3_after1 (c : Dev nD) (t : Fin cfg3.N) : (dat3 V c).after 1 t = blockAt3 V c 1 t := by dsimp only [dat3]
theorem dat3_after2 (c : Dev nD) (t : Fin cfg3.N) : (dat3 V c).after 2 t = blockAt3 V c 2 t := by dsimp only [dat3]
theorem dat3_after3 (c : Dev nD) (t : Fin cfg3.N) : (dat3 V c).after 3 t = blockAt3 V c 3 t := by dsimp only [dat3]
theorem dat3_after4 (c : Dev nD) (t : Fin cfg3.N) : (dat3 V c).after 4 t = blockAt3 V c 4 t := by dsimp only [dat3]
theorem dat3_after5 (c : Dev nD) (t : Fin cfg3.N) : (dat3 V c).after 5 t =
    normTile3 (blockAt3 V c 0 t) (blockAt3 V c 1 t) (blockAt3 V c 2 t) (blockAt3 V c 3 t) (blockAt3 V c 4 t) := by dsimp only [dat3]

theorem dat3_before0 (c : Dev nD) (t : Fin cfg3.N) (d) : (dat3 V c).before 0 t d = blockAt3 V c 0 t :=
  found3_0 V (dat3 V c) (dat3_A V c 0) (dat3_after0 V c) t d
theorem dat3_before1 (c : Dev nD) (t : Fin cfg3.N) (d) : (dat3 V c).before 1 t d = blockAt3 V c 1 t :=
  found3_1 V (dat3 V c) (dat3_A V c 1) (dat3_after1 V c) t d
theorem dat3_before2 (c : Dev nD) (t : Fin cfg3.N) (d) : (dat3 V c).before 2 t d = blockAt3 V c 2 t :=
  found3_2 V (dat3 V c) (dat3_A V c 2) (dat3_after2 V c) t d
theorem dat3_before3 (c : Dev nD) (t : Fin cfg3.N) (d) : (dat3 V c).before 3 t d = blockAt3 V c 3 t :=
  found3_3 V (dat3 V c) (dat3_A V c 3) (dat3_after3 V c) t d
theorem dat3_before4 (c : Dev nD) (t : Fin cfg3.N) (d) : (dat3 V c).before 4 t d = blockAt3 V c 4 t :=
  found3_4 V (dat3 V c) (dat3_A V c 4) (dat3_after4 V c) t d

/-- What the body is called with at point t, the windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem pointRun3 (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2, dat3_before3, dat3_before4]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5]
  iintro ⟨HΦ, Ho, ⟨%d0, H0⟩, ⟨%d1, H1⟩, ⟨%d2, H2⟩, ⟨%d3, H3⟩, ⟨%d4, H4⟩, ⟨%d5, H5⟩⟩
  iapply (normBody3 c Set.univ _ _ _ _ _ _ _ _ _ _ _ _ _ (blockAt3 V c 0 t) (blockAt3 V c 1 t) (blockAt3 V c 2 t) (blockAt3 V c 3 t) (blockAt3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 3, at every point. -/
theorem obligation3 (c : Dev nD) : BodyObligation (dat3 (F := F) V c) (defs₀ (F := F)) Variants.none () Set.univ := fun t => by
  rw [bigSep_W3, bigSep_W3]
  exact pointRun3 V c t

end
end Cert.Kernel.Gen
end
-- ==== Proof.K.Norm5.lean ====
/-
  Region 5 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds the window's block at every point, whether or not the pipeline fetched
    there: an unfetched point has the same block index as the point before. One statement per input window. -/
theorem found5_0 {c : Dev nD} (dat : Dat τ (Elt F) Unit ℕ (UR sig nD τ) ℕ cfg5 c) (hA : dat.A 0 = V c (Pipeline.arrRef spec5 0))
    (hafter : ∀ t, dat.after 0 t = blockAt5 V c 0 t) (t : Fin cfg5.N) (d) : dat.before 0 t d = blockAt5 V c 0 t :=
  (dat.before_in_eq_fetched 0 rfl (fun _ => rfl) (fun _ _ _ => rfl) (fun t => by rw [hafter]; unfold Dat.blockOf blockAt5; rw [hA]; try rfl) t d).trans
    (by unfold Dat.fetched Dat.blockOf blockAt5; rw [hA]; try rfl)
theorem found5_1 {c : Dev nD} (dat : Dat τ (Elt F) Unit ℕ (UR sig nD τ) ℕ cfg5 c) (hA : dat.A 1 = V c (Pipeline.arrRef spec5 1))
    (hafter : ∀ t, dat.after 1 t = blockAt5 V c 1 t) (t : Fin cfg5.N) (d) : dat.before 1 t d = blockAt5 V c 1 t :=
  (dat.before_in_eq_fetched 1 rfl (fun _ => rfl) (fun _ _ _ => rfl) (fun t => by rw [hafter]; unfold Dat.blockOf blockAt5; rw [hA]; try rfl) t d).trans
    (by unfold Dat.fetched Dat.blockOf blockAt5; rw [hA]; try rfl)
theorem found5_2 {c : Dev nD} (dat : Dat τ (Elt F) Unit ℕ (UR sig nD τ) ℕ cfg5 c) (hA : dat.A 2 = V c (Pipeline.arrRef spec5 2))
    (hafter : ∀ t, dat.after 2 t = blockAt5 V c 2 t) (t : Fin cfg5.N) (d) : dat.before 2 t d = blockAt5 V c 2 t :=
  (dat.before_in_eq_fetched 2 rfl (fun _ => rfl) (fun _ _ _ => rfl) (fun t => by rw [hafter]; unfold Dat.blockOf blockAt5; rw [hA]; try rfl) t d).trans
    (by unfold Dat.fetched Dat.blockOf blockAt5; rw [hA]; try rfl)
theorem found5_3 {c : Dev nD} (dat : Dat τ (Elt F) Unit ℕ (UR sig nD τ) ℕ cfg5 c) (hA : dat.A 3 = V c (Pipeline.arrRef spec5 3))
    (hafter : ∀ t, dat.after 3 t = blockAt5 V c 3 t) (t : Fin cfg5.N) (d) : dat.before 3 t d = blockAt5 V c 3 t :=
  (dat.before_in_eq_fetched 3 rfl (fun _ => rfl) (fun _ _ _ => rfl) (fun t => by rw [hafter]; unfold Dat.blockOf blockAt5; rw [hA]; try rfl) t d).trans
    (by unfold Dat.fetched Dat.blockOf blockAt5; rw [hA]; try rfl)
theorem found5_4 {c : Dev nD} (dat : Dat τ (Elt F) Unit ℕ (UR sig nD τ) ℕ cfg5 c) (hA : dat.A 4 = V c (Pipeline.arrRef spec5 4))
    (hafter : ∀ t, dat.after 4 t = blockAt5 V c 4 t) (t : Fin cfg5.N) (d) : dat.before 4 t d = blockAt5 V c 4 t :=
  (dat.before_in_eq_fetched 4 rfl (fun _ => rfl) (fun _ _ _ => rfl) (fun t => by rw [hafter]; unfold Dat.blockOf blockAt5; rw [hA]; try rfl) t d).trans
    (by unfold Dat.fetched Dat.blockOf blockAt5; rw [hA]; try rfl)

abbrev tileRect5 : Rect S1000x512 := Rect.unit (s := S1000x512) ![0, 0] S1000x512.size inb_S1000x512_S1000x512_0_0
abbrev rowRect5 : Rect S1x512 := Rect.unit (s := S1x512) ![0, 0] S1x512.size inb_S1x512_S1x512_0_0

/-- The output tile after the body: its one store, of the normalized tile. -/
def normTile5 (a : Vec F S1000x512 .f32) (s q g b : Vec F S1x512 .f32) : Vec F S1000x512 .f32 :=
  View.canon [⟨tileRect5, k5_pay1 (View.ld s rowRect5) (View.ld q rowRect5) (View.ld a tileRect5) (View.ld g rowRect5) (View.ld b rowRect5)⟩]

theorem normTile5_cover (p0 : Vec F S1000x512 .f32) (y : S1000x512.Idx) :
    ∃ pc ∈ ([⟨tileRect5, p0⟩] : List (View.Piece (Elt F) S1000x512 .f32)), y ∈ pc.1.set :=
  View.cover_of_tiled [⟨tileRect5, p0⟩] S1000x512.size (by rfl) y

set_option maxHeartbeats 1000000 in
/-- The body on whole staging memrefs: the five inputs read and left as they were, the output tile left at the
    normalized tile. -/
theorem normBody5 (c : Dev nD) (E : Set ℕ) (i : grid5.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile5 a s q g b)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile5_cover _)

/-- The region's proof data on core c: the arrays as the region finds them; after the body at point t each input's
    buffer still at its block and the output's at the normalized tile of the five blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => blockAt5 V c 0 t
    | ⟨1, _⟩ => blockAt5 V c 1 t
    | ⟨2, _⟩ => blockAt5 V c 2 t
    | ⟨3, _⟩ => blockAt5 V c 3 t
    | ⟨4, _⟩ => blockAt5 V c 4 t
    | ⟨5, _⟩ => normTile5 (blockAt5 V c 0 t) (blockAt5 V c 1 t) (blockAt5 V c 2 t) (blockAt5 V c 3 t) (blockAt5 V c 4 t)
  Φ _ := Pipeline.ΦA spec5 c
  q _ := fullShare
  owed _ := 0

theorem dat5_A (c : Dev nD) (w : Fin cfg5.W) : (dat5 V c).A w = V c (Pipeline.arrRef spec5 w) := by
  dsimp only [dat5]
theorem dat5_after0 (c : Dev nD) (t : Fin cfg5.N) : (dat5 V c).after 0 t = blockAt5 V c 0 t := by dsimp only [dat5]
theorem dat5_after1 (c : Dev nD) (t : Fin cfg5.N) : (dat5 V c).after 1 t = blockAt5 V c 1 t := by dsimp only [dat5]
theorem dat5_after2 (c : Dev nD) (t : Fin cfg5.N) : (dat5 V c).after 2 t = blockAt5 V c 2 t := by dsimp only [dat5]
theorem dat5_after3 (c : Dev nD) (t : Fin cfg5.N) : (dat5 V c).after 3 t = blockAt5 V c 3 t := by dsimp only [dat5]
theorem dat5_after4 (c : Dev nD) (t : Fin cfg5.N) : (dat5 V c).after 4 t = blockAt5 V c 4 t := by dsimp only [dat5]
theorem dat5_after5 (c : Dev nD) (t : Fin cfg5.N) : (dat5 V c).after 5 t =
    normTile5 (blockAt5 V c 0 t) (blockAt5 V c 1 t) (blockAt5 V c 2 t) (blockAt5 V c 3 t) (blockAt5 V c 4 t) := by dsimp only [dat5]

theorem dat5_before0 (c : Dev nD) (t : Fin cfg5.N) (d) : (dat5 V c).before 0 t d = blockAt5 V c 0 t :=
  found5_0 V (dat5 V c) (dat5_A V c 0) (dat5_after0 V c) t d
theorem dat5_before1 (c : Dev nD) (t : Fin cfg5.N) (d) : (dat5 V c).before 1 t d = blockAt5 V c 1 t :=
  found5_1 V (dat5 V c) (dat5_A V c 1) (dat5_after1 V c) t d
theorem dat5_before2 (c : Dev nD) (t : Fin cfg5.N) (d) : (dat5 V c).before 2 t d = blockAt5 V c 2 t :=
  found5_2 V (dat5 V c) (dat5_A V c 2) (dat5_after2 V c) t d
theorem dat5_before3 (c : Dev nD) (t : Fin cfg5.N) (d) : (dat5 V c).before 3 t d = blockAt5 V c 3 t :=
  found5_3 V (dat5 V c) (dat5_A V c 3) (dat5_after3 V c) t d
theorem dat5_before4 (c : Dev nD) (t : Fin cfg5.N) (d) : (dat5 V c).before 4 t d = blockAt5 V c 4 t :=
  found5_4 V (dat5 V c) (dat5_A V c 4) (dat5_after4 V c) t d

/-- What the body is called with at point t, the windows one by one, -/
def pre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def post5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem pointRun5 (c : Dev nD) (t : Fin cfg5.N) :
    pre5 V c t ⊢ wp frame (wpE (defs₀ (F := F)) Variants.none c none) Set.univ (bodyAt5 t) (fun _ => post5 V c t) := by
  unfold pre5 post5 bodyAt5
  simp only [dat5_before0, dat5_before1, dat5_before2, dat5_before3, dat5_before4]
  rw [show (dat5 V c).Φ t.succ = (dat5 V c).Φ t.castSucc from rfl,
    show (dat5 V c).owesAt () t.succ = (dat5 V c).owesAt () t.castSucc from rfl,
    dat5_after0, dat5_after1, dat5_after2, dat5_after3, dat5_after4, dat5_after5]
  iintro ⟨HΦ, Ho, ⟨%d0, H0⟩, ⟨%d1, H1⟩, ⟨%d2, H2⟩, ⟨%d3, H3⟩, ⟨%d4, H4⟩, ⟨%d5, H5⟩⟩
  iapply (normBody5 c Set.univ _ _ _ _ _ _ _ _ _ _ _ _ _ (blockAt5 V c 0 t) (blockAt5 V c 1 t) (blockAt5 V c 2 t) (blockAt5 V c 3 t) (blockAt5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 5, at every point. -/
theorem obligation5 (c : Dev nD) : BodyObligation (dat5 (F := F) V c) (defs₀ (F := F)) Variants.none () Set.univ := fun t => by
  rw [bigSep_W5, bigSep_W5]
  exact pointRun5 V c t

end
end Cert.Kernel.Gen
end
-- ==== Proof.K.Norm7.lean ====
/-
  Region 7 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's staging buffer holds the window's block at every point, whether or not the pipeline fetched
    there: an unfetched point has the same block index as the point before. One statement per input window. -/
theorem found7_0 {c : Dev nD} (dat : Dat τ (Elt F) Unit ℕ (UR sig nD τ) ℕ cfg7 c) (hA : dat.A 0 = V c (Pipeline.arrRef spec7 0))
    (hafter : ∀ t, dat.after 0 t = blockAt7 V c 0 t) (t : Fin cfg7.N) (d) : dat.before 0 t d = blockAt7 V c 0 t :=
  (dat.before_in_eq_fetched 0 rfl (fun _ => rfl) (fun _ _ _ => rfl) (fun t => by rw [hafter]; unfold Dat.blockOf blockAt7; rw [hA]; try rfl) t d).trans
    (by unfold Dat.fetched Dat.blockOf blockAt7; rw [hA]; try rfl)
theorem found7_1 {c : Dev nD} (dat : Dat τ (Elt F) Unit ℕ (UR sig nD τ) ℕ cfg7 c) (hA : dat.A 1 = V c (Pipeline.arrRef spec7 1))
    (hafter : ∀ t, dat.after 1 t = blockAt7 V c 1 t) (t : Fin cfg7.N) (d) : dat.before 1 t d = blockAt7 V c 1 t :=
  (dat.before_in_eq_fetched 1 rfl (fun _ => rfl) (fun _ _ _ => rfl) (fun t => by rw [hafter]; unfold Dat.blockOf blockAt7; rw [hA]; try rfl) t d).trans
    (by unfold Dat.fetched Dat.blockOf blockAt7; rw [hA]; try rfl)
theorem found7_2 {c : Dev nD} (dat : Dat τ (Elt F) Unit ℕ (UR sig nD τ) ℕ cfg7 c) (hA : dat.A 2 = V c (Pipeline.arrRef spec7 2))
    (hafter : ∀ t, dat.after 2 t = blockAt7 V c 2 t) (t : Fin cfg7.N) (d) : dat.before 2 t d = blockAt7 V c 2 t :=
  (dat.before_in_eq_fetched 2 rfl (fun _ => rfl) (fun _ _ _ => rfl) (fun t => by rw [hafter]; unfold Dat.blockOf blockAt7; rw [hA]; try rfl) t d).trans
    (by unfold Dat.fetched Dat.blockOf blockAt7; rw [hA]; try rfl)
theorem found7_3 {c : Dev nD} (dat : Dat τ (Elt F) Unit ℕ (UR sig nD τ) ℕ cfg7 c) (hA : dat.A 3 = V c (Pipeline.arrRef spec7 3))
    (hafter : ∀ t, dat.after 3 t = blockAt7 V c 3 t) (t : Fin cfg7.N) (d) : dat.before 3 t d = blockAt7 V c 3 t :=
  (dat.before_in_eq_fetched 3 rfl (fun _ => rfl) (fun _ _ _ => rfl) (fun t => by rw [hafter]; unfold Dat.blockOf blockAt7; rw [hA]; try rfl) t d).trans
    (by unfold Dat.fetched Dat.blockOf blockAt7; rw [hA]; try rfl)
theorem found7_4 {c : Dev nD} (dat : Dat τ (Elt F) Unit ℕ (UR sig nD τ) ℕ cfg7 c) (hA : dat.A 4 = V c (Pipeline.arrRef spec7 4))
    (hafter : ∀ t, dat.after 4 t = blockAt7 V c 4 t) (t : Fin cfg7.N) (d) : dat.before 4 t d = blockAt7 V c 4 t :=
  (dat.before_in_eq_fetched 4 rfl (fun _ => rfl) (fun _ _ _ => rfl) (fun t => by rw [hafter]; unfold Dat.blockOf blockAt7; rw [hA]; try rfl) t d).trans
    (by unfold Dat.fetched Dat.blockOf blockAt7; rw [hA]; try rfl)

abbrev tileRect7 : Rect S1000x512 := Rect.unit (s := S1000x512) ![0, 0] S1000x512.size inb_S1000x512_S1000x512_0_0
abbrev rowRect7 : Rect S1x512 := Rect.unit (s := S1x512) ![0, 0] S1x512.size inb_S1x512_S1x512_0_0

/-- The output tile after the body: its one store, of the normalized tile. -/
def normTile7 (a : Vec F S1000x512 .f32) (s q g b : Vec F S1x512 .f32) : Vec F S1000x512 .f32 :=
  View.canon [⟨tileRect7, k7_pay1 (View.ld s rowRect7) (View.ld q rowRect7) (View.ld a tileRect7) (View.ld g rowRect7) (View.ld b rowRect7)⟩]

theorem normTile7_cover (p0 : Vec F S1000x512 .f32) (y : S1000x512.Idx) :
    ∃ pc ∈ ([⟨tileRect7, p0⟩] : List (View.Piece (Elt F) S1000x512 .f32)), y ∈ pc.1.set :=
  View.cover_of_tiled [⟨tileRect7, p0⟩] S1000x512.size (by rfl) y

set_option maxHeartbeats 1000000 in
/-- The body on whole staging memrefs: the five inputs read and left as they were, the output tile left at the
    normalized tile. -/
theorem normBody7 (c : Dev nD) (E : Set ℕ) (i : grid7.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile7 a s q g b)) -∗ K ⟨⟩))
      ⊢ wp frame (wpE (defs₀ (F := F)) Variants.none c none) E (cc7__bn_kernel i arg1 harg1 arg2 harg2 arg3 harg3 arg4 harg4 arg5 harg5 arg6 harg6) K := by
  simp only [cc7__bn_kernel_eq_skeleton]; unfold cc7__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile7_cover _)

/-- The region's proof data on core c: the arrays as the region finds them; after the body at point t each input's
    buffer still at its block and the output's at the normalized tile of the five blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => blockAt7 V c 0 t
    | ⟨1, _⟩ => blockAt7 V c 1 t
    | ⟨2, _⟩ => blockAt7 V c 2 t
    | ⟨3, _⟩ => blockAt7 V c 3 t
    | ⟨4, _⟩ => blockAt7 V c 4 t
    | ⟨5, _⟩ => normTile7 (blockAt7 V c 0 t) (blockAt7 V c 1 t) (blockAt7 V c 2 t) (blockAt7 V c 3 t) (blockAt7 V c 4 t)
  Φ _ := Pipeline.ΦA spec7 c
  q _ := fullShare
  owed _ := 0

theorem dat7_A (c : Dev nD) (w : Fin cfg7.W) : (dat7 V c).A w = V c (Pipeline.arrRef spec7 w) := by
  dsimp only [dat7]
theorem dat7_after0 (c : Dev nD) (t : Fin cfg7.N) : (dat7 V c).after 0 t = blockAt7 V c 0 t := by dsimp only [dat7]
theorem dat7_after1 (c : Dev nD) (t : Fin cfg7.N) : (dat7 V c).after 1 t = blockAt7 V c 1 t := by dsimp only [dat7]
theorem dat7_after2 (c : Dev nD) (t : Fin cfg7.N) : (dat7 V c).after 2 t = blockAt7 V c 2 t := by dsimp only [dat7]
theorem dat7_after3 (c : Dev nD) (t : Fin cfg7.N) : (dat7 V c).after 3 t = blockAt7 V c 3 t := by dsimp only [dat7]
theorem dat7_after4 (c : Dev nD) (t : Fin cfg7.N) : (dat7 V c).after 4 t = blockAt7 V c 4 t := by dsimp only [dat7]
theorem dat7_after5 (c : Dev nD) (t : Fin cfg7.N) : (dat7 V c).after 5 t =
    normTile7 (blockAt7 V c 0 t) (blockAt7 V c 1 t) (blockAt7 V c 2 t) (blockAt7 V c 3 t) (blockAt7 V c 4 t) := by dsimp only [dat7]

theorem dat7_before0 (c : Dev nD) (t : Fin cfg7.N) (d) : (dat7 V c).before 0 t d = blockAt7 V c 0 t :=
  found7_0 V (dat7 V c) (dat7_A V c 0) (dat7_after0 V c) t d
theorem dat7_before1 (c : Dev nD) (t : Fin cfg7.N) (d) : (dat7 V c).before 1 t d = blockAt7 V c 1 t :=
  found7_1 V (dat7 V c) (dat7_A V c 1) (dat7_after1 V c) t d
theorem dat7_before2 (c : Dev nD) (t : Fin cfg7.N) (d) : (dat7 V c).before 2 t d = blockAt7 V c 2 t :=
  found7_2 V (dat7 V c) (dat7_A V c 2) (dat7_after2 V c) t d
theorem dat7_before3 (c : Dev nD) (t : Fin cfg7.N) (d) : (dat7 V c).before 3 t d = blockAt7 V c 3 t :=
  found7_3 V (dat7 V c) (dat7_A V c 3) (dat7_after3 V c) t d
theorem dat7_before4 (c : Dev nD) (t : Fin cfg7.N) (d) : (dat7 V c).before 4 t d = blockAt7 V c 4 t :=
  found7_4 V (dat7 V c) (dat7_A V c 4) (dat7_after4 V c) t d

/-- What the body is called with at point t, the windows one by one, -/
def pre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def post7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem pointRun7 (c : Dev nD) (t : Fin cfg7.N) :
    pre7 V c t ⊢ wp frame (wpE (defs₀ (F := F)) Variants.none c none) Set.univ (bodyAt7 t) (fun _ => post7 V c t) := by
  unfold pre7 post7 bodyAt7
  simp only [dat7_before0, dat7_before1, dat7_before2, dat7_before3, dat7_before4]
  rw [show (dat7 V c).Φ t.succ = (dat7 V c).Φ t.castSucc from rfl,
    show (dat7 V c).owesAt () t.succ = (dat7 V c).owesAt () t.castSucc from rfl,
    dat7_after0, dat7_after1, dat7_after2, dat7_after3, dat7_after4, dat7_after5]
  iintro ⟨HΦ, Ho, ⟨%d0, H0⟩, ⟨%d1, H1⟩, ⟨%d2, H2⟩, ⟨%d3, H3⟩, ⟨%d4, H4⟩, ⟨%d5, H5⟩⟩
  iapply (normBody7 c Set.univ _ _ _ _ _ _ _ _ _ _ _ _ _ (blockAt7 V c 0 t) (blockAt7 V c 1 t) (blockAt7 V c 2 t) (blockAt7 V c 3 t) (blockAt7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 7, at every point. -/
theorem obligation7 (c : Dev nD) : BodyObligation (dat7 (F := F) V c) (defs₀ (F := F)) Variants.none () Set.univ := fun t => by
  rw [bigSep_W7, bigSep_W7]
  exact pointRun7 V c t

end
end Cert.Kernel.Gen
end
-- ==== Proof.K.Norm9.lean ====
/-
  Region 9 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's staging buffer holds the window's block at every point, whether or not the pipeline fetched
    there: an unfetched point has the same block index as the point before. One statement per input window. -/
theorem found9_0 {c : Dev nD} (dat : Dat τ (Elt F) Unit ℕ (UR sig nD τ) ℕ cfg9 c) (hA : dat.A 0 = V c (Pipeline.arrRef spec9 0))
    (hafter : ∀ t, dat.after 0 t = blockAt9 V c 0 t) (t : Fin cfg9.N) (d) : dat.before 0 t d = blockAt9 V c 0 t :=
  (dat.before_in_eq_fetched 0 rfl (fun _ => rfl) (fun _ _ _ => rfl) (fun t => by rw [hafter]; unfold Dat.blockOf blockAt9; rw [hA]; try rfl) t d).trans
    (by unfold Dat.fetched Dat.blockOf blockAt9; rw [hA]; try rfl)
theorem found9_1 {c : Dev nD} (dat : Dat τ (Elt F) Unit ℕ (UR sig nD τ) ℕ cfg9 c) (hA : dat.A 1 = V c (Pipeline.arrRef spec9 1))
    (hafter : ∀ t, dat.after 1 t = blockAt9 V c 1 t) (t : Fin cfg9.N) (d) : dat.before 1 t d = blockAt9 V c 1 t :=
  (dat.before_in_eq_fetched 1 rfl (fun _ => rfl) (fun _ _ _ => rfl) (fun t => by rw [hafter]; unfold Dat.blockOf blockAt9; rw [hA]; try rfl) t d).trans
    (by unfold Dat.fetched Dat.blockOf blockAt9; rw [hA]; try rfl)
theorem found9_2 {c : Dev nD} (dat : Dat τ (Elt F) Unit ℕ (UR sig nD τ) ℕ cfg9 c) (hA : dat.A 2 = V c (Pipeline.arrRef spec9 2))
    (hafter : ∀ t, dat.after 2 t = blockAt9 V c 2 t) (t : Fin cfg9.N) (d) : dat.before 2 t d = blockAt9 V c 2 t :=
  (dat.before_in_eq_fetched 2 rfl (fun _ => rfl) (fun _ _ _ => rfl) (fun t => by rw [hafter]; unfold Dat.blockOf blockAt9; rw [hA]; try rfl) t d).trans
    (by unfold Dat.fetched Dat.blockOf blockAt9; rw [hA]; try rfl)
theorem found9_3 {c : Dev nD} (dat : Dat τ (Elt F) Unit ℕ (UR sig nD τ) ℕ cfg9 c) (hA : dat.A 3 = V c (Pipeline.arrRef spec9 3))
    (hafter : ∀ t, dat.after 3 t = blockAt9 V c 3 t) (t : Fin cfg9.N) (d) : dat.before 3 t d = blockAt9 V c 3 t :=
  (dat.before_in_eq_fetched 3 rfl (fun _ => rfl) (fun _ _ _ => rfl) (fun t => by rw [hafter]; unfold Dat.blockOf blockAt9; rw [hA]; try rfl) t d).trans
    (by unfold Dat.fetched Dat.blockOf blockAt9; rw [hA]; try rfl)
theorem found9_4 {c : Dev nD} (dat : Dat τ (Elt F) Unit ℕ (UR sig nD τ) ℕ cfg9 c) (hA : dat.A 4 = V c (Pipeline.arrRef spec9 4))
    (hafter : ∀ t, dat.after 4 t = blockAt9 V c 4 t) (t : Fin cfg9.N) (d) : dat.before 4 t d = blockAt9 V c 4 t :=
  (dat.before_in_eq_fetched 4 rfl (fun _ => rfl) (fun _ _ _ => rfl) (fun t => by rw [hafter]; unfold Dat.blockOf blockAt9; rw [hA]; try rfl) t d).trans
    (by unfold Dat.fetched Dat.blockOf blockAt9; rw [hA]; try rfl)

abbrev tileRect9 : Rect S1000x512 := Rect.unit (s := S1000x512) ![0, 0] S1000x512.size inb_S1000x512_S1000x512_0_0
abbrev rowRect9 : Rect S1x512 := Rect.unit (s := S1x512) ![0, 0] S1x512.size inb_S1x512_S1x512_0_0

/-- The output tile after the body: its one store, of the normalized tile. -/
def normTile9 (a : Vec F S1000x512 .f32) (s q g b : Vec F S1x512 .f32) : Vec F S1000x512 .f32 :=
  View.canon [⟨tileRect9, k9_pay1 (View.ld s rowRect9) (View.ld q rowRect9) (View.ld a tileRect9) (View.ld g rowRect9) (View.ld b rowRect9)⟩]

theorem normTile9_cover (p0 : Vec F S1000x512 .f32) (y : S1000x512.Idx) :
    ∃ pc ∈ ([⟨tileRect9, p0⟩] : List (View.Piece (Elt F) S1000x512 .f32)), y ∈ pc.1.set :=
  View.cover_of_tiled [⟨tileRect9, p0⟩] S1000x512.size (by rfl) y

set_option maxHeartbeats 1000000 in
/-- The body on whole staging memrefs: the five inputs read and left as they were, the output tile left at the
    normalized tile. -/
theorem normBody9 (c : Dev nD) (E : Set ℕ) (i : grid9.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile9 a s q g b)) -∗ K ⟨⟩))
      ⊢ wp frame (wpE (defs₀ (F := F)) Variants.none c none) E (cc9__bn_kernel i arg1 harg1 arg2 harg2 arg3 harg3 arg4 harg4 arg5 harg5 arg6 harg6) K := by
  simp only [cc9__bn_kernel_eq_skeleton]; unfold cc9__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile9_cover _)

/-- The region's proof data on core c: the arrays as the region finds them; after the body at point t each input's
    buffer still at its block and the output's at the normalized tile of the five blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => blockAt9 V c 0 t
    | ⟨1, _⟩ => blockAt9 V c 1 t
    | ⟨2, _⟩ => blockAt9 V c 2 t
    | ⟨3, _⟩ => blockAt9 V c 3 t
    | ⟨4, _⟩ => blockAt9 V c 4 t
    | ⟨5, _⟩ => normTile9 (blockAt9 V c 0 t) (blockAt9 V c 1 t) (blockAt9 V c 2 t) (blockAt9 V c 3 t) (blockAt9 V c 4 t)
  Φ _ := Pipeline.ΦA spec9 c
  q _ := fullShare
  owed _ := 0

theorem dat9_A (c : Dev nD) (w : Fin cfg9.W) : (dat9 V c).A w = V c (Pipeline.arrRef spec9 w) := by
  dsimp only [dat9]
theorem dat9_after0 (c : Dev nD) (t : Fin cfg9.N) : (dat9 V c).after 0 t = blockAt9 V c 0 t := by dsimp only [dat9]
theorem dat9_after1 (c : Dev nD) (t : Fin cfg9.N) : (dat9 V c).after 1 t = blockAt9 V c 1 t := by dsimp only [dat9]
theorem dat9_after2 (c : Dev nD) (t : Fin cfg9.N) : (dat9 V c).after 2 t = blockAt9 V c 2 t := by dsimp only [dat9]
theorem dat9_after3 (c : Dev nD) (t : Fin cfg9.N) : (dat9 V c).after 3 t = blockAt9 V c 3 t := by dsimp only [dat9]
theorem dat9_after4 (c : Dev nD) (t : Fin cfg9.N) : (dat9 V c).after 4 t = blockAt9 V c 4 t := by dsimp only [dat9]
theorem dat9_after5 (c : Dev nD) (t : Fin cfg9.N) : (dat9 V c).after 5 t =
    normTile9 (blockAt9 V c 0 t) (blockAt9 V c 1 t) (blockAt9 V c 2 t) (blockAt9 V c 3 t) (blockAt9 V c 4 t) := by dsimp only [dat9]

theorem dat9_before0 (c : Dev nD) (t : Fin cfg9.N) (d) : (dat9 V c).before 0 t d = blockAt9 V c 0 t :=
  found9_0 V (dat9 V c) (dat9_A V c 0) (dat9_after0 V c) t d
theorem dat9_before1 (c : Dev nD) (t : Fin cfg9.N) (d) : (dat9 V c).before 1 t d = blockAt9 V c 1 t :=
  found9_1 V (dat9 V c) (dat9_A V c 1) (dat9_after1 V c) t d
theorem dat9_before2 (c : Dev nD) (t : Fin cfg9.N) (d) : (dat9 V c).before 2 t d = blockAt9 V c 2 t :=
  found9_2 V (dat9 V c) (dat9_A V c 2) (dat9_after2 V c) t d
theorem dat9_before3 (c : Dev nD) (t : Fin cfg9.N) (d) : (dat9 V c).before 3 t d = blockAt9 V c 3 t :=
  found9_3 V (dat9 V c) (dat9_A V c 3) (dat9_after3 V c) t d
theorem dat9_before4 (c : Dev nD) (t : Fin cfg9.N) (d) : (dat9 V c).before 4 t d = blockAt9 V c 4 t :=
  found9_4 V (dat9 V c) (dat9_A V c 4) (dat9_after4 V c) t d

/-- What the body is called with at point t, the windows one by one, -/
def pre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def post9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

theorem pointRun9 (c : Dev nD) (t : Fin cfg9.N) :
    pre9 V c t ⊢ wp frame (wpE (defs₀ (F := F)) Variants.none c none) Set.univ (bodyAt9 t) (fun _ => post9 V c t) := by
  unfold pre9 post9 bodyAt9
  simp only [dat9_before0, dat9_before1, dat9_before2, dat9_before3, dat9_before4]
  rw [show (dat9 V c).Φ t.succ = (dat9 V c).Φ t.castSucc from rfl,
    show (dat9 V c).owesAt () t.succ = (dat9 V c).owesAt () t.castSucc from rfl,
    dat9_after0, dat9_after1, dat9_after2, dat9_after3, dat9_after4, dat9_after5]
  iintro ⟨HΦ, Ho, ⟨%d0, H0⟩, ⟨%d1, H1⟩, ⟨%d2, H2⟩, ⟨%d3, H3⟩, ⟨%d4, H4⟩, ⟨%d5, H5⟩⟩
  iapply (normBody9 c Set.univ _ _ _ _ _ _ _ _ _ _ _ _ _ (blockAt9 V c 0 t) (blockAt9 V c 1 t) (blockAt9 V c 2 t) (blockAt9 V c 3 t) (blockAt9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 9, at every point. -/
theorem obligation9 (c : Dev nD) : BodyObligation (dat9 (F := F) V c) (defs₀ (F := F)) Variants.none () Set.univ := fun t => by
  rw [bigSep_W9, bigSep_W9]
  exact pointRun9 V c t

end
end Cert.Kernel.Gen
end
-- ==== Proof.K.Head10.lean ====
/-
  Region 10 of the program: the head, one grid point over whole arrays. From the pooled 64 x 512 features p,
  the weights W1 (512 x 512), W2 (512 x 18) and the bias rows b1 (1 x 512), b2 (1 x 18):
    out = tanh (p W1 + b1) W2 + b2,
  both products accumulated from zero. Here: what the body leaves in the 64 x 18 output as a function of the five
  input blocks, the body's triple, and the region's proof data at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! An input window's staging buffer holds the window's block at the point. One statement per input window. -/
theorem found10_0 {c : Dev nD} (dat : Dat τ (Elt F) Unit ℕ (UR sig nD τ) ℕ cfg10 c) (hA : dat.A 0 = V c (Pipeline.arrRef spec10 0))
    (hafter : ∀ t, dat.after 0 t = blockAt10 V c 0 t) (t : Fin cfg10.N) (d) : dat.before 0 t d = blockAt10 V c 0 t :=
  (dat.before_in_eq_fetched 0 rfl (fun _ => rfl) (fun _ _ _ => rfl) (fun t => by rw [hafter]; unfold Dat.blockOf blockAt10; rw [hA]; try rfl) t d).trans
    (by unfold Dat.fetched Dat.blockOf blockAt10; rw [hA]; try rfl)
theorem found10_1 {c : Dev nD} (dat : Dat τ (Elt F) Unit ℕ (UR sig nD τ) ℕ cfg10 c) (hA : dat.A 1 = V c (Pipeline.arrRef spec10 1))
    (hafter : ∀ t, dat.after 1 t = blockAt10 V c 1 t) (t : Fin cfg10.N) (d) : dat.before 1 t d = blockAt10 V c 1 t :=
  (dat.before_in_eq_fetched 1 rfl (fun _ => rfl) (fun _ _ _ => rfl) (fun t => by rw [hafter]; unfold Dat.blockOf blockAt10; rw [hA]; try rfl) t d).trans
    (by unfold Dat.fetched Dat.blockOf blockAt10; rw [hA]; try rfl)
theorem found10_2 {c : Dev nD} (dat : Dat τ (Elt F) Unit ℕ (UR sig nD τ) ℕ cfg10 c) (hA : dat.A 2 = V c (Pipeline.arrRef spec10 2))
    (hafter : ∀ t, dat.after 2 t = blockAt10 V c 2 t) (t : Fin cfg10.N) (d) : dat.before 2 t d = blockAt10 V c 2 t :=
  (dat.before_in_eq_fetched 2 rfl (fun _ => rfl) (fun _ _ _ => rfl) (fun t => by rw [hafter]; unfold Dat.blockOf blockAt10; rw [hA]; try rfl) t d).trans
    (by unfold Dat.fetched Dat.blockOf blockAt10; rw [hA]; try rfl)
theorem found10_3 {c : Dev nD} (dat : Dat τ (Elt F) Unit ℕ (UR sig nD τ) ℕ cfg10 c) (hA : dat.A 3 = V c (Pipeline.arrRef spec10 3))
    (hafter : ∀ t, dat.after 3 t = blockAt10 V c 3 t) (t : Fin cfg10.N) (d) : dat.before 3 t d = blockAt10 V c 3 t :=
  (dat.before_in_eq_fetched 3 rfl (fun _ => rfl) (fun _ _ _ => rfl) (fun t => by rw [hafter]; unfold Dat.blockOf blockAt10; rw [hA]; try rfl) t d).trans
    (by unfold Dat.fetched Dat.blockOf blockAt10; rw [hA]; try rfl)
theorem found10_4 {c : Dev nD} (dat : Dat τ (Elt F) Unit ℕ (UR sig nD τ) ℕ cfg10 c) (hA : dat.A 4 = V c (Pipeline.arrRef spec10 4))
    (hafter : ∀ t, dat.after 4 t = blockAt10 V c 4 t) (t : Fin cfg10.N) (d) : dat.before 4 t d = blockAt10 V c 4 t :=
  (dat.before_in_eq_fetched 4 rfl (fun _ => rfl) (fun _ _ _ => rfl) (fun t => by rw [hafter]; unfold Dat.blockOf blockAt10; rw [hA]; try rfl) t d).trans
    (by unfold Dat.fetched Dat.blockOf blockAt10; rw [hA]; try rfl)

abbrev featRect10 : Rect S64x512 := Rect.unit (s := S64x512) ![0, 0] S64x512.size inb_S64x512_S64x512_0_0
abbrev w1Rect10 : Rect S512x512 := Rect.unit (s := S512x512) ![0, 0] S512x512.size inb_S512x512_S512x512_0_0
abbrev b1Rect10 : Rect S1x512 := Rect.unit (s := S1x512) ![0, 0] S1x512.size inb_S1x512_S1x512_0_0
abbrev w2Rect10 : Rect S512x18 := Rect.unit (s := S512x18) ![0, 0] S512x18.size inb_S512x18_S512x18_0_0
abbrev b2Rect10 : Rect S1x18 := Rect.unit (s := S1x18) ![0, 0] S1x18.size inb_S1x18_S1x18_0_0
abbrev outRect10 : Rect S64x18 := Rect.unit (s := S64x18) ![0, 0] S64x18.size inb_S64x18_S64x18_0_0

/-- The output after the body: its one store, of the logits. -/
def logits10 (p : Vec F S64x512 .f32) (w1 : Vec F S512x512 .f32) (b1 : Vec F S1x512 .f32) (w2 : Vec F S512x18 .f32) (b2 : Vec F S1x18 .f32) : Vec F S64x18 .f32 :=
  View.canon [⟨outRect10, k10_pay1 (View.ld p featRect10) (View.ld w1 w1Rect10) (View.ld b1 b1Rect10) (View.ld w2 w2Rect10) (View.ld b2 b2Rect10)⟩]

theorem logits10_cover (p0 : Vec F S64x18 .f32) (y : S64x18.Idx) :
    ∃ pc ∈ ([⟨outRect10, p0⟩] : List (View.Piece (Elt F) S64x18 .f32)), y ∈ pc.1.set :=
  View.cover_of_tiled [⟨outRect10, p0⟩] S64x18.size (by rfl) y

set_option maxHeartbeats 1000000 in
/-- The body on whole staging memrefs: the five inputs read and left as they were, the output left at the logits. -/
theorem headBody10 (c : Dev nD) (E : Set ℕ) (i : grid10.Coords)
    (arg1 : Memref sig .tc .vmem S64x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x18 .f32) (harg4 : arg4.IsWhole)
    (arg5 : Memref sig .tc .vmem S1x18 .f32) (harg5 : arg5.IsWhole) (arg6 : Memref sig .tc .vmem S64x18 .f32) (harg6 : arg6.IsWhole)
    (p : Vec F S64x512 .f32) (w1 : Vec F S512x512 .f32) (b1 : Vec F S1x512 .f32) (w2 : Vec F S512x18 .f32) (b2 : Vec F S1x18 .f32) (K : PUnit → sProp 𝕄) :
    iprop(owns (c : Thread nD τ) arg1 fullShare p ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare p ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (logits10 p w1 b1 w2 b2)) -∗ K ⟨⟩))
      ⊢ wp frame (wpE (defs₀ (F := F)) Variants.none c none) E (cc10__head_kernel i arg1 harg1 arg2 harg2 arg3 harg3 arg4 harg4 arg5 harg5 arg6 harg6) K := by
  simp only [cc10__head_kernel_eq_skeleton]; unfold cc10__head_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (logits10_cover _)

/-- The region's proof data on core c: the arrays as the region finds them; after the body each input's buffer still
    at its block and the output's at the logits of the five blocks; the invariant the scoped rest and the generator
    register, untouched; nothing owed; full shares. -/
def dat10 (c : Dev nD) : Dat τ (Elt F) Unit ℕ (UR sig nD τ) ℕ cfg10 c where
  A w := V c (Pipeline.arrRef spec10 w)
  after w t := match w with
    | ⟨0, _⟩ => blockAt10 V c 0 t
    | ⟨1, _⟩ => blockAt10 V c 1 t
    | ⟨2, _⟩ => blockAt10 V c 2 t
    | ⟨3, _⟩ => blockAt10 V c 3 t
    | ⟨4, _⟩ => blockAt10 V c 4 t
    | ⟨5, _⟩ => logits10 (blockAt10 V c 0 t) (blockAt10 V c 1 t) (blockAt10 V c 2 t) (blockAt10 V c 3 t) (blockAt10 V c 4 t)
  Φ _ := Pipeline.ΦA spec10 c
  q _ := fullShare
  owed _ := 0

theorem dat10_A (c : Dev nD) (w : Fin cfg10.W) : (dat10 V c).A w = V c (Pipeline.arrRef spec10 w) := by
  dsimp only [dat10]
theorem dat10_after0 (c : Dev nD) (t : Fin cfg10.N) : (dat10 V c).after 0 t = blockAt10 V c 0 t := by dsimp only [dat10]
theorem dat10_after1 (c : Dev nD) (t : Fin cfg10.N) : (dat10 V c).after 1 t = blockAt10 V c 1 t := by dsimp only [dat10]
theorem dat10_after2 (c : Dev nD) (t : Fin cfg10.N) : (dat10 V c).after 2 t = blockAt10 V c 2 t := by dsimp only [dat10]
theorem dat10_after3 (c : Dev nD) (t : Fin cfg10.N) : (dat10 V c).after 3 t = blockAt10 V c 3 t := by dsimp only [dat10]
theorem dat10_after4 (c : Dev nD) (t : Fin cfg10.N) : (dat10 V c).after 4 t = blockAt10 V c 4 t := by dsimp only [dat10]
theorem dat10_after5 (c : Dev nD) (t : Fin cfg10.N) : (dat10 V c).after 5 t =
    logits10 (blockAt10 V c 0 t) (blockAt10 V c 1 t) (blockAt10 V c 2 t) (blockAt10 V c 3 t) (blockAt10 V c 4 t) := by dsimp only [dat10]

theorem dat10_before0 (c : Dev nD) (t : Fin cfg10.N) (d) : (dat10 V c).before 0 t d = blockAt10 V c 0 t :=
  found10_0 V (dat10 V c) (dat10_A V c 0) (dat10_after0 V c) t d
theorem dat10_before1 (c : Dev nD) (t : Fin cfg10.N) (d) : (dat10 V c).before 1 t d = blockAt10 V c 1 t :=
  found10_1 V (dat10 V c) (dat10_A V c 1) (dat10_after1 V c) t d
theorem dat10_before2 (c : Dev nD) (t : Fin cfg10.N) (d) : (dat10 V c).before 2 t d = blockAt10 V c 2 t :=
  found10_2 V (dat10 V c) (dat10_A V c 2) (dat10_after2 V c) t d
theorem dat10_before3 (c : Dev nD) (t : Fin cfg10.N) (d) : (dat10 V c).before 3 t d = blockAt10 V c 3 t :=
  found10_3 V (dat10 V c) (dat10_A V c 3) (dat10_after3 V c) t d
theorem dat10_before4 (c : Dev nD) (t : Fin cfg10.N) (d) : (dat10 V c).before 4 t d = blockAt10 V c 4 t :=
  found10_4 V (dat10 V c) (dat10_A V c 4) (dat10_after4 V c) t d

/-- What the body is called with at the point, the windows one by one, -/
def pre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def post10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

theorem pointRun10 (c : Dev nD) (t : Fin cfg10.N) :
    pre10 V c t ⊢ wp frame (wpE (defs₀ (F := F)) Variants.none c none) Set.univ (bodyAt10 t) (fun _ => post10 V c t) := by
  unfold pre10 post10 bodyAt10
  simp only [dat10_before0, dat10_before1, dat10_before2, dat10_before3, dat10_before4]
  rw [show (dat10 V c).Φ t.succ = (dat10 V c).Φ t.castSucc from rfl,
    show (dat10 V c).owesAt () t.succ = (dat10 V c).owesAt () t.castSucc from rfl,
    dat10_after0, dat10_after1, dat10_after2, dat10_after3, dat10_after4, dat10_after5]
  iintro ⟨HΦ, Ho, ⟨%d0, H0⟩, ⟨%d1, H1⟩, ⟨%d2, H2⟩, ⟨%d3, H3⟩, ⟨%d4, H4⟩, ⟨%d5, H5⟩⟩
  iapply (headBody10 c Set.univ _ _ _ _ _ _ _ _ _ _ _ _ _ (blockAt10 V c 0 t) (blockAt10 V c 1 t) (blockAt10 V c 2 t) (blockAt10 V c 3 t) (blockAt10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 10, at its point. -/
theorem obligation10 (c : Dev nD) : BodyObligation (dat10 (F := F) V c) (defs₀ (F := F)) Variants.none () Set.univ := fun t => by
  rw [bigSep_W10, bigSep_W10]
  exact pointRun10 V c t

end
end Cert.Kernel.Gen
end
-- ==== Proof.K.MlpRun0.lean ====
/-
  Region 0 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond0 (i : grid0.Coords) : Prop := (Scalar.cmpi .ne (Scalar.extui (Scalar.cmpi .eq (BitVec.ofNat 32 (i 0).val) 0#32)) 0#32) = 1#1
theorem firstCond0_iff : ∀ t : Fin cfg0.N, firstCond0 (grid0.coords t) ↔ t.val % 10 = 0 :=
  (by decide +kernel : ∀ t : Fin grid0.N, firstCond0 (grid0.coords t) ↔ t.val % 10 = 0)
/-- The body's second conditional: this is the last tile. -/
abbrev lastCond0 (i : grid0.Coords) : Prop := k0_cond2 i = 1#1
theorem lastCond0_iff : ∀ t : Fin cfg0.N, lastCond0 (grid0.coords t) ↔ t.val % 10 = 9 :=
  (by decide +kernel : ∀ t : Fin grid0.N, lastCond0 (grid0.coords t) ↔ t.val % 10 = 9)

/-! ## Where the windows are idle -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- Away from the last tile the two statistics outputs are idle and not written back. -/
theorem idle0_6 : ∀ t : Fin cfg0.N, ¬lastCond0 (grid0.coords t) → cfg0.idle 6 (grid0.coords t) = true := by decide +kernel
theorem idle0_7 : ∀ t : Fin cfg0.N, ¬lastCond0 (grid0.coords t) → cfg0.idle 7 (grid0.coords t) = true := by decide +kernel
theorem noFlush0_6 : ∀ t : Fin cfg0.N, ¬lastCond0 (grid0.coords t) → (cfg0.win 6).flush t = false := by decide +kernel
theorem noFlush0_7 : ∀ t : Fin cfg0.N, ¬lastCond0 (grid0.coords t) → (cfg0.win 7).flush t = false := by decide +kernel
/-- At the last tile they are live. -/
theorem live0_6 : ∀ t : Fin cfg0.N, lastCond0 (grid0.coords t) → cfg0.idle 6 (grid0.coords t) = false := by decide +kernel
theorem live0_7 : ∀ t : Fin cfg0.N, lastCond0 (grid0.coords t) → cfg0.idle 7 (grid0.coords t) = false := by decide +kernel

/-! ## The staging memrefs at a point, the scratch rows, and the views contents are stated through -/
abbrev ms0_0 (t : Fin cfg0.N) : Memref sig .tc .vmem S1000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1000x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
/-- The two scratch rows: whole scoped buffers of the kernel's own. -/
abbrev sc0_0 : Memref sig .tc .vmem S1x512 .f32 := Memref.whole cc0_scratch0
abbrev sc0_1 : Memref sig .tc .vmem S1x512 .f32 := Memref.whole cc0_scratch1
/-- The views through which a tile's and a row's contents are stated (the choice does not matter). -/
abbrev tileView0 : View sig .tc .vmem S1000x512 .f32 := (Memref.whole cc0_stg5_0 : Memref sig .tc .vmem S1000x512 .f32).view
abbrev rowView0 : View sig .tc .vmem S1x512 .f32 := sc0_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc0__mlp_stats_kernel_eq_skeleton]; unfold cc0__mlp_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc0__mlp_stats_kernel_eq_skeleton]; unfold cc0__mlp_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Gen
end
-- ==== Proof.K.MlpDat0.lean ====
/-
  Region 0 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.K.MlpRun0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  (y : S1000x512.Idx) :
    ∃ pc ∈ (runFirst0 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst0 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  : Vec F S1000x512 .f32 :=
  tileView0.read (Elt F) (tileView0.writes (Elt F) tileView0.junk (runFirst0 c i arg1 harg1 arg2 harg2 arg3 harg3 arg4 harg4 arg5 harg5 arg6 harg6 arg7 harg7 arg8 harg8 arg9 harg9 arg10 harg10 h1 h2 x0 x1 x2 x3 x4 ).1)

theorem sumFirst0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  (y : S1x512.Idx) :
    ∃ pc ∈ (runFirst0 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst0 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  : Vec F S1x512 .f32 :=
  rowView0.read (Elt F) (rowView0.writes (Elt F) rowView0.junk (runFirst0 c i arg1 harg1 arg2 harg2 arg3 harg3 arg4 harg4 arg5 harg5 arg6 harg6 arg7 harg7 arg8 harg8 arg9 harg9 arg10 harg10 h1 h2 x0 x1 x2 x3 x4 ).2.1)

theorem sqFirst0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  (y : S1x512.Idx) :
    ∃ pc ∈ (runFirst0 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst0 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  : Vec F S1x512 .f32 :=
  rowView0.read (Elt F) (rowView0.writes (Elt F) rowView0.junk (runFirst0 c i arg1 harg1 arg2 harg2 arg3 harg3 arg4 harg4 arg5 harg5 arg6 harg6 arg7 harg7 arg8 harg8 arg9 harg9 arg10 harg10 h1 h2 x0 x1 x2 x3 x4 ).2.2.1)

theorem tileMid0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) (y : S1000x512.Idx) :
    ∃ pc ∈ (runMid0 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid0 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) : Vec F S1000x512 .f32 :=
  tileView0.read (Elt F) (tileView0.writes (Elt F) tileView0.junk (runMid0 c i arg1 harg1 arg2 harg2 arg3 harg3 arg4 harg4 arg5 harg5 arg6 harg6 arg7 harg7 arg8 harg8 arg9 harg9 arg10 harg10 h1 h2 x0 x1 x2 x3 x4 s q).1)

theorem sumMid0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runMid0 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid0 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runMid0 c i arg1 harg1 arg2 harg2 arg3 harg3 arg4 harg4 arg5 harg5 arg6 harg6 arg7 harg7 arg8 harg8 arg9 harg9 arg10 harg10 h1 h2 x0 x1 x2 x3 x4 s q).2.1)

theorem sqMid0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runMid0 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid0 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runMid0 c i arg1 harg1 arg2 harg2 arg3 harg3 arg4 harg4 arg5 harg5 arg6 harg6 arg7 harg7 arg8 harg8 arg9 harg9 arg10 harg10 h1 h2 x0 x1 x2 x3 x4 s q).2.2.1)

theorem tileLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1000x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1000x512 .f32 :=
  tileView0.read (Elt F) (tileView0.writes (Elt F) tileView0.junk (runLast0 c i arg1 harg1 arg2 harg2 arg3 harg3 arg4 harg4 arg5 harg5 arg6 harg6 arg7 harg7 arg8 harg8 arg9 harg9 arg10 harg10 h1 h2 x0 x1 x2 x3 x4 s q).1)

theorem outSumLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runLast0 c i arg1 harg1 arg2 harg2 arg3 harg3 arg4 harg4 arg5 harg5 arg6 harg6 arg7 harg7 arg8 harg8 arg9 harg9 arg10 harg10 h1 h2 x0 x1 x2 x3 x4 s q).2.1)

theorem outSqLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runLast0 c i arg1 harg1 arg2 harg2 arg3 harg3 arg4 harg4 arg5 harg5 arg6 harg6 arg7 harg7 arg8 harg8 arg9 harg9 arg10 harg10 h1 h2 x0 x1 x2 x3 x4 s q).2.2.1)

theorem sumLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runLast0 c i arg1 harg1 arg2 harg2 arg3 harg3 arg4 harg4 arg5 harg5 arg6 harg6 arg7 harg7 arg8 harg8 arg9 harg9 arg10 harg10 h1 h2 x0 x1 x2 x3 x4 s q).2.2.2.1)

theorem sqLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runLast0 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry0 (c : Dev nD) :
    (Pipeline.ΦA spec0 c : sProp 𝕄)
      = iprop(iprop(iprop((∃ d, owns (c : Thread nD τ) sc0_0 fullShare d) ∗ (∃ d, owns (c : Thread nD τ) sc0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [sc0_0, sc0_1, owns_whole]
  rfl

section
variable (V : (c : Dev nD) → (b : Ref sig .tc) → Buf (Elt F) ((c : Thread nD τ).loc b))

/-- Window w's block at grid point t, read off the window's array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, fetched there or not. -/
theorem found0_0 {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)
theorem found0_4 {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt0 (c : Dev nD) : (n : ℕ) → n < cfg0.N →
    Vec F S1000x512 .f32 × Vec F S1x512 .f32 × Vec F S1x512 .f32 × Vec F S1x512 .f32 × Vec F S1x512 .f32
  | 0, hn => (tileFirst0 c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) sc0_0 (Memref.isWhole_whole _) sc0_1 (Memref.isWhole_whole _) ((firstCond0_iff (⟨0, hn⟩ : Fin cfg0.N)).mpr (Nat.zero_mod _)) (fun h => by have h' := (lastCond0_iff (⟨0, hn⟩ : Fin cfg0.N)).mp h; (try dsimp only at h'); omega) (blockAt0 V c 0 (⟨0, hn⟩ : Fin cfg0.N)) (blockAt0 V c 1 (⟨0, hn⟩ : Fin cfg0.N)) (blockAt0 V c 2 (⟨0, hn⟩ : Fin cfg0.N)) (blockAt0 V c 3 (⟨0, hn⟩ : Fin cfg0.N)) (blockAt0 V c 4 (⟨0, hn⟩ : Fin cfg0.N)),
      (rowView0.read (Elt F) rowView0.junk), (rowView0.read (Elt F) rowView0.junk),
      sumFirst0 c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) sc0_0 (Memref.isWhole_whole _) sc0_1 (Memref.isWhole_whole _) ((firstCond0_iff (⟨0, hn⟩ : Fin cfg0.N)).mpr (Nat.zero_mod _)) (fun h => by have h' := (lastCond0_iff (⟨0, hn⟩ : Fin cfg0.N)).mp h; (try dsimp only at h'); omega) (blockAt0 V c 0 (⟨0, hn⟩ : Fin cfg0.N)) (blockAt0 V c 1 (⟨0, hn⟩ : Fin cfg0.N)) (blockAt0 V c 2 (⟨0, hn⟩ : Fin cfg0.N)) (blockAt0 V c 3 (⟨0, hn⟩ : Fin cfg0.N)) (blockAt0 V c 4 (⟨0, hn⟩ : Fin cfg0.N)),
      sqFirst0 c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) sc0_0 (Memref.isWhole_whole _) sc0_1 (Memref.isWhole_whole _) ((firstCond0_iff (⟨0, hn⟩ : Fin cfg0.N)).mpr (Nat.zero_mod _)) (fun h => by have h' := (lastCond0_iff (⟨0, hn⟩ : Fin cfg0.N)).mp h; (try dsimp only at h'); omega) (blockAt0 V c 0 (⟨0, hn⟩ : Fin cfg0.N)) (blockAt0 V c 1 (⟨0, hn⟩ : Fin cfg0.N)) (blockAt0 V c 2 (⟨0, hn⟩ : Fin cfg0.N)) (blockAt0 V c 3 (⟨0, hn⟩ : Fin cfg0.N)) (blockAt0 V c 4 (⟨0, hn⟩ : Fin cfg0.N)))
  | n + 1, hn =>
    if hl : (n + 1) % 10 = 9 then
      (tileLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       outSumLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       outSqLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       sumLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       sqLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2)
    else
      (tileMid0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) (fun h => hl ((lastCond0_iff (⟨n + 1, hn⟩ : Fin cfg0.N)).mp h)) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       (rowView0.read (Elt F) rowView0.junk), (rowView0.read (Elt F) rowView0.junk),
       sumMid0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) (fun h => hl ((lastCond0_iff (⟨n + 1, hn⟩ : Fin cfg0.N)).mp h)) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       sqMid0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) (fun h => hl ((lastCond0_iff (⟨n + 1, hn⟩ : Fin cfg0.N)).mp h)) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2)

theorem stateAt0_first (c : Dev nD) (t : Fin cfg0.N) (hf : t.val % 10 = 0) (hl : ¬t.val % 10 = 9) :
    stateAt0 V c t.val t.isLt = (tileFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) ((firstCond0_iff t).mpr hf) (fun h => hl ((lastCond0_iff t).mp h)) (blockAt0 V c 0 t) (blockAt0 V c 1 t) (blockAt0 V c 2 t) (blockAt0 V c 3 t) (blockAt0 V c 4 t),
      (rowView0.read (Elt F) rowView0.junk), (rowView0.read (Elt F) rowView0.junk),
      sumFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) ((firstCond0_iff t).mpr hf) (fun h => hl ((lastCond0_iff t).mp h)) (blockAt0 V c 0 t) (blockAt0 V c 1 t) (blockAt0 V c 2 t) (blockAt0 V c 3 t) (blockAt0 V c 4 t),
      sqFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) ((firstCond0_iff t).mpr hf) (fun h => hl ((lastCond0_iff t).mp h)) (blockAt0 V c 0 t) (blockAt0 V c 1 t) (blockAt0 V c 2 t) (blockAt0 V c 3 t) (blockAt0 V c 4 t)) := by
  obtain ⟨n, hn⟩ := t
  have hN : n < 10 := lt_of_lt_of_eq hn (show cfg0.N = 10 from N_0)
  cases n with
  | zero => exact rfl
  | succ n => exfalso; (try dsimp only at hf); omega

theorem stateAt0_mid (c : Dev nD) (t : Fin cfg0.N) (hf : ¬t.val % 10 = 0) (hl : ¬t.val % 10 = 9) :
    stateAt0 V c t.val t.isLt = (tileMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) (fun h => hl ((lastCond0_iff t).mp h)) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      (rowView0.read (Elt F) rowView0.junk), (rowView0.read (Elt F) rowView0.junk),
      sumMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) (fun h => hl ((lastCond0_iff t).mp h)) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      sqMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) (fun h => hl ((lastCond0_iff t).mp h)) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt0_last (c : Dev nD) (t : Fin cfg0.N) (hf : ¬t.val % 10 = 0) (hl : t.val % 10 = 9) :
    stateAt0 V c t.val t.isLt = (tileLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      outSumLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      outSqLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      sumLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      sqLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry0 (c : Dev nD) : (n : ℕ) → n ≤ cfg0.N → sProp 𝕄
  | 0, _ => Pipeline.ΦA spec0 c
  | n + 1, hn => iprop(iprop(iprop(owns (c : Thread nD τ) sc0_0 fullShare (stateAt0 V c n hn).2.2.2.1 ∗ owns (c : Thread nD τ) sc0_1 fullShare (stateAt0 V c n hn).2.2.2.2)
      ∗ Pipeline.scopedRestBut (Ix := Unit) (Name := ℕ) (U := UR sig nD τ) (Lvl := ℕ) (Val := Elt F) spec0 c [cc0_scratch0, cc0_scratch1])
      ∗ (∃ r, prngReg c r))

theorem carry0_zero (c : Dev nD) (n : ℕ) (h : n ≤ cfg0.N) (hz : n = 0) : carry0 V c n h = Pipeline.ΦA spec0 c := by
  subst hz; rfl
theorem carry0_succ (c : Dev nD) (n : ℕ) (hn : n < cfg0.N) :
    carry0 V c (n + 1) hn = iprop(iprop(iprop(owns (c : Thread nD τ) sc0_0 fullShare (stateAt0 V c n hn).2.2.2.1 ∗ owns (c : Thread nD τ) sc0_1 fullShare (stateAt0 V c n hn).2.2.2.2)
      ∗ Pipeline.scopedRestBut (Ix := Unit) (Name := ℕ) (U := UR sig nD τ) (Lvl := ℕ) (Val := Elt F) spec0 c [cc0_scratch0, cc0_scratch1])
      ∗ (∃ r, prngReg c r)) := rfl
theorem carry0_pos (c : Dev nD) (n : ℕ) (h : n ≤ cfg0.N) (hz : n ≠ 0) :
    carry0 V c n h = iprop(iprop(iprop(owns (c : Thread nD τ) sc0_0 fullShare (stateAt0 V c (n - 1) (by omega)).2.2.2.1 ∗ owns (c : Thread nD τ) sc0_1 fullShare (stateAt0 V c (n - 1) (by omega)).2.2.2.2)
      ∗ Pipeline.scopedRestBut (Ix := Unit) (Name := ℕ) (U := UR sig nD τ) (Lvl := ℕ) (Val := Elt F) spec0 c [cc0_scratch0, cc0_scratch1])
      ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => (stateAt0 V c t.val t.isLt).1
    | ⟨6, _⟩ => (stateAt0 V c t.val t.isLt).2.1
    | ⟨7, _⟩ => (stateAt0 V c t.val t.isLt).2.2.1
  Φ t := carry0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_carry (c : Dev nD) (t : Fin cfg0.N) :
    (dat0 V c).Φ t.castSucc = carry0 V c t.val (Nat.le_of_lt t.isLt) := by
  dsimp only [dat0]; simp only [Fin.coe_castSucc]
theorem dat0_after0 (c : Dev nD) (t : Fin cfg0.N) : (dat0 V c).after 0 t = blockAt0 V c 0 t := by dsimp only [dat0]
theorem dat0_after1 (c : Dev nD) (t : Fin cfg0.N) : (dat0 V c).after 1 t = blockAt0 V c 1 t := by dsimp only [dat0]
theorem dat0_after2 (c : Dev nD) (t : Fin cfg0.N) : (dat0 V c).after 2 t = blockAt0 V c 2 t := by dsimp only [dat0]
theorem dat0_after3 (c : Dev nD) (t : Fin cfg0.N) : (dat0 V c).after 3 t = blockAt0 V c 3 t := by dsimp only [dat0]
theorem dat0_after4 (c : Dev nD) (t : Fin cfg0.N) : (dat0 V c).after 4 t = blockAt0 V c 4 t := by dsimp only [dat0]
theorem dat0_after5 (c : Dev nD) (t : Fin cfg0.N) : (dat0 V c).after 5 t = (stateAt0 V c t.val t.isLt).1 := by dsimp only [dat0]
theorem dat0_after6 (c : Dev nD) (t : Fin cfg0.N) : (dat0 V c).after 6 t = (stateAt0 V c t.val t.isLt).2.1 := by dsimp only [dat0]
theorem dat0_after7 (c : Dev nD) (t : Fin cfg0.N) : (dat0 V c).after 7 t = (stateAt0 V c t.val t.isLt).2.2.1 := by dsimp only [dat0]
theorem dat0_before0 (c : Dev nD) (t : Fin cfg0.N) (d) : (dat0 V c).before 0 t d = blockAt0 V c 0 t :=
  found0_0 V (dat0 V c) (dat0_A V c 0) (dat0_after0 V c) t d
theorem dat0_before1 (c : Dev nD) (t : Fin cfg0.N) (d) : (dat0 V c).before 1 t d = blockAt0 V c 1 t :=
  found0_1 V (dat0 V c) (dat0_A V c 1) (dat0_after1 V c) t d
theorem dat0_before2 (c : Dev nD) (t : Fin cfg0.N) (d) : (dat0 V c).before 2 t d = blockAt0 V c 2 t :=
  found0_2 V (dat0 V c) (dat0_A V c 2) (dat0_after2 V c) t d
theorem dat0_before3 (c : Dev nD) (t : Fin cfg0.N) (d) : (dat0 V c).before 3 t d = blockAt0 V c 3 t :=
  found0_3 V (dat0 V c) (dat0_A V c 3) (dat0_after3 V c) t d
theorem dat0_before4 (c : Dev nD) (t : Fin cfg0.N) (d) : (dat0 V c).before 4 t d = blockAt0 V c 4 t :=
  found0_4 V (dat0 V c) (dat0_A V c 4) (dat0_after4 V c) t d

/-! ## The body obligation -/

def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
theorem pointRun0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2, dat0_before3, dat0_before4]
  rw [show (dat0 V c).owesAt () t.succ = (dat0 V c).owesAt () t.castSucc from rfl]
  rw [show (dat0 V c).Φ t.succ = carry0 V c (t.val + 1) t.isLt from rfl, carry0_succ]
  rw [show (dat0 V c).leavesExact 0 t = owns (c : Thread nD τ) (ms0_0 t) fullShare ((dat0 V c).after 0 t) from by
    unfold Dat.leavesExact; rw [live0_0 t], dat0_after0]
  rw [show (dat0 V c).leavesExact 1 t = owns (c : Thread nD τ) (ms0_1 t) fullShare ((dat0 V c).after 1 t) from by
    unfold Dat.leavesExact; rw [live0_1 t], dat0_after1]
  rw [show (dat0 V c).leavesExact 2 t = owns (c : Thread nD τ) (ms0_2 t) fullShare ((dat0 V c).after 2 t) from by
    unfold Dat.leavesExact; rw [live0_2 t], dat0_after2]
  rw [show (dat0 V c).leavesExact 3 t = owns (c : Thread nD τ) (ms0_3 t) fullShare ((dat0 V c).after 3 t) from by
    unfold Dat.leavesExact; rw [live0_3 t], dat0_after3]
  rw [show (dat0 V c).leavesExact 4 t = owns (c : Thread nD τ) (ms0_4 t) fullShare ((dat0 V c).after 4 t) from by
    unfold Dat.leavesExact; rw [live0_4 t], dat0_after4]
  rw [show (dat0 V c).leavesExact 5 t = owns (c : Thread nD τ) (ms0_5 t) fullShare ((dat0 V c).after 5 t) from by
    unfold Dat.leavesExact; rw [live0_5 t], dat0_after5]
  have hN : t.val < 10 := lt_of_lt_of_eq t.isLt (show cfg0.N = 10 from N_0)
  by_cases hf : t.val % 10 = 0
  · have hl : ¬t.val % 10 = 9 := by omega
    have hz : t.val = 0 := by omega
    rw [Dat.leavesExact_idle (dat0 V c) 6 t (idle0_6 t (fun h => hl ((lastCond0_iff t).mp h))) (noFlush0_6 t (fun h => hl ((lastCond0_iff t).mp h)))]
    rw [Dat.leavesExact_idle (dat0 V c) 7 t (idle0_7 t (fun h => hl ((lastCond0_iff t).mp h))) (noFlush0_7 t (fun h => hl ((lastCond0_iff t).mp h)))]
    rw [stateAt0_first V c t hf hl]
    unfold tileFirst0 sumFirst0 sqFirst0; (try dsimp only)
    rw [dat0_carry V c t, carry0_zero V c _ _ hz, carryEntry0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst0 c (grid0.coords t) _ _ _ _ _ _ _ _ _ _ _ _ _ _ _ _ _ _ _ _ ((firstCond0_iff t).mpr hf) (fun h => hl ((lastCond0_iff t).mp h)) (blockAt0 V c 0 t) (blockAt0 V c 1 t) (blockAt0 V c 2 t) (blockAt0 V c 3 t) (blockAt0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst0_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst0_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst0_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat0 V c).leavesExact 6 t = owns (c : Thread nD τ) (ms0_6 t) fullShare ((dat0 V c).after 6 t) from by
        unfold Dat.leavesExact; rw [live0_6 t ((lastCond0_iff t).mpr hl)], dat0_after6]
      rw [show (dat0 V c).leavesExact 7 t = owns (c : Thread nD τ) (ms0_7 t) fullShare ((dat0 V c).after 7 t) from by
        unfold Dat.leavesExact; rw [live0_7 t ((lastCond0_iff t).mpr hl)], dat0_after7]
      rw [stateAt0_last V c t hf hl]
      unfold tileLast0 outSumLast0 outSqLast0 sumLast0 sqLast0; (try dsimp only)
      rw [dat0_carry V c t, carry0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast0 c (grid0.coords t) _ _ _ _ _ _ _ _ _ _ _ _ _ _ _ _ _ _ _ _ (fun h => hf ((firstCond0_iff t).mp h)) ((lastCond0_iff t).mpr hl) (blockAt0 V c 0 t) (blockAt0 V c 1 t) (blockAt0 V c 2 t) (blockAt0 V c 3 t) (blockAt0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast0_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast0_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast0_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast0_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast0_cover c _ _ _ _ _ _ _ _ _ _ _ _ _ _ _ _ _ _ _ _ _ _ _ _ _ _ _ _ _ _)
    · rw [Dat.leavesExact_idle (dat0 V c) 6 t (idle0_6 t (fun h => hl ((lastCond0_iff t).mp h))) (noFlush0_6 t (fun h => hl ((lastCond0_iff t).mp h)))]
      rw [Dat.leavesExact_idle (dat0 V c) 7 t (idle0_7 t (fun h => hl ((lastCond0_iff t).mp h))) (noFlush0_7 t (fun h => hl ((lastCond0_iff t).mp h)))]
      rw [stateAt0_mid V c t hf hl]
      unfold tileMid0 sumMid0 sqMid0; (try dsimp only)
      rw [dat0_carry V c t, carry0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid0 c (grid0.coords t) _ _ _ _ _ _ _ _ _ _ _ _ _ _ _ _ _ _ _ _ (fun h => hf ((firstCond0_iff t).mp h)) (fun h => hl ((lastCond0_iff t).mp h)) (blockAt0 V c 0 t) (blockAt0 V c 1 t) (blockAt0 V c 2 t) (blockAt0 V c 3 t) (blockAt0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid0_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid0_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid0_cover c _ _ _ _ _ _ _ _ _ _ _ _ _ _ _ _ _ _ _ _ _ _ _ _ _ _ _ _ _ _)
      isplitl [H6]; · iexists _; iexact H6
      iexists _; iexact H7

/-- The library's body obligation of region 0, at every point. -/
theorem obligation0 (c : Dev nD) : BodyObligation (dat0 (F := F) V c) (defs₀ (F := F)) Variants.none () Set.univ := fun t => by
  rw [bigSep_W0, bigSep_W0]
  exact pointRun0 V c t

/-- Entering the region: the class's invariant is the invariant before the first tile. -/
theorem carry0_in (c : Dev nD) : Pipeline.ΦA spec0 c ⊢ (dat0 V c).Φ 0 := by
  rw [show (dat0 V c).Φ 0 = carry0 V c 0 (Nat.zero_le _) from rfl, carry0_zero V c 0 _ rfl]
  try exact Idealize.SL.BI.Entails.refl _

/-- Leaving it: after the last tile the invariant gives the class's back, the scratch rows' contents forgotten. -/
theorem carry0_out (c : Dev nD) : (dat0 V c).Φ (Fin.last cfg0.N) ⊢ Pipeline.ΦA spec0 c := by
  rw [show (dat0 V c).Φ (Fin.last cfg0.N) = carry0 V c cfg0.N (Nat.le_refl _) from rfl,
    carry0_pos V c _ _ (by rw [show cfg0.N = 10 from N_0]; decide), carryEntry0]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.Kernel.Gen
end
-- ==== Proof.K.MlpRun2.lean ====
/-
  Region 2 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond2 (i : grid2.Coords) : Prop := (Scalar.cmpi .ne (Scalar.extui (Scalar.cmpi .eq (BitVec.ofNat 32 (i 0).val) 0#32)) 0#32) = 1#1
theorem firstCond2_iff : ∀ t : Fin cfg2.N, firstCond2 (grid2.coords t) ↔ t.val % 10 = 0 :=
  (by decide +kernel : ∀ t : Fin grid2.N, firstCond2 (grid2.coords t) ↔ t.val % 10 = 0)
/-- The body's second conditional: this is the last tile. -/
abbrev lastCond2 (i : grid2.Coords) : Prop := k2_cond2 i = 1#1
theorem lastCond2_iff : ∀ t : Fin cfg2.N, lastCond2 (grid2.coords t) ↔ t.val % 10 = 9 :=
  (by decide +kernel : ∀ t : Fin grid2.N, lastCond2 (grid2.coords t) ↔ t.val % 10 = 9)

/-! ## Where the windows are idle -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
/-- Away from the last tile the two statistics outputs are idle and not written back. -/
theorem idle2_6 : ∀ t : Fin cfg2.N, ¬lastCond2 (grid2.coords t) → cfg2.idle 6 (grid2.coords t) = true := by decide +kernel
theorem idle2_7 : ∀ t : Fin cfg2.N, ¬lastCond2 (grid2.coords t) → cfg2.idle 7 (grid2.coords t) = true := by decide +kernel
theorem noFlush2_6 : ∀ t : Fin cfg2.N, ¬lastCond2 (grid2.coords t) → (cfg2.win 6).flush t = false := by decide +kernel
theorem noFlush2_7 : ∀ t : Fin cfg2.N, ¬lastCond2 (grid2.coords t) → (cfg2.win 7).flush t = false := by decide +kernel
/-- At the last tile they are live. -/
theorem live2_6 : ∀ t : Fin cfg2.N, lastCond2 (grid2.coords t) → cfg2.idle 6 (grid2.coords t) = false := by decide +kernel
theorem live2_7 : ∀ t : Fin cfg2.N, lastCond2 (grid2.coords t) → cfg2.idle 7 (grid2.coords t) = false := by decide +kernel

/-! ## The staging memrefs at a point, the scratch rows, and the views contents are stated through -/
abbrev ms2_0 (t : Fin cfg2.N) : Memref sig .tc .vmem S1000x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1000x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x512 .f32 := win2_7.stage (cfg2.slots t 7)
abbrev hs2_7 (t : Fin cfg2.N) : (ms2_7 t).IsWhole := hstage2_7 ((cfg2.slots t 7).cast nbuf2_7)
/-- The two scratch rows: whole scoped buffers of the kernel's own. -/
abbrev sc2_0 : Memref sig .tc .vmem S1x512 .f32 := Memref.whole cc2_scratch0
abbrev sc2_1 : Memref sig .tc .vmem S1x512 .f32 := Memref.whole cc2_scratch1
/-- The views through which a tile's and a row's contents are stated (the choice does not matter). -/
abbrev tileView2 : View sig .tc .vmem S1000x512 .f32 := (Memref.whole cc2_stg5_0 : Memref sig .tc .vmem S1000x512 .f32).view
abbrev rowView2 : View sig .tc .vmem S1x512 .f32 := sc2_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc2__mlp_stats_kernel_eq_skeleton]; unfold cc2__mlp_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc2__mlp_stats_kernel_eq_skeleton]; unfold cc2__mlp_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_stats_kernel_eq_skeleton]; unfold cc2__mlp_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Gen
end
-- ==== Proof.K.MlpDat2.lean ====
/-
  Region 2 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.K.MlpRun2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  (y : S1000x512.Idx) :
    ∃ pc ∈ (runFirst2 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst2 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  : Vec F S1000x512 .f32 :=
  tileView2.read (Elt F) (tileView2.writes (Elt F) tileView2.junk (runFirst2 c i arg1 harg1 arg2 harg2 arg3 harg3 arg4 harg4 arg5 harg5 arg6 harg6 arg7 harg7 arg8 harg8 arg9 harg9 arg10 harg10 h1 h2 x0 x1 x2 x3 x4 ).1)

theorem sumFirst2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst2 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst2 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  : Vec F S1x512 .f32 :=
  rowView2.read (Elt F) (rowView2.writes (Elt F) rowView2.junk (runFirst2 c i arg1 harg1 arg2 harg2 arg3 harg3 arg4 harg4 arg5 harg5 arg6 harg6 arg7 harg7 arg8 harg8 arg9 harg9 arg10 harg10 h1 h2 x0 x1 x2 x3 x4 ).2.1)

theorem sqFirst2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst2 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst2 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  : Vec F S1x512 .f32 :=
  rowView2.read (Elt F) (rowView2.writes (Elt F) rowView2.junk (runFirst2 c i arg1 harg1 arg2 harg2 arg3 harg3 arg4 harg4 arg5 harg5 arg6 harg6 arg7 harg7 arg8 harg8 arg9 harg9 arg10 harg10 h1 h2 x0 x1 x2 x3 x4 ).2.2.1)

theorem tileMid2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runMid2 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid2 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView2.read (Elt F) (tileView2.writes (Elt F) tileView2.junk (runMid2 c i arg1 harg1 arg2 harg2 arg3 harg3 arg4 harg4 arg5 harg5 arg6 harg6 arg7 harg7 arg8 harg8 arg9 harg9 arg10 harg10 h1 h2 x0 x1 x2 x3 x4 s q).1)

theorem sumMid2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid2 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid2 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runMid2 c i arg1 harg1 arg2 harg2 arg3 harg3 arg4 harg4 arg5 harg5 arg6 harg6 arg7 harg7 arg8 harg8 arg9 harg9 arg10 harg10 h1 h2 x0 x1 x2 x3 x4 s q).2.1)

theorem sqMid2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid2 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid2 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runMid2 c i arg1 harg1 arg2 harg2 arg3 harg3 arg4 harg4 arg5 harg5 arg6 harg6 arg7 harg7 arg8 harg8 arg9 harg9 arg10 harg10 h1 h2 x0 x1 x2 x3 x4 s q).2.2.1)

theorem tileLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView2.read (Elt F) (tileView2.writes (Elt F) tileView2.junk (runLast2 c i arg1 harg1 arg2 harg2 arg3 harg3 arg4 harg4 arg5 harg5 arg6 harg6 arg7 harg7 arg8 harg8 arg9 harg9 arg10 harg10 h1 h2 x0 x1 x2 x3 x4 s q).1)

theorem outSumLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runLast2 c i arg1 harg1 arg2 harg2 arg3 harg3 arg4 harg4 arg5 harg5 arg6 harg6 arg7 harg7 arg8 harg8 arg9 harg9 arg10 harg10 h1 h2 x0 x1 x2 x3 x4 s q).2.1)

theorem outSqLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runLast2 c i arg1 harg1 arg2 harg2 arg3 harg3 arg4 harg4 arg5 harg5 arg6 harg6 arg7 harg7 arg8 harg8 arg9 harg9 arg10 harg10 h1 h2 x0 x1 x2 x3 x4 s q).2.2.1)

theorem sumLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runLast2 c i arg1 harg1 arg2 harg2 arg3 harg3 arg4 harg4 arg5 harg5 arg6 harg6 arg7 harg7 arg8 harg8 arg9 harg9 arg10 harg10 h1 h2 x0 x1 x2 x3 x4 s q).2.2.2.1)

theorem sqLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runLast2 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry2 (c : Dev nD) :
    (Pipeline.ΦA spec2 c : sProp 𝕄)
      = iprop(iprop(iprop((∃ d, owns (c : Thread nD τ) sc2_0 fullShare d) ∗ (∃ d, owns (c : Thread nD τ) sc2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [sc2_0, sc2_1, owns_whole]
  rfl

section
variable (V : (c : Dev nD) → (b : Ref sig .tc) → Buf (Elt F) ((c : Thread nD τ).loc b))

/-- Window w's block at grid point t, read off the window's array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds the window's block at every point, fetched there or not. -/
theorem found2_0 {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blockAt2 V c 3 t) (t : Fin cfg2.N) (d) : dat.before 3 t d = blockAt2 V c 3 t :=
  (dat.before_in_eq_fetched 3 rfl (fun _ => rfl) (fun _ _ _ => rfl) (fun t => by rw [hafter]; unfold Dat.blockOf blockAt2; rw [hA]; try rfl) t d).trans
    (by unfold Dat.fetched Dat.blockOf blockAt2; rw [hA]; try rfl)
theorem found2_4 {c : Dev nD} (dat : Dat τ (Elt F) Unit ℕ (UR sig nD τ) ℕ cfg2 c) (hA : dat.A 4 = V c (Pipeline.arrRef spec2 4))
    (hafter : ∀ t, dat.after 4 t = blockAt2 V c 4 t) (t : Fin cfg2.N) (d) : dat.before 4 t d = blockAt2 V c 4 t :=
  (dat.before_in_eq_fetched 4 rfl (fun _ => rfl) (fun _ _ _ => rfl) (fun t => by rw [hafter]; unfold Dat.blockOf blockAt2; rw [hA]; try rfl) t d).trans
    (by unfold Dat.fetched Dat.blockOf blockAt2; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt2 (c : Dev nD) : (n : ℕ) → n < cfg2.N →
    Vec F S1000x512 .f32 × Vec F S1x512 .f32 × Vec F S1x512 .f32 × Vec F S1x512 .f32 × Vec F S1x512 .f32
  | 0, hn => (tileFirst2 c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) sc2_0 (Memref.isWhole_whole _) sc2_1 (Memref.isWhole_whole _) ((firstCond2_iff (⟨0, hn⟩ : Fin cfg2.N)).mpr (Nat.zero_mod _)) (fun h => by have h' := (lastCond2_iff (⟨0, hn⟩ : Fin cfg2.N)).mp h; (try dsimp only at h'); omega) (blockAt2 V c 0 (⟨0, hn⟩ : Fin cfg2.N)) (blockAt2 V c 1 (⟨0, hn⟩ : Fin cfg2.N)) (blockAt2 V c 2 (⟨0, hn⟩ : Fin cfg2.N)) (blockAt2 V c 3 (⟨0, hn⟩ : Fin cfg2.N)) (blockAt2 V c 4 (⟨0, hn⟩ : Fin cfg2.N)),
      (rowView2.read (Elt F) rowView2.junk), (rowView2.read (Elt F) rowView2.junk),
      sumFirst2 c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) sc2_0 (Memref.isWhole_whole _) sc2_1 (Memref.isWhole_whole _) ((firstCond2_iff (⟨0, hn⟩ : Fin cfg2.N)).mpr (Nat.zero_mod _)) (fun h => by have h' := (lastCond2_iff (⟨0, hn⟩ : Fin cfg2.N)).mp h; (try dsimp only at h'); omega) (blockAt2 V c 0 (⟨0, hn⟩ : Fin cfg2.N)) (blockAt2 V c 1 (⟨0, hn⟩ : Fin cfg2.N)) (blockAt2 V c 2 (⟨0, hn⟩ : Fin cfg2.N)) (blockAt2 V c 3 (⟨0, hn⟩ : Fin cfg2.N)) (blockAt2 V c 4 (⟨0, hn⟩ : Fin cfg2.N)),
      sqFirst2 c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) sc2_0 (Memref.isWhole_whole _) sc2_1 (Memref.isWhole_whole _) ((firstCond2_iff (⟨0, hn⟩ : Fin cfg2.N)).mpr (Nat.zero_mod _)) (fun h => by have h' := (lastCond2_iff (⟨0, hn⟩ : Fin cfg2.N)).mp h; (try dsimp only at h'); omega) (blockAt2 V c 0 (⟨0, hn⟩ : Fin cfg2.N)) (blockAt2 V c 1 (⟨0, hn⟩ : Fin cfg2.N)) (blockAt2 V c 2 (⟨0, hn⟩ : Fin cfg2.N)) (blockAt2 V c 3 (⟨0, hn⟩ : Fin cfg2.N)) (blockAt2 V c 4 (⟨0, hn⟩ : Fin cfg2.N)))
  | n + 1, hn =>
    if hl : (n + 1) % 10 = 9 then
      (tileLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       outSumLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       outSqLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       sumLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       sqLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2)
    else
      (tileMid2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) (fun h => hl ((lastCond2_iff (⟨n + 1, hn⟩ : Fin cfg2.N)).mp h)) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       (rowView2.read (Elt F) rowView2.junk), (rowView2.read (Elt F) rowView2.junk),
       sumMid2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) (fun h => hl ((lastCond2_iff (⟨n + 1, hn⟩ : Fin cfg2.N)).mp h)) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       sqMid2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) (fun h => hl ((lastCond2_iff (⟨n + 1, hn⟩ : Fin cfg2.N)).mp h)) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2)

theorem stateAt2_first (c : Dev nD) (t : Fin cfg2.N) (hf : t.val % 10 = 0) (hl : ¬t.val % 10 = 9) :
    stateAt2 V c t.val t.isLt = (tileFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) ((firstCond2_iff t).mpr hf) (fun h => hl ((lastCond2_iff t).mp h)) (blockAt2 V c 0 t) (blockAt2 V c 1 t) (blockAt2 V c 2 t) (blockAt2 V c 3 t) (blockAt2 V c 4 t),
      (rowView2.read (Elt F) rowView2.junk), (rowView2.read (Elt F) rowView2.junk),
      sumFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) ((firstCond2_iff t).mpr hf) (fun h => hl ((lastCond2_iff t).mp h)) (blockAt2 V c 0 t) (blockAt2 V c 1 t) (blockAt2 V c 2 t) (blockAt2 V c 3 t) (blockAt2 V c 4 t),
      sqFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) ((firstCond2_iff t).mpr hf) (fun h => hl ((lastCond2_iff t).mp h)) (blockAt2 V c 0 t) (blockAt2 V c 1 t) (blockAt2 V c 2 t) (blockAt2 V c 3 t) (blockAt2 V c 4 t)) := by
  obtain ⟨n, hn⟩ := t
  have hN : n < 10 := lt_of_lt_of_eq hn (show cfg2.N = 10 from N_2)
  cases n with
  | zero => exact rfl
  | succ n => exfalso; (try dsimp only at hf); omega

theorem stateAt2_mid (c : Dev nD) (t : Fin cfg2.N) (hf : ¬t.val % 10 = 0) (hl : ¬t.val % 10 = 9) :
    stateAt2 V c t.val t.isLt = (tileMid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) (fun h => hl ((lastCond2_iff t).mp h)) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      (rowView2.read (Elt F) rowView2.junk), (rowView2.read (Elt F) rowView2.junk),
      sumMid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) (fun h => hl ((lastCond2_iff t).mp h)) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      sqMid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) (fun h => hl ((lastCond2_iff t).mp h)) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt2_last (c : Dev nD) (t : Fin cfg2.N) (hf : ¬t.val % 10 = 0) (hl : t.val % 10 = 9) :
    stateAt2 V c t.val t.isLt = (tileLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      outSumLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      outSqLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      sumLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      sqLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry2 (c : Dev nD) : (n : ℕ) → n ≤ cfg2.N → sProp 𝕄
  | 0, _ => Pipeline.ΦA spec2 c
  | n + 1, hn => iprop(iprop(iprop(owns (c : Thread nD τ) sc2_0 fullShare (stateAt2 V c n hn).2.2.2.1 ∗ owns (c : Thread nD τ) sc2_1 fullShare (stateAt2 V c n hn).2.2.2.2)
      ∗ Pipeline.scopedRestBut (Ix := Unit) (Name := ℕ) (U := UR sig nD τ) (Lvl := ℕ) (Val := Elt F) spec2 c [cc2_scratch0, cc2_scratch1])
      ∗ (∃ r, prngReg c r))

theorem carry2_zero (c : Dev nD) (n : ℕ) (h : n ≤ cfg2.N) (hz : n = 0) : carry2 V c n h = Pipeline.ΦA spec2 c := by
  subst hz; rfl
theorem carry2_succ (c : Dev nD) (n : ℕ) (hn : n < cfg2.N) :
    carry2 V c (n + 1) hn = iprop(iprop(iprop(owns (c : Thread nD τ) sc2_0 fullShare (stateAt2 V c n hn).2.2.2.1 ∗ owns (c : Thread nD τ) sc2_1 fullShare (stateAt2 V c n hn).2.2.2.2)
      ∗ Pipeline.scopedRestBut (Ix := Unit) (Name := ℕ) (U := UR sig nD τ) (Lvl := ℕ) (Val := Elt F) spec2 c [cc2_scratch0, cc2_scratch1])
      ∗ (∃ r, prngReg c r)) := rfl
theorem carry2_pos (c : Dev nD) (n : ℕ) (h : n ≤ cfg2.N) (hz : n ≠ 0) :
    carry2 V c n h = iprop(iprop(iprop(owns (c : Thread nD τ) sc2_0 fullShare (stateAt2 V c (n - 1) (by omega)).2.2.2.1 ∗ owns (c : Thread nD τ) sc2_1 fullShare (stateAt2 V c (n - 1) (by omega)).2.2.2.2)
      ∗ Pipeline.scopedRestBut (Ix := Unit) (Name := ℕ) (U := UR sig nD τ) (Lvl := ℕ) (Val := Elt F) spec2 c [cc2_scratch0, cc2_scratch1])
      ∗ (∃ r, prngReg c r)) := by
  cases n with
  | zero => exact absurd rfl hz
  | succ n => rfl

/-! ## The region's proof data -/

def dat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => (stateAt2 V c t.val t.isLt).1
    | ⟨6, _⟩ => (stateAt2 V c t.val t.isLt).2.1
    | ⟨7, _⟩ => (stateAt2 V c t.val t.isLt).2.2.1
  Φ t := carry2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_carry (c : Dev nD) (t : Fin cfg2.N) :
    (dat2 V c).Φ t.castSucc = carry2 V c t.val (Nat.le_of_lt t.isLt) := by
  dsimp only [dat2]; simp only [Fin.coe_castSucc]
theorem dat2_after0 (c : Dev nD) (t : Fin cfg2.N) : (dat2 V c).after 0 t = blockAt2 V c 0 t := by dsimp only [dat2]
theorem dat2_after1 (c : Dev nD) (t : Fin cfg2.N) : (dat2 V c).after 1 t = blockAt2 V c 1 t := by dsimp only [dat2]
theorem dat2_after2 (c : Dev nD) (t : Fin cfg2.N) : (dat2 V c).after 2 t = blockAt2 V c 2 t := by dsimp only [dat2]
theorem dat2_after3 (c : Dev nD) (t : Fin cfg2.N) : (dat2 V c).after 3 t = blockAt2 V c 3 t := by dsimp only [dat2]
theorem dat2_after4 (c : Dev nD) (t : Fin cfg2.N) : (dat2 V c).after 4 t = blockAt2 V c 4 t := by dsimp only [dat2]
theorem dat2_after5 (c : Dev nD) (t : Fin cfg2.N) : (dat2 V c).after 5 t = (stateAt2 V c t.val t.isLt).1 := by dsimp only [dat2]
theorem dat2_after6 (c : Dev nD) (t : Fin cfg2.N) : (dat2 V c).after 6 t = (stateAt2 V c t.val t.isLt).2.1 := by dsimp only [dat2]
theorem dat2_after7 (c : Dev nD) (t : Fin cfg2.N) : (dat2 V c).after 7 t = (stateAt2 V c t.val t.isLt).2.2.1 := by dsimp only [dat2]
theorem dat2_before0 (c : Dev nD) (t : Fin cfg2.N) (d) : (dat2 V c).before 0 t d = blockAt2 V c 0 t :=
  found2_0 V (dat2 V c) (dat2_A V c 0) (dat2_after0 V c) t d
theorem dat2_before1 (c : Dev nD) (t : Fin cfg2.N) (d) : (dat2 V c).before 1 t d = blockAt2 V c 1 t :=
  found2_1 V (dat2 V c) (dat2_A V c 1) (dat2_after1 V c) t d
theorem dat2_before2 (c : Dev nD) (t : Fin cfg2.N) (d) : (dat2 V c).before 2 t d = blockAt2 V c 2 t :=
  found2_2 V (dat2 V c) (dat2_A V c 2) (dat2_after2 V c) t d
theorem dat2_before3 (c : Dev nD) (t : Fin cfg2.N) (d) : (dat2 V c).before 3 t d = blockAt2 V c 3 t :=
  found2_3 V (dat2 V c) (dat2_A V c 3) (dat2_after3 V c) t d
theorem dat2_before4 (c : Dev nD) (t : Fin cfg2.N) (d) : (dat2 V c).before 4 t d = blockAt2 V c 4 t :=
  found2_4 V (dat2 V c) (dat2_A V c 4) (dat2_after4 V c) t d

/-! ## The body obligation -/

def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem pointRun2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3, dat2_before4]
  rw [show (dat2 V c).owesAt () t.succ = (dat2 V c).owesAt () t.castSucc from rfl]
  rw [show (dat2 V c).Φ t.succ = carry2 V c (t.val + 1) t.isLt from rfl, carry2_succ]
  rw [show (dat2 V c).leavesExact 0 t = owns (c : Thread nD τ) (ms2_0 t) fullShare ((dat2 V c).after 0 t) from by
    unfold Dat.leavesExact; rw [live2_0 t], dat2_after0]
  rw [show (dat2 V c).leavesExact 1 t = owns (c : Thread nD τ) (ms2_1 t) fullShare ((dat2 V c).after 1 t) from by
    unfold Dat.leavesExact; rw [live2_1 t], dat2_after1]
  rw [show (dat2 V c).leavesExact 2 t = owns (c : Thread nD τ) (ms2_2 t) fullShare ((dat2 V c).after 2 t) from by
    unfold Dat.leavesExact; rw [live2_2 t], dat2_after2]
  rw [show (dat2 V c).leavesExact 3 t = owns (c : Thread nD τ) (ms2_3 t) fullShare ((dat2 V c).after 3 t) from by
    unfold Dat.leavesExact; rw [live2_3 t], dat2_after3]
  rw [show (dat2 V c).leavesExact 4 t = owns (c : Thread nD τ) (ms2_4 t) fullShare ((dat2 V c).after 4 t) from by
    unfold Dat.leavesExact; rw [live2_4 t], dat2_after4]
  rw [show (dat2 V c).leavesExact 5 t = owns (c : Thread nD τ) (ms2_5 t) fullShare ((dat2 V c).after 5 t) from by
    unfold Dat.leavesExact; rw [live2_5 t], dat2_after5]
  have hN : t.val < 10 := lt_of_lt_of_eq t.isLt (show cfg2.N = 10 from N_2)
  by_cases hf : t.val % 10 = 0
  · have hl : ¬t.val % 10 = 9 := by omega
    have hz : t.val = 0 := by omega
    rw [Dat.leavesExact_idle (dat2 V c) 6 t (idle2_6 t (fun h => hl ((lastCond2_iff t).mp h))) (noFlush2_6 t (fun h => hl ((lastCond2_iff t).mp h)))]
    rw [Dat.leavesExact_idle (dat2 V c) 7 t (idle2_7 t (fun h => hl ((lastCond2_iff t).mp h))) (noFlush2_7 t (fun h => hl ((lastCond2_iff t).mp h)))]
    rw [stateAt2_first V c t hf hl]
    unfold tileFirst2 sumFirst2 sqFirst2; (try dsimp only)
    rw [dat2_carry V c t, carry2_zero V c _ _ hz, carryEntry2]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst2 c (grid2.coords t) _ _ _ _ _ _ _ _ _ _ _ _ _ _ _ _ _ _ _ _ ((firstCond2_iff t).mpr hf) (fun h => hl ((lastCond2_iff t).mp h)) (blockAt2 V c 0 t) (blockAt2 V c 1 t) (blockAt2 V c 2 t) (blockAt2 V c 3 t) (blockAt2 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst2_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst2_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst2_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat2 V c).leavesExact 6 t = owns (c : Thread nD τ) (ms2_6 t) fullShare ((dat2 V c).after 6 t) from by
        unfold Dat.leavesExact; rw [live2_6 t ((lastCond2_iff t).mpr hl)], dat2_after6]
      rw [show (dat2 V c).leavesExact 7 t = owns (c : Thread nD τ) (ms2_7 t) fullShare ((dat2 V c).after 7 t) from by
        unfold Dat.leavesExact; rw [live2_7 t ((lastCond2_iff t).mpr hl)], dat2_after7]
      rw [stateAt2_last V c t hf hl]
      unfold tileLast2 outSumLast2 outSqLast2 sumLast2 sqLast2; (try dsimp only)
      rw [dat2_carry V c t, carry2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast2 c (grid2.coords t) _ _ _ _ _ _ _ _ _ _ _ _ _ _ _ _ _ _ _ _ (fun h => hf ((firstCond2_iff t).mp h)) ((lastCond2_iff t).mpr hl) (blockAt2 V c 0 t) (blockAt2 V c 1 t) (blockAt2 V c 2 t) (blockAt2 V c 3 t) (blockAt2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast2_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast2_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast2_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast2_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast2_cover c _ _ _ _ _ _ _ _ _ _ _ _ _ _ _ _ _ _ _ _ _ _ _ _ _ _ _ _ _ _)
    · rw [Dat.leavesExact_idle (dat2 V c) 6 t (idle2_6 t (fun h => hl ((lastCond2_iff t).mp h))) (noFlush2_6 t (fun h => hl ((lastCond2_iff t).mp h)))]
      rw [Dat.leavesExact_idle (dat2 V c) 7 t (idle2_7 t (fun h => hl ((lastCond2_iff t).mp h))) (noFlush2_7 t (fun h => hl ((lastCond2_iff t).mp h)))]
      rw [stateAt2_mid V c t hf hl]
      unfold tileMid2 sumMid2 sqMid2; (try dsimp only)
      rw [dat2_carry V c t, carry2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid2 c (grid2.coords t) _ _ _ _ _ _ _ _ _ _ _ _ _ _ _ _ _ _ _ _ (fun h => hf ((firstCond2_iff t).mp h)) (fun h => hl ((lastCond2_iff t).mp h)) (blockAt2 V c 0 t) (blockAt2 V c 1 t) (blockAt2 V c 2 t) (blockAt2 V c 3 t) (blockAt2 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid2_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid2_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid2_cover c _ _ _ _ _ _ _ _ _ _ _ _ _ _ _ _ _ _ _ _ _ _ _ _ _ _ _ _ _ _)
      isplitl [H6]; · iexists _; iexact H6
      iexists _; iexact H7

/-- The library's body obligation of region 2, at every point. -/
theorem obligation2 (c : Dev nD) : BodyObligation (dat2 (F := F) V c) (defs₀ (F := F)) Variants.none () Set.univ := fun t => by
  rw [bigSep_W2, bigSep_W2]
  exact pointRun2 V c t

/-- Entering the region: the class's invariant is the invariant before the first tile. -/
theorem carry2_in (c : Dev nD) : Pipeline.ΦA spec2 c ⊢ (dat2 V c).Φ 0 := by
  rw [show (dat2 V c).Φ 0 = carry2 V c 0 (Nat.zero_le _) from rfl, carry2_zero V c 0 _ rfl]
  try exact Idealize.SL.BI.Entails.refl _

/-- Leaving it: after the last tile the invariant gives the class's back, the scratch rows' contents forgotten. -/
theorem carry2_out (c : Dev nD) : (dat2 V c).Φ (Fin.last cfg2.N) ⊢ Pipeline.ΦA spec2 c := by
  rw [show (dat2 V c).Φ (Fin.last cfg2.N) = carry2 V c cfg2.N (Nat.le_refl _) from rfl,
    carry2_pos V c _ _ (by rw [show cfg2.N = 10 from N_2]; decide), carryEntry2]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.Kernel.Gen
end
-- ==== Proof.K.MlpRun4.lean ====
/-
  Region 4 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond4 (i : grid4.Coords) : Prop := (Scalar.cmpi .ne (Scalar.extui (Scalar.cmpi .eq (BitVec.ofNat 32 (i 0).val) 0#32)) 0#32) = 1#1
theorem firstCond4_iff : ∀ t : Fin cfg4.N, firstCond4 (grid4.coords t) ↔ t.val % 10 = 0 :=
  (by decide +kernel : ∀ t : Fin grid4.N, firstCond4 (grid4.coords t) ↔ t.val % 10 = 0)
/-- The body's second conditional: this is the last tile. -/
abbrev lastCond4 (i : grid4.Coords) : Prop := k4_cond2 i = 1#1
theorem lastCond4_iff : ∀ t : Fin cfg4.N, lastCond4 (grid4.coords t) ↔ t.val % 10 = 9 :=
  (by decide +kernel : ∀ t : Fin grid4.N, lastCond4 (grid4.coords t) ↔ t.val % 10 = 9)

/-! ## Where the windows are idle -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel
/-- Away from the last tile the two statistics outputs are idle and not written back. -/
theorem idle4_6 : ∀ t : Fin cfg4.N, ¬lastCond4 (grid4.coords t) → cfg4.idle 6 (grid4.coords t) = true := by decide +kernel
theorem idle4_7 : ∀ t : Fin cfg4.N, ¬lastCond4 (grid4.coords t) → cfg4.idle 7 (grid4.coords t) = true := by decide +kernel
theorem noFlush4_6 : ∀ t : Fin cfg4.N, ¬lastCond4 (grid4.coords t) → (cfg4.win 6).flush t = false := by decide +kernel
theorem noFlush4_7 : ∀ t : Fin cfg4.N, ¬lastCond4 (grid4.coords t) → (cfg4.win 7).flush t = false := by decide +kernel
/-- At the last tile they are live. -/
theorem live4_6 : ∀ t : Fin cfg4.N, lastCond4 (grid4.coords t) → cfg4.idle 6 (grid4.coords t) = false := by decide +kernel
theorem live4_7 : ∀ t : Fin cfg4.N, lastCond4 (grid4.coords t) → cfg4.idle 7 (grid4.coords t) = false := by decide +kernel

/-! ## The staging memrefs at a point, the scratch rows, and the views contents are stated through -/
abbrev ms4_0 (t : Fin cfg4.N) : Memref sig .tc .vmem S1000x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x512 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1000x512 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x512 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x512 .f32 := win4_7.stage (cfg4.slots t 7)
abbrev hs4_7 (t : Fin cfg4.N) : (ms4_7 t).IsWhole := hstage4_7 ((cfg4.slots t 7).cast nbuf4_7)
/-- The two scratch rows: whole scoped buffers of the kernel's own. -/
abbrev sc4_0 : Memref sig .tc .vmem S1x512 .f32 := Memref.whole cc4_scratch0
abbrev sc4_1 : Memref sig .tc .vmem S1x512 .f32 := Memref.whole cc4_scratch1
/-- The views through which a tile's and a row's contents are stated (the choice does not matter). -/
abbrev tileView4 : View sig .tc .vmem S1000x512 .f32 := (Memref.whole cc4_stg5_0 : Memref sig .tc .vmem S1000x512 .f32).view
abbrev rowView4 : View sig .tc .vmem S1x512 .f32 := sc4_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc4__mlp_stats_kernel_eq_skeleton]; unfold cc4__mlp_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc4__mlp_stats_kernel_eq_skeleton]; unfold cc4__mlp_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__mlp_stats_kernel_eq_skeleton]; unfold cc4__mlp_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Gen
end
-- ==== Proof.K.MlpDat4.lean ====
/-
  Region 4 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.K.MlpRun4

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  (y : S1000x512.Idx) :
    ∃ pc ∈ (runFirst4 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst4 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  : Vec F S1000x512 .f32 :=
  tileView4.read (Elt F) (tileView4.writes (Elt F) tileView4.junk (runFirst4 c i arg1 harg1 arg2 harg2 arg3 harg3 arg4 harg4 arg5 harg5 arg6 harg6 arg7 harg7 arg8 harg8 arg9 harg9 arg10 harg10 h1 h2 x0 x1 x2 x3 x4 ).1)

theorem sumFirst4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst4 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst4 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  : Vec F S1x512 .f32 :=
  rowView4.read (Elt F) (rowView4.writes (Elt F) rowView4.junk (runFirst4 c i arg1 harg1 arg2 harg2 arg3 harg3 arg4 harg4 arg5 harg5 arg6 harg6 arg7 harg7 arg8 harg8 arg9 harg9 arg10 harg10 h1 h2 x0 x1 x2 x3 x4 ).2.1)

theorem sqFirst4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst4 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst4 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  : Vec F S1x512 .f32 :=
  rowView4.read (Elt F) (rowView4.writes (Elt F) rowView4.junk (runFirst4 c i arg1 harg1 arg2 harg2 arg3 harg3 arg4 harg4 arg5 harg5 arg6 harg6 arg7 harg7 arg8 harg8 arg9 harg9 arg10 harg10 h1 h2 x0 x1 x2 x3 x4 ).2.2.1)

theorem tileMid4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runMid4 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid4 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView4.read (Elt F) (tileView4.writes (Elt F) tileView4.junk (runMid4 c i arg1 harg1 arg2 harg2 arg3 harg3 arg4 harg4 arg5 harg5 arg6 harg6 arg7 harg7 arg8 harg8 arg9 harg9 arg10 harg10 h1 h2 x0 x1 x2 x3 x4 s q).1)

theorem sumMid4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid4 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid4 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runMid4 c i arg1 harg1 arg2 harg2 arg3 harg3 arg4 harg4 arg5 harg5 arg6 harg6 arg7 harg7 arg8 harg8 arg9 harg9 arg10 harg10 h1 h2 x0 x1 x2 x3 x4 s q).2.1)

theorem sqMid4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid4 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid4 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runMid4 c i arg1 harg1 arg2 harg2 arg3 harg3 arg4 harg4 arg5 harg5 arg6 harg6 arg7 harg7 arg8 harg8 arg9 harg9 arg10 harg10 h1 h2 x0 x1 x2 x3 x4 s q).2.2.1)

theorem tileLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView4.read (Elt F) (tileView4.writes (Elt F) tileView4.junk (runLast4 c i arg1 harg1 arg2 harg2 arg3 harg3 arg4 harg4 arg5 harg5 arg6 harg6 arg7 harg7 arg8 harg8 arg9 harg9 arg10 harg10 h1 h2 x0 x1 x2 x3 x4 s q).1)

theorem outSumLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runLast4 c i arg1 harg1 arg2 harg2 arg3 harg3 arg4 harg4 arg5 harg5 arg6 harg6 arg7 harg7 arg8 harg8 arg9 harg9 arg10 harg10 h1 h2 x0 x1 x2 x3 x4 s q).2.1)

theorem outSqLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runLast4 c i arg1 harg1 arg2 harg2 arg3 harg3 arg4 harg4 arg5 harg5 arg6 harg6 arg7 harg7 arg8 harg8 arg9 harg9 arg10 harg10 h1 h2 x0 x1 x2 x3 x4 s q).2.2.1)

theorem sumLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runLast4 c i arg1 harg1 arg2 harg2 arg3 harg3 arg4 harg4 arg5 harg5 arg6 harg6 arg7 harg7 arg8 harg8 arg9 harg9 arg10 harg10 h1 h2 x0 x1 x2 x3 x4 s q).2.2.2.1)

theorem sqLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runLast4 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry4 (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sc4_0, sc4_1, owns_whole]
  rfl

section
variable (V : (c : Dev nD) → (b : Ref sig .tc) → Buf (Elt F) ((c : Thread nD τ).loc b))

/-- Window w's block at grid point t, read off the window's array as the region finds it. -/
def blockAt4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds the window's block at every point, fetched there or not. -/
theorem found4_0 {c : Dev nD} (dat : Dat τ (Elt F) Unit ℕ (UR sig nD τ) ℕ cfg4 c) (hA : dat.A 0 = V c (Pipeline.arrRef spec4 0))
    (hafter : ∀ t, dat.after 0 t = blockAt4 V c 0 t) (t : Fin cfg4.N) (d) : dat.before 0 t d = blockAt4 V c 0 t :=
  (dat.before_in_eq_fetched 0 rfl (fun _ => rfl) (fun _ _ _ => rfl) (fun t => by rw [hafter]; unfold Dat.blockOf blockAt4; rw [hA]; try rfl) t d).trans
    (by unfold Dat.fetched Dat.blockOf blockAt4; rw [hA]; try rfl)
theorem found4_1 {c : Dev nD} (dat : Dat τ (Elt F) Unit ℕ (UR sig nD τ) ℕ cfg4 c) (hA : dat.A 1 = V c (Pipeline.arrRef spec4 1))
    (hafter : ∀ t, dat.after 1 t = blockAt4 V c 1 t) (t : Fin cfg4.N) (d) : dat.before 1 t d = blockAt4 V c 1 t :=
  (dat.before_in_eq_fetched 1 rfl (fun _ => rfl) (fun _ _ _ => rfl) (fun t => by rw [hafter]; unfold Dat.blockOf blockAt4; rw [hA]; try rfl) t d).trans
    (by unfold Dat.fetched Dat.blockOf blockAt4; rw [hA]; try rfl)
theorem found4_2 {c : Dev nD} (dat : Dat τ (Elt F) Unit ℕ (UR sig nD τ) ℕ cfg4 c) (hA : dat.A 2 = V c (Pipeline.arrRef spec4 2))
    (hafter : ∀ t, dat.after 2 t = blockAt4 V c 2 t) (t : Fin cfg4.N) (d) : dat.before 2 t d = blockAt4 V c 2 t :=
  (dat.before_in_eq_fetched 2 rfl (fun _ => rfl) (fun _ _ _ => rfl) (fun t => by rw [hafter]; unfold Dat.blockOf blockAt4; rw [hA]; try rfl) t d).trans
    (by unfold Dat.fetched Dat.blockOf blockAt4; rw [hA]; try rfl)
theorem found4_3 {c : Dev nD} (dat : Dat τ (Elt F) Unit ℕ (UR sig nD τ) ℕ cfg4 c) (hA : dat.A 3 = V c (Pipeline.arrRef spec4 3))
    (hafter : ∀ t, dat.after 3 t = blockAt4 V c 3 t) (t : Fin cfg4.N) (d) : dat.before 3 t d = blockAt4 V c 3 t :=
  (dat.before_in_eq_fetched 3 rfl (fun _ => rfl) (fun _ _ _ => rfl) (fun t => by rw [hafter]; unfold Dat.blockOf blockAt4; rw [hA]; try rfl) t d).trans
    (by unfold Dat.fetched Dat.blockOf blockAt4; rw [hA]; try rfl)
theorem found4_4 {c : Dev nD} (dat : Dat τ (Elt F) Unit ℕ (UR sig nD τ) ℕ cfg4 c) (hA : dat.A 4 = V c (Pipeline.arrRef spec4 4))
    (hafter : ∀ t, dat.after 4 t = blockAt4 V c 4 t) (t : Fin cfg4.N) (d) : dat.before 4 t d = blockAt4 V c 4 t :=
  (dat.before_in_eq_fetched 4 rfl (fun _ => rfl) (fun _ _ _ => rfl) (fun t => by rw [hafter]; unfold Dat.blockOf blockAt4; rw [hA]; try rfl) t d).trans
    (by unfold Dat.fetched Dat.blockOf blockAt4; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt4 (c : Dev nD) : (n : ℕ) → n < cfg4.N →
    Vec F S1000x512 .f32 × Vec F S1x512 .f32 × Vec F S1x512 .f32 × Vec F S1x512 .f32 × Vec F S1x512 .f32
  | 0, hn => (tileFirst4 c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) sc4_0 (Memref.isWhole_whole _) sc4_1 (Memref.isWhole_whole _) ((firstCond4_iff (⟨0, hn⟩ : Fin cfg4.N)).mpr (Nat.zero_mod _)) (fun h => by have h' := (lastCond4_iff (⟨0, hn⟩ : Fin cfg4.N)).mp h; (try dsimp only at h'); omega) (blockAt4 V c 0 (⟨0, hn⟩ : Fin cfg4.N)) (blockAt4 V c 1 (⟨0, hn⟩ : Fin cfg4.N)) (blockAt4 V c 2 (⟨0, hn⟩ : Fin cfg4.N)) (blockAt4 V c 3 (⟨0, hn⟩ : Fin cfg4.N)) (blockAt4 V c 4 (⟨0, hn⟩ : Fin cfg4.N)),
      (rowView4.read (Elt F) rowView4.junk), (rowView4.read (Elt F) rowView4.junk),
      sumFirst4 c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) sc4_0 (Memref.isWhole_whole _) sc4_1 (Memref.isWhole_whole _) ((firstCond4_iff (⟨0, hn⟩ : Fin cfg4.N)).mpr (Nat.zero_mod _)) (fun h => by have h' := (lastCond4_iff (⟨0, hn⟩ : Fin cfg4.N)).mp h; (try dsimp only at h'); omega) (blockAt4 V c 0 (⟨0, hn⟩ : Fin cfg4.N)) (blockAt4 V c 1 (⟨0, hn⟩ : Fin cfg4.N)) (blockAt4 V c 2 (⟨0, hn⟩ : Fin cfg4.N)) (blockAt4 V c 3 (⟨0, hn⟩ : Fin cfg4.N)) (blockAt4 V c 4 (⟨0, hn⟩ : Fin cfg4.N)),
      sqFirst4 c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) sc4_0 (Memref.isWhole_whole _) sc4_1 (Memref.isWhole_whole _) ((firstCond4_iff (⟨0, hn⟩ : Fin cfg4.N)).mpr (Nat.zero_mod _)) (fun h => by have h' := (lastCond4_iff (⟨0, hn⟩ : Fin cfg4.N)).mp h; (try dsimp only at h'); omega) (blockAt4 V c 0 (⟨0, hn⟩ : Fin cfg4.N)) (blockAt4 V c 1 (⟨0, hn⟩ : Fin cfg4.N)) (blockAt4 V c 2 (⟨0, hn⟩ : Fin cfg4.N)) (blockAt4 V c 3 (⟨0, hn⟩ : Fin cfg4.N)) (blockAt4 V c 4 (⟨0, hn⟩ : Fin cfg4.N)))
  | n + 1, hn =>
    if hl : (n + 1) % 10 = 9 then
      (tileLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       outSumLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       outSqLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       sumLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       sqLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2)
    else
      (tileMid4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) (fun h => hl ((lastCond4_iff (⟨n + 1, hn⟩ : Fin cfg4.N)).mp h)) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       (rowView4.read (Elt F) rowView4.junk), (rowView4.read (Elt F) rowView4.junk),
       sumMid4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) (fun h => hl ((lastCond4_iff (⟨n + 1, hn⟩ : Fin cfg4.N)).mp h)) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       sqMid4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) (fun h => hl ((lastCond4_iff (⟨n + 1, hn⟩ : Fin cfg4.N)).mp h)) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2)

theorem stateAt4_first (c : Dev nD) (t : Fin cfg4.N) (hf : t.val % 10 = 0) (hl : ¬t.val % 10 = 9) :
    stateAt4 V c t.val t.isLt = (tileFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) ((firstCond4_iff t).mpr hf) (fun h => hl ((lastCond4_iff t).mp h)) (blockAt4 V c 0 t) (blockAt4 V c 1 t) (blockAt4 V c 2 t) (blockAt4 V c 3 t) (blockAt4 V c 4 t),
      (rowView4.read (Elt F) rowView4.junk), (rowView4.read (Elt F) rowView4.junk),
      sumFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) ((firstCond4_iff t).mpr hf) (fun h => hl ((lastCond4_iff t).mp h)) (blockAt4 V c 0 t) (blockAt4 V c 1 t) (blockAt4 V c 2 t) (blockAt4 V c 3 t) (blockAt4 V c 4 t),
      sqFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) ((firstCond4_iff t).mpr hf) (fun h => hl ((lastCond4_iff t).mp h)) (blockAt4 V c 0 t) (blockAt4 V c 1 t) (blockAt4 V c 2 t) (blockAt4 V c 3 t) (blockAt4 V c 4 t)) := by
  obtain ⟨n, hn⟩ := t
  have hN : n < 10 := lt_of_lt_of_eq hn (show cfg4.N = 10 from N_4)
  cases n with
  | zero => exact rfl
  | succ n => exfalso; (try dsimp only at hf); omega

theorem stateAt4_mid (c : Dev nD) (t : Fin cfg4.N) (hf : ¬t.val % 10 = 0) (hl : ¬t.val % 10 = 9) :
    stateAt4 V c t.val t.isLt = (tileMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) (fun h => hl ((lastCond4_iff t).mp h)) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      (rowView4.read (Elt F) rowView4.junk), (rowView4.read (Elt F) rowView4.junk),
      sumMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) (fun h => hl ((lastCond4_iff t).mp h)) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      sqMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) (fun h => hl ((lastCond4_iff t).mp h)) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt4_last (c : Dev nD) (t : Fin cfg4.N) (hf : ¬t.val % 10 = 0) (hl : t.val % 10 = 9) :
    stateAt4 V c t.val t.isLt = (tileLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      outSumLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      outSqLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      sumLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      sqLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry4 (c : Dev nD) : (n : ℕ) → n ≤ cfg4.N → sProp 𝕄
  | 0, _ => Pipeline.ΦA spec4 c
  | n + 1, hn => iprop(iprop(iprop(owns (c : Thread nD τ) sc4_0 fullShare (stateAt4 V c n hn).2.2.2.1 ∗ owns (c : Thread nD τ) sc4_1 fullShare (stateAt4 V c n hn).2.2.2.2)
      ∗ Pipeline.scopedRestBut (Ix := Unit) (Name := ℕ) (U := UR sig nD τ) (Lvl := ℕ) (Val := Elt F) spec4 c [cc4_scratch0, cc4_scratch1])
      ∗ (∃ r, prngReg c r))

theorem carry4_zero (c : Dev nD) (n : ℕ) (h : n ≤ cfg4.N) (hz : n = 0) : carry4 V c n h = Pipeline.ΦA spec4 c := by
  subst hz; rfl
theorem carry4_succ (c : Dev nD) (n : ℕ) (hn : n < cfg4.N) :
    carry4 V c (n + 1) hn = iprop(iprop(iprop(owns (c : Thread nD τ) sc4_0 fullShare (stateAt4 V c n hn).2.2.2.1 ∗ owns (c : Thread nD τ) sc4_1 fullShare (stateAt4 V c n hn).2.2.2.2)
      ∗ Pipeline.scopedRestBut (Ix := Unit) (Name := ℕ) (U := UR sig nD τ) (Lvl := ℕ) (Val := Elt F) spec4 c [cc4_scratch0, cc4_scratch1])
      ∗ (∃ r, prngReg c r)) := rfl
theorem carry4_pos (c : Dev nD) (n : ℕ) (h : n ≤ cfg4.N) (hz : n ≠ 0) :
    carry4 V c n h = iprop(iprop(iprop(owns (c : Thread nD τ) sc4_0 fullShare (stateAt4 V c (n - 1) (by omega)).2.2.2.1 ∗ owns (c : Thread nD τ) sc4_1 fullShare (stateAt4 V c (n - 1) (by omega)).2.2.2.2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-! ## The region's proof data -/

def dat4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => blockAt4 V c 1 t
    | ⟨2, _⟩ => blockAt4 V c 2 t
    | ⟨3, _⟩ => blockAt4 V c 3 t
    | ⟨4, _⟩ => blockAt4 V c 4 t
    | ⟨5, _⟩ => (stateAt4 V c t.val t.isLt).1
    | ⟨6, _⟩ => (stateAt4 V c t.val t.isLt).2.1
    | ⟨7, _⟩ => (stateAt4 V c t.val t.isLt).2.2.1
  Φ t := carry4 V c t.val (Nat.le_of_lt_succ t.isLt)
  q _ := fullShare
  owed _ := 0

theorem dat4_A (c : Dev nD) (w : Fin cfg4.W) : (dat4 V c).A w = V c (Pipeline.arrRef spec4 w) := by
  dsimp only [dat4]
theorem dat4_carry (c : Dev nD) (t : Fin cfg4.N) :
    (dat4 V c).Φ t.castSucc = carry4 V c t.val (Nat.le_of_lt t.isLt) := by
  dsimp only [dat4]; simp only [Fin.coe_castSucc]
theorem dat4_after0 (c : Dev nD) (t : Fin cfg4.N) : (dat4 V c).after 0 t = blockAt4 V c 0 t := by dsimp only [dat4]
theorem dat4_after1 (c : Dev nD) (t : Fin cfg4.N) : (dat4 V c).after 1 t = blockAt4 V c 1 t := by dsimp only [dat4]
theorem dat4_after2 (c : Dev nD) (t : Fin cfg4.N) : (dat4 V c).after 2 t = blockAt4 V c 2 t := by dsimp only [dat4]
theorem dat4_after3 (c : Dev nD) (t : Fin cfg4.N) : (dat4 V c).after 3 t = blockAt4 V c 3 t := by dsimp only [dat4]
theorem dat4_after4 (c : Dev nD) (t : Fin cfg4.N) : (dat4 V c).after 4 t = blockAt4 V c 4 t := by dsimp only [dat4]
theorem dat4_after5 (c : Dev nD) (t : Fin cfg4.N) : (dat4 V c).after 5 t = (stateAt4 V c t.val t.isLt).1 := by dsimp only [dat4]
theorem dat4_after6 (c : Dev nD) (t : Fin cfg4.N) : (dat4 V c).after 6 t = (stateAt4 V c t.val t.isLt).2.1 := by dsimp only [dat4]
theorem dat4_after7 (c : Dev nD) (t : Fin cfg4.N) : (dat4 V c).after 7 t = (stateAt4 V c t.val t.isLt).2.2.1 := by dsimp only [dat4]
theorem dat4_before0 (c : Dev nD) (t : Fin cfg4.N) (d) : (dat4 V c).before 0 t d = blockAt4 V c 0 t :=
  found4_0 V (dat4 V c) (dat4_A V c 0) (dat4_after0 V c) t d
theorem dat4_before1 (c : Dev nD) (t : Fin cfg4.N) (d) : (dat4 V c).before 1 t d = blockAt4 V c 1 t :=
  found4_1 V (dat4 V c) (dat4_A V c 1) (dat4_after1 V c) t d
theorem dat4_before2 (c : Dev nD) (t : Fin cfg4.N) (d) : (dat4 V c).before 2 t d = blockAt4 V c 2 t :=
  found4_2 V (dat4 V c) (dat4_A V c 2) (dat4_after2 V c) t d
theorem dat4_before3 (c : Dev nD) (t : Fin cfg4.N) (d) : (dat4 V c).before 3 t d = blockAt4 V c 3 t :=
  found4_3 V (dat4 V c) (dat4_A V c 3) (dat4_after3 V c) t d
theorem dat4_before4 (c : Dev nD) (t : Fin cfg4.N) (d) : (dat4 V c).before 4 t d = blockAt4 V c 4 t :=
  found4_4 V (dat4 V c) (dat4_A V c 4) (dat4_after4 V c) t d

/-! ## The body obligation -/

def pre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def post4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
theorem pointRun4 (c : Dev nD) (t : Fin cfg4.N) :
    pre4 V c t ⊢ wp frame (wpE (defs₀ (F := F)) Variants.none c none) Set.univ (bodyAt4 t) (fun _ => post4 V c t) := by
  unfold pre4 post4 bodyAt4
  simp only [dat4_before0, dat4_before1, dat4_before2, dat4_before3, dat4_before4]
  rw [show (dat4 V c).owesAt () t.succ = (dat4 V c).owesAt () t.castSucc from rfl]
  rw [show (dat4 V c).Φ t.succ = carry4 V c (t.val + 1) t.isLt from rfl, carry4_succ]
  rw [show (dat4 V c).leavesExact 0 t = owns (c : Thread nD τ) (ms4_0 t) fullShare ((dat4 V c).after 0 t) from by
    unfold Dat.leavesExact; rw [live4_0 t], dat4_after0]
  rw [show (dat4 V c).leavesExact 1 t = owns (c : Thread nD τ) (ms4_1 t) fullShare ((dat4 V c).after 1 t) from by
    unfold Dat.leavesExact; rw [live4_1 t], dat4_after1]
  rw [show (dat4 V c).leavesExact 2 t = owns (c : Thread nD τ) (ms4_2 t) fullShare ((dat4 V c).after 2 t) from by
    unfold Dat.leavesExact; rw [live4_2 t], dat4_after2]
  rw [show (dat4 V c).leavesExact 3 t = owns (c : Thread nD τ) (ms4_3 t) fullShare ((dat4 V c).after 3 t) from by
    unfold Dat.leavesExact; rw [live4_3 t], dat4_after3]
  rw [show (dat4 V c).leavesExact 4 t = owns (c : Thread nD τ) (ms4_4 t) fullShare ((dat4 V c).after 4 t) from by
    unfold Dat.leavesExact; rw [live4_4 t], dat4_after4]
  rw [show (dat4 V c).leavesExact 5 t = owns (c : Thread nD τ) (ms4_5 t) fullShare ((dat4 V c).after 5 t) from by
    unfold Dat.leavesExact; rw [live4_5 t], dat4_after5]
  have hN : t.val < 10 := lt_of_lt_of_eq t.isLt (show cfg4.N = 10 from N_4)
  by_cases hf : t.val % 10 = 0
  · have hl : ¬t.val % 10 = 9 := by omega
    have hz : t.val = 0 := by omega
    rw [Dat.leavesExact_idle (dat4 V c) 6 t (idle4_6 t (fun h => hl ((lastCond4_iff t).mp h))) (noFlush4_6 t (fun h => hl ((lastCond4_iff t).mp h)))]
    rw [Dat.leavesExact_idle (dat4 V c) 7 t (idle4_7 t (fun h => hl ((lastCond4_iff t).mp h))) (noFlush4_7 t (fun h => hl ((lastCond4_iff t).mp h)))]
    rw [stateAt4_first V c t hf hl]
    unfold tileFirst4 sumFirst4 sqFirst4; (try dsimp only)
    rw [dat4_carry V c t, carry4_zero V c _ _ hz, carryEntry4]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst4 c (grid4.coords t) _ _ _ _ _ _ _ _ _ _ _ _ _ _ _ _ _ _ _ _ ((firstCond4_iff t).mpr hf) (fun h => hl ((lastCond4_iff t).mp h)) (blockAt4 V c 0 t) (blockAt4 V c 1 t) (blockAt4 V c 2 t) (blockAt4 V c 3 t) (blockAt4 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst4_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst4_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst4_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat4 V c).leavesExact 6 t = owns (c : Thread nD τ) (ms4_6 t) fullShare ((dat4 V c).after 6 t) from by
        unfold Dat.leavesExact; rw [live4_6 t ((lastCond4_iff t).mpr hl)], dat4_after6]
      rw [show (dat4 V c).leavesExact 7 t = owns (c : Thread nD τ) (ms4_7 t) fullShare ((dat4 V c).after 7 t) from by
        unfold Dat.leavesExact; rw [live4_7 t ((lastCond4_iff t).mpr hl)], dat4_after7]
      rw [stateAt4_last V c t hf hl]
      unfold tileLast4 outSumLast4 outSqLast4 sumLast4 sqLast4; (try dsimp only)
      rw [dat4_carry V c t, carry4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast4 c (grid4.coords t) _ _ _ _ _ _ _ _ _ _ _ _ _ _ _ _ _ _ _ _ (fun h => hf ((firstCond4_iff t).mp h)) ((lastCond4_iff t).mpr hl) (blockAt4 V c 0 t) (blockAt4 V c 1 t) (blockAt4 V c 2 t) (blockAt4 V c 3 t) (blockAt4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast4_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast4_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast4_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast4_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast4_cover c _ _ _ _ _ _ _ _ _ _ _ _ _ _ _ _ _ _ _ _ _ _ _ _ _ _ _ _ _ _)
    · rw [Dat.leavesExact_idle (dat4 V c) 6 t (idle4_6 t (fun h => hl ((lastCond4_iff t).mp h))) (noFlush4_6 t (fun h => hl ((lastCond4_iff t).mp h)))]
      rw [Dat.leavesExact_idle (dat4 V c) 7 t (idle4_7 t (fun h => hl ((lastCond4_iff t).mp h))) (noFlush4_7 t (fun h => hl ((lastCond4_iff t).mp h)))]
      rw [stateAt4_mid V c t hf hl]
      unfold tileMid4 sumMid4 sqMid4; (try dsimp only)
      rw [dat4_carry V c t, carry4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid4 c (grid4.coords t) _ _ _ _ _ _ _ _ _ _ _ _ _ _ _ _ _ _ _ _ (fun h => hf ((firstCond4_iff t).mp h)) (fun h => hl ((lastCond4_iff t).mp h)) (blockAt4 V c 0 t) (blockAt4 V c 1 t) (blockAt4 V c 2 t) (blockAt4 V c 3 t) (blockAt4 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid4_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid4_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid4_cover c _ _ _ _ _ _ _ _ _ _ _ _ _ _ _ _ _ _ _ _ _ _ _ _ _ _ _ _ _ _)
      isplitl [H6]; · iexists _; iexact H6
      iexists _; iexact H7

/-- The library's body obligation of region 4, at every point. -/
theorem obligation4 (c : Dev nD) : BodyObligation (dat4 (F := F) V c) (defs₀ (F := F)) Variants.none () Set.univ := fun t => by
  rw [bigSep_W4, bigSep_W4]
  exact pointRun4 V c t

/-- Entering the region: the class's invariant is the invariant before the first tile. -/
theorem carry4_in (c : Dev nD) : Pipeline.ΦA spec4 c ⊢ (dat4 V c).Φ 0 := by
  rw [show (dat4 V c).Φ 0 = carry4 V c 0 (Nat.zero_le _) from rfl, carry4_zero V c 0 _ rfl]
  try exact Idealize.SL.BI.Entails.refl _

/-- Leaving it: after the last tile the invariant gives the class's back, the scratch rows' contents forgotten. -/
theorem carry4_out (c : Dev nD) : (dat4 V c).Φ (Fin.last cfg4.N) ⊢ Pipeline.ΦA spec4 c := by
  rw [show (dat4 V c).Φ (Fin.last cfg4.N) = carry4 V c cfg4.N (Nat.le_refl _) from rfl,
    carry4_pos V c _ _ (by rw [show cfg4.N = 10 from N_4]; decide), carryEntry4]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.Kernel.Gen
end
-- ==== Proof.K.MlpRun6.lean ====
/-
  Region 6 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond6 (i : grid6.Coords) : Prop := (Scalar.cmpi .ne (Scalar.extui (Scalar.cmpi .eq (BitVec.ofNat 32 (i 0).val) 0#32)) 0#32) = 1#1
theorem firstCond6_iff : ∀ t : Fin cfg6.N, firstCond6 (grid6.coords t) ↔ t.val % 10 = 0 :=
  (by decide +kernel : ∀ t : Fin grid6.N, firstCond6 (grid6.coords t) ↔ t.val % 10 = 0)
/-- The body's second conditional: this is the last tile. -/
abbrev lastCond6 (i : grid6.Coords) : Prop := k6_cond2 i = 1#1
theorem lastCond6_iff : ∀ t : Fin cfg6.N, lastCond6 (grid6.coords t) ↔ t.val % 10 = 9 :=
  (by decide +kernel : ∀ t : Fin grid6.N, lastCond6 (grid6.coords t) ↔ t.val % 10 = 9)

/-! ## Where the windows are idle -/
theorem live6_0 : ∀ t : Fin cfg6.N, cfg6.idle 0 (grid6.coords t) = false := by decide +kernel
theorem live6_1 : ∀ t : Fin cfg6.N, cfg6.idle 1 (grid6.coords t) = false := by decide +kernel
theorem live6_2 : ∀ t : Fin cfg6.N, cfg6.idle 2 (grid6.coords t) = false := by decide +kernel
theorem live6_3 : ∀ t : Fin cfg6.N, cfg6.idle 3 (grid6.coords t) = false := by decide +kernel
theorem live6_4 : ∀ t : Fin cfg6.N, cfg6.idle 4 (grid6.coords t) = false := by decide +kernel
theorem live6_5 : ∀ t : Fin cfg6.N, cfg6.idle 5 (grid6.coords t) = false := by decide +kernel
/-- Away from the last tile the two statistics outputs are idle and not written back. -/
theorem idle6_6 : ∀ t : Fin cfg6.N, ¬lastCond6 (grid6.coords t) → cfg6.idle 6 (grid6.coords t) = true := by decide +kernel
theorem idle6_7 : ∀ t : Fin cfg6.N, ¬lastCond6 (grid6.coords t) → cfg6.idle 7 (grid6.coords t) = true := by decide +kernel
theorem noFlush6_6 : ∀ t : Fin cfg6.N, ¬lastCond6 (grid6.coords t) → (cfg6.win 6).flush t = false := by decide +kernel
theorem noFlush6_7 : ∀ t : Fin cfg6.N, ¬lastCond6 (grid6.coords t) → (cfg6.win 7).flush t = false := by decide +kernel
/-- At the last tile they are live. -/
theorem live6_6 : ∀ t : Fin cfg6.N, lastCond6 (grid6.coords t) → cfg6.idle 6 (grid6.coords t) = false := by decide +kernel
theorem live6_7 : ∀ t : Fin cfg6.N, lastCond6 (grid6.coords t) → cfg6.idle 7 (grid6.coords t) = false := by decide +kernel

/-! ## The staging memrefs at a point, the scratch rows, and the views contents are stated through -/
abbrev ms6_0 (t : Fin cfg6.N) : Memref sig .tc .vmem S1000x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x512 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x512 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S512x512 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x512 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1000x512 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x512 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x512 .f32 := win6_7.stage (cfg6.slots t 7)
abbrev hs6_7 (t : Fin cfg6.N) : (ms6_7 t).IsWhole := hstage6_7 ((cfg6.slots t 7).cast nbuf6_7)
/-- The two scratch rows: whole scoped buffers of the kernel's own. -/
abbrev sc6_0 : Memref sig .tc .vmem S1x512 .f32 := Memref.whole cc6_scratch0
abbrev sc6_1 : Memref sig .tc .vmem S1x512 .f32 := Memref.whole cc6_scratch1
/-- The views through which a tile's and a row's contents are stated (the choice does not matter). -/
abbrev tileView6 : View sig .tc .vmem S1000x512 .f32 := (Memref.whole cc6_stg5_0 : Memref sig .tc .vmem S1000x512 .f32).view
abbrev rowView6 : View sig .tc .vmem S1x512 .f32 := sc6_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc6__mlp_stats_kernel_eq_skeleton]; unfold cc6__mlp_stats_kernel_skel
    simp only [k6_part1_eq_skeleton]; unfold k6_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc6__mlp_stats_kernel_eq_skeleton]; unfold cc6__mlp_stats_kernel_skel
    simp only [k6_part1_eq_skeleton]; unfold k6_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc6__mlp_stats_kernel_eq_skeleton]; unfold cc6__mlp_stats_kernel_skel
    simp only [k6_part1_eq_skeleton]; unfold k6_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Gen
end
-- ==== Proof.K.MlpDat6.lean ====
/-
  Region 6 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.K.MlpRun6

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  (y : S1000x512.Idx) :
    ∃ pc ∈ (runFirst6 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst6 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  : Vec F S1000x512 .f32 :=
  tileView6.read (Elt F) (tileView6.writes (Elt F) tileView6.junk (runFirst6 c i arg1 harg1 arg2 harg2 arg3 harg3 arg4 harg4 arg5 harg5 arg6 harg6 arg7 harg7 arg8 harg8 arg9 harg9 arg10 harg10 h1 h2 x0 x1 x2 x3 x4 ).1)

theorem sumFirst6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst6 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst6 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  : Vec F S1x512 .f32 :=
  rowView6.read (Elt F) (rowView6.writes (Elt F) rowView6.junk (runFirst6 c i arg1 harg1 arg2 harg2 arg3 harg3 arg4 harg4 arg5 harg5 arg6 harg6 arg7 harg7 arg8 harg8 arg9 harg9 arg10 harg10 h1 h2 x0 x1 x2 x3 x4 ).2.1)

theorem sqFirst6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst6 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst6 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  : Vec F S1x512 .f32 :=
  rowView6.read (Elt F) (rowView6.writes (Elt F) rowView6.junk (runFirst6 c i arg1 harg1 arg2 harg2 arg3 harg3 arg4 harg4 arg5 harg5 arg6 harg6 arg7 harg7 arg8 harg8 arg9 harg9 arg10 harg10 h1 h2 x0 x1 x2 x3 x4 ).2.2.1)

theorem tileMid6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runMid6 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid6 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView6.read (Elt F) (tileView6.writes (Elt F) tileView6.junk (runMid6 c i arg1 harg1 arg2 harg2 arg3 harg3 arg4 harg4 arg5 harg5 arg6 harg6 arg7 harg7 arg8 harg8 arg9 harg9 arg10 harg10 h1 h2 x0 x1 x2 x3 x4 s q).1)

theorem sumMid6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid6 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid6 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runMid6 c i arg1 harg1 arg2 harg2 arg3 harg3 arg4 harg4 arg5 harg5 arg6 harg6 arg7 harg7 arg8 harg8 arg9 harg9 arg10 harg10 h1 h2 x0 x1 x2 x3 x4 s q).2.1)

theorem sqMid6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid6 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid6 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runMid6 c i arg1 harg1 arg2 harg2 arg3 harg3 arg4 harg4 arg5 harg5 arg6 harg6 arg7 harg7 arg8 harg8 arg9 harg9 arg10 harg10 h1 h2 x0 x1 x2 x3 x4 s q).2.2.1)

theorem tileLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView6.read (Elt F) (tileView6.writes (Elt F) tileView6.junk (runLast6 c i arg1 harg1 arg2 harg2 arg3 harg3 arg4 harg4 arg5 harg5 arg6 harg6 arg7 harg7 arg8 harg8 arg9 harg9 arg10 harg10 h1 h2 x0 x1 x2 x3 x4 s q).1)

theorem outSumLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runLast6 c i arg1 harg1 arg2 harg2 arg3 harg3 arg4 harg4 arg5 harg5 arg6 harg6 arg7 harg7 arg8 harg8 arg9 harg9 arg10 harg10 h1 h2 x0 x1 x2 x3 x4 s q).2.1)

theorem outSqLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runLast6 c i arg1 harg1 arg2 harg2 arg3 harg3 arg4 harg4 arg5 harg5 arg6 harg6 arg7 harg7 arg8 harg8 arg9 harg9 arg10 harg10 h1 h2 x0 x1 x2 x3 x4 s q).2.2.1)

theorem sumLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runLast6 c i arg1 harg1 arg2 harg2 arg3 harg3 arg4 harg4 arg5 harg5 arg6 harg6 arg7 harg7 arg8 harg8 arg9 harg9 arg10 harg10 h1 h2 x0 x1 x2 x3 x4 s q).2.2.2.1)

theorem sqLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runLast6 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry6 (c : Dev nD) :
    (Pipeline.ΦA spec6 c : sProp 𝕄)
      = iprop(iprop(iprop((∃ d, owns (c : Thread nD τ) sc6_0 fullShare d) ∗ (∃ d, owns (c : Thread nD τ) sc6_1 fullShare d))
          ∗ Pipeline.scopedRestBut (Ix := Unit) (Name := ℕ) (U := UR sig nD τ) (Lvl := ℕ) (Val := Elt F) spec6 c [cc6_scratch0, cc6_scratch1])
          ∗ (∃ r, prngReg c r)) := by
  unfold Pipeline.ΦA; rw [scopedRest6_split]; simp only [sc6_0, sc6_1, owns_whole]
  rfl

section
variable (V : (c : Dev nD) → (b : Ref sig .tc) → Buf (Elt F) ((c : Thread nD τ).loc b))

/-- Window w's block at grid point t, read off the window's array as the region finds it. -/
def blockAt6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds the window's block at every point, fetched there or not. -/
theorem found6_0 {c : Dev nD} (dat : Dat τ (Elt F) Unit ℕ (UR sig nD τ) ℕ cfg6 c) (hA : dat.A 0 = V c (Pipeline.arrRef spec6 0))
    (hafter : ∀ t, dat.after 0 t = blockAt6 V c 0 t) (t : Fin cfg6.N) (d) : dat.before 0 t d = blockAt6 V c 0 t :=
  (dat.before_in_eq_fetched 0 rfl (fun _ => rfl) (fun _ _ _ => rfl) (fun t => by rw [hafter]; unfold Dat.blockOf blockAt6; rw [hA]; try rfl) t d).trans
    (by unfold Dat.fetched Dat.blockOf blockAt6; rw [hA]; try rfl)
theorem found6_1 {c : Dev nD} (dat : Dat τ (Elt F) Unit ℕ (UR sig nD τ) ℕ cfg6 c) (hA : dat.A 1 = V c (Pipeline.arrRef spec6 1))
    (hafter : ∀ t, dat.after 1 t = blockAt6 V c 1 t) (t : Fin cfg6.N) (d) : dat.before 1 t d = blockAt6 V c 1 t :=
  (dat.before_in_eq_fetched 1 rfl (fun _ => rfl) (fun _ _ _ => rfl) (fun t => by rw [hafter]; unfold Dat.blockOf blockAt6; rw [hA]; try rfl) t d).trans
    (by unfold Dat.fetched Dat.blockOf blockAt6; rw [hA]; try rfl)
theorem found6_2 {c : Dev nD} (dat : Dat τ (Elt F) Unit ℕ (UR sig nD τ) ℕ cfg6 c) (hA : dat.A 2 = V c (Pipeline.arrRef spec6 2))
    (hafter : ∀ t, dat.after 2 t = blockAt6 V c 2 t) (t : Fin cfg6.N) (d) : dat.before 2 t d = blockAt6 V c 2 t :=
  (dat.before_in_eq_fetched 2 rfl (fun _ => rfl) (fun _ _ _ => rfl) (fun t => by rw [hafter]; unfold Dat.blockOf blockAt6; rw [hA]; try rfl) t d).trans
    (by unfold Dat.fetched Dat.blockOf blockAt6; rw [hA]; try rfl)
theorem found6_3 {c : Dev nD} (dat : Dat τ (Elt F) Unit ℕ (UR sig nD τ) ℕ cfg6 c) (hA : dat.A 3 = V c (Pipeline.arrRef spec6 3))
    (hafter : ∀ t, dat.after 3 t = blockAt6 V c 3 t) (t : Fin cfg6.N) (d) : dat.before 3 t d = blockAt6 V c 3 t :=
  (dat.before_in_eq_fetched 3 rfl (fun _ => rfl) (fun _ _ _ => rfl) (fun t => by rw [hafter]; unfold Dat.blockOf blockAt6; rw [hA]; try rfl) t d).trans
    (by unfold Dat.fetched Dat.blockOf blockAt6; rw [hA]; try rfl)
theorem found6_4 {c : Dev nD} (dat : Dat τ (Elt F) Unit ℕ (UR sig nD τ) ℕ cfg6 c) (hA : dat.A 4 = V c (Pipeline.arrRef spec6 4))
    (hafter : ∀ t, dat.after 4 t = blockAt6 V c 4 t) (t : Fin cfg6.N) (d) : dat.before 4 t d = blockAt6 V c 4 t :=
  (dat.before_in_eq_fetched 4 rfl (fun _ => rfl) (fun _ _ _ => rfl) (fun t => by rw [hafter]; unfold Dat.blockOf blockAt6; rw [hA]; try rfl) t d).trans
    (by unfold Dat.fetched Dat.blockOf blockAt6; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt6 (c : Dev nD) : (n : ℕ) → n < cfg6.N →
    Vec F S1000x512 .f32 × Vec F S1x512 .f32 × Vec F S1x512 .f32 × Vec F S1x512 .f32 × Vec F S1x512 .f32
  | 0, hn => (tileFirst6 c (grid6.coords (⟨0, hn⟩ : Fin cfg6.N)) (ms6_0 (⟨0, hn⟩ : Fin cfg6.N)) (hs6_0 (⟨0, hn⟩ : Fin cfg6.N)) (ms6_1 (⟨0, hn⟩ : Fin cfg6.N)) (hs6_1 (⟨0, hn⟩ : Fin cfg6.N)) (ms6_2 (⟨0, hn⟩ : Fin cfg6.N)) (hs6_2 (⟨0, hn⟩ : Fin cfg6.N)) (ms6_3 (⟨0, hn⟩ : Fin cfg6.N)) (hs6_3 (⟨0, hn⟩ : Fin cfg6.N)) (ms6_4 (⟨0, hn⟩ : Fin cfg6.N)) (hs6_4 (⟨0, hn⟩ : Fin cfg6.N)) (ms6_5 (⟨0, hn⟩ : Fin cfg6.N)) (hs6_5 (⟨0, hn⟩ : Fin cfg6.N)) (ms6_6 (⟨0, hn⟩ : Fin cfg6.N)) (hs6_6 (⟨0, hn⟩ : Fin cfg6.N)) (ms6_7 (⟨0, hn⟩ : Fin cfg6.N)) (hs6_7 (⟨0, hn⟩ : Fin cfg6.N)) sc6_0 (Memref.isWhole_whole _) sc6_1 (Memref.isWhole_whole _) ((firstCond6_iff (⟨0, hn⟩ : Fin cfg6.N)).mpr (Nat.zero_mod _)) (fun h => by have h' := (lastCond6_iff (⟨0, hn⟩ : Fin cfg6.N)).mp h; (try dsimp only at h'); omega) (blockAt6 V c 0 (⟨0, hn⟩ : Fin cfg6.N)) (blockAt6 V c 1 (⟨0, hn⟩ : Fin cfg6.N)) (blockAt6 V c 2 (⟨0, hn⟩ : Fin cfg6.N)) (blockAt6 V c 3 (⟨0, hn⟩ : Fin cfg6.N)) (blockAt6 V c 4 (⟨0, hn⟩ : Fin cfg6.N)),
      (rowView6.read (Elt F) rowView6.junk), (rowView6.read (Elt F) rowView6.junk),
      sumFirst6 c (grid6.coords (⟨0, hn⟩ : Fin cfg6.N)) (ms6_0 (⟨0, hn⟩ : Fin cfg6.N)) (hs6_0 (⟨0, hn⟩ : Fin cfg6.N)) (ms6_1 (⟨0, hn⟩ : Fin cfg6.N)) (hs6_1 (⟨0, hn⟩ : Fin cfg6.N)) (ms6_2 (⟨0, hn⟩ : Fin cfg6.N)) (hs6_2 (⟨0, hn⟩ : Fin cfg6.N)) (ms6_3 (⟨0, hn⟩ : Fin cfg6.N)) (hs6_3 (⟨0, hn⟩ : Fin cfg6.N)) (ms6_4 (⟨0, hn⟩ : Fin cfg6.N)) (hs6_4 (⟨0, hn⟩ : Fin cfg6.N)) (ms6_5 (⟨0, hn⟩ : Fin cfg6.N)) (hs6_5 (⟨0, hn⟩ : Fin cfg6.N)) (ms6_6 (⟨0, hn⟩ : Fin cfg6.N)) (hs6_6 (⟨0, hn⟩ : Fin cfg6.N)) (ms6_7 (⟨0, hn⟩ : Fin cfg6.N)) (hs6_7 (⟨0, hn⟩ : Fin cfg6.N)) sc6_0 (Memref.isWhole_whole _) sc6_1 (Memref.isWhole_whole _) ((firstCond6_iff (⟨0, hn⟩ : Fin cfg6.N)).mpr (Nat.zero_mod _)) (fun h => by have h' := (lastCond6_iff (⟨0, hn⟩ : Fin cfg6.N)).mp h; (try dsimp only at h'); omega) (blockAt6 V c 0 (⟨0, hn⟩ : Fin cfg6.N)) (blockAt6 V c 1 (⟨0, hn⟩ : Fin cfg6.N)) (blockAt6 V c 2 (⟨0, hn⟩ : Fin cfg6.N)) (blockAt6 V c 3 (⟨0, hn⟩ : Fin cfg6.N)) (blockAt6 V c 4 (⟨0, hn⟩ : Fin cfg6.N)),
      sqFirst6 c (grid6.coords (⟨0, hn⟩ : Fin cfg6.N)) (ms6_0 (⟨0, hn⟩ : Fin cfg6.N)) (hs6_0 (⟨0, hn⟩ : Fin cfg6.N)) (ms6_1 (⟨0, hn⟩ : Fin cfg6.N)) (hs6_1 (⟨0, hn⟩ : Fin cfg6.N)) (ms6_2 (⟨0, hn⟩ : Fin cfg6.N)) (hs6_2 (⟨0, hn⟩ : Fin cfg6.N)) (ms6_3 (⟨0, hn⟩ : Fin cfg6.N)) (hs6_3 (⟨0, hn⟩ : Fin cfg6.N)) (ms6_4 (⟨0, hn⟩ : Fin cfg6.N)) (hs6_4 (⟨0, hn⟩ : Fin cfg6.N)) (ms6_5 (⟨0, hn⟩ : Fin cfg6.N)) (hs6_5 (⟨0, hn⟩ : Fin cfg6.N)) (ms6_6 (⟨0, hn⟩ : Fin cfg6.N)) (hs6_6 (⟨0, hn⟩ : Fin cfg6.N)) (ms6_7 (⟨0, hn⟩ : Fin cfg6.N)) (hs6_7 (⟨0, hn⟩ : Fin cfg6.N)) sc6_0 (Memref.isWhole_whole _) sc6_1 (Memref.isWhole_whole _) ((firstCond6_iff (⟨0, hn⟩ : Fin cfg6.N)).mpr (Nat.zero_mod _)) (fun h => by have h' := (lastCond6_iff (⟨0, hn⟩ : Fin cfg6.N)).mp h; (try dsimp only at h'); omega) (blockAt6 V c 0 (⟨0, hn⟩ : Fin cfg6.N)) (blockAt6 V c 1 (⟨0, hn⟩ : Fin cfg6.N)) (blockAt6 V c 2 (⟨0, hn⟩ : Fin cfg6.N)) (blockAt6 V c 3 (⟨0, hn⟩ : Fin cfg6.N)) (blockAt6 V c 4 (⟨0, hn⟩ : Fin cfg6.N)))
  | n + 1, hn =>
    if hl : (n + 1) % 10 = 9 then
      (tileLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       outSumLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       outSqLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       sumLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       sqLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2)
    else
      (tileMid6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) (fun h => hl ((lastCond6_iff (⟨n + 1, hn⟩ : Fin cfg6.N)).mp h)) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       (rowView6.read (Elt F) rowView6.junk), (rowView6.read (Elt F) rowView6.junk),
       sumMid6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) (fun h => hl ((lastCond6_iff (⟨n + 1, hn⟩ : Fin cfg6.N)).mp h)) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       sqMid6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) (fun h => hl ((lastCond6_iff (⟨n + 1, hn⟩ : Fin cfg6.N)).mp h)) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2)

theorem stateAt6_first (c : Dev nD) (t : Fin cfg6.N) (hf : t.val % 10 = 0) (hl : ¬t.val % 10 = 9) :
    stateAt6 V c t.val t.isLt = (tileFirst6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) ((firstCond6_iff t).mpr hf) (fun h => hl ((lastCond6_iff t).mp h)) (blockAt6 V c 0 t) (blockAt6 V c 1 t) (blockAt6 V c 2 t) (blockAt6 V c 3 t) (blockAt6 V c 4 t),
      (rowView6.read (Elt F) rowView6.junk), (rowView6.read (Elt F) rowView6.junk),
      sumFirst6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) ((firstCond6_iff t).mpr hf) (fun h => hl ((lastCond6_iff t).mp h)) (blockAt6 V c 0 t) (blockAt6 V c 1 t) (blockAt6 V c 2 t) (blockAt6 V c 3 t) (blockAt6 V c 4 t),
      sqFirst6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) ((firstCond6_iff t).mpr hf) (fun h => hl ((lastCond6_iff t).mp h)) (blockAt6 V c 0 t) (blockAt6 V c 1 t) (blockAt6 V c 2 t) (blockAt6 V c 3 t) (blockAt6 V c 4 t)) := by
  obtain ⟨n, hn⟩ := t
  have hN : n < 10 := lt_of_lt_of_eq hn (show cfg6.N = 10 from N_6)
  cases n with
  | zero => exact rfl
  | succ n => exfalso; (try dsimp only at hf); omega

theorem stateAt6_mid (c : Dev nD) (t : Fin cfg6.N) (hf : ¬t.val % 10 = 0) (hl : ¬t.val % 10 = 9) :
    stateAt6 V c t.val t.isLt = (tileMid6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) (fun h => hl ((lastCond6_iff t).mp h)) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      (rowView6.read (Elt F) rowView6.junk), (rowView6.read (Elt F) rowView6.junk),
      sumMid6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) (fun h => hl ((lastCond6_iff t).mp h)) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      sqMid6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) (fun h => hl ((lastCond6_iff t).mp h)) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt6_last (c : Dev nD) (t : Fin cfg6.N) (hf : ¬t.val % 10 = 0) (hl : t.val % 10 = 9) :
    stateAt6 V c t.val t.isLt = (tileLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      outSumLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      outSqLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      sumLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      sqLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry6 (c : Dev nD) : (n : ℕ) → n ≤ cfg6.N → sProp 𝕄
  | 0, _ => Pipeline.ΦA spec6 c
  | n + 1, hn => iprop(iprop(iprop(owns (c : Thread nD τ) sc6_0 fullShare (stateAt6 V c n hn).2.2.2.1 ∗ owns (c : Thread nD τ) sc6_1 fullShare (stateAt6 V c n hn).2.2.2.2)
      ∗ Pipeline.scopedRestBut (Ix := Unit) (Name := ℕ) (U := UR sig nD τ) (Lvl := ℕ) (Val := Elt F) spec6 c [cc6_scratch0, cc6_scratch1])
      ∗ (∃ r, prngReg c r))

theorem carry6_zero (c : Dev nD) (n : ℕ) (h : n ≤ cfg6.N) (hz : n = 0) : carry6 V c n h = Pipeline.ΦA spec6 c := by
  subst hz; rfl
theorem carry6_succ (c : Dev nD) (n : ℕ) (hn : n < cfg6.N) :
    carry6 V c (n + 1) hn = iprop(iprop(iprop(owns (c : Thread nD τ) sc6_0 fullShare (stateAt6 V c n hn).2.2.2.1 ∗ owns (c : Thread nD τ) sc6_1 fullShare (stateAt6 V c n hn).2.2.2.2)
      ∗ Pipeline.scopedRestBut (Ix := Unit) (Name := ℕ) (U := UR sig nD τ) (Lvl := ℕ) (Val := Elt F) spec6 c [cc6_scratch0, cc6_scratch1])
      ∗ (∃ r, prngReg c r)) := rfl
theorem carry6_pos (c : Dev nD) (n : ℕ) (h : n ≤ cfg6.N) (hz : n ≠ 0) :
    carry6 V c n h = iprop(iprop(iprop(owns (c : Thread nD τ) sc6_0 fullShare (stateAt6 V c (n - 1) (by omega)).2.2.2.1 ∗ owns (c : Thread nD τ) sc6_1 fullShare (stateAt6 V c (n - 1) (by omega)).2.2.2.2)
      ∗ Pipeline.scopedRestBut (Ix := Unit) (Name := ℕ) (U := UR sig nD τ) (Lvl := ℕ) (Val := Elt F) spec6 c [cc6_scratch0, cc6_scratch1])
      ∗ (∃ r, prngReg c r)) := by
  cases n with
  | zero => exact absurd rfl hz
  | succ n => rfl

/-! ## The region's proof data -/

def dat6 (c : Dev nD) : Dat τ (Elt F) Unit ℕ (UR sig nD τ) ℕ cfg6 c where
  A w := V c (Pipeline.arrRef spec6 w)
  after w t := match w with
    | ⟨0, _⟩ => blockAt6 V c 0 t
    | ⟨1, _⟩ => blockAt6 V c 1 t
    | ⟨2, _⟩ => blockAt6 V c 2 t
    | ⟨3, _⟩ => blockAt6 V c 3 t
    | ⟨4, _⟩ => blockAt6 V c 4 t
    | ⟨5, _⟩ => (stateAt6 V c t.val t.isLt).1
    | ⟨6, _⟩ => (stateAt6 V c t.val t.isLt).2.1
    | ⟨7, _⟩ => (stateAt6 V c t.val t.isLt).2.2.1
  Φ t := carry6 V c t.val (Nat.le_of_lt_succ t.isLt)
  q _ := fullShare
  owed _ := 0

theorem dat6_A (c : Dev nD) (w : Fin cfg6.W) : (dat6 V c).A w = V c (Pipeline.arrRef spec6 w) := by
  dsimp only [dat6]
theorem dat6_carry (c : Dev nD) (t : Fin cfg6.N) :
    (dat6 V c).Φ t.castSucc = carry6 V c t.val (Nat.le_of_lt t.isLt) := by
  dsimp only [dat6]; simp only [Fin.coe_castSucc]
theorem dat6_after0 (c : Dev nD) (t : Fin cfg6.N) : (dat6 V c).after 0 t = blockAt6 V c 0 t := by dsimp only [dat6]
theorem dat6_after1 (c : Dev nD) (t : Fin cfg6.N) : (dat6 V c).after 1 t = blockAt6 V c 1 t := by dsimp only [dat6]
theorem dat6_after2 (c : Dev nD) (t : Fin cfg6.N) : (dat6 V c).after 2 t = blockAt6 V c 2 t := by dsimp only [dat6]
theorem dat6_after3 (c : Dev nD) (t : Fin cfg6.N) : (dat6 V c).after 3 t = blockAt6 V c 3 t := by dsimp only [dat6]
theorem dat6_after4 (c : Dev nD) (t : Fin cfg6.N) : (dat6 V c).after 4 t = blockAt6 V c 4 t := by dsimp only [dat6]
theorem dat6_after5 (c : Dev nD) (t : Fin cfg6.N) : (dat6 V c).after 5 t = (stateAt6 V c t.val t.isLt).1 := by dsimp only [dat6]
theorem dat6_after6 (c : Dev nD) (t : Fin cfg6.N) : (dat6 V c).after 6 t = (stateAt6 V c t.val t.isLt).2.1 := by dsimp only [dat6]
theorem dat6_after7 (c : Dev nD) (t : Fin cfg6.N) : (dat6 V c).after 7 t = (stateAt6 V c t.val t.isLt).2.2.1 := by dsimp only [dat6]
theorem dat6_before0 (c : Dev nD) (t : Fin cfg6.N) (d) : (dat6 V c).before 0 t d = blockAt6 V c 0 t :=
  found6_0 V (dat6 V c) (dat6_A V c 0) (dat6_after0 V c) t d
theorem dat6_before1 (c : Dev nD) (t : Fin cfg6.N) (d) : (dat6 V c).before 1 t d = blockAt6 V c 1 t :=
  found6_1 V (dat6 V c) (dat6_A V c 1) (dat6_after1 V c) t d
theorem dat6_before2 (c : Dev nD) (t : Fin cfg6.N) (d) : (dat6 V c).before 2 t d = blockAt6 V c 2 t :=
  found6_2 V (dat6 V c) (dat6_A V c 2) (dat6_after2 V c) t d
theorem dat6_before3 (c : Dev nD) (t : Fin cfg6.N) (d) : (dat6 V c).before 3 t d = blockAt6 V c 3 t :=
  found6_3 V (dat6 V c) (dat6_A V c 3) (dat6_after3 V c) t d
theorem dat6_before4 (c : Dev nD) (t : Fin cfg6.N) (d) : (dat6 V c).before 4 t d = blockAt6 V c 4 t :=
  found6_4 V (dat6 V c) (dat6_A V c 4) (dat6_after4 V c) t d

/-! ## The body obligation -/

def pre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

def post6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

set_option maxHeartbeats 4800000 in
theorem pointRun6 (c : Dev nD) (t : Fin cfg6.N) :
    pre6 V c t ⊢ wp frame (wpE (defs₀ (F := F)) Variants.none c none) Set.univ (bodyAt6 t) (fun _ => post6 V c t) := by
  unfold pre6 post6 bodyAt6
  simp only [dat6_before0, dat6_before1, dat6_before2, dat6_before3, dat6_before4]
  rw [show (dat6 V c).owesAt () t.succ = (dat6 V c).owesAt () t.castSucc from rfl]
  rw [show (dat6 V c).Φ t.succ = carry6 V c (t.val + 1) t.isLt from rfl, carry6_succ]
  rw [show (dat6 V c).leavesExact 0 t = owns (c : Thread nD τ) (ms6_0 t) fullShare ((dat6 V c).after 0 t) from by
    unfold Dat.leavesExact; rw [live6_0 t], dat6_after0]
  rw [show (dat6 V c).leavesExact 1 t = owns (c : Thread nD τ) (ms6_1 t) fullShare ((dat6 V c).after 1 t) from by
    unfold Dat.leavesExact; rw [live6_1 t], dat6_after1]
  rw [show (dat6 V c).leavesExact 2 t = owns (c : Thread nD τ) (ms6_2 t) fullShare ((dat6 V c).after 2 t) from by
    unfold Dat.leavesExact; rw [live6_2 t], dat6_after2]
  rw [show (dat6 V c).leavesExact 3 t = owns (c : Thread nD τ) (ms6_3 t) fullShare ((dat6 V c).after 3 t) from by
    unfold Dat.leavesExact; rw [live6_3 t], dat6_after3]
  rw [show (dat6 V c).leavesExact 4 t = owns (c : Thread nD τ) (ms6_4 t) fullShare ((dat6 V c).after 4 t) from by
    unfold Dat.leavesExact; rw [live6_4 t], dat6_after4]
  rw [show (dat6 V c).leavesExact 5 t = owns (c : Thread nD τ) (ms6_5 t) fullShare ((dat6 V c).after 5 t) from by
    unfold Dat.leavesExact; rw [live6_5 t], dat6_after5]
  have hN : t.val < 10 := lt_of_lt_of_eq t.isLt (show cfg6.N = 10 from N_6)
  by_cases hf : t.val % 10 = 0
  · have hl : ¬t.val % 10 = 9 := by omega
    have hz : t.val = 0 := by omega
    rw [Dat.leavesExact_idle (dat6 V c) 6 t (idle6_6 t (fun h => hl ((lastCond6_iff t).mp h))) (noFlush6_6 t (fun h => hl ((lastCond6_iff t).mp h)))]
    rw [Dat.leavesExact_idle (dat6 V c) 7 t (idle6_7 t (fun h => hl ((lastCond6_iff t).mp h))) (noFlush6_7 t (fun h => hl ((lastCond6_iff t).mp h)))]
    rw [stateAt6_first V c t hf hl]
    unfold tileFirst6 sumFirst6 sqFirst6; (try dsimp only)
    rw [dat6_carry V c t, carry6_zero V c _ _ hz, carryEntry6]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst6 c (grid6.coords t) _ _ _ _ _ _ _ _ _ _ _ _ _ _ _ _ _ _ _ _ ((firstCond6_iff t).mpr hf) (fun h => hl ((lastCond6_iff t).mp h)) (blockAt6 V c 0 t) (blockAt6 V c 1 t) (blockAt6 V c 2 t) (blockAt6 V c 3 t) (blockAt6 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst6_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst6_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst6_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat6 V c).leavesExact 6 t = owns (c : Thread nD τ) (ms6_6 t) fullShare ((dat6 V c).after 6 t) from by
        unfold Dat.leavesExact; rw [live6_6 t ((lastCond6_iff t).mpr hl)], dat6_after6]
      rw [show (dat6 V c).leavesExact 7 t = owns (c : Thread nD τ) (ms6_7 t) fullShare ((dat6 V c).after 7 t) from by
        unfold Dat.leavesExact; rw [live6_7 t ((lastCond6_iff t).mpr hl)], dat6_after7]
      rw [stateAt6_last V c t hf hl]
      unfold tileLast6 outSumLast6 outSqLast6 sumLast6 sqLast6; (try dsimp only)
      rw [dat6_carry V c t, carry6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast6 c (grid6.coords t) _ _ _ _ _ _ _ _ _ _ _ _ _ _ _ _ _ _ _ _ (fun h => hf ((firstCond6_iff t).mp h)) ((lastCond6_iff t).mpr hl) (blockAt6 V c 0 t) (blockAt6 V c 1 t) (blockAt6 V c 2 t) (blockAt6 V c 3 t) (blockAt6 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast6_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast6_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast6_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast6_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast6_cover c _ _ _ _ _ _ _ _ _ _ _ _ _ _ _ _ _ _ _ _ _ _ _ _ _ _ _ _ _ _)
    · rw [Dat.leavesExact_idle (dat6 V c) 6 t (idle6_6 t (fun h => hl ((lastCond6_iff t).mp h))) (noFlush6_6 t (fun h => hl ((lastCond6_iff t).mp h)))]
      rw [Dat.leavesExact_idle (dat6 V c) 7 t (idle6_7 t (fun h => hl ((lastCond6_iff t).mp h))) (noFlush6_7 t (fun h => hl ((lastCond6_iff t).mp h)))]
      rw [stateAt6_mid V c t hf hl]
      unfold tileMid6 sumMid6 sqMid6; (try dsimp only)
      rw [dat6_carry V c t, carry6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid6 c (grid6.coords t) _ _ _ _ _ _ _ _ _ _ _ _ _ _ _ _ _ _ _ _ (fun h => hf ((firstCond6_iff t).mp h)) (fun h => hl ((lastCond6_iff t).mp h)) (blockAt6 V c 0 t) (blockAt6 V c 1 t) (blockAt6 V c 2 t) (blockAt6 V c 3 t) (blockAt6 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid6_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid6_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid6_cover c _ _ _ _ _ _ _ _ _ _ _ _ _ _ _ _ _ _ _ _ _ _ _ _ _ _ _ _ _ _)
      isplitl [H6]; · iexists _; iexact H6
      iexists _; iexact H7

/-- The library's body obligation of region 6, at every point. -/
theorem obligation6 (c : Dev nD) : BodyObligation (dat6 (F := F) V c) (defs₀ (F := F)) Variants.none () Set.univ := fun t => by
  rw [bigSep_W6, bigSep_W6]
  exact pointRun6 V c t

/-- Entering the region: the class's invariant is the invariant before the first tile. -/
theorem carry6_in (c : Dev nD) : Pipeline.ΦA spec6 c ⊢ (dat6 V c).Φ 0 := by
  rw [show (dat6 V c).Φ 0 = carry6 V c 0 (Nat.zero_le _) from rfl, carry6_zero V c 0 _ rfl]
  try exact Idealize.SL.BI.Entails.refl _

/-- Leaving it: after the last tile the invariant gives the class's back, the scratch rows' contents forgotten. -/
theorem carry6_out (c : Dev nD) : (dat6 V c).Φ (Fin.last cfg6.N) ⊢ Pipeline.ΦA spec6 c := by
  rw [show (dat6 V c).Φ (Fin.last cfg6.N) = carry6 V c cfg6.N (Nat.le_refl _) from rfl,
    carry6_pos V c _ _ (by rw [show cfg6.N = 10 from N_6]; decide), carryEntry6]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.Kernel.Gen
end
-- ==== Proof.K.MlpRun8.lean ====
/-
  Region 8 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.Kernel.Launch
import proofs.«100381_j2018634629568_1_alg».proof.Proof.Gen.Kernel.Skeleton
import proofs.«100381_j2018634629568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond8 (i : grid8.Coords) : Prop := (Scalar.cmpi .ne (Scalar.extui (Scalar.cmpi .eq (BitVec.ofNat 32 (i 0).val) 0#32)) 0#32) = 1#1
theorem firstCond8_iff : ∀ t : Fin cfg8.N, firstCond8 (grid8.coords t) ↔ t.val % 10 = 0 :=
  (by decide +kernel : ∀ t : Fin grid8.N, firstCond8 (grid8.coords t) ↔ t.val % 10 = 0)
/-- The body's second conditional: this is the last tile. -/
abbrev lastCond8 (i : grid8.Coords) : Prop := k8_cond2 i = 1#1
theorem lastCond8_iff : ∀ t : Fin cfg8.N, lastCond8 (grid8.coords t) ↔ t.val % 10 = 9 :=
  (by decide +kernel : ∀ t : Fin grid8.N, lastCond8 (grid8.coords t) ↔ t.val % 10 = 9)

/-! ## Where the windows are idle -/
theorem live8_0 : ∀ t : Fin cfg8.N, cfg8.idle 0 (grid8.coords t) = false := by decide +kernel
theorem live8_1 : ∀ t : Fin cfg8.N, cfg8.idle 1 (grid8.coords t) = false := by decide +kernel
theorem live8_2 : ∀ t : Fin cfg8.N, cfg8.idle 2 (grid8.coords t) = false := by decide +kernel
theorem live8_3 : ∀ t : Fin cfg8.N, cfg8.idle 3 (grid8.coords t) = false := by decide +kernel
theorem live8_4 : ∀ t : Fin cfg8.N, cfg8.idle 4 (grid8.coords t) = false := by decide +kernel
theorem live8_5 : ∀ t : Fin cfg8.N, cfg8.idle 5 (grid8.coords t) = false := by decide +kernel
/-- Away from the last tile the two statistics outputs are idle and not written back. -/
theorem idle8_6 : ∀ t : Fin cfg8.N, ¬lastCond8 (grid8.coords t) → cfg8.idle 6 (grid8.coords t) = true := by decide +kernel
theorem idle8_7 : ∀ t : Fin cfg8.N, ¬lastCond8 (grid8.coords t) → cfg8.idle 7 (grid8.coords t) = true := by decide +kernel
theorem noFlush8_6 : ∀ t : Fin cfg8.N, ¬lastCond8 (grid8.coords t) → (cfg8.win 6).flush t = false := by decide +kernel
theorem noFlush8_7 : ∀ t : Fin cfg8.N, ¬lastCond8 (grid8.coords t) → (cfg8.win 7).flush t = false := by decide +kernel
/-- At the last tile they are live. -/
theorem live8_6 : ∀ t : Fin cfg8.N, lastCond8 (grid8.coords t) → cfg8.idle 6 (grid8.coords t) = false := by decide +kernel
theorem live8_7 : ∀ t : Fin cfg8.N, lastCond8 (grid8.coords t) → cfg8.idle 7 (grid8.coords t) = false := by decide +kernel

/-! ## The staging memrefs at a point, the scratch rows, and the views contents are stated through -/
abbrev ms8_0 (t : Fin cfg8.N) : Memref sig .tc .vmem S1000x512 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S512x512 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x512 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S512x512 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x512 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1000x512 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1x512 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x512 .f32 := win8_7.stage (cfg8.slots t 7)
abbrev hs8_7 (t : Fin cfg8.N) : (ms8_7 t).IsWhole := hstage8_7 ((cfg8.slots t 7).cast nbuf8_7)
/-- The two scratch rows: whole scoped buffers of the kernel's own. -/
abbrev sc8_0 : Memref sig .tc .vmem S1x512 .f32 := Memref.whole cc8_scratch0
abbrev sc8_1 : Memref sig .tc .vmem S1x512 .f32 := Memref.whole cc8_scratch1
/-- The views through which a tile's and a row's contents are stated (the choice does not matter). -/
abbrev tileView8 : View sig .tc .vmem S1000x512 .f32 := (Memref.whole cc8_stg5_0 : Memref sig .tc .vmem S1000x512 .f32).view
abbrev rowView8 : View sig .tc .vmem S1x512 .f32 := sc8_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc8__mlp_stats_kernel_eq_skeleton]; unfold cc8__mlp_stats_kernel_skel
    simp only [k8_part1_eq_skeleton]; unfold k8_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc8__mlp_stats_kernel_eq_skeleton]; unfold cc8__mlp_stats_kernel_skel
    simp only [k8_part1_eq_skeleton]; unfold k8_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc8__mlp_stats_kernel_eq_skeleton]; unfold cc8__mlp_stats_kernel_skel
    simp only [k8_part1_eq_skeleton]; unfold k8_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Gen
end
-- ==== Proof.K.MlpDat8.lean ====
/-
  Region 8 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.K.MlpRun8

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  (y : S1000x512.Idx) :
    ∃ pc ∈ (runFirst8 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst8 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  : Vec F S1000x512 .f32 :=
  tileView8.read (Elt F) (tileView8.writes (Elt F) tileView8.junk (runFirst8 c i arg1 harg1 arg2 harg2 arg3 harg3 arg4 harg4 arg5 harg5 arg6 harg6 arg7 harg7 arg8 harg8 arg9 harg9 arg10 harg10 h1 h2 x0 x1 x2 x3 x4 ).1)

theorem sumFirst8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst8 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst8 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  : Vec F S1x512 .f32 :=
  rowView8.read (Elt F) (rowView8.writes (Elt F) rowView8.junk (runFirst8 c i arg1 harg1 arg2 harg2 arg3 harg3 arg4 harg4 arg5 harg5 arg6 harg6 arg7 harg7 arg8 harg8 arg9 harg9 arg10 harg10 h1 h2 x0 x1 x2 x3 x4 ).2.1)

theorem sqFirst8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst8 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst8 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  : Vec F S1x512 .f32 :=
  rowView8.read (Elt F) (rowView8.writes (Elt F) rowView8.junk (runFirst8 c i arg1 harg1 arg2 harg2 arg3 harg3 arg4 harg4 arg5 harg5 arg6 harg6 arg7 harg7 arg8 harg8 arg9 harg9 arg10 harg10 h1 h2 x0 x1 x2 x3 x4 ).2.2.1)

theorem tileMid8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runMid8 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid8 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView8.read (Elt F) (tileView8.writes (Elt F) tileView8.junk (runMid8 c i arg1 harg1 arg2 harg2 arg3 harg3 arg4 harg4 arg5 harg5 arg6 harg6 arg7 harg7 arg8 harg8 arg9 harg9 arg10 harg10 h1 h2 x0 x1 x2 x3 x4 s q).1)

theorem sumMid8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid8 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid8 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runMid8 c i arg1 harg1 arg2 harg2 arg3 harg3 arg4 harg4 arg5 harg5 arg6 harg6 arg7 harg7 arg8 harg8 arg9 harg9 arg10 harg10 h1 h2 x0 x1 x2 x3 x4 s q).2.1)

theorem sqMid8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid8 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid8 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runMid8 c i arg1 harg1 arg2 harg2 arg3 harg3 arg4 harg4 arg5 harg5 arg6 harg6 arg7 harg7 arg8 harg8 arg9 harg9 arg10 harg10 h1 h2 x0 x1 x2 x3 x4 s q).2.2.1)

theorem tileLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView8.read (Elt F) (tileView8.writes (Elt F) tileView8.junk (runLast8 c i arg1 harg1 arg2 harg2 arg3 harg3 arg4 harg4 arg5 harg5 arg6 harg6 arg7 harg7 arg8 harg8 arg9 harg9 arg10 harg10 h1 h2 x0 x1 x2 x3 x4 s q).1)

theorem outSumLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runLast8 c i arg1 harg1 arg2 harg2 arg3 harg3 arg4 harg4 arg5 harg5 arg6 harg6 arg7 harg7 arg8 harg8 arg9 harg9 arg10 harg10 h1 h2 x0 x1 x2 x3 x4 s q).2.1)

theorem outSqLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runLast8 c i arg1 harg1 arg2 harg2 arg3 harg3 arg4 harg4 arg5 harg5 arg6 harg6 arg7 harg7 arg8 harg8 arg9 harg9 arg10 harg10 h1 h2 x0 x1 x2 x3 x4 s q).2.2.1)

theorem sumLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runLast8 c i arg1 harg1 arg2 harg2 arg3 harg3 arg4 harg4 arg5 harg5 arg6 harg6 arg7 harg7 arg8 harg8 arg9 harg9 arg10 harg10 h1 h2 x0 x1 x2 x3 x4 s q).2.2.2.1)

theorem sqLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runLast8 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry8 (c : Dev nD) :
    (Pipeline.ΦA spec8 c : sProp 𝕄)
      = iprop(iprop(iprop((∃ d, owns (c : Thread nD τ) sc8_0 fullShare d) ∗ (∃ d, owns (c : Thread nD τ) sc8_1 fullShare d))
          ∗ Pipeline.scopedRestBut (Ix := Unit) (Name := ℕ) (U := UR sig nD τ) (Lvl := ℕ) (Val := Elt F) spec8 c [cc8_scratch0, cc8_scratch1])
          ∗ (∃ r, prngReg c r)) := by
  unfold Pipeline.ΦA; rw [scopedRest8_split]; simp only [sc8_0, sc8_1, owns_whole]
  rfl

section
variable (V : (c : Dev nD) → (b : Ref sig .tc) → Buf (Elt F) ((c : Thread nD τ).loc b))

/-- Window w's block at grid point t, read off the window's array as the region finds it. -/
def blockAt8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's staging buffer holds the window's block at every point, fetched there or not. -/
theorem found8_0 {c : Dev nD} (dat : Dat τ (Elt F) Unit ℕ (UR sig nD τ) ℕ cfg8 c) (hA : dat.A 0 = V c (Pipeline.arrRef spec8 0))
    (hafter : ∀ t, dat.after 0 t = blockAt8 V c 0 t) (t : Fin cfg8.N) (d) : dat.before 0 t d = blockAt8 V c 0 t :=
  (dat.before_in_eq_fetched 0 rfl (fun _ => rfl) (fun _ _ _ => rfl) (fun t => by rw [hafter]; unfold Dat.blockOf blockAt8; rw [hA]; try rfl) t d).trans
    (by unfold Dat.fetched Dat.blockOf blockAt8; rw [hA]; try rfl)
theorem found8_1 {c : Dev nD} (dat : Dat τ (Elt F) Unit ℕ (UR sig nD τ) ℕ cfg8 c) (hA : dat.A 1 = V c (Pipeline.arrRef spec8 1))
    (hafter : ∀ t, dat.after 1 t = blockAt8 V c 1 t) (t : Fin cfg8.N) (d) : dat.before 1 t d = blockAt8 V c 1 t :=
  (dat.before_in_eq_fetched 1 rfl (fun _ => rfl) (fun _ _ _ => rfl) (fun t => by rw [hafter]; unfold Dat.blockOf blockAt8; rw [hA]; try rfl) t d).trans
    (by unfold Dat.fetched Dat.blockOf blockAt8; rw [hA]; try rfl)
theorem found8_2 {c : Dev nD} (dat : Dat τ (Elt F) Unit ℕ (UR sig nD τ) ℕ cfg8 c) (hA : dat.A 2 = V c (Pipeline.arrRef spec8 2))
    (hafter : ∀ t, dat.after 2 t = blockAt8 V c 2 t) (t : Fin cfg8.N) (d) : dat.before 2 t d = blockAt8 V c 2 t :=
  (dat.before_in_eq_fetched 2 rfl (fun _ => rfl) (fun _ _ _ => rfl) (fun t => by rw [hafter]; unfold Dat.blockOf blockAt8; rw [hA]; try rfl) t d).trans
    (by unfold Dat.fetched Dat.blockOf blockAt8; rw [hA]; try rfl)
theorem found8_3 {c : Dev nD} (dat : Dat τ (Elt F) Unit ℕ (UR sig nD τ) ℕ cfg8 c) (hA : dat.A 3 = V c (Pipeline.arrRef spec8 3))
    (hafter : ∀ t, dat.after 3 t = blockAt8 V c 3 t) (t : Fin cfg8.N) (d) : dat.before 3 t d = blockAt8 V c 3 t :=
  (dat.before_in_eq_fetched 3 rfl (fun _ => rfl) (fun _ _ _ => rfl) (fun t => by rw [hafter]; unfold Dat.blockOf blockAt8; rw [hA]; try rfl) t d).trans
    (by unfold Dat.fetched Dat.blockOf blockAt8; rw [hA]; try rfl)
theorem found8_4 {c : Dev nD} (dat : Dat τ (Elt F) Unit ℕ (UR sig nD τ) ℕ cfg8 c) (hA : dat.A 4 = V c (Pipeline.arrRef spec8 4))
    (hafter : ∀ t, dat.after 4 t = blockAt8 V c 4 t) (t : Fin cfg8.N) (d) : dat.before 4 t d = blockAt8 V c 4 t :=
  (dat.before_in_eq_fetched 4 rfl (fun _ => rfl) (fun _ _ _ => rfl) (fun t => by rw [hafter]; unfold Dat.blockOf blockAt8; rw [hA]; try rfl) t d).trans
    (by unfold Dat.fetched Dat.blockOf blockAt8; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt8 (c : Dev nD) : (n : ℕ) → n < cfg8.N →
    Vec F S1000x512 .f32 × Vec F S1x512 .f32 × Vec F S1x512 .f32 × Vec F S1x512 .f32 × Vec F S1x512 .f32
  | 0, hn => (tileFirst8 c (grid8.coords (⟨0, hn⟩ : Fin cfg8.N)) (ms8_0 (⟨0, hn⟩ : Fin cfg8.N)) (hs8_0 (⟨0, hn⟩ : Fin cfg8.N)) (ms8_1 (⟨0, hn⟩ : Fin cfg8.N)) (hs8_1 (⟨0, hn⟩ : Fin cfg8.N)) (ms8_2 (⟨0, hn⟩ : Fin cfg8.N)) (hs8_2 (⟨0, hn⟩ : Fin cfg8.N)) (ms8_3 (⟨0, hn⟩ : Fin cfg8.N)) (hs8_3 (⟨0, hn⟩ : Fin cfg8.N)) (ms8_4 (⟨0, hn⟩ : Fin cfg8.N)) (hs8_4 (⟨0, hn⟩ : Fin cfg8.N)) (ms8_5 (⟨0, hn⟩ : Fin cfg8.N)) (hs8_5 (⟨0, hn⟩ : Fin cfg8.N)) (ms8_6 (⟨0, hn⟩ : Fin cfg8.N)) (hs8_6 (⟨0, hn⟩ : Fin cfg8.N)) (ms8_7 (⟨0, hn⟩ : Fin cfg8.N)) (hs8_7 (⟨0, hn⟩ : Fin cfg8.N)) sc8_0 (Memref.isWhole_whole _) sc8_1 (Memref.isWhole_whole _) ((firstCond8_iff (⟨0, hn⟩ : Fin cfg8.N)).mpr (Nat.zero_mod _)) (fun h => by have h' := (lastCond8_iff (⟨0, hn⟩ : Fin cfg8.N)).mp h; (try dsimp only at h'); omega) (blockAt8 V c 0 (⟨0, hn⟩ : Fin cfg8.N)) (blockAt8 V c 1 (⟨0, hn⟩ : Fin cfg8.N)) (blockAt8 V c 2 (⟨0, hn⟩ : Fin cfg8.N)) (blockAt8 V c 3 (⟨0, hn⟩ : Fin cfg8.N)) (blockAt8 V c 4 (⟨0, hn⟩ : Fin cfg8.N)),
      (rowView8.read (Elt F) rowView8.junk), (rowView8.read (Elt F) rowView8.junk),
      sumFirst8 c (grid8.coords (⟨0, hn⟩ : Fin cfg8.N)) (ms8_0 (⟨0, hn⟩ : Fin cfg8.N)) (hs8_0 (⟨0, hn⟩ : Fin cfg8.N)) (ms8_1 (⟨0, hn⟩ : Fin cfg8.N)) (hs8_1 (⟨0, hn⟩ : Fin cfg8.N)) (ms8_2 (⟨0, hn⟩ : Fin cfg8.N)) (hs8_2 (⟨0, hn⟩ : Fin cfg8.N)) (ms8_3 (⟨0, hn⟩ : Fin cfg8.N)) (hs8_3 (⟨0, hn⟩ : Fin cfg8.N)) (ms8_4 (⟨0, hn⟩ : Fin cfg8.N)) (hs8_4 (⟨0, hn⟩ : Fin cfg8.N)) (ms8_5 (⟨0, hn⟩ : Fin cfg8.N)) (hs8_5 (⟨0, hn⟩ : Fin cfg8.N)) (ms8_6 (⟨0, hn⟩ : Fin cfg8.N)) (hs8_6 (⟨0, hn⟩ : Fin cfg8.N)) (ms8_7 (⟨0, hn⟩ : Fin cfg8.N)) (hs8_7 (⟨0, hn⟩ : Fin cfg8.N)) sc8_0 (Memref.isWhole_whole _) sc8_1 (Memref.isWhole_whole _) ((firstCond8_iff (⟨0, hn⟩ : Fin cfg8.N)).mpr (Nat.zero_mod _)) (fun h => by have h' := (lastCond8_iff (⟨0, hn⟩ : Fin cfg8.N)).mp h; (try dsimp only at h'); omega) (blockAt8 V c 0 (⟨0, hn⟩ : Fin cfg8.N)) (blockAt8 V c 1 (⟨0, hn⟩ : Fin cfg8.N)) (blockAt8 V c 2 (⟨0, hn⟩ : Fin cfg8.N)) (blockAt8 V c 3 (⟨0, hn⟩ : Fin cfg8.N)) (blockAt8 V c 4 (⟨0, hn⟩ : Fin cfg8.N)),
      sqFirst8 c (grid8.coords (⟨0, hn⟩ : Fin cfg8.N)) (ms8_0 (⟨0, hn⟩ : Fin cfg8.N)) (hs8_0 (⟨0, hn⟩ : Fin cfg8.N)) (ms8_1 (⟨0, hn⟩ : Fin cfg8.N)) (hs8_1 (⟨0, hn⟩ : Fin cfg8.N)) (ms8_2 (⟨0, hn⟩ : Fin cfg8.N)) (hs8_2 (⟨0, hn⟩ : Fin cfg8.N)) (ms8_3 (⟨0, hn⟩ : Fin cfg8.N)) (hs8_3 (⟨0, hn⟩ : Fin cfg8.N)) (ms8_4 (⟨0, hn⟩ : Fin cfg8.N)) (hs8_4 (⟨0, hn⟩ : Fin cfg8.N)) (ms8_5 (⟨0, hn⟩ : Fin cfg8.N)) (hs8_5 (⟨0, hn⟩ : Fin cfg8.N)) (ms8_6 (⟨0, hn⟩ : Fin cfg8.N)) (hs8_6 (⟨0, hn⟩ : Fin cfg8.N)) (ms8_7 (⟨0, hn⟩ : Fin cfg8.N)) (hs8_7 (⟨0, hn⟩ : Fin cfg8.N)) sc8_0 (Memref.isWhole_whole _) sc8_1 (Memref.isWhole_whole _) ((firstCond8_iff (⟨0, hn⟩ : Fin cfg8.N)).mpr (Nat.zero_mod _)) (fun h => by have h' := (lastCond8_iff (⟨0, hn⟩ : Fin cfg8.N)).mp h; (try dsimp only at h'); omega) (blockAt8 V c 0 (⟨0, hn⟩ : Fin cfg8.N)) (blockAt8 V c 1 (⟨0, hn⟩ : Fin cfg8.N)) (blockAt8 V c 2 (⟨0, hn⟩ : Fin cfg8.N)) (blockAt8 V c 3 (⟨0, hn⟩ : Fin cfg8.N)) (blockAt8 V c 4 (⟨0, hn⟩ : Fin cfg8.N)))
  | n + 1, hn =>
    if hl : (n + 1) % 10 = 9 then
      (tileLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       outSumLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       outSqLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       sumLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       sqLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2)
    else
      (tileMid8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) (fun h => hl ((lastCond8_iff (⟨n + 1, hn⟩ : Fin cfg8.N)).mp h)) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       (rowView8.read (Elt F) rowView8.junk), (rowView8.read (Elt F) rowView8.junk),
       sumMid8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) (fun h => hl ((lastCond8_iff (⟨n + 1, hn⟩ : Fin cfg8.N)).mp h)) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       sqMid8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) (fun h => hl ((lastCond8_iff (⟨n + 1, hn⟩ : Fin cfg8.N)).mp h)) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2)

theorem stateAt8_first (c : Dev nD) (t : Fin cfg8.N) (hf : t.val % 10 = 0) (hl : ¬t.val % 10 = 9) :
    stateAt8 V c t.val t.isLt = (tileFirst8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) ((firstCond8_iff t).mpr hf) (fun h => hl ((lastCond8_iff t).mp h)) (blockAt8 V c 0 t) (blockAt8 V c 1 t) (blockAt8 V c 2 t) (blockAt8 V c 3 t) (blockAt8 V c 4 t),
      (rowView8.read (Elt F) rowView8.junk), (rowView8.read (Elt F) rowView8.junk),
      sumFirst8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) ((firstCond8_iff t).mpr hf) (fun h => hl ((lastCond8_iff t).mp h)) (blockAt8 V c 0 t) (blockAt8 V c 1 t) (blockAt8 V c 2 t) (blockAt8 V c 3 t) (blockAt8 V c 4 t),
      sqFirst8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) ((firstCond8_iff t).mpr hf) (fun h => hl ((lastCond8_iff t).mp h)) (blockAt8 V c 0 t) (blockAt8 V c 1 t) (blockAt8 V c 2 t) (blockAt8 V c 3 t) (blockAt8 V c 4 t)) := by
  obtain ⟨n, hn⟩ := t
  have hN : n < 10 := lt_of_lt_of_eq hn (show cfg8.N = 10 from N_8)
  cases n with
  | zero => exact rfl
  | succ n => exfalso; (try dsimp only at hf); omega

theorem stateAt8_mid (c : Dev nD) (t : Fin cfg8.N) (hf : ¬t.val % 10 = 0) (hl : ¬t.val % 10 = 9) :
    stateAt8 V c t.val t.isLt = (tileMid8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) (fun h => hl ((lastCond8_iff t).mp h)) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      (rowView8.read (Elt F) rowView8.junk), (rowView8.read (Elt F) rowView8.junk),
      sumMid8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) (fun h => hl ((lastCond8_iff t).mp h)) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      sqMid8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) (fun h => hl ((lastCond8_iff t).mp h)) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt8_last (c : Dev nD) (t : Fin cfg8.N) (hf : ¬t.val % 10 = 0) (hl : t.val % 10 = 9) :
    stateAt8 V c t.val t.isLt = (tileLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      outSumLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      outSqLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      sumLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      sqLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry8 (c : Dev nD) : (n : ℕ) → n ≤ cfg8.N → sProp 𝕄
  | 0, _ => Pipeline.ΦA spec8 c
  | n + 1, hn => iprop(iprop(iprop(owns (c : Thread nD τ) sc8_0 fullShare (stateAt8 V c n hn).2.2.2.1 ∗ owns (c : Thread nD τ) sc8_1 fullShare (stateAt8 V c n hn).2.2.2.2)
      ∗ Pipeline.scopedRestBut (Ix := Unit) (Name := ℕ) (U := UR sig nD τ) (Lvl := ℕ) (Val := Elt F) spec8 c [cc8_scratch0, cc8_scratch1])
      ∗ (∃ r, prngReg c r))

theorem carry8_zero (c : Dev nD) (n : ℕ) (h : n ≤ cfg8.N) (hz : n = 0) : carry8 V c n h = Pipeline.ΦA spec8 c := by
  subst hz; rfl
theorem carry8_succ (c : Dev nD) (n : ℕ) (hn : n < cfg8.N) :
    carry8 V c (n + 1) hn = iprop(iprop(iprop(owns (c : Thread nD τ) sc8_0 fullShare (stateAt8 V c n hn).2.2.2.1 ∗ owns (c : Thread nD τ) sc8_1 fullShare (stateAt8 V c n hn).2.2.2.2)
      ∗ Pipeline.scopedRestBut (Ix := Unit) (Name := ℕ) (U := UR sig nD τ) (Lvl := ℕ) (Val := Elt F) spec8 c [cc8_scratch0, cc8_scratch1])
      ∗ (∃ r, prngReg c r)) := rfl
theorem carry8_pos (c : Dev nD) (n : ℕ) (h : n ≤ cfg8.N) (hz : n ≠ 0) :
    carry8 V c n h = iprop(iprop(iprop(owns (c : Thread nD τ) sc8_0 fullShare (stateAt8 V c (n - 1) (by omega)).2.2.2.1 ∗ owns (c : Thread nD τ) sc8_1 fullShare (stateAt8 V c (n - 1) (by omega)).2.2.2.2)
      ∗ Pipeline.scopedRestBut (Ix := Unit) (Name := ℕ) (U := UR sig nD τ) (Lvl := ℕ) (Val := Elt F) spec8 c [cc8_scratch0, cc8_scratch1])
      ∗ (∃ r, prngReg c r)) := by
  cases n with
  | zero => exact absurd rfl hz
  | succ n => rfl

/-! ## The region's proof data -/

def dat8 (c : Dev nD) : Dat τ (Elt F) Unit ℕ (UR sig nD τ) ℕ cfg8 c where
  A w := V c (Pipeline.arrRef spec8 w)
  after w t := match w with
    | ⟨0, _⟩ => blockAt8 V c 0 t
    | ⟨1, _⟩ => blockAt8 V c 1 t
    | ⟨2, _⟩ => blockAt8 V c 2 t
    | ⟨3, _⟩ => blockAt8 V c 3 t
    | ⟨4, _⟩ => blockAt8 V c 4 t
    | ⟨5, _⟩ => (stateAt8 V c t.val t.isLt).1
    | ⟨6, _⟩ => (stateAt8 V c t.val t.isLt).2.1
    | ⟨7, _⟩ => (stateAt8 V c t.val t.isLt).2.2.1
  Φ t := carry8 V c t.val (Nat.le_of_lt_succ t.isLt)
  q _ := fullShare
  owed _ := 0

theorem dat8_A (c : Dev nD) (w : Fin cfg8.W) : (dat8 V c).A w = V c (Pipeline.arrRef spec8 w) := by
  dsimp only [dat8]
theorem dat8_carry (c : Dev nD) (t : Fin cfg8.N) :
    (dat8 V c).Φ t.castSucc = carry8 V c t.val (Nat.le_of_lt t.isLt) := by
  dsimp only [dat8]; simp only [Fin.coe_castSucc]
theorem dat8_after0 (c : Dev nD) (t : Fin cfg8.N) : (dat8 V c).after 0 t = blockAt8 V c 0 t := by dsimp only [dat8]
theorem dat8_after1 (c : Dev nD) (t : Fin cfg8.N) : (dat8 V c).after 1 t = blockAt8 V c 1 t := by dsimp only [dat8]
theorem dat8_after2 (c : Dev nD) (t : Fin cfg8.N) : (dat8 V c).after 2 t = blockAt8 V c 2 t := by dsimp only [dat8]
theorem dat8_after3 (c : Dev nD) (t : Fin cfg8.N) : (dat8 V c).after 3 t = blockAt8 V c 3 t := by dsimp only [dat8]
theorem dat8_after4 (c : Dev nD) (t : Fin cfg8.N) : (dat8 V c).after 4 t = blockAt8 V c 4 t := by dsimp only [dat8]
theorem dat8_after5 (c : Dev nD) (t : Fin cfg8.N) : (dat8 V c).after 5 t = (stateAt8 V c t.val t.isLt).1 := by dsimp only [dat8]
theorem dat8_after6 (c : Dev nD) (t : Fin cfg8.N) : (dat8 V c).after 6 t = (stateAt8 V c t.val t.isLt).2.1 := by dsimp only [dat8]
theorem dat8_after7 (c : Dev nD) (t : Fin cfg8.N) : (dat8 V c).after 7 t = (stateAt8 V c t.val t.isLt).2.2.1 := by dsimp only [dat8]
theorem dat8_before0 (c : Dev nD) (t : Fin cfg8.N) (d) : (dat8 V c).before 0 t d = blockAt8 V c 0 t :=
  found8_0 V (dat8 V c) (dat8_A V c 0) (dat8_after0 V c) t d
theorem dat8_before1 (c : Dev nD) (t : Fin cfg8.N) (d) : (dat8 V c).before 1 t d = blockAt8 V c 1 t :=
  found8_1 V (dat8 V c) (dat8_A V c 1) (dat8_after1 V c) t d
theorem dat8_before2 (c : Dev nD) (t : Fin cfg8.N) (d) : (dat8 V c).before 2 t d = blockAt8 V c 2 t :=
  found8_2 V (dat8 V c) (dat8_A V c 2) (dat8_after2 V c) t d
theorem dat8_before3 (c : Dev nD) (t : Fin cfg8.N) (d) : (dat8 V c).before 3 t d = blockAt8 V c 3 t :=
  found8_3 V (dat8 V c) (dat8_A V c 3) (dat8_after3 V c) t d
theorem dat8_before4 (c : Dev nD) (t : Fin cfg8.N) (d) : (dat8 V c).before 4 t d = blockAt8 V c 4 t :=
  found8_4 V (dat8 V c) (dat8_A V c 4) (dat8_after4 V c) t d

/-! ## The body obligation -/

def pre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

def post8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
theorem pointRun8 (c : Dev nD) (t : Fin cfg8.N) :
    pre8 V c t ⊢ wp frame (wpE (defs₀ (F := F)) Variants.none c none) Set.univ (bodyAt8 t) (fun _ => post8 V c t) := by
  unfold pre8 post8 bodyAt8
  simp only [dat8_before0, dat8_before1, dat8_before2, dat8_before3, dat8_before4]
  rw [show (dat8 V c).owesAt () t.succ = (dat8 V c).owesAt () t.castSucc from rfl]
  rw [show (dat8 V c).Φ t.succ = carry8 V c (t.val + 1) t.isLt from rfl, carry8_succ]
  rw [show (dat8 V c).leavesExact 0 t = owns (c : Thread nD τ) (ms8_0 t) fullShare ((dat8 V c).after 0 t) from by
    unfold Dat.leavesExact; rw [live8_0 t], dat8_after0]
  rw [show (dat8 V c).leavesExact 1 t = owns (c : Thread nD τ) (ms8_1 t) fullShare ((dat8 V c).after 1 t) from by
    unfold Dat.leavesExact; rw [live8_1 t], dat8_after1]
  rw [show (dat8 V c).leavesExact 2 t = owns (c : Thread nD τ) (ms8_2 t) fullShare ((dat8 V c).after 2 t) from by
    unfold Dat.leavesExact; rw [live8_2 t], dat8_after2]
  rw [show (dat8 V c).leavesExact 3 t = owns (c : Thread nD τ) (ms8_3 t) fullShare ((dat8 V c).after 3 t) from by
    unfold Dat.leavesExact; rw [live8_3 t], dat8_after3]
  rw [show (dat8 V c).leavesExact 4 t = owns (c : Thread nD τ) (ms8_4 t) fullShare ((dat8 V c).after 4 t) from by
    unfold Dat.leavesExact; rw [live8_4 t], dat8_after4]
  rw [show (dat8 V c).leavesExact 5 t = owns (c : Thread nD τ) (ms8_5 t) fullShare ((dat8 V c).after 5 t) from by
    unfold Dat.leavesExact; rw [live8_5 t], dat8_after5]
  have hN : t.val < 10 := lt_of_lt_of_eq t.isLt (show cfg8.N = 10 from N_8)
  by_cases hf : t.val % 10 = 0
  · have hl : ¬t.val % 10 = 9 := by omega
    have hz : t.val = 0 := by omega
    rw [Dat.leavesExact_idle (dat8 V c) 6 t (idle8_6 t (fun h => hl ((lastCond8_iff t).mp h))) (noFlush8_6 t (fun h => hl ((lastCond8_iff t).mp h)))]
    rw [Dat.leavesExact_idle (dat8 V c) 7 t (idle8_7 t (fun h => hl ((lastCond8_iff t).mp h))) (noFlush8_7 t (fun h => hl ((lastCond8_iff t).mp h)))]
    rw [stateAt8_first V c t hf hl]
    unfold tileFirst8 sumFirst8 sqFirst8; (try dsimp only)
    rw [dat8_carry V c t, carry8_zero V c _ _ hz, carryEntry8]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst8 c (grid8.coords t) _ _ _ _ _ _ _ _ _ _ _ _ _ _ _ _ _ _ _ _ ((firstCond8_iff t).mpr hf) (fun h => hl ((lastCond8_iff t).mp h)) (blockAt8 V c 0 t) (blockAt8 V c 1 t) (blockAt8 V c 2 t) (blockAt8 V c 3 t) (blockAt8 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst8_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst8_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst8_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat8 V c).leavesExact 6 t = owns (c : Thread nD τ) (ms8_6 t) fullShare ((dat8 V c).after 6 t) from by
        unfold Dat.leavesExact; rw [live8_6 t ((lastCond8_iff t).mpr hl)], dat8_after6]
      rw [show (dat8 V c).leavesExact 7 t = owns (c : Thread nD τ) (ms8_7 t) fullShare ((dat8 V c).after 7 t) from by
        unfold Dat.leavesExact; rw [live8_7 t ((lastCond8_iff t).mpr hl)], dat8_after7]
      rw [stateAt8_last V c t hf hl]
      unfold tileLast8 outSumLast8 outSqLast8 sumLast8 sqLast8; (try dsimp only)
      rw [dat8_carry V c t, carry8_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast8 c (grid8.coords t) _ _ _ _ _ _ _ _ _ _ _ _ _ _ _ _ _ _ _ _ (fun h => hf ((firstCond8_iff t).mp h)) ((lastCond8_iff t).mpr hl) (blockAt8 V c 0 t) (blockAt8 V c 1 t) (blockAt8 V c 2 t) (blockAt8 V c 3 t) (blockAt8 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast8_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast8_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast8_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast8_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast8_cover c _ _ _ _ _ _ _ _ _ _ _ _ _ _ _ _ _ _ _ _ _ _ _ _ _ _ _ _ _ _)
    · rw [Dat.leavesExact_idle (dat8 V c) 6 t (idle8_6 t (fun h => hl ((lastCond8_iff t).mp h))) (noFlush8_6 t (fun h => hl ((lastCond8_iff t).mp h)))]
      rw [Dat.leavesExact_idle (dat8 V c) 7 t (idle8_7 t (fun h => hl ((lastCond8_iff t).mp h))) (noFlush8_7 t (fun h => hl ((lastCond8_iff t).mp h)))]
      rw [stateAt8_mid V c t hf hl]
      unfold tileMid8 sumMid8 sqMid8; (try dsimp only)
      rw [dat8_carry V c t, carry8_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid8 c (grid8.coords t) _ _ _ _ _ _ _ _ _ _ _ _ _ _ _ _ _ _ _ _ (fun h => hf ((firstCond8_iff t).mp h)) (fun h => hl ((lastCond8_iff t).mp h)) (blockAt8 V c 0 t) (blockAt8 V c 1 t) (blockAt8 V c 2 t) (blockAt8 V c 3 t) (blockAt8 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid8_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid8_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid8_cover c _ _ _ _ _ _ _ _ _ _ _ _ _ _ _ _ _ _ _ _ _ _ _ _ _ _ _ _ _ _)
      isplitl [H6]; · iexists _; iexact H6
      iexists _; iexact H7

/-- The library's body obligation of region 8, at every point. -/
theorem obligation8 (c : Dev nD) : BodyObligation (dat8 (F := F) V c) (defs₀ (F := F)) Variants.none () Set.univ := fun t => by
  rw [bigSep_W8, bigSep_W8]
  exact pointRun8 V c t

/-- Entering the region: the class's invariant is the invariant before the first tile. -/
theorem carry8_in (c : Dev nD) : Pipeline.ΦA spec8 c ⊢ (dat8 V c).Φ 0 := by
  rw [show (dat8 V c).Φ 0 = carry8 V c 0 (Nat.zero_le _) from rfl, carry8_zero V c 0 _ rfl]
  try exact Idealize.SL.BI.Entails.refl _

/-- Leaving it: after the last tile the invariant gives the class's back, the scratch rows' contents forgotten. -/
theorem carry8_out (c : Dev nD) : (dat8 V c).Φ (Fin.last cfg8.N) ⊢ Pipeline.ΦA spec8 c := by
  rw [show (dat8 V c).Φ (Fin.last cfg8.N) = carry8 V c cfg8.N (Nat.le_refl _) from rfl,
    carry8_pos V c _ _ (by rw [show cfg8.N = 10 from N_8]; decide), carryEntry8]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.Kernel.Gen
end
-- ==== Proof.K.Chain.lean ====
/-
  The contents of the TensorCore's buffers between the 22 items of the program: a host stretch folds its operations
  over the contents before it; a kernel region replaces each of its windows' arrays by what its pipeline leaves
  (an input's array as entered, an output's array with every write-back folded in) and touches nothing else.
  Here: that chain from the launch memory, every region's proof data at its entry contents, the two facts the exit of
  a region needs (its arrays are at what the pipeline leaves; every other buffer is as entered), and that a buffer no
  item writes ends as launched.
-/
import proofs.«100381_j2018634629568_1_alg».proof.Proof.K.Norm1
import proofs.«100381_j2018634629568_1_alg».proof.Proof.K.Norm3
import proofs.«100381_j2018634629568_1_alg».proof.Proof.K.Norm5
import proofs.«100381_j2018634629568_1_alg».proof.Proof.K.Norm7
import proofs.«100381_j2018634629568_1_alg».proof.Proof.K.Norm9
import proofs.«100381_j2018634629568_1_alg».proof.Proof.K.Head10
import proofs.«100381_j2018634629568_1_alg».proof.Proof.K.MlpDat0
import proofs.«100381_j2018634629568_1_alg».proof.Proof.K.MlpDat2
import proofs.«100381_j2018634629568_1_alg».proof.Proof.K.MlpDat4
import proofs.«100381_j2018634629568_1_alg».proof.Proof.K.MlpDat6
import proofs.«100381_j2018634629568_1_alg».proof.Proof.K.MlpDat8
import proofs.«100381_j2018634629568_1_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev X0 : Dev nD → Valuation τ sig (Elt F) := fun c b => m (c, b)

/-! ### Item 0: the host stretch before region 0; item 1: region 0 -/
/-- After the host stretch (region 0's entry). -/
abbrev X1 : Dev nD → Valuation τ sig (Elt F) := fun c => StableHlo.after hostOps0 (X0 m c)
/-- The same read at the TensorCore's references (what region 0's proof data take). -/
abbrev E1 : (c : Dev nD) → (b : Ref sig .tc) → Buf (Elt F) ((c : Thread nD τ).loc b) := fun c b => X1 m c b
/-- At region 0's exit: its arrays at what the pipeline leaves, every other buffer as entered. -/
def X2 (c : Dev nD) : Valuation τ sig (Elt F) :=
  Pipeline.withArrays spec0 c (X1 m c) fun w => (dat0 (E1 m) c).arrAt w cfg0.N
theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev E2 : (c : Dev nD) → (b : Ref sig .tc) → Buf (Elt F) ((c : Thread nD τ).loc b) := fun c b => X2 m c b
theorem exitArr0 (c : Dev nD) (w : Fin cfg0.W) : (dat0 (E1 m) c).arrAt w cfg0.N = E2 m c (Pipeline.arrRef spec0 w) :=
  (X2_arr m c w).symm
theorem exitRest0 (c : Dev nD) : ∀ b, b ∉ Finset.univ.image (Pipeline.arrRef spec0) → E2 m c b = E1 m c b :=
  fun b hb => X2_of_ne m c b fun w e => hb (Finset.mem_image.mpr ⟨w, Finset.mem_univ _, e⟩)
/-- A buffer that is none of region 0's outputs is after the region what it was before: an input's array is as
    entered, and a buffer that is no window's array is not touched. -/
theorem X2_keep (c : Dev nD) (r : Ref sig .tc) (h : r ∉ ([main_v21_0, main_v21_1, main_v21_2] : List (Ref sig .tc))) :
    X2 m c (Proc.devRef .tc r) = X1 m c (Proc.devRef .tc r) := by
  by_cases hr : ∃ w, Pipeline.arrRef spec0 w = r
  · obtain ⟨w, rfl⟩ := hr
    rw [X2_arr]
    match w with
    | ⟨0, _⟩ => exact ((dat0 (E1 m) c).arrAt_in 0 rfl _).trans (dat0_A (E1 m) c 0)
    | ⟨1, _⟩ => exact ((dat0 (E1 m) c).arrAt_in 1 rfl _).trans (dat0_A (E1 m) c 1)
    | ⟨2, _⟩ => exact ((dat0 (E1 m) c).arrAt_in 2 rfl _).trans (dat0_A (E1 m) c 2)
    | ⟨3, _⟩ => exact ((dat0 (E1 m) c).arrAt_in 3 rfl _).trans (dat0_A (E1 m) c 3)
    | ⟨4, _⟩ => exact ((dat0 (E1 m) c).arrAt_in 4 rfl _).trans (dat0_A (E1 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X2_of_ne m c r (fun w e => hr ⟨w, e⟩)
/-- The host stretch before region 0 writes only its own results. -/
theorem X1_keep (c : Dev nD) (r : Ref sig .tc) (h : r ∉ hostOps0_W) :
    X1 m c (Proc.devRef .tc r) = X0 m c (Proc.devRef .tc r) :=
  StableHlo.after_of_writes_sub hostOps0 _ hostOps0_writes h

/-! ### Item 2: the host stretch before region 1; item 3: region 1 -/
/-- After the host stretch (region 1's entry). -/
abbrev X3 : Dev nD → Valuation τ sig (Elt F) := fun c => StableHlo.after hostOps1 (X2 m c)
/-- The same read at the TensorCore's references (what region 1's proof data take). -/
abbrev E3 : (c : Dev nD) → (b : Ref sig .tc) → Buf (Elt F) ((c : Thread nD τ).loc b) := fun c b => X3 m c b
/-- At region 1's exit: its arrays at what the pipeline leaves, every other buffer as entered. -/
def X4 (c : Dev nD) : Valuation τ sig (Elt F) :=
  Pipeline.withArrays spec1 c (X3 m c) fun w => (dat1 (E3 m) c).arrAt w cfg1.N
theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
abbrev E4 : (c : Dev nD) → (b : Ref sig .tc) → Buf (Elt F) ((c : Thread nD τ).loc b) := fun c b => X4 m c b
theorem exitArr1 (c : Dev nD) (w : Fin cfg1.W) : (dat1 (E3 m) c).arrAt w cfg1.N = E4 m c (Pipeline.arrRef spec1 w) :=
  (X4_arr m c w).symm
theorem exitRest1 (c : Dev nD) : ∀ b, b ∉ Finset.univ.image (Pipeline.arrRef spec1) → E4 m c b = E3 m c b :=
  fun b hb => X4_of_ne m c b fun w e => hb (Finset.mem_image.mpr ⟨w, Finset.mem_univ _, e⟩)
/-- A buffer that is none of region 1's outputs is after the region what it was before: an input's array is as
    entered, and a buffer that is no window's array is not touched. -/
theorem X4_keep (c : Dev nD) (r : Ref sig .tc) (h : r ∉ ([main_v24] : List (Ref sig .tc))) :
    X4 m c (Proc.devRef .tc r) = X3 m c (Proc.devRef .tc r) := by
  by_cases hr : ∃ w, Pipeline.arrRef spec1 w = r
  · obtain ⟨w, rfl⟩ := hr
    rw [X4_arr]
    match w with
    | ⟨0, _⟩ => exact ((dat1 (E3 m) c).arrAt_in 0 rfl _).trans (dat1_A (E3 m) c 0)
    | ⟨1, _⟩ => exact ((dat1 (E3 m) c).arrAt_in 1 rfl _).trans (dat1_A (E3 m) c 1)
    | ⟨2, _⟩ => exact ((dat1 (E3 m) c).arrAt_in 2 rfl _).trans (dat1_A (E3 m) c 2)
    | ⟨3, _⟩ => exact ((dat1 (E3 m) c).arrAt_in 3 rfl _).trans (dat1_A (E3 m) c 3)
    | ⟨4, _⟩ => exact ((dat1 (E3 m) c).arrAt_in 4 rfl _).trans (dat1_A (E3 m) c 4)
    | ⟨5, _⟩ => exact absurd List.mem_cons_self h
  · exact X4_of_ne m c r (fun w e => hr ⟨w, e⟩)
/-- The host stretch before region 1 writes only its own results. -/
theorem X3_keep (c : Dev nD) (r : Ref sig .tc) (h : r ∉ hostOps1_W) :
    X3 m c (Proc.devRef .tc r) = X2 m c (Proc.devRef .tc r) :=
  StableHlo.after_of_writes_sub hostOps1 _ hostOps1_writes h

/-! ### Item 4: the host stretch before region 2; item 5: region 2 -/
/-- After the host stretch (region 2's entry). -/
abbrev X5 : Dev nD → Valuation τ sig (Elt F) := fun c => StableHlo.after hostOps2 (X4 m c)
/-- The same read at the TensorCore's references (what region 2's proof data take). -/
abbrev E5 : (c : Dev nD) → (b : Ref sig .tc) → Buf (Elt F) ((c : Thread nD τ).loc b) := fun c b => X5 m c b
/-- At region 2's exit: its arrays at what the pipeline leaves, every other buffer as entered. -/
def X6 (c : Dev nD) : Valuation τ sig (Elt F) :=
  Pipeline.withArrays spec2 c (X5 m c) fun w => (dat2 (E5 m) c).arrAt w cfg2.N
theorem X6_arr (c : Dev nD) (w : Fin cfg2.W) :
    X6 m c (Proc.devRef .tc (Pipeline.arrRef spec2 w)) = (dat2 (E5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
abbrev E6 : (c : Dev nD) → (b : Ref sig .tc) → Buf (Elt F) ((c : Thread nD τ).loc b) := fun c b => X6 m c b
theorem exitArr2 (c : Dev nD) (w : Fin cfg2.W) : (dat2 (E5 m) c).arrAt w cfg2.N = E6 m c (Pipeline.arrRef spec2 w) :=
  (X6_arr m c w).symm
theorem exitRest2 (c : Dev nD) : ∀ b, b ∉ Finset.univ.image (Pipeline.arrRef spec2) → E6 m c b = E5 m c b :=
  fun b hb => X6_of_ne m c b fun w e => hb (Finset.mem_image.mpr ⟨w, Finset.mem_univ _, e⟩)
/-- A buffer that is none of region 2's outputs is after the region what it was before: an input's array is as
    entered, and a buffer that is no window's array is not touched. -/
theorem X6_keep (c : Dev nD) (r : Ref sig .tc) (h : r ∉ ([main_v50_0, main_v50_1, main_v50_2] : List (Ref sig .tc))) :
    X6 m c (Proc.devRef .tc r) = X5 m c (Proc.devRef .tc r) := by
  by_cases hr : ∃ w, Pipeline.arrRef spec2 w = r
  · obtain ⟨w, rfl⟩ := hr
    rw [X6_arr]
    match w with
    | ⟨0, _⟩ => exact ((dat2 (E5 m) c).arrAt_in 0 rfl _).trans (dat2_A (E5 m) c 0)
    | ⟨1, _⟩ => exact ((dat2 (E5 m) c).arrAt_in 1 rfl _).trans (dat2_A (E5 m) c 1)
    | ⟨2, _⟩ => exact ((dat2 (E5 m) c).arrAt_in 2 rfl _).trans (dat2_A (E5 m) c 2)
    | ⟨3, _⟩ => exact ((dat2 (E5 m) c).arrAt_in 3 rfl _).trans (dat2_A (E5 m) c 3)
    | ⟨4, _⟩ => exact ((dat2 (E5 m) c).arrAt_in 4 rfl _).trans (dat2_A (E5 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X6_of_ne m c r (fun w e => hr ⟨w, e⟩)
/-- The host stretch before region 2 writes only its own results. -/
theorem X5_keep (c : Dev nD) (r : Ref sig .tc) (h : r ∉ hostOps2_W) :
    X5 m c (Proc.devRef .tc r) = X4 m c (Proc.devRef .tc r) :=
  StableHlo.after_of_writes_sub hostOps2 _ hostOps2_writes h

/-! ### Item 6: the host stretch before region 3; item 7: region 3 -/
/-- After the host stretch (region 3's entry). -/
abbrev X7 : Dev nD → Valuation τ sig (Elt F) := fun c => StableHlo.after hostOps3 (X6 m c)
/-- The same read at the TensorCore's references (what region 3's proof data take). -/
abbrev E7 : (c : Dev nD) → (b : Ref sig .tc) → Buf (Elt F) ((c : Thread nD τ).loc b) := fun c b => X7 m c b
/-- At region 3's exit: its arrays at what the pipeline leaves, every other buffer as entered. -/
def X8 (c : Dev nD) : Valuation τ sig (Elt F) :=
  Pipeline.withArrays spec3 c (X7 m c) fun w => (dat3 (E7 m) c).arrAt w cfg3.N
theorem X8_arr (c : Dev nD) (w : Fin cfg3.W) :
    X8 m c (Proc.devRef .tc (Pipeline.arrRef spec3 w)) = (dat3 (E7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev E8 : (c : Dev nD) → (b : Ref sig .tc) → Buf (Elt F) ((c : Thread nD τ).loc b) := fun c b => X8 m c b
theorem exitArr3 (c : Dev nD) (w : Fin cfg3.W) : (dat3 (E7 m) c).arrAt w cfg3.N = E8 m c (Pipeline.arrRef spec3 w) :=
  (X8_arr m c w).symm
theorem exitRest3 (c : Dev nD) : ∀ b, b ∉ Finset.univ.image (Pipeline.arrRef spec3) → E8 m c b = E7 m c b :=
  fun b hb => X8_of_ne m c b fun w e => hb (Finset.mem_image.mpr ⟨w, Finset.mem_univ _, e⟩)
/-- A buffer that is none of region 3's outputs is after the region what it was before: an input's array is as
    entered, and a buffer that is no window's array is not touched. -/
theorem X8_keep (c : Dev nD) (r : Ref sig .tc) (h : r ∉ ([main_v53] : List (Ref sig .tc))) :
    X8 m c (Proc.devRef .tc r) = X7 m c (Proc.devRef .tc r) := by
  by_cases hr : ∃ w, Pipeline.arrRef spec3 w = r
  · obtain ⟨w, rfl⟩ := hr
    rw [X8_arr]
    match w with
    | ⟨0, _⟩ => exact ((dat3 (E7 m) c).arrAt_in 0 rfl _).trans (dat3_A (E7 m) c 0)
    | ⟨1, _⟩ => exact ((dat3 (E7 m) c).arrAt_in 1 rfl _).trans (dat3_A (E7 m) c 1)
    | ⟨2, _⟩ => exact ((dat3 (E7 m) c).arrAt_in 2 rfl _).trans (dat3_A (E7 m) c 2)
    | ⟨3, _⟩ => exact ((dat3 (E7 m) c).arrAt_in 3 rfl _).trans (dat3_A (E7 m) c 3)
    | ⟨4, _⟩ => exact ((dat3 (E7 m) c).arrAt_in 4 rfl _).trans (dat3_A (E7 m) c 4)
    | ⟨5, _⟩ => exact absurd List.mem_cons_self h
  · exact X8_of_ne m c r (fun w e => hr ⟨w, e⟩)
/-- The host stretch before region 3 writes only its own results. -/
theorem X7_keep (c : Dev nD) (r : Ref sig .tc) (h : r ∉ hostOps3_W) :
    X7 m c (Proc.devRef .tc r) = X6 m c (Proc.devRef .tc r) :=
  StableHlo.after_of_writes_sub hostOps3 _ hostOps3_writes h

/-! ### Item 8: the host stretch before region 4; item 9: region 4 -/
/-- After the host stretch (region 4's entry). -/
abbrev X9 : Dev nD → Valuation τ sig (Elt F) := fun c => StableHlo.after hostOps4 (X8 m c)
/-- The same read at the TensorCore's references (what region 4's proof data take). -/
abbrev E9 : (c : Dev nD) → (b : Ref sig .tc) → Buf (Elt F) ((c : Thread nD τ).loc b) := fun c b => X9 m c b
/-- At region 4's exit: its arrays at what the pipeline leaves, every other buffer as entered. -/
def X10 (c : Dev nD) : Valuation τ sig (Elt F) :=
  Pipeline.withArrays spec4 c (X9 m c) fun w => (dat4 (E9 m) c).arrAt w cfg4.N
theorem X10_arr (c : Dev nD) (w : Fin cfg4.W) :
    X10 m c (Proc.devRef .tc (Pipeline.arrRef spec4 w)) = (dat4 (E9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
abbrev E10 : (c : Dev nD) → (b : Ref sig .tc) → Buf (Elt F) ((c : Thread nD τ).loc b) := fun c b => X10 m c b
theorem exitArr4 (c : Dev nD) (w : Fin cfg4.W) : (dat4 (E9 m) c).arrAt w cfg4.N = E10 m c (Pipeline.arrRef spec4 w) :=
  (X10_arr m c w).symm
theorem exitRest4 (c : Dev nD) : ∀ b, b ∉ Finset.univ.image (Pipeline.arrRef spec4) → E10 m c b = E9 m c b :=
  fun b hb => X10_of_ne m c b fun w e => hb (Finset.mem_image.mpr ⟨w, Finset.mem_univ _, e⟩)
/-- A buffer that is none of region 4's outputs is after the region what it was before: an input's array is as
    entered, and a buffer that is no window's array is not touched. -/
theorem X10_keep (c : Dev nD) (r : Ref sig .tc) (h : r ∉ ([main_v79_0, main_v79_1, main_v79_2] : List (Ref sig .tc))) :
    X10 m c (Proc.devRef .tc r) = X9 m c (Proc.devRef .tc r) := by
  by_cases hr : ∃ w, Pipeline.arrRef spec4 w = r
  · obtain ⟨w, rfl⟩ := hr
    rw [X10_arr]
    match w with
    | ⟨0, _⟩ => exact ((dat4 (E9 m) c).arrAt_in 0 rfl _).trans (dat4_A (E9 m) c 0)
    | ⟨1, _⟩ => exact ((dat4 (E9 m) c).arrAt_in 1 rfl _).trans (dat4_A (E9 m) c 1)
    | ⟨2, _⟩ => exact ((dat4 (E9 m) c).arrAt_in 2 rfl _).trans (dat4_A (E9 m) c 2)
    | ⟨3, _⟩ => exact ((dat4 (E9 m) c).arrAt_in 3 rfl _).trans (dat4_A (E9 m) c 3)
    | ⟨4, _⟩ => exact ((dat4 (E9 m) c).arrAt_in 4 rfl _).trans (dat4_A (E9 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X10_of_ne m c r (fun w e => hr ⟨w, e⟩)
/-- The host stretch before region 4 writes only its own results. -/
theorem X9_keep (c : Dev nD) (r : Ref sig .tc) (h : r ∉ hostOps4_W) :
    X9 m c (Proc.devRef .tc r) = X8 m c (Proc.devRef .tc r) :=
  StableHlo.after_of_writes_sub hostOps4 _ hostOps4_writes h

/-! ### Item 10: the host stretch before region 5; item 11: region 5 -/
/-- After the host stretch (region 5's entry). -/
abbrev X11 : Dev nD → Valuation τ sig (Elt F) := fun c => StableHlo.after hostOps5 (X10 m c)
/-- The same read at the TensorCore's references (what region 5's proof data take). -/
abbrev E11 : (c : Dev nD) → (b : Ref sig .tc) → Buf (Elt F) ((c : Thread nD τ).loc b) := fun c b => X11 m c b
/-- At region 5's exit: its arrays at what the pipeline leaves, every other buffer as entered. -/
def X12 (c : Dev nD) : Valuation τ sig (Elt F) :=
  Pipeline.withArrays spec5 c (X11 m c) fun w => (dat5 (E11 m) c).arrAt w cfg5.N
theorem X12_arr (c : Dev nD) (w : Fin cfg5.W) :
    X12 m c (Proc.devRef .tc (Pipeline.arrRef spec5 w)) = (dat5 (E11 m) c).arrAt w cfg5.N := by
  unfold X12; exact Pipeline.withArrays_arr spec5 launch5.win.arr_inj c _ _ w
theorem X12_of_ne (c : Dev nD) (b : Ref sig .tc) (hb : ∀ w, Pipeline.arrRef spec5 w ≠ b) :
    X12 m c (Proc.devRef .tc b) = X11 m c (Proc.devRef .tc b) := by
  unfold X12; exact Pipeline.withArrays_of_ne spec5 c _ _ b hb
abbrev E12 : (c : Dev nD) → (b : Ref sig .tc) → Buf (Elt F) ((c : Thread nD τ).loc b) := fun c b => X12 m c b
theorem exitArr5 (c : Dev nD) (w : Fin cfg5.W) : (dat5 (E11 m) c).arrAt w cfg5.N = E12 m c (Pipeline.arrRef spec5 w) :=
  (X12_arr m c w).symm
theorem exitRest5 (c : Dev nD) : ∀ b, b ∉ Finset.univ.image (Pipeline.arrRef spec5) → E12 m c b = E11 m c b :=
  fun b hb => X12_of_ne m c b fun w e => hb (Finset.mem_image.mpr ⟨w, Finset.mem_univ _, e⟩)
/-- A buffer that is none of region 5's outputs is after the region what it was before: an input's array is as
    entered, and a buffer that is no window's array is not touched. -/
theorem X12_keep (c : Dev nD) (r : Ref sig .tc) (h : r ∉ ([main_v82] : List (Ref sig .tc))) :
    X12 m c (Proc.devRef .tc r) = X11 m c (Proc.devRef .tc r) := by
  by_cases hr : ∃ w, Pipeline.arrRef spec5 w = r
  · obtain ⟨w, rfl⟩ := hr
    rw [X12_arr]
    match w with
    | ⟨0, _⟩ => exact ((dat5 (E11 m) c).arrAt_in 0 rfl _).trans (dat5_A (E11 m) c 0)
    | ⟨1, _⟩ => exact ((dat5 (E11 m) c).arrAt_in 1 rfl _).trans (dat5_A (E11 m) c 1)
    | ⟨2, _⟩ => exact ((dat5 (E11 m) c).arrAt_in 2 rfl _).trans (dat5_A (E11 m) c 2)
    | ⟨3, _⟩ => exact ((dat5 (E11 m) c).arrAt_in 3 rfl _).trans (dat5_A (E11 m) c 3)
    | ⟨4, _⟩ => exact ((dat5 (E11 m) c).arrAt_in 4 rfl _).trans (dat5_A (E11 m) c 4)
    | ⟨5, _⟩ => exact absurd List.mem_cons_self h
  · exact X12_of_ne m c r (fun w e => hr ⟨w, e⟩)
/-- The host stretch before region 5 writes only its own results. -/
theorem X11_keep (c : Dev nD) (r : Ref sig .tc) (h : r ∉ hostOps5_W) :
    X11 m c (Proc.devRef .tc r) = X10 m c (Proc.devRef .tc r) :=
  StableHlo.after_of_writes_sub hostOps5 _ hostOps5_writes h

/-! ### Item 12: the host stretch before region 6; item 13: region 6 -/
/-- After the host stretch (region 6's entry). -/
abbrev X13 : Dev nD → Valuation τ sig (Elt F) := fun c => StableHlo.after hostOps6 (X12 m c)
/-- The same read at the TensorCore's references (what region 6's proof data take). -/
abbrev E13 : (c : Dev nD) → (b : Ref sig .tc) → Buf (Elt F) ((c : Thread nD τ).loc b) := fun c b => X13 m c b
/-- At region 6's exit: its arrays at what the pipeline leaves, every other buffer as entered. -/
def X14 (c : Dev nD) : Valuation τ sig (Elt F) :=
  Pipeline.withArrays spec6 c (X13 m c) fun w => (dat6 (E13 m) c).arrAt w cfg6.N
theorem X14_arr (c : Dev nD) (w : Fin cfg6.W) :
    X14 m c (Proc.devRef .tc (Pipeline.arrRef spec6 w)) = (dat6 (E13 m) c).arrAt w cfg6.N := by
  unfold X14; exact Pipeline.withArrays_arr spec6 launch6.win.arr_inj c _ _ w
theorem X14_of_ne (c : Dev nD) (b : Ref sig .tc) (hb : ∀ w, Pipeline.arrRef spec6 w ≠ b) :
    X14 m c (Proc.devRef .tc b) = X13 m c (Proc.devRef .tc b) := by
  unfold X14; exact Pipeline.withArrays_of_ne spec6 c _ _ b hb
abbrev E14 : (c : Dev nD) → (b : Ref sig .tc) → Buf (Elt F) ((c : Thread nD τ).loc b) := fun c b => X14 m c b
theorem exitArr6 (c : Dev nD) (w : Fin cfg6.W) : (dat6 (E13 m) c).arrAt w cfg6.N = E14 m c (Pipeline.arrRef spec6 w) :=
  (X14_arr m c w).symm
theorem exitRest6 (c : Dev nD) : ∀ b, b ∉ Finset.univ.image (Pipeline.arrRef spec6) → E14 m c b = E13 m c b :=
  fun b hb => X14_of_ne m c b fun w e => hb (Finset.mem_image.mpr ⟨w, Finset.mem_univ _, e⟩)
/-- A buffer that is none of region 6's outputs is after the region what it was before: an input's array is as
    entered, and a buffer that is no window's array is not touched. -/
theorem X14_keep (c : Dev nD) (r : Ref sig .tc) (h : r ∉ ([main_v108_0, main_v108_1, main_v108_2] : List (Ref sig .tc))) :
    X14 m c (Proc.devRef .tc r) = X13 m c (Proc.devRef .tc r) := by
  by_cases hr : ∃ w, Pipeline.arrRef spec6 w = r
  · obtain ⟨w, rfl⟩ := hr
    rw [X14_arr]
    match w with
    | ⟨0, _⟩ => exact ((dat6 (E13 m) c).arrAt_in 0 rfl _).trans (dat6_A (E13 m) c 0)
    | ⟨1, _⟩ => exact ((dat6 (E13 m) c).arrAt_in 1 rfl _).trans (dat6_A (E13 m) c 1)
    | ⟨2, _⟩ => exact ((dat6 (E13 m) c).arrAt_in 2 rfl _).trans (dat6_A (E13 m) c 2)
    | ⟨3, _⟩ => exact ((dat6 (E13 m) c).arrAt_in 3 rfl _).trans (dat6_A (E13 m) c 3)
    | ⟨4, _⟩ => exact ((dat6 (E13 m) c).arrAt_in 4 rfl _).trans (dat6_A (E13 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X14_of_ne m c r (fun w e => hr ⟨w, e⟩)
/-- The host stretch before region 6 writes only its own results. -/
theorem X13_keep (c : Dev nD) (r : Ref sig .tc) (h : r ∉ hostOps6_W) :
    X13 m c (Proc.devRef .tc r) = X12 m c (Proc.devRef .tc r) :=
  StableHlo.after_of_writes_sub hostOps6 _ hostOps6_writes h

/-! ### Item 14: the host stretch before region 7; item 15: region 7 -/
/-- After the host stretch (region 7's entry). -/
abbrev X15 : Dev nD → Valuation τ sig (Elt F) := fun c => StableHlo.after hostOps7 (X14 m c)
/-- The same read at the TensorCore's references (what region 7's proof data take). -/
abbrev E15 : (c : Dev nD) → (b : Ref sig .tc) → Buf (Elt F) ((c : Thread nD τ).loc b) := fun c b => X15 m c b
/-- At region 7's exit: its arrays at what the pipeline leaves, every other buffer as entered. -/
def X16 (c : Dev nD) : Valuation τ sig (Elt F) :=
  Pipeline.withArrays spec7 c (X15 m c) fun w => (dat7 (E15 m) c).arrAt w cfg7.N
theorem X16_arr (c : Dev nD) (w : Fin cfg7.W) :
    X16 m c (Proc.devRef .tc (Pipeline.arrRef spec7 w)) = (dat7 (E15 m) c).arrAt w cfg7.N := by
  unfold X16; exact Pipeline.withArrays_arr spec7 launch7.win.arr_inj c _ _ w
theorem X16_of_ne (c : Dev nD) (b : Ref sig .tc) (hb : ∀ w, Pipeline.arrRef spec7 w ≠ b) :
    X16 m c (Proc.devRef .tc b) = X15 m c (Proc.devRef .tc b) := by
  unfold X16; exact Pipeline.withArrays_of_ne spec7 c _ _ b hb
abbrev E16 : (c : Dev nD) → (b : Ref sig .tc) → Buf (Elt F) ((c : Thread nD τ).loc b) := fun c b => X16 m c b
theorem exitArr7 (c : Dev nD) (w : Fin cfg7.W) : (dat7 (E15 m) c).arrAt w cfg7.N = E16 m c (Pipeline.arrRef spec7 w) :=
  (X16_arr m c w).symm
theorem exitRest7 (c : Dev nD) : ∀ b, b ∉ Finset.univ.image (Pipeline.arrRef spec7) → E16 m c b = E15 m c b :=
  fun b hb => X16_of_ne m c b fun w e => hb (Finset.mem_image.mpr ⟨w, Finset.mem_univ _, e⟩)
/-- A buffer that is none of region 7's outputs is after the region what it was before: an input's array is as
    entered, and a buffer that is no window's array is not touched. -/
theorem X16_keep (c : Dev nD) (r : Ref sig .tc) (h : r ∉ ([main_v111] : List (Ref sig .tc))) :
    X16 m c (Proc.devRef .tc r) = X15 m c (Proc.devRef .tc r) := by
  by_cases hr : ∃ w, Pipeline.arrRef spec7 w = r
  · obtain ⟨w, rfl⟩ := hr
    rw [X16_arr]
    match w with
    | ⟨0, _⟩ => exact ((dat7 (E15 m) c).arrAt_in 0 rfl _).trans (dat7_A (E15 m) c 0)
    | ⟨1, _⟩ => exact ((dat7 (E15 m) c).arrAt_in 1 rfl _).trans (dat7_A (E15 m) c 1)
    | ⟨2, _⟩ => exact ((dat7 (E15 m) c).arrAt_in 2 rfl _).trans (dat7_A (E15 m) c 2)
    | ⟨3, _⟩ => exact ((dat7 (E15 m) c).arrAt_in 3 rfl _).trans (dat7_A (E15 m) c 3)
    | ⟨4, _⟩ => exact ((dat7 (E15 m) c).arrAt_in 4 rfl _).trans (dat7_A (E15 m) c 4)
    | ⟨5, _⟩ => exact absurd List.mem_cons_self h
  · exact X16_of_ne m c r (fun w e => hr ⟨w, e⟩)
/-- The host stretch before region 7 writes only its own results. -/
theorem X15_keep (c : Dev nD) (r : Ref sig .tc) (h : r ∉ hostOps7_W) :
    X15 m c (Proc.devRef .tc r) = X14 m c (Proc.devRef .tc r) :=
  StableHlo.after_of_writes_sub hostOps7 _ hostOps7_writes h

/-! ### Item 16: the host stretch before region 8; item 17: region 8 -/
/-- After the host stretch (region 8's entry). -/
abbrev X17 : Dev nD → Valuation τ sig (Elt F) := fun c => StableHlo.after hostOps8 (X16 m c)
/-- The same read at the TensorCore's references (what region 8's proof data take). -/
abbrev E17 : (c : Dev nD) → (b : Ref sig .tc) → Buf (Elt F) ((c : Thread nD τ).loc b) := fun c b => X17 m c b
/-- At region 8's exit: its arrays at what the pipeline leaves, every other buffer as entered. -/
def X18 (c : Dev nD) : Valuation τ sig (Elt F) :=
  Pipeline.withArrays spec8 c (X17 m c) fun w => (dat8 (E17 m) c).arrAt w cfg8.N
theorem X18_arr (c : Dev nD) (w : Fin cfg8.W) :
    X18 m c (Proc.devRef .tc (Pipeline.arrRef spec8 w)) = (dat8 (E17 m) c).arrAt w cfg8.N := by
  unfold X18; exact Pipeline.withArrays_arr spec8 launch8.win.arr_inj c _ _ w
theorem X18_of_ne (c : Dev nD) (b : Ref sig .tc) (hb : ∀ w, Pipeline.arrRef spec8 w ≠ b) :
    X18 m c (Proc.devRef .tc b) = X17 m c (Proc.devRef .tc b) := by
  unfold X18; exact Pipeline.withArrays_of_ne spec8 c _ _ b hb
abbrev E18 : (c : Dev nD) → (b : Ref sig .tc) → Buf (Elt F) ((c : Thread nD τ).loc b) := fun c b => X18 m c b
theorem exitArr8 (c : Dev nD) (w : Fin cfg8.W) : (dat8 (E17 m) c).arrAt w cfg8.N = E18 m c (Pipeline.arrRef spec8 w) :=
  (X18_arr m c w).symm
theorem exitRest8 (c : Dev nD) : ∀ b, b ∉ Finset.univ.image (Pipeline.arrRef spec8) → E18 m c b = E17 m c b :=
  fun b hb => X18_of_ne m c b fun w e => hb (Finset.mem_image.mpr ⟨w, Finset.mem_univ _, e⟩)
/-- A buffer that is none of region 8's outputs is after the region what it was before: an input's array is as
    entered, and a buffer that is no window's array is not touched. -/
theorem X18_keep (c : Dev nD) (r : Ref sig .tc) (h : r ∉ ([main_v137_0, main_v137_1, main_v137_2] : List (Ref sig .tc))) :
    X18 m c (Proc.devRef .tc r) = X17 m c (Proc.devRef .tc r) := by
  by_cases hr : ∃ w, Pipeline.arrRef spec8 w = r
  · obtain ⟨w, rfl⟩ := hr
    rw [X18_arr]
    match w with
    | ⟨0, _⟩ => exact ((dat8 (E17 m) c).arrAt_in 0 rfl _).trans (dat8_A (E17 m) c 0)
    | ⟨1, _⟩ => exact ((dat8 (E17 m) c).arrAt_in 1 rfl _).trans (dat8_A (E17 m) c 1)
    | ⟨2, _⟩ => exact ((dat8 (E17 m) c).arrAt_in 2 rfl _).trans (dat8_A (E17 m) c 2)
    | ⟨3, _⟩ => exact ((dat8 (E17 m) c).arrAt_in 3 rfl _).trans (dat8_A (E17 m) c 3)
    | ⟨4, _⟩ => exact ((dat8 (E17 m) c).arrAt_in 4 rfl _).trans (dat8_A (E17 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X18_of_ne m c r (fun w e => hr ⟨w, e⟩)
/-- The host stretch before region 8 writes only its own results. -/
theorem X17_keep (c : Dev nD) (r : Ref sig .tc) (h : r ∉ hostOps8_W) :
    X17 m c (Proc.devRef .tc r) = X16 m c (Proc.devRef .tc r) :=
  StableHlo.after_of_writes_sub hostOps8 _ hostOps8_writes h

/-! ### Item 18: the host stretch before region 9; item 19: region 9 -/
/-- After the host stretch (region 9's entry). -/
abbrev X19 : Dev nD → Valuation τ sig (Elt F) := fun c => StableHlo.after hostOps9 (X18 m c)
/-- The same read at the TensorCore's references (what region 9's proof data take). -/
abbrev E19 : (c : Dev nD) → (b : Ref sig .tc) → Buf (Elt F) ((c : Thread nD τ).loc b) := fun c b => X19 m c b
/-- At region 9's exit: its arrays at what the pipeline leaves, every other buffer as entered. -/
def X20 (c : Dev nD) : Valuation τ sig (Elt F) :=
  Pipeline.withArrays spec9 c (X19 m c) fun w => (dat9 (E19 m) c).arrAt w cfg9.N
theorem X20_arr (c : Dev nD) (w : Fin cfg9.W) :
    X20 m c (Proc.devRef .tc (Pipeline.arrRef spec9 w)) = (dat9 (E19 m) c).arrAt w cfg9.N := by
  unfold X20; exact Pipeline.withArrays_arr spec9 launch9.win.arr_inj c _ _ w
theorem X20_of_ne (c : Dev nD) (b : Ref sig .tc) (hb : ∀ w, Pipeline.arrRef spec9 w ≠ b) :
    X20 m c (Proc.devRef .tc b) = X19 m c (Proc.devRef .tc b) := by
  unfold X20; exact Pipeline.withArrays_of_ne spec9 c _ _ b hb
abbrev E20 : (c : Dev nD) → (b : Ref sig .tc) → Buf (Elt F) ((c : Thread nD τ).loc b) := fun c b => X20 m c b
theorem exitArr9 (c : Dev nD) (w : Fin cfg9.W) : (dat9 (E19 m) c).arrAt w cfg9.N = E20 m c (Pipeline.arrRef spec9 w) :=
  (X20_arr m c w).symm
theorem exitRest9 (c : Dev nD) : ∀ b, b ∉ Finset.univ.image (Pipeline.arrRef spec9) → E20 m c b = E19 m c b :=
  fun b hb => X20_of_ne m c b fun w e => hb (Finset.mem_image.mpr ⟨w, Finset.mem_univ _, e⟩)
/-- A buffer that is none of region 9's outputs is after the region what it was before: an input's array is as
    entered, and a buffer that is no window's array is not touched. -/
theorem X20_keep (c : Dev nD) (r : Ref sig .tc) (h : r ∉ ([main_v140] : List (Ref sig .tc))) :
    X20 m c (Proc.devRef .tc r) = X19 m c (Proc.devRef .tc r) := by
  by_cases hr : ∃ w, Pipeline.arrRef spec9 w = r
  · obtain ⟨w, rfl⟩ := hr
    rw [X20_arr]
    match w with
    | ⟨0, _⟩ => exact ((dat9 (E19 m) c).arrAt_in 0 rfl _).trans (dat9_A (E19 m) c 0)
    | ⟨1, _⟩ => exact ((dat9 (E19 m) c).arrAt_in 1 rfl _).trans (dat9_A (E19 m) c 1)
    | ⟨2, _⟩ => exact ((dat9 (E19 m) c).arrAt_in 2 rfl _).trans (dat9_A (E19 m) c 2)
    | ⟨3, _⟩ => exact ((dat9 (E19 m) c).arrAt_in 3 rfl _).trans (dat9_A (E19 m) c 3)
    | ⟨4, _⟩ => exact ((dat9 (E19 m) c).arrAt_in 4 rfl _).trans (dat9_A (E19 m) c 4)
    | ⟨5, _⟩ => exact absurd List.mem_cons_self h
  · exact X20_of_ne m c r (fun w e => hr ⟨w, e⟩)
/-- The host stretch before region 9 writes only its own results. -/
theorem X19_keep (c : Dev nD) (r : Ref sig .tc) (h : r ∉ hostOps9_W) :
    X19 m c (Proc.devRef .tc r) = X18 m c (Proc.devRef .tc r) :=
  StableHlo.after_of_writes_sub hostOps9 _ hostOps9_writes h

/-! ### Item 20: the host stretch before region 10; item 21: region 10 -/
/-- After the host stretch (region 10's entry). -/
abbrev X21 : Dev nD → Valuation τ sig (Elt F) := fun c => StableHlo.after hostOps10 (X20 m c)
/-- The same read at the TensorCore's references (what region 10's proof data take). -/
abbrev E21 : (c : Dev nD) → (b : Ref sig .tc) → Buf (Elt F) ((c : Thread nD τ).loc b) := fun c b => X21 m c b
/-- At region 10's exit: its arrays at what the pipeline leaves, every other buffer as entered. -/
def X22 (c : Dev nD) : Valuation τ sig (Elt F) :=
  Pipeline.withArrays spec10 c (X21 m c) fun w => (dat10 (E21 m) c).arrAt w cfg10.N
theorem X22_arr (c : Dev nD) (w : Fin cfg10.W) :
    X22 m c (Proc.devRef .tc (Pipeline.arrRef spec10 w)) = (dat10 (E21 m) c).arrAt w cfg10.N := by
  unfold X22; exact Pipeline.withArrays_arr spec10 launch10.win.arr_inj c _ _ w
theorem X22_of_ne (c : Dev nD) (b : Ref sig .tc) (hb : ∀ w, Pipeline.arrRef spec10 w ≠ b) :
    X22 m c (Proc.devRef .tc b) = X21 m c (Proc.devRef .tc b) := by
  unfold X22; exact Pipeline.withArrays_of_ne spec10 c _ _ b hb
abbrev E22 : (c : Dev nD) → (b : Ref sig .tc) → Buf (Elt F) ((c : Thread nD τ).loc b) := fun c b => X22 m c b
theorem exitArr10 (c : Dev nD) (w : Fin cfg10.W) : (dat10 (E21 m) c).arrAt w cfg10.N = E22 m c (Pipeline.arrRef spec10 w) :=
  (X22_arr m c w).symm
theorem exitRest10 (c : Dev nD) : ∀ b, b ∉ Finset.univ.image (Pipeline.arrRef spec10) → E22 m c b = E21 m c b :=
  fun b hb => X22_of_ne m c b fun w e => hb (Finset.mem_image.mpr ⟨w, Finset.mem_univ _, e⟩)
/-- A buffer that is none of region 10's outputs is after the region what it was before: an input's array is as
    entered, and a buffer that is no window's array is not touched. -/
theorem X22_keep (c : Dev nD) (r : Ref sig .tc) (h : r ∉ ([main_v155] : List (Ref sig .tc))) :
    X22 m c (Proc.devRef .tc r) = X21 m c (Proc.devRef .tc r) := by
  by_cases hr : ∃ w, Pipeline.arrRef spec10 w = r
  · obtain ⟨w, rfl⟩ := hr
    rw [X22_arr]
    match w with
    | ⟨0, _⟩ => exact ((dat10 (E21 m) c).arrAt_in 0 rfl _).trans (dat10_A (E21 m) c 0)
    | ⟨1, _⟩ => exact ((dat10 (E21 m) c).arrAt_in 1 rfl _).trans (dat10_A (E21 m) c 1)
    | ⟨2, _⟩ => exact ((dat10 (E21 m) c).arrAt_in 2 rfl _).trans (dat10_A (E21 m) c 2)
    | ⟨3, _⟩ => exact ((dat10 (E21 m) c).arrAt_in 3 rfl _).trans (dat10_A (E21 m) c 3)
    | ⟨4, _⟩ => exact ((dat10 (E21 m) c).arrAt_in 4 rfl _).trans (dat10_A (E21 m) c 4)
    | ⟨5, _⟩ => exact absurd List.mem_cons_self h
  · exact X22_of_ne m c r (fun w e => hr ⟨w, e⟩)
/-- The host stretch before region 10 writes only its own results. -/
theorem X21_keep (c : Dev nD) (r : Ref sig .tc) (h : r ∉ hostOps10_W) :
    X21 m c (Proc.devRef .tc r) = X20 m c (Proc.devRef .tc r) :=
  StableHlo.after_of_writes_sub hostOps10 _ hostOps10_writes h

/-! ## A buffer no item writes ends as launched -/

/-- Every buffer some item writes: the host stretches' results and the regions' outputs. -/
abbrev writtenRefs : List (Ref sig .tc) := hostOps0_W ++ ([main_v21_0, main_v21_1, main_v21_2] ++ (hostOps1_W ++ ([main_v24] ++ (hostOps2_W ++ ([main_v50_0, main_v50_1, main_v50_2] ++ (hostOps3_W ++ ([main_v53] ++ (hostOps4_W ++ ([main_v79_0, main_v79_1, main_v79_2] ++ (hostOps5_W ++ ([main_v82] ++ (hostOps6_W ++ ([main_v108_0, main_v108_1, main_v108_2] ++ (hostOps7_W ++ ([main_v111] ++ (hostOps8_W ++ ([main_v137_0, main_v137_1, main_v137_2] ++ (hostOps9_W ++ ([main_v140] ++ (hostOps10_W ++ ([main_v155])))))))))))))))))))))

theorem X22_launch (c : Dev nD) (r : Ref sig .tc) (h : r ∉ writtenRefs) :
    X22 m c (Proc.devRef .tc r) = m ((c : Thread nD τ).loc r) := by
  simp only [writtenRefs, List.mem_append, not_or] at h
  obtain ⟨h1, h2, h3, h4, h5, h6, h7, h8, h9, h10, h11, h12, h13, h14, h15, h16, h17, h18, h19, h20, h21, h22⟩ := h
  exact (X22_keep m c r h22).trans <| (X21_keep m c r h21).trans <| (X20_keep m c r h20).trans <| (X19_keep m c r h19).trans <| (X18_keep m c r h18).trans <| (X17_keep m c r h17).trans <| (X16_keep m c r h16).trans <| (X15_keep m c r h15).trans <| (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1).trans <| rfl

/-! ## What rides beside the buffers through every item -/
abbrev noVariants : Variants := Variants.none
/-- No core owes another anything: no level is assigned. -/
abbrev noLevels : GSem nD τ sig → Finset Unit := fun _ => ∅
abbrev levelZero : GSem nD τ sig → Unit → ℕ := fun _ _ => 0
/-- The core's generator register at some state and its dues, at nothing. -/
abbrev riding (c : Dev nD) : sProp 𝕄 := iprop((∃ r, prngReg c r) ∗ ∃ W, owes (c : Thread nD τ) (0 : CellTallies nD τ sig Unit) W)

/-! ## Every pipeline's proof data, each at its region's entry contents -/
def pdats : (p : Fin 11) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨10, _⟩ => fun c => dat10 (E21 m) c

end Cert.Kernel.Gen
end
-- ==== Proof.K.ItemsA.lean ====
/-
  The kernel regions 0 to 3 of the program as items of its run: each is entered with every unscoped buffer of the
  TensorCore at the contents before it and left with them at the contents after it (the chain of contents), beside the
  generator register at some state and the core owing nothing.
-/
import proofs.«100381_j2018634629568_1_alg».proof.Proof.K.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 as an item of the program: entered with every unscoped buffer at the contents before it, left with them
    at the contents after it; its windows' arrays are split out of the unscoped buffers at entry and put back at exit;
    the generator register goes into the region's invariant and comes back; the core owes nothing. -/
def item1 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ noLevels levelZero 0 fun _ _ => rfl
  pre c := iprop(StableHlo.held (c : Thread nD τ) (Pipeline.ucRefs τ sig) (X1 m c) ∗ riding c)
  post c := iprop(StableHlo.held (c : Thread nD τ) (Pipeline.ucRefs τ sig) (X2 m c) ∗ riding c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry0_in (E1 m) c)
    unfold Pipeline.ΦA
    iintro ⟨Hp, -, Hr⟩
    isplitl [Hr]; · iexact Hr
    iexact Hp
  hout c := by
    rw [Pipeline.ownSems0_none]
    refine BIBase.Entails.trans (carry0_out (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as an item of the program: entered with every unscoped buffer at the contents before it, left with them
    at the contents after it; its windows' arrays are split out of the unscoped buffers at entry and put back at exit;
    the generator register goes into the region's invariant and comes back; the core owes nothing. -/
def item3 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (obligation1 (E3 m) c).loose
  hwaits := Pipeline.hwaits_of_owed_zero _ _ _ _ noLevels levelZero 1 fun _ _ => rfl
  pre c := iprop(StableHlo.held (c : Thread nD τ) (Pipeline.ucRefs τ sig) (X3 m c) ∗ riding c)
  post c := iprop(StableHlo.held (c : Thread nD τ) (Pipeline.ucRefs τ sig) (X4 m c) ∗ riding c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as an item of the program: entered with every unscoped buffer at the contents before it, left with them
    at the contents after it; its windows' arrays are split out of the unscoped buffers at entry and put back at exit;
    the generator register goes into the region's invariant and comes back; the core owes nothing. -/
def item5 : Pipeline.RegionSeg (pcfgs (F := F)) adm (pdats m) () defs₀ noVariants noLevels levelZero 2 where
  win := launch2.win.to₀
  block_pos := launch2.block_pos
  stage_whole := launch2.stage_whole
  K := PEmpty
  osem k := k.elim
  ho := Pipeline.OwnSemFacts.none _
  hbody c := (obligation2 (E5 m) c).loose
  hwaits := Pipeline.hwaits_of_owed_zero _ _ _ _ noLevels levelZero 2 fun _ _ => rfl
  pre c := iprop(StableHlo.held (c : Thread nD τ) (Pipeline.ucRefs τ sig) (X5 m c) ∗ riding c)
  post c := iprop(StableHlo.held (c : Thread nD τ) (Pipeline.ucRefs τ sig) (X6 m c) ∗ riding c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry2_in (E5 m) c)
    unfold Pipeline.ΦA
    iintro ⟨Hp, -, Hr⟩
    isplitl [Hr]; · iexact Hr
    iexact Hp
  hout c := by
    rw [Pipeline.ownSems0_none]
    refine BIBase.Entails.trans (carry2_out (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as an item of the program: entered with every unscoped buffer at the contents before it, left with them
    at the contents after it; its windows' arrays are split out of the unscoped buffers at entry and put back at exit;
    the generator register goes into the region's invariant and comes back; the core owes nothing. -/
def item7 : Pipeline.RegionSeg (pcfgs (F := F)) adm (pdats m) () defs₀ noVariants noLevels levelZero 3 where
  win := launch3.win.to₀
  block_pos := launch3.block_pos
  stage_whole := launch3.stage_whole
  K := PEmpty
  osem k := k.elim
  ho := Pipeline.OwnSemFacts.none _
  hbody c := (obligation3 (E7 m) c).loose
  hwaits := Pipeline.hwaits_of_owed_zero _ _ _ _ noLevels levelZero 3 fun _ _ => rfl
  pre c := iprop(StableHlo.held (c : Thread nD τ) (Pipeline.ucRefs τ sig) (X7 m c) ∗ riding c)
  post c := iprop(StableHlo.held (c : Thread nD τ) (Pipeline.ucRefs τ sig) (X8 m c) ∗ riding c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen
end
-- ==== Proof.K.ItemsB.lean ====
/-
  The kernel regions 4 to 7 of the program as items of its run: each is entered with every unscoped buffer of the
  TensorCore at the contents before it and left with them at the contents after it (the chain of contents), beside the
  generator register at some state and the core owing nothing.
-/
import proofs.«100381_j2018634629568_1_alg».proof.Proof.K.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 as an item of the program: entered with every unscoped buffer at the contents before it, left with them
    at the contents after it; its windows' arrays are split out of the unscoped buffers at entry and put back at exit;
    the generator register goes into the region's invariant and comes back; the core owes nothing. -/
def item9 : Pipeline.RegionSeg (pcfgs (F := F)) adm (pdats m) () defs₀ noVariants noLevels levelZero 4 where
  win := launch4.win.to₀
  block_pos := launch4.block_pos
  stage_whole := launch4.stage_whole
  K := PEmpty
  osem k := k.elim
  ho := Pipeline.OwnSemFacts.none _
  hbody c := (obligation4 (E9 m) c).loose
  hwaits := Pipeline.hwaits_of_owed_zero _ _ _ _ noLevels levelZero 4 fun _ _ => rfl
  pre c := iprop(StableHlo.held (c : Thread nD τ) (Pipeline.ucRefs τ sig) (X9 m c) ∗ riding c)
  post c := iprop(StableHlo.held (c : Thread nD τ) (Pipeline.ucRefs τ sig) (X10 m c) ∗ riding c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry4_in (E9 m) c)
    unfold Pipeline.ΦA
    iintro ⟨Hp, -, Hr⟩
    isplitl [Hr]; · iexact Hr
    iexact Hp
  hout c := by
    rw [Pipeline.ownSems0_none]
    refine BIBase.Entails.trans (carry4_out (E9 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as an item of the program: entered with every unscoped buffer at the contents before it, left with them
    at the contents after it; its windows' arrays are split out of the unscoped buffers at entry and put back at exit;
    the generator register goes into the region's invariant and comes back; the core owes nothing. -/
def item11 : Pipeline.RegionSeg (pcfgs (F := F)) adm (pdats m) () defs₀ noVariants noLevels levelZero 5 where
  win := launch5.win.to₀
  block_pos := launch5.block_pos
  stage_whole := launch5.stage_whole
  K := PEmpty
  osem k := k.elim
  ho := Pipeline.OwnSemFacts.none _
  hbody c := (obligation5 (E11 m) c).loose
  hwaits := Pipeline.hwaits_of_owed_zero _ _ _ _ noLevels levelZero 5 fun _ _ => rfl
  pre c := iprop(StableHlo.held (c : Thread nD τ) (Pipeline.ucRefs τ sig) (X11 m c) ∗ riding c)
  post c := iprop(StableHlo.held (c : Thread nD τ) (Pipeline.ucRefs τ sig) (X12 m c) ∗ riding c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as an item of the program: entered with every unscoped buffer at the contents before it, left with them
    at the contents after it; its windows' arrays are split out of the unscoped buffers at entry and put back at exit;
    the generator register goes into the region's invariant and comes back; the core owes nothing. -/
def item13 : Pipeline.RegionSeg (pcfgs (F := F)) adm (pdats m) () defs₀ noVariants noLevels levelZero 6 where
  win := launch6.win.to₀
  block_pos := launch6.block_pos
  stage_whole := launch6.stage_whole
  K := PEmpty
  osem k := k.elim
  ho := Pipeline.OwnSemFacts.none _
  hbody c := (obligation6 (E13 m) c).loose
  hwaits := Pipeline.hwaits_of_owed_zero _ _ _ _ noLevels levelZero 6 fun _ _ => rfl
  pre c := iprop(StableHlo.held (c : Thread nD τ) (Pipeline.ucRefs τ sig) (X13 m c) ∗ riding c)
  post c := iprop(StableHlo.held (c : Thread nD τ) (Pipeline.ucRefs τ sig) (X14 m c) ∗ riding c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry6_in (E13 m) c)
    unfold Pipeline.ΦA
    iintro ⟨Hp, -, Hr⟩
    isplitl [Hr]; · iexact Hr
    iexact Hp
  hout c := by
    rw [Pipeline.ownSems0_none]
    refine BIBase.Entails.trans (carry6_out (E13 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 as an item of the program: entered with every unscoped buffer at the contents before it, left with them
    at the contents after it; its windows' arrays are split out of the unscoped buffers at entry and put back at exit;
    the generator register goes into the region's invariant and comes back; the core owes nothing. -/
def item15 : Pipeline.RegionSeg (pcfgs (F := F)) adm (pdats m) () defs₀ noVariants noLevels levelZero 7 where
  win := launch7.win.to₀
  block_pos := launch7.block_pos
  stage_whole := launch7.stage_whole
  K := PEmpty
  osem k := k.elim
  ho := Pipeline.OwnSemFacts.none _
  hbody c := (obligation7 (E15 m) c).loose
  hwaits := Pipeline.hwaits_of_owed_zero _ _ _ _ noLevels levelZero 7 fun _ _ => rfl
  pre c := iprop(StableHlo.held (c : Thread nD τ) (Pipeline.ucRefs τ sig) (X15 m c) ∗ riding c)
  post c := iprop(StableHlo.held (c : Thread nD τ) (Pipeline.ucRefs τ sig) (X16 m c) ∗ riding c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (exitArr7 m c) (exitRest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen
end
-- ==== Proof.K.ItemsC.lean ====
/-
  The kernel regions 8 to 10 of the program as items of its run: each is entered with every unscoped buffer of the
  TensorCore at the contents before it and left with them at the contents after it (the chain of contents), beside the
  generator register at some state and the core owing nothing.
-/
import proofs.«100381_j2018634629568_1_alg».proof.Proof.K.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 as an item of the program: entered with every unscoped buffer at the contents before it, left with them
    at the contents after it; its windows' arrays are split out of the unscoped buffers at entry and put back at exit;
    the generator register goes into the region's invariant and comes back; the core owes nothing. -/
def item17 : Pipeline.RegionSeg (pcfgs (F := F)) adm (pdats m) () defs₀ noVariants noLevels levelZero 8 where
  win := launch8.win.to₀
  block_pos := launch8.block_pos
  stage_whole := launch8.stage_whole
  K := PEmpty
  osem k := k.elim
  ho := Pipeline.OwnSemFacts.none _
  hbody c := (obligation8 (E17 m) c).loose
  hwaits := Pipeline.hwaits_of_owed_zero _ _ _ _ noLevels levelZero 8 fun _ _ => rfl
  pre c := iprop(StableHlo.held (c : Thread nD τ) (Pipeline.ucRefs τ sig) (X17 m c) ∗ riding c)
  post c := iprop(StableHlo.held (c : Thread nD τ) (Pipeline.ucRefs τ sig) (X18 m c) ∗ riding c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry8_in (E17 m) c)
    unfold Pipeline.ΦA
    iintro ⟨Hp, -, Hr⟩
    isplitl [Hr]; · iexact Hr
    iexact Hp
  hout c := by
    rw [Pipeline.ownSems0_none]
    refine BIBase.Entails.trans (carry8_out (E17 m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m c) (E18 m c) ((pdats m 8 c).arrAt · cfg8.N) (exitArr8 m c) (exitRest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 as an item of the program: entered with every unscoped buffer at the contents before it, left with them
    at the contents after it; its windows' arrays are split out of the unscoped buffers at entry and put back at exit;
    the generator register goes into the region's invariant and comes back; the core owes nothing. -/
def item19 : Pipeline.RegionSeg (pcfgs (F := F)) adm (pdats m) () defs₀ noVariants noLevels levelZero 9 where
  win := launch9.win.to₀
  block_pos := launch9.block_pos
  stage_whole := launch9.stage_whole
  K := PEmpty
  osem k := k.elim
  ho := Pipeline.OwnSemFacts.none _
  hbody c := (obligation9 (E19 m) c).loose
  hwaits := Pipeline.hwaits_of_owed_zero _ _ _ _ noLevels levelZero 9 fun _ _ => rfl
  pre c := iprop(StableHlo.held (c : Thread nD τ) (Pipeline.ucRefs τ sig) (X19 m c) ∗ riding c)
  post c := iprop(StableHlo.held (c : Thread nD τ) (Pipeline.ucRefs τ sig) (X20 m c) ∗ riding c)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E19 m c) (E20 m c) ((pdats m 9 c).arrAt · cfg9.N) (exitArr9 m c) (exitRest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 as an item of the program: entered with every unscoped buffer at the contents before it, left with them
    at the contents after it; its windows' arrays are split out of the unscoped buffers at entry and put back at exit;
    the generator register goes into the region's invariant and comes back; the core owes nothing. -/
def item21 : Pipeline.RegionSeg (pcfgs (F := F)) adm (pdats m) () defs₀ noVariants noLevels levelZero 10 where
  win := launch10.win.to₀
  block_pos := launch10.block_pos
  stage_whole := launch10.stage_whole
  K := PEmpty
  osem k := k.elim
  ho := Pipeline.OwnSemFacts.none _
  hbody c := (obligation10 (E21 m) c).loose
  hwaits := Pipeline.hwaits_of_owed_zero _ _ _ _ noLevels levelZero 10 fun _ _ => rfl
  pre c := iprop(StableHlo.held (c : Thread nD τ) (Pipeline.ucRefs τ sig) (X21 m c) ∗ riding c)
  post c := iprop(StableHlo.held (c : Thread nD τ) (Pipeline.ucRefs τ sig) (X22 m c) ∗ riding c)
  X c := iprop(∃ r, prngReg c r)
  Y c := iprop(∃ r, prngReg c r)
  Z c := Pipeline.unscopedRest (Ix := Unit) (Name := ℕ) (U := UR sig nD τ) (Lvl := ℕ) spec10 c (E21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (E21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E21 m c) (E22 m c) ((pdats m 10 c).arrAt · cfg10.N) (exitArr10 m c) (exitRest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen
end
-- ==== Proof.K.Whole.lean ====
/-
  The whole run of the program on the TensorCores: its 22 items in order (a host stretch, then a kernel region, eleven
  times), chained through the contents between them. Every weakly fair execution from a memory with zero counters
  terminates, and in every final state each unscoped buffer holds the last contents of the chain. From it: the
  arguments end as launched (no item writes one), and the result buffer holds what the last region leaves.
-/
import proofs.«100381_j2018634629568_1_alg».proof.Proof.K.ItemsA
import proofs.«100381_j2018634629568_1_alg».proof.Proof.K.ItemsB
import proofs.«100381_j2018634629568_1_alg».proof.Proof.K.ItemsC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as an item: its operations folded over the contents before it, the riding state untouched. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- The program's 22 items in order. -/
abbrev items : List (Pipeline.Seg (pcfgs (F := F)) adm (pdats m) () defs₀ noVariants noLevels levelZero) :=
  [
    .host (hostItem hostOps0 hostOps0_sub hostOps0_fresh (X0 m)),
    .region (item1 m),
    .host (hostItem hostOps1 hostOps1_sub hostOps1_fresh (X2 m)),
    .region (item3 m),
    .host (hostItem hostOps2 hostOps2_sub hostOps2_fresh (X4 m)),
    .region (item5 m),
    .host (hostItem hostOps3 hostOps3_sub hostOps3_fresh (X6 m)),
    .region (item7 m),
    .host (hostItem hostOps4 hostOps4_sub hostOps4_fresh (X8 m)),
    .region (item9 m),
    .host (hostItem hostOps5 hostOps5_sub hostOps5_fresh (X10 m)),
    .region (item11 m),
    .host (hostItem hostOps6 hostOps6_sub hostOps6_fresh (X12 m)),
    .region (item13 m),
    .host (hostItem hostOps7 hostOps7_sub hostOps7_fresh (X14 m)),
    .region (item15 m),
    .host (hostItem hostOps8 hostOps8_sub hostOps8_fresh (X16 m)),
    .region (item17 m),
    .host (hostItem hostOps9 hostOps9_sub hostOps9_fresh (X18 m)),
    .region (item19 m),
    .host (hostItem hostOps10 hostOps10_sub hostOps10_fresh (X20 m)),
    .region (item21 m) ]

/-- The program is the run of its items. -/
theorem main_items (c : Dev nD) : main (F := F) c = Pipeline.Seg.run (items m) := (main_chain c).trans (by chain_rfl)

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last item's exit state is the last contents beside the register, and the core owing nothing. -/
theorem lastLink (c : Dev nD) :
    (iprop(StableHlo.held (c : Thread nD τ) (Pipeline.ucRefs τ sig) (X22 m c) ∗ riding c) : sProp 𝕄)
      ⊢ iprop(iprop(StableHlo.held (c : Thread nD τ) (Pipeline.ucRefs τ sig) (X22 m c) ∗ ∃ r, prngReg c r) ∗ ∃ W, owes (c : Thread nD τ) (0 : CellTallies nD τ sig Unit) W) := by
  iintro ⟨Hh, Hp, Ho⟩
  isplitl [Hh Hp]
  · isplitl [Hh]
    · iexact Hh
    · iexact Hp
  · iexact Ho

set_option backward.isDefEq.respectTransparency.types false in
/-- THE RUN. In every final state every unscoped buffer of every core holds the chain's last contents. -/
theorem wholeRun : θ_run defs (onTc (τ := τ) (main (F := F))) ⟨m, fun _ => 0, ρ⟩ (fun r => ∀ c : Dev nD,
      ∀ b ∈ Pipeline.ucRefs τ sig, r.2.mem (((c : Thread nD τ)).1, b) = X22 m c b) :=
  Pipeline.θ_run_regions_kit (pcfgs (F := F)) adm (pdats m) () cellOf_inj emb₁ defs₀ noVariants noLevels levelZero m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ riding c))
    (Tₙ := fun c => iprop(StableHlo.held (c : Thread nD τ) (Pipeline.ucRefs τ sig) (X22 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => lastLink m c⟩)
    (hinit := by
      refine Pipeline.initEach noLevels levelZero fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X22 m c b)
    (hfin := fun c s' => by
      iintro ⟨⟨Hh, -⟩, HSI⟩
      unfold StableHlo.held
      imodintro
      iapply (pointsTo_read_all (Pipeline.ucRefs τ sig) (fun b => (((c : Thread nD τ)).1, b)) (X22 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_unscoped main_arg0 (by decide))).trans (X22_launch m c main_arg0 (by decide)),
    (h c _ (mem_unscoped main_arg1 (by decide))).trans (X22_launch m c main_arg1 (by decide)),
    (h c _ (mem_unscoped main_arg2 (by decide))).trans (X22_launch m c main_arg2 (by decide)),
    (h c _ (mem_unscoped main_arg3 (by decide))).trans (X22_launch m c main_arg3 (by decide)),
    (h c _ (mem_unscoped main_arg4 (by decide))).trans (X22_launch m c main_arg4 (by decide)),
    (h c _ (mem_unscoped main_arg5 (by decide))).trans (X22_launch m c main_arg5 (by decide)),
    (h c _ (mem_unscoped main_arg6 (by decide))).trans (X22_launch m c main_arg6 (by decide)),
    (h c _ (mem_unscoped main_arg7 (by decide))).trans (X22_launch m c main_arg7 (by decide)),
    (h c _ (mem_unscoped main_arg8 (by decide))).trans (X22_launch m c main_arg8 (by decide)),
    (h c _ (mem_unscoped main_arg9 (by decide))).trans (X22_launch m c main_arg9 (by decide)),
    (h c _ (mem_unscoped main_arg10 (by decide))).trans (X22_launch m c main_arg10 (by decide)),
    (h c _ (mem_unscoped main_arg11 (by decide))).trans (X22_launch m c main_arg11 (by decide)),
    (h c _ (mem_unscoped main_arg12 (by decide))).trans (X22_launch m c main_arg12 (by decide)),
    (h c _ (mem_unscoped main_arg13 (by decide))).trans (X22_launch m c main_arg13 (by decide)),
    (h c _ (mem_unscoped main_arg14 (by decide))).trans (X22_launch m c main_arg14 (by decide)),
    (h c _ (mem_unscoped main_arg15 (by decide))).trans (X22_launch m c main_arg15 (by decide)),
    (h c _ (mem_unscoped main_arg16 (by decide))).trans (X22_launch m c main_arg16 (by decide))⟩) (wholeRun m ρ)

/-- The result buffer ends at what the last region leaves, and every argument array as launched. -/
theorem runResult : θ_run defs (onTc (τ := τ) (main (F := F))) ⟨m, fun _ => 0, ρ⟩ (fun r => ∀ c : Dev nD,
      r.2.mem ((c.tc : Thread nD τ).loc main_v155) = X22 m c (Proc.devRef .tc main_v155)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_unscoped main_v155 (by decide)),
    (h c _ (mem_unscoped main_arg0 (by decide))).trans (X22_launch m c main_arg0 (by decide)),
    (h c _ (mem_unscoped main_arg1 (by decide))).trans (X22_launch m c main_arg1 (by decide)),
    (h c _ (mem_unscoped main_arg2 (by decide))).trans (X22_launch m c main_arg2 (by decide)),
    (h c _ (mem_unscoped main_arg3 (by decide))).trans (X22_launch m c main_arg3 (by decide)),
    (h c _ (mem_unscoped main_arg4 (by decide))).trans (X22_launch m c main_arg4 (by decide)),
    (h c _ (mem_unscoped main_arg5 (by decide))).trans (X22_launch m c main_arg5 (by decide)),
    (h c _ (mem_unscoped main_arg6 (by decide))).trans (X22_launch m c main_arg6 (by decide)),
    (h c _ (mem_unscoped main_arg7 (by decide))).trans (X22_launch m c main_arg7 (by decide)),
    (h c _ (mem_unscoped main_arg8 (by decide))).trans (X22_launch m c main_arg8 (by decide)),
    (h c _ (mem_unscoped main_arg9 (by decide))).trans (X22_launch m c main_arg9 (by decide)),
    (h c _ (mem_unscoped main_arg10 (by decide))).trans (X22_launch m c main_arg10 (by decide)),
    (h c _ (mem_unscoped main_arg11 (by decide))).trans (X22_launch m c main_arg11 (by decide)),
    (h c _ (mem_unscoped main_arg12 (by decide))).trans (X22_launch m c main_arg12 (by decide)),
    (h c _ (mem_unscoped main_arg13 (by decide))).trans (X22_launch m c main_arg13 (by decide)),
    (h c _ (mem_unscoped main_arg14 (by decide))).trans (X22_launch m c main_arg14 (by decide)),
    (h c _ (mem_unscoped main_arg15 (by decide))).trans (X22_launch m c main_arg15 (by decide)),
    (h c _ (mem_unscoped main_arg16 (by decide))).trans (X22_launch m c main_arg16 (by decide))⟩) (wholeRun m ρ)

end Cert.Kernel.Gen
end
-- ==== Proof.KI.Norm1.lean ====
/-
  Region 1 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at every point, whether or not the pipeline fetched
    there: an unfetched point has the same block index as the point before. One statement per input window. -/
theorem found1_0 {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blockAt1 V c 4 t) (t : Fin cfg1.N) (d) : dat.before 4 t d = blockAt1 V c 4 t :=
  (dat.before_in_eq_fetched 4 rfl (fun _ => rfl) (fun _ _ _ => rfl) (fun t => by rw [hafter]; unfold Dat.blockOf blockAt1; rw [hA]; try rfl) t d).trans
    (by unfold Dat.fetched Dat.blockOf blockAt1; rw [hA]; try rfl)

abbrev tileRect1 : Rect S1000x512 := Rect.unit (s := S1000x512) ![0, 0] S1000x512.size inb_S1000x512_S1000x512_0_0
abbrev rowRect1 : Rect S1x512 := Rect.unit (s := S1x512) ![0, 0] S1x512.size inb_S1x512_S1x512_0_0

/-- The output tile after the body: its one store, of the normalized tile. -/
def normTile1 (a : Vec F S1000x512 .f32) (s q g b : Vec F S1x512 .f32) : Vec F S1000x512 .f32 :=
  View.canon [⟨tileRect1, k1_pay1 (View.ld s rowRect1) (View.ld q rowRect1) (View.ld a tileRect1) (View.ld g rowRect1) (View.ld b rowRect1)⟩]

theorem normTile1_cover (p0 : Vec F S1000x512 .f32) (y : S1000x512.Idx) :
    ∃ pc ∈ ([⟨tileRect1, p0⟩] : List (View.Piece (Elt F) S1000x512 .f32)), y ∈ pc.1.set :=
  View.cover_of_tiled [⟨tileRect1, p0⟩] S1000x512.size (by rfl) y

set_option maxHeartbeats 1000000 in
/-- The body on whole staging memrefs: the five inputs read and left as they were, the output tile left at the
    normalized tile. -/
theorem normBody1 (c : Dev nD) (E : Set ℕ) (i : grid1.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile1 a s q g b)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile1_cover _)

/-- The region's proof data on core c: the arrays as the region finds them; after the body at point t each input's
    buffer still at its block and the output's at the normalized tile of the five blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => normTile1 (blockAt1 V c 0 t) (blockAt1 V c 1 t) (blockAt1 V c 2 t) (blockAt1 V c 3 t) (blockAt1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blockAt1 V c 0 t := by dsimp only [dat1]
theorem dat1_after1 (c : Dev nD) (t : Fin cfg1.N) : (dat1 V c).after 1 t = blockAt1 V c 1 t := by dsimp only [dat1]
theorem dat1_after2 (c : Dev nD) (t : Fin cfg1.N) : (dat1 V c).after 2 t = blockAt1 V c 2 t := by dsimp only [dat1]
theorem dat1_after3 (c : Dev nD) (t : Fin cfg1.N) : (dat1 V c).after 3 t = blockAt1 V c 3 t := by dsimp only [dat1]
theorem dat1_after4 (c : Dev nD) (t : Fin cfg1.N) : (dat1 V c).after 4 t = blockAt1 V c 4 t := by dsimp only [dat1]
theorem dat1_after5 (c : Dev nD) (t : Fin cfg1.N) : (dat1 V c).after 5 t =
    normTile1 (blockAt1 V c 0 t) (blockAt1 V c 1 t) (blockAt1 V c 2 t) (blockAt1 V c 3 t) (blockAt1 V c 4 t) := by dsimp only [dat1]

theorem dat1_before0 (c : Dev nD) (t : Fin cfg1.N) (d) : (dat1 V c).before 0 t d = blockAt1 V c 0 t :=
  found1_0 V (dat1 V c) (dat1_A V c 0) (dat1_after0 V c) t d
theorem dat1_before1 (c : Dev nD) (t : Fin cfg1.N) (d) : (dat1 V c).before 1 t d = blockAt1 V c 1 t :=
  found1_1 V (dat1 V c) (dat1_A V c 1) (dat1_after1 V c) t d
theorem dat1_before2 (c : Dev nD) (t : Fin cfg1.N) (d) : (dat1 V c).before 2 t d = blockAt1 V c 2 t :=
  found1_2 V (dat1 V c) (dat1_A V c 2) (dat1_after2 V c) t d
theorem dat1_before3 (c : Dev nD) (t : Fin cfg1.N) (d) : (dat1 V c).before 3 t d = blockAt1 V c 3 t :=
  found1_3 V (dat1 V c) (dat1_A V c 3) (dat1_after3 V c) t d
theorem dat1_before4 (c : Dev nD) (t : Fin cfg1.N) (d) : (dat1 V c).before 4 t d = blockAt1 V c 4 t :=
  found1_4 V (dat1 V c) (dat1_A V c 4) (dat1_after4 V c) t d

/-- What the body is called with at point t, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem pointRun1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5]
  iintro ⟨HΦ, Ho, ⟨%d0, H0⟩, ⟨%d1, H1⟩, ⟨%d2, H2⟩, ⟨%d3, H3⟩, ⟨%d4, H4⟩, ⟨%d5, H5⟩⟩
  iapply (normBody1 c Set.univ _ _ _ _ _ _ _ _ _ _ _ _ _ (blockAt1 V c 0 t) (blockAt1 V c 1 t) (blockAt1 V c 2 t) (blockAt1 V c 3 t) (blockAt1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 1, at every point. -/
theorem obligation1 (c : Dev nD) : BodyObligation (dat1 (F := F) V c) (defs₀ (F := F)) Variants.none () Set.univ := fun t => by
  rw [bigSep_W1, bigSep_W1]
  exact pointRun1 V c t

end
end Cert.KernelIdeal.Gen
end
-- ==== Proof.KI.Norm3.lean ====
/-
  Region 3 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds the window's block at every point, whether or not the pipeline fetched
    there: an unfetched point has the same block index as the point before. One statement per input window. -/
theorem found3_0 {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)
theorem found3_1 {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)
theorem found3_2 {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)
theorem found3_3 {c : Dev nD} (dat : Dat τ (Elt F) Unit ℕ (UR sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)
theorem found3_4 {c : Dev nD} (dat : Dat τ (Elt F) Unit ℕ (UR sig nD τ) ℕ cfg3 c) (hA : dat.A 4 = V c (Pipeline.arrRef spec3 4))
    (hafter : ∀ t, dat.after 4 t = blockAt3 V c 4 t) (t : Fin cfg3.N) (d) : dat.before 4 t d = blockAt3 V c 4 t :=
  (dat.before_in_eq_fetched 4 rfl (fun _ => rfl) (fun _ _ _ => rfl) (fun t => by rw [hafter]; unfold Dat.blockOf blockAt3; rw [hA]; try rfl) t d).trans
    (by unfold Dat.fetched Dat.blockOf blockAt3; rw [hA]; try rfl)

abbrev tileRect3 : Rect S1000x512 := Rect.unit (s := S1000x512) ![0, 0] S1000x512.size inb_S1000x512_S1000x512_0_0
abbrev rowRect3 : Rect S1x512 := Rect.unit (s := S1x512) ![0, 0] S1x512.size inb_S1x512_S1x512_0_0

/-- The output tile after the body: its one store, of the normalized tile. -/
def normTile3 (a : Vec F S1000x512 .f32) (s q g b : Vec F S1x512 .f32) : Vec F S1000x512 .f32 :=
  View.canon [⟨tileRect3, k3_pay1 (View.ld s rowRect3) (View.ld q rowRect3) (View.ld a tileRect3) (View.ld g rowRect3) (View.ld b rowRect3)⟩]

theorem normTile3_cover (p0 : Vec F S1000x512 .f32) (y : S1000x512.Idx) :
    ∃ pc ∈ ([⟨tileRect3, p0⟩] : List (View.Piece (Elt F) S1000x512 .f32)), y ∈ pc.1.set :=
  View.cover_of_tiled [⟨tileRect3, p0⟩] S1000x512.size (by rfl) y

set_option maxHeartbeats 1000000 in
/-- The body on whole staging memrefs: the five inputs read and left as they were, the output tile left at the
    normalized tile. -/
theorem normBody3 (c : Dev nD) (E : Set ℕ) (i : grid3.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile3 a s q g b)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile3_cover _)

/-- The region's proof data on core c: the arrays as the region finds them; after the body at point t each input's
    buffer still at its block and the output's at the normalized tile of the five blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => normTile3 (blockAt3 V c 0 t) (blockAt3 V c 1 t) (blockAt3 V c 2 t) (blockAt3 V c 3 t) (blockAt3 V c 4 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blockAt3 V c 0 t := by dsimp only [dat3]
theorem dat3_after1 (c : Dev nD) (t : Fin cfg3.N) : (dat3 V c).after 1 t = blockAt3 V c 1 t := by dsimp only [dat3]
theorem dat3_after2 (c : Dev nD) (t : Fin cfg3.N) : (dat3 V c).after 2 t = blockAt3 V c 2 t := by dsimp only [dat3]
theorem dat3_after3 (c : Dev nD) (t : Fin cfg3.N) : (dat3 V c).after 3 t = blockAt3 V c 3 t := by dsimp only [dat3]
theorem dat3_after4 (c : Dev nD) (t : Fin cfg3.N) : (dat3 V c).after 4 t = blockAt3 V c 4 t := by dsimp only [dat3]
theorem dat3_after5 (c : Dev nD) (t : Fin cfg3.N) : (dat3 V c).after 5 t =
    normTile3 (blockAt3 V c 0 t) (blockAt3 V c 1 t) (blockAt3 V c 2 t) (blockAt3 V c 3 t) (blockAt3 V c 4 t) := by dsimp only [dat3]

theorem dat3_before0 (c : Dev nD) (t : Fin cfg3.N) (d) : (dat3 V c).before 0 t d = blockAt3 V c 0 t :=
  found3_0 V (dat3 V c) (dat3_A V c 0) (dat3_after0 V c) t d
theorem dat3_before1 (c : Dev nD) (t : Fin cfg3.N) (d) : (dat3 V c).before 1 t d = blockAt3 V c 1 t :=
  found3_1 V (dat3 V c) (dat3_A V c 1) (dat3_after1 V c) t d
theorem dat3_before2 (c : Dev nD) (t : Fin cfg3.N) (d) : (dat3 V c).before 2 t d = blockAt3 V c 2 t :=
  found3_2 V (dat3 V c) (dat3_A V c 2) (dat3_after2 V c) t d
theorem dat3_before3 (c : Dev nD) (t : Fin cfg3.N) (d) : (dat3 V c).before 3 t d = blockAt3 V c 3 t :=
  found3_3 V (dat3 V c) (dat3_A V c 3) (dat3_after3 V c) t d
theorem dat3_before4 (c : Dev nD) (t : Fin cfg3.N) (d) : (dat3 V c).before 4 t d = blockAt3 V c 4 t :=
  found3_4 V (dat3 V c) (dat3_A V c 4) (dat3_after4 V c) t d

/-- What the body is called with at point t, the windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem pointRun3 (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2, dat3_before3, dat3_before4]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5]
  iintro ⟨HΦ, Ho, ⟨%d0, H0⟩, ⟨%d1, H1⟩, ⟨%d2, H2⟩, ⟨%d3, H3⟩, ⟨%d4, H4⟩, ⟨%d5, H5⟩⟩
  iapply (normBody3 c Set.univ _ _ _ _ _ _ _ _ _ _ _ _ _ (blockAt3 V c 0 t) (blockAt3 V c 1 t) (blockAt3 V c 2 t) (blockAt3 V c 3 t) (blockAt3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 3, at every point. -/
theorem obligation3 (c : Dev nD) : BodyObligation (dat3 (F := F) V c) (defs₀ (F := F)) Variants.none () Set.univ := fun t => by
  rw [bigSep_W3, bigSep_W3]
  exact pointRun3 V c t

end
end Cert.KernelIdeal.Gen
end
-- ==== Proof.KI.Norm5.lean ====
/-
  Region 5 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds the window's block at every point, whether or not the pipeline fetched
    there: an unfetched point has the same block index as the point before. One statement per input window. -/
theorem found5_0 {c : Dev nD} (dat : Dat τ (Elt F) Unit ℕ (UR sig nD τ) ℕ cfg5 c) (hA : dat.A 0 = V c (Pipeline.arrRef spec5 0))
    (hafter : ∀ t, dat.after 0 t = blockAt5 V c 0 t) (t : Fin cfg5.N) (d) : dat.before 0 t d = blockAt5 V c 0 t :=
  (dat.before_in_eq_fetched 0 rfl (fun _ => rfl) (fun _ _ _ => rfl) (fun t => by rw [hafter]; unfold Dat.blockOf blockAt5; rw [hA]; try rfl) t d).trans
    (by unfold Dat.fetched Dat.blockOf blockAt5; rw [hA]; try rfl)
theorem found5_1 {c : Dev nD} (dat : Dat τ (Elt F) Unit ℕ (UR sig nD τ) ℕ cfg5 c) (hA : dat.A 1 = V c (Pipeline.arrRef spec5 1))
    (hafter : ∀ t, dat.after 1 t = blockAt5 V c 1 t) (t : Fin cfg5.N) (d) : dat.before 1 t d = blockAt5 V c 1 t :=
  (dat.before_in_eq_fetched 1 rfl (fun _ => rfl) (fun _ _ _ => rfl) (fun t => by rw [hafter]; unfold Dat.blockOf blockAt5; rw [hA]; try rfl) t d).trans
    (by unfold Dat.fetched Dat.blockOf blockAt5; rw [hA]; try rfl)
theorem found5_2 {c : Dev nD} (dat : Dat τ (Elt F) Unit ℕ (UR sig nD τ) ℕ cfg5 c) (hA : dat.A 2 = V c (Pipeline.arrRef spec5 2))
    (hafter : ∀ t, dat.after 2 t = blockAt5 V c 2 t) (t : Fin cfg5.N) (d) : dat.before 2 t d = blockAt5 V c 2 t :=
  (dat.before_in_eq_fetched 2 rfl (fun _ => rfl) (fun _ _ _ => rfl) (fun t => by rw [hafter]; unfold Dat.blockOf blockAt5; rw [hA]; try rfl) t d).trans
    (by unfold Dat.fetched Dat.blockOf blockAt5; rw [hA]; try rfl)
theorem found5_3 {c : Dev nD} (dat : Dat τ (Elt F) Unit ℕ (UR sig nD τ) ℕ cfg5 c) (hA : dat.A 3 = V c (Pipeline.arrRef spec5 3))
    (hafter : ∀ t, dat.after 3 t = blockAt5 V c 3 t) (t : Fin cfg5.N) (d) : dat.before 3 t d = blockAt5 V c 3 t :=
  (dat.before_in_eq_fetched 3 rfl (fun _ => rfl) (fun _ _ _ => rfl) (fun t => by rw [hafter]; unfold Dat.blockOf blockAt5; rw [hA]; try rfl) t d).trans
    (by unfold Dat.fetched Dat.blockOf blockAt5; rw [hA]; try rfl)
theorem found5_4 {c : Dev nD} (dat : Dat τ (Elt F) Unit ℕ (UR sig nD τ) ℕ cfg5 c) (hA : dat.A 4 = V c (Pipeline.arrRef spec5 4))
    (hafter : ∀ t, dat.after 4 t = blockAt5 V c 4 t) (t : Fin cfg5.N) (d) : dat.before 4 t d = blockAt5 V c 4 t :=
  (dat.before_in_eq_fetched 4 rfl (fun _ => rfl) (fun _ _ _ => rfl) (fun t => by rw [hafter]; unfold Dat.blockOf blockAt5; rw [hA]; try rfl) t d).trans
    (by unfold Dat.fetched Dat.blockOf blockAt5; rw [hA]; try rfl)

abbrev tileRect5 : Rect S1000x512 := Rect.unit (s := S1000x512) ![0, 0] S1000x512.size inb_S1000x512_S1000x512_0_0
abbrev rowRect5 : Rect S1x512 := Rect.unit (s := S1x512) ![0, 0] S1x512.size inb_S1x512_S1x512_0_0

/-- The output tile after the body: its one store, of the normalized tile. -/
def normTile5 (a : Vec F S1000x512 .f32) (s q g b : Vec F S1x512 .f32) : Vec F S1000x512 .f32 :=
  View.canon [⟨tileRect5, k5_pay1 (View.ld s rowRect5) (View.ld q rowRect5) (View.ld a tileRect5) (View.ld g rowRect5) (View.ld b rowRect5)⟩]

theorem normTile5_cover (p0 : Vec F S1000x512 .f32) (y : S1000x512.Idx) :
    ∃ pc ∈ ([⟨tileRect5, p0⟩] : List (View.Piece (Elt F) S1000x512 .f32)), y ∈ pc.1.set :=
  View.cover_of_tiled [⟨tileRect5, p0⟩] S1000x512.size (by rfl) y

set_option maxHeartbeats 1000000 in
/-- The body on whole staging memrefs: the five inputs read and left as they were, the output tile left at the
    normalized tile. -/
theorem normBody5 (c : Dev nD) (E : Set ℕ) (i : grid5.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile5 a s q g b)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile5_cover _)

/-- The region's proof data on core c: the arrays as the region finds them; after the body at point t each input's
    buffer still at its block and the output's at the normalized tile of the five blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => blockAt5 V c 0 t
    | ⟨1, _⟩ => blockAt5 V c 1 t
    | ⟨2, _⟩ => blockAt5 V c 2 t
    | ⟨3, _⟩ => blockAt5 V c 3 t
    | ⟨4, _⟩ => blockAt5 V c 4 t
    | ⟨5, _⟩ => normTile5 (blockAt5 V c 0 t) (blockAt5 V c 1 t) (blockAt5 V c 2 t) (blockAt5 V c 3 t) (blockAt5 V c 4 t)
  Φ _ := Pipeline.ΦA spec5 c
  q _ := fullShare
  owed _ := 0

theorem dat5_A (c : Dev nD) (w : Fin cfg5.W) : (dat5 V c).A w = V c (Pipeline.arrRef spec5 w) := by
  dsimp only [dat5]
theorem dat5_after0 (c : Dev nD) (t : Fin cfg5.N) : (dat5 V c).after 0 t = blockAt5 V c 0 t := by dsimp only [dat5]
theorem dat5_after1 (c : Dev nD) (t : Fin cfg5.N) : (dat5 V c).after 1 t = blockAt5 V c 1 t := by dsimp only [dat5]
theorem dat5_after2 (c : Dev nD) (t : Fin cfg5.N) : (dat5 V c).after 2 t = blockAt5 V c 2 t := by dsimp only [dat5]
theorem dat5_after3 (c : Dev nD) (t : Fin cfg5.N) : (dat5 V c).after 3 t = blockAt5 V c 3 t := by dsimp only [dat5]
theorem dat5_after4 (c : Dev nD) (t : Fin cfg5.N) : (dat5 V c).after 4 t = blockAt5 V c 4 t := by dsimp only [dat5]
theorem dat5_after5 (c : Dev nD) (t : Fin cfg5.N) : (dat5 V c).after 5 t =
    normTile5 (blockAt5 V c 0 t) (blockAt5 V c 1 t) (blockAt5 V c 2 t) (blockAt5 V c 3 t) (blockAt5 V c 4 t) := by dsimp only [dat5]

theorem dat5_before0 (c : Dev nD) (t : Fin cfg5.N) (d) : (dat5 V c).before 0 t d = blockAt5 V c 0 t :=
  found5_0 V (dat5 V c) (dat5_A V c 0) (dat5_after0 V c) t d
theorem dat5_before1 (c : Dev nD) (t : Fin cfg5.N) (d) : (dat5 V c).before 1 t d = blockAt5 V c 1 t :=
  found5_1 V (dat5 V c) (dat5_A V c 1) (dat5_after1 V c) t d
theorem dat5_before2 (c : Dev nD) (t : Fin cfg5.N) (d) : (dat5 V c).before 2 t d = blockAt5 V c 2 t :=
  found5_2 V (dat5 V c) (dat5_A V c 2) (dat5_after2 V c) t d
theorem dat5_before3 (c : Dev nD) (t : Fin cfg5.N) (d) : (dat5 V c).before 3 t d = blockAt5 V c 3 t :=
  found5_3 V (dat5 V c) (dat5_A V c 3) (dat5_after3 V c) t d
theorem dat5_before4 (c : Dev nD) (t : Fin cfg5.N) (d) : (dat5 V c).before 4 t d = blockAt5 V c 4 t :=
  found5_4 V (dat5 V c) (dat5_A V c 4) (dat5_after4 V c) t d

/-- What the body is called with at point t, the windows one by one, -/
def pre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def post5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem pointRun5 (c : Dev nD) (t : Fin cfg5.N) :
    pre5 V c t ⊢ wp frame (wpE (defs₀ (F := F)) Variants.none c none) Set.univ (bodyAt5 t) (fun _ => post5 V c t) := by
  unfold pre5 post5 bodyAt5
  simp only [dat5_before0, dat5_before1, dat5_before2, dat5_before3, dat5_before4]
  rw [show (dat5 V c).Φ t.succ = (dat5 V c).Φ t.castSucc from rfl,
    show (dat5 V c).owesAt () t.succ = (dat5 V c).owesAt () t.castSucc from rfl,
    dat5_after0, dat5_after1, dat5_after2, dat5_after3, dat5_after4, dat5_after5]
  iintro ⟨HΦ, Ho, ⟨%d0, H0⟩, ⟨%d1, H1⟩, ⟨%d2, H2⟩, ⟨%d3, H3⟩, ⟨%d4, H4⟩, ⟨%d5, H5⟩⟩
  iapply (normBody5 c Set.univ _ _ _ _ _ _ _ _ _ _ _ _ _ (blockAt5 V c 0 t) (blockAt5 V c 1 t) (blockAt5 V c 2 t) (blockAt5 V c 3 t) (blockAt5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 5, at every point. -/
theorem obligation5 (c : Dev nD) : BodyObligation (dat5 (F := F) V c) (defs₀ (F := F)) Variants.none () Set.univ := fun t => by
  rw [bigSep_W5, bigSep_W5]
  exact pointRun5 V c t

end
end Cert.KernelIdeal.Gen
end
-- ==== Proof.KI.Norm7.lean ====
/-
  Region 7 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's staging buffer holds the window's block at every point, whether or not the pipeline fetched
    there: an unfetched point has the same block index as the point before. One statement per input window. -/
theorem found7_0 {c : Dev nD} (dat : Dat τ (Elt F) Unit ℕ (UR sig nD τ) ℕ cfg7 c) (hA : dat.A 0 = V c (Pipeline.arrRef spec7 0))
    (hafter : ∀ t, dat.after 0 t = blockAt7 V c 0 t) (t : Fin cfg7.N) (d) : dat.before 0 t d = blockAt7 V c 0 t :=
  (dat.before_in_eq_fetched 0 rfl (fun _ => rfl) (fun _ _ _ => rfl) (fun t => by rw [hafter]; unfold Dat.blockOf blockAt7; rw [hA]; try rfl) t d).trans
    (by unfold Dat.fetched Dat.blockOf blockAt7; rw [hA]; try rfl)
theorem found7_1 {c : Dev nD} (dat : Dat τ (Elt F) Unit ℕ (UR sig nD τ) ℕ cfg7 c) (hA : dat.A 1 = V c (Pipeline.arrRef spec7 1))
    (hafter : ∀ t, dat.after 1 t = blockAt7 V c 1 t) (t : Fin cfg7.N) (d) : dat.before 1 t d = blockAt7 V c 1 t :=
  (dat.before_in_eq_fetched 1 rfl (fun _ => rfl) (fun _ _ _ => rfl) (fun t => by rw [hafter]; unfold Dat.blockOf blockAt7; rw [hA]; try rfl) t d).trans
    (by unfold Dat.fetched Dat.blockOf blockAt7; rw [hA]; try rfl)
theorem found7_2 {c : Dev nD} (dat : Dat τ (Elt F) Unit ℕ (UR sig nD τ) ℕ cfg7 c) (hA : dat.A 2 = V c (Pipeline.arrRef spec7 2))
    (hafter : ∀ t, dat.after 2 t = blockAt7 V c 2 t) (t : Fin cfg7.N) (d) : dat.before 2 t d = blockAt7 V c 2 t :=
  (dat.before_in_eq_fetched 2 rfl (fun _ => rfl) (fun _ _ _ => rfl) (fun t => by rw [hafter]; unfold Dat.blockOf blockAt7; rw [hA]; try rfl) t d).trans
    (by unfold Dat.fetched Dat.blockOf blockAt7; rw [hA]; try rfl)
theorem found7_3 {c : Dev nD} (dat : Dat τ (Elt F) Unit ℕ (UR sig nD τ) ℕ cfg7 c) (hA : dat.A 3 = V c (Pipeline.arrRef spec7 3))
    (hafter : ∀ t, dat.after 3 t = blockAt7 V c 3 t) (t : Fin cfg7.N) (d) : dat.before 3 t d = blockAt7 V c 3 t :=
  (dat.before_in_eq_fetched 3 rfl (fun _ => rfl) (fun _ _ _ => rfl) (fun t => by rw [hafter]; unfold Dat.blockOf blockAt7; rw [hA]; try rfl) t d).trans
    (by unfold Dat.fetched Dat.blockOf blockAt7; rw [hA]; try rfl)
theorem found7_4 {c : Dev nD} (dat : Dat τ (Elt F) Unit ℕ (UR sig nD τ) ℕ cfg7 c) (hA : dat.A 4 = V c (Pipeline.arrRef spec7 4))
    (hafter : ∀ t, dat.after 4 t = blockAt7 V c 4 t) (t : Fin cfg7.N) (d) : dat.before 4 t d = blockAt7 V c 4 t :=
  (dat.before_in_eq_fetched 4 rfl (fun _ => rfl) (fun _ _ _ => rfl) (fun t => by rw [hafter]; unfold Dat.blockOf blockAt7; rw [hA]; try rfl) t d).trans
    (by unfold Dat.fetched Dat.blockOf blockAt7; rw [hA]; try rfl)

abbrev tileRect7 : Rect S1000x512 := Rect.unit (s := S1000x512) ![0, 0] S1000x512.size inb_S1000x512_S1000x512_0_0
abbrev rowRect7 : Rect S1x512 := Rect.unit (s := S1x512) ![0, 0] S1x512.size inb_S1x512_S1x512_0_0

/-- The output tile after the body: its one store, of the normalized tile. -/
def normTile7 (a : Vec F S1000x512 .f32) (s q g b : Vec F S1x512 .f32) : Vec F S1000x512 .f32 :=
  View.canon [⟨tileRect7, k7_pay1 (View.ld s rowRect7) (View.ld q rowRect7) (View.ld a tileRect7) (View.ld g rowRect7) (View.ld b rowRect7)⟩]

theorem normTile7_cover (p0 : Vec F S1000x512 .f32) (y : S1000x512.Idx) :
    ∃ pc ∈ ([⟨tileRect7, p0⟩] : List (View.Piece (Elt F) S1000x512 .f32)), y ∈ pc.1.set :=
  View.cover_of_tiled [⟨tileRect7, p0⟩] S1000x512.size (by rfl) y

set_option maxHeartbeats 1000000 in
/-- The body on whole staging memrefs: the five inputs read and left as they were, the output tile left at the
    normalized tile. -/
theorem normBody7 (c : Dev nD) (E : Set ℕ) (i : grid7.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile7 a s q g b)) -∗ K ⟨⟩))
      ⊢ wp frame (wpE (defs₀ (F := F)) Variants.none c none) E (cc7__bn_kernel i arg1 harg1 arg2 harg2 arg3 harg3 arg4 harg4 arg5 harg5 arg6 harg6) K := by
  simp only [cc7__bn_kernel_eq_skeleton]; unfold cc7__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile7_cover _)

/-- The region's proof data on core c: the arrays as the region finds them; after the body at point t each input's
    buffer still at its block and the output's at the normalized tile of the five blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => blockAt7 V c 0 t
    | ⟨1, _⟩ => blockAt7 V c 1 t
    | ⟨2, _⟩ => blockAt7 V c 2 t
    | ⟨3, _⟩ => blockAt7 V c 3 t
    | ⟨4, _⟩ => blockAt7 V c 4 t
    | ⟨5, _⟩ => normTile7 (blockAt7 V c 0 t) (blockAt7 V c 1 t) (blockAt7 V c 2 t) (blockAt7 V c 3 t) (blockAt7 V c 4 t)
  Φ _ := Pipeline.ΦA spec7 c
  q _ := fullShare
  owed _ := 0

theorem dat7_A (c : Dev nD) (w : Fin cfg7.W) : (dat7 V c).A w = V c (Pipeline.arrRef spec7 w) := by
  dsimp only [dat7]
theorem dat7_after0 (c : Dev nD) (t : Fin cfg7.N) : (dat7 V c).after 0 t = blockAt7 V c 0 t := by dsimp only [dat7]
theorem dat7_after1 (c : Dev nD) (t : Fin cfg7.N) : (dat7 V c).after 1 t = blockAt7 V c 1 t := by dsimp only [dat7]
theorem dat7_after2 (c : Dev nD) (t : Fin cfg7.N) : (dat7 V c).after 2 t = blockAt7 V c 2 t := by dsimp only [dat7]
theorem dat7_after3 (c : Dev nD) (t : Fin cfg7.N) : (dat7 V c).after 3 t = blockAt7 V c 3 t := by dsimp only [dat7]
theorem dat7_after4 (c : Dev nD) (t : Fin cfg7.N) : (dat7 V c).after 4 t = blockAt7 V c 4 t := by dsimp only [dat7]
theorem dat7_after5 (c : Dev nD) (t : Fin cfg7.N) : (dat7 V c).after 5 t =
    normTile7 (blockAt7 V c 0 t) (blockAt7 V c 1 t) (blockAt7 V c 2 t) (blockAt7 V c 3 t) (blockAt7 V c 4 t) := by dsimp only [dat7]

theorem dat7_before0 (c : Dev nD) (t : Fin cfg7.N) (d) : (dat7 V c).before 0 t d = blockAt7 V c 0 t :=
  found7_0 V (dat7 V c) (dat7_A V c 0) (dat7_after0 V c) t d
theorem dat7_before1 (c : Dev nD) (t : Fin cfg7.N) (d) : (dat7 V c).before 1 t d = blockAt7 V c 1 t :=
  found7_1 V (dat7 V c) (dat7_A V c 1) (dat7_after1 V c) t d
theorem dat7_before2 (c : Dev nD) (t : Fin cfg7.N) (d) : (dat7 V c).before 2 t d = blockAt7 V c 2 t :=
  found7_2 V (dat7 V c) (dat7_A V c 2) (dat7_after2 V c) t d
theorem dat7_before3 (c : Dev nD) (t : Fin cfg7.N) (d) : (dat7 V c).before 3 t d = blockAt7 V c 3 t :=
  found7_3 V (dat7 V c) (dat7_A V c 3) (dat7_after3 V c) t d
theorem dat7_before4 (c : Dev nD) (t : Fin cfg7.N) (d) : (dat7 V c).before 4 t d = blockAt7 V c 4 t :=
  found7_4 V (dat7 V c) (dat7_A V c 4) (dat7_after4 V c) t d

/-- What the body is called with at point t, the windows one by one, -/
def pre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def post7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem pointRun7 (c : Dev nD) (t : Fin cfg7.N) :
    pre7 V c t ⊢ wp frame (wpE (defs₀ (F := F)) Variants.none c none) Set.univ (bodyAt7 t) (fun _ => post7 V c t) := by
  unfold pre7 post7 bodyAt7
  simp only [dat7_before0, dat7_before1, dat7_before2, dat7_before3, dat7_before4]
  rw [show (dat7 V c).Φ t.succ = (dat7 V c).Φ t.castSucc from rfl,
    show (dat7 V c).owesAt () t.succ = (dat7 V c).owesAt () t.castSucc from rfl,
    dat7_after0, dat7_after1, dat7_after2, dat7_after3, dat7_after4, dat7_after5]
  iintro ⟨HΦ, Ho, ⟨%d0, H0⟩, ⟨%d1, H1⟩, ⟨%d2, H2⟩, ⟨%d3, H3⟩, ⟨%d4, H4⟩, ⟨%d5, H5⟩⟩
  iapply (normBody7 c Set.univ _ _ _ _ _ _ _ _ _ _ _ _ _ (blockAt7 V c 0 t) (blockAt7 V c 1 t) (blockAt7 V c 2 t) (blockAt7 V c 3 t) (blockAt7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 7, at every point. -/
theorem obligation7 (c : Dev nD) : BodyObligation (dat7 (F := F) V c) (defs₀ (F := F)) Variants.none () Set.univ := fun t => by
  rw [bigSep_W7, bigSep_W7]
  exact pointRun7 V c t

end
end Cert.KernelIdeal.Gen
end
-- ==== Proof.KI.Norm9.lean ====
/-
  Region 9 of the program: the batch-norm normalize step over a 10000 x 512 activation, ten row tiles of 1000.
  A tile's result is a pointwise function of the tile and of four 1 x 512 rows (column sums s, column sums of
  squares q, scale g, shift b):  out[r, j] = (a[r, j] - s[j]/n) * (g[j] * rsqrt (q[j]/n - (s[j]/n)^2 + eps)) + b[j].
  Here: what the body leaves in the output tile as a function of the five input blocks, the body's triple, and the
  region's proof data at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's staging buffer holds the window's block at every point, whether or not the pipeline fetched
    there: an unfetched point has the same block index as the point before. One statement per input window. -/
theorem found9_0 {c : Dev nD} (dat : Dat τ (Elt F) Unit ℕ (UR sig nD τ) ℕ cfg9 c) (hA : dat.A 0 = V c (Pipeline.arrRef spec9 0))
    (hafter : ∀ t, dat.after 0 t = blockAt9 V c 0 t) (t : Fin cfg9.N) (d) : dat.before 0 t d = blockAt9 V c 0 t :=
  (dat.before_in_eq_fetched 0 rfl (fun _ => rfl) (fun _ _ _ => rfl) (fun t => by rw [hafter]; unfold Dat.blockOf blockAt9; rw [hA]; try rfl) t d).trans
    (by unfold Dat.fetched Dat.blockOf blockAt9; rw [hA]; try rfl)
theorem found9_1 {c : Dev nD} (dat : Dat τ (Elt F) Unit ℕ (UR sig nD τ) ℕ cfg9 c) (hA : dat.A 1 = V c (Pipeline.arrRef spec9 1))
    (hafter : ∀ t, dat.after 1 t = blockAt9 V c 1 t) (t : Fin cfg9.N) (d) : dat.before 1 t d = blockAt9 V c 1 t :=
  (dat.before_in_eq_fetched 1 rfl (fun _ => rfl) (fun _ _ _ => rfl) (fun t => by rw [hafter]; unfold Dat.blockOf blockAt9; rw [hA]; try rfl) t d).trans
    (by unfold Dat.fetched Dat.blockOf blockAt9; rw [hA]; try rfl)
theorem found9_2 {c : Dev nD} (dat : Dat τ (Elt F) Unit ℕ (UR sig nD τ) ℕ cfg9 c) (hA : dat.A 2 = V c (Pipeline.arrRef spec9 2))
    (hafter : ∀ t, dat.after 2 t = blockAt9 V c 2 t) (t : Fin cfg9.N) (d) : dat.before 2 t d = blockAt9 V c 2 t :=
  (dat.before_in_eq_fetched 2 rfl (fun _ => rfl) (fun _ _ _ => rfl) (fun t => by rw [hafter]; unfold Dat.blockOf blockAt9; rw [hA]; try rfl) t d).trans
    (by unfold Dat.fetched Dat.blockOf blockAt9; rw [hA]; try rfl)
theorem found9_3 {c : Dev nD} (dat : Dat τ (Elt F) Unit ℕ (UR sig nD τ) ℕ cfg9 c) (hA : dat.A 3 = V c (Pipeline.arrRef spec9 3))
    (hafter : ∀ t, dat.after 3 t = blockAt9 V c 3 t) (t : Fin cfg9.N) (d) : dat.before 3 t d = blockAt9 V c 3 t :=
  (dat.before_in_eq_fetched 3 rfl (fun _ => rfl) (fun _ _ _ => rfl) (fun t => by rw [hafter]; unfold Dat.blockOf blockAt9; rw [hA]; try rfl) t d).trans
    (by unfold Dat.fetched Dat.blockOf blockAt9; rw [hA]; try rfl)
theorem found9_4 {c : Dev nD} (dat : Dat τ (Elt F) Unit ℕ (UR sig nD τ) ℕ cfg9 c) (hA : dat.A 4 = V c (Pipeline.arrRef spec9 4))
    (hafter : ∀ t, dat.after 4 t = blockAt9 V c 4 t) (t : Fin cfg9.N) (d) : dat.before 4 t d = blockAt9 V c 4 t :=
  (dat.before_in_eq_fetched 4 rfl (fun _ => rfl) (fun _ _ _ => rfl) (fun t => by rw [hafter]; unfold Dat.blockOf blockAt9; rw [hA]; try rfl) t d).trans
    (by unfold Dat.fetched Dat.blockOf blockAt9; rw [hA]; try rfl)

abbrev tileRect9 : Rect S1000x512 := Rect.unit (s := S1000x512) ![0, 0] S1000x512.size inb_S1000x512_S1000x512_0_0
abbrev rowRect9 : Rect S1x512 := Rect.unit (s := S1x512) ![0, 0] S1x512.size inb_S1x512_S1x512_0_0

/-- The output tile after the body: its one store, of the normalized tile. -/
def normTile9 (a : Vec F S1000x512 .f32) (s q g b : Vec F S1x512 .f32) : Vec F S1000x512 .f32 :=
  View.canon [⟨tileRect9, k9_pay1 (View.ld s rowRect9) (View.ld q rowRect9) (View.ld a tileRect9) (View.ld g rowRect9) (View.ld b rowRect9)⟩]

theorem normTile9_cover (p0 : Vec F S1000x512 .f32) (y : S1000x512.Idx) :
    ∃ pc ∈ ([⟨tileRect9, p0⟩] : List (View.Piece (Elt F) S1000x512 .f32)), y ∈ pc.1.set :=
  View.cover_of_tiled [⟨tileRect9, p0⟩] S1000x512.size (by rfl) y

set_option maxHeartbeats 1000000 in
/-- The body on whole staging memrefs: the five inputs read and left as they were, the output tile left at the
    normalized tile. -/
theorem normBody9 (c : Dev nD) (E : Set ℕ) (i : grid9.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (a : Vec F S1000x512 .f32) (s q g b : Vec F S1x512 .f32) (K : PUnit → sProp 𝕄) :
    iprop(owns (c : Thread nD τ) arg1 fullShare a ∗ owns (c : Thread nD τ) arg2 fullShare s ∗ owns (c : Thread nD τ) arg3 fullShare q
        ∗ owns (c : Thread nD τ) arg4 fullShare g ∗ owns (c : Thread nD τ) arg5 fullShare b ∗ (∃ d, owns (c : Thread nD τ) arg6 fullShare d)
        ∗ (iprop(owns (c : Thread nD τ) arg1 fullShare a ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (normTile9 a s q g b)) -∗ K ⟨⟩))
      ⊢ wp frame (wpE (defs₀ (F := F)) Variants.none c none) E (cc9__bn_kernel i arg1 harg1 arg2 harg2 arg3 harg3 arg4 harg4 arg5 harg5 arg6 harg6) K := by
  simp only [cc9__bn_kernel_eq_skeleton]; unfold cc9__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normTile9_cover _)

/-- The region's proof data on core c: the arrays as the region finds them; after the body at point t each input's
    buffer still at its block and the output's at the normalized tile of the five blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => blockAt9 V c 0 t
    | ⟨1, _⟩ => blockAt9 V c 1 t
    | ⟨2, _⟩ => blockAt9 V c 2 t
    | ⟨3, _⟩ => blockAt9 V c 3 t
    | ⟨4, _⟩ => blockAt9 V c 4 t
    | ⟨5, _⟩ => normTile9 (blockAt9 V c 0 t) (blockAt9 V c 1 t) (blockAt9 V c 2 t) (blockAt9 V c 3 t) (blockAt9 V c 4 t)
  Φ _ := Pipeline.ΦA spec9 c
  q _ := fullShare
  owed _ := 0

theorem dat9_A (c : Dev nD) (w : Fin cfg9.W) : (dat9 V c).A w = V c (Pipeline.arrRef spec9 w) := by
  dsimp only [dat9]
theorem dat9_after0 (c : Dev nD) (t : Fin cfg9.N) : (dat9 V c).after 0 t = blockAt9 V c 0 t := by dsimp only [dat9]
theorem dat9_after1 (c : Dev nD) (t : Fin cfg9.N) : (dat9 V c).after 1 t = blockAt9 V c 1 t := by dsimp only [dat9]
theorem dat9_after2 (c : Dev nD) (t : Fin cfg9.N) : (dat9 V c).after 2 t = blockAt9 V c 2 t := by dsimp only [dat9]
theorem dat9_after3 (c : Dev nD) (t : Fin cfg9.N) : (dat9 V c).after 3 t = blockAt9 V c 3 t := by dsimp only [dat9]
theorem dat9_after4 (c : Dev nD) (t : Fin cfg9.N) : (dat9 V c).after 4 t = blockAt9 V c 4 t := by dsimp only [dat9]
theorem dat9_after5 (c : Dev nD) (t : Fin cfg9.N) : (dat9 V c).after 5 t =
    normTile9 (blockAt9 V c 0 t) (blockAt9 V c 1 t) (blockAt9 V c 2 t) (blockAt9 V c 3 t) (blockAt9 V c 4 t) := by dsimp only [dat9]

theorem dat9_before0 (c : Dev nD) (t : Fin cfg9.N) (d) : (dat9 V c).before 0 t d = blockAt9 V c 0 t :=
  found9_0 V (dat9 V c) (dat9_A V c 0) (dat9_after0 V c) t d
theorem dat9_before1 (c : Dev nD) (t : Fin cfg9.N) (d) : (dat9 V c).before 1 t d = blockAt9 V c 1 t :=
  found9_1 V (dat9 V c) (dat9_A V c 1) (dat9_after1 V c) t d
theorem dat9_before2 (c : Dev nD) (t : Fin cfg9.N) (d) : (dat9 V c).before 2 t d = blockAt9 V c 2 t :=
  found9_2 V (dat9 V c) (dat9_A V c 2) (dat9_after2 V c) t d
theorem dat9_before3 (c : Dev nD) (t : Fin cfg9.N) (d) : (dat9 V c).before 3 t d = blockAt9 V c 3 t :=
  found9_3 V (dat9 V c) (dat9_A V c 3) (dat9_after3 V c) t d
theorem dat9_before4 (c : Dev nD) (t : Fin cfg9.N) (d) : (dat9 V c).before 4 t d = blockAt9 V c 4 t :=
  found9_4 V (dat9 V c) (dat9_A V c 4) (dat9_after4 V c) t d

/-- What the body is called with at point t, the windows one by one, -/
def pre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def post9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

theorem pointRun9 (c : Dev nD) (t : Fin cfg9.N) :
    pre9 V c t ⊢ wp frame (wpE (defs₀ (F := F)) Variants.none c none) Set.univ (bodyAt9 t) (fun _ => post9 V c t) := by
  unfold pre9 post9 bodyAt9
  simp only [dat9_before0, dat9_before1, dat9_before2, dat9_before3, dat9_before4]
  rw [show (dat9 V c).Φ t.succ = (dat9 V c).Φ t.castSucc from rfl,
    show (dat9 V c).owesAt () t.succ = (dat9 V c).owesAt () t.castSucc from rfl,
    dat9_after0, dat9_after1, dat9_after2, dat9_after3, dat9_after4, dat9_after5]
  iintro ⟨HΦ, Ho, ⟨%d0, H0⟩, ⟨%d1, H1⟩, ⟨%d2, H2⟩, ⟨%d3, H3⟩, ⟨%d4, H4⟩, ⟨%d5, H5⟩⟩
  iapply (normBody9 c Set.univ _ _ _ _ _ _ _ _ _ _ _ _ _ (blockAt9 V c 0 t) (blockAt9 V c 1 t) (blockAt9 V c 2 t) (blockAt9 V c 3 t) (blockAt9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 9, at every point. -/
theorem obligation9 (c : Dev nD) : BodyObligation (dat9 (F := F) V c) (defs₀ (F := F)) Variants.none () Set.univ := fun t => by
  rw [bigSep_W9, bigSep_W9]
  exact pointRun9 V c t

end
end Cert.KernelIdeal.Gen
end
-- ==== Proof.KI.Head10.lean ====
/-
  Region 10 of the program: the head, one grid point over whole arrays. From the pooled 64 x 512 features p,
  the weights W1 (512 x 512), W2 (512 x 18) and the bias rows b1 (1 x 512), b2 (1 x 18):
    out = tanh (p W1 + b1) W2 + b2,
  both products accumulated from zero. Here: what the body leaves in the 64 x 18 output as a function of the five
  input blocks, the body's triple, and the region's proof data at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off the window's array as the region finds it. -/
def blockAt10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! An input window's staging buffer holds the window's block at the point. One statement per input window. -/
theorem found10_0 {c : Dev nD} (dat : Dat τ (Elt F) Unit ℕ (UR sig nD τ) ℕ cfg10 c) (hA : dat.A 0 = V c (Pipeline.arrRef spec10 0))
    (hafter : ∀ t, dat.after 0 t = blockAt10 V c 0 t) (t : Fin cfg10.N) (d) : dat.before 0 t d = blockAt10 V c 0 t :=
  (dat.before_in_eq_fetched 0 rfl (fun _ => rfl) (fun _ _ _ => rfl) (fun t => by rw [hafter]; unfold Dat.blockOf blockAt10; rw [hA]; try rfl) t d).trans
    (by unfold Dat.fetched Dat.blockOf blockAt10; rw [hA]; try rfl)
theorem found10_1 {c : Dev nD} (dat : Dat τ (Elt F) Unit ℕ (UR sig nD τ) ℕ cfg10 c) (hA : dat.A 1 = V c (Pipeline.arrRef spec10 1))
    (hafter : ∀ t, dat.after 1 t = blockAt10 V c 1 t) (t : Fin cfg10.N) (d) : dat.before 1 t d = blockAt10 V c 1 t :=
  (dat.before_in_eq_fetched 1 rfl (fun _ => rfl) (fun _ _ _ => rfl) (fun t => by rw [hafter]; unfold Dat.blockOf blockAt10; rw [hA]; try rfl) t d).trans
    (by unfold Dat.fetched Dat.blockOf blockAt10; rw [hA]; try rfl)
theorem found10_2 {c : Dev nD} (dat : Dat τ (Elt F) Unit ℕ (UR sig nD τ) ℕ cfg10 c) (hA : dat.A 2 = V c (Pipeline.arrRef spec10 2))
    (hafter : ∀ t, dat.after 2 t = blockAt10 V c 2 t) (t : Fin cfg10.N) (d) : dat.before 2 t d = blockAt10 V c 2 t :=
  (dat.before_in_eq_fetched 2 rfl (fun _ => rfl) (fun _ _ _ => rfl) (fun t => by rw [hafter]; unfold Dat.blockOf blockAt10; rw [hA]; try rfl) t d).trans
    (by unfold Dat.fetched Dat.blockOf blockAt10; rw [hA]; try rfl)
theorem found10_3 {c : Dev nD} (dat : Dat τ (Elt F) Unit ℕ (UR sig nD τ) ℕ cfg10 c) (hA : dat.A 3 = V c (Pipeline.arrRef spec10 3))
    (hafter : ∀ t, dat.after 3 t = blockAt10 V c 3 t) (t : Fin cfg10.N) (d) : dat.before 3 t d = blockAt10 V c 3 t :=
  (dat.before_in_eq_fetched 3 rfl (fun _ => rfl) (fun _ _ _ => rfl) (fun t => by rw [hafter]; unfold Dat.blockOf blockAt10; rw [hA]; try rfl) t d).trans
    (by unfold Dat.fetched Dat.blockOf blockAt10; rw [hA]; try rfl)
theorem found10_4 {c : Dev nD} (dat : Dat τ (Elt F) Unit ℕ (UR sig nD τ) ℕ cfg10 c) (hA : dat.A 4 = V c (Pipeline.arrRef spec10 4))
    (hafter : ∀ t, dat.after 4 t = blockAt10 V c 4 t) (t : Fin cfg10.N) (d) : dat.before 4 t d = blockAt10 V c 4 t :=
  (dat.before_in_eq_fetched 4 rfl (fun _ => rfl) (fun _ _ _ => rfl) (fun t => by rw [hafter]; unfold Dat.blockOf blockAt10; rw [hA]; try rfl) t d).trans
    (by unfold Dat.fetched Dat.blockOf blockAt10; rw [hA]; try rfl)

abbrev featRect10 : Rect S64x512 := Rect.unit (s := S64x512) ![0, 0] S64x512.size inb_S64x512_S64x512_0_0
abbrev w1Rect10 : Rect S512x512 := Rect.unit (s := S512x512) ![0, 0] S512x512.size inb_S512x512_S512x512_0_0
abbrev b1Rect10 : Rect S1x512 := Rect.unit (s := S1x512) ![0, 0] S1x512.size inb_S1x512_S1x512_0_0
abbrev w2Rect10 : Rect S512x18 := Rect.unit (s := S512x18) ![0, 0] S512x18.size inb_S512x18_S512x18_0_0
abbrev b2Rect10 : Rect S1x18 := Rect.unit (s := S1x18) ![0, 0] S1x18.size inb_S1x18_S1x18_0_0
abbrev outRect10 : Rect S64x18 := Rect.unit (s := S64x18) ![0, 0] S64x18.size inb_S64x18_S64x18_0_0

/-- The output after the body: its one store, of the logits. -/
def logits10 (p : Vec F S64x512 .f32) (w1 : Vec F S512x512 .f32) (b1 : Vec F S1x512 .f32) (w2 : Vec F S512x18 .f32) (b2 : Vec F S1x18 .f32) : Vec F S64x18 .f32 :=
  View.canon [⟨outRect10, k10_pay1 (View.ld p featRect10) (View.ld w1 w1Rect10) (View.ld b1 b1Rect10) (View.ld w2 w2Rect10) (View.ld b2 b2Rect10)⟩]

theorem logits10_cover (p0 : Vec F S64x18 .f32) (y : S64x18.Idx) :
    ∃ pc ∈ ([⟨outRect10, p0⟩] : List (View.Piece (Elt F) S64x18 .f32)), y ∈ pc.1.set :=
  View.cover_of_tiled [⟨outRect10, p0⟩] S64x18.size (by rfl) y

set_option maxHeartbeats 1000000 in
/-- The body on whole staging memrefs: the five inputs read and left as they were, the output left at the logits. -/
theorem headBody10 (c : Dev nD) (E : Set ℕ) (i : grid10.Coords)
    (arg1 : Memref sig .tc .vmem S64x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x18 .f32) (harg4 : arg4.IsWhole)
    (arg5 : Memref sig .tc .vmem S1x18 .f32) (harg5 : arg5.IsWhole) (arg6 : Memref sig .tc .vmem S64x18 .f32) (harg6 : arg6.IsWhole)
    (p : Vec F S64x512 .f32) (w1 : Vec F S512x512 .f32) (b1 : Vec F S1x512 .f32) (w2 : Vec F S512x18 .f32) (b2 : Vec F S1x18 .f32) (K : PUnit → sProp 𝕄) :
    iprop(owns (c : Thread nD τ) arg1 fullShare p ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare p ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (logits10 p w1 b1 w2 b2)) -∗ K ⟨⟩))
      ⊢ wp frame (wpE (defs₀ (F := F)) Variants.none c none) E (cc10__head_kernel i arg1 harg1 arg2 harg2 arg3 harg3 arg4 harg4 arg5 harg5 arg6 harg6) K := by
  simp only [cc10__head_kernel_eq_skeleton]; unfold cc10__head_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (logits10_cover _)

/-- The region's proof data on core c: the arrays as the region finds them; after the body each input's buffer still
    at its block and the output's at the logits of the five blocks; the invariant the scoped rest and the generator
    register, untouched; nothing owed; full shares. -/
def dat10 (c : Dev nD) : Dat τ (Elt F) Unit ℕ (UR sig nD τ) ℕ cfg10 c where
  A w := V c (Pipeline.arrRef spec10 w)
  after w t := match w with
    | ⟨0, _⟩ => blockAt10 V c 0 t
    | ⟨1, _⟩ => blockAt10 V c 1 t
    | ⟨2, _⟩ => blockAt10 V c 2 t
    | ⟨3, _⟩ => blockAt10 V c 3 t
    | ⟨4, _⟩ => blockAt10 V c 4 t
    | ⟨5, _⟩ => logits10 (blockAt10 V c 0 t) (blockAt10 V c 1 t) (blockAt10 V c 2 t) (blockAt10 V c 3 t) (blockAt10 V c 4 t)
  Φ _ := Pipeline.ΦA spec10 c
  q _ := fullShare
  owed _ := 0

theorem dat10_A (c : Dev nD) (w : Fin cfg10.W) : (dat10 V c).A w = V c (Pipeline.arrRef spec10 w) := by
  dsimp only [dat10]
theorem dat10_after0 (c : Dev nD) (t : Fin cfg10.N) : (dat10 V c).after 0 t = blockAt10 V c 0 t := by dsimp only [dat10]
theorem dat10_after1 (c : Dev nD) (t : Fin cfg10.N) : (dat10 V c).after 1 t = blockAt10 V c 1 t := by dsimp only [dat10]
theorem dat10_after2 (c : Dev nD) (t : Fin cfg10.N) : (dat10 V c).after 2 t = blockAt10 V c 2 t := by dsimp only [dat10]
theorem dat10_after3 (c : Dev nD) (t : Fin cfg10.N) : (dat10 V c).after 3 t = blockAt10 V c 3 t := by dsimp only [dat10]
theorem dat10_after4 (c : Dev nD) (t : Fin cfg10.N) : (dat10 V c).after 4 t = blockAt10 V c 4 t := by dsimp only [dat10]
theorem dat10_after5 (c : Dev nD) (t : Fin cfg10.N) : (dat10 V c).after 5 t =
    logits10 (blockAt10 V c 0 t) (blockAt10 V c 1 t) (blockAt10 V c 2 t) (blockAt10 V c 3 t) (blockAt10 V c 4 t) := by dsimp only [dat10]

theorem dat10_before0 (c : Dev nD) (t : Fin cfg10.N) (d) : (dat10 V c).before 0 t d = blockAt10 V c 0 t :=
  found10_0 V (dat10 V c) (dat10_A V c 0) (dat10_after0 V c) t d
theorem dat10_before1 (c : Dev nD) (t : Fin cfg10.N) (d) : (dat10 V c).before 1 t d = blockAt10 V c 1 t :=
  found10_1 V (dat10 V c) (dat10_A V c 1) (dat10_after1 V c) t d
theorem dat10_before2 (c : Dev nD) (t : Fin cfg10.N) (d) : (dat10 V c).before 2 t d = blockAt10 V c 2 t :=
  found10_2 V (dat10 V c) (dat10_A V c 2) (dat10_after2 V c) t d
theorem dat10_before3 (c : Dev nD) (t : Fin cfg10.N) (d) : (dat10 V c).before 3 t d = blockAt10 V c 3 t :=
  found10_3 V (dat10 V c) (dat10_A V c 3) (dat10_after3 V c) t d
theorem dat10_before4 (c : Dev nD) (t : Fin cfg10.N) (d) : (dat10 V c).before 4 t d = blockAt10 V c 4 t :=
  found10_4 V (dat10 V c) (dat10_A V c 4) (dat10_after4 V c) t d

/-- What the body is called with at the point, the windows one by one, -/
def pre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def post10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

theorem pointRun10 (c : Dev nD) (t : Fin cfg10.N) :
    pre10 V c t ⊢ wp frame (wpE (defs₀ (F := F)) Variants.none c none) Set.univ (bodyAt10 t) (fun _ => post10 V c t) := by
  unfold pre10 post10 bodyAt10
  simp only [dat10_before0, dat10_before1, dat10_before2, dat10_before3, dat10_before4]
  rw [show (dat10 V c).Φ t.succ = (dat10 V c).Φ t.castSucc from rfl,
    show (dat10 V c).owesAt () t.succ = (dat10 V c).owesAt () t.castSucc from rfl,
    dat10_after0, dat10_after1, dat10_after2, dat10_after3, dat10_after4, dat10_after5]
  iintro ⟨HΦ, Ho, ⟨%d0, H0⟩, ⟨%d1, H1⟩, ⟨%d2, H2⟩, ⟨%d3, H3⟩, ⟨%d4, H4⟩, ⟨%d5, H5⟩⟩
  iapply (headBody10 c Set.univ _ _ _ _ _ _ _ _ _ _ _ _ _ (blockAt10 V c 0 t) (blockAt10 V c 1 t) (blockAt10 V c 2 t) (blockAt10 V c 3 t) (blockAt10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of region 10, at its point. -/
theorem obligation10 (c : Dev nD) : BodyObligation (dat10 (F := F) V c) (defs₀ (F := F)) Variants.none () Set.univ := fun t => by
  rw [bigSep_W10, bigSep_W10]
  exact pointRun10 V c t

end
end Cert.KernelIdeal.Gen
end
-- ==== Proof.KI.MlpRun0.lean ====
/-
  Region 0 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond0 (i : grid0.Coords) : Prop := (Scalar.cmpi .ne (Scalar.extui (Scalar.cmpi .eq (BitVec.ofNat 32 (i 0).val) 0#32)) 0#32) = 1#1
theorem firstCond0_iff : ∀ t : Fin cfg0.N, firstCond0 (grid0.coords t) ↔ t.val % 10 = 0 :=
  (by decide +kernel : ∀ t : Fin grid0.N, firstCond0 (grid0.coords t) ↔ t.val % 10 = 0)
/-- The body's second conditional: this is the last tile. -/
abbrev lastCond0 (i : grid0.Coords) : Prop := k0_cond2 i = 1#1
theorem lastCond0_iff : ∀ t : Fin cfg0.N, lastCond0 (grid0.coords t) ↔ t.val % 10 = 9 :=
  (by decide +kernel : ∀ t : Fin grid0.N, lastCond0 (grid0.coords t) ↔ t.val % 10 = 9)

/-! ## Where the windows are idle -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- Away from the last tile the two statistics outputs are idle and not written back. -/
theorem idle0_6 : ∀ t : Fin cfg0.N, ¬lastCond0 (grid0.coords t) → cfg0.idle 6 (grid0.coords t) = true := by decide +kernel
theorem idle0_7 : ∀ t : Fin cfg0.N, ¬lastCond0 (grid0.coords t) → cfg0.idle 7 (grid0.coords t) = true := by decide +kernel
theorem noFlush0_6 : ∀ t : Fin cfg0.N, ¬lastCond0 (grid0.coords t) → (cfg0.win 6).flush t = false := by decide +kernel
theorem noFlush0_7 : ∀ t : Fin cfg0.N, ¬lastCond0 (grid0.coords t) → (cfg0.win 7).flush t = false := by decide +kernel
/-- At the last tile they are live. -/
theorem live0_6 : ∀ t : Fin cfg0.N, lastCond0 (grid0.coords t) → cfg0.idle 6 (grid0.coords t) = false := by decide +kernel
theorem live0_7 : ∀ t : Fin cfg0.N, lastCond0 (grid0.coords t) → cfg0.idle 7 (grid0.coords t) = false := by decide +kernel

/-! ## The staging memrefs at a point, the scratch rows, and the views contents are stated through -/
abbrev ms0_0 (t : Fin cfg0.N) : Memref sig .tc .vmem S1000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1000x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
/-- The two scratch rows: whole scoped buffers of the kernel's own. -/
abbrev sc0_0 : Memref sig .tc .vmem S1x512 .f32 := Memref.whole cc0_scratch0
abbrev sc0_1 : Memref sig .tc .vmem S1x512 .f32 := Memref.whole cc0_scratch1
/-- The views through which a tile's and a row's contents are stated (the choice does not matter). -/
abbrev tileView0 : View sig .tc .vmem S1000x512 .f32 := (Memref.whole cc0_stg5_0 : Memref sig .tc .vmem S1000x512 .f32).view
abbrev rowView0 : View sig .tc .vmem S1x512 .f32 := sc0_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc0__mlp_stats_kernel_eq_skeleton]; unfold cc0__mlp_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc0__mlp_stats_kernel_eq_skeleton]; unfold cc0__mlp_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Gen
end
-- ==== Proof.KI.MlpDat0.lean ====
/-
  Region 0 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.KI.MlpRun0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  (y : S1000x512.Idx) :
    ∃ pc ∈ (runFirst0 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst0 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  : Vec F S1000x512 .f32 :=
  tileView0.read (Elt F) (tileView0.writes (Elt F) tileView0.junk (runFirst0 c i arg1 harg1 arg2 harg2 arg3 harg3 arg4 harg4 arg5 harg5 arg6 harg6 arg7 harg7 arg8 harg8 arg9 harg9 arg10 harg10 h1 h2 x0 x1 x2 x3 x4 ).1)

theorem sumFirst0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  (y : S1x512.Idx) :
    ∃ pc ∈ (runFirst0 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst0 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  : Vec F S1x512 .f32 :=
  rowView0.read (Elt F) (rowView0.writes (Elt F) rowView0.junk (runFirst0 c i arg1 harg1 arg2 harg2 arg3 harg3 arg4 harg4 arg5 harg5 arg6 harg6 arg7 harg7 arg8 harg8 arg9 harg9 arg10 harg10 h1 h2 x0 x1 x2 x3 x4 ).2.1)

theorem sqFirst0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  (y : S1x512.Idx) :
    ∃ pc ∈ (runFirst0 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst0 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32)  : Vec F S1x512 .f32 :=
  rowView0.read (Elt F) (rowView0.writes (Elt F) rowView0.junk (runFirst0 c i arg1 harg1 arg2 harg2 arg3 harg3 arg4 harg4 arg5 harg5 arg6 harg6 arg7 harg7 arg8 harg8 arg9 harg9 arg10 harg10 h1 h2 x0 x1 x2 x3 x4 ).2.2.1)

theorem tileMid0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) (y : S1000x512.Idx) :
    ∃ pc ∈ (runMid0 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid0 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) : Vec F S1000x512 .f32 :=
  tileView0.read (Elt F) (tileView0.writes (Elt F) tileView0.junk (runMid0 c i arg1 harg1 arg2 harg2 arg3 harg3 arg4 harg4 arg5 harg5 arg6 harg6 arg7 harg7 arg8 harg8 arg9 harg9 arg10 harg10 h1 h2 x0 x1 x2 x3 x4 s q).1)

theorem sumMid0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runMid0 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid0 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runMid0 c i arg1 harg1 arg2 harg2 arg3 harg3 arg4 harg4 arg5 harg5 arg6 harg6 arg7 harg7 arg8 harg8 arg9 harg9 arg10 harg10 h1 h2 x0 x1 x2 x3 x4 s q).2.1)

theorem sqMid0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runMid0 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid0 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runMid0 c i arg1 harg1 arg2 harg2 arg3 harg3 arg4 harg4 arg5 harg5 arg6 harg6 arg7 harg7 arg8 harg8 arg9 harg9 arg10 harg10 h1 h2 x0 x1 x2 x3 x4 s q).2.2.1)

theorem tileLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1000x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1000x512 .f32 :=
  tileView0.read (Elt F) (tileView0.writes (Elt F) tileView0.junk (runLast0 c i arg1 harg1 arg2 harg2 arg3 harg3 arg4 harg4 arg5 harg5 arg6 harg6 arg7 harg7 arg8 harg8 arg9 harg9 arg10 harg10 h1 h2 x0 x1 x2 x3 x4 s q).1)

theorem outSumLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runLast0 c i arg1 harg1 arg2 harg2 arg3 harg3 arg4 harg4 arg5 harg5 arg6 harg6 arg7 harg7 arg8 harg8 arg9 harg9 arg10 harg10 h1 h2 x0 x1 x2 x3 x4 s q).2.1)

theorem outSqLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runLast0 c i arg1 harg1 arg2 harg2 arg3 harg3 arg4 harg4 arg5 harg5 arg6 harg6 arg7 harg7 arg8 harg8 arg9 harg9 arg10 harg10 h1 h2 x0 x1 x2 x3 x4 s q).2.2.1)

theorem sumLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runLast0 c i arg1 harg1 arg2 harg2 arg3 harg3 arg4 harg4 arg5 harg5 arg6 harg6 arg7 harg7 arg8 harg8 arg9 harg9 arg10 harg10 h1 h2 x0 x1 x2 x3 x4 s q).2.2.2.1)

theorem sqLast0_cover (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) (y : S1x512.Idx) :
    ∃ pc ∈ (runLast0 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast0 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast0 (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) : Vec F S1x512 .f32 :=
  rowView0.read (Elt F) (rowView0.writes (Elt F) rowView0.junk (runLast0 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry0 (c : Dev nD) :
    (Pipeline.ΦA spec0 c : sProp 𝕄)
      = iprop(iprop(iprop((∃ d, owns (c : Thread nD τ) sc0_0 fullShare d) ∗ (∃ d, owns (c : Thread nD τ) sc0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [sc0_0, sc0_1, owns_whole]
  rfl

section
variable (V : (c : Dev nD) → (b : Ref sig .tc) → Buf (Elt F) ((c : Thread nD τ).loc b))

/-- Window w's block at grid point t, read off the window's array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, fetched there or not. -/
theorem found0_0 {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)
theorem found0_4 {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt0 (c : Dev nD) : (n : ℕ) → n < cfg0.N →
    Vec F S1000x512 .f32 × Vec F S1x512 .f32 × Vec F S1x512 .f32 × Vec F S1x512 .f32 × Vec F S1x512 .f32
  | 0, hn => (tileFirst0 c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) sc0_0 (Memref.isWhole_whole _) sc0_1 (Memref.isWhole_whole _) ((firstCond0_iff (⟨0, hn⟩ : Fin cfg0.N)).mpr (Nat.zero_mod _)) (fun h => by have h' := (lastCond0_iff (⟨0, hn⟩ : Fin cfg0.N)).mp h; (try dsimp only at h'); omega) (blockAt0 V c 0 (⟨0, hn⟩ : Fin cfg0.N)) (blockAt0 V c 1 (⟨0, hn⟩ : Fin cfg0.N)) (blockAt0 V c 2 (⟨0, hn⟩ : Fin cfg0.N)) (blockAt0 V c 3 (⟨0, hn⟩ : Fin cfg0.N)) (blockAt0 V c 4 (⟨0, hn⟩ : Fin cfg0.N)),
      (rowView0.read (Elt F) rowView0.junk), (rowView0.read (Elt F) rowView0.junk),
      sumFirst0 c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) sc0_0 (Memref.isWhole_whole _) sc0_1 (Memref.isWhole_whole _) ((firstCond0_iff (⟨0, hn⟩ : Fin cfg0.N)).mpr (Nat.zero_mod _)) (fun h => by have h' := (lastCond0_iff (⟨0, hn⟩ : Fin cfg0.N)).mp h; (try dsimp only at h'); omega) (blockAt0 V c 0 (⟨0, hn⟩ : Fin cfg0.N)) (blockAt0 V c 1 (⟨0, hn⟩ : Fin cfg0.N)) (blockAt0 V c 2 (⟨0, hn⟩ : Fin cfg0.N)) (blockAt0 V c 3 (⟨0, hn⟩ : Fin cfg0.N)) (blockAt0 V c 4 (⟨0, hn⟩ : Fin cfg0.N)),
      sqFirst0 c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) sc0_0 (Memref.isWhole_whole _) sc0_1 (Memref.isWhole_whole _) ((firstCond0_iff (⟨0, hn⟩ : Fin cfg0.N)).mpr (Nat.zero_mod _)) (fun h => by have h' := (lastCond0_iff (⟨0, hn⟩ : Fin cfg0.N)).mp h; (try dsimp only at h'); omega) (blockAt0 V c 0 (⟨0, hn⟩ : Fin cfg0.N)) (blockAt0 V c 1 (⟨0, hn⟩ : Fin cfg0.N)) (blockAt0 V c 2 (⟨0, hn⟩ : Fin cfg0.N)) (blockAt0 V c 3 (⟨0, hn⟩ : Fin cfg0.N)) (blockAt0 V c 4 (⟨0, hn⟩ : Fin cfg0.N)))
  | n + 1, hn =>
    if hl : (n + 1) % 10 = 9 then
      (tileLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       outSumLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       outSqLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       sumLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       sqLast0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) ((lastCond0_iff (⟨n + 1, hn⟩ : Fin cfg0.N)).mpr hl) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2)
    else
      (tileMid0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) (fun h => hl ((lastCond0_iff (⟨n + 1, hn⟩ : Fin cfg0.N)).mp h)) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       (rowView0.read (Elt F) rowView0.junk), (rowView0.read (Elt F) rowView0.junk),
       sumMid0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) (fun h => hl ((lastCond0_iff (⟨n + 1, hn⟩ : Fin cfg0.N)).mp h)) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2,
       sqMid0 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) sc0_0 (Memref.isWhole_whole _) sc0_1 (Memref.isWhole_whole _) (fun h => by have h' := (firstCond0_iff (⟨n + 1, hn⟩ : Fin cfg0.N)).mp h; have hN : n + 1 < 10 := lt_of_lt_of_eq hn (show cfg0.N = 10 from N_0); (try dsimp only at h'); omega) (fun h => hl ((lastCond0_iff (⟨n + 1, hn⟩ : Fin cfg0.N)).mp h)) (blockAt0 V c 0 (⟨n + 1, hn⟩ : Fin cfg0.N)) (blockAt0 V c 1 (⟨n + 1, hn⟩ : Fin cfg0.N)) (blockAt0 V c 2 (⟨n + 1, hn⟩ : Fin cfg0.N)) (blockAt0 V c 3 (⟨n + 1, hn⟩ : Fin cfg0.N)) (blockAt0 V c 4 (⟨n + 1, hn⟩ : Fin cfg0.N)) (stateAt0 c n (Nat.lt_of_succ_lt hn)).2.2.2.1 (stateAt0 c n (Nat.lt_of_succ_lt hn)).2.2.2.2)

theorem stateAt0_first (c : Dev nD) (t : Fin cfg0.N) (hf : t.val % 10 = 0) (hl : ¬t.val % 10 = 9) :
    stateAt0 V c t.val t.isLt = (tileFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) ((firstCond0_iff t).mpr hf) (fun h => hl ((lastCond0_iff t).mp h)) (blockAt0 V c 0 t) (blockAt0 V c 1 t) (blockAt0 V c 2 t) (blockAt0 V c 3 t) (blockAt0 V c 4 t),
      (rowView0.read (Elt F) rowView0.junk), (rowView0.read (Elt F) rowView0.junk),
      sumFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) ((firstCond0_iff t).mpr hf) (fun h => hl ((lastCond0_iff t).mp h)) (blockAt0 V c 0 t) (blockAt0 V c 1 t) (blockAt0 V c 2 t) (blockAt0 V c 3 t) (blockAt0 V c 4 t),
      sqFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) ((firstCond0_iff t).mpr hf) (fun h => hl ((lastCond0_iff t).mp h)) (blockAt0 V c 0 t) (blockAt0 V c 1 t) (blockAt0 V c 2 t) (blockAt0 V c 3 t) (blockAt0 V c 4 t)) := by
  obtain ⟨n, hn⟩ := t
  have hN : n < 10 := lt_of_lt_of_eq hn (show cfg0.N = 10 from N_0)
  cases n with
  | zero => exact rfl
  | succ n => exfalso; (try dsimp only at hf); omega

theorem stateAt0_mid (c : Dev nD) (t : Fin cfg0.N) (hf : ¬t.val % 10 = 0) (hl : ¬t.val % 10 = 9) :
    stateAt0 V c t.val t.isLt = (tileMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) (fun h => hl ((lastCond0_iff t).mp h)) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      (rowView0.read (Elt F) rowView0.junk), (rowView0.read (Elt F) rowView0.junk),
      sumMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) (fun h => hl ((lastCond0_iff t).mp h)) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      sqMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) (fun h => hl ((lastCond0_iff t).mp h)) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt0_last (c : Dev nD) (t : Fin cfg0.N) (hf : ¬t.val % 10 = 0) (hl : t.val % 10 = 9) :
    stateAt0 V c t.val t.isLt = (tileLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      outSumLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      outSqLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      sumLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2,
      sqLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry0 (c : Dev nD) : (n : ℕ) → n ≤ cfg0.N → sProp 𝕄
  | 0, _ => Pipeline.ΦA spec0 c
  | n + 1, hn => iprop(iprop(iprop(owns (c : Thread nD τ) sc0_0 fullShare (stateAt0 V c n hn).2.2.2.1 ∗ owns (c : Thread nD τ) sc0_1 fullShare (stateAt0 V c n hn).2.2.2.2)
      ∗ Pipeline.scopedRestBut (Ix := Unit) (Name := ℕ) (U := UR sig nD τ) (Lvl := ℕ) (Val := Elt F) spec0 c [cc0_scratch0, cc0_scratch1])
      ∗ (∃ r, prngReg c r))

theorem carry0_zero (c : Dev nD) (n : ℕ) (h : n ≤ cfg0.N) (hz : n = 0) : carry0 V c n h = Pipeline.ΦA spec0 c := by
  subst hz; rfl
theorem carry0_succ (c : Dev nD) (n : ℕ) (hn : n < cfg0.N) :
    carry0 V c (n + 1) hn = iprop(iprop(iprop(owns (c : Thread nD τ) sc0_0 fullShare (stateAt0 V c n hn).2.2.2.1 ∗ owns (c : Thread nD τ) sc0_1 fullShare (stateAt0 V c n hn).2.2.2.2)
      ∗ Pipeline.scopedRestBut (Ix := Unit) (Name := ℕ) (U := UR sig nD τ) (Lvl := ℕ) (Val := Elt F) spec0 c [cc0_scratch0, cc0_scratch1])
      ∗ (∃ r, prngReg c r)) := rfl
theorem carry0_pos (c : Dev nD) (n : ℕ) (h : n ≤ cfg0.N) (hz : n ≠ 0) :
    carry0 V c n h = iprop(iprop(iprop(owns (c : Thread nD τ) sc0_0 fullShare (stateAt0 V c (n - 1) (by omega)).2.2.2.1 ∗ owns (c : Thread nD τ) sc0_1 fullShare (stateAt0 V c (n - 1) (by omega)).2.2.2.2)
      ∗ Pipeline.scopedRestBut (Ix := Unit) (Name := ℕ) (U := UR sig nD τ) (Lvl := ℕ) (Val := Elt F) spec0 c [cc0_scratch0, cc0_scratch1])
      ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => (stateAt0 V c t.val t.isLt).1
    | ⟨6, _⟩ => (stateAt0 V c t.val t.isLt).2.1
    | ⟨7, _⟩ => (stateAt0 V c t.val t.isLt).2.2.1
  Φ t := carry0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_carry (c : Dev nD) (t : Fin cfg0.N) :
    (dat0 V c).Φ t.castSucc = carry0 V c t.val (Nat.le_of_lt t.isLt) := by
  dsimp only [dat0]; simp only [Fin.coe_castSucc]
theorem dat0_after0 (c : Dev nD) (t : Fin cfg0.N) : (dat0 V c).after 0 t = blockAt0 V c 0 t := by dsimp only [dat0]
theorem dat0_after1 (c : Dev nD) (t : Fin cfg0.N) : (dat0 V c).after 1 t = blockAt0 V c 1 t := by dsimp only [dat0]
theorem dat0_after2 (c : Dev nD) (t : Fin cfg0.N) : (dat0 V c).after 2 t = blockAt0 V c 2 t := by dsimp only [dat0]
theorem dat0_after3 (c : Dev nD) (t : Fin cfg0.N) : (dat0 V c).after 3 t = blockAt0 V c 3 t := by dsimp only [dat0]
theorem dat0_after4 (c : Dev nD) (t : Fin cfg0.N) : (dat0 V c).after 4 t = blockAt0 V c 4 t := by dsimp only [dat0]
theorem dat0_after5 (c : Dev nD) (t : Fin cfg0.N) : (dat0 V c).after 5 t = (stateAt0 V c t.val t.isLt).1 := by dsimp only [dat0]
theorem dat0_after6 (c : Dev nD) (t : Fin cfg0.N) : (dat0 V c).after 6 t = (stateAt0 V c t.val t.isLt).2.1 := by dsimp only [dat0]
theorem dat0_after7 (c : Dev nD) (t : Fin cfg0.N) : (dat0 V c).after 7 t = (stateAt0 V c t.val t.isLt).2.2.1 := by dsimp only [dat0]
theorem dat0_before0 (c : Dev nD) (t : Fin cfg0.N) (d) : (dat0 V c).before 0 t d = blockAt0 V c 0 t :=
  found0_0 V (dat0 V c) (dat0_A V c 0) (dat0_after0 V c) t d
theorem dat0_before1 (c : Dev nD) (t : Fin cfg0.N) (d) : (dat0 V c).before 1 t d = blockAt0 V c 1 t :=
  found0_1 V (dat0 V c) (dat0_A V c 1) (dat0_after1 V c) t d
theorem dat0_before2 (c : Dev nD) (t : Fin cfg0.N) (d) : (dat0 V c).before 2 t d = blockAt0 V c 2 t :=
  found0_2 V (dat0 V c) (dat0_A V c 2) (dat0_after2 V c) t d
theorem dat0_before3 (c : Dev nD) (t : Fin cfg0.N) (d) : (dat0 V c).before 3 t d = blockAt0 V c 3 t :=
  found0_3 V (dat0 V c) (dat0_A V c 3) (dat0_after3 V c) t d
theorem dat0_before4 (c : Dev nD) (t : Fin cfg0.N) (d) : (dat0 V c).before 4 t d = blockAt0 V c 4 t :=
  found0_4 V (dat0 V c) (dat0_A V c 4) (dat0_after4 V c) t d

/-! ## The body obligation -/

def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
theorem pointRun0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2, dat0_before3, dat0_before4]
  rw [show (dat0 V c).owesAt () t.succ = (dat0 V c).owesAt () t.castSucc from rfl]
  rw [show (dat0 V c).Φ t.succ = carry0 V c (t.val + 1) t.isLt from rfl, carry0_succ]
  rw [show (dat0 V c).leavesExact 0 t = owns (c : Thread nD τ) (ms0_0 t) fullShare ((dat0 V c).after 0 t) from by
    unfold Dat.leavesExact; rw [live0_0 t], dat0_after0]
  rw [show (dat0 V c).leavesExact 1 t = owns (c : Thread nD τ) (ms0_1 t) fullShare ((dat0 V c).after 1 t) from by
    unfold Dat.leavesExact; rw [live0_1 t], dat0_after1]
  rw [show (dat0 V c).leavesExact 2 t = owns (c : Thread nD τ) (ms0_2 t) fullShare ((dat0 V c).after 2 t) from by
    unfold Dat.leavesExact; rw [live0_2 t], dat0_after2]
  rw [show (dat0 V c).leavesExact 3 t = owns (c : Thread nD τ) (ms0_3 t) fullShare ((dat0 V c).after 3 t) from by
    unfold Dat.leavesExact; rw [live0_3 t], dat0_after3]
  rw [show (dat0 V c).leavesExact 4 t = owns (c : Thread nD τ) (ms0_4 t) fullShare ((dat0 V c).after 4 t) from by
    unfold Dat.leavesExact; rw [live0_4 t], dat0_after4]
  rw [show (dat0 V c).leavesExact 5 t = owns (c : Thread nD τ) (ms0_5 t) fullShare ((dat0 V c).after 5 t) from by
    unfold Dat.leavesExact; rw [live0_5 t], dat0_after5]
  have hN : t.val < 10 := lt_of_lt_of_eq t.isLt (show cfg0.N = 10 from N_0)
  by_cases hf : t.val % 10 = 0
  · have hl : ¬t.val % 10 = 9 := by omega
    have hz : t.val = 0 := by omega
    rw [Dat.leavesExact_idle (dat0 V c) 6 t (idle0_6 t (fun h => hl ((lastCond0_iff t).mp h))) (noFlush0_6 t (fun h => hl ((lastCond0_iff t).mp h)))]
    rw [Dat.leavesExact_idle (dat0 V c) 7 t (idle0_7 t (fun h => hl ((lastCond0_iff t).mp h))) (noFlush0_7 t (fun h => hl ((lastCond0_iff t).mp h)))]
    rw [stateAt0_first V c t hf hl]
    unfold tileFirst0 sumFirst0 sqFirst0; (try dsimp only)
    rw [dat0_carry V c t, carry0_zero V c _ _ hz, carryEntry0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst0 c (grid0.coords t) _ _ _ _ _ _ _ _ _ _ _ _ _ _ _ _ _ _ _ _ ((firstCond0_iff t).mpr hf) (fun h => hl ((lastCond0_iff t).mp h)) (blockAt0 V c 0 t) (blockAt0 V c 1 t) (blockAt0 V c 2 t) (blockAt0 V c 3 t) (blockAt0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst0_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst0_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst0_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat0 V c).leavesExact 6 t = owns (c : Thread nD τ) (ms0_6 t) fullShare ((dat0 V c).after 6 t) from by
        unfold Dat.leavesExact; rw [live0_6 t ((lastCond0_iff t).mpr hl)], dat0_after6]
      rw [show (dat0 V c).leavesExact 7 t = owns (c : Thread nD τ) (ms0_7 t) fullShare ((dat0 V c).after 7 t) from by
        unfold Dat.leavesExact; rw [live0_7 t ((lastCond0_iff t).mpr hl)], dat0_after7]
      rw [stateAt0_last V c t hf hl]
      unfold tileLast0 outSumLast0 outSqLast0 sumLast0 sqLast0; (try dsimp only)
      rw [dat0_carry V c t, carry0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast0 c (grid0.coords t) _ _ _ _ _ _ _ _ _ _ _ _ _ _ _ _ _ _ _ _ (fun h => hf ((firstCond0_iff t).mp h)) ((lastCond0_iff t).mpr hl) (blockAt0 V c 0 t) (blockAt0 V c 1 t) (blockAt0 V c 2 t) (blockAt0 V c 3 t) (blockAt0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast0_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast0_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast0_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast0_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast0_cover c _ _ _ _ _ _ _ _ _ _ _ _ _ _ _ _ _ _ _ _ _ _ _ _ _ _ _ _ _ _)
    · rw [Dat.leavesExact_idle (dat0 V c) 6 t (idle0_6 t (fun h => hl ((lastCond0_iff t).mp h))) (noFlush0_6 t (fun h => hl ((lastCond0_iff t).mp h)))]
      rw [Dat.leavesExact_idle (dat0 V c) 7 t (idle0_7 t (fun h => hl ((lastCond0_iff t).mp h))) (noFlush0_7 t (fun h => hl ((lastCond0_iff t).mp h)))]
      rw [stateAt0_mid V c t hf hl]
      unfold tileMid0 sumMid0 sqMid0; (try dsimp only)
      rw [dat0_carry V c t, carry0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid0 c (grid0.coords t) _ _ _ _ _ _ _ _ _ _ _ _ _ _ _ _ _ _ _ _ (fun h => hf ((firstCond0_iff t).mp h)) (fun h => hl ((lastCond0_iff t).mp h)) (blockAt0 V c 0 t) (blockAt0 V c 1 t) (blockAt0 V c 2 t) (blockAt0 V c 3 t) (blockAt0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid0_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid0_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid0_cover c _ _ _ _ _ _ _ _ _ _ _ _ _ _ _ _ _ _ _ _ _ _ _ _ _ _ _ _ _ _)
      isplitl [H6]; · iexists _; iexact H6
      iexists _; iexact H7

/-- The library's body obligation of region 0, at every point. -/
theorem obligation0 (c : Dev nD) : BodyObligation (dat0 (F := F) V c) (defs₀ (F := F)) Variants.none () Set.univ := fun t => by
  rw [bigSep_W0, bigSep_W0]
  exact pointRun0 V c t

/-- Entering the region: the class's invariant is the invariant before the first tile. -/
theorem carry0_in (c : Dev nD) : Pipeline.ΦA spec0 c ⊢ (dat0 V c).Φ 0 := by
  rw [show (dat0 V c).Φ 0 = carry0 V c 0 (Nat.zero_le _) from rfl, carry0_zero V c 0 _ rfl]
  try exact Idealize.SL.BI.Entails.refl _

/-- Leaving it: after the last tile the invariant gives the class's back, the scratch rows' contents forgotten. -/
theorem carry0_out (c : Dev nD) : (dat0 V c).Φ (Fin.last cfg0.N) ⊢ Pipeline.ΦA spec0 c := by
  rw [show (dat0 V c).Φ (Fin.last cfg0.N) = carry0 V c cfg0.N (Nat.le_refl _) from rfl,
    carry0_pos V c _ _ (by rw [show cfg0.N = 10 from N_0]; decide), carryEntry0]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.KernelIdeal.Gen
end
-- ==== Proof.KI.MlpRun2.lean ====
/-
  Region 2 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond2 (i : grid2.Coords) : Prop := (Scalar.cmpi .ne (Scalar.extui (Scalar.cmpi .eq (BitVec.ofNat 32 (i 0).val) 0#32)) 0#32) = 1#1
theorem firstCond2_iff : ∀ t : Fin cfg2.N, firstCond2 (grid2.coords t) ↔ t.val % 10 = 0 :=
  (by decide +kernel : ∀ t : Fin grid2.N, firstCond2 (grid2.coords t) ↔ t.val % 10 = 0)
/-- The body's second conditional: this is the last tile. -/
abbrev lastCond2 (i : grid2.Coords) : Prop := k2_cond2 i = 1#1
theorem lastCond2_iff : ∀ t : Fin cfg2.N, lastCond2 (grid2.coords t) ↔ t.val % 10 = 9 :=
  (by decide +kernel : ∀ t : Fin grid2.N, lastCond2 (grid2.coords t) ↔ t.val % 10 = 9)

/-! ## Where the windows are idle -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
/-- Away from the last tile the two statistics outputs are idle and not written back. -/
theorem idle2_6 : ∀ t : Fin cfg2.N, ¬lastCond2 (grid2.coords t) → cfg2.idle 6 (grid2.coords t) = true := by decide +kernel
theorem idle2_7 : ∀ t : Fin cfg2.N, ¬lastCond2 (grid2.coords t) → cfg2.idle 7 (grid2.coords t) = true := by decide +kernel
theorem noFlush2_6 : ∀ t : Fin cfg2.N, ¬lastCond2 (grid2.coords t) → (cfg2.win 6).flush t = false := by decide +kernel
theorem noFlush2_7 : ∀ t : Fin cfg2.N, ¬lastCond2 (grid2.coords t) → (cfg2.win 7).flush t = false := by decide +kernel
/-- At the last tile they are live. -/
theorem live2_6 : ∀ t : Fin cfg2.N, lastCond2 (grid2.coords t) → cfg2.idle 6 (grid2.coords t) = false := by decide +kernel
theorem live2_7 : ∀ t : Fin cfg2.N, lastCond2 (grid2.coords t) → cfg2.idle 7 (grid2.coords t) = false := by decide +kernel

/-! ## The staging memrefs at a point, the scratch rows, and the views contents are stated through -/
abbrev ms2_0 (t : Fin cfg2.N) : Memref sig .tc .vmem S1000x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1000x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x512 .f32 := win2_7.stage (cfg2.slots t 7)
abbrev hs2_7 (t : Fin cfg2.N) : (ms2_7 t).IsWhole := hstage2_7 ((cfg2.slots t 7).cast nbuf2_7)
/-- The two scratch rows: whole scoped buffers of the kernel's own. -/
abbrev sc2_0 : Memref sig .tc .vmem S1x512 .f32 := Memref.whole cc2_scratch0
abbrev sc2_1 : Memref sig .tc .vmem S1x512 .f32 := Memref.whole cc2_scratch1
/-- The views through which a tile's and a row's contents are stated (the choice does not matter). -/
abbrev tileView2 : View sig .tc .vmem S1000x512 .f32 := (Memref.whole cc2_stg5_0 : Memref sig .tc .vmem S1000x512 .f32).view
abbrev rowView2 : View sig .tc .vmem S1x512 .f32 := sc2_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc2__mlp_stats_kernel_eq_skeleton]; unfold cc2__mlp_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc2__mlp_stats_kernel_eq_skeleton]; unfold cc2__mlp_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_stats_kernel_eq_skeleton]; unfold cc2__mlp_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Gen
end
-- ==== Proof.KI.MlpDat2.lean ====
/-
  Region 2 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.KI.MlpRun2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  (y : S1000x512.Idx) :
    ∃ pc ∈ (runFirst2 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst2 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  : Vec F S1000x512 .f32 :=
  tileView2.read (Elt F) (tileView2.writes (Elt F) tileView2.junk (runFirst2 c i arg1 harg1 arg2 harg2 arg3 harg3 arg4 harg4 arg5 harg5 arg6 harg6 arg7 harg7 arg8 harg8 arg9 harg9 arg10 harg10 h1 h2 x0 x1 x2 x3 x4 ).1)

theorem sumFirst2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst2 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst2 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  : Vec F S1x512 .f32 :=
  rowView2.read (Elt F) (rowView2.writes (Elt F) rowView2.junk (runFirst2 c i arg1 harg1 arg2 harg2 arg3 harg3 arg4 harg4 arg5 harg5 arg6 harg6 arg7 harg7 arg8 harg8 arg9 harg9 arg10 harg10 h1 h2 x0 x1 x2 x3 x4 ).2.1)

theorem sqFirst2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst2 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst2 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32)  : Vec F S1x512 .f32 :=
  rowView2.read (Elt F) (rowView2.writes (Elt F) rowView2.junk (runFirst2 c i arg1 harg1 arg2 harg2 arg3 harg3 arg4 harg4 arg5 harg5 arg6 harg6 arg7 harg7 arg8 harg8 arg9 harg9 arg10 harg10 h1 h2 x0 x1 x2 x3 x4 ).2.2.1)

theorem tileMid2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runMid2 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid2 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView2.read (Elt F) (tileView2.writes (Elt F) tileView2.junk (runMid2 c i arg1 harg1 arg2 harg2 arg3 harg3 arg4 harg4 arg5 harg5 arg6 harg6 arg7 harg7 arg8 harg8 arg9 harg9 arg10 harg10 h1 h2 x0 x1 x2 x3 x4 s q).1)

theorem sumMid2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid2 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid2 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runMid2 c i arg1 harg1 arg2 harg2 arg3 harg3 arg4 harg4 arg5 harg5 arg6 harg6 arg7 harg7 arg8 harg8 arg9 harg9 arg10 harg10 h1 h2 x0 x1 x2 x3 x4 s q).2.1)

theorem sqMid2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid2 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid2 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runMid2 c i arg1 harg1 arg2 harg2 arg3 harg3 arg4 harg4 arg5 harg5 arg6 harg6 arg7 harg7 arg8 harg8 arg9 harg9 arg10 harg10 h1 h2 x0 x1 x2 x3 x4 s q).2.2.1)

theorem tileLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView2.read (Elt F) (tileView2.writes (Elt F) tileView2.junk (runLast2 c i arg1 harg1 arg2 harg2 arg3 harg3 arg4 harg4 arg5 harg5 arg6 harg6 arg7 harg7 arg8 harg8 arg9 harg9 arg10 harg10 h1 h2 x0 x1 x2 x3 x4 s q).1)

theorem outSumLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runLast2 c i arg1 harg1 arg2 harg2 arg3 harg3 arg4 harg4 arg5 harg5 arg6 harg6 arg7 harg7 arg8 harg8 arg9 harg9 arg10 harg10 h1 h2 x0 x1 x2 x3 x4 s q).2.1)

theorem outSqLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runLast2 c i arg1 harg1 arg2 harg2 arg3 harg3 arg4 harg4 arg5 harg5 arg6 harg6 arg7 harg7 arg8 harg8 arg9 harg9 arg10 harg10 h1 h2 x0 x1 x2 x3 x4 s q).2.2.1)

theorem sumLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runLast2 c i arg1 harg1 arg2 harg2 arg3 harg3 arg4 harg4 arg5 harg5 arg6 harg6 arg7 harg7 arg8 harg8 arg9 harg9 arg10 harg10 h1 h2 x0 x1 x2 x3 x4 s q).2.2.2.1)

theorem sqLast2_cover (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast2 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast2 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast2 (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView2.read (Elt F) (rowView2.writes (Elt F) rowView2.junk (runLast2 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry2 (c : Dev nD) :
    (Pipeline.ΦA spec2 c : sProp 𝕄)
      = iprop(iprop(iprop((∃ d, owns (c : Thread nD τ) sc2_0 fullShare d) ∗ (∃ d, owns (c : Thread nD τ) sc2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [sc2_0, sc2_1, owns_whole]
  rfl

section
variable (V : (c : Dev nD) → (b : Ref sig .tc) → Buf (Elt F) ((c : Thread nD τ).loc b))

/-- Window w's block at grid point t, read off the window's array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds the window's block at every point, fetched there or not. -/
theorem found2_0 {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blockAt2 V c 3 t) (t : Fin cfg2.N) (d) : dat.before 3 t d = blockAt2 V c 3 t :=
  (dat.before_in_eq_fetched 3 rfl (fun _ => rfl) (fun _ _ _ => rfl) (fun t => by rw [hafter]; unfold Dat.blockOf blockAt2; rw [hA]; try rfl) t d).trans
    (by unfold Dat.fetched Dat.blockOf blockAt2; rw [hA]; try rfl)
theorem found2_4 {c : Dev nD} (dat : Dat τ (Elt F) Unit ℕ (UR sig nD τ) ℕ cfg2 c) (hA : dat.A 4 = V c (Pipeline.arrRef spec2 4))
    (hafter : ∀ t, dat.after 4 t = blockAt2 V c 4 t) (t : Fin cfg2.N) (d) : dat.before 4 t d = blockAt2 V c 4 t :=
  (dat.before_in_eq_fetched 4 rfl (fun _ => rfl) (fun _ _ _ => rfl) (fun t => by rw [hafter]; unfold Dat.blockOf blockAt2; rw [hA]; try rfl) t d).trans
    (by unfold Dat.fetched Dat.blockOf blockAt2; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt2 (c : Dev nD) : (n : ℕ) → n < cfg2.N →
    Vec F S1000x512 .f32 × Vec F S1x512 .f32 × Vec F S1x512 .f32 × Vec F S1x512 .f32 × Vec F S1x512 .f32
  | 0, hn => (tileFirst2 c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) sc2_0 (Memref.isWhole_whole _) sc2_1 (Memref.isWhole_whole _) ((firstCond2_iff (⟨0, hn⟩ : Fin cfg2.N)).mpr (Nat.zero_mod _)) (fun h => by have h' := (lastCond2_iff (⟨0, hn⟩ : Fin cfg2.N)).mp h; (try dsimp only at h'); omega) (blockAt2 V c 0 (⟨0, hn⟩ : Fin cfg2.N)) (blockAt2 V c 1 (⟨0, hn⟩ : Fin cfg2.N)) (blockAt2 V c 2 (⟨0, hn⟩ : Fin cfg2.N)) (blockAt2 V c 3 (⟨0, hn⟩ : Fin cfg2.N)) (blockAt2 V c 4 (⟨0, hn⟩ : Fin cfg2.N)),
      (rowView2.read (Elt F) rowView2.junk), (rowView2.read (Elt F) rowView2.junk),
      sumFirst2 c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) sc2_0 (Memref.isWhole_whole _) sc2_1 (Memref.isWhole_whole _) ((firstCond2_iff (⟨0, hn⟩ : Fin cfg2.N)).mpr (Nat.zero_mod _)) (fun h => by have h' := (lastCond2_iff (⟨0, hn⟩ : Fin cfg2.N)).mp h; (try dsimp only at h'); omega) (blockAt2 V c 0 (⟨0, hn⟩ : Fin cfg2.N)) (blockAt2 V c 1 (⟨0, hn⟩ : Fin cfg2.N)) (blockAt2 V c 2 (⟨0, hn⟩ : Fin cfg2.N)) (blockAt2 V c 3 (⟨0, hn⟩ : Fin cfg2.N)) (blockAt2 V c 4 (⟨0, hn⟩ : Fin cfg2.N)),
      sqFirst2 c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) sc2_0 (Memref.isWhole_whole _) sc2_1 (Memref.isWhole_whole _) ((firstCond2_iff (⟨0, hn⟩ : Fin cfg2.N)).mpr (Nat.zero_mod _)) (fun h => by have h' := (lastCond2_iff (⟨0, hn⟩ : Fin cfg2.N)).mp h; (try dsimp only at h'); omega) (blockAt2 V c 0 (⟨0, hn⟩ : Fin cfg2.N)) (blockAt2 V c 1 (⟨0, hn⟩ : Fin cfg2.N)) (blockAt2 V c 2 (⟨0, hn⟩ : Fin cfg2.N)) (blockAt2 V c 3 (⟨0, hn⟩ : Fin cfg2.N)) (blockAt2 V c 4 (⟨0, hn⟩ : Fin cfg2.N)))
  | n + 1, hn =>
    if hl : (n + 1) % 10 = 9 then
      (tileLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       outSumLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       outSqLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       sumLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       sqLast2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) ((lastCond2_iff (⟨n + 1, hn⟩ : Fin cfg2.N)).mpr hl) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2)
    else
      (tileMid2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) (fun h => hl ((lastCond2_iff (⟨n + 1, hn⟩ : Fin cfg2.N)).mp h)) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       (rowView2.read (Elt F) rowView2.junk), (rowView2.read (Elt F) rowView2.junk),
       sumMid2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) (fun h => hl ((lastCond2_iff (⟨n + 1, hn⟩ : Fin cfg2.N)).mp h)) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2,
       sqMid2 c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) sc2_0 (Memref.isWhole_whole _) sc2_1 (Memref.isWhole_whole _) (fun h => by have h' := (firstCond2_iff (⟨n + 1, hn⟩ : Fin cfg2.N)).mp h; have hN : n + 1 < 10 := lt_of_lt_of_eq hn (show cfg2.N = 10 from N_2); (try dsimp only at h'); omega) (fun h => hl ((lastCond2_iff (⟨n + 1, hn⟩ : Fin cfg2.N)).mp h)) (blockAt2 V c 0 (⟨n + 1, hn⟩ : Fin cfg2.N)) (blockAt2 V c 1 (⟨n + 1, hn⟩ : Fin cfg2.N)) (blockAt2 V c 2 (⟨n + 1, hn⟩ : Fin cfg2.N)) (blockAt2 V c 3 (⟨n + 1, hn⟩ : Fin cfg2.N)) (blockAt2 V c 4 (⟨n + 1, hn⟩ : Fin cfg2.N)) (stateAt2 c n (Nat.lt_of_succ_lt hn)).2.2.2.1 (stateAt2 c n (Nat.lt_of_succ_lt hn)).2.2.2.2)

theorem stateAt2_first (c : Dev nD) (t : Fin cfg2.N) (hf : t.val % 10 = 0) (hl : ¬t.val % 10 = 9) :
    stateAt2 V c t.val t.isLt = (tileFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) ((firstCond2_iff t).mpr hf) (fun h => hl ((lastCond2_iff t).mp h)) (blockAt2 V c 0 t) (blockAt2 V c 1 t) (blockAt2 V c 2 t) (blockAt2 V c 3 t) (blockAt2 V c 4 t),
      (rowView2.read (Elt F) rowView2.junk), (rowView2.read (Elt F) rowView2.junk),
      sumFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) ((firstCond2_iff t).mpr hf) (fun h => hl ((lastCond2_iff t).mp h)) (blockAt2 V c 0 t) (blockAt2 V c 1 t) (blockAt2 V c 2 t) (blockAt2 V c 3 t) (blockAt2 V c 4 t),
      sqFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) ((firstCond2_iff t).mpr hf) (fun h => hl ((lastCond2_iff t).mp h)) (blockAt2 V c 0 t) (blockAt2 V c 1 t) (blockAt2 V c 2 t) (blockAt2 V c 3 t) (blockAt2 V c 4 t)) := by
  obtain ⟨n, hn⟩ := t
  have hN : n < 10 := lt_of_lt_of_eq hn (show cfg2.N = 10 from N_2)
  cases n with
  | zero => exact rfl
  | succ n => exfalso; (try dsimp only at hf); omega

theorem stateAt2_mid (c : Dev nD) (t : Fin cfg2.N) (hf : ¬t.val % 10 = 0) (hl : ¬t.val % 10 = 9) :
    stateAt2 V c t.val t.isLt = (tileMid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) (fun h => hl ((lastCond2_iff t).mp h)) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      (rowView2.read (Elt F) rowView2.junk), (rowView2.read (Elt F) rowView2.junk),
      sumMid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) (fun h => hl ((lastCond2_iff t).mp h)) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      sqMid2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) (fun h => hl ((lastCond2_iff t).mp h)) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt2_last (c : Dev nD) (t : Fin cfg2.N) (hf : ¬t.val % 10 = 0) (hl : t.val % 10 = 9) :
    stateAt2 V c t.val t.isLt = (tileLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      outSumLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      outSqLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      sumLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2,
      sqLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry2 (c : Dev nD) : (n : ℕ) → n ≤ cfg2.N → sProp 𝕄
  | 0, _ => Pipeline.ΦA spec2 c
  | n + 1, hn => iprop(iprop(iprop(owns (c : Thread nD τ) sc2_0 fullShare (stateAt2 V c n hn).2.2.2.1 ∗ owns (c : Thread nD τ) sc2_1 fullShare (stateAt2 V c n hn).2.2.2.2)
      ∗ Pipeline.scopedRestBut (Ix := Unit) (Name := ℕ) (U := UR sig nD τ) (Lvl := ℕ) (Val := Elt F) spec2 c [cc2_scratch0, cc2_scratch1])
      ∗ (∃ r, prngReg c r))

theorem carry2_zero (c : Dev nD) (n : ℕ) (h : n ≤ cfg2.N) (hz : n = 0) : carry2 V c n h = Pipeline.ΦA spec2 c := by
  subst hz; rfl
theorem carry2_succ (c : Dev nD) (n : ℕ) (hn : n < cfg2.N) :
    carry2 V c (n + 1) hn = iprop(iprop(iprop(owns (c : Thread nD τ) sc2_0 fullShare (stateAt2 V c n hn).2.2.2.1 ∗ owns (c : Thread nD τ) sc2_1 fullShare (stateAt2 V c n hn).2.2.2.2)
      ∗ Pipeline.scopedRestBut (Ix := Unit) (Name := ℕ) (U := UR sig nD τ) (Lvl := ℕ) (Val := Elt F) spec2 c [cc2_scratch0, cc2_scratch1])
      ∗ (∃ r, prngReg c r)) := rfl
theorem carry2_pos (c : Dev nD) (n : ℕ) (h : n ≤ cfg2.N) (hz : n ≠ 0) :
    carry2 V c n h = iprop(iprop(iprop(owns (c : Thread nD τ) sc2_0 fullShare (stateAt2 V c (n - 1) (by omega)).2.2.2.1 ∗ owns (c : Thread nD τ) sc2_1 fullShare (stateAt2 V c (n - 1) (by omega)).2.2.2.2)
      ∗ Pipeline.scopedRestBut (Ix := Unit) (Name := ℕ) (U := UR sig nD τ) (Lvl := ℕ) (Val := Elt F) spec2 c [cc2_scratch0, cc2_scratch1])
      ∗ (∃ r, prngReg c r)) := by
  cases n with
  | zero => exact absurd rfl hz
  | succ n => rfl

/-! ## The region's proof data -/

def dat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => (stateAt2 V c t.val t.isLt).1
    | ⟨6, _⟩ => (stateAt2 V c t.val t.isLt).2.1
    | ⟨7, _⟩ => (stateAt2 V c t.val t.isLt).2.2.1
  Φ t := carry2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_carry (c : Dev nD) (t : Fin cfg2.N) :
    (dat2 V c).Φ t.castSucc = carry2 V c t.val (Nat.le_of_lt t.isLt) := by
  dsimp only [dat2]; simp only [Fin.coe_castSucc]
theorem dat2_after0 (c : Dev nD) (t : Fin cfg2.N) : (dat2 V c).after 0 t = blockAt2 V c 0 t := by dsimp only [dat2]
theorem dat2_after1 (c : Dev nD) (t : Fin cfg2.N) : (dat2 V c).after 1 t = blockAt2 V c 1 t := by dsimp only [dat2]
theorem dat2_after2 (c : Dev nD) (t : Fin cfg2.N) : (dat2 V c).after 2 t = blockAt2 V c 2 t := by dsimp only [dat2]
theorem dat2_after3 (c : Dev nD) (t : Fin cfg2.N) : (dat2 V c).after 3 t = blockAt2 V c 3 t := by dsimp only [dat2]
theorem dat2_after4 (c : Dev nD) (t : Fin cfg2.N) : (dat2 V c).after 4 t = blockAt2 V c 4 t := by dsimp only [dat2]
theorem dat2_after5 (c : Dev nD) (t : Fin cfg2.N) : (dat2 V c).after 5 t = (stateAt2 V c t.val t.isLt).1 := by dsimp only [dat2]
theorem dat2_after6 (c : Dev nD) (t : Fin cfg2.N) : (dat2 V c).after 6 t = (stateAt2 V c t.val t.isLt).2.1 := by dsimp only [dat2]
theorem dat2_after7 (c : Dev nD) (t : Fin cfg2.N) : (dat2 V c).after 7 t = (stateAt2 V c t.val t.isLt).2.2.1 := by dsimp only [dat2]
theorem dat2_before0 (c : Dev nD) (t : Fin cfg2.N) (d) : (dat2 V c).before 0 t d = blockAt2 V c 0 t :=
  found2_0 V (dat2 V c) (dat2_A V c 0) (dat2_after0 V c) t d
theorem dat2_before1 (c : Dev nD) (t : Fin cfg2.N) (d) : (dat2 V c).before 1 t d = blockAt2 V c 1 t :=
  found2_1 V (dat2 V c) (dat2_A V c 1) (dat2_after1 V c) t d
theorem dat2_before2 (c : Dev nD) (t : Fin cfg2.N) (d) : (dat2 V c).before 2 t d = blockAt2 V c 2 t :=
  found2_2 V (dat2 V c) (dat2_A V c 2) (dat2_after2 V c) t d
theorem dat2_before3 (c : Dev nD) (t : Fin cfg2.N) (d) : (dat2 V c).before 3 t d = blockAt2 V c 3 t :=
  found2_3 V (dat2 V c) (dat2_A V c 3) (dat2_after3 V c) t d
theorem dat2_before4 (c : Dev nD) (t : Fin cfg2.N) (d) : (dat2 V c).before 4 t d = blockAt2 V c 4 t :=
  found2_4 V (dat2 V c) (dat2_A V c 4) (dat2_after4 V c) t d

/-! ## The body obligation -/

def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem pointRun2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3, dat2_before4]
  rw [show (dat2 V c).owesAt () t.succ = (dat2 V c).owesAt () t.castSucc from rfl]
  rw [show (dat2 V c).Φ t.succ = carry2 V c (t.val + 1) t.isLt from rfl, carry2_succ]
  rw [show (dat2 V c).leavesExact 0 t = owns (c : Thread nD τ) (ms2_0 t) fullShare ((dat2 V c).after 0 t) from by
    unfold Dat.leavesExact; rw [live2_0 t], dat2_after0]
  rw [show (dat2 V c).leavesExact 1 t = owns (c : Thread nD τ) (ms2_1 t) fullShare ((dat2 V c).after 1 t) from by
    unfold Dat.leavesExact; rw [live2_1 t], dat2_after1]
  rw [show (dat2 V c).leavesExact 2 t = owns (c : Thread nD τ) (ms2_2 t) fullShare ((dat2 V c).after 2 t) from by
    unfold Dat.leavesExact; rw [live2_2 t], dat2_after2]
  rw [show (dat2 V c).leavesExact 3 t = owns (c : Thread nD τ) (ms2_3 t) fullShare ((dat2 V c).after 3 t) from by
    unfold Dat.leavesExact; rw [live2_3 t], dat2_after3]
  rw [show (dat2 V c).leavesExact 4 t = owns (c : Thread nD τ) (ms2_4 t) fullShare ((dat2 V c).after 4 t) from by
    unfold Dat.leavesExact; rw [live2_4 t], dat2_after4]
  rw [show (dat2 V c).leavesExact 5 t = owns (c : Thread nD τ) (ms2_5 t) fullShare ((dat2 V c).after 5 t) from by
    unfold Dat.leavesExact; rw [live2_5 t], dat2_after5]
  have hN : t.val < 10 := lt_of_lt_of_eq t.isLt (show cfg2.N = 10 from N_2)
  by_cases hf : t.val % 10 = 0
  · have hl : ¬t.val % 10 = 9 := by omega
    have hz : t.val = 0 := by omega
    rw [Dat.leavesExact_idle (dat2 V c) 6 t (idle2_6 t (fun h => hl ((lastCond2_iff t).mp h))) (noFlush2_6 t (fun h => hl ((lastCond2_iff t).mp h)))]
    rw [Dat.leavesExact_idle (dat2 V c) 7 t (idle2_7 t (fun h => hl ((lastCond2_iff t).mp h))) (noFlush2_7 t (fun h => hl ((lastCond2_iff t).mp h)))]
    rw [stateAt2_first V c t hf hl]
    unfold tileFirst2 sumFirst2 sqFirst2; (try dsimp only)
    rw [dat2_carry V c t, carry2_zero V c _ _ hz, carryEntry2]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst2 c (grid2.coords t) _ _ _ _ _ _ _ _ _ _ _ _ _ _ _ _ _ _ _ _ ((firstCond2_iff t).mpr hf) (fun h => hl ((lastCond2_iff t).mp h)) (blockAt2 V c 0 t) (blockAt2 V c 1 t) (blockAt2 V c 2 t) (blockAt2 V c 3 t) (blockAt2 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst2_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst2_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst2_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat2 V c).leavesExact 6 t = owns (c : Thread nD τ) (ms2_6 t) fullShare ((dat2 V c).after 6 t) from by
        unfold Dat.leavesExact; rw [live2_6 t ((lastCond2_iff t).mpr hl)], dat2_after6]
      rw [show (dat2 V c).leavesExact 7 t = owns (c : Thread nD τ) (ms2_7 t) fullShare ((dat2 V c).after 7 t) from by
        unfold Dat.leavesExact; rw [live2_7 t ((lastCond2_iff t).mpr hl)], dat2_after7]
      rw [stateAt2_last V c t hf hl]
      unfold tileLast2 outSumLast2 outSqLast2 sumLast2 sqLast2; (try dsimp only)
      rw [dat2_carry V c t, carry2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast2 c (grid2.coords t) _ _ _ _ _ _ _ _ _ _ _ _ _ _ _ _ _ _ _ _ (fun h => hf ((firstCond2_iff t).mp h)) ((lastCond2_iff t).mpr hl) (blockAt2 V c 0 t) (blockAt2 V c 1 t) (blockAt2 V c 2 t) (blockAt2 V c 3 t) (blockAt2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast2_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast2_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast2_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast2_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast2_cover c _ _ _ _ _ _ _ _ _ _ _ _ _ _ _ _ _ _ _ _ _ _ _ _ _ _ _ _ _ _)
    · rw [Dat.leavesExact_idle (dat2 V c) 6 t (idle2_6 t (fun h => hl ((lastCond2_iff t).mp h))) (noFlush2_6 t (fun h => hl ((lastCond2_iff t).mp h)))]
      rw [Dat.leavesExact_idle (dat2 V c) 7 t (idle2_7 t (fun h => hl ((lastCond2_iff t).mp h))) (noFlush2_7 t (fun h => hl ((lastCond2_iff t).mp h)))]
      rw [stateAt2_mid V c t hf hl]
      unfold tileMid2 sumMid2 sqMid2; (try dsimp only)
      rw [dat2_carry V c t, carry2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid2 c (grid2.coords t) _ _ _ _ _ _ _ _ _ _ _ _ _ _ _ _ _ _ _ _ (fun h => hf ((firstCond2_iff t).mp h)) (fun h => hl ((lastCond2_iff t).mp h)) (blockAt2 V c 0 t) (blockAt2 V c 1 t) (blockAt2 V c 2 t) (blockAt2 V c 3 t) (blockAt2 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid2_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid2_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid2_cover c _ _ _ _ _ _ _ _ _ _ _ _ _ _ _ _ _ _ _ _ _ _ _ _ _ _ _ _ _ _)
      isplitl [H6]; · iexists _; iexact H6
      iexists _; iexact H7

/-- The library's body obligation of region 2, at every point. -/
theorem obligation2 (c : Dev nD) : BodyObligation (dat2 (F := F) V c) (defs₀ (F := F)) Variants.none () Set.univ := fun t => by
  rw [bigSep_W2, bigSep_W2]
  exact pointRun2 V c t

/-- Entering the region: the class's invariant is the invariant before the first tile. -/
theorem carry2_in (c : Dev nD) : Pipeline.ΦA spec2 c ⊢ (dat2 V c).Φ 0 := by
  rw [show (dat2 V c).Φ 0 = carry2 V c 0 (Nat.zero_le _) from rfl, carry2_zero V c 0 _ rfl]
  try exact Idealize.SL.BI.Entails.refl _

/-- Leaving it: after the last tile the invariant gives the class's back, the scratch rows' contents forgotten. -/
theorem carry2_out (c : Dev nD) : (dat2 V c).Φ (Fin.last cfg2.N) ⊢ Pipeline.ΦA spec2 c := by
  rw [show (dat2 V c).Φ (Fin.last cfg2.N) = carry2 V c cfg2.N (Nat.le_refl _) from rfl,
    carry2_pos V c _ _ (by rw [show cfg2.N = 10 from N_2]; decide), carryEntry2]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.KernelIdeal.Gen
end
-- ==== Proof.KI.MlpRun4.lean ====
/-
  Region 4 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond4 (i : grid4.Coords) : Prop := (Scalar.cmpi .ne (Scalar.extui (Scalar.cmpi .eq (BitVec.ofNat 32 (i 0).val) 0#32)) 0#32) = 1#1
theorem firstCond4_iff : ∀ t : Fin cfg4.N, firstCond4 (grid4.coords t) ↔ t.val % 10 = 0 :=
  (by decide +kernel : ∀ t : Fin grid4.N, firstCond4 (grid4.coords t) ↔ t.val % 10 = 0)
/-- The body's second conditional: this is the last tile. -/
abbrev lastCond4 (i : grid4.Coords) : Prop := k4_cond2 i = 1#1
theorem lastCond4_iff : ∀ t : Fin cfg4.N, lastCond4 (grid4.coords t) ↔ t.val % 10 = 9 :=
  (by decide +kernel : ∀ t : Fin grid4.N, lastCond4 (grid4.coords t) ↔ t.val % 10 = 9)

/-! ## Where the windows are idle -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel
/-- Away from the last tile the two statistics outputs are idle and not written back. -/
theorem idle4_6 : ∀ t : Fin cfg4.N, ¬lastCond4 (grid4.coords t) → cfg4.idle 6 (grid4.coords t) = true := by decide +kernel
theorem idle4_7 : ∀ t : Fin cfg4.N, ¬lastCond4 (grid4.coords t) → cfg4.idle 7 (grid4.coords t) = true := by decide +kernel
theorem noFlush4_6 : ∀ t : Fin cfg4.N, ¬lastCond4 (grid4.coords t) → (cfg4.win 6).flush t = false := by decide +kernel
theorem noFlush4_7 : ∀ t : Fin cfg4.N, ¬lastCond4 (grid4.coords t) → (cfg4.win 7).flush t = false := by decide +kernel
/-- At the last tile they are live. -/
theorem live4_6 : ∀ t : Fin cfg4.N, lastCond4 (grid4.coords t) → cfg4.idle 6 (grid4.coords t) = false := by decide +kernel
theorem live4_7 : ∀ t : Fin cfg4.N, lastCond4 (grid4.coords t) → cfg4.idle 7 (grid4.coords t) = false := by decide +kernel

/-! ## The staging memrefs at a point, the scratch rows, and the views contents are stated through -/
abbrev ms4_0 (t : Fin cfg4.N) : Memref sig .tc .vmem S1000x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x512 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1000x512 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x512 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x512 .f32 := win4_7.stage (cfg4.slots t 7)
abbrev hs4_7 (t : Fin cfg4.N) : (ms4_7 t).IsWhole := hstage4_7 ((cfg4.slots t 7).cast nbuf4_7)
/-- The two scratch rows: whole scoped buffers of the kernel's own. -/
abbrev sc4_0 : Memref sig .tc .vmem S1x512 .f32 := Memref.whole cc4_scratch0
abbrev sc4_1 : Memref sig .tc .vmem S1x512 .f32 := Memref.whole cc4_scratch1
/-- The views through which a tile's and a row's contents are stated (the choice does not matter). -/
abbrev tileView4 : View sig .tc .vmem S1000x512 .f32 := (Memref.whole cc4_stg5_0 : Memref sig .tc .vmem S1000x512 .f32).view
abbrev rowView4 : View sig .tc .vmem S1x512 .f32 := sc4_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc4__mlp_stats_kernel_eq_skeleton]; unfold cc4__mlp_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc4__mlp_stats_kernel_eq_skeleton]; unfold cc4__mlp_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__mlp_stats_kernel_eq_skeleton]; unfold cc4__mlp_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Gen
end
-- ==== Proof.KI.MlpDat4.lean ====
/-
  Region 4 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.KI.MlpRun4

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  (y : S1000x512.Idx) :
    ∃ pc ∈ (runFirst4 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst4 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  : Vec F S1000x512 .f32 :=
  tileView4.read (Elt F) (tileView4.writes (Elt F) tileView4.junk (runFirst4 c i arg1 harg1 arg2 harg2 arg3 harg3 arg4 harg4 arg5 harg5 arg6 harg6 arg7 harg7 arg8 harg8 arg9 harg9 arg10 harg10 h1 h2 x0 x1 x2 x3 x4 ).1)

theorem sumFirst4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst4 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst4 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  : Vec F S1x512 .f32 :=
  rowView4.read (Elt F) (rowView4.writes (Elt F) rowView4.junk (runFirst4 c i arg1 harg1 arg2 harg2 arg3 harg3 arg4 harg4 arg5 harg5 arg6 harg6 arg7 harg7 arg8 harg8 arg9 harg9 arg10 harg10 h1 h2 x0 x1 x2 x3 x4 ).2.1)

theorem sqFirst4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst4 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst4 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32)  : Vec F S1x512 .f32 :=
  rowView4.read (Elt F) (rowView4.writes (Elt F) rowView4.junk (runFirst4 c i arg1 harg1 arg2 harg2 arg3 harg3 arg4 harg4 arg5 harg5 arg6 harg6 arg7 harg7 arg8 harg8 arg9 harg9 arg10 harg10 h1 h2 x0 x1 x2 x3 x4 ).2.2.1)

theorem tileMid4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runMid4 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid4 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView4.read (Elt F) (tileView4.writes (Elt F) tileView4.junk (runMid4 c i arg1 harg1 arg2 harg2 arg3 harg3 arg4 harg4 arg5 harg5 arg6 harg6 arg7 harg7 arg8 harg8 arg9 harg9 arg10 harg10 h1 h2 x0 x1 x2 x3 x4 s q).1)

theorem sumMid4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid4 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid4 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runMid4 c i arg1 harg1 arg2 harg2 arg3 harg3 arg4 harg4 arg5 harg5 arg6 harg6 arg7 harg7 arg8 harg8 arg9 harg9 arg10 harg10 h1 h2 x0 x1 x2 x3 x4 s q).2.1)

theorem sqMid4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid4 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid4 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runMid4 c i arg1 harg1 arg2 harg2 arg3 harg3 arg4 harg4 arg5 harg5 arg6 harg6 arg7 harg7 arg8 harg8 arg9 harg9 arg10 harg10 h1 h2 x0 x1 x2 x3 x4 s q).2.2.1)

theorem tileLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView4.read (Elt F) (tileView4.writes (Elt F) tileView4.junk (runLast4 c i arg1 harg1 arg2 harg2 arg3 harg3 arg4 harg4 arg5 harg5 arg6 harg6 arg7 harg7 arg8 harg8 arg9 harg9 arg10 harg10 h1 h2 x0 x1 x2 x3 x4 s q).1)

theorem outSumLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runLast4 c i arg1 harg1 arg2 harg2 arg3 harg3 arg4 harg4 arg5 harg5 arg6 harg6 arg7 harg7 arg8 harg8 arg9 harg9 arg10 harg10 h1 h2 x0 x1 x2 x3 x4 s q).2.1)

theorem outSqLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runLast4 c i arg1 harg1 arg2 harg2 arg3 harg3 arg4 harg4 arg5 harg5 arg6 harg6 arg7 harg7 arg8 harg8 arg9 harg9 arg10 harg10 h1 h2 x0 x1 x2 x3 x4 s q).2.2.1)

theorem sumLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runLast4 c i arg1 harg1 arg2 harg2 arg3 harg3 arg4 harg4 arg5 harg5 arg6 harg6 arg7 harg7 arg8 harg8 arg9 harg9 arg10 harg10 h1 h2 x0 x1 x2 x3 x4 s q).2.2.2.1)

theorem sqLast4_cover (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast4 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast4 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast4 (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView4.read (Elt F) (rowView4.writes (Elt F) rowView4.junk (runLast4 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry4 (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sc4_0, sc4_1, owns_whole]
  rfl

section
variable (V : (c : Dev nD) → (b : Ref sig .tc) → Buf (Elt F) ((c : Thread nD τ).loc b))

/-- Window w's block at grid point t, read off the window's array as the region finds it. -/
def blockAt4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds the window's block at every point, fetched there or not. -/
theorem found4_0 {c : Dev nD} (dat : Dat τ (Elt F) Unit ℕ (UR sig nD τ) ℕ cfg4 c) (hA : dat.A 0 = V c (Pipeline.arrRef spec4 0))
    (hafter : ∀ t, dat.after 0 t = blockAt4 V c 0 t) (t : Fin cfg4.N) (d) : dat.before 0 t d = blockAt4 V c 0 t :=
  (dat.before_in_eq_fetched 0 rfl (fun _ => rfl) (fun _ _ _ => rfl) (fun t => by rw [hafter]; unfold Dat.blockOf blockAt4; rw [hA]; try rfl) t d).trans
    (by unfold Dat.fetched Dat.blockOf blockAt4; rw [hA]; try rfl)
theorem found4_1 {c : Dev nD} (dat : Dat τ (Elt F) Unit ℕ (UR sig nD τ) ℕ cfg4 c) (hA : dat.A 1 = V c (Pipeline.arrRef spec4 1))
    (hafter : ∀ t, dat.after 1 t = blockAt4 V c 1 t) (t : Fin cfg4.N) (d) : dat.before 1 t d = blockAt4 V c 1 t :=
  (dat.before_in_eq_fetched 1 rfl (fun _ => rfl) (fun _ _ _ => rfl) (fun t => by rw [hafter]; unfold Dat.blockOf blockAt4; rw [hA]; try rfl) t d).trans
    (by unfold Dat.fetched Dat.blockOf blockAt4; rw [hA]; try rfl)
theorem found4_2 {c : Dev nD} (dat : Dat τ (Elt F) Unit ℕ (UR sig nD τ) ℕ cfg4 c) (hA : dat.A 2 = V c (Pipeline.arrRef spec4 2))
    (hafter : ∀ t, dat.after 2 t = blockAt4 V c 2 t) (t : Fin cfg4.N) (d) : dat.before 2 t d = blockAt4 V c 2 t :=
  (dat.before_in_eq_fetched 2 rfl (fun _ => rfl) (fun _ _ _ => rfl) (fun t => by rw [hafter]; unfold Dat.blockOf blockAt4; rw [hA]; try rfl) t d).trans
    (by unfold Dat.fetched Dat.blockOf blockAt4; rw [hA]; try rfl)
theorem found4_3 {c : Dev nD} (dat : Dat τ (Elt F) Unit ℕ (UR sig nD τ) ℕ cfg4 c) (hA : dat.A 3 = V c (Pipeline.arrRef spec4 3))
    (hafter : ∀ t, dat.after 3 t = blockAt4 V c 3 t) (t : Fin cfg4.N) (d) : dat.before 3 t d = blockAt4 V c 3 t :=
  (dat.before_in_eq_fetched 3 rfl (fun _ => rfl) (fun _ _ _ => rfl) (fun t => by rw [hafter]; unfold Dat.blockOf blockAt4; rw [hA]; try rfl) t d).trans
    (by unfold Dat.fetched Dat.blockOf blockAt4; rw [hA]; try rfl)
theorem found4_4 {c : Dev nD} (dat : Dat τ (Elt F) Unit ℕ (UR sig nD τ) ℕ cfg4 c) (hA : dat.A 4 = V c (Pipeline.arrRef spec4 4))
    (hafter : ∀ t, dat.after 4 t = blockAt4 V c 4 t) (t : Fin cfg4.N) (d) : dat.before 4 t d = blockAt4 V c 4 t :=
  (dat.before_in_eq_fetched 4 rfl (fun _ => rfl) (fun _ _ _ => rfl) (fun t => by rw [hafter]; unfold Dat.blockOf blockAt4; rw [hA]; try rfl) t d).trans
    (by unfold Dat.fetched Dat.blockOf blockAt4; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt4 (c : Dev nD) : (n : ℕ) → n < cfg4.N →
    Vec F S1000x512 .f32 × Vec F S1x512 .f32 × Vec F S1x512 .f32 × Vec F S1x512 .f32 × Vec F S1x512 .f32
  | 0, hn => (tileFirst4 c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) sc4_0 (Memref.isWhole_whole _) sc4_1 (Memref.isWhole_whole _) ((firstCond4_iff (⟨0, hn⟩ : Fin cfg4.N)).mpr (Nat.zero_mod _)) (fun h => by have h' := (lastCond4_iff (⟨0, hn⟩ : Fin cfg4.N)).mp h; (try dsimp only at h'); omega) (blockAt4 V c 0 (⟨0, hn⟩ : Fin cfg4.N)) (blockAt4 V c 1 (⟨0, hn⟩ : Fin cfg4.N)) (blockAt4 V c 2 (⟨0, hn⟩ : Fin cfg4.N)) (blockAt4 V c 3 (⟨0, hn⟩ : Fin cfg4.N)) (blockAt4 V c 4 (⟨0, hn⟩ : Fin cfg4.N)),
      (rowView4.read (Elt F) rowView4.junk), (rowView4.read (Elt F) rowView4.junk),
      sumFirst4 c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) sc4_0 (Memref.isWhole_whole _) sc4_1 (Memref.isWhole_whole _) ((firstCond4_iff (⟨0, hn⟩ : Fin cfg4.N)).mpr (Nat.zero_mod _)) (fun h => by have h' := (lastCond4_iff (⟨0, hn⟩ : Fin cfg4.N)).mp h; (try dsimp only at h'); omega) (blockAt4 V c 0 (⟨0, hn⟩ : Fin cfg4.N)) (blockAt4 V c 1 (⟨0, hn⟩ : Fin cfg4.N)) (blockAt4 V c 2 (⟨0, hn⟩ : Fin cfg4.N)) (blockAt4 V c 3 (⟨0, hn⟩ : Fin cfg4.N)) (blockAt4 V c 4 (⟨0, hn⟩ : Fin cfg4.N)),
      sqFirst4 c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) sc4_0 (Memref.isWhole_whole _) sc4_1 (Memref.isWhole_whole _) ((firstCond4_iff (⟨0, hn⟩ : Fin cfg4.N)).mpr (Nat.zero_mod _)) (fun h => by have h' := (lastCond4_iff (⟨0, hn⟩ : Fin cfg4.N)).mp h; (try dsimp only at h'); omega) (blockAt4 V c 0 (⟨0, hn⟩ : Fin cfg4.N)) (blockAt4 V c 1 (⟨0, hn⟩ : Fin cfg4.N)) (blockAt4 V c 2 (⟨0, hn⟩ : Fin cfg4.N)) (blockAt4 V c 3 (⟨0, hn⟩ : Fin cfg4.N)) (blockAt4 V c 4 (⟨0, hn⟩ : Fin cfg4.N)))
  | n + 1, hn =>
    if hl : (n + 1) % 10 = 9 then
      (tileLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       outSumLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       outSqLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       sumLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       sqLast4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) ((lastCond4_iff (⟨n + 1, hn⟩ : Fin cfg4.N)).mpr hl) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2)
    else
      (tileMid4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) (fun h => hl ((lastCond4_iff (⟨n + 1, hn⟩ : Fin cfg4.N)).mp h)) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       (rowView4.read (Elt F) rowView4.junk), (rowView4.read (Elt F) rowView4.junk),
       sumMid4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) (fun h => hl ((lastCond4_iff (⟨n + 1, hn⟩ : Fin cfg4.N)).mp h)) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2,
       sqMid4 c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) sc4_0 (Memref.isWhole_whole _) sc4_1 (Memref.isWhole_whole _) (fun h => by have h' := (firstCond4_iff (⟨n + 1, hn⟩ : Fin cfg4.N)).mp h; have hN : n + 1 < 10 := lt_of_lt_of_eq hn (show cfg4.N = 10 from N_4); (try dsimp only at h'); omega) (fun h => hl ((lastCond4_iff (⟨n + 1, hn⟩ : Fin cfg4.N)).mp h)) (blockAt4 V c 0 (⟨n + 1, hn⟩ : Fin cfg4.N)) (blockAt4 V c 1 (⟨n + 1, hn⟩ : Fin cfg4.N)) (blockAt4 V c 2 (⟨n + 1, hn⟩ : Fin cfg4.N)) (blockAt4 V c 3 (⟨n + 1, hn⟩ : Fin cfg4.N)) (blockAt4 V c 4 (⟨n + 1, hn⟩ : Fin cfg4.N)) (stateAt4 c n (Nat.lt_of_succ_lt hn)).2.2.2.1 (stateAt4 c n (Nat.lt_of_succ_lt hn)).2.2.2.2)

theorem stateAt4_first (c : Dev nD) (t : Fin cfg4.N) (hf : t.val % 10 = 0) (hl : ¬t.val % 10 = 9) :
    stateAt4 V c t.val t.isLt = (tileFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) ((firstCond4_iff t).mpr hf) (fun h => hl ((lastCond4_iff t).mp h)) (blockAt4 V c 0 t) (blockAt4 V c 1 t) (blockAt4 V c 2 t) (blockAt4 V c 3 t) (blockAt4 V c 4 t),
      (rowView4.read (Elt F) rowView4.junk), (rowView4.read (Elt F) rowView4.junk),
      sumFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) ((firstCond4_iff t).mpr hf) (fun h => hl ((lastCond4_iff t).mp h)) (blockAt4 V c 0 t) (blockAt4 V c 1 t) (blockAt4 V c 2 t) (blockAt4 V c 3 t) (blockAt4 V c 4 t),
      sqFirst4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) ((firstCond4_iff t).mpr hf) (fun h => hl ((lastCond4_iff t).mp h)) (blockAt4 V c 0 t) (blockAt4 V c 1 t) (blockAt4 V c 2 t) (blockAt4 V c 3 t) (blockAt4 V c 4 t)) := by
  obtain ⟨n, hn⟩ := t
  have hN : n < 10 := lt_of_lt_of_eq hn (show cfg4.N = 10 from N_4)
  cases n with
  | zero => exact rfl
  | succ n => exfalso; (try dsimp only at hf); omega

theorem stateAt4_mid (c : Dev nD) (t : Fin cfg4.N) (hf : ¬t.val % 10 = 0) (hl : ¬t.val % 10 = 9) :
    stateAt4 V c t.val t.isLt = (tileMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) (fun h => hl ((lastCond4_iff t).mp h)) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      (rowView4.read (Elt F) rowView4.junk), (rowView4.read (Elt F) rowView4.junk),
      sumMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) (fun h => hl ((lastCond4_iff t).mp h)) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      sqMid4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) (fun h => hl ((lastCond4_iff t).mp h)) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt4_last (c : Dev nD) (t : Fin cfg4.N) (hf : ¬t.val % 10 = 0) (hl : t.val % 10 = 9) :
    stateAt4 V c t.val t.isLt = (tileLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      outSumLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      outSqLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      sumLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2,
      sqLast4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry4 (c : Dev nD) : (n : ℕ) → n ≤ cfg4.N → sProp 𝕄
  | 0, _ => Pipeline.ΦA spec4 c
  | n + 1, hn => iprop(iprop(iprop(owns (c : Thread nD τ) sc4_0 fullShare (stateAt4 V c n hn).2.2.2.1 ∗ owns (c : Thread nD τ) sc4_1 fullShare (stateAt4 V c n hn).2.2.2.2)
      ∗ Pipeline.scopedRestBut (Ix := Unit) (Name := ℕ) (U := UR sig nD τ) (Lvl := ℕ) (Val := Elt F) spec4 c [cc4_scratch0, cc4_scratch1])
      ∗ (∃ r, prngReg c r))

theorem carry4_zero (c : Dev nD) (n : ℕ) (h : n ≤ cfg4.N) (hz : n = 0) : carry4 V c n h = Pipeline.ΦA spec4 c := by
  subst hz; rfl
theorem carry4_succ (c : Dev nD) (n : ℕ) (hn : n < cfg4.N) :
    carry4 V c (n + 1) hn = iprop(iprop(iprop(owns (c : Thread nD τ) sc4_0 fullShare (stateAt4 V c n hn).2.2.2.1 ∗ owns (c : Thread nD τ) sc4_1 fullShare (stateAt4 V c n hn).2.2.2.2)
      ∗ Pipeline.scopedRestBut (Ix := Unit) (Name := ℕ) (U := UR sig nD τ) (Lvl := ℕ) (Val := Elt F) spec4 c [cc4_scratch0, cc4_scratch1])
      ∗ (∃ r, prngReg c r)) := rfl
theorem carry4_pos (c : Dev nD) (n : ℕ) (h : n ≤ cfg4.N) (hz : n ≠ 0) :
    carry4 V c n h = iprop(iprop(iprop(owns (c : Thread nD τ) sc4_0 fullShare (stateAt4 V c (n - 1) (by omega)).2.2.2.1 ∗ owns (c : Thread nD τ) sc4_1 fullShare (stateAt4 V c (n - 1) (by omega)).2.2.2.2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-! ## The region's proof data -/

def dat4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => blockAt4 V c 1 t
    | ⟨2, _⟩ => blockAt4 V c 2 t
    | ⟨3, _⟩ => blockAt4 V c 3 t
    | ⟨4, _⟩ => blockAt4 V c 4 t
    | ⟨5, _⟩ => (stateAt4 V c t.val t.isLt).1
    | ⟨6, _⟩ => (stateAt4 V c t.val t.isLt).2.1
    | ⟨7, _⟩ => (stateAt4 V c t.val t.isLt).2.2.1
  Φ t := carry4 V c t.val (Nat.le_of_lt_succ t.isLt)
  q _ := fullShare
  owed _ := 0

theorem dat4_A (c : Dev nD) (w : Fin cfg4.W) : (dat4 V c).A w = V c (Pipeline.arrRef spec4 w) := by
  dsimp only [dat4]
theorem dat4_carry (c : Dev nD) (t : Fin cfg4.N) :
    (dat4 V c).Φ t.castSucc = carry4 V c t.val (Nat.le_of_lt t.isLt) := by
  dsimp only [dat4]; simp only [Fin.coe_castSucc]
theorem dat4_after0 (c : Dev nD) (t : Fin cfg4.N) : (dat4 V c).after 0 t = blockAt4 V c 0 t := by dsimp only [dat4]
theorem dat4_after1 (c : Dev nD) (t : Fin cfg4.N) : (dat4 V c).after 1 t = blockAt4 V c 1 t := by dsimp only [dat4]
theorem dat4_after2 (c : Dev nD) (t : Fin cfg4.N) : (dat4 V c).after 2 t = blockAt4 V c 2 t := by dsimp only [dat4]
theorem dat4_after3 (c : Dev nD) (t : Fin cfg4.N) : (dat4 V c).after 3 t = blockAt4 V c 3 t := by dsimp only [dat4]
theorem dat4_after4 (c : Dev nD) (t : Fin cfg4.N) : (dat4 V c).after 4 t = blockAt4 V c 4 t := by dsimp only [dat4]
theorem dat4_after5 (c : Dev nD) (t : Fin cfg4.N) : (dat4 V c).after 5 t = (stateAt4 V c t.val t.isLt).1 := by dsimp only [dat4]
theorem dat4_after6 (c : Dev nD) (t : Fin cfg4.N) : (dat4 V c).after 6 t = (stateAt4 V c t.val t.isLt).2.1 := by dsimp only [dat4]
theorem dat4_after7 (c : Dev nD) (t : Fin cfg4.N) : (dat4 V c).after 7 t = (stateAt4 V c t.val t.isLt).2.2.1 := by dsimp only [dat4]
theorem dat4_before0 (c : Dev nD) (t : Fin cfg4.N) (d) : (dat4 V c).before 0 t d = blockAt4 V c 0 t :=
  found4_0 V (dat4 V c) (dat4_A V c 0) (dat4_after0 V c) t d
theorem dat4_before1 (c : Dev nD) (t : Fin cfg4.N) (d) : (dat4 V c).before 1 t d = blockAt4 V c 1 t :=
  found4_1 V (dat4 V c) (dat4_A V c 1) (dat4_after1 V c) t d
theorem dat4_before2 (c : Dev nD) (t : Fin cfg4.N) (d) : (dat4 V c).before 2 t d = blockAt4 V c 2 t :=
  found4_2 V (dat4 V c) (dat4_A V c 2) (dat4_after2 V c) t d
theorem dat4_before3 (c : Dev nD) (t : Fin cfg4.N) (d) : (dat4 V c).before 3 t d = blockAt4 V c 3 t :=
  found4_3 V (dat4 V c) (dat4_A V c 3) (dat4_after3 V c) t d
theorem dat4_before4 (c : Dev nD) (t : Fin cfg4.N) (d) : (dat4 V c).before 4 t d = blockAt4 V c 4 t :=
  found4_4 V (dat4 V c) (dat4_A V c 4) (dat4_after4 V c) t d

/-! ## The body obligation -/

def pre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def post4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
theorem pointRun4 (c : Dev nD) (t : Fin cfg4.N) :
    pre4 V c t ⊢ wp frame (wpE (defs₀ (F := F)) Variants.none c none) Set.univ (bodyAt4 t) (fun _ => post4 V c t) := by
  unfold pre4 post4 bodyAt4
  simp only [dat4_before0, dat4_before1, dat4_before2, dat4_before3, dat4_before4]
  rw [show (dat4 V c).owesAt () t.succ = (dat4 V c).owesAt () t.castSucc from rfl]
  rw [show (dat4 V c).Φ t.succ = carry4 V c (t.val + 1) t.isLt from rfl, carry4_succ]
  rw [show (dat4 V c).leavesExact 0 t = owns (c : Thread nD τ) (ms4_0 t) fullShare ((dat4 V c).after 0 t) from by
    unfold Dat.leavesExact; rw [live4_0 t], dat4_after0]
  rw [show (dat4 V c).leavesExact 1 t = owns (c : Thread nD τ) (ms4_1 t) fullShare ((dat4 V c).after 1 t) from by
    unfold Dat.leavesExact; rw [live4_1 t], dat4_after1]
  rw [show (dat4 V c).leavesExact 2 t = owns (c : Thread nD τ) (ms4_2 t) fullShare ((dat4 V c).after 2 t) from by
    unfold Dat.leavesExact; rw [live4_2 t], dat4_after2]
  rw [show (dat4 V c).leavesExact 3 t = owns (c : Thread nD τ) (ms4_3 t) fullShare ((dat4 V c).after 3 t) from by
    unfold Dat.leavesExact; rw [live4_3 t], dat4_after3]
  rw [show (dat4 V c).leavesExact 4 t = owns (c : Thread nD τ) (ms4_4 t) fullShare ((dat4 V c).after 4 t) from by
    unfold Dat.leavesExact; rw [live4_4 t], dat4_after4]
  rw [show (dat4 V c).leavesExact 5 t = owns (c : Thread nD τ) (ms4_5 t) fullShare ((dat4 V c).after 5 t) from by
    unfold Dat.leavesExact; rw [live4_5 t], dat4_after5]
  have hN : t.val < 10 := lt_of_lt_of_eq t.isLt (show cfg4.N = 10 from N_4)
  by_cases hf : t.val % 10 = 0
  · have hl : ¬t.val % 10 = 9 := by omega
    have hz : t.val = 0 := by omega
    rw [Dat.leavesExact_idle (dat4 V c) 6 t (idle4_6 t (fun h => hl ((lastCond4_iff t).mp h))) (noFlush4_6 t (fun h => hl ((lastCond4_iff t).mp h)))]
    rw [Dat.leavesExact_idle (dat4 V c) 7 t (idle4_7 t (fun h => hl ((lastCond4_iff t).mp h))) (noFlush4_7 t (fun h => hl ((lastCond4_iff t).mp h)))]
    rw [stateAt4_first V c t hf hl]
    unfold tileFirst4 sumFirst4 sqFirst4; (try dsimp only)
    rw [dat4_carry V c t, carry4_zero V c _ _ hz, carryEntry4]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst4 c (grid4.coords t) _ _ _ _ _ _ _ _ _ _ _ _ _ _ _ _ _ _ _ _ ((firstCond4_iff t).mpr hf) (fun h => hl ((lastCond4_iff t).mp h)) (blockAt4 V c 0 t) (blockAt4 V c 1 t) (blockAt4 V c 2 t) (blockAt4 V c 3 t) (blockAt4 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst4_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst4_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst4_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat4 V c).leavesExact 6 t = owns (c : Thread nD τ) (ms4_6 t) fullShare ((dat4 V c).after 6 t) from by
        unfold Dat.leavesExact; rw [live4_6 t ((lastCond4_iff t).mpr hl)], dat4_after6]
      rw [show (dat4 V c).leavesExact 7 t = owns (c : Thread nD τ) (ms4_7 t) fullShare ((dat4 V c).after 7 t) from by
        unfold Dat.leavesExact; rw [live4_7 t ((lastCond4_iff t).mpr hl)], dat4_after7]
      rw [stateAt4_last V c t hf hl]
      unfold tileLast4 outSumLast4 outSqLast4 sumLast4 sqLast4; (try dsimp only)
      rw [dat4_carry V c t, carry4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast4 c (grid4.coords t) _ _ _ _ _ _ _ _ _ _ _ _ _ _ _ _ _ _ _ _ (fun h => hf ((firstCond4_iff t).mp h)) ((lastCond4_iff t).mpr hl) (blockAt4 V c 0 t) (blockAt4 V c 1 t) (blockAt4 V c 2 t) (blockAt4 V c 3 t) (blockAt4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast4_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast4_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast4_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast4_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast4_cover c _ _ _ _ _ _ _ _ _ _ _ _ _ _ _ _ _ _ _ _ _ _ _ _ _ _ _ _ _ _)
    · rw [Dat.leavesExact_idle (dat4 V c) 6 t (idle4_6 t (fun h => hl ((lastCond4_iff t).mp h))) (noFlush4_6 t (fun h => hl ((lastCond4_iff t).mp h)))]
      rw [Dat.leavesExact_idle (dat4 V c) 7 t (idle4_7 t (fun h => hl ((lastCond4_iff t).mp h))) (noFlush4_7 t (fun h => hl ((lastCond4_iff t).mp h)))]
      rw [stateAt4_mid V c t hf hl]
      unfold tileMid4 sumMid4 sqMid4; (try dsimp only)
      rw [dat4_carry V c t, carry4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid4 c (grid4.coords t) _ _ _ _ _ _ _ _ _ _ _ _ _ _ _ _ _ _ _ _ (fun h => hf ((firstCond4_iff t).mp h)) (fun h => hl ((lastCond4_iff t).mp h)) (blockAt4 V c 0 t) (blockAt4 V c 1 t) (blockAt4 V c 2 t) (blockAt4 V c 3 t) (blockAt4 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid4_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid4_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid4_cover c _ _ _ _ _ _ _ _ _ _ _ _ _ _ _ _ _ _ _ _ _ _ _ _ _ _ _ _ _ _)
      isplitl [H6]; · iexists _; iexact H6
      iexists _; iexact H7

/-- The library's body obligation of region 4, at every point. -/
theorem obligation4 (c : Dev nD) : BodyObligation (dat4 (F := F) V c) (defs₀ (F := F)) Variants.none () Set.univ := fun t => by
  rw [bigSep_W4, bigSep_W4]
  exact pointRun4 V c t

/-- Entering the region: the class's invariant is the invariant before the first tile. -/
theorem carry4_in (c : Dev nD) : Pipeline.ΦA spec4 c ⊢ (dat4 V c).Φ 0 := by
  rw [show (dat4 V c).Φ 0 = carry4 V c 0 (Nat.zero_le _) from rfl, carry4_zero V c 0 _ rfl]
  try exact Idealize.SL.BI.Entails.refl _

/-- Leaving it: after the last tile the invariant gives the class's back, the scratch rows' contents forgotten. -/
theorem carry4_out (c : Dev nD) : (dat4 V c).Φ (Fin.last cfg4.N) ⊢ Pipeline.ΦA spec4 c := by
  rw [show (dat4 V c).Φ (Fin.last cfg4.N) = carry4 V c cfg4.N (Nat.le_refl _) from rfl,
    carry4_pos V c _ _ (by rw [show cfg4.N = 10 from N_4]; decide), carryEntry4]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.KernelIdeal.Gen
end
-- ==== Proof.KI.MlpRun6.lean ====
/-
  Region 6 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond6 (i : grid6.Coords) : Prop := (Scalar.cmpi .ne (Scalar.extui (Scalar.cmpi .eq (BitVec.ofNat 32 (i 0).val) 0#32)) 0#32) = 1#1
theorem firstCond6_iff : ∀ t : Fin cfg6.N, firstCond6 (grid6.coords t) ↔ t.val % 10 = 0 :=
  (by decide +kernel : ∀ t : Fin grid6.N, firstCond6 (grid6.coords t) ↔ t.val % 10 = 0)
/-- The body's second conditional: this is the last tile. -/
abbrev lastCond6 (i : grid6.Coords) : Prop := k6_cond2 i = 1#1
theorem lastCond6_iff : ∀ t : Fin cfg6.N, lastCond6 (grid6.coords t) ↔ t.val % 10 = 9 :=
  (by decide +kernel : ∀ t : Fin grid6.N, lastCond6 (grid6.coords t) ↔ t.val % 10 = 9)

/-! ## Where the windows are idle -/
theorem live6_0 : ∀ t : Fin cfg6.N, cfg6.idle 0 (grid6.coords t) = false := by decide +kernel
theorem live6_1 : ∀ t : Fin cfg6.N, cfg6.idle 1 (grid6.coords t) = false := by decide +kernel
theorem live6_2 : ∀ t : Fin cfg6.N, cfg6.idle 2 (grid6.coords t) = false := by decide +kernel
theorem live6_3 : ∀ t : Fin cfg6.N, cfg6.idle 3 (grid6.coords t) = false := by decide +kernel
theorem live6_4 : ∀ t : Fin cfg6.N, cfg6.idle 4 (grid6.coords t) = false := by decide +kernel
theorem live6_5 : ∀ t : Fin cfg6.N, cfg6.idle 5 (grid6.coords t) = false := by decide +kernel
/-- Away from the last tile the two statistics outputs are idle and not written back. -/
theorem idle6_6 : ∀ t : Fin cfg6.N, ¬lastCond6 (grid6.coords t) → cfg6.idle 6 (grid6.coords t) = true := by decide +kernel
theorem idle6_7 : ∀ t : Fin cfg6.N, ¬lastCond6 (grid6.coords t) → cfg6.idle 7 (grid6.coords t) = true := by decide +kernel
theorem noFlush6_6 : ∀ t : Fin cfg6.N, ¬lastCond6 (grid6.coords t) → (cfg6.win 6).flush t = false := by decide +kernel
theorem noFlush6_7 : ∀ t : Fin cfg6.N, ¬lastCond6 (grid6.coords t) → (cfg6.win 7).flush t = false := by decide +kernel
/-- At the last tile they are live. -/
theorem live6_6 : ∀ t : Fin cfg6.N, lastCond6 (grid6.coords t) → cfg6.idle 6 (grid6.coords t) = false := by decide +kernel
theorem live6_7 : ∀ t : Fin cfg6.N, lastCond6 (grid6.coords t) → cfg6.idle 7 (grid6.coords t) = false := by decide +kernel

/-! ## The staging memrefs at a point, the scratch rows, and the views contents are stated through -/
abbrev ms6_0 (t : Fin cfg6.N) : Memref sig .tc .vmem S1000x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x512 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x512 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S512x512 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x512 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1000x512 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x512 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x512 .f32 := win6_7.stage (cfg6.slots t 7)
abbrev hs6_7 (t : Fin cfg6.N) : (ms6_7 t).IsWhole := hstage6_7 ((cfg6.slots t 7).cast nbuf6_7)
/-- The two scratch rows: whole scoped buffers of the kernel's own. -/
abbrev sc6_0 : Memref sig .tc .vmem S1x512 .f32 := Memref.whole cc6_scratch0
abbrev sc6_1 : Memref sig .tc .vmem S1x512 .f32 := Memref.whole cc6_scratch1
/-- The views through which a tile's and a row's contents are stated (the choice does not matter). -/
abbrev tileView6 : View sig .tc .vmem S1000x512 .f32 := (Memref.whole cc6_stg5_0 : Memref sig .tc .vmem S1000x512 .f32).view
abbrev rowView6 : View sig .tc .vmem S1x512 .f32 := sc6_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc6__mlp_stats_kernel_eq_skeleton]; unfold cc6__mlp_stats_kernel_skel
    simp only [k6_part1_eq_skeleton]; unfold k6_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc6__mlp_stats_kernel_eq_skeleton]; unfold cc6__mlp_stats_kernel_skel
    simp only [k6_part1_eq_skeleton]; unfold k6_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc6__mlp_stats_kernel_eq_skeleton]; unfold cc6__mlp_stats_kernel_skel
    simp only [k6_part1_eq_skeleton]; unfold k6_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Gen
end
-- ==== Proof.KI.MlpDat6.lean ====
/-
  Region 6 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.KI.MlpRun6

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  (y : S1000x512.Idx) :
    ∃ pc ∈ (runFirst6 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst6 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  : Vec F S1000x512 .f32 :=
  tileView6.read (Elt F) (tileView6.writes (Elt F) tileView6.junk (runFirst6 c i arg1 harg1 arg2 harg2 arg3 harg3 arg4 harg4 arg5 harg5 arg6 harg6 arg7 harg7 arg8 harg8 arg9 harg9 arg10 harg10 h1 h2 x0 x1 x2 x3 x4 ).1)

theorem sumFirst6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst6 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst6 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  : Vec F S1x512 .f32 :=
  rowView6.read (Elt F) (rowView6.writes (Elt F) rowView6.junk (runFirst6 c i arg1 harg1 arg2 harg2 arg3 harg3 arg4 harg4 arg5 harg5 arg6 harg6 arg7 harg7 arg8 harg8 arg9 harg9 arg10 harg10 h1 h2 x0 x1 x2 x3 x4 ).2.1)

theorem sqFirst6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst6 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst6 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32)  : Vec F S1x512 .f32 :=
  rowView6.read (Elt F) (rowView6.writes (Elt F) rowView6.junk (runFirst6 c i arg1 harg1 arg2 harg2 arg3 harg3 arg4 harg4 arg5 harg5 arg6 harg6 arg7 harg7 arg8 harg8 arg9 harg9 arg10 harg10 h1 h2 x0 x1 x2 x3 x4 ).2.2.1)

theorem tileMid6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runMid6 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid6 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView6.read (Elt F) (tileView6.writes (Elt F) tileView6.junk (runMid6 c i arg1 harg1 arg2 harg2 arg3 harg3 arg4 harg4 arg5 harg5 arg6 harg6 arg7 harg7 arg8 harg8 arg9 harg9 arg10 harg10 h1 h2 x0 x1 x2 x3 x4 s q).1)

theorem sumMid6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid6 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid6 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runMid6 c i arg1 harg1 arg2 harg2 arg3 harg3 arg4 harg4 arg5 harg5 arg6 harg6 arg7 harg7 arg8 harg8 arg9 harg9 arg10 harg10 h1 h2 x0 x1 x2 x3 x4 s q).2.1)

theorem sqMid6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid6 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid6 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runMid6 c i arg1 harg1 arg2 harg2 arg3 harg3 arg4 harg4 arg5 harg5 arg6 harg6 arg7 harg7 arg8 harg8 arg9 harg9 arg10 harg10 h1 h2 x0 x1 x2 x3 x4 s q).2.2.1)

theorem tileLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView6.read (Elt F) (tileView6.writes (Elt F) tileView6.junk (runLast6 c i arg1 harg1 arg2 harg2 arg3 harg3 arg4 harg4 arg5 harg5 arg6 harg6 arg7 harg7 arg8 harg8 arg9 harg9 arg10 harg10 h1 h2 x0 x1 x2 x3 x4 s q).1)

theorem outSumLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runLast6 c i arg1 harg1 arg2 harg2 arg3 harg3 arg4 harg4 arg5 harg5 arg6 harg6 arg7 harg7 arg8 harg8 arg9 harg9 arg10 harg10 h1 h2 x0 x1 x2 x3 x4 s q).2.1)

theorem outSqLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runLast6 c i arg1 harg1 arg2 harg2 arg3 harg3 arg4 harg4 arg5 harg5 arg6 harg6 arg7 harg7 arg8 harg8 arg9 harg9 arg10 harg10 h1 h2 x0 x1 x2 x3 x4 s q).2.2.1)

theorem sumLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runLast6 c i arg1 harg1 arg2 harg2 arg3 harg3 arg4 harg4 arg5 harg5 arg6 harg6 arg7 harg7 arg8 harg8 arg9 harg9 arg10 harg10 h1 h2 x0 x1 x2 x3 x4 s q).2.2.2.1)

theorem sqLast6_cover (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast6 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast6 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast6 (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView6.read (Elt F) (rowView6.writes (Elt F) rowView6.junk (runLast6 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry6 (c : Dev nD) :
    (Pipeline.ΦA spec6 c : sProp 𝕄)
      = iprop(iprop(iprop((∃ d, owns (c : Thread nD τ) sc6_0 fullShare d) ∗ (∃ d, owns (c : Thread nD τ) sc6_1 fullShare d))
          ∗ Pipeline.scopedRestBut (Ix := Unit) (Name := ℕ) (U := UR sig nD τ) (Lvl := ℕ) (Val := Elt F) spec6 c [cc6_scratch0, cc6_scratch1])
          ∗ (∃ r, prngReg c r)) := by
  unfold Pipeline.ΦA; rw [scopedRest6_split]; simp only [sc6_0, sc6_1, owns_whole]
  rfl

section
variable (V : (c : Dev nD) → (b : Ref sig .tc) → Buf (Elt F) ((c : Thread nD τ).loc b))

/-- Window w's block at grid point t, read off the window's array as the region finds it. -/
def blockAt6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds the window's block at every point, fetched there or not. -/
theorem found6_0 {c : Dev nD} (dat : Dat τ (Elt F) Unit ℕ (UR sig nD τ) ℕ cfg6 c) (hA : dat.A 0 = V c (Pipeline.arrRef spec6 0))
    (hafter : ∀ t, dat.after 0 t = blockAt6 V c 0 t) (t : Fin cfg6.N) (d) : dat.before 0 t d = blockAt6 V c 0 t :=
  (dat.before_in_eq_fetched 0 rfl (fun _ => rfl) (fun _ _ _ => rfl) (fun t => by rw [hafter]; unfold Dat.blockOf blockAt6; rw [hA]; try rfl) t d).trans
    (by unfold Dat.fetched Dat.blockOf blockAt6; rw [hA]; try rfl)
theorem found6_1 {c : Dev nD} (dat : Dat τ (Elt F) Unit ℕ (UR sig nD τ) ℕ cfg6 c) (hA : dat.A 1 = V c (Pipeline.arrRef spec6 1))
    (hafter : ∀ t, dat.after 1 t = blockAt6 V c 1 t) (t : Fin cfg6.N) (d) : dat.before 1 t d = blockAt6 V c 1 t :=
  (dat.before_in_eq_fetched 1 rfl (fun _ => rfl) (fun _ _ _ => rfl) (fun t => by rw [hafter]; unfold Dat.blockOf blockAt6; rw [hA]; try rfl) t d).trans
    (by unfold Dat.fetched Dat.blockOf blockAt6; rw [hA]; try rfl)
theorem found6_2 {c : Dev nD} (dat : Dat τ (Elt F) Unit ℕ (UR sig nD τ) ℕ cfg6 c) (hA : dat.A 2 = V c (Pipeline.arrRef spec6 2))
    (hafter : ∀ t, dat.after 2 t = blockAt6 V c 2 t) (t : Fin cfg6.N) (d) : dat.before 2 t d = blockAt6 V c 2 t :=
  (dat.before_in_eq_fetched 2 rfl (fun _ => rfl) (fun _ _ _ => rfl) (fun t => by rw [hafter]; unfold Dat.blockOf blockAt6; rw [hA]; try rfl) t d).trans
    (by unfold Dat.fetched Dat.blockOf blockAt6; rw [hA]; try rfl)
theorem found6_3 {c : Dev nD} (dat : Dat τ (Elt F) Unit ℕ (UR sig nD τ) ℕ cfg6 c) (hA : dat.A 3 = V c (Pipeline.arrRef spec6 3))
    (hafter : ∀ t, dat.after 3 t = blockAt6 V c 3 t) (t : Fin cfg6.N) (d) : dat.before 3 t d = blockAt6 V c 3 t :=
  (dat.before_in_eq_fetched 3 rfl (fun _ => rfl) (fun _ _ _ => rfl) (fun t => by rw [hafter]; unfold Dat.blockOf blockAt6; rw [hA]; try rfl) t d).trans
    (by unfold Dat.fetched Dat.blockOf blockAt6; rw [hA]; try rfl)
theorem found6_4 {c : Dev nD} (dat : Dat τ (Elt F) Unit ℕ (UR sig nD τ) ℕ cfg6 c) (hA : dat.A 4 = V c (Pipeline.arrRef spec6 4))
    (hafter : ∀ t, dat.after 4 t = blockAt6 V c 4 t) (t : Fin cfg6.N) (d) : dat.before 4 t d = blockAt6 V c 4 t :=
  (dat.before_in_eq_fetched 4 rfl (fun _ => rfl) (fun _ _ _ => rfl) (fun t => by rw [hafter]; unfold Dat.blockOf blockAt6; rw [hA]; try rfl) t d).trans
    (by unfold Dat.fetched Dat.blockOf blockAt6; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt6 (c : Dev nD) : (n : ℕ) → n < cfg6.N →
    Vec F S1000x512 .f32 × Vec F S1x512 .f32 × Vec F S1x512 .f32 × Vec F S1x512 .f32 × Vec F S1x512 .f32
  | 0, hn => (tileFirst6 c (grid6.coords (⟨0, hn⟩ : Fin cfg6.N)) (ms6_0 (⟨0, hn⟩ : Fin cfg6.N)) (hs6_0 (⟨0, hn⟩ : Fin cfg6.N)) (ms6_1 (⟨0, hn⟩ : Fin cfg6.N)) (hs6_1 (⟨0, hn⟩ : Fin cfg6.N)) (ms6_2 (⟨0, hn⟩ : Fin cfg6.N)) (hs6_2 (⟨0, hn⟩ : Fin cfg6.N)) (ms6_3 (⟨0, hn⟩ : Fin cfg6.N)) (hs6_3 (⟨0, hn⟩ : Fin cfg6.N)) (ms6_4 (⟨0, hn⟩ : Fin cfg6.N)) (hs6_4 (⟨0, hn⟩ : Fin cfg6.N)) (ms6_5 (⟨0, hn⟩ : Fin cfg6.N)) (hs6_5 (⟨0, hn⟩ : Fin cfg6.N)) (ms6_6 (⟨0, hn⟩ : Fin cfg6.N)) (hs6_6 (⟨0, hn⟩ : Fin cfg6.N)) (ms6_7 (⟨0, hn⟩ : Fin cfg6.N)) (hs6_7 (⟨0, hn⟩ : Fin cfg6.N)) sc6_0 (Memref.isWhole_whole _) sc6_1 (Memref.isWhole_whole _) ((firstCond6_iff (⟨0, hn⟩ : Fin cfg6.N)).mpr (Nat.zero_mod _)) (fun h => by have h' := (lastCond6_iff (⟨0, hn⟩ : Fin cfg6.N)).mp h; (try dsimp only at h'); omega) (blockAt6 V c 0 (⟨0, hn⟩ : Fin cfg6.N)) (blockAt6 V c 1 (⟨0, hn⟩ : Fin cfg6.N)) (blockAt6 V c 2 (⟨0, hn⟩ : Fin cfg6.N)) (blockAt6 V c 3 (⟨0, hn⟩ : Fin cfg6.N)) (blockAt6 V c 4 (⟨0, hn⟩ : Fin cfg6.N)),
      (rowView6.read (Elt F) rowView6.junk), (rowView6.read (Elt F) rowView6.junk),
      sumFirst6 c (grid6.coords (⟨0, hn⟩ : Fin cfg6.N)) (ms6_0 (⟨0, hn⟩ : Fin cfg6.N)) (hs6_0 (⟨0, hn⟩ : Fin cfg6.N)) (ms6_1 (⟨0, hn⟩ : Fin cfg6.N)) (hs6_1 (⟨0, hn⟩ : Fin cfg6.N)) (ms6_2 (⟨0, hn⟩ : Fin cfg6.N)) (hs6_2 (⟨0, hn⟩ : Fin cfg6.N)) (ms6_3 (⟨0, hn⟩ : Fin cfg6.N)) (hs6_3 (⟨0, hn⟩ : Fin cfg6.N)) (ms6_4 (⟨0, hn⟩ : Fin cfg6.N)) (hs6_4 (⟨0, hn⟩ : Fin cfg6.N)) (ms6_5 (⟨0, hn⟩ : Fin cfg6.N)) (hs6_5 (⟨0, hn⟩ : Fin cfg6.N)) (ms6_6 (⟨0, hn⟩ : Fin cfg6.N)) (hs6_6 (⟨0, hn⟩ : Fin cfg6.N)) (ms6_7 (⟨0, hn⟩ : Fin cfg6.N)) (hs6_7 (⟨0, hn⟩ : Fin cfg6.N)) sc6_0 (Memref.isWhole_whole _) sc6_1 (Memref.isWhole_whole _) ((firstCond6_iff (⟨0, hn⟩ : Fin cfg6.N)).mpr (Nat.zero_mod _)) (fun h => by have h' := (lastCond6_iff (⟨0, hn⟩ : Fin cfg6.N)).mp h; (try dsimp only at h'); omega) (blockAt6 V c 0 (⟨0, hn⟩ : Fin cfg6.N)) (blockAt6 V c 1 (⟨0, hn⟩ : Fin cfg6.N)) (blockAt6 V c 2 (⟨0, hn⟩ : Fin cfg6.N)) (blockAt6 V c 3 (⟨0, hn⟩ : Fin cfg6.N)) (blockAt6 V c 4 (⟨0, hn⟩ : Fin cfg6.N)),
      sqFirst6 c (grid6.coords (⟨0, hn⟩ : Fin cfg6.N)) (ms6_0 (⟨0, hn⟩ : Fin cfg6.N)) (hs6_0 (⟨0, hn⟩ : Fin cfg6.N)) (ms6_1 (⟨0, hn⟩ : Fin cfg6.N)) (hs6_1 (⟨0, hn⟩ : Fin cfg6.N)) (ms6_2 (⟨0, hn⟩ : Fin cfg6.N)) (hs6_2 (⟨0, hn⟩ : Fin cfg6.N)) (ms6_3 (⟨0, hn⟩ : Fin cfg6.N)) (hs6_3 (⟨0, hn⟩ : Fin cfg6.N)) (ms6_4 (⟨0, hn⟩ : Fin cfg6.N)) (hs6_4 (⟨0, hn⟩ : Fin cfg6.N)) (ms6_5 (⟨0, hn⟩ : Fin cfg6.N)) (hs6_5 (⟨0, hn⟩ : Fin cfg6.N)) (ms6_6 (⟨0, hn⟩ : Fin cfg6.N)) (hs6_6 (⟨0, hn⟩ : Fin cfg6.N)) (ms6_7 (⟨0, hn⟩ : Fin cfg6.N)) (hs6_7 (⟨0, hn⟩ : Fin cfg6.N)) sc6_0 (Memref.isWhole_whole _) sc6_1 (Memref.isWhole_whole _) ((firstCond6_iff (⟨0, hn⟩ : Fin cfg6.N)).mpr (Nat.zero_mod _)) (fun h => by have h' := (lastCond6_iff (⟨0, hn⟩ : Fin cfg6.N)).mp h; (try dsimp only at h'); omega) (blockAt6 V c 0 (⟨0, hn⟩ : Fin cfg6.N)) (blockAt6 V c 1 (⟨0, hn⟩ : Fin cfg6.N)) (blockAt6 V c 2 (⟨0, hn⟩ : Fin cfg6.N)) (blockAt6 V c 3 (⟨0, hn⟩ : Fin cfg6.N)) (blockAt6 V c 4 (⟨0, hn⟩ : Fin cfg6.N)))
  | n + 1, hn =>
    if hl : (n + 1) % 10 = 9 then
      (tileLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       outSumLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       outSqLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       sumLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       sqLast6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) ((lastCond6_iff (⟨n + 1, hn⟩ : Fin cfg6.N)).mpr hl) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2)
    else
      (tileMid6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) (fun h => hl ((lastCond6_iff (⟨n + 1, hn⟩ : Fin cfg6.N)).mp h)) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       (rowView6.read (Elt F) rowView6.junk), (rowView6.read (Elt F) rowView6.junk),
       sumMid6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) (fun h => hl ((lastCond6_iff (⟨n + 1, hn⟩ : Fin cfg6.N)).mp h)) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2,
       sqMid6 c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) sc6_0 (Memref.isWhole_whole _) sc6_1 (Memref.isWhole_whole _) (fun h => by have h' := (firstCond6_iff (⟨n + 1, hn⟩ : Fin cfg6.N)).mp h; have hN : n + 1 < 10 := lt_of_lt_of_eq hn (show cfg6.N = 10 from N_6); (try dsimp only at h'); omega) (fun h => hl ((lastCond6_iff (⟨n + 1, hn⟩ : Fin cfg6.N)).mp h)) (blockAt6 V c 0 (⟨n + 1, hn⟩ : Fin cfg6.N)) (blockAt6 V c 1 (⟨n + 1, hn⟩ : Fin cfg6.N)) (blockAt6 V c 2 (⟨n + 1, hn⟩ : Fin cfg6.N)) (blockAt6 V c 3 (⟨n + 1, hn⟩ : Fin cfg6.N)) (blockAt6 V c 4 (⟨n + 1, hn⟩ : Fin cfg6.N)) (stateAt6 c n (Nat.lt_of_succ_lt hn)).2.2.2.1 (stateAt6 c n (Nat.lt_of_succ_lt hn)).2.2.2.2)

theorem stateAt6_first (c : Dev nD) (t : Fin cfg6.N) (hf : t.val % 10 = 0) (hl : ¬t.val % 10 = 9) :
    stateAt6 V c t.val t.isLt = (tileFirst6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) ((firstCond6_iff t).mpr hf) (fun h => hl ((lastCond6_iff t).mp h)) (blockAt6 V c 0 t) (blockAt6 V c 1 t) (blockAt6 V c 2 t) (blockAt6 V c 3 t) (blockAt6 V c 4 t),
      (rowView6.read (Elt F) rowView6.junk), (rowView6.read (Elt F) rowView6.junk),
      sumFirst6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) ((firstCond6_iff t).mpr hf) (fun h => hl ((lastCond6_iff t).mp h)) (blockAt6 V c 0 t) (blockAt6 V c 1 t) (blockAt6 V c 2 t) (blockAt6 V c 3 t) (blockAt6 V c 4 t),
      sqFirst6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) ((firstCond6_iff t).mpr hf) (fun h => hl ((lastCond6_iff t).mp h)) (blockAt6 V c 0 t) (blockAt6 V c 1 t) (blockAt6 V c 2 t) (blockAt6 V c 3 t) (blockAt6 V c 4 t)) := by
  obtain ⟨n, hn⟩ := t
  have hN : n < 10 := lt_of_lt_of_eq hn (show cfg6.N = 10 from N_6)
  cases n with
  | zero => exact rfl
  | succ n => exfalso; (try dsimp only at hf); omega

theorem stateAt6_mid (c : Dev nD) (t : Fin cfg6.N) (hf : ¬t.val % 10 = 0) (hl : ¬t.val % 10 = 9) :
    stateAt6 V c t.val t.isLt = (tileMid6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) (fun h => hl ((lastCond6_iff t).mp h)) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      (rowView6.read (Elt F) rowView6.junk), (rowView6.read (Elt F) rowView6.junk),
      sumMid6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) (fun h => hl ((lastCond6_iff t).mp h)) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      sqMid6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) (fun h => hl ((lastCond6_iff t).mp h)) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt6_last (c : Dev nD) (t : Fin cfg6.N) (hf : ¬t.val % 10 = 0) (hl : t.val % 10 = 9) :
    stateAt6 V c t.val t.isLt = (tileLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      outSumLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      outSqLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      sumLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2,
      sqLast6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry6 (c : Dev nD) : (n : ℕ) → n ≤ cfg6.N → sProp 𝕄
  | 0, _ => Pipeline.ΦA spec6 c
  | n + 1, hn => iprop(iprop(iprop(owns (c : Thread nD τ) sc6_0 fullShare (stateAt6 V c n hn).2.2.2.1 ∗ owns (c : Thread nD τ) sc6_1 fullShare (stateAt6 V c n hn).2.2.2.2)
      ∗ Pipeline.scopedRestBut (Ix := Unit) (Name := ℕ) (U := UR sig nD τ) (Lvl := ℕ) (Val := Elt F) spec6 c [cc6_scratch0, cc6_scratch1])
      ∗ (∃ r, prngReg c r))

theorem carry6_zero (c : Dev nD) (n : ℕ) (h : n ≤ cfg6.N) (hz : n = 0) : carry6 V c n h = Pipeline.ΦA spec6 c := by
  subst hz; rfl
theorem carry6_succ (c : Dev nD) (n : ℕ) (hn : n < cfg6.N) :
    carry6 V c (n + 1) hn = iprop(iprop(iprop(owns (c : Thread nD τ) sc6_0 fullShare (stateAt6 V c n hn).2.2.2.1 ∗ owns (c : Thread nD τ) sc6_1 fullShare (stateAt6 V c n hn).2.2.2.2)
      ∗ Pipeline.scopedRestBut (Ix := Unit) (Name := ℕ) (U := UR sig nD τ) (Lvl := ℕ) (Val := Elt F) spec6 c [cc6_scratch0, cc6_scratch1])
      ∗ (∃ r, prngReg c r)) := rfl
theorem carry6_pos (c : Dev nD) (n : ℕ) (h : n ≤ cfg6.N) (hz : n ≠ 0) :
    carry6 V c n h = iprop(iprop(iprop(owns (c : Thread nD τ) sc6_0 fullShare (stateAt6 V c (n - 1) (by omega)).2.2.2.1 ∗ owns (c : Thread nD τ) sc6_1 fullShare (stateAt6 V c (n - 1) (by omega)).2.2.2.2)
      ∗ Pipeline.scopedRestBut (Ix := Unit) (Name := ℕ) (U := UR sig nD τ) (Lvl := ℕ) (Val := Elt F) spec6 c [cc6_scratch0, cc6_scratch1])
      ∗ (∃ r, prngReg c r)) := by
  cases n with
  | zero => exact absurd rfl hz
  | succ n => rfl

/-! ## The region's proof data -/

def dat6 (c : Dev nD) : Dat τ (Elt F) Unit ℕ (UR sig nD τ) ℕ cfg6 c where
  A w := V c (Pipeline.arrRef spec6 w)
  after w t := match w with
    | ⟨0, _⟩ => blockAt6 V c 0 t
    | ⟨1, _⟩ => blockAt6 V c 1 t
    | ⟨2, _⟩ => blockAt6 V c 2 t
    | ⟨3, _⟩ => blockAt6 V c 3 t
    | ⟨4, _⟩ => blockAt6 V c 4 t
    | ⟨5, _⟩ => (stateAt6 V c t.val t.isLt).1
    | ⟨6, _⟩ => (stateAt6 V c t.val t.isLt).2.1
    | ⟨7, _⟩ => (stateAt6 V c t.val t.isLt).2.2.1
  Φ t := carry6 V c t.val (Nat.le_of_lt_succ t.isLt)
  q _ := fullShare
  owed _ := 0

theorem dat6_A (c : Dev nD) (w : Fin cfg6.W) : (dat6 V c).A w = V c (Pipeline.arrRef spec6 w) := by
  dsimp only [dat6]
theorem dat6_carry (c : Dev nD) (t : Fin cfg6.N) :
    (dat6 V c).Φ t.castSucc = carry6 V c t.val (Nat.le_of_lt t.isLt) := by
  dsimp only [dat6]; simp only [Fin.coe_castSucc]
theorem dat6_after0 (c : Dev nD) (t : Fin cfg6.N) : (dat6 V c).after 0 t = blockAt6 V c 0 t := by dsimp only [dat6]
theorem dat6_after1 (c : Dev nD) (t : Fin cfg6.N) : (dat6 V c).after 1 t = blockAt6 V c 1 t := by dsimp only [dat6]
theorem dat6_after2 (c : Dev nD) (t : Fin cfg6.N) : (dat6 V c).after 2 t = blockAt6 V c 2 t := by dsimp only [dat6]
theorem dat6_after3 (c : Dev nD) (t : Fin cfg6.N) : (dat6 V c).after 3 t = blockAt6 V c 3 t := by dsimp only [dat6]
theorem dat6_after4 (c : Dev nD) (t : Fin cfg6.N) : (dat6 V c).after 4 t = blockAt6 V c 4 t := by dsimp only [dat6]
theorem dat6_after5 (c : Dev nD) (t : Fin cfg6.N) : (dat6 V c).after 5 t = (stateAt6 V c t.val t.isLt).1 := by dsimp only [dat6]
theorem dat6_after6 (c : Dev nD) (t : Fin cfg6.N) : (dat6 V c).after 6 t = (stateAt6 V c t.val t.isLt).2.1 := by dsimp only [dat6]
theorem dat6_after7 (c : Dev nD) (t : Fin cfg6.N) : (dat6 V c).after 7 t = (stateAt6 V c t.val t.isLt).2.2.1 := by dsimp only [dat6]
theorem dat6_before0 (c : Dev nD) (t : Fin cfg6.N) (d) : (dat6 V c).before 0 t d = blockAt6 V c 0 t :=
  found6_0 V (dat6 V c) (dat6_A V c 0) (dat6_after0 V c) t d
theorem dat6_before1 (c : Dev nD) (t : Fin cfg6.N) (d) : (dat6 V c).before 1 t d = blockAt6 V c 1 t :=
  found6_1 V (dat6 V c) (dat6_A V c 1) (dat6_after1 V c) t d
theorem dat6_before2 (c : Dev nD) (t : Fin cfg6.N) (d) : (dat6 V c).before 2 t d = blockAt6 V c 2 t :=
  found6_2 V (dat6 V c) (dat6_A V c 2) (dat6_after2 V c) t d
theorem dat6_before3 (c : Dev nD) (t : Fin cfg6.N) (d) : (dat6 V c).before 3 t d = blockAt6 V c 3 t :=
  found6_3 V (dat6 V c) (dat6_A V c 3) (dat6_after3 V c) t d
theorem dat6_before4 (c : Dev nD) (t : Fin cfg6.N) (d) : (dat6 V c).before 4 t d = blockAt6 V c 4 t :=
  found6_4 V (dat6 V c) (dat6_A V c 4) (dat6_after4 V c) t d

/-! ## The body obligation -/

def pre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

def post6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

set_option maxHeartbeats 4800000 in
theorem pointRun6 (c : Dev nD) (t : Fin cfg6.N) :
    pre6 V c t ⊢ wp frame (wpE (defs₀ (F := F)) Variants.none c none) Set.univ (bodyAt6 t) (fun _ => post6 V c t) := by
  unfold pre6 post6 bodyAt6
  simp only [dat6_before0, dat6_before1, dat6_before2, dat6_before3, dat6_before4]
  rw [show (dat6 V c).owesAt () t.succ = (dat6 V c).owesAt () t.castSucc from rfl]
  rw [show (dat6 V c).Φ t.succ = carry6 V c (t.val + 1) t.isLt from rfl, carry6_succ]
  rw [show (dat6 V c).leavesExact 0 t = owns (c : Thread nD τ) (ms6_0 t) fullShare ((dat6 V c).after 0 t) from by
    unfold Dat.leavesExact; rw [live6_0 t], dat6_after0]
  rw [show (dat6 V c).leavesExact 1 t = owns (c : Thread nD τ) (ms6_1 t) fullShare ((dat6 V c).after 1 t) from by
    unfold Dat.leavesExact; rw [live6_1 t], dat6_after1]
  rw [show (dat6 V c).leavesExact 2 t = owns (c : Thread nD τ) (ms6_2 t) fullShare ((dat6 V c).after 2 t) from by
    unfold Dat.leavesExact; rw [live6_2 t], dat6_after2]
  rw [show (dat6 V c).leavesExact 3 t = owns (c : Thread nD τ) (ms6_3 t) fullShare ((dat6 V c).after 3 t) from by
    unfold Dat.leavesExact; rw [live6_3 t], dat6_after3]
  rw [show (dat6 V c).leavesExact 4 t = owns (c : Thread nD τ) (ms6_4 t) fullShare ((dat6 V c).after 4 t) from by
    unfold Dat.leavesExact; rw [live6_4 t], dat6_after4]
  rw [show (dat6 V c).leavesExact 5 t = owns (c : Thread nD τ) (ms6_5 t) fullShare ((dat6 V c).after 5 t) from by
    unfold Dat.leavesExact; rw [live6_5 t], dat6_after5]
  have hN : t.val < 10 := lt_of_lt_of_eq t.isLt (show cfg6.N = 10 from N_6)
  by_cases hf : t.val % 10 = 0
  · have hl : ¬t.val % 10 = 9 := by omega
    have hz : t.val = 0 := by omega
    rw [Dat.leavesExact_idle (dat6 V c) 6 t (idle6_6 t (fun h => hl ((lastCond6_iff t).mp h))) (noFlush6_6 t (fun h => hl ((lastCond6_iff t).mp h)))]
    rw [Dat.leavesExact_idle (dat6 V c) 7 t (idle6_7 t (fun h => hl ((lastCond6_iff t).mp h))) (noFlush6_7 t (fun h => hl ((lastCond6_iff t).mp h)))]
    rw [stateAt6_first V c t hf hl]
    unfold tileFirst6 sumFirst6 sqFirst6; (try dsimp only)
    rw [dat6_carry V c t, carry6_zero V c _ _ hz, carryEntry6]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst6 c (grid6.coords t) _ _ _ _ _ _ _ _ _ _ _ _ _ _ _ _ _ _ _ _ ((firstCond6_iff t).mpr hf) (fun h => hl ((lastCond6_iff t).mp h)) (blockAt6 V c 0 t) (blockAt6 V c 1 t) (blockAt6 V c 2 t) (blockAt6 V c 3 t) (blockAt6 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst6_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst6_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst6_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat6 V c).leavesExact 6 t = owns (c : Thread nD τ) (ms6_6 t) fullShare ((dat6 V c).after 6 t) from by
        unfold Dat.leavesExact; rw [live6_6 t ((lastCond6_iff t).mpr hl)], dat6_after6]
      rw [show (dat6 V c).leavesExact 7 t = owns (c : Thread nD τ) (ms6_7 t) fullShare ((dat6 V c).after 7 t) from by
        unfold Dat.leavesExact; rw [live6_7 t ((lastCond6_iff t).mpr hl)], dat6_after7]
      rw [stateAt6_last V c t hf hl]
      unfold tileLast6 outSumLast6 outSqLast6 sumLast6 sqLast6; (try dsimp only)
      rw [dat6_carry V c t, carry6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast6 c (grid6.coords t) _ _ _ _ _ _ _ _ _ _ _ _ _ _ _ _ _ _ _ _ (fun h => hf ((firstCond6_iff t).mp h)) ((lastCond6_iff t).mpr hl) (blockAt6 V c 0 t) (blockAt6 V c 1 t) (blockAt6 V c 2 t) (blockAt6 V c 3 t) (blockAt6 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast6_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast6_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast6_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast6_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast6_cover c _ _ _ _ _ _ _ _ _ _ _ _ _ _ _ _ _ _ _ _ _ _ _ _ _ _ _ _ _ _)
    · rw [Dat.leavesExact_idle (dat6 V c) 6 t (idle6_6 t (fun h => hl ((lastCond6_iff t).mp h))) (noFlush6_6 t (fun h => hl ((lastCond6_iff t).mp h)))]
      rw [Dat.leavesExact_idle (dat6 V c) 7 t (idle6_7 t (fun h => hl ((lastCond6_iff t).mp h))) (noFlush6_7 t (fun h => hl ((lastCond6_iff t).mp h)))]
      rw [stateAt6_mid V c t hf hl]
      unfold tileMid6 sumMid6 sqMid6; (try dsimp only)
      rw [dat6_carry V c t, carry6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid6 c (grid6.coords t) _ _ _ _ _ _ _ _ _ _ _ _ _ _ _ _ _ _ _ _ (fun h => hf ((firstCond6_iff t).mp h)) (fun h => hl ((lastCond6_iff t).mp h)) (blockAt6 V c 0 t) (blockAt6 V c 1 t) (blockAt6 V c 2 t) (blockAt6 V c 3 t) (blockAt6 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid6_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid6_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid6_cover c _ _ _ _ _ _ _ _ _ _ _ _ _ _ _ _ _ _ _ _ _ _ _ _ _ _ _ _ _ _)
      isplitl [H6]; · iexists _; iexact H6
      iexists _; iexact H7

/-- The library's body obligation of region 6, at every point. -/
theorem obligation6 (c : Dev nD) : BodyObligation (dat6 (F := F) V c) (defs₀ (F := F)) Variants.none () Set.univ := fun t => by
  rw [bigSep_W6, bigSep_W6]
  exact pointRun6 V c t

/-- Entering the region: the class's invariant is the invariant before the first tile. -/
theorem carry6_in (c : Dev nD) : Pipeline.ΦA spec6 c ⊢ (dat6 V c).Φ 0 := by
  rw [show (dat6 V c).Φ 0 = carry6 V c 0 (Nat.zero_le _) from rfl, carry6_zero V c 0 _ rfl]
  try exact Idealize.SL.BI.Entails.refl _

/-- Leaving it: after the last tile the invariant gives the class's back, the scratch rows' contents forgotten. -/
theorem carry6_out (c : Dev nD) : (dat6 V c).Φ (Fin.last cfg6.N) ⊢ Pipeline.ΦA spec6 c := by
  rw [show (dat6 V c).Φ (Fin.last cfg6.N) = carry6 V c cfg6.N (Nat.le_refl _) from rfl,
    carry6_pos V c _ _ (by rw [show cfg6.N = 10 from N_6]; decide), carryEntry6]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.KernelIdeal.Gen
end
-- ==== Proof.KI.MlpRun8.lean ====
/-
  Region 8 of the program: the perceptron-with-statistics step of one layer, over ten row tiles of 1000.
  At a tile: a = max (max (x Wa + ba, 0) Wb + bb, 0) is stored into the tile's output block; two 1 x 512 scratch rows
  carry, from tile to tile, the column sums of a and of a*a (zeroed at the first tile, each tile adding its own
  column sums); at the last tile the two rows are copied into the two 1 x 512 outputs, which the body leaves alone
  at every other tile.
  Here: the body run whole in each of its three control cases (first tile, a middle tile, last tile), what every
  buffer it writes holds afterwards, the accumulation from tile to tile, the invariant carrying the two scratch rows,
  and the region's proof data and body obligation at any contents V the region is entered from.
-/
import proofs.«100381_j2018634629568_1_alg».proof.Proof.Gen.KernelIdeal.Launch
import proofs.«100381_j2018634629568_1_alg».proof.Proof.Gen.KernelIdeal.Skeleton
import proofs.«100381_j2018634629568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- The body's first conditional: this is the first tile. -/
abbrev firstCond8 (i : grid8.Coords) : Prop := (Scalar.cmpi .ne (Scalar.extui (Scalar.cmpi .eq (BitVec.ofNat 32 (i 0).val) 0#32)) 0#32) = 1#1
theorem firstCond8_iff : ∀ t : Fin cfg8.N, firstCond8 (grid8.coords t) ↔ t.val % 10 = 0 :=
  (by decide +kernel : ∀ t : Fin grid8.N, firstCond8 (grid8.coords t) ↔ t.val % 10 = 0)
/-- The body's second conditional: this is the last tile. -/
abbrev lastCond8 (i : grid8.Coords) : Prop := k8_cond2 i = 1#1
theorem lastCond8_iff : ∀ t : Fin cfg8.N, lastCond8 (grid8.coords t) ↔ t.val % 10 = 9 :=
  (by decide +kernel : ∀ t : Fin grid8.N, lastCond8 (grid8.coords t) ↔ t.val % 10 = 9)

/-! ## Where the windows are idle -/
theorem live8_0 : ∀ t : Fin cfg8.N, cfg8.idle 0 (grid8.coords t) = false := by decide +kernel
theorem live8_1 : ∀ t : Fin cfg8.N, cfg8.idle 1 (grid8.coords t) = false := by decide +kernel
theorem live8_2 : ∀ t : Fin cfg8.N, cfg8.idle 2 (grid8.coords t) = false := by decide +kernel
theorem live8_3 : ∀ t : Fin cfg8.N, cfg8.idle 3 (grid8.coords t) = false := by decide +kernel
theorem live8_4 : ∀ t : Fin cfg8.N, cfg8.idle 4 (grid8.coords t) = false := by decide +kernel
theorem live8_5 : ∀ t : Fin cfg8.N, cfg8.idle 5 (grid8.coords t) = false := by decide +kernel
/-- Away from the last tile the two statistics outputs are idle and not written back. -/
theorem idle8_6 : ∀ t : Fin cfg8.N, ¬lastCond8 (grid8.coords t) → cfg8.idle 6 (grid8.coords t) = true := by decide +kernel
theorem idle8_7 : ∀ t : Fin cfg8.N, ¬lastCond8 (grid8.coords t) → cfg8.idle 7 (grid8.coords t) = true := by decide +kernel
theorem noFlush8_6 : ∀ t : Fin cfg8.N, ¬lastCond8 (grid8.coords t) → (cfg8.win 6).flush t = false := by decide +kernel
theorem noFlush8_7 : ∀ t : Fin cfg8.N, ¬lastCond8 (grid8.coords t) → (cfg8.win 7).flush t = false := by decide +kernel
/-- At the last tile they are live. -/
theorem live8_6 : ∀ t : Fin cfg8.N, lastCond8 (grid8.coords t) → cfg8.idle 6 (grid8.coords t) = false := by decide +kernel
theorem live8_7 : ∀ t : Fin cfg8.N, lastCond8 (grid8.coords t) → cfg8.idle 7 (grid8.coords t) = false := by decide +kernel

/-! ## The staging memrefs at a point, the scratch rows, and the views contents are stated through -/
abbrev ms8_0 (t : Fin cfg8.N) : Memref sig .tc .vmem S1000x512 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S512x512 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x512 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S512x512 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x512 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1000x512 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1x512 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x512 .f32 := win8_7.stage (cfg8.slots t 7)
abbrev hs8_7 (t : Fin cfg8.N) : (ms8_7 t).IsWhole := hstage8_7 ((cfg8.slots t 7).cast nbuf8_7)
/-- The two scratch rows: whole scoped buffers of the kernel's own. -/
abbrev sc8_0 : Memref sig .tc .vmem S1x512 .f32 := Memref.whole cc8_scratch0
abbrev sc8_1 : Memref sig .tc .vmem S1x512 .f32 := Memref.whole cc8_scratch1
/-- The views through which a tile's and a row's contents are stated (the choice does not matter). -/
abbrev tileView8 : View sig .tc .vmem S1000x512 .f32 := (Memref.whole cc8_stg5_0 : Memref sig .tc .vmem S1000x512 .f32).view
abbrev rowView8 : View sig .tc .vmem S1x512 .f32 := sc8_0.view

/-! ## The body, run whole in each of its three cases -/

set_option maxHeartbeats 2000000 in
/-- FIRST TILE (first conditional taken, second not). The pieces the output tile and the two scratch rows end with,
    with the run: the five inputs read and left as they were, the two statistics outputs handed back untouched,
    the scratch rows entered at anything. -/
noncomputable def runFirst8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc8__mlp_stats_kernel_eq_skeleton]; unfold cc8__mlp_stats_kernel_skel
    simp only [k8_part1_eq_skeleton]; unfold k8_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- A MIDDLE TILE (neither conditional taken): as the first, the scratch rows entered at what the tile before left. -/
noncomputable def runMid8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L9 : List (View.Piece (Elt F) S1x512 .f32)), { L10 : List (View.Piece (Elt F) S1x512 .f32) //
      ∀ (y7 y8 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare y7 ∗ owns (c : Thread nD τ) arg8 fullShare y8
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ owns (c : Thread nD τ) arg7 fullShare y7 ∗ owns (c : Thread nD τ) arg8 fullShare y8
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10) K } := by
  refine ⟨?_, ?_, ?_, fun y7 y8 E K => ?run⟩
  case run =>
    simp only [cc8__mlp_stats_kernel_eq_skeleton]; unfold cc8__mlp_stats_kernel_skel
    simp only [k8_part1_eq_skeleton]; unfold k8_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg7.eq_unread hf7; obtain rfl := harg8.eq_unread hf8
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 2000000 in
/-- THE LAST TILE (second conditional taken, first not): the two statistics outputs written too. -/
noncomputable def runLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) :
    Σ' (L6 : List (View.Piece (Elt F) S1000x512 .f32)) (L7 : List (View.Piece (Elt F) S1x512 .f32)) (L8 : List (View.Piece (Elt F) S1x512 .f32))
        (L9 : List (View.Piece (Elt F) S1x512 .f32)), { L10 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s ∗ owns (c : Thread nD τ) arg10 fullShare q
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc8__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc8__mlp_stats_kernel_eq_skeleton]; unfold cc8__mlp_stats_kernel_skel
    simp only [k8_part1_eq_skeleton]; unfold k8_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | exact h1 | exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Gen
end
-- ==== Proof.KI.MlpDat8.lean ====
/-
  Region 8 of the program, continued: what the output tile, the two statistics outputs and the two scratch rows
  hold after the body at each tile (the accumulation: the first tile from zero, every later tile from what the tile
  before left), the invariant that carries the two scratch rows from tile to tile, the region's proof data at any
  contents V the region is entered from, and the body obligation.
-/
import proofs.«100381_j2018634629568_1_alg».proof.Proof.KI.MlpRun8

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back through a fixed view; the pieces cover their buffers -/

theorem tileFirst8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  (y : S1000x512.Idx) :
    ∃ pc ∈ (runFirst8 c i arg1 harg1 arg2 harg2 arg3 harg3 arg4 harg4 arg5 harg5 arg6 harg6 arg7 harg7 arg8 harg8 arg9 harg9 arg10 harg10 h1 h2 x0 x1 x2 x3 x4 ).1, y ∈ pc.1.set :=
  View.cover_of_tiledL (runFirst8 c i arg1 harg1 arg2 harg2 arg3 harg3 arg4 harg4 arg5 harg5 arg6 harg6 arg7 harg7 arg8 harg8 arg9 harg9 arg10 harg10 h1 h2 x0 x1 x2 x3 x4 ).1 S1000x512.size (by sl_kernel_rfl) y
def tileFirst8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  : Vec F S1000x512 .f32 :=
  tileView8.read (Elt F) (tileView8.writes (Elt F) tileView8.junk (runFirst8 c i arg1 harg1 arg2 harg2 arg3 harg3 arg4 harg4 arg5 harg5 arg6 harg6 arg7 harg7 arg8 harg8 arg9 harg9 arg10 harg10 h1 h2 x0 x1 x2 x3 x4 ).1)

theorem sumFirst8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst8 c i arg1 harg1 arg2 harg2 arg3 harg3 arg4 harg4 arg5 harg5 arg6 harg6 arg7 harg7 arg8 harg8 arg9 harg9 arg10 harg10 h1 h2 x0 x1 x2 x3 x4 ).2.1, y ∈ pc.1.set :=
  View.cover_of_tiledL (runFirst8 c i arg1 harg1 arg2 harg2 arg3 harg3 arg4 harg4 arg5 harg5 arg6 harg6 arg7 harg7 arg8 harg8 arg9 harg9 arg10 harg10 h1 h2 x0 x1 x2 x3 x4 ).2.1 S1x512.size (by sl_kernel_rfl) y
def sumFirst8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  : Vec F S1x512 .f32 :=
  rowView8.read (Elt F) (rowView8.writes (Elt F) rowView8.junk (runFirst8 c i arg1 harg1 arg2 harg2 arg3 harg3 arg4 harg4 arg5 harg5 arg6 harg6 arg7 harg7 arg8 harg8 arg9 harg9 arg10 harg10 h1 h2 x0 x1 x2 x3 x4 ).2.1)

theorem sqFirst8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  (y : S1x512.Idx) :
    ∃ pc ∈ (runFirst8 c i arg1 harg1 arg2 harg2 arg3 harg3 arg4 harg4 arg5 harg5 arg6 harg6 arg7 harg7 arg8 harg8 arg9 harg9 arg10 harg10 h1 h2 x0 x1 x2 x3 x4 ).2.2.1, y ∈ pc.1.set :=
  View.cover_of_tiledL (runFirst8 c i arg1 harg1 arg2 harg2 arg3 harg3 arg4 harg4 arg5 harg5 arg6 harg6 arg7 harg7 arg8 harg8 arg9 harg9 arg10 harg10 h1 h2 x0 x1 x2 x3 x4 ).2.2.1 S1x512.size (by sl_kernel_rfl) y
def sqFirst8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32)  : Vec F S1x512 .f32 :=
  rowView8.read (Elt F) (rowView8.writes (Elt F) rowView8.junk (runFirst8 c i arg1 harg1 arg2 harg2 arg3 harg3 arg4 harg4 arg5 harg5 arg6 harg6 arg7 harg7 arg8 harg8 arg9 harg9 arg10 harg10 h1 h2 x0 x1 x2 x3 x4 ).2.2.1)

theorem tileMid8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runMid8 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runMid8 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileMid8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView8.read (Elt F) (tileView8.writes (Elt F) tileView8.junk (runMid8 c i arg1 harg1 arg2 harg2 arg3 harg3 arg4 harg4 arg5 harg5 arg6 harg6 arg7 harg7 arg8 harg8 arg9 harg9 arg10 harg10 h1 h2 x0 x1 x2 x3 x4 s q).1)

theorem sumMid8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid8 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runMid8 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def sumMid8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runMid8 c i arg1 harg1 arg2 harg2 arg3 harg3 arg4 harg4 arg5 harg5 arg6 harg6 arg7 harg7 arg8 harg8 arg9 harg9 arg10 harg10 h1 h2 x0 x1 x2 x3 x4 s q).2.1)

theorem sqMid8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runMid8 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runMid8 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def sqMid8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runMid8 c i arg1 harg1 arg2 harg2 arg3 harg3 arg4 harg4 arg5 harg5 arg6 harg6 arg7 harg7 arg8 harg8 arg9 harg9 arg10 harg10 h1 h2 x0 x1 x2 x3 x4 s q).2.2.1)

theorem tileLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1000x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).1 S1000x512.size (by sl_kernel_rfl) y
def tileLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1000x512 .f32 :=
  tileView8.read (Elt F) (tileView8.writes (Elt F) tileView8.junk (runLast8 c i arg1 harg1 arg2 harg2 arg3 harg3 arg4 harg4 arg5 harg5 arg6 harg6 arg7 harg7 arg8 harg8 arg9 harg9 arg10 harg10 h1 h2 x0 x1 x2 x3 x4 s q).1)

theorem outSumLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).2.1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).2.1 S1x512.size (by sl_kernel_rfl) y
def outSumLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runLast8 c i arg1 harg1 arg2 harg2 arg3 harg3 arg4 harg4 arg5 harg5 arg6 harg6 arg7 harg7 arg8 harg8 arg9 harg9 arg10 harg10 h1 h2 x0 x1 x2 x3 x4 s q).2.1)

theorem outSqLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).2.2.1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).2.2.1 S1x512.size (by sl_kernel_rfl) y
def outSqLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runLast8 c i arg1 harg1 arg2 harg2 arg3 harg3 arg4 harg4 arg5 harg5 arg6 harg6 arg7 harg7 arg8 harg8 arg9 harg9 arg10 harg10 h1 h2 x0 x1 x2 x3 x4 s q).2.2.1)

theorem sumLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).2.2.2.1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).2.2.2.1 S1x512.size (by sl_kernel_rfl) y
def sumLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runLast8 c i arg1 harg1 arg2 harg2 arg3 harg3 arg4 harg4 arg5 harg5 arg6 harg6 arg7 harg7 arg8 harg8 arg9 harg9 arg10 harg10 h1 h2 x0 x1 x2 x3 x4 s q).2.2.2.1)

theorem sqLast8_cover (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) (y : S1x512.Idx) :
    ∃ pc ∈ (runLast8 c i arg1 harg1 arg2 harg2 arg3 harg3 arg4 harg4 arg5 harg5 arg6 harg6 arg7 harg7 arg8 harg8 arg9 harg9 arg10 harg10 h1 h2 x0 x1 x2 x3 x4 s q).2.2.2.2.1, y ∈ pc.1.set :=
  View.cover_of_tiledL (runLast8 c i arg1 harg1 arg2 harg2 arg3 harg3 arg4 harg4 arg5 harg5 arg6 harg6 arg7 harg7 arg8 harg8 arg9 harg9 arg10 harg10 h1 h2 x0 x1 x2 x3 x4 s q).2.2.2.2.1 S1x512.size (by sl_kernel_rfl) y
def sqLast8 (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) : Vec F S1x512 .f32 :=
  rowView8.read (Elt F) (rowView8.writes (Elt F) rowView8.junk (runLast8 c i arg1 harg1 arg2 harg2 arg3 harg3 arg4 harg4 arg5 harg5 arg6 harg6 arg7 harg7 arg8 harg8 arg9 harg9 arg10 harg10 h1 h2 x0 x1 x2 x3 x4 s q).2.2.2.2.1)

/-- The invariant's class form with the two scratch rows as memrefs owned at some contents, the other scoped buffers
    unopened. -/
theorem carryEntry8 (c : Dev nD) :
    (Pipeline.ΦA spec8 c : sProp 𝕄)
      = iprop(iprop(iprop((∃ d, owns (c : Thread nD τ) sc8_0 fullShare d) ∗ (∃ d, owns (c : Thread nD τ) sc8_1 fullShare d))
          ∗ Pipeline.scopedRestBut (Ix := Unit) (Name := ℕ) (U := UR sig nD τ) (Lvl := ℕ) (Val := Elt F) spec8 c [cc8_scratch0, cc8_scratch1])
          ∗ (∃ r, prngReg c r)) := by
  unfold Pipeline.ΦA; rw [scopedRest8_split]; simp only [sc8_0, sc8_1, owns_whole]
  rfl

section
variable (V : (c : Dev nD) → (b : Ref sig .tc) → Buf (Elt F) ((c : Thread nD τ).loc b))

/-- Window w's block at grid point t, read off the window's array as the region finds it. -/
def blockAt8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's staging buffer holds the window's block at every point, fetched there or not. -/
theorem found8_0 {c : Dev nD} (dat : Dat τ (Elt F) Unit ℕ (UR sig nD τ) ℕ cfg8 c) (hA : dat.A 0 = V c (Pipeline.arrRef spec8 0))
    (hafter : ∀ t, dat.after 0 t = blockAt8 V c 0 t) (t : Fin cfg8.N) (d) : dat.before 0 t d = blockAt8 V c 0 t :=
  (dat.before_in_eq_fetched 0 rfl (fun _ => rfl) (fun _ _ _ => rfl) (fun t => by rw [hafter]; unfold Dat.blockOf blockAt8; rw [hA]; try rfl) t d).trans
    (by unfold Dat.fetched Dat.blockOf blockAt8; rw [hA]; try rfl)
theorem found8_1 {c : Dev nD} (dat : Dat τ (Elt F) Unit ℕ (UR sig nD τ) ℕ cfg8 c) (hA : dat.A 1 = V c (Pipeline.arrRef spec8 1))
    (hafter : ∀ t, dat.after 1 t = blockAt8 V c 1 t) (t : Fin cfg8.N) (d) : dat.before 1 t d = blockAt8 V c 1 t :=
  (dat.before_in_eq_fetched 1 rfl (fun _ => rfl) (fun _ _ _ => rfl) (fun t => by rw [hafter]; unfold Dat.blockOf blockAt8; rw [hA]; try rfl) t d).trans
    (by unfold Dat.fetched Dat.blockOf blockAt8; rw [hA]; try rfl)
theorem found8_2 {c : Dev nD} (dat : Dat τ (Elt F) Unit ℕ (UR sig nD τ) ℕ cfg8 c) (hA : dat.A 2 = V c (Pipeline.arrRef spec8 2))
    (hafter : ∀ t, dat.after 2 t = blockAt8 V c 2 t) (t : Fin cfg8.N) (d) : dat.before 2 t d = blockAt8 V c 2 t :=
  (dat.before_in_eq_fetched 2 rfl (fun _ => rfl) (fun _ _ _ => rfl) (fun t => by rw [hafter]; unfold Dat.blockOf blockAt8; rw [hA]; try rfl) t d).trans
    (by unfold Dat.fetched Dat.blockOf blockAt8; rw [hA]; try rfl)
theorem found8_3 {c : Dev nD} (dat : Dat τ (Elt F) Unit ℕ (UR sig nD τ) ℕ cfg8 c) (hA : dat.A 3 = V c (Pipeline.arrRef spec8 3))
    (hafter : ∀ t, dat.after 3 t = blockAt8 V c 3 t) (t : Fin cfg8.N) (d) : dat.before 3 t d = blockAt8 V c 3 t :=
  (dat.before_in_eq_fetched 3 rfl (fun _ => rfl) (fun _ _ _ => rfl) (fun t => by rw [hafter]; unfold Dat.blockOf blockAt8; rw [hA]; try rfl) t d).trans
    (by unfold Dat.fetched Dat.blockOf blockAt8; rw [hA]; try rfl)
theorem found8_4 {c : Dev nD} (dat : Dat τ (Elt F) Unit ℕ (UR sig nD τ) ℕ cfg8 c) (hA : dat.A 4 = V c (Pipeline.arrRef spec8 4))
    (hafter : ∀ t, dat.after 4 t = blockAt8 V c 4 t) (t : Fin cfg8.N) (d) : dat.before 4 t d = blockAt8 V c 4 t :=
  (dat.before_in_eq_fetched 4 rfl (fun _ => rfl) (fun _ _ _ => rfl) (fun t => by rw [hafter]; unfold Dat.blockOf blockAt8; rw [hA]; try rfl) t d).trans
    (by unfold Dat.fetched Dat.blockOf blockAt8; rw [hA]; try rfl)

/-! ## The accumulation -/

/-- After the body at position n: (the output tile, the column-sum output, the sum-of-squares output, the scratch row
    of column sums, the scratch row of sums of squares). The two statistics outputs are written at the last tile only;
    elsewhere their component is a placeholder nothing consults. -/
def stateAt8 (c : Dev nD) : (n : ℕ) → n < cfg8.N →
    Vec F S1000x512 .f32 × Vec F S1x512 .f32 × Vec F S1x512 .f32 × Vec F S1x512 .f32 × Vec F S1x512 .f32
  | 0, hn => (tileFirst8 c (grid8.coords (⟨0, hn⟩ : Fin cfg8.N)) (ms8_0 (⟨0, hn⟩ : Fin cfg8.N)) (hs8_0 (⟨0, hn⟩ : Fin cfg8.N)) (ms8_1 (⟨0, hn⟩ : Fin cfg8.N)) (hs8_1 (⟨0, hn⟩ : Fin cfg8.N)) (ms8_2 (⟨0, hn⟩ : Fin cfg8.N)) (hs8_2 (⟨0, hn⟩ : Fin cfg8.N)) (ms8_3 (⟨0, hn⟩ : Fin cfg8.N)) (hs8_3 (⟨0, hn⟩ : Fin cfg8.N)) (ms8_4 (⟨0, hn⟩ : Fin cfg8.N)) (hs8_4 (⟨0, hn⟩ : Fin cfg8.N)) (ms8_5 (⟨0, hn⟩ : Fin cfg8.N)) (hs8_5 (⟨0, hn⟩ : Fin cfg8.N)) (ms8_6 (⟨0, hn⟩ : Fin cfg8.N)) (hs8_6 (⟨0, hn⟩ : Fin cfg8.N)) (ms8_7 (⟨0, hn⟩ : Fin cfg8.N)) (hs8_7 (⟨0, hn⟩ : Fin cfg8.N)) sc8_0 (Memref.isWhole_whole _) sc8_1 (Memref.isWhole_whole _) ((firstCond8_iff (⟨0, hn⟩ : Fin cfg8.N)).mpr (Nat.zero_mod _)) (fun h => by have h' := (lastCond8_iff (⟨0, hn⟩ : Fin cfg8.N)).mp h; (try dsimp only at h'); omega) (blockAt8 V c 0 (⟨0, hn⟩ : Fin cfg8.N)) (blockAt8 V c 1 (⟨0, hn⟩ : Fin cfg8.N)) (blockAt8 V c 2 (⟨0, hn⟩ : Fin cfg8.N)) (blockAt8 V c 3 (⟨0, hn⟩ : Fin cfg8.N)) (blockAt8 V c 4 (⟨0, hn⟩ : Fin cfg8.N)),
      (rowView8.read (Elt F) rowView8.junk), (rowView8.read (Elt F) rowView8.junk),
      sumFirst8 c (grid8.coords (⟨0, hn⟩ : Fin cfg8.N)) (ms8_0 (⟨0, hn⟩ : Fin cfg8.N)) (hs8_0 (⟨0, hn⟩ : Fin cfg8.N)) (ms8_1 (⟨0, hn⟩ : Fin cfg8.N)) (hs8_1 (⟨0, hn⟩ : Fin cfg8.N)) (ms8_2 (⟨0, hn⟩ : Fin cfg8.N)) (hs8_2 (⟨0, hn⟩ : Fin cfg8.N)) (ms8_3 (⟨0, hn⟩ : Fin cfg8.N)) (hs8_3 (⟨0, hn⟩ : Fin cfg8.N)) (ms8_4 (⟨0, hn⟩ : Fin cfg8.N)) (hs8_4 (⟨0, hn⟩ : Fin cfg8.N)) (ms8_5 (⟨0, hn⟩ : Fin cfg8.N)) (hs8_5 (⟨0, hn⟩ : Fin cfg8.N)) (ms8_6 (⟨0, hn⟩ : Fin cfg8.N)) (hs8_6 (⟨0, hn⟩ : Fin cfg8.N)) (ms8_7 (⟨0, hn⟩ : Fin cfg8.N)) (hs8_7 (⟨0, hn⟩ : Fin cfg8.N)) sc8_0 (Memref.isWhole_whole _) sc8_1 (Memref.isWhole_whole _) ((firstCond8_iff (⟨0, hn⟩ : Fin cfg8.N)).mpr (Nat.zero_mod _)) (fun h => by have h' := (lastCond8_iff (⟨0, hn⟩ : Fin cfg8.N)).mp h; (try dsimp only at h'); omega) (blockAt8 V c 0 (⟨0, hn⟩ : Fin cfg8.N)) (blockAt8 V c 1 (⟨0, hn⟩ : Fin cfg8.N)) (blockAt8 V c 2 (⟨0, hn⟩ : Fin cfg8.N)) (blockAt8 V c 3 (⟨0, hn⟩ : Fin cfg8.N)) (blockAt8 V c 4 (⟨0, hn⟩ : Fin cfg8.N)),
      sqFirst8 c (grid8.coords (⟨0, hn⟩ : Fin cfg8.N)) (ms8_0 (⟨0, hn⟩ : Fin cfg8.N)) (hs8_0 (⟨0, hn⟩ : Fin cfg8.N)) (ms8_1 (⟨0, hn⟩ : Fin cfg8.N)) (hs8_1 (⟨0, hn⟩ : Fin cfg8.N)) (ms8_2 (⟨0, hn⟩ : Fin cfg8.N)) (hs8_2 (⟨0, hn⟩ : Fin cfg8.N)) (ms8_3 (⟨0, hn⟩ : Fin cfg8.N)) (hs8_3 (⟨0, hn⟩ : Fin cfg8.N)) (ms8_4 (⟨0, hn⟩ : Fin cfg8.N)) (hs8_4 (⟨0, hn⟩ : Fin cfg8.N)) (ms8_5 (⟨0, hn⟩ : Fin cfg8.N)) (hs8_5 (⟨0, hn⟩ : Fin cfg8.N)) (ms8_6 (⟨0, hn⟩ : Fin cfg8.N)) (hs8_6 (⟨0, hn⟩ : Fin cfg8.N)) (ms8_7 (⟨0, hn⟩ : Fin cfg8.N)) (hs8_7 (⟨0, hn⟩ : Fin cfg8.N)) sc8_0 (Memref.isWhole_whole _) sc8_1 (Memref.isWhole_whole _) ((firstCond8_iff (⟨0, hn⟩ : Fin cfg8.N)).mpr (Nat.zero_mod _)) (fun h => by have h' := (lastCond8_iff (⟨0, hn⟩ : Fin cfg8.N)).mp h; (try dsimp only at h'); omega) (blockAt8 V c 0 (⟨0, hn⟩ : Fin cfg8.N)) (blockAt8 V c 1 (⟨0, hn⟩ : Fin cfg8.N)) (blockAt8 V c 2 (⟨0, hn⟩ : Fin cfg8.N)) (blockAt8 V c 3 (⟨0, hn⟩ : Fin cfg8.N)) (blockAt8 V c 4 (⟨0, hn⟩ : Fin cfg8.N)))
  | n + 1, hn =>
    if hl : (n + 1) % 10 = 9 then
      (tileLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       outSumLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       outSqLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       sumLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       sqLast8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) ((lastCond8_iff (⟨n + 1, hn⟩ : Fin cfg8.N)).mpr hl) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2)
    else
      (tileMid8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) (fun h => hl ((lastCond8_iff (⟨n + 1, hn⟩ : Fin cfg8.N)).mp h)) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       (rowView8.read (Elt F) rowView8.junk), (rowView8.read (Elt F) rowView8.junk),
       sumMid8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) (fun h => hl ((lastCond8_iff (⟨n + 1, hn⟩ : Fin cfg8.N)).mp h)) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2,
       sqMid8 c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) sc8_0 (Memref.isWhole_whole _) sc8_1 (Memref.isWhole_whole _) (fun h => by have h' := (firstCond8_iff (⟨n + 1, hn⟩ : Fin cfg8.N)).mp h; have hN : n + 1 < 10 := lt_of_lt_of_eq hn (show cfg8.N = 10 from N_8); (try dsimp only at h'); omega) (fun h => hl ((lastCond8_iff (⟨n + 1, hn⟩ : Fin cfg8.N)).mp h)) (blockAt8 V c 0 (⟨n + 1, hn⟩ : Fin cfg8.N)) (blockAt8 V c 1 (⟨n + 1, hn⟩ : Fin cfg8.N)) (blockAt8 V c 2 (⟨n + 1, hn⟩ : Fin cfg8.N)) (blockAt8 V c 3 (⟨n + 1, hn⟩ : Fin cfg8.N)) (blockAt8 V c 4 (⟨n + 1, hn⟩ : Fin cfg8.N)) (stateAt8 c n (Nat.lt_of_succ_lt hn)).2.2.2.1 (stateAt8 c n (Nat.lt_of_succ_lt hn)).2.2.2.2)

theorem stateAt8_first (c : Dev nD) (t : Fin cfg8.N) (hf : t.val % 10 = 0) (hl : ¬t.val % 10 = 9) :
    stateAt8 V c t.val t.isLt = (tileFirst8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) ((firstCond8_iff t).mpr hf) (fun h => hl ((lastCond8_iff t).mp h)) (blockAt8 V c 0 t) (blockAt8 V c 1 t) (blockAt8 V c 2 t) (blockAt8 V c 3 t) (blockAt8 V c 4 t),
      (rowView8.read (Elt F) rowView8.junk), (rowView8.read (Elt F) rowView8.junk),
      sumFirst8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) ((firstCond8_iff t).mpr hf) (fun h => hl ((lastCond8_iff t).mp h)) (blockAt8 V c 0 t) (blockAt8 V c 1 t) (blockAt8 V c 2 t) (blockAt8 V c 3 t) (blockAt8 V c 4 t),
      sqFirst8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) ((firstCond8_iff t).mpr hf) (fun h => hl ((lastCond8_iff t).mp h)) (blockAt8 V c 0 t) (blockAt8 V c 1 t) (blockAt8 V c 2 t) (blockAt8 V c 3 t) (blockAt8 V c 4 t)) := by
  obtain ⟨n, hn⟩ := t
  have hN : n < 10 := lt_of_lt_of_eq hn (show cfg8.N = 10 from N_8)
  cases n with
  | zero => exact rfl
  | succ n => exfalso; (try dsimp only at hf); omega

theorem stateAt8_mid (c : Dev nD) (t : Fin cfg8.N) (hf : ¬t.val % 10 = 0) (hl : ¬t.val % 10 = 9) :
    stateAt8 V c t.val t.isLt = (tileMid8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) (fun h => hl ((lastCond8_iff t).mp h)) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      (rowView8.read (Elt F) rowView8.junk), (rowView8.read (Elt F) rowView8.junk),
      sumMid8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) (fun h => hl ((lastCond8_iff t).mp h)) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      sqMid8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) (fun h => hl ((lastCond8_iff t).mp h)) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_neg hl).trans rfl

theorem stateAt8_last (c : Dev nD) (t : Fin cfg8.N) (hf : ¬t.val % 10 = 0) (hl : t.val % 10 = 9) :
    stateAt8 V c t.val t.isLt = (tileLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      outSumLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      outSqLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      sumLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2,
      sqLast8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2) := by
  obtain ⟨n, hn⟩ := t
  cases n with
  | zero => exact (by exfalso; (try dsimp only at hf); exact absurd (Nat.zero_mod _) hf)
  | succ n => exact (dif_pos hl).trans rfl

/-! ## The invariant: the two scratch rows carried from tile to tile -/

/-- Before position n: before the first tile the class's invariant (every scratch at anything); afterwards the two
    scratch rows at what the tile before left, the other scoped buffers unopened, the generator register at some state. -/
def carry8 (c : Dev nD) : (n : ℕ) → n ≤ cfg8.N → sProp 𝕄
  | 0, _ => Pipeline.ΦA spec8 c
  | n + 1, hn => iprop(iprop(iprop(owns (c : Thread nD τ) sc8_0 fullShare (stateAt8 V c n hn).2.2.2.1 ∗ owns (c : Thread nD τ) sc8_1 fullShare (stateAt8 V c n hn).2.2.2.2)
      ∗ Pipeline.scopedRestBut (Ix := Unit) (Name := ℕ) (U := UR sig nD τ) (Lvl := ℕ) (Val := Elt F) spec8 c [cc8_scratch0, cc8_scratch1])
      ∗ (∃ r, prngReg c r))

theorem carry8_zero (c : Dev nD) (n : ℕ) (h : n ≤ cfg8.N) (hz : n = 0) : carry8 V c n h = Pipeline.ΦA spec8 c := by
  subst hz; rfl
theorem carry8_succ (c : Dev nD) (n : ℕ) (hn : n < cfg8.N) :
    carry8 V c (n + 1) hn = iprop(iprop(iprop(owns (c : Thread nD τ) sc8_0 fullShare (stateAt8 V c n hn).2.2.2.1 ∗ owns (c : Thread nD τ) sc8_1 fullShare (stateAt8 V c n hn).2.2.2.2)
      ∗ Pipeline.scopedRestBut (Ix := Unit) (Name := ℕ) (U := UR sig nD τ) (Lvl := ℕ) (Val := Elt F) spec8 c [cc8_scratch0, cc8_scratch1])
      ∗ (∃ r, prngReg c r)) := rfl
theorem carry8_pos (c : Dev nD) (n : ℕ) (h : n ≤ cfg8.N) (hz : n ≠ 0) :
    carry8 V c n h = iprop(iprop(iprop(owns (c : Thread nD τ) sc8_0 fullShare (stateAt8 V c (n - 1) (by omega)).2.2.2.1 ∗ owns (c : Thread nD τ) sc8_1 fullShare (stateAt8 V c (n - 1) (by omega)).2.2.2.2)
      ∗ Pipeline.scopedRestBut (Ix := Unit) (Name := ℕ) (U := UR sig nD τ) (Lvl := ℕ) (Val := Elt F) spec8 c [cc8_scratch0, cc8_scratch1])
      ∗ (∃ r, prngReg c r)) := by
  cases n with
  | zero => exact absurd rfl hz
  | succ n => rfl

/-! ## The region's proof data -/

def dat8 (c : Dev nD) : Dat τ (Elt F) Unit ℕ (UR sig nD τ) ℕ cfg8 c where
  A w := V c (Pipeline.arrRef spec8 w)
  after w t := match w with
    | ⟨0, _⟩ => blockAt8 V c 0 t
    | ⟨1, _⟩ => blockAt8 V c 1 t
    | ⟨2, _⟩ => blockAt8 V c 2 t
    | ⟨3, _⟩ => blockAt8 V c 3 t
    | ⟨4, _⟩ => blockAt8 V c 4 t
    | ⟨5, _⟩ => (stateAt8 V c t.val t.isLt).1
    | ⟨6, _⟩ => (stateAt8 V c t.val t.isLt).2.1
    | ⟨7, _⟩ => (stateAt8 V c t.val t.isLt).2.2.1
  Φ t := carry8 V c t.val (Nat.le_of_lt_succ t.isLt)
  q _ := fullShare
  owed _ := 0

theorem dat8_A (c : Dev nD) (w : Fin cfg8.W) : (dat8 V c).A w = V c (Pipeline.arrRef spec8 w) := by
  dsimp only [dat8]
theorem dat8_carry (c : Dev nD) (t : Fin cfg8.N) :
    (dat8 V c).Φ t.castSucc = carry8 V c t.val (Nat.le_of_lt t.isLt) := by
  dsimp only [dat8]; simp only [Fin.coe_castSucc]
theorem dat8_after0 (c : Dev nD) (t : Fin cfg8.N) : (dat8 V c).after 0 t = blockAt8 V c 0 t := by dsimp only [dat8]
theorem dat8_after1 (c : Dev nD) (t : Fin cfg8.N) : (dat8 V c).after 1 t = blockAt8 V c 1 t := by dsimp only [dat8]
theorem dat8_after2 (c : Dev nD) (t : Fin cfg8.N) : (dat8 V c).after 2 t = blockAt8 V c 2 t := by dsimp only [dat8]
theorem dat8_after3 (c : Dev nD) (t : Fin cfg8.N) : (dat8 V c).after 3 t = blockAt8 V c 3 t := by dsimp only [dat8]
theorem dat8_after4 (c : Dev nD) (t : Fin cfg8.N) : (dat8 V c).after 4 t = blockAt8 V c 4 t := by dsimp only [dat8]
theorem dat8_after5 (c : Dev nD) (t : Fin cfg8.N) : (dat8 V c).after 5 t = (stateAt8 V c t.val t.isLt).1 := by dsimp only [dat8]
theorem dat8_after6 (c : Dev nD) (t : Fin cfg8.N) : (dat8 V c).after 6 t = (stateAt8 V c t.val t.isLt).2.1 := by dsimp only [dat8]
theorem dat8_after7 (c : Dev nD) (t : Fin cfg8.N) : (dat8 V c).after 7 t = (stateAt8 V c t.val t.isLt).2.2.1 := by dsimp only [dat8]
theorem dat8_before0 (c : Dev nD) (t : Fin cfg8.N) (d) : (dat8 V c).before 0 t d = blockAt8 V c 0 t :=
  found8_0 V (dat8 V c) (dat8_A V c 0) (dat8_after0 V c) t d
theorem dat8_before1 (c : Dev nD) (t : Fin cfg8.N) (d) : (dat8 V c).before 1 t d = blockAt8 V c 1 t :=
  found8_1 V (dat8 V c) (dat8_A V c 1) (dat8_after1 V c) t d
theorem dat8_before2 (c : Dev nD) (t : Fin cfg8.N) (d) : (dat8 V c).before 2 t d = blockAt8 V c 2 t :=
  found8_2 V (dat8 V c) (dat8_A V c 2) (dat8_after2 V c) t d
theorem dat8_before3 (c : Dev nD) (t : Fin cfg8.N) (d) : (dat8 V c).before 3 t d = blockAt8 V c 3 t :=
  found8_3 V (dat8 V c) (dat8_A V c 3) (dat8_after3 V c) t d
theorem dat8_before4 (c : Dev nD) (t : Fin cfg8.N) (d) : (dat8 V c).before 4 t d = blockAt8 V c 4 t :=
  found8_4 V (dat8 V c) (dat8_A V c 4) (dat8_after4 V c) t d

/-! ## The body obligation -/

def pre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

def post8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
theorem pointRun8 (c : Dev nD) (t : Fin cfg8.N) :
    pre8 V c t ⊢ wp frame (wpE (defs₀ (F := F)) Variants.none c none) Set.univ (bodyAt8 t) (fun _ => post8 V c t) := by
  unfold pre8 post8 bodyAt8
  simp only [dat8_before0, dat8_before1, dat8_before2, dat8_before3, dat8_before4]
  rw [show (dat8 V c).owesAt () t.succ = (dat8 V c).owesAt () t.castSucc from rfl]
  rw [show (dat8 V c).Φ t.succ = carry8 V c (t.val + 1) t.isLt from rfl, carry8_succ]
  rw [show (dat8 V c).leavesExact 0 t = owns (c : Thread nD τ) (ms8_0 t) fullShare ((dat8 V c).after 0 t) from by
    unfold Dat.leavesExact; rw [live8_0 t], dat8_after0]
  rw [show (dat8 V c).leavesExact 1 t = owns (c : Thread nD τ) (ms8_1 t) fullShare ((dat8 V c).after 1 t) from by
    unfold Dat.leavesExact; rw [live8_1 t], dat8_after1]
  rw [show (dat8 V c).leavesExact 2 t = owns (c : Thread nD τ) (ms8_2 t) fullShare ((dat8 V c).after 2 t) from by
    unfold Dat.leavesExact; rw [live8_2 t], dat8_after2]
  rw [show (dat8 V c).leavesExact 3 t = owns (c : Thread nD τ) (ms8_3 t) fullShare ((dat8 V c).after 3 t) from by
    unfold Dat.leavesExact; rw [live8_3 t], dat8_after3]
  rw [show (dat8 V c).leavesExact 4 t = owns (c : Thread nD τ) (ms8_4 t) fullShare ((dat8 V c).after 4 t) from by
    unfold Dat.leavesExact; rw [live8_4 t], dat8_after4]
  rw [show (dat8 V c).leavesExact 5 t = owns (c : Thread nD τ) (ms8_5 t) fullShare ((dat8 V c).after 5 t) from by
    unfold Dat.leavesExact; rw [live8_5 t], dat8_after5]
  have hN : t.val < 10 := lt_of_lt_of_eq t.isLt (show cfg8.N = 10 from N_8)
  by_cases hf : t.val % 10 = 0
  · have hl : ¬t.val % 10 = 9 := by omega
    have hz : t.val = 0 := by omega
    rw [Dat.leavesExact_idle (dat8 V c) 6 t (idle8_6 t (fun h => hl ((lastCond8_iff t).mp h))) (noFlush8_6 t (fun h => hl ((lastCond8_iff t).mp h)))]
    rw [Dat.leavesExact_idle (dat8 V c) 7 t (idle8_7 t (fun h => hl ((lastCond8_iff t).mp h))) (noFlush8_7 t (fun h => hl ((lastCond8_iff t).mp h)))]
    rw [stateAt8_first V c t hf hl]
    unfold tileFirst8 sumFirst8 sqFirst8; (try dsimp only)
    rw [dat8_carry V c t, carry8_zero V c _ _ hz, carryEntry8]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst8 c (grid8.coords t) _ _ _ _ _ _ _ _ _ _ _ _ _ _ _ _ _ _ _ _ ((firstCond8_iff t).mpr hf) (fun h => hl ((lastCond8_iff t).mp h)) (blockAt8 V c 0 t) (blockAt8 V c 1 t) (blockAt8 V c 2 t) (blockAt8 V c 3 t) (blockAt8 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%e9, HS0⟩, ⟨%e10, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (sumFirst8_cover c _ _ _ _ _ _ _ _ _ _ _ _ _ _ _ _ _ _ _ _ _ _ _ _ _ _ _ _)
          · unfold owns; iexists _; isplitr
            swap; · iexact HS1
            ipureintro; exact View.read_writes_of_cover _ _ _ _ _ (sqFirst8_cover c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (tileFirst8_cover c _ _ _ _ _ _ _ _ _ _ _ _ _ _ _ _ _ _ _ _ _ _ _ _ _ _ _ _)
    isplitl [H6]; · iexists _; iexact H6
    iexists _; iexact H7
  · have hz : t.val ≠ 0 := by omega
    by_cases hl : t.val % 10 = 9
    · rw [show (dat8 V c).leavesExact 6 t = owns (c : Thread nD τ) (ms8_6 t) fullShare ((dat8 V c).after 6 t) from by
        unfold Dat.leavesExact; rw [live8_6 t ((lastCond8_iff t).mpr hl)], dat8_after6]
      rw [show (dat8 V c).leavesExact 7 t = owns (c : Thread nD τ) (ms8_7 t) fullShare ((dat8 V c).after 7 t) from by
        unfold Dat.leavesExact; rw [live8_7 t ((lastCond8_iff t).mpr hl)], dat8_after7]
      rw [stateAt8_last V c t hf hl]
      unfold tileLast8 outSumLast8 outSqLast8 sumLast8 sqLast8; (try dsimp only)
      rw [dat8_carry V c t, carry8_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast8 c (grid8.coords t) _ _ _ _ _ _ _ _ _ _ _ _ _ _ _ _ _ _ _ _ (fun h => hf ((firstCond8_iff t).mp h)) ((lastCond8_iff t).mpr hl) (blockAt8 V c 0 t) (blockAt8 V c 1 t) (blockAt8 V c 2 t) (blockAt8 V c 3 t) (blockAt8 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumLast8_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqLast8_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileLast8_cover c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (outSumLast8_cover c _ _ _ _ _ _ _ _ _ _ _ _ _ _ _ _ _ _ _ _ _ _ _ _ _ _ _ _ _ _)
      · unfold owns; iexists _; isplitr
        swap; · iexact H7
        ipureintro; exact View.read_writes_of_cover _ _ _ _ _ (outSqLast8_cover c _ _ _ _ _ _ _ _ _ _ _ _ _ _ _ _ _ _ _ _ _ _ _ _ _ _ _ _ _ _)
    · rw [Dat.leavesExact_idle (dat8 V c) 6 t (idle8_6 t (fun h => hl ((lastCond8_iff t).mp h))) (noFlush8_6 t (fun h => hl ((lastCond8_iff t).mp h)))]
      rw [Dat.leavesExact_idle (dat8 V c) 7 t (idle8_7 t (fun h => hl ((lastCond8_iff t).mp h))) (noFlush8_7 t (fun h => hl ((lastCond8_iff t).mp h)))]
      rw [stateAt8_mid V c t hf hl]
      unfold tileMid8 sumMid8 sqMid8; (try dsimp only)
      rw [dat8_carry V c t, carry8_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid8 c (grid8.coords t) _ _ _ _ _ _ _ _ _ _ _ _ _ _ _ _ _ _ _ _ (fun h => hf ((firstCond8_iff t).mp h)) (fun h => hl ((lastCond8_iff t).mp h)) (blockAt8 V c 0 t) (blockAt8 V c 1 t) (blockAt8 V c 2 t) (blockAt8 V c 3 t) (blockAt8 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e9, HS0⟩, ⟨%e10, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (sumMid8_cover c _ _ _ _ _ _ _ _ _ _ _ _ _ _ _ _ _ _ _ _ _ _ _ _ _ _ _ _ _ _)
            · unfold owns; iexists _; isplitr
              swap; · iexact HS1
              ipureintro; exact View.read_writes_of_cover _ _ _ _ _ (sqMid8_cover c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (tileMid8_cover c _ _ _ _ _ _ _ _ _ _ _ _ _ _ _ _ _ _ _ _ _ _ _ _ _ _ _ _ _ _)
      isplitl [H6]; · iexists _; iexact H6
      iexists _; iexact H7

/-- The library's body obligation of region 8, at every point. -/
theorem obligation8 (c : Dev nD) : BodyObligation (dat8 (F := F) V c) (defs₀ (F := F)) Variants.none () Set.univ := fun t => by
  rw [bigSep_W8, bigSep_W8]
  exact pointRun8 V c t

/-- Entering the region: the class's invariant is the invariant before the first tile. -/
theorem carry8_in (c : Dev nD) : Pipeline.ΦA spec8 c ⊢ (dat8 V c).Φ 0 := by
  rw [show (dat8 V c).Φ 0 = carry8 V c 0 (Nat.zero_le _) from rfl, carry8_zero V c 0 _ rfl]
  try exact Idealize.SL.BI.Entails.refl _

/-- Leaving it: after the last tile the invariant gives the class's back, the scratch rows' contents forgotten. -/
theorem carry8_out (c : Dev nD) : (dat8 V c).Φ (Fin.last cfg8.N) ⊢ Pipeline.ΦA spec8 c := by
  rw [show (dat8 V c).Φ (Fin.last cfg8.N) = carry8 V c cfg8.N (Nat.le_refl _) from rfl,
    carry8_pos V c _ _ (by rw [show cfg8.N = 10 from N_8]; decide), carryEntry8]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end
end Cert.KernelIdeal.Gen
end
-- ==== Proof.KI.Chain.lean ====
/-
  The contents of the TensorCore's buffers between the 22 items of the program: a host stretch folds its operations
  over the contents before it; a kernel region replaces each of its windows' arrays by what its pipeline leaves
  (an input's array as entered, an output's array with every write-back folded in) and touches nothing else.
  Here: that chain from the launch memory, every region's proof data at its entry contents, the two facts the exit of
  a region needs (its arrays are at what the pipeline leaves; every other buffer is as entered), and that a buffer no
  item writes ends as launched.
-/
import proofs.«100381_j2018634629568_1_alg».proof.Proof.KI.Norm1
import proofs.«100381_j2018634629568_1_alg».proof.Proof.KI.Norm3
import proofs.«100381_j2018634629568_1_alg».proof.Proof.KI.Norm5
import proofs.«100381_j2018634629568_1_alg».proof.Proof.KI.Norm7
import proofs.«100381_j2018634629568_1_alg».proof.Proof.KI.Norm9
import proofs.«100381_j2018634629568_1_alg».proof.Proof.KI.Head10
import proofs.«100381_j2018634629568_1_alg».proof.Proof.KI.MlpDat0
import proofs.«100381_j2018634629568_1_alg».proof.Proof.KI.MlpDat2
import proofs.«100381_j2018634629568_1_alg».proof.Proof.KI.MlpDat4
import proofs.«100381_j2018634629568_1_alg».proof.Proof.KI.MlpDat6
import proofs.«100381_j2018634629568_1_alg».proof.Proof.KI.MlpDat8
import proofs.«100381_j2018634629568_1_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev X0 : Dev nD → Valuation τ sig (Elt F) := fun c b => m (c, b)

/-! ### Item 0: the host stretch before region 0; item 1: region 0 -/
/-- After the host stretch (region 0's entry). -/
abbrev X1 : Dev nD → Valuation τ sig (Elt F) := fun c => StableHlo.after hostOps0 (X0 m c)
/-- The same read at the TensorCore's references (what region 0's proof data take). -/
abbrev E1 : (c : Dev nD) → (b : Ref sig .tc) → Buf (Elt F) ((c : Thread nD τ).loc b) := fun c b => X1 m c b
/-- At region 0's exit: its arrays at what the pipeline leaves, every other buffer as entered. -/
def X2 (c : Dev nD) : Valuation τ sig (Elt F) :=
  Pipeline.withArrays spec0 c (X1 m c) fun w => (dat0 (E1 m) c).arrAt w cfg0.N
theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev E2 : (c : Dev nD) → (b : Ref sig .tc) → Buf (Elt F) ((c : Thread nD τ).loc b) := fun c b => X2 m c b
theorem exitArr0 (c : Dev nD) (w : Fin cfg0.W) : (dat0 (E1 m) c).arrAt w cfg0.N = E2 m c (Pipeline.arrRef spec0 w) :=
  (X2_arr m c w).symm
theorem exitRest0 (c : Dev nD) : ∀ b, b ∉ Finset.univ.image (Pipeline.arrRef spec0) → E2 m c b = E1 m c b :=
  fun b hb => X2_of_ne m c b fun w e => hb (Finset.mem_image.mpr ⟨w, Finset.mem_univ _, e⟩)
/-- A buffer that is none of region 0's outputs is after the region what it was before: an input's array is as
    entered, and a buffer that is no window's array is not touched. -/
theorem X2_keep (c : Dev nD) (r : Ref sig .tc) (h : r ∉ ([main_v21_0, main_v21_1, main_v21_2] : List (Ref sig .tc))) :
    X2 m c (Proc.devRef .tc r) = X1 m c (Proc.devRef .tc r) := by
  by_cases hr : ∃ w, Pipeline.arrRef spec0 w = r
  · obtain ⟨w, rfl⟩ := hr
    rw [X2_arr]
    match w with
    | ⟨0, _⟩ => exact ((dat0 (E1 m) c).arrAt_in 0 rfl _).trans (dat0_A (E1 m) c 0)
    | ⟨1, _⟩ => exact ((dat0 (E1 m) c).arrAt_in 1 rfl _).trans (dat0_A (E1 m) c 1)
    | ⟨2, _⟩ => exact ((dat0 (E1 m) c).arrAt_in 2 rfl _).trans (dat0_A (E1 m) c 2)
    | ⟨3, _⟩ => exact ((dat0 (E1 m) c).arrAt_in 3 rfl _).trans (dat0_A (E1 m) c 3)
    | ⟨4, _⟩ => exact ((dat0 (E1 m) c).arrAt_in 4 rfl _).trans (dat0_A (E1 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X2_of_ne m c r (fun w e => hr ⟨w, e⟩)
/-- The host stretch before region 0 writes only its own results. -/
theorem X1_keep (c : Dev nD) (r : Ref sig .tc) (h : r ∉ hostOps0_W) :
    X1 m c (Proc.devRef .tc r) = X0 m c (Proc.devRef .tc r) :=
  StableHlo.after_of_writes_sub hostOps0 _ hostOps0_writes h

/-! ### Item 2: the host stretch before region 1; item 3: region 1 -/
/-- After the host stretch (region 1's entry). -/
abbrev X3 : Dev nD → Valuation τ sig (Elt F) := fun c => StableHlo.after hostOps1 (X2 m c)
/-- The same read at the TensorCore's references (what region 1's proof data take). -/
abbrev E3 : (c : Dev nD) → (b : Ref sig .tc) → Buf (Elt F) ((c : Thread nD τ).loc b) := fun c b => X3 m c b
/-- At region 1's exit: its arrays at what the pipeline leaves, every other buffer as entered. -/
def X4 (c : Dev nD) : Valuation τ sig (Elt F) :=
  Pipeline.withArrays spec1 c (X3 m c) fun w => (dat1 (E3 m) c).arrAt w cfg1.N
theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
abbrev E4 : (c : Dev nD) → (b : Ref sig .tc) → Buf (Elt F) ((c : Thread nD τ).loc b) := fun c b => X4 m c b
theorem exitArr1 (c : Dev nD) (w : Fin cfg1.W) : (dat1 (E3 m) c).arrAt w cfg1.N = E4 m c (Pipeline.arrRef spec1 w) :=
  (X4_arr m c w).symm
theorem exitRest1 (c : Dev nD) : ∀ b, b ∉ Finset.univ.image (Pipeline.arrRef spec1) → E4 m c b = E3 m c b :=
  fun b hb => X4_of_ne m c b fun w e => hb (Finset.mem_image.mpr ⟨w, Finset.mem_univ _, e⟩)
/-- A buffer that is none of region 1's outputs is after the region what it was before: an input's array is as
    entered, and a buffer that is no window's array is not touched. -/
theorem X4_keep (c : Dev nD) (r : Ref sig .tc) (h : r ∉ ([main_v24] : List (Ref sig .tc))) :
    X4 m c (Proc.devRef .tc r) = X3 m c (Proc.devRef .tc r) := by
  by_cases hr : ∃ w, Pipeline.arrRef spec1 w = r
  · obtain ⟨w, rfl⟩ := hr
    rw [X4_arr]
    match w with
    | ⟨0, _⟩ => exact ((dat1 (E3 m) c).arrAt_in 0 rfl _).trans (dat1_A (E3 m) c 0)
    | ⟨1, _⟩ => exact ((dat1 (E3 m) c).arrAt_in 1 rfl _).trans (dat1_A (E3 m) c 1)
    | ⟨2, _⟩ => exact ((dat1 (E3 m) c).arrAt_in 2 rfl _).trans (dat1_A (E3 m) c 2)
    | ⟨3, _⟩ => exact ((dat1 (E3 m) c).arrAt_in 3 rfl _).trans (dat1_A (E3 m) c 3)
    | ⟨4, _⟩ => exact ((dat1 (E3 m) c).arrAt_in 4 rfl _).trans (dat1_A (E3 m) c 4)
    | ⟨5, _⟩ => exact absurd List.mem_cons_self h
  · exact X4_of_ne m c r (fun w e => hr ⟨w, e⟩)
/-- The host stretch before region 1 writes only its own results. -/
theorem X3_keep (c : Dev nD) (r : Ref sig .tc) (h : r ∉ hostOps1_W) :
    X3 m c (Proc.devRef .tc r) = X2 m c (Proc.devRef .tc r) :=
  StableHlo.after_of_writes_sub hostOps1 _ hostOps1_writes h

/-! ### Item 4: the host stretch before region 2; item 5: region 2 -/
/-- After the host stretch (region 2's entry). -/
abbrev X5 : Dev nD → Valuation τ sig (Elt F) := fun c => StableHlo.after hostOps2 (X4 m c)
/-- The same read at the TensorCore's references (what region 2's proof data take). -/
abbrev E5 : (c : Dev nD) → (b : Ref sig .tc) → Buf (Elt F) ((c : Thread nD τ).loc b) := fun c b => X5 m c b
/-- At region 2's exit: its arrays at what the pipeline leaves, every other buffer as entered. -/
def X6 (c : Dev nD) : Valuation τ sig (Elt F) :=
  Pipeline.withArrays spec2 c (X5 m c) fun w => (dat2 (E5 m) c).arrAt w cfg2.N
theorem X6_arr (c : Dev nD) (w : Fin cfg2.W) :
    X6 m c (Proc.devRef .tc (Pipeline.arrRef spec2 w)) = (dat2 (E5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
abbrev E6 : (c : Dev nD) → (b : Ref sig .tc) → Buf (Elt F) ((c : Thread nD τ).loc b) := fun c b => X6 m c b
theorem exitArr2 (c : Dev nD) (w : Fin cfg2.W) : (dat2 (E5 m) c).arrAt w cfg2.N = E6 m c (Pipeline.arrRef spec2 w) :=
  (X6_arr m c w).symm
theorem exitRest2 (c : Dev nD) : ∀ b, b ∉ Finset.univ.image (Pipeline.arrRef spec2) → E6 m c b = E5 m c b :=
  fun b hb => X6_of_ne m c b fun w e => hb (Finset.mem_image.mpr ⟨w, Finset.mem_univ _, e⟩)
/-- A buffer that is none of region 2's outputs is after the region what it was before: an input's array is as
    entered, and a buffer that is no window's array is not touched. -/
theorem X6_keep (c : Dev nD) (r : Ref sig .tc) (h : r ∉ ([main_v50_0, main_v50_1, main_v50_2] : List (Ref sig .tc))) :
    X6 m c (Proc.devRef .tc r) = X5 m c (Proc.devRef .tc r) := by
  by_cases hr : ∃ w, Pipeline.arrRef spec2 w = r
  · obtain ⟨w, rfl⟩ := hr
    rw [X6_arr]
    match w with
    | ⟨0, _⟩ => exact ((dat2 (E5 m) c).arrAt_in 0 rfl _).trans (dat2_A (E5 m) c 0)
    | ⟨1, _⟩ => exact ((dat2 (E5 m) c).arrAt_in 1 rfl _).trans (dat2_A (E5 m) c 1)
    | ⟨2, _⟩ => exact ((dat2 (E5 m) c).arrAt_in 2 rfl _).trans (dat2_A (E5 m) c 2)
    | ⟨3, _⟩ => exact ((dat2 (E5 m) c).arrAt_in 3 rfl _).trans (dat2_A (E5 m) c 3)
    | ⟨4, _⟩ => exact ((dat2 (E5 m) c).arrAt_in 4 rfl _).trans (dat2_A (E5 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X6_of_ne m c r (fun w e => hr ⟨w, e⟩)
/-- The host stretch before region 2 writes only its own results. -/
theorem X5_keep (c : Dev nD) (r : Ref sig .tc) (h : r ∉ hostOps2_W) :
    X5 m c (Proc.devRef .tc r) = X4 m c (Proc.devRef .tc r) :=
  StableHlo.after_of_writes_sub hostOps2 _ hostOps2_writes h

/-! ### Item 6: the host stretch before region 3; item 7: region 3 -/
/-- After the host stretch (region 3's entry). -/
abbrev X7 : Dev nD → Valuation τ sig (Elt F) := fun c => StableHlo.after hostOps3 (X6 m c)
/-- The same read at the TensorCore's references (what region 3's proof data take). -/
abbrev E7 : (c : Dev nD) → (b : Ref sig .tc) → Buf (Elt F) ((c : Thread nD τ).loc b) := fun c b => X7 m c b
/-- At region 3's exit: its arrays at what the pipeline leaves, every other buffer as entered. -/
def X8 (c : Dev nD) : Valuation τ sig (Elt F) :=
  Pipeline.withArrays spec3 c (X7 m c) fun w => (dat3 (E7 m) c).arrAt w cfg3.N
theorem X8_arr (c : Dev nD) (w : Fin cfg3.W) :
    X8 m c (Proc.devRef .tc (Pipeline.arrRef spec3 w)) = (dat3 (E7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev E8 : (c : Dev nD) → (b : Ref sig .tc) → Buf (Elt F) ((c : Thread nD τ).loc b) := fun c b => X8 m c b
theorem exitArr3 (c : Dev nD) (w : Fin cfg3.W) : (dat3 (E7 m) c).arrAt w cfg3.N = E8 m c (Pipeline.arrRef spec3 w) :=
  (X8_arr m c w).symm
theorem exitRest3 (c : Dev nD) : ∀ b, b ∉ Finset.univ.image (Pipeline.arrRef spec3) → E8 m c b = E7 m c b :=
  fun b hb => X8_of_ne m c b fun w e => hb (Finset.mem_image.mpr ⟨w, Finset.mem_univ _, e⟩)
/-- A buffer that is none of region 3's outputs is after the region what it was before: an input's array is as
    entered, and a buffer that is no window's array is not touched. -/
theorem X8_keep (c : Dev nD) (r : Ref sig .tc) (h : r ∉ ([main_v53] : List (Ref sig .tc))) :
    X8 m c (Proc.devRef .tc r) = X7 m c (Proc.devRef .tc r) := by
  by_cases hr : ∃ w, Pipeline.arrRef spec3 w = r
  · obtain ⟨w, rfl⟩ := hr
    rw [X8_arr]
    match w with
    | ⟨0, _⟩ => exact ((dat3 (E7 m) c).arrAt_in 0 rfl _).trans (dat3_A (E7 m) c 0)
    | ⟨1, _⟩ => exact ((dat3 (E7 m) c).arrAt_in 1 rfl _).trans (dat3_A (E7 m) c 1)
    | ⟨2, _⟩ => exact ((dat3 (E7 m) c).arrAt_in 2 rfl _).trans (dat3_A (E7 m) c 2)
    | ⟨3, _⟩ => exact ((dat3 (E7 m) c).arrAt_in 3 rfl _).trans (dat3_A (E7 m) c 3)
    | ⟨4, _⟩ => exact ((dat3 (E7 m) c).arrAt_in 4 rfl _).trans (dat3_A (E7 m) c 4)
    | ⟨5, _⟩ => exact absurd List.mem_cons_self h
  · exact X8_of_ne m c r (fun w e => hr ⟨w, e⟩)
/-- The host stretch before region 3 writes only its own results. -/
theorem X7_keep (c : Dev nD) (r : Ref sig .tc) (h : r ∉ hostOps3_W) :
    X7 m c (Proc.devRef .tc r) = X6 m c (Proc.devRef .tc r) :=
  StableHlo.after_of_writes_sub hostOps3 _ hostOps3_writes h

/-! ### Item 8: the host stretch before region 4; item 9: region 4 -/
/-- After the host stretch (region 4's entry). -/
abbrev X9 : Dev nD → Valuation τ sig (Elt F) := fun c => StableHlo.after hostOps4 (X8 m c)
/-- The same read at the TensorCore's references (what region 4's proof data take). -/
abbrev E9 : (c : Dev nD) → (b : Ref sig .tc) → Buf (Elt F) ((c : Thread nD τ).loc b) := fun c b => X9 m c b
/-- At region 4's exit: its arrays at what the pipeline leaves, every other buffer as entered. -/
def X10 (c : Dev nD) : Valuation τ sig (Elt F) :=
  Pipeline.withArrays spec4 c (X9 m c) fun w => (dat4 (E9 m) c).arrAt w cfg4.N
theorem X10_arr (c : Dev nD) (w : Fin cfg4.W) :
    X10 m c (Proc.devRef .tc (Pipeline.arrRef spec4 w)) = (dat4 (E9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
abbrev E10 : (c : Dev nD) → (b : Ref sig .tc) → Buf (Elt F) ((c : Thread nD τ).loc b) := fun c b => X10 m c b
theorem exitArr4 (c : Dev nD) (w : Fin cfg4.W) : (dat4 (E9 m) c).arrAt w cfg4.N = E10 m c (Pipeline.arrRef spec4 w) :=
  (X10_arr m c w).symm
theorem exitRest4 (c : Dev nD) : ∀ b, b ∉ Finset.univ.image (Pipeline.arrRef spec4) → E10 m c b = E9 m c b :=
  fun b hb => X10_of_ne m c b fun w e => hb (Finset.mem_image.mpr ⟨w, Finset.mem_univ _, e⟩)
/-- A buffer that is none of region 4's outputs is after the region what it was before: an input's array is as
    entered, and a buffer that is no window's array is not touched. -/
theorem X10_keep (c : Dev nD) (r : Ref sig .tc) (h : r ∉ ([main_v79_0, main_v79_1, main_v79_2] : List (Ref sig .tc))) :
    X10 m c (Proc.devRef .tc r) = X9 m c (Proc.devRef .tc r) := by
  by_cases hr : ∃ w, Pipeline.arrRef spec4 w = r
  · obtain ⟨w, rfl⟩ := hr
    rw [X10_arr]
    match w with
    | ⟨0, _⟩ => exact ((dat4 (E9 m) c).arrAt_in 0 rfl _).trans (dat4_A (E9 m) c 0)
    | ⟨1, _⟩ => exact ((dat4 (E9 m) c).arrAt_in 1 rfl _).trans (dat4_A (E9 m) c 1)
    | ⟨2, _⟩ => exact ((dat4 (E9 m) c).arrAt_in 2 rfl _).trans (dat4_A (E9 m) c 2)
    | ⟨3, _⟩ => exact ((dat4 (E9 m) c).arrAt_in 3 rfl _).trans (dat4_A (E9 m) c 3)
    | ⟨4, _⟩ => exact ((dat4 (E9 m) c).arrAt_in 4 rfl _).trans (dat4_A (E9 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X10_of_ne m c r (fun w e => hr ⟨w, e⟩)
/-- The host stretch before region 4 writes only its own results. -/
theorem X9_keep (c : Dev nD) (r : Ref sig .tc) (h : r ∉ hostOps4_W) :
    X9 m c (Proc.devRef .tc r) = X8 m c (Proc.devRef .tc r) :=
  StableHlo.after_of_writes_sub hostOps4 _ hostOps4_writes h

/-! ### Item 10: the host stretch before region 5; item 11: region 5 -/
/-- After the host stretch (region 5's entry). -/
abbrev X11 : Dev nD → Valuation τ sig (Elt F) := fun c => StableHlo.after hostOps5 (X10 m c)
/-- The same read at the TensorCore's references (what region 5's proof data take). -/
abbrev E11 : (c : Dev nD) → (b : Ref sig .tc) → Buf (Elt F) ((c : Thread nD τ).loc b) := fun c b => X11 m c b
/-- At region 5's exit: its arrays at what the pipeline leaves, every other buffer as entered. -/
def X12 (c : Dev nD) : Valuation τ sig (Elt F) :=
  Pipeline.withArrays spec5 c (X11 m c) fun w => (dat5 (E11 m) c).arrAt w cfg5.N
theorem X12_arr (c : Dev nD) (w : Fin cfg5.W) :
    X12 m c (Proc.devRef .tc (Pipeline.arrRef spec5 w)) = (dat5 (E11 m) c).arrAt w cfg5.N := by
  unfold X12; exact Pipeline.withArrays_arr spec5 launch5.win.arr_inj c _ _ w
theorem X12_of_ne (c : Dev nD) (b : Ref sig .tc) (hb : ∀ w, Pipeline.arrRef spec5 w ≠ b) :
    X12 m c (Proc.devRef .tc b) = X11 m c (Proc.devRef .tc b) := by
  unfold X12; exact Pipeline.withArrays_of_ne spec5 c _ _ b hb
abbrev E12 : (c : Dev nD) → (b : Ref sig .tc) → Buf (Elt F) ((c : Thread nD τ).loc b) := fun c b => X12 m c b
theorem exitArr5 (c : Dev nD) (w : Fin cfg5.W) : (dat5 (E11 m) c).arrAt w cfg5.N = E12 m c (Pipeline.arrRef spec5 w) :=
  (X12_arr m c w).symm
theorem exitRest5 (c : Dev nD) : ∀ b, b ∉ Finset.univ.image (Pipeline.arrRef spec5) → E12 m c b = E11 m c b :=
  fun b hb => X12_of_ne m c b fun w e => hb (Finset.mem_image.mpr ⟨w, Finset.mem_univ _, e⟩)
/-- A buffer that is none of region 5's outputs is after the region what it was before: an input's array is as
    entered, and a buffer that is no window's array is not touched. -/
theorem X12_keep (c : Dev nD) (r : Ref sig .tc) (h : r ∉ ([main_v82] : List (Ref sig .tc))) :
    X12 m c (Proc.devRef .tc r) = X11 m c (Proc.devRef .tc r) := by
  by_cases hr : ∃ w, Pipeline.arrRef spec5 w = r
  · obtain ⟨w, rfl⟩ := hr
    rw [X12_arr]
    match w with
    | ⟨0, _⟩ => exact ((dat5 (E11 m) c).arrAt_in 0 rfl _).trans (dat5_A (E11 m) c 0)
    | ⟨1, _⟩ => exact ((dat5 (E11 m) c).arrAt_in 1 rfl _).trans (dat5_A (E11 m) c 1)
    | ⟨2, _⟩ => exact ((dat5 (E11 m) c).arrAt_in 2 rfl _).trans (dat5_A (E11 m) c 2)
    | ⟨3, _⟩ => exact ((dat5 (E11 m) c).arrAt_in 3 rfl _).trans (dat5_A (E11 m) c 3)
    | ⟨4, _⟩ => exact ((dat5 (E11 m) c).arrAt_in 4 rfl _).trans (dat5_A (E11 m) c 4)
    | ⟨5, _⟩ => exact absurd List.mem_cons_self h
  · exact X12_of_ne m c r (fun w e => hr ⟨w, e⟩)
/-- The host stretch before region 5 writes only its own results. -/
theorem X11_keep (c : Dev nD) (r : Ref sig .tc) (h : r ∉ hostOps5_W) :
    X11 m c (Proc.devRef .tc r) = X10 m c (Proc.devRef .tc r) :=
  StableHlo.after_of_writes_sub hostOps5 _ hostOps5_writes h

/-! ### Item 12: the host stretch before region 6; item 13: region 6 -/
/-- After the host stretch (region 6's entry). -/
abbrev X13 : Dev nD → Valuation τ sig (Elt F) := fun c => StableHlo.after hostOps6 (X12 m c)
/-- The same read at the TensorCore's references (what region 6's proof data take). -/
abbrev E13 : (c : Dev nD) → (b : Ref sig .tc) → Buf (Elt F) ((c : Thread nD τ).loc b) := fun c b => X13 m c b
/-- At region 6's exit: its arrays at what the pipeline leaves, every other buffer as entered. -/
def X14 (c : Dev nD) : Valuation τ sig (Elt F) :=
  Pipeline.withArrays spec6 c (X13 m c) fun w => (dat6 (E13 m) c).arrAt w cfg6.N
theorem X14_arr (c : Dev nD) (w : Fin cfg6.W) :
    X14 m c (Proc.devRef .tc (Pipeline.arrRef spec6 w)) = (dat6 (E13 m) c).arrAt w cfg6.N := by
  unfold X14; exact Pipeline.withArrays_arr spec6 launch6.win.arr_inj c _ _ w
theorem X14_of_ne (c : Dev nD) (b : Ref sig .tc) (hb : ∀ w, Pipeline.arrRef spec6 w ≠ b) :
    X14 m c (Proc.devRef .tc b) = X13 m c (Proc.devRef .tc b) := by
  unfold X14; exact Pipeline.withArrays_of_ne spec6 c _ _ b hb
abbrev E14 : (c : Dev nD) → (b : Ref sig .tc) → Buf (Elt F) ((c : Thread nD τ).loc b) := fun c b => X14 m c b
theorem exitArr6 (c : Dev nD) (w : Fin cfg6.W) : (dat6 (E13 m) c).arrAt w cfg6.N = E14 m c (Pipeline.arrRef spec6 w) :=
  (X14_arr m c w).symm
theorem exitRest6 (c : Dev nD) : ∀ b, b ∉ Finset.univ.image (Pipeline.arrRef spec6) → E14 m c b = E13 m c b :=
  fun b hb => X14_of_ne m c b fun w e => hb (Finset.mem_image.mpr ⟨w, Finset.mem_univ _, e⟩)
/-- A buffer that is none of region 6's outputs is after the region what it was before: an input's array is as
    entered, and a buffer that is no window's array is not touched. -/
theorem X14_keep (c : Dev nD) (r : Ref sig .tc) (h : r ∉ ([main_v108_0, main_v108_1, main_v108_2] : List (Ref sig .tc))) :
    X14 m c (Proc.devRef .tc r) = X13 m c (Proc.devRef .tc r) := by
  by_cases hr : ∃ w, Pipeline.arrRef spec6 w = r
  · obtain ⟨w, rfl⟩ := hr
    rw [X14_arr]
    match w with
    | ⟨0, _⟩ => exact ((dat6 (E13 m) c).arrAt_in 0 rfl _).trans (dat6_A (E13 m) c 0)
    | ⟨1, _⟩ => exact ((dat6 (E13 m) c).arrAt_in 1 rfl _).trans (dat6_A (E13 m) c 1)
    | ⟨2, _⟩ => exact ((dat6 (E13 m) c).arrAt_in 2 rfl _).trans (dat6_A (E13 m) c 2)
    | ⟨3, _⟩ => exact ((dat6 (E13 m) c).arrAt_in 3 rfl _).trans (dat6_A (E13 m) c 3)
    | ⟨4, _⟩ => exact ((dat6 (E13 m) c).arrAt_in 4 rfl _).trans (dat6_A (E13 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X14_of_ne m c r (fun w e => hr ⟨w, e⟩)
/-- The host stretch before region 6 writes only its own results. -/
theorem X13_keep (c : Dev nD) (r : Ref sig .tc) (h : r ∉ hostOps6_W) :
    X13 m c (Proc.devRef .tc r) = X12 m c (Proc.devRef .tc r) :=
  StableHlo.after_of_writes_sub hostOps6 _ hostOps6_writes h

/-! ### Item 14: the host stretch before region 7; item 15: region 7 -/
/-- After the host stretch (region 7's entry). -/
abbrev X15 : Dev nD → Valuation τ sig (Elt F) := fun c => StableHlo.after hostOps7 (X14 m c)
/-- The same read at the TensorCore's references (what region 7's proof data take). -/
abbrev E15 : (c : Dev nD) → (b : Ref sig .tc) → Buf (Elt F) ((c : Thread nD τ).loc b) := fun c b => X15 m c b
/-- At region 7's exit: its arrays at what the pipeline leaves, every other buffer as entered. -/
def X16 (c : Dev nD) : Valuation τ sig (Elt F) :=
  Pipeline.withArrays spec7 c (X15 m c) fun w => (dat7 (E15 m) c).arrAt w cfg7.N
theorem X16_arr (c : Dev nD) (w : Fin cfg7.W) :
    X16 m c (Proc.devRef .tc (Pipeline.arrRef spec7 w)) = (dat7 (E15 m) c).arrAt w cfg7.N := by
  unfold X16; exact Pipeline.withArrays_arr spec7 launch7.win.arr_inj c _ _ w
theorem X16_of_ne (c : Dev nD) (b : Ref sig .tc) (hb : ∀ w, Pipeline.arrRef spec7 w ≠ b) :
    X16 m c (Proc.devRef .tc b) = X15 m c (Proc.devRef .tc b) := by
  unfold X16; exact Pipeline.withArrays_of_ne spec7 c _ _ b hb
abbrev E16 : (c : Dev nD) → (b : Ref sig .tc) → Buf (Elt F) ((c : Thread nD τ).loc b) := fun c b => X16 m c b
theorem exitArr7 (c : Dev nD) (w : Fin cfg7.W) : (dat7 (E15 m) c).arrAt w cfg7.N = E16 m c (Pipeline.arrRef spec7 w) :=
  (X16_arr m c w).symm
theorem exitRest7 (c : Dev nD) : ∀ b, b ∉ Finset.univ.image (Pipeline.arrRef spec7) → E16 m c b = E15 m c b :=
  fun b hb => X16_of_ne m c b fun w e => hb (Finset.mem_image.mpr ⟨w, Finset.mem_univ _, e⟩)
/-- A buffer that is none of region 7's outputs is after the region what it was before: an input's array is as
    entered, and a buffer that is no window's array is not touched. -/
theorem X16_keep (c : Dev nD) (r : Ref sig .tc) (h : r ∉ ([main_v111] : List (Ref sig .tc))) :
    X16 m c (Proc.devRef .tc r) = X15 m c (Proc.devRef .tc r) := by
  by_cases hr : ∃ w, Pipeline.arrRef spec7 w = r
  · obtain ⟨w, rfl⟩ := hr
    rw [X16_arr]
    match w with
    | ⟨0, _⟩ => exact ((dat7 (E15 m) c).arrAt_in 0 rfl _).trans (dat7_A (E15 m) c 0)
    | ⟨1, _⟩ => exact ((dat7 (E15 m) c).arrAt_in 1 rfl _).trans (dat7_A (E15 m) c 1)
    | ⟨2, _⟩ => exact ((dat7 (E15 m) c).arrAt_in 2 rfl _).trans (dat7_A (E15 m) c 2)
    | ⟨3, _⟩ => exact ((dat7 (E15 m) c).arrAt_in 3 rfl _).trans (dat7_A (E15 m) c 3)
    | ⟨4, _⟩ => exact ((dat7 (E15 m) c).arrAt_in 4 rfl _).trans (dat7_A (E15 m) c 4)
    | ⟨5, _⟩ => exact absurd List.mem_cons_self h
  · exact X16_of_ne m c r (fun w e => hr ⟨w, e⟩)
/-- The host stretch before region 7 writes only its own results. -/
theorem X15_keep (c : Dev nD) (r : Ref sig .tc) (h : r ∉ hostOps7_W) :
    X15 m c (Proc.devRef .tc r) = X14 m c (Proc.devRef .tc r) :=
  StableHlo.after_of_writes_sub hostOps7 _ hostOps7_writes h

/-! ### Item 16: the host stretch before region 8; item 17: region 8 -/
/-- After the host stretch (region 8's entry). -/
abbrev X17 : Dev nD → Valuation τ sig (Elt F) := fun c => StableHlo.after hostOps8 (X16 m c)
/-- The same read at the TensorCore's references (what region 8's proof data take). -/
abbrev E17 : (c : Dev nD) → (b : Ref sig .tc) → Buf (Elt F) ((c : Thread nD τ).loc b) := fun c b => X17 m c b
/-- At region 8's exit: its arrays at what the pipeline leaves, every other buffer as entered. -/
def X18 (c : Dev nD) : Valuation τ sig (Elt F) :=
  Pipeline.withArrays spec8 c (X17 m c) fun w => (dat8 (E17 m) c).arrAt w cfg8.N
theorem X18_arr (c : Dev nD) (w : Fin cfg8.W) :
    X18 m c (Proc.devRef .tc (Pipeline.arrRef spec8 w)) = (dat8 (E17 m) c).arrAt w cfg8.N := by
  unfold X18; exact Pipeline.withArrays_arr spec8 launch8.win.arr_inj c _ _ w
theorem X18_of_ne (c : Dev nD) (b : Ref sig .tc) (hb : ∀ w, Pipeline.arrRef spec8 w ≠ b) :
    X18 m c (Proc.devRef .tc b) = X17 m c (Proc.devRef .tc b) := by
  unfold X18; exact Pipeline.withArrays_of_ne spec8 c _ _ b hb
abbrev E18 : (c : Dev nD) → (b : Ref sig .tc) → Buf (Elt F) ((c : Thread nD τ).loc b) := fun c b => X18 m c b
theorem exitArr8 (c : Dev nD) (w : Fin cfg8.W) : (dat8 (E17 m) c).arrAt w cfg8.N = E18 m c (Pipeline.arrRef spec8 w) :=
  (X18_arr m c w).symm
theorem exitRest8 (c : Dev nD) : ∀ b, b ∉ Finset.univ.image (Pipeline.arrRef spec8) → E18 m c b = E17 m c b :=
  fun b hb => X18_of_ne m c b fun w e => hb (Finset.mem_image.mpr ⟨w, Finset.mem_univ _, e⟩)
/-- A buffer that is none of region 8's outputs is after the region what it was before: an input's array is as
    entered, and a buffer that is no window's array is not touched. -/
theorem X18_keep (c : Dev nD) (r : Ref sig .tc) (h : r ∉ ([main_v137_0, main_v137_1, main_v137_2] : List (Ref sig .tc))) :
    X18 m c (Proc.devRef .tc r) = X17 m c (Proc.devRef .tc r) := by
  by_cases hr : ∃ w, Pipeline.arrRef spec8 w = r
  · obtain ⟨w, rfl⟩ := hr
    rw [X18_arr]
    match w with
    | ⟨0, _⟩ => exact ((dat8 (E17 m) c).arrAt_in 0 rfl _).trans (dat8_A (E17 m) c 0)
    | ⟨1, _⟩ => exact ((dat8 (E17 m) c).arrAt_in 1 rfl _).trans (dat8_A (E17 m) c 1)
    | ⟨2, _⟩ => exact ((dat8 (E17 m) c).arrAt_in 2 rfl _).trans (dat8_A (E17 m) c 2)
    | ⟨3, _⟩ => exact ((dat8 (E17 m) c).arrAt_in 3 rfl _).trans (dat8_A (E17 m) c 3)
    | ⟨4, _⟩ => exact ((dat8 (E17 m) c).arrAt_in 4 rfl _).trans (dat8_A (E17 m) c 4)
    | ⟨5, _⟩ => exact absurd List.mem_cons_self h
    | ⟨6, _⟩ => exact absurd (List.mem_cons_of_mem _ List.mem_cons_self) h
    | ⟨7, _⟩ => exact absurd (List.mem_cons_of_mem _ (List.mem_cons_of_mem _ List.mem_cons_self)) h
  · exact X18_of_ne m c r (fun w e => hr ⟨w, e⟩)
/-- The host stretch before region 8 writes only its own results. -/
theorem X17_keep (c : Dev nD) (r : Ref sig .tc) (h : r ∉ hostOps8_W) :
    X17 m c (Proc.devRef .tc r) = X16 m c (Proc.devRef .tc r) :=
  StableHlo.after_of_writes_sub hostOps8 _ hostOps8_writes h

/-! ### Item 18: the host stretch before region 9; item 19: region 9 -/
/-- After the host stretch (region 9's entry). -/
abbrev X19 : Dev nD → Valuation τ sig (Elt F) := fun c => StableHlo.after hostOps9 (X18 m c)
/-- The same read at the TensorCore's references (what region 9's proof data take). -/
abbrev E19 : (c : Dev nD) → (b : Ref sig .tc) → Buf (Elt F) ((c : Thread nD τ).loc b) := fun c b => X19 m c b
/-- At region 9's exit: its arrays at what the pipeline leaves, every other buffer as entered. -/
def X20 (c : Dev nD) : Valuation τ sig (Elt F) :=
  Pipeline.withArrays spec9 c (X19 m c) fun w => (dat9 (E19 m) c).arrAt w cfg9.N
theorem X20_arr (c : Dev nD) (w : Fin cfg9.W) :
    X20 m c (Proc.devRef .tc (Pipeline.arrRef spec9 w)) = (dat9 (E19 m) c).arrAt w cfg9.N := by
  unfold X20; exact Pipeline.withArrays_arr spec9 launch9.win.arr_inj c _ _ w
theorem X20_of_ne (c : Dev nD) (b : Ref sig .tc) (hb : ∀ w, Pipeline.arrRef spec9 w ≠ b) :
    X20 m c (Proc.devRef .tc b) = X19 m c (Proc.devRef .tc b) := by
  unfold X20; exact Pipeline.withArrays_of_ne spec9 c _ _ b hb
abbrev E20 : (c : Dev nD) → (b : Ref sig .tc) → Buf (Elt F) ((c : Thread nD τ).loc b) := fun c b => X20 m c b
theorem exitArr9 (c : Dev nD) (w : Fin cfg9.W) : (dat9 (E19 m) c).arrAt w cfg9.N = E20 m c (Pipeline.arrRef spec9 w) :=
  (X20_arr m c w).symm
theorem exitRest9 (c : Dev nD) : ∀ b, b ∉ Finset.univ.image (Pipeline.arrRef spec9) → E20 m c b = E19 m c b :=
  fun b hb => X20_of_ne m c b fun w e => hb (Finset.mem_image.mpr ⟨w, Finset.mem_univ _, e⟩)
/-- A buffer that is none of region 9's outputs is after the region what it was before: an input's array is as
    entered, and a buffer that is no window's array is not touched. -/
theorem X20_keep (c : Dev nD) (r : Ref sig .tc) (h : r ∉ ([main_v140] : List (Ref sig .tc))) :
    X20 m c (Proc.devRef .tc r) = X19 m c (Proc.devRef .tc r) := by
  by_cases hr : ∃ w, Pipeline.arrRef spec9 w = r
  · obtain ⟨w, rfl⟩ := hr
    rw [X20_arr]
    match w with
    | ⟨0, _⟩ => exact ((dat9 (E19 m) c).arrAt_in 0 rfl _).trans (dat9_A (E19 m) c 0)
    | ⟨1, _⟩ => exact ((dat9 (E19 m) c).arrAt_in 1 rfl _).trans (dat9_A (E19 m) c 1)
    | ⟨2, _⟩ => exact ((dat9 (E19 m) c).arrAt_in 2 rfl _).trans (dat9_A (E19 m) c 2)
    | ⟨3, _⟩ => exact ((dat9 (E19 m) c).arrAt_in 3 rfl _).trans (dat9_A (E19 m) c 3)
    | ⟨4, _⟩ => exact ((dat9 (E19 m) c).arrAt_in 4 rfl _).trans (dat9_A (E19 m) c 4)
    | ⟨5, _⟩ => exact absurd List.mem_cons_self h
  · exact X20_of_ne m c r (fun w e => hr ⟨w, e⟩)
/-- The host stretch before region 9 writes only its own results. -/
theorem X19_keep (c : Dev nD) (r : Ref sig .tc) (h : r ∉ hostOps9_W) :
    X19 m c (Proc.devRef .tc r) = X18 m c (Proc.devRef .tc r) :=
  StableHlo.after_of_writes_sub hostOps9 _ hostOps9_writes h

/-! ### Item 20: the host stretch before region 10; item 21: region 10 -/
/-- After the host stretch (region 10's entry). -/
abbrev X21 : Dev nD → Valuation τ sig (Elt F) := fun c => StableHlo.after hostOps10 (X20 m c)
/-- The same read at the TensorCore's references (what region 10's proof data take). -/
abbrev E21 : (c : Dev nD) → (b : Ref sig .tc) → Buf (Elt F) ((c : Thread nD τ).loc b) := fun c b => X21 m c b
/-- At region 10's exit: its arrays at what the pipeline leaves, every other buffer as entered. -/
def X22 (c : Dev nD) : Valuation τ sig (Elt F) :=
  Pipeline.withArrays spec10 c (X21 m c) fun w => (dat10 (E21 m) c).arrAt w cfg10.N
theorem X22_arr (c : Dev nD) (w : Fin cfg10.W) :
    X22 m c (Proc.devRef .tc (Pipeline.arrRef spec10 w)) = (dat10 (E21 m) c).arrAt w cfg10.N := by
  unfold X22; exact Pipeline.withArrays_arr spec10 launch10.win.arr_inj c _ _ w
theorem X22_of_ne (c : Dev nD) (b : Ref sig .tc) (hb : ∀ w, Pipeline.arrRef spec10 w ≠ b) :
    X22 m c (Proc.devRef .tc b) = X21 m c (Proc.devRef .tc b) := by
  unfold X22; exact Pipeline.withArrays_of_ne spec10 c _ _ b hb
abbrev E22 : (c : Dev nD) → (b : Ref sig .tc) → Buf (Elt F) ((c : Thread nD τ).loc b) := fun c b => X22 m c b
theorem exitArr10 (c : Dev nD) (w : Fin cfg10.W) : (dat10 (E21 m) c).arrAt w cfg10.N = E22 m c (Pipeline.arrRef spec10 w) :=
  (X22_arr m c w).symm
theorem exitRest10 (c : Dev nD) : ∀ b, b ∉ Finset.univ.image (Pipeline.arrRef spec10) → E22 m c b = E21 m c b :=
  fun b hb => X22_of_ne m c b fun w e => hb (Finset.mem_image.mpr ⟨w, Finset.mem_univ _, e⟩)
/-- A buffer that is none of region 10's outputs is after the region what it was before: an input's array is as
    entered, and a buffer that is no window's array is not touched. -/
theorem X22_keep (c : Dev nD) (r : Ref sig .tc) (h : r ∉ ([main_v155] : List (Ref sig .tc))) :
    X22 m c (Proc.devRef .tc r) = X21 m c (Proc.devRef .tc r) := by
  by_cases hr : ∃ w, Pipeline.arrRef spec10 w = r
  · obtain ⟨w, rfl⟩ := hr
    rw [X22_arr]
    match w with
    | ⟨0, _⟩ => exact ((dat10 (E21 m) c).arrAt_in 0 rfl _).trans (dat10_A (E21 m) c 0)
    | ⟨1, _⟩ => exact ((dat10 (E21 m) c).arrAt_in 1 rfl _).trans (dat10_A (E21 m) c 1)
    | ⟨2, _⟩ => exact ((dat10 (E21 m) c).arrAt_in 2 rfl _).trans (dat10_A (E21 m) c 2)
    | ⟨3, _⟩ => exact ((dat10 (E21 m) c).arrAt_in 3 rfl _).trans (dat10_A (E21 m) c 3)
    | ⟨4, _⟩ => exact ((dat10 (E21 m) c).arrAt_in 4 rfl _).trans (dat10_A (E21 m) c 4)
    | ⟨5, _⟩ => exact absurd List.mem_cons_self h
  · exact X22_of_ne m c r (fun w e => hr ⟨w, e⟩)
/-- The host stretch before region 10 writes only its own results. -/
theorem X21_keep (c : Dev nD) (r : Ref sig .tc) (h : r ∉ hostOps10_W) :
    X21 m c (Proc.devRef .tc r) = X20 m c (Proc.devRef .tc r) :=
  StableHlo.after_of_writes_sub hostOps10 _ hostOps10_writes h

/-! ## A buffer no item writes ends as launched -/

/-- Every buffer some item writes: the host stretches' results and the regions' outputs. -/
abbrev writtenRefs : List (Ref sig .tc) := hostOps0_W ++ ([main_v21_0, main_v21_1, main_v21_2] ++ (hostOps1_W ++ ([main_v24] ++ (hostOps2_W ++ ([main_v50_0, main_v50_1, main_v50_2] ++ (hostOps3_W ++ ([main_v53] ++ (hostOps4_W ++ ([main_v79_0, main_v79_1, main_v79_2] ++ (hostOps5_W ++ ([main_v82] ++ (hostOps6_W ++ ([main_v108_0, main_v108_1, main_v108_2] ++ (hostOps7_W ++ ([main_v111] ++ (hostOps8_W ++ ([main_v137_0, main_v137_1, main_v137_2] ++ (hostOps9_W ++ ([main_v140] ++ (hostOps10_W ++ ([main_v155])))))))))))))))))))))

theorem X22_launch (c : Dev nD) (r : Ref sig .tc) (h : r ∉ writtenRefs) :
    X22 m c (Proc.devRef .tc r) = m ((c : Thread nD τ).loc r) := by
  simp only [writtenRefs, List.mem_append, not_or] at h
  obtain ⟨h1, h2, h3, h4, h5, h6, h7, h8, h9, h10, h11, h12, h13, h14, h15, h16, h17, h18, h19, h20, h21, h22⟩ := h
  exact (X22_keep m c r h22).trans <| (X21_keep m c r h21).trans <| (X20_keep m c r h20).trans <| (X19_keep m c r h19).trans <| (X18_keep m c r h18).trans <| (X17_keep m c r h17).trans <| (X16_keep m c r h16).trans <| (X15_keep m c r h15).trans <| (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1).trans <| rfl

/-! ## What rides beside the buffers through every item -/
abbrev noVariants : Variants := Variants.none
/-- No core owes another anything: no level is assigned. -/
abbrev noLevels : GSem nD τ sig → Finset Unit := fun _ => ∅
abbrev levelZero : GSem nD τ sig → Unit → ℕ := fun _ _ => 0
/-- The core's generator register at some state and its dues, at nothing. -/
abbrev riding (c : Dev nD) : sProp 𝕄 := iprop((∃ r, prngReg c r) ∗ ∃ W, owes (c : Thread nD τ) (0 : CellTallies nD τ sig Unit) W)

/-! ## Every pipeline's proof data, each at its region's entry contents -/
def pdats : (p : Fin 11) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨10, _⟩ => fun c => dat10 (E21 m) c

end Cert.KernelIdeal.Gen
end
-- ==== Proof.KI.ItemsA.lean ====
/-
  The kernel regions 0 to 3 of the program as items of its run: each is entered with every unscoped buffer of the
  TensorCore at the contents before it and left with them at the contents after it (the chain of contents), beside the
  generator register at some state and the core owing nothing.
-/
import proofs.«100381_j2018634629568_1_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 as an item of the program: entered with every unscoped buffer at the contents before it, left with them
    at the contents after it; its windows' arrays are split out of the unscoped buffers at entry and put back at exit;
    the generator register goes into the region's invariant and comes back; the core owes nothing. -/
def item1 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ noLevels levelZero 0 fun _ _ => rfl
  pre c := iprop(StableHlo.held (c : Thread nD τ) (Pipeline.ucRefs τ sig) (X1 m c) ∗ riding c)
  post c := iprop(StableHlo.held (c : Thread nD τ) (Pipeline.ucRefs τ sig) (X2 m c) ∗ riding c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry0_in (E1 m) c)
    unfold Pipeline.ΦA
    iintro ⟨Hp, -, Hr⟩
    isplitl [Hr]; · iexact Hr
    iexact Hp
  hout c := by
    rw [Pipeline.ownSems0_none]
    refine BIBase.Entails.trans (carry0_out (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as an item of the program: entered with every unscoped buffer at the contents before it, left with them
    at the contents after it; its windows' arrays are split out of the unscoped buffers at entry and put back at exit;
    the generator register goes into the region's invariant and comes back; the core owes nothing. -/
def item3 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (obligation1 (E3 m) c).loose
  hwaits := Pipeline.hwaits_of_owed_zero _ _ _ _ noLevels levelZero 1 fun _ _ => rfl
  pre c := iprop(StableHlo.held (c : Thread nD τ) (Pipeline.ucRefs τ sig) (X3 m c) ∗ riding c)
  post c := iprop(StableHlo.held (c : Thread nD τ) (Pipeline.ucRefs τ sig) (X4 m c) ∗ riding c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as an item of the program: entered with every unscoped buffer at the contents before it, left with them
    at the contents after it; its windows' arrays are split out of the unscoped buffers at entry and put back at exit;
    the generator register goes into the region's invariant and comes back; the core owes nothing. -/
def item5 : Pipeline.RegionSeg (pcfgs (F := F)) adm (pdats m) () defs₀ noVariants noLevels levelZero 2 where
  win := launch2.win.to₀
  block_pos := launch2.block_pos
  stage_whole := launch2.stage_whole
  K := PEmpty
  osem k := k.elim
  ho := Pipeline.OwnSemFacts.none _
  hbody c := (obligation2 (E5 m) c).loose
  hwaits := Pipeline.hwaits_of_owed_zero _ _ _ _ noLevels levelZero 2 fun _ _ => rfl
  pre c := iprop(StableHlo.held (c : Thread nD τ) (Pipeline.ucRefs τ sig) (X5 m c) ∗ riding c)
  post c := iprop(StableHlo.held (c : Thread nD τ) (Pipeline.ucRefs τ sig) (X6 m c) ∗ riding c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry2_in (E5 m) c)
    unfold Pipeline.ΦA
    iintro ⟨Hp, -, Hr⟩
    isplitl [Hr]; · iexact Hr
    iexact Hp
  hout c := by
    rw [Pipeline.ownSems0_none]
    refine BIBase.Entails.trans (carry2_out (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as an item of the program: entered with every unscoped buffer at the contents before it, left with them
    at the contents after it; its windows' arrays are split out of the unscoped buffers at entry and put back at exit;
    the generator register goes into the region's invariant and comes back; the core owes nothing. -/
def item7 : Pipeline.RegionSeg (pcfgs (F := F)) adm (pdats m) () defs₀ noVariants noLevels levelZero 3 where
  win := launch3.win.to₀
  block_pos := launch3.block_pos
  stage_whole := launch3.stage_whole
  K := PEmpty
  osem k := k.elim
  ho := Pipeline.OwnSemFacts.none _
  hbody c := (obligation3 (E7 m) c).loose
  hwaits := Pipeline.hwaits_of_owed_zero _ _ _ _ noLevels levelZero 3 fun _ _ => rfl
  pre c := iprop(StableHlo.held (c : Thread nD τ) (Pipeline.ucRefs τ sig) (X7 m c) ∗ riding c)
  post c := iprop(StableHlo.held (c : Thread nD τ) (Pipeline.ucRefs τ sig) (X8 m c) ∗ riding c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen
end
-- ==== Proof.KI.ItemsB.lean ====
/-
  The kernel regions 4 to 7 of the program as items of its run: each is entered with every unscoped buffer of the
  TensorCore at the contents before it and left with them at the contents after it (the chain of contents), beside the
  generator register at some state and the core owing nothing.
-/
import proofs.«100381_j2018634629568_1_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 as an item of the program: entered with every unscoped buffer at the contents before it, left with them
    at the contents after it; its windows' arrays are split out of the unscoped buffers at entry and put back at exit;
    the generator register goes into the region's invariant and comes back; the core owes nothing. -/
def item9 : Pipeline.RegionSeg (pcfgs (F := F)) adm (pdats m) () defs₀ noVariants noLevels levelZero 4 where
  win := launch4.win.to₀
  block_pos := launch4.block_pos
  stage_whole := launch4.stage_whole
  K := PEmpty
  osem k := k.elim
  ho := Pipeline.OwnSemFacts.none _
  hbody c := (obligation4 (E9 m) c).loose
  hwaits := Pipeline.hwaits_of_owed_zero _ _ _ _ noLevels levelZero 4 fun _ _ => rfl
  pre c := iprop(StableHlo.held (c : Thread nD τ) (Pipeline.ucRefs τ sig) (X9 m c) ∗ riding c)
  post c := iprop(StableHlo.held (c : Thread nD τ) (Pipeline.ucRefs τ sig) (X10 m c) ∗ riding c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry4_in (E9 m) c)
    unfold Pipeline.ΦA
    iintro ⟨Hp, -, Hr⟩
    isplitl [Hr]; · iexact Hr
    iexact Hp
  hout c := by
    rw [Pipeline.ownSems0_none]
    refine BIBase.Entails.trans (carry4_out (E9 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as an item of the program: entered with every unscoped buffer at the contents before it, left with them
    at the contents after it; its windows' arrays are split out of the unscoped buffers at entry and put back at exit;
    the generator register goes into the region's invariant and comes back; the core owes nothing. -/
def item11 : Pipeline.RegionSeg (pcfgs (F := F)) adm (pdats m) () defs₀ noVariants noLevels levelZero 5 where
  win := launch5.win.to₀
  block_pos := launch5.block_pos
  stage_whole := launch5.stage_whole
  K := PEmpty
  osem k := k.elim
  ho := Pipeline.OwnSemFacts.none _
  hbody c := (obligation5 (E11 m) c).loose
  hwaits := Pipeline.hwaits_of_owed_zero _ _ _ _ noLevels levelZero 5 fun _ _ => rfl
  pre c := iprop(StableHlo.held (c : Thread nD τ) (Pipeline.ucRefs τ sig) (X11 m c) ∗ riding c)
  post c := iprop(StableHlo.held (c : Thread nD τ) (Pipeline.ucRefs τ sig) (X12 m c) ∗ riding c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as an item of the program: entered with every unscoped buffer at the contents before it, left with them
    at the contents after it; its windows' arrays are split out of the unscoped buffers at entry and put back at exit;
    the generator register goes into the region's invariant and comes back; the core owes nothing. -/
def item13 : Pipeline.RegionSeg (pcfgs (F := F)) adm (pdats m) () defs₀ noVariants noLevels levelZero 6 where
  win := launch6.win.to₀
  block_pos := launch6.block_pos
  stage_whole := launch6.stage_whole
  K := PEmpty
  osem k := k.elim
  ho := Pipeline.OwnSemFacts.none _
  hbody c := (obligation6 (E13 m) c).loose
  hwaits := Pipeline.hwaits_of_owed_zero _ _ _ _ noLevels levelZero 6 fun _ _ => rfl
  pre c := iprop(StableHlo.held (c : Thread nD τ) (Pipeline.ucRefs τ sig) (X13 m c) ∗ riding c)
  post c := iprop(StableHlo.held (c : Thread nD τ) (Pipeline.ucRefs τ sig) (X14 m c) ∗ riding c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry6_in (E13 m) c)
    unfold Pipeline.ΦA
    iintro ⟨Hp, -, Hr⟩
    isplitl [Hr]; · iexact Hr
    iexact Hp
  hout c := by
    rw [Pipeline.ownSems0_none]
    refine BIBase.Entails.trans (carry6_out (E13 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 as an item of the program: entered with every unscoped buffer at the contents before it, left with them
    at the contents after it; its windows' arrays are split out of the unscoped buffers at entry and put back at exit;
    the generator register goes into the region's invariant and comes back; the core owes nothing. -/
def item15 : Pipeline.RegionSeg (pcfgs (F := F)) adm (pdats m) () defs₀ noVariants noLevels levelZero 7 where
  win := launch7.win.to₀
  block_pos := launch7.block_pos
  stage_whole := launch7.stage_whole
  K := PEmpty
  osem k := k.elim
  ho := Pipeline.OwnSemFacts.none _
  hbody c := (obligation7 (E15 m) c).loose
  hwaits := Pipeline.hwaits_of_owed_zero _ _ _ _ noLevels levelZero 7 fun _ _ => rfl
  pre c := iprop(StableHlo.held (c : Thread nD τ) (Pipeline.ucRefs τ sig) (X15 m c) ∗ riding c)
  post c := iprop(StableHlo.held (c : Thread nD τ) (Pipeline.ucRefs τ sig) (X16 m c) ∗ riding c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (exitArr7 m c) (exitRest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen
end
-- ==== Proof.KI.ItemsC.lean ====
/-
  The kernel regions 8 to 10 of the program as items of its run: each is entered with every unscoped buffer of the
  TensorCore at the contents before it and left with them at the contents after it (the chain of contents), beside the
  generator register at some state and the core owing nothing.
-/
import proofs.«100381_j2018634629568_1_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 as an item of the program: entered with every unscoped buffer at the contents before it, left with them
    at the contents after it; its windows' arrays are split out of the unscoped buffers at entry and put back at exit;
    the generator register goes into the region's invariant and comes back; the core owes nothing. -/
def item17 : Pipeline.RegionSeg (pcfgs (F := F)) adm (pdats m) () defs₀ noVariants noLevels levelZero 8 where
  win := launch8.win.to₀
  block_pos := launch8.block_pos
  stage_whole := launch8.stage_whole
  K := PEmpty
  osem k := k.elim
  ho := Pipeline.OwnSemFacts.none _
  hbody c := (obligation8 (E17 m) c).loose
  hwaits := Pipeline.hwaits_of_owed_zero _ _ _ _ noLevels levelZero 8 fun _ _ => rfl
  pre c := iprop(StableHlo.held (c : Thread nD τ) (Pipeline.ucRefs τ sig) (X17 m c) ∗ riding c)
  post c := iprop(StableHlo.held (c : Thread nD τ) (Pipeline.ucRefs τ sig) (X18 m c) ∗ riding c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (carry8_in (E17 m) c)
    unfold Pipeline.ΦA
    iintro ⟨Hp, -, Hr⟩
    isplitl [Hr]; · iexact Hr
    iexact Hp
  hout c := by
    rw [Pipeline.ownSems0_none]
    refine BIBase.Entails.trans (carry8_out (E17 m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m c) (E18 m c) ((pdats m 8 c).arrAt · cfg8.N) (exitArr8 m c) (exitRest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 as an item of the program: entered with every unscoped buffer at the contents before it, left with them
    at the contents after it; its windows' arrays are split out of the unscoped buffers at entry and put back at exit;
    the generator register goes into the region's invariant and comes back; the core owes nothing. -/
def item19 : Pipeline.RegionSeg (pcfgs (F := F)) adm (pdats m) () defs₀ noVariants noLevels levelZero 9 where
  win := launch9.win.to₀
  block_pos := launch9.block_pos
  stage_whole := launch9.stage_whole
  K := PEmpty
  osem k := k.elim
  ho := Pipeline.OwnSemFacts.none _
  hbody c := (obligation9 (E19 m) c).loose
  hwaits := Pipeline.hwaits_of_owed_zero _ _ _ _ noLevels levelZero 9 fun _ _ => rfl
  pre c := iprop(StableHlo.held (c : Thread nD τ) (Pipeline.ucRefs τ sig) (X19 m c) ∗ riding c)
  post c := iprop(StableHlo.held (c : Thread nD τ) (Pipeline.ucRefs τ sig) (X20 m c) ∗ riding c)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E19 m c) (E20 m c) ((pdats m 9 c).arrAt · cfg9.N) (exitArr9 m c) (exitRest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 as an item of the program: entered with every unscoped buffer at the contents before it, left with them
    at the contents after it; its windows' arrays are split out of the unscoped buffers at entry and put back at exit;
    the generator register goes into the region's invariant and comes back; the core owes nothing. -/
def item21 : Pipeline.RegionSeg (pcfgs (F := F)) adm (pdats m) () defs₀ noVariants noLevels levelZero 10 where
  win := launch10.win.to₀
  block_pos := launch10.block_pos
  stage_whole := launch10.stage_whole
  K := PEmpty
  osem k := k.elim
  ho := Pipeline.OwnSemFacts.none _
  hbody c := (obligation10 (E21 m) c).loose
  hwaits := Pipeline.hwaits_of_owed_zero _ _ _ _ noLevels levelZero 10 fun _ _ => rfl
  pre c := iprop(StableHlo.held (c : Thread nD τ) (Pipeline.ucRefs τ sig) (X21 m c) ∗ riding c)
  post c := iprop(StableHlo.held (c : Thread nD τ) (Pipeline.ucRefs τ sig) (X22 m c) ∗ riding c)
  X c := iprop(∃ r, prngReg c r)
  Y c := iprop(∃ r, prngReg c r)
  Z c := Pipeline.unscopedRest (Ix := Unit) (Name := ℕ) (U := UR sig nD τ) (Lvl := ℕ) spec10 c (E21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (E21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E21 m c) (E22 m c) ((pdats m 10 c).arrAt · cfg10.N) (exitArr10 m c) (exitRest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen
end
-- ==== Proof.KI.Whole.lean ====
/-
  The whole run of the program on the TensorCores: its 22 items in order (a host stretch, then a kernel region, eleven
  times), chained through the contents between them. Every weakly fair execution from a memory with zero counters
  terminates, and in every final state each unscoped buffer holds the last contents of the chain. From it: the
  arguments end as launched (no item writes one), and the result buffer holds what the last region leaves.
-/
import proofs.«100381_j2018634629568_1_alg».proof.Proof.KI.ItemsA
import proofs.«100381_j2018634629568_1_alg».proof.Proof.KI.ItemsB
import proofs.«100381_j2018634629568_1_alg».proof.Proof.KI.ItemsC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as an item: its operations folded over the contents before it, the riding state untouched. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- The program's 22 items in order. -/
abbrev items : List (Pipeline.Seg (pcfgs (F := F)) adm (pdats m) () defs₀ noVariants noLevels levelZero) :=
  [
    .host (hostItem hostOps0 hostOps0_sub hostOps0_fresh (X0 m)),
    .region (item1 m),
    .host (hostItem hostOps1 hostOps1_sub hostOps1_fresh (X2 m)),
    .region (item3 m),
    .host (hostItem hostOps2 hostOps2_sub hostOps2_fresh (X4 m)),
    .region (item5 m),
    .host (hostItem hostOps3 hostOps3_sub hostOps3_fresh (X6 m)),
    .region (item7 m),
    .host (hostItem hostOps4 hostOps4_sub hostOps4_fresh (X8 m)),
    .region (item9 m),
    .host (hostItem hostOps5 hostOps5_sub hostOps5_fresh (X10 m)),
    .region (item11 m),
    .host (hostItem hostOps6 hostOps6_sub hostOps6_fresh (X12 m)),
    .region (item13 m),
    .host (hostItem hostOps7 hostOps7_sub hostOps7_fresh (X14 m)),
    .region (item15 m),
    .host (hostItem hostOps8 hostOps8_sub hostOps8_fresh (X16 m)),
    .region (item17 m),
    .host (hostItem hostOps9 hostOps9_sub hostOps9_fresh (X18 m)),
    .region (item19 m),
    .host (hostItem hostOps10 hostOps10_sub hostOps10_fresh (X20 m)),
    .region (item21 m) ]

/-- The program is the run of its items. -/
theorem main_items (c : Dev nD) : main (F := F) c = Pipeline.Seg.run (items m) := (main_chain c).trans (by chain_rfl)

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last item's exit state is the last contents beside the register, and the core owing nothing. -/
theorem lastLink (c : Dev nD) :
    (iprop(StableHlo.held (c : Thread nD τ) (Pipeline.ucRefs τ sig) (X22 m c) ∗ riding c) : sProp 𝕄)
      ⊢ iprop(iprop(StableHlo.held (c : Thread nD τ) (Pipeline.ucRefs τ sig) (X22 m c) ∗ ∃ r, prngReg c r) ∗ ∃ W, owes (c : Thread nD τ) (0 : CellTallies nD τ sig Unit) W) := by
  iintro ⟨Hh, Hp, Ho⟩
  isplitl [Hh Hp]
  · isplitl [Hh]
    · iexact Hh
    · iexact Hp
  · iexact Ho

set_option backward.isDefEq.respectTransparency.types false in
/-- THE RUN. In every final state every unscoped buffer of every core holds the chain's last contents. -/
theorem wholeRun : θ_run defs (onTc (τ := τ) (main (F := F))) ⟨m, fun _ => 0, ρ⟩ (fun r => ∀ c : Dev nD,
      ∀ b ∈ Pipeline.ucRefs τ sig, r.2.mem (((c : Thread nD τ)).1, b) = X22 m c b) :=
  Pipeline.θ_run_regions_kit (pcfgs (F := F)) adm (pdats m) () cellOf_inj emb₁ defs₀ noVariants noLevels levelZero m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ riding c))
    (Tₙ := fun c => iprop(StableHlo.held (c : Thread nD τ) (Pipeline.ucRefs τ sig) (X22 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => lastLink m c⟩)
    (hinit := by
      refine Pipeline.initEach noLevels levelZero fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X22 m c b)
    (hfin := fun c s' => by
      iintro ⟨⟨Hh, -⟩, HSI⟩
      unfold StableHlo.held
      imodintro
      iapply (pointsTo_read_all (Pipeline.ucRefs τ sig) (fun b => (((c : Thread nD τ)).1, b)) (X22 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_unscoped main_arg0 (by decide))).trans (X22_launch m c main_arg0 (by decide)),
    (h c _ (mem_unscoped main_arg1 (by decide))).trans (X22_launch m c main_arg1 (by decide)),
    (h c _ (mem_unscoped main_arg2 (by decide))).trans (X22_launch m c main_arg2 (by decide)),
    (h c _ (mem_unscoped main_arg3 (by decide))).trans (X22_launch m c main_arg3 (by decide)),
    (h c _ (mem_unscoped main_arg4 (by decide))).trans (X22_launch m c main_arg4 (by decide)),
    (h c _ (mem_unscoped main_arg5 (by decide))).trans (X22_launch m c main_arg5 (by decide)),
    (h c _ (mem_unscoped main_arg6 (by decide))).trans (X22_launch m c main_arg6 (by decide)),
    (h c _ (mem_unscoped main_arg7 (by decide))).trans (X22_launch m c main_arg7 (by decide)),
    (h c _ (mem_unscoped main_arg8 (by decide))).trans (X22_launch m c main_arg8 (by decide)),
    (h c _ (mem_unscoped main_arg9 (by decide))).trans (X22_launch m c main_arg9 (by decide)),
    (h c _ (mem_unscoped main_arg10 (by decide))).trans (X22_launch m c main_arg10 (by decide)),
    (h c _ (mem_unscoped main_arg11 (by decide))).trans (X22_launch m c main_arg11 (by decide)),
    (h c _ (mem_unscoped main_arg12 (by decide))).trans (X22_launch m c main_arg12 (by decide)),
    (h c _ (mem_unscoped main_arg13 (by decide))).trans (X22_launch m c main_arg13 (by decide)),
    (h c _ (mem_unscoped main_arg14 (by decide))).trans (X22_launch m c main_arg14 (by decide)),
    (h c _ (mem_unscoped main_arg15 (by decide))).trans (X22_launch m c main_arg15 (by decide)),
    (h c _ (mem_unscoped main_arg16 (by decide))).trans (X22_launch m c main_arg16 (by decide))⟩) (wholeRun m ρ)

/-- The result buffer ends at what the last region leaves, and every argument array as launched. -/
theorem runResult : θ_run defs (onTc (τ := τ) (main (F := F))) ⟨m, fun _ => 0, ρ⟩ (fun r => ∀ c : Dev nD,
      r.2.mem ((c.tc : Thread nD τ).loc main_v155) = X22 m c (Proc.devRef .tc main_v155)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_unscoped main_v155 (by decide)),
    (h c _ (mem_unscoped main_arg0 (by decide))).trans (X22_launch m c main_arg0 (by decide)),
    (h c _ (mem_unscoped main_arg1 (by decide))).trans (X22_launch m c main_arg1 (by decide)),
    (h c _ (mem_unscoped main_arg2 (by decide))).trans (X22_launch m c main_arg2 (by decide)),
    (h c _ (mem_unscoped main_arg3 (by decide))).trans (X22_launch m c main_arg3 (by decide)),
    (h c _ (mem_unscoped main_arg4 (by decide))).trans (X22_launch m c main_arg4 (by decide)),
    (h c _ (mem_unscoped main_arg5 (by decide))).trans (X22_launch m c main_arg5 (by decide)),
    (h c _ (mem_unscoped main_arg6 (by decide))).trans (X22_launch m c main_arg6 (by decide)),
    (h c _ (mem_unscoped main_arg7 (by decide))).trans (X22_launch m c main_arg7 (by decide)),
    (h c _ (mem_unscoped main_arg8 (by decide))).trans (X22_launch m c main_arg8 (by decide)),
    (h c _ (mem_unscoped main_arg9 (by decide))).trans (X22_launch m c main_arg9 (by decide)),
    (h c _ (mem_unscoped main_arg10 (by decide))).trans (X22_launch m c main_arg10 (by decide)),
    (h c _ (mem_unscoped main_arg11 (by decide))).trans (X22_launch m c main_arg11 (by decide)),
    (h c _ (mem_unscoped main_arg12 (by decide))).trans (X22_launch m c main_arg12 (by decide)),
    (h c _ (mem_unscoped main_arg13 (by decide))).trans (X22_launch m c main_arg13 (by decide)),
    (h c _ (mem_unscoped main_arg14 (by decide))).trans (X22_launch m c main_arg14 (by decide)),
    (h c _ (mem_unscoped main_arg15 (by decide))).trans (X22_launch m c main_arg15 (by decide)),
    (h c _ (mem_unscoped main_arg16 (by decide))).trans (X22_launch m c main_arg16 (by decide))⟩) (wholeRun m ρ)

end Cert.KernelIdeal.Gen
end
-- ==== Proof.RI.Step.lean ====
/-
  Reading a straight line of host operations in which every buffer is written at most once.

  `after l V` folds the operations of `l` over the contents `V`. When operation `i` of the line writes exactly
  buffer `i` of a list `W` (`WritesAre`), a buffer that is not in `W` keeps its contents (`keep`); a buffer
  that no operation from position `j` on writes holds after the first `j` operations what it holds at the end
  (`take_eq`); and the buffer operation `j` writes, if no later operation writes it, holds at the end that
  operation's result on the contents before it (`read`). Together: when neither the result buffer is written
  again nor an operand buffer is written from the operation on, the result buffer's final contents are the
  operation's function of the operand buffers' FINAL contents (`read_nullary` … `read_reshape`).
-/
import Idealize.ShloMosaic.Lib.StableHlo.Run

namespace Cert.ReferenceIdeal.RefRun

open Idealize.ShloMosaic Idealize.ShloMosaic.StableHlo Idealize.ShloMosaic.TcCoe

variable {τ : Topo} {sig : RefSig} {Val : EltTy → Type}

/-- Two lines folded one after the other are their concatenation folded as one. -/
theorem after_append' (l₁ l₂ : List (HloOp τ sig Val)) (V : Valuation τ sig Val) :
    after (l₁ ++ l₂) V = after l₂ (after l₁ V) := by
  induction l₁ generalizing V with
  | nil => rfl
  | cons op l ih => exact ih (op.result V)

/-- Operation `i` of the line writes exactly buffer `i` of the list. -/
def WritesAre (l : List (HloOp τ sig Val)) (W : List (Ref sig .tc)) : Prop :=
  List.Forall₂ (fun op w => op.writes = {(Proc.devRef .tc w : DevRef τ sig)}) l W

namespace WritesAre

variable {l : List (HloOp τ sig Val)} {W : List (Ref sig .tc)}

theorem append {l' : List (HloOp τ sig Val)} {W' : List (Ref sig .tc)} (h : WritesAre l W) (h' : WritesAre l' W') :
    WritesAre (l ++ l') (W ++ W') := List.rel_append h h'

theorem drop (h : WritesAre l W) (j : Nat) : WritesAre (l.drop j) (W.drop j) := List.forall₂_drop j h

/-- A buffer the line does not write keeps its contents. -/
theorem keep (h : WritesAre l W) (V : Valuation τ sig Val) {r : Ref sig .tc} (hr : r ∉ W) :
    after l V (Proc.devRef .tc r) = V (Proc.devRef .tc r) := by
  induction h generalizing V with
  | nil => rfl
  | cons hw _ ih =>
    rw [after_cons, ih _ (List.not_mem_of_not_mem_cons hr), HloOp.result_of_not_mem]
    rw [hw, Finset.mem_singleton]
    exact devRef_ne_of_ne (List.ne_of_not_mem_cons hr)

/-- A buffer no operation from position `j` on writes holds after the first `j` operations what it holds at the end. -/
theorem take_eq (h : WritesAre l W) (j : Nat) (V : Valuation τ sig Val) {a : Ref sig .tc} (ha : a ∉ W.drop j) :
    after (l.take j) V (Proc.devRef .tc a) = after l V (Proc.devRef .tc a) := by
  conv_rhs => rw [← List.take_append_drop j l, after_append']
  exact ((h.drop j).keep _ ha).symm

/-- The buffer operation `j` writes, not written again, holds at the end that operation's result. -/
theorem read (h : WritesAre l W) {j : Nat} {op : HloOp τ sig Val} (hop : l[j]? = some op) (V : Valuation τ sig Val)
    {y : Ref sig .tc} (hy : y ∉ W.drop (j + 1)) :
    after l V (Proc.devRef .tc y) = op.result (after (l.take j) V) (Proc.devRef .tc y) := by
  obtain ⟨hj, rfl⟩ := List.getElem?_eq_some_iff.mp hop
  conv_lhs => rw [← List.take_append_drop j l, after_append', List.drop_eq_getElem_cons hj, after_cons]
  exact (h.drop (j + 1)).keep _ hy

variable {x a b c y : Ref sig .tc}

theorem read_nullary (h : WritesAre l W) {j : Nat} {v : y.ty.Contents Val} {hy}
    (hop : l[j]? = some (nullary (τ := τ) y v hy)) (V : Valuation τ sig Val) (hy' : y ∉ W.drop (j + 1)) :
    after l V (Proc.devRef .tc y) = v := by
  rw [h.read hop V hy', nullary_result]

theorem read_unary (h : WritesAre l W) {j : Nat} {f : x.ty.Contents Val → y.ty.Contents Val} {hx hy}
    (hop : l[j]? = some (unary (τ := τ) x y f hx hy)) (V : Valuation τ sig Val) (hy' : y ∉ W.drop (j + 1))
    (hx' : x ∉ W.drop j) :
    after l V (Proc.devRef .tc y) = f (after l V (Proc.devRef .tc x)) := by
  rw [h.read hop V hy', unary_result, h.take_eq j V hx']

theorem read_binary (h : WritesAre l W) {j : Nat} {f : a.ty.Contents Val → b.ty.Contents Val → y.ty.Contents Val} {ha hb hy}
    (hop : l[j]? = some (binary (τ := τ) a b y f ha hb hy)) (V : Valuation τ sig Val) (hy' : y ∉ W.drop (j + 1))
    (ha' : a ∉ W.drop j) (hb' : b ∉ W.drop j) :
    after l V (Proc.devRef .tc y) = f (after l V (Proc.devRef .tc a)) (after l V (Proc.devRef .tc b)) := by
  rw [h.read hop V hy', binary_result, h.take_eq j V ha', h.take_eq j V hb']

theorem read_ternary (h : WritesAre l W) {j : Nat}
    {f : c.ty.Contents Val → a.ty.Contents Val → b.ty.Contents Val → y.ty.Contents Val} {hc ha hb hy}
    (hop : l[j]? = some (ternary (τ := τ) c a b y f hc ha hb hy)) (V : Valuation τ sig Val) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.read hop V hy', ternary_result, h.take_eq j V hc', h.take_eq j V ha', h.take_eq j V hb']

theorem read_reshape (h : WritesAre l W) {j : Nat} {he : x.ty.elt = y.ty.elt} {hn : x.ty.shape.ShapeCasts y.ty.shape} {hx hy}
    (hop : l[j]? = some (reshape (τ := τ) (Val := Val) x y he hn hx hy)) (V : Valuation τ sig Val)
    (hy' : y ∉ W.drop (j + 1)) (hx' : x ∉ W.drop j) :
    after l V (Proc.devRef .tc y) = fun i => he ▸ shapeCast y.ty.shape (after l V (Proc.devRef .tc x)) hn i := by
  rw [h.read hop V hy', reshape_result, h.take_eq j V hx']

end WritesAre

end Cert.ReferenceIdeal.RefRun
-- ==== Proof.RI.Part0.lean ====
/-
  The reference program's statements 1 … 60 (window `main_part0`) as a list of host operations, operations
  1 … 85 of 431: each call of a module-local function is replaced by the callee's operations over that call's
  buffer record (the rectifier: the zero, its broadcast, the maximum; the variance: its twenty operations, the
  last three being the inner selection's), exactly as the inliner substitutes them. With it: the window is that
  straight line, every operation stays within the TensorCore buffers, determines its result, and operation `i` writes
  exactly buffer `i` of the listed ones, none of which is an argument of the program.
-/
import proofs.«100381_j2018634629568_1_alg».proof.Proof.Gen.ReferenceIdeal
import proofs.«100381_j2018634629568_1_alg».proof.Proof.RI.Step
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 85 of 431 (window `main_part0`), the calls unfolded. -/
abbrev opsPart0 : List (HloOp τ sig (Elt F)) :=
  [ StableHlo.unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v0 main_v1 rfl shapeCasts_S1x160000_S160000,
    StableHlo.unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v2 main_v3 rfl shapeCasts_S1x160000_S160000,
    StableHlo.nullary main_c (constantI S_ 32 0#32),
    StableHlo.unary main_c main_v4 (broadcastInDim S160000 ![] bcast_S_S160000 : (⟨S_, .i32⟩ : BufTy).Contents (Elt F) → (⟨S160000, .i32⟩ : BufTy).Contents (Elt F)),
    StableHlo.binary main_v1 main_v4 main_v5 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 10000#32),
    StableHlo.unary main_c_0 main_v6 (broadcastInDim S160000 ![] bcast_S_S160000 : (⟨S_, .i32⟩ : BufTy).Contents (Elt F) → (⟨S160000, .i32⟩ : BufTy).Contents (Elt F)),
    StableHlo.binary main_v1 main_v6 main_v7 (addi : (⟨S160000, .i32⟩ : BufTy).Contents (Elt F) → (⟨S160000, .i32⟩ : BufTy).Contents (Elt F) → (⟨S160000, .i32⟩ : BufTy).Contents (Elt F)),
    StableHlo.ternary main_v5 main_v7 main_v1 main_v8 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v8 main_v9 (broadcastInDim S160000x1 ![0] bcast_S160000_S160000x1_0 : (⟨S160000, .i32⟩ : BufTy).Contents (Elt F) → (⟨S160000x1, .i32⟩ : BufTy).Contents (Elt F)),
    StableHlo.binary main_arg0 main_v9 main_v10 ((fun x i => Host.gather gather_S10000x16_S160000x1_S160000x16_1_0_n_n_0_1_116 x i) : (⟨S10000x16, .f32⟩ : BufTy).Contents (Elt F) → (⟨S160000x1, .i32⟩ : BufTy).Contents (Elt F) → (⟨S160000x16, .f32⟩ : BufTy).Contents (Elt F)),
    StableHlo.nullary main_cst (constant S_ .f32 0x00000000#32),
    StableHlo.unary main_cst main_v11 (broadcastInDim S10000x16 ![] bcast_S_S10000x16 : (⟨S_, .f32⟩ : BufTy).Contents (Elt F) → (⟨S10000x16, .f32⟩ : BufTy).Contents (Elt F)),
    StableHlo.unary main_v3 main_v12 (broadcastInDim S160000x1 ![0] bcast_S160000_S160000x1_0 : (⟨S160000, .i32⟩ : BufTy).Contents (Elt F) → (⟨S160000x1, .i32⟩ : BufTy).Contents (Elt F)),
    StableHlo.ternary main_v11 main_v12 main_v10 main_v13 ((fun x i u => Host.scatterAdd scatter_S10000x16_S160000x1_S160000x16_1_0_0_1 x i u) : (⟨S10000x16, .f32⟩ : BufTy).Contents (Elt F) → (⟨S160000x1, .i32⟩ : BufTy).Contents (Elt F) → (⟨S160000x16, .f32⟩ : BufTy).Contents (Elt F) → (⟨S10000x16, .f32⟩ : BufTy).Contents (Elt F)),
    StableHlo.binary main_arg0 main_v13 main_v14 (addf : (⟨S10000x16, .f32⟩ : BufTy).Contents (Elt F) → (⟨S10000x16, .f32⟩ : BufTy).Contents (Elt F) → (⟨S10000x16, .f32⟩ : BufTy).Contents (Elt F)),
    StableHlo.binary main_v14 main_arg3 main_v15 ((fun l r => Host.dotGeneral dot_S10000x16_S16x512_S10000x512_1_0_0_1_n_n none l r) : (⟨S10000x16, .f32⟩ : BufTy).Contents (Elt F) → (⟨S16x512, .f32⟩ : BufTy).Contents (Elt F) → (⟨S10000x512, .f32⟩ : BufTy).Contents (Elt F)),
    StableHlo.unary main_arg4 main_v16 (broadcastInDim S1x512 ![1] bcast_S512_S1x512_1 : (⟨S512, .f32⟩ : BufTy).Contents (Elt F) → (⟨S1x512, .f32⟩ : BufTy).Contents (Elt F)),
    StableHlo.unary main_v16 main_v17 (broadcastInDim S10000x512 ![0, 1] bcast_S1x512_S10000x512_0_1 : (⟨S1x512, .f32⟩ : BufTy).Contents (Elt F) → (⟨S10000x512, .f32⟩ : BufTy).Contents (Elt F)),
    StableHlo.binary main_v15 main_v17 main_v18 (addf : (⟨S10000x512, .f32⟩ : BufTy).Contents (Elt F) → (⟨S10000x512, .f32⟩ : BufTy).Contents (Elt F) → (⟨S10000x512, .f32⟩ : BufTy).Contents (Elt F)),
    StableHlo.TRef.nullary main_call0.cst (constant S_ .f32 0x00000000#32),
    StableHlo.TRef.unary main_call0.cst main_call0.v0 (broadcastInDim S10000x512 ![] bcast_S_S10000x512),
    StableHlo.TRef.binary (.of main_v18 : StableHlo.TRef sig ⟨S10000x512, .f32⟩) main_call0.v0 main_call0.v1 maximumf,
    StableHlo.binary main_v19 main_arg5 main_v20 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_arg6 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S10000x512 ![0, 1] bcast_S1x512_S10000x512_0_1 : (⟨S1x512, .f32⟩ : BufTy).Contents (Elt F) → (⟨S10000x512, .f32⟩ : BufTy).Contents (Elt F)),
    StableHlo.binary main_v20 main_v22 main_v23 (addf : (⟨S10000x512, .f32⟩ : BufTy).Contents (Elt F) → (⟨S10000x512, .f32⟩ : BufTy).Contents (Elt F) → (⟨S10000x512, .f32⟩ : BufTy).Contents (Elt F)),
    StableHlo.TRef.nullary main_call1.cst (constant S_ .f32 0x00000000#32),
    StableHlo.TRef.unary main_call1.cst main_call1.v0 (broadcastInDim S10000x512 ![] bcast_S_S10000x512),
    StableHlo.TRef.binary (.of main_v23 : StableHlo.TRef sig ⟨S10000x512, .f32⟩) main_call1.v0 main_call1.v1 maximumf,
    StableHlo.unary main_arg11 main_v25 ((extractStridedSlice S1x512 ![0, 0] · slices_S5x512_S1x512_0_0) : (⟨S5x512, .f32⟩ : BufTy).Contents (Elt F) → (⟨S1x512, .f32⟩ : BufTy).Contents (Elt F)),
    StableHlo.reshape main_v25 main_v26 rfl shapeCasts_S1x512_S512,
    StableHlo.unary main_arg12 main_v27 ((extractStridedSlice S1x512 ![0, 0] · slices_S5x512_S1x512_0_0) : (⟨S5x512, .f32⟩ : BufTy).Contents (Elt F) → (⟨S1x512, .f32⟩ : BufTy).Contents (Elt F)),
    StableHlo.reshape main_v27 main_v28 rfl shapeCasts_S1x512_S512,
    StableHlo.nullary main_cst_1 (constant S_ .f32 0x00000000#32),
    StableHlo.binary main_v24 main_cst_1 main_v29 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_2 (constant S_ .f32 0x461C4000#32),
    StableHlo.unary main_cst_2 main_v30 (broadcastInDim S512 ![] bcast_S_S512 : (⟨S_, .f32⟩ : BufTy).Contents (Elt F) → (⟨S512, .f32⟩ : BufTy).Contents (Elt F)),
    StableHlo.binary main_v29 main_v30 main_v31 (Host.divf : (⟨S512, .f32⟩ : BufTy).Contents (Elt F) → (⟨S512, .f32⟩ : BufTy).Contents (Elt F) → (⟨S512, .f32⟩ : BufTy).Contents (Elt F)),
    StableHlo.nullary main_c_3 (constantI S_ 32 0#32),
    StableHlo.TRef.nullary main_call2.cst (constant S_ .f32 0x00000000#32),
    StableHlo.TRef.binary (.of main_v24 : StableHlo.TRef sig ⟨S10000x512, .f32⟩) main_call2.cst main_call2.v0 (fun x v => Host.reduceAdd x v reducesTo_S10000x512_S512_d0 h_S_),
    StableHlo.TRef.unary main_call2.v0 main_call2.v1 (broadcastInDim S1x512 ![1] bcast_S512_S1x512_1),
    StableHlo.TRef.nullary main_call2.cst_0 (constant S_ .f32 0x461C4000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S10000x512 ![0, 1] bcast_S1x512_S10000x512_0_1),
    StableHlo.TRef.binary (.of main_v24 : StableHlo.TRef sig ⟨S10000x512, .f32⟩) main_call2.v4 main_call2.v5 subf,
    StableHlo.TRef.binary main_call2.v5 main_call2.v5 main_call2.v6 mulf,
    StableHlo.TRef.unary (.of main_c_3 : StableHlo.TRef sig ⟨S_, .i32⟩) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v31 main_v33 (broadcastInDim S1x512 ![1] bcast_S512_S1x512_1 : (⟨S512, .f32⟩ : BufTy).Contents (Elt F) → (⟨S1x512, .f32⟩ : BufTy).Contents (Elt F)),
    StableHlo.unary main_v33 main_v34 (broadcastInDim S10000x512 ![0, 1] bcast_S1x512_S10000x512_0_1 : (⟨S1x512, .f32⟩ : BufTy).Contents (Elt F) → (⟨S10000x512, .f32⟩ : BufTy).Contents (Elt F)),
    StableHlo.binary main_v24 main_v34 main_v35 (subf : (⟨S10000x512, .f32⟩ : BufTy).Contents (Elt F) → (⟨S10000x512, .f32⟩ : BufTy).Contents (Elt F) → (⟨S10000x512, .f32⟩ : BufTy).Contents (Elt F)),
    StableHlo.nullary main_cst_4 (constant S_ .f32 0x3727C5AC#32),
    StableHlo.unary main_cst_4 main_v36 (broadcastInDim S512 ![] bcast_S_S512 : (⟨S_, .f32⟩ : BufTy).Contents (Elt F) → (⟨S512, .f32⟩ : BufTy).Contents (Elt F)),
    StableHlo.binary main_v32 main_v36 main_v37 (addf : (⟨S512, .f32⟩ : BufTy).Contents (Elt F) → (⟨S512, .f32⟩ : BufTy).Contents (Elt F) → (⟨S512, .f32⟩ : BufTy).Contents (Elt F)),
    StableHlo.unary main_v37 main_v38 (Host.rsqrt : (⟨S512, .f32⟩ : BufTy).Contents (Elt F) → (⟨S512, .f32⟩ : BufTy).Contents (Elt F)),
    StableHlo.binary main_v26 main_v38 main_v39 (mulf : (⟨S512, .f32⟩ : BufTy).Contents (Elt F) → (⟨S512, .f32⟩ : BufTy).Contents (Elt F) → (⟨S512, .f32⟩ : BufTy).Contents (Elt F)),
    StableHlo.unary main_v39 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S10000x512 ![0, 1] bcast_S1x512_S10000x512_0_1 : (⟨S1x512, .f32⟩ : BufTy).Contents (Elt F) → (⟨S10000x512, .f32⟩ : BufTy).Contents (Elt F)),
    StableHlo.binary main_v35 main_v41 main_v42 (mulf : (⟨S10000x512, .f32⟩ : BufTy).Contents (Elt F) → (⟨S10000x512, .f32⟩ : BufTy).Contents (Elt F) → (⟨S10000x512, .f32⟩ : BufTy).Contents (Elt F)),
    StableHlo.unary main_v28 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S10000x512 ![0, 1] bcast_S1x512_S10000x512_0_1 : (⟨S1x512, .f32⟩ : BufTy).Contents (Elt F) → (⟨S10000x512, .f32⟩ : BufTy).Contents (Elt F)),
    StableHlo.binary main_v42 main_v44 main_v45 (addf : (⟨S10000x512, .f32⟩ : BufTy).Contents (Elt F) → (⟨S10000x512, .f32⟩ : BufTy).Contents (Elt F) → (⟨S10000x512, .f32⟩ : BufTy).Contents (Elt F)),
    StableHlo.nullary main_c_5 (constantI S_ 32 0#32),
    StableHlo.unary main_c_5 main_v46 (broadcastInDim S160000 ![] bcast_S_S160000 : (⟨S_, .i32⟩ : BufTy).Contents (Elt F) → (⟨S160000, .i32⟩ : BufTy).Contents (Elt F)),
    StableHlo.binary main_v1 main_v46 main_v47 (cmpi .slt : (⟨S160000, .i32⟩ : BufTy).Contents (Elt F) → (⟨S160000, .i32⟩ : BufTy).Contents (Elt F) → (⟨S160000, .i1⟩ : BufTy).Contents (Elt F)),
    StableHlo.nullary main_c_6 (constantI S_ 32 10000#32),
    StableHlo.unary main_c_6 main_v48 (broadcastInDim S160000 ![] bcast_S_S160000 : (⟨S_, .i32⟩ : BufTy).Contents (Elt F) → (⟨S160000, .i32⟩ : BufTy).Contents (Elt F)),
    StableHlo.binary main_v1 main_v48 main_v49 (addi : (⟨S160000, .i32⟩ : BufTy).Contents (Elt F) → (⟨S160000, .i32⟩ : BufTy).Contents (Elt F) → (⟨S160000, .i32⟩ : BufTy).Contents (Elt F)),
    StableHlo.ternary main_v47 main_v49 main_v1 main_v50 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) ]

set_option maxRecDepth 8192 in
/-- The window is that straight line: the callees' definitions unfolded at their calls and the records at their
    fields, both sides are one chain of steps once sequencing is reassociated. -/
theorem main_part0_eq (c : Dev nD) : main_part0 (F := F) c = seq opsPart0 := by
  simp only [main_part0, fn_relu.body, fn_var.body, fn_where.body, seq, bind_assoc, pure_bind] <;> rfl

set_option maxRecDepth 8192 in
theorem opsPart0_sub : (opsPart0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub ..⟩

set_option maxRecDepth 8192 in
/-- Every operation of the window determines its result. -/
theorem opsPart0_fresh : (opsPart0 : List (HloOp τ sig (Elt F))).Forall fun op => op.fresh = ∅ := by
  simp only [List.Forall]; repeat' constructor

/-- The buffers the window's operations write, in order. -/
abbrev opsPart0_W : List (Ref sig .tc) :=
  [main_v0, main_v1, main_v2, main_v3, main_c, main_v4, main_v5, main_c_0, main_v6, main_v7,
    main_v8, main_v9, main_v10, main_cst, main_v11, main_v12, main_v13, main_v14, main_v15, main_v16,
    main_v17, main_v18, main_call0_cst, main_call0_v0, main_v19, main_v20, main_v21, main_v22, main_v23, main_call1_cst,
    main_call1_v0, main_v24, main_v25, main_v26, main_v27, main_v28, main_cst_1, main_v29, main_cst_2, main_v30,
    main_v31, main_c_3, main_call2_cst, main_call2_v0, main_call2_v1, main_call2_cst_0, main_call2_v2, main_call2_v3, main_call2_v4, main_call2_v5,
    main_call2_v6, main_call2_v7, main_call2_cst_1, main_call2_v8, main_call2_cst_2, main_call2_v9, main_call2_v10, main_call2_v11, main_call2_cst_3, main_call2_v12,
    main_call2_cst_4, main_call2_call0_v0, main_call2_call0_v1, main_v32, main_v33, main_v34, main_v35, main_cst_4, main_v36, main_v37,
    main_v38, main_v39, main_v40, main_v41, main_v42, main_v43, main_v44, main_v45, main_c_5, main_v46,
    main_v47, main_c_6, main_v48, main_v49, main_v50]

set_option maxRecDepth 8192 in
/-- Operation `i` of the window writes exactly buffer `i` of the list: each builder's written set is its result buffer. -/
theorem opsPart0_writesAre : WritesAre (opsPart0 : List (HloOp τ sig (Elt F))) opsPart0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))

end Cert.ReferenceIdeal.RefRun

end
-- ==== Proof.RI.Part1.lean ====
/-
  The reference program's statements 61 … 120 (window `main_part1`) as a list of host operations, operations
  86 … 170 of 431: each call of a module-local function is replaced by the callee's operations over that call's
  buffer record (the rectifier: the zero, its broadcast, the maximum; the variance: its twenty operations, the
  last three being the inner selection's), exactly as the inliner substitutes them. With it: the window is that
  straight line, every operation stays within the TensorCore buffers, determines its result, and operation `i` writes
  exactly buffer `i` of the listed ones, none of which is an argument of the program.
-/
import proofs.«100381_j2018634629568_1_alg».proof.Proof.Gen.ReferenceIdeal
import proofs.«100381_j2018634629568_1_alg».proof.Proof.RI.Step
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 86 … 170 of 431 (window `main_part1`), the calls unfolded. -/
abbrev opsPart1 : List (HloOp τ sig (Elt F)) :=
  [ StableHlo.unary main_v50 main_v51 (broadcastInDim S160000x1 ![0] bcast_S160000_S160000x1_0 : (⟨S160000, .i32⟩ : BufTy).Contents (Elt F) → (⟨S160000x1, .i32⟩ : BufTy).Contents (Elt F)),
    StableHlo.binary main_v45 main_v51 main_v52 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),
    StableHlo.nullary main_cst_7 (constant S_ .f32 0x00000000#32),
    StableHlo.unary main_cst_7 main_v53 (broadcastInDim S10000x512 ![] bcast_S_S10000x512 : (⟨S_, .f32⟩ : BufTy).Contents (Elt F) → (⟨S10000x512, .f32⟩ : BufTy).Contents (Elt F)),
    StableHlo.unary main_v3 main_v54 (broadcastInDim S160000x1 ![0] bcast_S160000_S160000x1_0 : (⟨S160000, .i32⟩ : BufTy).Contents (Elt F) → (⟨S160000x1, .i32⟩ : BufTy).Contents (Elt F)),
    StableHlo.ternary main_v53 main_v54 main_v52 main_v55 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)),
    StableHlo.binary main_v45 main_v55 main_v56 (addf : (⟨S10000x512, .f32⟩ : BufTy).Contents (Elt F) → (⟨S10000x512, .f32⟩ : BufTy).Contents (Elt F) → (⟨S10000x512, .f32⟩ : BufTy).Contents (Elt F)),
    StableHlo.unary main_arg7 main_v57 ((extractStridedSlice S1x512x512 ![0, 0, 0] · slices_S4x512x512_S1x512x512_0_0_0) : (⟨S4x512x512, .f32⟩ : BufTy).Contents (Elt F) → (⟨S1x512x512, .f32⟩ : BufTy).Contents (Elt F)),
    StableHlo.reshape main_v57 main_v58 rfl shapeCasts_S1x512x512_S512x512,
    StableHlo.unary main_arg8 main_v59 ((extractStridedSlice S1x512 ![0, 0] · slices_S4x512_S1x512_0_0) : (⟨S4x512, .f32⟩ : BufTy).Contents (Elt F) → (⟨S1x512, .f32⟩ : BufTy).Contents (Elt F)),
    StableHlo.reshape main_v59 main_v60 rfl shapeCasts_S1x512_S512,
    StableHlo.unary main_arg9 main_v61 ((extractStridedSlice S1x512x512 ![0, 0, 0] · slices_S4x512x512_S1x512x512_0_0_0) : (⟨S4x512x512, .f32⟩ : BufTy).Contents (Elt F) → (⟨S1x512x512, .f32⟩ : BufTy).Contents (Elt F)),
    StableHlo.reshape main_v61 main_v62 rfl shapeCasts_S1x512x512_S512x512,
    StableHlo.unary main_arg10 main_v63 ((extractStridedSlice S1x512 ![0, 0] · slices_S4x512_S1x512_0_0) : (⟨S4x512, .f32⟩ : BufTy).Contents (Elt F) → (⟨S1x512, .f32⟩ : BufTy).Contents (Elt F)),
    StableHlo.reshape main_v63 main_v64 rfl shapeCasts_S1x512_S512,
    StableHlo.binary main_v56 main_v58 main_v65 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_v60 main_v66 (broadcastInDim S1x512 ![1] bcast_S512_S1x512_1 : (⟨S512, .f32⟩ : BufTy).Contents (Elt F) → (⟨S1x512, .f32⟩ : BufTy).Contents (Elt F)),
    StableHlo.unary main_v66 main_v67 (broadcastInDim S10000x512 ![0, 1] bcast_S1x512_S10000x512_0_1 : (⟨S1x512, .f32⟩ : BufTy).Contents (Elt F) → (⟨S10000x512, .f32⟩ : BufTy).Contents (Elt F)),
    StableHlo.binary main_v65 main_v67 main_v68 (addf : (⟨S10000x512, .f32⟩ : BufTy).Contents (Elt F) → (⟨S10000x512, .f32⟩ : BufTy).Contents (Elt F) → (⟨S10000x512, .f32⟩ : BufTy).Contents (Elt F)),
    StableHlo.TRef.nullary main_call3.cst (constant S_ .f32 0x00000000#32),
    StableHlo.TRef.unary main_call3.cst main_call3.v0 (broadcastInDim S10000x512 ![] bcast_S_S10000x512),
    StableHlo.TRef.binary (.of main_v68 : StableHlo.TRef sig ⟨S10000x512, .f32⟩) main_call3.v0 main_call3.v1 maximumf,
    StableHlo.binary main_v69 main_v62 main_v70 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_v64 main_v71 (broadcastInDim S1x512 ![1] bcast_S512_S1x512_1 : (⟨S512, .f32⟩ : BufTy).Contents (Elt F) → (⟨S1x512, .f32⟩ : BufTy).Contents (Elt F)),
    StableHlo.unary main_v71 main_v72 (broadcastInDim S10000x512 ![0, 1] bcast_S1x512_S10000x512_0_1 : (⟨S1x512, .f32⟩ : BufTy).Contents (Elt F) → (⟨S10000x512, .f32⟩ : BufTy).Contents (Elt F)),
    StableHlo.binary main_v70 main_v72 main_v73 (addf : (⟨S10000x512, .f32⟩ : BufTy).Contents (Elt F) → (⟨S10000x512, .f32⟩ : BufTy).Contents (Elt F) → (⟨S10000x512, .f32⟩ : BufTy).Contents (Elt F)),
    StableHlo.TRef.nullary main_call4.cst (constant S_ .f32 0x00000000#32),
    StableHlo.TRef.unary main_call4.cst main_call4.v0 (broadcastInDim S10000x512 ![] bcast_S_S10000x512),
    StableHlo.TRef.binary (.of main_v73 : StableHlo.TRef sig ⟨S10000x512, .f32⟩) main_call4.v0 main_call4.v1 maximumf,
    StableHlo.unary main_arg11 main_v75 ((extractStridedSlice S1x512 ![1, 0] · slices_S5x512_S1x512_1_0) : (⟨S5x512, .f32⟩ : BufTy).Contents (Elt F) → (⟨S1x512, .f32⟩ : BufTy).Contents (Elt F)),
    StableHlo.reshape main_v75 main_v76 rfl shapeCasts_S1x512_S512,
    StableHlo.unary main_arg12 main_v77 ((extractStridedSlice S1x512 ![1, 0] · slices_S5x512_S1x512_1_0) : (⟨S5x512, .f32⟩ : BufTy).Contents (Elt F) → (⟨S1x512, .f32⟩ : BufTy).Contents (Elt F)),
    StableHlo.reshape main_v77 main_v78 rfl shapeCasts_S1x512_S512,
    StableHlo.nullary main_cst_8 (constant S_ .f32 0x00000000#32),
    StableHlo.binary main_v74 main_cst_8 main_v79 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_9 (constant S_ .f32 0x461C4000#32),
    StableHlo.unary main_cst_9 main_v80 (broadcastInDim S512 ![] bcast_S_S512 : (⟨S_, .f32⟩ : BufTy).Contents (Elt F) → (⟨S512, .f32⟩ : BufTy).Contents (Elt F)),
    StableHlo.binary main_v79 main_v80 main_v81 (Host.divf : (⟨S512, .f32⟩ : BufTy).Contents (Elt F) → (⟨S512, .f32⟩ : BufTy).Contents (Elt F) → (⟨S512, .f32⟩ : BufTy).Contents (Elt F)),
    StableHlo.nullary main_c_10 (constantI S_ 32 0#32),
    StableHlo.TRef.nullary main_call5.cst (constant S_ .f32 0x00000000#32),
    StableHlo.TRef.binary (.of main_v74 : StableHlo.TRef sig ⟨S10000x512, .f32⟩) main_call5.cst main_call5.v0 (fun x v => Host.reduceAdd x v reducesTo_S10000x512_S512_d0 h_S_),
    StableHlo.TRef.unary main_call5.v0 main_call5.v1 (broadcastInDim S1x512 ![1] bcast_S512_S1x512_1),
    StableHlo.TRef.nullary main_call5.cst_0 (constant S_ .f32 0x461C4000#32),
    StableHlo.TRef.unary main_call5.cst_0 main_call5.v2 (broadcastInDim S1x512 ![] bcast_S_S1x512),
    StableHlo.TRef.binary main_call5.v1 main_call5.v2 main_call5.v3 Host.divf,
    StableHlo.TRef.unary main_call5.v3 main_call5.v4 (broadcastInDim S10000x512 ![0, 1] bcast_S1x512_S10000x512_0_1),
    StableHlo.TRef.binary (.of main_v74 : StableHlo.TRef sig ⟨S10000x512, .f32⟩) main_call5.v4 main_call5.v5 subf,
    StableHlo.TRef.binary main_call5.v5 main_call5.v5 main_call5.v6 mulf,
    StableHlo.TRef.unary (.of main_c_10 : StableHlo.TRef sig ⟨S_, .i32⟩) main_call5.v7 (sitofp .f32),
    StableHlo.TRef.nullary main_call5.cst_1 (constant S_ .f32 0x461C4000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S10000x512_S512_d0 h_S_),
    StableHlo.TRef.unary main_call5.v8 main_call5.v10 (broadcastInDim S512 ![] bcast_S_S512),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S512 ![] bcast_S_S512),
    StableHlo.TRef.ternary main_call5.v12 main_call5.v11 main_call5.call0.v1 main_call5.call0.v2 (fun p a b => select (broadcastInDim S512 ![] bcast_S_S512 p) a b),
    StableHlo.unary main_v81 main_v83 (broadcastInDim S1x512 ![1] bcast_S512_S1x512_1 : (⟨S512, .f32⟩ : BufTy).Contents (Elt F) → (⟨S1x512, .f32⟩ : BufTy).Contents (Elt F)),
    StableHlo.unary main_v83 main_v84 (broadcastInDim S10000x512 ![0, 1] bcast_S1x512_S10000x512_0_1 : (⟨S1x512, .f32⟩ : BufTy).Contents (Elt F) → (⟨S10000x512, .f32⟩ : BufTy).Contents (Elt F)),
    StableHlo.binary main_v74 main_v84 main_v85 (subf : (⟨S10000x512, .f32⟩ : BufTy).Contents (Elt F) → (⟨S10000x512, .f32⟩ : BufTy).Contents (Elt F) → (⟨S10000x512, .f32⟩ : BufTy).Contents (Elt F)),
    StableHlo.nullary main_cst_11 (constant S_ .f32 0x3727C5AC#32),
    StableHlo.unary main_cst_11 main_v86 (broadcastInDim S512 ![] bcast_S_S512 : (⟨S_, .f32⟩ : BufTy).Contents (Elt F) → (⟨S512, .f32⟩ : BufTy).Contents (Elt F)),
    StableHlo.binary main_v82 main_v86 main_v87 (addf : (⟨S512, .f32⟩ : BufTy).Contents (Elt F) → (⟨S512, .f32⟩ : BufTy).Contents (Elt F) → (⟨S512, .f32⟩ : BufTy).Contents (Elt F)),
    StableHlo.unary main_v87 main_v88 (Host.rsqrt : (⟨S512, .f32⟩ : BufTy).Contents (Elt F) → (⟨S512, .f32⟩ : BufTy).Contents (Elt F)),
    StableHlo.binary main_v76 main_v88 main_v89 (mulf : (⟨S512, .f32⟩ : BufTy).Contents (Elt F) → (⟨S512, .f32⟩ : BufTy).Contents (Elt F) → (⟨S512, .f32⟩ : BufTy).Contents (Elt F)),
    StableHlo.unary main_v89 main_v90 (broadcastInDim S1x512 ![1] bcast_S512_S1x512_1 : (⟨S512, .f32⟩ : BufTy).Contents (Elt F) → (⟨S1x512, .f32⟩ : BufTy).Contents (Elt F)),
    StableHlo.unary main_v90 main_v91 (broadcastInDim S10000x512 ![0, 1] bcast_S1x512_S10000x512_0_1 : (⟨S1x512, .f32⟩ : BufTy).Contents (Elt F) → (⟨S10000x512, .f32⟩ : BufTy).Contents (Elt F)),
    StableHlo.binary main_v85 main_v91 main_v92 (mulf : (⟨S10000x512, .f32⟩ : BufTy).Contents (Elt F) → (⟨S10000x512, .f32⟩ : BufTy).Contents (Elt F) → (⟨S10000x512, .f32⟩ : BufTy).Contents (Elt F)),
    StableHlo.unary main_v78 main_v93 (broadcastInDim S1x512 ![1] bcast_S512_S1x512_1 : (⟨S512, .f32⟩ : BufTy).Contents (Elt F) → (⟨S1x512, .f32⟩ : BufTy).Contents (Elt F)),
    StableHlo.unary main_v93 main_v94 (broadcastInDim S10000x512 ![0, 1] bcast_S1x512_S10000x512_0_1 : (⟨S1x512, .f32⟩ : BufTy).Contents (Elt F) → (⟨S10000x512, .f32⟩ : BufTy).Contents (Elt F)),
    StableHlo.binary main_v92 main_v94 main_v95 (addf : (⟨S10000x512, .f32⟩ : BufTy).Contents (Elt F) → (⟨S10000x512, .f32⟩ : BufTy).Contents (Elt F) → (⟨S10000x512, .f32⟩ : BufTy).Contents (Elt F)),
    StableHlo.nullary main_c_12 (constantI S_ 32 0#32),
    StableHlo.unary main_c_12 main_v96 (broadcastInDim S160000 ![] bcast_S_S160000 : (⟨S_, .i32⟩ : BufTy).Contents (Elt F) → (⟨S160000, .i32⟩ : BufTy).Contents (Elt F)),
    StableHlo.binary main_v1 main_v96 main_v97 (cmpi .slt : (⟨S160000, .i32⟩ : BufTy).Contents (Elt F) → (⟨S160000, .i32⟩ : BufTy).Contents (Elt F) → (⟨S160000, .i1⟩ : BufTy).Contents (Elt F)),
    StableHlo.nullary main_c_13 (constantI S_ 32 10000#32),
    StableHlo.unary main_c_13 main_v98 (broadcastInDim S160000 ![] bcast_S_S160000 : (⟨S_, .i32⟩ : BufTy).Contents (Elt F) → (⟨S160000, .i32⟩ : BufTy).Contents (Elt F)),
    StableHlo.binary main_v1 main_v98 main_v99 (addi : (⟨S160000, .i32⟩ : BufTy).Contents (Elt F) → (⟨S160000, .i32⟩ : BufTy).Contents (Elt F) → (⟨S160000, .i32⟩ : BufTy).Contents (Elt F)),
    StableHlo.ternary main_v97 main_v99 main_v1 main_v100 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v100 main_v101 (broadcastInDim S160000x1 ![0] bcast_S160000_S160000x1_0 : (⟨S160000, .i32⟩ : BufTy).Contents (Elt F) → (⟨S160000x1, .i32⟩ : BufTy).Contents (Elt F)),
    StableHlo.binary main_v95 main_v101 main_v102 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),
    StableHlo.nullary main_cst_14 (constant S_ .f32 0x00000000#32) ]

set_option maxRecDepth 8192 in
/-- The window is that straight line: the callees' definitions unfolded at their calls and the records at their
    fields, both sides are one chain of steps once sequencing is reassociated. -/
theorem main_part1_eq (c : Dev nD) : main_part1 (F := F) c = seq opsPart1 := by
  simp only [main_part1, fn_relu.body, fn_var.body, fn_where.body, seq, bind_assoc, pure_bind] <;> rfl

set_option maxRecDepth 8192 in
theorem opsPart1_sub : (opsPart1 : List (HloOp τ sig (Elt F))).Forall fun op => op.bufs ⊆ tcRefs τ sig :=
  ⟨unary_bufs_sub .., binary_bufs_sub .., nullary_bufs_sub .., unary_bufs_sub .., unary_bufs_sub .., ternary_bufs_sub ..,
    binary_bufs_sub .., unary_bufs_sub .., reshape_bufs_sub .., unary_bufs_sub .., reshape_bufs_sub .., unary_bufs_sub ..,
    reshape_bufs_sub .., unary_bufs_sub .., reshape_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub ..⟩

set_option maxRecDepth 8192 in
/-- Every operation of the window determines its result. -/
theorem opsPart1_fresh : (opsPart1 : List (HloOp τ sig (Elt F))).Forall fun op => op.fresh = ∅ := by
  simp only [List.Forall]; repeat' constructor

/-- The buffers the window's operations write, in order. -/
abbrev opsPart1_W : List (Ref sig .tc) :=
  [main_v51, main_v52, main_cst_7, main_v53, main_v54, main_v55, main_v56, main_v57, main_v58, main_v59,
    main_v60, main_v61, main_v62, main_v63, main_v64, main_v65, main_v66, main_v67, main_v68, main_call3_cst,
    main_call3_v0, main_v69, main_v70, main_v71, main_v72, main_v73, main_call4_cst, main_call4_v0, main_v74, main_v75,
    main_v76, main_v77, main_v78, main_cst_8, main_v79, main_cst_9, main_v80, main_v81, main_c_10, main_call5_cst,
    main_call5_v0, main_call5_v1, main_call5_cst_0, main_call5_v2, main_call5_v3, main_call5_v4, main_call5_v5, main_call5_v6, main_call5_v7, main_call5_cst_1,
    main_call5_v8, main_call5_cst_2, main_call5_v9, main_call5_v10, main_call5_v11, main_call5_cst_3, main_call5_v12, main_call5_cst_4, main_call5_call0_v0, main_call5_call0_v1,
    main_v82, main_v83, main_v84, main_v85, main_cst_11, main_v86, main_v87, main_v88, main_v89, main_v90,
    main_v91, main_v92, main_v93, main_v94, main_v95, main_c_12, main_v96, main_v97, main_c_13, main_v98,
    main_v99, main_v100, main_v101, main_v102, main_cst_14]

set_option maxRecDepth 8192 in
/-- Operation `i` of the window writes exactly buffer `i` of the list: each builder's written set is its result buffer. -/
theorem opsPart1_writesAre : WritesAre (opsPart1 : List (HloOp τ sig (Elt F))) opsPart1_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))

end Cert.ReferenceIdeal.RefRun

end
-- ==== Proof.RI.Part2.lean ====
/-
  The reference program's statements 121 … 180 (window `main_part2`) as a list of host operations, operations
  171 … 255 of 431: each call of a module-local function is replaced by the callee's operations over that call's
  buffer record (the rectifier: the zero, its broadcast, the maximum; the variance: its twenty operations, the
  last three being the inner selection's), exactly as the inliner substitutes them. With it: the window is that
  straight line, every operation stays within the TensorCore buffers, determines its result, and operation `i` writes
  exactly buffer `i` of the listed ones, none of which is an argument of the program.
-/
import proofs.«100381_j2018634629568_1_alg».proof.Proof.Gen.ReferenceIdeal
import proofs.«100381_j2018634629568_1_alg».proof.Proof.RI.Step
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 171 … 255 of 431 (window `main_part2`), the calls unfolded. -/
abbrev opsPart2 : List (HloOp τ sig (Elt F)) :=
  [ StableHlo.unary main_cst_14 main_v103 (broadcastInDim S10000x512 ![] bcast_S_S10000x512 : (⟨S_, .f32⟩ : BufTy).Contents (Elt F) → (⟨S10000x512, .f32⟩ : BufTy).Contents (Elt F)),
    StableHlo.unary main_v3 main_v104 (broadcastInDim S160000x1 ![0] bcast_S160000_S160000x1_0 : (⟨S160000, .i32⟩ : BufTy).Contents (Elt F) → (⟨S160000x1, .i32⟩ : BufTy).Contents (Elt F)),
    StableHlo.ternary main_v103 main_v104 main_v102 main_v105 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)),
    StableHlo.binary main_v95 main_v105 main_v106 (addf : (⟨S10000x512, .f32⟩ : BufTy).Contents (Elt F) → (⟨S10000x512, .f32⟩ : BufTy).Contents (Elt F) → (⟨S10000x512, .f32⟩ : BufTy).Contents (Elt F)),
    StableHlo.unary main_arg7 main_v107 ((extractStridedSlice S1x512x512 ![1, 0, 0] · slices_S4x512x512_S1x512x512_1_0_0) : (⟨S4x512x512, .f32⟩ : BufTy).Contents (Elt F) → (⟨S1x512x512, .f32⟩ : BufTy).Contents (Elt F)),
    StableHlo.reshape main_v107 main_v108 rfl shapeCasts_S1x512x512_S512x512,
    StableHlo.unary main_arg8 main_v109 ((extractStridedSlice S1x512 ![1, 0] · slices_S4x512_S1x512_1_0) : (⟨S4x512, .f32⟩ : BufTy).Contents (Elt F) → (⟨S1x512, .f32⟩ : BufTy).Contents (Elt F)),
    StableHlo.reshape main_v109 main_v110 rfl shapeCasts_S1x512_S512,
    StableHlo.unary main_arg9 main_v111 ((extractStridedSlice S1x512x512 ![1, 0, 0] · slices_S4x512x512_S1x512x512_1_0_0) : (⟨S4x512x512, .f32⟩ : BufTy).Contents (Elt F) → (⟨S1x512x512, .f32⟩ : BufTy).Contents (Elt F)),
    StableHlo.reshape main_v111 main_v112 rfl shapeCasts_S1x512x512_S512x512,
    StableHlo.unary main_arg10 main_v113 ((extractStridedSlice S1x512 ![1, 0] · slices_S4x512_S1x512_1_0) : (⟨S4x512, .f32⟩ : BufTy).Contents (Elt F) → (⟨S1x512, .f32⟩ : BufTy).Contents (Elt F)),
    StableHlo.reshape main_v113 main_v114 rfl shapeCasts_S1x512_S512,
    StableHlo.binary main_v106 main_v108 main_v115 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_v110 main_v116 (broadcastInDim S1x512 ![1] bcast_S512_S1x512_1 : (⟨S512, .f32⟩ : BufTy).Contents (Elt F) → (⟨S1x512, .f32⟩ : BufTy).Contents (Elt F)),
    StableHlo.unary main_v116 main_v117 (broadcastInDim S10000x512 ![0, 1] bcast_S1x512_S10000x512_0_1 : (⟨S1x512, .f32⟩ : BufTy).Contents (Elt F) → (⟨S10000x512, .f32⟩ : BufTy).Contents (Elt F)),
    StableHlo.binary main_v115 main_v117 main_v118 (addf : (⟨S10000x512, .f32⟩ : BufTy).Contents (Elt F) → (⟨S10000x512, .f32⟩ : BufTy).Contents (Elt F) → (⟨S10000x512, .f32⟩ : BufTy).Contents (Elt F)),
    StableHlo.TRef.nullary main_call6.cst (constant S_ .f32 0x00000000#32),
    StableHlo.TRef.unary main_call6.cst main_call6.v0 (broadcastInDim S10000x512 ![] bcast_S_S10000x512),
    StableHlo.TRef.binary (.of main_v118 : StableHlo.TRef sig ⟨S10000x512, .f32⟩) main_call6.v0 main_call6.v1 maximumf,
    StableHlo.binary main_v119 main_v112 main_v120 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_v114 main_v121 (broadcastInDim S1x512 ![1] bcast_S512_S1x512_1 : (⟨S512, .f32⟩ : BufTy).Contents (Elt F) → (⟨S1x512, .f32⟩ : BufTy).Contents (Elt F)),
    StableHlo.unary main_v121 main_v122 (broadcastInDim S10000x512 ![0, 1] bcast_S1x512_S10000x512_0_1 : (⟨S1x512, .f32⟩ : BufTy).Contents (Elt F) → (⟨S10000x512, .f32⟩ : BufTy).Contents (Elt F)),
    StableHlo.binary main_v120 main_v122 main_v123 (addf : (⟨S10000x512, .f32⟩ : BufTy).Contents (Elt F) → (⟨S10000x512, .f32⟩ : BufTy).Contents (Elt F) → (⟨S10000x512, .f32⟩ : BufTy).Contents (Elt F)),
    StableHlo.TRef.nullary main_call7.cst (constant S_ .f32 0x00000000#32),
    StableHlo.TRef.unary main_call7.cst main_call7.v0 (broadcastInDim S10000x512 ![] bcast_S_S10000x512),
    StableHlo.TRef.binary (.of main_v123 : StableHlo.TRef sig ⟨S10000x512, .f32⟩) main_call7.v0 main_call7.v1 maximumf,
    StableHlo.unary main_arg11 main_v125 ((extractStridedSlice S1x512 ![2, 0] · slices_S5x512_S1x512_2_0) : (⟨S5x512, .f32⟩ : BufTy).Contents (Elt F) → (⟨S1x512, .f32⟩ : BufTy).Contents (Elt F)),
    StableHlo.reshape main_v125 main_v126 rfl shapeCasts_S1x512_S512,
    StableHlo.unary main_arg12 main_v127 ((extractStridedSlice S1x512 ![2, 0] · slices_S5x512_S1x512_2_0) : (⟨S5x512, .f32⟩ : BufTy).Contents (Elt F) → (⟨S1x512, .f32⟩ : BufTy).Contents (Elt F)),
    StableHlo.reshape main_v127 main_v128 rfl shapeCasts_S1x512_S512,
    StableHlo.nullary main_cst_15 (constant S_ .f32 0x00000000#32),
    StableHlo.binary main_v124 main_cst_15 main_v129 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_16 (constant S_ .f32 0x461C4000#32),
    StableHlo.unary main_cst_16 main_v130 (broadcastInDim S512 ![] bcast_S_S512 : (⟨S_, .f32⟩ : BufTy).Contents (Elt F) → (⟨S512, .f32⟩ : BufTy).Contents (Elt F)),
    StableHlo.binary main_v129 main_v130 main_v131 (Host.divf : (⟨S512, .f32⟩ : BufTy).Contents (Elt F) → (⟨S512, .f32⟩ : BufTy).Contents (Elt F) → (⟨S512, .f32⟩ : BufTy).Contents (Elt F)),
    StableHlo.nullary main_c_17 (constantI S_ 32 0#32),
    StableHlo.TRef.nullary main_call8.cst (constant S_ .f32 0x00000000#32),
    StableHlo.TRef.binary (.of main_v124 : StableHlo.TRef sig ⟨S10000x512, .f32⟩) main_call8.cst main_call8.v0 (fun x v => Host.reduceAdd x v reducesTo_S10000x512_S512_d0 h_S_),
    StableHlo.TRef.unary main_call8.v0 main_call8.v1 (broadcastInDim S1x512 ![1] bcast_S512_S1x512_1),
    StableHlo.TRef.nullary main_call8.cst_0 (constant S_ .f32 0x461C4000#32),
    StableHlo.TRef.unary main_call8.cst_0 main_call8.v2 (broadcastInDim S1x512 ![] bcast_S_S1x512),
    StableHlo.TRef.binary main_call8.v1 main_call8.v2 main_call8.v3 Host.divf,
    StableHlo.TRef.unary main_call8.v3 main_call8.v4 (broadcastInDim S10000x512 ![0, 1] bcast_S1x512_S10000x512_0_1),
    StableHlo.TRef.binary (.of main_v124 : StableHlo.TRef sig ⟨S10000x512, .f32⟩) main_call8.v4 main_call8.v5 subf,
    StableHlo.TRef.binary main_call8.v5 main_call8.v5 main_call8.v6 mulf,
    StableHlo.TRef.unary (.of main_c_17 : StableHlo.TRef sig ⟨S_, .i32⟩) main_call8.v7 (sitofp .f32),
    StableHlo.TRef.nullary main_call8.cst_1 (constant S_ .f32 0x461C4000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S10000x512_S512_d0 h_S_),
    StableHlo.TRef.unary main_call8.v8 main_call8.v10 (broadcastInDim S512 ![] bcast_S_S512),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S512 ![] bcast_S_S512),
    StableHlo.TRef.ternary main_call8.v12 main_call8.v11 main_call8.call0.v1 main_call8.call0.v2 (fun p a b => select (broadcastInDim S512 ![] bcast_S_S512 p) a b),
    StableHlo.unary main_v131 main_v133 (broadcastInDim S1x512 ![1] bcast_S512_S1x512_1 : (⟨S512, .f32⟩ : BufTy).Contents (Elt F) → (⟨S1x512, .f32⟩ : BufTy).Contents (Elt F)),
    StableHlo.unary main_v133 main_v134 (broadcastInDim S10000x512 ![0, 1] bcast_S1x512_S10000x512_0_1 : (⟨S1x512, .f32⟩ : BufTy).Contents (Elt F) → (⟨S10000x512, .f32⟩ : BufTy).Contents (Elt F)),
    StableHlo.binary main_v124 main_v134 main_v135 (subf : (⟨S10000x512, .f32⟩ : BufTy).Contents (Elt F) → (⟨S10000x512, .f32⟩ : BufTy).Contents (Elt F) → (⟨S10000x512, .f32⟩ : BufTy).Contents (Elt F)),
    StableHlo.nullary main_cst_18 (constant S_ .f32 0x3727C5AC#32),
    StableHlo.unary main_cst_18 main_v136 (broadcastInDim S512 ![] bcast_S_S512 : (⟨S_, .f32⟩ : BufTy).Contents (Elt F) → (⟨S512, .f32⟩ : BufTy).Contents (Elt F)),
    StableHlo.binary main_v132 main_v136 main_v137 (addf : (⟨S512, .f32⟩ : BufTy).Contents (Elt F) → (⟨S512, .f32⟩ : BufTy).Contents (Elt F) → (⟨S512, .f32⟩ : BufTy).Contents (Elt F)),
    StableHlo.unary main_v137 main_v138 (Host.rsqrt : (⟨S512, .f32⟩ : BufTy).Contents (Elt F) → (⟨S512, .f32⟩ : BufTy).Contents (Elt F)),
    StableHlo.binary main_v126 main_v138 main_v139 (mulf : (⟨S512, .f32⟩ : BufTy).Contents (Elt F) → (⟨S512, .f32⟩ : BufTy).Contents (Elt F) → (⟨S512, .f32⟩ : BufTy).Contents (Elt F)),
    StableHlo.unary main_v139 main_v140 (broadcastInDim S1x512 ![1] bcast_S512_S1x512_1 : (⟨S512, .f32⟩ : BufTy).Contents (Elt F) → (⟨S1x512, .f32⟩ : BufTy).Contents (Elt F)),
    StableHlo.unary main_v140 main_v141 (broadcastInDim S10000x512 ![0, 1] bcast_S1x512_S10000x512_0_1 : (⟨S1x512, .f32⟩ : BufTy).Contents (Elt F) → (⟨S10000x512, .f32⟩ : BufTy).Contents (Elt F)),
    StableHlo.binary main_v135 main_v141 main_v142 (mulf : (⟨S10000x512, .f32⟩ : BufTy).Contents (Elt F) → (⟨S10000x512, .f32⟩ : BufTy).Contents (Elt F) → (⟨S10000x512, .f32⟩ : BufTy).Contents (Elt F)),
    StableHlo.unary main_v128 main_v143 (broadcastInDim S1x512 ![1] bcast_S512_S1x512_1 : (⟨S512, .f32⟩ : BufTy).Contents (Elt F) → (⟨S1x512, .f32⟩ : BufTy).Contents (Elt F)),
    StableHlo.unary main_v143 main_v144 (broadcastInDim S10000x512 ![0, 1] bcast_S1x512_S10000x512_0_1 : (⟨S1x512, .f32⟩ : BufTy).Contents (Elt F) → (⟨S10000x512, .f32⟩ : BufTy).Contents (Elt F)),
    StableHlo.binary main_v142 main_v144 main_v145 (addf : (⟨S10000x512, .f32⟩ : BufTy).Contents (Elt F) → (⟨S10000x512, .f32⟩ : BufTy).Contents (Elt F) → (⟨S10000x512, .f32⟩ : BufTy).Contents (Elt F)),
    StableHlo.nullary main_c_19 (constantI S_ 32 0#32),
    StableHlo.unary main_c_19 main_v146 (broadcastInDim S160000 ![] bcast_S_S160000 : (⟨S_, .i32⟩ : BufTy).Contents (Elt F) → (⟨S160000, .i32⟩ : BufTy).Contents (Elt F)),
    StableHlo.binary main_v1 main_v146 main_v147 (cmpi .slt : (⟨S160000, .i32⟩ : BufTy).Contents (Elt F) → (⟨S160000, .i32⟩ : BufTy).Contents (Elt F) → (⟨S160000, .i1⟩ : BufTy).Contents (Elt F)),
    StableHlo.nullary main_c_20 (constantI S_ 32 10000#32),
    StableHlo.unary main_c_20 main_v148 (broadcastInDim S160000 ![] bcast_S_S160000 : (⟨S_, .i32⟩ : BufTy).Contents (Elt F) → (⟨S160000, .i32⟩ : BufTy).Contents (Elt F)),
    StableHlo.binary main_v1 main_v148 main_v149 (addi : (⟨S160000, .i32⟩ : BufTy).Contents (Elt F) → (⟨S160000, .i32⟩ : BufTy).Contents (Elt F) → (⟨S160000, .i32⟩ : BufTy).Contents (Elt F)),
    StableHlo.ternary main_v147 main_v149 main_v1 main_v150 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v150 main_v151 (broadcastInDim S160000x1 ![0] bcast_S160000_S160000x1_0 : (⟨S160000, .i32⟩ : BufTy).Contents (Elt F) → (⟨S160000x1, .i32⟩ : BufTy).Contents (Elt F)),
    StableHlo.binary main_v145 main_v151 main_v152 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),
    StableHlo.nullary main_cst_21 (constant S_ .f32 0x00000000#32),
    StableHlo.unary main_cst_21 main_v153 (broadcastInDim S10000x512 ![] bcast_S_S10000x512 : (⟨S_, .f32⟩ : BufTy).Contents (Elt F) → (⟨S10000x512, .f32⟩ : BufTy).Contents (Elt F)),
    StableHlo.unary main_v3 main_v154 (broadcastInDim S160000x1 ![0] bcast_S160000_S160000x1_0 : (⟨S160000, .i32⟩ : BufTy).Contents (Elt F) → (⟨S160000x1, .i32⟩ : BufTy).Contents (Elt F)),
    StableHlo.ternary main_v153 main_v154 main_v152 main_v155 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)) ]

set_option maxRecDepth 8192 in
/-- The window is that straight line: the callees' definitions unfolded at their calls and the records at their
    fields, both sides are one chain of steps once sequencing is reassociated. -/
theorem main_part2_eq (c : Dev nD) : main_part2 (F := F) c = seq opsPart2 := by
  simp only [main_part2, fn_relu.body, fn_var.body, fn_where.body, seq, bind_assoc, pure_bind] <;> rfl

set_option maxRecDepth 8192 in
theorem opsPart2_sub : (opsPart2 : List (HloOp τ sig (Elt F))).Forall fun op => op.bufs ⊆ tcRefs τ sig :=
  ⟨unary_bufs_sub .., unary_bufs_sub .., ternary_bufs_sub .., binary_bufs_sub .., unary_bufs_sub .., reshape_bufs_sub ..,
    unary_bufs_sub .., reshape_bufs_sub .., unary_bufs_sub .., reshape_bufs_sub .., unary_bufs_sub .., reshape_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩

set_option maxRecDepth 8192 in
/-- Every operation of the window determines its result. -/
theorem opsPart2_fresh : (opsPart2 : List (HloOp τ sig (Elt F))).Forall fun op => op.fresh = ∅ := by
  simp only [List.Forall]; repeat' constructor

/-- The buffers the window's operations write, in order. -/
abbrev opsPart2_W : List (Ref sig .tc) :=
  [main_v103, main_v104, main_v105, main_v106, main_v107, main_v108, main_v109, main_v110, main_v111, main_v112,
    main_v113, main_v114, main_v115, main_v116, main_v117, main_v118, main_call6_cst, main_call6_v0, main_v119, main_v120,
    main_v121, main_v122, main_v123, main_call7_cst, main_call7_v0, main_v124, main_v125, main_v126, main_v127, main_v128,
    main_cst_15, main_v129, main_cst_16, main_v130, main_v131, main_c_17, main_call8_cst, main_call8_v0, main_call8_v1, main_call8_cst_0,
    main_call8_v2, main_call8_v3, main_call8_v4, main_call8_v5, main_call8_v6, main_call8_v7, main_call8_cst_1, main_call8_v8, main_call8_cst_2, main_call8_v9,
    main_call8_v10, main_call8_v11, main_call8_cst_3, main_call8_v12, main_call8_cst_4, main_call8_call0_v0, main_call8_call0_v1, main_v132, main_v133, main_v134,
    main_v135, main_cst_18, main_v136, main_v137, main_v138, main_v139, main_v140, main_v141, main_v142, main_v143,
    main_v144, main_v145, main_c_19, main_v146, main_v147, main_c_20, main_v148, main_v149, main_v150, main_v151,
    main_v152, main_cst_21, main_v153, main_v154, main_v155]

set_option maxRecDepth 8192 in
/-- Operation `i` of the window writes exactly buffer `i` of the list: each builder's written set is its result buffer. -/
theorem opsPart2_writesAre : WritesAre (opsPart2 : List (HloOp τ sig (Elt F))) opsPart2_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))

end Cert.ReferenceIdeal.RefRun

end
-- ==== Proof.RI.Part3.lean ====
/-
  The reference program's statements 181 … 240 (window `main_part3`) as a list of host operations, operations
  256 … 340 of 431: each call of a module-local function is replaced by the callee's operations over that call's
  buffer record (the rectifier: the zero, its broadcast, the maximum; the variance: its twenty operations, the
  last three being the inner selection's), exactly as the inliner substitutes them. With it: the window is that
  straight line, every operation stays within the TensorCore buffers, determines its result, and operation `i` writes
  exactly buffer `i` of the listed ones, none of which is an argument of the program.
-/
import proofs.«100381_j2018634629568_1_alg».proof.Proof.Gen.ReferenceIdeal
import proofs.«100381_j2018634629568_1_alg».proof.Proof.RI.Step
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 256 … 340 of 431 (window `main_part3`), the calls unfolded. -/
abbrev opsPart3 : List (HloOp τ sig (Elt F)) :=
  [ StableHlo.binary main_v145 main_v155 main_v156 (addf : (⟨S10000x512, .f32⟩ : BufTy).Contents (Elt F) → (⟨S10000x512, .f32⟩ : BufTy).Contents (Elt F) → (⟨S10000x512, .f32⟩ : BufTy).Contents (Elt F)),
    StableHlo.unary main_arg7 main_v157 ((extractStridedSlice S1x512x512 ![2, 0, 0] · slices_S4x512x512_S1x512x512_2_0_0) : (⟨S4x512x512, .f32⟩ : BufTy).Contents (Elt F) → (⟨S1x512x512, .f32⟩ : BufTy).Contents (Elt F)),
    StableHlo.reshape main_v157 main_v158 rfl shapeCasts_S1x512x512_S512x512,
    StableHlo.unary main_arg8 main_v159 ((extractStridedSlice S1x512 ![2, 0] · slices_S4x512_S1x512_2_0) : (⟨S4x512, .f32⟩ : BufTy).Contents (Elt F) → (⟨S1x512, .f32⟩ : BufTy).Contents (Elt F)),
    StableHlo.reshape main_v159 main_v160 rfl shapeCasts_S1x512_S512,
    StableHlo.unary main_arg9 main_v161 ((extractStridedSlice S1x512x512 ![2, 0, 0] · slices_S4x512x512_S1x512x512_2_0_0) : (⟨S4x512x512, .f32⟩ : BufTy).Contents (Elt F) → (⟨S1x512x512, .f32⟩ : BufTy).Contents (Elt F)),
    StableHlo.reshape main_v161 main_v162 rfl shapeCasts_S1x512x512_S512x512,
    StableHlo.unary main_arg10 main_v163 ((extractStridedSlice S1x512 ![2, 0] · slices_S4x512_S1x512_2_0) : (⟨S4x512, .f32⟩ : BufTy).Contents (Elt F) → (⟨S1x512, .f32⟩ : BufTy).Contents (Elt F)),
    StableHlo.reshape main_v163 main_v164 rfl shapeCasts_S1x512_S512,
    StableHlo.binary main_v156 main_v158 main_v165 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_v160 main_v166 (broadcastInDim S1x512 ![1] bcast_S512_S1x512_1 : (⟨S512, .f32⟩ : BufTy).Contents (Elt F) → (⟨S1x512, .f32⟩ : BufTy).Contents (Elt F)),
    StableHlo.unary main_v166 main_v167 (broadcastInDim S10000x512 ![0, 1] bcast_S1x512_S10000x512_0_1 : (⟨S1x512, .f32⟩ : BufTy).Contents (Elt F) → (⟨S10000x512, .f32⟩ : BufTy).Contents (Elt F)),
    StableHlo.binary main_v165 main_v167 main_v168 (addf : (⟨S10000x512, .f32⟩ : BufTy).Contents (Elt F) → (⟨S10000x512, .f32⟩ : BufTy).Contents (Elt F) → (⟨S10000x512, .f32⟩ : BufTy).Contents (Elt F)),
    StableHlo.TRef.nullary main_call9.cst (constant S_ .f32 0x00000000#32),
    StableHlo.TRef.unary main_call9.cst main_call9.v0 (broadcastInDim S10000x512 ![] bcast_S_S10000x512),
    StableHlo.TRef.binary (.of main_v168 : StableHlo.TRef sig ⟨S10000x512, .f32⟩) main_call9.v0 main_call9.v1 maximumf,
    StableHlo.binary main_v169 main_v162 main_v170 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_v164 main_v171 (broadcastInDim S1x512 ![1] bcast_S512_S1x512_1 : (⟨S512, .f32⟩ : BufTy).Contents (Elt F) → (⟨S1x512, .f32⟩ : BufTy).Contents (Elt F)),
    StableHlo.unary main_v171 main_v172 (broadcastInDim S10000x512 ![0, 1] bcast_S1x512_S10000x512_0_1 : (⟨S1x512, .f32⟩ : BufTy).Contents (Elt F) → (⟨S10000x512, .f32⟩ : BufTy).Contents (Elt F)),
    StableHlo.binary main_v170 main_v172 main_v173 (addf : (⟨S10000x512, .f32⟩ : BufTy).Contents (Elt F) → (⟨S10000x512, .f32⟩ : BufTy).Contents (Elt F) → (⟨S10000x512, .f32⟩ : BufTy).Contents (Elt F)),
    StableHlo.TRef.nullary main_call10.cst (constant S_ .f32 0x00000000#32),
    StableHlo.TRef.unary main_call10.cst main_call10.v0 (broadcastInDim S10000x512 ![] bcast_S_S10000x512),
    StableHlo.TRef.binary (.of main_v173 : StableHlo.TRef sig ⟨S10000x512, .f32⟩) main_call10.v0 main_call10.v1 maximumf,
    StableHlo.unary main_arg11 main_v175 ((extractStridedSlice S1x512 ![3, 0] · slices_S5x512_S1x512_3_0) : (⟨S5x512, .f32⟩ : BufTy).Contents (Elt F) → (⟨S1x512, .f32⟩ : BufTy).Contents (Elt F)),
    StableHlo.reshape main_v175 main_v176 rfl shapeCasts_S1x512_S512,
    StableHlo.unary main_arg12 main_v177 ((extractStridedSlice S1x512 ![3, 0] · slices_S5x512_S1x512_3_0) : (⟨S5x512, .f32⟩ : BufTy).Contents (Elt F) → (⟨S1x512, .f32⟩ : BufTy).Contents (Elt F)),
    StableHlo.reshape main_v177 main_v178 rfl shapeCasts_S1x512_S512,
    StableHlo.nullary main_cst_22 (constant S_ .f32 0x00000000#32),
    StableHlo.binary main_v174 main_cst_22 main_v179 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_23 (constant S_ .f32 0x461C4000#32),
    StableHlo.unary main_cst_23 main_v180 (broadcastInDim S512 ![] bcast_S_S512 : (⟨S_, .f32⟩ : BufTy).Contents (Elt F) → (⟨S512, .f32⟩ : BufTy).Contents (Elt F)),
    StableHlo.binary main_v179 main_v180 main_v181 (Host.divf : (⟨S512, .f32⟩ : BufTy).Contents (Elt F) → (⟨S512, .f32⟩ : BufTy).Contents (Elt F) → (⟨S512, .f32⟩ : BufTy).Contents (Elt F)),
    StableHlo.nullary main_c_24 (constantI S_ 32 0#32),
    StableHlo.TRef.nullary main_call11.cst (constant S_ .f32 0x00000000#32),
    StableHlo.TRef.binary (.of main_v174 : StableHlo.TRef sig ⟨S10000x512, .f32⟩) main_call11.cst main_call11.v0 (fun x v => Host.reduceAdd x v reducesTo_S10000x512_S512_d0 h_S_),
    StableHlo.TRef.unary main_call11.v0 main_call11.v1 (broadcastInDim S1x512 ![1] bcast_S512_S1x512_1),
    StableHlo.TRef.nullary main_call11.cst_0 (constant S_ .f32 0x461C4000#32),
    StableHlo.TRef.unary main_call11.cst_0 main_call11.v2 (broadcastInDim S1x512 ![] bcast_S_S1x512),
    StableHlo.TRef.binary main_call11.v1 main_call11.v2 main_call11.v3 Host.divf,
    StableHlo.TRef.unary main_call11.v3 main_call11.v4 (broadcastInDim S10000x512 ![0, 1] bcast_S1x512_S10000x512_0_1),
    StableHlo.TRef.binary (.of main_v174 : StableHlo.TRef sig ⟨S10000x512, .f32⟩) main_call11.v4 main_call11.v5 subf,
    StableHlo.TRef.binary main_call11.v5 main_call11.v5 main_call11.v6 mulf,
    StableHlo.TRef.unary (.of main_c_24 : StableHlo.TRef sig ⟨S_, .i32⟩) main_call11.v7 (sitofp .f32),
    StableHlo.TRef.nullary main_call11.cst_1 (constant S_ .f32 0x461C4000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S10000x512_S512_d0 h_S_),
    StableHlo.TRef.unary main_call11.v8 main_call11.v10 (broadcastInDim S512 ![] bcast_S_S512),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S512 ![] bcast_S_S512),
    StableHlo.TRef.ternary main_call11.v12 main_call11.v11 main_call11.call0.v1 main_call11.call0.v2 (fun p a b => select (broadcastInDim S512 ![] bcast_S_S512 p) a b),
    StableHlo.unary main_v181 main_v183 (broadcastInDim S1x512 ![1] bcast_S512_S1x512_1 : (⟨S512, .f32⟩ : BufTy).Contents (Elt F) → (⟨S1x512, .f32⟩ : BufTy).Contents (Elt F)),
    StableHlo.unary main_v183 main_v184 (broadcastInDim S10000x512 ![0, 1] bcast_S1x512_S10000x512_0_1 : (⟨S1x512, .f32⟩ : BufTy).Contents (Elt F) → (⟨S10000x512, .f32⟩ : BufTy).Contents (Elt F)),
    StableHlo.binary main_v174 main_v184 main_v185 (subf : (⟨S10000x512, .f32⟩ : BufTy).Contents (Elt F) → (⟨S10000x512, .f32⟩ : BufTy).Contents (Elt F) → (⟨S10000x512, .f32⟩ : BufTy).Contents (Elt F)),
    StableHlo.nullary main_cst_25 (constant S_ .f32 0x3727C5AC#32),
    StableHlo.unary main_cst_25 main_v186 (broadcastInDim S512 ![] bcast_S_S512 : (⟨S_, .f32⟩ : BufTy).Contents (Elt F) → (⟨S512, .f32⟩ : BufTy).Contents (Elt F)),
    StableHlo.binary main_v182 main_v186 main_v187 (addf : (⟨S512, .f32⟩ : BufTy).Contents (Elt F) → (⟨S512, .f32⟩ : BufTy).Contents (Elt F) → (⟨S512, .f32⟩ : BufTy).Contents (Elt F)),
    StableHlo.unary main_v187 main_v188 (Host.rsqrt : (⟨S512, .f32⟩ : BufTy).Contents (Elt F) → (⟨S512, .f32⟩ : BufTy).Contents (Elt F)),
    StableHlo.binary main_v176 main_v188 main_v189 (mulf : (⟨S512, .f32⟩ : BufTy).Contents (Elt F) → (⟨S512, .f32⟩ : BufTy).Contents (Elt F) → (⟨S512, .f32⟩ : BufTy).Contents (Elt F)),
    StableHlo.unary main_v189 main_v190 (broadcastInDim S1x512 ![1] bcast_S512_S1x512_1 : (⟨S512, .f32⟩ : BufTy).Contents (Elt F) → (⟨S1x512, .f32⟩ : BufTy).Contents (Elt F)),
    StableHlo.unary main_v190 main_v191 (broadcastInDim S10000x512 ![0, 1] bcast_S1x512_S10000x512_0_1 : (⟨S1x512, .f32⟩ : BufTy).Contents (Elt F) → (⟨S10000x512, .f32⟩ : BufTy).Contents (Elt F)),
    StableHlo.binary main_v185 main_v191 main_v192 (mulf : (⟨S10000x512, .f32⟩ : BufTy).Contents (Elt F) → (⟨S10000x512, .f32⟩ : BufTy).Contents (Elt F) → (⟨S10000x512, .f32⟩ : BufTy).Contents (Elt F)),
    StableHlo.unary main_v178 main_v193 (broadcastInDim S1x512 ![1] bcast_S512_S1x512_1 : (⟨S512, .f32⟩ : BufTy).Contents (Elt F) → (⟨S1x512, .f32⟩ : BufTy).Contents (Elt F)),
    StableHlo.unary main_v193 main_v194 (broadcastInDim S10000x512 ![0, 1] bcast_S1x512_S10000x512_0_1 : (⟨S1x512, .f32⟩ : BufTy).Contents (Elt F) → (⟨S10000x512, .f32⟩ : BufTy).Contents (Elt F)),
    StableHlo.binary main_v192 main_v194 main_v195 (addf : (⟨S10000x512, .f32⟩ : BufTy).Contents (Elt F) → (⟨S10000x512, .f32⟩ : BufTy).Contents (Elt F) → (⟨S10000x512, .f32⟩ : BufTy).Contents (Elt F)),
    StableHlo.nullary main_c_26 (constantI S_ 32 0#32),
    StableHlo.unary main_c_26 main_v196 (broadcastInDim S160000 ![] bcast_S_S160000 : (⟨S_, .i32⟩ : BufTy).Contents (Elt F) → (⟨S160000, .i32⟩ : BufTy).Contents (Elt F)),
    StableHlo.binary main_v1 main_v196 main_v197 (cmpi .slt : (⟨S160000, .i32⟩ : BufTy).Contents (Elt F) → (⟨S160000, .i32⟩ : BufTy).Contents (Elt F) → (⟨S160000, .i1⟩ : BufTy).Contents (Elt F)),
    StableHlo.nullary main_c_27 (constantI S_ 32 10000#32),
    StableHlo.unary main_c_27 main_v198 (broadcastInDim S160000 ![] bcast_S_S160000 : (⟨S_, .i32⟩ : BufTy).Contents (Elt F) → (⟨S160000, .i32⟩ : BufTy).Contents (Elt F)),
    StableHlo.binary main_v1 main_v198 main_v199 (addi : (⟨S160000, .i32⟩ : BufTy).Contents (Elt F) → (⟨S160000, .i32⟩ : BufTy).Contents (Elt F) → (⟨S160000, .i32⟩ : BufTy).Contents (Elt F)),
    StableHlo.ternary main_v197 main_v199 main_v1 main_v200 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v200 main_v201 (broadcastInDim S160000x1 ![0] bcast_S160000_S160000x1_0 : (⟨S160000, .i32⟩ : BufTy).Contents (Elt F) → (⟨S160000x1, .i32⟩ : BufTy).Contents (Elt F)),
    StableHlo.binary main_v195 main_v201 main_v202 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),
    StableHlo.nullary main_cst_28 (constant S_ .f32 0x00000000#32),
    StableHlo.unary main_cst_28 main_v203 (broadcastInDim S10000x512 ![] bcast_S_S10000x512 : (⟨S_, .f32⟩ : BufTy).Contents (Elt F) → (⟨S10000x512, .f32⟩ : BufTy).Contents (Elt F)),
    StableHlo.unary main_v3 main_v204 (broadcastInDim S160000x1 ![0] bcast_S160000_S160000x1_0 : (⟨S160000, .i32⟩ : BufTy).Contents (Elt F) → (⟨S160000x1, .i32⟩ : BufTy).Contents (Elt F)),
    StableHlo.ternary main_v203 main_v204 main_v202 main_v205 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)),
    StableHlo.binary main_v195 main_v205 main_v206 (addf : (⟨S10000x512, .f32⟩ : BufTy).Contents (Elt F) → (⟨S10000x512, .f32⟩ : BufTy).Contents (Elt F) → (⟨S10000x512, .f32⟩ : BufTy).Contents (Elt F)),
    StableHlo.unary main_arg7 main_v207 ((extractStridedSlice S1x512x512 ![3, 0, 0] · slices_S4x512x512_S1x512x512_3_0_0) : (⟨S4x512x512, .f32⟩ : BufTy).Contents (Elt F) → (⟨S1x512x512, .f32⟩ : BufTy).Contents (Elt F)),
    StableHlo.reshape main_v207 main_v208 rfl shapeCasts_S1x512x512_S512x512 ]

set_option maxRecDepth 8192 in
/-- The window is that straight line: the callees' definitions unfolded at their calls and the records at their
    fields, both sides are one chain of steps once sequencing is reassociated. -/
theorem main_part3_eq (c : Dev nD) : main_part3 (F := F) c = seq opsPart3 := by
  simp only [main_part3, fn_relu.body, fn_var.body, fn_where.body, seq, bind_assoc, pure_bind] <;> rfl

set_option maxRecDepth 8192 in
theorem opsPart3_sub : (opsPart3 : List (HloOp τ sig (Elt F))).Forall fun op => op.bufs ⊆ tcRefs τ sig :=
  ⟨binary_bufs_sub .., unary_bufs_sub .., reshape_bufs_sub .., unary_bufs_sub .., reshape_bufs_sub .., unary_bufs_sub ..,
    reshape_bufs_sub .., unary_bufs_sub .., reshape_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., unary_bufs_sub ..,
    reshape_bufs_sub ..⟩

set_option maxRecDepth 8192 in
/-- Every operation of the window determines its result. -/
theorem opsPart3_fresh : (opsPart3 : List (HloOp τ sig (Elt F))).Forall fun op => op.fresh = ∅ := by
  simp only [List.Forall]; repeat' constructor

/-- The buffers the window's operations write, in order. -/
abbrev opsPart3_W : List (Ref sig .tc) :=
  [main_v156, main_v157, main_v158, main_v159, main_v160, main_v161, main_v162, main_v163, main_v164, main_v165,
    main_v166, main_v167, main_v168, main_call9_cst, main_call9_v0, main_v169, main_v170, main_v171, main_v172, main_v173,
    main_call10_cst, main_call10_v0, main_v174, main_v175, main_v176, main_v177, main_v178, main_cst_22, main_v179, main_cst_23,
    main_v180, main_v181, main_c_24, main_call11_cst, main_call11_v0, main_call11_v1, main_call11_cst_0, main_call11_v2, main_call11_v3, main_call11_v4,
    main_call11_v5, main_call11_v6, main_call11_v7, main_call11_cst_1, main_call11_v8, main_call11_cst_2, main_call11_v9, main_call11_v10, main_call11_v11, main_call11_cst_3,
    main_call11_v12, main_call11_cst_4, main_call11_call0_v0, main_call11_call0_v1, main_v182, main_v183, main_v184, main_v185, main_cst_25, main_v186,
    main_v187, main_v188, main_v189, main_v190, main_v191, main_v192, main_v193, main_v194, main_v195, main_c_26,
    main_v196, main_v197, main_c_27, main_v198, main_v199, main_v200, main_v201, main_v202, main_cst_28, main_v203,
    main_v204, main_v205, main_v206, main_v207, main_v208]

set_option maxRecDepth 8192 in
/-- Operation `i` of the window writes exactly buffer `i` of the list: each builder's written set is its result buffer. -/
theorem opsPart3_writesAre : WritesAre (opsPart3 : List (HloOp τ sig (Elt F))) opsPart3_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))

end Cert.ReferenceIdeal.RefRun

end
-- ==== Proof.RI.Part4.lean ====
/-
  The reference program's statements 241 … 300 (window `main_part4`) as a list of host operations, operations
  341 … 425 of 431: each call of a module-local function is replaced by the callee's operations over that call's
  buffer record (the rectifier: the zero, its broadcast, the maximum; the variance: its twenty operations, the
  last three being the inner selection's), exactly as the inliner substitutes them. With it: the window is that
  straight line, every operation stays within the TensorCore buffers, determines its result, and operation `i` writes
  exactly buffer `i` of the listed ones, none of which is an argument of the program.
-/
import proofs.«100381_j2018634629568_1_alg».proof.Proof.Gen.ReferenceIdeal
import proofs.«100381_j2018634629568_1_alg».proof.Proof.RI.Step
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 341 … 425 of 431 (window `main_part4`), the calls unfolded. -/
abbrev opsPart4 : List (HloOp τ sig (Elt F)) :=
  [ StableHlo.unary main_arg8 main_v209 ((extractStridedSlice S1x512 ![3, 0] · slices_S4x512_S1x512_3_0) : (⟨S4x512, .f32⟩ : BufTy).Contents (Elt F) → (⟨S1x512, .f32⟩ : BufTy).Contents (Elt F)),
    StableHlo.reshape main_v209 main_v210 rfl shapeCasts_S1x512_S512,
    StableHlo.unary main_arg9 main_v211 ((extractStridedSlice S1x512x512 ![3, 0, 0] · slices_S4x512x512_S1x512x512_3_0_0) : (⟨S4x512x512, .f32⟩ : BufTy).Contents (Elt F) → (⟨S1x512x512, .f32⟩ : BufTy).Contents (Elt F)),
    StableHlo.reshape main_v211 main_v212 rfl shapeCasts_S1x512x512_S512x512,
    StableHlo.unary main_arg10 main_v213 ((extractStridedSlice S1x512 ![3, 0] · slices_S4x512_S1x512_3_0) : (⟨S4x512, .f32⟩ : BufTy).Contents (Elt F) → (⟨S1x512, .f32⟩ : BufTy).Contents (Elt F)),
    StableHlo.reshape main_v213 main_v214 rfl shapeCasts_S1x512_S512,
    StableHlo.binary main_v206 main_v208 main_v215 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_v210 main_v216 (broadcastInDim S1x512 ![1] bcast_S512_S1x512_1 : (⟨S512, .f32⟩ : BufTy).Contents (Elt F) → (⟨S1x512, .f32⟩ : BufTy).Contents (Elt F)),
    StableHlo.unary main_v216 main_v217 (broadcastInDim S10000x512 ![0, 1] bcast_S1x512_S10000x512_0_1 : (⟨S1x512, .f32⟩ : BufTy).Contents (Elt F) → (⟨S10000x512, .f32⟩ : BufTy).Contents (Elt F)),
    StableHlo.binary main_v215 main_v217 main_v218 (addf : (⟨S10000x512, .f32⟩ : BufTy).Contents (Elt F) → (⟨S10000x512, .f32⟩ : BufTy).Contents (Elt F) → (⟨S10000x512, .f32⟩ : BufTy).Contents (Elt F)),
    StableHlo.TRef.nullary main_call12.cst (constant S_ .f32 0x00000000#32),
    StableHlo.TRef.unary main_call12.cst main_call12.v0 (broadcastInDim S10000x512 ![] bcast_S_S10000x512),
    StableHlo.TRef.binary (.of main_v218 : StableHlo.TRef sig ⟨S10000x512, .f32⟩) main_call12.v0 main_call12.v1 maximumf,
    StableHlo.binary main_v219 main_v212 main_v220 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_v214 main_v221 (broadcastInDim S1x512 ![1] bcast_S512_S1x512_1 : (⟨S512, .f32⟩ : BufTy).Contents (Elt F) → (⟨S1x512, .f32⟩ : BufTy).Contents (Elt F)),
    StableHlo.unary main_v221 main_v222 (broadcastInDim S10000x512 ![0, 1] bcast_S1x512_S10000x512_0_1 : (⟨S1x512, .f32⟩ : BufTy).Contents (Elt F) → (⟨S10000x512, .f32⟩ : BufTy).Contents (Elt F)),
    StableHlo.binary main_v220 main_v222 main_v223 (addf : (⟨S10000x512, .f32⟩ : BufTy).Contents (Elt F) → (⟨S10000x512, .f32⟩ : BufTy).Contents (Elt F) → (⟨S10000x512, .f32⟩ : BufTy).Contents (Elt F)),
    StableHlo.TRef.nullary main_call13.cst (constant S_ .f32 0x00000000#32),
    StableHlo.TRef.unary main_call13.cst main_call13.v0 (broadcastInDim S10000x512 ![] bcast_S_S10000x512),
    StableHlo.TRef.binary (.of main_v223 : StableHlo.TRef sig ⟨S10000x512, .f32⟩) main_call13.v0 main_call13.v1 maximumf,
    StableHlo.unary main_arg11 main_v225 ((extractStridedSlice S1x512 ![4, 0] · slices_S5x512_S1x512_4_0) : (⟨S5x512, .f32⟩ : BufTy).Contents (Elt F) → (⟨S1x512, .f32⟩ : BufTy).Contents (Elt F)),
    StableHlo.reshape main_v225 main_v226 rfl shapeCasts_S1x512_S512,
    StableHlo.unary main_arg12 main_v227 ((extractStridedSlice S1x512 ![4, 0] · slices_S5x512_S1x512_4_0) : (⟨S5x512, .f32⟩ : BufTy).Contents (Elt F) → (⟨S1x512, .f32⟩ : BufTy).Contents (Elt F)),
    StableHlo.reshape main_v227 main_v228 rfl shapeCasts_S1x512_S512,
    StableHlo.nullary main_cst_29 (constant S_ .f32 0x00000000#32),
    StableHlo.binary main_v224 main_cst_29 main_v229 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    StableHlo.nullary main_cst_30 (constant S_ .f32 0x461C4000#32),
    StableHlo.unary main_cst_30 main_v230 (broadcastInDim S512 ![] bcast_S_S512 : (⟨S_, .f32⟩ : BufTy).Contents (Elt F) → (⟨S512, .f32⟩ : BufTy).Contents (Elt F)),
    StableHlo.binary main_v229 main_v230 main_v231 (Host.divf : (⟨S512, .f32⟩ : BufTy).Contents (Elt F) → (⟨S512, .f32⟩ : BufTy).Contents (Elt F) → (⟨S512, .f32⟩ : BufTy).Contents (Elt F)),
    StableHlo.nullary main_c_31 (constantI S_ 32 0#32),
    StableHlo.TRef.nullary main_call14.cst (constant S_ .f32 0x00000000#32),
    StableHlo.TRef.binary (.of main_v224 : StableHlo.TRef sig ⟨S10000x512, .f32⟩) main_call14.cst main_call14.v0 (fun x v => Host.reduceAdd x v reducesTo_S10000x512_S512_d0 h_S_),
    StableHlo.TRef.unary main_call14.v0 main_call14.v1 (broadcastInDim S1x512 ![1] bcast_S512_S1x512_1),
    StableHlo.TRef.nullary main_call14.cst_0 (constant S_ .f32 0x461C4000#32),
    StableHlo.TRef.unary main_call14.cst_0 main_call14.v2 (broadcastInDim S1x512 ![] bcast_S_S1x512),
    StableHlo.TRef.binary main_call14.v1 main_call14.v2 main_call14.v3 Host.divf,
    StableHlo.TRef.unary main_call14.v3 main_call14.v4 (broadcastInDim S10000x512 ![0, 1] bcast_S1x512_S10000x512_0_1),
    StableHlo.TRef.binary (.of main_v224 : StableHlo.TRef sig ⟨S10000x512, .f32⟩) main_call14.v4 main_call14.v5 subf,
    StableHlo.TRef.binary main_call14.v5 main_call14.v5 main_call14.v6 mulf,
    StableHlo.TRef.unary (.of main_c_31 : StableHlo.TRef sig ⟨S_, .i32⟩) main_call14.v7 (sitofp .f32),
    StableHlo.TRef.nullary main_call14.cst_1 (constant S_ .f32 0x461C4000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S10000x512_S512_d0 h_S_),
    StableHlo.TRef.unary main_call14.v8 main_call14.v10 (broadcastInDim S512 ![] bcast_S_S512),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S512 ![] bcast_S_S512),
    StableHlo.TRef.ternary main_call14.v12 main_call14.v11 main_call14.call0.v1 main_call14.call0.v2 (fun p a b => select (broadcastInDim S512 ![] bcast_S_S512 p) a b),
    StableHlo.unary main_v231 main_v233 (broadcastInDim S1x512 ![1] bcast_S512_S1x512_1 : (⟨S512, .f32⟩ : BufTy).Contents (Elt F) → (⟨S1x512, .f32⟩ : BufTy).Contents (Elt F)),
    StableHlo.unary main_v233 main_v234 (broadcastInDim S10000x512 ![0, 1] bcast_S1x512_S10000x512_0_1 : (⟨S1x512, .f32⟩ : BufTy).Contents (Elt F) → (⟨S10000x512, .f32⟩ : BufTy).Contents (Elt F)),
    StableHlo.binary main_v224 main_v234 main_v235 (subf : (⟨S10000x512, .f32⟩ : BufTy).Contents (Elt F) → (⟨S10000x512, .f32⟩ : BufTy).Contents (Elt F) → (⟨S10000x512, .f32⟩ : BufTy).Contents (Elt F)),
    StableHlo.nullary main_cst_32 (constant S_ .f32 0x3727C5AC#32),
    StableHlo.unary main_cst_32 main_v236 (broadcastInDim S512 ![] bcast_S_S512 : (⟨S_, .f32⟩ : BufTy).Contents (Elt F) → (⟨S512, .f32⟩ : BufTy).Contents (Elt F)),
    StableHlo.binary main_v232 main_v236 main_v237 (addf : (⟨S512, .f32⟩ : BufTy).Contents (Elt F) → (⟨S512, .f32⟩ : BufTy).Contents (Elt F) → (⟨S512, .f32⟩ : BufTy).Contents (Elt F)),
    StableHlo.unary main_v237 main_v238 (Host.rsqrt : (⟨S512, .f32⟩ : BufTy).Contents (Elt F) → (⟨S512, .f32⟩ : BufTy).Contents (Elt F)),
    StableHlo.binary main_v226 main_v238 main_v239 (mulf : (⟨S512, .f32⟩ : BufTy).Contents (Elt F) → (⟨S512, .f32⟩ : BufTy).Contents (Elt F) → (⟨S512, .f32⟩ : BufTy).Contents (Elt F)),
    StableHlo.unary main_v239 main_v240 (broadcastInDim S1x512 ![1] bcast_S512_S1x512_1 : (⟨S512, .f32⟩ : BufTy).Contents (Elt F) → (⟨S1x512, .f32⟩ : BufTy).Contents (Elt F)),
    StableHlo.unary main_v240 main_v241 (broadcastInDim S10000x512 ![0, 1] bcast_S1x512_S10000x512_0_1 : (⟨S1x512, .f32⟩ : BufTy).Contents (Elt F) → (⟨S10000x512, .f32⟩ : BufTy).Contents (Elt F)),
    StableHlo.binary main_v235 main_v241 main_v242 (mulf : (⟨S10000x512, .f32⟩ : BufTy).Contents (Elt F) → (⟨S10000x512, .f32⟩ : BufTy).Contents (Elt F) → (⟨S10000x512, .f32⟩ : BufTy).Contents (Elt F)),
    StableHlo.unary main_v228 main_v243 (broadcastInDim S1x512 ![1] bcast_S512_S1x512_1 : (⟨S512, .f32⟩ : BufTy).Contents (Elt F) → (⟨S1x512, .f32⟩ : BufTy).Contents (Elt F)),
    StableHlo.unary main_v243 main_v244 (broadcastInDim S10000x512 ![0, 1] bcast_S1x512_S10000x512_0_1 : (⟨S1x512, .f32⟩ : BufTy).Contents (Elt F) → (⟨S10000x512, .f32⟩ : BufTy).Contents (Elt F)),
    StableHlo.binary main_v242 main_v244 main_v245 (addf : (⟨S10000x512, .f32⟩ : BufTy).Contents (Elt F) → (⟨S10000x512, .f32⟩ : BufTy).Contents (Elt F) → (⟨S10000x512, .f32⟩ : BufTy).Contents (Elt F)),
    StableHlo.nullary main_cst_33 (constant S_ .f32 0x00000000#32),
    StableHlo.unary main_cst_33 main_v246 (broadcastInDim S64x512 ![] bcast_S_S64x512 : (⟨S_, .f32⟩ : BufTy).Contents (Elt F) → (⟨S64x512, .f32⟩ : BufTy).Contents (Elt F)),
    StableHlo.unary main_arg2 main_v247 (broadcastInDim S10000x1 ![0] bcast_S10000_S10000x1_0 : (⟨S10000, .i32⟩ : BufTy).Contents (Elt F) → (⟨S10000x1, .i32⟩ : BufTy).Contents (Elt F)),
    StableHlo.ternary main_v246 main_v247 main_v245 main_v248 ((fun x i u => Host.scatterAdd scatter_S64x512_S10000x1_S10000x512_1_0_0_1 x i u) : (⟨S64x512, .f32⟩ : BufTy).Contents (Elt F) → (⟨S10000x1, .i32⟩ : BufTy).Contents (Elt F) → (⟨S10000x512, .f32⟩ : BufTy).Contents (Elt F) → (⟨S64x512, .f32⟩ : BufTy).Contents (Elt F)),
    StableHlo.nullary main_cst_34 (constant S_ .f32 0x3F800000#32),
    StableHlo.unary main_cst_34 main_v249 (broadcastInDim S10000 ![] bcast_S_S10000 : (⟨S_, .f32⟩ : BufTy).Contents (Elt F) → (⟨S10000, .f32⟩ : BufTy).Contents (Elt F)),
    StableHlo.nullary main_cst_35 (constant S_ .f32 0x00000000#32),
    StableHlo.unary main_cst_35 main_v250 (broadcastInDim S64 ![] bcast_S_S64 : (⟨S_, .f32⟩ : BufTy).Contents (Elt F) → (⟨S64, .f32⟩ : BufTy).Contents (Elt F)),
    StableHlo.unary main_arg2 main_v251 (broadcastInDim S10000x1 ![0] bcast_S10000_S10000x1_0 : (⟨S10000, .i32⟩ : BufTy).Contents (Elt F) → (⟨S10000x1, .i32⟩ : BufTy).Contents (Elt F)),
    StableHlo.ternary main_v250 main_v251 main_v249 main_v252 ((fun x i u => Host.scatterAdd scatter_S64_S10000x1_S10000_n_0_0_1 x i u) : (⟨S64, .f32⟩ : BufTy).Contents (Elt F) → (⟨S10000x1, .i32⟩ : BufTy).Contents (Elt F) → (⟨S10000, .f32⟩ : BufTy).Contents (Elt F) → (⟨S64, .f32⟩ : BufTy).Contents (Elt F)),
    StableHlo.nullary main_cst_36 (constant S_ .f32 0x3F800000#32),
    StableHlo.unary main_cst_36 main_v253 (broadcastInDim S64 ![] bcast_S_S64 : (⟨S_, .f32⟩ : BufTy).Contents (Elt F) → (⟨S64, .f32⟩ : BufTy).Contents (Elt F)),
    StableHlo.binary main_v252 main_v253 main_v254 (maximumf : (⟨S64, .f32⟩ : BufTy).Contents (Elt F) → (⟨S64, .f32⟩ : BufTy).Contents (Elt F) → (⟨S64, .f32⟩ : BufTy).Contents (Elt F)),
    StableHlo.unary main_v254 main_v255 (broadcastInDim S64x1 ![0] bcast_S64_S64x1_0 : (⟨S64, .f32⟩ : BufTy).Contents (Elt F) → (⟨S64x1, .f32⟩ : BufTy).Contents (Elt F)),
    StableHlo.unary main_v255 main_v256 (broadcastInDim S64x512 ![0, 1] bcast_S64x1_S64x512_0_1 : (⟨S64x1, .f32⟩ : BufTy).Contents (Elt F) → (⟨S64x512, .f32⟩ : BufTy).Contents (Elt F)),
    StableHlo.binary main_v248 main_v256 main_v257 (Host.divf : (⟨S64x512, .f32⟩ : BufTy).Contents (Elt F) → (⟨S64x512, .f32⟩ : BufTy).Contents (Elt F) → (⟨S64x512, .f32⟩ : BufTy).Contents (Elt F)),
    StableHlo.binary main_v257 main_arg13 main_v258 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)),
    StableHlo.unary main_arg14 main_v259 (broadcastInDim S1x512 ![1] bcast_S512_S1x512_1 : (⟨S512, .f32⟩ : BufTy).Contents (Elt F) → (⟨S1x512, .f32⟩ : BufTy).Contents (Elt F)),
    StableHlo.unary main_v259 main_v260 (broadcastInDim S64x512 ![0, 1] bcast_S1x512_S64x512_0_1 : (⟨S1x512, .f32⟩ : BufTy).Contents (Elt F) → (⟨S64x512, .f32⟩ : BufTy).Contents (Elt F)) ]

set_option maxRecDepth 8192 in
/-- The window is that straight line: the callees' definitions unfolded at their calls and the records at their
    fields, both sides are one chain of steps once sequencing is reassociated. -/
theorem main_part4_eq (c : Dev nD) : main_part4 (F := F) c = seq opsPart4 := by
  simp only [main_part4, fn_relu.body, fn_var.body, fn_where.body, seq, bind_assoc, pure_bind] <;> rfl

set_option maxRecDepth 8192 in
theorem opsPart4_sub : (opsPart4 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub ..⟩

set_option maxRecDepth 8192 in
/-- Every operation of the window determines its result. -/
theorem opsPart4_fresh : (opsPart4 : List (HloOp τ sig (Elt F))).Forall fun op => op.fresh = ∅ := by
  simp only [List.Forall]; repeat' constructor

/-- The buffers the window's operations write, in order. -/
abbrev opsPart4_W : List (Ref sig .tc) :=
  [main_v209, main_v210, main_v211, main_v212, main_v213, main_v214, main_v215, main_v216, main_v217, main_v218,
    main_call12_cst, main_call12_v0, main_v219, main_v220, main_v221, main_v222, main_v223, main_call13_cst, main_call13_v0, main_v224,
    main_v225, main_v226, main_v227, main_v228, main_cst_29, main_v229, main_cst_30, main_v230, main_v231, main_c_31,
    main_call14_cst, main_call14_v0, main_call14_v1, main_call14_cst_0, main_call14_v2, main_call14_v3, main_call14_v4, main_call14_v5, main_call14_v6, main_call14_v7,
    main_call14_cst_1, main_call14_v8, main_call14_cst_2, main_call14_v9, main_call14_v10, main_call14_v11, main_call14_cst_3, main_call14_v12, main_call14_cst_4, main_call14_call0_v0,
    main_call14_call0_v1, main_v232, main_v233, main_v234, main_v235, main_cst_32, main_v236, main_v237, main_v238, main_v239,
    main_v240, main_v241, main_v242, main_v243, main_v244, main_v245, main_cst_33, main_v246, main_v247, main_v248,
    main_cst_34, main_v249, main_cst_35, main_v250, main_v251, main_v252, main_cst_36, main_v253, main_v254, main_v255,
    main_v256, main_v257, main_v258, main_v259, main_v260]

set_option maxRecDepth 8192 in
/-- Operation `i` of the window writes exactly buffer `i` of the list: each builder's written set is its result buffer. -/
theorem opsPart4_writesAre : WritesAre (opsPart4 : List (HloOp τ sig (Elt F))) opsPart4_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))

end Cert.ReferenceIdeal.RefRun

end
-- ==== Proof.RI.Part5.lean ====
/-
  The reference program's statements 301 … 307 (window `main_part5`) as a list of host operations, operations
  426 … 431 of 431: each call of a module-local function is replaced by the callee's operations over that call's
  buffer record (the rectifier: the zero, its broadcast, the maximum; the variance: its twenty operations, the
  last three being the inner selection's), exactly as the inliner substitutes them. With it: the window is that
  straight line, every operation stays within the TensorCore buffers, determines its result, and operation `i` writes
  exactly buffer `i` of the listed ones, none of which is an argument of the program.
-/
import proofs.«100381_j2018634629568_1_alg».proof.Proof.Gen.ReferenceIdeal
import proofs.«100381_j2018634629568_1_alg».proof.Proof.RI.Step
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 426 … 431 of 431 (window `main_part5`), the calls unfolded. -/
abbrev opsPart5 : List (HloOp τ sig (Elt F)) :=
  [ StableHlo.binary main_v258 main_v260 main_v261 (addf : (⟨S64x512, .f32⟩ : BufTy).Contents (Elt F) → (⟨S64x512, .f32⟩ : BufTy).Contents (Elt F) → (⟨S64x512, .f32⟩ : BufTy).Contents (Elt F)),
    StableHlo.unary main_v261 main_v262 (Host.tanh : (⟨S64x512, .f32⟩ : BufTy).Contents (Elt F) → (⟨S64x512, .f32⟩ : BufTy).Contents (Elt F)),
    StableHlo.binary main_v262 main_arg15 main_v263 ((fun l r => Host.dotGeneral dot_S64x512_S512x18_S64x18_1_0_0_1_n_n none l r) : (⟨S64x512, .f32⟩ : BufTy).Contents (Elt F) → (⟨S512x18, .f32⟩ : BufTy).Contents (Elt F) → (⟨S64x18, .f32⟩ : BufTy).Contents (Elt F)),
    StableHlo.unary main_arg16 main_v264 (broadcastInDim S1x18 ![1] bcast_S18_S1x18_1 : (⟨S18, .f32⟩ : BufTy).Contents (Elt F) → (⟨S1x18, .f32⟩ : BufTy).Contents (Elt F)),
    StableHlo.unary main_v264 main_v265 (broadcastInDim S64x18 ![0, 1] bcast_S1x18_S64x18_0_1 : (⟨S1x18, .f32⟩ : BufTy).Contents (Elt F) → (⟨S64x18, .f32⟩ : BufTy).Contents (Elt F)),
    StableHlo.binary main_v263 main_v265 main_v266 (addf : (⟨S64x18, .f32⟩ : BufTy).Contents (Elt F) → (⟨S64x18, .f32⟩ : BufTy).Contents (Elt F) → (⟨S64x18, .f32⟩ : BufTy).Contents (Elt F)) ]

set_option maxRecDepth 8192 in
/-- The window is that straight line: the callees' definitions unfolded at their calls and the records at their
    fields, both sides are one chain of steps once sequencing is reassociated. -/
theorem main_part5_eq (c : Dev nD) : main_part5 (F := F) c = seq opsPart5 := by
  simp only [main_part5, fn_relu.body, fn_var.body, fn_where.body, seq, bind_assoc, pure_bind] <;> rfl

set_option maxRecDepth 8192 in
theorem opsPart5_sub : (opsPart5 : List (HloOp τ sig (Elt F))).Forall fun op => op.bufs ⊆ tcRefs τ sig :=
  ⟨binary_bufs_sub .., unary_bufs_sub .., binary_bufs_sub .., unary_bufs_sub .., unary_bufs_sub .., binary_bufs_sub ..⟩

set_option maxRecDepth 8192 in
/-- Every operation of the window determines its result. -/
theorem opsPart5_fresh : (opsPart5 : List (HloOp τ sig (Elt F))).Forall fun op => op.fresh = ∅ := by
  simp only [List.Forall]; repeat' constructor

/-- The buffers the window's operations write, in order. -/
abbrev opsPart5_W : List (Ref sig .tc) :=
  [main_v261, main_v262, main_v263, main_v264, main_v265, main_v266]

set_option maxRecDepth 8192 in
/-- Operation `i` of the window writes exactly buffer `i` of the list: each builder's written set is its result buffer. -/
theorem opsPart5_writesAre : WritesAre (opsPart5 : List (HloOp τ sig (Elt F))) opsPart5_W :=
  .cons rfl (.cons rfl (.cons rfl (.cons rfl (.cons rfl (.cons rfl (.nil))))))

end Cert.ReferenceIdeal.RefRun

end
-- ==== Proof.RI.Run.lean ====
/-
  The reference program's run. Its six windows are straight lines of host operations (the window modules), so
  @main is their concatenation, 431 operations; every weakly fair execution of it on the TensorCores
  terminates with each buffer at the fold of the operations over the launch contents. Operation `i` writes
  exactly buffer `i` of `ops_W`, no argument is among them, so the arguments end as they began: the frame.
-/
import proofs.«100381_j2018634629568_1_alg».proof.Proof.RI.Part0
import proofs.«100381_j2018634629568_1_alg».proof.Proof.RI.Part1
import proofs.«100381_j2018634629568_1_alg».proof.Proof.RI.Part2
import proofs.«100381_j2018634629568_1_alg».proof.Proof.RI.Part3
import proofs.«100381_j2018634629568_1_alg».proof.Proof.RI.Part4
import proofs.«100381_j2018634629568_1_alg».proof.Proof.RI.Part5
import proofs.«100381_j2018634629568_1_alg».proof.Proof.RI.Step
import proofs.«100381_j2018634629568_1_alg».proof.Proof.Gen.Pre_finite_inputs
import proofs.«100381_j2018634629568_1_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 431 operations, in order, the calls unfolded. -/
abbrev ops : List (HloOp τ sig (Elt F)) :=
  opsPart0 ++ (opsPart1 ++ (opsPart2 ++ (opsPart3 ++ (opsPart4 ++ opsPart5))))

/-- The buffers they write, in order. -/
abbrev ops_W : List (Ref sig .tc) :=
  opsPart0_W ++ (opsPart1_W ++ (opsPart2_W ++ (opsPart3_W ++ (opsPart4_W ++ opsPart5_W))))

set_option maxRecDepth 8192 in
/-- @main is the six windows in order, each its own straight line. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp opsPart0_sub op h, List.forall_iff_forall_mem.mp opsPart1_sub op h,
      List.forall_iff_forall_mem.mp opsPart2_sub op h, List.forall_iff_forall_mem.mp opsPart3_sub op h,
      List.forall_iff_forall_mem.mp opsPart4_sub op h, List.forall_iff_forall_mem.mp opsPart5_sub op h]

/-- Every operation determines its result. -/
theorem ops_fresh : ∀ op ∈ (ops : List (HloOp τ sig (Elt F))), op.fresh = ∅ := fun op h => by
  simp only [ops, List.mem_append] at h
  rcases h with h | h | h | h | h | h
  exacts [List.forall_iff_forall_mem.mp opsPart0_fresh op h, List.forall_iff_forall_mem.mp opsPart1_fresh op h,
    List.forall_iff_forall_mem.mp opsPart2_fresh op h, List.forall_iff_forall_mem.mp opsPart3_fresh op h,
    List.forall_iff_forall_mem.mp opsPart4_fresh op h, List.forall_iff_forall_mem.mp opsPart5_fresh op h]

/-- On every device, for any float values, from any memory with zero counters: every weakly fair execution of @main
    on the TensorCores terminates, and every final state has each TensorCore buffer at the operations' fold over
    the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- Operation `i` of @main writes exactly buffer `i` of `ops_W`. -/
theorem ops_writesAre : WritesAre (ops : List (HloOp τ sig (Elt F))) ops_W :=
  opsPart0_writesAre.append (opsPart1_writesAre.append (opsPart2_writesAre.append (opsPart3_writesAre.append
    (opsPart4_writesAre.append opsPart5_writesAre))))

/-- No operation writes argument 0. -/
theorem kept_arg0 (V : Valuation τ sig (Elt F)) :
    after ops V (Proc.devRef .tc main_arg0) = V (Proc.devRef .tc main_arg0) :=
  ops_writesAre.keep V (by decide)
/-- No operation writes argument 1. -/
theorem kept_arg1 (V : Valuation τ sig (Elt F)) :
    after ops V (Proc.devRef .tc main_arg1) = V (Proc.devRef .tc main_arg1) :=
  ops_writesAre.keep V (by decide)
/-- No operation writes argument 2. -/
theorem kept_arg2 (V : Valuation τ sig (Elt F)) :
    after ops V (Proc.devRef .tc main_arg2) = V (Proc.devRef .tc main_arg2) :=
  ops_writesAre.keep V (by decide)
/-- No operation writes argument 3. -/
theorem kept_arg3 (V : Valuation τ sig (Elt F)) :
    after ops V (Proc.devRef .tc main_arg3) = V (Proc.devRef .tc main_arg3) :=
  ops_writesAre.keep V (by decide)
/-- No operation writes argument 4. -/
theorem kept_arg4 (V : Valuation τ sig (Elt F)) :
    after ops V (Proc.devRef .tc main_arg4) = V (Proc.devRef .tc main_arg4) :=
  ops_writesAre.keep V (by decide)
/-- No operation writes argument 5. -/
theorem kept_arg5 (V : Valuation τ sig (Elt F)) :
    after ops V (Proc.devRef .tc main_arg5) = V (Proc.devRef .tc main_arg5) :=
  ops_writesAre.keep V (by decide)
/-- No operation writes argument 6. -/
theorem kept_arg6 (V : Valuation τ sig (Elt F)) :
    after ops V (Proc.devRef .tc main_arg6) = V (Proc.devRef .tc main_arg6) :=
  ops_writesAre.keep V (by decide)
/-- No operation writes argument 7. -/
theorem kept_arg7 (V : Valuation τ sig (Elt F)) :
    after ops V (Proc.devRef .tc main_arg7) = V (Proc.devRef .tc main_arg7) :=
  ops_writesAre.keep V (by decide)
/-- No operation writes argument 8. -/
theorem kept_arg8 (V : Valuation τ sig (Elt F)) :
    after ops V (Proc.devRef .tc main_arg8) = V (Proc.devRef .tc main_arg8) :=
  ops_writesAre.keep V (by decide)
/-- No operation writes argument 9. -/
theorem kept_arg9 (V : Valuation τ sig (Elt F)) :
    after ops V (Proc.devRef .tc main_arg9) = V (Proc.devRef .tc main_arg9) :=
  ops_writesAre.keep V (by decide)
/-- No operation writes argument 10. -/
theorem kept_arg10 (V : Valuation τ sig (Elt F)) :
    after ops V (Proc.devRef .tc main_arg10) = V (Proc.devRef .tc main_arg10) :=
  ops_writesAre.keep V (by decide)
/-- No operation writes argument 11. -/
theorem kept_arg11 (V : Valuation τ sig (Elt F)) :
    after ops V (Proc.devRef .tc main_arg11) = V (Proc.devRef .tc main_arg11) :=
  ops_writesAre.keep V (by decide)
/-- No operation writes argument 12. -/
theorem kept_arg12 (V : Valuation τ sig (Elt F)) :
    after ops V (Proc.devRef .tc main_arg12) = V (Proc.devRef .tc main_arg12) :=
  ops_writesAre.keep V (by decide)
/-- No operation writes argument 13. -/
theorem kept_arg13 (V : Valuation τ sig (Elt F)) :
    after ops V (Proc.devRef .tc main_arg13) = V (Proc.devRef .tc main_arg13) :=
  ops_writesAre.keep V (by decide)
/-- No operation writes argument 14. -/
theorem kept_arg14 (V : Valuation τ sig (Elt F)) :
    after ops V (Proc.devRef .tc main_arg14) = V (Proc.devRef .tc main_arg14) :=
  ops_writesAre.keep V (by decide)
/-- No operation writes argument 15. -/
theorem kept_arg15 (V : Valuation τ sig (Elt F)) :
    after ops V (Proc.devRef .tc main_arg15) = V (Proc.devRef .tc main_arg15) :=
  ops_writesAre.keep V (by decide)
/-- No operation writes argument 16. -/
theorem kept_arg16 (V : Valuation τ sig (Elt F)) :
    after ops V (Proc.devRef .tc main_arg16) = V (Proc.devRef .tc main_arg16) :=
  ops_writesAre.keep V (by decide)

/-- The reference program runs and its arguments end unchanged. -/
theorem frame_ri : Cert.frame_ReferenceIdeal := fun m g _ =>
  (θ_run _ _ _).mono (fun _ h c =>
    ⟨(h c main_arg0).trans (kept_arg0 _),
     (h c main_arg1).trans (kept_arg1 _),
     (h c main_arg2).trans (kept_arg2 _),
     (h c main_arg3).trans (kept_arg3 _),
     (h c main_arg4).trans (kept_arg4 _),
     (h c main_arg5).trans (kept_arg5 _),
     (h c main_arg6).trans (kept_arg6 _),
     (h c main_arg7).trans (kept_arg7 _),
     (h c main_arg8).trans (kept_arg8 _),
     (h c main_arg9).trans (kept_arg9 _),
     (h c main_arg10).trans (kept_arg10 _),
     (h c main_arg11).trans (kept_arg11 _),
     (h c main_arg12).trans (kept_arg12 _),
     (h c main_arg13).trans (kept_arg13 _),
     (h c main_arg14).trans (kept_arg14 _),
     (h c main_arg15).trans (kept_arg15 _),
     (h c main_arg16).trans (kept_arg16 _)⟩)
    (run m g)

end Cert.ReferenceIdeal.RefRun

end
-- ==== Proof.Ref.Edges.lean ====
/-
  The index arrays and parameter cuts that both programs compute on the host with the same operations, named once:
  the two rows of the edge array as vectors, the source vector wrapped into range (a negative index has the row count
  added) and laid out as a column of start indices, the destination vector laid out likewise; a vector as a one-row
  matrix; row k of a stack of vectors; matrix k of a stack of matrices.
-/
import proofs.«100381_j2018634629568_1_alg».proof.ReferenceIdeal

noncomputable section

namespace Cert.Gin.Ref

open Idealize.ShloMosaic Cert.ReferenceIdeal Cert.ReferenceIdeal.Facts₀

variable [Facts₀] {F : FTy → Type} [FloatOps F]

/-- Row 0 of the edge array, as a vector: the edges' sources. -/
def edgeSrc (e : IVec S2x160000 32) : IVec S160000 32 :=
  shapeCast S160000 (extractStridedSlice S1x160000 ![0, 0] e slices_S2x160000_S1x160000_0_0) shapeCasts_S1x160000_S160000

/-- Row 1 of the edge array, as a vector: the edges' destinations. -/
def edgeDst (e : IVec S2x160000 32) : IVec S160000 32 :=
  shapeCast S160000 (extractStridedSlice S1x160000 ![1, 0] e slices_S2x160000_S1x160000_1_0) shapeCasts_S1x160000_S160000

/-- The gather's start indices from the source vector: a negative index has 10000 added; laid out as a column. -/
def srcIdx (s : IVec S160000 32) : IVec S160000x1 32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 10000#32))) s)

/-- The scatter's indices from the destination vector: laid out as a column. -/
def dstIdx (d : IVec S160000 32) : IVec S160000x1 32 :=
  broadcastInDim S160000x1 ![0] bcast_S160000_S160000x1_0 d

/-- A [512] vector as a [1, 512] matrix. -/
def rowOf (v : FVec F S512 .f32) : FVec F S1x512 .f32 := shapeCast S1x512 v (by decide)

end Cert.Gin.Ref

end
-- ==== Proof.Spec.lean ====
/-
  The mathematics of one graph-isomorphism layer with batch normalisation, on extended reals, as plain functions
  of row and column coordinates. No program is mentioned here.

  * `mlp`      : a two-layer perceptron with rectifiers applied to every row,
                   max (sum_k max (sum_l x[r,l] Wa[l,k] + ba[k], 0) Wb[k,j] + bb[j], 0).
  * `colSum`   : the sum of a column over all rows.
  * `normalize`: batch normalisation from the column sums s and the column sums of squares q over n rows,
                   (a[r,j] - s[j]/n) (g[j] rsqrt (q[j]/n - (s[j]/n)^2 + eps)) + b[j],
                   the quotients and the reciprocal square root being the ideal instance's.
  * `head`     : tanh (p W1 + b1) W2 + b2.
  The two constants are the binary32 words of 10000 and of the rounded 1e-5, read at the ideal instance.
-/
import Idealize.ShloMosaic.PureOps.Ideal
import Idealize.ShloMosaic.Lib.ValueIdx

noncomputable section

namespace Cert.Gin

open Idealize.ShloMosaic

/-- The row count 10000, as the ideal reading of its binary32 word. -/
def rows : EReal := Ideal.ofBits .f32 0x461C4000#32
/-- The normalisation's epsilon, as the ideal reading of its binary32 word. -/
def eps : EReal := Ideal.ofBits .f32 0x3727C5AC#32

/-- A two-layer perceptron with rectifiers, applied to every row. -/
def mlp {n d : Nat} (x : Fin n → Fin d → EReal) (Wa : Fin d → Fin 512 → EReal) (ba : Fin 512 → EReal)
    (Wb : Fin 512 → Fin 512 → EReal) (bb : Fin 512 → EReal) : Fin n → Fin 512 → EReal :=
  fun r j => max ((∑ k : Fin 512, max ((∑ l : Fin d, x r l * Wa l k) + ba k) 0 * Wb k j) + bb j) 0

/-- The sum of column j over all rows. -/
def colSum {n : Nat} (a : Fin n → Fin 512 → EReal) : Fin 512 → EReal := fun j => ∑ r : Fin n, a r j

/-- The sum of the squares of column j over all rows. -/
def colSumSq {n : Nat} (a : Fin n → Fin 512 → EReal) : Fin 512 → EReal := fun j => ∑ r : Fin n, a r j * a r j

/-- The column mean: the column sum over the row count. -/
def mean {n : Nat} (a : Fin n → Fin 512 → EReal) : Fin 512 → EReal := fun j => Ideal.div (colSum a j) rows

/-- Batch normalisation from column sums and column sums of squares. -/
def normalize {n : Nat} (a : Fin n → Fin 512 → EReal) (g b : Fin 512 → EReal) : Fin n → Fin 512 → EReal :=
  fun r j => (a r j - mean a j) * (g j * Ideal.rsqrt (Ideal.div (colSumSq a j) rows - mean a j * mean a j + eps)) + b j

/-- The normalisation as a function of GIVEN column sums s and column sums of squares q. -/
def normFrom {n : Nat} (a : Fin n → Fin 512 → EReal) (s q g b : Fin 512 → EReal) : Fin n → Fin 512 → EReal :=
  fun r j => (a r j - Ideal.div (s j) rows) * (g j * Ideal.rsqrt (Ideal.div (q j) rows - Ideal.div (s j) rows * Ideal.div (s j) rows + eps)) + b j

theorem normalize_eq_normFrom {n : Nat} (a : Fin n → Fin 512 → EReal) (g b : Fin 512 → EReal) :
    normalize a g b = normFrom a (colSum a) (colSumSq a) g b := rfl

/-- The head: tanh (p W1 + b1) W2 + b2. -/
def head (p : Fin 64 → Fin 512 → EReal) (W1 : Fin 512 → Fin 512 → EReal) (b1 : Fin 512 → EReal)
    (W2 : Fin 512 → Fin 18 → EReal) (b2 : Fin 18 → EReal) : Fin 64 → Fin 18 → EReal :=
  fun g o => (∑ k : Fin 512, Ideal.tanh ((∑ l : Fin 512, p g l * W1 l k) + b1 k) * W2 k o) + b2 o

/-- Every entry of a two-dimensional array is a real number. -/
def IsReal2 {n d : Nat} (x : Fin n → Fin d → EReal) : Prop := ∀ r l, ∃ y : ℝ, x r l = (y : EReal)
/-- Every entry of a one-dimensional array is a real number. -/
def IsReal1 {d : Nat} (x : Fin d → EReal) : Prop := ∀ l, ∃ y : ℝ, x l = (y : EReal)

end Cert.Gin

end
-- ==== Proof.Ref.Params.lean ====
/-
  The layer parameters as both programs cut them out of the stacked arrays: row k of a stack of vectors, cut as a
  one-row slice and reshaped to a vector, reads at j the stack's entry (k, j); matrix k of a stack of matrices, cut
  as a one-matrix slice and reshaped to a matrix, reads at (i, j) the stack's entry (k, i, j). So the cut parameters
  of real stacks are real.
-/
import proofs.«100381_j2018634629568_1_alg».proof.Proof.Spec
import Idealize.ShloMosaic.Lib.ValueIdx
import Idealize.ShloMosaic.Lib.ValueLayout
import Idealize.ShloMosaic.Lib.Pipeline.Value

noncomputable section

namespace Cert.Gin.Ref

open Idealize.ShloMosaic Idealize.ShloMosaic.ValueIdx

variable {α : Type}

/-- Row k of a stack of vectors, cut and reshaped, at j. -/
theorem stackRow_apply {n b : Nat} (k : Nat) (hk : k < n) (G : (⟨2, ![n, b]⟩ : Shape).Idx → α)
    (hs : (⟨2, ![n, b]⟩ : Shape).Slices ![k, 0] ⟨2, ![1, b]⟩)
    (hc : (⟨2, ![1, b]⟩ : Shape).ShapeCasts ⟨1, ![b]⟩) (j : Fin b) :
    shapeCast ⟨1, ![b]⟩ (extractStridedSlice ⟨2, ![1, b]⟩ ![k, 0] G hs) hc (ix1 j) = G (ix2 (⟨k, hk⟩ : Fin n) j) := by
  rw [shapeCast_1a_a_apply]
  exact slice2_axis0_apply k G hs 0 j ⟨k, hk⟩ rfl

/-- Matrix k of a stack of matrices, cut and reshaped, at (i, j). -/
theorem stackMat_apply {n a b : Nat} (k : Nat) (hk : k < n) (W : (⟨3, ![n, a, b]⟩ : Shape).Idx → α)
    (hs : (⟨3, ![n, a, b]⟩ : Shape).Slices ![k, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![k, 0, 0] W hs) hc (ix2 i j)
      = W (ix3 (⟨k, hk⟩ : Fin n) i j) := by
  rw [shapeCast_1ab_ab_apply]
  exact extractStridedSlice_apply _ W hs _ _ fun ax => by
    match ax with
    | ⟨0, _⟩ => rfl
    | ⟨1, _⟩ => exact (Nat.zero_add _).symm
    | ⟨2, _⟩ => exact (Nat.zero_add _).symm

/-- The cut row of a real stack of vectors is real. -/
theorem stackRow_real {n b : Nat} (k : Nat) (hk : k < n) (G : (⟨2, ![n, b]⟩ : Shape).Idx → EReal)
    (hs : (⟨2, ![n, b]⟩ : Shape).Slices ![k, 0] ⟨2, ![1, b]⟩)
    (hc : (⟨2, ![1, b]⟩ : Shape).ShapeCasts ⟨1, ![b]⟩) (hG : ∀ i, ∃ y : ℝ, G i = (y : EReal)) (j : Fin b) :
    ∃ y : ℝ, shapeCast ⟨1, ![b]⟩ (extractStridedSlice ⟨2, ![1, b]⟩ ![k, 0] G hs) hc (ix1 j) = (y : EReal) := by
  rw [stackRow_apply k hk]; exact hG _

/-- The cut matrix of a real stack of matrices is real. -/
theorem stackMat_real {n a b : Nat} (k : Nat) (hk : k < n) (W : (⟨3, ![n, a, b]⟩ : Shape).Idx → EReal)
    (hs : (⟨3, ![n, a, b]⟩ : Shape).Slices ![k, 0, 0] ⟨3, ![1, a, b]⟩)
    (hc : (⟨3, ![1, a, b]⟩ : Shape).ShapeCasts ⟨2, ![a, b]⟩) (hW : ∀ i, ∃ y : ℝ, W i = (y : EReal))
    (i : Fin a) (j : Fin b) :
    ∃ y : ℝ, shapeCast ⟨2, ![a, b]⟩ (extractStridedSlice ⟨3, ![1, a, b]⟩ ![k, 0, 0] W hs) hc (ix2 i j) = (y : EReal) := by
  rw [stackMat_apply k hk]; exact hW _

end Cert.Gin.Ref

end
-- ==== Proof.Ref.Cuts.lean ====
/-
  The parameter cuts named: row k of a stack of vectors and matrix k of a stack of matrices (a one-element slice
  reshaped), a vector as a one-row matrix; and their readings at an index.
-/
import proofs.«100381_j2018634629568_1_alg».proof.Proof.Ref.Edges
import proofs.«100381_j2018634629568_1_alg».proof.Proof.Ref.Params

noncomputable section

namespace Cert.Gin.Ref

open Idealize.ShloMosaic Idealize.ShloMosaic.ValueIdx Cert.ReferenceIdeal Cert.ReferenceIdeal.Facts₀

variable [Facts₀] {F : FTy → Type} [FloatOps F]

/-- Row k of a stack of n vectors of 512 entries, as a vector. -/
def cutRow {n : Nat} (k : Nat) (G : FVec F ⟨2, ![n, 512]⟩ .f32) (h : (⟨2, ![n, 512]⟩ : Shape).Slices ![k, 0] S1x512) :
    FVec F S512 .f32 :=
  shapeCast S512 (extractStridedSlice S1x512 ![k, 0] G h) shapeCasts_S1x512_S512

/-- Matrix k of the stack of four [512, 512] matrices. -/
def cutMat (k : Nat) (W : FVec F S4x512x512 .f32) (h : S4x512x512.Slices ![k, 0, 0] S1x512x512) : FVec F S512x512 .f32 :=
  shapeCast S512x512 (extractStridedSlice S1x512x512 ![k, 0, 0] W h) shapeCasts_S1x512x512_S512x512

/-- An [18] vector as a [1, 18] matrix. -/
def rowOf18 (v : FVec F S18 .f32) : FVec F S1x18 .f32 := shapeCast S1x18 v (by decide)

/-- The cut row at j is the stack's entry (k, j). -/
theorem cutRow_apply {n : Nat} (k : Nat) (hk : k < n) (G : FVec F ⟨2, ![n, 512]⟩ .f32)
    (h : (⟨2, ![n, 512]⟩ : Shape).Slices ![k, 0] S1x512) (j : Fin 512) :
    cutRow k G h (ix1 j) = G (ix2 (⟨k, hk⟩ : Fin n) j) :=
  stackRow_apply k hk G h _ j

/-- The cut matrix at (i, j) is the stack's entry (k, i, j). -/
theorem cutMat_apply (k : Nat) (hk : k < 4) (W : FVec F S4x512x512 .f32) (h : S4x512x512.Slices ![k, 0, 0] S1x512x512)
    (i j : Fin 512) : cutMat k W h (ix2 i j) = W (ix3 (⟨k, hk⟩ : Fin 4) i j) :=
  stackMat_apply k hk W h _ i j

/-- A vector as a one-row matrix reads the vector's entry of the column. -/
theorem rowOf_apply (v : FVec F S512 .f32) (u : Fin 1) (j : Fin 512) : rowOf v (ix2 u j) = v (ix1 j) :=
  shapeCast_a_1a_apply v _ u j
theorem rowOf18_apply (v : FVec F S18 .f32) (u : Fin 1) (j : Fin 18) : rowOf18 v (ix2 u j) = v (ix1 j) :=
  shapeCast_a_1a_apply v _ u j

end Cert.Gin.Ref

end
-- ==== Proof.LibVariance.lean ====
import Mathlib.Algebra.BigOperators.Field
import Mathlib.Algebra.Order.BigOperators.Ring.Finset
import Mathlib.Data.Real.Basic
import Mathlib.Data.EReal.Basic
import Mathlib.Tactic.FieldSimp
import Mathlib.Tactic.Linarith
import Mathlib.Tactic.Ring

/-!
# The variance computed in two passes equals the variance computed from moments

For real numbers `x t` indexed by a non-empty finite set, the mean of the squared deviations
from the mean (the "two-pass" variance) equals the mean of the squares minus the square of
the mean (the "moments" form).  The moments form is therefore non-negative, so clamping it
below at `0` changes nothing.

The same identity is given with weights `w t`: the weighted two-pass variance with total
weight `n = ∑ w t ≠ 0` equals the weighted moments form; with non-negative weights the latter
is non-negative.  For `0/1` weights the total weight is either `0` or at least `1`, and
with the divisor `max n 1` both forms agree in either case (both are `0` when `n = 0`).

Finally the coercion from the reals to the extended reals commutes with finite sums.
-/

open Finset

namespace VarianceLaw

/-! ## Unweighted form over a finite set -/

/-- Two-pass variance equals the moments form: the mean of `(x - mean)²` is the mean of
`x²` minus `mean²`. -/
theorem two_pass_eq_moments {ι : Type*} (S : Finset ι) (x : ι → ℝ) (hS : S.Nonempty) :
    (∑ t ∈ S, (x t - (∑ u ∈ S, x u) / S.card) * (x t - (∑ u ∈ S, x u) / S.card)) / S.card
      = (∑ t ∈ S, x t * x t) / S.card
        - ((∑ u ∈ S, x u) / S.card) * ((∑ u ∈ S, x u) / S.card) := by
  have hn : (S.card : ℝ) ≠ 0 := Nat.cast_ne_zero.mpr (Finset.card_ne_zero.mpr hS)
  generalize hμ : (∑ u ∈ S, x u) / (S.card : ℝ) = μ
  have hs : ∑ u ∈ S, x u = μ * S.card := by rw [← hμ]; field_simp
  have h1 : ∑ t ∈ S, (x t - μ) * (x t - μ)
      = ∑ t ∈ S, x t * x t - 2 * μ * ∑ t ∈ S, x t + S.card * (μ * μ) := by
    have h2 : ∀ t, (x t - μ) * (x t - μ) = x t * x t - 2 * μ * x t + μ * μ := fun t => by ring
    simp only [h2, Finset.sum_add_distrib, Finset.sum_sub_distrib, ← Finset.mul_sum,
      Finset.sum_const, nsmul_eq_mul]
    ring
  rw [h1, hs]
  field_simp
  ring

/-- The moments form of the variance is non-negative. -/
theorem moments_nonneg {ι : Type*} (S : Finset ι) (x : ι → ℝ) (hS : S.Nonempty) :
    0 ≤ (∑ t ∈ S, x t * x t) / S.card
        - ((∑ u ∈ S, x u) / S.card) * ((∑ u ∈ S, x u) / S.card) := by
  rw [← two_pass_eq_moments S x hS]
  exact div_nonneg (Finset.sum_nonneg (fun t _ => mul_self_nonneg _)) (Nat.cast_nonneg _)

/-- Two-pass variance equals the moments form clamped below at `0`. -/
theorem two_pass_eq_max_moments {ι : Type*} (S : Finset ι) (x : ι → ℝ) (hS : S.Nonempty) :
    (∑ t ∈ S, (x t - (∑ u ∈ S, x u) / S.card) * (x t - (∑ u ∈ S, x u) / S.card)) / S.card
      = max ((∑ t ∈ S, x t * x t) / S.card
        - ((∑ u ∈ S, x u) / S.card) * ((∑ u ∈ S, x u) / S.card)) 0 := by
  rw [two_pass_eq_moments S x hS, max_eq_left (moments_nonneg S x hS)]

/-! ## Weighted form -/

section Weighted

variable {ι : Type*} [Fintype ι]

/-- Weighted two-pass variance equals the weighted moments form, for any divisor `n ≠ 0`
equal to the total weight and `μ` the weighted mean. -/
theorem weighted_two_pass_eq_moments_of (w x : ι → ℝ) (n μ : ℝ) (hn : n = ∑ t, w t)
    (hn0 : n ≠ 0) (hμ : μ = (∑ t, w t * x t) / n) :
    (∑ t, w t * ((x t - μ) * (x t - μ))) / n = (∑ t, w t * (x t * x t)) / n - μ * μ := by
  have hs : ∑ t, w t * x t = μ * n := by rw [hμ]; field_simp
  have h1 : ∑ t, w t * ((x t - μ) * (x t - μ))
      = ∑ t, w t * (x t * x t) - 2 * μ * ∑ t, w t * x t + (μ * μ) * ∑ t, w t := by
    have h2 : ∀ t, w t * ((x t - μ) * (x t - μ))
        = w t * (x t * x t) - 2 * μ * (w t * x t) + (μ * μ) * w t := fun t => by ring
    simp only [h2, Finset.sum_add_distrib, Finset.sum_sub_distrib, ← Finset.mul_sum]
  rw [h1, hs, ← hn]
  field_simp
  ring

/-- With non-negative weights and positive total weight the weighted moments form is
non-negative. -/
theorem weighted_moments_nonneg_of (w x : ι → ℝ) (n μ : ℝ) (hn : n = ∑ t, w t)
    (hpos : 0 < n) (hμ : μ = (∑ t, w t * x t) / n) (hw : ∀ t, 0 ≤ w t) :
    0 ≤ (∑ t, w t * (x t * x t)) / n - μ * μ := by
  rw [← weighted_two_pass_eq_moments_of w x n μ hn hpos.ne' hμ]
  exact div_nonneg
    (Finset.sum_nonneg (fun t _ => mul_nonneg (hw t) (mul_self_nonneg _))) hpos.le

/-- Weighted two-pass variance equals the weighted moments form clamped below at `0`
(non-negative weights, positive total weight). -/
theorem weighted_two_pass_eq_max_moments_of (w x : ι → ℝ) (n μ : ℝ) (hn : n = ∑ t, w t)
    (hpos : 0 < n) (hμ : μ = (∑ t, w t * x t) / n) (hw : ∀ t, 0 ≤ w t) :
    (∑ t, w t * ((x t - μ) * (x t - μ))) / n
      = max ((∑ t, w t * (x t * x t)) / n - μ * μ) 0 := by
  rw [weighted_two_pass_eq_moments_of w x n μ hn hpos.ne' hμ,
    max_eq_left (weighted_moments_nonneg_of w x n μ hn hpos hμ hw)]

/-- A `0/1` weight is non-negative. -/
theorem nonneg_of_zero_one (w : ι → ℝ) (hw : ∀ t, w t = 0 ∨ w t = 1) (t : ι) : 0 ≤ w t := by
  rcases hw t with h | h <;> rw [h]
  exact zero_le_one

/-- The total of a `0/1` weight is `0` (all weights vanish) or at least `1`. -/
theorem zero_one_total (w : ι → ℝ) (hw : ∀ t, w t = 0 ∨ w t = 1) :
    (∀ t, w t = 0) ∨ 1 ≤ ∑ t, w t := by
  by_cases h : ∀ t, w t = 0
  · exact Or.inl h
  · right
    obtain ⟨t, ht⟩ := not_forall.mp h
    have h1 : w t = 1 := (hw t).resolve_left ht
    rw [← h1]
    exact Finset.single_le_sum (fun u _ => nonneg_of_zero_one w hw u) (Finset.mem_univ t)

/-- The form actually met: `0/1` weights with total `n ≥ 1`; the weighted two-pass variance
with weighted mean `μ` equals the clamped weighted moments form. -/
theorem weighted_two_pass_eq_max_moments (w x : ι → ℝ) (hw : ∀ t, w t = 0 ∨ w t = 1)
    (hn : 1 ≤ ∑ t, w t) :
    (∑ t, w t * ((x t - (∑ u, w u * x u) / (∑ u, w u))
        * (x t - (∑ u, w u * x u) / (∑ u, w u)))) / (∑ u, w u)
      = max ((∑ t, w t * (x t * x t)) / (∑ u, w u)
          - ((∑ u, w u * x u) / (∑ u, w u)) * ((∑ u, w u * x u) / (∑ u, w u))) 0 :=
  weighted_two_pass_eq_max_moments_of w x _ _ rfl (lt_of_lt_of_le zero_lt_one hn) rfl
    (nonneg_of_zero_one w hw)

/-- The empty case: all weights vanish, the divisor is `1`, and both sides are `0`. -/
theorem weighted_empty (w x : ι → ℝ) (h0 : ∀ t, w t = 0) (μ : ℝ) :
    (∑ t, w t * ((x t - μ) * (x t - μ))) / 1 = 0
      ∧ max ((∑ t, w t * (x t * x t)) / 1 - ((∑ t, w t * x t) / 1) * ((∑ t, w t * x t) / 1)) 0
          = 0 := by
  simp [h0]

/-- Both cases at once, with the divisor `max n 1`: for `0/1` weights the weighted two-pass
variance equals the clamped weighted moments form, whether or not any weight is non-zero. -/
theorem weighted_two_pass_eq_max_moments_clamped (w x : ι → ℝ)
    (hw : ∀ t, w t = 0 ∨ w t = 1) (d μ : ℝ) (hd : d = max (∑ t, w t) 1)
    (hμ : μ = (∑ t, w t * x t) / d) :
    (∑ t, w t * ((x t - μ) * (x t - μ))) / d
      = max ((∑ t, w t * (x t * x t)) / d - μ * μ) 0 := by
  rcases zero_one_total w hw with h0 | h1
  · have hμ0 : μ = 0 := by rw [hμ]; simp [h0]
    rw [hμ0]
    simp [h0]
  · have hd' : d = ∑ t, w t := by rw [hd, max_eq_left h1]
    exact weighted_two_pass_eq_max_moments_of w x d μ hd'
      (by rw [hd']; exact lt_of_lt_of_le zero_lt_one h1) hμ (nonneg_of_zero_one w hw)

end Weighted

/-! ## Extended reals -/

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end VarianceLaw
-- ==== Proof.LibRealChain.lean ====
/-
  "Being a real" is preserved along a dense layer and a softmax read on the extended reals.

  An extended real `x` IS A REAL when `x = ↑r` for some `r : ℝ`, equivalently `x ≠ ⊤ ∧ x ≠ ⊥`; it is a
  POSITIVE REAL when moreover `0 < r`. The operations below are the scalar operations of the ideal
  float instance: EReal's `+`, `-`, `*`, `max`, `min`, unary `-`, and `Ideal.tanh`, `Ideal.exp`,
  `Ideal.div`. Each step keeps the value a real:

    • a finite sum of reals, of products of reals, and a real added to it (a dense layer's row);
    • `tanh` of a real (`Real.tanh`);
    • the maximum of two reals, a difference of reals (a softmax's shift by the row maximum);
    • `exp` of a real is a POSITIVE real (`Real.exp`);
    • a nonempty finite sum of positive reals is a positive real (the softmax's denominator);
    • a real divided by a positive real (by a nonzero real) is a real, and it is `↑(a / b)`.
-/
import Idealize.ShloMosaic.PureOps.Ideal
import Mathlib.Data.Finset.Fold

namespace Cert.Lib

open Idealize.ShloMosaic
open scoped BigOperators

/-- An extended real that is (the coercion of) a real. -/
def IsReal (x : EReal) : Prop := ∃ r : ℝ, x = (r : EReal)

/-- An extended real that is a positive real. -/
def IsPosReal (x : EReal) : Prop := ∃ r : ℝ, 0 < r ∧ x = (r : EReal)

/-- Being a real is being neither infinity. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

/-- A coerced real is a real. -/
theorem isReal_coe (r : ℝ) : IsReal (r : EReal) := ⟨r, rfl⟩

/-- Zero is a real. -/
theorem isReal_zero : IsReal 0 := ⟨0, EReal.coe_zero.symm⟩

/-- One is a real. -/
theorem isReal_one : IsReal 1 := ⟨1, EReal.coe_one.symm⟩

/-- A real is the coercion of its real part. -/
theorem IsReal.coe_toReal {x : EReal} (h : IsReal x) : ((x.toReal : ℝ) : EReal) = x := by
  obtain ⟨r, rfl⟩ := h; rw [EReal.toReal_coe]

theorem IsReal.ne_top {x : EReal} (h : IsReal x) : x ≠ ⊤ := (isReal_iff.mp h).1
theorem IsReal.ne_bot {x : EReal} (h : IsReal x) : x ≠ ⊥ := (isReal_iff.mp h).2

/-- A positive real is a real. -/
theorem IsPosReal.isReal {x : EReal} (h : IsPosReal x) : IsReal x := by
  obtain ⟨r, _, rfl⟩ := h; exact ⟨r, rfl⟩

/-- A positive real is above zero. -/
theorem IsPosReal.pos {x : EReal} (h : IsPosReal x) : 0 < x := by
  obtain ⟨r, hr, rfl⟩ := h; exact EReal.coe_pos.mpr hr

/-- A positive real is not zero. -/
theorem IsPosReal.ne_zero {x : EReal} (h : IsPosReal x) : x ≠ 0 := h.pos.ne'

/-- A positive real is a real above zero, and conversely. -/
theorem isPosReal_iff {x : EReal} : IsPosReal x ↔ IsReal x ∧ 0 < x := by
  constructor
  · intro h; exact ⟨h.isReal, h.pos⟩
  · rintro ⟨⟨r, rfl⟩, h⟩; exact ⟨r, EReal.coe_pos.mp h, rfl⟩

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  rcases max_choice x y with h | h <;> rw [h] <;> assumption

/-- The minimum of two reals is a real. -/
theorem IsReal.min {x y : EReal} (hx : IsReal x) (hy : IsReal y) : IsReal (min x y) := by
  rcases min_choice x y with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of reals over a whole finite type is a real. -/
theorem IsReal.sum_univ {ι : Type*} [Fintype ι] (f : ι → EReal) (h : ∀ i, IsReal (f i)) :
    IsReal (∑ i, f i) :=
  IsReal.sum Finset.univ f fun i _ => h i

/-- A finite sum of products of reals (a row of a dense layer before its bias) is a real. -/
theorem IsReal.sum_mul {ι : Type*} (s : Finset ι) (f g : ι → EReal) (hf : ∀ i ∈ s, IsReal (f i))
    (hg : ∀ i ∈ s, IsReal (g i)) : IsReal (∑ i ∈ s, f i * g i) :=
  IsReal.sum s _ fun i hi => (hf i hi).mul (hg i hi)

/-- The same over a whole finite type. -/
theorem IsReal.sum_univ_mul {ι : Type*} [Fintype ι] (f g : ι → EReal) (hf : ∀ i, IsReal (f i))
    (hg : ∀ i, IsReal (g i)) : IsReal (∑ i, f i * g i) :=
  IsReal.sum_univ _ fun i => (hf i).mul (hg i)

/-- An accumulator plus a sum of products, all real (a contraction onto a real accumulator), is a real. -/
theorem IsReal.add_sum_univ_mul {ι : Type*} [Fintype ι] {acc : EReal} (hacc : IsReal acc) (f g : ι → EReal)
    (hf : ∀ i, IsReal (f i)) (hg : ∀ i, IsReal (g i)) : IsReal (acc + ∑ i, f i * g i) :=
  hacc.add (IsReal.sum_univ_mul f g hf hg)

/-- `tanh` of a real is a real: the ideal `tanh` is `Real.tanh` on the reals. -/
theorem IsReal.tanh {x : EReal} (hx : IsReal x) : IsReal (Ideal.tanh x) := by
  obtain ⟨a, rfl⟩ := hx; exact ⟨Real.tanh a, rfl⟩

/-- `exp` of a real is a positive real: the ideal `exp` is `Real.exp` on the reals. -/
theorem IsReal.exp {x : EReal} (hx : IsReal x) : IsPosReal (Ideal.exp x) := by
  obtain ⟨a, rfl⟩ := hx; exact ⟨Real.exp a, Real.exp_pos a, rfl⟩

/-- The sum of two positive reals is a positive real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive reals is a positive real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A nonempty finite sum of positive reals (a softmax's denominator) is a positive real. -/
theorem IsPosReal.sum {ι : Type*} {s : Finset ι} (hs : s.Nonempty) (f : ι → EReal)
    (h : ∀ i ∈ s, IsPosReal (f i)) : IsPosReal (∑ i ∈ s, f i) := by
  induction hs using Finset.Nonempty.cons_induction with
  | singleton a => rw [Finset.sum_singleton]; exact h a (Finset.mem_singleton_self a)
  | cons a s ha hs ih =>
    rw [Finset.sum_cons]
    exact (h a (Finset.mem_cons_self a s)).add (ih fun i hi => h i (Finset.mem_cons.mpr (Or.inr hi)))

/-- The same over a whole nonempty finite type. -/
theorem IsPosReal.sum_univ {ι : Type*} [Fintype ι] [Nonempty ι] (f : ι → EReal) (h : ∀ i, IsPosReal (f i)) :
    IsPosReal (∑ i, f i) :=
  IsPosReal.sum Finset.univ_nonempty f fun i _ => h i

/-- The ideal quotient of two coerced reals, the divisor nonzero, is the coerced real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A real divided by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- A real divided by a positive real (a softmax's numerator by its denominator) is a real. -/
theorem IsReal.div_pos {x y : EReal} (hx : IsReal x) (hy : IsPosReal y) : IsReal (Ideal.div x y) :=
  hx.div hy.isReal hy.ne_zero

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  exact ⟨a / b, _root_.div_pos ha hb, div_coe_coe a hb.ne'⟩

/-- The fold of `max` over a nonempty finite family of reals, from an initial value that is not `⊤`
    (a row maximum taken from `-∞` or from a real), is a real. -/
theorem IsReal.fold_max {ι : Type*} {s : Finset ι} (hs : s.Nonempty) (f : ι → EReal) {b : EReal} (hb : b ≠ ⊤)
    (h : ∀ i ∈ s, IsReal (f i)) : IsReal (s.fold Max.max b f) := by
  rw [isReal_iff]
  constructor
  · exact ((Finset.fold_max_lt _).mpr ⟨lt_top_iff_ne_top.mpr hb, fun i hi => lt_top_iff_ne_top.mpr (h i hi).ne_top⟩).ne
  · obtain ⟨i, hi⟩ := hs
    exact ((Finset.lt_fold_max _).mpr (Or.inr ⟨i, hi, bot_lt_iff_ne_bot.mpr (h i hi).ne_bot⟩)).ne'

end Cert.Lib
-- ==== Proof.Ref.Consts.lean ====
/-
  The two binary32 words of the normalisation read at the ideal instance: the row count is the real 10000 and
  the epsilon is a positive real; and the elementary facts about the ideal quotient and reciprocal square root
  at real arguments that the batch normalisation needs.
-/
import proofs.«100381_j2018634629568_1_alg».proof.Proof.Spec
import proofs.«100381_j2018634629568_1_alg».proof.Proof.LibRealChain
import Idealize.ShloMosaic.PureOps.Ideal.Laws

noncomputable section

namespace Cert.Gin

open Idealize.ShloMosaic

/-- The row count's word denotes the real number 10000. -/
theorem rows_eq : rows = ((10000 : ℝ) : EReal) := by
  unfold rows
  simp [Ideal.ofBits, Ideal.ieee]
  rw [← EReal.coe_mul]; norm_num

/-- The epsilon's word denotes a positive real number. -/
theorem eps_pos : ∃ e : ℝ, 0 < e ∧ eps = (e : EReal) := by
  unfold eps
  simp [Ideal.ofBits, Ideal.ieee]
  refine ⟨10995116 * (2 ^ 40)⁻¹, by positivity, ?_⟩
  rw [EReal.coe_mul]

/-- The word of all zeros denotes 0. -/
theorem zero_word : Ideal.ofBits .f32 0x00000000#32 = 0 := Ideal.ofBits_zero_f32

/-- The 32-bit integer 0 converted to a float is 0. -/
theorem sitofp_zero : (FloatOps.sitofp (F := Ideal) .f32 (0#32 : BitVec 32)) = (0 : EReal) := by
  show (((0#32 : BitVec 32).toInt : ℝ) : EReal) = 0
  simp

/-- A real divided by the row count is the real quotient by 10000. -/
theorem div_rows (s : ℝ) : Ideal.div (s : EReal) rows = ((s / 10000 : ℝ) : EReal) := by
  rw [rows_eq]; exact Cert.Lib.div_coe_coe s (by norm_num)

/-- The row count less zero is the row count, and it is greater than zero. -/
theorem rows_sub_zero : rows - 0 = rows := sub_zero _

theorem rows_gt_zero : Ideal.cmp .ogt rows 0 = 1#1 := by
  rw [rows_eq]
  unfold Ideal.cmp
  have h : (0 : EReal) < ((10000 : ℝ) : EReal) := by exact_mod_cast (by norm_num : (0:ℝ) < 10000)
  simp [h]

/-- The ideal reciprocal square root of a positive real is the real one. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

end Cert.Gin

end
-- ==== Proof.Ref.Layout.lean ====
/-
  Layout operations of the reference read at an index, at the shapes it uses: a scalar broadcast to any shape
  reads the scalar; a vector broadcast to a one-row matrix and a one-row matrix broadcast over many rows read the
  vector's entry of the column; and the host's sum over the rows of a [10000, 512] array at column j is the initial
  value plus the sum over the 10000 rows.
-/
import Idealize.ShloMosaic.Lib.ValueIdx
import Idealize.ShloMosaic.Lib.Pipeline.Value
import Idealize.ShloMosaic.PureOps.Ideal.Laws

noncomputable section

namespace Cert.Gin.Ref

open Idealize.ShloMosaic Idealize.ShloMosaic.ValueIdx

variable {α : Type}

/-- A scalar broadcast to any shape reads the scalar everywhere. -/
theorem bc_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector broadcast along axis 1 of a one-row matrix reads the vector's entry of the column. -/
theorem bc_b_1b_apply {b : Nat}
    (h : (⟨1, ![b]⟩ : Shape).BroadcastsInDim ⟨2, ![1, b]⟩ (![1] : Fin 1 → Fin 2)) (x : (⟨1, ![b]⟩ : Shape).Idx → α)
    (i : Fin 1) (j : Fin b) :
    broadcastInDim ⟨2, ![1, b]⟩ (![1] : Fin 1 → Fin 2) h x (ix2 i j) = x (ix1 j) :=
  broadcastInDim_apply (![1] : Fin 1 → Fin 2) h x (ix2 i j) (ix1 j) fun a => by
    match a with
    | ⟨0, _⟩ =>
      show j.val = if b = 1 then 0 else j.val
      have := j.isLt
      split <;> omega

/-- A one-row matrix broadcast over many rows reads its entry of the column. -/
theorem bc_1b_ab_apply {a b : Nat}
    (h : (⟨2, ![1, b]⟩ : Shape).BroadcastsInDim ⟨2, ![a, b]⟩ (![0, 1] : Fin 2 → Fin 2)) (x : (⟨2, ![1, b]⟩ : Shape).Idx → α)
    (r : Fin a) (j : Fin b) :
    broadcastInDim ⟨2, ![a, b]⟩ (![0, 1] : Fin 2 → Fin 2) h x (ix2 r j) = x (ix2 (0 : Fin 1) j) :=
  broadcastInDim_apply (![0, 1] : Fin 2 → Fin 2) h x (ix2 r j) (ix2 (0 : Fin 1) j) fun c => by
    match c with
    | ⟨0, _⟩ => rfl
    | ⟨1, _⟩ =>
      show j.val = if b = 1 then 0 else j.val
      have := j.isLt
      split <;> omega

/-- The two together: a vector broadcast to every row of a matrix reads the vector's entry of the column. -/
theorem bc_row_apply {a b : Nat}
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (x : (⟨1, ![b]⟩ : Shape).Idx → α)
    (r : Fin a) (j : Fin b) :
    broadcastInDim ⟨2, ![a, b]⟩ (![0, 1] : Fin 2 → Fin 2) h2 (broadcastInDim ⟨2, ![1, b]⟩ (![1] : Fin 1 → Fin 2) h1 x) (ix2 r j)
      = x (ix1 j) :=
  (bc_1b_ab_apply h2 _ r j).trans (bc_b_1b_apply h1 x 0 j)

/-- The host's sum over the rows of a [10000, 512] array, read at column j: the initial value plus the sum over
    the 10000 rows of the entries of column j. -/
theorem reduce_rows_apply (h' : (⟨2, ![10000, 512]⟩ : Shape).ReducesTo [0] ⟨1, ![512]⟩)
    (hu : 0 < (⟨0, ![]⟩ : Shape).numel) (x : FVec Ideal ⟨2, ![10000, 512]⟩ .f32) (init : FVec Ideal ⟨0, ![]⟩ .f32)
    (j : Fin 512) :
    Host.reduceAdd (F := Ideal) x init h' hu (ix1 j) = init ix0 + ∑ r : Fin 10000, x (ix2 r j) := by
  have h : (⟨2, ![10000, 512]⟩ : Shape).Reduces [0] ⟨1, ![512]⟩ := by decide
  show Ideal.hostReduceAdd h' x (init (Shape.Idx.first hu)) (ix1 j) = _
  rw [Ideal.hostReduceAdd_single h' h]
  refine congrArg₂ (· + ·) (congrArg init (eq_ix0 _)) ?_
  exact Finset.sum_congr rfl fun r _ => congrArg x (by
    funext c
    match c with
    | ⟨0, _⟩ => rfl
    | ⟨1, _⟩ => rfl)

end Cert.Gin.Ref

end
-- ==== Proof.Ref.Norm.lean ====
/-
  The reference's batch normalisation of a [10000, 512] array, as the composition of host operations it prints,
  and its reading at an index.

  The reference takes the column mean as (0 + sum over the rows) / 10000, the variance in two passes as the sum over
  the rows of the squared deviations from the mean, divided by 10000 - 0 and selected against a not-a-number
  literal by the comparison 10000 - 0 > 0 (which holds), and returns
      (a - mean) * (gamma * rsqrt (variance + eps)) + beta.
  When every entry of a is a real number, the mean of the squared deviations is the mean of the squares less the
  squared mean, so the result is the one-pass normalisation of the specification.
-/
import proofs.«100381_j2018634629568_1_alg».proof.ReferenceIdeal
import proofs.«100381_j2018634629568_1_alg».proof.Proof.Spec
import proofs.«100381_j2018634629568_1_alg».proof.Proof.LibVariance
import proofs.«100381_j2018634629568_1_alg».proof.Proof.Ref.Consts
import proofs.«100381_j2018634629568_1_alg».proof.Proof.Ref.Layout

noncomputable section

namespace Cert.Gin.Ref

open Idealize.ShloMosaic Idealize.ShloMosaic.ValueIdx Cert.ReferenceIdeal Cert.ReferenceIdeal.Facts₀

variable [Facts₀]

/-- The reference's column mean: the rows summed from 0, divided by the broadcast row count. -/
def refMean (a : FVec Ideal S10000x512 .f32) : FVec Ideal S512 .f32 :=
  Host.divf (F := Ideal)
    (Host.reduceAdd (F := Ideal) a (constant (F := Ideal) S_ .f32 0x00000000#32) reducesTo_S10000x512_S512_d0 h_S_)
    (broadcastInDim S512 ![] bcast_S_S512 (constant (F := Ideal) S_ .f32 0x461C4000#32))

/-- The deviations from the column mean as the variance function takes them (the mean kept as a one-row matrix). -/
def refDev (a : FVec Ideal S10000x512 .f32) : FVec Ideal S10000x512 .f32 :=
  subf a (broadcastInDim S10000x512 ![0, 1] bcast_S1x512_S10000x512_0_1
    (Host.divf (F := Ideal)
      (broadcastInDim S1x512 ![1] bcast_S512_S1x512_1
        (Host.reduceAdd (F := Ideal) a (constant (F := Ideal) S_ .f32 0x00000000#32) reducesTo_S10000x512_S512_d0 h_S_))
      (broadcastInDim S1x512 ![] bcast_S_S1x512 (constant (F := Ideal) S_ .f32 0x461C4000#32))))

/-- The variance function's divisor: the row count less the converted integer argument. -/
def refCount (c : IVec S_ 32) : FVec Ideal S_ .f32 :=
  subf (constant (F := Ideal) S_ .f32 0x461C4000#32) (sitofp .f32 c)

/-- The reference's variance function: the squared deviations summed from 0 over the rows, divided by the broadcast
    divisor, selected against the not-a-number literal by the comparison divisor > 0. -/
def refVar (a : FVec Ideal S10000x512 .f32) (c : IVec S_ 32) : FVec Ideal S512 .f32 :=
  select (broadcastInDim S512 ![] bcast_S_S512 (cmpf .ogt (refCount c) (constant (F := Ideal) S_ .f32 0x00000000#32)))
    (Host.divf (F := Ideal)
      (Host.reduceAdd (F := Ideal) (mulf (refDev a) (refDev a)) (constant (F := Ideal) S_ .f32 0x00000000#32)
        reducesTo_S10000x512_S512_d0 h_S_)
      (broadcastInDim S512 ![] bcast_S_S512 (refCount c)))
    (broadcastInDim S512 ![] bcast_S_S512 (constant (F := Ideal) S_ .f32 0x7FC00000#32))

/-- The reference's batch normalisation. -/
def refNorm (a : FVec Ideal S10000x512 .f32) (g b : FVec Ideal S512 .f32) : FVec Ideal S10000x512 .f32 :=
  addf
    (mulf
      (subf a (broadcastInDim S10000x512 ![0, 1] bcast_S1x512_S10000x512_0_1
        (broadcastInDim S1x512 ![1] bcast_S512_S1x512_1 (refMean a))))
      (broadcastInDim S10000x512 ![0, 1] bcast_S1x512_S10000x512_0_1
        (broadcastInDim S1x512 ![1] bcast_S512_S1x512_1
          (mulf g (Host.rsqrt (F := Ideal) (addf (refVar a (constantI S_ 32 0#32))
            (broadcastInDim S512 ![] bcast_S_S512 (constant (F := Ideal) S_ .f32 0x3727C5AC#32))))))))
    (broadcastInDim S10000x512 ![0, 1] bcast_S1x512_S10000x512_0_1
      (broadcastInDim S1x512 ![1] bcast_S512_S1x512_1 b))

/-! ## Read at an index -/

/-- The coordinates of a [10000, 512] array. -/
abbrev co (a : FVec Ideal S10000x512 .f32) : Fin 10000 → Fin 512 → EReal := fun r l => a (ix2 r l)
/-- The coordinates of a [512] array. -/
abbrev co1 (g : FVec Ideal S512 .f32) : Fin 512 → EReal := fun l => g (ix1 l)

/-- The host quotient and reciprocal square root at an index. -/
theorem hdivf_apply {s : Shape} {φ : FTy} (x y : FVec Ideal s φ) (i : s.Idx) :
    Host.divf (F := Ideal) x y i = Ideal.div (x i) (y i) := rfl
theorem hrsqrt_apply {s : Shape} {φ : FTy} (x : FVec Ideal s φ) (i : s.Idx) :
    Host.rsqrt (F := Ideal) x i = Ideal.rsqrt (x i) := rfl

/-- The reference's mean at column j is the specification's. -/
theorem refMean_apply (a : FVec Ideal S10000x512 .f32) (j : Fin 512) :
    refMean a (ix1 j) = Cert.Gin.mean (co a) j := by
  unfold refMean
  rw [hdivf_apply, reduce_rows_apply, bc_scalar_apply, constant_apply, constant_apply, Ideal.ofBits_zero_f32, zero_add]
  rfl

/-- The deviation at (r, j) is the entry less the specification's mean. -/
theorem refDev_apply (a : FVec Ideal S10000x512 .f32) (r : Fin 10000) (j : Fin 512) :
    refDev a (ix2 r j) = a (ix2 r j) - Cert.Gin.mean (co a) j := by
  unfold refDev
  rw [subf_apply, bc_1b_ab_apply, hdivf_apply, bc_b_1b_apply, reduce_rows_apply, bc_scalar_apply, constant_apply,
    constant_apply, Ideal.ofBits_zero_f32, zero_add]
  rfl

/-- The divisor at the integer 0 is the row count. -/
theorem refCount_zero : refCount (constantI S_ 32 0#32) ix0 = Cert.Gin.rows := by
  unfold refCount
  show Cert.Gin.rows - FloatOps.sitofp (F := Ideal) .f32 (0#32 : BitVec 32) = _
  rw [Cert.Gin.sitofp_zero, sub_zero]

/-- Over the reals, the two-pass variance read on the extended reals is the one-pass one. -/
theorem two_pass_ereal (x : Fin 10000 → ℝ) :
    Ideal.div (∑ r, ((x r : EReal) - Ideal.div (∑ u, (x u : EReal)) Cert.Gin.rows)
        * ((x r : EReal) - Ideal.div (∑ u, (x u : EReal)) Cert.Gin.rows)) Cert.Gin.rows
      = Ideal.div (∑ r, (x r : EReal) * (x r : EReal)) Cert.Gin.rows
        - Ideal.div (∑ u, (x u : EReal)) Cert.Gin.rows * Ideal.div (∑ u, (x u : EReal)) Cert.Gin.rows := by
  have hc : ((Finset.univ : Finset (Fin 10000)).card : ℝ) = 10000 := by
    rw [Finset.card_univ, Fintype.card_fin]; norm_num
  have h := VarianceLaw.two_pass_eq_moments (Finset.univ : Finset (Fin 10000)) x Finset.univ_nonempty
  rw [hc] at h
  rw [← VarianceLaw.coe_sum, Cert.Gin.div_rows]
  simp only [← EReal.coe_sub, ← EReal.coe_mul]
  rw [← VarianceLaw.coe_sum, ← VarianceLaw.coe_sum, Cert.Gin.div_rows, Cert.Gin.div_rows, ← EReal.coe_sub]
  exact congrArg _ h

/-- The reference's variance at column j, for an array of reals, is the specification's one-pass variance. -/
theorem refVar_apply (a : FVec Ideal S10000x512 .f32) (ha : Cert.Gin.IsReal2 (co a)) (j : Fin 512) :
    refVar a (constantI S_ 32 0#32) (ix1 j)
      = Ideal.div (Cert.Gin.colSumSq (co a) j) Cert.Gin.rows - Cert.Gin.mean (co a) j * Cert.Gin.mean (co a) j := by
  unfold refVar
  simp only [select_apply, hdivf_apply, bc_scalar_apply, reduce_rows_apply, cmpf_apply, refCount_zero, constant_apply,
    mulf_apply, refDev_apply, Ideal.ofBits_zero_f32, zero_add, Ideal.cmpf_def, Cert.Gin.rows_gt_zero, select_one]
  choose x hx using ha
  have hx' : ∀ r l, a (ix2 r l) = (x r l : EReal) := hx
  unfold Cert.Gin.mean Cert.Gin.colSum Cert.Gin.colSumSq
  simp only [hx']
  exact two_pass_ereal fun r => x r j

/-- THE REFERENCE'S BATCH NORMALISATION READ AT (r, j): for an array of reals, the specification's. -/
theorem refNorm_apply (a : FVec Ideal S10000x512 .f32) (g b : FVec Ideal S512 .f32)
    (ha : Cert.Gin.IsReal2 (co a)) (r : Fin 10000) (j : Fin 512) :
    refNorm a g b (ix2 r j) = Cert.Gin.normalize (co a) (co1 g) (co1 b) r j := by
  unfold refNorm
  simp only [addf_apply, mulf_apply, subf_apply, bc_row_apply, refMean_apply, hrsqrt_apply, refVar_apply a ha,
    bc_scalar_apply, constant_apply]
  rfl

end Cert.Gin.Ref

end
-- ==== Proof.Ref.Mlp.lean ====
/-
  The reference's two-layer perceptron with rectifiers, as the composition of host operations it prints, and its
  reading at an index: relu (relu (x Wa + ba) Wb + bb), the products whole dot_generals, each bias broadcast first to
  a one-row matrix and then over the rows, the rectifier a maximum with a broadcast 0.
-/
import proofs.«100381_j2018634629568_1_alg».proof.ReferenceIdeal
import proofs.«100381_j2018634629568_1_alg».proof.Proof.Spec
import proofs.«100381_j2018634629568_1_alg».proof.Proof.Ref.Layout
import Idealize.ShloMosaic.Lib.StackMember

noncomputable section

namespace Cert.Gin.Ref

open Idealize.ShloMosaic Idealize.ShloMosaic.ValueIdx Cert.ReferenceIdeal Cert.ReferenceIdeal.Facts₀

variable [Facts₀]

/-- The reference's rectifier: the maximum with the broadcast constant 0. -/
def refRelu (x : FVec Ideal S10000x512 .f32) : FVec Ideal S10000x512 .f32 :=
  maximumf x (broadcastInDim S10000x512 ![] bcast_S_S10000x512 (constant (F := Ideal) S_ .f32 0x00000000#32))

/-- A bias vector broadcast to a one-row matrix and then over the 10000 rows. -/
def refBias (v : FVec Ideal S512 .f32) : FVec Ideal S10000x512 .f32 :=
  broadcastInDim S10000x512 ![0, 1] bcast_S1x512_S10000x512_0_1 (broadcastInDim S1x512 ![1] bcast_S512_S1x512_1 v)

/-- The first layer's perceptron, over a [10000, 16] input. -/
def refMlp16 (x : FVec Ideal S10000x16 .f32) (Wa : FVec Ideal S16x512 .f32) (ba : FVec Ideal S512 .f32)
    (Wb : FVec Ideal S512x512 .f32) (bb : FVec Ideal S512 .f32) : FVec Ideal S10000x512 .f32 :=
  refRelu (addf (Host.dotGeneral dot_S10000x512_S512x512_S10000x512_1_0_0_1_n_n none
    (refRelu (addf (Host.dotGeneral dot_S10000x16_S16x512_S10000x512_1_0_0_1_n_n none x Wa) (refBias ba))) Wb) (refBias bb))

/-- The later layers' perceptron, over a [10000, 512] input. -/
def refMlp512 (x : FVec Ideal S10000x512 .f32) (Wa : FVec Ideal S512x512 .f32) (ba : FVec Ideal S512 .f32)
    (Wb : FVec Ideal S512x512 .f32) (bb : FVec Ideal S512 .f32) : FVec Ideal S10000x512 .f32 :=
  refRelu (addf (Host.dotGeneral dot_S10000x512_S512x512_S10000x512_1_0_0_1_n_n none
    (refRelu (addf (Host.dotGeneral dot_S10000x512_S512x512_S10000x512_1_0_0_1_n_n none x Wa) (refBias ba))) Wb) (refBias bb))

/-! ## Read at an index -/

/-- The rectifier at an index is the maximum with 0. -/
theorem refRelu_apply (x : FVec Ideal S10000x512 .f32) (i : S10000x512.Idx) : refRelu x i = max (x i) 0 := by
  unfold refRelu
  rw [maximumf_apply, bc_scalar_apply, constant_apply, Ideal.ofBits_zero_f32]

/-- The broadcast bias at (r, j) is the bias's entry j. -/
theorem refBias_apply (v : FVec Ideal S512 .f32) (r : Fin 10000) (j : Fin 512) : refBias v (ix2 r j) = v (ix1 j) := by
  unfold refBias
  exact bc_row_apply _ _ v r j

/-- The [10000, 16] by [16, 512] product at (r, j). -/
theorem dot16_apply (x : FVec Ideal S10000x16 .f32) (W : FVec Ideal S16x512 .f32) (r : Fin 10000) (j : Fin 512) :
    Host.dotGeneral dot_S10000x16_S16x512_S10000x512_1_0_0_1_n_n none x W (ix2 r j)
      = ∑ l : Fin 16, x (ix2 r l) * W (ix2 l j) := by
  have h : dot_S10000x16_S16x512_S10000x512_1_0_0_1_n_n = DotDims.plain 10000 16 512 := rfl
  rw [h]
  exact StackMember.dotGeneral_plain_apply none x W r j

/-- The [10000, 512] by [512, 512] product at (r, j). -/
theorem dot512_apply (x : FVec Ideal S10000x512 .f32) (W : FVec Ideal S512x512 .f32) (r : Fin 10000) (j : Fin 512) :
    Host.dotGeneral dot_S10000x512_S512x512_S10000x512_1_0_0_1_n_n none x W (ix2 r j)
      = ∑ l : Fin 512, x (ix2 r l) * W (ix2 l j) := by
  have h : dot_S10000x512_S512x512_S10000x512_1_0_0_1_n_n = DotDims.plain 10000 512 512 := rfl
  rw [h]
  exact StackMember.dotGeneral_plain_apply none x W r j

/-- THE FIRST LAYER'S PERCEPTRON READ AT (r, j): the specification's. -/
theorem refMlp16_apply (x : FVec Ideal S10000x16 .f32) (Wa : FVec Ideal S16x512 .f32) (ba : FVec Ideal S512 .f32)
    (Wb : FVec Ideal S512x512 .f32) (bb : FVec Ideal S512 .f32) (r : Fin 10000) (j : Fin 512) :
    refMlp16 x Wa ba Wb bb (ix2 r j)
      = Cert.Gin.mlp (fun r l => x (ix2 r l)) (fun l k => Wa (ix2 l k)) (fun k => ba (ix1 k))
          (fun k j => Wb (ix2 k j)) (fun j => bb (ix1 j)) r j := by
  unfold refMlp16
  simp only [refRelu_apply, addf_apply, dot512_apply, dot16_apply, refBias_apply]
  rfl

/-- THE LATER LAYERS' PERCEPTRON READ AT (r, j): the specification's. -/
theorem refMlp512_apply (x : FVec Ideal S10000x512 .f32) (Wa : FVec Ideal S512x512 .f32) (ba : FVec Ideal S512 .f32)
    (Wb : FVec Ideal S512x512 .f32) (bb : FVec Ideal S512 .f32) (r : Fin 10000) (j : Fin 512) :
    refMlp512 x Wa ba Wb bb (ix2 r j)
      = Cert.Gin.mlp (fun r l => x (ix2 r l)) (fun l k => Wa (ix2 l k)) (fun k => ba (ix1 k))
          (fun k j => Wb (ix2 k j)) (fun j => bb (ix1 j)) r j := by
  unfold refMlp512
  simp only [refRelu_apply, addf_apply, dot512_apply, refBias_apply]
  rfl

end Cert.Gin.Ref

end
-- ==== Proof.Ref.Head.lean ====
/-
  The reference's head, as the composition of host operations it prints, and its reading at an index:
  tanh (p W1 + b1) W2 + b2, the products whole dot_generals, each bias broadcast first to a one-row matrix and
  then over the 64 rows.
-/
import proofs.«100381_j2018634629568_1_alg».proof.ReferenceIdeal
import proofs.«100381_j2018634629568_1_alg».proof.Proof.Spec
import proofs.«100381_j2018634629568_1_alg».proof.Proof.Ref.Layout
import Idealize.ShloMosaic.Lib.StackMember

noncomputable section

namespace Cert.Gin.Ref

open Idealize.ShloMosaic Idealize.ShloMosaic.ValueIdx Cert.ReferenceIdeal Cert.ReferenceIdeal.Facts₀

variable [Facts₀]

/-- The reference's head over the pooled [64, 512] array. -/
def refHead (p : FVec Ideal S64x512 .f32) (W1 : FVec Ideal S512x512 .f32) (b1 : FVec Ideal S512 .f32)
    (W2 : FVec Ideal S512x18 .f32) (b2 : FVec Ideal S18 .f32) : FVec Ideal S64x18 .f32 :=
  addf
    (Host.dotGeneral dot_S64x512_S512x18_S64x18_1_0_0_1_n_n none
      (Host.tanh (F := Ideal) (addf (Host.dotGeneral dot_S64x512_S512x512_S64x512_1_0_0_1_n_n none p W1)
        (broadcastInDim S64x512 ![0, 1] bcast_S1x512_S64x512_0_1 (broadcastInDim S1x512 ![1] bcast_S512_S1x512_1 b1))))
      W2)
    (broadcastInDim S64x18 ![0, 1] bcast_S1x18_S64x18_0_1 (broadcastInDim S1x18 ![1] bcast_S18_S1x18_1 b2))

/-- The host hyperbolic tangent at an index. -/
theorem htanh_apply {s : Shape} {φ : FTy} (x : FVec Ideal s φ) (i : s.Idx) :
    Host.tanh (F := Ideal) x i = Ideal.tanh (x i) := rfl

/-- The [64, 512] by [512, 512] product at (g, k). -/
theorem dotHead1_apply (p : FVec Ideal S64x512 .f32) (W : FVec Ideal S512x512 .f32) (g : Fin 64) (k : Fin 512) :
    Host.dotGeneral dot_S64x512_S512x512_S64x512_1_0_0_1_n_n none p W (ix2 g k)
      = ∑ l : Fin 512, p (ix2 g l) * W (ix2 l k) := by
  have h : dot_S64x512_S512x512_S64x512_1_0_0_1_n_n = DotDims.plain 64 512 512 := rfl
  rw [h]
  exact StackMember.dotGeneral_plain_apply none p W g k

/-- The [64, 512] by [512, 18] product at (g, o). -/
theorem dotHead2_apply (p : FVec Ideal S64x512 .f32) (W : FVec Ideal S512x18 .f32) (g : Fin 64) (o : Fin 18) :
    Host.dotGeneral dot_S64x512_S512x18_S64x18_1_0_0_1_n_n none p W (ix2 g o)
      = ∑ k : Fin 512, p (ix2 g k) * W (ix2 k o) := by
  have h : dot_S64x512_S512x18_S64x18_1_0_0_1_n_n = DotDims.plain 64 512 18 := rfl
  rw [h]
  exact StackMember.dotGeneral_plain_apply none p W g o

/-- THE HEAD READ AT (g, o): the specification's. -/
theorem refHead_apply (p : FVec Ideal S64x512 .f32) (W1 : FVec Ideal S512x512 .f32) (b1 : FVec Ideal S512 .f32)
    (W2 : FVec Ideal S512x18 .f32) (b2 : FVec Ideal S18 .f32) (g : Fin 64) (o : Fin 18) :
    refHead p W1 b1 W2 b2 (ix2 g o)
      = Cert.Gin.head (fun g l => p (ix2 g l)) (fun l k => W1 (ix2 l k)) (fun k => b1 (ix1 k))
          (fun k o => W2 (ix2 k o)) (fun o => b2 (ix1 o)) g o := by
  unfold refHead
  simp only [addf_apply, dotHead2_apply, htanh_apply, dotHead1_apply, bc_row_apply]
  rfl

end Cert.Gin.Ref

end
-- ==== Proof.LibRowIndex.lean ====
/-
  Two index notions for a row gather followed by an accumulating row scatter.

  A list of E updates carries, per update e, one integer index (an [E, 1] array of words). Read as a
  GATHER index into an operand of N rows it is taken as a signed integer and clamped into [0, N - 1]:
  `gatherRow`. Read as a SCATTER index it is taken as a signed integer and NOT clamped: update e lands
  on row n exactly when that integer is n, and the updates landing on row n form the finite set
  `hits idx n` (an index outside [0, N) lands nowhere).
-/
import Idealize.ShloMosaic.Lib.ValueIdx

namespace Cert.Lib

open Idealize.ShloMosaic Idealize.ShloMosaic.ValueIdx

variable {N E w : Nat}

/-- The operand row an update row reads: its start index read as a signed integer and clamped into [0, N-1]. -/
def gatherRow (hN : 0 < N) (idx : IVec ⟨2, ![E, 1]⟩ w) (e : Fin E) : Fin N :=
  ⟨min (idx (ix2 e (0 : Fin 1))).toInt.toNat (N - 1), by omega⟩

/-- The update rows that land on operand row n: those whose scatter index, read signed and not clamped, is n. -/
def hits (idx : IVec ⟨2, ![E, 1]⟩ w) (n : Nat) : Finset (Fin E) :=
  Finset.univ.filter fun e => (idx (ix2 e (0 : Fin 1))).toInt = (n : Int)

end Cert.Lib
-- ==== Proof.LibRowGatherScatter.lean ====
/-
  A row gather and an accumulating scatter, read at one index.

  An operand has N rows (of C columns, or of one scalar each); a list of E updates carries one integer index per
  update, an [E, 1] array of words of width w. Everything here is generic in the extents N, C, E and in w.

    • GATHER of rows: result element (e, k) is the operand's element (gatherRow e, k), where gatherRow e is update
      e's index read as a signed integer and clamped into [0, N - 1] (`gather_rows_apply`).
    • ACCUMULATING SCATTER of rows, at the ideal float instance (exact sums on the extended reals): result element
      (n, k) is the operand's element plus the sum of the updates' elements (e, k) over the updates e in
      `hits idx n`, those whose index read signed — and not clamped — is n (`scatterAdd_rows_apply`); an update
      whose index is outside [0, N) lands nowhere.
    • The same scatter with scalar updates into a vector of N entries (`scatterAdd_vec_apply`).

  The route for the scatter: an update lands on operand index i exactly when start plus window coordinate equals
  i's coordinate on every axis; for these dimension numbers the start is the update's index on the row axis and 0
  on the column axis, the window coordinate 0 on the row axis and the update's column on the column axis; the sum
  over the updates landing on (n, k) is then re-indexed along e ↦ (e, k).
-/
import Idealize.ShloMosaic.Lib.ValueIdx
import Idealize.ShloMosaic.PureOps.Ideal
import Idealize.ShloMosaic.PureOps.Contract
import proofs.«100381_j2018634629568_1_alg».proof.Proof.LibRowIndex

noncomputable section

namespace Cert.Lib

open Idealize.ShloMosaic Idealize.ShloMosaic.ValueIdx
open scoped BigOperators

variable {N C E w : Nat}

/-- Update row e lands on operand row n exactly when its scatter index, read signed, is n. -/
private theorem mem_hits (idx : IVec ⟨2, ![E, 1]⟩ w) (n : Nat) (e : Fin E) :
    e ∈ hits idx n ↔ (idx (ix2 e (0 : Fin 1))).toInt = (n : Int) := by
  unfold hits
  exact Finset.mem_filter.trans (and_iff_right (Finset.mem_univ e))

/-- An update lands on operand index i exactly when, on every axis, start plus window coordinate is i's coordinate. -/
private theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hi a
      have hi' := Option.some.inj hi
      have := congrArg (fun f => (f a).val) hi'
      simp only at this
      have h0 := (h a).1
      omega
    · intro hi
      congr 1
      funext a
      refine Fin.ext ?_
      have := hi a
      simp only
      omega
  · rename_i h
    constructor
    · intro hi; exact absurd hi (by simp)
    · intro hi
      exfalso
      apply h
      intro a
      have := hi a
      have := (i a).isLt
      omega

section Rows
variable (uw : ScatterDims.WF ⟨2, ![N, C]⟩ ⟨2, ![E, 1]⟩ ⟨2, ![E, C]⟩ [1] [0] [0] 1)

/-- The literal dimension numbers of a row scatter. -/
private abbrev rowsDims : ScatterDims ⟨2, ![N, C]⟩ ⟨2, ![E, 1]⟩ ⟨2, ![E, C]⟩ := ⟨[1], [0], [0], 1, uw⟩

/-- The scatter index update (e, k') reads is the index array's entry (e, 0). -/
private theorem rows_siIdx (j : (⟨2, ![E, C]⟩ : Shape).Idx) :
    (rowsDims uw).siIdx j ⟨List.idxOf (0 : Fin 2) (rowsDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the row axis the window starts at update row e's index, read signed. -/
private theorem rows_start0 (j : (⟨2, ![E, C]⟩ : Shape).Idx) (idx : IVec ⟨2, ![E, 1]⟩ w) :
    (rowsDims uw).start j idx 0 = (idx (ix2 (j 0) (0 : Fin 1))).toInt := by
  unfold ScatterDims.start
  rw [dif_pos (show (0 : Fin 2) ∈ (rowsDims uw).scatterDimsToOperandDims from List.mem_singleton.mpr rfl)]
  rw [rows_siIdx]
  rfl

/-- On the column axis the window starts at 0. -/
private theorem rows_start1 (j : (⟨2, ![E, C]⟩ : Shape).Idx) (idx : IVec ⟨2, ![E, 1]⟩ w) :
    (rowsDims uw).start j idx 1 = 0 := by
  unfold ScatterDims.start
  rw [dif_neg (show (1 : Fin 2) ∉ ([0] : List (Fin 2)) by decide)]

/-- The row axis is inserted: its window coordinate is 0. -/
private theorem rows_window0 (j : (⟨2, ![E, C]⟩ : Shape).Idx) : (rowsDims uw).window j 0 = 0 := by
  unfold ScatterDims.window
  rw [dif_neg (by simp [ScatterDims.sKept, Shape.kept])]

/-- On the column axis the window coordinate is the update's column. -/
private theorem rows_window1 (j : (⟨2, ![E, C]⟩ : Shape).Idx) : (rowsDims uw).window j 1 = (j 1).val := by
  unfold ScatterDims.window
  rw [dif_pos (by simp [ScatterDims.sKept, Shape.kept])]
  rfl

end Rows

section Rows
variable (uw : ScatterDims.WF ⟨2, ![N, C]⟩ ⟨2, ![E, 1]⟩ ⟨2, ![E, C]⟩ [1] [0] [0] 1)

/-- For a row scatter, update (e, k') lands on (n, k) exactly when e's index, read signed, is n and k' = k. -/
private theorem rows_resultIdx?_iff (j : (⟨2, ![E, C]⟩ : Shape).Idx) (idx : IVec ⟨2, ![E, 1]⟩ w) (n : Fin N) (k : Fin C) :
    (rowsDims uw).resultIdx? j idx = some (ix2 n k) ↔
      (idx (ix2 (j 0) (0 : Fin 1))).toInt = (n.val : Int) ∧ j 1 = k := by
  rw [resultIdx?_eq_some_iff]
  constructor
  · intro h
    have h0 : (rowsDims uw).start j idx 0 + ((rowsDims uw).window j 0 : Int) = (n.val : Int) := h 0
    have h1 : (rowsDims uw).start j idx 1 + ((rowsDims uw).window j 1 : Int) = (k.val : Int) := h 1
    rw [rows_start0, rows_window0] at h0
    rw [rows_start1, rows_window1] at h1
    refine ⟨?_, Fin.ext ?_⟩
    · omega
    · omega
  · rintro ⟨h0, h1⟩ a
    match a with
    | ⟨0, _⟩ =>
      show (rowsDims uw).start j idx 0 + ((rowsDims uw).window j 0 : Int) = (n.val : Int)
      rw [rows_start0, rows_window0]
      omega
    | ⟨1, _⟩ =>
      show (rowsDims uw).start j idx 1 + ((rowsDims uw).window j 1 : Int) = (k.val : Int)
      rw [rows_start1, rows_window1, h1]
      omega

end Rows

/-- AN ACCUMULATING ROW SCATTER READ AT (n, k): the operand's element plus the sum, over the update rows whose index read
    signed is n, of the update's element in column k. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (n : Fin N) (k : Fin C) :
    Host.scatterAdd (F := Ideal) d x idx upd (ix2 n k) = x (ix2 n k) + ∑ e ∈ hits idx n.val, upd (ix2 e k) := by
  obtain ⟨uwd, iwd, sd, iv, wf⟩ := d
  dsimp only at h1 h2 h3 h4
  subst h1 h2 h3 h4
  show Ideal.hostScatterAdd (rowsDims wf) x idx upd (ix2 n k) = _
  unfold Ideal.hostScatterAdd
  congr 1
  have key : ∀ j : (⟨2, ![E, C]⟩ : Shape).Idx, (rowsDims wf).resultIdx? j idx = some (ix2 n k) → ix2 (j 0) k = j := by
    intro j hj
    have := ((rows_resultIdx?_iff wf j idx n k).1 hj).2
    rw [← this]; exact (eq_ix2 j).symm
  refine Finset.sum_nbij' (fun j => j 0) (fun e => ix2 e k) ?_ ?_ ?_ ?_ ?_
  · intro j hj
    have := (rows_resultIdx?_iff wf j idx n k).1 (Finset.mem_filter.1 hj).2
    exact (mem_hits idx n.val (j 0)).2 this.1
  · intro e he
    exact Finset.mem_filter.2 ⟨Finset.mem_univ _,
      (rows_resultIdx?_iff wf (ix2 e k) idx n k).2 ⟨(mem_hits idx n.val e).1 he, rfl⟩⟩
  · intro j hj
    exact key j (Finset.mem_filter.1 hj).2
  · intro e _; rfl
  · intro j hj
    exact congrArg upd (key j (Finset.mem_filter.1 hj).2).symm

section Vec
variable (uw : ScatterDims.WF ⟨1, ![N]⟩ ⟨2, ![E, 1]⟩ ⟨1, ![E]⟩ [] [0] [0] 1)

/-- The literal dimension numbers of a scatter of scalars into a vector. -/
private abbrev vecDims : ScatterDims ⟨1, ![N]⟩ ⟨2, ![E, 1]⟩ ⟨1, ![E]⟩ := ⟨[], [0], [0], 1, uw⟩

/-- The scatter index update e reads is the index array's entry (e, 0). -/
private theorem vec_siIdx (j : (⟨1, ![E]⟩ : Shape).Idx) :
    (vecDims uw).siIdx j ⟨List.idxOf (0 : Fin 1) (vecDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the one operand axis the window starts at update e's index, read signed. -/
private theorem vec_start0 (j : (⟨1, ![E]⟩ : Shape).Idx) (idx : IVec ⟨2, ![E, 1]⟩ w) :
    (vecDims uw).start j idx 0 = (idx (ix2 (j 0) (0 : Fin 1))).toInt := by
  unfold ScatterDims.start
  rw [dif_pos (show (0 : Fin 1) ∈ (vecDims uw).scatterDimsToOperandDims from List.mem_singleton.mpr rfl)]
  rw [vec_siIdx]
  rfl

/-- The one operand axis is inserted: its window coordinate is 0. -/
private theorem vec_window0 (j : (⟨1, ![E]⟩ : Shape).Idx) : (vecDims uw).window j 0 = 0 := by
  unfold ScatterDims.window
  rw [dif_neg (by simp [ScatterDims.sKept, Shape.kept])]

/-- For a scatter of scalars into a vector, update e lands on n exactly when e's index, read signed, is n. -/
private theorem vec_resultIdx?_iff (j : (⟨1, ![E]⟩ : Shape).Idx) (idx : IVec ⟨2, ![E, 1]⟩ w) (n : Fin N) :
    (vecDims uw).resultIdx? j idx = some (ix1 n) ↔ (idx (ix2 (j 0) (0 : Fin 1))).toInt = (n.val : Int) := by
  rw [resultIdx?_eq_some_iff]
  constructor
  · intro h
    have h0 : (vecDims uw).start j idx 0 + ((vecDims uw).window j 0 : Int) = (n.val : Int) := h 0
    rw [vec_start0, vec_window0] at h0
    omega
  · intro h0 a
    match a with
    | ⟨0, _⟩ =>
      show (vecDims uw).start j idx 0 + ((vecDims uw).window j 0 : Int) = (n.val : Int)
      rw [vec_start0, vec_window0]
      omega

end Vec

/-- AN ACCUMULATING SCATTER OF SCALARS INTO A VECTOR READ AT n: the operand's element plus the sum of the updates whose
    index read signed is n. -/
theorem scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (n : Fin N) :
    Host.scatterAdd (F := Ideal) d x idx upd (ix1 n) = x (ix1 n) + ∑ e ∈ hits idx n.val, upd (ix1 e) := by
  obtain ⟨uwd, iwd, sd, iv, wf⟩ := d
  dsimp only at h1 h2 h3 h4
  subst h1 h2 h3 h4
  show Ideal.hostScatterAdd (vecDims wf) x idx upd (ix1 n) = _
  unfold Ideal.hostScatterAdd
  congr 1
  refine Finset.sum_nbij' (fun j => j 0) (fun e => ix1 e) ?_ ?_ ?_ ?_ ?_
  · intro j hj
    have := (vec_resultIdx?_iff wf j idx n).1 (Finset.mem_filter.1 hj).2
    exact (mem_hits idx n.val (j 0)).2 this
  · intro e he
    exact Finset.mem_filter.2 ⟨Finset.mem_univ _, (vec_resultIdx?_iff wf (ix1 e) idx n).2 ((mem_hits idx n.val e).1 he)⟩
  · intro j _
    exact (eq_ix1 j).symm
  · intro e _; rfl
  · intro j _
    exact congrArg upd (eq_ix1 j)

section Gather
variable {α : Type}

section Dims
variable (ss : Fin 2 → Nat)
  (gw : GatherDims.WF ⟨2, ![N, C]⟩ ⟨2, ![E, 1]⟩ ⟨2, ![E, C]⟩ [1] [0] [] [0] [] 1 ss)

/-- The literal dimension numbers of a row gather, at any slice sizes. -/
private abbrev gRowsDims : GatherDims ⟨2, ![N, C]⟩ ⟨2, ![E, 1]⟩ ⟨2, ![E, C]⟩ := ⟨[1], [0], [], [], [0], 1, ss, gw⟩

/-- The start index result row e reads is the index array's entry (e, 0). -/
private theorem gRows_siIdx (j : (⟨2, ![E, C]⟩ : Shape).Idx) :
    (gRowsDims ss gw).siIdx j ⟨List.idxOf (0 : Fin 2) (gRowsDims ss gw).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

include gw in
/-- On the row axis the slice has one row. -/
private theorem gRows_slice0 : ss 0 = 1 :=
  (gRowsDims ss gw).slice_collapsed 0 (List.mem_singleton.mpr rfl)

/-- On the row axis the operand coordinate is the start index, read signed and clamped into [0, N - 1]. -/
private theorem gRows_coord0 (j : (⟨2, ![E, C]⟩ : Shape).Idx) (idx : IVec ⟨2, ![E, 1]⟩ w) :
    (gRowsDims ss gw).start j idx 0 + (gRowsDims ss gw).batchCoord j 0 + (gRowsDims ss gw).offCoord j 0
      = min (idx (ix2 (j 0) (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gRowsDims ss gw).startIndexMap from List.mem_singleton.mpr rfl)]
  rw [gRows_siIdx]
  show min _ (N - ss 0) = _
  rw [gRows_slice0 ss gw]
  rfl

/-- On the column axis the operand coordinate is the result's column. -/
private theorem gRows_coord1 (j : (⟨2, ![E, C]⟩ : Shape).Idx) (idx : IVec ⟨2, ![E, 1]⟩ w) :
    (gRowsDims ss gw).start j idx 1 + (gRowsDims ss gw).batchCoord j 1 + (gRowsDims ss gw).offCoord j 1
      = (j 1).val := by
  rw [GatherDims.batchCoord_eq_zero _ _ _ List.not_mem_nil]
  unfold GatherDims.start
  rw [dif_neg (show (1 : Fin 2) ∉ ([0] : List (Fin 2)) by decide)]
  unfold GatherDims.offCoord
  rw [dif_pos (by simp [GatherDims.sKept, Shape.kept])]
  simp only [Nat.add_zero, Nat.zero_add]
  rfl

end Dims

/-- A ROW GATHER READ AT (e, k): the operand's element in column k of the row that update row e's start index, read
    signed and clamped into [0, N - 1], names. -/
theorem gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (x : (⟨2, ![N, C]⟩ : Shape).Idx → α) (idx : IVec ⟨2, ![E, 1]⟩ w) (e : Fin E) (k : Fin C) :
    Host.gather d x idx (ix2 e k) = x (ix2 (gatherRow hN idx e) k) := by
  obtain ⟨od, cd, ob, sb, sm, iv, ss, wf⟩ := d
  dsimp only at h1 h2 h3 h4 h5 h6
  subst h1 h2 h3 h4 h5 h6
  show x ((gRowsDims ss wf).operandIdx (ix2 e k) idx) = _
  congr 1
  funext a
  refine Fin.ext ?_
  match a with
  | ⟨0, _⟩ => exact gRows_coord0 ss wf (ix2 e k) idx
  | ⟨1, _⟩ => exact gRows_coord1 ss wf (ix2 e k) idx

end Gather

end Cert.Lib

end
-- ==== Proof.Ref.Reals.lean ====
/-
  Being a real number is preserved by every stage of the network: by the two-layer perceptron, by the batch
  normalisation (its variance is non-negative and the epsilon positive, so the reciprocal square root is taken of
  a positive real), and by the host aggregation x + scatterAdd (0, dst, gather (x, src)), whatever the two integer
  index arrays hold (every gathered entry is an entry of x, and a finite sum of reals is real).
-/
import proofs.«100381_j2018634629568_1_alg».proof.ReferenceIdeal
import proofs.«100381_j2018634629568_1_alg».proof.Proof.Spec
import proofs.«100381_j2018634629568_1_alg».proof.Proof.LibVariance
import proofs.«100381_j2018634629568_1_alg».proof.Proof.LibRealChain
import proofs.«100381_j2018634629568_1_alg».proof.Proof.LibRowGatherScatter
import proofs.«100381_j2018634629568_1_alg».proof.Proof.Ref.Consts
import proofs.«100381_j2018634629568_1_alg».proof.Proof.Ref.Layout

noncomputable section

namespace Cert.Gin

open Idealize.ShloMosaic Idealize.ShloMosaic.ValueIdx Cert.Lib

/-- The perceptron of real arrays is a real array. -/
theorem mlp_real {n d : Nat} (x : Fin n → Fin d → EReal) (Wa : Fin d → Fin 512 → EReal) (ba : Fin 512 → EReal)
    (Wb : Fin 512 → Fin 512 → EReal) (bb : Fin 512 → EReal)
    (hx : IsReal2 x) (hWa : IsReal2 Wa) (hba : IsReal1 ba) (hWb : IsReal2 Wb) (hbb : IsReal1 bb) :
    IsReal2 (mlp x Wa ba Wb bb) := by
  intro r j
  show IsReal (mlp x Wa ba Wb bb r j)
  unfold mlp
  refine IsReal.max (IsReal.add (IsReal.sum_univ_mul _ _ (fun k => ?_) (fun k => hWb k j)) (hbb j)) isReal_zero
  exact IsReal.max (IsReal.add (IsReal.sum_univ_mul _ _ (fun l => hx r l) (fun l => hWa l k)) (hba k)) isReal_zero

/-- The row count is a positive real. -/
theorem rows_isPosReal : IsPosReal rows := ⟨10000, by norm_num, rows_eq⟩

/-- The one-pass variance of a real column is a non-negative real. -/
theorem var_real (x : Fin 10000 → ℝ) :
    ∃ v : ℝ, 0 ≤ v ∧ Ideal.div (∑ r, (x r : EReal) * (x r : EReal)) rows
        - Ideal.div (∑ u, (x u : EReal)) rows * Ideal.div (∑ u, (x u : EReal)) rows = (v : EReal) := by
  have hc : ((Finset.univ : Finset (Fin 10000)).card : ℝ) = 10000 := by
    rw [Finset.card_univ, Fintype.card_fin]; norm_num
  have h := VarianceLaw.moments_nonneg (Finset.univ : Finset (Fin 10000)) x Finset.univ_nonempty
  rw [hc] at h
  refine ⟨_, h, ?_⟩
  simp only [← EReal.coe_mul]
  rw [← VarianceLaw.coe_sum, ← VarianceLaw.coe_sum, div_rows, div_rows, ← EReal.coe_mul, ← EReal.coe_sub]

/-- The batch normalisation of a real [10000, 512] array with real scale and shift is a real array. -/
theorem normalize_real (a : Fin 10000 → Fin 512 → EReal) (g b : Fin 512 → EReal)
    (ha : IsReal2 a) (hg : IsReal1 g) (hb : IsReal1 b) : IsReal2 (normalize a g b) := by
  intro r j
  show IsReal (normalize a g b r j)
  have hmean : IsReal (mean a j) := IsReal.div_pos (IsReal.sum_univ _ fun r => ha r j) rows_isPosReal
  have hrs : IsReal (Ideal.rsqrt (Ideal.div (colSumSq a j) rows - mean a j * mean a j + eps)) := by
    choose x hx using ha
    obtain ⟨v, hv, hve⟩ := var_real fun r => x r j
    obtain ⟨e, he, hee⟩ := eps_pos
    unfold mean colSum colSumSq
    simp only [hx]
    rw [hve, hee, ← EReal.coe_add, rsqrt_coe_pos (by linarith)]
    exact isReal_coe _
  unfold normalize
  exact IsReal.add (IsReal.mul (IsReal.sub (ha r j) hmean) (IsReal.mul (hg j) hrs)) (hb j)

/-- The head of real arrays is a real array. -/
theorem head_real (p : Fin 64 → Fin 512 → EReal) (W1 : Fin 512 → Fin 512 → EReal) (b1 : Fin 512 → EReal)
    (W2 : Fin 512 → Fin 18 → EReal) (b2 : Fin 18 → EReal)
    (hp : IsReal2 p) (hW1 : IsReal2 W1) (hb1 : IsReal1 b1) (hW2 : IsReal2 W2) (hb2 : IsReal1 b2) :
    IsReal2 (head p W1 b1 W2 b2) := by
  intro g o
  show IsReal (head p W1 b1 W2 b2 g o)
  unfold head
  refine IsReal.add (IsReal.sum_univ_mul _ _ (fun k => IsReal.tanh ?_) (fun k => hW2 k o)) (hb2 o)
  exact IsReal.add (IsReal.sum_univ_mul _ _ (fun l => hp g l) (fun l => hW1 l k)) (hb1 k)

end Cert.Gin

namespace Cert.Gin.Ref

open Idealize.ShloMosaic Idealize.ShloMosaic.ValueIdx Cert.Lib Cert.ReferenceIdeal Cert.ReferenceIdeal.Facts₀

variable [Facts₀]

/-- The reference's aggregation of a [10000, 16] array: x + scatterAdd (broadcast 0, dst, gather (x, src)). -/
def refAgg16 (x : FVec Ideal S10000x16 .f32) (src dst : IVec S160000x1 32) : FVec Ideal S10000x16 .f32 :=
  addf x (Host.scatterAdd (F := Ideal) scatter_S10000x16_S160000x1_S160000x16_1_0_0_1
    (broadcastInDim S10000x16 ![] bcast_S_S10000x16 (constant (F := Ideal) S_ .f32 0x00000000#32)) dst
    (Host.gather gather_S10000x16_S160000x1_S160000x16_1_0_n_n_0_1_116 x src))

/-- The reference's aggregation of a [10000, 512] array. -/
def refAgg512 (x : FVec Ideal S10000x512 .f32) (src dst : IVec S160000x1 32) : FVec Ideal S10000x512 .f32 :=
  addf x (Host.scatterAdd (F := Ideal) scatter_S10000x512_S160000x1_S160000x512_1_0_0_1
    (broadcastInDim S10000x512 ![] bcast_S_S10000x512 (constant (F := Ideal) S_ .f32 0x00000000#32)) dst
    (Host.gather gather_S10000x512_S160000x1_S160000x512_1_0_n_n_0_1_1512 x src))

/-- The aggregation at (n, k): the entry plus the sum, over the edges whose destination is n, of the entry of the
    edge's (clamped) source row in column k. -/
theorem refAgg16_apply (x : FVec Ideal S10000x16 .f32) (src dst : IVec S160000x1 32) (n : Fin 10000) (k : Fin 16) :
    refAgg16 x src dst (ix2 n k)
      = x (ix2 n k) + (0 + ∑ e ∈ hits dst n.val, x (ix2 (gatherRow (by norm_num : 0 < 10000) src e) k)) := by
  unfold refAgg16
  rw [addf_apply, scatterAdd_rows_apply scatter_S10000x16_S160000x1_S160000x16_1_0_0_1 rfl rfl rfl rfl, bc_scalar_apply,
    constant_apply, Ideal.ofBits_zero_f32]
  refine congrArg (fun t => x (ix2 n k) + (0 + t)) (Finset.sum_congr rfl fun e _ => ?_)
  exact gather_rows_apply (by norm_num) gather_S10000x16_S160000x1_S160000x16_1_0_n_n_0_1_116 rfl rfl rfl rfl rfl rfl x src e k

theorem refAgg512_apply (x : FVec Ideal S10000x512 .f32) (src dst : IVec S160000x1 32) (n : Fin 10000) (k : Fin 512) :
    refAgg512 x src dst (ix2 n k)
      = x (ix2 n k) + (0 + ∑ e ∈ hits dst n.val, x (ix2 (gatherRow (by norm_num : 0 < 10000) src e) k)) := by
  unfold refAgg512
  rw [addf_apply, scatterAdd_rows_apply scatter_S10000x512_S160000x1_S160000x512_1_0_0_1 rfl rfl rfl rfl, bc_scalar_apply,
    constant_apply, Ideal.ofBits_zero_f32]
  refine congrArg (fun t => x (ix2 n k) + (0 + t)) (Finset.sum_congr rfl fun e _ => ?_)
  exact gather_rows_apply (by norm_num) gather_S10000x512_S160000x1_S160000x512_1_0_n_n_0_1_1512 rfl rfl rfl rfl rfl rfl x src e k

/-- The aggregation of a real array is a real array, whatever the index arrays hold. -/
theorem refAgg16_real (x : FVec Ideal S10000x16 .f32) (src dst : IVec S160000x1 32)
    (hx : Cert.Gin.IsReal2 fun r l => x (ix2 r l)) :
    Cert.Gin.IsReal2 fun r l => refAgg16 x src dst (ix2 r l) := by
  intro n k
  show IsReal (refAgg16 x src dst (ix2 n k))
  rw [refAgg16_apply]
  exact IsReal.add (hx n k) (IsReal.add isReal_zero (IsReal.sum _ _ fun e _ => hx _ k))

theorem refAgg512_real (x : FVec Ideal S10000x512 .f32) (src dst : IVec S160000x1 32)
    (hx : Cert.Gin.IsReal2 fun r l => x (ix2 r l)) :
    Cert.Gin.IsReal2 fun r l => refAgg512 x src dst (ix2 r l) := by
  intro n k
  show IsReal (refAgg512 x src dst (ix2 n k))
  rw [refAgg512_apply]
  exact IsReal.add (hx n k) (IsReal.add isReal_zero (IsReal.sum _ _ fun e _ => hx _ k))

end Cert.Gin.Ref

end
-- ==== Proof.Ref.Layer.lean ====
/-
  One layer of the reference as a function of its input array, the two index arrays and the layer's parameters:
  the batch normalisation of the perceptron of the aggregation. Read at an index, for real inputs and parameters,
  it is the specification's normalisation of the specification's perceptron of the aggregated array's coordinates;
  and its output is again an array of reals. The pooling and the head follow as the reference prints them.
-/
import proofs.«100381_j2018634629568_1_alg».proof.Proof.Ref.Norm
import proofs.«100381_j2018634629568_1_alg».proof.Proof.Ref.Mlp
import proofs.«100381_j2018634629568_1_alg».proof.Proof.Ref.Head
import proofs.«100381_j2018634629568_1_alg».proof.Proof.Ref.Reals

noncomputable section

namespace Cert.Gin.Ref

open Idealize.ShloMosaic Idealize.ShloMosaic.ValueIdx Cert.ReferenceIdeal Cert.ReferenceIdeal.Facts₀

variable [Facts₀]

/-- The coordinates of a two-dimensional array. -/
abbrev co2 {n0 n1 : Nat} (x : FVec Ideal ⟨2, ![n0, n1]⟩ .f32) : Fin n0 → Fin n1 → EReal := fun r l => x (ix2 r l)
/-- The coordinates of a one-dimensional array. -/
abbrev co1' {n : Nat} (v : FVec Ideal ⟨1, ![n]⟩ .f32) : Fin n → EReal := fun l => v (ix1 l)

/-- The first layer. -/
def refLayer16 (x : FVec Ideal S10000x16 .f32) (src dst : IVec S160000x1 32) (Wa : FVec Ideal S16x512 .f32)
    (ba : FVec Ideal S512 .f32) (Wb : FVec Ideal S512x512 .f32) (bb g b : FVec Ideal S512 .f32) :
    FVec Ideal S10000x512 .f32 :=
  refNorm (refMlp16 (refAgg16 x src dst) Wa ba Wb bb) g b

/-- A later layer. -/
def refLayer512 (h : FVec Ideal S10000x512 .f32) (src dst : IVec S160000x1 32) (Wa : FVec Ideal S512x512 .f32)
    (ba : FVec Ideal S512 .f32) (Wb : FVec Ideal S512x512 .f32) (bb g b : FVec Ideal S512 .f32) :
    FVec Ideal S10000x512 .f32 :=
  refNorm (refMlp512 (refAgg512 h src dst) Wa ba Wb bb) g b

/-- The perceptron's output, as coordinates, is the specification's perceptron of the aggregated coordinates. -/
theorem co_refMlp16 (x : FVec Ideal S10000x16 .f32) (Wa : FVec Ideal S16x512 .f32)
    (ba : FVec Ideal S512 .f32) (Wb : FVec Ideal S512x512 .f32) (bb : FVec Ideal S512 .f32) :
    co (refMlp16 x Wa ba Wb bb) = Cert.Gin.mlp (co2 x) (co2 Wa) (co1' ba) (co2 Wb) (co1' bb) :=
  funext fun r => funext fun j => refMlp16_apply x Wa ba Wb bb r j

theorem co_refMlp512 (x : FVec Ideal S10000x512 .f32) (Wa : FVec Ideal S512x512 .f32)
    (ba : FVec Ideal S512 .f32) (Wb : FVec Ideal S512x512 .f32) (bb : FVec Ideal S512 .f32) :
    co (refMlp512 x Wa ba Wb bb) = Cert.Gin.mlp (co2 x) (co2 Wa) (co1' ba) (co2 Wb) (co1' bb) :=
  funext fun r => funext fun j => refMlp512_apply x Wa ba Wb bb r j

/-- THE FIRST LAYER READ AT (r, j), for real input and perceptron parameters. -/
theorem refLayer16_apply (x : FVec Ideal S10000x16 .f32) (src dst : IVec S160000x1 32) (Wa : FVec Ideal S16x512 .f32)
    (ba : FVec Ideal S512 .f32) (Wb : FVec Ideal S512x512 .f32) (bb g b : FVec Ideal S512 .f32)
    (hx : Cert.Gin.IsReal2 (co2 x)) (hWa : Cert.Gin.IsReal2 (co2 Wa)) (hba : Cert.Gin.IsReal1 (co1' ba))
    (hWb : Cert.Gin.IsReal2 (co2 Wb)) (hbb : Cert.Gin.IsReal1 (co1' bb)) (r : Fin 10000) (j : Fin 512) :
    refLayer16 x src dst Wa ba Wb bb g b (ix2 r j)
      = Cert.Gin.normalize (Cert.Gin.mlp (co2 (refAgg16 x src dst)) (co2 Wa) (co1' ba) (co2 Wb) (co1' bb))
          (co1' g) (co1' b) r j := by
  unfold refLayer16
  have hreal : Cert.Gin.IsReal2 (co (refMlp16 (refAgg16 x src dst) Wa ba Wb bb)) := by
    rw [co_refMlp16]
    exact Cert.Gin.mlp_real _ _ _ _ _ (refAgg16_real x src dst hx) hWa hba hWb hbb
  rw [refNorm_apply _ g b hreal r j, co_refMlp16]

/-- The first layer's output is real, for real input and parameters. -/
theorem refLayer16_real (x : FVec Ideal S10000x16 .f32) (src dst : IVec S160000x1 32) (Wa : FVec Ideal S16x512 .f32)
    (ba : FVec Ideal S512 .f32) (Wb : FVec Ideal S512x512 .f32) (bb g b : FVec Ideal S512 .f32)
    (hx : Cert.Gin.IsReal2 (co2 x)) (hWa : Cert.Gin.IsReal2 (co2 Wa)) (hba : Cert.Gin.IsReal1 (co1' ba))
    (hWb : Cert.Gin.IsReal2 (co2 Wb)) (hbb : Cert.Gin.IsReal1 (co1' bb))
    (hg : Cert.Gin.IsReal1 (co1' g)) (hb : Cert.Gin.IsReal1 (co1' b)) :
    Cert.Gin.IsReal2 (co2 (refLayer16 x src dst Wa ba Wb bb g b)) := by
  intro r j
  show ∃ y : ℝ, refLayer16 x src dst Wa ba Wb bb g b (ix2 r j) = (y : EReal)
  rw [refLayer16_apply x src dst Wa ba Wb bb g b hx hWa hba hWb hbb r j]
  exact Cert.Gin.normalize_real _ _ _
    (Cert.Gin.mlp_real _ _ _ _ _ (refAgg16_real x src dst hx) hWa hba hWb hbb) hg hb r j

/-- A LATER LAYER READ AT (r, j), for real input and perceptron parameters. -/
theorem refLayer512_apply (h : FVec Ideal S10000x512 .f32) (src dst : IVec S160000x1 32) (Wa : FVec Ideal S512x512 .f32)
    (ba : FVec Ideal S512 .f32) (Wb : FVec Ideal S512x512 .f32) (bb g b : FVec Ideal S512 .f32)
    (hx : Cert.Gin.IsReal2 (co2 h)) (hWa : Cert.Gin.IsReal2 (co2 Wa)) (hba : Cert.Gin.IsReal1 (co1' ba))
    (hWb : Cert.Gin.IsReal2 (co2 Wb)) (hbb : Cert.Gin.IsReal1 (co1' bb)) (r : Fin 10000) (j : Fin 512) :
    refLayer512 h src dst Wa ba Wb bb g b (ix2 r j)
      = Cert.Gin.normalize (Cert.Gin.mlp (co2 (refAgg512 h src dst)) (co2 Wa) (co1' ba) (co2 Wb) (co1' bb))
          (co1' g) (co1' b) r j := by
  unfold refLayer512
  have hreal : Cert.Gin.IsReal2 (co (refMlp512 (refAgg512 h src dst) Wa ba Wb bb)) := by
    rw [co_refMlp512]
    exact Cert.Gin.mlp_real _ _ _ _ _ (refAgg512_real h src dst hx) hWa hba hWb hbb
  rw [refNorm_apply _ g b hreal r j, co_refMlp512]

/-- A later layer's output is real, for real input and parameters. -/
theorem refLayer512_real (h : FVec Ideal S10000x512 .f32) (src dst : IVec S160000x1 32) (Wa : FVec Ideal S512x512 .f32)
    (ba : FVec Ideal S512 .f32) (Wb : FVec Ideal S512x512 .f32) (bb g b : FVec Ideal S512 .f32)
    (hx : Cert.Gin.IsReal2 (co2 h)) (hWa : Cert.Gin.IsReal2 (co2 Wa)) (hba : Cert.Gin.IsReal1 (co1' ba))
    (hWb : Cert.Gin.IsReal2 (co2 Wb)) (hbb : Cert.Gin.IsReal1 (co1' bb))
    (hg : Cert.Gin.IsReal1 (co1' g)) (hb : Cert.Gin.IsReal1 (co1' b)) :
    Cert.Gin.IsReal2 (co2 (refLayer512 h src dst Wa ba Wb bb g b)) := by
  intro r j
  show ∃ y : ℝ, refLayer512 h src dst Wa ba Wb bb g b (ix2 r j) = (y : EReal)
  rw [refLayer512_apply h src dst Wa ba Wb bb g b hx hWa hba hWb hbb r j]
  exact Cert.Gin.normalize_real _ _ _
    (Cert.Gin.mlp_real _ _ _ _ _ (refAgg512_real h src dst hx) hWa hba hWb hbb) hg hb r j

/-- The reference's mean pooling over the graphs: the segment sums of the rows, divided by the segment counts
    (at least 1) broadcast over the columns. -/
def refPool (h : FVec Ideal S10000x512 .f32) (batch : IVec S10000 32) : FVec Ideal S64x512 .f32 :=
  Host.divf (F := Ideal)
    (Host.scatterAdd (F := Ideal) scatter_S64x512_S10000x1_S10000x512_1_0_0_1
      (broadcastInDim S64x512 ![] bcast_S_S64x512 (constant (F := Ideal) S_ .f32 0x00000000#32))
      (broadcastInDim S10000x1 ![0] bcast_S10000_S10000x1_0 batch) h)
    (broadcastInDim S64x512 ![0, 1] bcast_S64x1_S64x512_0_1 (broadcastInDim S64x1 ![0] bcast_S64_S64x1_0
      (maximumf
        (Host.scatterAdd (F := Ideal) scatter_S64_S10000x1_S10000_n_0_0_1
          (broadcastInDim S64 ![] bcast_S_S64 (constant (F := Ideal) S_ .f32 0x00000000#32))
          (broadcastInDim S10000x1 ![0] bcast_S10000_S10000x1_0 batch)
          (broadcastInDim S10000 ![] bcast_S_S10000 (constant (F := Ideal) S_ .f32 0x3F800000#32)))
        (broadcastInDim S64 ![] bcast_S_S64 (constant (F := Ideal) S_ .f32 0x3F800000#32)))))

end Cert.Gin.Ref

end
-- ==== Proof.Ref.CutsReal.lean ====
/-
  Reals through the parameter cuts, and a layer determined by its entries: a row or a matrix cut out of a stack of
  reals is real; an array whose every entry is the specification's layer formula over the aggregated input is the
  reference's layer array.
-/
import proofs.«100381_j2018634629568_1_alg».proof.Proof.Ref.Cuts
import proofs.«100381_j2018634629568_1_alg».proof.Proof.Ref.Layer

noncomputable section

namespace Cert.Gin.Ref

open Idealize.ShloMosaic Idealize.ShloMosaic.ValueIdx Cert.ReferenceIdeal Cert.ReferenceIdeal.Facts₀

variable [Facts₀]

/-- A row cut out of a real stack of vectors is real. -/
theorem cutRow_real {n : Nat} (k : Nat) (hk : k < n) (G : FVec Ideal ⟨2, ![n, 512]⟩ .f32)
    (h : (⟨2, ![n, 512]⟩ : Shape).Slices ![k, 0] S1x512) (hG : ∀ i, ∃ y : ℝ, G i = (y : EReal)) :
    Cert.Gin.IsReal1 (co1' (cutRow (F := Ideal) k G h)) := by
  intro j
  show ∃ y : ℝ, cutRow (F := Ideal) k G h (ix1 j) = (y : EReal)
  rw [cutRow_apply k hk]; exact hG _

/-- A matrix cut out of a real stack of matrices is real. -/
theorem cutMat_real (k : Nat) (hk : k < 4) (W : FVec Ideal S4x512x512 .f32) (h : S4x512x512.Slices ![k, 0, 0] S1x512x512)
    (hW : ∀ i, ∃ y : ℝ, W i = (y : EReal)) : Cert.Gin.IsReal2 (co2 (cutMat (F := Ideal) k W h)) := by
  intro i j
  show ∃ y : ℝ, cutMat (F := Ideal) k W h (ix2 i j) = (y : EReal)
  rw [cutMat_apply k hk]; exact hW _

/-- An array of reals, as coordinates. -/
theorem co2_real {n0 n1 : Nat} (x : FVec Ideal ⟨2, ![n0, n1]⟩ .f32) (hx : ∀ i, ∃ y : ℝ, x i = (y : EReal)) :
    Cert.Gin.IsReal2 (co2 x) := fun r l => hx (ix2 r l)
theorem co1_real {n : Nat} (v : FVec Ideal ⟨1, ![n]⟩ .f32) (hv : ∀ i, ∃ y : ℝ, v i = (y : EReal)) :
    Cert.Gin.IsReal1 (co1' v) := fun l => hv (ix1 l)

/-- An array equal entry by entry to the first layer's formula is the reference's first-layer array. -/
theorem refLayer16_unique (x : FVec Ideal S10000x16 .f32) (src dst : IVec S160000x1 32) (Wa : FVec Ideal S16x512 .f32)
    (ba : FVec Ideal S512 .f32) (Wb : FVec Ideal S512x512 .f32) (bb g b : FVec Ideal S512 .f32)
    (hx : Cert.Gin.IsReal2 (co2 x)) (hWa : Cert.Gin.IsReal2 (co2 Wa)) (hba : Cert.Gin.IsReal1 (co1' ba))
    (hWb : Cert.Gin.IsReal2 (co2 Wb)) (hbb : Cert.Gin.IsReal1 (co1' bb))
    (out : FVec Ideal S10000x512 .f32)
    (hout : ∀ (r : Fin 10000) (j : Fin 512), out (ix2 r j)
      = Cert.Gin.normalize (Cert.Gin.mlp (co2 (refAgg16 x src dst)) (co2 Wa) (co1' ba) (co2 Wb) (co1' bb))
          (co1' g) (co1' b) r j) :
    out = refLayer16 x src dst Wa ba Wb bb g b := by
  funext i
  rw [eq_ix2 i]
  exact (hout _ _).trans (refLayer16_apply x src dst Wa ba Wb bb g b hx hWa hba hWb hbb _ _).symm

/-- An array equal entry by entry to a later layer's formula is the reference's layer array. -/
theorem refLayer512_unique (h : FVec Ideal S10000x512 .f32) (src dst : IVec S160000x1 32) (Wa : FVec Ideal S512x512 .f32)
    (ba : FVec Ideal S512 .f32) (Wb : FVec Ideal S512x512 .f32) (bb g b : FVec Ideal S512 .f32)
    (hx : Cert.Gin.IsReal2 (co2 h)) (hWa : Cert.Gin.IsReal2 (co2 Wa)) (hba : Cert.Gin.IsReal1 (co1' ba))
    (hWb : Cert.Gin.IsReal2 (co2 Wb)) (hbb : Cert.Gin.IsReal1 (co1' bb))
    (out : FVec Ideal S10000x512 .f32)
    (hout : ∀ (r : Fin 10000) (j : Fin 512), out (ix2 r j)
      = Cert.Gin.normalize (Cert.Gin.mlp (co2 (refAgg512 h src dst)) (co2 Wa) (co1' ba) (co2 Wb) (co1' bb))
          (co1' g) (co1' b) r j) :
    out = refLayer512 h src dst Wa ba Wb bb g b := by
  funext i
  rw [eq_ix2 i]
  exact (hout _ _).trans (refLayer512_apply h src dst Wa ba Wb bb g b hx hWa hba hWb hbb _ _).symm

/-- An array equal entry by entry to the head's formula is the reference's head array. -/
theorem refHead_unique (p : FVec Ideal S64x512 .f32) (W1 : FVec Ideal S512x512 .f32) (b1 : FVec Ideal S512 .f32)
    (W2 : FVec Ideal S512x18 .f32) (b2 : FVec Ideal S18 .f32) (out : FVec Ideal S64x18 .f32)
    (hout : ∀ (g : Fin 64) (o : Fin 18), out (ix2 g o)
      = Cert.Gin.head (co2 p) (co2 W1) (co1' b1) (co2 W2) (co1' b2) g o) :
    out = refHead p W1 b1 W2 b2 := by
  funext i
  rw [eq_ix2 i]
  exact (hout _ _).trans (refHead_apply p W1 b1 W2 b2 _ _).symm

end Cert.Gin.Ref

end
-- ==== Proof.Ref.Closed.lean ====
/-
  The whole network as ONE closed function of its seventeen argument arrays, at the ideal instance: five layers
  (aggregate over the edges, a two-layer perceptron with rectifiers, batch normalisation), mean pooling per graph, and
  the head. Both programs' results are compared with this one function.
-/
import proofs.«100381_j2018634629568_1_alg».proof.Proof.Ref.Layer
import proofs.«100381_j2018634629568_1_alg».proof.Proof.Ref.Cuts

noncomputable section

namespace Cert.Gin.Ref

open Idealize.ShloMosaic Idealize.ShloMosaic.ValueIdx Cert.ReferenceIdeal Cert.ReferenceIdeal.Facts₀

variable [Facts₀]

/-- Layer L + 1 (L = 1 … 4) from layer L's output: the L-th matrices and bias rows of the stacked weights, row L of the
    stacked scale and shift. -/
def laterLayer (L : Nat) (hW : S4x512x512.Slices ![L - 1, 0, 0] S1x512x512) (hb : S4x512.Slices ![L - 1, 0] S1x512)
    (hg : S5x512.Slices ![L, 0] S1x512)
    (h : FVec Ideal S10000x512 .f32) (e : IVec S2x160000 32) (Wa : FVec Ideal S4x512x512 .f32) (ba : FVec Ideal S4x512 .f32)
    (Wb : FVec Ideal S4x512x512 .f32) (bb : FVec Ideal S4x512 .f32) (G B : FVec Ideal S5x512 .f32) : FVec Ideal S10000x512 .f32 :=
  refLayer512 h (srcIdx (edgeSrc e)) (dstIdx (edgeDst e)) (cutMat (L - 1) Wa hW) (cutRow (L - 1) ba hb) (cutMat (L - 1) Wb hW) (cutRow (L - 1) bb hb)
    (cutRow L G hg) (cutRow L B hg)

/-- The network's result from the seventeen argument arrays. -/
def closedOut (x : FVec Ideal S10000x16 .f32) (e : IVec S2x160000 32) (batch : IVec S10000 32)
    (W1a : FVec Ideal S16x512 .f32) (b1a : FVec Ideal S512 .f32) (W1b : FVec Ideal S512x512 .f32) (b1b : FVec Ideal S512 .f32)
    (Wa : FVec Ideal S4x512x512 .f32) (ba : FVec Ideal S4x512 .f32) (Wb : FVec Ideal S4x512x512 .f32) (bb : FVec Ideal S4x512 .f32)
    (G B : FVec Ideal S5x512 .f32) (Wfc : FVec Ideal S512x512 .f32) (bfc : FVec Ideal S512 .f32)
    (Wlog : FVec Ideal S512x18 .f32) (blog : FVec Ideal S18 .f32) : FVec Ideal S64x18 .f32 :=
  let h1 := refLayer16 x (srcIdx (edgeSrc e)) (dstIdx (edgeDst e)) W1a b1a W1b b1b (cutRow 0 G slices_S5x512_S1x512_0_0) (cutRow 0 B slices_S5x512_S1x512_0_0)
  let h2 := laterLayer 1 slices_S4x512x512_S1x512x512_0_0_0 slices_S4x512_S1x512_0_0 slices_S5x512_S1x512_1_0 h1 e Wa ba Wb bb G B
  let h3 := laterLayer 2 slices_S4x512x512_S1x512x512_1_0_0 slices_S4x512_S1x512_1_0 slices_S5x512_S1x512_2_0 h2 e Wa ba Wb bb G B
  let h4 := laterLayer 3 slices_S4x512x512_S1x512x512_2_0_0 slices_S4x512_S1x512_2_0 slices_S5x512_S1x512_3_0 h3 e Wa ba Wb bb G B
  let h5 := laterLayer 4 slices_S4x512x512_S1x512x512_3_0_0 slices_S4x512_S1x512_3_0 slices_S5x512_S1x512_4_0 h4 e Wa ba Wb bb G B
  refHead (refPool h5 batch) Wfc bfc Wlog blog

end Cert.Gin.Ref

end
-- ==== Proof.KA.Glue.lean ====
/-
  The vocabulary of the composed kernel side: the seventeen argument arrays at launch, the five layers' arrays as the
  shared closed function builds them, and the glue of one layer over abstract arrays (a normalisation kernel's output,
  given the perceptron array, its column sums and sums of squares and the scale and shift rows, is the normalisation of
  the perceptron array).
-/
import proofs.«100381_j2018634629568_1_alg».proof.Proof.KI.Chain
import proofs.«100381_j2018634629568_1_alg».proof.Proof.Gen.ReferenceIdeal
import proofs.«100381_j2018634629568_1_alg».proof.Proof.Ref.CutsReal
import proofs.«100381_j2018634629568_1_alg».proof.Proof.Ref.Closed

set_option maxRecDepth 16384

noncomputable section

namespace Cert.Gin.KerWhole

open Idealize.ShloMosaic Idealize.ShloMosaic.TcCoe Idealize.SL.Sem Idealize.ShloMosaic.ValueIdx
open Cert.KernelIdeal Cert.KernelIdeal.Gen Cert.Gin.Ref

variable (m : (ℓ : Loc nD τ sig) → Buf (Elt Ideal) ℓ) (c : Dev nD)

/-- Argument 0 at launch. -/
abbrev A0 : FVec Ideal Cert.ReferenceIdeal.S10000x16 .f32 := X0 m c (Proc.devRef .tc main_arg0)
/-- Argument 1 at launch. -/
abbrev A1 : IVec Cert.ReferenceIdeal.S2x160000 32 := X0 m c (Proc.devRef .tc main_arg1)
/-- Argument 2 at launch. -/
abbrev A2 : IVec Cert.ReferenceIdeal.S10000 32 := X0 m c (Proc.devRef .tc main_arg2)
/-- Argument 3 at launch. -/
abbrev A3 : FVec Ideal Cert.ReferenceIdeal.S16x512 .f32 := X0 m c (Proc.devRef .tc main_arg3)
/-- Argument 4 at launch. -/
abbrev A4 : FVec Ideal Cert.ReferenceIdeal.S512 .f32 := X0 m c (Proc.devRef .tc main_arg4)
/-- Argument 5 at launch. -/
abbrev A5 : FVec Ideal Cert.ReferenceIdeal.S512x512 .f32 := X0 m c (Proc.devRef .tc main_arg5)
/-- Argument 6 at launch. -/
abbrev A6 : FVec Ideal Cert.ReferenceIdeal.S512 .f32 := X0 m c (Proc.devRef .tc main_arg6)
/-- Argument 7 at launch. -/
abbrev A7 : FVec Ideal Cert.ReferenceIdeal.S4x512x512 .f32 := X0 m c (Proc.devRef .tc main_arg7)
/-- Argument 8 at launch. -/
abbrev A8 : FVec Ideal Cert.ReferenceIdeal.S4x512 .f32 := X0 m c (Proc.devRef .tc main_arg8)
/-- Argument 9 at launch. -/
abbrev A9 : FVec Ideal Cert.ReferenceIdeal.S4x512x512 .f32 := X0 m c (Proc.devRef .tc main_arg9)
/-- Argument 10 at launch. -/
abbrev A10 : FVec Ideal Cert.ReferenceIdeal.S4x512 .f32 := X0 m c (Proc.devRef .tc main_arg10)
/-- Argument 11 at launch. -/
abbrev A11 : FVec Ideal Cert.ReferenceIdeal.S5x512 .f32 := X0 m c (Proc.devRef .tc main_arg11)
/-- Argument 12 at launch. -/
abbrev A12 : FVec Ideal Cert.ReferenceIdeal.S5x512 .f32 := X0 m c (Proc.devRef .tc main_arg12)
/-- Argument 13 at launch. -/
abbrev A13 : FVec Ideal Cert.ReferenceIdeal.S512x512 .f32 := X0 m c (Proc.devRef .tc main_arg13)
/-- Argument 14 at launch. -/
abbrev A14 : FVec Ideal Cert.ReferenceIdeal.S512 .f32 := X0 m c (Proc.devRef .tc main_arg14)
/-- Argument 15 at launch. -/
abbrev A15 : FVec Ideal Cert.ReferenceIdeal.S512x18 .f32 := X0 m c (Proc.devRef .tc main_arg15)
/-- Argument 16 at launch. -/
abbrev A16 : FVec Ideal Cert.ReferenceIdeal.S18 .f32 := X0 m c (Proc.devRef .tc main_arg16)

/-- The gather's and the scatter's index columns. -/
abbrev srcI : IVec Cert.ReferenceIdeal.S160000x1 32 := srcIdx (edgeSrc (A1 m c))
abbrev dstI : IVec Cert.ReferenceIdeal.S160000x1 32 := dstIdx (edgeDst (A1 m c))

/-- The five layers' arrays. -/
abbrev H1 : FVec Ideal Cert.ReferenceIdeal.S10000x512 .f32 :=
  refLayer16 (A0 m c) (srcI m c) (dstI m c) (A3 m c) (A4 m c) (A5 m c) (A6 m c)
    (cutRow (F := Ideal) 0 (A11 m c) Cert.ReferenceIdeal.Gen.slices_S5x512_S1x512_0_0)
    (cutRow (F := Ideal) 0 (A12 m c) Cert.ReferenceIdeal.Gen.slices_S5x512_S1x512_0_0)
abbrev H2 : FVec Ideal Cert.ReferenceIdeal.S10000x512 .f32 :=
  laterLayer 1 Cert.ReferenceIdeal.Gen.slices_S4x512x512_S1x512x512_0_0_0 Cert.ReferenceIdeal.Gen.slices_S4x512_S1x512_0_0 Cert.ReferenceIdeal.Gen.slices_S5x512_S1x512_1_0
    (H1 m c) (A1 m c) (A7 m c) (A8 m c) (A9 m c) (A10 m c) (A11 m c) (A12 m c)
abbrev H3 : FVec Ideal Cert.ReferenceIdeal.S10000x512 .f32 :=
  laterLayer 2 Cert.ReferenceIdeal.Gen.slices_S4x512x512_S1x512x512_1_0_0 Cert.ReferenceIdeal.Gen.slices_S4x512_S1x512_1_0 Cert.ReferenceIdeal.Gen.slices_S5x512_S1x512_2_0
    (H2 m c) (A1 m c) (A7 m c) (A8 m c) (A9 m c) (A10 m c) (A11 m c) (A12 m c)
abbrev H4 : FVec Ideal Cert.ReferenceIdeal.S10000x512 .f32 :=
  laterLayer 3 Cert.ReferenceIdeal.Gen.slices_S4x512x512_S1x512x512_2_0_0 Cert.ReferenceIdeal.Gen.slices_S4x512_S1x512_2_0 Cert.ReferenceIdeal.Gen.slices_S5x512_S1x512_3_0
    (H3 m c) (A1 m c) (A7 m c) (A8 m c) (A9 m c) (A10 m c) (A11 m c) (A12 m c)
abbrev H5 : FVec Ideal Cert.ReferenceIdeal.S10000x512 .f32 :=
  laterLayer 4 Cert.ReferenceIdeal.Gen.slices_S4x512x512_S1x512x512_3_0_0 Cert.ReferenceIdeal.Gen.slices_S4x512_S1x512_3_0 Cert.ReferenceIdeal.Gen.slices_S5x512_S1x512_4_0
    (H4 m c) (A1 m c) (A7 m c) (A8 m c) (A9 m c) (A10 m c) (A11 m c) (A12 m c)

omit m c in
/-- The glue of one layer, over abstract arrays. -/
theorem layer_glue (out a : S10000x512.Idx → EReal) (s q g b : S1x512.Idx → EReal) (M : Fin 10000 → Fin 512 → EReal)
    (gv bv : FVec Ideal Cert.ReferenceIdeal.S512 .f32)
    (hnorm : ∀ (r : Fin 10000) (j : Fin 512), out (ix2 r j)
      = Cert.Gin.normFrom (fun r l => a (ix2 r l)) (fun l => s (ix2 0 l)) (fun l => q (ix2 0 l))
          (fun l => g (ix2 0 l)) (fun l => b (ix2 0 l)) r j)
    (ha : ∀ r l, a (ix2 r l) = M r l) (hs : ∀ l, s (ix2 0 l) = Cert.Gin.colSum M l)
    (hq : ∀ l, q (ix2 0 l) = Cert.Gin.colSumSq M l)
    (hg : g = rowOf (F := Ideal) gv) (hb : b = rowOf (F := Ideal) bv) (r : Fin 10000) (j : Fin 512) :
    out (ix2 r j) = Cert.Gin.normalize M (co1' gv) (co1' bv) r j := by
  subst hg hb
  have e0 : (fun r l => a (ix2 r l)) = M := funext fun r => funext fun l => ha r l
  have e1 : (fun l => s (ix2 0 l)) = Cert.Gin.colSum M := funext hs
  have e2 : (fun l => q (ix2 0 l)) = Cert.Gin.colSumSq M := funext hq
  have e3 : (fun l => rowOf (F := Ideal) gv (ix2 0 l)) = co1' gv := funext fun l => rowOf_apply gv 0 l
  have e4 : (fun l => rowOf (F := Ideal) bv (ix2 0 l)) = co1' bv := funext fun l => rowOf_apply bv 0 l
  rw [hnorm r j, e0, e1, e2, e3, e4, ← Cert.Gin.normalize_eq_normFrom]

omit m c in
/-- The aggregation respects equal operands. -/
theorem agg512_congr {h h' : FVec Ideal Cert.ReferenceIdeal.S10000x512 .f32} {s s' d d' : IVec Cert.ReferenceIdeal.S160000 32}
    (hh : h = h') (hs : s = s') (hd : d = d') :
    refAgg512 h (srcIdx s) (dstIdx d) = refAgg512 h' (srcIdx s') (dstIdx d') := by
  subst hh hs hd; rfl

omit m c in
/-- The glue of the head, over abstract arrays. -/
theorem head_glue (out : S64x18.Idx → EReal) (p : S64x512.Idx → EReal) (W1 : S512x512.Idx → EReal) (b1 : S1x512.Idx → EReal)
    (W2 : S512x18.Idx → EReal) (b2 : S1x18.Idx → EReal)
    (P : FVec Ideal Cert.ReferenceIdeal.S64x512 .f32) (V1 : FVec Ideal Cert.ReferenceIdeal.S512x512 .f32) (c1 : FVec Ideal Cert.ReferenceIdeal.S512 .f32)
    (V2 : FVec Ideal Cert.ReferenceIdeal.S512x18 .f32) (c2 : FVec Ideal Cert.ReferenceIdeal.S18 .f32)
    (hhead : ∀ (g : Fin 64) (o : Fin 18), out (ix2 g o)
      = Cert.Gin.head (fun g l => p (ix2 g l)) (fun l k => W1 (ix2 l k)) (fun k => b1 (ix2 0 k))
          (fun k o => W2 (ix2 k o)) (fun o => b2 (ix2 0 o)) g o)
    (hp : p = P) (hW1 : W1 = V1) (hb1 : b1 = rowOf (F := Ideal) c1) (hW2 : W2 = V2) (hb2 : b2 = rowOf18 (F := Ideal) c2)
    (g : Fin 64) (o : Fin 18) :
    out (ix2 g o) = Cert.Gin.head (co2 P) (co2 V1) (co1' c1) (co2 V2) (co1' c2) g o := by
  subst hp hW1 hb1 hW2 hb2
  have e3 : (fun k => rowOf (F := Ideal) c1 (ix2 0 k)) = co1' c1 := funext fun l => rowOf_apply c1 0 l
  have e4 : (fun o => rowOf18 (F := Ideal) c2 (ix2 0 o)) = co1' c2 := funext fun l => rowOf18_apply c2 0 l
  rw [hhead g o, e3, e4]

end Cert.Gin.KerWhole

end
-- ==== Proof.KA.Keep.lean ====
/-
  Buffers carried along the chain of contents: a buffer no item writes holds, at every stage, what it held at launch;
  the two index vectors, written by the first host stretch only, hold at every later stage what that stretch left.
-/
import proofs.«100381_j2018634629568_1_alg».proof.Proof.KI.Chain
import Idealize.ShloMosaic.PureOps.Ideal

set_option maxRecDepth 16384

noncomputable section

namespace Cert.Gin.KerWhole

open Idealize.ShloMosaic Idealize.ShloMosaic.TcCoe Idealize.SL.Sem
open Cert.KernelIdeal Cert.KernelIdeal.Gen

variable (m : (ℓ : Loc nD τ sig) → Buf (Elt Ideal) ℓ) (c : Dev nD)

/-- A buffer no item writes, at stage 1. -/
theorem X1_launch (r : Ref sig .tc) (h : r ∉ writtenRefs) :
    X1 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X1_keep m c r h1)

/-- A buffer no item writes, at stage 2. -/
theorem X2_launch (r : Ref sig .tc) (h : r ∉ writtenRefs) :
    X2 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X2_keep m c r h2).trans <| (X1_keep m c r h1)

/-- A buffer no item writes, at stage 3. -/
theorem X3_launch (r : Ref sig .tc) (h : r ∉ writtenRefs) :
    X3 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X3_keep m c r h3).trans <| (X2_keep m c r h2).trans <| (X1_keep m c r h1)

/-- A buffer no item writes, at stage 4. -/
theorem X4_launch (r : Ref sig .tc) (h : r ∉ writtenRefs) :
    X4 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X4_keep m c r h4).trans <| (X3_keep m c r h3).trans <| (X2_keep m c r h2).trans <| (X1_keep m c r h1)

/-- A buffer no item writes, at stage 5. -/
theorem X5_launch (r : Ref sig .tc) (h : r ∉ writtenRefs) :
    X5 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X5_keep m c r h5).trans <| (X4_keep m c r h4).trans <| (X3_keep m c r h3).trans <| (X2_keep m c r h2).trans <| (X1_keep m c r h1)

/-- A buffer no item writes, at stage 6. -/
theorem X6_launch (r : Ref sig .tc) (h : r ∉ writtenRefs) :
    X6 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X6_keep m c r h6).trans <| (X5_keep m c r h5).trans <| (X4_keep m c r h4).trans <| (X3_keep m c r h3).trans <| (X2_keep m c r h2).trans <| (X1_keep m c r h1)

/-- A buffer no item writes, at stage 7. -/
theorem X7_launch (r : Ref sig .tc) (h : r ∉ writtenRefs) :
    X7 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 8. -/
theorem X8_launch (r : Ref sig .tc) (h : r ∉ writtenRefs) :
    X8 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 9. -/
theorem X9_launch (r : Ref sig .tc) (h : r ∉ writtenRefs) :
    X9 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 10. -/
theorem X10_launch (r : Ref sig .tc) (h : r ∉ writtenRefs) :
    X10 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 11. -/
theorem X11_launch (r : Ref sig .tc) (h : r ∉ writtenRefs) :
    X11 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 12. -/
theorem X12_launch (r : Ref sig .tc) (h : r ∉ writtenRefs) :
    X12 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 13. -/
theorem X13_launch (r : Ref sig .tc) (h : r ∉ writtenRefs) :
    X13 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 14. -/
theorem X14_launch (r : Ref sig .tc) (h : r ∉ writtenRefs) :
    X14 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 15. -/
theorem X15_launch (r : Ref sig .tc) (h : r ∉ writtenRefs) :
    X15 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X15_keep m c r h15).trans <| (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 16. -/
theorem X16_launch (r : Ref sig .tc) (h : r ∉ writtenRefs) :
    X16 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X16_keep m c r h16).trans <| (X15_keep m c r h15).trans <| (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 17. -/
theorem X17_launch (r : Ref sig .tc) (h : r ∉ writtenRefs) :
    X17 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X17_keep m c r h17).trans <| (X16_keep m c r h16).trans <| (X15_keep m c r h15).trans <| (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 18. -/
theorem X18_launch (r : Ref sig .tc) (h : r ∉ writtenRefs) :
    X18 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X18_keep m c r h18).trans <| (X17_keep m c r h17).trans <| (X16_keep m c r h16).trans <| (X15_keep m c r h15).trans <| (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 19. -/
theorem X19_launch (r : Ref sig .tc) (h : r ∉ writtenRefs) :
    X19 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X19_keep m c r h19).trans <| (X18_keep m c r h18).trans <| (X17_keep m c r h17).trans <| (X16_keep m c r h16).trans <| (X15_keep m c r h15).trans <| (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 20. -/
theorem X20_launch (r : Ref sig .tc) (h : r ∉ writtenRefs) :
    X20 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X20_keep m c r h20).trans <| (X19_keep m c r h19).trans <| (X18_keep m c r h18).trans <| (X17_keep m c r h17).trans <| (X16_keep m c r h16).trans <| (X15_keep m c r h15).trans <| (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- A buffer no item writes, at stage 21. -/
theorem X21_launch (r : Ref sig .tc) (h : r ∉ writtenRefs) :
    X21 m c (Proc.devRef .tc r) = X0 m c (Proc.devRef .tc r) := by
  simp only [writtenRefs, List.mem_append, not_or] at h
  obtain ⟨h1, h2, h3, h4, h5, h6, h7, h8, h9, h10, h11, h12, h13, h14, h15, h16, h17, h18, h19, h20, h21, h22⟩ := h
  exact (X21_keep m c r h21).trans <| (X20_keep m c r h20).trans <| (X19_keep m c r h19).trans <| (X18_keep m c r h18).trans <| (X17_keep m c r h17).trans <| (X16_keep m c r h16).trans <| (X15_keep m c r h15).trans <| (X14_keep m c r h14).trans <| (X13_keep m c r h13).trans <| (X12_keep m c r h12).trans <| (X11_keep m c r h11).trans <| (X10_keep m c r h10).trans <| (X9_keep m c r h9).trans <| (X8_keep m c r h8).trans <| (X7_keep m c r h7).trans <| (X6_keep m c r h6).trans <| (X5_keep m c r h5).trans <| (X4_keep m c r h4).trans <| (X3_keep m c r h3).trans <| (X2_keep m c r h2).trans <| (X1_keep m c r h1)

/-- The index vector v1 at stage 4 is as the first stretch left it. -/
theorem X4_v1 : X4 m c (Proc.devRef .tc main_v1) = X1 m c (Proc.devRef .tc main_v1) :=
  (X4_keep m c main_v1 (by decide)).trans <| (X3_keep m c main_v1 (by decide)).trans <| (X2_keep m c main_v1 (by decide))

/-- The index vector v1 at stage 8 is as the first stretch left it. -/
theorem X8_v1 : X8 m c (Proc.devRef .tc main_v1) = X1 m c (Proc.devRef .tc main_v1) :=
  (X8_keep m c main_v1 (by decide)).trans <| (X7_keep m c main_v1 (by decide)).trans <| (X6_keep m c main_v1 (by decide)).trans <| (X5_keep m c main_v1 (by decide)).trans <| (X4_keep m c main_v1 (by decide)).trans <| (X3_keep m c main_v1 (by decide)).trans <| (X2_keep m c main_v1 (by decide))

/-- The index vector v1 at stage 12 is as the first stretch left it. -/
theorem X12_v1 : X12 m c (Proc.devRef .tc main_v1) = X1 m c (Proc.devRef .tc main_v1) :=
  (X12_keep m c main_v1 (by decide)).trans <| (X11_keep m c main_v1 (by decide)).trans <| (X10_keep m c main_v1 (by decide)).trans <| (X9_keep m c main_v1 (by decide)).trans <| (X8_keep m c main_v1 (by decide)).trans <| (X7_keep m c main_v1 (by decide)).trans <| (X6_keep m c main_v1 (by decide)).trans <| (X5_keep m c main_v1 (by decide)).trans <| (X4_keep m c main_v1 (by decide)).trans <| (X3_keep m c main_v1 (by decide)).trans <| (X2_keep m c main_v1 (by decide))

/-- The index vector v1 at stage 16 is as the first stretch left it. -/
theorem X16_v1 : X16 m c (Proc.devRef .tc main_v1) = X1 m c (Proc.devRef .tc main_v1) :=
  (X16_keep m c main_v1 (by decide)).trans <| (X15_keep m c main_v1 (by decide)).trans <| (X14_keep m c main_v1 (by decide)).trans <| (X13_keep m c main_v1 (by decide)).trans <| (X12_keep m c main_v1 (by decide)).trans <| (X11_keep m c main_v1 (by decide)).trans <| (X10_keep m c main_v1 (by decide)).trans <| (X9_keep m c main_v1 (by decide)).trans <| (X8_keep m c main_v1 (by decide)).trans <| (X7_keep m c main_v1 (by decide)).trans <| (X6_keep m c main_v1 (by decide)).trans <| (X5_keep m c main_v1 (by decide)).trans <| (X4_keep m c main_v1 (by decide)).trans <| (X3_keep m c main_v1 (by decide)).trans <| (X2_keep m c main_v1 (by decide))

/-- The index vector v3 at stage 4 is as the first stretch left it. -/
theorem X4_v3 : X4 m c (Proc.devRef .tc main_v3) = X1 m c (Proc.devRef .tc main_v3) :=
  (X4_keep m c main_v3 (by decide)).trans <| (X3_keep m c main_v3 (by decide)).trans <| (X2_keep m c main_v3 (by decide))

/-- The index vector v3 at stage 8 is as the first stretch left it. -/
theorem X8_v3 : X8 m c (Proc.devRef .tc main_v3) = X1 m c (Proc.devRef .tc main_v3) :=
  (X8_keep m c main_v3 (by decide)).trans <| (X7_keep m c main_v3 (by decide)).trans <| (X6_keep m c main_v3 (by decide)).trans <| (X5_keep m c main_v3 (by decide)).trans <| (X4_keep m c main_v3 (by decide)).trans <| (X3_keep m c main_v3 (by decide)).trans <| (X2_keep m c main_v3 (by decide))

/-- The index vector v3 at stage 12 is as the first stretch left it. -/
theorem X12_v3 : X12 m c (Proc.devRef .tc main_v3) = X1 m c (Proc.devRef .tc main_v3) :=
  (X12_keep m c main_v3 (by decide)).trans <| (X11_keep m c main_v3 (by decide)).trans <| (X10_keep m c main_v3 (by decide)).trans <| (X9_keep m c main_v3 (by decide)).trans <| (X8_keep m c main_v3 (by decide)).trans <| (X7_keep m c main_v3 (by decide)).trans <| (X6_keep m c main_v3 (by decide)).trans <| (X5_keep m c main_v3 (by decide)).trans <| (X4_keep m c main_v3 (by decide)).trans <| (X3_keep m c main_v3 (by decide)).trans <| (X2_keep m c main_v3 (by decide))

/-- The index vector v3 at stage 16 is as the first stretch left it. -/
theorem X16_v3 : X16 m c (Proc.devRef .tc main_v3) = X1 m c (Proc.devRef .tc main_v3) :=
  (X16_keep m c main_v3 (by decide)).trans <| (X15_keep m c main_v3 (by decide)).trans <| (X14_keep m c main_v3 (by decide)).trans <| (X13_keep m c main_v3 (by decide)).trans <| (X12_keep m c main_v3 (by decide)).trans <| (X11_keep m c main_v3 (by decide)).trans <| (X10_keep m c main_v3 (by decide)).trans <| (X9_keep m c main_v3 (by decide)).trans <| (X8_keep m c main_v3 (by decide)).trans <| (X7_keep m c main_v3 (by decide)).trans <| (X6_keep m c main_v3 (by decide)).trans <| (X5_keep m c main_v3 (by decide)).trans <| (X4_keep m c main_v3 (by decide)).trans <| (X3_keep m c main_v3 (by decide)).trans <| (X2_keep m c main_v3 (by decide))

end Cert.Gin.KerWhole

end
-- ==== Proof.KH.S0.lean ====
/-
  The kernel program's first host stretch read as functions of the contents it starts from: the two index
  vectors, the first normalisation's scale and shift rows cut out of their stacks, the aggregation of the input, and
  the two first-layer bias vectors as one-row matrices — each the same host operations the reference applies.
-/
import proofs.«100381_j2018634629568_1_alg».proof.Proof.Gen.KernelIdeal.Launch
import proofs.«100381_j2018634629568_1_alg».proof.Proof.Gen.ReferenceIdeal
import proofs.«100381_j2018634629568_1_alg».proof.Proof.Ref.Cuts
import proofs.«100381_j2018634629568_1_alg».proof.Proof.Ref.Reals
import Idealize.ShloMosaic.Lib.StableHlo.Run

noncomputable section

namespace Cert.Gin.KerHost

open Idealize.ShloMosaic Idealize.ShloMosaic.StableHlo Cert.KernelIdeal Cert.KernelIdeal.Gen Cert.Gin.Ref

/-- The edges' sources. -/
theorem h0_v1 (W : Valuation τ sig (Elt Ideal)) :
    after (hostOps0 (F := Ideal)) W (Proc.devRef .tc main_v1)
      = edgeSrc (W (Proc.devRef .tc main_arg1)) := by
  after_results_simp
  rfl

/-- The edges' destinations. -/
theorem h0_v3 (W : Valuation τ sig (Elt Ideal)) :
    after (hostOps0 (F := Ideal)) W (Proc.devRef .tc main_v3)
      = edgeDst (W (Proc.devRef .tc main_arg1)) := by
  after_results_simp
  rfl

/-- The first normalisation's scale vector. -/
theorem h0_v5 (W : Valuation τ sig (Elt Ideal)) :
    after (hostOps0 (F := Ideal)) W (Proc.devRef .tc main_v5)
      = cutRow (F := Ideal) 0 (W (Proc.devRef .tc main_arg11)) Cert.ReferenceIdeal.Gen.slices_S5x512_S1x512_0_0 := by
  after_results_simp
  rfl

/-- The first normalisation's shift vector. -/
theorem h0_v7 (W : Valuation τ sig (Elt Ideal)) :
    after (hostOps0 (F := Ideal)) W (Proc.devRef .tc main_v7)
      = cutRow (F := Ideal) 0 (W (Proc.devRef .tc main_arg12)) Cert.ReferenceIdeal.Gen.slices_S5x512_S1x512_0_0 := by
  after_results_simp
  rfl

/-- The aggregated input. -/
theorem h0_v18 (W : Valuation τ sig (Elt Ideal)) :
    after (hostOps0 (F := Ideal)) W (Proc.devRef .tc main_v18)
      = refAgg16 (W (Proc.devRef .tc main_arg0)) (srcIdx (edgeSrc (W (Proc.devRef .tc main_arg1)))) (dstIdx (edgeDst (W (Proc.devRef .tc main_arg1)))) := by
  after_results_simp
  rfl

/-- The first bias as a one-row matrix. -/
theorem h0_v19 (W : Valuation τ sig (Elt Ideal)) :
    after (hostOps0 (F := Ideal)) W (Proc.devRef .tc main_v19)
      = rowOf (F := Ideal) (W (Proc.devRef .tc main_arg4)) := by
  after_results_simp
  rfl

/-- The second bias as a one-row matrix. -/
theorem h0_v20 (W : Valuation τ sig (Elt Ideal)) :
    after (hostOps0 (F := Ideal)) W (Proc.devRef .tc main_v20)
      = rowOf (F := Ideal) (W (Proc.devRef .tc main_arg6)) := by
  after_results_simp
  rfl

end Cert.Gin.KerHost

end
-- ==== Proof.KH.SOdd.lean ====
/-
  The kernel program's two-operation host stretches before each normalisation kernel: the layer's scale and shift
  vectors as one-row matrices.
-/
import proofs.«100381_j2018634629568_1_alg».proof.Proof.Gen.KernelIdeal.Launch
import proofs.«100381_j2018634629568_1_alg».proof.Proof.Gen.ReferenceIdeal
import proofs.«100381_j2018634629568_1_alg».proof.Proof.Ref.Cuts
import Idealize.ShloMosaic.Lib.StableHlo.Run

noncomputable section

namespace Cert.Gin.KerHost

open Idealize.ShloMosaic Idealize.ShloMosaic.StableHlo Cert.KernelIdeal Cert.KernelIdeal.Gen Cert.Gin.Ref

/-- Stretch 1: the scale vector as a one-row matrix. -/
theorem h1_v22 (W : Valuation τ sig (Elt Ideal)) :
    after (hostOps1 (F := Ideal)) W (Proc.devRef .tc main_v22)
      = rowOf (F := Ideal) (W (Proc.devRef .tc main_v5)) := by
  after_results_simp
  rfl

/-- Stretch 1: the shift vector as a one-row matrix. -/
theorem h1_v23 (W : Valuation τ sig (Elt Ideal)) :
    after (hostOps1 (F := Ideal)) W (Proc.devRef .tc main_v23)
      = rowOf (F := Ideal) (W (Proc.devRef .tc main_v7)) := by
  after_results_simp
  rfl

/-- Stretch 3: the scale vector as a one-row matrix. -/
theorem h3_v51 (W : Valuation τ sig (Elt Ideal)) :
    after (hostOps3 (F := Ideal)) W (Proc.devRef .tc main_v51)
      = rowOf (F := Ideal) (W (Proc.devRef .tc main_v34)) := by
  after_results_simp
  rfl

/-- Stretch 3: the shift vector as a one-row matrix. -/
theorem h3_v52 (W : Valuation τ sig (Elt Ideal)) :
    after (hostOps3 (F := Ideal)) W (Proc.devRef .tc main_v52)
      = rowOf (F := Ideal) (W (Proc.devRef .tc main_v36)) := by
  after_results_simp
  rfl

/-- Stretch 5: the scale vector as a one-row matrix. -/
theorem h5_v80 (W : Valuation τ sig (Elt Ideal)) :
    after (hostOps5 (F := Ideal)) W (Proc.devRef .tc main_v80)
      = rowOf (F := Ideal) (W (Proc.devRef .tc main_v63)) := by
  after_results_simp
  rfl

/-- Stretch 5: the shift vector as a one-row matrix. -/
theorem h5_v81 (W : Valuation τ sig (Elt Ideal)) :
    after (hostOps5 (F := Ideal)) W (Proc.devRef .tc main_v81)
      = rowOf (F := Ideal) (W (Proc.devRef .tc main_v65)) := by
  after_results_simp
  rfl

/-- Stretch 7: the scale vector as a one-row matrix. -/
theorem h7_v109 (W : Valuation τ sig (Elt Ideal)) :
    after (hostOps7 (F := Ideal)) W (Proc.devRef .tc main_v109)
      = rowOf (F := Ideal) (W (Proc.devRef .tc main_v92)) := by
  after_results_simp
  rfl

/-- Stretch 7: the shift vector as a one-row matrix. -/
theorem h7_v110 (W : Valuation τ sig (Elt Ideal)) :
    after (hostOps7 (F := Ideal)) W (Proc.devRef .tc main_v110)
      = rowOf (F := Ideal) (W (Proc.devRef .tc main_v94)) := by
  after_results_simp
  rfl

/-- Stretch 9: the scale vector as a one-row matrix. -/
theorem h9_v138 (W : Valuation τ sig (Elt Ideal)) :
    after (hostOps9 (F := Ideal)) W (Proc.devRef .tc main_v138)
      = rowOf (F := Ideal) (W (Proc.devRef .tc main_v121)) := by
  after_results_simp
  rfl

/-- Stretch 9: the shift vector as a one-row matrix. -/
theorem h9_v139 (W : Valuation τ sig (Elt Ideal)) :
    after (hostOps9 (F := Ideal)) W (Proc.devRef .tc main_v139)
      = rowOf (F := Ideal) (W (Proc.devRef .tc main_v123)) := by
  after_results_simp
  rfl

end Cert.Gin.KerHost

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.KV.Basic.lean ====
/-
  The vector operations of the kernels' payloads read at an index, at the ideal instance: a shape cast to the same
  shape is the identity, a scalar splat reads the scalar, a product of an [m, k] block by a [k, n] block accumulated
  into zeros reads at (a, b) the sum over c of A[a, c] * B[c, b], and the sum of a [1000, 512] tile over its rows
  reads at column j the sum over the 1000 rows.
-/
import proofs.«100381_j2018634629568_1_alg».proof.Proof.Gen.KernelIdeal.Skeleton
import proofs.«100381_j2018634629568_1_alg».proof.Proof.Spec
import proofs.«100381_j2018634629568_1_alg».proof.Proof.LibMatmulBlock
import Idealize.ShloMosaic.Lib.ValueIdx
import Idealize.ShloMosaic.Lib.ValueLayout
import Idealize.ShloMosaic.Lib.Pipeline.Value
import Idealize.ShloMosaic.PureOps.Ideal.Laws

noncomputable section

namespace Cert.Gin.Ker

open Idealize.ShloMosaic Idealize.ShloMosaic.ValueIdx Cert.KernelIdeal Cert.KernelIdeal.Gen

variable {α : Type}

/-- A shape cast to the same shape is the identity. -/
theorem shapeCast_same_apply {s : Shape} (x : s.Idx → α) (h : s.ShapeCasts s) (j : s.Idx) : shapeCast s x h j = x j :=
  shapeCast_apply x h j j rfl

/-- The scalar zero word splat reads 0. -/
theorem splat_zero_apply {s : Shape} (i : s.Idx) :
    broadcast s (Scalar.ofBits (F := Ideal) .f32 0x00000000#32) i = (0 : EReal) := by
  show Ideal.ofBits .f32 0x00000000#32 = 0
  exact Ideal.ofBits_zero_f32

/-- The row count's splat reads the row count. -/
theorem splat_rows_apply {s : Shape} (i : s.Idx) :
    broadcast s (Scalar.ofBits (F := Ideal) .f32 0x461C4000#32) i = Cert.Gin.rows := rfl

/-- The epsilon's splat reads the epsilon. -/
theorem splat_eps_apply {s : Shape} (i : s.Idx) :
    broadcast s (Scalar.ofBits (F := Ideal) .f32 0x3727C5AC#32) i = Cert.Gin.eps := rfl

/-- The vector reciprocal square root and hyperbolic tangent at an index. -/
theorem rsqrt_apply {s : Shape} {φ : FTy} (x : FVec Ideal s φ) (i : s.Idx) : rsqrt x i = Ideal.rsqrt (x i) := rfl
theorem tanh_apply {s : Shape} {φ : FTy} (x : FVec Ideal s φ) (i : s.Idx) : tanh x i = Ideal.tanh (x i) := rfl

/-- The [1000, 16] by [16, 512] product into zeros at (r, j). -/
theorem mm16_apply {φ₁ φ₂ : FTy} (A : FVec Ideal S1000x16 φ₁) (B : FVec Ideal S16x512 φ₂) (r : Fin 1000) (j : Fin 512) :
    matmul dot_S1000x16_S16x512_S1000x512_1_0_0_1_n_n none A B (constant (F := Ideal) S1000x512 .f32 0x00000000#32) (ix2 r j)
      = ∑ c : Fin 16, A (ix2 r c) * B (ix2 c j) :=
  Cert.LibMatmulBlock.matmul_zero_apply _ none A B r j

/-- The [1000, 512] by [512, 512] product into zeros at (r, j). -/
theorem mm512_apply {φ₁ φ₂ : FTy} (A : FVec Ideal S1000x512 φ₁) (B : FVec Ideal S512x512 φ₂) (r : Fin 1000) (j : Fin 512) :
    matmul dot_S1000x512_S512x512_S1000x512_1_0_0_1_n_n none A B (constant (F := Ideal) S1000x512 .f32 0x00000000#32) (ix2 r j)
      = ∑ c : Fin 512, A (ix2 r c) * B (ix2 c j) :=
  Cert.LibMatmulBlock.matmul_zero_apply _ none A B r j

/-- The [64, 512] by [512, 512] product into zeros at (g, k). -/
theorem mmHead1_apply {φ₁ φ₂ : FTy} (A : FVec Ideal S64x512 φ₁) (B : FVec Ideal S512x512 φ₂) (g : Fin 64) (k : Fin 512) :
    matmul dot_S64x512_S512x512_S64x512_1_0_0_1_n_n none A B (constant (F := Ideal) S64x512 .f32 0x00000000#32) (ix2 g k)
      = ∑ c : Fin 512, A (ix2 g c) * B (ix2 c k) :=
  Cert.LibMatmulBlock.matmul_zero_apply _ none A B g k

/-- The [64, 512] by [512, 18] product into zeros at (g, o). -/
theorem mmHead2_apply {φ₁ φ₂ : FTy} (A : FVec Ideal S64x512 φ₁) (B : FVec Ideal S512x18 φ₂) (g : Fin 64) (o : Fin 18) :
    matmul dot_S64x512_S512x18_S64x18_1_0_0_1_n_n none A B (constant (F := Ideal) S64x18 .f32 0x00000000#32) (ix2 g o)
      = ∑ c : Fin 512, A (ix2 g c) * B (ix2 c o) :=
  Cert.LibMatmulBlock.matmul_zero_apply _ none A B g o

/-- The sum of a [1000, 512] tile over its rows, read at column j: the sum over the 1000 rows. -/
theorem colsum_apply (v : FVec Ideal S1000x512 .f32) (h : S1000x512.Reduces [0] S512) (hφ : FKind.Formats .f32)
    (hacc : (0x00000000#32 : BitVec 32) = FKind.add.neutral .f32 hφ) (j : Fin 512) :
    multiReduction .add [0] S512 v 0x00000000#32 h hφ hacc (ix1 j) = ∑ r : Fin 1000, v (ix2 r j) := by
  rw [Ideal.multiReduction_add_single v _ h hφ hacc]
  exact Finset.sum_congr rfl fun r _ => congrArg v (by
    funext c
    match c with
    | ⟨0, _⟩ => rfl
    | ⟨1, _⟩ => rfl)

/-- The same sum cast to a one-row matrix, read at (0, j). -/
theorem colsum_row_apply (v : FVec Ideal S1000x512 .f32) (h : S1000x512.Reduces [0] S512) (hφ : FKind.Formats .f32)
    (hacc : (0x00000000#32 : BitVec 32) = FKind.add.neutral .f32 hφ) (hc : S512.ShapeCasts S1x512) (u : Fin 1) (j : Fin 512) :
    shapeCast S1x512 (multiReduction .add [0] S512 v 0x00000000#32 h hφ hacc) hc (ix2 u j) = ∑ r : Fin 1000, v (ix2 r j) := by
  rw [shapeCast_a_1a_apply, colsum_apply]

end Cert.Gin.Ker

end
-- ==== Proof.KV.Norm.lean ====
/-
  The normalisation payload of each of the five normalisation kernels read at (r, j): from the row of column sums s
  and the row of column sums of squares q, the mean is s / 10000, the variance q / 10000 less the squared mean, and
  the result (a - mean) * (g * rsqrt (variance + eps)) + b — the specification's normalisation from given sums.
-/
import proofs.«100381_j2018634629568_1_alg».proof.Proof.KV.Basic

noncomputable section

namespace Cert.Gin.Ker

open Idealize.ShloMosaic Idealize.ShloMosaic.ValueIdx Cert.KernelIdeal Cert.KernelIdeal.Gen

/-- Kernel 1's normalisation payload read at (r, j). -/
theorem k1_pay1_apply (s q : Vec Ideal S1x512 .f32) (a : Vec Ideal S1000x512 .f32) (g b : Vec Ideal S1x512 .f32)
    (r : Fin 1000) (j : Fin 512) :
    k1_pay1 (F := Ideal) s q a g b (ix2 r j)
      = Cert.Gin.normFrom (fun r l => a (ix2 r l)) (fun l => s (ix2 0 l)) (fun l => q (ix2 0 l))
          (fun l => g (ix2 0 l)) (fun l => b (ix2 0 l)) r j := by
  unfold k1_pay1
  simp only [addf_apply, mulf_apply, subf_apply, divf_apply, rsqrt_apply, broadcastTo_1b_ab_apply,
    shapeCast_same_apply, splat_rows_apply, splat_eps_apply]
  rfl

/-- Kernel 3's normalisation payload read at (r, j). -/
theorem k3_pay1_apply (s q : Vec Ideal S1x512 .f32) (a : Vec Ideal S1000x512 .f32) (g b : Vec Ideal S1x512 .f32)
    (r : Fin 1000) (j : Fin 512) :
    k3_pay1 (F := Ideal) s q a g b (ix2 r j)
      = Cert.Gin.normFrom (fun r l => a (ix2 r l)) (fun l => s (ix2 0 l)) (fun l => q (ix2 0 l))
          (fun l => g (ix2 0 l)) (fun l => b (ix2 0 l)) r j := by
  unfold k3_pay1
  simp only [addf_apply, mulf_apply, subf_apply, divf_apply, rsqrt_apply, broadcastTo_1b_ab_apply,
    shapeCast_same_apply, splat_rows_apply, splat_eps_apply]
  rfl

/-- Kernel 5's normalisation payload read at (r, j). -/
theorem k5_pay1_apply (s q : Vec Ideal S1x512 .f32) (a : Vec Ideal S1000x512 .f32) (g b : Vec Ideal S1x512 .f32)
    (r : Fin 1000) (j : Fin 512) :
    k5_pay1 (F := Ideal) s q a g b (ix2 r j)
      = Cert.Gin.normFrom (fun r l => a (ix2 r l)) (fun l => s (ix2 0 l)) (fun l => q (ix2 0 l))
          (fun l => g (ix2 0 l)) (fun l => b (ix2 0 l)) r j := by
  unfold k5_pay1
  simp only [addf_apply, mulf_apply, subf_apply, divf_apply, rsqrt_apply, broadcastTo_1b_ab_apply,
    shapeCast_same_apply, splat_rows_apply, splat_eps_apply]
  rfl

/-- Kernel 7's normalisation payload read at (r, j). -/
theorem k7_pay1_apply (s q : Vec Ideal S1x512 .f32) (a : Vec Ideal S1000x512 .f32) (g b : Vec Ideal S1x512 .f32)
    (r : Fin 1000) (j : Fin 512) :
    k7_pay1 (F := Ideal) s q a g b (ix2 r j)
      = Cert.Gin.normFrom (fun r l => a (ix2 r l)) (fun l => s (ix2 0 l)) (fun l => q (ix2 0 l))
          (fun l => g (ix2 0 l)) (fun l => b (ix2 0 l)) r j := by
  unfold k7_pay1
  simp only [addf_apply, mulf_apply, subf_apply, divf_apply, rsqrt_apply, broadcastTo_1b_ab_apply,
    shapeCast_same_apply, splat_rows_apply, splat_eps_apply]
  rfl

/-- Kernel 9's normalisation payload read at (r, j). -/
theorem k9_pay1_apply (s q : Vec Ideal S1x512 .f32) (a : Vec Ideal S1000x512 .f32) (g b : Vec Ideal S1x512 .f32)
    (r : Fin 1000) (j : Fin 512) :
    k9_pay1 (F := Ideal) s q a g b (ix2 r j)
      = Cert.Gin.normFrom (fun r l => a (ix2 r l)) (fun l => s (ix2 0 l)) (fun l => q (ix2 0 l))
          (fun l => g (ix2 0 l)) (fun l => b (ix2 0 l)) r j := by
  unfold k9_pay1
  simp only [addf_apply, mulf_apply, subf_apply, divf_apply, rsqrt_apply, broadcastTo_1b_ab_apply,
    shapeCast_same_apply, splat_rows_apply, splat_eps_apply]
  rfl

end Cert.Gin.Ker

end
-- ==== Proof.KA.NormArray1.lean ====
/-
  The output array of a normalisation region, entry by entry. The region walks ten row tiles of 1000; at tile t the
  body stores one pointwise function of the tile and of four 1 x 512 rows (column sums, column sums of squares, scale,
  shift) into the output's block t. A row window has a single block, the whole row, at every tile; the activation's
  and the output's block t are rows 1000 t .. 1000 t + 999. So the ten blocks written back are the ten row blocks of
  ONE whole-array function, they tile the array, and entry (r, j) of the output is the body's function of tile r / 1000
  read at (r % 1000, j) — at the ideal instance, the specification's normalisation from the given sums at (r, j).
-/
import proofs.«100381_j2018634629568_1_alg».proof.Proof.KI.Norm1
import proofs.«100381_j2018634629568_1_alg».proof.Proof.KV.Norm
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem
open Idealize.ShloMosaic.Pipeline (Dat)
open Idealize.ShloMosaic.ValueIdx
open Cert.KernelIdeal Cert.KernelIdeal.Gen

section
variable {F : FTy → Type} [FloatOps F]
variable (V : (c : Dev nD) → (b : Ref sig .tc) → Buf (Elt F) ((c : Thread nD τ).loc b))

theorem zeroOff1 : (![0, 0] : Fin 2 → Nat) = fun _ => 0 := funext fun a => by fin_cases a <;> rfl

/-- The tile the body leaves is its payload of the five blocks: the one store goes through the whole tile. -/
theorem normTile1_eq (a : Vec F S1000x512 .f32) (s q g b : Vec F S1x512 .f32) :
    normTile1 a s q g b = k1_pay1 s q a g b := by
  unfold normTile1
  rw [View.canon_unit_zero zeroOff1]
  simp only [View.ld_unit_zero (S := S1000x512) zeroOff1, View.ld_unit_zero (S := S1x512) zeroOff1]

/-- The index maps over the grid: the activation's and the output's block at point t is block (t, 0); every row window
    stays at block (0, 0). -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The activation's block at point t, entry (p, j), is the array's entry (1000 t + p, j). -/
theorem tile1_apply (c : Dev nD) (t : Fin cfg1.N) (p : Fin 1000) (j : Fin 512) (r : Fin 10000) (hr : r.val = 1000 * t.val + p.val) :
    (blockAt1 V c 0 t : Vec F S1000x512 .f32) (ix2 p j) = (V c (Pipeline.arrRef spec1 0) : S10000x512.Idx → Elt F .f32) (ix2 r j) := by
  obtain ⟨e0, e1, -⟩ := idx_facts1 t
  unfold blockAt1
  rw [View.read_apply]
  show V c (Pipeline.arrRef spec1 0) _ = V c (Pipeline.arrRef spec1 0) _
  congr 1
  funext a
  apply Fin.ext
  match a with
  | ⟨0, _⟩ => show win1_0.index t (0 : Fin 2) * 1000 + 1 * p.val = r.val; rw [e0, hr]; omega
  | ⟨1, _⟩ => show win1_0.index t (1 : Fin 2) * 512 + 1 * j.val = j.val; rw [e1]; omega

/-! A [1,512] row's window has one block, the whole row: at every point its block is the array itself. -/
theorem rowBlock1_1 (c : Dev nD) (t : Fin cfg1.N) :
    (blockAt1 V c 1 t : Vec F S1x512 .f32) = (V c (Pipeline.arrRef spec1 1) : S1x512.Idx → Elt F .f32) := by
  have e0 : win1_1.index t (0 : Fin 2) = 0 := by have := idx_facts1 t; simp only [this]
  have e1 : win1_1.index t (1 : Fin 2) = 0 := by have := idx_facts1 t; simp only [this]
  funext y
  unfold blockAt1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 512 + 1 * (y 1).val = (y 1).val; rw [e1]; omega
theorem rowBlock1_2 (c : Dev nD) (t : Fin cfg1.N) :
    (blockAt1 V c 2 t : Vec F S1x512 .f32) = (V c (Pipeline.arrRef spec1 2) : S1x512.Idx → Elt F .f32) := by
  have e0 : win1_2.index t (0 : Fin 2) = 0 := by have := idx_facts1 t; simp only [this]
  have e1 : win1_2.index t (1 : Fin 2) = 0 := by have := idx_facts1 t; simp only [this]
  funext y
  unfold blockAt1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega
theorem rowBlock1_3 (c : Dev nD) (t : Fin cfg1.N) :
    (blockAt1 V c 3 t : Vec F S1x512 .f32) = (V c (Pipeline.arrRef spec1 3) : S1x512.Idx → Elt F .f32) := by
  have e0 : win1_3.index t (0 : Fin 2) = 0 := by have := idx_facts1 t; simp only [this]
  have e1 : win1_3.index t (1 : Fin 2) = 0 := by have := idx_facts1 t; simp only [this]
  funext y
  unfold blockAt1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega
theorem rowBlock1_4 (c : Dev nD) (t : Fin cfg1.N) :
    (blockAt1 V c 4 t : Vec F S1x512 .f32) = (V c (Pipeline.arrRef spec1 4) : S1x512.Idx → Elt F .f32) := by
  have e0 : win1_4.index t (0 : Fin 2) = 0 := by have := idx_facts1 t; simp only [this]
  have e1 : win1_4.index t (1 : Fin 2) = 0 := by have := idx_facts1 t; simp only [this]
  funext y
  unfold blockAt1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 512 + 1 * (y 1).val = (y 1).val; rw [e1]; omega

/-- Rows 1000 t … 1000 t + 999 of a [10000,512] array, as a [1000,512] tile. -/
def rowsTile1 (X : S10000x512.Idx → Elt F .f32) (t : Nat) (ht : t < 10) : Vec F S1000x512 .f32 :=
  fun y => X (ix2 ⟨1000 * t + (y 0).val, by have := idx2_lt0 y; omega⟩ (y 1))

theorem tileBlock1 (c : Dev nD) (t : Fin cfg1.N) (ht : t.val < 10) :
    (blockAt1 V c 0 t : Vec F S1000x512 .f32) = rowsTile1 (V c (Pipeline.arrRef spec1 0) : S10000x512.Idx → Elt F .f32) t.val ht := by
  funext y
  obtain ⟨p, j, rfl⟩ : ∃ (p : Fin 1000) (j : Fin 512), y = ix2 p j := ⟨y 0, y 1, eq_ix2 y⟩
  exact tile1_apply V c t p j _ rfl

/-- The whole normalized array: entry (r, j) is the payload of tile r / 1000 and of the four rows, at (r % 1000, j). -/
def normWhole1 (c : Dev nD) : S10000x512.Idx → Elt F .f32 := fun i =>
  k1_pay1 (V c (Pipeline.arrRef spec1 1) : S1x512.Idx → Elt F .f32) (V c (Pipeline.arrRef spec1 2) : S1x512.Idx → Elt F .f32)
    (rowsTile1 (V c (Pipeline.arrRef spec1 0) : S10000x512.Idx → Elt F .f32) ((i 0).val / 1000) (by have := idx2_lt0 i; omega))
    (V c (Pipeline.arrRef spec1 3) : S1x512.Idx → Elt F .f32) (V c (Pipeline.arrRef spec1 4) : S1x512.Idx → Elt F .f32)
    (ix2 ⟨(i 0).val % 1000, Nat.mod_lt _ (by decide)⟩ (i 1))

/-- The whole array at an index whose row is 1000 t + p. -/
theorem normWhole1_apply (c : Dev nD) (i : S10000x512.Idx) (t : Nat) (ht : t < 10) (p : Fin 1000) (j : Fin 512)
    (h0 : (i 0).val = 1000 * t + p.val) (h1 : (i 1).val = j.val) :
    normWhole1 V c i = k1_pay1 (V c (Pipeline.arrRef spec1 1) : S1x512.Idx → Elt F .f32) (V c (Pipeline.arrRef spec1 2) : S1x512.Idx → Elt F .f32)
      (rowsTile1 (V c (Pipeline.arrRef spec1 0) : S10000x512.Idx → Elt F .f32) t ht)
      (V c (Pipeline.arrRef spec1 3) : S1x512.Idx → Elt F .f32) (V c (Pipeline.arrRef spec1 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k1_pay1 (V c (Pipeline.arrRef spec1 1) : S1x512.Idx → Elt F .f32) (V c (Pipeline.arrRef spec1 2) : S1x512.Idx → Elt F .f32)
        (rowsTile1 (V c (Pipeline.arrRef spec1 0) : S10000x512.Idx → Elt F .f32) t' ht')
        (V c (Pipeline.arrRef spec1 3) : S1x512.Idx → Elt F .f32) (V c (Pipeline.arrRef spec1 4) : S1x512.Idx → Elt F .f32) (ix2 p' j')
      = k1_pay1 (V c (Pipeline.arrRef spec1 1) : S1x512.Idx → Elt F .f32) (V c (Pipeline.arrRef spec1 2) : S1x512.Idx → Elt F .f32)
        (rowsTile1 (V c (Pipeline.arrRef spec1 0) : S10000x512.Idx → Elt F .f32) t ht)
        (V c (Pipeline.arrRef spec1 3) : S1x512.Idx → Elt F .f32) (V c (Pipeline.arrRef spec1 4) : S1x512.Idx → Elt F .f32) (ix2 p j) := by
    intro t' ht' p' j' e e' e''; subst e e' e''; rfl
  exact key _ _ _ _ e1 (Fin.ext e2) (Fin.ext h1)

/-- What point t writes back is block t of the whole normalized array. -/
theorem flushed1_eq (c : Dev nD) (t : Fin cfg1.N) :
    (dat1 V c).flushed 5 t = ((cfg1.win 5).blk t).view.read (Elt F) (normWhole1 V c) := by
  have ht : t.val < 10 := Nat.lt_of_lt_of_eq t.isLt N_1
  obtain ⟨-, -, e0, e1, -⟩ := idx_facts1 t
  show (cfg1.win 5).cut (grid1.coords t) ((dat1 V c).after 5 t) = _
  rw [dat1_after5, normTile1_eq, rowBlock1_1, rowBlock1_2, rowBlock1_3, rowBlock1_4, tileBlock1 V c t ht]
  funext y
  obtain ⟨p, j, rfl⟩ : ∃ (p : Fin 1000) (j : Fin 512), y = ix2 p j := ⟨y 0, y 1, eq_ix2 y⟩
  rw [View.read_apply]
  refine (normWhole1_apply V c _ t.val ht p j ?_ ?_).symm
  · show win1_5.index t (0 : Fin 2) * 1000 + 1 * p.val = _; rw [e0]; omega
  · show win1_5.index t (1 : Fin 2) * 512 + 1 * j.val = _; rw [e1]; omega

/-- An index of the array is in point t's block iff each coordinate is in the block's range on its axis. -/
theorem mem_blk1 (t : Fin cfg1.N) (i : S10000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v24).slice (win1_5.rect t)).set ↔ _
  rw [View.set_slice_whole, Rect.mem_set_unit]
  exact Iff.rfl

/-- Every row lies in the block of the point that is its number over 1000. -/
theorem cover1 (i : S10000x512.Idx) : ∃ t : Fin cfg1.N, (cfg1.win 5).flush t = true ∧ i ∈ ((cfg1.win 5).blk t).view.set := by
  have hi0 : (i 0).val < 10000 := idx2_lt0 i
  have hi1 : (i 1).val < 512 := idx2_lt1 i
  let t : Fin cfg1.N := ⟨(i 0).val / 1000, by rw [show cfg1.N = 10 from N_1]; omega⟩
  obtain ⟨-, -, e0, e1, -⟩ := idx_facts1 t
  have e0' : win1_5.index t (0 : Fin 2) = (i 0).val / 1000 := e0
  refine ⟨t, flush1_5 t, ?_⟩
  rw [mem_blk1]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 512 ≤ (i 1).val ∧ (i 1).val < win1_5.index t (1 : Fin 2) * 512 + 512; omega

/-- The output array after the region is the whole normalized array. -/
theorem final1 (c : Dev nD) : (dat1 V c).arrAt 5 cfg1.N = normWhole1 V c :=
  (dat1 V c).arrAt_eq_of_cover 5 (normWhole1 V c) (fun t _ => flushed1_eq V c t) cover1

/-- Entry (r, j) of the output array after the region: the payload of tile r / 1000 and the four rows at (r % 1000, j). -/
theorem normArray1 (c : Dev nD) (r : Fin 10000) (j : Fin 512) :
    ((dat1 V c).arrAt 5 cfg1.N : S10000x512.Idx → Elt F .f32) (ix2 r j)
      = k1_pay1 (V c (Pipeline.arrRef spec1 1) : S1x512.Idx → Elt F .f32) (V c (Pipeline.arrRef spec1 2) : S1x512.Idx → Elt F .f32)
          (rowsTile1 (V c (Pipeline.arrRef spec1 0) : S10000x512.Idx → Elt F .f32) (r.val / 1000) (by have := r.isLt; omega))
          (V c (Pipeline.arrRef spec1 3) : S1x512.Idx → Elt F .f32) (V c (Pipeline.arrRef spec1 4) : S1x512.Idx → Elt F .f32)
          (ix2 ⟨r.val % 1000, Nat.mod_lt _ (by decide)⟩ j) := by
  rw [final1]
  exact normWhole1_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the output is the normalisation, from the given sums, of the activation as the
    region finds it. -/
theorem normArray1_spec (c : Dev nD) (r : Fin 10000) (j : Fin 512) :
    ((dat1 V c).arrAt 5 cfg1.N : S10000x512.Idx → EReal) (ix2 r j)
      = Cert.Gin.normFrom (fun r l => (V c (Pipeline.arrRef spec1 0) : S10000x512.Idx → EReal) (ix2 r l))
          (fun l => (V c (Pipeline.arrRef spec1 1) : S1x512.Idx → EReal) (ix2 0 l))
          (fun l => (V c (Pipeline.arrRef spec1 2) : S1x512.Idx → EReal) (ix2 0 l))
          (fun l => (V c (Pipeline.arrRef spec1 3) : S1x512.Idx → EReal) (ix2 0 l))
          (fun l => (V c (Pipeline.arrRef spec1 4) : S1x512.Idx → EReal) (ix2 0 l)) r j := by
  refine (normArray1 V c r j).trans ?_
  refine (Cert.Gin.Ker.k1_pay1_apply _ _ _ _ _ _ j).trans ?_
  have e : (⟨1000 * (r.val / 1000) + r.val % 1000, by have := r.isLt; omega⟩ : Fin 10000) = r := Fin.ext (by show 1000 * (r.val / 1000) + r.val % 1000 = r.val; omega)
  unfold Cert.Gin.normFrom rowsTile1
  dsimp only
  rw [e]

end

end Cert.KernelIdeal.Arr

end
-- ==== Proof.KA.Layer1.lean ====
/-
  Layer 1 on the kernel side: the first perceptron kernel's entry arrays are the aggregated input, the two weight
  matrices and the two bias rows; the first normalisation kernel's entry arrays are that kernel's three outputs and the
  scale and shift rows; so the normalisation kernel leaves the shared closed function's first-layer array.
-/
import proofs.«100381_j2018634629568_1_alg».proof.Proof.KA.Glue
import proofs.«100381_j2018634629568_1_alg».proof.Proof.KA.Keep
import proofs.«100381_j2018634629568_1_alg».proof.Proof.KH.S0
import proofs.«100381_j2018634629568_1_alg».proof.Proof.KH.SOdd
import proofs.«100381_j2018634629568_1_alg».proof.Proof.KA.NormArray1

set_option maxRecDepth 16384

noncomputable section

namespace Cert.Gin.KerWhole

open Idealize.ShloMosaic Idealize.ShloMosaic.TcCoe Idealize.SL.Sem Idealize.ShloMosaic.ValueIdx
open Cert.KernelIdeal Cert.KernelIdeal.Gen Cert.Gin.Ref Cert.Gin.KerHost

variable (m : (ℓ : Loc nD τ sig) → Buf (Elt Ideal) ℓ) (c : Dev nD)

theorem in0_0 : (E1 m c (Pipeline.arrRef spec0 0) : S10000x16.Idx → EReal) = refAgg16 (A0 m c) (srcI m c) (dstI m c) := h0_v18 (X0 m c)
theorem in0_1 : (E1 m c (Pipeline.arrRef spec0 1) : S16x512.Idx → EReal) = A3 m c := X1_keep m c main_arg3 (by decide)
theorem in0_2 : (E1 m c (Pipeline.arrRef spec0 2) : S1x512.Idx → EReal) = rowOf (F := Ideal) (A4 m c) := h0_v19 (X0 m c)
theorem in0_3 : (E1 m c (Pipeline.arrRef spec0 3) : S512x512.Idx → EReal) = A5 m c := X1_keep m c main_arg5 (by decide)
theorem in0_4 : (E1 m c (Pipeline.arrRef spec0 4) : S1x512.Idx → EReal) = rowOf (F := Ideal) (A6 m c) := h0_v20 (X0 m c)

/-- Region 0's perceptron of its entry arrays, as coordinates. -/
def mlpAt0 (V : (c : Dev nD) → (b : Ref sig .tc) → Buf (Elt Ideal) ((c : Thread nD τ).loc b)) (c : Dev nD) :
    Fin 10000 → Fin 512 → EReal :=
  Cert.Gin.mlp (fun r l => (V c (Pipeline.arrRef spec0 0) : S10000x16.Idx → EReal) (ix2 r l))
    (fun l k => (V c (Pipeline.arrRef spec0 1) : S16x512.Idx → EReal) (ix2 l k))
    (fun k => (V c (Pipeline.arrRef spec0 2) : S1x512.Idx → EReal) (ix2 0 k))
    (fun k j => (V c (Pipeline.arrRef spec0 3) : S512x512.Idx → EReal) (ix2 k j))
    (fun j => (V c (Pipeline.arrRef spec0 4) : S1x512.Idx → EReal) (ix2 0 j))

/-- In the shared vocabulary. -/
theorem mlpAt0_eq : mlpAt0 (E1 m) c
    = Cert.Gin.mlp (co2 (refAgg16 (A0 m c) (srcI m c) (dstI m c))) (co2 (A3 m c)) (co1' (A4 m c)) (co2 (A5 m c)) (co1' (A6 m c)) := by
  unfold mlpAt0
  rw [in0_0, in0_1, in0_2, in0_3, in0_4]
  simp only [rowOf_apply]

theorem in1_0 : (E3 m c (Pipeline.arrRef spec1 0) : S10000x512.Idx → EReal) = (dat0 (E1 m) c).arrAt 5 cfg0.N :=
  (X3_keep m c main_v21_0 (by decide)).trans (X2_arr m c 5)
theorem in1_1 : (E3 m c (Pipeline.arrRef spec1 1) : S1x512.Idx → EReal) = (dat0 (E1 m) c).arrAt 6 cfg0.N :=
  (X3_keep m c main_v21_1 (by decide)).trans (X2_arr m c 6)
theorem in1_2 : (E3 m c (Pipeline.arrRef spec1 2) : S1x512.Idx → EReal) = (dat0 (E1 m) c).arrAt 7 cfg0.N :=
  (X3_keep m c main_v21_2 (by decide)).trans (X2_arr m c 7)
theorem in1_3 : (E3 m c (Pipeline.arrRef spec1 3) : S1x512.Idx → EReal)
    = rowOf (F := Ideal) (cutRow (F := Ideal) 0 (A11 m c) Cert.ReferenceIdeal.Gen.slices_S5x512_S1x512_0_0) :=
  (h1_v22 (X2 m c)).trans (congrArg (rowOf (F := Ideal)) ((X2_keep m c main_v5 (by decide)).trans (h0_v5 (X0 m c))))
theorem in1_4 : (E3 m c (Pipeline.arrRef spec1 4) : S1x512.Idx → EReal)
    = rowOf (F := Ideal) (cutRow (F := Ideal) 0 (A12 m c) Cert.ReferenceIdeal.Gen.slices_S5x512_S1x512_0_0) :=
  (h1_v23 (X2 m c)).trans (congrArg (rowOf (F := Ideal)) ((X2_keep m c main_v7 (by decide)).trans (h0_v7 (X0 m c))))

set_option maxHeartbeats 1000000 in
/-- LAYER 1: the first normalisation kernel leaves the shared closed function's first-layer array. -/
theorem layer1
    (hmlp : ∀ r j, ((dat0 (E1 m) c).arrAt 5 cfg0.N : S10000x512.Idx → EReal) (ix2 r j) = mlpAt0 (E1 m) c r j)
    (hsum : ∀ j, ((dat0 (E1 m) c).arrAt 6 cfg0.N : S1x512.Idx → EReal) (ix2 0 j) = Cert.Gin.colSum (mlpAt0 (E1 m) c) j)
    (hsq : ∀ j, ((dat0 (E1 m) c).arrAt 7 cfg0.N : S1x512.Idx → EReal) (ix2 0 j) = Cert.Gin.colSumSq (mlpAt0 (E1 m) c) j)
    (hx : Cert.Gin.IsReal2 (co2 (A0 m c))) (hWa : Cert.Gin.IsReal2 (co2 (A3 m c))) (hba : Cert.Gin.IsReal1 (co1' (A4 m c)))
    (hWb : Cert.Gin.IsReal2 (co2 (A5 m c))) (hbb : Cert.Gin.IsReal1 (co1' (A6 m c))) :
    X4 m c (Proc.devRef .tc main_v24) = H1 m c :=
  (X4_arr m c 5).trans <|
    refLayer16_unique (A0 m c) _ _ (A3 m c) (A4 m c) (A5 m c) (A6 m c) _ _ hx hWa hba hWb hbb _ fun r j =>
      (layer_glue _ _ _ _ _ _ (mlpAt0 (E1 m) c) _ _ (Cert.KernelIdeal.Arr.normArray1_spec (E3 m) c)
        (fun r l => (congrFun (in1_0 m c) (ix2 r l)).trans (hmlp r l))
        (fun l => (congrFun (in1_1 m c) (ix2 0 l)).trans (hsum l))
        (fun l => (congrFun (in1_2 m c) (ix2 0 l)).trans (hsq l))
        (in1_3 m c) (in1_4 m c) r j).trans
      (congrFun (congrFun (congrArg (fun M => Cert.Gin.normalize M _ _) (mlpAt0_eq m c)) r) j)

end Cert.Gin.KerWhole

end
-- ==== Proof.KH.S2.lean ====
/-
  The kernel program's host stretch 2 read as functions of the contents it starts from: layer 2's two weight
  matrices and two bias vectors cut out of their stacks (the biases also as one-row matrices), the next
  normalisation's scale and shift vectors, and the aggregation of the previous layer's output — each the same host
  operations the reference applies.
-/
import proofs.«100381_j2018634629568_1_alg».proof.Proof.Gen.KernelIdeal.Launch
import proofs.«100381_j2018634629568_1_alg».proof.Proof.Gen.ReferenceIdeal
import proofs.«100381_j2018634629568_1_alg».proof.Proof.Ref.Cuts
import proofs.«100381_j2018634629568_1_alg».proof.Proof.Ref.Reals
import Idealize.ShloMosaic.Lib.StableHlo.Run

noncomputable section

namespace Cert.Gin.KerHost

open Idealize.ShloMosaic Idealize.ShloMosaic.StableHlo Cert.KernelIdeal Cert.KernelIdeal.Gen Cert.Gin.Ref

/-- The first weight matrix. -/
theorem h2_v26 (W : Valuation τ sig (Elt Ideal)) :
    after (hostOps2 (F := Ideal)) W (Proc.devRef .tc main_v26)
      = cutMat (F := Ideal) 0 (W (Proc.devRef .tc main_arg7)) Cert.ReferenceIdeal.Gen.slices_S4x512x512_S1x512x512_0_0_0 := by
  after_results_simp
  rfl

/-- The first bias vector. -/
theorem h2_v28 (W : Valuation τ sig (Elt Ideal)) :
    after (hostOps2 (F := Ideal)) W (Proc.devRef .tc main_v28)
      = cutRow (F := Ideal) 0 (W (Proc.devRef .tc main_arg8)) Cert.ReferenceIdeal.Gen.slices_S4x512_S1x512_0_0 := by
  after_results_simp
  rfl

/-- The second weight matrix. -/
theorem h2_v30 (W : Valuation τ sig (Elt Ideal)) :
    after (hostOps2 (F := Ideal)) W (Proc.devRef .tc main_v30)
      = cutMat (F := Ideal) 0 (W (Proc.devRef .tc main_arg9)) Cert.ReferenceIdeal.Gen.slices_S4x512x512_S1x512x512_0_0_0 := by
  after_results_simp
  rfl

/-- The second bias vector. -/
theorem h2_v32 (W : Valuation τ sig (Elt Ideal)) :
    after (hostOps2 (F := Ideal)) W (Proc.devRef .tc main_v32)
      = cutRow (F := Ideal) 0 (W (Proc.devRef .tc main_arg10)) Cert.ReferenceIdeal.Gen.slices_S4x512_S1x512_0_0 := by
  after_results_simp
  rfl

/-- The next normalisation's scale vector. -/
theorem h2_v34 (W : Valuation τ sig (Elt Ideal)) :
    after (hostOps2 (F := Ideal)) W (Proc.devRef .tc main_v34)
      = cutRow (F := Ideal) 1 (W (Proc.devRef .tc main_arg11)) Cert.ReferenceIdeal.Gen.slices_S5x512_S1x512_1_0 := by
  after_results_simp
  rfl

/-- The next normalisation's shift vector. -/
theorem h2_v36 (W : Valuation τ sig (Elt Ideal)) :
    after (hostOps2 (F := Ideal)) W (Proc.devRef .tc main_v36)
      = cutRow (F := Ideal) 1 (W (Proc.devRef .tc main_arg12)) Cert.ReferenceIdeal.Gen.slices_S5x512_S1x512_1_0 := by
  after_results_simp
  rfl

/-- The aggregated previous layer. -/
theorem h2_v47 (W : Valuation τ sig (Elt Ideal)) :
    after (hostOps2 (F := Ideal)) W (Proc.devRef .tc main_v47)
      = refAgg512 (W (Proc.devRef .tc main_v24)) (srcIdx (W (Proc.devRef .tc main_v1))) (dstIdx (W (Proc.devRef .tc main_v3))) := by
  after_results_simp
  rfl

/-- The first bias as a one-row matrix. -/
theorem h2_v48 (W : Valuation τ sig (Elt Ideal)) :
    after (hostOps2 (F := Ideal)) W (Proc.devRef .tc main_v48)
      = rowOf (F := Ideal) (cutRow (F := Ideal) 0 (W (Proc.devRef .tc main_arg8)) Cert.ReferenceIdeal.Gen.slices_S4x512_S1x512_0_0) := by
  after_results_simp
  rfl

/-- The second bias as a one-row matrix. -/
theorem h2_v49 (W : Valuation τ sig (Elt Ideal)) :
    after (hostOps2 (F := Ideal)) W (Proc.devRef .tc main_v49)
      = rowOf (F := Ideal) (cutRow (F := Ideal) 0 (W (Proc.devRef .tc main_arg10)) Cert.ReferenceIdeal.Gen.slices_S4x512_S1x512_0_0) := by
  after_results_simp
  rfl

end Cert.Gin.KerHost

end
-- ==== Proof.KA.NormArray3.lean ====
/-
  The output array of a normalisation region, entry by entry. The region walks ten row tiles of 1000; at tile t the
  body stores one pointwise function of the tile and of four 1 x 512 rows (column sums, column sums of squares, scale,
  shift) into the output's block t. A row window has a single block, the whole row, at every tile; the activation's
  and the output's block t are rows 1000 t .. 1000 t + 999. So the ten blocks written back are the ten row blocks of
  ONE whole-array function, they tile the array, and entry (r, j) of the output is the body's function of tile r / 1000
  read at (r % 1000, j) — at the ideal instance, the specification's normalisation from the given sums at (r, j).
-/
import proofs.«100381_j2018634629568_1_alg».proof.Proof.KI.Norm3
import proofs.«100381_j2018634629568_1_alg».proof.Proof.KV.Norm
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem
open Idealize.ShloMosaic.Pipeline (Dat)
open Idealize.ShloMosaic.ValueIdx
open Cert.KernelIdeal Cert.KernelIdeal.Gen

section
variable {F : FTy → Type} [FloatOps F]
variable (V : (c : Dev nD) → (b : Ref sig .tc) → Buf (Elt F) ((c : Thread nD τ).loc b))

theorem zeroOff3 : (![0, 0] : Fin 2 → Nat) = fun _ => 0 := funext fun a => by fin_cases a <;> rfl

/-- The tile the body leaves is its payload of the five blocks: the one store goes through the whole tile. -/
theorem normTile3_eq (a : Vec F S1000x512 .f32) (s q g b : Vec F S1x512 .f32) :
    normTile3 a s q g b = k3_pay1 s q a g b := by
  unfold normTile3
  rw [View.canon_unit_zero zeroOff3]
  simp only [View.ld_unit_zero (S := S1000x512) zeroOff3, View.ld_unit_zero (S := S1x512) zeroOff3]

/-- The index maps over the grid: the activation's and the output's block at point t is block (t, 0); every row window
    stays at block (0, 0). -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The activation's block at point t, entry (p, j), is the array's entry (1000 t + p, j). -/
theorem tile3_apply (c : Dev nD) (t : Fin cfg3.N) (p : Fin 1000) (j : Fin 512) (r : Fin 10000) (hr : r.val = 1000 * t.val + p.val) :
    (blockAt3 V c 0 t : Vec F S1000x512 .f32) (ix2 p j) = (V c (Pipeline.arrRef spec3 0) : S10000x512.Idx → Elt F .f32) (ix2 r j) := by
  obtain ⟨e0, e1, -⟩ := idx_facts3 t
  unfold blockAt3
  rw [View.read_apply]
  show V c (Pipeline.arrRef spec3 0) _ = V c (Pipeline.arrRef spec3 0) _
  congr 1
  funext a
  apply Fin.ext
  match a with
  | ⟨0, _⟩ => show win3_0.index t (0 : Fin 2) * 1000 + 1 * p.val = r.val; rw [e0, hr]; omega
  | ⟨1, _⟩ => show win3_0.index t (1 : Fin 2) * 512 + 1 * j.val = j.val; rw [e1]; omega

/-! A [1,512] row's window has one block, the whole row: at every point its block is the array itself. -/
theorem rowBlock3_1 (c : Dev nD) (t : Fin cfg3.N) :
    (blockAt3 V c 1 t : Vec F S1x512 .f32) = (V c (Pipeline.arrRef spec3 1) : S1x512.Idx → Elt F .f32) := by
  have e0 : win3_1.index t (0 : Fin 2) = 0 := by have := idx_facts3 t; simp only [this]
  have e1 : win3_1.index t (1 : Fin 2) = 0 := by have := idx_facts3 t; simp only [this]
  funext y
  unfold blockAt3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * (y 0).val = (y 0).val; rw [e0]; omega
  | ⟨1, _⟩ => show win3_1.index t (1 : Fin 2) * 512 + 1 * (y 1).val = (y 1).val; rw [e1]; omega
theorem rowBlock3_2 (c : Dev nD) (t : Fin cfg3.N) :
    (blockAt3 V c 2 t : Vec F S1x512 .f32) = (V c (Pipeline.arrRef spec3 2) : S1x512.Idx → Elt F .f32) := by
  have e0 : win3_2.index t (0 : Fin 2) = 0 := by have := idx_facts3 t; simp only [this]
  have e1 : win3_2.index t (1 : Fin 2) = 0 := by have := idx_facts3 t; simp only [this]
  funext y
  unfold blockAt3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 512 + 1 * (y 1).val = (y 1).val; rw [e1]; omega
theorem rowBlock3_3 (c : Dev nD) (t : Fin cfg3.N) :
    (blockAt3 V c 3 t : Vec F S1x512 .f32) = (V c (Pipeline.arrRef spec3 3) : S1x512.Idx → Elt F .f32) := by
  have e0 : win3_3.index t (0 : Fin 2) = 0 := by have := idx_facts3 t; simp only [this]
  have e1 : win3_3.index t (1 : Fin 2) = 0 := by have := idx_facts3 t; simp only [this]
  funext y
  unfold blockAt3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 512 + 1 * (y 1).val = (y 1).val; rw [e1]; omega
theorem rowBlock3_4 (c : Dev nD) (t : Fin cfg3.N) :
    (blockAt3 V c 4 t : Vec F S1x512 .f32) = (V c (Pipeline.arrRef spec3 4) : S1x512.Idx → Elt F .f32) := by
  have e0 : win3_4.index t (0 : Fin 2) = 0 := by have := idx_facts3 t; simp only [this]
  have e1 : win3_4.index t (1 : Fin 2) = 0 := by have := idx_facts3 t; simp only [this]
  funext y
  unfold blockAt3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 512 + 1 * (y 1).val = (y 1).val; rw [e1]; omega

/-- Rows 1000 t … 1000 t + 999 of a [10000,512] array, as a [1000,512] tile. -/
def rowsTile3 (X : S10000x512.Idx → Elt F .f32) (t : Nat) (ht : t < 10) : Vec F S1000x512 .f32 :=
  fun y => X (ix2 ⟨1000 * t + (y 0).val, by have := idx2_lt0 y; omega⟩ (y 1))

theorem tileBlock3 (c : Dev nD) (t : Fin cfg3.N) (ht : t.val < 10) :
    (blockAt3 V c 0 t : Vec F S1000x512 .f32) = rowsTile3 (V c (Pipeline.arrRef spec3 0) : S10000x512.Idx → Elt F .f32) t.val ht := by
  funext y
  obtain ⟨p, j, rfl⟩ : ∃ (p : Fin 1000) (j : Fin 512), y = ix2 p j := ⟨y 0, y 1, eq_ix2 y⟩
  exact tile3_apply V c t p j _ rfl

/-- The whole normalized array: entry (r, j) is the payload of tile r / 1000 and of the four rows, at (r % 1000, j). -/
def normWhole3 (c : Dev nD) : S10000x512.Idx → Elt F .f32 := fun i =>
  k3_pay1 (V c (Pipeline.arrRef spec3 1) : S1x512.Idx → Elt F .f32) (V c (Pipeline.arrRef spec3 2) : S1x512.Idx → Elt F .f32)
    (rowsTile3 (V c (Pipeline.arrRef spec3 0) : S10000x512.Idx → Elt F .f32) ((i 0).val / 1000) (by have := idx2_lt0 i; omega))
    (V c (Pipeline.arrRef spec3 3) : S1x512.Idx → Elt F .f32) (V c (Pipeline.arrRef spec3 4) : S1x512.Idx → Elt F .f32)
    (ix2 ⟨(i 0).val % 1000, Nat.mod_lt _ (by decide)⟩ (i 1))

/-- The whole array at an index whose row is 1000 t + p. -/
theorem normWhole3_apply (c : Dev nD) (i : S10000x512.Idx) (t : Nat) (ht : t < 10) (p : Fin 1000) (j : Fin 512)
    (h0 : (i 0).val = 1000 * t + p.val) (h1 : (i 1).val = j.val) :
    normWhole3 V c i = k3_pay1 (V c (Pipeline.arrRef spec3 1) : S1x512.Idx → Elt F .f32) (V c (Pipeline.arrRef spec3 2) : S1x512.Idx → Elt F .f32)
      (rowsTile3 (V c (Pipeline.arrRef spec3 0) : S10000x512.Idx → Elt F .f32) t ht)
      (V c (Pipeline.arrRef spec3 3) : S1x512.Idx → Elt F .f32) (V c (Pipeline.arrRef spec3 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k3_pay1 (V c (Pipeline.arrRef spec3 1) : S1x512.Idx → Elt F .f32) (V c (Pipeline.arrRef spec3 2) : S1x512.Idx → Elt F .f32)
        (rowsTile3 (V c (Pipeline.arrRef spec3 0) : S10000x512.Idx → Elt F .f32) t' ht')
        (V c (Pipeline.arrRef spec3 3) : S1x512.Idx → Elt F .f32) (V c (Pipeline.arrRef spec3 4) : S1x512.Idx → Elt F .f32) (ix2 p' j')
      = k3_pay1 (V c (Pipeline.arrRef spec3 1) : S1x512.Idx → Elt F .f32) (V c (Pipeline.arrRef spec3 2) : S1x512.Idx → Elt F .f32)
        (rowsTile3 (V c (Pipeline.arrRef spec3 0) : S10000x512.Idx → Elt F .f32) t ht)
        (V c (Pipeline.arrRef spec3 3) : S1x512.Idx → Elt F .f32) (V c (Pipeline.arrRef spec3 4) : S1x512.Idx → Elt F .f32) (ix2 p j) := by
    intro t' ht' p' j' e e' e''; subst e e' e''; rfl
  exact key _ _ _ _ e1 (Fin.ext e2) (Fin.ext h1)

/-- What point t writes back is block t of the whole normalized array. -/
theorem flushed3_eq (c : Dev nD) (t : Fin cfg3.N) :
    (dat3 V c).flushed 5 t = ((cfg3.win 5).blk t).view.read (Elt F) (normWhole3 V c) := by
  have ht : t.val < 10 := Nat.lt_of_lt_of_eq t.isLt N_3
  obtain ⟨-, -, e0, e1, -⟩ := idx_facts3 t
  show (cfg3.win 5).cut (grid3.coords t) ((dat3 V c).after 5 t) = _
  rw [dat3_after5, normTile3_eq, rowBlock3_1, rowBlock3_2, rowBlock3_3, rowBlock3_4, tileBlock3 V c t ht]
  funext y
  obtain ⟨p, j, rfl⟩ : ∃ (p : Fin 1000) (j : Fin 512), y = ix2 p j := ⟨y 0, y 1, eq_ix2 y⟩
  rw [View.read_apply]
  refine (normWhole3_apply V c _ t.val ht p j ?_ ?_).symm
  · show win3_5.index t (0 : Fin 2) * 1000 + 1 * p.val = _; rw [e0]; omega
  · show win3_5.index t (1 : Fin 2) * 512 + 1 * j.val = _; rw [e1]; omega

/-- An index of the array is in point t's block iff each coordinate is in the block's range on its axis. -/
theorem mem_blk3 (t : Fin cfg3.N) (i : S10000x512.Idx) :
    i ∈ ((cfg3.win 5).blk t).view.set ↔ ∀ a : Fin 2, win3_5.index t a * S1000x512.size a ≤ (i a).val ∧ (i a).val < win3_5.index t a * S1000x512.size a + S1000x512.size a := by
  show i ∈ ((View.whole main_v53).slice (win3_5.rect t)).set ↔ _
  rw [View.set_slice_whole, Rect.mem_set_unit]
  exact Iff.rfl

/-- Every row lies in the block of the point that is its number over 1000. -/
theorem cover3 (i : S10000x512.Idx) : ∃ t : Fin cfg3.N, (cfg3.win 5).flush t = true ∧ i ∈ ((cfg3.win 5).blk t).view.set := by
  have hi0 : (i 0).val < 10000 := idx2_lt0 i
  have hi1 : (i 1).val < 512 := idx2_lt1 i
  let t : Fin cfg3.N := ⟨(i 0).val / 1000, by rw [show cfg3.N = 10 from N_3]; omega⟩
  obtain ⟨-, -, e0, e1, -⟩ := idx_facts3 t
  have e0' : win3_5.index t (0 : Fin 2) = (i 0).val / 1000 := e0
  refine ⟨t, flush3_5 t, ?_⟩
  rw [mem_blk3]
  intro a
  match a with
  | ⟨0, _⟩ => show win3_5.index t (0 : Fin 2) * 1000 ≤ (i 0).val ∧ (i 0).val < win3_5.index t (0 : Fin 2) * 1000 + 1000; omega
  | ⟨1, _⟩ => show win3_5.index t (1 : Fin 2) * 512 ≤ (i 1).val ∧ (i 1).val < win3_5.index t (1 : Fin 2) * 512 + 512; omega

/-- The output array after the region is the whole normalized array. -/
theorem final3 (c : Dev nD) : (dat3 V c).arrAt 5 cfg3.N = normWhole3 V c :=
  (dat3 V c).arrAt_eq_of_cover 5 (normWhole3 V c) (fun t _ => flushed3_eq V c t) cover3

/-- Entry (r, j) of the output array after the region: the payload of tile r / 1000 and the four rows at (r % 1000, j). -/
theorem normArray3 (c : Dev nD) (r : Fin 10000) (j : Fin 512) :
    ((dat3 V c).arrAt 5 cfg3.N : S10000x512.Idx → Elt F .f32) (ix2 r j)
      = k3_pay1 (V c (Pipeline.arrRef spec3 1) : S1x512.Idx → Elt F .f32) (V c (Pipeline.arrRef spec3 2) : S1x512.Idx → Elt F .f32)
          (rowsTile3 (V c (Pipeline.arrRef spec3 0) : S10000x512.Idx → Elt F .f32) (r.val / 1000) (by have := r.isLt; omega))
          (V c (Pipeline.arrRef spec3 3) : S1x512.Idx → Elt F .f32) (V c (Pipeline.arrRef spec3 4) : S1x512.Idx → Elt F .f32)
          (ix2 ⟨r.val % 1000, Nat.mod_lt _ (by decide)⟩ j) := by
  rw [final3]
  exact normWhole3_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the output is the normalisation, from the given sums, of the activation as the
    region finds it. -/
theorem normArray3_spec (c : Dev nD) (r : Fin 10000) (j : Fin 512) :
    ((dat3 V c).arrAt 5 cfg3.N : S10000x512.Idx → EReal) (ix2 r j)
      = Cert.Gin.normFrom (fun r l => (V c (Pipeline.arrRef spec3 0) : S10000x512.Idx → EReal) (ix2 r l))
          (fun l => (V c (Pipeline.arrRef spec3 1) : S1x512.Idx → EReal) (ix2 0 l))
          (fun l => (V c (Pipeline.arrRef spec3 2) : S1x512.Idx → EReal) (ix2 0 l))
          (fun l => (V c (Pipeline.arrRef spec3 3) : S1x512.Idx → EReal) (ix2 0 l))
          (fun l => (V c (Pipeline.arrRef spec3 4) : S1x512.Idx → EReal) (ix2 0 l)) r j := by
  refine (normArray3 V c r j).trans ?_
  refine (Cert.Gin.Ker.k3_pay1_apply _ _ _ _ _ _ j).trans ?_
  have e : (⟨1000 * (r.val / 1000) + r.val % 1000, by have := r.isLt; omega⟩ : Fin 10000) = r := Fin.ext (by show 1000 * (r.val / 1000) + r.val % 1000 = r.val; omega)
  unfold Cert.Gin.normFrom rowsTile3
  dsimp only
  rw [e]

end

end Cert.KernelIdeal.Arr

end
-- ==== Proof.KA.Layer2.lean ====
/-
  Layer 2 on the kernel side: the perceptron kernel's entry arrays are the aggregation of the previous layer's array,
  the layer's two weight matrices and its two bias rows, all cut out of the stacked arguments; the normalisation kernel's
  entry arrays are that kernel's three outputs and the scale and shift rows; so the normalisation kernel leaves the
  shared closed function's layer-2 array.
-/
import proofs.«100381_j2018634629568_1_alg».proof.Proof.KA.Glue
import proofs.«100381_j2018634629568_1_alg».proof.Proof.KA.Keep
import proofs.«100381_j2018634629568_1_alg».proof.Proof.KH.S0
import proofs.«100381_j2018634629568_1_alg».proof.Proof.KH.S2
import proofs.«100381_j2018634629568_1_alg».proof.Proof.KH.SOdd
import proofs.«100381_j2018634629568_1_alg».proof.Proof.KA.NormArray3

set_option maxRecDepth 16384

noncomputable section

namespace Cert.Gin.KerWhole

open Idealize.ShloMosaic Idealize.ShloMosaic.TcCoe Idealize.SL.Sem Idealize.ShloMosaic.ValueIdx
open Cert.KernelIdeal Cert.KernelIdeal.Gen Cert.Gin.Ref Cert.Gin.KerHost

variable (m : (ℓ : Loc nD τ sig) → Buf (Elt Ideal) ℓ) (c : Dev nD)

theorem in2_0 (hprev : X4 m c (Proc.devRef .tc main_v24) = H1 m c) :
    (E5 m c (Pipeline.arrRef spec2 0) : S10000x512.Idx → EReal) = refAgg512 (H1 m c) (srcI m c) (dstI m c) :=
  (h2_v47 (X4 m c)).trans
    (agg512_congr hprev ((X4_v1 m c).trans (h0_v1 (X0 m c))) ((X4_v3 m c).trans (h0_v3 (X0 m c))))
theorem in2_1 : (E5 m c (Pipeline.arrRef spec2 1) : S512x512.Idx → EReal) = (cutMat (F := Ideal) 0 (A7 m c) Cert.ReferenceIdeal.Gen.slices_S4x512x512_S1x512x512_0_0_0) :=
  (h2_v26 (X4 m c)).trans
    (congrArg (fun W => cutMat (F := Ideal) 0 W Cert.ReferenceIdeal.Gen.slices_S4x512x512_S1x512x512_0_0_0) (X4_launch m c main_arg7 (by decide)))
theorem in2_2 : (E5 m c (Pipeline.arrRef spec2 2) : S1x512.Idx → EReal) = rowOf (F := Ideal) (cutRow (F := Ideal) 0 (A8 m c) Cert.ReferenceIdeal.Gen.slices_S4x512_S1x512_0_0) :=
  (h2_v48 (X4 m c)).trans
    (congrArg (fun G => rowOf (F := Ideal) (cutRow (F := Ideal) 0 G Cert.ReferenceIdeal.Gen.slices_S4x512_S1x512_0_0)) (X4_launch m c main_arg8 (by decide)))
theorem in2_3 : (E5 m c (Pipeline.arrRef spec2 3) : S512x512.Idx → EReal) = (cutMat (F := Ideal) 0 (A9 m c) Cert.ReferenceIdeal.Gen.slices_S4x512x512_S1x512x512_0_0_0) :=
  (h2_v30 (X4 m c)).trans
    (congrArg (fun W => cutMat (F := Ideal) 0 W Cert.ReferenceIdeal.Gen.slices_S4x512x512_S1x512x512_0_0_0) (X4_launch m c main_arg9 (by decide)))
theorem in2_4 : (E5 m c (Pipeline.arrRef spec2 4) : S1x512.Idx → EReal) = rowOf (F := Ideal) (cutRow (F := Ideal) 0 (A10 m c) Cert.ReferenceIdeal.Gen.slices_S4x512_S1x512_0_0) :=
  (h2_v49 (X4 m c)).trans
    (congrArg (fun G => rowOf (F := Ideal) (cutRow (F := Ideal) 0 G Cert.ReferenceIdeal.Gen.slices_S4x512_S1x512_0_0)) (X4_launch m c main_arg10 (by decide)))

/-- Region 2's perceptron of its entry arrays, as coordinates. -/
def mlpAt2 (V : (c : Dev nD) → (b : Ref sig .tc) → Buf (Elt Ideal) ((c : Thread nD τ).loc b)) (c : Dev nD) :
    Fin 10000 → Fin 512 → EReal :=
  Cert.Gin.mlp (fun r l => (V c (Pipeline.arrRef spec2 0) : S10000x512.Idx → EReal) (ix2 r l))
    (fun l k => (V c (Pipeline.arrRef spec2 1) : S512x512.Idx → EReal) (ix2 l k))
    (fun k => (V c (Pipeline.arrRef spec2 2) : S1x512.Idx → EReal) (ix2 0 k))
    (fun k j => (V c (Pipeline.arrRef spec2 3) : S512x512.Idx → EReal) (ix2 k j))
    (fun j => (V c (Pipeline.arrRef spec2 4) : S1x512.Idx → EReal) (ix2 0 j))

/-- In the shared vocabulary. -/
theorem mlpAt2_eq (hprev : X4 m c (Proc.devRef .tc main_v24) = H1 m c) : mlpAt2 (E5 m) c
    = Cert.Gin.mlp (co2 (refAgg512 (H1 m c) (srcI m c) (dstI m c))) (co2 (cutMat (F := Ideal) 0 (A7 m c) Cert.ReferenceIdeal.Gen.slices_S4x512x512_S1x512x512_0_0_0)) (co1' (cutRow (F := Ideal) 0 (A8 m c) Cert.ReferenceIdeal.Gen.slices_S4x512_S1x512_0_0))
        (co2 (cutMat (F := Ideal) 0 (A9 m c) Cert.ReferenceIdeal.Gen.slices_S4x512x512_S1x512x512_0_0_0)) (co1' (cutRow (F := Ideal) 0 (A10 m c) Cert.ReferenceIdeal.Gen.slices_S4x512_S1x512_0_0)) := by
  unfold mlpAt2
  rw [in2_0 m c hprev, in2_1, in2_2, in2_3, in2_4]
  simp only [rowOf_apply]

theorem in3_0 : (E7 m c (Pipeline.arrRef spec3 0) : S10000x512.Idx → EReal) = (dat2 (E5 m) c).arrAt 5 cfg2.N :=
  (X7_keep m c main_v50_0 (by decide)).trans (X6_arr m c 5)
theorem in3_1 : (E7 m c (Pipeline.arrRef spec3 1) : S1x512.Idx → EReal) = (dat2 (E5 m) c).arrAt 6 cfg2.N :=
  (X7_keep m c main_v50_1 (by decide)).trans (X6_arr m c 6)
theorem in3_2 : (E7 m c (Pipeline.arrRef spec3 2) : S1x512.Idx → EReal) = (dat2 (E5 m) c).arrAt 7 cfg2.N :=
  (X7_keep m c main_v50_2 (by decide)).trans (X6_arr m c 7)
theorem in3_3 : (E7 m c (Pipeline.arrRef spec3 3) : S1x512.Idx → EReal) = rowOf (F := Ideal) (cutRow (F := Ideal) 1 (A11 m c) Cert.ReferenceIdeal.Gen.slices_S5x512_S1x512_1_0) :=
  (h3_v51 (X6 m c)).trans (congrArg (rowOf (F := Ideal))
    ((X6_keep m c main_v34 (by decide)).trans ((h2_v34 (X4 m c)).trans
      (congrArg (fun G => cutRow (F := Ideal) 1 G Cert.ReferenceIdeal.Gen.slices_S5x512_S1x512_1_0) (X4_launch m c main_arg11 (by decide))))))
theorem in3_4 : (E7 m c (Pipeline.arrRef spec3 4) : S1x512.Idx → EReal) = rowOf (F := Ideal) (cutRow (F := Ideal) 1 (A12 m c) Cert.ReferenceIdeal.Gen.slices_S5x512_S1x512_1_0) :=
  (h3_v52 (X6 m c)).trans (congrArg (rowOf (F := Ideal))
    ((X6_keep m c main_v36 (by decide)).trans ((h2_v36 (X4 m c)).trans
      (congrArg (fun G => cutRow (F := Ideal) 1 G Cert.ReferenceIdeal.Gen.slices_S5x512_S1x512_1_0) (X4_launch m c main_arg12 (by decide))))))

set_option maxHeartbeats 1000000 in
/-- LAYER 2: the normalisation kernel leaves the shared closed function's layer-2 array. -/
theorem layer2 (hprev : X4 m c (Proc.devRef .tc main_v24) = H1 m c)
    (hmlp : ∀ r j, ((dat2 (E5 m) c).arrAt 5 cfg2.N : S10000x512.Idx → EReal) (ix2 r j) = mlpAt2 (E5 m) c r j)
    (hsum : ∀ j, ((dat2 (E5 m) c).arrAt 6 cfg2.N : S1x512.Idx → EReal) (ix2 0 j) = Cert.Gin.colSum (mlpAt2 (E5 m) c) j)
    (hsq : ∀ j, ((dat2 (E5 m) c).arrAt 7 cfg2.N : S1x512.Idx → EReal) (ix2 0 j) = Cert.Gin.colSumSq (mlpAt2 (E5 m) c) j)
    (hH : Cert.Gin.IsReal2 (co2 (H1 m c))) (hWa : Cert.Gin.IsReal2 (co2 (cutMat (F := Ideal) 0 (A7 m c) Cert.ReferenceIdeal.Gen.slices_S4x512x512_S1x512x512_0_0_0)))
    (hba : Cert.Gin.IsReal1 (co1' (cutRow (F := Ideal) 0 (A8 m c) Cert.ReferenceIdeal.Gen.slices_S4x512_S1x512_0_0))) (hWb : Cert.Gin.IsReal2 (co2 (cutMat (F := Ideal) 0 (A9 m c) Cert.ReferenceIdeal.Gen.slices_S4x512x512_S1x512x512_0_0_0)))
    (hbb : Cert.Gin.IsReal1 (co1' (cutRow (F := Ideal) 0 (A10 m c) Cert.ReferenceIdeal.Gen.slices_S4x512_S1x512_0_0))) :
    X8 m c (Proc.devRef .tc main_v53) = H2 m c :=
  (X8_arr m c 5).trans <|
    refLayer512_unique (H1 m c) (srcI m c) (dstI m c) (cutMat (F := Ideal) 0 (A7 m c) Cert.ReferenceIdeal.Gen.slices_S4x512x512_S1x512x512_0_0_0) (cutRow (F := Ideal) 0 (A8 m c) Cert.ReferenceIdeal.Gen.slices_S4x512_S1x512_0_0) (cutMat (F := Ideal) 0 (A9 m c) Cert.ReferenceIdeal.Gen.slices_S4x512x512_S1x512x512_0_0_0) (cutRow (F := Ideal) 0 (A10 m c) Cert.ReferenceIdeal.Gen.slices_S4x512_S1x512_0_0) (cutRow (F := Ideal) 1 (A11 m c) Cert.ReferenceIdeal.Gen.slices_S5x512_S1x512_1_0) (cutRow (F := Ideal) 1 (A12 m c) Cert.ReferenceIdeal.Gen.slices_S5x512_S1x512_1_0)
      hH hWa hba hWb hbb _ fun r j =>
      (layer_glue _ _ _ _ _ _ (mlpAt2 (E5 m) c) _ _ (Cert.KernelIdeal.Arr.normArray3_spec (E7 m) c)
        (fun r l => (congrFun (in3_0 m c) (ix2 r l)).trans (hmlp r l))
        (fun l => (congrFun (in3_1 m c) (ix2 0 l)).trans (hsum l))
        (fun l => (congrFun (in3_2 m c) (ix2 0 l)).trans (hsq l))
        (in3_3 m c) (in3_4 m c) r j).trans
      (congrFun (congrFun (congrArg (fun M => Cert.Gin.normalize M _ _) (mlpAt2_eq m c hprev)) r) j)

end Cert.Gin.KerWhole

end
-- ==== Proof.KH.S4.lean ====
/-
  The kernel program's host stretch 4 read as functions of the contents it starts from: layer 3's two weight
  matrices and two bias vectors cut out of their stacks (the biases also as one-row matrices), the next
  normalisation's scale and shift vectors, and the aggregation of the previous layer's output — each the same host
  operations the reference applies.
-/
import proofs.«100381_j2018634629568_1_alg».proof.Proof.Gen.KernelIdeal.Launch
import proofs.«100381_j2018634629568_1_alg».proof.Proof.Gen.ReferenceIdeal
import proofs.«100381_j2018634629568_1_alg».proof.Proof.Ref.Cuts
import proofs.«100381_j2018634629568_1_alg».proof.Proof.Ref.Reals
import Idealize.ShloMosaic.Lib.StableHlo.Run

noncomputable section

namespace Cert.Gin.KerHost

open Idealize.ShloMosaic Idealize.ShloMosaic.StableHlo Cert.KernelIdeal Cert.KernelIdeal.Gen Cert.Gin.Ref

/-- The first weight matrix. -/
theorem h4_v55 (W : Valuation τ sig (Elt Ideal)) :
    after (hostOps4 (F := Ideal)) W (Proc.devRef .tc main_v55)
      = cutMat (F := Ideal) 1 (W (Proc.devRef .tc main_arg7)) Cert.ReferenceIdeal.Gen.slices_S4x512x512_S1x512x512_1_0_0 := by
  after_results_simp
  rfl

/-- The first bias vector. -/
theorem h4_v57 (W : Valuation τ sig (Elt Ideal)) :
    after (hostOps4 (F := Ideal)) W (Proc.devRef .tc main_v57)
      = cutRow (F := Ideal) 1 (W (Proc.devRef .tc main_arg8)) Cert.ReferenceIdeal.Gen.slices_S4x512_S1x512_1_0 := by
  after_results_simp
  rfl

/-- The second weight matrix. -/
theorem h4_v59 (W : Valuation τ sig (Elt Ideal)) :
    after (hostOps4 (F := Ideal)) W (Proc.devRef .tc main_v59)
      = cutMat (F := Ideal) 1 (W (Proc.devRef .tc main_arg9)) Cert.ReferenceIdeal.Gen.slices_S4x512x512_S1x512x512_1_0_0 := by
  after_results_simp
  rfl

/-- The second bias vector. -/
theorem h4_v61 (W : Valuation τ sig (Elt Ideal)) :
    after (hostOps4 (F := Ideal)) W (Proc.devRef .tc main_v61)
      = cutRow (F := Ideal) 1 (W (Proc.devRef .tc main_arg10)) Cert.ReferenceIdeal.Gen.slices_S4x512_S1x512_1_0 := by
  after_results_simp
  rfl

/-- The next normalisation's scale vector. -/
theorem h4_v63 (W : Valuation τ sig (Elt Ideal)) :
    after (hostOps4 (F := Ideal)) W (Proc.devRef .tc main_v63)
      = cutRow (F := Ideal) 2 (W (Proc.devRef .tc main_arg11)) Cert.ReferenceIdeal.Gen.slices_S5x512_S1x512_2_0 := by
  after_results_simp
  rfl

/-- The next normalisation's shift vector. -/
theorem h4_v65 (W : Valuation τ sig (Elt Ideal)) :
    after (hostOps4 (F := Ideal)) W (Proc.devRef .tc main_v65)
      = cutRow (F := Ideal) 2 (W (Proc.devRef .tc main_arg12)) Cert.ReferenceIdeal.Gen.slices_S5x512_S1x512_2_0 := by
  after_results_simp
  rfl

/-- The aggregated previous layer. -/
theorem h4_v76 (W : Valuation τ sig (Elt Ideal)) :
    after (hostOps4 (F := Ideal)) W (Proc.devRef .tc main_v76)
      = refAgg512 (W (Proc.devRef .tc main_v53)) (srcIdx (W (Proc.devRef .tc main_v1))) (dstIdx (W (Proc.devRef .tc main_v3))) := by
  after_results_simp
  rfl

/-- The first bias as a one-row matrix. -/
theorem h4_v77 (W : Valuation τ sig (Elt Ideal)) :
    after (hostOps4 (F := Ideal)) W (Proc.devRef .tc main_v77)
      = rowOf (F := Ideal) (cutRow (F := Ideal) 1 (W (Proc.devRef .tc main_arg8)) Cert.ReferenceIdeal.Gen.slices_S4x512_S1x512_1_0) := by
  after_results_simp
  rfl

/-- The second bias as a one-row matrix. -/
theorem h4_v78 (W : Valuation τ sig (Elt Ideal)) :
    after (hostOps4 (F := Ideal)) W (Proc.devRef .tc main_v78)
      = rowOf (F := Ideal) (cutRow (F := Ideal) 1 (W (Proc.devRef .tc main_arg10)) Cert.ReferenceIdeal.Gen.slices_S4x512_S1x512_1_0) := by
  after_results_simp
  rfl

end Cert.Gin.KerHost

end
-- ==== Proof.KA.NormArray5.lean ====
/-
  The output array of a normalisation region, entry by entry. The region walks ten row tiles of 1000; at tile t the
  body stores one pointwise function of the tile and of four 1 x 512 rows (column sums, column sums of squares, scale,
  shift) into the output's block t. A row window has a single block, the whole row, at every tile; the activation's
  and the output's block t are rows 1000 t .. 1000 t + 999. So the ten blocks written back are the ten row blocks of
  ONE whole-array function, they tile the array, and entry (r, j) of the output is the body's function of tile r / 1000
  read at (r % 1000, j) — at the ideal instance, the specification's normalisation from the given sums at (r, j).
-/
import proofs.«100381_j2018634629568_1_alg».proof.Proof.KI.Norm5
import proofs.«100381_j2018634629568_1_alg».proof.Proof.KV.Norm
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem
open Idealize.ShloMosaic.Pipeline (Dat)
open Idealize.ShloMosaic.ValueIdx
open Cert.KernelIdeal Cert.KernelIdeal.Gen

section
variable {F : FTy → Type} [FloatOps F]
variable (V : (c : Dev nD) → (b : Ref sig .tc) → Buf (Elt F) ((c : Thread nD τ).loc b))

theorem zeroOff5 : (![0, 0] : Fin 2 → Nat) = fun _ => 0 := funext fun a => by fin_cases a <;> rfl

/-- The tile the body leaves is its payload of the five blocks: the one store goes through the whole tile. -/
theorem normTile5_eq (a : Vec F S1000x512 .f32) (s q g b : Vec F S1x512 .f32) :
    normTile5 a s q g b = k5_pay1 s q a g b := by
  unfold normTile5
  rw [View.canon_unit_zero zeroOff5]
  simp only [View.ld_unit_zero (S := S1000x512) zeroOff5, View.ld_unit_zero (S := S1x512) zeroOff5]

/-- The index maps over the grid: the activation's and the output's block at point t is block (t, 0); every row window
    stays at block (0, 0). -/
theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The activation's block at point t, entry (p, j), is the array's entry (1000 t + p, j). -/
theorem tile5_apply (c : Dev nD) (t : Fin cfg5.N) (p : Fin 1000) (j : Fin 512) (r : Fin 10000) (hr : r.val = 1000 * t.val + p.val) :
    (blockAt5 V c 0 t : Vec F S1000x512 .f32) (ix2 p j) = (V c (Pipeline.arrRef spec5 0) : S10000x512.Idx → Elt F .f32) (ix2 r j) := by
  obtain ⟨e0, e1, -⟩ := idx_facts5 t
  unfold blockAt5
  rw [View.read_apply]
  show V c (Pipeline.arrRef spec5 0) _ = V c (Pipeline.arrRef spec5 0) _
  congr 1
  funext a
  apply Fin.ext
  match a with
  | ⟨0, _⟩ => show win5_0.index t (0 : Fin 2) * 1000 + 1 * p.val = r.val; rw [e0, hr]; omega
  | ⟨1, _⟩ => show win5_0.index t (1 : Fin 2) * 512 + 1 * j.val = j.val; rw [e1]; omega

/-! A [1,512] row's window has one block, the whole row: at every point its block is the array itself. -/
theorem rowBlock5_1 (c : Dev nD) (t : Fin cfg5.N) :
    (blockAt5 V c 1 t : Vec F S1x512 .f32) = (V c (Pipeline.arrRef spec5 1) : S1x512.Idx → Elt F .f32) := by
  have e0 : win5_1.index t (0 : Fin 2) = 0 := by have := idx_facts5 t; simp only [this]
  have e1 : win5_1.index t (1 : Fin 2) = 0 := by have := idx_facts5 t; simp only [this]
  funext y
  unfold blockAt5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * (y 0).val = (y 0).val; rw [e0]; omega
  | ⟨1, _⟩ => show win5_1.index t (1 : Fin 2) * 512 + 1 * (y 1).val = (y 1).val; rw [e1]; omega
theorem rowBlock5_2 (c : Dev nD) (t : Fin cfg5.N) :
    (blockAt5 V c 2 t : Vec F S1x512 .f32) = (V c (Pipeline.arrRef spec5 2) : S1x512.Idx → Elt F .f32) := by
  have e0 : win5_2.index t (0 : Fin 2) = 0 := by have := idx_facts5 t; simp only [this]
  have e1 : win5_2.index t (1 : Fin 2) = 0 := by have := idx_facts5 t; simp only [this]
  funext y
  unfold blockAt5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 512 + 1 * (y 1).val = (y 1).val; rw [e1]; omega
theorem rowBlock5_3 (c : Dev nD) (t : Fin cfg5.N) :
    (blockAt5 V c 3 t : Vec F S1x512 .f32) = (V c (Pipeline.arrRef spec5 3) : S1x512.Idx → Elt F .f32) := by
  have e0 : win5_3.index t (0 : Fin 2) = 0 := by have := idx_facts5 t; simp only [this]
  have e1 : win5_3.index t (1 : Fin 2) = 0 := by have := idx_facts5 t; simp only [this]
  funext y
  unfold blockAt5
  rw [View.read_apply]
  show V c (Pipeline.arrRef spec5 3) _ = V c (Pipeline.arrRef spec5 3) _
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 512 + 1 * (y 1).val = (y 1).val; rw [e1]; omega
theorem rowBlock5_4 (c : Dev nD) (t : Fin cfg5.N) :
    (blockAt5 V c 4 t : Vec F S1x512 .f32) = (V c (Pipeline.arrRef spec5 4) : S1x512.Idx → Elt F .f32) := by
  have e0 : win5_4.index t (0 : Fin 2) = 0 := by have := idx_facts5 t; simp only [this]
  have e1 : win5_4.index t (1 : Fin 2) = 0 := by have := idx_facts5 t; simp only [this]
  funext y
  unfold blockAt5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 512 + 1 * (y 1).val = (y 1).val; rw [e1]; omega

/-- Rows 1000 t … 1000 t + 999 of a [10000,512] array, as a [1000,512] tile. -/
def rowsTile5 (X : S10000x512.Idx → Elt F .f32) (t : Nat) (ht : t < 10) : Vec F S1000x512 .f32 :=
  fun y => X (ix2 ⟨1000 * t + (y 0).val, by have := idx2_lt0 y; omega⟩ (y 1))

theorem tileBlock5 (c : Dev nD) (t : Fin cfg5.N) (ht : t.val < 10) :
    (blockAt5 V c 0 t : Vec F S1000x512 .f32) = rowsTile5 (V c (Pipeline.arrRef spec5 0) : S10000x512.Idx → Elt F .f32) t.val ht := by
  funext y
  obtain ⟨p, j, rfl⟩ : ∃ (p : Fin 1000) (j : Fin 512), y = ix2 p j := ⟨y 0, y 1, eq_ix2 y⟩
  exact tile5_apply V c t p j _ rfl

/-- The whole normalized array: entry (r, j) is the payload of tile r / 1000 and of the four rows, at (r % 1000, j). -/
def normWhole5 (c : Dev nD) : S10000x512.Idx → Elt F .f32 := fun i =>
  k5_pay1 (V c (Pipeline.arrRef spec5 1) : S1x512.Idx → Elt F .f32) (V c (Pipeline.arrRef spec5 2) : S1x512.Idx → Elt F .f32)
    (rowsTile5 (V c (Pipeline.arrRef spec5 0) : S10000x512.Idx → Elt F .f32) ((i 0).val / 1000) (by have := idx2_lt0 i; omega))
    (V c (Pipeline.arrRef spec5 3) : S1x512.Idx → Elt F .f32) (V c (Pipeline.arrRef spec5 4) : S1x512.Idx → Elt F .f32)
    (ix2 ⟨(i 0).val % 1000, Nat.mod_lt _ (by decide)⟩ (i 1))

/-- The whole array at an index whose row is 1000 t + p. -/
theorem normWhole5_apply (c : Dev nD) (i : S10000x512.Idx) (t : Nat) (ht : t < 10) (p : Fin 1000) (j : Fin 512)
    (h0 : (i 0).val = 1000 * t + p.val) (h1 : (i 1).val = j.val) :
    normWhole5 V c i = k5_pay1 (V c (Pipeline.arrRef spec5 1) : S1x512.Idx → Elt F .f32) (V c (Pipeline.arrRef spec5 2) : S1x512.Idx → Elt F .f32)
      (rowsTile5 (V c (Pipeline.arrRef spec5 0) : S10000x512.Idx → Elt F .f32) t ht)
      (V c (Pipeline.arrRef spec5 3) : S1x512.Idx → Elt F .f32) (V c (Pipeline.arrRef spec5 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k5_pay1 (V c (Pipeline.arrRef spec5 1) : S1x512.Idx → Elt F .f32) (V c (Pipeline.arrRef spec5 2) : S1x512.Idx → Elt F .f32)
        (rowsTile5 (V c (Pipeline.arrRef spec5 0) : S10000x512.Idx → Elt F .f32) t' ht')
        (V c (Pipeline.arrRef spec5 3) : S1x512.Idx → Elt F .f32) (V c (Pipeline.arrRef spec5 4) : S1x512.Idx → Elt F .f32) (ix2 p' j')
      = k5_pay1 (V c (Pipeline.arrRef spec5 1) : S1x512.Idx → Elt F .f32) (V c (Pipeline.arrRef spec5 2) : S1x512.Idx → Elt F .f32)
        (rowsTile5 (V c (Pipeline.arrRef spec5 0) : S10000x512.Idx → Elt F .f32) t ht)
        (V c (Pipeline.arrRef spec5 3) : S1x512.Idx → Elt F .f32) (V c (Pipeline.arrRef spec5 4) : S1x512.Idx → Elt F .f32) (ix2 p j) := by
    intro t' ht' p' j' e e' e''; subst e e' e''; rfl
  exact key _ _ _ _ e1 (Fin.ext e2) (Fin.ext h1)

/-- What point t writes back is block t of the whole normalized array. -/
theorem flushed5_eq (c : Dev nD) (t : Fin cfg5.N) :
    (dat5 V c).flushed 5 t = ((cfg5.win 5).blk t).view.read (Elt F) (normWhole5 V c) := by
  have ht : t.val < 10 := Nat.lt_of_lt_of_eq t.isLt N_5
  obtain ⟨-, -, e0, e1, -⟩ := idx_facts5 t
  show (cfg5.win 5).cut (grid5.coords t) ((dat5 V c).after 5 t) = _
  rw [dat5_after5, normTile5_eq, rowBlock5_1, rowBlock5_2, rowBlock5_3, rowBlock5_4, tileBlock5 V c t ht]
  funext y
  obtain ⟨p, j, rfl⟩ : ∃ (p : Fin 1000) (j : Fin 512), y = ix2 p j := ⟨y 0, y 1, eq_ix2 y⟩
  rw [View.read_apply]
  refine (normWhole5_apply V c _ t.val ht p j ?_ ?_).symm
  · show win5_5.index t (0 : Fin 2) * 1000 + 1 * p.val = _; rw [e0]; omega
  · show win5_5.index t (1 : Fin 2) * 512 + 1 * j.val = _; rw [e1]; omega

/-- An index of the array is in point t's block iff each coordinate is in the block's range on its axis. -/
theorem mem_blk5 (t : Fin cfg5.N) (i : S10000x512.Idx) :
    i ∈ ((cfg5.win 5).blk t).view.set ↔ ∀ a : Fin 2, win5_5.index t a * S1000x512.size a ≤ (i a).val ∧ (i a).val < win5_5.index t a * S1000x512.size a + S1000x512.size a := by
  show i ∈ ((View.whole main_v82).slice (win5_5.rect t)).set ↔ _
  rw [View.set_slice_whole, Rect.mem_set_unit]
  exact Iff.rfl

/-- Every row lies in the block of the point that is its number over 1000. -/
theorem cover5 (i : S10000x512.Idx) : ∃ t : Fin cfg5.N, (cfg5.win 5).flush t = true ∧ i ∈ ((cfg5.win 5).blk t).view.set := by
  have hi0 : (i 0).val < 10000 := idx2_lt0 i
  have hi1 : (i 1).val < 512 := idx2_lt1 i
  let t : Fin cfg5.N := ⟨(i 0).val / 1000, by rw [show cfg5.N = 10 from N_5]; omega⟩
  obtain ⟨-, -, e0, e1, -⟩ := idx_facts5 t
  have e0' : win5_5.index t (0 : Fin 2) = (i 0).val / 1000 := e0
  refine ⟨t, flush5_5 t, ?_⟩
  rw [mem_blk5]
  intro a
  match a with
  | ⟨0, _⟩ => show win5_5.index t (0 : Fin 2) * 1000 ≤ (i 0).val ∧ (i 0).val < win5_5.index t (0 : Fin 2) * 1000 + 1000; omega
  | ⟨1, _⟩ => show win5_5.index t (1 : Fin 2) * 512 ≤ (i 1).val ∧ (i 1).val < win5_5.index t (1 : Fin 2) * 512 + 512; omega

/-- The output array after the region is the whole normalized array. -/
theorem final5 (c : Dev nD) : (dat5 V c).arrAt 5 cfg5.N = normWhole5 V c :=
  (dat5 V c).arrAt_eq_of_cover 5 (normWhole5 V c) (fun t _ => flushed5_eq V c t) cover5

/-- Entry (r, j) of the output array after the region: the payload of tile r / 1000 and the four rows at (r % 1000, j). -/
theorem normArray5 (c : Dev nD) (r : Fin 10000) (j : Fin 512) :
    ((dat5 V c).arrAt 5 cfg5.N : S10000x512.Idx → Elt F .f32) (ix2 r j)
      = k5_pay1 (V c (Pipeline.arrRef spec5 1) : S1x512.Idx → Elt F .f32) (V c (Pipeline.arrRef spec5 2) : S1x512.Idx → Elt F .f32)
          (rowsTile5 (V c (Pipeline.arrRef spec5 0) : S10000x512.Idx → Elt F .f32) (r.val / 1000) (by have := r.isLt; omega))
          (V c (Pipeline.arrRef spec5 3) : S1x512.Idx → Elt F .f32) (V c (Pipeline.arrRef spec5 4) : S1x512.Idx → Elt F .f32)
          (ix2 ⟨r.val % 1000, Nat.mod_lt _ (by decide)⟩ j) := by
  rw [final5]
  exact normWhole5_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the output is the normalisation, from the given sums, of the activation as the
    region finds it. -/
theorem normArray5_spec (c : Dev nD) (r : Fin 10000) (j : Fin 512) :
    ((dat5 V c).arrAt 5 cfg5.N : S10000x512.Idx → EReal) (ix2 r j)
      = Cert.Gin.normFrom (fun r l => (V c (Pipeline.arrRef spec5 0) : S10000x512.Idx → EReal) (ix2 r l))
          (fun l => (V c (Pipeline.arrRef spec5 1) : S1x512.Idx → EReal) (ix2 0 l))
          (fun l => (V c (Pipeline.arrRef spec5 2) : S1x512.Idx → EReal) (ix2 0 l))
          (fun l => (V c (Pipeline.arrRef spec5 3) : S1x512.Idx → EReal) (ix2 0 l))
          (fun l => (V c (Pipeline.arrRef spec5 4) : S1x512.Idx → EReal) (ix2 0 l)) r j := by
  refine (normArray5 V c r j).trans ?_
  refine (Cert.Gin.Ker.k5_pay1_apply _ _ _ _ _ _ j).trans ?_
  have e : (⟨1000 * (r.val / 1000) + r.val % 1000, by have := r.isLt; omega⟩ : Fin 10000) = r := Fin.ext (by show 1000 * (r.val / 1000) + r.val % 1000 = r.val; omega)
  unfold Cert.Gin.normFrom rowsTile5
  dsimp only
  rw [e]

end

end Cert.KernelIdeal.Arr

end
-- ==== Proof.KA.Layer3.lean ====
/-
  Layer 3 on the kernel side: the perceptron kernel's entry arrays are the aggregation of the previous layer's array,
  the layer's two weight matrices and its two bias rows, all cut out of the stacked arguments; the normalisation kernel's
  entry arrays are that kernel's three outputs and the scale and shift rows; so the normalisation kernel leaves the
  shared closed function's layer-3 array.
-/
import proofs.«100381_j2018634629568_1_alg».proof.Proof.KA.Glue
import proofs.«100381_j2018634629568_1_alg».proof.Proof.KA.Keep
import proofs.«100381_j2018634629568_1_alg».proof.Proof.KH.S0
import proofs.«100381_j2018634629568_1_alg».proof.Proof.KH.S4
import proofs.«100381_j2018634629568_1_alg».proof.Proof.KH.SOdd
import proofs.«100381_j2018634629568_1_alg».proof.Proof.KA.NormArray5

set_option maxRecDepth 16384

noncomputable section

namespace Cert.Gin.KerWhole

open Idealize.ShloMosaic Idealize.ShloMosaic.TcCoe Idealize.SL.Sem Idealize.ShloMosaic.ValueIdx
open Cert.KernelIdeal Cert.KernelIdeal.Gen Cert.Gin.Ref Cert.Gin.KerHost

variable (m : (ℓ : Loc nD τ sig) → Buf (Elt Ideal) ℓ) (c : Dev nD)

theorem in4_0 (hprev : X8 m c (Proc.devRef .tc main_v53) = H2 m c) :
    (E9 m c (Pipeline.arrRef spec4 0) : S10000x512.Idx → EReal) = refAgg512 (H2 m c) (srcI m c) (dstI m c) :=
  (h4_v76 (X8 m c)).trans
    (agg512_congr hprev ((X8_v1 m c).trans (h0_v1 (X0 m c))) ((X8_v3 m c).trans (h0_v3 (X0 m c))))
theorem in4_1 : (E9 m c (Pipeline.arrRef spec4 1) : S512x512.Idx → EReal) = (cutMat (F := Ideal) 1 (A7 m c) Cert.ReferenceIdeal.Gen.slices_S4x512x512_S1x512x512_1_0_0) :=
  (h4_v55 (X8 m c)).trans
    (congrArg (fun W => cutMat (F := Ideal) 1 W Cert.ReferenceIdeal.Gen.slices_S4x512x512_S1x512x512_1_0_0) (X8_launch m c main_arg7 (by decide)))
theorem in4_2 : (E9 m c (Pipeline.arrRef spec4 2) : S1x512.Idx → EReal) = rowOf (F := Ideal) (cutRow (F := Ideal) 1 (A8 m c) Cert.ReferenceIdeal.Gen.slices_S4x512_S1x512_1_0) :=
  (h4_v77 (X8 m c)).trans
    (congrArg (fun G => rowOf (F := Ideal) (cutRow (F := Ideal) 1 G Cert.ReferenceIdeal.Gen.slices_S4x512_S1x512_1_0)) (X8_launch m c main_arg8 (by decide)))
theorem in4_3 : (E9 m c (Pipeline.arrRef spec4 3) : S512x512.Idx → EReal) = (cutMat (F := Ideal) 1 (A9 m c) Cert.ReferenceIdeal.Gen.slices_S4x512x512_S1x512x512_1_0_0) :=
  (h4_v59 (X8 m c)).trans
    (congrArg (fun W => cutMat (F := Ideal) 1 W Cert.ReferenceIdeal.Gen.slices_S4x512x512_S1x512x512_1_0_0) (X8_launch m c main_arg9 (by decide)))
theorem in4_4 : (E9 m c (Pipeline.arrRef spec4 4) : S1x512.Idx → EReal) = rowOf (F := Ideal) (cutRow (F := Ideal) 1 (A10 m c) Cert.ReferenceIdeal.Gen.slices_S4x512_S1x512_1_0) :=
  (h4_v78 (X8 m c)).trans
    (congrArg (fun G => rowOf (F := Ideal) (cutRow (F := Ideal) 1 G Cert.ReferenceIdeal.Gen.slices_S4x512_S1x512_1_0)) (X8_launch m c main_arg10 (by decide)))

/-- Region 4's perceptron of its entry arrays, as coordinates. -/
def mlpAt4 (V : (c : Dev nD) → (b : Ref sig .tc) → Buf (Elt Ideal) ((c : Thread nD τ).loc b)) (c : Dev nD) :
    Fin 10000 → Fin 512 → EReal :=
  Cert.Gin.mlp (fun r l => (V c (Pipeline.arrRef spec4 0) : S10000x512.Idx → EReal) (ix2 r l))
    (fun l k => (V c (Pipeline.arrRef spec4 1) : S512x512.Idx → EReal) (ix2 l k))
    (fun k => (V c (Pipeline.arrRef spec4 2) : S1x512.Idx → EReal) (ix2 0 k))
    (fun k j => (V c (Pipeline.arrRef spec4 3) : S512x512.Idx → EReal) (ix2 k j))
    (fun j => (V c (Pipeline.arrRef spec4 4) : S1x512.Idx → EReal) (ix2 0 j))

/-- In the shared vocabulary. -/
theorem mlpAt4_eq (hprev : X8 m c (Proc.devRef .tc main_v53) = H2 m c) : mlpAt4 (E9 m) c
    = Cert.Gin.mlp (co2 (refAgg512 (H2 m c) (srcI m c) (dstI m c))) (co2 (cutMat (F := Ideal) 1 (A7 m c) Cert.ReferenceIdeal.Gen.slices_S4x512x512_S1x512x512_1_0_0)) (co1' (cutRow (F := Ideal) 1 (A8 m c) Cert.ReferenceIdeal.Gen.slices_S4x512_S1x512_1_0))
        (co2 (cutMat (F := Ideal) 1 (A9 m c) Cert.ReferenceIdeal.Gen.slices_S4x512x512_S1x512x512_1_0_0)) (co1' (cutRow (F := Ideal) 1 (A10 m c) Cert.ReferenceIdeal.Gen.slices_S4x512_S1x512_1_0)) := by
  unfold mlpAt4
  rw [in4_0 m c hprev, in4_1, in4_2, in4_3, in4_4]
  simp only [rowOf_apply]

theorem in5_0 : (E11 m c (Pipeline.arrRef spec5 0) : S10000x512.Idx → EReal) = (dat4 (E9 m) c).arrAt 5 cfg4.N :=
  (X11_keep m c main_v79_0 (by decide)).trans (X10_arr m c 5)
theorem in5_1 : (E11 m c (Pipeline.arrRef spec5 1) : S1x512.Idx → EReal) = (dat4 (E9 m) c).arrAt 6 cfg4.N :=
  (X11_keep m c main_v79_1 (by decide)).trans (X10_arr m c 6)
theorem in5_2 : (E11 m c (Pipeline.arrRef spec5 2) : S1x512.Idx → EReal) = (dat4 (E9 m) c).arrAt 7 cfg4.N :=
  (X11_keep m c main_v79_2 (by decide)).trans (X10_arr m c 7)
theorem in5_3 : (E11 m c (Pipeline.arrRef spec5 3) : S1x512.Idx → EReal) = rowOf (F := Ideal) (cutRow (F := Ideal) 2 (A11 m c) Cert.ReferenceIdeal.Gen.slices_S5x512_S1x512_2_0) :=
  (h5_v80 (X10 m c)).trans (congrArg (rowOf (F := Ideal))
    ((X10_keep m c main_v63 (by decide)).trans ((h4_v63 (X8 m c)).trans
      (congrArg (fun G => cutRow (F := Ideal) 2 G Cert.ReferenceIdeal.Gen.slices_S5x512_S1x512_2_0) (X8_launch m c main_arg11 (by decide))))))
theorem in5_4 : (E11 m c (Pipeline.arrRef spec5 4) : S1x512.Idx → EReal) = rowOf (F := Ideal) (cutRow (F := Ideal) 2 (A12 m c) Cert.ReferenceIdeal.Gen.slices_S5x512_S1x512_2_0) :=
  (h5_v81 (X10 m c)).trans (congrArg (rowOf (F := Ideal))
    ((X10_keep m c main_v65 (by decide)).trans ((h4_v65 (X8 m c)).trans
      (congrArg (fun G => cutRow (F := Ideal) 2 G Cert.ReferenceIdeal.Gen.slices_S5x512_S1x512_2_0) (X8_launch m c main_arg12 (by decide))))))

set_option maxHeartbeats 1000000 in
/-- LAYER 3: the normalisation kernel leaves the shared closed function's layer-3 array. -/
theorem layer3 (hprev : X8 m c (Proc.devRef .tc main_v53) = H2 m c)
    (hmlp : ∀ r j, ((dat4 (E9 m) c).arrAt 5 cfg4.N : S10000x512.Idx → EReal) (ix2 r j) = mlpAt4 (E9 m) c r j)
    (hsum : ∀ j, ((dat4 (E9 m) c).arrAt 6 cfg4.N : S1x512.Idx → EReal) (ix2 0 j) = Cert.Gin.colSum (mlpAt4 (E9 m) c) j)
    (hsq : ∀ j, ((dat4 (E9 m) c).arrAt 7 cfg4.N : S1x512.Idx → EReal) (ix2 0 j) = Cert.Gin.colSumSq (mlpAt4 (E9 m) c) j)
    (hH : Cert.Gin.IsReal2 (co2 (H2 m c))) (hWa : Cert.Gin.IsReal2 (co2 (cutMat (F := Ideal) 1 (A7 m c) Cert.ReferenceIdeal.Gen.slices_S4x512x512_S1x512x512_1_0_0)))
    (hba : Cert.Gin.IsReal1 (co1' (cutRow (F := Ideal) 1 (A8 m c) Cert.ReferenceIdeal.Gen.slices_S4x512_S1x512_1_0))) (hWb : Cert.Gin.IsReal2 (co2 (cutMat (F := Ideal) 1 (A9 m c) Cert.ReferenceIdeal.Gen.slices_S4x512x512_S1x512x512_1_0_0)))
    (hbb : Cert.Gin.IsReal1 (co1' (cutRow (F := Ideal) 1 (A10 m c) Cert.ReferenceIdeal.Gen.slices_S4x512_S1x512_1_0))) :
    X12 m c (Proc.devRef .tc main_v82) = H3 m c :=
  (X12_arr m c 5).trans <|
    refLayer512_unique (H2 m c) (srcI m c) (dstI m c) (cutMat (F := Ideal) 1 (A7 m c) Cert.ReferenceIdeal.Gen.slices_S4x512x512_S1x512x512_1_0_0) (cutRow (F := Ideal) 1 (A8 m c) Cert.ReferenceIdeal.Gen.slices_S4x512_S1x512_1_0) (cutMat (F := Ideal) 1 (A9 m c) Cert.ReferenceIdeal.Gen.slices_S4x512x512_S1x512x512_1_0_0) (cutRow (F := Ideal) 1 (A10 m c) Cert.ReferenceIdeal.Gen.slices_S4x512_S1x512_1_0) (cutRow (F := Ideal) 2 (A11 m c) Cert.ReferenceIdeal.Gen.slices_S5x512_S1x512_2_0) (cutRow (F := Ideal) 2 (A12 m c) Cert.ReferenceIdeal.Gen.slices_S5x512_S1x512_2_0)
      hH hWa hba hWb hbb _ fun r j =>
      (layer_glue _ _ _ _ _ _ (mlpAt4 (E9 m) c) _ _ (Cert.KernelIdeal.Arr.normArray5_spec (E11 m) c)
        (fun r l => (congrFun (in5_0 m c) (ix2 r l)).trans (hmlp r l))
        (fun l => (congrFun (in5_1 m c) (ix2 0 l)).trans (hsum l))
        (fun l => (congrFun (in5_2 m c) (ix2 0 l)).trans (hsq l))
        (in5_3 m c) (in5_4 m c) r j).trans
      (congrFun (congrFun (congrArg (fun M => Cert.Gin.normalize M _ _) (mlpAt4_eq m c hprev)) r) j)

end Cert.Gin.KerWhole

end
-- ==== Proof.KH.S6.lean ====
/-
  The kernel program's host stretch 6 read as functions of the contents it starts from: layer 4's two weight
  matrices and two bias vectors cut out of their stacks (the biases also as one-row matrices), the next
  normalisation's scale and shift vectors, and the aggregation of the previous layer's output — each the same host
  operations the reference applies.
-/
import proofs.«100381_j2018634629568_1_alg».proof.Proof.Gen.KernelIdeal.Launch
import proofs.«100381_j2018634629568_1_alg».proof.Proof.Gen.ReferenceIdeal
import proofs.«100381_j2018634629568_1_alg».proof.Proof.Ref.Cuts
import proofs.«100381_j2018634629568_1_alg».proof.Proof.Ref.Reals
import Idealize.ShloMosaic.Lib.StableHlo.Run

noncomputable section

namespace Cert.Gin.KerHost

open Idealize.ShloMosaic Idealize.ShloMosaic.StableHlo Cert.KernelIdeal Cert.KernelIdeal.Gen Cert.Gin.Ref

/-- The first weight matrix. -/
theorem h6_v84 (W : Valuation τ sig (Elt Ideal)) :
    after (hostOps6 (F := Ideal)) W (Proc.devRef .tc main_v84)
      = cutMat (F := Ideal) 2 (W (Proc.devRef .tc main_arg7)) Cert.ReferenceIdeal.Gen.slices_S4x512x512_S1x512x512_2_0_0 := by
  after_results_simp
  rfl

/-- The first bias vector. -/
theorem h6_v86 (W : Valuation τ sig (Elt Ideal)) :
    after (hostOps6 (F := Ideal)) W (Proc.devRef .tc main_v86)
      = cutRow (F := Ideal) 2 (W (Proc.devRef .tc main_arg8)) Cert.ReferenceIdeal.Gen.slices_S4x512_S1x512_2_0 := by
  after_results_simp
  rfl

/-- The second weight matrix. -/
theorem h6_v88 (W : Valuation τ sig (Elt Ideal)) :
    after (hostOps6 (F := Ideal)) W (Proc.devRef .tc main_v88)
      = cutMat (F := Ideal) 2 (W (Proc.devRef .tc main_arg9)) Cert.ReferenceIdeal.Gen.slices_S4x512x512_S1x512x512_2_0_0 := by
  after_results_simp
  rfl

/-- The second bias vector. -/
theorem h6_v90 (W : Valuation τ sig (Elt Ideal)) :
    after (hostOps6 (F := Ideal)) W (Proc.devRef .tc main_v90)
      = cutRow (F := Ideal) 2 (W (Proc.devRef .tc main_arg10)) Cert.ReferenceIdeal.Gen.slices_S4x512_S1x512_2_0 := by
  after_results_simp
  rfl

/-- The next normalisation's scale vector. -/
theorem h6_v92 (W : Valuation τ sig (Elt Ideal)) :
    after (hostOps6 (F := Ideal)) W (Proc.devRef .tc main_v92)
      = cutRow (F := Ideal) 3 (W (Proc.devRef .tc main_arg11)) Cert.ReferenceIdeal.Gen.slices_S5x512_S1x512_3_0 := by
  after_results_simp
  rfl

/-- The next normalisation's shift vector. -/
theorem h6_v94 (W : Valuation τ sig (Elt Ideal)) :
    after (hostOps6 (F := Ideal)) W (Proc.devRef .tc main_v94)
      = cutRow (F := Ideal) 3 (W (Proc.devRef .tc main_arg12)) Cert.ReferenceIdeal.Gen.slices_S5x512_S1x512_3_0 := by
  after_results_simp
  rfl

/-- The aggregated previous layer. -/
theorem h6_v105 (W : Valuation τ sig (Elt Ideal)) :
    after (hostOps6 (F := Ideal)) W (Proc.devRef .tc main_v105)
      = refAgg512 (W (Proc.devRef .tc main_v82)) (srcIdx (W (Proc.devRef .tc main_v1))) (dstIdx (W (Proc.devRef .tc main_v3))) := by
  after_results_simp
  rfl

/-- The first bias as a one-row matrix. -/
theorem h6_v106 (W : Valuation τ sig (Elt Ideal)) :
    after (hostOps6 (F := Ideal)) W (Proc.devRef .tc main_v106)
      = rowOf (F := Ideal) (cutRow (F := Ideal) 2 (W (Proc.devRef .tc main_arg8)) Cert.ReferenceIdeal.Gen.slices_S4x512_S1x512_2_0) := by
  after_results_simp
  rfl

/-- The second bias as a one-row matrix. -/
theorem h6_v107 (W : Valuation τ sig (Elt Ideal)) :
    after (hostOps6 (F := Ideal)) W (Proc.devRef .tc main_v107)
      = rowOf (F := Ideal) (cutRow (F := Ideal) 2 (W (Proc.devRef .tc main_arg10)) Cert.ReferenceIdeal.Gen.slices_S4x512_S1x512_2_0) := by
  after_results_simp
  rfl

end Cert.Gin.KerHost

end
-- ==== Proof.KA.NormArray7.lean ====
/-
  The output array of a normalisation region, entry by entry. The region walks ten row tiles of 1000; at tile t the
  body stores one pointwise function of the tile and of four 1 x 512 rows (column sums, column sums of squares, scale,
  shift) into the output's block t. A row window has a single block, the whole row, at every tile; the activation's
  and the output's block t are rows 1000 t .. 1000 t + 999. So the ten blocks written back are the ten row blocks of
  ONE whole-array function, they tile the array, and entry (r, j) of the output is the body's function of tile r / 1000
  read at (r % 1000, j) — at the ideal instance, the specification's normalisation from the given sums at (r, j).
-/
import proofs.«100381_j2018634629568_1_alg».proof.Proof.KI.Norm7
import proofs.«100381_j2018634629568_1_alg».proof.Proof.KV.Norm
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem
open Idealize.ShloMosaic.Pipeline (Dat)
open Idealize.ShloMosaic.ValueIdx
open Cert.KernelIdeal Cert.KernelIdeal.Gen

section
variable {F : FTy → Type} [FloatOps F]
variable (V : (c : Dev nD) → (b : Ref sig .tc) → Buf (Elt F) ((c : Thread nD τ).loc b))

theorem zeroOff7 : (![0, 0] : Fin 2 → Nat) = fun _ => 0 := funext fun a => by fin_cases a <;> rfl

/-- The tile the body leaves is its payload of the five blocks: the one store goes through the whole tile. -/
theorem normTile7_eq (a : Vec F S1000x512 .f32) (s q g b : Vec F S1x512 .f32) :
    normTile7 a s q g b = k7_pay1 s q a g b := by
  unfold normTile7
  rw [View.canon_unit_zero zeroOff7]
  simp only [View.ld_unit_zero (S := S1000x512) zeroOff7, View.ld_unit_zero (S := S1x512) zeroOff7]

/-- The index maps over the grid: the activation's and the output's block at point t is block (t, 0); every row window
    stays at block (0, 0). -/
theorem idx_facts7 : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- The activation's block at point t, entry (p, j), is the array's entry (1000 t + p, j). -/
theorem tile7_apply (c : Dev nD) (t : Fin cfg7.N) (p : Fin 1000) (j : Fin 512) (r : Fin 10000) (hr : r.val = 1000 * t.val + p.val) :
    (blockAt7 V c 0 t : Vec F S1000x512 .f32) (ix2 p j) = (V c (Pipeline.arrRef spec7 0) : S10000x512.Idx → Elt F .f32) (ix2 r j) := by
  obtain ⟨e0, e1, -⟩ := idx_facts7 t
  unfold blockAt7
  rw [View.read_apply]
  show V c (Pipeline.arrRef spec7 0) _ = V c (Pipeline.arrRef spec7 0) _
  congr 1
  funext a
  apply Fin.ext
  match a with
  | ⟨0, _⟩ => show win7_0.index t (0 : Fin 2) * 1000 + 1 * p.val = r.val; rw [e0, hr]; omega
  | ⟨1, _⟩ => show win7_0.index t (1 : Fin 2) * 512 + 1 * j.val = j.val; rw [e1]; omega

/-! A [1,512] row's window has one block, the whole row: at every point its block is the array itself. -/
theorem rowBlock7_1 (c : Dev nD) (t : Fin cfg7.N) :
    (blockAt7 V c 1 t : Vec F S1x512 .f32) = (V c (Pipeline.arrRef spec7 1) : S1x512.Idx → Elt F .f32) := by
  have e0 : win7_1.index t (0 : Fin 2) = 0 := by have := idx_facts7 t; simp only [this]
  have e1 : win7_1.index t (1 : Fin 2) = 0 := by have := idx_facts7 t; simp only [this]
  funext y
  unfold blockAt7
  rw [View.read_apply]
  show V c (Pipeline.arrRef spec7 1) _ = V c (Pipeline.arrRef spec7 1) _
  congr 1
  funext a
  apply Fin.ext
  match a with
  | ⟨0, _⟩ => show win7_1.index t (0 : Fin 2) * 1 + 1 * (y 0).val = (y 0).val; rw [e0]; omega
  | ⟨1, _⟩ => show win7_1.index t (1 : Fin 2) * 512 + 1 * (y 1).val = (y 1).val; rw [e1]; omega
theorem rowBlock7_2 (c : Dev nD) (t : Fin cfg7.N) :
    (blockAt7 V c 2 t : Vec F S1x512 .f32) = (V c (Pipeline.arrRef spec7 2) : S1x512.Idx → Elt F .f32) := by
  have e0 : win7_2.index t (0 : Fin 2) = 0 := by have := idx_facts7 t; simp only [this]
  have e1 : win7_2.index t (1 : Fin 2) = 0 := by have := idx_facts7 t; simp only [this]
  funext y
  unfold blockAt7
  rw [View.read_apply]
  show V c (Pipeline.arrRef spec7 2) _ = V c (Pipeline.arrRef spec7 2) _
  congr 1
  funext a
  apply Fin.ext
  match a with
  | ⟨0, _⟩ => show win7_2.index t (0 : Fin 2) * 1 + 1 * (y 0).val = (y 0).val; rw [e0]; omega
  | ⟨1, _⟩ => show win7_2.index t (1 : Fin 2) * 512 + 1 * (y 1).val = (y 1).val; rw [e1]; omega
theorem rowBlock7_3 (c : Dev nD) (t : Fin cfg7.N) :
    (blockAt7 V c 3 t : Vec F S1x512 .f32) = (V c (Pipeline.arrRef spec7 3) : S1x512.Idx → Elt F .f32) := by
  have e0 : win7_3.index t (0 : Fin 2) = 0 := by have := idx_facts7 t; simp only [this]
  have e1 : win7_3.index t (1 : Fin 2) = 0 := by have := idx_facts7 t; simp only [this]
  funext y
  unfold blockAt7
  rw [View.read_apply]
  show V c (Pipeline.arrRef spec7 3) _ = V c (Pipeline.arrRef spec7 3) _
  congr 1
  funext a
  apply Fin.ext
  match a with
  | ⟨0, _⟩ => show win7_3.index t (0 : Fin 2) * 1 + 1 * (y 0).val = (y 0).val; rw [e0]; omega
  | ⟨1, _⟩ => show win7_3.index t (1 : Fin 2) * 512 + 1 * (y 1).val = (y 1).val; rw [e1]; omega
theorem rowBlock7_4 (c : Dev nD) (t : Fin cfg7.N) :
    (blockAt7 V c 4 t : Vec F S1x512 .f32) = (V c (Pipeline.arrRef spec7 4) : S1x512.Idx → Elt F .f32) := by
  have e0 : win7_4.index t (0 : Fin 2) = 0 := by have := idx_facts7 t; simp only [this]
  have e1 : win7_4.index t (1 : Fin 2) = 0 := by have := idx_facts7 t; simp only [this]
  funext y
  unfold blockAt7
  rw [View.read_apply]
  show V c (Pipeline.arrRef spec7 4) _ = V c (Pipeline.arrRef spec7 4) _
  congr 1
  funext a
  apply Fin.ext
  match a with
  | ⟨0, _⟩ => show win7_4.index t (0 : Fin 2) * 1 + 1 * (y 0).val = (y 0).val; rw [e0]; omega
  | ⟨1, _⟩ => show win7_4.index t (1 : Fin 2) * 512 + 1 * (y 1).val = (y 1).val; rw [e1]; omega

/-- Rows 1000 t … 1000 t + 999 of a [10000,512] array, as a [1000,512] tile. -/
def rowsTile7 (X : S10000x512.Idx → Elt F .f32) (t : Nat) (ht : t < 10) : Vec F S1000x512 .f32 :=
  fun y => X (ix2 ⟨1000 * t + (y 0).val, by have := idx2_lt0 y; omega⟩ (y 1))

theorem tileBlock7 (c : Dev nD) (t : Fin cfg7.N) (ht : t.val < 10) :
    (blockAt7 V c 0 t : Vec F S1000x512 .f32) = rowsTile7 (V c (Pipeline.arrRef spec7 0) : S10000x512.Idx → Elt F .f32) t.val ht := by
  funext y
  obtain ⟨p, j, rfl⟩ : ∃ (p : Fin 1000) (j : Fin 512), y = ix2 p j := ⟨y 0, y 1, eq_ix2 y⟩
  exact tile7_apply V c t p j _ rfl

/-- The whole normalized array: entry (r, j) is the payload of tile r / 1000 and of the four rows, at (r % 1000, j). -/
def normWhole7 (c : Dev nD) : S10000x512.Idx → Elt F .f32 := fun i =>
  k7_pay1 (V c (Pipeline.arrRef spec7 1) : S1x512.Idx → Elt F .f32) (V c (Pipeline.arrRef spec7 2) : S1x512.Idx → Elt F .f32)
    (rowsTile7 (V c (Pipeline.arrRef spec7 0) : S10000x512.Idx → Elt F .f32) ((i 0).val / 1000) (by have := idx2_lt0 i; omega))
    (V c (Pipeline.arrRef spec7 3) : S1x512.Idx → Elt F .f32) (V c (Pipeline.arrRef spec7 4) : S1x512.Idx → Elt F .f32)
    (ix2 ⟨(i 0).val % 1000, Nat.mod_lt _ (by decide)⟩ (i 1))

/-- The whole array at an index whose row is 1000 t + p. -/
theorem normWhole7_apply (c : Dev nD) (i : S10000x512.Idx) (t : Nat) (ht : t < 10) (p : Fin 1000) (j : Fin 512)
    (h0 : (i 0).val = 1000 * t + p.val) (h1 : (i 1).val = j.val) :
    normWhole7 V c i = k7_pay1 (V c (Pipeline.arrRef spec7 1) : S1x512.Idx → Elt F .f32) (V c (Pipeline.arrRef spec7 2) : S1x512.Idx → Elt F .f32)
      (rowsTile7 (V c (Pipeline.arrRef spec7 0) : S10000x512.Idx → Elt F .f32) t ht)
      (V c (Pipeline.arrRef spec7 3) : S1x512.Idx → Elt F .f32) (V c (Pipeline.arrRef spec7 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k7_pay1 (V c (Pipeline.arrRef spec7 1) : S1x512.Idx → Elt F .f32) (V c (Pipeline.arrRef spec7 2) : S1x512.Idx → Elt F .f32)
        (rowsTile7 (V c (Pipeline.arrRef spec7 0) : S10000x512.Idx → Elt F .f32) t' ht')
        (V c (Pipeline.arrRef spec7 3) : S1x512.Idx → Elt F .f32) (V c (Pipeline.arrRef spec7 4) : S1x512.Idx → Elt F .f32) (ix2 p' j')
      = k7_pay1 (V c (Pipeline.arrRef spec7 1) : S1x512.Idx → Elt F .f32) (V c (Pipeline.arrRef spec7 2) : S1x512.Idx → Elt F .f32)
        (rowsTile7 (V c (Pipeline.arrRef spec7 0) : S10000x512.Idx → Elt F .f32) t ht)
        (V c (Pipeline.arrRef spec7 3) : S1x512.Idx → Elt F .f32) (V c (Pipeline.arrRef spec7 4) : S1x512.Idx → Elt F .f32) (ix2 p j) := by
    intro t' ht' p' j' e e' e''; subst e e' e''; rfl
  exact key _ _ _ _ e1 (Fin.ext e2) (Fin.ext h1)

/-- What point t writes back is block t of the whole normalized array. -/
theorem flushed7_eq (c : Dev nD) (t : Fin cfg7.N) :
    (dat7 V c).flushed 5 t = ((cfg7.win 5).blk t).view.read (Elt F) (normWhole7 V c) := by
  have ht : t.val < 10 := Nat.lt_of_lt_of_eq t.isLt N_7
  obtain ⟨-, -, e0, e1, -⟩ := idx_facts7 t
  show (cfg7.win 5).cut (grid7.coords t) ((dat7 V c).after 5 t) = _
  rw [dat7_after5, normTile7_eq, rowBlock7_1, rowBlock7_2, rowBlock7_3, rowBlock7_4, tileBlock7 V c t ht]
  funext y
  obtain ⟨p, j, rfl⟩ : ∃ (p : Fin 1000) (j : Fin 512), y = ix2 p j := ⟨y 0, y 1, eq_ix2 y⟩
  rw [View.read_apply]
  refine (normWhole7_apply V c _ t.val ht p j ?_ ?_).symm
  · show win7_5.index t (0 : Fin 2) * 1000 + 1 * p.val = _; rw [e0]; omega
  · show win7_5.index t (1 : Fin 2) * 512 + 1 * j.val = _; rw [e1]; omega

/-- An index of the array is in point t's block iff each coordinate is in the block's range on its axis. -/
theorem mem_blk7 (t : Fin cfg7.N) (i : S10000x512.Idx) :
    i ∈ ((cfg7.win 5).blk t).view.set ↔ ∀ a : Fin 2, win7_5.index t a * S1000x512.size a ≤ (i a).val ∧ (i a).val < win7_5.index t a * S1000x512.size a + S1000x512.size a := by
  show i ∈ ((View.whole main_v111).slice (win7_5.rect t)).set ↔ _
  rw [View.set_slice_whole, Rect.mem_set_unit]
  exact Iff.rfl

/-- Every row lies in the block of the point that is its number over 1000. -/
theorem cover7 (i : S10000x512.Idx) : ∃ t : Fin cfg7.N, (cfg7.win 5).flush t = true ∧ i ∈ ((cfg7.win 5).blk t).view.set := by
  have hi0 : (i 0).val < 10000 := idx2_lt0 i
  have hi1 : (i 1).val < 512 := idx2_lt1 i
  let t : Fin cfg7.N := ⟨(i 0).val / 1000, by rw [show cfg7.N = 10 from N_7]; omega⟩
  obtain ⟨-, -, e0, e1, -⟩ := idx_facts7 t
  have e0' : win7_5.index t (0 : Fin 2) = (i 0).val / 1000 := e0
  refine ⟨t, flush7_5 t, ?_⟩
  rw [mem_blk7]
  intro a
  match a with
  | ⟨0, _⟩ => show win7_5.index t (0 : Fin 2) * 1000 ≤ (i 0).val ∧ (i 0).val < win7_5.index t (0 : Fin 2) * 1000 + 1000; omega
  | ⟨1, _⟩ => show win7_5.index t (1 : Fin 2) * 512 ≤ (i 1).val ∧ (i 1).val < win7_5.index t (1 : Fin 2) * 512 + 512; omega

/-- The output array after the region is the whole normalized array. -/
theorem final7 (c : Dev nD) : (dat7 V c).arrAt 5 cfg7.N = normWhole7 V c :=
  (dat7 V c).arrAt_eq_of_cover 5 (normWhole7 V c) (fun t _ => flushed7_eq V c t) cover7

/-- Entry (r, j) of the output array after the region: the payload of tile r / 1000 and the four rows at (r % 1000, j). -/
theorem normArray7 (c : Dev nD) (r : Fin 10000) (j : Fin 512) :
    ((dat7 V c).arrAt 5 cfg7.N : S10000x512.Idx → Elt F .f32) (ix2 r j)
      = k7_pay1 (V c (Pipeline.arrRef spec7 1) : S1x512.Idx → Elt F .f32) (V c (Pipeline.arrRef spec7 2) : S1x512.Idx → Elt F .f32)
          (rowsTile7 (V c (Pipeline.arrRef spec7 0) : S10000x512.Idx → Elt F .f32) (r.val / 1000) (by have := r.isLt; omega))
          (V c (Pipeline.arrRef spec7 3) : S1x512.Idx → Elt F .f32) (V c (Pipeline.arrRef spec7 4) : S1x512.Idx → Elt F .f32)
          (ix2 ⟨r.val % 1000, Nat.mod_lt _ (by decide)⟩ j) := by
  rw [final7]
  exact normWhole7_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the output is the normalisation, from the given sums, of the activation as the
    region finds it. -/
theorem normArray7_spec (c : Dev nD) (r : Fin 10000) (j : Fin 512) :
    ((dat7 V c).arrAt 5 cfg7.N : S10000x512.Idx → EReal) (ix2 r j)
      = Cert.Gin.normFrom (fun r l => (V c (Pipeline.arrRef spec7 0) : S10000x512.Idx → EReal) (ix2 r l))
          (fun l => (V c (Pipeline.arrRef spec7 1) : S1x512.Idx → EReal) (ix2 0 l))
          (fun l => (V c (Pipeline.arrRef spec7 2) : S1x512.Idx → EReal) (ix2 0 l))
          (fun l => (V c (Pipeline.arrRef spec7 3) : S1x512.Idx → EReal) (ix2 0 l))
          (fun l => (V c (Pipeline.arrRef spec7 4) : S1x512.Idx → EReal) (ix2 0 l)) r j := by
  refine (normArray7 V c r j).trans ?_
  refine (Cert.Gin.Ker.k7_pay1_apply _ _ _ _ _ _ j).trans ?_
  have e : (⟨1000 * (r.val / 1000) + r.val % 1000, by have := r.isLt; omega⟩ : Fin 10000) = r := Fin.ext (by show 1000 * (r.val / 1000) + r.val % 1000 = r.val; omega)
  unfold Cert.Gin.normFrom rowsTile7
  dsimp only
  rw [e]

end

end Cert.KernelIdeal.Arr

end
-- ==== Proof.KA.Layer4.lean ====
/-
  Layer 4 on the kernel side: the perceptron kernel's entry arrays are the aggregation of the previous layer's array,
  the layer's two weight matrices and its two bias rows, all cut out of the stacked arguments; the normalisation kernel's
  entry arrays are that kernel's three outputs and the scale and shift rows; so the normalisation kernel leaves the
  shared closed function's layer-4 array.
-/
import proofs.«100381_j2018634629568_1_alg».proof.Proof.KA.Glue
import proofs.«100381_j2018634629568_1_alg».proof.Proof.KA.Keep
import proofs.«100381_j2018634629568_1_alg».proof.Proof.KH.S0
import proofs.«100381_j2018634629568_1_alg».proof.Proof.KH.S6
import proofs.«100381_j2018634629568_1_alg».proof.Proof.KH.SOdd
import proofs.«100381_j2018634629568_1_alg».proof.Proof.KA.NormArray7

set_option maxRecDepth 16384

noncomputable section

namespace Cert.Gin.KerWhole

open Idealize.ShloMosaic Idealize.ShloMosaic.TcCoe Idealize.SL.Sem Idealize.ShloMosaic.ValueIdx
open Cert.KernelIdeal Cert.KernelIdeal.Gen Cert.Gin.Ref Cert.Gin.KerHost

variable (m : (ℓ : Loc nD τ sig) → Buf (Elt Ideal) ℓ) (c : Dev nD)

theorem in6_0 (hprev : X12 m c (Proc.devRef .tc main_v82) = H3 m c) :
    (E13 m c (Pipeline.arrRef spec6 0) : S10000x512.Idx → EReal) = refAgg512 (H3 m c) (srcI m c) (dstI m c) :=
  (h6_v105 (X12 m c)).trans
    (agg512_congr hprev ((X12_v1 m c).trans (h0_v1 (X0 m c))) ((X12_v3 m c).trans (h0_v3 (X0 m c))))
theorem in6_1 : (E13 m c (Pipeline.arrRef spec6 1) : S512x512.Idx → EReal) = (cutMat (F := Ideal) 2 (A7 m c) Cert.ReferenceIdeal.Gen.slices_S4x512x512_S1x512x512_2_0_0) :=
  (h6_v84 (X12 m c)).trans
    (congrArg (fun W => cutMat (F := Ideal) 2 W Cert.ReferenceIdeal.Gen.slices_S4x512x512_S1x512x512_2_0_0) (X12_launch m c main_arg7 (by decide)))
theorem in6_2 : (E13 m c (Pipeline.arrRef spec6 2) : S1x512.Idx → EReal) = rowOf (F := Ideal) (cutRow (F := Ideal) 2 (A8 m c) Cert.ReferenceIdeal.Gen.slices_S4x512_S1x512_2_0) :=
  (h6_v106 (X12 m c)).trans
    (congrArg (fun G => rowOf (F := Ideal) (cutRow (F := Ideal) 2 G Cert.ReferenceIdeal.Gen.slices_S4x512_S1x512_2_0)) (X12_launch m c main_arg8 (by decide)))
theorem in6_3 : (E13 m c (Pipeline.arrRef spec6 3) : S512x512.Idx → EReal) = (cutMat (F := Ideal) 2 (A9 m c) Cert.ReferenceIdeal.Gen.slices_S4x512x512_S1x512x512_2_0_0) :=
  (h6_v88 (X12 m c)).trans
    (congrArg (fun W => cutMat (F := Ideal) 2 W Cert.ReferenceIdeal.Gen.slices_S4x512x512_S1x512x512_2_0_0) (X12_launch m c main_arg9 (by decide)))
theorem in6_4 : (E13 m c (Pipeline.arrRef spec6 4) : S1x512.Idx → EReal) = rowOf (F := Ideal) (cutRow (F := Ideal) 2 (A10 m c) Cert.ReferenceIdeal.Gen.slices_S4x512_S1x512_2_0) :=
  (h6_v107 (X12 m c)).trans
    (congrArg (fun G => rowOf (F := Ideal) (cutRow (F := Ideal) 2 G Cert.ReferenceIdeal.Gen.slices_S4x512_S1x512_2_0)) (X12_launch m c main_arg10 (by decide)))

/-- Region 6's perceptron of its entry arrays, as coordinates. -/
def mlpAt6 (V : (c : Dev nD) → (b : Ref sig .tc) → Buf (Elt Ideal) ((c : Thread nD τ).loc b)) (c : Dev nD) :
    Fin 10000 → Fin 512 → EReal :=
  Cert.Gin.mlp (fun r l => (V c (Pipeline.arrRef spec6 0) : S10000x512.Idx → EReal) (ix2 r l))
    (fun l k => (V c (Pipeline.arrRef spec6 1) : S512x512.Idx → EReal) (ix2 l k))
    (fun k => (V c (Pipeline.arrRef spec6 2) : S1x512.Idx → EReal) (ix2 0 k))
    (fun k j => (V c (Pipeline.arrRef spec6 3) : S512x512.Idx → EReal) (ix2 k j))
    (fun j => (V c (Pipeline.arrRef spec6 4) : S1x512.Idx → EReal) (ix2 0 j))

/-- In the shared vocabulary. -/
theorem mlpAt6_eq (hprev : X12 m c (Proc.devRef .tc main_v82) = H3 m c) : mlpAt6 (E13 m) c
    = Cert.Gin.mlp (co2 (refAgg512 (H3 m c) (srcI m c) (dstI m c))) (co2 (cutMat (F := Ideal) 2 (A7 m c) Cert.ReferenceIdeal.Gen.slices_S4x512x512_S1x512x512_2_0_0)) (co1' (cutRow (F := Ideal) 2 (A8 m c) Cert.ReferenceIdeal.Gen.slices_S4x512_S1x512_2_0))
        (co2 (cutMat (F := Ideal) 2 (A9 m c) Cert.ReferenceIdeal.Gen.slices_S4x512x512_S1x512x512_2_0_0)) (co1' (cutRow (F := Ideal) 2 (A10 m c) Cert.ReferenceIdeal.Gen.slices_S4x512_S1x512_2_0)) := by
  unfold mlpAt6
  rw [in6_0 m c hprev, in6_1, in6_2, in6_3, in6_4]
  simp only [rowOf_apply]

theorem in7_0 : (E15 m c (Pipeline.arrRef spec7 0) : S10000x512.Idx → EReal) = (dat6 (E13 m) c).arrAt 5 cfg6.N :=
  (X15_keep m c main_v108_0 (by decide)).trans (X14_arr m c 5)
theorem in7_1 : (E15 m c (Pipeline.arrRef spec7 1) : S1x512.Idx → EReal) = (dat6 (E13 m) c).arrAt 6 cfg6.N :=
  (X15_keep m c main_v108_1 (by decide)).trans (X14_arr m c 6)
theorem in7_2 : (E15 m c (Pipeline.arrRef spec7 2) : S1x512.Idx → EReal) = (dat6 (E13 m) c).arrAt 7 cfg6.N :=
  (X15_keep m c main_v108_2 (by decide)).trans (X14_arr m c 7)
theorem in7_3 : (E15 m c (Pipeline.arrRef spec7 3) : S1x512.Idx → EReal) = rowOf (F := Ideal) (cutRow (F := Ideal) 3 (A11 m c) Cert.ReferenceIdeal.Gen.slices_S5x512_S1x512_3_0) :=
  (h7_v109 (X14 m c)).trans (congrArg (rowOf (F := Ideal))
    ((X14_keep m c main_v92 (by decide)).trans ((h6_v92 (X12 m c)).trans
      (congrArg (fun G => cutRow (F := Ideal) 3 G Cert.ReferenceIdeal.Gen.slices_S5x512_S1x512_3_0) (X12_launch m c main_arg11 (by decide))))))
theorem in7_4 : (E15 m c (Pipeline.arrRef spec7 4) : S1x512.Idx → EReal) = rowOf (F := Ideal) (cutRow (F := Ideal) 3 (A12 m c) Cert.ReferenceIdeal.Gen.slices_S5x512_S1x512_3_0) :=
  (h7_v110 (X14 m c)).trans (congrArg (rowOf (F := Ideal))
    ((X14_keep m c main_v94 (by decide)).trans ((h6_v94 (X12 m c)).trans
      (congrArg (fun G => cutRow (F := Ideal) 3 G Cert.ReferenceIdeal.Gen.slices_S5x512_S1x512_3_0) (X12_launch m c main_arg12 (by decide))))))

set_option maxHeartbeats 1000000 in
/-- LAYER 4: the normalisation kernel leaves the shared closed function's layer-4 array. -/
theorem layer4 (hprev : X12 m c (Proc.devRef .tc main_v82) = H3 m c)
    (hmlp : ∀ r j, ((dat6 (E13 m) c).arrAt 5 cfg6.N : S10000x512.Idx → EReal) (ix2 r j) = mlpAt6 (E13 m) c r j)
    (hsum : ∀ j, ((dat6 (E13 m) c).arrAt 6 cfg6.N : S1x512.Idx → EReal) (ix2 0 j) = Cert.Gin.colSum (mlpAt6 (E13 m) c) j)
    (hsq : ∀ j, ((dat6 (E13 m) c).arrAt 7 cfg6.N : S1x512.Idx → EReal) (ix2 0 j) = Cert.Gin.colSumSq (mlpAt6 (E13 m) c) j)
    (hH : Cert.Gin.IsReal2 (co2 (H3 m c))) (hWa : Cert.Gin.IsReal2 (co2 (cutMat (F := Ideal) 2 (A7 m c) Cert.ReferenceIdeal.Gen.slices_S4x512x512_S1x512x512_2_0_0)))
    (hba : Cert.Gin.IsReal1 (co1' (cutRow (F := Ideal) 2 (A8 m c) Cert.ReferenceIdeal.Gen.slices_S4x512_S1x512_2_0))) (hWb : Cert.Gin.IsReal2 (co2 (cutMat (F := Ideal) 2 (A9 m c) Cert.ReferenceIdeal.Gen.slices_S4x512x512_S1x512x512_2_0_0)))
    (hbb : Cert.Gin.IsReal1 (co1' (cutRow (F := Ideal) 2 (A10 m c) Cert.ReferenceIdeal.Gen.slices_S4x512_S1x512_2_0))) :
    X16 m c (Proc.devRef .tc main_v111) = H4 m c :=
  (X16_arr m c 5).trans <|
    refLayer512_unique (H3 m c) (srcI m c) (dstI m c) (cutMat (F := Ideal) 2 (A7 m c) Cert.ReferenceIdeal.Gen.slices_S4x512x512_S1x512x512_2_0_0) (cutRow (F := Ideal) 2 (A8 m c) Cert.ReferenceIdeal.Gen.slices_S4x512_S1x512_2_0) (cutMat (F := Ideal) 2 (A9 m c) Cert.ReferenceIdeal.Gen.slices_S4x512x512_S1x512x512_2_0_0) (cutRow (F := Ideal) 2 (A10 m c) Cert.ReferenceIdeal.Gen.slices_S4x512_S1x512_2_0) (cutRow (F := Ideal) 3 (A11 m c) Cert.ReferenceIdeal.Gen.slices_S5x512_S1x512_3_0) (cutRow (F := Ideal) 3 (A12 m c) Cert.ReferenceIdeal.Gen.slices_S5x512_S1x512_3_0)
      hH hWa hba hWb hbb _ fun r j =>
      (layer_glue _ _ _ _ _ _ (mlpAt6 (E13 m) c) _ _ (Cert.KernelIdeal.Arr.normArray7_spec (E15 m) c)
        (fun r l => (congrFun (in7_0 m c) (ix2 r l)).trans (hmlp r l))
        (fun l => (congrFun (in7_1 m c) (ix2 0 l)).trans (hsum l))
        (fun l => (congrFun (in7_2 m c) (ix2 0 l)).trans (hsq l))
        (in7_3 m c) (in7_4 m c) r j).trans
      (congrFun (congrFun (congrArg (fun M => Cert.Gin.normalize M _ _) (mlpAt6_eq m c hprev)) r) j)

end Cert.Gin.KerWhole

end
-- ==== Proof.KH.S8.lean ====
/-
  The kernel program's host stretch 8 read as functions of the contents it starts from: layer 5's two weight
  matrices and two bias vectors cut out of their stacks (the biases also as one-row matrices), the next
  normalisation's scale and shift vectors, and the aggregation of the previous layer's output — each the same host
  operations the reference applies.
-/
import proofs.«100381_j2018634629568_1_alg».proof.Proof.Gen.KernelIdeal.Launch
import proofs.«100381_j2018634629568_1_alg».proof.Proof.Gen.ReferenceIdeal
import proofs.«100381_j2018634629568_1_alg».proof.Proof.Ref.Cuts
import proofs.«100381_j2018634629568_1_alg».proof.Proof.Ref.Reals
import Idealize.ShloMosaic.Lib.StableHlo.Run

noncomputable section

namespace Cert.Gin.KerHost

open Idealize.ShloMosaic Idealize.ShloMosaic.StableHlo Cert.KernelIdeal Cert.KernelIdeal.Gen Cert.Gin.Ref

/-- The first weight matrix. -/
theorem h8_v113 (W : Valuation τ sig (Elt Ideal)) :
    after (hostOps8 (F := Ideal)) W (Proc.devRef .tc main_v113)
      = cutMat (F := Ideal) 3 (W (Proc.devRef .tc main_arg7)) Cert.ReferenceIdeal.Gen.slices_S4x512x512_S1x512x512_3_0_0 := by
  after_results_simp
  rfl

/-- The first bias vector. -/
theorem h8_v115 (W : Valuation τ sig (Elt Ideal)) :
    after (hostOps8 (F := Ideal)) W (Proc.devRef .tc main_v115)
      = cutRow (F := Ideal) 3 (W (Proc.devRef .tc main_arg8)) Cert.ReferenceIdeal.Gen.slices_S4x512_S1x512_3_0 := by
  after_results_simp
  rfl

/-- The second weight matrix. -/
theorem h8_v117 (W : Valuation τ sig (Elt Ideal)) :
    after (hostOps8 (F := Ideal)) W (Proc.devRef .tc main_v117)
      = cutMat (F := Ideal) 3 (W (Proc.devRef .tc main_arg9)) Cert.ReferenceIdeal.Gen.slices_S4x512x512_S1x512x512_3_0_0 := by
  after_results_simp
  rfl

/-- The second bias vector. -/
theorem h8_v119 (W : Valuation τ sig (Elt Ideal)) :
    after (hostOps8 (F := Ideal)) W (Proc.devRef .tc main_v119)
      = cutRow (F := Ideal) 3 (W (Proc.devRef .tc main_arg10)) Cert.ReferenceIdeal.Gen.slices_S4x512_S1x512_3_0 := by
  after_results_simp
  rfl

/-- The next normalisation's scale vector. -/
theorem h8_v121 (W : Valuation τ sig (Elt Ideal)) :
    after (hostOps8 (F := Ideal)) W (Proc.devRef .tc main_v121)
      = cutRow (F := Ideal) 4 (W (Proc.devRef .tc main_arg11)) Cert.ReferenceIdeal.Gen.slices_S5x512_S1x512_4_0 := by
  after_results_simp
  rfl

/-- The next normalisation's shift vector. -/
theorem h8_v123 (W : Valuation τ sig (Elt Ideal)) :
    after (hostOps8 (F := Ideal)) W (Proc.devRef .tc main_v123)
      = cutRow (F := Ideal) 4 (W (Proc.devRef .tc main_arg12)) Cert.ReferenceIdeal.Gen.slices_S5x512_S1x512_4_0 := by
  after_results_simp
  rfl

/-- The aggregated previous layer. -/
theorem h8_v134 (W : Valuation τ sig (Elt Ideal)) :
    after (hostOps8 (F := Ideal)) W (Proc.devRef .tc main_v134)
      = refAgg512 (W (Proc.devRef .tc main_v111)) (srcIdx (W (Proc.devRef .tc main_v1))) (dstIdx (W (Proc.devRef .tc main_v3))) := by
  after_results_simp
  rfl

/-- The first bias as a one-row matrix. -/
theorem h8_v135 (W : Valuation τ sig (Elt Ideal)) :
    after (hostOps8 (F := Ideal)) W (Proc.devRef .tc main_v135)
      = rowOf (F := Ideal) (cutRow (F := Ideal) 3 (W (Proc.devRef .tc main_arg8)) Cert.ReferenceIdeal.Gen.slices_S4x512_S1x512_3_0) := by
  after_results_simp
  rfl

/-- The second bias as a one-row matrix. -/
theorem h8_v136 (W : Valuation τ sig (Elt Ideal)) :
    after (hostOps8 (F := Ideal)) W (Proc.devRef .tc main_v136)
      = rowOf (F := Ideal) (cutRow (F := Ideal) 3 (W (Proc.devRef .tc main_arg10)) Cert.ReferenceIdeal.Gen.slices_S4x512_S1x512_3_0) := by
  after_results_simp
  rfl

end Cert.Gin.KerHost

end
-- ==== Proof.KA.NormArray9.lean ====
/-
  The output array of a normalisation region, entry by entry. The region walks ten row tiles of 1000; at tile t the
  body stores one pointwise function of the tile and of four 1 x 512 rows (column sums, column sums of squares, scale,
  shift) into the output's block t. A row window has a single block, the whole row, at every tile; the activation's
  and the output's block t are rows 1000 t .. 1000 t + 999. So the ten blocks written back are the ten row blocks of
  ONE whole-array function, they tile the array, and entry (r, j) of the output is the body's function of tile r / 1000
  read at (r % 1000, j) — at the ideal instance, the specification's normalisation from the given sums at (r, j).
-/
import proofs.«100381_j2018634629568_1_alg».proof.Proof.KI.Norm9
import proofs.«100381_j2018634629568_1_alg».proof.Proof.KV.Norm
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem
open Idealize.ShloMosaic.Pipeline (Dat)
open Idealize.ShloMosaic.ValueIdx
open Cert.KernelIdeal Cert.KernelIdeal.Gen

section
variable {F : FTy → Type} [FloatOps F]
variable (V : (c : Dev nD) → (b : Ref sig .tc) → Buf (Elt F) ((c : Thread nD τ).loc b))

theorem zeroOff9 : (![0, 0] : Fin 2 → Nat) = fun _ => 0 := funext fun a => by fin_cases a <;> rfl

/-- The tile the body leaves is its payload of the five blocks: the one store goes through the whole tile. -/
theorem normTile9_eq (a : Vec F S1000x512 .f32) (s q g b : Vec F S1x512 .f32) :
    normTile9 a s q g b = k9_pay1 s q a g b := by
  unfold normTile9
  rw [View.canon_unit_zero zeroOff9]
  simp only [View.ld_unit_zero (S := S1000x512) zeroOff9, View.ld_unit_zero (S := S1x512) zeroOff9]

/-- The index maps over the grid: the activation's and the output's block at point t is block (t, 0); every row window
    stays at block (0, 0). -/
theorem idx_facts9 : ∀ t : Fin cfg9.N, win9_0.index t (0 : Fin 2) = t.val ∧ win9_0.index t (1 : Fin 2) = 0
    ∧ win9_5.index t (0 : Fin 2) = t.val ∧ win9_5.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- The activation's block at point t, entry (p, j), is the array's entry (1000 t + p, j). -/
theorem tile9_apply (c : Dev nD) (t : Fin cfg9.N) (p : Fin 1000) (j : Fin 512) (r : Fin 10000) (hr : r.val = 1000 * t.val + p.val) :
    (blockAt9 V c 0 t : Vec F S1000x512 .f32) (ix2 p j) = (V c (Pipeline.arrRef spec9 0) : S10000x512.Idx → Elt F .f32) (ix2 r j) := by
  obtain ⟨e0, e1, -⟩ := idx_facts9 t
  unfold blockAt9
  rw [View.read_apply]
  show V c (Pipeline.arrRef spec9 0) _ = V c (Pipeline.arrRef spec9 0) _
  congr 1
  funext a
  apply Fin.ext
  match a with
  | ⟨0, _⟩ => show win9_0.index t (0 : Fin 2) * 1000 + 1 * p.val = r.val; rw [e0, hr]; omega
  | ⟨1, _⟩ => show win9_0.index t (1 : Fin 2) * 512 + 1 * j.val = j.val; rw [e1]; omega

/-! A [1,512] row's window has one block, the whole row: at every point its block is the array itself. -/
theorem rowBlock9_1 (c : Dev nD) (t : Fin cfg9.N) :
    (blockAt9 V c 1 t : Vec F S1x512 .f32) = (V c (Pipeline.arrRef spec9 1) : S1x512.Idx → Elt F .f32) := by
  have e0 : win9_1.index t (0 : Fin 2) = 0 := by have := idx_facts9 t; simp only [this]
  have e1 : win9_1.index t (1 : Fin 2) = 0 := by have := idx_facts9 t; simp only [this]
  funext y
  unfold blockAt9
  rw [View.read_apply]
  show V c (Pipeline.arrRef spec9 1) _ = V c (Pipeline.arrRef spec9 1) _
  congr 1
  funext a
  apply Fin.ext
  match a with
  | ⟨0, _⟩ => show win9_1.index t (0 : Fin 2) * 1 + 1 * (y 0).val = (y 0).val; rw [e0]; omega
  | ⟨1, _⟩ => show win9_1.index t (1 : Fin 2) * 512 + 1 * (y 1).val = (y 1).val; rw [e1]; omega
theorem rowBlock9_2 (c : Dev nD) (t : Fin cfg9.N) :
    (blockAt9 V c 2 t : Vec F S1x512 .f32) = (V c (Pipeline.arrRef spec9 2) : S1x512.Idx → Elt F .f32) := by
  have e0 : win9_2.index t (0 : Fin 2) = 0 := by have := idx_facts9 t; simp only [this]
  have e1 : win9_2.index t (1 : Fin 2) = 0 := by have := idx_facts9 t; simp only [this]
  funext y
  unfold blockAt9
  rw [View.read_apply]
  show V c (Pipeline.arrRef spec9 2) _ = V c (Pipeline.arrRef spec9 2) _
  congr 1
  funext a
  apply Fin.ext
  match a with
  | ⟨0, _⟩ => show win9_2.index t (0 : Fin 2) * 1 + 1 * (y 0).val = (y 0).val; rw [e0]; omega
  | ⟨1, _⟩ => show win9_2.index t (1 : Fin 2) * 512 + 1 * (y 1).val = (y 1).val; rw [e1]; omega
theorem rowBlock9_3 (c : Dev nD) (t : Fin cfg9.N) :
    (blockAt9 V c 3 t : Vec F S1x512 .f32) = (V c (Pipeline.arrRef spec9 3) : S1x512.Idx → Elt F .f32) := by
  have e0 : win9_3.index t (0 : Fin 2) = 0 := by have := idx_facts9 t; simp only [this]
  have e1 : win9_3.index t (1 : Fin 2) = 0 := by have := idx_facts9 t; simp only [this]
  funext y
  unfold blockAt9
  rw [View.read_apply]
  show V c (Pipeline.arrRef spec9 3) _ = V c (Pipeline.arrRef spec9 3) _
  congr 1
  funext a
  apply Fin.ext
  match a with
  | ⟨0, _⟩ => show win9_3.index t (0 : Fin 2) * 1 + 1 * (y 0).val = (y 0).val; rw [e0]; omega
  | ⟨1, _⟩ => show win9_3.index t (1 : Fin 2) * 512 + 1 * (y 1).val = (y 1).val; rw [e1]; omega
theorem rowBlock9_4 (c : Dev nD) (t : Fin cfg9.N) :
    (blockAt9 V c 4 t : Vec F S1x512 .f32) = (V c (Pipeline.arrRef spec9 4) : S1x512.Idx → Elt F .f32) := by
  have e0 : win9_4.index t (0 : Fin 2) = 0 := by have := idx_facts9 t; simp only [this]
  have e1 : win9_4.index t (1 : Fin 2) = 0 := by have := idx_facts9 t; simp only [this]
  funext y
  unfold blockAt9
  rw [View.read_apply]
  show V c (Pipeline.arrRef spec9 4) _ = V c (Pipeline.arrRef spec9 4) _
  congr 1
  funext a
  apply Fin.ext
  match a with
  | ⟨0, _⟩ => show win9_4.index t (0 : Fin 2) * 1 + 1 * (y 0).val = (y 0).val; rw [e0]; omega
  | ⟨1, _⟩ => show win9_4.index t (1 : Fin 2) * 512 + 1 * (y 1).val = (y 1).val; rw [e1]; omega

/-- Rows 1000 t … 1000 t + 999 of a [10000,512] array, as a [1000,512] tile. -/
def rowsTile9 (X : S10000x512.Idx → Elt F .f32) (t : Nat) (ht : t < 10) : Vec F S1000x512 .f32 :=
  fun y => X (ix2 ⟨1000 * t + (y 0).val, by have := idx2_lt0 y; omega⟩ (y 1))

theorem tileBlock9 (c : Dev nD) (t : Fin cfg9.N) (ht : t.val < 10) :
    (blockAt9 V c 0 t : Vec F S1000x512 .f32) = rowsTile9 (V c (Pipeline.arrRef spec9 0) : S10000x512.Idx → Elt F .f32) t.val ht := by
  funext y
  obtain ⟨p, j, rfl⟩ : ∃ (p : Fin 1000) (j : Fin 512), y = ix2 p j := ⟨y 0, y 1, eq_ix2 y⟩
  exact tile9_apply V c t p j _ rfl

/-- The whole normalized array: entry (r, j) is the payload of tile r / 1000 and of the four rows, at (r % 1000, j). -/
def normWhole9 (c : Dev nD) : S10000x512.Idx → Elt F .f32 := fun i =>
  k9_pay1 (V c (Pipeline.arrRef spec9 1) : S1x512.Idx → Elt F .f32) (V c (Pipeline.arrRef spec9 2) : S1x512.Idx → Elt F .f32)
    (rowsTile9 (V c (Pipeline.arrRef spec9 0) : S10000x512.Idx → Elt F .f32) ((i 0).val / 1000) (by have := idx2_lt0 i; omega))
    (V c (Pipeline.arrRef spec9 3) : S1x512.Idx → Elt F .f32) (V c (Pipeline.arrRef spec9 4) : S1x512.Idx → Elt F .f32)
    (ix2 ⟨(i 0).val % 1000, Nat.mod_lt _ (by decide)⟩ (i 1))

/-- The whole array at an index whose row is 1000 t + p. -/
theorem normWhole9_apply (c : Dev nD) (i : S10000x512.Idx) (t : Nat) (ht : t < 10) (p : Fin 1000) (j : Fin 512)
    (h0 : (i 0).val = 1000 * t + p.val) (h1 : (i 1).val = j.val) :
    normWhole9 V c i = k9_pay1 (V c (Pipeline.arrRef spec9 1) : S1x512.Idx → Elt F .f32) (V c (Pipeline.arrRef spec9 2) : S1x512.Idx → Elt F .f32)
      (rowsTile9 (V c (Pipeline.arrRef spec9 0) : S10000x512.Idx → Elt F .f32) t ht)
      (V c (Pipeline.arrRef spec9 3) : S1x512.Idx → Elt F .f32) (V c (Pipeline.arrRef spec9 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k9_pay1 (V c (Pipeline.arrRef spec9 1) : S1x512.Idx → Elt F .f32) (V c (Pipeline.arrRef spec9 2) : S1x512.Idx → Elt F .f32)
        (rowsTile9 (V c (Pipeline.arrRef spec9 0) : S10000x512.Idx → Elt F .f32) t' ht')
        (V c (Pipeline.arrRef spec9 3) : S1x512.Idx → Elt F .f32) (V c (Pipeline.arrRef spec9 4) : S1x512.Idx → Elt F .f32) (ix2 p' j')
      = k9_pay1 (V c (Pipeline.arrRef spec9 1) : S1x512.Idx → Elt F .f32) (V c (Pipeline.arrRef spec9 2) : S1x512.Idx → Elt F .f32)
        (rowsTile9 (V c (Pipeline.arrRef spec9 0) : S10000x512.Idx → Elt F .f32) t ht)
        (V c (Pipeline.arrRef spec9 3) : S1x512.Idx → Elt F .f32) (V c (Pipeline.arrRef spec9 4) : S1x512.Idx → Elt F .f32) (ix2 p j) := by
    intro t' ht' p' j' e e' e''; subst e e' e''; rfl
  exact key _ _ _ _ e1 (Fin.ext e2) (Fin.ext h1)

/-- What point t writes back is block t of the whole normalized array. -/
theorem flushed9_eq (c : Dev nD) (t : Fin cfg9.N) :
    (dat9 V c).flushed 5 t = ((cfg9.win 5).blk t).view.read (Elt F) (normWhole9 V c) := by
  have ht : t.val < 10 := Nat.lt_of_lt_of_eq t.isLt N_9
  obtain ⟨-, -, e0, e1, -⟩ := idx_facts9 t
  show (cfg9.win 5).cut (grid9.coords t) ((dat9 V c).after 5 t) = _
  rw [dat9_after5, normTile9_eq, rowBlock9_1, rowBlock9_2, rowBlock9_3, rowBlock9_4, tileBlock9 V c t ht]
  funext y
  obtain ⟨p, j, rfl⟩ : ∃ (p : Fin 1000) (j : Fin 512), y = ix2 p j := ⟨y 0, y 1, eq_ix2 y⟩
  rw [View.read_apply]
  refine (normWhole9_apply V c _ t.val ht p j ?_ ?_).symm
  · show win9_5.index t (0 : Fin 2) * 1000 + 1 * p.val = _; rw [e0]; omega
  · show win9_5.index t (1 : Fin 2) * 512 + 1 * j.val = _; rw [e1]; omega

/-- An index of the array is in point t's block iff each coordinate is in the block's range on its axis. -/
theorem mem_blk9 (t : Fin cfg9.N) (i : S10000x512.Idx) :
    i ∈ ((cfg9.win 5).blk t).view.set ↔ ∀ a : Fin 2, win9_5.index t a * S1000x512.size a ≤ (i a).val ∧ (i a).val < win9_5.index t a * S1000x512.size a + S1000x512.size a := by
  show i ∈ ((View.whole main_v140).slice (win9_5.rect t)).set ↔ _
  rw [View.set_slice_whole, Rect.mem_set_unit]
  exact Iff.rfl

/-- Every row lies in the block of the point that is its number over 1000. -/
theorem cover9 (i : S10000x512.Idx) : ∃ t : Fin cfg9.N, (cfg9.win 5).flush t = true ∧ i ∈ ((cfg9.win 5).blk t).view.set := by
  have hi0 : (i 0).val < 10000 := idx2_lt0 i
  have hi1 : (i 1).val < 512 := idx2_lt1 i
  let t : Fin cfg9.N := ⟨(i 0).val / 1000, by rw [show cfg9.N = 10 from N_9]; omega⟩
  obtain ⟨-, -, e0, e1, -⟩ := idx_facts9 t
  have e0' : win9_5.index t (0 : Fin 2) = (i 0).val / 1000 := e0
  refine ⟨t, flush9_5 t, ?_⟩
  rw [mem_blk9]
  intro a
  match a with
  | ⟨0, _⟩ => show win9_5.index t (0 : Fin 2) * 1000 ≤ (i 0).val ∧ (i 0).val < win9_5.index t (0 : Fin 2) * 1000 + 1000; omega
  | ⟨1, _⟩ => show win9_5.index t (1 : Fin 2) * 512 ≤ (i 1).val ∧ (i 1).val < win9_5.index t (1 : Fin 2) * 512 + 512; omega

/-- The output array after the region is the whole normalized array. -/
theorem final9 (c : Dev nD) : (dat9 V c).arrAt 5 cfg9.N = normWhole9 V c :=
  (dat9 V c).arrAt_eq_of_cover 5 (normWhole9 V c) (fun t _ => flushed9_eq V c t) cover9

/-- Entry (r, j) of the output array after the region: the payload of tile r / 1000 and the four rows at (r % 1000, j). -/
theorem normArray9 (c : Dev nD) (r : Fin 10000) (j : Fin 512) :
    ((dat9 V c).arrAt 5 cfg9.N : S10000x512.Idx → Elt F .f32) (ix2 r j)
      = k9_pay1 (V c (Pipeline.arrRef spec9 1) : S1x512.Idx → Elt F .f32) (V c (Pipeline.arrRef spec9 2) : S1x512.Idx → Elt F .f32)
          (rowsTile9 (V c (Pipeline.arrRef spec9 0) : S10000x512.Idx → Elt F .f32) (r.val / 1000) (by have := r.isLt; omega))
          (V c (Pipeline.arrRef spec9 3) : S1x512.Idx → Elt F .f32) (V c (Pipeline.arrRef spec9 4) : S1x512.Idx → Elt F .f32)
          (ix2 ⟨r.val % 1000, Nat.mod_lt _ (by decide)⟩ j) := by
  rw [final9]
  exact normWhole9_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the output is the normalisation, from the given sums, of the activation as the
    region finds it. -/
theorem normArray9_spec (c : Dev nD) (r : Fin 10000) (j : Fin 512) :
    ((dat9 V c).arrAt 5 cfg9.N : S10000x512.Idx → EReal) (ix2 r j)
      = Cert.Gin.normFrom (fun r l => (V c (Pipeline.arrRef spec9 0) : S10000x512.Idx → EReal) (ix2 r l))
          (fun l => (V c (Pipeline.arrRef spec9 1) : S1x512.Idx → EReal) (ix2 0 l))
          (fun l => (V c (Pipeline.arrRef spec9 2) : S1x512.Idx → EReal) (ix2 0 l))
          (fun l => (V c (Pipeline.arrRef spec9 3) : S1x512.Idx → EReal) (ix2 0 l))
          (fun l => (V c (Pipeline.arrRef spec9 4) : S1x512.Idx → EReal) (ix2 0 l)) r j := by
  refine (normArray9 V c r j).trans ?_
  refine (Cert.Gin.Ker.k9_pay1_apply _ _ _ _ _ _ j).trans ?_
  have e : (⟨1000 * (r.val / 1000) + r.val % 1000, by have := r.isLt; omega⟩ : Fin 10000) = r := Fin.ext (by show 1000 * (r.val / 1000) + r.val % 1000 = r.val; omega)
  unfold Cert.Gin.normFrom rowsTile9
  dsimp only
  rw [e]

end

end Cert.KernelIdeal.Arr

end
-- ==== Proof.KA.Layer5.lean ====
/-
  Layer 5 on the kernel side: the perceptron kernel's entry arrays are the aggregation of the previous layer's array,
  the layer's two weight matrices and its two bias rows, all cut out of the stacked arguments; the normalisation kernel's
  entry arrays are that kernel's three outputs and the scale and shift rows; so the normalisation kernel leaves the
  shared closed function's layer-5 array.
-/
import proofs.«100381_j2018634629568_1_alg».proof.Proof.KA.Glue
import proofs.«100381_j2018634629568_1_alg».proof.Proof.KA.Keep
import proofs.«100381_j2018634629568_1_alg».proof.Proof.KH.S0
import proofs.«100381_j2018634629568_1_alg».proof.Proof.KH.S8
import proofs.«100381_j2018634629568_1_alg».proof.Proof.KH.SOdd
import proofs.«100381_j2018634629568_1_alg».proof.Proof.KA.NormArray9

set_option maxRecDepth 16384

noncomputable section

namespace Cert.Gin.KerWhole

open Idealize.ShloMosaic Idealize.ShloMosaic.TcCoe Idealize.SL.Sem Idealize.ShloMosaic.ValueIdx
open Cert.KernelIdeal Cert.KernelIdeal.Gen Cert.Gin.Ref Cert.Gin.KerHost

variable (m : (ℓ : Loc nD τ sig) → Buf (Elt Ideal) ℓ) (c : Dev nD)

theorem in8_0 (hprev : X16 m c (Proc.devRef .tc main_v111) = H4 m c) :
    (E17 m c (Pipeline.arrRef spec8 0) : S10000x512.Idx → EReal) = refAgg512 (H4 m c) (srcI m c) (dstI m c) :=
  (h8_v134 (X16 m c)).trans
    (agg512_congr hprev ((X16_v1 m c).trans (h0_v1 (X0 m c))) ((X16_v3 m c).trans (h0_v3 (X0 m c))))
theorem in8_1 : (E17 m c (Pipeline.arrRef spec8 1) : S512x512.Idx → EReal) = (cutMat (F := Ideal) 3 (A7 m c) Cert.ReferenceIdeal.Gen.slices_S4x512x512_S1x512x512_3_0_0) :=
  (h8_v113 (X16 m c)).trans
    (congrArg (fun W => cutMat (F := Ideal) 3 W Cert.ReferenceIdeal.Gen.slices_S4x512x512_S1x512x512_3_0_0) (X16_launch m c main_arg7 (by decide)))
theorem in8_2 : (E17 m c (Pipeline.arrRef spec8 2) : S1x512.Idx → EReal) = rowOf (F := Ideal) (cutRow (F := Ideal) 3 (A8 m c) Cert.ReferenceIdeal.Gen.slices_S4x512_S1x512_3_0) :=
  (h8_v135 (X16 m c)).trans
    (congrArg (fun G => rowOf (F := Ideal) (cutRow (F := Ideal) 3 G Cert.ReferenceIdeal.Gen.slices_S4x512_S1x512_3_0)) (X16_launch m c main_arg8 (by decide)))
theorem in8_3 : (E17 m c (Pipeline.arrRef spec8 3) : S512x512.Idx → EReal) = (cutMat (F := Ideal) 3 (A9 m c) Cert.ReferenceIdeal.Gen.slices_S4x512x512_S1x512x512_3_0_0) :=
  (h8_v117 (X16 m c)).trans
    (congrArg (fun W => cutMat (F := Ideal) 3 W Cert.ReferenceIdeal.Gen.slices_S4x512x512_S1x512x512_3_0_0) (X16_launch m c main_arg9 (by decide)))
theorem in8_4 : (E17 m c (Pipeline.arrRef spec8 4) : S1x512.Idx → EReal) = rowOf (F := Ideal) (cutRow (F := Ideal) 3 (A10 m c) Cert.ReferenceIdeal.Gen.slices_S4x512_S1x512_3_0) :=
  (h8_v136 (X16 m c)).trans
    (congrArg (fun G => rowOf (F := Ideal) (cutRow (F := Ideal) 3 G Cert.ReferenceIdeal.Gen.slices_S4x512_S1x512_3_0)) (X16_launch m c main_arg10 (by decide)))

/-- Region 8's perceptron of its entry arrays, as coordinates. -/
def mlpAt8 (V : (c : Dev nD) → (b : Ref sig .tc) → Buf (Elt Ideal) ((c : Thread nD τ).loc b)) (c : Dev nD) :
    Fin 10000 → Fin 512 → EReal :=
  Cert.Gin.mlp (fun r l => (V c (Pipeline.arrRef spec8 0) : S10000x512.Idx → EReal) (ix2 r l))
    (fun l k => (V c (Pipeline.arrRef spec8 1) : S512x512.Idx → EReal) (ix2 l k))
    (fun k => (V c (Pipeline.arrRef spec8 2) : S1x512.Idx → EReal) (ix2 0 k))
    (fun k j => (V c (Pipeline.arrRef spec8 3) : S512x512.Idx → EReal) (ix2 k j))
    (fun j => (V c (Pipeline.arrRef spec8 4) : S1x512.Idx → EReal) (ix2 0 j))

/-- In the shared vocabulary. -/
theorem mlpAt8_eq (hprev : X16 m c (Proc.devRef .tc main_v111) = H4 m c) : mlpAt8 (E17 m) c
    = Cert.Gin.mlp (co2 (refAgg512 (H4 m c) (srcI m c) (dstI m c))) (co2 (cutMat (F := Ideal) 3 (A7 m c) Cert.ReferenceIdeal.Gen.slices_S4x512x512_S1x512x512_3_0_0)) (co1' (cutRow (F := Ideal) 3 (A8 m c) Cert.ReferenceIdeal.Gen.slices_S4x512_S1x512_3_0))
        (co2 (cutMat (F := Ideal) 3 (A9 m c) Cert.ReferenceIdeal.Gen.slices_S4x512x512_S1x512x512_3_0_0)) (co1' (cutRow (F := Ideal) 3 (A10 m c) Cert.ReferenceIdeal.Gen.slices_S4x512_S1x512_3_0)) := by
  unfold mlpAt8
  rw [in8_0 m c hprev, in8_1, in8_2, in8_3, in8_4]
  simp only [rowOf_apply]

theorem in9_0 : (E19 m c (Pipeline.arrRef spec9 0) : S10000x512.Idx → EReal) = (dat8 (E17 m) c).arrAt 5 cfg8.N :=
  (X19_keep m c main_v137_0 (by decide)).trans (X18_arr m c 5)
theorem in9_1 : (E19 m c (Pipeline.arrRef spec9 1) : S1x512.Idx → EReal) = (dat8 (E17 m) c).arrAt 6 cfg8.N :=
  (X19_keep m c main_v137_1 (by decide)).trans (X18_arr m c 6)
theorem in9_2 : (E19 m c (Pipeline.arrRef spec9 2) : S1x512.Idx → EReal) = (dat8 (E17 m) c).arrAt 7 cfg8.N :=
  (X19_keep m c main_v137_2 (by decide)).trans (X18_arr m c 7)
theorem in9_3 : (E19 m c (Pipeline.arrRef spec9 3) : S1x512.Idx → EReal) = rowOf (F := Ideal) (cutRow (F := Ideal) 4 (A11 m c) Cert.ReferenceIdeal.Gen.slices_S5x512_S1x512_4_0) :=
  (h9_v138 (X18 m c)).trans (congrArg (rowOf (F := Ideal))
    ((X18_keep m c main_v121 (by decide)).trans ((h8_v121 (X16 m c)).trans
      (congrArg (fun G => cutRow (F := Ideal) 4 G Cert.ReferenceIdeal.Gen.slices_S5x512_S1x512_4_0) (X16_launch m c main_arg11 (by decide))))))
theorem in9_4 : (E19 m c (Pipeline.arrRef spec9 4) : S1x512.Idx → EReal) = rowOf (F := Ideal) (cutRow (F := Ideal) 4 (A12 m c) Cert.ReferenceIdeal.Gen.slices_S5x512_S1x512_4_0) :=
  (h9_v139 (X18 m c)).trans (congrArg (rowOf (F := Ideal))
    ((X18_keep m c main_v123 (by decide)).trans ((h8_v123 (X16 m c)).trans
      (congrArg (fun G => cutRow (F := Ideal) 4 G Cert.ReferenceIdeal.Gen.slices_S5x512_S1x512_4_0) (X16_launch m c main_arg12 (by decide))))))

set_option maxHeartbeats 1000000 in
/-- LAYER 5: the normalisation kernel leaves the shared closed function's layer-5 array. -/
theorem layer5 (hprev : X16 m c (Proc.devRef .tc main_v111) = H4 m c)
    (hmlp : ∀ r j, ((dat8 (E17 m) c).arrAt 5 cfg8.N : S10000x512.Idx → EReal) (ix2 r j) = mlpAt8 (E17 m) c r j)
    (hsum : ∀ j, ((dat8 (E17 m) c).arrAt 6 cfg8.N : S1x512.Idx → EReal) (ix2 0 j) = Cert.Gin.colSum (mlpAt8 (E17 m) c) j)
    (hsq : ∀ j, ((dat8 (E17 m) c).arrAt 7 cfg8.N : S1x512.Idx → EReal) (ix2 0 j) = Cert.Gin.colSumSq (mlpAt8 (E17 m) c) j)
    (hH : Cert.Gin.IsReal2 (co2 (H4 m c))) (hWa : Cert.Gin.IsReal2 (co2 (cutMat (F := Ideal) 3 (A7 m c) Cert.ReferenceIdeal.Gen.slices_S4x512x512_S1x512x512_3_0_0)))
    (hba : Cert.Gin.IsReal1 (co1' (cutRow (F := Ideal) 3 (A8 m c) Cert.ReferenceIdeal.Gen.slices_S4x512_S1x512_3_0))) (hWb : Cert.Gin.IsReal2 (co2 (cutMat (F := Ideal) 3 (A9 m c) Cert.ReferenceIdeal.Gen.slices_S4x512x512_S1x512x512_3_0_0)))
    (hbb : Cert.Gin.IsReal1 (co1' (cutRow (F := Ideal) 3 (A10 m c) Cert.ReferenceIdeal.Gen.slices_S4x512_S1x512_3_0))) :
    X20 m c (Proc.devRef .tc main_v140) = H5 m c :=
  (X20_arr m c 5).trans <|
    refLayer512_unique (H4 m c) (srcI m c) (dstI m c) (cutMat (F := Ideal) 3 (A7 m c) Cert.ReferenceIdeal.Gen.slices_S4x512x512_S1x512x512_3_0_0) (cutRow (F := Ideal) 3 (A8 m c) Cert.ReferenceIdeal.Gen.slices_S4x512_S1x512_3_0) (cutMat (F := Ideal) 3 (A9 m c) Cert.ReferenceIdeal.Gen.slices_S4x512x512_S1x512x512_3_0_0) (cutRow (F := Ideal) 3 (A10 m c) Cert.ReferenceIdeal.Gen.slices_S4x512_S1x512_3_0) (cutRow (F := Ideal) 4 (A11 m c) Cert.ReferenceIdeal.Gen.slices_S5x512_S1x512_4_0) (cutRow (F := Ideal) 4 (A12 m c) Cert.ReferenceIdeal.Gen.slices_S5x512_S1x512_4_0)
      hH hWa hba hWb hbb _ fun r j =>
      (layer_glue _ _ _ _ _ _ (mlpAt8 (E17 m) c) _ _ (Cert.KernelIdeal.Arr.normArray9_spec (E19 m) c)
        (fun r l => (congrFun (in9_0 m c) (ix2 r l)).trans (hmlp r l))
        (fun l => (congrFun (in9_1 m c) (ix2 0 l)).trans (hsum l))
        (fun l => (congrFun (in9_2 m c) (ix2 0 l)).trans (hsq l))
        (in9_3 m c) (in9_4 m c) r j).trans
      (congrFun (congrFun (congrArg (fun M => Cert.Gin.normalize M _ _) (mlpAt8_eq m c hprev)) r) j)

end Cert.Gin.KerWhole

end
-- ==== Proof.KH.S10.lean ====
/-
  The kernel program's last host stretch read as functions of the contents it starts from: the mean pooling of the
  last layer's output over the graphs, and the head's two bias vectors as one-row matrices — the same host operations
  the reference applies.
-/
import proofs.«100381_j2018634629568_1_alg».proof.Proof.Gen.KernelIdeal.Launch
import proofs.«100381_j2018634629568_1_alg».proof.Proof.Gen.ReferenceIdeal
import proofs.«100381_j2018634629568_1_alg».proof.Proof.Ref.Cuts
import proofs.«100381_j2018634629568_1_alg».proof.Proof.Ref.Layer
import Idealize.ShloMosaic.Lib.StableHlo.Run

noncomputable section

namespace Cert.Gin.KerHost

open Idealize.ShloMosaic Idealize.ShloMosaic.StableHlo Cert.KernelIdeal Cert.KernelIdeal.Gen Cert.Gin.Ref

/-- The pooled array. -/
theorem h10_v152 (W : Valuation τ sig (Elt Ideal)) :
    after (hostOps10 (F := Ideal)) W (Proc.devRef .tc main_v152)
      = refPool (W (Proc.devRef .tc main_v140)) (W (Proc.devRef .tc main_arg2)) := by
  after_results_simp
  rfl

/-- The head's first bias as a one-row matrix. -/
theorem h10_v153 (W : Valuation τ sig (Elt Ideal)) :
    after (hostOps10 (F := Ideal)) W (Proc.devRef .tc main_v153)
      = rowOf (F := Ideal) (W (Proc.devRef .tc main_arg14)) := by
  after_results_simp
  rfl

/-- The head's second bias as a one-row matrix. -/
theorem h10_v154 (W : Valuation τ sig (Elt Ideal)) :
    after (hostOps10 (F := Ideal)) W (Proc.devRef .tc main_v154)
      = rowOf18 (F := Ideal) (W (Proc.devRef .tc main_arg16)) := by
  after_results_simp
  rfl

end Cert.Gin.KerHost

end
-- ==== Proof.KV.Head.lean ====
/-
  The head kernel's payload read at (g, o): the two products into zeros are sums over the contracted coordinate,
  the narrowings to bf16 the identity, the bias rows broadcast over the 64 rows — the specification's head.
-/
import proofs.«100381_j2018634629568_1_alg».proof.Proof.KV.Basic

noncomputable section

namespace Cert.Gin.Ker

open Idealize.ShloMosaic Idealize.ShloMosaic.ValueIdx Cert.KernelIdeal Cert.KernelIdeal.Gen

/-- THE HEAD KERNEL'S PAYLOAD READ AT (g, o). -/
theorem k10_pay1_apply (p : Vec Ideal S64x512 .f32) (W1 : Vec Ideal S512x512 .f32) (b1 : Vec Ideal S1x512 .f32)
    (W2 : Vec Ideal S512x18 .f32) (b2 : Vec Ideal S1x18 .f32) (g : Fin 64) (o : Fin 18) :
    k10_pay1 (F := Ideal) p W1 b1 W2 b2 (ix2 g o)
      = Cert.Gin.head (fun g l => p (ix2 g l)) (fun l k => W1 (ix2 l k)) (fun k => b1 (ix2 0 k))
          (fun k o => W2 (ix2 k o)) (fun o => b2 (ix2 0 o)) g o := by
  unfold k10_pay1
  simp only [addf_apply, mmHead1_apply, mmHead2_apply, broadcastTo_1b_ab_apply, shapeCast_same_apply, truncf_apply,
    tanh_apply]
  rfl

end Cert.Gin.Ker

end
-- ==== Proof.KA.HeadArray.lean ====
/-
  The output array of the head region, entry by entry. The region has a single grid point and every window's one
  block is its whole array; the body stores one function of the five arrays — tanh (p W1 + b1) W2 + b2 — into the
  output's block, which is the whole [64,18] output. So the output array ends holding that function of the five arrays
  as the region finds them; at the ideal instance, the specification's head at every (g, o).
-/
import proofs.«100381_j2018634629568_1_alg».proof.Proof.KI.Head10
import proofs.«100381_j2018634629568_1_alg».proof.Proof.KV.Head
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem
open Idealize.ShloMosaic.Pipeline (Dat)
open Idealize.ShloMosaic.ValueIdx
open Cert.KernelIdeal Cert.KernelIdeal.Gen

section
variable {F : FTy → Type} [FloatOps F]
variable (V : (c : Dev nD) → (b : Ref sig .tc) → Buf (Elt F) ((c : Thread nD τ).loc b))

theorem zeroOff10 : (![0, 0] : Fin 2 → Nat) = fun _ => 0 := funext fun a => by fin_cases a <;> rfl

/-- What the body leaves in the output is its payload of the five blocks: the one store goes through the whole block. -/
theorem logits10_eq (p : Vec F S64x512 .f32) (w1 : Vec F S512x512 .f32) (b1 : Vec F S1x512 .f32) (w2 : Vec F S512x18 .f32) (b2 : Vec F S1x18 .f32) :
    logits10 p w1 b1 w2 b2 = k10_pay1 p w1 b1 w2 b2 := by
  unfold logits10
  rw [View.canon_unit_zero zeroOff10]
  simp only [View.ld_unit_zero (S := S64x512) zeroOff10, View.ld_unit_zero (S := S512x512) zeroOff10, View.ld_unit_zero (S := S1x512) zeroOff10,
    View.ld_unit_zero (S := S512x18) zeroOff10, View.ld_unit_zero (S := S1x18) zeroOff10]

/-- The index maps at the grid's one point: every window is at block (0, 0). -/
theorem idx_facts10 : ∀ t : Fin cfg10.N, win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

/-! Each input window has one block, the whole array: its block is the array itself. -/

theorem wholeBlock10_0 (c : Dev nD) (t : Fin cfg10.N) :
    (blockAt10 V c 0 t : Vec F S64x512 .f32) = (V c (Pipeline.arrRef spec10 0) : S64x512.Idx → Elt F .f32) := by
  have e0 : win10_0.index t (0 : Fin 2) = 0 := by have := idx_facts10 t; simp only [this]
  have e1 : win10_0.index t (1 : Fin 2) = 0 := by have := idx_facts10 t; simp only [this]
  funext y
  unfold blockAt10
  rw [View.read_apply]
  show V c (Pipeline.arrRef spec10 0) _ = V c (Pipeline.arrRef spec10 0) _
  congr 1
  funext a
  apply Fin.ext
  match a with
  | ⟨0, _⟩ => show win10_0.index t (0 : Fin 2) * 64 + 1 * (y 0).val = (y 0).val; rw [e0]; omega
  | ⟨1, _⟩ => show win10_0.index t (1 : Fin 2) * 512 + 1 * (y 1).val = (y 1).val; rw [e1]; omega

theorem wholeBlock10_1 (c : Dev nD) (t : Fin cfg10.N) :
    (blockAt10 V c 1 t : Vec F S512x512 .f32) = (V c (Pipeline.arrRef spec10 1) : S512x512.Idx → Elt F .f32) := by
  have e0 : win10_1.index t (0 : Fin 2) = 0 := by have := idx_facts10 t; simp only [this]
  have e1 : win10_1.index t (1 : Fin 2) = 0 := by have := idx_facts10 t; simp only [this]
  funext y
  unfold blockAt10
  rw [View.read_apply]
  show V c (Pipeline.arrRef spec10 1) _ = V c (Pipeline.arrRef spec10 1) _
  congr 1
  funext a
  apply Fin.ext
  match a with
  | ⟨0, _⟩ => show win10_1.index t (0 : Fin 2) * 512 + 1 * (y 0).val = (y 0).val; rw [e0]; omega
  | ⟨1, _⟩ => show win10_1.index t (1 : Fin 2) * 512 + 1 * (y 1).val = (y 1).val; rw [e1]; omega

theorem wholeBlock10_2 (c : Dev nD) (t : Fin cfg10.N) :
    (blockAt10 V c 2 t : Vec F S1x512 .f32) = (V c (Pipeline.arrRef spec10 2) : S1x512.Idx → Elt F .f32) := by
  have e0 : win10_2.index t (0 : Fin 2) = 0 := by have := idx_facts10 t; simp only [this]
  have e1 : win10_2.index t (1 : Fin 2) = 0 := by have := idx_facts10 t; simp only [this]
  funext y
  unfold blockAt10
  rw [View.read_apply]
  show V c (Pipeline.arrRef spec10 2) _ = V c (Pipeline.arrRef spec10 2) _
  congr 1
  funext a
  apply Fin.ext
  match a with
  | ⟨0, _⟩ => show win10_2.index t (0 : Fin 2) * 1 + 1 * (y 0).val = (y 0).val; rw [e0]; omega
  | ⟨1, _⟩ => show win10_2.index t (1 : Fin 2) * 512 + 1 * (y 1).val = (y 1).val; rw [e1]; omega

theorem wholeBlock10_3 (c : Dev nD) (t : Fin cfg10.N) :
    (blockAt10 V c 3 t : Vec F S512x18 .f32) = (V c (Pipeline.arrRef spec10 3) : S512x18.Idx → Elt F .f32) := by
  have e0 : win10_3.index t (0 : Fin 2) = 0 := by have := idx_facts10 t; simp only [this]
  have e1 : win10_3.index t (1 : Fin 2) = 0 := by have := idx_facts10 t; simp only [this]
  funext y
  unfold blockAt10
  rw [View.read_apply]
  show V c (Pipeline.arrRef spec10 3) _ = V c (Pipeline.arrRef spec10 3) _
  congr 1
  funext a
  apply Fin.ext
  match a with
  | ⟨0, _⟩ => show win10_3.index t (0 : Fin 2) * 512 + 1 * (y 0).val = (y 0).val; rw [e0]; omega
  | ⟨1, _⟩ => show win10_3.index t (1 : Fin 2) * 18 + 1 * (y 1).val = (y 1).val; rw [e1]; omega

theorem wholeBlock10_4 (c : Dev nD) (t : Fin cfg10.N) :
    (blockAt10 V c 4 t : Vec F S1x18 .f32) = (V c (Pipeline.arrRef spec10 4) : S1x18.Idx → Elt F .f32) := by
  have e0 : win10_4.index t (0 : Fin 2) = 0 := by have := idx_facts10 t; simp only [this]
  have e1 : win10_4.index t (1 : Fin 2) = 0 := by have := idx_facts10 t; simp only [this]
  funext y
  unfold blockAt10
  rw [View.read_apply]
  show V c (Pipeline.arrRef spec10 4) _ = V c (Pipeline.arrRef spec10 4) _
  congr 1
  funext a
  apply Fin.ext
  match a with
  | ⟨0, _⟩ => show win10_4.index t (0 : Fin 2) * 1 + 1 * (y 0).val = (y 0).val; rw [e0]; omega
  | ⟨1, _⟩ => show win10_4.index t (1 : Fin 2) * 18 + 1 * (y 1).val = (y 1).val; rw [e1]; omega

/-- The whole output: the head payload of the five arrays as the region finds them. -/
def headWhole10 (c : Dev nD) : S64x18.Idx → Elt F .f32 :=
  k10_pay1 (V c (Pipeline.arrRef spec10 0) : S64x512.Idx → Elt F .f32) (V c (Pipeline.arrRef spec10 1) : S512x512.Idx → Elt F .f32) (V c (Pipeline.arrRef spec10 2) : S1x512.Idx → Elt F .f32) (V c (Pipeline.arrRef spec10 3) : S512x18.Idx → Elt F .f32) (V c (Pipeline.arrRef spec10 4) : S1x18.Idx → Elt F .f32)

/-- What the point writes back is the one block, the whole, of that output. -/
theorem flushed10_eq (c : Dev nD) (t : Fin cfg10.N) :
    (dat10 V c).flushed 5 t = ((cfg10.win 5).blk t).view.read (Elt F) (headWhole10 V c) := by
  have e0 : win10_5.index t (0 : Fin 2) = 0 := by have := idx_facts10 t; simp only [this]
  have e1 : win10_5.index t (1 : Fin 2) = 0 := by have := idx_facts10 t; simp only [this]
  show (cfg10.win 5).cut (grid10.coords t) ((dat10 V c).after 5 t) = _
  rw [dat10_after5, logits10_eq, wholeBlock10_0, wholeBlock10_1, wholeBlock10_2, wholeBlock10_3, wholeBlock10_4]
  funext y
  rw [View.read_apply]
  show headWhole10 V c y = headWhole10 V c (((cfg10.win 5).blk t).view.emb y)
  refine congrArg (headWhole10 V c) ?_
  funext a
  apply Fin.ext
  match a with
  | ⟨0, _⟩ => show (y 0).val = win10_5.index t (0 : Fin 2) * 64 + 1 * (y 0).val; rw [e0]; omega
  | ⟨1, _⟩ => show (y 1).val = win10_5.index t (1 : Fin 2) * 18 + 1 * (y 1).val; rw [e1]; omega

/-- An index of the output is in the point's block iff each coordinate is in the block's range on its axis. -/
theorem mem_blk10 (t : Fin cfg10.N) (i : S64x18.Idx) :
    i ∈ ((cfg10.win 5).blk t).view.set ↔ ∀ a : Fin 2, win10_5.index t a * S64x18.size a ≤ (i a).val ∧ (i a).val < win10_5.index t a * S64x18.size a + S64x18.size a := by
  show i ∈ ((View.whole main_v155).slice (win10_5.rect t)).set ↔ _
  rw [View.set_slice_whole, Rect.mem_set_unit]
  exact Iff.rfl

/-- The one block covers the output. -/
theorem cover10 (i : S64x18.Idx) : ∃ t : Fin cfg10.N, (cfg10.win 5).flush t = true ∧ i ∈ ((cfg10.win 5).blk t).view.set := by
  have hi0 : (i 0).val < 64 := idx2_lt0 i
  have hi1 : (i 1).val < 18 := idx2_lt1 i
  have e0 : win10_5.index t10_0 (0 : Fin 2) = 0 := by have := idx_facts10 t10_0; simp only [this]
  have e1 : win10_5.index t10_0 (1 : Fin 2) = 0 := by have := idx_facts10 t10_0; simp only [this]
  refine ⟨t10_0, flush10_5 t10_0, ?_⟩
  rw [mem_blk10]
  intro a
  match a with
  | ⟨0, _⟩ => show win10_5.index t10_0 (0 : Fin 2) * 64 ≤ (i 0).val ∧ (i 0).val < win10_5.index t10_0 (0 : Fin 2) * 64 + 64; omega
  | ⟨1, _⟩ => show win10_5.index t10_0 (1 : Fin 2) * 18 ≤ (i 1).val ∧ (i 1).val < win10_5.index t10_0 (1 : Fin 2) * 18 + 18; omega

/-- The output array after the region: the head payload of the five arrays. -/
theorem final10 (c : Dev nD) : (dat10 V c).arrAt 5 cfg10.N = headWhole10 V c :=
  (dat10 V c).arrAt_eq_of_cover 5 (headWhole10 V c) (fun t _ => flushed10_eq V c t) cover10

/-- Entry (g, o) of the output array after the region. -/
theorem headArray (c : Dev nD) (g : Fin 64) (o : Fin 18) :
    ((dat10 V c).arrAt 5 cfg10.N : S64x18.Idx → Elt F .f32) (ix2 g o)
      = k10_pay1 (V c (Pipeline.arrRef spec10 0) : S64x512.Idx → Elt F .f32) (V c (Pipeline.arrRef spec10 1) : S512x512.Idx → Elt F .f32) (V c (Pipeline.arrRef spec10 2) : S1x512.Idx → Elt F .f32) (V c (Pipeline.arrRef spec10 3) : S512x18.Idx → Elt F .f32) (V c (Pipeline.arrRef spec10 4) : S1x18.Idx → Elt F .f32) (ix2 g o) := by
  rw [final10]; rfl

end

section
variable (V : (c : Dev nD) → (b : Ref sig .tc) → Buf (Elt Ideal) ((c : Thread nD τ).loc b))

/-- At the ideal instance: entry (g, o) of the output is the specification's head of the five arrays. -/
theorem headArray_spec (c : Dev nD) (g : Fin 64) (o : Fin 18) :
    ((dat10 V c).arrAt 5 cfg10.N : S64x18.Idx → EReal) (ix2 g o)
      = Cert.Gin.head (fun g l => (V c (Pipeline.arrRef spec10 0) : S64x512.Idx → EReal) (ix2 g l)) (fun l k => (V c (Pipeline.arrRef spec10 1) : S512x512.Idx → EReal) (ix2 l k))
          (fun k => (V c (Pipeline.arrRef spec10 2) : S1x512.Idx → EReal) (ix2 0 k)) (fun k o => (V c (Pipeline.arrRef spec10 3) : S512x18.Idx → EReal) (ix2 k o))
          (fun o => (V c (Pipeline.arrRef spec10 4) : S1x18.Idx → EReal) (ix2 0 o)) g o :=
  (headArray V c g o).trans (Cert.Gin.Ker.k10_pay1_apply _ _ _ _ _ g o)

end

end Cert.KernelIdeal.Arr

end
-- ==== Proof.KA.PoolHead.lean ====
/-
  The last two items on the kernel side: the head kernel's entry arrays are the mean pooling of the fifth layer's array,
  the head's two weight matrices and its two bias rows; so the head kernel leaves the head of the pooled array.
-/
import proofs.«100381_j2018634629568_1_alg».proof.Proof.KA.Glue
import proofs.«100381_j2018634629568_1_alg».proof.Proof.KA.Keep
import proofs.«100381_j2018634629568_1_alg».proof.Proof.KH.S10
import proofs.«100381_j2018634629568_1_alg».proof.Proof.KA.HeadArray

set_option maxRecDepth 16384

noncomputable section

namespace Cert.Gin.KerWhole

open Idealize.ShloMosaic Idealize.ShloMosaic.TcCoe Idealize.SL.Sem Idealize.ShloMosaic.ValueIdx
open Cert.KernelIdeal Cert.KernelIdeal.Gen Cert.Gin.Ref Cert.Gin.KerHost

variable (m : (ℓ : Loc nD τ sig) → Buf (Elt Ideal) ℓ) (c : Dev nD)

omit m c in
/-- The pooling respects equal operands. -/
theorem pool_congr {h h' : FVec Ideal Cert.ReferenceIdeal.S10000x512 .f32} {b b' : IVec Cert.ReferenceIdeal.S10000 32} (hh : h = h') (hb : b = b') :
    refPool h b = refPool h' b' := by
  subst hh hb; rfl

theorem in10_0 (hprev : X20 m c (Proc.devRef .tc main_v140) = H5 m c) :
    (E21 m c (Pipeline.arrRef spec10 0) : S64x512.Idx → EReal) = refPool (H5 m c) (A2 m c) :=
  (h10_v152 (X20 m c)).trans (pool_congr hprev (X20_launch m c main_arg2 (by decide)))
theorem in10_1 : (E21 m c (Pipeline.arrRef spec10 1) : S512x512.Idx → EReal) = A13 m c :=
  X21_launch m c main_arg13 (by decide)
theorem in10_2 : (E21 m c (Pipeline.arrRef spec10 2) : S1x512.Idx → EReal) = rowOf (F := Ideal) (A14 m c) :=
  (h10_v153 (X20 m c)).trans (congrArg (rowOf (F := Ideal)) (X20_launch m c main_arg14 (by decide)))
theorem in10_3 : (E21 m c (Pipeline.arrRef spec10 3) : S512x18.Idx → EReal) = A15 m c :=
  X21_launch m c main_arg15 (by decide)
theorem in10_4 : (E21 m c (Pipeline.arrRef spec10 4) : S1x18.Idx → EReal) = rowOf18 (F := Ideal) (A16 m c) :=
  (h10_v154 (X20 m c)).trans (congrArg (rowOf18 (F := Ideal)) (X20_launch m c main_arg16 (by decide)))

/-- POOLING AND HEAD: the head kernel leaves the head of the pooled fifth-layer array. -/
theorem poolHead (hprev : X20 m c (Proc.devRef .tc main_v140) = H5 m c) :
    X22 m c (Proc.devRef .tc main_v155)
      = refHead (refPool (H5 m c) (A2 m c)) (A13 m c) (A14 m c) (A15 m c) (A16 m c) :=
  (X22_arr m c 5).trans <|
    refHead_unique (refPool (H5 m c) (A2 m c)) (A13 m c) (A14 m c) (A15 m c) (A16 m c) _ fun g o =>
      head_glue _ _ _ _ _ _ _ _ _ _ _ (Cert.KernelIdeal.Arr.headArray_spec (E21 m) c)
        (in10_0 m c hprev) (in10_1 m c) (in10_2 m c) (in10_3 m c) (in10_4 m c) g o

end Cert.Gin.KerWhole

end
-- ==== Proof.Ref.Finite.lean ====
/-
  From the precondition to real inputs. The printed predicate takes, for each float argument array, the comparison
  |x| < +inf at every entry, reduces it by 'and' over all axes from the constant 1, and joins the fifteen results by
  'and'; the claim's precondition says the value is 1. So every entry of every float argument has its absolute
  value below +inf on the extended reals, which makes it a real number.
-/
import proofs.«100381_j2018634629568_1_alg».proof.Pre_finite_inputs
import proofs.«100381_j2018634629568_1_alg».proof.Proof.Ref.Layout
import Idealize.ShloMosaic.Lib.ReduceAll
import Idealize.ShloMosaic.Lib.ValueIdx

noncomputable section

namespace Cert.Gin.Ref

open Idealize.ShloMosaic Idealize.ShloMosaic.ValueIdx

/-- The scalar shape has one index. -/
instance subsingleton_scalar_idx : Subsingleton (⟨0, ![]⟩ : Shape).Idx := ⟨fun _ _ => funext fun d => d.elim0⟩

/-- The word 0x7F800000 denotes +inf. -/
theorem inf_word : Ideal.ofBits .f32 0x7F800000#32 = ⊤ := by simp [Ideal.ofBits, Ideal.ieee]

/-- An extended real whose absolute value is below +inf is a real number. -/
theorem real_of_abs_lt_inf (x : EReal) (h : Ideal.cmp .olt (max x (-x)) (Ideal.ofBits .f32 0x7F800000#32) = 1#1) :
    ∃ y : ℝ, x = (y : EReal) := by
  rw [inf_word] at h
  induction x using EReal.rec with
  | bot => simp [Ideal.cmp] at h
  | coe y => exact ⟨y, rfl⟩
  | top => simp [Ideal.cmp] at h

/-- A vector 'and' at an index. -/
theorem andi_apply {s : Shape} {w : Nat} (x y : IVec s w) (i : s.Idx) : andi x y i = IntOp.andi (x i) (y i) := rfl

/-- If the reduction by 'and' of |x| < +inf over all axes is 1, every entry of x is a real number. -/
theorem all_real {s : Shape} {axes : List (Fin s.rank)} (x : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
        (cmpf .olt (Host.absf (F := Ideal) x) (broadcastInDim s dims bc (constant (F := Ideal) ⟨0, ![]⟩ .f32 0x7F800000#32)))
        (constantI ⟨0, ![]⟩ 1 1#1) h' hu ix0 = 1#1) (i : s.Idx) :
    ∃ y : ℝ, x i = (y : EReal) := by
  have h1 := Host.reduce_andi_all _ _ h' hu ix0 e i
  rw [cmpf_apply, bc_scalar_apply, constant_apply] at h1
  exact real_of_abs_lt_inf (x i) h1

open Cert.Pre_finite_inputs in
/-- THE PRECONDITION'S PREDICATE BEING 1 MAKES EVERY ENTRY OF EVERY FLOAT ARGUMENT A REAL NUMBER. -/
theorem finite_inputs_real [Cert.Pre_finite_inputs.Facts]
    (a0 : FVec Ideal S10000x16 .f32) (a1 : IVec S2x160000 32) (a2 : IVec S10000 32) (a3 : FVec Ideal S16x512 .f32)
    (a4 : FVec Ideal S512 .f32) (a5 : FVec Ideal S512x512 .f32) (a6 : FVec Ideal S512 .f32)
    (a7 : FVec Ideal S4x512x512 .f32) (a8 : FVec Ideal S4x512 .f32) (a9 : FVec Ideal S4x512x512 .f32)
    (a10 : FVec Ideal S4x512 .f32) (a11 : FVec Ideal S5x512 .f32) (a12 : FVec Ideal S5x512 .f32)
    (a13 : FVec Ideal S512x512 .f32) (a14 : FVec Ideal S512 .f32) (a15 : FVec Ideal S512x18 .f32)
    (a16 : FVec Ideal S18 .f32)
    (h : Cert.Pre_finite_inputs.fn (F := Ideal) a0 a1 a2 a3 a4 a5 a6 a7 a8 a9 a10 a11 a12 a13 a14 a15 a16 = fun _ => 1#1) :
    (∀ i, ∃ y : ℝ, a0 i = (y : EReal)) ∧ (∀ i, ∃ y : ℝ, a3 i = (y : EReal)) ∧ (∀ i, ∃ y : ℝ, a4 i = (y : EReal))
    ∧ (∀ i, ∃ y : ℝ, a5 i = (y : EReal)) ∧ (∀ i, ∃ y : ℝ, a6 i = (y : EReal)) ∧ (∀ i, ∃ y : ℝ, a7 i = (y : EReal))
    ∧ (∀ i, ∃ y : ℝ, a8 i = (y : EReal)) ∧ (∀ i, ∃ y : ℝ, a9 i = (y : EReal)) ∧ (∀ i, ∃ y : ℝ, a10 i = (y : EReal))
    ∧ (∀ i, ∃ y : ℝ, a11 i = (y : EReal)) ∧ (∀ i, ∃ y : ℝ, a12 i = (y : EReal)) ∧ (∀ i, ∃ y : ℝ, a13 i = (y : EReal))
    ∧ (∀ i, ∃ y : ℝ, a14 i = (y : EReal)) ∧ (∀ i, ∃ y : ℝ, a15 i = (y : EReal)) ∧ (∀ i, ∃ y : ℝ, a16 i = (y : EReal)) := by
  have h0 := congrFun h ix0
  simp only [Cert.Pre_finite_inputs.fn, Cert.Pre_finite_inputs.fn_part1, Cert.Pre_finite_inputs.fn_part2,
    Cert.Pre_finite_inputs.fn_part3, Cert.Pre_finite_inputs.fn_part4, andi_apply, IntOp.andi_eq_one] at h0
  obtain ⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩ := h0
  exact ⟨all_real a0 _ _ _ _ e0, all_real a3 _ _ _ _ e3, all_real a4 _ _ _ _ e4, all_real a5 _ _ _ _ e5,
    all_real a6 _ _ _ _ e6, all_real a7 _ _ _ _ e7, all_real a8 _ _ _ _ e8, all_real a9 _ _ _ _ e9,
    all_real a10 _ _ _ _ e10, all_real a11 _ _ _ _ e11, all_real a12 _ _ _ _ e12, all_real a13 _ _ _ _ e13,
    all_real a14 _ _ _ _ e14, all_real a15 _ _ _ _ e15, all_real a16 _ _ _ _ e16⟩

end Cert.Gin.Ref

end
-- ==== Proof.KA.Real.lean ====
/-
  Reals on the kernel side: under the precondition every entry of every float argument is real, so the parameters cut
  out of the stacks are real and each layer's array of the shared closed function is an array of reals.
-/
import proofs.«100381_j2018634629568_1_alg».proof.Proof.KA.Glue
import proofs.«100381_j2018634629568_1_alg».proof.Proof.Gen.ReferenceIdeal
import proofs.«100381_j2018634629568_1_alg».proof.Proof.Ref.Finite
import proofs.«100381_j2018634629568_1_alg».proof.Proof.Gen.Pre_finite_inputs
import proofs.«100381_j2018634629568_1_alg».proof.Defs

set_option maxRecDepth 16384

noncomputable section

namespace Cert.Gin.KerWhole

open Idealize.ShloMosaic Idealize.ShloMosaic.TcCoe Idealize.SL.Sem Idealize.ShloMosaic.ValueIdx
open Cert.KernelIdeal Cert.KernelIdeal.Gen Cert.Gin.Ref

variable (m : (ℓ : Loc nD τ sig) → Buf (Elt Ideal) ℓ) (c : Dev nD)

/-- Every entry of every float argument is real. -/
theorem args_real (hpre : Cert.Pre_KernelIdeal (hPre_finite_inputs := Cert.Pre_finite_inputs.Gen.facts) m) :
    (∀ i, ∃ y : ℝ, A0 m c i = (y : EReal))
    ∧ (∀ i, ∃ y : ℝ, A3 m c i = (y : EReal))
    ∧ (∀ i, ∃ y : ℝ, A4 m c i = (y : EReal))
    ∧ (∀ i, ∃ y : ℝ, A5 m c i = (y : EReal))
    ∧ (∀ i, ∃ y : ℝ, A6 m c i = (y : EReal))
    ∧ (∀ i, ∃ y : ℝ, A7 m c i = (y : EReal))
    ∧ (∀ i, ∃ y : ℝ, A8 m c i = (y : EReal))
    ∧ (∀ i, ∃ y : ℝ, A9 m c i = (y : EReal))
    ∧ (∀ i, ∃ y : ℝ, A10 m c i = (y : EReal))
    ∧ (∀ i, ∃ y : ℝ, A11 m c i = (y : EReal))
    ∧ (∀ i, ∃ y : ℝ, A12 m c i = (y : EReal))
    ∧ (∀ i, ∃ y : ℝ, A13 m c i = (y : EReal))
    ∧ (∀ i, ∃ y : ℝ, A14 m c i = (y : EReal))
    ∧ (∀ i, ∃ y : ℝ, A15 m c i = (y : EReal))
    ∧ (∀ i, ∃ y : ℝ, A16 m c i = (y : EReal)) :=
  finite_inputs_real (A0 m c) (A1 m c) (A2 m c) (A3 m c) (A4 m c) (A5 m c) (A6 m c) (A7 m c) (A8 m c) (A9 m c) (A10 m c)
    (A11 m c) (A12 m c) (A13 m c) (A14 m c) (A15 m c) (A16 m c) (hpre c)

section
variable (h0 : ∀ i, ∃ y : ℝ, A0 m c i = (y : EReal)) (h3 : ∀ i, ∃ y : ℝ, A3 m c i = (y : EReal))
  (h4 : ∀ i, ∃ y : ℝ, A4 m c i = (y : EReal)) (h5 : ∀ i, ∃ y : ℝ, A5 m c i = (y : EReal))
  (h6 : ∀ i, ∃ y : ℝ, A6 m c i = (y : EReal)) (h7 : ∀ i, ∃ y : ℝ, A7 m c i = (y : EReal))
  (h8 : ∀ i, ∃ y : ℝ, A8 m c i = (y : EReal)) (h9 : ∀ i, ∃ y : ℝ, A9 m c i = (y : EReal))
  (h10 : ∀ i, ∃ y : ℝ, A10 m c i = (y : EReal)) (h11 : ∀ i, ∃ y : ℝ, A11 m c i = (y : EReal))
  (h12 : ∀ i, ∃ y : ℝ, A12 m c i = (y : EReal))
include h0 h3 h4 h5 h6 h11 h12

/-- The first layer's array is real. -/
theorem real_H1 : Cert.Gin.IsReal2 (co2 (H1 m c)) :=
  refLayer16_real (A0 m c) (srcI m c) (dstI m c) (A3 m c) (A4 m c) (A5 m c) (A6 m c) _ _
    (co2_real _ h0) (co2_real _ h3) (co1_real _ h4) (co2_real _ h5) (co1_real _ h6)
    (cutRow_real 0 (by decide) (A11 m c) _ h11) (cutRow_real 0 (by decide) (A12 m c) _ h12)

include h7 h8 h9 h10
/-- Layer 2's array is real. -/
theorem real_H2 : Cert.Gin.IsReal2 (co2 (H2 m c)) :=
  refLayer512_real (H1 m c) (srcI m c) (dstI m c) (cutMat (F := Ideal) 0 (A7 m c) Cert.ReferenceIdeal.Gen.slices_S4x512x512_S1x512x512_0_0_0) (cutRow (F := Ideal) 0 (A8 m c) Cert.ReferenceIdeal.Gen.slices_S4x512_S1x512_0_0) (cutMat (F := Ideal) 0 (A9 m c) Cert.ReferenceIdeal.Gen.slices_S4x512x512_S1x512x512_0_0_0) (cutRow (F := Ideal) 0 (A10 m c) Cert.ReferenceIdeal.Gen.slices_S4x512_S1x512_0_0) (cutRow (F := Ideal) 1 (A11 m c) Cert.ReferenceIdeal.Gen.slices_S5x512_S1x512_1_0) (cutRow (F := Ideal) 1 (A12 m c) Cert.ReferenceIdeal.Gen.slices_S5x512_S1x512_1_0)
    (real_H1 m c h0 h3 h4 h5 h6 h11 h12)
    (cutMat_real 0 (by decide) (A7 m c) _ h7) (cutRow_real 0 (by decide) (A8 m c) _ h8)
    (cutMat_real 0 (by decide) (A9 m c) _ h9) (cutRow_real 0 (by decide) (A10 m c) _ h10)
    (cutRow_real 1 (by decide) (A11 m c) _ h11) (cutRow_real 1 (by decide) (A12 m c) _ h12)

/-- Layer 3's array is real. -/
theorem real_H3 : Cert.Gin.IsReal2 (co2 (H3 m c)) :=
  refLayer512_real (H2 m c) (srcI m c) (dstI m c) (cutMat (F := Ideal) 1 (A7 m c) Cert.ReferenceIdeal.Gen.slices_S4x512x512_S1x512x512_1_0_0) (cutRow (F := Ideal) 1 (A8 m c) Cert.ReferenceIdeal.Gen.slices_S4x512_S1x512_1_0) (cutMat (F := Ideal) 1 (A9 m c) Cert.ReferenceIdeal.Gen.slices_S4x512x512_S1x512x512_1_0_0) (cutRow (F := Ideal) 1 (A10 m c) Cert.ReferenceIdeal.Gen.slices_S4x512_S1x512_1_0) (cutRow (F := Ideal) 2 (A11 m c) Cert.ReferenceIdeal.Gen.slices_S5x512_S1x512_2_0) (cutRow (F := Ideal) 2 (A12 m c) Cert.ReferenceIdeal.Gen.slices_S5x512_S1x512_2_0)
    (real_H2 m c h0 h3 h4 h5 h6 h7 h8 h9 h10 h11 h12)
    (cutMat_real 1 (by decide) (A7 m c) _ h7) (cutRow_real 1 (by decide) (A8 m c) _ h8)
    (cutMat_real 1 (by decide) (A9 m c) _ h9) (cutRow_real 1 (by decide) (A10 m c) _ h10)
    (cutRow_real 2 (by decide) (A11 m c) _ h11) (cutRow_real 2 (by decide) (A12 m c) _ h12)

/-- Layer 4's array is real. -/
theorem real_H4 : Cert.Gin.IsReal2 (co2 (H4 m c)) :=
  refLayer512_real (H3 m c) (srcI m c) (dstI m c) (cutMat (F := Ideal) 2 (A7 m c) Cert.ReferenceIdeal.Gen.slices_S4x512x512_S1x512x512_2_0_0) (cutRow (F := Ideal) 2 (A8 m c) Cert.ReferenceIdeal.Gen.slices_S4x512_S1x512_2_0) (cutMat (F := Ideal) 2 (A9 m c) Cert.ReferenceIdeal.Gen.slices_S4x512x512_S1x512x512_2_0_0) (cutRow (F := Ideal) 2 (A10 m c) Cert.ReferenceIdeal.Gen.slices_S4x512_S1x512_2_0) (cutRow (F := Ideal) 3 (A11 m c) Cert.ReferenceIdeal.Gen.slices_S5x512_S1x512_3_0) (cutRow (F := Ideal) 3 (A12 m c) Cert.ReferenceIdeal.Gen.slices_S5x512_S1x512_3_0)
    (real_H3 m c h0 h3 h4 h5 h6 h7 h8 h9 h10 h11 h12)
    (cutMat_real 2 (by decide) (A7 m c) _ h7) (cutRow_real 2 (by decide) (A8 m c) _ h8)
    (cutMat_real 2 (by decide) (A9 m c) _ h9) (cutRow_real 2 (by decide) (A10 m c) _ h10)
    (cutRow_real 3 (by decide) (A11 m c) _ h11) (cutRow_real 3 (by decide) (A12 m c) _ h12)

/-- Layer 5's array is real. -/
theorem real_H5 : Cert.Gin.IsReal2 (co2 (H5 m c)) :=
  refLayer512_real (H4 m c) (srcI m c) (dstI m c) (cutMat (F := Ideal) 3 (A7 m c) Cert.ReferenceIdeal.Gen.slices_S4x512x512_S1x512x512_3_0_0) (cutRow (F := Ideal) 3 (A8 m c) Cert.ReferenceIdeal.Gen.slices_S4x512_S1x512_3_0) (cutMat (F := Ideal) 3 (A9 m c) Cert.ReferenceIdeal.Gen.slices_S4x512x512_S1x512x512_3_0_0) (cutRow (F := Ideal) 3 (A10 m c) Cert.ReferenceIdeal.Gen.slices_S4x512_S1x512_3_0) (cutRow (F := Ideal) 4 (A11 m c) Cert.ReferenceIdeal.Gen.slices_S5x512_S1x512_4_0) (cutRow (F := Ideal) 4 (A12 m c) Cert.ReferenceIdeal.Gen.slices_S5x512_S1x512_4_0)
    (real_H4 m c h0 h3 h4 h5 h6 h7 h8 h9 h10 h11 h12)
    (cutMat_real 3 (by decide) (A7 m c) _ h7) (cutRow_real 3 (by decide) (A8 m c) _ h8)
    (cutMat_real 3 (by decide) (A9 m c) _ h9) (cutRow_real 3 (by decide) (A10 m c) _ h10)
    (cutRow_real 4 (by decide) (A11 m c) _ h11) (cutRow_real 4 (by decide) (A12 m c) _ h12)

end

end Cert.Gin.KerWhole

end
-- ==== Proof.KV.Mlp.lean ====
/-
  The perceptron payload of each of the five perceptron kernels read at (r, j): at the ideal instance the
  narrowings to bf16 are the identity, the two products into zeros are sums over the contracted coordinate, the bias
  rows are broadcast over the tile's rows and the rectifier is the maximum with 0 — the specification's perceptron
  of the tile's coordinates.
-/
import proofs.«100381_j2018634629568_1_alg».proof.Proof.KV.Basic

noncomputable section

namespace Cert.Gin.Ker

open Idealize.ShloMosaic Idealize.ShloMosaic.ValueIdx Cert.KernelIdeal Cert.KernelIdeal.Gen

/-- THE FIRST KERNEL'S PERCEPTRON PAYLOAD READ AT (r, j). -/
theorem k0_pay4_apply (x0 : Vec Ideal S1000x16 .f32) (x1 : Vec Ideal S16x512 .f32) (x2 : Vec Ideal S1x512 .f32)
    (x3 : Vec Ideal S512x512 .f32) (x4 : Vec Ideal S1x512 .f32) (r : Fin 1000) (j : Fin 512) :
    k0_pay4 (F := Ideal) x0 x1 x2 x3 x4 (ix2 r j)
      = Cert.Gin.mlp (fun r l => x0 (ix2 r l)) (fun l k => x1 (ix2 l k)) (fun k => x2 (ix2 0 k))
          (fun k j => x3 (ix2 k j)) (fun j => x4 (ix2 0 j)) r j := by
  unfold k0_pay4
  simp only [maximumf_apply, addf_apply, splat_zero_apply, mm16_apply, mm512_apply, broadcastTo_1b_ab_apply,
    shapeCast_same_apply, truncf_apply]
  rfl

/-- Kernel 2's perceptron payload read at (r, j). -/
theorem k2_pay5_apply (x0 : Vec Ideal S1000x512 .f32) (x1 : Vec Ideal S512x512 .f32) (x2 : Vec Ideal S1x512 .f32)
    (x3 : Vec Ideal S512x512 .f32) (x4 : Vec Ideal S1x512 .f32) (r : Fin 1000) (j : Fin 512) :
    k2_pay5 (F := Ideal) x0 x1 x2 x3 x4 (ix2 r j)
      = Cert.Gin.mlp (fun r l => x0 (ix2 r l)) (fun l k => x1 (ix2 l k)) (fun k => x2 (ix2 0 k))
          (fun k j => x3 (ix2 k j)) (fun j => x4 (ix2 0 j)) r j := by
  unfold k2_pay5
  simp only [maximumf_apply, addf_apply, splat_zero_apply, mm512_apply, broadcastTo_1b_ab_apply,
    shapeCast_same_apply, truncf_apply]
  rfl

/-- Kernel 4's perceptron payload read at (r, j). -/
theorem k4_pay5_apply (x0 : Vec Ideal S1000x512 .f32) (x1 : Vec Ideal S512x512 .f32) (x2 : Vec Ideal S1x512 .f32)
    (x3 : Vec Ideal S512x512 .f32) (x4 : Vec Ideal S1x512 .f32) (r : Fin 1000) (j : Fin 512) :
    k4_pay5 (F := Ideal) x0 x1 x2 x3 x4 (ix2 r j)
      = Cert.Gin.mlp (fun r l => x0 (ix2 r l)) (fun l k => x1 (ix2 l k)) (fun k => x2 (ix2 0 k))
          (fun k j => x3 (ix2 k j)) (fun j => x4 (ix2 0 j)) r j := by
  unfold k4_pay5
  simp only [maximumf_apply, addf_apply, splat_zero_apply, mm512_apply, broadcastTo_1b_ab_apply,
    shapeCast_same_apply, truncf_apply]
  rfl

/-- Kernel 6's perceptron payload read at (r, j). -/
theorem k6_pay5_apply (x0 : Vec Ideal S1000x512 .f32) (x1 : Vec Ideal S512x512 .f32) (x2 : Vec Ideal S1x512 .f32)
    (x3 : Vec Ideal S512x512 .f32) (x4 : Vec Ideal S1x512 .f32) (r : Fin 1000) (j : Fin 512) :
    k6_pay5 (F := Ideal) x0 x1 x2 x3 x4 (ix2 r j)
      = Cert.Gin.mlp (fun r l => x0 (ix2 r l)) (fun l k => x1 (ix2 l k)) (fun k => x2 (ix2 0 k))
          (fun k j => x3 (ix2 k j)) (fun j => x4 (ix2 0 j)) r j := by
  unfold k6_pay5
  simp only [maximumf_apply, addf_apply, splat_zero_apply, mm512_apply, broadcastTo_1b_ab_apply,
    shapeCast_same_apply, truncf_apply]
  rfl

/-- Kernel 8's perceptron payload read at (r, j). -/
theorem k8_pay5_apply (x0 : Vec Ideal S1000x512 .f32) (x1 : Vec Ideal S512x512 .f32) (x2 : Vec Ideal S1x512 .f32)
    (x3 : Vec Ideal S512x512 .f32) (x4 : Vec Ideal S1x512 .f32) (r : Fin 1000) (j : Fin 512) :
    k8_pay5 (F := Ideal) x0 x1 x2 x3 x4 (ix2 r j)
      = Cert.Gin.mlp (fun r l => x0 (ix2 r l)) (fun l k => x1 (ix2 l k)) (fun k => x2 (ix2 0 k))
          (fun k j => x3 (ix2 k j)) (fun j => x4 (ix2 0 j)) r j := by
  unfold k8_pay5
  simp only [maximumf_apply, addf_apply, splat_zero_apply, mm512_apply, broadcastTo_1b_ab_apply,
    shapeCast_same_apply, truncf_apply]
  rfl

end Cert.Gin.Ker

end
-- ==== Proof.LibSumBlocks.lean ====
/-
  Regrouping a long sum into blocks, on any additive commutative monoid `M` (the extended reals are one).

  A sum over `Fin (a * b)` is the sum over the `a` blocks of the sums over each block's `b` entries, the
  entry `j` of block `t` at position `t * b + j`; a sum over `Fin (a * b * c)` is the triple sum with
  position `t * (b * c) + j * c + r`. Both are the re-indexing of the sum along
  `Fin a × Fin b ≃ Fin (a * b)` followed by the sum over a product as an iterated sum.

  A counted loop that starts from `init` and adds `g k` at trip `k` — the left fold of
  `fun acc k => acc + g k` over `List.finRange n`, which is how the value of an effect-free counted
  loop is expressed — ends at `init + ∑ k, g k`; with `g k` a block's sum and `init = 0` the loop
  computes the whole sum.
-/
import Mathlib.Algebra.BigOperators.Fin
import Mathlib.Algebra.BigOperators.Pi
import Mathlib.Logic.Equiv.Fin.Basic
import Mathlib.Data.Fintype.BigOperators
import Mathlib.Tactic.Ring

namespace Cert.Lib

open scoped BigOperators

variable {M : Type*} [AddCommMonoid M]

/-- Entry `j` of block `t`, among `a` blocks of `b` entries, sits below `a * b`:
    `t * b + j < t * b + b = (t + 1) * b ≤ a * b`. -/
theorem block₂_lt {a b : ℕ} (t : Fin a) (j : Fin b) : t.val * b + j.val < a * b :=
  calc t.val * b + j.val < t.val * b + b := Nat.add_lt_add_left j.isLt _
    _ = (t.val + 1) * b := (Nat.succ_mul _ _).symm
    _ ≤ a * b := Nat.mul_le_mul_right _ t.isLt

/-- Entry `r` of row `j` of block `t`, among `a` blocks of `b` rows of `c` entries, sits below
    `a * b * c`: the position is `(t * b + j) * c + r`, two uses of the two-level bound. -/
theorem block₃_lt {a b c : ℕ} (t : Fin a) (j : Fin b) (r : Fin c) :
    t.val * (b * c) + j.val * c + r.val < a * b * c := by
  have h : t.val * (b * c) + j.val * c + r.val = (t.val * b + j.val) * c + r.val := by ring
  rw [h]
  exact block₂_lt (⟨t.val * b + j.val, block₂_lt t j⟩ : Fin (a * b)) r

/-- A sum over `Fin (a * b)` regrouped into `a` blocks of `b`:
    `∑ i, f i = ∑ t, ∑ j, f (t * b + j)`. -/
theorem sum_blocks₂ (a b : ℕ) (f : Fin (a * b) → M) :
    ∑ i, f i = ∑ t : Fin a, ∑ j : Fin b, f ⟨t.val * b + j.val, block₂_lt t j⟩ := by
  rw [← Equiv.sum_comp (finProdFinEquiv (m := a) (n := b)) f, Fintype.sum_prod_type]
  refine Finset.sum_congr rfl fun t _ => Finset.sum_congr rfl fun j _ => congrArg f (Fin.ext ?_)
  show j.val + b * t.val = t.val * b + j.val
  ring

/-- A sum over `Fin (a * b * c)` regrouped into `a` blocks of `b` rows of `c`:
    `∑ i, f i = ∑ t, ∑ j, ∑ r, f (t * (b * c) + j * c + r)`. -/
theorem sum_blocks₃ (a b c : ℕ) (f : Fin (a * b * c) → M) :
    ∑ i, f i
      = ∑ t : Fin a, ∑ j : Fin b, ∑ r : Fin c, f ⟨t.val * (b * c) + j.val * c + r.val, block₃_lt t j r⟩ := by
  rw [sum_blocks₂ (a * b) c f, sum_blocks₂ a b]
  refine Finset.sum_congr rfl fun t _ => Finset.sum_congr rfl fun j _ => Finset.sum_congr rfl fun r _ =>
    congrArg f (Fin.ext ?_)
  show (t.val * b + j.val) * c + r.val = t.val * (b * c) + j.val * c + r.val
  ring

/-- The two-level regrouping for an index type `Fin n` with `n = a * b` known by an equation (a length
    written as a numeral). -/
theorem sum_blocks₂_of_eq {n : ℕ} (a b : ℕ) (h : n = a * b) (f : Fin n → M) :
    ∑ i, f i = ∑ t : Fin a, ∑ j : Fin b, f ⟨t.val * b + j.val, h ▸ block₂_lt t j⟩ := by
  subst h; exact sum_blocks₂ a b f

/-- The three-level regrouping for an index type `Fin n` with `n = a * b * c` known by an equation. -/
theorem sum_blocks₃_of_eq {n : ℕ} (a b c : ℕ) (h : n = a * b * c) (f : Fin n → M) :
    ∑ i, f i
      = ∑ t : Fin a, ∑ j : Fin b, ∑ r : Fin c,
          f ⟨t.val * (b * c) + j.val * c + r.val, h ▸ block₃_lt t j r⟩ := by
  subst h; exact sum_blocks₃ a b c f

/-- A left fold that adds `g k` to the carried value at each element `k` of a list ends at the initial
    value plus the sum of `g` over the list. -/
theorem foldl_add_eq_add_sum {α : Type*} (g : α → M) :
    ∀ (l : List α) (init : M), l.foldl (fun acc k => acc + g k) init = init + (l.map g).sum
  | [], init => by rw [List.foldl_nil, List.map_nil, List.sum_nil, add_zero]
  | k :: l, init => by
    rw [List.foldl_cons, foldl_add_eq_add_sum g l, List.map_cons, List.sum_cons, add_assoc]

/-- A counted loop of `n` trips that adds `g k` to its carried value at trip `k`, read as the left fold
    over the trips in order, ends at the initial value plus `∑ k, g k`. -/
theorem foldl_finRange_add (n : ℕ) (g : Fin n → M) (init : M) :
    (List.finRange n).foldl (fun acc k => acc + g k) init = init + ∑ k, g k := by
  rw [foldl_add_eq_add_sum, Fin.sum_univ_def]

/-- The same with the trip's term added on the left, `g k + acc`. -/
theorem foldl_finRange_add' (n : ℕ) (g : Fin n → M) (init : M) :
    (List.finRange n).foldl (fun acc k => g k + acc) init = init + ∑ k, g k := by
  have h : (fun (acc : M) (k : Fin n) => g k + acc) = fun acc k => acc + g k := by
    funext acc k; exact add_comm _ _
  rw [h, foldl_finRange_add]

/-- The same from zero: the loop computes the sum. -/
theorem foldl_finRange_add_zero (n : ℕ) (g : Fin n → M) :
    (List.finRange n).foldl (fun acc k => acc + g k) 0 = ∑ k, g k := by
  rw [foldl_finRange_add, zero_add]

/-- The same for a carried FAMILY of values (a vector), added entry by entry: at each entry `i` the
    loop ends at `init i + ∑ k, g k i`. -/
theorem foldl_finRange_add_pointwise {ι : Type*} (n : ℕ) (g : Fin n → ι → M) (init : ι → M) :
    (List.finRange n).foldl (fun acc k => fun i => acc i + g k i) init = fun i => init i + ∑ k, g k i := by
  have h := foldl_finRange_add n g init
  funext i
  have h' := congrFun h i
  rw [Pi.add_apply, Finset.sum_apply] at h'
  exact h'

/-- A carried value given by its recurrence — `acc 0 = 0` and `acc (k + 1) = acc k + g k` — is the sum
    of the first `n` terms after `n` trips. -/
theorem acc_eq_sum_range (acc : ℕ → M) (g : ℕ → M) (h0 : acc 0 = 0) (hs : ∀ k, acc (k + 1) = acc k + g k) :
    ∀ n, acc n = ∑ k ∈ Finset.range n, g k
  | 0 => by rw [h0, Finset.sum_range_zero]
  | n + 1 => by rw [hs, acc_eq_sum_range acc g h0 hs n, Finset.sum_range_succ]

/-- A counted loop over the `a` blocks that starts from zero and adds, at trip `t`, the sum of block
    `t`'s `b` entries, computes the whole sum over `Fin (a * b)`. -/
theorem foldl_blocks₂ (a b : ℕ) (f : Fin (a * b) → M) :
    (List.finRange a).foldl (fun acc t => acc + ∑ j : Fin b, f ⟨t.val * b + j.val, block₂_lt t j⟩) 0
      = ∑ i, f i := by
  rw [foldl_finRange_add_zero, sum_blocks₂]

/-- A counted loop over the `a` blocks that starts from zero and adds, at trip `t`, the sum of block
    `t`'s `b` rows of `c` entries, computes the whole sum over `Fin (a * b * c)`. -/
theorem foldl_blocks₃ (a b c : ℕ) (f : Fin (a * b * c) → M) :
    (List.finRange a).foldl
        (fun acc t => acc + ∑ j : Fin b, ∑ r : Fin c, f ⟨t.val * (b * c) + j.val * c + r.val, block₃_lt t j r⟩) 0
      = ∑ i, f i := by
  rw [foldl_finRange_add_zero, sum_blocks₃]

end Cert.Lib
-- ==== Proof.KA.SpecRows.lean ====
/-
  Two facts about the specification used when an array is read tile by tile. The perceptron's entry (r, j) depends on
  its input only through row r, so the input may be replaced by any array with the same row there. And a column sum
  over 10000 rows is the sum, over the ten tiles of 1000 rows, of the tiles' column sums.
-/
import proofs.«100381_j2018634629568_1_alg».proof.Proof.Spec
import proofs.«100381_j2018634629568_1_alg».proof.Proof.LibSumBlocks

noncomputable section

namespace Cert.Gin

open scoped BigOperators

/-- The perceptron at (r, j) reads only row r of its input. -/
theorem mlp_row {n n' d : Nat} (x : Fin n → Fin d → EReal) (x' : Fin n' → Fin d → EReal) (Wa : Fin d → Fin 512 → EReal)
    (ba : Fin 512 → EReal) (Wb : Fin 512 → Fin 512 → EReal) (bb : Fin 512 → EReal) (r : Fin n) (r' : Fin n') (j : Fin 512)
    (h : ∀ l, x r l = x' r' l) : mlp x Wa ba Wb bb r j = mlp x' Wa ba Wb bb r' j := by
  unfold mlp
  simp only [h]

/-- A sum over 10000 rows, tile by tile: ten tiles of 1000 rows, row p of tile t being row 1000 t + p. -/
theorem sum_rows_tiles (f : Fin 10000 → EReal) :
    ∑ r : Fin 10000, f r = ∑ t : Fin 10, ∑ p : Fin 1000, f ⟨1000 * t.val + p.val, by have := t.isLt; have := p.isLt; omega⟩ := by
  rw [Cert.Lib.sum_blocks₂_of_eq 10 1000 (by norm_num) f]
  refine Finset.sum_congr rfl fun t _ => Finset.sum_congr rfl fun p _ => congrArg f (Fin.ext ?_)
  show t.val * 1000 + p.val = 1000 * t.val + p.val
  omega

end Cert.Gin

end
-- ==== Proof.KA.MlpArray0.lean ====
/-
  The activation array a perceptron-with-statistics region leaves, entry by entry. The region walks ten row tiles of
  1000. Whatever the tile's position (first, middle, last), the body stores the perceptron of the tile's input block and
  of the whole weights and biases into the output's block; what differs between the three cases is only what happens
  to the two statistics rows. First, for each case and each buffer the body writes, what the buffer ends holding as a
  term of the input blocks and of the two carried rows. Then: a weight's window has a single block, the whole array,
  at every tile; the input's and the output's block t are rows 1000 t .. 1000 t + 999; so the ten blocks written back
  are the ten row blocks of ONE whole-array function, they tile the array, and entry (r, j) of the activation is the
  perceptron of input tile r / 1000 read at (r % 1000, j) — at the ideal instance, the specification's perceptron of
  the whole input at (r, j), since it reads only row r.
-/
import proofs.«100381_j2018634629568_1_alg».proof.Proof.KI.MlpDat0
import proofs.«100381_j2018634629568_1_alg».proof.Proof.KV.Mlp
import proofs.«100381_j2018634629568_1_alg».proof.Proof.KA.SpecRows
import Idealize.ShloMosaic.Lib.Pipeline.Value
import Idealize.ShloMosaic.Lib.ValueIdx
import Idealize.ShloMosaic.Lib.Tactic

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

section
variable {F : FTy → Type} [FloatOps F]

theorem zeroOff0 : (![0, 0] : Fin 2 → Nat) = fun _ => 0 := funext fun a => by fin_cases a <;> rfl

/-! ## What each case leaves in each buffer it writes -/

theorem tileFirst0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32) :
    tileFirst0 c i arg1 harg1 arg2 harg2 arg3 harg3 arg4 harg4 arg5 harg5 arg6 harg6 arg7 harg7 arg8 harg8 arg9 harg9 arg10 harg10 h1 h2 x0 x1 x2 x3 x4 = k0_pay4 x0 x1 x2 x3 x4 := by
  unfold tileFirst0
  rw [View.read_writes_eq_canon _ _ _ (tileFirst0_cover c i arg1 harg1 arg2 harg2 arg3 harg3 arg4 harg4 arg5 harg5 arg6 harg6 arg7 harg7 arg8 harg8 arg9 harg9 arg10 harg10 h1 h2 x0 x1 x2 x3 x4)]
  unfold runFirst0
  dsimp only
  try sl_unfold_words
  rw [View.canon_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem sumFirst0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32) :
    sumFirst0 c i arg1 harg1 arg2 harg2 arg3 harg3 arg4 harg4 arg5 harg5 arg6 harg6 arg7 harg7 arg8 harg8 arg9 harg9 arg10 harg10 h1 h2 x0 x1 x2 x3 x4 = k0_pay5 x0 x1 x2 x3 x4 k0_pay2 := by
  unfold sumFirst0
  rw [View.read_writes_eq_canon _ _ _ (sumFirst0_cover c i arg1 harg1 arg2 harg2 arg3 harg3 arg4 harg4 arg5 harg5 arg6 harg6 arg7 harg7 arg8 harg8 arg9 harg9 arg10 harg10 h1 h2 x0 x1 x2 x3 x4)]
  unfold runFirst0
  dsimp only
  try sl_unfold_words
  rw [View.canon_cons_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem sqFirst0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond0 i) (h2 : ¬lastCond0 i) (x0 : Vec F S1000x16 .f32) (x1 : Vec F S16x512 .f32) (x2 : Vec F S1x512 .f32) (x3 : Vec F S512x512 .f32) (x4 : Vec F S1x512 .f32) :
    sqFirst0 c i arg1 harg1 arg2 harg2 arg3 harg3 arg4 harg4 arg5 harg5 arg6 harg6 arg7 harg7 arg8 harg8 arg9 harg9 arg10 harg10 h1 h2 x0 x1 x2 x3 x4 = k0_pay1 (k0_pay4 x0 x1 x2 x3 x4) k0_pay3 := by
  unfold sqFirst0
  rw [View.read_writes_eq_canon _ _ _ (sqFirst0_cover c i arg1 harg1 arg2 harg2 arg3 harg3 arg4 harg4 arg5 harg5 arg6 harg6 arg7 harg7 arg8 harg8 arg9 harg9 arg10 harg10 h1 h2 x0 x1 x2 x3 x4)]
  unfold runFirst0
  dsimp only
  try sl_unfold_words
  rw [View.canon_cons_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem tileMid0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) :
    tileMid0 c i arg1 harg1 arg2 harg2 arg3 harg3 arg4 harg4 arg5 harg5 arg6 harg6 arg7 harg7 arg8 harg8 arg9 harg9 arg10 harg10 h1 h2 x0 x1 x2 x3 x4 s q = k0_pay4 x0 x1 x2 x3 x4 := by
  unfold tileMid0
  rw [View.read_writes_eq_canon _ _ _ (tileMid0_cover c i arg1 harg1 arg2 harg2 arg3 harg3 arg4 harg4 arg5 harg5 arg6 harg6 arg7 harg7 arg8 harg8 arg9 harg9 arg10 harg10 h1 h2 x0 x1 x2 x3 x4 s q)]
  unfold runMid0
  dsimp only
  try sl_unfold_words
  rw [View.canon_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem sumMid0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) :
    sumMid0 c i arg1 harg1 arg2 harg2 arg3 harg3 arg4 harg4 arg5 harg5 arg6 harg6 arg7 harg7 arg8 harg8 arg9 harg9 arg10 harg10 h1 h2 x0 x1 x2 x3 x4 s q = k0_pay5 x0 x1 x2 x3 x4 s := by
  unfold sumMid0
  rw [View.read_writes_eq_canon _ _ _ (sumMid0_cover c i arg1 harg1 arg2 harg2 arg3 harg3 arg4 harg4 arg5 harg5 arg6 harg6 arg7 harg7 arg8 harg8 arg9 harg9 arg10 harg10 h1 h2 x0 x1 x2 x3 x4 s q)]
  unfold runMid0
  dsimp only
  try sl_unfold_words
  rw [View.canon_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem sqMid0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : ¬lastCond0 i) (x0 : Vec F S1000x16 .f32) (x1 : Vec F S16x512 .f32) (x2 : Vec F S1x512 .f32) (x3 : Vec F S512x512 .f32) (x4 : Vec F S1x512 .f32) (s q : Vec F S1x512 .f32) :
    sqMid0 c i arg1 harg1 arg2 harg2 arg3 harg3 arg4 harg4 arg5 harg5 arg6 harg6 arg7 harg7 arg8 harg8 arg9 harg9 arg10 harg10 h1 h2 x0 x1 x2 x3 x4 s q = k0_pay1 (k0_pay4 x0 x1 x2 x3 x4) q := by
  unfold sqMid0
  rw [View.read_writes_eq_canon _ _ _ (sqMid0_cover c i arg1 harg1 arg2 harg2 arg3 harg3 arg4 harg4 arg5 harg5 arg6 harg6 arg7 harg7 arg8 harg8 arg9 harg9 arg10 harg10 h1 h2 x0 x1 x2 x3 x4 s q)]
  unfold runMid0
  dsimp only
  try sl_unfold_words
  rw [View.canon_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem tileLast0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) :
    tileLast0 c i arg1 harg1 arg2 harg2 arg3 harg3 arg4 harg4 arg5 harg5 arg6 harg6 arg7 harg7 arg8 harg8 arg9 harg9 arg10 harg10 h1 h2 x0 x1 x2 x3 x4 s q = k0_pay4 x0 x1 x2 x3 x4 := by
  unfold tileLast0
  rw [View.read_writes_eq_canon _ _ _ (tileLast0_cover c i arg1 harg1 arg2 harg2 arg3 harg3 arg4 harg4 arg5 harg5 arg6 harg6 arg7 harg7 arg8 harg8 arg9 harg9 arg10 harg10 h1 h2 x0 x1 x2 x3 x4 s q)]
  unfold runLast0
  dsimp only
  try sl_unfold_words
  rw [View.canon_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem sumLast0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) :
    sumLast0 c i arg1 harg1 arg2 harg2 arg3 harg3 arg4 harg4 arg5 harg5 arg6 harg6 arg7 harg7 arg8 harg8 arg9 harg9 arg10 harg10 h1 h2 x0 x1 x2 x3 x4 s q = k0_pay5 x0 x1 x2 x3 x4 s := by
  unfold sumLast0
  rw [View.read_writes_eq_canon _ _ _ (sumLast0_cover c i arg1 harg1 arg2 harg2 arg3 harg3 arg4 harg4 arg5 harg5 arg6 harg6 arg7 harg7 arg8 harg8 arg9 harg9 arg10 harg10 h1 h2 x0 x1 x2 x3 x4 s q)]
  unfold runLast0
  dsimp only
  try sl_unfold_words
  rw [View.canon_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem sqLast0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) :
    sqLast0 c i arg1 harg1 arg2 harg2 arg3 harg3 arg4 harg4 arg5 harg5 arg6 harg6 arg7 harg7 arg8 harg8 arg9 harg9 arg10 harg10 h1 h2 x0 x1 x2 x3 x4 s q = k0_pay1 (k0_pay4 x0 x1 x2 x3 x4) q := by
  unfold sqLast0
  rw [View.read_writes_eq_canon _ _ _ (sqLast0_cover c i arg1 harg1 arg2 harg2 arg3 harg3 arg4 harg4 arg5 harg5 arg6 harg6 arg7 harg7 arg8 harg8 arg9 harg9 arg10 harg10 h1 h2 x0 x1 x2 x3 x4 s q)]
  unfold runLast0
  dsimp only
  try sl_unfold_words
  rw [View.canon_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem outSumLast0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) :
    outSumLast0 c i arg1 harg1 arg2 harg2 arg3 harg3 arg4 harg4 arg5 harg5 arg6 harg6 arg7 harg7 arg8 harg8 arg9 harg9 arg10 harg10 h1 h2 x0 x1 x2 x3 x4 s q = k0_pay5 x0 x1 x2 x3 x4 s := by
  unfold outSumLast0
  rw [View.read_writes_eq_canon _ _ _ (outSumLast0_cover c i arg1 harg1 arg2 harg2 arg3 harg3 arg4 harg4 arg5 harg5 arg6 harg6 arg7 harg7 arg8 harg8 arg9 harg9 arg10 harg10 h1 h2 x0 x1 x2 x3 x4 s q)]
  unfold runLast0
  dsimp only
  try sl_unfold_words
  rw [View.canon_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

theorem outSqLast0_eq (c : Dev nD) (i : grid0.Coords)
    (arg1 : Memref sig .tc .vmem S1000x16 .f32) (harg1 : arg1.IsWhole) (arg2 : Memref sig .tc .vmem S16x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond0 i) (h2 : lastCond0 i) (x0 : Vec F S1000x16 .f32) (x1 : Vec F S16x512 .f32) (x2 : Vec F S1x512 .f32) (x3 : Vec F S512x512 .f32) (x4 : Vec F S1x512 .f32) (s q : Vec F S1x512 .f32) :
    outSqLast0 c i arg1 harg1 arg2 harg2 arg3 harg3 arg4 harg4 arg5 harg5 arg6 harg6 arg7 harg7 arg8 harg8 arg9 harg9 arg10 harg10 h1 h2 x0 x1 x2 x3 x4 s q = k0_pay1 (k0_pay4 x0 x1 x2 x3 x4) q := by
  unfold outSqLast0
  rw [View.read_writes_eq_canon _ _ _ (outSqLast0_cover c i arg1 harg1 arg2 harg2 arg3 harg3 arg4 harg4 arg5 harg5 arg6 harg6 arg7 harg7 arg8 harg8 arg9 harg9 arg10 harg10 h1 h2 x0 x1 x2 x3 x4 s q)]
  unfold runLast0
  dsimp only
  try sl_unfold_words
  rw [View.canon_unit_zero zeroOff0]
  simp only [View.readAt_eq_ld, harg1.read_unread, harg2.read_unread, harg3.read_unread, harg4.read_unread, harg5.read_unread,
    harg9.read_unread, harg10.read_unread,
    View.ld_unit_zero (S := S1000x16) zeroOff0, View.ld_unit_zero (S := S16x512) zeroOff0, View.ld_unit_zero (S := S1x512) zeroOff0,
    View.ld_unit_zero (S := S512x512) zeroOff0, View.readCov_unit_zero (S := S1x512) _ zeroOff0]

end

section
variable {F : FTy → Type} [FloatOps F]
variable (V : (c : Dev nD) → (b : Ref sig .tc) → Buf (Elt F) ((c : Thread nD τ).loc b))

set_option maxHeartbeats 1000000 in
/-- At every point the output tile the body leaves is the perceptron payload of the five input blocks. -/
theorem tileAt0 (c : Dev nD) (t : Fin cfg0.N) :
    (stateAt0 V c t.val t.isLt).1 = k0_pay4 (blockAt0 V c 0 t) (blockAt0 V c 1 t) (blockAt0 V c 2 t) (blockAt0 V c 3 t) (blockAt0 V c 4 t) := by
  by_cases hf : t.val % 10 = 0
  · have hl : ¬t.val % 10 = 9 := by omega
    rw [stateAt0_first V c t hf hl]
    dsimp only
    exact tileFirst0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) ((firstCond0_iff t).mpr hf) (fun h => hl ((lastCond0_iff t).mp h)) (blockAt0 V c 0 t) (blockAt0 V c 1 t) (blockAt0 V c 2 t) (blockAt0 V c 3 t) (blockAt0 V c 4 t)
  · by_cases hl : t.val % 10 = 9
    · rw [stateAt0_last V c t hf hl]
      dsimp only
      exact tileLast0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2
    · rw [stateAt0_mid V c t hf hl]
      dsimp only
      exact tileMid0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) (fun h => hl ((lastCond0_iff t).mp h)) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2

/-- The index maps over the grid: the input's and the output tile's block at point t is block (t, 0); the weights, the
    biases and the two statistics rows stay at block (0, 0). -/
theorem idx_facts0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! A weight's or a bias's window has one block, the whole array: at every point its block is the array itself. -/

theorem wholeBlock0_1 (c : Dev nD) (t : Fin cfg0.N) :
    (blockAt0 V c 1 t : Vec F S16x512 .f32) = (V c (Pipeline.arrRef spec0 1) : S16x512.Idx → Elt F .f32) := by
  have e0 : win0_1.index t (0 : Fin 2) = 0 := by have := idx_facts0 t; simp only [this]
  have e1 : win0_1.index t (1 : Fin 2) = 0 := by have := idx_facts0 t; simp only [this]
  funext y
  unfold blockAt0
  rw [View.read_apply]
  show V c (Pipeline.arrRef spec0 1) _ = V c (Pipeline.arrRef spec0 1) _
  congr 1
  funext a
  apply Fin.ext
  match a with
  | ⟨0, _⟩ => show win0_1.index t (0 : Fin 2) * 16 + 1 * (y 0).val = (y 0).val; rw [e0]; omega
  | ⟨1, _⟩ => show win0_1.index t (1 : Fin 2) * 512 + 1 * (y 1).val = (y 1).val; rw [e1]; omega

theorem wholeBlock0_2 (c : Dev nD) (t : Fin cfg0.N) :
    (blockAt0 V c 2 t : Vec F S1x512 .f32) = (V c (Pipeline.arrRef spec0 2) : S1x512.Idx → Elt F .f32) := by
  have e0 : win0_2.index t (0 : Fin 2) = 0 := by have := idx_facts0 t; simp only [this]
  have e1 : win0_2.index t (1 : Fin 2) = 0 := by have := idx_facts0 t; simp only [this]
  funext y
  unfold blockAt0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

theorem wholeBlock0_3 (c : Dev nD) (t : Fin cfg0.N) :
    (blockAt0 V c 3 t : Vec F S512x512 .f32) = (V c (Pipeline.arrRef spec0 3) : S512x512.Idx → Elt F .f32) := by
  have e0 : win0_3.index t (0 : Fin 2) = 0 := by have := idx_facts0 t; simp only [this]
  have e1 : win0_3.index t (1 : Fin 2) = 0 := by have := idx_facts0 t; simp only [this]
  funext y
  unfold blockAt0
  rw [View.read_apply]
  show V c (Pipeline.arrRef spec0 3) _ = V c (Pipeline.arrRef spec0 3) _
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

theorem wholeBlock0_4 (c : Dev nD) (t : Fin cfg0.N) :
    (blockAt0 V c 4 t : Vec F S1x512 .f32) = (V c (Pipeline.arrRef spec0 4) : S1x512.Idx → Elt F .f32) := by
  have e0 : win0_4.index t (0 : Fin 2) = 0 := by have := idx_facts0 t; simp only [this]
  have e1 : win0_4.index t (1 : Fin 2) = 0 := by have := idx_facts0 t; simp only [this]
  funext y
  unfold blockAt0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- Rows 1000 t … 1000 t + 999 of the [10000,16] input, as a [1000,16] tile. -/
def inTile0 (X : S10000x16.Idx → Elt F .f32) (t : Nat) (ht : t < 10) : Vec F S1000x16 .f32 :=
  fun y => X (ix2 ⟨1000 * t + (y 0).val, by have := idx2_lt0 y; omega⟩ (y 1))

/-- The input's block at point t is rows 1000 t … 1000 t + 999 of the array. -/
theorem inBlock0 (c : Dev nD) (t : Fin cfg0.N) (ht : t.val < 10) :
    (blockAt0 V c 0 t : Vec F S1000x16 .f32) = inTile0 (V c (Pipeline.arrRef spec0 0) : S10000x16.Idx → Elt F .f32) t.val ht := by
  obtain ⟨e0, e1, -⟩ := idx_facts0 t
  funext y
  unfold blockAt0 inTile0
  rw [View.read_apply]
  show V c (Pipeline.arrRef spec0 0) _ = V c (Pipeline.arrRef spec0 0) _
  congr 1
  funext a
  apply Fin.ext
  match a with
  | ⟨0, _⟩ => show win0_0.index t (0 : Fin 2) * 1000 + 1 * (y 0).val = 1000 * t.val + (y 0).val; rw [e0]; omega
  | ⟨1, _⟩ => show win0_0.index t (1 : Fin 2) * 16 + 1 * (y 1).val = (y 1).val; rw [e1]; omega

/-- The whole activation: entry (r, j) is the perceptron payload of input tile r / 1000 and of the weights, at (r % 1000, j). -/
def mlpWhole0 (c : Dev nD) : S10000x512.Idx → Elt F .f32 := fun i =>
  k0_pay4 (inTile0 (V c (Pipeline.arrRef spec0 0) : S10000x16.Idx → Elt F .f32) ((i 0).val / 1000) (by have := idx2_lt0 i; omega)) (V c (Pipeline.arrRef spec0 1) : S16x512.Idx → Elt F .f32) (V c (Pipeline.arrRef spec0 2) : S1x512.Idx → Elt F .f32) (V c (Pipeline.arrRef spec0 3) : S512x512.Idx → Elt F .f32) (V c (Pipeline.arrRef spec0 4) : S1x512.Idx → Elt F .f32) (ix2 ⟨(i 0).val % 1000, Nat.mod_lt _ (by decide)⟩ (i 1))

/-- The whole activation at an index whose row is 1000 t + p. -/
theorem mlpWhole0_apply (c : Dev nD) (i : S10000x512.Idx) (t : Nat) (ht : t < 10) (p : Fin 1000) (j : Fin 512)
    (h0 : (i 0).val = 1000 * t + p.val) (h1 : (i 1).val = j.val) :
    mlpWhole0 V c i = k0_pay4 (inTile0 (V c (Pipeline.arrRef spec0 0) : S10000x16.Idx → Elt F .f32) t ht) (V c (Pipeline.arrRef spec0 1) : S16x512.Idx → Elt F .f32) (V c (Pipeline.arrRef spec0 2) : S1x512.Idx → Elt F .f32) (V c (Pipeline.arrRef spec0 3) : S512x512.Idx → Elt F .f32) (V c (Pipeline.arrRef spec0 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k0_pay4 (inTile0 (V c (Pipeline.arrRef spec0 0) : S10000x16.Idx → Elt F .f32) t' ht') (V c (Pipeline.arrRef spec0 1) : S16x512.Idx → Elt F .f32) (V c (Pipeline.arrRef spec0 2) : S1x512.Idx → Elt F .f32) (V c (Pipeline.arrRef spec0 3) : S512x512.Idx → Elt F .f32) (V c (Pipeline.arrRef spec0 4) : S1x512.Idx → Elt F .f32) (ix2 p' j')
      = k0_pay4 (inTile0 (V c (Pipeline.arrRef spec0 0) : S10000x16.Idx → Elt F .f32) t ht) (V c (Pipeline.arrRef spec0 1) : S16x512.Idx → Elt F .f32) (V c (Pipeline.arrRef spec0 2) : S1x512.Idx → Elt F .f32) (V c (Pipeline.arrRef spec0 3) : S512x512.Idx → Elt F .f32) (V c (Pipeline.arrRef spec0 4) : S1x512.Idx → Elt F .f32) (ix2 p j) := by
    intro t' ht' p' j' e e' e''; subst e e' e''; rfl
  exact key _ _ _ _ e1 (Fin.ext e2) (Fin.ext h1)

/-- What point t writes back into the activation is block t of the whole activation. -/
theorem flushed0_5_eq (c : Dev nD) (t : Fin cfg0.N) :
    (dat0 V c).flushed 5 t = ((cfg0.win 5).blk t).view.read (Elt F) (mlpWhole0 V c) := by
  have ht : t.val < 10 := Nat.lt_of_lt_of_eq t.isLt N_0
  obtain ⟨-, -, e0, e1, -⟩ := idx_facts0 t
  show (cfg0.win 5).cut (grid0.coords t) ((dat0 V c).after 5 t) = _
  rw [dat0_after5, tileAt0, wholeBlock0_1, wholeBlock0_2, wholeBlock0_3, wholeBlock0_4, inBlock0 V c t ht]
  funext y
  obtain ⟨p, j, rfl⟩ : ∃ (p : Fin 1000) (j : Fin 512), y = ix2 p j := ⟨y 0, y 1, eq_ix2 y⟩
  rw [View.read_apply]
  refine (mlpWhole0_apply V c _ t.val ht p j ?_ ?_).symm
  · show win0_5.index t (0 : Fin 2) * 1000 + 1 * p.val = _; rw [e0]; omega
  · show win0_5.index t (1 : Fin 2) * 512 + 1 * j.val = _; rw [e1]; omega

/-- An index of the activation is in point t's block iff each coordinate is in the block's range on its axis. -/
theorem mem_blk0_5 (t : Fin cfg0.N) (i : S10000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v21_0).slice (win0_5.rect t)).set ↔ _
  rw [View.set_slice_whole, Rect.mem_set_unit]
  exact Iff.rfl

/-- Every row lies in the block of the point that is its number over 1000. -/
theorem cover0_5 (i : S10000x512.Idx) : ∃ t : Fin cfg0.N, (cfg0.win 5).flush t = true ∧ i ∈ ((cfg0.win 5).blk t).view.set := by
  have hi0 : (i 0).val < 10000 := idx2_lt0 i
  have hi1 : (i 1).val < 512 := idx2_lt1 i
  let t : Fin cfg0.N := ⟨(i 0).val / 1000, by rw [show cfg0.N = 10 from N_0]; omega⟩
  obtain ⟨-, -, e0, e1, -⟩ := idx_facts0 t
  have e0' : win0_5.index t (0 : Fin 2) = (i 0).val / 1000 := e0
  refine ⟨t, flush0_5 t, ?_⟩
  rw [mem_blk0_5]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 512 ≤ (i 1).val ∧ (i 1).val < win0_5.index t (1 : Fin 2) * 512 + 512; omega

/-- The activation array after the region is the whole activation. -/
theorem final0_5 (c : Dev nD) : (dat0 V c).arrAt 5 cfg0.N = mlpWhole0 V c :=
  (dat0 V c).arrAt_eq_of_cover 5 (mlpWhole0 V c) (fun t _ => flushed0_5_eq V c t) cover0_5

/-- Entry (r, j) of the activation after the region: the perceptron payload of input tile r / 1000 at (r % 1000, j). -/
theorem mlpArray0 (c : Dev nD) (r : Fin 10000) (j : Fin 512) :
    ((dat0 V c).arrAt 5 cfg0.N : S10000x512.Idx → Elt F .f32) (ix2 r j)
      = k0_pay4 (inTile0 (V c (Pipeline.arrRef spec0 0) : S10000x16.Idx → Elt F .f32) (r.val / 1000) (by have := r.isLt; omega)) (V c (Pipeline.arrRef spec0 1) : S16x512.Idx → Elt F .f32) (V c (Pipeline.arrRef spec0 2) : S1x512.Idx → Elt F .f32) (V c (Pipeline.arrRef spec0 3) : S512x512.Idx → Elt F .f32) (V c (Pipeline.arrRef spec0 4) : S1x512.Idx → Elt F .f32) (ix2 ⟨r.val % 1000, Nat.mod_lt _ (by decide)⟩ j) := by
  rw [final0_5]
  exact mlpWhole0_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the activation is the specification's perceptron of the whole input. -/
theorem mlpArray0_spec (c : Dev nD) (r : Fin 10000) (j : Fin 512) :
    ((dat0 V c).arrAt 5 cfg0.N : S10000x512.Idx → EReal) (ix2 r j)
      = Cert.Gin.mlp (fun r l => (V c (Pipeline.arrRef spec0 0) : S10000x16.Idx → EReal) (ix2 r l)) (fun l k => (V c (Pipeline.arrRef spec0 1) : S16x512.Idx → EReal) (ix2 l k))
          (fun k => (V c (Pipeline.arrRef spec0 2) : S1x512.Idx → EReal) (ix2 0 k)) (fun k j => (V c (Pipeline.arrRef spec0 3) : S512x512.Idx → EReal) (ix2 k j))
          (fun j => (V c (Pipeline.arrRef spec0 4) : S1x512.Idx → EReal) (ix2 0 j)) r j := by
  refine (mlpArray0 V c r j).trans ?_
  refine (Cert.Gin.Ker.k0_pay4_apply _ _ _ _ _ _ j).trans ?_
  refine Cert.Gin.mlp_row _ _ _ _ _ _ _ r j fun l => ?_
  have e : (⟨1000 * (r.val / 1000) + r.val % 1000, by have := r.isLt; omega⟩ : Fin 10000) = r :=
    Fin.ext (by show 1000 * (r.val / 1000) + r.val % 1000 = r.val; omega)
  exact congrArg (fun r' => (V c (Pipeline.arrRef spec0 0) : S10000x16.Idx → EReal) (ix2 r' l)) e

end

end Cert.KernelIdeal.Arr

end
-- ==== Proof.KA.MlpArray2.lean ====
/-
  The activation array a perceptron-with-statistics region leaves, entry by entry. The region walks ten row tiles of
  1000. Whatever the tile's position (first, middle, last), the body stores the perceptron of the tile's input block and
  of the whole weights and biases into the output's block; what differs between the three cases is only what happens
  to the two statistics rows. First, for each case and each buffer the body writes, what the buffer ends holding as a
  term of the input blocks and of the two carried rows. Then: a weight's window has a single block, the whole array,
  at every tile; the input's and the output's block t are rows 1000 t .. 1000 t + 999; so the ten blocks written back
  are the ten row blocks of ONE whole-array function, they tile the array, and entry (r, j) of the activation is the
  perceptron of input tile r / 1000 read at (r % 1000, j) — at the ideal instance, the specification's perceptron of
  the whole input at (r, j), since it reads only row r.
-/
import proofs.«100381_j2018634629568_1_alg».proof.Proof.KI.MlpDat2
import proofs.«100381_j2018634629568_1_alg».proof.Proof.KV.Mlp
import proofs.«100381_j2018634629568_1_alg».proof.Proof.KA.SpecRows
import Idealize.ShloMosaic.Lib.Pipeline.Value
import Idealize.ShloMosaic.Lib.ValueIdx
import Idealize.ShloMosaic.Lib.Tactic

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

section
variable {F : FTy → Type} [FloatOps F]

theorem zeroOff2 : (![0, 0] : Fin 2 → Nat) = fun _ => 0 := funext fun a => by fin_cases a <;> rfl

/-! ## What each case leaves in each buffer it writes -/

theorem tileFirst2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32) :
    tileFirst2 c i arg1 harg1 arg2 harg2 arg3 harg3 arg4 harg4 arg5 harg5 arg6 harg6 arg7 harg7 arg8 harg8 arg9 harg9 arg10 harg10 h1 h2 x0 x1 x2 x3 x4 = k2_pay5 x0 x1 x2 x3 x4 := by
  unfold tileFirst2
  rw [View.read_writes_eq_canon _ _ _ (tileFirst2_cover c i arg1 harg1 arg2 harg2 arg3 harg3 arg4 harg4 arg5 harg5 arg6 harg6 arg7 harg7 arg8 harg8 arg9 harg9 arg10 harg10 h1 h2 x0 x1 x2 x3 x4)]
  unfold runFirst2
  dsimp only
  try sl_unfold_words
  rw [View.canon_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem sumFirst2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32) :
    sumFirst2 c i arg1 harg1 arg2 harg2 arg3 harg3 arg4 harg4 arg5 harg5 arg6 harg6 arg7 harg7 arg8 harg8 arg9 harg9 arg10 harg10 h1 h2 x0 x1 x2 x3 x4 = k2_pay1 (k2_pay6 x0 x1 x2 x3 x4 k2_pay3) := by
  unfold sumFirst2
  rw [View.read_writes_eq_canon _ _ _ (sumFirst2_cover c i arg1 harg1 arg2 harg2 arg3 harg3 arg4 harg4 arg5 harg5 arg6 harg6 arg7 harg7 arg8 harg8 arg9 harg9 arg10 harg10 h1 h2 x0 x1 x2 x3 x4)]
  unfold runFirst2
  dsimp only
  try sl_unfold_words
  rw [View.canon_cons_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem sqFirst2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond2 i) (h2 : ¬lastCond2 i) (x0 : Vec F S1000x512 .f32) (x1 : Vec F S512x512 .f32) (x2 : Vec F S1x512 .f32) (x3 : Vec F S512x512 .f32) (x4 : Vec F S1x512 .f32) :
    sqFirst2 c i arg1 harg1 arg2 harg2 arg3 harg3 arg4 harg4 arg5 harg5 arg6 harg6 arg7 harg7 arg8 harg8 arg9 harg9 arg10 harg10 h1 h2 x0 x1 x2 x3 x4 = k2_pay2 (k2_pay5 x0 x1 x2 x3 x4) k2_pay4 := by
  unfold sqFirst2
  rw [View.read_writes_eq_canon _ _ _ (sqFirst2_cover c i arg1 harg1 arg2 harg2 arg3 harg3 arg4 harg4 arg5 harg5 arg6 harg6 arg7 harg7 arg8 harg8 arg9 harg9 arg10 harg10 h1 h2 x0 x1 x2 x3 x4)]
  unfold runFirst2
  dsimp only
  try sl_unfold_words
  rw [View.canon_cons_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem tileMid2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) :
    tileMid2 c i arg1 harg1 arg2 harg2 arg3 harg3 arg4 harg4 arg5 harg5 arg6 harg6 arg7 harg7 arg8 harg8 arg9 harg9 arg10 harg10 h1 h2 x0 x1 x2 x3 x4 s q = k2_pay5 x0 x1 x2 x3 x4 := by
  unfold tileMid2
  rw [View.read_writes_eq_canon _ _ _ (tileMid2_cover c i arg1 harg1 arg2 harg2 arg3 harg3 arg4 harg4 arg5 harg5 arg6 harg6 arg7 harg7 arg8 harg8 arg9 harg9 arg10 harg10 h1 h2 x0 x1 x2 x3 x4 s q)]
  unfold runMid2
  dsimp only
  try sl_unfold_words
  rw [View.canon_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem sumMid2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) :
    sumMid2 c i arg1 harg1 arg2 harg2 arg3 harg3 arg4 harg4 arg5 harg5 arg6 harg6 arg7 harg7 arg8 harg8 arg9 harg9 arg10 harg10 h1 h2 x0 x1 x2 x3 x4 s q = k2_pay1 (k2_pay6 x0 x1 x2 x3 x4 s) := by
  unfold sumMid2
  rw [View.read_writes_eq_canon _ _ _ (sumMid2_cover c i arg1 harg1 arg2 harg2 arg3 harg3 arg4 harg4 arg5 harg5 arg6 harg6 arg7 harg7 arg8 harg8 arg9 harg9 arg10 harg10 h1 h2 x0 x1 x2 x3 x4 s q)]
  unfold runMid2
  dsimp only
  try sl_unfold_words
  rw [View.canon_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem sqMid2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : ¬lastCond2 i) (x0 : Vec F S1000x512 .f32) (x1 : Vec F S512x512 .f32) (x2 : Vec F S1x512 .f32) (x3 : Vec F S512x512 .f32) (x4 : Vec F S1x512 .f32) (s q : Vec F S1x512 .f32) :
    sqMid2 c i arg1 harg1 arg2 harg2 arg3 harg3 arg4 harg4 arg5 harg5 arg6 harg6 arg7 harg7 arg8 harg8 arg9 harg9 arg10 harg10 h1 h2 x0 x1 x2 x3 x4 s q = k2_pay2 (k2_pay5 x0 x1 x2 x3 x4) q := by
  unfold sqMid2
  rw [View.read_writes_eq_canon _ _ _ (sqMid2_cover c i arg1 harg1 arg2 harg2 arg3 harg3 arg4 harg4 arg5 harg5 arg6 harg6 arg7 harg7 arg8 harg8 arg9 harg9 arg10 harg10 h1 h2 x0 x1 x2 x3 x4 s q)]
  unfold runMid2
  dsimp only
  try sl_unfold_words
  rw [View.canon_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem tileLast2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) :
    tileLast2 c i arg1 harg1 arg2 harg2 arg3 harg3 arg4 harg4 arg5 harg5 arg6 harg6 arg7 harg7 arg8 harg8 arg9 harg9 arg10 harg10 h1 h2 x0 x1 x2 x3 x4 s q = k2_pay5 x0 x1 x2 x3 x4 := by
  unfold tileLast2
  rw [View.read_writes_eq_canon _ _ _ (tileLast2_cover c i arg1 harg1 arg2 harg2 arg3 harg3 arg4 harg4 arg5 harg5 arg6 harg6 arg7 harg7 arg8 harg8 arg9 harg9 arg10 harg10 h1 h2 x0 x1 x2 x3 x4 s q)]
  unfold runLast2
  dsimp only
  try sl_unfold_words
  rw [View.canon_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem sumLast2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) :
    sumLast2 c i arg1 harg1 arg2 harg2 arg3 harg3 arg4 harg4 arg5 harg5 arg6 harg6 arg7 harg7 arg8 harg8 arg9 harg9 arg10 harg10 h1 h2 x0 x1 x2 x3 x4 s q = k2_pay1 (k2_pay6 x0 x1 x2 x3 x4 s) := by
  unfold sumLast2
  rw [View.read_writes_eq_canon _ _ _ (sumLast2_cover c i arg1 harg1 arg2 harg2 arg3 harg3 arg4 harg4 arg5 harg5 arg6 harg6 arg7 harg7 arg8 harg8 arg9 harg9 arg10 harg10 h1 h2 x0 x1 x2 x3 x4 s q)]
  unfold runLast2
  dsimp only
  try sl_unfold_words
  rw [View.canon_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem sqLast2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) :
    sqLast2 c i arg1 harg1 arg2 harg2 arg3 harg3 arg4 harg4 arg5 harg5 arg6 harg6 arg7 harg7 arg8 harg8 arg9 harg9 arg10 harg10 h1 h2 x0 x1 x2 x3 x4 s q = k2_pay2 (k2_pay5 x0 x1 x2 x3 x4) q := by
  unfold sqLast2
  rw [View.read_writes_eq_canon _ _ _ (sqLast2_cover c i arg1 harg1 arg2 harg2 arg3 harg3 arg4 harg4 arg5 harg5 arg6 harg6 arg7 harg7 arg8 harg8 arg9 harg9 arg10 harg10 h1 h2 x0 x1 x2 x3 x4 s q)]
  unfold runLast2
  dsimp only
  try sl_unfold_words
  rw [View.canon_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem outSumLast2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) :
    outSumLast2 c i arg1 harg1 arg2 harg2 arg3 harg3 arg4 harg4 arg5 harg5 arg6 harg6 arg7 harg7 arg8 harg8 arg9 harg9 arg10 harg10 h1 h2 x0 x1 x2 x3 x4 s q = k2_pay1 (k2_pay6 x0 x1 x2 x3 x4 s) := by
  unfold outSumLast2
  rw [View.read_writes_eq_canon _ _ _ (outSumLast2_cover c i arg1 harg1 arg2 harg2 arg3 harg3 arg4 harg4 arg5 harg5 arg6 harg6 arg7 harg7 arg8 harg8 arg9 harg9 arg10 harg10 h1 h2 x0 x1 x2 x3 x4 s q)]
  unfold runLast2
  dsimp only
  try sl_unfold_words
  rw [View.canon_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

theorem outSqLast2_eq (c : Dev nD) (i : grid2.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond2 i) (h2 : lastCond2 i) (x0 : Vec F S1000x512 .f32) (x1 : Vec F S512x512 .f32) (x2 : Vec F S1x512 .f32) (x3 : Vec F S512x512 .f32) (x4 : Vec F S1x512 .f32) (s q : Vec F S1x512 .f32) :
    outSqLast2 c i arg1 harg1 arg2 harg2 arg3 harg3 arg4 harg4 arg5 harg5 arg6 harg6 arg7 harg7 arg8 harg8 arg9 harg9 arg10 harg10 h1 h2 x0 x1 x2 x3 x4 s q = k2_pay2 (k2_pay5 x0 x1 x2 x3 x4) q := by
  unfold outSqLast2
  rw [View.read_writes_eq_canon _ _ _ (outSqLast2_cover c i arg1 harg1 arg2 harg2 arg3 harg3 arg4 harg4 arg5 harg5 arg6 harg6 arg7 harg7 arg8 harg8 arg9 harg9 arg10 harg10 h1 h2 x0 x1 x2 x3 x4 s q)]
  unfold runLast2
  dsimp only
  try sl_unfold_words
  rw [View.canon_unit_zero zeroOff2]
  simp only [View.readAt_eq_ld, harg1.read_unread, harg2.read_unread, harg3.read_unread, harg4.read_unread, harg5.read_unread,
    harg9.read_unread, harg10.read_unread,
    View.ld_unit_zero (S := S1000x512) zeroOff2, View.ld_unit_zero (S := S512x512) zeroOff2, View.ld_unit_zero (S := S1x512) zeroOff2,
    View.ld_unit_zero (S := S512x512) zeroOff2, View.readCov_unit_zero (S := S1x512) _ zeroOff2]

end

section
variable {F : FTy → Type} [FloatOps F]
variable (V : (c : Dev nD) → (b : Ref sig .tc) → Buf (Elt F) ((c : Thread nD τ).loc b))

set_option maxHeartbeats 1000000 in
/-- At every point the output tile the body leaves is the perceptron payload of the five input blocks. -/
theorem tileAt2 (c : Dev nD) (t : Fin cfg2.N) :
    (stateAt2 V c t.val t.isLt).1 = k2_pay5 (blockAt2 V c 0 t) (blockAt2 V c 1 t) (blockAt2 V c 2 t) (blockAt2 V c 3 t) (blockAt2 V c 4 t) := by
  by_cases hf : t.val % 10 = 0
  · have hl : ¬t.val % 10 = 9 := by omega
    rw [stateAt2_first V c t hf hl]
    dsimp only
    exact tileFirst2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) ((firstCond2_iff t).mpr hf) (fun h => hl ((lastCond2_iff t).mp h)) (blockAt2 V c 0 t) (blockAt2 V c 1 t) (blockAt2 V c 2 t) (blockAt2 V c 3 t) (blockAt2 V c 4 t)
  · by_cases hl : t.val % 10 = 9
    · rw [stateAt2_last V c t hf hl]
      dsimp only
      exact tileLast2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2
    · rw [stateAt2_mid V c t hf hl]
      dsimp only
      exact tileMid2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) (fun h => hl ((lastCond2_iff t).mp h)) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2

/-- The index maps over the grid: the input's and the output tile's block at point t is block (t, 0); the weights, the
    biases and the two statistics rows stay at block (0, 0). -/
theorem idx_facts2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-! A weight's or a bias's window has one block, the whole array: at every point its block is the array itself. -/

theorem wholeBlock2_1 (c : Dev nD) (t : Fin cfg2.N) :
    (blockAt2 V c 1 t : Vec F S512x512 .f32) = (V c (Pipeline.arrRef spec2 1) : S512x512.Idx → Elt F .f32) := by
  have e0 : win2_1.index t (0 : Fin 2) = 0 := by have := idx_facts2 t; simp only [this]
  have e1 : win2_1.index t (1 : Fin 2) = 0 := by have := idx_facts2 t; simp only [this]
  funext y
  unfold blockAt2
  rw [View.read_apply]
  show V c (Pipeline.arrRef spec2 1) _ = V c (Pipeline.arrRef spec2 1) _
  congr 1
  funext a
  apply Fin.ext
  match a with
  | ⟨0, _⟩ => show win2_1.index t (0 : Fin 2) * 512 + 1 * (y 0).val = (y 0).val; rw [e0]; omega
  | ⟨1, _⟩ => show win2_1.index t (1 : Fin 2) * 512 + 1 * (y 1).val = (y 1).val; rw [e1]; omega

theorem wholeBlock2_2 (c : Dev nD) (t : Fin cfg2.N) :
    (blockAt2 V c 2 t : Vec F S1x512 .f32) = (V c (Pipeline.arrRef spec2 2) : S1x512.Idx → Elt F .f32) := by
  have e0 : win2_2.index t (0 : Fin 2) = 0 := by have := idx_facts2 t; simp only [this]
  have e1 : win2_2.index t (1 : Fin 2) = 0 := by have := idx_facts2 t; simp only [this]
  funext y
  unfold blockAt2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 512 + 1 * (y 1).val = (y 1).val; rw [e1]; omega

theorem wholeBlock2_3 (c : Dev nD) (t : Fin cfg2.N) :
    (blockAt2 V c 3 t : Vec F S512x512 .f32) = (V c (Pipeline.arrRef spec2 3) : S512x512.Idx → Elt F .f32) := by
  have e0 : win2_3.index t (0 : Fin 2) = 0 := by have := idx_facts2 t; simp only [this]
  have e1 : win2_3.index t (1 : Fin 2) = 0 := by have := idx_facts2 t; simp only [this]
  funext y
  unfold blockAt2
  rw [View.read_apply]
  show V c (Pipeline.arrRef spec2 3) _ = V c (Pipeline.arrRef spec2 3) _
  congr 1
  funext a
  apply Fin.ext
  match a with
  | ⟨0, _⟩ => show win2_3.index t (0 : Fin 2) * 512 + 1 * (y 0).val = (y 0).val; rw [e0]; omega
  | ⟨1, _⟩ => show win2_3.index t (1 : Fin 2) * 512 + 1 * (y 1).val = (y 1).val; rw [e1]; omega

theorem wholeBlock2_4 (c : Dev nD) (t : Fin cfg2.N) :
    (blockAt2 V c 4 t : Vec F S1x512 .f32) = (V c (Pipeline.arrRef spec2 4) : S1x512.Idx → Elt F .f32) := by
  have e0 : win2_4.index t (0 : Fin 2) = 0 := by have := idx_facts2 t; simp only [this]
  have e1 : win2_4.index t (1 : Fin 2) = 0 := by have := idx_facts2 t; simp only [this]
  funext y
  unfold blockAt2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 512 + 1 * (y 1).val = (y 1).val; rw [e1]; omega

/-- Rows 1000 t … 1000 t + 999 of the [10000,512] input, as a [1000,512] tile. -/
def inTile2 (X : S10000x512.Idx → Elt F .f32) (t : Nat) (ht : t < 10) : Vec F S1000x512 .f32 :=
  fun y => X (ix2 ⟨1000 * t + (y 0).val, by have := idx2_lt0 y; omega⟩ (y 1))

/-- The input's block at point t is rows 1000 t … 1000 t + 999 of the array. -/
theorem inBlock2 (c : Dev nD) (t : Fin cfg2.N) (ht : t.val < 10) :
    (blockAt2 V c 0 t : Vec F S1000x512 .f32) = inTile2 (V c (Pipeline.arrRef spec2 0) : S10000x512.Idx → Elt F .f32) t.val ht := by
  obtain ⟨e0, e1, -⟩ := idx_facts2 t
  funext y
  unfold blockAt2 inTile2
  rw [View.read_apply]
  show V c (Pipeline.arrRef spec2 0) _ = V c (Pipeline.arrRef spec2 0) _
  congr 1
  funext a
  apply Fin.ext
  match a with
  | ⟨0, _⟩ => show win2_0.index t (0 : Fin 2) * 1000 + 1 * (y 0).val = 1000 * t.val + (y 0).val; rw [e0]; omega
  | ⟨1, _⟩ => show win2_0.index t (1 : Fin 2) * 512 + 1 * (y 1).val = (y 1).val; rw [e1]; omega

/-- The whole activation: entry (r, j) is the perceptron payload of input tile r / 1000 and of the weights, at (r % 1000, j). -/
def mlpWhole2 (c : Dev nD) : S10000x512.Idx → Elt F .f32 := fun i =>
  k2_pay5 (inTile2 (V c (Pipeline.arrRef spec2 0) : S10000x512.Idx → Elt F .f32) ((i 0).val / 1000) (by have := idx2_lt0 i; omega)) (V c (Pipeline.arrRef spec2 1) : S512x512.Idx → Elt F .f32) (V c (Pipeline.arrRef spec2 2) : S1x512.Idx → Elt F .f32) (V c (Pipeline.arrRef spec2 3) : S512x512.Idx → Elt F .f32) (V c (Pipeline.arrRef spec2 4) : S1x512.Idx → Elt F .f32) (ix2 ⟨(i 0).val % 1000, Nat.mod_lt _ (by decide)⟩ (i 1))

/-- The whole activation at an index whose row is 1000 t + p. -/
theorem mlpWhole2_apply (c : Dev nD) (i : S10000x512.Idx) (t : Nat) (ht : t < 10) (p : Fin 1000) (j : Fin 512)
    (h0 : (i 0).val = 1000 * t + p.val) (h1 : (i 1).val = j.val) :
    mlpWhole2 V c i = k2_pay5 (inTile2 (V c (Pipeline.arrRef spec2 0) : S10000x512.Idx → Elt F .f32) t ht) (V c (Pipeline.arrRef spec2 1) : S512x512.Idx → Elt F .f32) (V c (Pipeline.arrRef spec2 2) : S1x512.Idx → Elt F .f32) (V c (Pipeline.arrRef spec2 3) : S512x512.Idx → Elt F .f32) (V c (Pipeline.arrRef spec2 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k2_pay5 (inTile2 (V c (Pipeline.arrRef spec2 0) : S10000x512.Idx → Elt F .f32) t' ht') (V c (Pipeline.arrRef spec2 1) : S512x512.Idx → Elt F .f32) (V c (Pipeline.arrRef spec2 2) : S1x512.Idx → Elt F .f32) (V c (Pipeline.arrRef spec2 3) : S512x512.Idx → Elt F .f32) (V c (Pipeline.arrRef spec2 4) : S1x512.Idx → Elt F .f32) (ix2 p' j')
      = k2_pay5 (inTile2 (V c (Pipeline.arrRef spec2 0) : S10000x512.Idx → Elt F .f32) t ht) (V c (Pipeline.arrRef spec2 1) : S512x512.Idx → Elt F .f32) (V c (Pipeline.arrRef spec2 2) : S1x512.Idx → Elt F .f32) (V c (Pipeline.arrRef spec2 3) : S512x512.Idx → Elt F .f32) (V c (Pipeline.arrRef spec2 4) : S1x512.Idx → Elt F .f32) (ix2 p j) := by
    intro t' ht' p' j' e e' e''; subst e e' e''; rfl
  exact key _ _ _ _ e1 (Fin.ext e2) (Fin.ext h1)

/-- What point t writes back into the activation is block t of the whole activation. -/
theorem flushed2_5_eq (c : Dev nD) (t : Fin cfg2.N) :
    (dat2 V c).flushed 5 t = ((cfg2.win 5).blk t).view.read (Elt F) (mlpWhole2 V c) := by
  have ht : t.val < 10 := Nat.lt_of_lt_of_eq t.isLt N_2
  obtain ⟨-, -, e0, e1, -⟩ := idx_facts2 t
  show (cfg2.win 5).cut (grid2.coords t) ((dat2 V c).after 5 t) = _
  rw [dat2_after5, tileAt2, wholeBlock2_1, wholeBlock2_2, wholeBlock2_3, wholeBlock2_4, inBlock2 V c t ht]
  funext y
  obtain ⟨p, j, rfl⟩ : ∃ (p : Fin 1000) (j : Fin 512), y = ix2 p j := ⟨y 0, y 1, eq_ix2 y⟩
  rw [View.read_apply]
  refine (mlpWhole2_apply V c _ t.val ht p j ?_ ?_).symm
  · show win2_5.index t (0 : Fin 2) * 1000 + 1 * p.val = _; rw [e0]; omega
  · show win2_5.index t (1 : Fin 2) * 512 + 1 * j.val = _; rw [e1]; omega

/-- An index of the activation is in point t's block iff each coordinate is in the block's range on its axis. -/
theorem mem_blk2_5 (t : Fin cfg2.N) (i : S10000x512.Idx) :
    i ∈ ((cfg2.win 5).blk t).view.set ↔ ∀ a : Fin 2, win2_5.index t a * S1000x512.size a ≤ (i a).val ∧ (i a).val < win2_5.index t a * S1000x512.size a + S1000x512.size a := by
  show i ∈ ((View.whole main_v50_0).slice (win2_5.rect t)).set ↔ _
  rw [View.set_slice_whole, Rect.mem_set_unit]
  exact Iff.rfl

/-- Every row lies in the block of the point that is its number over 1000. -/
theorem cover2_5 (i : S10000x512.Idx) : ∃ t : Fin cfg2.N, (cfg2.win 5).flush t = true ∧ i ∈ ((cfg2.win 5).blk t).view.set := by
  have hi0 : (i 0).val < 10000 := idx2_lt0 i
  have hi1 : (i 1).val < 512 := idx2_lt1 i
  let t : Fin cfg2.N := ⟨(i 0).val / 1000, by rw [show cfg2.N = 10 from N_2]; omega⟩
  obtain ⟨-, -, e0, e1, -⟩ := idx_facts2 t
  have e0' : win2_5.index t (0 : Fin 2) = (i 0).val / 1000 := e0
  refine ⟨t, flush2_5 t, ?_⟩
  rw [mem_blk2_5]
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 512 ≤ (i 1).val ∧ (i 1).val < win2_5.index t (1 : Fin 2) * 512 + 512; omega

/-- The activation array after the region is the whole activation. -/
theorem final2_5 (c : Dev nD) : (dat2 V c).arrAt 5 cfg2.N = mlpWhole2 V c :=
  (dat2 V c).arrAt_eq_of_cover 5 (mlpWhole2 V c) (fun t _ => flushed2_5_eq V c t) cover2_5

/-- Entry (r, j) of the activation after the region: the perceptron payload of input tile r / 1000 at (r % 1000, j). -/
theorem mlpArray2 (c : Dev nD) (r : Fin 10000) (j : Fin 512) :
    ((dat2 V c).arrAt 5 cfg2.N : S10000x512.Idx → Elt F .f32) (ix2 r j)
      = k2_pay5 (inTile2 (V c (Pipeline.arrRef spec2 0) : S10000x512.Idx → Elt F .f32) (r.val / 1000) (by have := r.isLt; omega)) (V c (Pipeline.arrRef spec2 1) : S512x512.Idx → Elt F .f32) (V c (Pipeline.arrRef spec2 2) : S1x512.Idx → Elt F .f32) (V c (Pipeline.arrRef spec2 3) : S512x512.Idx → Elt F .f32) (V c (Pipeline.arrRef spec2 4) : S1x512.Idx → Elt F .f32) (ix2 ⟨r.val % 1000, Nat.mod_lt _ (by decide)⟩ j) := by
  rw [final2_5]
  exact mlpWhole2_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the activation is the specification's perceptron of the whole input. -/
theorem mlpArray2_spec (c : Dev nD) (r : Fin 10000) (j : Fin 512) :
    ((dat2 V c).arrAt 5 cfg2.N : S10000x512.Idx → EReal) (ix2 r j)
      = Cert.Gin.mlp (fun r l => (V c (Pipeline.arrRef spec2 0) : S10000x512.Idx → EReal) (ix2 r l)) (fun l k => (V c (Pipeline.arrRef spec2 1) : S512x512.Idx → EReal) (ix2 l k))
          (fun k => (V c (Pipeline.arrRef spec2 2) : S1x512.Idx → EReal) (ix2 0 k)) (fun k j => (V c (Pipeline.arrRef spec2 3) : S512x512.Idx → EReal) (ix2 k j))
          (fun j => (V c (Pipeline.arrRef spec2 4) : S1x512.Idx → EReal) (ix2 0 j)) r j := by
  refine (mlpArray2 V c r j).trans ?_
  refine (Cert.Gin.Ker.k2_pay5_apply _ _ _ _ _ _ j).trans ?_
  refine Cert.Gin.mlp_row _ _ _ _ _ _ _ r j fun l => ?_
  have e : (⟨1000 * (r.val / 1000) + r.val % 1000, by have := r.isLt; omega⟩ : Fin 10000) = r :=
    Fin.ext (by show 1000 * (r.val / 1000) + r.val % 1000 = r.val; omega)
  exact congrArg (fun r' => (V c (Pipeline.arrRef spec2 0) : S10000x512.Idx → EReal) (ix2 r' l)) e

end

end Cert.KernelIdeal.Arr

end
-- ==== Proof.KA.MlpArray4.lean ====
/-
  The activation array a perceptron-with-statistics region leaves, entry by entry. The region walks ten row tiles of
  1000. Whatever the tile's position (first, middle, last), the body stores the perceptron of the tile's input block and
  of the whole weights and biases into the output's block; what differs between the three cases is only what happens
  to the two statistics rows. First, for each case and each buffer the body writes, what the buffer ends holding as a
  term of the input blocks and of the two carried rows. Then: a weight's window has a single block, the whole array,
  at every tile; the input's and the output's block t are rows 1000 t .. 1000 t + 999; so the ten blocks written back
  are the ten row blocks of ONE whole-array function, they tile the array, and entry (r, j) of the activation is the
  perceptron of input tile r / 1000 read at (r % 1000, j) — at the ideal instance, the specification's perceptron of
  the whole input at (r, j), since it reads only row r.
-/
import proofs.«100381_j2018634629568_1_alg».proof.Proof.KI.MlpDat4
import proofs.«100381_j2018634629568_1_alg».proof.Proof.KV.Mlp
import proofs.«100381_j2018634629568_1_alg».proof.Proof.KA.SpecRows
import Idealize.ShloMosaic.Lib.Pipeline.Value
import Idealize.ShloMosaic.Lib.ValueIdx
import Idealize.ShloMosaic.Lib.Tactic

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

section
variable {F : FTy → Type} [FloatOps F]

theorem zeroOff4 : (![0, 0] : Fin 2 → Nat) = fun _ => 0 := funext fun a => by fin_cases a <;> rfl

/-! ## What each case leaves in each buffer it writes -/

theorem tileFirst4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32) :
    tileFirst4 c i arg1 harg1 arg2 harg2 arg3 harg3 arg4 harg4 arg5 harg5 arg6 harg6 arg7 harg7 arg8 harg8 arg9 harg9 arg10 harg10 h1 h2 x0 x1 x2 x3 x4 = k4_pay5 x0 x1 x2 x3 x4 := by
  unfold tileFirst4
  rw [View.read_writes_eq_canon _ _ _ (tileFirst4_cover c i arg1 harg1 arg2 harg2 arg3 harg3 arg4 harg4 arg5 harg5 arg6 harg6 arg7 harg7 arg8 harg8 arg9 harg9 arg10 harg10 h1 h2 x0 x1 x2 x3 x4)]
  unfold runFirst4
  dsimp only
  try sl_unfold_words
  rw [View.canon_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem sumFirst4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32) :
    sumFirst4 c i arg1 harg1 arg2 harg2 arg3 harg3 arg4 harg4 arg5 harg5 arg6 harg6 arg7 harg7 arg8 harg8 arg9 harg9 arg10 harg10 h1 h2 x0 x1 x2 x3 x4 = k4_pay1 (k4_pay6 x0 x1 x2 x3 x4 k4_pay3) := by
  unfold sumFirst4
  rw [View.read_writes_eq_canon _ _ _ (sumFirst4_cover c i arg1 harg1 arg2 harg2 arg3 harg3 arg4 harg4 arg5 harg5 arg6 harg6 arg7 harg7 arg8 harg8 arg9 harg9 arg10 harg10 h1 h2 x0 x1 x2 x3 x4)]
  unfold runFirst4
  dsimp only
  try sl_unfold_words
  rw [View.canon_cons_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem sqFirst4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond4 i) (h2 : ¬lastCond4 i) (x0 : Vec F S1000x512 .f32) (x1 : Vec F S512x512 .f32) (x2 : Vec F S1x512 .f32) (x3 : Vec F S512x512 .f32) (x4 : Vec F S1x512 .f32) :
    sqFirst4 c i arg1 harg1 arg2 harg2 arg3 harg3 arg4 harg4 arg5 harg5 arg6 harg6 arg7 harg7 arg8 harg8 arg9 harg9 arg10 harg10 h1 h2 x0 x1 x2 x3 x4 = k4_pay2 (k4_pay5 x0 x1 x2 x3 x4) k4_pay4 := by
  unfold sqFirst4
  rw [View.read_writes_eq_canon _ _ _ (sqFirst4_cover c i arg1 harg1 arg2 harg2 arg3 harg3 arg4 harg4 arg5 harg5 arg6 harg6 arg7 harg7 arg8 harg8 arg9 harg9 arg10 harg10 h1 h2 x0 x1 x2 x3 x4)]
  unfold runFirst4
  dsimp only
  try sl_unfold_words
  rw [View.canon_cons_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem tileMid4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) :
    tileMid4 c i arg1 harg1 arg2 harg2 arg3 harg3 arg4 harg4 arg5 harg5 arg6 harg6 arg7 harg7 arg8 harg8 arg9 harg9 arg10 harg10 h1 h2 x0 x1 x2 x3 x4 s q = k4_pay5 x0 x1 x2 x3 x4 := by
  unfold tileMid4
  rw [View.read_writes_eq_canon _ _ _ (tileMid4_cover c i arg1 harg1 arg2 harg2 arg3 harg3 arg4 harg4 arg5 harg5 arg6 harg6 arg7 harg7 arg8 harg8 arg9 harg9 arg10 harg10 h1 h2 x0 x1 x2 x3 x4 s q)]
  unfold runMid4
  dsimp only
  try sl_unfold_words
  rw [View.canon_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem sumMid4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) :
    sumMid4 c i arg1 harg1 arg2 harg2 arg3 harg3 arg4 harg4 arg5 harg5 arg6 harg6 arg7 harg7 arg8 harg8 arg9 harg9 arg10 harg10 h1 h2 x0 x1 x2 x3 x4 s q = k4_pay1 (k4_pay6 x0 x1 x2 x3 x4 s) := by
  unfold sumMid4
  rw [View.read_writes_eq_canon _ _ _ (sumMid4_cover c i arg1 harg1 arg2 harg2 arg3 harg3 arg4 harg4 arg5 harg5 arg6 harg6 arg7 harg7 arg8 harg8 arg9 harg9 arg10 harg10 h1 h2 x0 x1 x2 x3 x4 s q)]
  unfold runMid4
  dsimp only
  try sl_unfold_words
  rw [View.canon_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem sqMid4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : ¬lastCond4 i) (x0 : Vec F S1000x512 .f32) (x1 : Vec F S512x512 .f32) (x2 : Vec F S1x512 .f32) (x3 : Vec F S512x512 .f32) (x4 : Vec F S1x512 .f32) (s q : Vec F S1x512 .f32) :
    sqMid4 c i arg1 harg1 arg2 harg2 arg3 harg3 arg4 harg4 arg5 harg5 arg6 harg6 arg7 harg7 arg8 harg8 arg9 harg9 arg10 harg10 h1 h2 x0 x1 x2 x3 x4 s q = k4_pay2 (k4_pay5 x0 x1 x2 x3 x4) q := by
  unfold sqMid4
  rw [View.read_writes_eq_canon _ _ _ (sqMid4_cover c i arg1 harg1 arg2 harg2 arg3 harg3 arg4 harg4 arg5 harg5 arg6 harg6 arg7 harg7 arg8 harg8 arg9 harg9 arg10 harg10 h1 h2 x0 x1 x2 x3 x4 s q)]
  unfold runMid4
  dsimp only
  try sl_unfold_words
  rw [View.canon_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem tileLast4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) :
    tileLast4 c i arg1 harg1 arg2 harg2 arg3 harg3 arg4 harg4 arg5 harg5 arg6 harg6 arg7 harg7 arg8 harg8 arg9 harg9 arg10 harg10 h1 h2 x0 x1 x2 x3 x4 s q = k4_pay5 x0 x1 x2 x3 x4 := by
  unfold tileLast4
  rw [View.read_writes_eq_canon _ _ _ (tileLast4_cover c i arg1 harg1 arg2 harg2 arg3 harg3 arg4 harg4 arg5 harg5 arg6 harg6 arg7 harg7 arg8 harg8 arg9 harg9 arg10 harg10 h1 h2 x0 x1 x2 x3 x4 s q)]
  unfold runLast4
  dsimp only
  try sl_unfold_words
  rw [View.canon_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem sumLast4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) :
    sumLast4 c i arg1 harg1 arg2 harg2 arg3 harg3 arg4 harg4 arg5 harg5 arg6 harg6 arg7 harg7 arg8 harg8 arg9 harg9 arg10 harg10 h1 h2 x0 x1 x2 x3 x4 s q = k4_pay1 (k4_pay6 x0 x1 x2 x3 x4 s) := by
  unfold sumLast4
  rw [View.read_writes_eq_canon _ _ _ (sumLast4_cover c i arg1 harg1 arg2 harg2 arg3 harg3 arg4 harg4 arg5 harg5 arg6 harg6 arg7 harg7 arg8 harg8 arg9 harg9 arg10 harg10 h1 h2 x0 x1 x2 x3 x4 s q)]
  unfold runLast4
  dsimp only
  try sl_unfold_words
  rw [View.canon_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem sqLast4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) :
    sqLast4 c i arg1 harg1 arg2 harg2 arg3 harg3 arg4 harg4 arg5 harg5 arg6 harg6 arg7 harg7 arg8 harg8 arg9 harg9 arg10 harg10 h1 h2 x0 x1 x2 x3 x4 s q = k4_pay2 (k4_pay5 x0 x1 x2 x3 x4) q := by
  unfold sqLast4
  rw [View.read_writes_eq_canon _ _ _ (sqLast4_cover c i arg1 harg1 arg2 harg2 arg3 harg3 arg4 harg4 arg5 harg5 arg6 harg6 arg7 harg7 arg8 harg8 arg9 harg9 arg10 harg10 h1 h2 x0 x1 x2 x3 x4 s q)]
  unfold runLast4
  dsimp only
  try sl_unfold_words
  rw [View.canon_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem outSumLast4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) :
    outSumLast4 c i arg1 harg1 arg2 harg2 arg3 harg3 arg4 harg4 arg5 harg5 arg6 harg6 arg7 harg7 arg8 harg8 arg9 harg9 arg10 harg10 h1 h2 x0 x1 x2 x3 x4 s q = k4_pay1 (k4_pay6 x0 x1 x2 x3 x4 s) := by
  unfold outSumLast4
  rw [View.read_writes_eq_canon _ _ _ (outSumLast4_cover c i arg1 harg1 arg2 harg2 arg3 harg3 arg4 harg4 arg5 harg5 arg6 harg6 arg7 harg7 arg8 harg8 arg9 harg9 arg10 harg10 h1 h2 x0 x1 x2 x3 x4 s q)]
  unfold runLast4
  dsimp only
  try sl_unfold_words
  rw [View.canon_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

theorem outSqLast4_eq (c : Dev nD) (i : grid4.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond4 i) (h2 : lastCond4 i) (x0 : Vec F S1000x512 .f32) (x1 : Vec F S512x512 .f32) (x2 : Vec F S1x512 .f32) (x3 : Vec F S512x512 .f32) (x4 : Vec F S1x512 .f32) (s q : Vec F S1x512 .f32) :
    outSqLast4 c i arg1 harg1 arg2 harg2 arg3 harg3 arg4 harg4 arg5 harg5 arg6 harg6 arg7 harg7 arg8 harg8 arg9 harg9 arg10 harg10 h1 h2 x0 x1 x2 x3 x4 s q = k4_pay2 (k4_pay5 x0 x1 x2 x3 x4) q := by
  unfold outSqLast4
  rw [View.read_writes_eq_canon _ _ _ (outSqLast4_cover c i arg1 harg1 arg2 harg2 arg3 harg3 arg4 harg4 arg5 harg5 arg6 harg6 arg7 harg7 arg8 harg8 arg9 harg9 arg10 harg10 h1 h2 x0 x1 x2 x3 x4 s q)]
  unfold runLast4
  dsimp only
  try sl_unfold_words
  rw [View.canon_unit_zero zeroOff4]
  simp only [View.readAt_eq_ld, harg1.read_unread, harg2.read_unread, harg3.read_unread, harg4.read_unread, harg5.read_unread,
    harg9.read_unread, harg10.read_unread,
    View.ld_unit_zero (S := S1000x512) zeroOff4, View.ld_unit_zero (S := S512x512) zeroOff4, View.ld_unit_zero (S := S1x512) zeroOff4,
    View.ld_unit_zero (S := S512x512) zeroOff4, View.readCov_unit_zero (S := S1x512) _ zeroOff4]

end

section
variable {F : FTy → Type} [FloatOps F]
variable (V : (c : Dev nD) → (b : Ref sig .tc) → Buf (Elt F) ((c : Thread nD τ).loc b))

set_option maxHeartbeats 1000000 in
/-- At every point the output tile the body leaves is the perceptron payload of the five input blocks. -/
theorem tileAt4 (c : Dev nD) (t : Fin cfg4.N) :
    (stateAt4 V c t.val t.isLt).1 = k4_pay5 (blockAt4 V c 0 t) (blockAt4 V c 1 t) (blockAt4 V c 2 t) (blockAt4 V c 3 t) (blockAt4 V c 4 t) := by
  by_cases hf : t.val % 10 = 0
  · have hl : ¬t.val % 10 = 9 := by omega
    rw [stateAt4_first V c t hf hl]
    dsimp only
    exact tileFirst4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) ((firstCond4_iff t).mpr hf) (fun h => hl ((lastCond4_iff t).mp h)) (blockAt4 V c 0 t) (blockAt4 V c 1 t) (blockAt4 V c 2 t) (blockAt4 V c 3 t) (blockAt4 V c 4 t)
  · by_cases hl : t.val % 10 = 9
    · rw [stateAt4_last V c t hf hl]
      dsimp only
      exact tileLast4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2
    · rw [stateAt4_mid V c t hf hl]
      dsimp only
      exact tileMid4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) (fun h => hl ((lastCond4_iff t).mp h)) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2

/-- The index maps over the grid: the input's and the output tile's block at point t is block (t, 0); the weights, the
    biases and the two statistics rows stay at block (0, 0). -/
theorem idx_facts4 : ∀ t : Fin cfg4.N, win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-! A weight's or a bias's window has one block, the whole array: at every point its block is the array itself. -/

theorem wholeBlock4_1 (c : Dev nD) (t : Fin cfg4.N) :
    (blockAt4 V c 1 t : Vec F S512x512 .f32) = (V c (Pipeline.arrRef spec4 1) : S512x512.Idx → Elt F .f32) := by
  have e0 : win4_1.index t (0 : Fin 2) = 0 := by have := idx_facts4 t; simp only [this]
  have e1 : win4_1.index t (1 : Fin 2) = 0 := by have := idx_facts4 t; simp only [this]
  funext y
  unfold blockAt4
  rw [View.read_apply]
  show V c (Pipeline.arrRef spec4 1) _ = V c (Pipeline.arrRef spec4 1) _
  congr 1
  funext a
  apply Fin.ext
  match a with
  | ⟨0, _⟩ => show win4_1.index t (0 : Fin 2) * 512 + 1 * (y 0).val = (y 0).val; rw [e0]; omega
  | ⟨1, _⟩ => show win4_1.index t (1 : Fin 2) * 512 + 1 * (y 1).val = (y 1).val; rw [e1]; omega

theorem wholeBlock4_2 (c : Dev nD) (t : Fin cfg4.N) :
    (blockAt4 V c 2 t : Vec F S1x512 .f32) = (V c (Pipeline.arrRef spec4 2) : S1x512.Idx → Elt F .f32) := by
  have e0 : win4_2.index t (0 : Fin 2) = 0 := by have := idx_facts4 t; simp only [this]
  have e1 : win4_2.index t (1 : Fin 2) = 0 := by have := idx_facts4 t; simp only [this]
  funext y
  unfold blockAt4
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 512 + 1 * (y 1).val = (y 1).val; rw [e1]; omega

theorem wholeBlock4_3 (c : Dev nD) (t : Fin cfg4.N) :
    (blockAt4 V c 3 t : Vec F S512x512 .f32) = (V c (Pipeline.arrRef spec4 3) : S512x512.Idx → Elt F .f32) := by
  have e0 : win4_3.index t (0 : Fin 2) = 0 := by have := idx_facts4 t; simp only [this]
  have e1 : win4_3.index t (1 : Fin 2) = 0 := by have := idx_facts4 t; simp only [this]
  funext y
  unfold blockAt4
  rw [View.read_apply]
  show V c (Pipeline.arrRef spec4 3) _ = V c (Pipeline.arrRef spec4 3) _
  congr 1
  funext a
  apply Fin.ext
  match a with
  | ⟨0, _⟩ => show win4_3.index t (0 : Fin 2) * 512 + 1 * (y 0).val = (y 0).val; rw [e0]; omega
  | ⟨1, _⟩ => show win4_3.index t (1 : Fin 2) * 512 + 1 * (y 1).val = (y 1).val; rw [e1]; omega

theorem wholeBlock4_4 (c : Dev nD) (t : Fin cfg4.N) :
    (blockAt4 V c 4 t : Vec F S1x512 .f32) = (V c (Pipeline.arrRef spec4 4) : S1x512.Idx → Elt F .f32) := by
  have e0 : win4_4.index t (0 : Fin 2) = 0 := by have := idx_facts4 t; simp only [this]
  have e1 : win4_4.index t (1 : Fin 2) = 0 := by have := idx_facts4 t; simp only [this]
  funext y
  unfold blockAt4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 512 + 1 * (y 1).val = (y 1).val; rw [e1]; omega

/-- Rows 1000 t … 1000 t + 999 of the [10000,512] input, as a [1000,512] tile. -/
def inTile4 (X : S10000x512.Idx → Elt F .f32) (t : Nat) (ht : t < 10) : Vec F S1000x512 .f32 :=
  fun y => X (ix2 ⟨1000 * t + (y 0).val, by have := idx2_lt0 y; omega⟩ (y 1))

/-- The input's block at point t is rows 1000 t … 1000 t + 999 of the array. -/
theorem inBlock4 (c : Dev nD) (t : Fin cfg4.N) (ht : t.val < 10) :
    (blockAt4 V c 0 t : Vec F S1000x512 .f32) = inTile4 (V c (Pipeline.arrRef spec4 0) : S10000x512.Idx → Elt F .f32) t.val ht := by
  obtain ⟨e0, e1, -⟩ := idx_facts4 t
  funext y
  unfold blockAt4 inTile4
  rw [View.read_apply]
  show V c (Pipeline.arrRef spec4 0) _ = V c (Pipeline.arrRef spec4 0) _
  congr 1
  funext a
  apply Fin.ext
  match a with
  | ⟨0, _⟩ => show win4_0.index t (0 : Fin 2) * 1000 + 1 * (y 0).val = 1000 * t.val + (y 0).val; rw [e0]; omega
  | ⟨1, _⟩ => show win4_0.index t (1 : Fin 2) * 512 + 1 * (y 1).val = (y 1).val; rw [e1]; omega

/-- The whole activation: entry (r, j) is the perceptron payload of input tile r / 1000 and of the weights, at (r % 1000, j). -/
def mlpWhole4 (c : Dev nD) : S10000x512.Idx → Elt F .f32 := fun i =>
  k4_pay5 (inTile4 (V c (Pipeline.arrRef spec4 0) : S10000x512.Idx → Elt F .f32) ((i 0).val / 1000) (by have := idx2_lt0 i; omega)) (V c (Pipeline.arrRef spec4 1) : S512x512.Idx → Elt F .f32) (V c (Pipeline.arrRef spec4 2) : S1x512.Idx → Elt F .f32) (V c (Pipeline.arrRef spec4 3) : S512x512.Idx → Elt F .f32) (V c (Pipeline.arrRef spec4 4) : S1x512.Idx → Elt F .f32) (ix2 ⟨(i 0).val % 1000, Nat.mod_lt _ (by decide)⟩ (i 1))

/-- The whole activation at an index whose row is 1000 t + p. -/
theorem mlpWhole4_apply (c : Dev nD) (i : S10000x512.Idx) (t : Nat) (ht : t < 10) (p : Fin 1000) (j : Fin 512)
    (h0 : (i 0).val = 1000 * t + p.val) (h1 : (i 1).val = j.val) :
    mlpWhole4 V c i = k4_pay5 (inTile4 (V c (Pipeline.arrRef spec4 0) : S10000x512.Idx → Elt F .f32) t ht) (V c (Pipeline.arrRef spec4 1) : S512x512.Idx → Elt F .f32) (V c (Pipeline.arrRef spec4 2) : S1x512.Idx → Elt F .f32) (V c (Pipeline.arrRef spec4 3) : S512x512.Idx → Elt F .f32) (V c (Pipeline.arrRef spec4 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k4_pay5 (inTile4 (V c (Pipeline.arrRef spec4 0) : S10000x512.Idx → Elt F .f32) t' ht') (V c (Pipeline.arrRef spec4 1) : S512x512.Idx → Elt F .f32) (V c (Pipeline.arrRef spec4 2) : S1x512.Idx → Elt F .f32) (V c (Pipeline.arrRef spec4 3) : S512x512.Idx → Elt F .f32) (V c (Pipeline.arrRef spec4 4) : S1x512.Idx → Elt F .f32) (ix2 p' j')
      = k4_pay5 (inTile4 (V c (Pipeline.arrRef spec4 0) : S10000x512.Idx → Elt F .f32) t ht) (V c (Pipeline.arrRef spec4 1) : S512x512.Idx → Elt F .f32) (V c (Pipeline.arrRef spec4 2) : S1x512.Idx → Elt F .f32) (V c (Pipeline.arrRef spec4 3) : S512x512.Idx → Elt F .f32) (V c (Pipeline.arrRef spec4 4) : S1x512.Idx → Elt F .f32) (ix2 p j) := by
    intro t' ht' p' j' e e' e''; subst e e' e''; rfl
  exact key _ _ _ _ e1 (Fin.ext e2) (Fin.ext h1)

/-- What point t writes back into the activation is block t of the whole activation. -/
theorem flushed4_5_eq (c : Dev nD) (t : Fin cfg4.N) :
    (dat4 V c).flushed 5 t = ((cfg4.win 5).blk t).view.read (Elt F) (mlpWhole4 V c) := by
  have ht : t.val < 10 := Nat.lt_of_lt_of_eq t.isLt N_4
  obtain ⟨-, -, e0, e1, -⟩ := idx_facts4 t
  show (cfg4.win 5).cut (grid4.coords t) ((dat4 V c).after 5 t) = _
  rw [dat4_after5, tileAt4, wholeBlock4_1, wholeBlock4_2, wholeBlock4_3, wholeBlock4_4, inBlock4 V c t ht]
  funext y
  obtain ⟨p, j, rfl⟩ : ∃ (p : Fin 1000) (j : Fin 512), y = ix2 p j := ⟨y 0, y 1, eq_ix2 y⟩
  rw [View.read_apply]
  refine (mlpWhole4_apply V c _ t.val ht p j ?_ ?_).symm
  · show win4_5.index t (0 : Fin 2) * 1000 + 1 * p.val = _; rw [e0]; omega
  · show win4_5.index t (1 : Fin 2) * 512 + 1 * j.val = _; rw [e1]; omega

/-- An index of the activation is in point t's block iff each coordinate is in the block's range on its axis. -/
theorem mem_blk4_5 (t : Fin cfg4.N) (i : S10000x512.Idx) :
    i ∈ ((cfg4.win 5).blk t).view.set ↔ ∀ a : Fin 2, win4_5.index t a * S1000x512.size a ≤ (i a).val ∧ (i a).val < win4_5.index t a * S1000x512.size a + S1000x512.size a := by
  show i ∈ ((View.whole main_v79_0).slice (win4_5.rect t)).set ↔ _
  rw [View.set_slice_whole, Rect.mem_set_unit]
  exact Iff.rfl

/-- Every row lies in the block of the point that is its number over 1000. -/
theorem cover4_5 (i : S10000x512.Idx) : ∃ t : Fin cfg4.N, (cfg4.win 5).flush t = true ∧ i ∈ ((cfg4.win 5).blk t).view.set := by
  have hi0 : (i 0).val < 10000 := idx2_lt0 i
  have hi1 : (i 1).val < 512 := idx2_lt1 i
  let t : Fin cfg4.N := ⟨(i 0).val / 1000, by rw [show cfg4.N = 10 from N_4]; omega⟩
  obtain ⟨-, -, e0, e1, -⟩ := idx_facts4 t
  have e0' : win4_5.index t (0 : Fin 2) = (i 0).val / 1000 := e0
  refine ⟨t, flush4_5 t, ?_⟩
  rw [mem_blk4_5]
  intro a
  match a with
  | ⟨0, _⟩ => show win4_5.index t (0 : Fin 2) * 1000 ≤ (i 0).val ∧ (i 0).val < win4_5.index t (0 : Fin 2) * 1000 + 1000; omega
  | ⟨1, _⟩ => show win4_5.index t (1 : Fin 2) * 512 ≤ (i 1).val ∧ (i 1).val < win4_5.index t (1 : Fin 2) * 512 + 512; omega

/-- The activation array after the region is the whole activation. -/
theorem final4_5 (c : Dev nD) : (dat4 V c).arrAt 5 cfg4.N = mlpWhole4 V c :=
  (dat4 V c).arrAt_eq_of_cover 5 (mlpWhole4 V c) (fun t _ => flushed4_5_eq V c t) cover4_5

/-- Entry (r, j) of the activation after the region: the perceptron payload of input tile r / 1000 at (r % 1000, j). -/
theorem mlpArray4 (c : Dev nD) (r : Fin 10000) (j : Fin 512) :
    ((dat4 V c).arrAt 5 cfg4.N : S10000x512.Idx → Elt F .f32) (ix2 r j)
      = k4_pay5 (inTile4 (V c (Pipeline.arrRef spec4 0) : S10000x512.Idx → Elt F .f32) (r.val / 1000) (by have := r.isLt; omega)) (V c (Pipeline.arrRef spec4 1) : S512x512.Idx → Elt F .f32) (V c (Pipeline.arrRef spec4 2) : S1x512.Idx → Elt F .f32) (V c (Pipeline.arrRef spec4 3) : S512x512.Idx → Elt F .f32) (V c (Pipeline.arrRef spec4 4) : S1x512.Idx → Elt F .f32) (ix2 ⟨r.val % 1000, Nat.mod_lt _ (by decide)⟩ j) := by
  rw [final4_5]
  exact mlpWhole4_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the activation is the specification's perceptron of the whole input. -/
theorem mlpArray4_spec (c : Dev nD) (r : Fin 10000) (j : Fin 512) :
    ((dat4 V c).arrAt 5 cfg4.N : S10000x512.Idx → EReal) (ix2 r j)
      = Cert.Gin.mlp (fun r l => (V c (Pipeline.arrRef spec4 0) : S10000x512.Idx → EReal) (ix2 r l)) (fun l k => (V c (Pipeline.arrRef spec4 1) : S512x512.Idx → EReal) (ix2 l k))
          (fun k => (V c (Pipeline.arrRef spec4 2) : S1x512.Idx → EReal) (ix2 0 k)) (fun k j => (V c (Pipeline.arrRef spec4 3) : S512x512.Idx → EReal) (ix2 k j))
          (fun j => (V c (Pipeline.arrRef spec4 4) : S1x512.Idx → EReal) (ix2 0 j)) r j := by
  refine (mlpArray4 V c r j).trans ?_
  refine (Cert.Gin.Ker.k4_pay5_apply _ _ _ _ _ _ j).trans ?_
  refine Cert.Gin.mlp_row _ _ _ _ _ _ _ r j fun l => ?_
  have e : (⟨1000 * (r.val / 1000) + r.val % 1000, by have := r.isLt; omega⟩ : Fin 10000) = r :=
    Fin.ext (by show 1000 * (r.val / 1000) + r.val % 1000 = r.val; omega)
  exact congrArg (fun r' => (V c (Pipeline.arrRef spec4 0) : S10000x512.Idx → EReal) (ix2 r' l)) e

end

end Cert.KernelIdeal.Arr

end
-- ==== Proof.KA.MlpArray6.lean ====
/-
  The activation array a perceptron-with-statistics region leaves, entry by entry. The region walks ten row tiles of
  1000. Whatever the tile's position (first, middle, last), the body stores the perceptron of the tile's input block and
  of the whole weights and biases into the output's block; what differs between the three cases is only what happens
  to the two statistics rows. First, for each case and each buffer the body writes, what the buffer ends holding as a
  term of the input blocks and of the two carried rows. Then: a weight's window has a single block, the whole array,
  at every tile; the input's and the output's block t are rows 1000 t .. 1000 t + 999; so the ten blocks written back
  are the ten row blocks of ONE whole-array function, they tile the array, and entry (r, j) of the activation is the
  perceptron of input tile r / 1000 read at (r % 1000, j) — at the ideal instance, the specification's perceptron of
  the whole input at (r, j), since it reads only row r.
-/
import proofs.«100381_j2018634629568_1_alg».proof.Proof.KI.MlpDat6
import proofs.«100381_j2018634629568_1_alg».proof.Proof.KV.Mlp
import proofs.«100381_j2018634629568_1_alg».proof.Proof.KA.SpecRows
import Idealize.ShloMosaic.Lib.Pipeline.Value
import Idealize.ShloMosaic.Lib.ValueIdx
import Idealize.ShloMosaic.Lib.Tactic

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

section
variable {F : FTy → Type} [FloatOps F]

theorem zeroOff6 : (![0, 0] : Fin 2 → Nat) = fun _ => 0 := funext fun a => by fin_cases a <;> rfl

/-! ## What each case leaves in each buffer it writes -/

theorem tileFirst6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32) :
    tileFirst6 c i arg1 harg1 arg2 harg2 arg3 harg3 arg4 harg4 arg5 harg5 arg6 harg6 arg7 harg7 arg8 harg8 arg9 harg9 arg10 harg10 h1 h2 x0 x1 x2 x3 x4 = k6_pay5 x0 x1 x2 x3 x4 := by
  unfold tileFirst6
  rw [View.read_writes_eq_canon _ _ _ (tileFirst6_cover c i arg1 harg1 arg2 harg2 arg3 harg3 arg4 harg4 arg5 harg5 arg6 harg6 arg7 harg7 arg8 harg8 arg9 harg9 arg10 harg10 h1 h2 x0 x1 x2 x3 x4)]
  unfold runFirst6
  dsimp only
  try sl_unfold_words
  rw [View.canon_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem sumFirst6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32) :
    sumFirst6 c i arg1 harg1 arg2 harg2 arg3 harg3 arg4 harg4 arg5 harg5 arg6 harg6 arg7 harg7 arg8 harg8 arg9 harg9 arg10 harg10 h1 h2 x0 x1 x2 x3 x4 = k6_pay1 (k6_pay6 x0 x1 x2 x3 x4 k6_pay3) := by
  unfold sumFirst6
  rw [View.read_writes_eq_canon _ _ _ (sumFirst6_cover c i arg1 harg1 arg2 harg2 arg3 harg3 arg4 harg4 arg5 harg5 arg6 harg6 arg7 harg7 arg8 harg8 arg9 harg9 arg10 harg10 h1 h2 x0 x1 x2 x3 x4)]
  unfold runFirst6
  dsimp only
  try sl_unfold_words
  rw [View.canon_cons_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem sqFirst6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond6 i) (h2 : ¬lastCond6 i) (x0 : Vec F S1000x512 .f32) (x1 : Vec F S512x512 .f32) (x2 : Vec F S1x512 .f32) (x3 : Vec F S512x512 .f32) (x4 : Vec F S1x512 .f32) :
    sqFirst6 c i arg1 harg1 arg2 harg2 arg3 harg3 arg4 harg4 arg5 harg5 arg6 harg6 arg7 harg7 arg8 harg8 arg9 harg9 arg10 harg10 h1 h2 x0 x1 x2 x3 x4 = k6_pay2 (k6_pay5 x0 x1 x2 x3 x4) k6_pay4 := by
  unfold sqFirst6
  rw [View.read_writes_eq_canon _ _ _ (sqFirst6_cover c i arg1 harg1 arg2 harg2 arg3 harg3 arg4 harg4 arg5 harg5 arg6 harg6 arg7 harg7 arg8 harg8 arg9 harg9 arg10 harg10 h1 h2 x0 x1 x2 x3 x4)]
  unfold runFirst6
  dsimp only
  try sl_unfold_words
  rw [View.canon_cons_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem tileMid6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) :
    tileMid6 c i arg1 harg1 arg2 harg2 arg3 harg3 arg4 harg4 arg5 harg5 arg6 harg6 arg7 harg7 arg8 harg8 arg9 harg9 arg10 harg10 h1 h2 x0 x1 x2 x3 x4 s q = k6_pay5 x0 x1 x2 x3 x4 := by
  unfold tileMid6
  rw [View.read_writes_eq_canon _ _ _ (tileMid6_cover c i arg1 harg1 arg2 harg2 arg3 harg3 arg4 harg4 arg5 harg5 arg6 harg6 arg7 harg7 arg8 harg8 arg9 harg9 arg10 harg10 h1 h2 x0 x1 x2 x3 x4 s q)]
  unfold runMid6
  dsimp only
  try sl_unfold_words
  rw [View.canon_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem sumMid6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) :
    sumMid6 c i arg1 harg1 arg2 harg2 arg3 harg3 arg4 harg4 arg5 harg5 arg6 harg6 arg7 harg7 arg8 harg8 arg9 harg9 arg10 harg10 h1 h2 x0 x1 x2 x3 x4 s q = k6_pay1 (k6_pay6 x0 x1 x2 x3 x4 s) := by
  unfold sumMid6
  rw [View.read_writes_eq_canon _ _ _ (sumMid6_cover c i arg1 harg1 arg2 harg2 arg3 harg3 arg4 harg4 arg5 harg5 arg6 harg6 arg7 harg7 arg8 harg8 arg9 harg9 arg10 harg10 h1 h2 x0 x1 x2 x3 x4 s q)]
  unfold runMid6
  dsimp only
  try sl_unfold_words
  rw [View.canon_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem sqMid6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : ¬lastCond6 i) (x0 : Vec F S1000x512 .f32) (x1 : Vec F S512x512 .f32) (x2 : Vec F S1x512 .f32) (x3 : Vec F S512x512 .f32) (x4 : Vec F S1x512 .f32) (s q : Vec F S1x512 .f32) :
    sqMid6 c i arg1 harg1 arg2 harg2 arg3 harg3 arg4 harg4 arg5 harg5 arg6 harg6 arg7 harg7 arg8 harg8 arg9 harg9 arg10 harg10 h1 h2 x0 x1 x2 x3 x4 s q = k6_pay2 (k6_pay5 x0 x1 x2 x3 x4) q := by
  unfold sqMid6
  rw [View.read_writes_eq_canon _ _ _ (sqMid6_cover c i arg1 harg1 arg2 harg2 arg3 harg3 arg4 harg4 arg5 harg5 arg6 harg6 arg7 harg7 arg8 harg8 arg9 harg9 arg10 harg10 h1 h2 x0 x1 x2 x3 x4 s q)]
  unfold runMid6
  dsimp only
  try sl_unfold_words
  rw [View.canon_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem tileLast6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) :
    tileLast6 c i arg1 harg1 arg2 harg2 arg3 harg3 arg4 harg4 arg5 harg5 arg6 harg6 arg7 harg7 arg8 harg8 arg9 harg9 arg10 harg10 h1 h2 x0 x1 x2 x3 x4 s q = k6_pay5 x0 x1 x2 x3 x4 := by
  unfold tileLast6
  rw [View.read_writes_eq_canon _ _ _ (tileLast6_cover c i arg1 harg1 arg2 harg2 arg3 harg3 arg4 harg4 arg5 harg5 arg6 harg6 arg7 harg7 arg8 harg8 arg9 harg9 arg10 harg10 h1 h2 x0 x1 x2 x3 x4 s q)]
  unfold runLast6
  dsimp only
  try sl_unfold_words
  rw [View.canon_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem sumLast6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) :
    sumLast6 c i arg1 harg1 arg2 harg2 arg3 harg3 arg4 harg4 arg5 harg5 arg6 harg6 arg7 harg7 arg8 harg8 arg9 harg9 arg10 harg10 h1 h2 x0 x1 x2 x3 x4 s q = k6_pay1 (k6_pay6 x0 x1 x2 x3 x4 s) := by
  unfold sumLast6
  rw [View.read_writes_eq_canon _ _ _ (sumLast6_cover c i arg1 harg1 arg2 harg2 arg3 harg3 arg4 harg4 arg5 harg5 arg6 harg6 arg7 harg7 arg8 harg8 arg9 harg9 arg10 harg10 h1 h2 x0 x1 x2 x3 x4 s q)]
  unfold runLast6
  dsimp only
  try sl_unfold_words
  rw [View.canon_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem sqLast6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) :
    sqLast6 c i arg1 harg1 arg2 harg2 arg3 harg3 arg4 harg4 arg5 harg5 arg6 harg6 arg7 harg7 arg8 harg8 arg9 harg9 arg10 harg10 h1 h2 x0 x1 x2 x3 x4 s q = k6_pay2 (k6_pay5 x0 x1 x2 x3 x4) q := by
  unfold sqLast6
  rw [View.read_writes_eq_canon _ _ _ (sqLast6_cover c i arg1 harg1 arg2 harg2 arg3 harg3 arg4 harg4 arg5 harg5 arg6 harg6 arg7 harg7 arg8 harg8 arg9 harg9 arg10 harg10 h1 h2 x0 x1 x2 x3 x4 s q)]
  unfold runLast6
  dsimp only
  try sl_unfold_words
  rw [View.canon_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem outSumLast6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) :
    outSumLast6 c i arg1 harg1 arg2 harg2 arg3 harg3 arg4 harg4 arg5 harg5 arg6 harg6 arg7 harg7 arg8 harg8 arg9 harg9 arg10 harg10 h1 h2 x0 x1 x2 x3 x4 s q = k6_pay1 (k6_pay6 x0 x1 x2 x3 x4 s) := by
  unfold outSumLast6
  rw [View.read_writes_eq_canon _ _ _ (outSumLast6_cover c i arg1 harg1 arg2 harg2 arg3 harg3 arg4 harg4 arg5 harg5 arg6 harg6 arg7 harg7 arg8 harg8 arg9 harg9 arg10 harg10 h1 h2 x0 x1 x2 x3 x4 s q)]
  unfold runLast6
  dsimp only
  try sl_unfold_words
  rw [View.canon_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

theorem outSqLast6_eq (c : Dev nD) (i : grid6.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond6 i) (h2 : lastCond6 i) (x0 : Vec F S1000x512 .f32) (x1 : Vec F S512x512 .f32) (x2 : Vec F S1x512 .f32) (x3 : Vec F S512x512 .f32) (x4 : Vec F S1x512 .f32) (s q : Vec F S1x512 .f32) :
    outSqLast6 c i arg1 harg1 arg2 harg2 arg3 harg3 arg4 harg4 arg5 harg5 arg6 harg6 arg7 harg7 arg8 harg8 arg9 harg9 arg10 harg10 h1 h2 x0 x1 x2 x3 x4 s q = k6_pay2 (k6_pay5 x0 x1 x2 x3 x4) q := by
  unfold outSqLast6
  rw [View.read_writes_eq_canon _ _ _ (outSqLast6_cover c i arg1 harg1 arg2 harg2 arg3 harg3 arg4 harg4 arg5 harg5 arg6 harg6 arg7 harg7 arg8 harg8 arg9 harg9 arg10 harg10 h1 h2 x0 x1 x2 x3 x4 s q)]
  unfold runLast6
  dsimp only
  try sl_unfold_words
  rw [View.canon_unit_zero zeroOff6]
  simp only [View.readAt_eq_ld, harg1.read_unread, harg2.read_unread, harg3.read_unread, harg4.read_unread, harg5.read_unread,
    harg9.read_unread, harg10.read_unread,
    View.ld_unit_zero (S := S1000x512) zeroOff6, View.ld_unit_zero (S := S512x512) zeroOff6, View.ld_unit_zero (S := S1x512) zeroOff6,
    View.ld_unit_zero (S := S512x512) zeroOff6, View.readCov_unit_zero (S := S1x512) _ zeroOff6]

end

section
variable {F : FTy → Type} [FloatOps F]
variable (V : (c : Dev nD) → (b : Ref sig .tc) → Buf (Elt F) ((c : Thread nD τ).loc b))

set_option maxHeartbeats 1000000 in
/-- At every point the output tile the body leaves is the perceptron payload of the five input blocks. -/
theorem tileAt6 (c : Dev nD) (t : Fin cfg6.N) :
    (stateAt6 V c t.val t.isLt).1 = k6_pay5 (blockAt6 V c 0 t) (blockAt6 V c 1 t) (blockAt6 V c 2 t) (blockAt6 V c 3 t) (blockAt6 V c 4 t) := by
  by_cases hf : t.val % 10 = 0
  · have hl : ¬t.val % 10 = 9 := by omega
    rw [stateAt6_first V c t hf hl]
    dsimp only
    exact tileFirst6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) ((firstCond6_iff t).mpr hf) (fun h => hl ((lastCond6_iff t).mp h)) (blockAt6 V c 0 t) (blockAt6 V c 1 t) (blockAt6 V c 2 t) (blockAt6 V c 3 t) (blockAt6 V c 4 t)
  · by_cases hl : t.val % 10 = 9
    · rw [stateAt6_last V c t hf hl]
      dsimp only
      exact tileLast6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2
    · rw [stateAt6_mid V c t hf hl]
      dsimp only
      exact tileMid6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) (fun h => hl ((lastCond6_iff t).mp h)) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2

/-- The index maps over the grid: the input's and the output tile's block at point t is block (t, 0); the weights, the
    biases and the two statistics rows stay at block (0, 0). -/
theorem idx_facts6 : ∀ t : Fin cfg6.N, win6_0.index t (0 : Fin 2) = t.val ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-! A weight's or a bias's window has one block, the whole array: at every point its block is the array itself. -/

theorem wholeBlock6_1 (c : Dev nD) (t : Fin cfg6.N) :
    (blockAt6 V c 1 t : Vec F S512x512 .f32) = (V c (Pipeline.arrRef spec6 1) : S512x512.Idx → Elt F .f32) := by
  have e0 : win6_1.index t (0 : Fin 2) = 0 := by have := idx_facts6 t; simp only [this]
  have e1 : win6_1.index t (1 : Fin 2) = 0 := by have := idx_facts6 t; simp only [this]
  funext y
  unfold blockAt6
  rw [View.read_apply]
  show V c (Pipeline.arrRef spec6 1) _ = V c (Pipeline.arrRef spec6 1) _
  congr 1
  funext a
  apply Fin.ext
  match a with
  | ⟨0, _⟩ => show win6_1.index t (0 : Fin 2) * 512 + 1 * (y 0).val = (y 0).val; rw [e0]; omega
  | ⟨1, _⟩ => show win6_1.index t (1 : Fin 2) * 512 + 1 * (y 1).val = (y 1).val; rw [e1]; omega

theorem wholeBlock6_2 (c : Dev nD) (t : Fin cfg6.N) :
    (blockAt6 V c 2 t : Vec F S1x512 .f32) = (V c (Pipeline.arrRef spec6 2) : S1x512.Idx → Elt F .f32) := by
  have e0 : win6_2.index t (0 : Fin 2) = 0 := by have := idx_facts6 t; simp only [this]
  have e1 : win6_2.index t (1 : Fin 2) = 0 := by have := idx_facts6 t; simp only [this]
  funext y
  unfold blockAt6
  rw [View.read_apply]
  show V c (Pipeline.arrRef spec6 2) _ = V c (Pipeline.arrRef spec6 2) _
  congr 1
  funext a
  apply Fin.ext
  match a with
  | ⟨0, _⟩ => show win6_2.index t (0 : Fin 2) * 1 + 1 * (y 0).val = (y 0).val; rw [e0]; omega
  | ⟨1, _⟩ => show win6_2.index t (1 : Fin 2) * 512 + 1 * (y 1).val = (y 1).val; rw [e1]; omega

theorem wholeBlock6_3 (c : Dev nD) (t : Fin cfg6.N) :
    (blockAt6 V c 3 t : Vec F S512x512 .f32) = (V c (Pipeline.arrRef spec6 3) : S512x512.Idx → Elt F .f32) := by
  have e0 : win6_3.index t (0 : Fin 2) = 0 := by have := idx_facts6 t; simp only [this]
  have e1 : win6_3.index t (1 : Fin 2) = 0 := by have := idx_facts6 t; simp only [this]
  funext y
  unfold blockAt6
  rw [View.read_apply]
  show V c (Pipeline.arrRef spec6 3) _ = V c (Pipeline.arrRef spec6 3) _
  congr 1
  funext a
  apply Fin.ext
  match a with
  | ⟨0, _⟩ => show win6_3.index t (0 : Fin 2) * 512 + 1 * (y 0).val = (y 0).val; rw [e0]; omega
  | ⟨1, _⟩ => show win6_3.index t (1 : Fin 2) * 512 + 1 * (y 1).val = (y 1).val; rw [e1]; omega

theorem wholeBlock6_4 (c : Dev nD) (t : Fin cfg6.N) :
    (blockAt6 V c 4 t : Vec F S1x512 .f32) = (V c (Pipeline.arrRef spec6 4) : S1x512.Idx → Elt F .f32) := by
  have e0 : win6_4.index t (0 : Fin 2) = 0 := by have := idx_facts6 t; simp only [this]
  have e1 : win6_4.index t (1 : Fin 2) = 0 := by have := idx_facts6 t; simp only [this]
  funext y
  unfold blockAt6
  rw [View.read_apply]
  show V c (Pipeline.arrRef spec6 4) _ = V c (Pipeline.arrRef spec6 4) _
  congr 1
  funext a
  apply Fin.ext
  match a with
  | ⟨0, _⟩ => show win6_4.index t (0 : Fin 2) * 1 + 1 * (y 0).val = (y 0).val; rw [e0]; omega
  | ⟨1, _⟩ => show win6_4.index t (1 : Fin 2) * 512 + 1 * (y 1).val = (y 1).val; rw [e1]; omega

/-- Rows 1000 t … 1000 t + 999 of the [10000,512] input, as a [1000,512] tile. -/
def inTile6 (X : S10000x512.Idx → Elt F .f32) (t : Nat) (ht : t < 10) : Vec F S1000x512 .f32 :=
  fun y => X (ix2 ⟨1000 * t + (y 0).val, by have := idx2_lt0 y; omega⟩ (y 1))

/-- The input's block at point t is rows 1000 t … 1000 t + 999 of the array. -/
theorem inBlock6 (c : Dev nD) (t : Fin cfg6.N) (ht : t.val < 10) :
    (blockAt6 V c 0 t : Vec F S1000x512 .f32) = inTile6 (V c (Pipeline.arrRef spec6 0) : S10000x512.Idx → Elt F .f32) t.val ht := by
  obtain ⟨e0, e1, -⟩ := idx_facts6 t
  funext y
  unfold blockAt6 inTile6
  rw [View.read_apply]
  show V c (Pipeline.arrRef spec6 0) _ = V c (Pipeline.arrRef spec6 0) _
  congr 1
  funext a
  apply Fin.ext
  match a with
  | ⟨0, _⟩ => show win6_0.index t (0 : Fin 2) * 1000 + 1 * (y 0).val = 1000 * t.val + (y 0).val; rw [e0]; omega
  | ⟨1, _⟩ => show win6_0.index t (1 : Fin 2) * 512 + 1 * (y 1).val = (y 1).val; rw [e1]; omega

/-- The whole activation: entry (r, j) is the perceptron payload of input tile r / 1000 and of the weights, at (r % 1000, j). -/
def mlpWhole6 (c : Dev nD) : S10000x512.Idx → Elt F .f32 := fun i =>
  k6_pay5 (inTile6 (V c (Pipeline.arrRef spec6 0) : S10000x512.Idx → Elt F .f32) ((i 0).val / 1000) (by have := idx2_lt0 i; omega)) (V c (Pipeline.arrRef spec6 1) : S512x512.Idx → Elt F .f32) (V c (Pipeline.arrRef spec6 2) : S1x512.Idx → Elt F .f32) (V c (Pipeline.arrRef spec6 3) : S512x512.Idx → Elt F .f32) (V c (Pipeline.arrRef spec6 4) : S1x512.Idx → Elt F .f32) (ix2 ⟨(i 0).val % 1000, Nat.mod_lt _ (by decide)⟩ (i 1))

/-- The whole activation at an index whose row is 1000 t + p. -/
theorem mlpWhole6_apply (c : Dev nD) (i : S10000x512.Idx) (t : Nat) (ht : t < 10) (p : Fin 1000) (j : Fin 512)
    (h0 : (i 0).val = 1000 * t + p.val) (h1 : (i 1).val = j.val) :
    mlpWhole6 V c i = k6_pay5 (inTile6 (V c (Pipeline.arrRef spec6 0) : S10000x512.Idx → Elt F .f32) t ht) (V c (Pipeline.arrRef spec6 1) : S512x512.Idx → Elt F .f32) (V c (Pipeline.arrRef spec6 2) : S1x512.Idx → Elt F .f32) (V c (Pipeline.arrRef spec6 3) : S512x512.Idx → Elt F .f32) (V c (Pipeline.arrRef spec6 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k6_pay5 (inTile6 (V c (Pipeline.arrRef spec6 0) : S10000x512.Idx → Elt F .f32) t' ht') (V c (Pipeline.arrRef spec6 1) : S512x512.Idx → Elt F .f32) (V c (Pipeline.arrRef spec6 2) : S1x512.Idx → Elt F .f32) (V c (Pipeline.arrRef spec6 3) : S512x512.Idx → Elt F .f32) (V c (Pipeline.arrRef spec6 4) : S1x512.Idx → Elt F .f32) (ix2 p' j')
      = k6_pay5 (inTile6 (V c (Pipeline.arrRef spec6 0) : S10000x512.Idx → Elt F .f32) t ht) (V c (Pipeline.arrRef spec6 1) : S512x512.Idx → Elt F .f32) (V c (Pipeline.arrRef spec6 2) : S1x512.Idx → Elt F .f32) (V c (Pipeline.arrRef spec6 3) : S512x512.Idx → Elt F .f32) (V c (Pipeline.arrRef spec6 4) : S1x512.Idx → Elt F .f32) (ix2 p j) := by
    intro t' ht' p' j' e e' e''; subst e e' e''; rfl
  exact key _ _ _ _ e1 (Fin.ext e2) (Fin.ext h1)

/-- What point t writes back into the activation is block t of the whole activation. -/
theorem flushed6_5_eq (c : Dev nD) (t : Fin cfg6.N) :
    (dat6 V c).flushed 5 t = ((cfg6.win 5).blk t).view.read (Elt F) (mlpWhole6 V c) := by
  have ht : t.val < 10 := Nat.lt_of_lt_of_eq t.isLt N_6
  obtain ⟨-, -, e0, e1, -⟩ := idx_facts6 t
  show (cfg6.win 5).cut (grid6.coords t) ((dat6 V c).after 5 t) = _
  rw [dat6_after5, tileAt6, wholeBlock6_1, wholeBlock6_2, wholeBlock6_3, wholeBlock6_4, inBlock6 V c t ht]
  funext y
  obtain ⟨p, j, rfl⟩ : ∃ (p : Fin 1000) (j : Fin 512), y = ix2 p j := ⟨y 0, y 1, eq_ix2 y⟩
  rw [View.read_apply]
  refine (mlpWhole6_apply V c _ t.val ht p j ?_ ?_).symm
  · show win6_5.index t (0 : Fin 2) * 1000 + 1 * p.val = _; rw [e0]; omega
  · show win6_5.index t (1 : Fin 2) * 512 + 1 * j.val = _; rw [e1]; omega

/-- An index of the activation is in point t's block iff each coordinate is in the block's range on its axis. -/
theorem mem_blk6_5 (t : Fin cfg6.N) (i : S10000x512.Idx) :
    i ∈ ((cfg6.win 5).blk t).view.set ↔ ∀ a : Fin 2, win6_5.index t a * S1000x512.size a ≤ (i a).val ∧ (i a).val < win6_5.index t a * S1000x512.size a + S1000x512.size a := by
  show i ∈ ((View.whole main_v108_0).slice (win6_5.rect t)).set ↔ _
  rw [View.set_slice_whole, Rect.mem_set_unit]
  exact Iff.rfl

/-- Every row lies in the block of the point that is its number over 1000. -/
theorem cover6_5 (i : S10000x512.Idx) : ∃ t : Fin cfg6.N, (cfg6.win 5).flush t = true ∧ i ∈ ((cfg6.win 5).blk t).view.set := by
  have hi0 : (i 0).val < 10000 := idx2_lt0 i
  have hi1 : (i 1).val < 512 := idx2_lt1 i
  let t : Fin cfg6.N := ⟨(i 0).val / 1000, by rw [show cfg6.N = 10 from N_6]; omega⟩
  obtain ⟨-, -, e0, e1, -⟩ := idx_facts6 t
  have e0' : win6_5.index t (0 : Fin 2) = (i 0).val / 1000 := e0
  refine ⟨t, flush6_5 t, ?_⟩
  rw [mem_blk6_5]
  intro a
  match a with
  | ⟨0, _⟩ => show win6_5.index t (0 : Fin 2) * 1000 ≤ (i 0).val ∧ (i 0).val < win6_5.index t (0 : Fin 2) * 1000 + 1000; omega
  | ⟨1, _⟩ => show win6_5.index t (1 : Fin 2) * 512 ≤ (i 1).val ∧ (i 1).val < win6_5.index t (1 : Fin 2) * 512 + 512; omega

/-- The activation array after the region is the whole activation. -/
theorem final6_5 (c : Dev nD) : (dat6 V c).arrAt 5 cfg6.N = mlpWhole6 V c :=
  (dat6 V c).arrAt_eq_of_cover 5 (mlpWhole6 V c) (fun t _ => flushed6_5_eq V c t) cover6_5

/-- Entry (r, j) of the activation after the region: the perceptron payload of input tile r / 1000 at (r % 1000, j). -/
theorem mlpArray6 (c : Dev nD) (r : Fin 10000) (j : Fin 512) :
    ((dat6 V c).arrAt 5 cfg6.N : S10000x512.Idx → Elt F .f32) (ix2 r j)
      = k6_pay5 (inTile6 (V c (Pipeline.arrRef spec6 0) : S10000x512.Idx → Elt F .f32) (r.val / 1000) (by have := r.isLt; omega)) (V c (Pipeline.arrRef spec6 1) : S512x512.Idx → Elt F .f32) (V c (Pipeline.arrRef spec6 2) : S1x512.Idx → Elt F .f32) (V c (Pipeline.arrRef spec6 3) : S512x512.Idx → Elt F .f32) (V c (Pipeline.arrRef spec6 4) : S1x512.Idx → Elt F .f32) (ix2 ⟨r.val % 1000, Nat.mod_lt _ (by decide)⟩ j) := by
  rw [final6_5]
  exact mlpWhole6_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the activation is the specification's perceptron of the whole input. -/
theorem mlpArray6_spec (c : Dev nD) (r : Fin 10000) (j : Fin 512) :
    ((dat6 V c).arrAt 5 cfg6.N : S10000x512.Idx → EReal) (ix2 r j)
      = Cert.Gin.mlp (fun r l => (V c (Pipeline.arrRef spec6 0) : S10000x512.Idx → EReal) (ix2 r l)) (fun l k => (V c (Pipeline.arrRef spec6 1) : S512x512.Idx → EReal) (ix2 l k))
          (fun k => (V c (Pipeline.arrRef spec6 2) : S1x512.Idx → EReal) (ix2 0 k)) (fun k j => (V c (Pipeline.arrRef spec6 3) : S512x512.Idx → EReal) (ix2 k j))
          (fun j => (V c (Pipeline.arrRef spec6 4) : S1x512.Idx → EReal) (ix2 0 j)) r j := by
  refine (mlpArray6 V c r j).trans ?_
  refine (Cert.Gin.Ker.k6_pay5_apply _ _ _ _ _ _ j).trans ?_
  refine Cert.Gin.mlp_row _ _ _ _ _ _ _ r j fun l => ?_
  have e : (⟨1000 * (r.val / 1000) + r.val % 1000, by have := r.isLt; omega⟩ : Fin 10000) = r :=
    Fin.ext (by show 1000 * (r.val / 1000) + r.val % 1000 = r.val; omega)
  exact congrArg (fun r' => (V c (Pipeline.arrRef spec6 0) : S10000x512.Idx → EReal) (ix2 r' l)) e

end

end Cert.KernelIdeal.Arr

end
-- ==== Proof.KA.MlpArray8.lean ====
/-
  The activation array a perceptron-with-statistics region leaves, entry by entry. The region walks ten row tiles of
  1000. Whatever the tile's position (first, middle, last), the body stores the perceptron of the tile's input block and
  of the whole weights and biases into the output's block; what differs between the three cases is only what happens
  to the two statistics rows. First, for each case and each buffer the body writes, what the buffer ends holding as a
  term of the input blocks and of the two carried rows. Then: a weight's window has a single block, the whole array,
  at every tile; the input's and the output's block t are rows 1000 t .. 1000 t + 999; so the ten blocks written back
  are the ten row blocks of ONE whole-array function, they tile the array, and entry (r, j) of the activation is the
  perceptron of input tile r / 1000 read at (r % 1000, j) — at the ideal instance, the specification's perceptron of
  the whole input at (r, j), since it reads only row r.
-/
import proofs.«100381_j2018634629568_1_alg».proof.Proof.KI.MlpDat8
import proofs.«100381_j2018634629568_1_alg».proof.Proof.KV.Mlp
import proofs.«100381_j2018634629568_1_alg».proof.Proof.KA.SpecRows
import Idealize.ShloMosaic.Lib.Pipeline.Value
import Idealize.ShloMosaic.Lib.ValueIdx
import Idealize.ShloMosaic.Lib.Tactic

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

section
variable {F : FTy → Type} [FloatOps F]

theorem zeroOff8 : (![0, 0] : Fin 2 → Nat) = fun _ => 0 := funext fun a => by fin_cases a <;> rfl

/-! ## What each case leaves in each buffer it writes -/

theorem tileFirst8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32) :
    tileFirst8 c i arg1 harg1 arg2 harg2 arg3 harg3 arg4 harg4 arg5 harg5 arg6 harg6 arg7 harg7 arg8 harg8 arg9 harg9 arg10 harg10 h1 h2 x0 x1 x2 x3 x4 = k8_pay5 x0 x1 x2 x3 x4 := by
  unfold tileFirst8
  rw [View.read_writes_eq_canon _ _ _ (tileFirst8_cover c i arg1 harg1 arg2 harg2 arg3 harg3 arg4 harg4 arg5 harg5 arg6 harg6 arg7 harg7 arg8 harg8 arg9 harg9 arg10 harg10 h1 h2 x0 x1 x2 x3 x4)]
  unfold runFirst8
  dsimp only
  try sl_unfold_words
  rw [View.canon_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem sumFirst8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32) :
    sumFirst8 c i arg1 harg1 arg2 harg2 arg3 harg3 arg4 harg4 arg5 harg5 arg6 harg6 arg7 harg7 arg8 harg8 arg9 harg9 arg10 harg10 h1 h2 x0 x1 x2 x3 x4 = k8_pay1 (k8_pay6 x0 x1 x2 x3 x4 k8_pay3) := by
  unfold sumFirst8
  rw [View.read_writes_eq_canon _ _ _ (sumFirst8_cover c i arg1 harg1 arg2 harg2 arg3 harg3 arg4 harg4 arg5 harg5 arg6 harg6 arg7 harg7 arg8 harg8 arg9 harg9 arg10 harg10 h1 h2 x0 x1 x2 x3 x4)]
  unfold runFirst8
  dsimp only
  try sl_unfold_words
  rw [View.canon_cons_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem sqFirst8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : firstCond8 i) (h2 : ¬lastCond8 i) (x0 : Vec F S1000x512 .f32) (x1 : Vec F S512x512 .f32) (x2 : Vec F S1x512 .f32) (x3 : Vec F S512x512 .f32) (x4 : Vec F S1x512 .f32) :
    sqFirst8 c i arg1 harg1 arg2 harg2 arg3 harg3 arg4 harg4 arg5 harg5 arg6 harg6 arg7 harg7 arg8 harg8 arg9 harg9 arg10 harg10 h1 h2 x0 x1 x2 x3 x4 = k8_pay2 (k8_pay5 x0 x1 x2 x3 x4) k8_pay4 := by
  unfold sqFirst8
  rw [View.read_writes_eq_canon _ _ _ (sqFirst8_cover c i arg1 harg1 arg2 harg2 arg3 harg3 arg4 harg4 arg5 harg5 arg6 harg6 arg7 harg7 arg8 harg8 arg9 harg9 arg10 harg10 h1 h2 x0 x1 x2 x3 x4)]
  unfold runFirst8
  dsimp only
  try sl_unfold_words
  rw [View.canon_cons_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem tileMid8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) :
    tileMid8 c i arg1 harg1 arg2 harg2 arg3 harg3 arg4 harg4 arg5 harg5 arg6 harg6 arg7 harg7 arg8 harg8 arg9 harg9 arg10 harg10 h1 h2 x0 x1 x2 x3 x4 s q = k8_pay5 x0 x1 x2 x3 x4 := by
  unfold tileMid8
  rw [View.read_writes_eq_canon _ _ _ (tileMid8_cover c i arg1 harg1 arg2 harg2 arg3 harg3 arg4 harg4 arg5 harg5 arg6 harg6 arg7 harg7 arg8 harg8 arg9 harg9 arg10 harg10 h1 h2 x0 x1 x2 x3 x4 s q)]
  unfold runMid8
  dsimp only
  try sl_unfold_words
  rw [View.canon_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem sumMid8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) :
    sumMid8 c i arg1 harg1 arg2 harg2 arg3 harg3 arg4 harg4 arg5 harg5 arg6 harg6 arg7 harg7 arg8 harg8 arg9 harg9 arg10 harg10 h1 h2 x0 x1 x2 x3 x4 s q = k8_pay1 (k8_pay6 x0 x1 x2 x3 x4 s) := by
  unfold sumMid8
  rw [View.read_writes_eq_canon _ _ _ (sumMid8_cover c i arg1 harg1 arg2 harg2 arg3 harg3 arg4 harg4 arg5 harg5 arg6 harg6 arg7 harg7 arg8 harg8 arg9 harg9 arg10 harg10 h1 h2 x0 x1 x2 x3 x4 s q)]
  unfold runMid8
  dsimp only
  try sl_unfold_words
  rw [View.canon_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem sqMid8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : ¬lastCond8 i) (x0 : Vec F S1000x512 .f32) (x1 : Vec F S512x512 .f32) (x2 : Vec F S1x512 .f32) (x3 : Vec F S512x512 .f32) (x4 : Vec F S1x512 .f32) (s q : Vec F S1x512 .f32) :
    sqMid8 c i arg1 harg1 arg2 harg2 arg3 harg3 arg4 harg4 arg5 harg5 arg6 harg6 arg7 harg7 arg8 harg8 arg9 harg9 arg10 harg10 h1 h2 x0 x1 x2 x3 x4 s q = k8_pay2 (k8_pay5 x0 x1 x2 x3 x4) q := by
  unfold sqMid8
  rw [View.read_writes_eq_canon _ _ _ (sqMid8_cover c i arg1 harg1 arg2 harg2 arg3 harg3 arg4 harg4 arg5 harg5 arg6 harg6 arg7 harg7 arg8 harg8 arg9 harg9 arg10 harg10 h1 h2 x0 x1 x2 x3 x4 s q)]
  unfold runMid8
  dsimp only
  try sl_unfold_words
  rw [View.canon_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem tileLast8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) :
    tileLast8 c i arg1 harg1 arg2 harg2 arg3 harg3 arg4 harg4 arg5 harg5 arg6 harg6 arg7 harg7 arg8 harg8 arg9 harg9 arg10 harg10 h1 h2 x0 x1 x2 x3 x4 s q = k8_pay5 x0 x1 x2 x3 x4 := by
  unfold tileLast8
  rw [View.read_writes_eq_canon _ _ _ (tileLast8_cover c i arg1 harg1 arg2 harg2 arg3 harg3 arg4 harg4 arg5 harg5 arg6 harg6 arg7 harg7 arg8 harg8 arg9 harg9 arg10 harg10 h1 h2 x0 x1 x2 x3 x4 s q)]
  unfold runLast8
  dsimp only
  try sl_unfold_words
  rw [View.canon_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem sumLast8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) :
    sumLast8 c i arg1 harg1 arg2 harg2 arg3 harg3 arg4 harg4 arg5 harg5 arg6 harg6 arg7 harg7 arg8 harg8 arg9 harg9 arg10 harg10 h1 h2 x0 x1 x2 x3 x4 s q = k8_pay1 (k8_pay6 x0 x1 x2 x3 x4 s) := by
  unfold sumLast8
  rw [View.read_writes_eq_canon _ _ _ (sumLast8_cover c i arg1 harg1 arg2 harg2 arg3 harg3 arg4 harg4 arg5 harg5 arg6 harg6 arg7 harg7 arg8 harg8 arg9 harg9 arg10 harg10 h1 h2 x0 x1 x2 x3 x4 s q)]
  unfold runLast8
  dsimp only
  try sl_unfold_words
  rw [View.canon_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem sqLast8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) :
    sqLast8 c i arg1 harg1 arg2 harg2 arg3 harg3 arg4 harg4 arg5 harg5 arg6 harg6 arg7 harg7 arg8 harg8 arg9 harg9 arg10 harg10 h1 h2 x0 x1 x2 x3 x4 s q = k8_pay2 (k8_pay5 x0 x1 x2 x3 x4) q := by
  unfold sqLast8
  rw [View.read_writes_eq_canon _ _ _ (sqLast8_cover c i arg1 harg1 arg2 harg2 arg3 harg3 arg4 harg4 arg5 harg5 arg6 harg6 arg7 harg7 arg8 harg8 arg9 harg9 arg10 harg10 h1 h2 x0 x1 x2 x3 x4 s q)]
  unfold runLast8
  dsimp only
  try sl_unfold_words
  rw [View.canon_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem outSumLast8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) :
    outSumLast8 c i arg1 harg1 arg2 harg2 arg3 harg3 arg4 harg4 arg5 harg5 arg6 harg6 arg7 harg7 arg8 harg8 arg9 harg9 arg10 harg10 h1 h2 x0 x1 x2 x3 x4 s q = k8_pay1 (k8_pay6 x0 x1 x2 x3 x4 s) := by
  unfold outSumLast8
  rw [View.read_writes_eq_canon _ _ _ (outSumLast8_cover c i arg1 harg1 arg2 harg2 arg3 harg3 arg4 harg4 arg5 harg5 arg6 harg6 arg7 harg7 arg8 harg8 arg9 harg9 arg10 harg10 h1 h2 x0 x1 x2 x3 x4 s q)]
  unfold runLast8
  dsimp only
  try sl_unfold_words
  rw [View.canon_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

theorem outSqLast8_eq (c : Dev nD) (i : grid8.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1000x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S1x512 .f32) (harg10 : arg10.IsWhole)
    (h1 : ¬firstCond8 i) (h2 : lastCond8 i) (x0 : Vec F S1000x512 .f32) (x1 : Vec F S512x512 .f32) (x2 : Vec F S1x512 .f32) (x3 : Vec F S512x512 .f32) (x4 : Vec F S1x512 .f32) (s q : Vec F S1x512 .f32) :
    outSqLast8 c i arg1 harg1 arg2 harg2 arg3 harg3 arg4 harg4 arg5 harg5 arg6 harg6 arg7 harg7 arg8 harg8 arg9 harg9 arg10 harg10 h1 h2 x0 x1 x2 x3 x4 s q = k8_pay2 (k8_pay5 x0 x1 x2 x3 x4) q := by
  unfold outSqLast8
  rw [View.read_writes_eq_canon _ _ _ (outSqLast8_cover c i arg1 harg1 arg2 harg2 arg3 harg3 arg4 harg4 arg5 harg5 arg6 harg6 arg7 harg7 arg8 harg8 arg9 harg9 arg10 harg10 h1 h2 x0 x1 x2 x3 x4 s q)]
  unfold runLast8
  dsimp only
  try sl_unfold_words
  rw [View.canon_unit_zero zeroOff8]
  simp only [View.readAt_eq_ld, harg1.read_unread, harg2.read_unread, harg3.read_unread, harg4.read_unread, harg5.read_unread,
    harg9.read_unread, harg10.read_unread,
    View.ld_unit_zero (S := S1000x512) zeroOff8, View.ld_unit_zero (S := S512x512) zeroOff8, View.ld_unit_zero (S := S1x512) zeroOff8,
    View.ld_unit_zero (S := S512x512) zeroOff8, View.readCov_unit_zero (S := S1x512) _ zeroOff8]

end

section
variable {F : FTy → Type} [FloatOps F]
variable (V : (c : Dev nD) → (b : Ref sig .tc) → Buf (Elt F) ((c : Thread nD τ).loc b))

set_option maxHeartbeats 1000000 in
/-- At every point the output tile the body leaves is the perceptron payload of the five input blocks. -/
theorem tileAt8 (c : Dev nD) (t : Fin cfg8.N) :
    (stateAt8 V c t.val t.isLt).1 = k8_pay5 (blockAt8 V c 0 t) (blockAt8 V c 1 t) (blockAt8 V c 2 t) (blockAt8 V c 3 t) (blockAt8 V c 4 t) := by
  by_cases hf : t.val % 10 = 0
  · have hl : ¬t.val % 10 = 9 := by omega
    rw [stateAt8_first V c t hf hl]
    dsimp only
    exact tileFirst8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) ((firstCond8_iff t).mpr hf) (fun h => hl ((lastCond8_iff t).mp h)) (blockAt8 V c 0 t) (blockAt8 V c 1 t) (blockAt8 V c 2 t) (blockAt8 V c 3 t) (blockAt8 V c 4 t)
  · by_cases hl : t.val % 10 = 9
    · rw [stateAt8_last V c t hf hl]
      dsimp only
      exact tileLast8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2
    · rw [stateAt8_mid V c t hf hl]
      dsimp only
      exact tileMid8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) (fun h => hl ((lastCond8_iff t).mp h)) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2

/-- The index maps over the grid: the input's and the output tile's block at point t is block (t, 0); the weights, the
    biases and the two statistics rows stay at block (0, 0). -/
theorem idx_facts8 : ∀ t : Fin cfg8.N, win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_6.index t (0 : Fin 2) = 0 ∧ win8_6.index t (1 : Fin 2) = 0
    ∧ win8_7.index t (0 : Fin 2) = 0 ∧ win8_7.index t (1 : Fin 2) = 0 :=
  (by decide +kernel : ∀ t : Fin grid8.N, _)

/-! A weight's or a bias's window has one block, the whole array: at every point its block is the array itself. -/

theorem wholeBlock8_1 (c : Dev nD) (t : Fin cfg8.N) :
    (blockAt8 V c 1 t : Vec F S512x512 .f32) = (V c (Pipeline.arrRef spec8 1) : S512x512.Idx → Elt F .f32) := by
  have e0 : win8_1.index t (0 : Fin 2) = 0 := by have := idx_facts8 t; simp only [this]
  have e1 : win8_1.index t (1 : Fin 2) = 0 := by have := idx_facts8 t; simp only [this]
  funext y
  unfold blockAt8
  rw [View.read_apply]
  show V c (Pipeline.arrRef spec8 1) _ = V c (Pipeline.arrRef spec8 1) _
  congr 1
  funext a
  apply Fin.ext
  match a with
  | ⟨0, _⟩ => show win8_1.index t (0 : Fin 2) * 512 + 1 * (y 0).val = (y 0).val; rw [e0]; omega
  | ⟨1, _⟩ => show win8_1.index t (1 : Fin 2) * 512 + 1 * (y 1).val = (y 1).val; rw [e1]; omega

theorem wholeBlock8_2 (c : Dev nD) (t : Fin cfg8.N) :
    (blockAt8 V c 2 t : Vec F S1x512 .f32) = (V c (Pipeline.arrRef spec8 2) : S1x512.Idx → Elt F .f32) := by
  have e0 : win8_2.index t (0 : Fin 2) = 0 := by have := idx_facts8 t; simp only [this]
  have e1 : win8_2.index t (1 : Fin 2) = 0 := by have := idx_facts8 t; simp only [this]
  funext y
  unfold blockAt8
  rw [View.read_apply]
  show V c (Pipeline.arrRef spec8 2) _ = V c (Pipeline.arrRef spec8 2) _
  congr 1
  funext a
  apply Fin.ext
  match a with
  | ⟨0, _⟩ => show win8_2.index t (0 : Fin 2) * 1 + 1 * (y 0).val = (y 0).val; rw [e0]; omega
  | ⟨1, _⟩ => show win8_2.index t (1 : Fin 2) * 512 + 1 * (y 1).val = (y 1).val; rw [e1]; omega

theorem wholeBlock8_3 (c : Dev nD) (t : Fin cfg8.N) :
    (blockAt8 V c 3 t : Vec F S512x512 .f32) = (V c (Pipeline.arrRef spec8 3) : S512x512.Idx → Elt F .f32) := by
  have e0 : win8_3.index t (0 : Fin 2) = 0 := by have := idx_facts8 t; simp only [this]
  have e1 : win8_3.index t (1 : Fin 2) = 0 := by have := idx_facts8 t; simp only [this]
  funext y
  unfold blockAt8
  rw [View.read_apply]
  show V c (Pipeline.arrRef spec8 3) _ = V c (Pipeline.arrRef spec8 3) _
  congr 1
  funext a
  apply Fin.ext
  match a with
  | ⟨0, _⟩ => show win8_3.index t (0 : Fin 2) * 512 + 1 * (y 0).val = (y 0).val; rw [e0]; omega
  | ⟨1, _⟩ => show win8_3.index t (1 : Fin 2) * 512 + 1 * (y 1).val = (y 1).val; rw [e1]; omega

theorem wholeBlock8_4 (c : Dev nD) (t : Fin cfg8.N) :
    (blockAt8 V c 4 t : Vec F S1x512 .f32) = (V c (Pipeline.arrRef spec8 4) : S1x512.Idx → Elt F .f32) := by
  have e0 : win8_4.index t (0 : Fin 2) = 0 := by have := idx_facts8 t; simp only [this]
  have e1 : win8_4.index t (1 : Fin 2) = 0 := by have := idx_facts8 t; simp only [this]
  funext y
  unfold blockAt8
  rw [View.read_apply]
  show V c (Pipeline.arrRef spec8 4) _ = V c (Pipeline.arrRef spec8 4) _
  congr 1
  funext a
  apply Fin.ext
  match a with
  | ⟨0, _⟩ => show win8_4.index t (0 : Fin 2) * 1 + 1 * (y 0).val = (y 0).val; rw [e0]; omega
  | ⟨1, _⟩ => show win8_4.index t (1 : Fin 2) * 512 + 1 * (y 1).val = (y 1).val; rw [e1]; omega

/-- Rows 1000 t … 1000 t + 999 of the [10000,512] input, as a [1000,512] tile. -/
def inTile8 (X : S10000x512.Idx → Elt F .f32) (t : Nat) (ht : t < 10) : Vec F S1000x512 .f32 :=
  fun y => X (ix2 ⟨1000 * t + (y 0).val, by have := idx2_lt0 y; omega⟩ (y 1))

/-- The input's block at point t is rows 1000 t … 1000 t + 999 of the array. -/
theorem inBlock8 (c : Dev nD) (t : Fin cfg8.N) (ht : t.val < 10) :
    (blockAt8 V c 0 t : Vec F S1000x512 .f32) = inTile8 (V c (Pipeline.arrRef spec8 0) : S10000x512.Idx → Elt F .f32) t.val ht := by
  obtain ⟨e0, e1, -⟩ := idx_facts8 t
  funext y
  unfold blockAt8 inTile8
  rw [View.read_apply]
  show V c (Pipeline.arrRef spec8 0) _ = V c (Pipeline.arrRef spec8 0) _
  congr 1
  funext a
  apply Fin.ext
  match a with
  | ⟨0, _⟩ => show win8_0.index t (0 : Fin 2) * 1000 + 1 * (y 0).val = 1000 * t.val + (y 0).val; rw [e0]; omega
  | ⟨1, _⟩ => show win8_0.index t (1 : Fin 2) * 512 + 1 * (y 1).val = (y 1).val; rw [e1]; omega

/-- The whole activation: entry (r, j) is the perceptron payload of input tile r / 1000 and of the weights, at (r % 1000, j). -/
def mlpWhole8 (c : Dev nD) : S10000x512.Idx → Elt F .f32 := fun i =>
  k8_pay5 (inTile8 (V c (Pipeline.arrRef spec8 0) : S10000x512.Idx → Elt F .f32) ((i 0).val / 1000) (by have := idx2_lt0 i; omega)) (V c (Pipeline.arrRef spec8 1) : S512x512.Idx → Elt F .f32) (V c (Pipeline.arrRef spec8 2) : S1x512.Idx → Elt F .f32) (V c (Pipeline.arrRef spec8 3) : S512x512.Idx → Elt F .f32) (V c (Pipeline.arrRef spec8 4) : S1x512.Idx → Elt F .f32) (ix2 ⟨(i 0).val % 1000, Nat.mod_lt _ (by decide)⟩ (i 1))

/-- The whole activation at an index whose row is 1000 t + p. -/
theorem mlpWhole8_apply (c : Dev nD) (i : S10000x512.Idx) (t : Nat) (ht : t < 10) (p : Fin 1000) (j : Fin 512)
    (h0 : (i 0).val = 1000 * t + p.val) (h1 : (i 1).val = j.val) :
    mlpWhole8 V c i = k8_pay5 (inTile8 (V c (Pipeline.arrRef spec8 0) : S10000x512.Idx → Elt F .f32) t ht) (V c (Pipeline.arrRef spec8 1) : S512x512.Idx → Elt F .f32) (V c (Pipeline.arrRef spec8 2) : S1x512.Idx → Elt F .f32) (V c (Pipeline.arrRef spec8 3) : S512x512.Idx → Elt F .f32) (V c (Pipeline.arrRef spec8 4) : S1x512.Idx → Elt F .f32) (ix2 p j) := by
  have e1 : (i 0).val / 1000 = t := by omega
  have e2 : (i 0).val % 1000 = p.val := by omega
  have key : ∀ (t' : Nat) (ht' : t' < 10) (p' : Fin 1000) (j' : Fin 512), t' = t → p' = p → j' = j →
      k8_pay5 (inTile8 (V c (Pipeline.arrRef spec8 0) : S10000x512.Idx → Elt F .f32) t' ht') (V c (Pipeline.arrRef spec8 1) : S512x512.Idx → Elt F .f32) (V c (Pipeline.arrRef spec8 2) : S1x512.Idx → Elt F .f32) (V c (Pipeline.arrRef spec8 3) : S512x512.Idx → Elt F .f32) (V c (Pipeline.arrRef spec8 4) : S1x512.Idx → Elt F .f32) (ix2 p' j')
      = k8_pay5 (inTile8 (V c (Pipeline.arrRef spec8 0) : S10000x512.Idx → Elt F .f32) t ht) (V c (Pipeline.arrRef spec8 1) : S512x512.Idx → Elt F .f32) (V c (Pipeline.arrRef spec8 2) : S1x512.Idx → Elt F .f32) (V c (Pipeline.arrRef spec8 3) : S512x512.Idx → Elt F .f32) (V c (Pipeline.arrRef spec8 4) : S1x512.Idx → Elt F .f32) (ix2 p j) := by
    intro t' ht' p' j' e e' e''; subst e e' e''; rfl
  exact key _ _ _ _ e1 (Fin.ext e2) (Fin.ext h1)

/-- What point t writes back into the activation is block t of the whole activation. -/
theorem flushed8_5_eq (c : Dev nD) (t : Fin cfg8.N) :
    (dat8 V c).flushed 5 t = ((cfg8.win 5).blk t).view.read (Elt F) (mlpWhole8 V c) := by
  have ht : t.val < 10 := Nat.lt_of_lt_of_eq t.isLt N_8
  obtain ⟨-, -, e0, e1, -⟩ := idx_facts8 t
  show (cfg8.win 5).cut (grid8.coords t) ((dat8 V c).after 5 t) = _
  rw [dat8_after5, tileAt8, wholeBlock8_1, wholeBlock8_2, wholeBlock8_3, wholeBlock8_4, inBlock8 V c t ht]
  funext y
  obtain ⟨p, j, rfl⟩ : ∃ (p : Fin 1000) (j : Fin 512), y = ix2 p j := ⟨y 0, y 1, eq_ix2 y⟩
  rw [View.read_apply]
  refine (mlpWhole8_apply V c _ t.val ht p j ?_ ?_).symm
  · show win8_5.index t (0 : Fin 2) * 1000 + 1 * p.val = _; rw [e0]; omega
  · show win8_5.index t (1 : Fin 2) * 512 + 1 * j.val = _; rw [e1]; omega

/-- An index of the activation is in point t's block iff each coordinate is in the block's range on its axis. -/
theorem mem_blk8_5 (t : Fin cfg8.N) (i : S10000x512.Idx) :
    i ∈ ((cfg8.win 5).blk t).view.set ↔ ∀ a : Fin 2, win8_5.index t a * S1000x512.size a ≤ (i a).val ∧ (i a).val < win8_5.index t a * S1000x512.size a + S1000x512.size a := by
  show i ∈ ((View.whole main_v137_0).slice (win8_5.rect t)).set ↔ _
  rw [View.set_slice_whole, Rect.mem_set_unit]
  exact Iff.rfl

/-- Every row lies in the block of the point that is its number over 1000. -/
theorem cover8_5 (i : S10000x512.Idx) : ∃ t : Fin cfg8.N, (cfg8.win 5).flush t = true ∧ i ∈ ((cfg8.win 5).blk t).view.set := by
  have hi0 : (i 0).val < 10000 := idx2_lt0 i
  have hi1 : (i 1).val < 512 := idx2_lt1 i
  let t : Fin cfg8.N := ⟨(i 0).val / 1000, by rw [show cfg8.N = 10 from N_8]; omega⟩
  obtain ⟨-, -, e0, e1, -⟩ := idx_facts8 t
  have e0' : win8_5.index t (0 : Fin 2) = (i 0).val / 1000 := e0
  refine ⟨t, flush8_5 t, ?_⟩
  rw [mem_blk8_5]
  intro a
  match a with
  | ⟨0, _⟩ => show win8_5.index t (0 : Fin 2) * 1000 ≤ (i 0).val ∧ (i 0).val < win8_5.index t (0 : Fin 2) * 1000 + 1000; omega
  | ⟨1, _⟩ => show win8_5.index t (1 : Fin 2) * 512 ≤ (i 1).val ∧ (i 1).val < win8_5.index t (1 : Fin 2) * 512 + 512; omega

/-- The activation array after the region is the whole activation. -/
theorem final8_5 (c : Dev nD) : (dat8 V c).arrAt 5 cfg8.N = mlpWhole8 V c :=
  (dat8 V c).arrAt_eq_of_cover 5 (mlpWhole8 V c) (fun t _ => flushed8_5_eq V c t) cover8_5

/-- Entry (r, j) of the activation after the region: the perceptron payload of input tile r / 1000 at (r % 1000, j). -/
theorem mlpArray8 (c : Dev nD) (r : Fin 10000) (j : Fin 512) :
    ((dat8 V c).arrAt 5 cfg8.N : S10000x512.Idx → Elt F .f32) (ix2 r j)
      = k8_pay5 (inTile8 (V c (Pipeline.arrRef spec8 0) : S10000x512.Idx → Elt F .f32) (r.val / 1000) (by have := r.isLt; omega)) (V c (Pipeline.arrRef spec8 1) : S512x512.Idx → Elt F .f32) (V c (Pipeline.arrRef spec8 2) : S1x512.Idx → Elt F .f32) (V c (Pipeline.arrRef spec8 3) : S512x512.Idx → Elt F .f32) (V c (Pipeline.arrRef spec8 4) : S1x512.Idx → Elt F .f32) (ix2 ⟨r.val % 1000, Nat.mod_lt _ (by decide)⟩ j) := by
  rw [final8_5]
  exact mlpWhole8_apply V c (ix2 r j) (r.val / 1000) _ ⟨r.val % 1000, Nat.mod_lt _ (by decide)⟩ j
    (by show r.val = 1000 * (r.val / 1000) + r.val % 1000; omega) rfl

end

section
variable (V : (c : Dev nD) → (b : Ref sig .tc) → Buf (Elt Ideal) ((c : Thread nD τ).loc b))

/-- At the ideal instance: entry (r, j) of the activation is the specification's perceptron of the whole input. -/
theorem mlpArray8_spec (c : Dev nD) (r : Fin 10000) (j : Fin 512) :
    ((dat8 V c).arrAt 5 cfg8.N : S10000x512.Idx → EReal) (ix2 r j)
      = Cert.Gin.mlp (fun r l => (V c (Pipeline.arrRef spec8 0) : S10000x512.Idx → EReal) (ix2 r l)) (fun l k => (V c (Pipeline.arrRef spec8 1) : S512x512.Idx → EReal) (ix2 l k))
          (fun k => (V c (Pipeline.arrRef spec8 2) : S1x512.Idx → EReal) (ix2 0 k)) (fun k j => (V c (Pipeline.arrRef spec8 3) : S512x512.Idx → EReal) (ix2 k j))
          (fun j => (V c (Pipeline.arrRef spec8 4) : S1x512.Idx → EReal) (ix2 0 j)) r j := by
  refine (mlpArray8 V c r j).trans ?_
  refine (Cert.Gin.Ker.k8_pay5_apply _ _ _ _ _ _ j).trans ?_
  refine Cert.Gin.mlp_row _ _ _ _ _ _ _ r j fun l => ?_
  have e : (⟨1000 * (r.val / 1000) + r.val % 1000, by have := r.isLt; omega⟩ : Fin 10000) = r :=
    Fin.ext (by show 1000 * (r.val / 1000) + r.val % 1000 = r.val; omega)
  exact congrArg (fun r' => (V c (Pipeline.arrRef spec8 0) : S10000x512.Idx → EReal) (ix2 r' l)) e

end

end Cert.KernelIdeal.Arr

end
-- ==== Proof.KV.Stats.lean ====
/-
  The accumulator payloads of the perceptron kernels read at (0, j): the two initial values are 0; the running
  column sum is the carried row plus the sum over the tile's 1000 rows of the perceptron payload; the running sum of
  squares is the carried row plus the sum over the tile's rows of the squared entries.
-/
import proofs.«100381_j2018634629568_1_alg».proof.Proof.KV.Basic

noncomputable section

namespace Cert.Gin.Ker

open Idealize.ShloMosaic Idealize.ShloMosaic.ValueIdx Cert.KernelIdeal Cert.KernelIdeal.Gen

/-- The first kernel's initial column sums and sums of squares are 0. -/
theorem k0_pay2_apply (u : Fin 1) (j : Fin 512) : k0_pay2 (F := Ideal) (ix2 u j) = (0 : EReal) := by
  unfold k0_pay2
  simp only [shapeCast_same_apply, splat_zero_apply]
theorem k0_pay3_apply (u : Fin 1) (j : Fin 512) : k0_pay3 (F := Ideal) (ix2 u j) = (0 : EReal) := by
  unfold k0_pay3
  simp only [shapeCast_same_apply, splat_zero_apply]

/-- The first kernel's running column sum at (u, j). -/
theorem k0_pay5_apply (x0 : Vec Ideal S1000x16 .f32) (x1 : Vec Ideal S16x512 .f32) (x2 : Vec Ideal S1x512 .f32)
    (x3 : Vec Ideal S512x512 .f32) (x4 : Vec Ideal S1x512 .f32) (s : Vec Ideal S1x512 .f32) (u : Fin 1) (j : Fin 512) :
    k0_pay5 (F := Ideal) x0 x1 x2 x3 x4 s (ix2 u j)
      = s (ix2 u j) + ∑ r : Fin 1000, k0_pay4 (F := Ideal) x0 x1 x2 x3 x4 (ix2 r j) := by
  unfold k0_pay5
  simp only [shapeCast_same_apply, addf_apply]
  exact congrArg (s (ix2 u j) + ·) (colsum_row_apply _ _ _ _ _ u j)

/-- The first kernel's running sum of squares at (u, j). -/
theorem k0_pay1_apply (v : FVec Ideal S1000x512 .f32) (q : Vec Ideal S1x512 .f32) (u : Fin 1) (j : Fin 512) :
    k0_pay1 (F := Ideal) v q (ix2 u j) = q (ix2 u j) + ∑ r : Fin 1000, v (ix2 r j) * v (ix2 r j) := by
  unfold k0_pay1
  simp only [shapeCast_same_apply, addf_apply]
  exact congrArg (q (ix2 u j) + ·) (colsum_row_apply _ _ _ _ _ u j)

/-- Kernel 2: the stored column sum is the carried one; the initial values are 0. -/
theorem k2_pay1_apply (v : FVec Ideal S1x512 .f32) (i : S1x512.Idx) : k2_pay1 (F := Ideal) v i = v i := by
  unfold k2_pay1
  simp only [shapeCast_same_apply]
theorem k2_pay3_apply (u : Fin 1) (j : Fin 512) : k2_pay3 (F := Ideal) (ix2 u j) = (0 : EReal) := by
  unfold k2_pay3
  simp only [shapeCast_same_apply, splat_zero_apply]
theorem k2_pay4_apply (u : Fin 1) (j : Fin 512) : k2_pay4 (F := Ideal) (ix2 u j) = (0 : EReal) := by
  unfold k2_pay4
  simp only [shapeCast_same_apply, splat_zero_apply]

/-- Kernel 2's running column sum at (u, j). -/
theorem k2_pay6_apply (x0 : Vec Ideal S1000x512 .f32) (x1 : Vec Ideal S512x512 .f32) (x2 : Vec Ideal S1x512 .f32)
    (x3 : Vec Ideal S512x512 .f32) (x4 : Vec Ideal S1x512 .f32) (s : Vec Ideal S1x512 .f32) (u : Fin 1) (j : Fin 512) :
    k2_pay6 (F := Ideal) x0 x1 x2 x3 x4 s (ix2 u j)
      = s (ix2 u j) + ∑ r : Fin 1000, k2_pay5 (F := Ideal) x0 x1 x2 x3 x4 (ix2 r j) := by
  unfold k2_pay6
  simp only [addf_apply]
  exact congrArg (s (ix2 u j) + ·) (colsum_row_apply _ _ _ _ _ u j)

/-- Kernel 2's running sum of squares at (u, j). -/
theorem k2_pay2_apply (v : FVec Ideal S1000x512 .f32) (q : Vec Ideal S1x512 .f32) (u : Fin 1) (j : Fin 512) :
    k2_pay2 (F := Ideal) v q (ix2 u j) = q (ix2 u j) + ∑ r : Fin 1000, v (ix2 r j) * v (ix2 r j) := by
  unfold k2_pay2
  simp only [shapeCast_same_apply, addf_apply]
  exact congrArg (q (ix2 u j) + ·) (colsum_row_apply _ _ _ _ _ u j)

/-- Kernel 4: the stored column sum is the carried one; the initial values are 0. -/
theorem k4_pay1_apply (v : FVec Ideal S1x512 .f32) (i : S1x512.Idx) : k4_pay1 (F := Ideal) v i = v i := by
  unfold k4_pay1
  simp only [shapeCast_same_apply]
theorem k4_pay3_apply (u : Fin 1) (j : Fin 512) : k4_pay3 (F := Ideal) (ix2 u j) = (0 : EReal) := by
  unfold k4_pay3
  simp only [shapeCast_same_apply, splat_zero_apply]
theorem k4_pay4_apply (u : Fin 1) (j : Fin 512) : k4_pay4 (F := Ideal) (ix2 u j) = (0 : EReal) := by
  unfold k4_pay4
  simp only [shapeCast_same_apply, splat_zero_apply]

/-- Kernel 4's running column sum at (u, j). -/
theorem k4_pay6_apply (x0 : Vec Ideal S1000x512 .f32) (x1 : Vec Ideal S512x512 .f32) (x2 : Vec Ideal S1x512 .f32)
    (x3 : Vec Ideal S512x512 .f32) (x4 : Vec Ideal S1x512 .f32) (s : Vec Ideal S1x512 .f32) (u : Fin 1) (j : Fin 512) :
    k4_pay6 (F := Ideal) x0 x1 x2 x3 x4 s (ix2 u j)
      = s (ix2 u j) + ∑ r : Fin 1000, k4_pay5 (F := Ideal) x0 x1 x2 x3 x4 (ix2 r j) := by
  unfold k4_pay6
  simp only [addf_apply]
  exact congrArg (s (ix2 u j) + ·) (colsum_row_apply _ _ _ _ _ u j)

/-- Kernel 4's running sum of squares at (u, j). -/
theorem k4_pay2_apply (v : FVec Ideal S1000x512 .f32) (q : Vec Ideal S1x512 .f32) (u : Fin 1) (j : Fin 512) :
    k4_pay2 (F := Ideal) v q (ix2 u j) = q (ix2 u j) + ∑ r : Fin 1000, v (ix2 r j) * v (ix2 r j) := by
  unfold k4_pay2
  simp only [shapeCast_same_apply, addf_apply]
  exact congrArg (q (ix2 u j) + ·) (colsum_row_apply _ _ _ _ _ u j)

/-- Kernel 6: the stored column sum is the carried one; the initial values are 0. -/
theorem k6_pay1_apply (v : FVec Ideal S1x512 .f32) (i : S1x512.Idx) : k6_pay1 (F := Ideal) v i = v i := by
  unfold k6_pay1
  simp only [shapeCast_same_apply]
theorem k6_pay3_apply (u : Fin 1) (j : Fin 512) : k6_pay3 (F := Ideal) (ix2 u j) = (0 : EReal) := by
  unfold k6_pay3
  simp only [shapeCast_same_apply, splat_zero_apply]
theorem k6_pay4_apply (u : Fin 1) (j : Fin 512) : k6_pay4 (F := Ideal) (ix2 u j) = (0 : EReal) := by
  unfold k6_pay4
  simp only [shapeCast_same_apply, splat_zero_apply]

/-- Kernel 6's running column sum at (u, j). -/
theorem k6_pay6_apply (x0 : Vec Ideal S1000x512 .f32) (x1 : Vec Ideal S512x512 .f32) (x2 : Vec Ideal S1x512 .f32)
    (x3 : Vec Ideal S512x512 .f32) (x4 : Vec Ideal S1x512 .f32) (s : Vec Ideal S1x512 .f32) (u : Fin 1) (j : Fin 512) :
    k6_pay6 (F := Ideal) x0 x1 x2 x3 x4 s (ix2 u j)
      = s (ix2 u j) + ∑ r : Fin 1000, k6_pay5 (F := Ideal) x0 x1 x2 x3 x4 (ix2 r j) := by
  unfold k6_pay6
  simp only [addf_apply]
  exact congrArg (s (ix2 u j) + ·) (colsum_row_apply _ _ _ _ _ u j)

/-- Kernel 6's running sum of squares at (u, j). -/
theorem k6_pay2_apply (v : FVec Ideal S1000x512 .f32) (q : Vec Ideal S1x512 .f32) (u : Fin 1) (j : Fin 512) :
    k6_pay2 (F := Ideal) v q (ix2 u j) = q (ix2 u j) + ∑ r : Fin 1000, v (ix2 r j) * v (ix2 r j) := by
  unfold k6_pay2
  simp only [shapeCast_same_apply, addf_apply]
  exact congrArg (q (ix2 u j) + ·) (colsum_row_apply _ _ _ _ _ u j)

/-- Kernel 8: the stored column sum is the carried one; the initial values are 0. -/
theorem k8_pay1_apply (v : FVec Ideal S1x512 .f32) (i : S1x512.Idx) : k8_pay1 (F := Ideal) v i = v i := by
  unfold k8_pay1
  simp only [shapeCast_same_apply]
theorem k8_pay3_apply (u : Fin 1) (j : Fin 512) : k8_pay3 (F := Ideal) (ix2 u j) = (0 : EReal) := by
  unfold k8_pay3
  simp only [shapeCast_same_apply, splat_zero_apply]
theorem k8_pay4_apply (u : Fin 1) (j : Fin 512) : k8_pay4 (F := Ideal) (ix2 u j) = (0 : EReal) := by
  unfold k8_pay4
  simp only [shapeCast_same_apply, splat_zero_apply]

/-- Kernel 8's running column sum at (u, j). -/
theorem k8_pay6_apply (x0 : Vec Ideal S1000x512 .f32) (x1 : Vec Ideal S512x512 .f32) (x2 : Vec Ideal S1x512 .f32)
    (x3 : Vec Ideal S512x512 .f32) (x4 : Vec Ideal S1x512 .f32) (s : Vec Ideal S1x512 .f32) (u : Fin 1) (j : Fin 512) :
    k8_pay6 (F := Ideal) x0 x1 x2 x3 x4 s (ix2 u j)
      = s (ix2 u j) + ∑ r : Fin 1000, k8_pay5 (F := Ideal) x0 x1 x2 x3 x4 (ix2 r j) := by
  unfold k8_pay6
  simp only [addf_apply]
  exact congrArg (s (ix2 u j) + ·) (colsum_row_apply _ _ _ _ _ u j)

/-- Kernel 8's running sum of squares at (u, j). -/
theorem k8_pay2_apply (v : FVec Ideal S1000x512 .f32) (q : Vec Ideal S1x512 .f32) (u : Fin 1) (j : Fin 512) :
    k8_pay2 (F := Ideal) v q (ix2 u j) = q (ix2 u j) + ∑ r : Fin 1000, v (ix2 r j) * v (ix2 r j) := by
  unfold k8_pay2
  simp only [shapeCast_same_apply, addf_apply]
  exact congrArg (q (ix2 u j) + ·) (colsum_row_apply _ _ _ _ _ u j)

end Cert.Gin.Ker

end
-- ==== Proof.KA.MlpStats0.lean ====
/-
  The two statistics rows a perceptron-with-statistics region leaves. Two scratch rows are carried from tile to tile:
  zeroed at the first tile, and at every tile each column of the first gains the tile's column sum of the activation
  and each column of the second the tile's column sum of its squares; at the last tile the two rows are copied into
  the two [1,512] outputs, written back once. Entry (p, j) of the tile stored at tile t is entry (1000 t + p, j) of the
  whole activation, so after the tenth tile column j of the first row holds the ten tiles' column sums added up from
  zero in order, which is the column sum over all 10000 rows, and likewise the second row with squares.
-/
import proofs.«100381_j2018634629568_1_alg».proof.Proof.KA.MlpArray0
import proofs.«100381_j2018634629568_1_alg».proof.Proof.KV.Stats

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open scoped BigOperators

section
variable {F : FTy → Type} [FloatOps F]
variable (V : (c : Dev nD) → (b : Ref sig .tc) → Buf (Elt F) ((c : Thread nD τ).loc b))

/-! ## The carried rows, tile by tile -/

set_option maxHeartbeats 1000000 in
/-- The carried row of column sums after the first tile. -/
theorem sumAt0_first (c : Dev nD) (t : Fin cfg0.N) (hf : t.val % 10 = 0) :
    (stateAt0 V c t.val t.isLt).2.2.2.1 = k0_pay5 (blockAt0 V c 0 t) (blockAt0 V c 1 t) (blockAt0 V c 2 t) (blockAt0 V c 3 t) (blockAt0 V c 4 t) k0_pay2 := by
  have hl : ¬t.val % 10 = 9 := by omega
  rw [stateAt0_first V c t hf hl]
  dsimp only
  exact sumFirst0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) ((firstCond0_iff t).mpr hf) (fun h => hl ((lastCond0_iff t).mp h)) (blockAt0 V c 0 t) (blockAt0 V c 1 t) (blockAt0 V c 2 t) (blockAt0 V c 3 t) (blockAt0 V c 4 t)

set_option maxHeartbeats 1000000 in
/-- The carried row of column sums after a later tile, from the row the tile before left. -/
theorem sumAt0_next (c : Dev nD) (t : Fin cfg0.N) (hf : ¬t.val % 10 = 0) :
    (stateAt0 V c t.val t.isLt).2.2.2.1 = k0_pay5 (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 := by
  by_cases hl : t.val % 10 = 9
  · rw [stateAt0_last V c t hf hl]
    dsimp only
    exact sumLast0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2
  · rw [stateAt0_mid V c t hf hl]
    dsimp only
    exact sumMid0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) (fun h => hl ((lastCond0_iff t).mp h)) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2

set_option maxHeartbeats 1000000 in
/-- At the last tile the output row of column sums is the carried row. -/
theorem sumOut0_last (c : Dev nD) (t : Fin cfg0.N) (hf : ¬t.val % 10 = 0) (hl : t.val % 10 = 9) :
    (stateAt0 V c t.val t.isLt).2.1 = (stateAt0 V c t.val t.isLt).2.2.2.1 := by
  rw [stateAt0_last V c t hf hl]
  dsimp only
  exact (outSumLast0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2).trans
    (sumLast0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2).symm

set_option maxHeartbeats 1000000 in
/-- The carried row of column sums of squares after the first tile. -/
theorem sqAt0_first (c : Dev nD) (t : Fin cfg0.N) (hf : t.val % 10 = 0) :
    (stateAt0 V c t.val t.isLt).2.2.2.2 = k0_pay1 (k0_pay4 (blockAt0 V c 0 t) (blockAt0 V c 1 t) (blockAt0 V c 2 t) (blockAt0 V c 3 t) (blockAt0 V c 4 t)) k0_pay3 := by
  have hl : ¬t.val % 10 = 9 := by omega
  rw [stateAt0_first V c t hf hl]
  dsimp only
  exact sqFirst0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) ((firstCond0_iff t).mpr hf) (fun h => hl ((lastCond0_iff t).mp h)) (blockAt0 V c 0 t) (blockAt0 V c 1 t) (blockAt0 V c 2 t) (blockAt0 V c 3 t) (blockAt0 V c 4 t)

set_option maxHeartbeats 1000000 in
/-- The carried row of column sums of squares after a later tile, from the row the tile before left. -/
theorem sqAt0_next (c : Dev nD) (t : Fin cfg0.N) (hf : ¬t.val % 10 = 0) :
    (stateAt0 V c t.val t.isLt).2.2.2.2 = k0_pay1 (k0_pay4 (blockAt0 V c 0 t) (blockAt0 V c 1 t) (blockAt0 V c 2 t) (blockAt0 V c 3 t) (blockAt0 V c 4 t)) (stateAt0 V c (t.val - 1) (Nat.lt_of_le_of_lt (Nat.sub_le _ _) t.isLt)).2.2.2.2 := by
  by_cases hl : t.val % 10 = 9
  · rw [stateAt0_last V c t hf hl]
    dsimp only
    exact sqLast0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2
  · rw [stateAt0_mid V c t hf hl]
    dsimp only
    exact sqMid0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) (fun h => hl ((lastCond0_iff t).mp h)) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2

set_option maxHeartbeats 1000000 in
/-- At the last tile the output row of column sums of squares is the carried row. -/
theorem sqOut0_last (c : Dev nD) (t : Fin cfg0.N) (hf : ¬t.val % 10 = 0) (hl : t.val % 10 = 9) :
    (stateAt0 V c t.val t.isLt).2.2.1 = (stateAt0 V c t.val t.isLt).2.2.2.2 := by
  rw [stateAt0_last V c t hf hl]
  dsimp only
  exact (outSqLast0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2).trans
    (sqLast0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 (Memref.isWhole_whole _) sc0_1 (Memref.isWhole_whole _) (fun h => hf ((firstCond0_iff t).mp h)) ((lastCond0_iff t).mpr hl) (blockAt0 V c 0 t) (blockAt0 V c 1 t) (blockAt0 V c 2 t) (blockAt0 V c 3 t) (blockAt0 V c 4 t) (stateAt0 V c (t.val - 1) (Nat.lt_of_le_of_lt (Nat.sub_le _ _) t.isLt)).2.2.2.1 (stateAt0 V c (t.val - 1) (Nat.lt_of_le_of_lt (Nat.sub_le _ _) t.isLt)).2.2.2.2).symm

/-! ## The two outputs: written back once, at the last tile -/

/-- The one write-back of statistics output 6, at the last tile, writes the row the body left there. -/
theorem flushed0_6_eq (c : Dev nD) (t : Fin cfg0.N) (hfl : (cfg0.win 6).flush t = true) :
    (dat0 V c).flushed 6 t = ((cfg0.win 6).blk t).view.read (Elt F) ((stateAt0 V c t0_9.val t0_9.isLt).2.1) := by
  have h9 : t.val % 10 = 9 := (flush0_6 t).mp hfl
  have ht : t.val < 10 := Nat.lt_of_lt_of_eq t.isLt N_0
  obtain rfl : t = t0_9 := Fin.ext (by show t.val = 9; omega)
  have e0 : win0_6.index t0_9 (0 : Fin 2) = 0 := by have := idx_facts0 t0_9; simp only [this]
  have e1 : win0_6.index t0_9 (1 : Fin 2) = 0 := by have := idx_facts0 t0_9; simp only [this]
  show (cfg0.win 6).cut (grid0.coords t0_9) ((dat0 V c).after 6 t0_9) = _
  rw [dat0_after6]
  funext y
  rw [View.read_apply]
  show ((stateAt0 V c t0_9.val t0_9.isLt).2.1 : S1x512.Idx → Elt F .f32) y
    = ((stateAt0 V c t0_9.val t0_9.isLt).2.1 : S1x512.Idx → Elt F .f32) (((cfg0.win 6).blk t0_9).view.emb y)
  refine congrArg _ ?_
  funext a
  apply Fin.ext
  match a with
  | ⟨0, _⟩ => show (y 0).val = win0_6.index t0_9 (0 : Fin 2) * 1 + 1 * (y 0).val; rw [e0]; omega
  | ⟨1, _⟩ => show (y 1).val = win0_6.index t0_9 (1 : Fin 2) * 512 + 1 * (y 1).val; rw [e1]; omega

theorem mem_blk0_6 (t : Fin cfg0.N) (i : S1x512.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v21_1).slice (win0_6.rect t)).set ↔ _
  rw [View.set_slice_whole, Rect.mem_set_unit]
  exact Iff.rfl

/-- The last tile's block is the whole row. -/
theorem cover0_6 (i : S1x512.Idx) : ∃ t : Fin cfg0.N, (cfg0.win 6).flush t = true ∧ i ∈ ((cfg0.win 6).blk t).view.set := by
  have hi0 : (i 0).val < 1 := idx2_lt0 i
  have hi1 : (i 1).val < 512 := idx2_lt1 i
  have e0 : win0_6.index t0_9 (0 : Fin 2) = 0 := by have := idx_facts0 t0_9; simp only [this]
  have e1 : win0_6.index t0_9 (1 : Fin 2) = 0 := by have := idx_facts0 t0_9; simp only [this]
  refine ⟨t0_9, (flush0_6 t0_9).mpr (by decide), ?_⟩
  rw [mem_blk0_6]
  intro a
  match a with
  | ⟨0, _⟩ => show win0_6.index t0_9 (0 : Fin 2) * 1 ≤ (i 0).val ∧ (i 0).val < win0_6.index t0_9 (0 : Fin 2) * 1 + 1; omega
  | ⟨1, _⟩ => show win0_6.index t0_9 (1 : Fin 2) * 512 ≤ (i 1).val ∧ (i 1).val < win0_6.index t0_9 (1 : Fin 2) * 512 + 512; omega

/-- Statistics output 6 after the region: the row the body left in its buffer at the last tile. -/
theorem final0_6 (c : Dev nD) : (dat0 V c).arrAt 6 cfg0.N = (stateAt0 V c t0_9.val t0_9.isLt).2.1 :=
  (dat0 V c).arrAt_eq_of_cover 6 ((stateAt0 V c t0_9.val t0_9.isLt).2.1) (flushed0_6_eq V c) cover0_6

/-- The one write-back of statistics output 7, at the last tile, writes the row the body left there. -/
theorem flushed0_7_eq (c : Dev nD) (t : Fin cfg0.N) (hfl : (cfg0.win 7).flush t = true) :
    (dat0 V c).flushed 7 t = ((cfg0.win 7).blk t).view.read (Elt F) ((stateAt0 V c t0_9.val t0_9.isLt).2.2.1) := by
  have h9 : t.val % 10 = 9 := (flush0_7 t).mp hfl
  have ht : t.val < 10 := Nat.lt_of_lt_of_eq t.isLt N_0
  obtain rfl : t = t0_9 := Fin.ext (by show t.val = 9; omega)
  have e0 : win0_7.index t0_9 (0 : Fin 2) = 0 := by have := idx_facts0 t0_9; simp only [this]
  have e1 : win0_7.index t0_9 (1 : Fin 2) = 0 := by have := idx_facts0 t0_9; simp only [this]
  show (cfg0.win 7).cut (grid0.coords t0_9) ((dat0 V c).after 7 t0_9) = _
  rw [dat0_after7]
  funext y
  rw [View.read_apply]
  show ((stateAt0 V c t0_9.val t0_9.isLt).2.2.1 : S1x512.Idx → Elt F .f32) y
    = ((stateAt0 V c t0_9.val t0_9.isLt).2.2.1 : S1x512.Idx → Elt F .f32) (((cfg0.win 7).blk t0_9).view.emb y)
  refine congrArg _ ?_
  funext a
  apply Fin.ext
  match a with
  | ⟨0, _⟩ => show (y 0).val = win0_7.index t0_9 (0 : Fin 2) * 1 + 1 * (y 0).val; rw [e0]; omega
  | ⟨1, _⟩ => show (y 1).val = win0_7.index t0_9 (1 : Fin 2) * 512 + 1 * (y 1).val; rw [e1]; omega

theorem mem_blk0_7 (t : Fin cfg0.N) (i : S1x512.Idx) :
    i ∈ ((cfg0.win 7).blk t).view.set ↔ ∀ a : Fin 2, win0_7.index t a * S1x512.size a ≤ (i a).val ∧ (i a).val < win0_7.index t a * S1x512.size a + S1x512.size a := by
  show i ∈ ((View.whole main_v21_2).slice (win0_7.rect t)).set ↔ _
  rw [View.set_slice_whole, Rect.mem_set_unit]
  exact Iff.rfl

/-- The last tile's block is the whole row. -/
theorem cover0_7 (i : S1x512.Idx) : ∃ t : Fin cfg0.N, (cfg0.win 7).flush t = true ∧ i ∈ ((cfg0.win 7).blk t).view.set := by
  have hi0 : (i 0).val < 1 := idx2_lt0 i
  have hi1 : (i 1).val < 512 := idx2_lt1 i
  have e0 : win0_7.index t0_9 (0 : Fin 2) = 0 := by have := idx_facts0 t0_9; simp only [this]
  have e1 : win0_7.index t0_9 (1 : Fin 2) = 0 := by have := idx_facts0 t0_9; simp only [this]
  refine ⟨t0_9, (flush0_7 t0_9).mpr (by decide), ?_⟩
  rw [mem_blk0_7]
  intro a
  match a with
  | ⟨0, _⟩ => show win0_7.index t0_9 (0 : Fin 2) * 1 ≤ (i 0).val ∧ (i 0).val < win0_7.index t0_9 (0 : Fin 2) * 1 + 1; omega
  | ⟨1, _⟩ => show win0_7.index t0_9 (1 : Fin 2) * 512 ≤ (i 1).val ∧ (i 1).val < win0_7.index t0_9 (1 : Fin 2) * 512 + 512; omega

/-- Statistics output 7 after the region: the row the body left in its buffer at the last tile. -/
theorem final0_7 (c : Dev nD) : (dat0 V c).arrAt 7 cfg0.N = (stateAt0 V c t0_9.val t0_9.isLt).2.2.1 :=
  (dat0 V c).arrAt_eq_of_cover 7 ((stateAt0 V c t0_9.val t0_9.isLt).2.2.1) (flushed0_7_eq V c) cover0_7

/-- Entry (p, j) of the tile the body stores at point t is entry (1000 t + p, j) of the whole activation. -/
theorem tileEntry0 (c : Dev nD) (t : Fin cfg0.N) (ht : t.val < 10) (p : Fin 1000) (j : Fin 512) :
    (k0_pay4 (blockAt0 V c 0 t) (blockAt0 V c 1 t) (blockAt0 V c 2 t) (blockAt0 V c 3 t) (blockAt0 V c 4 t) : S1000x512.Idx → Elt F .f32) (ix2 p j)
      = mlpWhole0 V c (ix2 ⟨1000 * t.val + p.val, by have := p.isLt; omega⟩ j) := by
  rw [wholeBlock0_1, wholeBlock0_2, wholeBlock0_3, wholeBlock0_4, inBlock0 V c t ht]
  exact (mlpWhole0_apply V c _ t.val ht p j rfl rfl).symm

end

section
variable (V : (c : Dev nD) → (b : Ref sig .tc) → Buf (Elt Ideal) ((c : Thread nD τ).loc b))

/-! ## At the ideal instance: the carried rows are running sums -/

/-- Tile k's column sum of the activation, zero past the ten tiles. -/
def tileSum0 (c : Dev nD) (j : Fin 512) (k : ℕ) : EReal :=
  if hk : k < 10 then ∑ p : Fin 1000, (mlpWhole0 V c : S10000x512.Idx → EReal) (ix2 ⟨1000 * k + p.val, by have := p.isLt; omega⟩ j) else 0

/-- The carried row after tile n holds, in column j, the first n + 1 tiles' column sums of the activation added up in order. -/
theorem sumRow0_eq (c : Dev nD) (j : Fin 512) : ∀ (n : ℕ) (hn : n < cfg0.N),
    ((stateAt0 V c n hn).2.2.2.1 : S1x512.Idx → EReal) (ix2 0 j) = ∑ k ∈ Finset.range (n + 1), tileSum0 V c j k := by
  intro n
  induction n with
  | zero =>
    intro hn
    have h := sumAt0_first V c ⟨0, hn⟩ (Nat.zero_mod _)
    rw [Finset.sum_range_one]
    refine (congrFun h (ix2 0 j)).trans ?_
    refine (Cert.Gin.Ker.k0_pay5_apply _ _ _ _ _ _ 0 j).trans ?_
    rw [Cert.Gin.Ker.k0_pay2_apply 0 j, zero_add]
    unfold tileSum0
    rw [dif_pos (by decide : 0 < 10)]
    refine Finset.sum_congr rfl fun p _ => ?_
    exact tileEntry0 V c ⟨0, hn⟩ (by show (0 : ℕ) < 10; decide) p j
  | succ n ih =>
    intro hn
    have hN : n + 1 < 10 := Nat.lt_of_lt_of_eq hn N_0
    have h := sumAt0_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k0_pay5_apply _ _ _ _ _ _ 0 j).trans ?_
    refine congrArg₂ (fun a b : EReal => a + b) rfl ?_
    unfold tileSum0
    rw [dif_pos hN]
    refine Finset.sum_congr rfl fun p _ => ?_
    exact tileEntry0 V c ⟨n + 1, hn⟩ hN p j

/-- Tile k's column sum of the activation's squares, zero past the ten tiles. -/
def tileSq0 (c : Dev nD) (j : Fin 512) (k : ℕ) : EReal :=
  if hk : k < 10 then ∑ p : Fin 1000, (mlpWhole0 V c : S10000x512.Idx → EReal) (ix2 ⟨1000 * k + p.val, by have := p.isLt; omega⟩ j) * (mlpWhole0 V c : S10000x512.Idx → EReal) (ix2 ⟨1000 * k + p.val, by have := p.isLt; omega⟩ j) else 0

/-- The carried row after tile n holds, in column j, the first n + 1 tiles' column sums of the activation's squares added up in order. -/
theorem sqRow0_eq (c : Dev nD) (j : Fin 512) : ∀ (n : ℕ) (hn : n < cfg0.N),
    ((stateAt0 V c n hn).2.2.2.2 : S1x512.Idx → EReal) (ix2 0 j) = ∑ k ∈ Finset.range (n + 1), tileSq0 V c j k := by
  intro n
  induction n with
  | zero =>
    intro hn
    have h := sqAt0_first V c ⟨0, hn⟩ (Nat.zero_mod _)
    rw [Finset.sum_range_one]
    refine (congrFun h (ix2 0 j)).trans ?_
    refine (Cert.Gin.Ker.k0_pay1_apply _ _ 0 j).trans ?_
    rw [Cert.Gin.Ker.k0_pay3_apply 0 j, zero_add]
    unfold tileSq0
    rw [dif_pos (by decide : 0 < 10)]
    refine Finset.sum_congr rfl fun p _ => ?_
    exact congrArg₂ (fun a b : EReal => a * b) (tileEntry0 V c ⟨0, hn⟩ (by show (0 : ℕ) < 10; decide) p j) (tileEntry0 V c ⟨0, hn⟩ (by show (0 : ℕ) < 10; decide) p j)
  | succ n ih =>
    intro hn
    have hN : n + 1 < 10 := Nat.lt_of_lt_of_eq hn N_0
    have h := sqAt0_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k0_pay1_apply _ _ 0 j).trans ?_
    refine congrArg₂ (fun a b : EReal => a + b) rfl ?_
    unfold tileSq0
    rw [dif_pos hN]
    refine Finset.sum_congr rfl fun p _ => ?_
    exact congrArg₂ (fun a b : EReal => a * b) (tileEntry0 V c ⟨n + 1, hn⟩ hN p j) (tileEntry0 V c ⟨n + 1, hn⟩ hN p j)

/-- The ten tiles' sums added up in order are the sum over all 10000 rows. -/
theorem sum_tiles0 (f : Fin 10000 → EReal) (g : ℕ → EReal)
    (hg : ∀ (k : ℕ) (hk : k < 10), g k = ∑ p : Fin 1000, f ⟨1000 * k + p.val, by have := p.isLt; omega⟩) :
    ∑ k ∈ Finset.range (9 + 1), g k = ∑ r : Fin 10000, f r := by
  rw [Cert.Gin.sum_rows_tiles f, Finset.sum_range]
  exact Finset.sum_congr rfl fun t _ => hg t.val t.isLt

/-- Column j of the first statistics output after the region: the column sum of the whole activation. -/
theorem sumRow0 (c : Dev nD) (j : Fin 512) :
    ((dat0 V c).arrAt 6 cfg0.N : S1x512.Idx → EReal) (ix2 0 j)
      = Cert.Gin.colSum (fun r l => (mlpWhole0 V c : S10000x512.Idx → EReal) (ix2 r l)) j := by
  rw [final0_6, sumOut0_last V c t0_9 (by decide) (by decide)]
  refine (sumRow0_eq V c j 9 t0_9.isLt).trans ?_
  refine sum_tiles0 (fun r => (mlpWhole0 V c : S10000x512.Idx → EReal) (ix2 r j)) _ fun k hk => ?_
  unfold tileSum0
  rw [dif_pos hk]

/-- Column j of the second statistics output after the region: the column sum of the whole activation's squares. -/
theorem sqRow0 (c : Dev nD) (j : Fin 512) :
    ((dat0 V c).arrAt 7 cfg0.N : S1x512.Idx → EReal) (ix2 0 j)
      = Cert.Gin.colSumSq (fun r l => (mlpWhole0 V c : S10000x512.Idx → EReal) (ix2 r l)) j := by
  rw [final0_7, sqOut0_last V c t0_9 (by decide) (by decide)]
  refine (sqRow0_eq V c j 9 t0_9.isLt).trans ?_
  refine sum_tiles0 (fun r => (mlpWhole0 V c : S10000x512.Idx → EReal) (ix2 r j) * (mlpWhole0 V c : S10000x512.Idx → EReal) (ix2 r j)) _ fun k hk => ?_
  unfold tileSq0
  rw [dif_pos hk]

/-- The whole activation is the specification's perceptron of the whole input. -/
theorem mlpWhole0_spec (c : Dev nD) (r : Fin 10000) (j : Fin 512) :
    (mlpWhole0 V c : S10000x512.Idx → EReal) (ix2 r j)
      = Cert.Gin.mlp (fun r l => (V c (Pipeline.arrRef spec0 0) : S10000x16.Idx → EReal) (ix2 r l)) (fun l k => (V c (Pipeline.arrRef spec0 1) : S16x512.Idx → EReal) (ix2 l k))
          (fun k => (V c (Pipeline.arrRef spec0 2) : S1x512.Idx → EReal) (ix2 0 k)) (fun k j => (V c (Pipeline.arrRef spec0 3) : S512x512.Idx → EReal) (ix2 k j))
          (fun j => (V c (Pipeline.arrRef spec0 4) : S1x512.Idx → EReal) (ix2 0 j)) r j :=
  (congrFun (final0_5 V c) (ix2 r j)).symm.trans (mlpArray0_spec V c r j)

/-- The first statistics output is the column sums of the specification's perceptron of the whole input. -/
theorem sumRow0_spec (c : Dev nD) (j : Fin 512) :
    ((dat0 V c).arrAt 6 cfg0.N : S1x512.Idx → EReal) (ix2 0 j)
      = Cert.Gin.colSum (Cert.Gin.mlp (fun r l => (V c (Pipeline.arrRef spec0 0) : S10000x16.Idx → EReal) (ix2 r l)) (fun l k => (V c (Pipeline.arrRef spec0 1) : S16x512.Idx → EReal) (ix2 l k))
          (fun k => (V c (Pipeline.arrRef spec0 2) : S1x512.Idx → EReal) (ix2 0 k)) (fun k j => (V c (Pipeline.arrRef spec0 3) : S512x512.Idx → EReal) (ix2 k j))
          (fun j => (V c (Pipeline.arrRef spec0 4) : S1x512.Idx → EReal) (ix2 0 j))) j := by
  rw [sumRow0]
  exact congrArg (fun a => Cert.Gin.colSum a j) (funext fun r => funext fun l => mlpWhole0_spec V c r l)

/-- The second statistics output is the column sums of squares of the specification's perceptron of the whole input. -/
theorem sqRow0_spec (c : Dev nD) (j : Fin 512) :
    ((dat0 V c).arrAt 7 cfg0.N : S1x512.Idx → EReal) (ix2 0 j)
      = Cert.Gin.colSumSq (Cert.Gin.mlp (fun r l => (V c (Pipeline.arrRef spec0 0) : S10000x16.Idx → EReal) (ix2 r l)) (fun l k => (V c (Pipeline.arrRef spec0 1) : S16x512.Idx → EReal) (ix2 l k))
          (fun k => (V c (Pipeline.arrRef spec0 2) : S1x512.Idx → EReal) (ix2 0 k)) (fun k j => (V c (Pipeline.arrRef spec0 3) : S512x512.Idx → EReal) (ix2 k j))
          (fun j => (V c (Pipeline.arrRef spec0 4) : S1x512.Idx → EReal) (ix2 0 j))) j := by
  rw [sqRow0]
  exact congrArg (fun a => Cert.Gin.colSumSq a j) (funext fun r => funext fun l => mlpWhole0_spec V c r l)

end

end Cert.KernelIdeal.Arr

end
-- ==== Proof.KA.MlpStats2.lean ====
/-
  The two statistics rows a perceptron-with-statistics region leaves. Two scratch rows are carried from tile to tile:
  zeroed at the first tile, and at every tile each column of the first gains the tile's column sum of the activation
  and each column of the second the tile's column sum of its squares; at the last tile the two rows are copied into
  the two [1,512] outputs, written back once. Entry (p, j) of the tile stored at tile t is entry (1000 t + p, j) of the
  whole activation, so after the tenth tile column j of the first row holds the ten tiles' column sums added up from
  zero in order, which is the column sum over all 10000 rows, and likewise the second row with squares.
-/
import proofs.«100381_j2018634629568_1_alg».proof.Proof.KA.MlpArray2
import proofs.«100381_j2018634629568_1_alg».proof.Proof.KV.Stats

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open scoped BigOperators

section
variable {F : FTy → Type} [FloatOps F]
variable (V : (c : Dev nD) → (b : Ref sig .tc) → Buf (Elt F) ((c : Thread nD τ).loc b))

/-! ## The carried rows, tile by tile -/

set_option maxHeartbeats 1000000 in
/-- The carried row of column sums after the first tile. -/
theorem sumAt2_first (c : Dev nD) (t : Fin cfg2.N) (hf : t.val % 10 = 0) :
    (stateAt2 V c t.val t.isLt).2.2.2.1 = k2_pay1 (k2_pay6 (blockAt2 V c 0 t) (blockAt2 V c 1 t) (blockAt2 V c 2 t) (blockAt2 V c 3 t) (blockAt2 V c 4 t) k2_pay3) := by
  have hl : ¬t.val % 10 = 9 := by omega
  rw [stateAt2_first V c t hf hl]
  dsimp only
  exact sumFirst2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) ((firstCond2_iff t).mpr hf) (fun h => hl ((lastCond2_iff t).mp h)) (blockAt2 V c 0 t) (blockAt2 V c 1 t) (blockAt2 V c 2 t) (blockAt2 V c 3 t) (blockAt2 V c 4 t)

set_option maxHeartbeats 1000000 in
/-- The carried row of column sums after a later tile, from the row the tile before left. -/
theorem sumAt2_next (c : Dev nD) (t : Fin cfg2.N) (hf : ¬t.val % 10 = 0) :
    (stateAt2 V c t.val t.isLt).2.2.2.1 = k2_pay1 (k2_pay6 (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1) := by
  by_cases hl : t.val % 10 = 9
  · rw [stateAt2_last V c t hf hl]
    dsimp only
    exact sumLast2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2
  · rw [stateAt2_mid V c t hf hl]
    dsimp only
    exact sumMid2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) (fun h => hl ((lastCond2_iff t).mp h)) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2

set_option maxHeartbeats 1000000 in
/-- At the last tile the output row of column sums is the carried row. -/
theorem sumOut2_last (c : Dev nD) (t : Fin cfg2.N) (hf : ¬t.val % 10 = 0) (hl : t.val % 10 = 9) :
    (stateAt2 V c t.val t.isLt).2.1 = (stateAt2 V c t.val t.isLt).2.2.2.1 := by
  rw [stateAt2_last V c t hf hl]
  dsimp only
  exact (outSumLast2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2).trans
    (sumLast2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2).symm

set_option maxHeartbeats 1000000 in
/-- The carried row of column sums of squares after the first tile. -/
theorem sqAt2_first (c : Dev nD) (t : Fin cfg2.N) (hf : t.val % 10 = 0) :
    (stateAt2 V c t.val t.isLt).2.2.2.2 = k2_pay2 (k2_pay5 (blockAt2 V c 0 t) (blockAt2 V c 1 t) (blockAt2 V c 2 t) (blockAt2 V c 3 t) (blockAt2 V c 4 t)) k2_pay4 := by
  have hl : ¬t.val % 10 = 9 := by omega
  rw [stateAt2_first V c t hf hl]
  dsimp only
  exact sqFirst2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) ((firstCond2_iff t).mpr hf) (fun h => hl ((lastCond2_iff t).mp h)) (blockAt2 V c 0 t) (blockAt2 V c 1 t) (blockAt2 V c 2 t) (blockAt2 V c 3 t) (blockAt2 V c 4 t)

set_option maxHeartbeats 1000000 in
/-- The carried row of column sums of squares after a later tile, from the row the tile before left. -/
theorem sqAt2_next (c : Dev nD) (t : Fin cfg2.N) (hf : ¬t.val % 10 = 0) :
    (stateAt2 V c t.val t.isLt).2.2.2.2 = k2_pay2 (k2_pay5 (blockAt2 V c 0 t) (blockAt2 V c 1 t) (blockAt2 V c 2 t) (blockAt2 V c 3 t) (blockAt2 V c 4 t)) (stateAt2 V c (t.val - 1) (Nat.lt_of_le_of_lt (Nat.sub_le _ _) t.isLt)).2.2.2.2 := by
  by_cases hl : t.val % 10 = 9
  · rw [stateAt2_last V c t hf hl]
    dsimp only
    exact sqLast2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2
  · rw [stateAt2_mid V c t hf hl]
    dsimp only
    exact sqMid2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) (fun h => hl ((lastCond2_iff t).mp h)) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2

set_option maxHeartbeats 1000000 in
/-- At the last tile the output row of column sums of squares is the carried row. -/
theorem sqOut2_last (c : Dev nD) (t : Fin cfg2.N) (hf : ¬t.val % 10 = 0) (hl : t.val % 10 = 9) :
    (stateAt2 V c t.val t.isLt).2.2.1 = (stateAt2 V c t.val t.isLt).2.2.2.2 := by
  rw [stateAt2_last V c t hf hl]
  dsimp only
  exact (outSqLast2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2).trans
    (sqLast2_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) sc2_0 (Memref.isWhole_whole _) sc2_1 (Memref.isWhole_whole _) (fun h => hf ((firstCond2_iff t).mp h)) ((lastCond2_iff t).mpr hl) (blockAt2 V c 0 t) (blockAt2 V c 1 t) (blockAt2 V c 2 t) (blockAt2 V c 3 t) (blockAt2 V c 4 t) (stateAt2 V c (t.val - 1) (Nat.lt_of_le_of_lt (Nat.sub_le _ _) t.isLt)).2.2.2.1 (stateAt2 V c (t.val - 1) (Nat.lt_of_le_of_lt (Nat.sub_le _ _) t.isLt)).2.2.2.2).symm

/-! ## The two outputs: written back once, at the last tile -/

/-- The one write-back of statistics output 6, at the last tile, writes the row the body left there. -/
theorem flushed2_6_eq (c : Dev nD) (t : Fin cfg2.N) (hfl : (cfg2.win 6).flush t = true) :
    (dat2 V c).flushed 6 t = ((cfg2.win 6).blk t).view.read (Elt F) ((stateAt2 V c t2_9.val t2_9.isLt).2.1) := by
  have h9 : t.val % 10 = 9 := (flush2_6 t).mp hfl
  have ht : t.val < 10 := Nat.lt_of_lt_of_eq t.isLt N_2
  obtain rfl : t = t2_9 := Fin.ext (by show t.val = 9; omega)
  have e0 : win2_6.index t2_9 (0 : Fin 2) = 0 := by have := idx_facts2 t2_9; simp only [this]
  have e1 : win2_6.index t2_9 (1 : Fin 2) = 0 := by have := idx_facts2 t2_9; simp only [this]
  show (cfg2.win 6).cut (grid2.coords t2_9) ((dat2 V c).after 6 t2_9) = _
  rw [dat2_after6]
  funext y
  rw [View.read_apply]
  show ((stateAt2 V c t2_9.val t2_9.isLt).2.1 : S1x512.Idx → Elt F .f32) y
    = ((stateAt2 V c t2_9.val t2_9.isLt).2.1 : S1x512.Idx → Elt F .f32) (((cfg2.win 6).blk t2_9).view.emb y)
  refine congrArg _ ?_
  funext a
  apply Fin.ext
  match a with
  | ⟨0, _⟩ => show (y 0).val = win2_6.index t2_9 (0 : Fin 2) * 1 + 1 * (y 0).val; rw [e0]; omega
  | ⟨1, _⟩ => show (y 1).val = win2_6.index t2_9 (1 : Fin 2) * 512 + 1 * (y 1).val; rw [e1]; omega

theorem mem_blk2_6 (t : Fin cfg2.N) (i : S1x512.Idx) :
    i ∈ ((cfg2.win 6).blk t).view.set ↔ ∀ a : Fin 2, win2_6.index t a * S1x512.size a ≤ (i a).val ∧ (i a).val < win2_6.index t a * S1x512.size a + S1x512.size a := by
  show i ∈ ((View.whole main_v50_1).slice (win2_6.rect t)).set ↔ _
  rw [View.set_slice_whole, Rect.mem_set_unit]
  exact Iff.rfl

/-- The last tile's block is the whole row. -/
theorem cover2_6 (i : S1x512.Idx) : ∃ t : Fin cfg2.N, (cfg2.win 6).flush t = true ∧ i ∈ ((cfg2.win 6).blk t).view.set := by
  have hi0 : (i 0).val < 1 := idx2_lt0 i
  have hi1 : (i 1).val < 512 := idx2_lt1 i
  have e0 : win2_6.index t2_9 (0 : Fin 2) = 0 := by have := idx_facts2 t2_9; simp only [this]
  have e1 : win2_6.index t2_9 (1 : Fin 2) = 0 := by have := idx_facts2 t2_9; simp only [this]
  refine ⟨t2_9, (flush2_6 t2_9).mpr (by decide), ?_⟩
  rw [mem_blk2_6]
  intro a
  match a with
  | ⟨0, _⟩ => show win2_6.index t2_9 (0 : Fin 2) * 1 ≤ (i 0).val ∧ (i 0).val < win2_6.index t2_9 (0 : Fin 2) * 1 + 1; omega
  | ⟨1, _⟩ => show win2_6.index t2_9 (1 : Fin 2) * 512 ≤ (i 1).val ∧ (i 1).val < win2_6.index t2_9 (1 : Fin 2) * 512 + 512; omega

/-- Statistics output 6 after the region: the row the body left in its buffer at the last tile. -/
theorem final2_6 (c : Dev nD) : (dat2 V c).arrAt 6 cfg2.N = (stateAt2 V c t2_9.val t2_9.isLt).2.1 :=
  (dat2 V c).arrAt_eq_of_cover 6 ((stateAt2 V c t2_9.val t2_9.isLt).2.1) (flushed2_6_eq V c) cover2_6

/-- The one write-back of statistics output 7, at the last tile, writes the row the body left there. -/
theorem flushed2_7_eq (c : Dev nD) (t : Fin cfg2.N) (hfl : (cfg2.win 7).flush t = true) :
    (dat2 V c).flushed 7 t = ((cfg2.win 7).blk t).view.read (Elt F) ((stateAt2 V c t2_9.val t2_9.isLt).2.2.1) := by
  have h9 : t.val % 10 = 9 := (flush2_7 t).mp hfl
  have ht : t.val < 10 := Nat.lt_of_lt_of_eq t.isLt N_2
  obtain rfl : t = t2_9 := Fin.ext (by show t.val = 9; omega)
  have e0 : win2_7.index t2_9 (0 : Fin 2) = 0 := by have := idx_facts2 t2_9; simp only [this]
  have e1 : win2_7.index t2_9 (1 : Fin 2) = 0 := by have := idx_facts2 t2_9; simp only [this]
  show (cfg2.win 7).cut (grid2.coords t2_9) ((dat2 V c).after 7 t2_9) = _
  rw [dat2_after7]
  funext y
  rw [View.read_apply]
  show ((stateAt2 V c t2_9.val t2_9.isLt).2.2.1 : S1x512.Idx → Elt F .f32) y
    = ((stateAt2 V c t2_9.val t2_9.isLt).2.2.1 : S1x512.Idx → Elt F .f32) (((cfg2.win 7).blk t2_9).view.emb y)
  refine congrArg _ ?_
  funext a
  apply Fin.ext
  match a with
  | ⟨0, _⟩ => show (y 0).val = win2_7.index t2_9 (0 : Fin 2) * 1 + 1 * (y 0).val; rw [e0]; omega
  | ⟨1, _⟩ => show (y 1).val = win2_7.index t2_9 (1 : Fin 2) * 512 + 1 * (y 1).val; rw [e1]; omega

theorem mem_blk2_7 (t : Fin cfg2.N) (i : S1x512.Idx) :
    i ∈ ((cfg2.win 7).blk t).view.set ↔ ∀ a : Fin 2, win2_7.index t a * S1x512.size a ≤ (i a).val ∧ (i a).val < win2_7.index t a * S1x512.size a + S1x512.size a := by
  show i ∈ ((View.whole main_v50_2).slice (win2_7.rect t)).set ↔ _
  rw [View.set_slice_whole, Rect.mem_set_unit]
  exact Iff.rfl

/-- The last tile's block is the whole row. -/
theorem cover2_7 (i : S1x512.Idx) : ∃ t : Fin cfg2.N, (cfg2.win 7).flush t = true ∧ i ∈ ((cfg2.win 7).blk t).view.set := by
  have hi0 : (i 0).val < 1 := idx2_lt0 i
  have hi1 : (i 1).val < 512 := idx2_lt1 i
  have e0 : win2_7.index t2_9 (0 : Fin 2) = 0 := by have := idx_facts2 t2_9; simp only [this]
  have e1 : win2_7.index t2_9 (1 : Fin 2) = 0 := by have := idx_facts2 t2_9; simp only [this]
  refine ⟨t2_9, (flush2_7 t2_9).mpr (by decide), ?_⟩
  rw [mem_blk2_7]
  intro a
  match a with
  | ⟨0, _⟩ => show win2_7.index t2_9 (0 : Fin 2) * 1 ≤ (i 0).val ∧ (i 0).val < win2_7.index t2_9 (0 : Fin 2) * 1 + 1; omega
  | ⟨1, _⟩ => show win2_7.index t2_9 (1 : Fin 2) * 512 ≤ (i 1).val ∧ (i 1).val < win2_7.index t2_9 (1 : Fin 2) * 512 + 512; omega

/-- Statistics output 7 after the region: the row the body left in its buffer at the last tile. -/
theorem final2_7 (c : Dev nD) : (dat2 V c).arrAt 7 cfg2.N = (stateAt2 V c t2_9.val t2_9.isLt).2.2.1 :=
  (dat2 V c).arrAt_eq_of_cover 7 ((stateAt2 V c t2_9.val t2_9.isLt).2.2.1) (flushed2_7_eq V c) cover2_7

/-- Entry (p, j) of the tile the body stores at point t is entry (1000 t + p, j) of the whole activation. -/
theorem tileEntry2 (c : Dev nD) (t : Fin cfg2.N) (ht : t.val < 10) (p : Fin 1000) (j : Fin 512) :
    (k2_pay5 (blockAt2 V c 0 t) (blockAt2 V c 1 t) (blockAt2 V c 2 t) (blockAt2 V c 3 t) (blockAt2 V c 4 t) : S1000x512.Idx → Elt F .f32) (ix2 p j)
      = mlpWhole2 V c (ix2 ⟨1000 * t.val + p.val, by have := p.isLt; omega⟩ j) := by
  rw [wholeBlock2_1, wholeBlock2_2, wholeBlock2_3, wholeBlock2_4, inBlock2 V c t ht]
  exact (mlpWhole2_apply V c _ t.val ht p j rfl rfl).symm

end

section
variable (V : (c : Dev nD) → (b : Ref sig .tc) → Buf (Elt Ideal) ((c : Thread nD τ).loc b))

/-! ## At the ideal instance: the carried rows are running sums -/

/-- Tile k's column sum of the activation, zero past the ten tiles. -/
def tileSum2 (c : Dev nD) (j : Fin 512) (k : ℕ) : EReal :=
  if hk : k < 10 then ∑ p : Fin 1000, (mlpWhole2 V c : S10000x512.Idx → EReal) (ix2 ⟨1000 * k + p.val, by have := p.isLt; omega⟩ j) else 0

/-- The carried row after tile n holds, in column j, the first n + 1 tiles' column sums of the activation added up in order. -/
theorem sumRow2_eq (c : Dev nD) (j : Fin 512) : ∀ (n : ℕ) (hn : n < cfg2.N),
    ((stateAt2 V c n hn).2.2.2.1 : S1x512.Idx → EReal) (ix2 0 j) = ∑ k ∈ Finset.range (n + 1), tileSum2 V c j k := by
  intro n
  induction n with
  | zero =>
    intro hn
    have h := sumAt2_first V c ⟨0, hn⟩ (Nat.zero_mod _)
    rw [Finset.sum_range_one]
    refine (congrFun h (ix2 0 j)).trans ?_
    refine (Cert.Gin.Ker.k2_pay1_apply _ (ix2 0 j)).trans ?_
    refine (Cert.Gin.Ker.k2_pay6_apply _ _ _ _ _ _ 0 j).trans ?_
    rw [Cert.Gin.Ker.k2_pay3_apply 0 j, zero_add]
    unfold tileSum2
    rw [dif_pos (by decide : 0 < 10)]
    refine Finset.sum_congr rfl fun p _ => ?_
    exact tileEntry2 V c ⟨0, hn⟩ (by show (0 : ℕ) < 10; decide) p j
  | succ n ih =>
    intro hn
    have hN : n + 1 < 10 := Nat.lt_of_lt_of_eq hn N_2
    have h := sumAt2_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k2_pay1_apply _ (ix2 0 j)).trans ?_
    refine (Cert.Gin.Ker.k2_pay6_apply _ _ _ _ _ _ 0 j).trans ?_
    refine congrArg₂ (fun a b : EReal => a + b) rfl ?_
    unfold tileSum2
    rw [dif_pos hN]
    refine Finset.sum_congr rfl fun p _ => ?_
    exact tileEntry2 V c ⟨n + 1, hn⟩ hN p j

/-- Tile k's column sum of the activation's squares, zero past the ten tiles. -/
def tileSq2 (c : Dev nD) (j : Fin 512) (k : ℕ) : EReal :=
  if hk : k < 10 then ∑ p : Fin 1000, (mlpWhole2 V c : S10000x512.Idx → EReal) (ix2 ⟨1000 * k + p.val, by have := p.isLt; omega⟩ j) * (mlpWhole2 V c : S10000x512.Idx → EReal) (ix2 ⟨1000 * k + p.val, by have := p.isLt; omega⟩ j) else 0

/-- The carried row after tile n holds, in column j, the first n + 1 tiles' column sums of the activation's squares added up in order. -/
theorem sqRow2_eq (c : Dev nD) (j : Fin 512) : ∀ (n : ℕ) (hn : n < cfg2.N),
    ((stateAt2 V c n hn).2.2.2.2 : S1x512.Idx → EReal) (ix2 0 j) = ∑ k ∈ Finset.range (n + 1), tileSq2 V c j k := by
  intro n
  induction n with
  | zero =>
    intro hn
    have h := sqAt2_first V c ⟨0, hn⟩ (Nat.zero_mod _)
    rw [Finset.sum_range_one]
    refine (congrFun h (ix2 0 j)).trans ?_
    refine (Cert.Gin.Ker.k2_pay2_apply _ _ 0 j).trans ?_
    rw [Cert.Gin.Ker.k2_pay4_apply 0 j, zero_add]
    unfold tileSq2
    rw [dif_pos (by decide : 0 < 10)]
    refine Finset.sum_congr rfl fun p _ => ?_
    exact congrArg₂ (fun a b : EReal => a * b) (tileEntry2 V c ⟨0, hn⟩ (by show (0 : ℕ) < 10; decide) p j) (tileEntry2 V c ⟨0, hn⟩ (by show (0 : ℕ) < 10; decide) p j)
  | succ n ih =>
    intro hn
    have hN : n + 1 < 10 := Nat.lt_of_lt_of_eq hn N_2
    have h := sqAt2_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k2_pay2_apply _ _ 0 j).trans ?_
    refine congrArg₂ (fun a b : EReal => a + b) rfl ?_
    unfold tileSq2
    rw [dif_pos hN]
    refine Finset.sum_congr rfl fun p _ => ?_
    exact congrArg₂ (fun a b : EReal => a * b) (tileEntry2 V c ⟨n + 1, hn⟩ hN p j) (tileEntry2 V c ⟨n + 1, hn⟩ hN p j)

/-- The ten tiles' sums added up in order are the sum over all 10000 rows. -/
theorem sum_tiles2 (f : Fin 10000 → EReal) (g : ℕ → EReal)
    (hg : ∀ (k : ℕ) (hk : k < 10), g k = ∑ p : Fin 1000, f ⟨1000 * k + p.val, by have := p.isLt; omega⟩) :
    ∑ k ∈ Finset.range (9 + 1), g k = ∑ r : Fin 10000, f r := by
  rw [Cert.Gin.sum_rows_tiles f, Finset.sum_range]
  exact Finset.sum_congr rfl fun t _ => hg t.val t.isLt

/-- Column j of the first statistics output after the region: the column sum of the whole activation. -/
theorem sumRow2 (c : Dev nD) (j : Fin 512) :
    ((dat2 V c).arrAt 6 cfg2.N : S1x512.Idx → EReal) (ix2 0 j)
      = Cert.Gin.colSum (fun r l => (mlpWhole2 V c : S10000x512.Idx → EReal) (ix2 r l)) j := by
  rw [final2_6, sumOut2_last V c t2_9 (by decide) (by decide)]
  refine (sumRow2_eq V c j 9 t2_9.isLt).trans ?_
  refine sum_tiles2 (fun r => (mlpWhole2 V c : S10000x512.Idx → EReal) (ix2 r j)) _ fun k hk => ?_
  unfold tileSum2
  rw [dif_pos hk]

/-- Column j of the second statistics output after the region: the column sum of the whole activation's squares. -/
theorem sqRow2 (c : Dev nD) (j : Fin 512) :
    ((dat2 V c).arrAt 7 cfg2.N : S1x512.Idx → EReal) (ix2 0 j)
      = Cert.Gin.colSumSq (fun r l => (mlpWhole2 V c : S10000x512.Idx → EReal) (ix2 r l)) j := by
  rw [final2_7, sqOut2_last V c t2_9 (by decide) (by decide)]
  refine (sqRow2_eq V c j 9 t2_9.isLt).trans ?_
  refine sum_tiles2 (fun r => (mlpWhole2 V c : S10000x512.Idx → EReal) (ix2 r j) * (mlpWhole2 V c : S10000x512.Idx → EReal) (ix2 r j)) _ fun k hk => ?_
  unfold tileSq2
  rw [dif_pos hk]

/-- The whole activation is the specification's perceptron of the whole input. -/
theorem mlpWhole2_spec (c : Dev nD) (r : Fin 10000) (j : Fin 512) :
    (mlpWhole2 V c : S10000x512.Idx → EReal) (ix2 r j)
      = Cert.Gin.mlp (fun r l => (V c (Pipeline.arrRef spec2 0) : S10000x512.Idx → EReal) (ix2 r l)) (fun l k => (V c (Pipeline.arrRef spec2 1) : S512x512.Idx → EReal) (ix2 l k))
          (fun k => (V c (Pipeline.arrRef spec2 2) : S1x512.Idx → EReal) (ix2 0 k)) (fun k j => (V c (Pipeline.arrRef spec2 3) : S512x512.Idx → EReal) (ix2 k j))
          (fun j => (V c (Pipeline.arrRef spec2 4) : S1x512.Idx → EReal) (ix2 0 j)) r j :=
  (congrFun (final2_5 V c) (ix2 r j)).symm.trans (mlpArray2_spec V c r j)

/-- The first statistics output is the column sums of the specification's perceptron of the whole input. -/
theorem sumRow2_spec (c : Dev nD) (j : Fin 512) :
    ((dat2 V c).arrAt 6 cfg2.N : S1x512.Idx → EReal) (ix2 0 j)
      = Cert.Gin.colSum (Cert.Gin.mlp (fun r l => (V c (Pipeline.arrRef spec2 0) : S10000x512.Idx → EReal) (ix2 r l)) (fun l k => (V c (Pipeline.arrRef spec2 1) : S512x512.Idx → EReal) (ix2 l k))
          (fun k => (V c (Pipeline.arrRef spec2 2) : S1x512.Idx → EReal) (ix2 0 k)) (fun k j => (V c (Pipeline.arrRef spec2 3) : S512x512.Idx → EReal) (ix2 k j))
          (fun j => (V c (Pipeline.arrRef spec2 4) : S1x512.Idx → EReal) (ix2 0 j))) j := by
  rw [sumRow2]
  exact congrArg (fun a => Cert.Gin.colSum a j) (funext fun r => funext fun l => mlpWhole2_spec V c r l)

/-- The second statistics output is the column sums of squares of the specification's perceptron of the whole input. -/
theorem sqRow2_spec (c : Dev nD) (j : Fin 512) :
    ((dat2 V c).arrAt 7 cfg2.N : S1x512.Idx → EReal) (ix2 0 j)
      = Cert.Gin.colSumSq (Cert.Gin.mlp (fun r l => (V c (Pipeline.arrRef spec2 0) : S10000x512.Idx → EReal) (ix2 r l)) (fun l k => (V c (Pipeline.arrRef spec2 1) : S512x512.Idx → EReal) (ix2 l k))
          (fun k => (V c (Pipeline.arrRef spec2 2) : S1x512.Idx → EReal) (ix2 0 k)) (fun k j => (V c (Pipeline.arrRef spec2 3) : S512x512.Idx → EReal) (ix2 k j))
          (fun j => (V c (Pipeline.arrRef spec2 4) : S1x512.Idx → EReal) (ix2 0 j))) j := by
  rw [sqRow2]
  exact congrArg (fun a => Cert.Gin.colSumSq a j) (funext fun r => funext fun l => mlpWhole2_spec V c r l)

end

end Cert.KernelIdeal.Arr

end
-- ==== Proof.KA.MlpStats4.lean ====
/-
  The two statistics rows a perceptron-with-statistics region leaves. Two scratch rows are carried from tile to tile:
  zeroed at the first tile, and at every tile each column of the first gains the tile's column sum of the activation
  and each column of the second the tile's column sum of its squares; at the last tile the two rows are copied into
  the two [1,512] outputs, written back once. Entry (p, j) of the tile stored at tile t is entry (1000 t + p, j) of the
  whole activation, so after the tenth tile column j of the first row holds the ten tiles' column sums added up from
  zero in order, which is the column sum over all 10000 rows, and likewise the second row with squares.
-/
import proofs.«100381_j2018634629568_1_alg».proof.Proof.KA.MlpArray4
import proofs.«100381_j2018634629568_1_alg».proof.Proof.KV.Stats

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open scoped BigOperators

section
variable {F : FTy → Type} [FloatOps F]
variable (V : (c : Dev nD) → (b : Ref sig .tc) → Buf (Elt F) ((c : Thread nD τ).loc b))

/-! ## The carried rows, tile by tile -/

set_option maxHeartbeats 1000000 in
/-- The carried row of column sums after the first tile. -/
theorem sumAt4_first (c : Dev nD) (t : Fin cfg4.N) (hf : t.val % 10 = 0) :
    (stateAt4 V c t.val t.isLt).2.2.2.1 = k4_pay1 (k4_pay6 (blockAt4 V c 0 t) (blockAt4 V c 1 t) (blockAt4 V c 2 t) (blockAt4 V c 3 t) (blockAt4 V c 4 t) k4_pay3) := by
  have hl : ¬t.val % 10 = 9 := by omega
  rw [stateAt4_first V c t hf hl]
  dsimp only
  exact sumFirst4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) ((firstCond4_iff t).mpr hf) (fun h => hl ((lastCond4_iff t).mp h)) (blockAt4 V c 0 t) (blockAt4 V c 1 t) (blockAt4 V c 2 t) (blockAt4 V c 3 t) (blockAt4 V c 4 t)

set_option maxHeartbeats 1000000 in
/-- The carried row of column sums after a later tile, from the row the tile before left. -/
theorem sumAt4_next (c : Dev nD) (t : Fin cfg4.N) (hf : ¬t.val % 10 = 0) :
    (stateAt4 V c t.val t.isLt).2.2.2.1 = k4_pay1 (k4_pay6 (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1) := by
  by_cases hl : t.val % 10 = 9
  · rw [stateAt4_last V c t hf hl]
    dsimp only
    exact sumLast4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2
  · rw [stateAt4_mid V c t hf hl]
    dsimp only
    exact sumMid4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) (fun h => hl ((lastCond4_iff t).mp h)) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2

set_option maxHeartbeats 1000000 in
/-- At the last tile the output row of column sums is the carried row. -/
theorem sumOut4_last (c : Dev nD) (t : Fin cfg4.N) (hf : ¬t.val % 10 = 0) (hl : t.val % 10 = 9) :
    (stateAt4 V c t.val t.isLt).2.1 = (stateAt4 V c t.val t.isLt).2.2.2.1 := by
  rw [stateAt4_last V c t hf hl]
  dsimp only
  exact (outSumLast4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2).trans
    (sumLast4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2).symm

set_option maxHeartbeats 1000000 in
/-- The carried row of column sums of squares after the first tile. -/
theorem sqAt4_first (c : Dev nD) (t : Fin cfg4.N) (hf : t.val % 10 = 0) :
    (stateAt4 V c t.val t.isLt).2.2.2.2 = k4_pay2 (k4_pay5 (blockAt4 V c 0 t) (blockAt4 V c 1 t) (blockAt4 V c 2 t) (blockAt4 V c 3 t) (blockAt4 V c 4 t)) k4_pay4 := by
  have hl : ¬t.val % 10 = 9 := by omega
  rw [stateAt4_first V c t hf hl]
  dsimp only
  exact sqFirst4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) ((firstCond4_iff t).mpr hf) (fun h => hl ((lastCond4_iff t).mp h)) (blockAt4 V c 0 t) (blockAt4 V c 1 t) (blockAt4 V c 2 t) (blockAt4 V c 3 t) (blockAt4 V c 4 t)

set_option maxHeartbeats 1000000 in
/-- The carried row of column sums of squares after a later tile, from the row the tile before left. -/
theorem sqAt4_next (c : Dev nD) (t : Fin cfg4.N) (hf : ¬t.val % 10 = 0) :
    (stateAt4 V c t.val t.isLt).2.2.2.2 = k4_pay2 (k4_pay5 (blockAt4 V c 0 t) (blockAt4 V c 1 t) (blockAt4 V c 2 t) (blockAt4 V c 3 t) (blockAt4 V c 4 t)) (stateAt4 V c (t.val - 1) (Nat.lt_of_le_of_lt (Nat.sub_le _ _) t.isLt)).2.2.2.2 := by
  by_cases hl : t.val % 10 = 9
  · rw [stateAt4_last V c t hf hl]
    dsimp only
    exact sqLast4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2
  · rw [stateAt4_mid V c t hf hl]
    dsimp only
    exact sqMid4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) (fun h => hl ((lastCond4_iff t).mp h)) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2

set_option maxHeartbeats 1000000 in
/-- At the last tile the output row of column sums of squares is the carried row. -/
theorem sqOut4_last (c : Dev nD) (t : Fin cfg4.N) (hf : ¬t.val % 10 = 0) (hl : t.val % 10 = 9) :
    (stateAt4 V c t.val t.isLt).2.2.1 = (stateAt4 V c t.val t.isLt).2.2.2.2 := by
  rw [stateAt4_last V c t hf hl]
  dsimp only
  exact (outSqLast4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2).trans
    (sqLast4_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) sc4_0 (Memref.isWhole_whole _) sc4_1 (Memref.isWhole_whole _) (fun h => hf ((firstCond4_iff t).mp h)) ((lastCond4_iff t).mpr hl) (blockAt4 V c 0 t) (blockAt4 V c 1 t) (blockAt4 V c 2 t) (blockAt4 V c 3 t) (blockAt4 V c 4 t) (stateAt4 V c (t.val - 1) (Nat.lt_of_le_of_lt (Nat.sub_le _ _) t.isLt)).2.2.2.1 (stateAt4 V c (t.val - 1) (Nat.lt_of_le_of_lt (Nat.sub_le _ _) t.isLt)).2.2.2.2).symm

/-! ## The two outputs: written back once, at the last tile -/

/-- The one write-back of statistics output 6, at the last tile, writes the row the body left there. -/
theorem flushed4_6_eq (c : Dev nD) (t : Fin cfg4.N) (hfl : (cfg4.win 6).flush t = true) :
    (dat4 V c).flushed 6 t = ((cfg4.win 6).blk t).view.read (Elt F) ((stateAt4 V c t4_9.val t4_9.isLt).2.1) := by
  have h9 : t.val % 10 = 9 := (flush4_6 t).mp hfl
  have ht : t.val < 10 := Nat.lt_of_lt_of_eq t.isLt N_4
  obtain rfl : t = t4_9 := Fin.ext (by show t.val = 9; omega)
  have e0 : win4_6.index t4_9 (0 : Fin 2) = 0 := by have := idx_facts4 t4_9; simp only [this]
  have e1 : win4_6.index t4_9 (1 : Fin 2) = 0 := by have := idx_facts4 t4_9; simp only [this]
  show (cfg4.win 6).cut (grid4.coords t4_9) ((dat4 V c).after 6 t4_9) = _
  rw [dat4_after6]
  funext y
  rw [View.read_apply]
  show ((stateAt4 V c t4_9.val t4_9.isLt).2.1 : S1x512.Idx → Elt F .f32) y
    = ((stateAt4 V c t4_9.val t4_9.isLt).2.1 : S1x512.Idx → Elt F .f32) (((cfg4.win 6).blk t4_9).view.emb y)
  refine congrArg _ ?_
  funext a
  apply Fin.ext
  match a with
  | ⟨0, _⟩ => show (y 0).val = win4_6.index t4_9 (0 : Fin 2) * 1 + 1 * (y 0).val; rw [e0]; omega
  | ⟨1, _⟩ => show (y 1).val = win4_6.index t4_9 (1 : Fin 2) * 512 + 1 * (y 1).val; rw [e1]; omega

theorem mem_blk4_6 (t : Fin cfg4.N) (i : S1x512.Idx) :
    i ∈ ((cfg4.win 6).blk t).view.set ↔ ∀ a : Fin 2, win4_6.index t a * S1x512.size a ≤ (i a).val ∧ (i a).val < win4_6.index t a * S1x512.size a + S1x512.size a := by
  show i ∈ ((View.whole main_v79_1).slice (win4_6.rect t)).set ↔ _
  rw [View.set_slice_whole, Rect.mem_set_unit]
  exact Iff.rfl

/-- The last tile's block is the whole row. -/
theorem cover4_6 (i : S1x512.Idx) : ∃ t : Fin cfg4.N, (cfg4.win 6).flush t = true ∧ i ∈ ((cfg4.win 6).blk t).view.set := by
  have hi0 : (i 0).val < 1 := idx2_lt0 i
  have hi1 : (i 1).val < 512 := idx2_lt1 i
  have e0 : win4_6.index t4_9 (0 : Fin 2) = 0 := by have := idx_facts4 t4_9; simp only [this]
  have e1 : win4_6.index t4_9 (1 : Fin 2) = 0 := by have := idx_facts4 t4_9; simp only [this]
  refine ⟨t4_9, (flush4_6 t4_9).mpr (by decide), ?_⟩
  rw [mem_blk4_6]
  intro a
  match a with
  | ⟨0, _⟩ => show win4_6.index t4_9 (0 : Fin 2) * 1 ≤ (i 0).val ∧ (i 0).val < win4_6.index t4_9 (0 : Fin 2) * 1 + 1; omega
  | ⟨1, _⟩ => show win4_6.index t4_9 (1 : Fin 2) * 512 ≤ (i 1).val ∧ (i 1).val < win4_6.index t4_9 (1 : Fin 2) * 512 + 512; omega

/-- Statistics output 6 after the region: the row the body left in its buffer at the last tile. -/
theorem final4_6 (c : Dev nD) : (dat4 V c).arrAt 6 cfg4.N = (stateAt4 V c t4_9.val t4_9.isLt).2.1 :=
  (dat4 V c).arrAt_eq_of_cover 6 ((stateAt4 V c t4_9.val t4_9.isLt).2.1) (flushed4_6_eq V c) cover4_6

/-- The one write-back of statistics output 7, at the last tile, writes the row the body left there. -/
theorem flushed4_7_eq (c : Dev nD) (t : Fin cfg4.N) (hfl : (cfg4.win 7).flush t = true) :
    (dat4 V c).flushed 7 t = ((cfg4.win 7).blk t).view.read (Elt F) ((stateAt4 V c t4_9.val t4_9.isLt).2.2.1) := by
  have h9 : t.val % 10 = 9 := (flush4_7 t).mp hfl
  have ht : t.val < 10 := Nat.lt_of_lt_of_eq t.isLt N_4
  obtain rfl : t = t4_9 := Fin.ext (by show t.val = 9; omega)
  have e0 : win4_7.index t4_9 (0 : Fin 2) = 0 := by have := idx_facts4 t4_9; simp only [this]
  have e1 : win4_7.index t4_9 (1 : Fin 2) = 0 := by have := idx_facts4 t4_9; simp only [this]
  show (cfg4.win 7).cut (grid4.coords t4_9) ((dat4 V c).after 7 t4_9) = _
  rw [dat4_after7]
  funext y
  rw [View.read_apply]
  show ((stateAt4 V c t4_9.val t4_9.isLt).2.2.1 : S1x512.Idx → Elt F .f32) y
    = ((stateAt4 V c t4_9.val t4_9.isLt).2.2.1 : S1x512.Idx → Elt F .f32) (((cfg4.win 7).blk t4_9).view.emb y)
  refine congrArg _ ?_
  funext a
  apply Fin.ext
  match a with
  | ⟨0, _⟩ => show (y 0).val = win4_7.index t4_9 (0 : Fin 2) * 1 + 1 * (y 0).val; rw [e0]; omega
  | ⟨1, _⟩ => show (y 1).val = win4_7.index t4_9 (1 : Fin 2) * 512 + 1 * (y 1).val; rw [e1]; omega

theorem mem_blk4_7 (t : Fin cfg4.N) (i : S1x512.Idx) :
    i ∈ ((cfg4.win 7).blk t).view.set ↔ ∀ a : Fin 2, win4_7.index t a * S1x512.size a ≤ (i a).val ∧ (i a).val < win4_7.index t a * S1x512.size a + S1x512.size a := by
  show i ∈ ((View.whole main_v79_2).slice (win4_7.rect t)).set ↔ _
  rw [View.set_slice_whole, Rect.mem_set_unit]
  exact Iff.rfl

/-- The last tile's block is the whole row. -/
theorem cover4_7 (i : S1x512.Idx) : ∃ t : Fin cfg4.N, (cfg4.win 7).flush t = true ∧ i ∈ ((cfg4.win 7).blk t).view.set := by
  have hi0 : (i 0).val < 1 := idx2_lt0 i
  have hi1 : (i 1).val < 512 := idx2_lt1 i
  have e0 : win4_7.index t4_9 (0 : Fin 2) = 0 := by have := idx_facts4 t4_9; simp only [this]
  have e1 : win4_7.index t4_9 (1 : Fin 2) = 0 := by have := idx_facts4 t4_9; simp only [this]
  refine ⟨t4_9, (flush4_7 t4_9).mpr (by decide), ?_⟩
  rw [mem_blk4_7]
  intro a
  match a with
  | ⟨0, _⟩ => show win4_7.index t4_9 (0 : Fin 2) * 1 ≤ (i 0).val ∧ (i 0).val < win4_7.index t4_9 (0 : Fin 2) * 1 + 1; omega
  | ⟨1, _⟩ => show win4_7.index t4_9 (1 : Fin 2) * 512 ≤ (i 1).val ∧ (i 1).val < win4_7.index t4_9 (1 : Fin 2) * 512 + 512; omega

/-- Statistics output 7 after the region: the row the body left in its buffer at the last tile. -/
theorem final4_7 (c : Dev nD) : (dat4 V c).arrAt 7 cfg4.N = (stateAt4 V c t4_9.val t4_9.isLt).2.2.1 :=
  (dat4 V c).arrAt_eq_of_cover 7 ((stateAt4 V c t4_9.val t4_9.isLt).2.2.1) (flushed4_7_eq V c) cover4_7

/-- Entry (p, j) of the tile the body stores at point t is entry (1000 t + p, j) of the whole activation. -/
theorem tileEntry4 (c : Dev nD) (t : Fin cfg4.N) (ht : t.val < 10) (p : Fin 1000) (j : Fin 512) :
    (k4_pay5 (blockAt4 V c 0 t) (blockAt4 V c 1 t) (blockAt4 V c 2 t) (blockAt4 V c 3 t) (blockAt4 V c 4 t) : S1000x512.Idx → Elt F .f32) (ix2 p j)
      = mlpWhole4 V c (ix2 ⟨1000 * t.val + p.val, by have := p.isLt; omega⟩ j) := by
  rw [wholeBlock4_1, wholeBlock4_2, wholeBlock4_3, wholeBlock4_4, inBlock4 V c t ht]
  exact (mlpWhole4_apply V c _ t.val ht p j rfl rfl).symm

end

section
variable (V : (c : Dev nD) → (b : Ref sig .tc) → Buf (Elt Ideal) ((c : Thread nD τ).loc b))

/-! ## At the ideal instance: the carried rows are running sums -/

/-- Tile k's column sum of the activation, zero past the ten tiles. -/
def tileSum4 (c : Dev nD) (j : Fin 512) (k : ℕ) : EReal :=
  if hk : k < 10 then ∑ p : Fin 1000, (mlpWhole4 V c : S10000x512.Idx → EReal) (ix2 ⟨1000 * k + p.val, by have := p.isLt; omega⟩ j) else 0

/-- The carried row after tile n holds, in column j, the first n + 1 tiles' column sums of the activation added up in order. -/
theorem sumRow4_eq (c : Dev nD) (j : Fin 512) : ∀ (n : ℕ) (hn : n < cfg4.N),
    ((stateAt4 V c n hn).2.2.2.1 : S1x512.Idx → EReal) (ix2 0 j) = ∑ k ∈ Finset.range (n + 1), tileSum4 V c j k := by
  intro n
  induction n with
  | zero =>
    intro hn
    have h := sumAt4_first V c ⟨0, hn⟩ (Nat.zero_mod _)
    rw [Finset.sum_range_one]
    refine (congrFun h (ix2 0 j)).trans ?_
    refine (Cert.Gin.Ker.k4_pay1_apply _ (ix2 0 j)).trans ?_
    refine (Cert.Gin.Ker.k4_pay6_apply _ _ _ _ _ _ 0 j).trans ?_
    rw [Cert.Gin.Ker.k4_pay3_apply 0 j, zero_add]
    unfold tileSum4
    rw [dif_pos (by decide : 0 < 10)]
    refine Finset.sum_congr rfl fun p _ => ?_
    exact tileEntry4 V c ⟨0, hn⟩ (by show (0 : ℕ) < 10; decide) p j
  | succ n ih =>
    intro hn
    have hN : n + 1 < 10 := Nat.lt_of_lt_of_eq hn N_4
    have h := sumAt4_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k4_pay1_apply _ (ix2 0 j)).trans ?_
    refine (Cert.Gin.Ker.k4_pay6_apply _ _ _ _ _ _ 0 j).trans ?_
    refine congrArg₂ (fun a b : EReal => a + b) rfl ?_
    unfold tileSum4
    rw [dif_pos hN]
    refine Finset.sum_congr rfl fun p _ => ?_
    exact tileEntry4 V c ⟨n + 1, hn⟩ hN p j

/-- Tile k's column sum of the activation's squares, zero past the ten tiles. -/
def tileSq4 (c : Dev nD) (j : Fin 512) (k : ℕ) : EReal :=
  if hk : k < 10 then ∑ p : Fin 1000, (mlpWhole4 V c : S10000x512.Idx → EReal) (ix2 ⟨1000 * k + p.val, by have := p.isLt; omega⟩ j) * (mlpWhole4 V c : S10000x512.Idx → EReal) (ix2 ⟨1000 * k + p.val, by have := p.isLt; omega⟩ j) else 0

/-- The carried row after tile n holds, in column j, the first n + 1 tiles' column sums of the activation's squares added up in order. -/
theorem sqRow4_eq (c : Dev nD) (j : Fin 512) : ∀ (n : ℕ) (hn : n < cfg4.N),
    ((stateAt4 V c n hn).2.2.2.2 : S1x512.Idx → EReal) (ix2 0 j) = ∑ k ∈ Finset.range (n + 1), tileSq4 V c j k := by
  intro n
  induction n with
  | zero =>
    intro hn
    have h := sqAt4_first V c ⟨0, hn⟩ (Nat.zero_mod _)
    rw [Finset.sum_range_one]
    refine (congrFun h (ix2 0 j)).trans ?_
    refine (Cert.Gin.Ker.k4_pay2_apply _ _ 0 j).trans ?_
    rw [Cert.Gin.Ker.k4_pay4_apply 0 j, zero_add]
    unfold tileSq4
    rw [dif_pos (by decide : 0 < 10)]
    refine Finset.sum_congr rfl fun p _ => ?_
    exact congrArg₂ (fun a b : EReal => a * b) (tileEntry4 V c ⟨0, hn⟩ (by show (0 : ℕ) < 10; decide) p j) (tileEntry4 V c ⟨0, hn⟩ (by show (0 : ℕ) < 10; decide) p j)
  | succ n ih =>
    intro hn
    have hN : n + 1 < 10 := Nat.lt_of_lt_of_eq hn N_4
    have h := sqAt4_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k4_pay2_apply _ _ 0 j).trans ?_
    refine congrArg₂ (fun a b : EReal => a + b) rfl ?_
    unfold tileSq4
    rw [dif_pos hN]
    refine Finset.sum_congr rfl fun p _ => ?_
    exact congrArg₂ (fun a b : EReal => a * b) (tileEntry4 V c ⟨n + 1, hn⟩ hN p j) (tileEntry4 V c ⟨n + 1, hn⟩ hN p j)

/-- The ten tiles' sums added up in order are the sum over all 10000 rows. -/
theorem sum_tiles4 (f : Fin 10000 → EReal) (g : ℕ → EReal)
    (hg : ∀ (k : ℕ) (hk : k < 10), g k = ∑ p : Fin 1000, f ⟨1000 * k + p.val, by have := p.isLt; omega⟩) :
    ∑ k ∈ Finset.range (9 + 1), g k = ∑ r : Fin 10000, f r := by
  rw [Cert.Gin.sum_rows_tiles f, Finset.sum_range]
  exact Finset.sum_congr rfl fun t _ => hg t.val t.isLt

/-- Column j of the first statistics output after the region: the column sum of the whole activation. -/
theorem sumRow4 (c : Dev nD) (j : Fin 512) :
    ((dat4 V c).arrAt 6 cfg4.N : S1x512.Idx → EReal) (ix2 0 j)
      = Cert.Gin.colSum (fun r l => (mlpWhole4 V c : S10000x512.Idx → EReal) (ix2 r l)) j := by
  rw [final4_6, sumOut4_last V c t4_9 (by decide) (by decide)]
  refine (sumRow4_eq V c j 9 t4_9.isLt).trans ?_
  refine sum_tiles4 (fun r => (mlpWhole4 V c : S10000x512.Idx → EReal) (ix2 r j)) _ fun k hk => ?_
  unfold tileSum4
  rw [dif_pos hk]

/-- Column j of the second statistics output after the region: the column sum of the whole activation's squares. -/
theorem sqRow4 (c : Dev nD) (j : Fin 512) :
    ((dat4 V c).arrAt 7 cfg4.N : S1x512.Idx → EReal) (ix2 0 j)
      = Cert.Gin.colSumSq (fun r l => (mlpWhole4 V c : S10000x512.Idx → EReal) (ix2 r l)) j := by
  rw [final4_7, sqOut4_last V c t4_9 (by decide) (by decide)]
  refine (sqRow4_eq V c j 9 t4_9.isLt).trans ?_
  refine sum_tiles4 (fun r => (mlpWhole4 V c : S10000x512.Idx → EReal) (ix2 r j) * (mlpWhole4 V c : S10000x512.Idx → EReal) (ix2 r j)) _ fun k hk => ?_
  unfold tileSq4
  rw [dif_pos hk]

/-- The whole activation is the specification's perceptron of the whole input. -/
theorem mlpWhole4_spec (c : Dev nD) (r : Fin 10000) (j : Fin 512) :
    (mlpWhole4 V c : S10000x512.Idx → EReal) (ix2 r j)
      = Cert.Gin.mlp (fun r l => (V c (Pipeline.arrRef spec4 0) : S10000x512.Idx → EReal) (ix2 r l)) (fun l k => (V c (Pipeline.arrRef spec4 1) : S512x512.Idx → EReal) (ix2 l k))
          (fun k => (V c (Pipeline.arrRef spec4 2) : S1x512.Idx → EReal) (ix2 0 k)) (fun k j => (V c (Pipeline.arrRef spec4 3) : S512x512.Idx → EReal) (ix2 k j))
          (fun j => (V c (Pipeline.arrRef spec4 4) : S1x512.Idx → EReal) (ix2 0 j)) r j :=
  (congrFun (final4_5 V c) (ix2 r j)).symm.trans (mlpArray4_spec V c r j)

/-- The first statistics output is the column sums of the specification's perceptron of the whole input. -/
theorem sumRow4_spec (c : Dev nD) (j : Fin 512) :
    ((dat4 V c).arrAt 6 cfg4.N : S1x512.Idx → EReal) (ix2 0 j)
      = Cert.Gin.colSum (Cert.Gin.mlp (fun r l => (V c (Pipeline.arrRef spec4 0) : S10000x512.Idx → EReal) (ix2 r l)) (fun l k => (V c (Pipeline.arrRef spec4 1) : S512x512.Idx → EReal) (ix2 l k))
          (fun k => (V c (Pipeline.arrRef spec4 2) : S1x512.Idx → EReal) (ix2 0 k)) (fun k j => (V c (Pipeline.arrRef spec4 3) : S512x512.Idx → EReal) (ix2 k j))
          (fun j => (V c (Pipeline.arrRef spec4 4) : S1x512.Idx → EReal) (ix2 0 j))) j := by
  rw [sumRow4]
  exact congrArg (fun a => Cert.Gin.colSum a j) (funext fun r => funext fun l => mlpWhole4_spec V c r l)

/-- The second statistics output is the column sums of squares of the specification's perceptron of the whole input. -/
theorem sqRow4_spec (c : Dev nD) (j : Fin 512) :
    ((dat4 V c).arrAt 7 cfg4.N : S1x512.Idx → EReal) (ix2 0 j)
      = Cert.Gin.colSumSq (Cert.Gin.mlp (fun r l => (V c (Pipeline.arrRef spec4 0) : S10000x512.Idx → EReal) (ix2 r l)) (fun l k => (V c (Pipeline.arrRef spec4 1) : S512x512.Idx → EReal) (ix2 l k))
          (fun k => (V c (Pipeline.arrRef spec4 2) : S1x512.Idx → EReal) (ix2 0 k)) (fun k j => (V c (Pipeline.arrRef spec4 3) : S512x512.Idx → EReal) (ix2 k j))
          (fun j => (V c (Pipeline.arrRef spec4 4) : S1x512.Idx → EReal) (ix2 0 j))) j := by
  rw [sqRow4]
  exact congrArg (fun a => Cert.Gin.colSumSq a j) (funext fun r => funext fun l => mlpWhole4_spec V c r l)

end

end Cert.KernelIdeal.Arr

end
-- ==== Proof.KA.MlpStats6.lean ====
/-
  The two statistics rows a perceptron-with-statistics region leaves. Two scratch rows are carried from tile to tile:
  zeroed at the first tile, and at every tile each column of the first gains the tile's column sum of the activation
  and each column of the second the tile's column sum of its squares; at the last tile the two rows are copied into
  the two [1,512] outputs, written back once. Entry (p, j) of the tile stored at tile t is entry (1000 t + p, j) of the
  whole activation, so after the tenth tile column j of the first row holds the ten tiles' column sums added up from
  zero in order, which is the column sum over all 10000 rows, and likewise the second row with squares.
-/
import proofs.«100381_j2018634629568_1_alg».proof.Proof.KA.MlpArray6
import proofs.«100381_j2018634629568_1_alg».proof.Proof.KV.Stats

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open scoped BigOperators

section
variable {F : FTy → Type} [FloatOps F]
variable (V : (c : Dev nD) → (b : Ref sig .tc) → Buf (Elt F) ((c : Thread nD τ).loc b))

/-! ## The carried rows, tile by tile -/

set_option maxHeartbeats 1000000 in
/-- The carried row of column sums after the first tile. -/
theorem sumAt6_first (c : Dev nD) (t : Fin cfg6.N) (hf : t.val % 10 = 0) :
    (stateAt6 V c t.val t.isLt).2.2.2.1 = k6_pay1 (k6_pay6 (blockAt6 V c 0 t) (blockAt6 V c 1 t) (blockAt6 V c 2 t) (blockAt6 V c 3 t) (blockAt6 V c 4 t) k6_pay3) := by
  have hl : ¬t.val % 10 = 9 := by omega
  rw [stateAt6_first V c t hf hl]
  dsimp only
  exact sumFirst6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) ((firstCond6_iff t).mpr hf) (fun h => hl ((lastCond6_iff t).mp h)) (blockAt6 V c 0 t) (blockAt6 V c 1 t) (blockAt6 V c 2 t) (blockAt6 V c 3 t) (blockAt6 V c 4 t)

set_option maxHeartbeats 1000000 in
/-- The carried row of column sums after a later tile, from the row the tile before left. -/
theorem sumAt6_next (c : Dev nD) (t : Fin cfg6.N) (hf : ¬t.val % 10 = 0) :
    (stateAt6 V c t.val t.isLt).2.2.2.1 = k6_pay1 (k6_pay6 (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1) := by
  by_cases hl : t.val % 10 = 9
  · rw [stateAt6_last V c t hf hl]
    dsimp only
    exact sumLast6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2
  · rw [stateAt6_mid V c t hf hl]
    dsimp only
    exact sumMid6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) (fun h => hl ((lastCond6_iff t).mp h)) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2

set_option maxHeartbeats 1000000 in
/-- At the last tile the output row of column sums is the carried row. -/
theorem sumOut6_last (c : Dev nD) (t : Fin cfg6.N) (hf : ¬t.val % 10 = 0) (hl : t.val % 10 = 9) :
    (stateAt6 V c t.val t.isLt).2.1 = (stateAt6 V c t.val t.isLt).2.2.2.1 := by
  rw [stateAt6_last V c t hf hl]
  dsimp only
  exact (outSumLast6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2).trans
    (sumLast6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2).symm

set_option maxHeartbeats 1000000 in
/-- The carried row of column sums of squares after the first tile. -/
theorem sqAt6_first (c : Dev nD) (t : Fin cfg6.N) (hf : t.val % 10 = 0) :
    (stateAt6 V c t.val t.isLt).2.2.2.2 = k6_pay2 (k6_pay5 (blockAt6 V c 0 t) (blockAt6 V c 1 t) (blockAt6 V c 2 t) (blockAt6 V c 3 t) (blockAt6 V c 4 t)) k6_pay4 := by
  have hl : ¬t.val % 10 = 9 := by omega
  rw [stateAt6_first V c t hf hl]
  dsimp only
  exact sqFirst6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) ((firstCond6_iff t).mpr hf) (fun h => hl ((lastCond6_iff t).mp h)) (blockAt6 V c 0 t) (blockAt6 V c 1 t) (blockAt6 V c 2 t) (blockAt6 V c 3 t) (blockAt6 V c 4 t)

set_option maxHeartbeats 1000000 in
/-- The carried row of column sums of squares after a later tile, from the row the tile before left. -/
theorem sqAt6_next (c : Dev nD) (t : Fin cfg6.N) (hf : ¬t.val % 10 = 0) :
    (stateAt6 V c t.val t.isLt).2.2.2.2 = k6_pay2 (k6_pay5 (blockAt6 V c 0 t) (blockAt6 V c 1 t) (blockAt6 V c 2 t) (blockAt6 V c 3 t) (blockAt6 V c 4 t)) (stateAt6 V c (t.val - 1) (Nat.lt_of_le_of_lt (Nat.sub_le _ _) t.isLt)).2.2.2.2 := by
  by_cases hl : t.val % 10 = 9
  · rw [stateAt6_last V c t hf hl]
    dsimp only
    exact sqLast6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2
  · rw [stateAt6_mid V c t hf hl]
    dsimp only
    exact sqMid6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) (fun h => hl ((lastCond6_iff t).mp h)) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2

set_option maxHeartbeats 1000000 in
/-- At the last tile the output row of column sums of squares is the carried row. -/
theorem sqOut6_last (c : Dev nD) (t : Fin cfg6.N) (hf : ¬t.val % 10 = 0) (hl : t.val % 10 = 9) :
    (stateAt6 V c t.val t.isLt).2.2.1 = (stateAt6 V c t.val t.isLt).2.2.2.2 := by
  rw [stateAt6_last V c t hf hl]
  dsimp only
  exact (outSqLast6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2).trans
    (sqLast6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) sc6_0 (Memref.isWhole_whole _) sc6_1 (Memref.isWhole_whole _) (fun h => hf ((firstCond6_iff t).mp h)) ((lastCond6_iff t).mpr hl) (blockAt6 V c 0 t) (blockAt6 V c 1 t) (blockAt6 V c 2 t) (blockAt6 V c 3 t) (blockAt6 V c 4 t) (stateAt6 V c (t.val - 1) (Nat.lt_of_le_of_lt (Nat.sub_le _ _) t.isLt)).2.2.2.1 (stateAt6 V c (t.val - 1) (Nat.lt_of_le_of_lt (Nat.sub_le _ _) t.isLt)).2.2.2.2).symm

/-! ## The two outputs: written back once, at the last tile -/

/-- The one write-back of statistics output 6, at the last tile, writes the row the body left there. -/
theorem flushed6_6_eq (c : Dev nD) (t : Fin cfg6.N) (hfl : (cfg6.win 6).flush t = true) :
    (dat6 V c).flushed 6 t = ((cfg6.win 6).blk t).view.read (Elt F) ((stateAt6 V c t6_9.val t6_9.isLt).2.1) := by
  have h9 : t.val % 10 = 9 := (flush6_6 t).mp hfl
  have ht : t.val < 10 := Nat.lt_of_lt_of_eq t.isLt N_6
  obtain rfl : t = t6_9 := Fin.ext (by show t.val = 9; omega)
  have e0 : win6_6.index t6_9 (0 : Fin 2) = 0 := by have := idx_facts6 t6_9; simp only [this]
  have e1 : win6_6.index t6_9 (1 : Fin 2) = 0 := by have := idx_facts6 t6_9; simp only [this]
  show (cfg6.win 6).cut (grid6.coords t6_9) ((dat6 V c).after 6 t6_9) = _
  rw [dat6_after6]
  funext y
  rw [View.read_apply]
  show ((stateAt6 V c t6_9.val t6_9.isLt).2.1 : S1x512.Idx → Elt F .f32) y
    = ((stateAt6 V c t6_9.val t6_9.isLt).2.1 : S1x512.Idx → Elt F .f32) (((cfg6.win 6).blk t6_9).view.emb y)
  refine congrArg _ ?_
  funext a
  apply Fin.ext
  match a with
  | ⟨0, _⟩ => show (y 0).val = win6_6.index t6_9 (0 : Fin 2) * 1 + 1 * (y 0).val; rw [e0]; omega
  | ⟨1, _⟩ => show (y 1).val = win6_6.index t6_9 (1 : Fin 2) * 512 + 1 * (y 1).val; rw [e1]; omega

theorem mem_blk6_6 (t : Fin cfg6.N) (i : S1x512.Idx) :
    i ∈ ((cfg6.win 6).blk t).view.set ↔ ∀ a : Fin 2, win6_6.index t a * S1x512.size a ≤ (i a).val ∧ (i a).val < win6_6.index t a * S1x512.size a + S1x512.size a := by
  show i ∈ ((View.whole main_v108_1).slice (win6_6.rect t)).set ↔ _
  rw [View.set_slice_whole, Rect.mem_set_unit]
  exact Iff.rfl

/-- The last tile's block is the whole row. -/
theorem cover6_6 (i : S1x512.Idx) : ∃ t : Fin cfg6.N, (cfg6.win 6).flush t = true ∧ i ∈ ((cfg6.win 6).blk t).view.set := by
  have hi0 : (i 0).val < 1 := idx2_lt0 i
  have hi1 : (i 1).val < 512 := idx2_lt1 i
  have e0 : win6_6.index t6_9 (0 : Fin 2) = 0 := by have := idx_facts6 t6_9; simp only [this]
  have e1 : win6_6.index t6_9 (1 : Fin 2) = 0 := by have := idx_facts6 t6_9; simp only [this]
  refine ⟨t6_9, (flush6_6 t6_9).mpr (by decide), ?_⟩
  rw [mem_blk6_6]
  intro a
  match a with
  | ⟨0, _⟩ => show win6_6.index t6_9 (0 : Fin 2) * 1 ≤ (i 0).val ∧ (i 0).val < win6_6.index t6_9 (0 : Fin 2) * 1 + 1; omega
  | ⟨1, _⟩ => show win6_6.index t6_9 (1 : Fin 2) * 512 ≤ (i 1).val ∧ (i 1).val < win6_6.index t6_9 (1 : Fin 2) * 512 + 512; omega

/-- Statistics output 6 after the region: the row the body left in its buffer at the last tile. -/
theorem final6_6 (c : Dev nD) : (dat6 V c).arrAt 6 cfg6.N = (stateAt6 V c t6_9.val t6_9.isLt).2.1 :=
  (dat6 V c).arrAt_eq_of_cover 6 ((stateAt6 V c t6_9.val t6_9.isLt).2.1) (flushed6_6_eq V c) cover6_6

/-- The one write-back of statistics output 7, at the last tile, writes the row the body left there. -/
theorem flushed6_7_eq (c : Dev nD) (t : Fin cfg6.N) (hfl : (cfg6.win 7).flush t = true) :
    (dat6 V c).flushed 7 t = ((cfg6.win 7).blk t).view.read (Elt F) ((stateAt6 V c t6_9.val t6_9.isLt).2.2.1) := by
  have h9 : t.val % 10 = 9 := (flush6_7 t).mp hfl
  have ht : t.val < 10 := Nat.lt_of_lt_of_eq t.isLt N_6
  obtain rfl : t = t6_9 := Fin.ext (by show t.val = 9; omega)
  have e0 : win6_7.index t6_9 (0 : Fin 2) = 0 := by have := idx_facts6 t6_9; simp only [this]
  have e1 : win6_7.index t6_9 (1 : Fin 2) = 0 := by have := idx_facts6 t6_9; simp only [this]
  show (cfg6.win 7).cut (grid6.coords t6_9) ((dat6 V c).after 7 t6_9) = _
  rw [dat6_after7]
  funext y
  rw [View.read_apply]
  show ((stateAt6 V c t6_9.val t6_9.isLt).2.2.1 : S1x512.Idx → Elt F .f32) y
    = ((stateAt6 V c t6_9.val t6_9.isLt).2.2.1 : S1x512.Idx → Elt F .f32) (((cfg6.win 7).blk t6_9).view.emb y)
  refine congrArg _ ?_
  funext a
  apply Fin.ext
  match a with
  | ⟨0, _⟩ => show (y 0).val = win6_7.index t6_9 (0 : Fin 2) * 1 + 1 * (y 0).val; rw [e0]; omega
  | ⟨1, _⟩ => show (y 1).val = win6_7.index t6_9 (1 : Fin 2) * 512 + 1 * (y 1).val; rw [e1]; omega

theorem mem_blk6_7 (t : Fin cfg6.N) (i : S1x512.Idx) :
    i ∈ ((cfg6.win 7).blk t).view.set ↔ ∀ a : Fin 2, win6_7.index t a * S1x512.size a ≤ (i a).val ∧ (i a).val < win6_7.index t a * S1x512.size a + S1x512.size a := by
  show i ∈ ((View.whole main_v108_2).slice (win6_7.rect t)).set ↔ _
  rw [View.set_slice_whole, Rect.mem_set_unit]
  exact Iff.rfl

/-- The last tile's block is the whole row. -/
theorem cover6_7 (i : S1x512.Idx) : ∃ t : Fin cfg6.N, (cfg6.win 7).flush t = true ∧ i ∈ ((cfg6.win 7).blk t).view.set := by
  have hi0 : (i 0).val < 1 := idx2_lt0 i
  have hi1 : (i 1).val < 512 := idx2_lt1 i
  have e0 : win6_7.index t6_9 (0 : Fin 2) = 0 := by have := idx_facts6 t6_9; simp only [this]
  have e1 : win6_7.index t6_9 (1 : Fin 2) = 0 := by have := idx_facts6 t6_9; simp only [this]
  refine ⟨t6_9, (flush6_7 t6_9).mpr (by decide), ?_⟩
  rw [mem_blk6_7]
  intro a
  match a with
  | ⟨0, _⟩ => show win6_7.index t6_9 (0 : Fin 2) * 1 ≤ (i 0).val ∧ (i 0).val < win6_7.index t6_9 (0 : Fin 2) * 1 + 1; omega
  | ⟨1, _⟩ => show win6_7.index t6_9 (1 : Fin 2) * 512 ≤ (i 1).val ∧ (i 1).val < win6_7.index t6_9 (1 : Fin 2) * 512 + 512; omega

/-- Statistics output 7 after the region: the row the body left in its buffer at the last tile. -/
theorem final6_7 (c : Dev nD) : (dat6 V c).arrAt 7 cfg6.N = (stateAt6 V c t6_9.val t6_9.isLt).2.2.1 :=
  (dat6 V c).arrAt_eq_of_cover 7 ((stateAt6 V c t6_9.val t6_9.isLt).2.2.1) (flushed6_7_eq V c) cover6_7

/-- Entry (p, j) of the tile the body stores at point t is entry (1000 t + p, j) of the whole activation. -/
theorem tileEntry6 (c : Dev nD) (t : Fin cfg6.N) (ht : t.val < 10) (p : Fin 1000) (j : Fin 512) :
    (k6_pay5 (blockAt6 V c 0 t) (blockAt6 V c 1 t) (blockAt6 V c 2 t) (blockAt6 V c 3 t) (blockAt6 V c 4 t) : S1000x512.Idx → Elt F .f32) (ix2 p j)
      = mlpWhole6 V c (ix2 ⟨1000 * t.val + p.val, by have := p.isLt; omega⟩ j) := by
  rw [wholeBlock6_1, wholeBlock6_2, wholeBlock6_3, wholeBlock6_4, inBlock6 V c t ht]
  exact (mlpWhole6_apply V c _ t.val ht p j rfl rfl).symm

end

section
variable (V : (c : Dev nD) → (b : Ref sig .tc) → Buf (Elt Ideal) ((c : Thread nD τ).loc b))

/-! ## At the ideal instance: the carried rows are running sums -/

/-- Tile k's column sum of the activation, zero past the ten tiles. -/
def tileSum6 (c : Dev nD) (j : Fin 512) (k : ℕ) : EReal :=
  if hk : k < 10 then ∑ p : Fin 1000, (mlpWhole6 V c : S10000x512.Idx → EReal) (ix2 ⟨1000 * k + p.val, by have := p.isLt; omega⟩ j) else 0

/-- The carried row after tile n holds, in column j, the first n + 1 tiles' column sums of the activation added up in order. -/
theorem sumRow6_eq (c : Dev nD) (j : Fin 512) : ∀ (n : ℕ) (hn : n < cfg6.N),
    ((stateAt6 V c n hn).2.2.2.1 : S1x512.Idx → EReal) (ix2 0 j) = ∑ k ∈ Finset.range (n + 1), tileSum6 V c j k := by
  intro n
  induction n with
  | zero =>
    intro hn
    have h := sumAt6_first V c ⟨0, hn⟩ (Nat.zero_mod _)
    rw [Finset.sum_range_one]
    refine (congrFun h (ix2 0 j)).trans ?_
    refine (Cert.Gin.Ker.k6_pay1_apply _ (ix2 0 j)).trans ?_
    refine (Cert.Gin.Ker.k6_pay6_apply _ _ _ _ _ _ 0 j).trans ?_
    rw [Cert.Gin.Ker.k6_pay3_apply 0 j, zero_add]
    unfold tileSum6
    rw [dif_pos (by decide : 0 < 10)]
    refine Finset.sum_congr rfl fun p _ => ?_
    exact tileEntry6 V c ⟨0, hn⟩ (by show (0 : ℕ) < 10; decide) p j
  | succ n ih =>
    intro hn
    have hN : n + 1 < 10 := Nat.lt_of_lt_of_eq hn N_6
    have h := sumAt6_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k6_pay1_apply _ (ix2 0 j)).trans ?_
    refine (Cert.Gin.Ker.k6_pay6_apply _ _ _ _ _ _ 0 j).trans ?_
    refine congrArg₂ (fun a b : EReal => a + b) rfl ?_
    unfold tileSum6
    rw [dif_pos hN]
    refine Finset.sum_congr rfl fun p _ => ?_
    exact tileEntry6 V c ⟨n + 1, hn⟩ hN p j

/-- Tile k's column sum of the activation's squares, zero past the ten tiles. -/
def tileSq6 (c : Dev nD) (j : Fin 512) (k : ℕ) : EReal :=
  if hk : k < 10 then ∑ p : Fin 1000, (mlpWhole6 V c : S10000x512.Idx → EReal) (ix2 ⟨1000 * k + p.val, by have := p.isLt; omega⟩ j) * (mlpWhole6 V c : S10000x512.Idx → EReal) (ix2 ⟨1000 * k + p.val, by have := p.isLt; omega⟩ j) else 0

/-- The carried row after tile n holds, in column j, the first n + 1 tiles' column sums of the activation's squares added up in order. -/
theorem sqRow6_eq (c : Dev nD) (j : Fin 512) : ∀ (n : ℕ) (hn : n < cfg6.N),
    ((stateAt6 V c n hn).2.2.2.2 : S1x512.Idx → EReal) (ix2 0 j) = ∑ k ∈ Finset.range (n + 1), tileSq6 V c j k := by
  intro n
  induction n with
  | zero =>
    intro hn
    have h := sqAt6_first V c ⟨0, hn⟩ (Nat.zero_mod _)
    rw [Finset.sum_range_one]
    refine (congrFun h (ix2 0 j)).trans ?_
    refine (Cert.Gin.Ker.k6_pay2_apply _ _ 0 j).trans ?_
    rw [Cert.Gin.Ker.k6_pay4_apply 0 j, zero_add]
    unfold tileSq6
    rw [dif_pos (by decide : 0 < 10)]
    refine Finset.sum_congr rfl fun p _ => ?_
    exact congrArg₂ (fun a b : EReal => a * b) (tileEntry6 V c ⟨0, hn⟩ (by show (0 : ℕ) < 10; decide) p j) (tileEntry6 V c ⟨0, hn⟩ (by show (0 : ℕ) < 10; decide) p j)
  | succ n ih =>
    intro hn
    have hN : n + 1 < 10 := Nat.lt_of_lt_of_eq hn N_6
    have h := sqAt6_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k6_pay2_apply _ _ 0 j).trans ?_
    refine congrArg₂ (fun a b : EReal => a + b) rfl ?_
    unfold tileSq6
    rw [dif_pos hN]
    refine Finset.sum_congr rfl fun p _ => ?_
    exact congrArg₂ (fun a b : EReal => a * b) (tileEntry6 V c ⟨n + 1, hn⟩ hN p j) (tileEntry6 V c ⟨n + 1, hn⟩ hN p j)

/-- The ten tiles' sums added up in order are the sum over all 10000 rows. -/
theorem sum_tiles6 (f : Fin 10000 → EReal) (g : ℕ → EReal)
    (hg : ∀ (k : ℕ) (hk : k < 10), g k = ∑ p : Fin 1000, f ⟨1000 * k + p.val, by have := p.isLt; omega⟩) :
    ∑ k ∈ Finset.range (9 + 1), g k = ∑ r : Fin 10000, f r := by
  rw [Cert.Gin.sum_rows_tiles f, Finset.sum_range]
  exact Finset.sum_congr rfl fun t _ => hg t.val t.isLt

/-- Column j of the first statistics output after the region: the column sum of the whole activation. -/
theorem sumRow6 (c : Dev nD) (j : Fin 512) :
    ((dat6 V c).arrAt 6 cfg6.N : S1x512.Idx → EReal) (ix2 0 j)
      = Cert.Gin.colSum (fun r l => (mlpWhole6 V c : S10000x512.Idx → EReal) (ix2 r l)) j := by
  rw [final6_6, sumOut6_last V c t6_9 (by decide) (by decide)]
  refine (sumRow6_eq V c j 9 t6_9.isLt).trans ?_
  refine sum_tiles6 (fun r => (mlpWhole6 V c : S10000x512.Idx → EReal) (ix2 r j)) _ fun k hk => ?_
  unfold tileSum6
  rw [dif_pos hk]

/-- Column j of the second statistics output after the region: the column sum of the whole activation's squares. -/
theorem sqRow6 (c : Dev nD) (j : Fin 512) :
    ((dat6 V c).arrAt 7 cfg6.N : S1x512.Idx → EReal) (ix2 0 j)
      = Cert.Gin.colSumSq (fun r l => (mlpWhole6 V c : S10000x512.Idx → EReal) (ix2 r l)) j := by
  rw [final6_7, sqOut6_last V c t6_9 (by decide) (by decide)]
  refine (sqRow6_eq V c j 9 t6_9.isLt).trans ?_
  refine sum_tiles6 (fun r => (mlpWhole6 V c : S10000x512.Idx → EReal) (ix2 r j) * (mlpWhole6 V c : S10000x512.Idx → EReal) (ix2 r j)) _ fun k hk => ?_
  unfold tileSq6
  rw [dif_pos hk]

/-- The whole activation is the specification's perceptron of the whole input. -/
theorem mlpWhole6_spec (c : Dev nD) (r : Fin 10000) (j : Fin 512) :
    (mlpWhole6 V c : S10000x512.Idx → EReal) (ix2 r j)
      = Cert.Gin.mlp (fun r l => (V c (Pipeline.arrRef spec6 0) : S10000x512.Idx → EReal) (ix2 r l)) (fun l k => (V c (Pipeline.arrRef spec6 1) : S512x512.Idx → EReal) (ix2 l k))
          (fun k => (V c (Pipeline.arrRef spec6 2) : S1x512.Idx → EReal) (ix2 0 k)) (fun k j => (V c (Pipeline.arrRef spec6 3) : S512x512.Idx → EReal) (ix2 k j))
          (fun j => (V c (Pipeline.arrRef spec6 4) : S1x512.Idx → EReal) (ix2 0 j)) r j :=
  (congrFun (final6_5 V c) (ix2 r j)).symm.trans (mlpArray6_spec V c r j)

/-- The first statistics output is the column sums of the specification's perceptron of the whole input. -/
theorem sumRow6_spec (c : Dev nD) (j : Fin 512) :
    ((dat6 V c).arrAt 6 cfg6.N : S1x512.Idx → EReal) (ix2 0 j)
      = Cert.Gin.colSum (Cert.Gin.mlp (fun r l => (V c (Pipeline.arrRef spec6 0) : S10000x512.Idx → EReal) (ix2 r l)) (fun l k => (V c (Pipeline.arrRef spec6 1) : S512x512.Idx → EReal) (ix2 l k))
          (fun k => (V c (Pipeline.arrRef spec6 2) : S1x512.Idx → EReal) (ix2 0 k)) (fun k j => (V c (Pipeline.arrRef spec6 3) : S512x512.Idx → EReal) (ix2 k j))
          (fun j => (V c (Pipeline.arrRef spec6 4) : S1x512.Idx → EReal) (ix2 0 j))) j := by
  rw [sumRow6]
  exact congrArg (fun a => Cert.Gin.colSum a j) (funext fun r => funext fun l => mlpWhole6_spec V c r l)

/-- The second statistics output is the column sums of squares of the specification's perceptron of the whole input. -/
theorem sqRow6_spec (c : Dev nD) (j : Fin 512) :
    ((dat6 V c).arrAt 7 cfg6.N : S1x512.Idx → EReal) (ix2 0 j)
      = Cert.Gin.colSumSq (Cert.Gin.mlp (fun r l => (V c (Pipeline.arrRef spec6 0) : S10000x512.Idx → EReal) (ix2 r l)) (fun l k => (V c (Pipeline.arrRef spec6 1) : S512x512.Idx → EReal) (ix2 l k))
          (fun k => (V c (Pipeline.arrRef spec6 2) : S1x512.Idx → EReal) (ix2 0 k)) (fun k j => (V c (Pipeline.arrRef spec6 3) : S512x512.Idx → EReal) (ix2 k j))
          (fun j => (V c (Pipeline.arrRef spec6 4) : S1x512.Idx → EReal) (ix2 0 j))) j := by
  rw [sqRow6]
  exact congrArg (fun a => Cert.Gin.colSumSq a j) (funext fun r => funext fun l => mlpWhole6_spec V c r l)

end

end Cert.KernelIdeal.Arr

end
-- ==== Proof.KA.MlpStats8.lean ====
/-
  The two statistics rows a perceptron-with-statistics region leaves. Two scratch rows are carried from tile to tile:
  zeroed at the first tile, and at every tile each column of the first gains the tile's column sum of the activation
  and each column of the second the tile's column sum of its squares; at the last tile the two rows are copied into
  the two [1,512] outputs, written back once. Entry (p, j) of the tile stored at tile t is entry (1000 t + p, j) of the
  whole activation, so after the tenth tile column j of the first row holds the ten tiles' column sums added up from
  zero in order, which is the column sum over all 10000 rows, and likewise the second row with squares.
-/
import proofs.«100381_j2018634629568_1_alg».proof.Proof.KA.MlpArray8
import proofs.«100381_j2018634629568_1_alg».proof.Proof.KV.Stats

set_option maxRecDepth 16384

noncomputable section

namespace Cert.KernelIdeal.Arr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen
open scoped BigOperators

section
variable {F : FTy → Type} [FloatOps F]
variable (V : (c : Dev nD) → (b : Ref sig .tc) → Buf (Elt F) ((c : Thread nD τ).loc b))

/-! ## The carried rows, tile by tile -/

set_option maxHeartbeats 1000000 in
/-- The carried row of column sums after the first tile. -/
theorem sumAt8_first (c : Dev nD) (t : Fin cfg8.N) (hf : t.val % 10 = 0) :
    (stateAt8 V c t.val t.isLt).2.2.2.1 = k8_pay1 (k8_pay6 (blockAt8 V c 0 t) (blockAt8 V c 1 t) (blockAt8 V c 2 t) (blockAt8 V c 3 t) (blockAt8 V c 4 t) k8_pay3) := by
  have hl : ¬t.val % 10 = 9 := by omega
  rw [stateAt8_first V c t hf hl]
  dsimp only
  exact sumFirst8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) ((firstCond8_iff t).mpr hf) (fun h => hl ((lastCond8_iff t).mp h)) (blockAt8 V c 0 t) (blockAt8 V c 1 t) (blockAt8 V c 2 t) (blockAt8 V c 3 t) (blockAt8 V c 4 t)

set_option maxHeartbeats 1000000 in
/-- The carried row of column sums after a later tile, from the row the tile before left. -/
theorem sumAt8_next (c : Dev nD) (t : Fin cfg8.N) (hf : ¬t.val % 10 = 0) :
    (stateAt8 V c t.val t.isLt).2.2.2.1 = k8_pay1 (k8_pay6 (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1) := by
  by_cases hl : t.val % 10 = 9
  · rw [stateAt8_last V c t hf hl]
    dsimp only
    exact sumLast8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2
  · rw [stateAt8_mid V c t hf hl]
    dsimp only
    exact sumMid8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) (fun h => hl ((lastCond8_iff t).mp h)) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2

set_option maxHeartbeats 1000000 in
/-- At the last tile the output row of column sums is the carried row. -/
theorem sumOut8_last (c : Dev nD) (t : Fin cfg8.N) (hf : ¬t.val % 10 = 0) (hl : t.val % 10 = 9) :
    (stateAt8 V c t.val t.isLt).2.1 = (stateAt8 V c t.val t.isLt).2.2.2.1 := by
  rw [stateAt8_last V c t hf hl]
  dsimp only
  exact (outSumLast8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2).trans
    (sumLast8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2).symm

set_option maxHeartbeats 1000000 in
/-- The carried row of column sums of squares after the first tile. -/
theorem sqAt8_first (c : Dev nD) (t : Fin cfg8.N) (hf : t.val % 10 = 0) :
    (stateAt8 V c t.val t.isLt).2.2.2.2 = k8_pay2 (k8_pay5 (blockAt8 V c 0 t) (blockAt8 V c 1 t) (blockAt8 V c 2 t) (blockAt8 V c 3 t) (blockAt8 V c 4 t)) k8_pay4 := by
  have hl : ¬t.val % 10 = 9 := by omega
  rw [stateAt8_first V c t hf hl]
  dsimp only
  exact sqFirst8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) ((firstCond8_iff t).mpr hf) (fun h => hl ((lastCond8_iff t).mp h)) (blockAt8 V c 0 t) (blockAt8 V c 1 t) (blockAt8 V c 2 t) (blockAt8 V c 3 t) (blockAt8 V c 4 t)

set_option maxHeartbeats 1000000 in
/-- The carried row of column sums of squares after a later tile, from the row the tile before left. -/
theorem sqAt8_next (c : Dev nD) (t : Fin cfg8.N) (hf : ¬t.val % 10 = 0) :
    (stateAt8 V c t.val t.isLt).2.2.2.2 = k8_pay2 (k8_pay5 (blockAt8 V c 0 t) (blockAt8 V c 1 t) (blockAt8 V c 2 t) (blockAt8 V c 3 t) (blockAt8 V c 4 t)) (stateAt8 V c (t.val - 1) (Nat.lt_of_le_of_lt (Nat.sub_le _ _) t.isLt)).2.2.2.2 := by
  by_cases hl : t.val % 10 = 9
  · rw [stateAt8_last V c t hf hl]
    dsimp only
    exact sqLast8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2
  · rw [stateAt8_mid V c t hf hl]
    dsimp only
    exact sqMid8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) (fun h => hl ((lastCond8_iff t).mp h)) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2

set_option maxHeartbeats 1000000 in
/-- At the last tile the output row of column sums of squares is the carried row. -/
theorem sqOut8_last (c : Dev nD) (t : Fin cfg8.N) (hf : ¬t.val % 10 = 0) (hl : t.val % 10 = 9) :
    (stateAt8 V c t.val t.isLt).2.2.1 = (stateAt8 V c t.val t.isLt).2.2.2.2 := by
  rw [stateAt8_last V c t hf hl]
  dsimp only
  exact (outSqLast8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2).trans
    (sqLast8_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) sc8_0 (Memref.isWhole_whole _) sc8_1 (Memref.isWhole_whole _) (fun h => hf ((firstCond8_iff t).mp h)) ((lastCond8_iff t).mpr hl) (blockAt8 V c 0 t) (blockAt8 V c 1 t) (blockAt8 V c 2 t) (blockAt8 V c 3 t) (blockAt8 V c 4 t) (stateAt8 V c (t.val - 1) (Nat.lt_of_le_of_lt (Nat.sub_le _ _) t.isLt)).2.2.2.1 (stateAt8 V c (t.val - 1) (Nat.lt_of_le_of_lt (Nat.sub_le _ _) t.isLt)).2.2.2.2).symm

/-! ## The two outputs: written back once, at the last tile -/

/-- The one write-back of statistics output 6, at the last tile, writes the row the body left there. -/
theorem flushed8_6_eq (c : Dev nD) (t : Fin cfg8.N) (hfl : (cfg8.win 6).flush t = true) :
    (dat8 V c).flushed 6 t = ((cfg8.win 6).blk t).view.read (Elt F) ((stateAt8 V c t8_9.val t8_9.isLt).2.1) := by
  have h9 : t.val % 10 = 9 := (flush8_6 t).mp hfl
  have ht : t.val < 10 := Nat.lt_of_lt_of_eq t.isLt N_8
  obtain rfl : t = t8_9 := Fin.ext (by show t.val = 9; omega)
  have e0 : win8_6.index t8_9 (0 : Fin 2) = 0 := by have := idx_facts8 t8_9; simp only [this]
  have e1 : win8_6.index t8_9 (1 : Fin 2) = 0 := by have := idx_facts8 t8_9; simp only [this]
  show (cfg8.win 6).cut (grid8.coords t8_9) ((dat8 V c).after 6 t8_9) = _
  rw [dat8_after6]
  funext y
  rw [View.read_apply]
  show ((stateAt8 V c t8_9.val t8_9.isLt).2.1 : S1x512.Idx → Elt F .f32) y
    = ((stateAt8 V c t8_9.val t8_9.isLt).2.1 : S1x512.Idx → Elt F .f32) (((cfg8.win 6).blk t8_9).view.emb y)
  refine congrArg _ ?_
  funext a
  apply Fin.ext
  match a with
  | ⟨0, _⟩ => show (y 0).val = win8_6.index t8_9 (0 : Fin 2) * 1 + 1 * (y 0).val; rw [e0]; omega
  | ⟨1, _⟩ => show (y 1).val = win8_6.index t8_9 (1 : Fin 2) * 512 + 1 * (y 1).val; rw [e1]; omega

theorem mem_blk8_6 (t : Fin cfg8.N) (i : S1x512.Idx) :
    i ∈ ((cfg8.win 6).blk t).view.set ↔ ∀ a : Fin 2, win8_6.index t a * S1x512.size a ≤ (i a).val ∧ (i a).val < win8_6.index t a * S1x512.size a + S1x512.size a := by
  show i ∈ ((View.whole main_v137_1).slice (win8_6.rect t)).set ↔ _
  rw [View.set_slice_whole, Rect.mem_set_unit]
  exact Iff.rfl

/-- The last tile's block is the whole row. -/
theorem cover8_6 (i : S1x512.Idx) : ∃ t : Fin cfg8.N, (cfg8.win 6).flush t = true ∧ i ∈ ((cfg8.win 6).blk t).view.set := by
  have hi0 : (i 0).val < 1 := idx2_lt0 i
  have hi1 : (i 1).val < 512 := idx2_lt1 i
  have e0 : win8_6.index t8_9 (0 : Fin 2) = 0 := by have := idx_facts8 t8_9; simp only [this]
  have e1 : win8_6.index t8_9 (1 : Fin 2) = 0 := by have := idx_facts8 t8_9; simp only [this]
  refine ⟨t8_9, (flush8_6 t8_9).mpr (by decide), ?_⟩
  rw [mem_blk8_6]
  intro a
  match a with
  | ⟨0, _⟩ => show win8_6.index t8_9 (0 : Fin 2) * 1 ≤ (i 0).val ∧ (i 0).val < win8_6.index t8_9 (0 : Fin 2) * 1 + 1; omega
  | ⟨1, _⟩ => show win8_6.index t8_9 (1 : Fin 2) * 512 ≤ (i 1).val ∧ (i 1).val < win8_6.index t8_9 (1 : Fin 2) * 512 + 512; omega

/-- Statistics output 6 after the region: the row the body left in its buffer at the last tile. -/
theorem final8_6 (c : Dev nD) : (dat8 V c).arrAt 6 cfg8.N = (stateAt8 V c t8_9.val t8_9.isLt).2.1 :=
  (dat8 V c).arrAt_eq_of_cover 6 ((stateAt8 V c t8_9.val t8_9.isLt).2.1) (flushed8_6_eq V c) cover8_6

/-- The one write-back of statistics output 7, at the last tile, writes the row the body left there. -/
theorem flushed8_7_eq (c : Dev nD) (t : Fin cfg8.N) (hfl : (cfg8.win 7).flush t = true) :
    (dat8 V c).flushed 7 t = ((cfg8.win 7).blk t).view.read (Elt F) ((stateAt8 V c t8_9.val t8_9.isLt).2.2.1) := by
  have h9 : t.val % 10 = 9 := (flush8_7 t).mp hfl
  have ht : t.val < 10 := Nat.lt_of_lt_of_eq t.isLt N_8
  obtain rfl : t = t8_9 := Fin.ext (by show t.val = 9; omega)
  have e0 : win8_7.index t8_9 (0 : Fin 2) = 0 := by have := idx_facts8 t8_9; simp only [this]
  have e1 : win8_7.index t8_9 (1 : Fin 2) = 0 := by have := idx_facts8 t8_9; simp only [this]
  show (cfg8.win 7).cut (grid8.coords t8_9) ((dat8 V c).after 7 t8_9) = _
  rw [dat8_after7]
  funext y
  rw [View.read_apply]
  show ((stateAt8 V c t8_9.val t8_9.isLt).2.2.1 : S1x512.Idx → Elt F .f32) y
    = ((stateAt8 V c t8_9.val t8_9.isLt).2.2.1 : S1x512.Idx → Elt F .f32) (((cfg8.win 7).blk t8_9).view.emb y)
  refine congrArg _ ?_
  funext a
  apply Fin.ext
  match a with
  | ⟨0, _⟩ => show (y 0).val = win8_7.index t8_9 (0 : Fin 2) * 1 + 1 * (y 0).val; rw [e0]; omega
  | ⟨1, _⟩ => show (y 1).val = win8_7.index t8_9 (1 : Fin 2) * 512 + 1 * (y 1).val; rw [e1]; omega

theorem mem_blk8_7 (t : Fin cfg8.N) (i : S1x512.Idx) :
    i ∈ ((cfg8.win 7).blk t).view.set ↔ ∀ a : Fin 2, win8_7.index t a * S1x512.size a ≤ (i a).val ∧ (i a).val < win8_7.index t a * S1x512.size a + S1x512.size a := by
  show i ∈ ((View.whole main_v137_2).slice (win8_7.rect t)).set ↔ _
  rw [View.set_slice_whole, Rect.mem_set_unit]
  exact Iff.rfl

/-- The last tile's block is the whole row. -/
theorem cover8_7 (i : S1x512.Idx) : ∃ t : Fin cfg8.N, (cfg8.win 7).flush t = true ∧ i ∈ ((cfg8.win 7).blk t).view.set := by
  have hi0 : (i 0).val < 1 := idx2_lt0 i
  have hi1 : (i 1).val < 512 := idx2_lt1 i
  have e0 : win8_7.index t8_9 (0 : Fin 2) = 0 := by have := idx_facts8 t8_9; simp only [this]
  have e1 : win8_7.index t8_9 (1 : Fin 2) = 0 := by have := idx_facts8 t8_9; simp only [this]
  refine ⟨t8_9, (flush8_7 t8_9).mpr (by decide), ?_⟩
  rw [mem_blk8_7]
  intro a
  match a with
  | ⟨0, _⟩ => show win8_7.index t8_9 (0 : Fin 2) * 1 ≤ (i 0).val ∧ (i 0).val < win8_7.index t8_9 (0 : Fin 2) * 1 + 1; omega
  | ⟨1, _⟩ => show win8_7.index t8_9 (1 : Fin 2) * 512 ≤ (i 1).val ∧ (i 1).val < win8_7.index t8_9 (1 : Fin 2) * 512 + 512; omega

/-- Statistics output 7 after the region: the row the body left in its buffer at the last tile. -/
theorem final8_7 (c : Dev nD) : (dat8 V c).arrAt 7 cfg8.N = (stateAt8 V c t8_9.val t8_9.isLt).2.2.1 :=
  (dat8 V c).arrAt_eq_of_cover 7 ((stateAt8 V c t8_9.val t8_9.isLt).2.2.1) (flushed8_7_eq V c) cover8_7

/-- Entry (p, j) of the tile the body stores at point t is entry (1000 t + p, j) of the whole activation. -/
theorem tileEntry8 (c : Dev nD) (t : Fin cfg8.N) (ht : t.val < 10) (p : Fin 1000) (j : Fin 512) :
    (k8_pay5 (blockAt8 V c 0 t) (blockAt8 V c 1 t) (blockAt8 V c 2 t) (blockAt8 V c 3 t) (blockAt8 V c 4 t) : S1000x512.Idx → Elt F .f32) (ix2 p j)
      = mlpWhole8 V c (ix2 ⟨1000 * t.val + p.val, by have := p.isLt; omega⟩ j) := by
  rw [wholeBlock8_1, wholeBlock8_2, wholeBlock8_3, wholeBlock8_4, inBlock8 V c t ht]
  exact (mlpWhole8_apply V c _ t.val ht p j rfl rfl).symm

end

section
variable (V : (c : Dev nD) → (b : Ref sig .tc) → Buf (Elt Ideal) ((c : Thread nD τ).loc b))

/-! ## At the ideal instance: the carried rows are running sums -/

/-- Tile k's column sum of the activation, zero past the ten tiles. -/
def tileSum8 (c : Dev nD) (j : Fin 512) (k : ℕ) : EReal :=
  if hk : k < 10 then ∑ p : Fin 1000, (mlpWhole8 V c : S10000x512.Idx → EReal) (ix2 ⟨1000 * k + p.val, by have := p.isLt; omega⟩ j) else 0

/-- The carried row after tile n holds, in column j, the first n + 1 tiles' column sums of the activation added up in order. -/
theorem sumRow8_eq (c : Dev nD) (j : Fin 512) : ∀ (n : ℕ) (hn : n < cfg8.N),
    ((stateAt8 V c n hn).2.2.2.1 : S1x512.Idx → EReal) (ix2 0 j) = ∑ k ∈ Finset.range (n + 1), tileSum8 V c j k := by
  intro n
  induction n with
  | zero =>
    intro hn
    have h := sumAt8_first V c ⟨0, hn⟩ (Nat.zero_mod _)
    rw [Finset.sum_range_one]
    refine (congrFun h (ix2 0 j)).trans ?_
    refine (Cert.Gin.Ker.k8_pay1_apply _ (ix2 0 j)).trans ?_
    refine (Cert.Gin.Ker.k8_pay6_apply _ _ _ _ _ _ 0 j).trans ?_
    rw [Cert.Gin.Ker.k8_pay3_apply 0 j, zero_add]
    unfold tileSum8
    rw [dif_pos (by decide : 0 < 10)]
    refine Finset.sum_congr rfl fun p _ => ?_
    exact tileEntry8 V c ⟨0, hn⟩ (by show (0 : ℕ) < 10; decide) p j
  | succ n ih =>
    intro hn
    have hN : n + 1 < 10 := Nat.lt_of_lt_of_eq hn N_8
    have h := sumAt8_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k8_pay1_apply _ (ix2 0 j)).trans ?_
    refine (Cert.Gin.Ker.k8_pay6_apply _ _ _ _ _ _ 0 j).trans ?_
    refine congrArg₂ (fun a b : EReal => a + b) rfl ?_
    unfold tileSum8
    rw [dif_pos hN]
    refine Finset.sum_congr rfl fun p _ => ?_
    exact tileEntry8 V c ⟨n + 1, hn⟩ hN p j

/-- Tile k's column sum of the activation's squares, zero past the ten tiles. -/
def tileSq8 (c : Dev nD) (j : Fin 512) (k : ℕ) : EReal :=
  if hk : k < 10 then ∑ p : Fin 1000, (mlpWhole8 V c : S10000x512.Idx → EReal) (ix2 ⟨1000 * k + p.val, by have := p.isLt; omega⟩ j) * (mlpWhole8 V c : S10000x512.Idx → EReal) (ix2 ⟨1000 * k + p.val, by have := p.isLt; omega⟩ j) else 0

/-- The carried row after tile n holds, in column j, the first n + 1 tiles' column sums of the activation's squares added up in order. -/
theorem sqRow8_eq (c : Dev nD) (j : Fin 512) : ∀ (n : ℕ) (hn : n < cfg8.N),
    ((stateAt8 V c n hn).2.2.2.2 : S1x512.Idx → EReal) (ix2 0 j) = ∑ k ∈ Finset.range (n + 1), tileSq8 V c j k := by
  intro n
  induction n with
  | zero =>
    intro hn
    have h := sqAt8_first V c ⟨0, hn⟩ (Nat.zero_mod _)
    rw [Finset.sum_range_one]
    refine (congrFun h (ix2 0 j)).trans ?_
    refine (Cert.Gin.Ker.k8_pay2_apply _ _ 0 j).trans ?_
    rw [Cert.Gin.Ker.k8_pay4_apply 0 j, zero_add]
    unfold tileSq8
    rw [dif_pos (by decide : 0 < 10)]
    refine Finset.sum_congr rfl fun p _ => ?_
    exact congrArg₂ (fun a b : EReal => a * b) (tileEntry8 V c ⟨0, hn⟩ (by show (0 : ℕ) < 10; decide) p j) (tileEntry8 V c ⟨0, hn⟩ (by show (0 : ℕ) < 10; decide) p j)
  | succ n ih =>
    intro hn
    have hN : n + 1 < 10 := Nat.lt_of_lt_of_eq hn N_8
    have h := sqAt8_next V c ⟨n + 1, hn⟩ (by show ¬(n + 1) % 10 = 0; omega)
    rw [Finset.sum_range_succ, ← ih (Nat.lt_of_succ_lt hn)]
    refine (congrFun h (ix2 0 j)).trans ?_
    refine (Cert.Gin.Ker.k8_pay2_apply _ _ 0 j).trans ?_
    refine congrArg₂ (fun a b : EReal => a + b) rfl ?_
    unfold tileSq8
    rw [dif_pos hN]
    refine Finset.sum_congr rfl fun p _ => ?_
    exact congrArg₂ (fun a b : EReal => a * b) (tileEntry8 V c ⟨n + 1, hn⟩ hN p j) (tileEntry8 V c ⟨n + 1, hn⟩ hN p j)

/-- The ten tiles' sums added up in order are the sum over all 10000 rows. -/
theorem sum_tiles8 (f : Fin 10000 → EReal) (g : ℕ → EReal)
    (hg : ∀ (k : ℕ) (hk : k < 10), g k = ∑ p : Fin 1000, f ⟨1000 * k + p.val, by have := p.isLt; omega⟩) :
    ∑ k ∈ Finset.range (9 + 1), g k = ∑ r : Fin 10000, f r := by
  rw [Cert.Gin.sum_rows_tiles f, Finset.sum_range]
  exact Finset.sum_congr rfl fun t _ => hg t.val t.isLt

/-- Column j of the first statistics output after the region: the column sum of the whole activation. -/
theorem sumRow8 (c : Dev nD) (j : Fin 512) :
    ((dat8 V c).arrAt 6 cfg8.N : S1x512.Idx → EReal) (ix2 0 j)
      = Cert.Gin.colSum (fun r l => (mlpWhole8 V c : S10000x512.Idx → EReal) (ix2 r l)) j := by
  rw [final8_6, sumOut8_last V c t8_9 (by decide) (by decide)]
  refine (sumRow8_eq V c j 9 t8_9.isLt).trans ?_
  refine sum_tiles8 (fun r => (mlpWhole8 V c : S10000x512.Idx → EReal) (ix2 r j)) _ fun k hk => ?_
  unfold tileSum8
  rw [dif_pos hk]

/-- Column j of the second statistics output after the region: the column sum of the whole activation's squares. -/
theorem sqRow8 (c : Dev nD) (j : Fin 512) :
    ((dat8 V c).arrAt 7 cfg8.N : S1x512.Idx → EReal) (ix2 0 j)
      = Cert.Gin.colSumSq (fun r l => (mlpWhole8 V c : S10000x512.Idx → EReal) (ix2 r l)) j := by
  rw [final8_7, sqOut8_last V c t8_9 (by decide) (by decide)]
  refine (sqRow8_eq V c j 9 t8_9.isLt).trans ?_
  refine sum_tiles8 (fun r => (mlpWhole8 V c : S10000x512.Idx → EReal) (ix2 r j) * (mlpWhole8 V c : S10000x512.Idx → EReal) (ix2 r j)) _ fun k hk => ?_
  unfold tileSq8
  rw [dif_pos hk]

/-- The whole activation is the specification's perceptron of the whole input. -/
theorem mlpWhole8_spec (c : Dev nD) (r : Fin 10000) (j : Fin 512) :
    (mlpWhole8 V c : S10000x512.Idx → EReal) (ix2 r j)
      = Cert.Gin.mlp (fun r l => (V c (Pipeline.arrRef spec8 0) : S10000x512.Idx → EReal) (ix2 r l)) (fun l k => (V c (Pipeline.arrRef spec8 1) : S512x512.Idx → EReal) (ix2 l k))
          (fun k => (V c (Pipeline.arrRef spec8 2) : S1x512.Idx → EReal) (ix2 0 k)) (fun k j => (V c (Pipeline.arrRef spec8 3) : S512x512.Idx → EReal) (ix2 k j))
          (fun j => (V c (Pipeline.arrRef spec8 4) : S1x512.Idx → EReal) (ix2 0 j)) r j :=
  (congrFun (final8_5 V c) (ix2 r j)).symm.trans (mlpArray8_spec V c r j)

/-- The first statistics output is the column sums of the specification's perceptron of the whole input. -/
theorem sumRow8_spec (c : Dev nD) (j : Fin 512) :
    ((dat8 V c).arrAt 6 cfg8.N : S1x512.Idx → EReal) (ix2 0 j)
      = Cert.Gin.colSum (Cert.Gin.mlp (fun r l => (V c (Pipeline.arrRef spec8 0) : S10000x512.Idx → EReal) (ix2 r l)) (fun l k => (V c (Pipeline.arrRef spec8 1) : S512x512.Idx → EReal) (ix2 l k))
          (fun k => (V c (Pipeline.arrRef spec8 2) : S1x512.Idx → EReal) (ix2 0 k)) (fun k j => (V c (Pipeline.arrRef spec8 3) : S512x512.Idx → EReal) (ix2 k j))
          (fun j => (V c (Pipeline.arrRef spec8 4) : S1x512.Idx → EReal) (ix2 0 j))) j := by
  rw [sumRow8]
  exact congrArg (fun a => Cert.Gin.colSum a j) (funext fun r => funext fun l => mlpWhole8_spec V c r l)

/-- The second statistics output is the column sums of squares of the specification's perceptron of the whole input. -/
theorem sqRow8_spec (c : Dev nD) (j : Fin 512) :
    ((dat8 V c).arrAt 7 cfg8.N : S1x512.Idx → EReal) (ix2 0 j)
      = Cert.Gin.colSumSq (Cert.Gin.mlp (fun r l => (V c (Pipeline.arrRef spec8 0) : S10000x512.Idx → EReal) (ix2 r l)) (fun l k => (V c (Pipeline.arrRef spec8 1) : S512x512.Idx → EReal) (ix2 l k))
          (fun k => (V c (Pipeline.arrRef spec8 2) : S1x512.Idx → EReal) (ix2 0 k)) (fun k j => (V c (Pipeline.arrRef spec8 3) : S512x512.Idx → EReal) (ix2 k j))
          (fun j => (V c (Pipeline.arrRef spec8 4) : S1x512.Idx → EReal) (ix2 0 j))) j := by
  rw [sqRow8]
  exact congrArg (fun a => Cert.Gin.colSumSq a j) (funext fun r => funext fun l => mlpWhole8_spec V c r l)

end

end Cert.KernelIdeal.Arr

end
-- ==== Proof.KA.Whole.lean ====
/-
  The kernel side composed: the program's result buffer, at the end of the chain of contents from a launch memory
  satisfying the precondition, is the shared closed function of the seventeen argument arrays. Layer by layer: each
  perceptron kernel's three outputs and each normalisation kernel's output are read off the regions' values at their
  entry contents, the entry contents off the host stretches, and the normalisation from the accumulated sums is the
  specification's normalisation, which the reference's two-pass form equals on arrays of reals.
-/
import proofs.«100381_j2018634629568_1_alg».proof.Proof.KA.Layer1
import proofs.«100381_j2018634629568_1_alg».proof.Proof.KA.Layer2
import proofs.«100381_j2018634629568_1_alg».proof.Proof.KA.Layer3
import proofs.«100381_j2018634629568_1_alg».proof.Proof.KA.Layer4
import proofs.«100381_j2018634629568_1_alg».proof.Proof.KA.Layer5
import proofs.«100381_j2018634629568_1_alg».proof.Proof.KA.PoolHead
import proofs.«100381_j2018634629568_1_alg».proof.Proof.KA.Real
import proofs.«100381_j2018634629568_1_alg».proof.Proof.KA.MlpArray0
import proofs.«100381_j2018634629568_1_alg».proof.Proof.KA.MlpArray2
import proofs.«100381_j2018634629568_1_alg».proof.Proof.KA.MlpArray4
import proofs.«100381_j2018634629568_1_alg».proof.Proof.KA.MlpArray6
import proofs.«100381_j2018634629568_1_alg».proof.Proof.KA.MlpArray8
import proofs.«100381_j2018634629568_1_alg».proof.Proof.KA.MlpStats0
import proofs.«100381_j2018634629568_1_alg».proof.Proof.KA.MlpStats2
import proofs.«100381_j2018634629568_1_alg».proof.Proof.KA.MlpStats4
import proofs.«100381_j2018634629568_1_alg».proof.Proof.KA.MlpStats6
import proofs.«100381_j2018634629568_1_alg».proof.Proof.KA.MlpStats8

set_option maxRecDepth 16384

noncomputable section

namespace Cert.Gin.KerWhole

open Idealize.ShloMosaic Idealize.ShloMosaic.TcCoe Idealize.SL.Sem Idealize.ShloMosaic.ValueIdx
open Cert.KernelIdeal Cert.KernelIdeal.Gen Cert.Gin.Ref Cert.Gin.KerHost

variable (m : (ℓ : Loc nD τ sig) → Buf (Elt Ideal) ℓ) (c : Dev nD)

open Cert.KernelIdeal.Arr in
/-- THE KERNEL PROGRAM'S RESULT IS THE CLOSED FUNCTION OF ITS ARGUMENTS. -/
theorem kernelOut (hpre : Cert.Pre_KernelIdeal (hPre_finite_inputs := Cert.Pre_finite_inputs.Gen.facts) m) :
    X22 m c (Proc.devRef .tc main_v155)
      = closedOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16)) := by
  obtain ⟨h0, h3, h4, h5, h6, h7, h8, h9, h10, h11, h12, _, _, _, _⟩ := args_real m c hpre
  have l1 := layer1 m c (mlpArray0_spec (E1 m) c) (sumRow0_spec (E1 m) c) (sqRow0_spec (E1 m) c)
    (co2_real _ h0) (co2_real _ h3) (co1_real _ h4) (co2_real _ h5) (co1_real _ h6)
  have l2 := layer2 m c l1 (mlpArray2_spec (E5 m) c) (sumRow2_spec (E5 m) c) (sqRow2_spec (E5 m) c)
    (real_H1 m c h0 h3 h4 h5 h6 h11 h12)
    (cutMat_real 0 (by decide) (A7 m c) _ h7) (cutRow_real 0 (by decide) (A8 m c) _ h8)
    (cutMat_real 0 (by decide) (A9 m c) _ h9) (cutRow_real 0 (by decide) (A10 m c) _ h10)
  have l3 := layer3 m c l2 (mlpArray4_spec (E9 m) c) (sumRow4_spec (E9 m) c) (sqRow4_spec (E9 m) c)
    (real_H2 m c h0 h3 h4 h5 h6 h7 h8 h9 h10 h11 h12)
    (cutMat_real 1 (by decide) (A7 m c) _ h7) (cutRow_real 1 (by decide) (A8 m c) _ h8)
    (cutMat_real 1 (by decide) (A9 m c) _ h9) (cutRow_real 1 (by decide) (A10 m c) _ h10)
  have l4 := layer4 m c l3 (mlpArray6_spec (E13 m) c) (sumRow6_spec (E13 m) c) (sqRow6_spec (E13 m) c)
    (real_H3 m c h0 h3 h4 h5 h6 h7 h8 h9 h10 h11 h12)
    (cutMat_real 2 (by decide) (A7 m c) _ h7) (cutRow_real 2 (by decide) (A8 m c) _ h8)
    (cutMat_real 2 (by decide) (A9 m c) _ h9) (cutRow_real 2 (by decide) (A10 m c) _ h10)
  have l5 := layer5 m c l4 (mlpArray8_spec (E17 m) c) (sumRow8_spec (E17 m) c) (sqRow8_spec (E17 m) c)
    (real_H4 m c h0 h3 h4 h5 h6 h7 h8 h9 h10 h11 h12)
    (cutMat_real 3 (by decide) (A7 m c) _ h7) (cutRow_real 3 (by decide) (A8 m c) _ h8)
    (cutMat_real 3 (by decide) (A9 m c) _ h9) (cutRow_real 3 (by decide) (A10 m c) _ h10)
  exact poolHead m c l5

end Cert.Gin.KerWhole

end
-- ==== Proof.RI.Order.lean ====
/-
  The buffers the reference program writes are numbered in the order they are written: buffer number 17 + i is
  written by operation i (the seventeen arguments are numbers 0 … 16). So a buffer whose number is below 17 + j is
  not among those written from operation j on — a comparison of two numerals in place of a search of the list.
-/
import proofs.«100381_j2018634629568_1_alg».proof.Proof.RI.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- In a list of buffers whose numbers are `b, b + 1, …`, a buffer numbered below `b + j` is not among those from
    position `j` on. -/
theorem not_mem_drop_of_lt {W : List (Ref sig .tc)} {b n : Nat}
    (hW : W.map (fun r => r.idx.val) = List.range' b n) (j : Nat) {r : Ref sig .tc} (h : r.idx.val < b + j) :
    r ∉ W.drop j := by
  intro hm
  have h1 : r.idx.val ∈ (W.drop j).map (fun r => r.idx.val) := List.mem_map_of_mem hm
  rw [List.map_drop, hW, List.drop_range', Nat.mul_one] at h1
  exact absurd (List.mem_range'_1.mp h1).1 (Nat.not_le.mpr h)

set_option maxRecDepth 8192 in
/-- The written buffers' numbers are 17, 18, …, 447. -/
theorem ops_W_idx : ops_W.map (fun r => r.idx.val) = List.range' 17 431 := by decide

/-- A buffer numbered below `17 + j` is not written from operation `j` on. -/
theorem not_written_from (j : Nat) {r : Ref sig .tc} (h : r.idx.val < 17 + j) : r ∉ ops_W.drop j :=
  not_mem_drop_of_lt ops_W_idx j h

end Cert.ReferenceIdeal.RefRun

end
-- ==== Proof.RI.Val0.lean ====
/-
  What each buffer written by operations 1 … 85 of the reference program holds at the end of the run, as ONE
  operation applied to the final contents of its operand buffers. Every buffer is written once and read only
  after it is written: the operation at position j is read off the list (by computation; an operation of an
  unfolded call is stated over the buffers themselves, the typed references' transports being the identity there),
  its result buffer has number 17 + j, below every buffer written after it, and its operand buffers have smaller numbers still.
-/
import proofs.«100381_j2018634629568_1_alg».proof.Proof.RI.Order

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

private theorem op_0 : (ops : List (HloOp τ sig (Elt F)))[0]? = some (StableHlo.unary main_arg1 main_v0 ((extractStridedSlice S1x160000 ![0, 0] · slices_S2x160000_S1x160000_0_0) : (⟨S2x160000, .i32⟩ : BufTy).Contents (Elt F) → (⟨S1x160000, .i32⟩ : BufTy).Contents (Elt F))) := rfl
theorem val_main_v0 (V : Valuation τ sig (Elt F)) :
    after ops V (no_index (Proc.devRef .tc main_v0)) = ((extractStridedSlice S1x160000 ![0, 0] · slices_S2x160000_S1x160000_0_0) : (⟨S2x160000, .i32⟩ : BufTy).Contents (Elt F) → (⟨S1x160000, .i32⟩ : BufTy).Contents (Elt F)) (after ops V (Proc.devRef .tc main_arg1)) :=
  ops_writesAre.read_unary op_0 V (not_written_from (0 + 1) (by decide)) (not_written_from 0 (by decide))

private theorem op_1 : (ops : List (HloOp τ sig (Elt F)))[1]? = some (StableHlo.reshape main_v0 main_v1 rfl shapeCasts_S1x160000_S160000) := rfl
theorem val_main_v1 (V : Valuation τ sig (Elt F)) :
    after ops V (no_index (Proc.devRef .tc main_v1)) = shapeCast S160000 (after ops V (Proc.devRef .tc main_v0)) shapeCasts_S1x160000_S160000 :=
  ops_writesAre.read_reshape op_1 V (not_written_from (1 + 1) (by decide)) (not_written_from 1 (by decide))

private theorem op_2 : (ops : List (HloOp τ sig (Elt F)))[2]? = some (StableHlo.unary main_arg1 main_v2 ((extractStridedSlice S1x160000 ![1, 0] · slices_S2x160000_S1x160000_1_0) : (⟨S2x160000, .i32⟩ : BufTy).Contents (Elt F) → (⟨S1x160000, .i32⟩ : BufTy).Contents (Elt F))) := rfl
theorem val_main_v2 (V : Valuation τ sig (Elt F)) :
    after ops V (no_index (Proc.devRef .tc main_v2)) = ((extractStridedSlice S1x160000 ![1, 0] · slices_S2x160000_S1x160000_1_0) : (⟨S2x160000, .i32⟩ : BufTy).Contents (Elt F) → (⟨S1x160000, .i32⟩ : BufTy).Contents (Elt F)) (after ops V (Proc.devRef .tc main_arg1)) :=
  ops_writesAre.read_unary op_2 V (not_written_from (2 + 1) (by decide)) (not_written_from 2 (by decide))

private theorem op_3 : (ops : List (HloOp τ sig (Elt F)))[3]? = some (StableHlo.reshape main_v2 main_v3 rfl shapeCasts_S1x160000_S160000) := rfl
theorem val_main_v3 (V : Valuation τ sig (Elt F)) :
    after ops V (no_index (Proc.devRef .tc main_v3)) = shapeCast S160000 (after ops V (Proc.devRef .tc main_v2)) shapeCasts_S1x160000_S160000 :=
  ops_writesAre.read_reshape op_3 V (not_written_from (3 + 1) (by decide)) (not_written_from 3 (by decide))

private theorem op_4 : (ops : List (HloOp τ sig (Elt F)))[4]? = some (StableHlo.nullary main_c (constantI S_ 32 0#32)) := rfl
theorem val_main_c (V : Valuation τ sig (Elt F)) :
    after ops V (no_index (Proc.devRef .tc main_c)) = (constantI S_ 32 0#32) :=
  ops_writesAre.read_nullary op_4 V (not_written_from (4 + 1) (by decide))

private theorem op_5 : (ops : List (HloOp τ sig (Elt F)))[5]? = some (StableHlo.unary main_c main_v4 (broadcastInDim S160000 ![] bcast_S_S160000 : (⟨S_, .i32⟩ : BufTy).Contents (Elt F) → (⟨S160000, .i32⟩ : BufTy).Contents (Elt F))) := rfl
theorem val_main_v4 (V : Valuation τ sig (Elt F)) :
    after ops V (no_index (Proc.devRef .tc main_v4)) = (broadcastInDim S160000 ![] bcast_S_S160000 : (⟨S_, .i32⟩ : BufTy).Contents (Elt F) → (⟨S160000, .i32⟩ : BufTy).Contents (Elt F)) (after ops V (Proc.devRef .tc main_c)) :=
  ops_writesAre.read_unary op_5 V (not_written_from (5 + 1) (by decide)) (not_written_from 5 (by decide))

private theorem op_6 : (ops : List (HloOp τ sig (Elt F)))[6]? = some (StableHlo.binary main_v1 main_v4 main_v5 (cmpi .slt : (⟨S160000, .i32⟩ : BufTy).Contents (Elt F) → (⟨S160000, .i32⟩ : BufTy).Contents (Elt F) → (⟨S160000, .i1⟩ : BufTy).Contents (Elt F))) := rfl
theorem val_main_v5 (V : Valuation τ sig (Elt F)) :
    after ops V (no_index (Proc.devRef .tc main_v5)) = (cmpi .slt : (⟨S160000, .i32⟩ : BufTy).Contents (Elt F) → (⟨S160000, .i32⟩ : BufTy).Contents (Elt F) → (⟨S160000, .i1⟩ : BufTy).Contents (Elt F)) (after ops V (Proc.devRef .tc main_v1)) (after ops V (Proc.devRef .tc main_v4)) :=
  ops_writesAre.read_binary op_6 V (not_written_from (6 + 1) (by decide)) (not_written_from 6 (by decide)) (not_written_from 6 (by decide))

private theorem op_7 : (ops : List (HloOp τ sig (Elt F)))[7]? = some (StableHlo.nullary main_c_0 (constantI S_ 32 10000#32)) := rfl
theorem val_main_c_0 (V : Valuation τ sig (Elt F)) :
    after ops V (no_index (Proc.devRef .tc main_c_0)) = (constantI S_ 32 10000#32) :=
  ops_writesAre.read_nullary op_7 V (not_written_from (7 + 1) (by decide))

private theorem op_8 : (ops : List (HloOp τ sig (Elt F)))[8]? = some (StableHlo.unary main_c_0 main_v6 (broadcastInDim S160000 ![] bcast_S_S160000 : (⟨S_, .i32⟩ : BufTy).Contents (Elt F) → (⟨S160000, .i32⟩ : BufTy).Contents (Elt F))) := rfl
theorem val_main_v6 (V : Valuation τ sig (Elt F)) :
    after ops V (no_index (Proc.devRef .tc main_v6)) = (broadcastInDim S160000 ![] bcast_S_S160000 : (⟨S_, .i32⟩ : BufTy).Contents (Elt F) → (⟨S160000, .i32⟩ : BufTy).Contents (Elt F)) (after ops V (Proc.devRef .tc main_c_0)) :=
  ops_writesAre.read_unary op_8 V (not_written_from (8 + 1) (by decide)) (not_written_from 8 (by decide))

private theorem op_9 : (ops : List (HloOp τ sig (Elt F)))[9]? = some (StableHlo.binary main_v1 main_v6 main_v7 (addi : (⟨S160000, .i32⟩ : BufTy).Contents (Elt F) → (⟨S160000, .i32⟩ : BufTy).Contents (Elt F) → (⟨S160000, .i32⟩ : BufTy).Contents (Elt F))) := rfl
theorem val_main_v7 (V : Valuation τ sig (Elt F)) :
    after ops V (no_index (Proc.devRef .tc main_v7)) = (addi : (⟨S160000, .i32⟩ : BufTy).Contents (Elt F) → (⟨S160000, .i32⟩ : BufTy).Contents (Elt F) → (⟨S160000, .i32⟩ : BufTy).Contents (Elt F)) (after ops V (Proc.devRef .tc main_v1)) (after ops V (Proc.devRef .tc main_v6)) :=
  ops_writesAre.read_binary op_9 V (not_written_from (9 + 1) (by decide)) (not_written_from 9 (by decide)) (not_written_from 9 (by decide))

private theorem op_10 : (ops : List (HloOp τ sig (Elt F)))[10]? = some (StableHlo.ternary main_v5 main_v7 main_v1 main_v8 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) := rfl
theorem val_main_v8 (V : Valuation τ sig (Elt F)) :
    after ops V (no_index (Proc.devRef .tc main_v8)) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v5)) (after ops V (Proc.devRef .tc main_v7)) (after ops V (Proc.devRef .tc main_v1)) :=
  ops_writesAre.read_ternary op_10 V (not_written_from (10 + 1) (by decide)) (not_written_from 10 (by decide)) (not_written_from 10 (by decide)) (not_written_from 10 (by decide))

private theorem op_11 : (ops : List (HloOp τ sig (Elt F)))[11]? = some (StableHlo.unary main_v8 main_v9 (broadcastInDim S160000x1 ![0] bcast_S160000_S160000x1_0 : (⟨S160000, .i32⟩ : BufTy).Contents (Elt F) → (⟨S160000x1, .i32⟩ : BufTy).Contents (Elt F))) := rfl
theorem val_main_v9 (V : Valuation τ sig (Elt F)) :
    after ops V (no_index (Proc.devRef .tc main_v9)) = (broadcastInDim S160000x1 ![0] bcast_S160000_S160000x1_0 : (⟨S160000, .i32⟩ : BufTy).Contents (Elt F) → (⟨S160000x1, .i32⟩ : BufTy).Contents (Elt F)) (after ops V (Proc.devRef .tc main_v8)) :=
  ops_writesAre.read_unary op_11 V (not_written_from (11 + 1) (by decide)) (not_written_from 11 (by decide))

private theorem op_12 : (ops : List (HloOp τ sig (Elt F)))[12]? = some (StableHlo.binary main_arg0 main_v9 main_v10 ((fun x i => Host.gather gather_S10000x16_S160000x1_S160000x16_1_0_n_n_0_1_116 x i) : (⟨S10000x16, .f32⟩ : BufTy).Contents (Elt F) → (⟨S160000x1, .i32⟩ : BufTy).Contents (Elt F) → (⟨S160000x16, .f32⟩ : BufTy).Contents (Elt F))) := rfl
theorem val_main_v10 (V : Valuation τ sig (Elt F)) :
    after ops V (no_index (Proc.devRef .tc main_v10)) = ((fun x i => Host.gather gather_S10000x16_S160000x1_S160000x16_1_0_n_n_0_1_116 x i) : (⟨S10000x16, .f32⟩ : BufTy).Contents (Elt F) → (⟨S160000x1, .i32⟩ : BufTy).Contents (Elt F) → (⟨S160000x16, .f32⟩ : BufTy).Contents (Elt F)) (after ops V (Proc.devRef .tc main_arg0)) (after ops V (Proc.devRef .tc main_v9)) :=
  ops_writesAre.read_binary op_12 V (not_written_from (12 + 1) (by decide)) (not_written_from 12 (by decide)) (not_written_from 12 (by decide))

private theorem op_13 : (ops : List (HloOp τ sig (Elt F)))[13]? = some (StableHlo.nullary main_cst (constant S_ .f32 0x00000000#32)) := rfl
theorem val_main_cst (V : Valuation τ sig (Elt F)) :
    after ops V (no_index (Proc.devRef .tc main_cst)) = (constant S_ .f32 0x00000000#32) :=
  ops_writesAre.read_nullary op_13 V (not_written_from (13 + 1) (by decide))

private theorem op_14 : (ops : List (HloOp τ sig (Elt F)))[14]? = some (StableHlo.unary main_cst main_v11 (broadcastInDim S10000x16 ![] bcast_S_S10000x16 : (⟨S_, .f32⟩ : BufTy).Contents (Elt F) → (⟨S10000x16, .f32⟩ : BufTy).Contents (Elt F))) := rfl
theorem val_main_v11 (V : Valuation τ sig (Elt F)) :
    after ops V (no_index (Proc.devRef .tc main_v11)) = (broadcastInDim S10000x16 ![] bcast_S_S10000x16 : (⟨S_, .f32⟩ : BufTy).Contents (Elt F) → (⟨S10000x16, .f32⟩ : BufTy).Contents (Elt F)) (after ops V (Proc.devRef .tc main_cst)) :=
  ops_writesAre.read_unary op_14 V (not_written_from (14 + 1) (by decide)) (not_written_from 14 (by decide))

private theorem op_15 : (ops : List (HloOp τ sig (Elt F)))[15]? = some (StableHlo.unary main_v3 main_v12 (broadcastInDim S160000x1 ![0] bcast_S160000_S160000x1_0 : (⟨S160000, .i32⟩ : BufTy).Contents (Elt F) → (⟨S160000x1, .i32⟩ : BufTy).Contents (Elt F))) := rfl
theorem val_main_v12 (V : Valuation τ sig (Elt F)) :
    after ops V (no_index (Proc.devRef .tc main_v12)) = (broadcastInDim S160000x1 ![0] bcast_S160000_S160000x1_0 : (⟨S160000, .i32⟩ : BufTy).Contents (Elt F) → (⟨S160000x1, .i32⟩ : BufTy).Contents (Elt F)) (after ops V (Proc.devRef .tc main_v3)) :=
  ops_writesAre.read_unary op_15 V (not_written_from (15 + 1) (by decide)) (not_written_from 15 (by decide))

private theorem op_16 : (ops : List (HloOp τ sig (Elt F)))[16]? = some (StableHlo.ternary main_v11 main_v12 main_v10 main_v13 ((fun x i u => Host.scatterAdd scatter_S10000x16_S160000x1_S160000x16_1_0_0_1 x i u) : (⟨S10000x16, .f32⟩ : BufTy).Contents (Elt F) → (⟨S160000x1, .i32⟩ : BufTy).Contents (Elt F) → (⟨S160000x16, .f32⟩ : BufTy).Contents (Elt F) → (⟨S10000x16, .f32⟩ : BufTy).Contents (Elt F))) := rfl
theorem val_main_v13 (V : Valuation τ sig (Elt F)) :
    after ops V (no_index (Proc.devRef .tc main_v13)) = ((fun x i u => Host.scatterAdd scatter_S10000x16_S160000x1_S160000x16_1_0_0_1 x i u) : (⟨S10000x16, .f32⟩ : BufTy).Contents (Elt F) → (⟨S160000x1, .i32⟩ : BufTy).Contents (Elt F) → (⟨S160000x16, .f32⟩ : BufTy).Contents (Elt F) → (⟨S10000x16, .f32⟩ : BufTy).Contents (Elt F)) (after ops V (Proc.devRef .tc main_v11)) (after ops V (Proc.devRef .tc main_v12)) (after ops V (Proc.devRef .tc main_v10)) :=
  ops_writesAre.read_ternary op_16 V (not_written_from (16 + 1) (by decide)) (not_written_from 16 (by decide)) (not_written_from 16 (by decide)) (not_written_from 16 (by decide))

private theorem op_17 : (ops : List (HloOp τ sig (Elt F)))[17]? = some (StableHlo.binary main_arg0 main_v13 main_v14 (addf : (⟨S10000x16, .f32⟩ : BufTy).Contents (Elt F) → (⟨S10000x16, .f32⟩ : BufTy).Contents (Elt F) → (⟨S10000x16, .f32⟩ : BufTy).Contents (Elt F))) := rfl
theorem val_main_v14 (V : Valuation τ sig (Elt F)) :
    after ops V (no_index (Proc.devRef .tc main_v14)) = (addf : (⟨S10000x16, .f32⟩ : BufTy).Contents (Elt F) → (⟨S10000x16, .f32⟩ : BufTy).Contents (Elt F) → (⟨S10000x16, .f32⟩ : BufTy).Contents (Elt F)) (after ops V (Proc.devRef .tc main_arg0)) (after ops V (Proc.devRef .tc main_v13)) :=
  ops_writesAre.read_binary op_17 V (not_written_from (17 + 1) (by decide)) (not_written_from 17 (by decide)) (not_written_from 17 (by decide))

private theorem op_18 : (ops : List (HloOp τ sig (Elt F)))[18]? = some (StableHlo.binary main_v14 main_arg3 main_v15 ((fun l r => Host.dotGeneral dot_S10000x16_S16x512_S10000x512_1_0_0_1_n_n none l r) : (⟨S10000x16, .f32⟩ : BufTy).Contents (Elt F) → (⟨S16x512, .f32⟩ : BufTy).Contents (Elt F) → (⟨S10000x512, .f32⟩ : BufTy).Contents (Elt F))) := rfl
theorem val_main_v15 (V : Valuation τ sig (Elt F)) :
    after ops V (no_index (Proc.devRef .tc main_v15)) = ((fun l r => Host.dotGeneral dot_S10000x16_S16x512_S10000x512_1_0_0_1_n_n none l r) : (⟨S10000x16, .f32⟩ : BufTy).Contents (Elt F) → (⟨S16x512, .f32⟩ : BufTy).Contents (Elt F) → (⟨S10000x512, .f32⟩ : BufTy).Contents (Elt F)) (after ops V (Proc.devRef .tc main_v14)) (after ops V (Proc.devRef .tc main_arg3)) :=
  ops_writesAre.read_binary op_18 V (not_written_from (18 + 1) (by decide)) (not_written_from 18 (by decide)) (not_written_from 18 (by decide))

private theorem op_19 : (ops : List (HloOp τ sig (Elt F)))[19]? = some (StableHlo.unary main_arg4 main_v16 (broadcastInDim S1x512 ![1] bcast_S512_S1x512_1 : (⟨S512, .f32⟩ : BufTy).Contents (Elt F) → (⟨S1x512, .f32⟩ : BufTy).Contents (Elt F))) := rfl
theorem val_main_v16 (V : Valuation τ sig (Elt F)) :
    after ops V (no_index (Proc.devRef .tc main_v16)) = (broadcastInDim S1x512 ![1] bcast_S512_S1x512_1 : (⟨S512, .f32⟩ : BufTy).Contents (Elt F) → (⟨S1x512, .f32⟩ : BufTy).Contents (Elt F)) (after ops V (Proc.devRef .tc main_arg4)) :=
  ops_writesAre.read_unary op_19 V (not_written_from (19 + 1) (by decide)) (not_written_from 19 (by decide))

private theorem op_20 : (ops : List (HloOp τ sig (Elt F)))[20]? = some (StableHlo.unary main_v16 main_v17 (broadcastInDim S10000x512 ![0, 1] bcast_S1x512_S10000x512_0_1 : (⟨S1x512, .f32⟩ : BufTy).Contents (Elt F) → (⟨S10000x512, .f32⟩ : BufTy).Contents (Elt F))) := rfl
theorem val_main_v17 (V : Valuation τ sig (Elt F)) :
    after ops V (no_index (Proc.devRef .tc main_v17)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v16)) :=
  ops_writesAre.read_unary op_20 V (not_written_from (20 + 1) (by decide)) (not_written_from 20 (by decide))

private theorem op_21 : (ops : List (HloOp τ sig (Elt F)))[21]? = some (StableHlo.binary main_v15 main_v17 main_v18 (addf : (⟨S10000x512, .f32⟩ : BufTy).Contents (Elt F) → (⟨S10000x512, .f32⟩ : BufTy).Contents (Elt F) → (⟨S10000x512, .f32⟩ : BufTy).Contents (Elt F))) := rfl
theorem val_main_v18 (V : Valuation τ sig (Elt F)) :
    after ops V (no_index (Proc.devRef .tc main_v18)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v15)) (after ops V (Proc.devRef .tc main_v17)) :=
  ops_writesAre.read_binary op_21 V (not_written_from (21 + 1) (by decide)) (not_written_from 21 (by decide)) (not_written_from 21 (by decide))

private theorem op_22 : (ops : List (HloOp τ sig (Elt F)))[22]? = some (StableHlo.nullary main_call0_cst ((constant S_ .f32 0x00000000#32) : (⟨S_, .f32⟩ : BufTy).Contents (Elt F))) := rfl
theorem val_main_call0_cst (V : Valuation τ sig (Elt F)) :
    after ops V (no_index (Proc.devRef .tc main_call0_cst)) = ((constant S_ .f32 0x00000000#32) : (⟨S_, .f32⟩ : BufTy).Contents (Elt F)) :=
  ops_writesAre.read_nullary op_22 V (not_written_from (22 + 1) (by decide))

private theorem op_23 : (ops : List (HloOp τ sig (Elt F)))[23]? = some (StableHlo.unary main_call0_cst main_call0_v0 ((broadcastInDim S10000x512 ![] bcast_S_S10000x512) : (⟨S_, .f32⟩ : BufTy).Contents (Elt F) → (⟨S10000x512, .f32⟩ : BufTy).Contents (Elt F))) := rfl
theorem val_main_call0_v0 (V : Valuation τ sig (Elt F)) :
    after ops V (no_index (Proc.devRef .tc main_call0_v0)) = ((broadcastInDim S10000x512 ![] bcast_S_S10000x512) : (⟨S_, .f32⟩ : BufTy).Contents (Elt F) → (⟨S10000x512, .f32⟩ : BufTy).Contents (Elt F)) (after ops V (Proc.devRef .tc main_call0_cst)) :=
  ops_writesAre.read_unary op_23 V (not_written_from (23 + 1) (by decide)) (not_written_from 23 (by decide))

private theorem op_24 : (ops : List (HloOp τ sig (Elt F)))[24]? = some (StableHlo.binary main_v18 main_call0_v0 main_v19 (maximumf : (⟨S10000x512, .f32⟩ : BufTy).Contents (Elt F) → (⟨S10000x512, .f32⟩ : BufTy).Contents (Elt F) → (⟨S10000x512, .f32⟩ : BufTy).Contents (Elt F))) := rfl
theorem val_main_v19 (V : Valuation τ sig (Elt F)) :
    after ops V (no_index (Proc.devRef .tc main_v19)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v18)) (after ops V (Proc.devRef .tc main_call0_v0)) :=
  ops_writesAre.read_binary op_24 V (not_written_from (24 + 1) (by decide)) (not_written_from 24 (by decide)) (not_written_from 24 (by decide))

private theorem op_25 : (ops : List (HloOp τ sig (Elt F)))[25]? = some (StableHlo.binary main_v19 main_arg5 main_v20 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))) := rfl
theorem val_main_v20 (V : Valuation τ sig (Elt F)) :
    after ops V (no_index (Proc.devRef .tc main_v20)) = ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) (after ops V (Proc.devRef .tc main_v19)) (after ops V (Proc.devRef .tc main_arg5)) :=
  ops_writesAre.read_binary op_25 V (not_written_from (25 + 1) (by decide)) (not_written_from 25 (by decide)) (not_written_from 25 (by decide))

private theorem op_26 : (ops : List (HloOp τ sig (Elt F)))[26]? = some (StableHlo.unary main_arg6 main_v21 (broadcastInDim S1x512 ![1] bcast_S512_S1x512_1 : (⟨S512, .f32⟩ : BufTy).Contents (Elt F) → (⟨S1x512, .f32⟩ : BufTy).Contents (Elt F))) := rfl
theorem val_main_v21 (V : Valuation τ sig (Elt F)) :
    after ops V (no_index (Proc.devRef .tc main_v21)) = (broadcastInDim S1x512 ![1] bcast_S512_S1x512_1 : (⟨S512, .f32⟩ : BufTy).Contents (Elt F) → (⟨S1x512, .f32⟩ : BufTy).Contents (Elt F)) (after ops V (Proc.devRef .tc main_arg6)) :=
  ops_writesAre.read_unary op_26 V (not_written_from (26 + 1) (by decide)) (not_written_from 26 (by decide))

private theorem op_27 : (ops : List (HloOp τ sig (Elt F)))[27]? = some (StableHlo.unary main_v21 main_v22 (broadcastInDim S10000x512 ![0, 1] bcast_S1x512_S10000x512_0_1 : (⟨S1x512, .f32⟩ : BufTy).Contents (Elt F) → (⟨S10000x512, .f32⟩ : BufTy).Contents (Elt F))) := rfl
theorem val_main_v22 (V : Valuation τ sig (Elt F)) :
    after ops V (no_index (Proc.devRef .tc main_v22)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v21)) :=
  ops_writesAre.read_unary op_27 V (not_written_from (27 + 1) (by decide)) (not_written_from 27 (by decide))

private theorem op_28 : (ops : List (HloOp τ sig (Elt F)))[28]? = some (StableHlo.binary main_v20 main_v22 main_v23 (addf : (⟨S10000x512, .f32⟩ : BufTy).Contents (Elt F) → (⟨S10000x512, .f32⟩ : BufTy).Contents (Elt F) → (⟨S10000x512, .f32⟩ : BufTy).Contents (Elt F))) := rfl
theorem val_main_v23 (V : Valuation τ sig (Elt F)) :
    after ops V (no_index (Proc.devRef .tc main_v23)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v20)) (after ops V (Proc.devRef .tc main_v22)) :=
  ops_writesAre.read_binary op_28 V (not_written_from (28 + 1) (by decide)) (not_written_from 28 (by decide)) (not_written_from 28 (by decide))

private theorem op_29 : (ops : List (HloOp τ sig (Elt F)))[29]? = some (StableHlo.nullary main_call1_cst ((constant S_ .f32 0x00000000#32) : (⟨S_, .f32⟩ : BufTy).Contents (Elt F))) := rfl
theorem val_main_call1_cst (V : Valuation τ sig (Elt F)) :
    after ops V (no_index (Proc.devRef .tc main_call1_cst)) = ((constant S_ .f32 0x00000000#32) : (⟨S_, .f32⟩ : BufTy).Contents (Elt F)) :=
  ops_writesAre.read_nullary op_29 V (not_written_from (29 + 1) (by decide))

private theorem op_30 : (ops : List (HloOp τ sig (Elt F)))[30]? = some (StableHlo.unary main_call1_cst main_call1_v0 ((broadcastInDim S10000x512 ![] bcast_S_S10000x512) : (⟨S_, .f32⟩ : BufTy).Contents (Elt F) → (⟨S10000x512, .f32⟩ : BufTy).Contents (Elt F))) := rfl
theorem val_main_call1_v0 (V : Valuation τ sig (Elt F)) :
    after ops V (no_index (Proc.devRef .tc main_call1_v0)) = ((broadcastInDim S10000x512 ![] bcast_S_S10000x512) : (⟨S_, .f32⟩ : BufTy).Contents (Elt F) → (⟨S10000x512, .f32⟩ : BufTy).Contents (Elt F)) (after ops V (Proc.devRef .tc main_call1_cst)) :=
  ops_writesAre.read_unary op_30 V (not_written_from (30 + 1) (by decide)) (not_written_from 30 (by decide))

private theorem op_31 : (ops : List (HloOp τ sig (Elt F)))[31]? = some (StableHlo.binary main_v23 main_call1_v0 main_v24 (maximumf : (⟨S10000x512, .f32⟩ : BufTy).Contents (Elt F) → (⟨S10000x512, .f32⟩ : BufTy).Contents (Elt F) → (⟨S10000x512, .f32⟩ : BufTy).Contents (Elt F))) := rfl
theorem val_main_v24 (V : Valuation τ sig (Elt F)) :
    after ops V (no_index (Proc.devRef .tc main_v24)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v23)) (after ops V (Proc.devRef .tc main_call1_v0)) :=
  ops_writesAre.read_binary op_31 V (not_written_from (31 + 1) (by decide)) (not_written_from 31 (by decide)) (not_written_from 31 (by decide))

private theorem op_32 : (ops : List (HloOp τ sig (Elt F)))[32]? = some (StableHlo.unary main_arg11 main_v25 ((extractStridedSlice S1x512 ![0, 0] · slices_S5x512_S1x512_0_0) : (⟨S5x512, .f32⟩ : BufTy).Contents (Elt F) → (⟨S1x512, .f32⟩ : BufTy).Contents (Elt F))) := rfl
theorem val_main_v25 (V : Valuation τ sig (Elt F)) :
    after ops V (no_index (Proc.devRef .tc main_v25)) = ((extractStridedSlice S1x512 ![0, 0] · slices_S5x512_S1x512_0_0) : (⟨S5x512, .f32⟩ : BufTy).Contents (Elt F) → (⟨S1x512, .f32⟩ : BufTy).Contents (Elt F)) (after ops V (Proc.devRef .tc main_arg11)) :=
  ops_writesAre.read_unary op_32 V (not_written_from (32 + 1) (by decide)) (not_written_from 32 (by decide))

private theorem op_33 : (ops : List (HloOp τ sig (Elt F)))[33]? = some (StableHlo.reshape main_v25 main_v26 rfl shapeCasts_S1x512_S512) := rfl
theorem val_main_v26 (V : Valuation τ sig (Elt F)) :
    after ops V (no_index (Proc.devRef .tc main_v26)) = shapeCast S512 (after ops V (Proc.devRef .tc main_v25)) shapeCasts_S1x512_S512 :=
  ops_writesAre.read_reshape op_33 V (not_written_from (33 + 1) (by decide)) (not_written_from 33 (by decide))

private theorem op_34 : (ops : List (HloOp τ sig (Elt F)))[34]? = some (StableHlo.unary main_arg12 main_v27 ((extractStridedSlice S1x512 ![0, 0] · slices_S5x512_S1x512_0_0) : (⟨S5x512, .f32⟩ : BufTy).Contents (Elt F) → (⟨S1x512, .f32⟩ : BufTy).Contents (Elt F))) := rfl
theorem val_main_v27 (V : Valuation τ sig (Elt F)) :
    after ops V (no_index (Proc.devRef .tc main_v27)) = ((extractStridedSlice S1x512 ![0, 0] · slices_S5x512_S1x512_0_0) : (⟨S5x512, .f32⟩ : BufTy).Contents (Elt F) → (⟨S1x512, .f32⟩ : BufTy).Contents (Elt F)) (after ops V (Proc.devRef .tc main_arg12)) :=
  ops_writesAre.read_unary op_34 V (not_written_from (34 + 1) (by decide)) (not_written_from 34 (by decide))

private theorem op_35 : (ops : List (HloOp τ sig (Elt F)))[35]? = some (StableHlo.reshape main_v27 main_v28 rfl shapeCasts_S1x512_S512) := rfl
theorem val_main_v28 (V : Valuation τ sig (Elt F)) :
    after ops V (no_index (Proc.devRef .tc main_v28)) = shapeCast S512 (after ops V (Proc.devRef .tc main_v27)) shapeCasts_S1x512_S512 :=
  ops_writesAre.read_reshape op_35 V (not_written_from (35 + 1) (by decide)) (not_written_from 35 (by decide))

private theorem op_36 : (ops : List (HloOp τ sig (Elt F)))[36]? = some (StableHlo.nullary main_cst_1 (constant S_ .f32 0x00000000#32)) := rfl
theorem val_main_cst_1 (V : Valuation τ sig (Elt F)) :
    after ops V (no_index (Proc.devRef .tc main_cst_1)) = (constant S_ .f32 0x00000000#32) :=
  ops_writesAre.read_nullary op_36 V (not_written_from (36 + 1) (by decide))

private theorem op_37 : (ops : List (HloOp τ sig (Elt F)))[37]? = some (StableHlo.binary main_v24 main_cst_1 main_v29 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_v29 (V : Valuation τ sig (Elt F)) :
    after ops V (no_index (Proc.devRef .tc main_v29)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v24)) (after ops V (Proc.devRef .tc main_cst_1)) :=
  ops_writesAre.read_binary op_37 V (not_written_from (37 + 1) (by decide)) (not_written_from 37 (by decide)) (not_written_from 37 (by decide))

private theorem op_38 : (ops : List (HloOp τ sig (Elt F)))[38]? = some (StableHlo.nullary main_cst_2 (constant S_ .f32 0x461C4000#32)) := rfl
theorem val_main_cst_2 (V : Valuation τ sig (Elt F)) :
    after ops V (no_index (Proc.devRef .tc main_cst_2)) = (constant S_ .f32 0x461C4000#32) :=
  ops_writesAre.read_nullary op_38 V (not_written_from (38 + 1) (by decide))

private theorem op_39 : (ops : List (HloOp τ sig (Elt F)))[39]? = some (StableHlo.unary main_cst_2 main_v30 (broadcastInDim S512 ![] bcast_S_S512 : (⟨S_, .f32⟩ : BufTy).Contents (Elt F) → (⟨S512, .f32⟩ : BufTy).Contents (Elt F))) := rfl
theorem val_main_v30 (V : Valuation τ sig (Elt F)) :
    after ops V (no_index (Proc.devRef .tc main_v30)) = (broadcastInDim S512 ![] bcast_S_S512 : (⟨S_, .f32⟩ : BufTy).Contents (Elt F) → (⟨S512, .f32⟩ : BufTy).Contents (Elt F)) (after ops V (Proc.devRef .tc main_cst_2)) :=
  ops_writesAre.read_unary op_39 V (not_written_from (39 + 1) (by decide)) (not_written_from 39 (by decide))

private theorem op_40 : (ops : List (HloOp τ sig (Elt F)))[40]? = some (StableHlo.binary main_v29 main_v30 main_v31 (Host.divf : (⟨S512, .f32⟩ : BufTy).Contents (Elt F) → (⟨S512, .f32⟩ : BufTy).Contents (Elt F) → (⟨S512, .f32⟩ : BufTy).Contents (Elt F))) := rfl
theorem val_main_v31 (V : Valuation τ sig (Elt F)) :
    after ops V (no_index (Proc.devRef .tc main_v31)) = (Host.divf : (⟨S512, .f32⟩ : BufTy).Contents (Elt F) → (⟨S512, .f32⟩ : BufTy).Contents (Elt F) → (⟨S512, .f32⟩ : BufTy).Contents (Elt F)) (after ops V (Proc.devRef .tc main_v29)) (after ops V (Proc.devRef .tc main_v30)) :=
  ops_writesAre.read_binary op_40 V (not_written_from (40 + 1) (by decide)) (not_written_from 40 (by decide)) (not_written_from 40 (by decide))

private theorem op_41 : (ops : List (HloOp τ sig (Elt F)))[41]? = some (StableHlo.nullary main_c_3 (constantI S_ 32 0#32)) := rfl
theorem val_main_c_3 (V : Valuation τ sig (Elt F)) :
    after ops V (no_index (Proc.devRef .tc main_c_3)) = (constantI S_ 32 0#32) :=
  ops_writesAre.read_nullary op_41 V (not_written_from (41 + 1) (by decide))

private theorem op_42 : (ops : List (HloOp τ sig (Elt F)))[42]? = some (StableHlo.nullary main_call2_cst ((constant S_ .f32 0x00000000#32) : (⟨S_, .f32⟩ : BufTy).Contents (Elt F))) := rfl
theorem val_main_call2_cst (V : Valuation τ sig (Elt F)) :
    after ops V (no_index (Proc.devRef .tc main_call2_cst)) = ((constant S_ .f32 0x00000000#32) : (⟨S_, .f32⟩ : BufTy).Contents (Elt F)) :=
  ops_writesAre.read_nullary op_42 V (not_written_from (42 + 1) (by decide))

private theorem op_43 : (ops : List (HloOp τ sig (Elt F)))[43]? = some (StableHlo.binary main_v24 main_call2_cst main_call2_v0 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call2_v0 (V : Valuation τ sig (Elt F)) :
    after ops V (no_index (Proc.devRef .tc main_call2_v0)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v24)) (after ops V (Proc.devRef .tc main_call2_cst)) :=
  ops_writesAre.read_binary op_43 V (not_written_from (43 + 1) (by decide)) (not_written_from 43 (by decide)) (not_written_from 43 (by decide))

private theorem op_44 : (ops : List (HloOp τ sig (Elt F)))[44]? = some (StableHlo.unary main_call2_v0 main_call2_v1 ((broadcastInDim S1x512 ![1] bcast_S512_S1x512_1) : (⟨S512, .f32⟩ : BufTy).Contents (Elt F) → (⟨S1x512, .f32⟩ : BufTy).Contents (Elt F))) := rfl
theorem val_main_call2_v1 (V : Valuation τ sig (Elt F)) :
    after ops V (no_index (Proc.devRef .tc main_call2_v1)) = ((broadcastInDim S1x512 ![1] bcast_S512_S1x512_1) : (⟨S512, .f32⟩ : BufTy).Contents (Elt F) → (⟨S1x512, .f32⟩ : BufTy).Contents (Elt F)) (after ops V (Proc.devRef .tc main_call2_v0)) :=
  ops_writesAre.read_unary op_44 V (not_written_from (44 + 1) (by decide)) (not_written_from 44 (by decide))

private theorem op_45 : (ops : List (HloOp τ sig (Elt F)))[45]? = some (StableHlo.nullary main_call2_cst_0 ((constant S_ .f32 0x461C4000#32) : (⟨S_, .f32⟩ : BufTy).Contents (Elt F))) := rfl
theorem val_main_call2_cst_0 (V : Valuation τ sig (Elt F)) :
    after ops V (no_index (Proc.devRef .tc main_call2_cst_0)) = ((constant S_ .f32 0x461C4000#32) : (⟨S_, .f32⟩ : BufTy).Contents (Elt F)) :=
  ops_writesAre.read_nullary op_45 V (not_written_from (45 + 1) (by decide))

private theorem op_46 : (ops : List (HloOp τ sig (Elt F)))[46]? = some (StableHlo.unary main_call2_cst_0 main_call2_v2 ((broadcastInDim S1x512 ![] bcast_S_S1x512) : (⟨S_, .f32⟩ : BufTy).Contents (Elt F) → (⟨S1x512, .f32⟩ : BufTy).Contents (Elt F))) := rfl
theorem val_main_call2_v2 (V : Valuation τ sig (Elt F)) :
    after ops V (no_index (Proc.devRef .tc main_call2_v2)) = ((broadcastInDim S1x512 ![] bcast_S_S1x512) : (⟨S_, .f32⟩ : BufTy).Contents (Elt F) → (⟨S1x512, .f32⟩ : BufTy).Contents (Elt F)) (after ops V (Proc.devRef .tc main_call2_cst_0)) :=
  ops_writesAre.read_unary op_46 V (not_written_from (46 + 1) (by decide)) (not_written_from 46 (by decide))

private theorem op_47 : (ops : List (HloOp τ sig (Elt F)))[47]? = some (StableHlo.binary main_call2_v1 main_call2_v2 main_call2_v3 (Host.divf : (⟨S1x512, .f32⟩ : BufTy).Contents (Elt F) → (⟨S1x512, .f32⟩ : BufTy).Contents (Elt F) → (⟨S1x512, .f32⟩ : BufTy).Contents (Elt F))) := rfl
theorem val_main_call2_v3 (V : Valuation τ sig (Elt F)) :
    after ops V (no_index (Proc.devRef .tc main_call2_v3)) = (Host.divf : (⟨S1x512, .f32⟩ : BufTy).Contents (Elt F) → (⟨S1x512, .f32⟩ : BufTy).Contents (Elt F) → (⟨S1x512, .f32⟩ : BufTy).Contents (Elt F)) (after ops V (Proc.devRef .tc main_call2_v1)) (after ops V (Proc.devRef .tc main_call2_v2)) :=
  ops_writesAre.read_binary op_47 V (not_written_from (47 + 1) (by decide)) (not_written_from 47 (by decide)) (not_written_from 47 (by decide))

private theorem op_48 : (ops : List (HloOp τ sig (Elt F)))[48]? = some (StableHlo.unary main_call2_v3 main_call2_v4 ((broadcastInDim S10000x512 ![0, 1] bcast_S1x512_S10000x512_0_1) : (⟨S1x512, .f32⟩ : BufTy).Contents (Elt F) → (⟨S10000x512, .f32⟩ : BufTy).Contents (Elt F))) := rfl
theorem val_main_call2_v4 (V : Valuation τ sig (Elt F)) :
    after ops V (no_index (Proc.devRef .tc main_call2_v4)) = ((broadcastInDim S10000x512 ![0, 1] bcast_S1x512_S10000x512_0_1) : (⟨S1x512, .f32⟩ : BufTy).Contents (Elt F) → (⟨S10000x512, .f32⟩ : BufTy).Contents (Elt F)) (after ops V (Proc.devRef .tc main_call2_v3)) :=
  ops_writesAre.read_unary op_48 V (not_written_from (48 + 1) (by decide)) (not_written_from 48 (by decide))

private theorem op_49 : (ops : List (HloOp τ sig (Elt F)))[49]? = some (StableHlo.binary main_v24 main_call2_v4 main_call2_v5 (subf : (⟨S10000x512, .f32⟩ : BufTy).Contents (Elt F) → (⟨S10000x512, .f32⟩ : BufTy).Contents (Elt F) → (⟨S10000x512, .f32⟩ : BufTy).Contents (Elt F))) := rfl
theorem val_main_call2_v5 (V : Valuation τ sig (Elt F)) :
    after ops V (no_index (Proc.devRef .tc main_call2_v5)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v24)) (after ops V (Proc.devRef .tc main_call2_v4)) :=
  ops_writesAre.read_binary op_49 V (not_written_from (49 + 1) (by decide)) (not_written_from 49 (by decide)) (not_written_from 49 (by decide))

private theorem op_50 : (ops : List (HloOp τ sig (Elt F)))[50]? = some (StableHlo.binary main_call2_v5 main_call2_v5 main_call2_v6 (mulf : (⟨S10000x512, .f32⟩ : BufTy).Contents (Elt F) → (⟨S10000x512, .f32⟩ : BufTy).Contents (Elt F) → (⟨S10000x512, .f32⟩ : BufTy).Contents (Elt F))) := rfl
theorem val_main_call2_v6 (V : Valuation τ sig (Elt F)) :
    after ops V (no_index (Proc.devRef .tc main_call2_v6)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_call2_v5)) (after ops V (Proc.devRef .tc main_call2_v5)) :=
  ops_writesAre.read_binary op_50 V (not_written_from (50 + 1) (by decide)) (not_written_from 50 (by decide)) (not_written_from 50 (by decide))

private theorem op_51 : (ops : List (HloOp τ sig (Elt F)))[51]? = some (StableHlo.unary main_c_3 main_call2_v7 ((sitofp .f32) : (⟨S_, .i32⟩ : BufTy).Contents (Elt F) → (⟨S_, .f32⟩ : BufTy).Contents (Elt F))) := rfl
theorem val_main_call2_v7 (V : Valuation τ sig (Elt F)) :
    after ops V (no_index (Proc.devRef .tc main_call2_v7)) = ((sitofp .f32) : (⟨S_, .i32⟩ : BufTy).Contents (Elt F) → (⟨S_, .f32⟩ : BufTy).Contents (Elt F)) (after ops V (Proc.devRef .tc main_c_3)) :=
  ops_writesAre.read_unary op_51 V (not_written_from (51 + 1) (by decide)) (not_written_from 51 (by decide))

private theorem op_52 : (ops : List (HloOp τ sig (Elt F)))[52]? = some (StableHlo.nullary main_call2_cst_1 ((constant S_ .f32 0x461C4000#32) : (⟨S_, .f32⟩ : BufTy).Contents (Elt F))) := rfl
theorem val_main_call2_cst_1 (V : Valuation τ sig (Elt F)) :
    after ops V (no_index (Proc.devRef .tc main_call2_cst_1)) = ((constant S_ .f32 0x461C4000#32) : (⟨S_, .f32⟩ : BufTy).Contents (Elt F)) :=
  ops_writesAre.read_nullary op_52 V (not_written_from (52 + 1) (by decide))

private theorem op_53 : (ops : List (HloOp τ sig (Elt F)))[53]? = some (StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F))) := rfl
theorem val_main_call2_v8 (V : Valuation τ sig (Elt F)) :
    after ops V (no_index (Proc.devRef .tc main_call2_v8)) = (subf : (⟨S_, .f32⟩ : BufTy).Contents (Elt F) → (⟨S_, .f32⟩ : BufTy).Contents (Elt F) → (⟨S_, .f32⟩ : BufTy).Contents (Elt F)) (after ops V (Proc.devRef .tc main_call2_cst_1)) (after ops V (Proc.devRef .tc main_call2_v7)) :=
  ops_writesAre.read_binary op_53 V (not_written_from (53 + 1) (by decide)) (not_written_from 53 (by decide)) (not_written_from 53 (by decide))

private theorem op_54 : (ops : List (HloOp τ sig (Elt F)))[54]? = some (StableHlo.nullary main_call2_cst_2 ((constant S_ .f32 0x00000000#32) : (⟨S_, .f32⟩ : BufTy).Contents (Elt F))) := rfl
theorem val_main_call2_cst_2 (V : Valuation τ sig (Elt F)) :
    after ops V (no_index (Proc.devRef .tc main_call2_cst_2)) = ((constant S_ .f32 0x00000000#32) : (⟨S_, .f32⟩ : BufTy).Contents (Elt F)) :=
  ops_writesAre.read_nullary op_54 V (not_written_from (54 + 1) (by decide))

private theorem op_55 : (ops : List (HloOp τ sig (Elt F)))[55]? = some (StableHlo.binary main_call2_v6 main_call2_cst_2 main_call2_v9 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call2_v9 (V : Valuation τ sig (Elt F)) :
    after ops V (no_index (Proc.devRef .tc main_call2_v9)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_call2_v6)) (after ops V (Proc.devRef .tc main_call2_cst_2)) :=
  ops_writesAre.read_binary op_55 V (not_written_from (55 + 1) (by decide)) (not_written_from 55 (by decide)) (not_written_from 55 (by decide))

private theorem op_56 : (ops : List (HloOp τ sig (Elt F)))[56]? = some (StableHlo.unary main_call2_v8 main_call2_v10 ((broadcastInDim S512 ![] bcast_S_S512) : (⟨S_, .f32⟩ : BufTy).Contents (Elt F) → (⟨S512, .f32⟩ : BufTy).Contents (Elt F))) := rfl
theorem val_main_call2_v10 (V : Valuation τ sig (Elt F)) :
    after ops V (no_index (Proc.devRef .tc main_call2_v10)) = ((broadcastInDim S512 ![] bcast_S_S512) : (⟨S_, .f32⟩ : BufTy).Contents (Elt F) → (⟨S512, .f32⟩ : BufTy).Contents (Elt F)) (after ops V (Proc.devRef .tc main_call2_v8)) :=
  ops_writesAre.read_unary op_56 V (not_written_from (56 + 1) (by decide)) (not_written_from 56 (by decide))

private theorem op_57 : (ops : List (HloOp τ sig (Elt F)))[57]? = some (StableHlo.binary main_call2_v9 main_call2_v10 main_call2_v11 (Host.divf : (⟨S512, .f32⟩ : BufTy).Contents (Elt F) → (⟨S512, .f32⟩ : BufTy).Contents (Elt F) → (⟨S512, .f32⟩ : BufTy).Contents (Elt F))) := rfl
theorem val_main_call2_v11 (V : Valuation τ sig (Elt F)) :
    after ops V (no_index (Proc.devRef .tc main_call2_v11)) = (Host.divf : (⟨S512, .f32⟩ : BufTy).Contents (Elt F) → (⟨S512, .f32⟩ : BufTy).Contents (Elt F) → (⟨S512, .f32⟩ : BufTy).Contents (Elt F)) (after ops V (Proc.devRef .tc main_call2_v9)) (after ops V (Proc.devRef .tc main_call2_v10)) :=
  ops_writesAre.read_binary op_57 V (not_written_from (57 + 1) (by decide)) (not_written_from 57 (by decide)) (not_written_from 57 (by decide))

private theorem op_58 : (ops : List (HloOp τ sig (Elt F)))[58]? = some (StableHlo.nullary main_call2_cst_3 ((constant S_ .f32 0x00000000#32) : (⟨S_, .f32⟩ : BufTy).Contents (Elt F))) := rfl
theorem val_main_call2_cst_3 (V : Valuation τ sig (Elt F)) :
    after ops V (no_index (Proc.devRef .tc main_call2_cst_3)) = ((constant S_ .f32 0x00000000#32) : (⟨S_, .f32⟩ : BufTy).Contents (Elt F)) :=
  ops_writesAre.read_nullary op_58 V (not_written_from (58 + 1) (by decide))

private theorem op_59 : (ops : List (HloOp τ sig (Elt F)))[59]? = some (StableHlo.binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F))) := rfl
theorem val_main_call2_v12 (V : Valuation τ sig (Elt F)) :
    after ops V (no_index (Proc.devRef .tc main_call2_v12)) = ((cmpf .ogt) : (⟨S_, .f32⟩ : BufTy).Contents (Elt F) → (⟨S_, .f32⟩ : BufTy).Contents (Elt F) → (⟨S_, .i1⟩ : BufTy).Contents (Elt F)) (after ops V (Proc.devRef .tc main_call2_v8)) (after ops V (Proc.devRef .tc main_call2_cst_3)) :=
  ops_writesAre.read_binary op_59 V (not_written_from (59 + 1) (by decide)) (not_written_from 59 (by decide)) (not_written_from 59 (by decide))

private theorem op_60 : (ops : List (HloOp τ sig (Elt F)))[60]? = some (StableHlo.nullary main_call2_cst_4 ((constant S_ .f32 0x7FC00000#32) : (⟨S_, .f32⟩ : BufTy).Contents (Elt F))) := rfl
theorem val_main_call2_cst_4 (V : Valuation τ sig (Elt F)) :
    after ops V (no_index (Proc.devRef .tc main_call2_cst_4)) = ((constant S_ .f32 0x7FC00000#32) : (⟨S_, .f32⟩ : BufTy).Contents (Elt F)) :=
  ops_writesAre.read_nullary op_60 V (not_written_from (60 + 1) (by decide))

private theorem op_61 : (ops : List (HloOp τ sig (Elt F)))[61]? = some (StableHlo.unary main_call2_cst_4 main_call2_call0_v0 (id : (⟨S_, .f32⟩ : BufTy).Contents (Elt F) → (⟨S_, .f32⟩ : BufTy).Contents (Elt F))) := rfl
theorem val_main_call2_call0_v0 (V : Valuation τ sig (Elt F)) :
    after ops V (no_index (Proc.devRef .tc main_call2_call0_v0)) = (id : (⟨S_, .f32⟩ : BufTy).Contents (Elt F) → (⟨S_, .f32⟩ : BufTy).Contents (Elt F)) (after ops V (Proc.devRef .tc main_call2_cst_4)) :=
  ops_writesAre.read_unary op_61 V (not_written_from (61 + 1) (by decide)) (not_written_from 61 (by decide))

private theorem op_62 : (ops : List (HloOp τ sig (Elt F)))[62]? = some (StableHlo.unary main_call2_call0_v0 main_call2_call0_v1 ((broadcastInDim S512 ![] bcast_S_S512) : (⟨S_, .f32⟩ : BufTy).Contents (Elt F) → (⟨S512, .f32⟩ : BufTy).Contents (Elt F))) := rfl
theorem val_main_call2_call0_v1 (V : Valuation τ sig (Elt F)) :
    after ops V (no_index (Proc.devRef .tc main_call2_call0_v1)) = ((broadcastInDim S512 ![] bcast_S_S512) : (⟨S_, .f32⟩ : BufTy).Contents (Elt F) → (⟨S512, .f32⟩ : BufTy).Contents (Elt F)) (after ops V (Proc.devRef .tc main_call2_call0_v0)) :=
  ops_writesAre.read_unary op_62 V (not_written_from (62 + 1) (by decide)) (not_written_from 62 (by decide))

private theorem op_63 : (ops : List (HloOp τ sig (Elt F)))[63]? = some (StableHlo.ternary main_call2_v12 main_call2_v11 main_call2_call0_v1 main_v32 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F))) := rfl
theorem val_main_v32 (V : Valuation τ sig (Elt F)) :
    after ops V (no_index (Proc.devRef .tc main_v32)) = ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)) (after ops V (Proc.devRef .tc main_call2_v12)) (after ops V (Proc.devRef .tc main_call2_v11)) (after ops V (Proc.devRef .tc main_call2_call0_v1)) :=
  ops_writesAre.read_ternary op_63 V (not_written_from (63 + 1) (by decide)) (not_written_from 63 (by decide)) (not_written_from 63 (by decide)) (not_written_from 63 (by decide))

private theorem op_64 : (ops : List (HloOp τ sig (Elt F)))[64]? = some (StableHlo.unary main_v31 main_v33 (broadcastInDim S1x512 ![1] bcast_S512_S1x512_1 : (⟨S512, .f32⟩ : BufTy).Contents (Elt F) → (⟨S1x512, .f32⟩ : BufTy).Contents (Elt F))) := rfl
theorem val_main_v33 (V : Valuation τ sig (Elt F)) :
    after ops V (no_index (Proc.devRef .tc main_v33)) = (broadcastInDim S1x512 ![1] bcast_S512_S1x512_1 : (⟨S512, .f32⟩ : BufTy).Contents (Elt F) → (⟨S1x512, .f32⟩ : BufTy).Contents (Elt F)) (after ops V (Proc.devRef .tc main_v31)) :=
  ops_writesAre.read_unary op_64 V (not_written_from (64 + 1) (by decide)) (not_written_from 64 (by decide))

private theorem op_65 : (ops : List (HloOp τ sig (Elt F)))[65]? = some (StableHlo.unary main_v33 main_v34 (broadcastInDim S10000x512 ![0, 1] bcast_S1x512_S10000x512_0_1 : (⟨S1x512, .f32⟩ : BufTy).Contents (Elt F) → (⟨S10000x512, .f32⟩ : BufTy).Contents (Elt F))) := rfl
theorem val_main_v34 (V : Valuation τ sig (Elt F)) :
    after ops V (no_index (Proc.devRef .tc main_v34)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v33)) :=
  ops_writesAre.read_unary op_65 V (not_written_from (65 + 1) (by decide)) (not_written_from 65 (by decide))

private theorem op_66 : (ops : List (HloOp τ sig (Elt F)))[66]? = some (StableHlo.binary main_v24 main_v34 main_v35 (subf : (⟨S10000x512, .f32⟩ : BufTy).Contents (Elt F) → (⟨S10000x512, .f32⟩ : BufTy).Contents (Elt F) → (⟨S10000x512, .f32⟩ : BufTy).Contents (Elt F))) := rfl
theorem val_main_v35 (V : Valuation τ sig (Elt F)) :
    after ops V (no_index (Proc.devRef .tc main_v35)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v24)) (after ops V (Proc.devRef .tc main_v34)) :=
  ops_writesAre.read_binary op_66 V (not_written_from (66 + 1) (by decide)) (not_written_from 66 (by decide)) (not_written_from 66 (by decide))

private theorem op_67 : (ops : List (HloOp τ sig (Elt F)))[67]? = some (StableHlo.nullary main_cst_4 (constant S_ .f32 0x3727C5AC#32)) := rfl
theorem val_main_cst_4 (V : Valuation τ sig (Elt F)) :
    after ops V (no_index (Proc.devRef .tc main_cst_4)) = (constant S_ .f32 0x3727C5AC#32) :=
  ops_writesAre.read_nullary op_67 V (not_written_from (67 + 1) (by decide))

private theorem op_68 : (ops : List (HloOp τ sig (Elt F)))[68]? = some (StableHlo.unary main_cst_4 main_v36 (broadcastInDim S512 ![] bcast_S_S512 : (⟨S_, .f32⟩ : BufTy).Contents (Elt F) → (⟨S512, .f32⟩ : BufTy).Contents (Elt F))) := rfl
theorem val_main_v36 (V : Valuation τ sig (Elt F)) :
    after ops V (no_index (Proc.devRef .tc main_v36)) = (broadcastInDim S512 ![] bcast_S_S512 : (⟨S_, .f32⟩ : BufTy).Contents (Elt F) → (⟨S512, .f32⟩ : BufTy).Contents (Elt F)) (after ops V (Proc.devRef .tc main_cst_4)) :=
  ops_writesAre.read_unary op_68 V (not_written_from (68 + 1) (by decide)) (not_written_from 68 (by decide))

private theorem op_69 : (ops : List (HloOp τ sig (Elt F)))[69]? = some (StableHlo.binary main_v32 main_v36 main_v37 (addf : (⟨S512, .f32⟩ : BufTy).Contents (Elt F) → (⟨S512, .f32⟩ : BufTy).Contents (Elt F) → (⟨S512, .f32⟩ : BufTy).Contents (Elt F))) := rfl
theorem val_main_v37 (V : Valuation τ sig (Elt F)) :
    after ops V (no_index (Proc.devRef .tc main_v37)) = (addf : (⟨S512, .f32⟩ : BufTy).Contents (Elt F) → (⟨S512, .f32⟩ : BufTy).Contents (Elt F) → (⟨S512, .f32⟩ : BufTy).Contents (Elt F)) (after ops V (Proc.devRef .tc main_v32)) (after ops V (Proc.devRef .tc main_v36)) :=
  ops_writesAre.read_binary op_69 V (not_written_from (69 + 1) (by decide)) (not_written_from 69 (by decide)) (not_written_from 69 (by decide))

private theorem op_70 : (ops : List (HloOp τ sig (Elt F)))[70]? = some (StableHlo.unary main_v37 main_v38 (Host.rsqrt : (⟨S512, .f32⟩ : BufTy).Contents (Elt F) → (⟨S512, .f32⟩ : BufTy).Contents (Elt F))) := rfl
theorem val_main_v38 (V : Valuation τ sig (Elt F)) :
    after ops V (no_index (Proc.devRef .tc main_v38)) = (Host.rsqrt : (⟨S512, .f32⟩ : BufTy).Contents (Elt F) → (⟨S512, .f32⟩ : BufTy).Contents (Elt F)) (after ops V (Proc.devRef .tc main_v37)) :=
  ops_writesAre.read_unary op_70 V (not_written_from (70 + 1) (by decide)) (not_written_from 70 (by decide))

private theorem op_71 : (ops : List (HloOp τ sig (Elt F)))[71]? = some (StableHlo.binary main_v26 main_v38 main_v39 (mulf : (⟨S512, .f32⟩ : BufTy).Contents (Elt F) → (⟨S512, .f32⟩ : BufTy).Contents (Elt F) → (⟨S512, .f32⟩ : BufTy).Contents (Elt F))) := rfl
theorem val_main_v39 (V : Valuation τ sig (Elt F)) :
    after ops V (no_index (Proc.devRef .tc main_v39)) = (mulf : (⟨S512, .f32⟩ : BufTy).Contents (Elt F) → (⟨S512, .f32⟩ : BufTy).Contents (Elt F) → (⟨S512, .f32⟩ : BufTy).Contents (Elt F)) (after ops V (Proc.devRef .tc main_v26)) (after ops V (Proc.devRef .tc main_v38)) :=
  ops_writesAre.read_binary op_71 V (not_written_from (71 + 1) (by decide)) (not_written_from 71 (by decide)) (not_written_from 71 (by decide))

private theorem op_72 : (ops : List (HloOp τ sig (Elt F)))[72]? = some (StableHlo.unary main_v39 main_v40 (broadcastInDim S1x512 ![1] bcast_S512_S1x512_1 : (⟨S512, .f32⟩ : BufTy).Contents (Elt F) → (⟨S1x512, .f32⟩ : BufTy).Contents (Elt F))) := rfl
theorem val_main_v40 (V : Valuation τ sig (Elt F)) :
    after ops V (no_index (Proc.devRef .tc main_v40)) = (broadcastInDim S1x512 ![1] bcast_S512_S1x512_1 : (⟨S512, .f32⟩ : BufTy).Contents (Elt F) → (⟨S1x512, .f32⟩ : BufTy).Contents (Elt F)) (after ops V (Proc.devRef .tc main_v39)) :=
  ops_writesAre.read_unary op_72 V (not_written_from (72 + 1) (by decide)) (not_written_from 72 (by decide))

private theorem op_73 : (ops : List (HloOp τ sig (Elt F)))[73]? = some (StableHlo.unary main_v40 main_v41 (broadcastInDim S10000x512 ![0, 1] bcast_S1x512_S10000x512_0_1 : (⟨S1x512, .f32⟩ : BufTy).Contents (Elt F) → (⟨S10000x512, .f32⟩ : BufTy).Contents (Elt F))) := rfl
theorem val_main_v41 (V : Valuation τ sig (Elt F)) :
    after ops V (no_index (Proc.devRef .tc main_v41)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v40)) :=
  ops_writesAre.read_unary op_73 V (not_written_from (73 + 1) (by decide)) (not_written_from 73 (by decide))

private theorem op_74 : (ops : List (HloOp τ sig (Elt F)))[74]? = some (StableHlo.binary main_v35 main_v41 main_v42 (mulf : (⟨S10000x512, .f32⟩ : BufTy).Contents (Elt F) → (⟨S10000x512, .f32⟩ : BufTy).Contents (Elt F) → (⟨S10000x512, .f32⟩ : BufTy).Contents (Elt F))) := rfl
theorem val_main_v42 (V : Valuation τ sig (Elt F)) :
    after ops V (no_index (Proc.devRef .tc main_v42)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_v35)) (after ops V (Proc.devRef .tc main_v41)) :=
  ops_writesAre.read_binary op_74 V (not_written_from (74 + 1) (by decide)) (not_written_from 74 (by decide)) (not_written_from 74 (by decide))

private theorem op_75 : (ops : List (HloOp τ sig (Elt F)))[75]? = some (StableHlo.unary main_v28 main_v43 (broadcastInDim S1x512 ![1] bcast_S512_S1x512_1 : (⟨S512, .f32⟩ : BufTy).Contents (Elt F) → (⟨S1x512, .f32⟩ : BufTy).Contents (Elt F))) := rfl
theorem val_main_v43 (V : Valuation τ sig (Elt F)) :
    after ops V (no_index (Proc.devRef .tc main_v43)) = (broadcastInDim S1x512 ![1] bcast_S512_S1x512_1 : (⟨S512, .f32⟩ : BufTy).Contents (Elt F) → (⟨S1x512, .f32⟩ : BufTy).Contents (Elt F)) (after ops V (Proc.devRef .tc main_v28)) :=
  ops_writesAre.read_unary op_75 V (not_written_from (75 + 1) (by decide)) (not_written_from 75 (by decide))

private theorem op_76 : (ops : List (HloOp τ sig (Elt F)))[76]? = some (StableHlo.unary main_v43 main_v44 (broadcastInDim S10000x512 ![0, 1] bcast_S1x512_S10000x512_0_1 : (⟨S1x512, .f32⟩ : BufTy).Contents (Elt F) → (⟨S10000x512, .f32⟩ : BufTy).Contents (Elt F))) := rfl
theorem val_main_v44 (V : Valuation τ sig (Elt F)) :
    after ops V (no_index (Proc.devRef .tc main_v44)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v43)) :=
  ops_writesAre.read_unary op_76 V (not_written_from (76 + 1) (by decide)) (not_written_from 76 (by decide))

private theorem op_77 : (ops : List (HloOp τ sig (Elt F)))[77]? = some (StableHlo.binary main_v42 main_v44 main_v45 (addf : (⟨S10000x512, .f32⟩ : BufTy).Contents (Elt F) → (⟨S10000x512, .f32⟩ : BufTy).Contents (Elt F) → (⟨S10000x512, .f32⟩ : BufTy).Contents (Elt F))) := rfl
theorem val_main_v45 (V : Valuation τ sig (Elt F)) :
    after ops V (no_index (Proc.devRef .tc main_v45)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v42)) (after ops V (Proc.devRef .tc main_v44)) :=
  ops_writesAre.read_binary op_77 V (not_written_from (77 + 1) (by decide)) (not_written_from 77 (by decide)) (not_written_from 77 (by decide))

private theorem op_78 : (ops : List (HloOp τ sig (Elt F)))[78]? = some (StableHlo.nullary main_c_5 (constantI S_ 32 0#32)) := rfl
theorem val_main_c_5 (V : Valuation τ sig (Elt F)) :
    after ops V (no_index (Proc.devRef .tc main_c_5)) = (constantI S_ 32 0#32) :=
  ops_writesAre.read_nullary op_78 V (not_written_from (78 + 1) (by decide))

private theorem op_79 : (ops : List (HloOp τ sig (Elt F)))[79]? = some (StableHlo.unary main_c_5 main_v46 (broadcastInDim S160000 ![] bcast_S_S160000 : (⟨S_, .i32⟩ : BufTy).Contents (Elt F) → (⟨S160000, .i32⟩ : BufTy).Contents (Elt F))) := rfl
theorem val_main_v46 (V : Valuation τ sig (Elt F)) :
    after ops V (no_index (Proc.devRef .tc main_v46)) = (broadcastInDim S160000 ![] bcast_S_S160000 : (⟨S_, .i32⟩ : BufTy).Contents (Elt F) → (⟨S160000, .i32⟩ : BufTy).Contents (Elt F)) (after ops V (Proc.devRef .tc main_c_5)) :=
  ops_writesAre.read_unary op_79 V (not_written_from (79 + 1) (by decide)) (not_written_from 79 (by decide))

private theorem op_80 : (ops : List (HloOp τ sig (Elt F)))[80]? = some (StableHlo.binary main_v1 main_v46 main_v47 (cmpi .slt : (⟨S160000, .i32⟩ : BufTy).Contents (Elt F) → (⟨S160000, .i32⟩ : BufTy).Contents (Elt F) → (⟨S160000, .i1⟩ : BufTy).Contents (Elt F))) := rfl
theorem val_main_v47 (V : Valuation τ sig (Elt F)) :
    after ops V (no_index (Proc.devRef .tc main_v47)) = (cmpi .slt : (⟨S160000, .i32⟩ : BufTy).Contents (Elt F) → (⟨S160000, .i32⟩ : BufTy).Contents (Elt F) → (⟨S160000, .i1⟩ : BufTy).Contents (Elt F)) (after ops V (Proc.devRef .tc main_v1)) (after ops V (Proc.devRef .tc main_v46)) :=
  ops_writesAre.read_binary op_80 V (not_written_from (80 + 1) (by decide)) (not_written_from 80 (by decide)) (not_written_from 80 (by decide))

private theorem op_81 : (ops : List (HloOp τ sig (Elt F)))[81]? = some (StableHlo.nullary main_c_6 (constantI S_ 32 10000#32)) := rfl
theorem val_main_c_6 (V : Valuation τ sig (Elt F)) :
    after ops V (no_index (Proc.devRef .tc main_c_6)) = (constantI S_ 32 10000#32) :=
  ops_writesAre.read_nullary op_81 V (not_written_from (81 + 1) (by decide))

private theorem op_82 : (ops : List (HloOp τ sig (Elt F)))[82]? = some (StableHlo.unary main_c_6 main_v48 (broadcastInDim S160000 ![] bcast_S_S160000 : (⟨S_, .i32⟩ : BufTy).Contents (Elt F) → (⟨S160000, .i32⟩ : BufTy).Contents (Elt F))) := rfl
theorem val_main_v48 (V : Valuation τ sig (Elt F)) :
    after ops V (no_index (Proc.devRef .tc main_v48)) = (broadcastInDim S160000 ![] bcast_S_S160000 : (⟨S_, .i32⟩ : BufTy).Contents (Elt F) → (⟨S160000, .i32⟩ : BufTy).Contents (Elt F)) (after ops V (Proc.devRef .tc main_c_6)) :=
  ops_writesAre.read_unary op_82 V (not_written_from (82 + 1) (by decide)) (not_written_from 82 (by decide))

private theorem op_83 : (ops : List (HloOp τ sig (Elt F)))[83]? = some (StableHlo.binary main_v1 main_v48 main_v49 (addi : (⟨S160000, .i32⟩ : BufTy).Contents (Elt F) → (⟨S160000, .i32⟩ : BufTy).Contents (Elt F) → (⟨S160000, .i32⟩ : BufTy).Contents (Elt F))) := rfl
theorem val_main_v49 (V : Valuation τ sig (Elt F)) :
    after ops V (no_index (Proc.devRef .tc main_v49)) = (addi : (⟨S160000, .i32⟩ : BufTy).Contents (Elt F) → (⟨S160000, .i32⟩ : BufTy).Contents (Elt F) → (⟨S160000, .i32⟩ : BufTy).Contents (Elt F)) (after ops V (Proc.devRef .tc main_v1)) (after ops V (Proc.devRef .tc main_v48)) :=
  ops_writesAre.read_binary op_83 V (not_written_from (83 + 1) (by decide)) (not_written_from 83 (by decide)) (not_written_from 83 (by decide))

private theorem op_84 : (ops : List (HloOp τ sig (Elt F)))[84]? = some (StableHlo.ternary main_v47 main_v49 main_v1 main_v50 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) := rfl
theorem val_main_v50 (V : Valuation τ sig (Elt F)) :
    after ops V (no_index (Proc.devRef .tc main_v50)) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v47)) (after ops V (Proc.devRef .tc main_v49)) (after ops V (Proc.devRef .tc main_v1)) :=
  ops_writesAre.read_ternary op_84 V (not_written_from (84 + 1) (by decide)) (not_written_from 84 (by decide)) (not_written_from 84 (by decide)) (not_written_from 84 (by decide))

end Cert.ReferenceIdeal.RefRun

end
-- ==== Proof.RI.Val1.lean ====
/-
  What each buffer written by operations 86 … 170 of the reference program holds at the end of the run, as ONE
  operation applied to the final contents of its operand buffers. Every buffer is written once and read only
  after it is written: the operation at position j is read off the list (by computation; an operation of an
  unfolded call is stated over the buffers themselves, the typed references' transports being the identity there),
  its result buffer has number 17 + j, below every buffer written after it, and its operand buffers have smaller numbers still.
-/
import proofs.«100381_j2018634629568_1_alg».proof.Proof.RI.Order

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

private theorem op_85 : (ops : List (HloOp τ sig (Elt F)))[85]? = some (StableHlo.unary main_v50 main_v51 (broadcastInDim S160000x1 ![0] bcast_S160000_S160000x1_0 : (⟨S160000, .i32⟩ : BufTy).Contents (Elt F) → (⟨S160000x1, .i32⟩ : BufTy).Contents (Elt F))) := rfl
theorem val_main_v51 (V : Valuation τ sig (Elt F)) :
    after ops V (no_index (Proc.devRef .tc main_v51)) = (broadcastInDim S160000x1 ![0] bcast_S160000_S160000x1_0 : (⟨S160000, .i32⟩ : BufTy).Contents (Elt F) → (⟨S160000x1, .i32⟩ : BufTy).Contents (Elt F)) (after ops V (Proc.devRef .tc main_v50)) :=
  ops_writesAre.read_unary op_85 V (not_written_from (85 + 1) (by decide)) (not_written_from 85 (by decide))

private theorem op_86 : (ops : List (HloOp τ sig (Elt F)))[86]? = some (StableHlo.binary main_v45 main_v51 main_v52 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F))) := rfl
theorem val_main_v52 (V : Valuation τ sig (Elt F)) :
    after ops V (no_index (Proc.devRef .tc main_v52)) = ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)) (after ops V (Proc.devRef .tc main_v45)) (after ops V (Proc.devRef .tc main_v51)) :=
  ops_writesAre.read_binary op_86 V (not_written_from (86 + 1) (by decide)) (not_written_from 86 (by decide)) (not_written_from 86 (by decide))

private theorem op_87 : (ops : List (HloOp τ sig (Elt F)))[87]? = some (StableHlo.nullary main_cst_7 (constant S_ .f32 0x00000000#32)) := rfl
theorem val_main_cst_7 (V : Valuation τ sig (Elt F)) :
    after ops V (no_index (Proc.devRef .tc main_cst_7)) = (constant S_ .f32 0x00000000#32) :=
  ops_writesAre.read_nullary op_87 V (not_written_from (87 + 1) (by decide))

private theorem op_88 : (ops : List (HloOp τ sig (Elt F)))[88]? = some (StableHlo.unary main_cst_7 main_v53 (broadcastInDim S10000x512 ![] bcast_S_S10000x512 : (⟨S_, .f32⟩ : BufTy).Contents (Elt F) → (⟨S10000x512, .f32⟩ : BufTy).Contents (Elt F))) := rfl
theorem val_main_v53 (V : Valuation τ sig (Elt F)) :
    after ops V (no_index (Proc.devRef .tc main_v53)) = (broadcastInDim S10000x512 ![] bcast_S_S10000x512 : (⟨S_, .f32⟩ : BufTy).Contents (Elt F) → (⟨S10000x512, .f32⟩ : BufTy).Contents (Elt F)) (after ops V (Proc.devRef .tc main_cst_7)) :=
  ops_writesAre.read_unary op_88 V (not_written_from (88 + 1) (by decide)) (not_written_from 88 (by decide))

private theorem op_89 : (ops : List (HloOp τ sig (Elt F)))[89]? = some (StableHlo.unary main_v3 main_v54 (broadcastInDim S160000x1 ![0] bcast_S160000_S160000x1_0 : (⟨S160000, .i32⟩ : BufTy).Contents (Elt F) → (⟨S160000x1, .i32⟩ : BufTy).Contents (Elt F))) := rfl
theorem val_main_v54 (V : Valuation τ sig (Elt F)) :
    after ops V (no_index (Proc.devRef .tc main_v54)) = (broadcastInDim S160000x1 ![0] bcast_S160000_S160000x1_0 : (⟨S160000, .i32⟩ : BufTy).Contents (Elt F) → (⟨S160000x1, .i32⟩ : BufTy).Contents (Elt F)) (after ops V (Proc.devRef .tc main_v3)) :=
  ops_writesAre.read_unary op_89 V (not_written_from (89 + 1) (by decide)) (not_written_from 89 (by decide))

private theorem op_90 : (ops : List (HloOp τ sig (Elt F)))[90]? = some (StableHlo.ternary main_v53 main_v54 main_v52 main_v55 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F))) := rfl
theorem val_main_v55 (V : Valuation τ sig (Elt F)) :
    after ops V (no_index (Proc.devRef .tc main_v55)) = ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)) (after ops V (Proc.devRef .tc main_v53)) (after ops V (Proc.devRef .tc main_v54)) (after ops V (Proc.devRef .tc main_v52)) :=
  ops_writesAre.read_ternary op_90 V (not_written_from (90 + 1) (by decide)) (not_written_from 90 (by decide)) (not_written_from 90 (by decide)) (not_written_from 90 (by decide))

private theorem op_91 : (ops : List (HloOp τ sig (Elt F)))[91]? = some (StableHlo.binary main_v45 main_v55 main_v56 (addf : (⟨S10000x512, .f32⟩ : BufTy).Contents (Elt F) → (⟨S10000x512, .f32⟩ : BufTy).Contents (Elt F) → (⟨S10000x512, .f32⟩ : BufTy).Contents (Elt F))) := rfl
theorem val_main_v56 (V : Valuation τ sig (Elt F)) :
    after ops V (no_index (Proc.devRef .tc main_v56)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v45)) (after ops V (Proc.devRef .tc main_v55)) :=
  ops_writesAre.read_binary op_91 V (not_written_from (91 + 1) (by decide)) (not_written_from 91 (by decide)) (not_written_from 91 (by decide))

private theorem op_92 : (ops : List (HloOp τ sig (Elt F)))[92]? = some (StableHlo.unary main_arg7 main_v57 ((extractStridedSlice S1x512x512 ![0, 0, 0] · slices_S4x512x512_S1x512x512_0_0_0) : (⟨S4x512x512, .f32⟩ : BufTy).Contents (Elt F) → (⟨S1x512x512, .f32⟩ : BufTy).Contents (Elt F))) := rfl
theorem val_main_v57 (V : Valuation τ sig (Elt F)) :
    after ops V (no_index (Proc.devRef .tc main_v57)) = ((extractStridedSlice S1x512x512 ![0, 0, 0] · slices_S4x512x512_S1x512x512_0_0_0) : (⟨S4x512x512, .f32⟩ : BufTy).Contents (Elt F) → (⟨S1x512x512, .f32⟩ : BufTy).Contents (Elt F)) (after ops V (Proc.devRef .tc main_arg7)) :=
  ops_writesAre.read_unary op_92 V (not_written_from (92 + 1) (by decide)) (not_written_from 92 (by decide))

private theorem op_93 : (ops : List (HloOp τ sig (Elt F)))[93]? = some (StableHlo.reshape main_v57 main_v58 rfl shapeCasts_S1x512x512_S512x512) := rfl
theorem val_main_v58 (V : Valuation τ sig (Elt F)) :
    after ops V (no_index (Proc.devRef .tc main_v58)) = shapeCast S512x512 (after ops V (Proc.devRef .tc main_v57)) shapeCasts_S1x512x512_S512x512 :=
  ops_writesAre.read_reshape op_93 V (not_written_from (93 + 1) (by decide)) (not_written_from 93 (by decide))

private theorem op_94 : (ops : List (HloOp τ sig (Elt F)))[94]? = some (StableHlo.unary main_arg8 main_v59 ((extractStridedSlice S1x512 ![0, 0] · slices_S4x512_S1x512_0_0) : (⟨S4x512, .f32⟩ : BufTy).Contents (Elt F) → (⟨S1x512, .f32⟩ : BufTy).Contents (Elt F))) := rfl
theorem val_main_v59 (V : Valuation τ sig (Elt F)) :
    after ops V (no_index (Proc.devRef .tc main_v59)) = ((extractStridedSlice S1x512 ![0, 0] · slices_S4x512_S1x512_0_0) : (⟨S4x512, .f32⟩ : BufTy).Contents (Elt F) → (⟨S1x512, .f32⟩ : BufTy).Contents (Elt F)) (after ops V (Proc.devRef .tc main_arg8)) :=
  ops_writesAre.read_unary op_94 V (not_written_from (94 + 1) (by decide)) (not_written_from 94 (by decide))

private theorem op_95 : (ops : List (HloOp τ sig (Elt F)))[95]? = some (StableHlo.reshape main_v59 main_v60 rfl shapeCasts_S1x512_S512) := rfl
theorem val_main_v60 (V : Valuation τ sig (Elt F)) :
    after ops V (no_index (Proc.devRef .tc main_v60)) = shapeCast S512 (after ops V (Proc.devRef .tc main_v59)) shapeCasts_S1x512_S512 :=
  ops_writesAre.read_reshape op_95 V (not_written_from (95 + 1) (by decide)) (not_written_from 95 (by decide))

private theorem op_96 : (ops : List (HloOp τ sig (Elt F)))[96]? = some (StableHlo.unary main_arg9 main_v61 ((extractStridedSlice S1x512x512 ![0, 0, 0] · slices_S4x512x512_S1x512x512_0_0_0) : (⟨S4x512x512, .f32⟩ : BufTy).Contents (Elt F) → (⟨S1x512x512, .f32⟩ : BufTy).Contents (Elt F))) := rfl
theorem val_main_v61 (V : Valuation τ sig (Elt F)) :
    after ops V (no_index (Proc.devRef .tc main_v61)) = ((extractStridedSlice S1x512x512 ![0, 0, 0] · slices_S4x512x512_S1x512x512_0_0_0) : (⟨S4x512x512, .f32⟩ : BufTy).Contents (Elt F) → (⟨S1x512x512, .f32⟩ : BufTy).Contents (Elt F)) (after ops V (Proc.devRef .tc main_arg9)) :=
  ops_writesAre.read_unary op_96 V (not_written_from (96 + 1) (by decide)) (not_written_from 96 (by decide))

private theorem op_97 : (ops : List (HloOp τ sig (Elt F)))[97]? = some (StableHlo.reshape main_v61 main_v62 rfl shapeCasts_S1x512x512_S512x512) := rfl
theorem val_main_v62 (V : Valuation τ sig (Elt F)) :
    after ops V (no_index (Proc.devRef .tc main_v62)) = shapeCast S512x512 (after ops V (Proc.devRef .tc main_v61)) shapeCasts_S1x512x512_S512x512 :=
  ops_writesAre.read_reshape op_97 V (not_written_from (97 + 1) (by decide)) (not_written_from 97 (by decide))

private theorem op_98 : (ops : List (HloOp τ sig (Elt F)))[98]? = some (StableHlo.unary main_arg10 main_v63 ((extractStridedSlice S1x512 ![0, 0] · slices_S4x512_S1x512_0_0) : (⟨S4x512, .f32⟩ : BufTy).Contents (Elt F) → (⟨S1x512, .f32⟩ : BufTy).Contents (Elt F))) := rfl
theorem val_main_v63 (V : Valuation τ sig (Elt F)) :
    after ops V (no_index (Proc.devRef .tc main_v63)) = ((extractStridedSlice S1x512 ![0, 0] · slices_S4x512_S1x512_0_0) : (⟨S4x512, .f32⟩ : BufTy).Contents (Elt F) → (⟨S1x512, .f32⟩ : BufTy).Contents (Elt F)) (after ops V (Proc.devRef .tc main_arg10)) :=
  ops_writesAre.read_unary op_98 V (not_written_from (98 + 1) (by decide)) (not_written_from 98 (by decide))

private theorem op_99 : (ops : List (HloOp τ sig (Elt F)))[99]? = some (StableHlo.reshape main_v63 main_v64 rfl shapeCasts_S1x512_S512) := rfl
theorem val_main_v64 (V : Valuation τ sig (Elt F)) :
    after ops V (no_index (Proc.devRef .tc main_v64)) = shapeCast S512 (after ops V (Proc.devRef .tc main_v63)) shapeCasts_S1x512_S512 :=
  ops_writesAre.read_reshape op_99 V (not_written_from (99 + 1) (by decide)) (not_written_from 99 (by decide))

private theorem op_100 : (ops : List (HloOp τ sig (Elt F)))[100]? = some (StableHlo.binary main_v56 main_v58 main_v65 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))) := rfl
theorem val_main_v65 (V : Valuation τ sig (Elt F)) :
    after ops V (no_index (Proc.devRef .tc main_v65)) = ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) (after ops V (Proc.devRef .tc main_v56)) (after ops V (Proc.devRef .tc main_v58)) :=
  ops_writesAre.read_binary op_100 V (not_written_from (100 + 1) (by decide)) (not_written_from 100 (by decide)) (not_written_from 100 (by decide))

private theorem op_101 : (ops : List (HloOp τ sig (Elt F)))[101]? = some (StableHlo.unary main_v60 main_v66 (broadcastInDim S1x512 ![1] bcast_S512_S1x512_1 : (⟨S512, .f32⟩ : BufTy).Contents (Elt F) → (⟨S1x512, .f32⟩ : BufTy).Contents (Elt F))) := rfl
theorem val_main_v66 (V : Valuation τ sig (Elt F)) :
    after ops V (no_index (Proc.devRef .tc main_v66)) = (broadcastInDim S1x512 ![1] bcast_S512_S1x512_1 : (⟨S512, .f32⟩ : BufTy).Contents (Elt F) → (⟨S1x512, .f32⟩ : BufTy).Contents (Elt F)) (after ops V (Proc.devRef .tc main_v60)) :=
  ops_writesAre.read_unary op_101 V (not_written_from (101 + 1) (by decide)) (not_written_from 101 (by decide))

private theorem op_102 : (ops : List (HloOp τ sig (Elt F)))[102]? = some (StableHlo.unary main_v66 main_v67 (broadcastInDim S10000x512 ![0, 1] bcast_S1x512_S10000x512_0_1 : (⟨S1x512, .f32⟩ : BufTy).Contents (Elt F) → (⟨S10000x512, .f32⟩ : BufTy).Contents (Elt F))) := rfl
theorem val_main_v67 (V : Valuation τ sig (Elt F)) :
    after ops V (no_index (Proc.devRef .tc main_v67)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v66)) :=
  ops_writesAre.read_unary op_102 V (not_written_from (102 + 1) (by decide)) (not_written_from 102 (by decide))

private theorem op_103 : (ops : List (HloOp τ sig (Elt F)))[103]? = some (StableHlo.binary main_v65 main_v67 main_v68 (addf : (⟨S10000x512, .f32⟩ : BufTy).Contents (Elt F) → (⟨S10000x512, .f32⟩ : BufTy).Contents (Elt F) → (⟨S10000x512, .f32⟩ : BufTy).Contents (Elt F))) := rfl
theorem val_main_v68 (V : Valuation τ sig (Elt F)) :
    after ops V (no_index (Proc.devRef .tc main_v68)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v65)) (after ops V (Proc.devRef .tc main_v67)) :=
  ops_writesAre.read_binary op_103 V (not_written_from (103 + 1) (by decide)) (not_written_from 103 (by decide)) (not_written_from 103 (by decide))

private theorem op_104 : (ops : List (HloOp τ sig (Elt F)))[104]? = some (StableHlo.nullary main_call3_cst ((constant S_ .f32 0x00000000#32) : (⟨S_, .f32⟩ : BufTy).Contents (Elt F))) := rfl
theorem val_main_call3_cst (V : Valuation τ sig (Elt F)) :
    after ops V (no_index (Proc.devRef .tc main_call3_cst)) = ((constant S_ .f32 0x00000000#32) : (⟨S_, .f32⟩ : BufTy).Contents (Elt F)) :=
  ops_writesAre.read_nullary op_104 V (not_written_from (104 + 1) (by decide))

private theorem op_105 : (ops : List (HloOp τ sig (Elt F)))[105]? = some (StableHlo.unary main_call3_cst main_call3_v0 ((broadcastInDim S10000x512 ![] bcast_S_S10000x512) : (⟨S_, .f32⟩ : BufTy).Contents (Elt F) → (⟨S10000x512, .f32⟩ : BufTy).Contents (Elt F))) := rfl
theorem val_main_call3_v0 (V : Valuation τ sig (Elt F)) :
    after ops V (no_index (Proc.devRef .tc main_call3_v0)) = ((broadcastInDim S10000x512 ![] bcast_S_S10000x512) : (⟨S_, .f32⟩ : BufTy).Contents (Elt F) → (⟨S10000x512, .f32⟩ : BufTy).Contents (Elt F)) (after ops V (Proc.devRef .tc main_call3_cst)) :=
  ops_writesAre.read_unary op_105 V (not_written_from (105 + 1) (by decide)) (not_written_from 105 (by decide))

private theorem op_106 : (ops : List (HloOp τ sig (Elt F)))[106]? = some (StableHlo.binary main_v68 main_call3_v0 main_v69 (maximumf : (⟨S10000x512, .f32⟩ : BufTy).Contents (Elt F) → (⟨S10000x512, .f32⟩ : BufTy).Contents (Elt F) → (⟨S10000x512, .f32⟩ : BufTy).Contents (Elt F))) := rfl
theorem val_main_v69 (V : Valuation τ sig (Elt F)) :
    after ops V (no_index (Proc.devRef .tc main_v69)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v68)) (after ops V (Proc.devRef .tc main_call3_v0)) :=
  ops_writesAre.read_binary op_106 V (not_written_from (106 + 1) (by decide)) (not_written_from 106 (by decide)) (not_written_from 106 (by decide))

private theorem op_107 : (ops : List (HloOp τ sig (Elt F)))[107]? = some (StableHlo.binary main_v69 main_v62 main_v70 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))) := rfl
theorem val_main_v70 (V : Valuation τ sig (Elt F)) :
    after ops V (no_index (Proc.devRef .tc main_v70)) = ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) (after ops V (Proc.devRef .tc main_v69)) (after ops V (Proc.devRef .tc main_v62)) :=
  ops_writesAre.read_binary op_107 V (not_written_from (107 + 1) (by decide)) (not_written_from 107 (by decide)) (not_written_from 107 (by decide))

private theorem op_108 : (ops : List (HloOp τ sig (Elt F)))[108]? = some (StableHlo.unary main_v64 main_v71 (broadcastInDim S1x512 ![1] bcast_S512_S1x512_1 : (⟨S512, .f32⟩ : BufTy).Contents (Elt F) → (⟨S1x512, .f32⟩ : BufTy).Contents (Elt F))) := rfl
theorem val_main_v71 (V : Valuation τ sig (Elt F)) :
    after ops V (no_index (Proc.devRef .tc main_v71)) = (broadcastInDim S1x512 ![1] bcast_S512_S1x512_1 : (⟨S512, .f32⟩ : BufTy).Contents (Elt F) → (⟨S1x512, .f32⟩ : BufTy).Contents (Elt F)) (after ops V (Proc.devRef .tc main_v64)) :=
  ops_writesAre.read_unary op_108 V (not_written_from (108 + 1) (by decide)) (not_written_from 108 (by decide))

private theorem op_109 : (ops : List (HloOp τ sig (Elt F)))[109]? = some (StableHlo.unary main_v71 main_v72 (broadcastInDim S10000x512 ![0, 1] bcast_S1x512_S10000x512_0_1 : (⟨S1x512, .f32⟩ : BufTy).Contents (Elt F) → (⟨S10000x512, .f32⟩ : BufTy).Contents (Elt F))) := rfl
theorem val_main_v72 (V : Valuation τ sig (Elt F)) :
    after ops V (no_index (Proc.devRef .tc main_v72)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v71)) :=
  ops_writesAre.read_unary op_109 V (not_written_from (109 + 1) (by decide)) (not_written_from 109 (by decide))

private theorem op_110 : (ops : List (HloOp τ sig (Elt F)))[110]? = some (StableHlo.binary main_v70 main_v72 main_v73 (addf : (⟨S10000x512, .f32⟩ : BufTy).Contents (Elt F) → (⟨S10000x512, .f32⟩ : BufTy).Contents (Elt F) → (⟨S10000x512, .f32⟩ : BufTy).Contents (Elt F))) := rfl
theorem val_main_v73 (V : Valuation τ sig (Elt F)) :
    after ops V (no_index (Proc.devRef .tc main_v73)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v70)) (after ops V (Proc.devRef .tc main_v72)) :=
  ops_writesAre.read_binary op_110 V (not_written_from (110 + 1) (by decide)) (not_written_from 110 (by decide)) (not_written_from 110 (by decide))

private theorem op_111 : (ops : List (HloOp τ sig (Elt F)))[111]? = some (StableHlo.nullary main_call4_cst ((constant S_ .f32 0x00000000#32) : (⟨S_, .f32⟩ : BufTy).Contents (Elt F))) := rfl
theorem val_main_call4_cst (V : Valuation τ sig (Elt F)) :
    after ops V (no_index (Proc.devRef .tc main_call4_cst)) = ((constant S_ .f32 0x00000000#32) : (⟨S_, .f32⟩ : BufTy).Contents (Elt F)) :=
  ops_writesAre.read_nullary op_111 V (not_written_from (111 + 1) (by decide))

private theorem op_112 : (ops : List (HloOp τ sig (Elt F)))[112]? = some (StableHlo.unary main_call4_cst main_call4_v0 ((broadcastInDim S10000x512 ![] bcast_S_S10000x512) : (⟨S_, .f32⟩ : BufTy).Contents (Elt F) → (⟨S10000x512, .f32⟩ : BufTy).Contents (Elt F))) := rfl
theorem val_main_call4_v0 (V : Valuation τ sig (Elt F)) :
    after ops V (no_index (Proc.devRef .tc main_call4_v0)) = ((broadcastInDim S10000x512 ![] bcast_S_S10000x512) : (⟨S_, .f32⟩ : BufTy).Contents (Elt F) → (⟨S10000x512, .f32⟩ : BufTy).Contents (Elt F)) (after ops V (Proc.devRef .tc main_call4_cst)) :=
  ops_writesAre.read_unary op_112 V (not_written_from (112 + 1) (by decide)) (not_written_from 112 (by decide))

private theorem op_113 : (ops : List (HloOp τ sig (Elt F)))[113]? = some (StableHlo.binary main_v73 main_call4_v0 main_v74 (maximumf : (⟨S10000x512, .f32⟩ : BufTy).Contents (Elt F) → (⟨S10000x512, .f32⟩ : BufTy).Contents (Elt F) → (⟨S10000x512, .f32⟩ : BufTy).Contents (Elt F))) := rfl
theorem val_main_v74 (V : Valuation τ sig (Elt F)) :
    after ops V (no_index (Proc.devRef .tc main_v74)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v73)) (after ops V (Proc.devRef .tc main_call4_v0)) :=
  ops_writesAre.read_binary op_113 V (not_written_from (113 + 1) (by decide)) (not_written_from 113 (by decide)) (not_written_from 113 (by decide))

private theorem op_114 : (ops : List (HloOp τ sig (Elt F)))[114]? = some (StableHlo.unary main_arg11 main_v75 ((extractStridedSlice S1x512 ![1, 0] · slices_S5x512_S1x512_1_0) : (⟨S5x512, .f32⟩ : BufTy).Contents (Elt F) → (⟨S1x512, .f32⟩ : BufTy).Contents (Elt F))) := rfl
theorem val_main_v75 (V : Valuation τ sig (Elt F)) :
    after ops V (no_index (Proc.devRef .tc main_v75)) = ((extractStridedSlice S1x512 ![1, 0] · slices_S5x512_S1x512_1_0) : (⟨S5x512, .f32⟩ : BufTy).Contents (Elt F) → (⟨S1x512, .f32⟩ : BufTy).Contents (Elt F)) (after ops V (Proc.devRef .tc main_arg11)) :=
  ops_writesAre.read_unary op_114 V (not_written_from (114 + 1) (by decide)) (not_written_from 114 (by decide))

private theorem op_115 : (ops : List (HloOp τ sig (Elt F)))[115]? = some (StableHlo.reshape main_v75 main_v76 rfl shapeCasts_S1x512_S512) := rfl
theorem val_main_v76 (V : Valuation τ sig (Elt F)) :
    after ops V (no_index (Proc.devRef .tc main_v76)) = shapeCast S512 (after ops V (Proc.devRef .tc main_v75)) shapeCasts_S1x512_S512 :=
  ops_writesAre.read_reshape op_115 V (not_written_from (115 + 1) (by decide)) (not_written_from 115 (by decide))

private theorem op_116 : (ops : List (HloOp τ sig (Elt F)))[116]? = some (StableHlo.unary main_arg12 main_v77 ((extractStridedSlice S1x512 ![1, 0] · slices_S5x512_S1x512_1_0) : (⟨S5x512, .f32⟩ : BufTy).Contents (Elt F) → (⟨S1x512, .f32⟩ : BufTy).Contents (Elt F))) := rfl
theorem val_main_v77 (V : Valuation τ sig (Elt F)) :
    after ops V (no_index (Proc.devRef .tc main_v77)) = ((extractStridedSlice S1x512 ![1, 0] · slices_S5x512_S1x512_1_0) : (⟨S5x512, .f32⟩ : BufTy).Contents (Elt F) → (⟨S1x512, .f32⟩ : BufTy).Contents (Elt F)) (after ops V (Proc.devRef .tc main_arg12)) :=
  ops_writesAre.read_unary op_116 V (not_written_from (116 + 1) (by decide)) (not_written_from 116 (by decide))

private theorem op_117 : (ops : List (HloOp τ sig (Elt F)))[117]? = some (StableHlo.reshape main_v77 main_v78 rfl shapeCasts_S1x512_S512) := rfl
theorem val_main_v78 (V : Valuation τ sig (Elt F)) :
    after ops V (no_index (Proc.devRef .tc main_v78)) = shapeCast S512 (after ops V (Proc.devRef .tc main_v77)) shapeCasts_S1x512_S512 :=
  ops_writesAre.read_reshape op_117 V (not_written_from (117 + 1) (by decide)) (not_written_from 117 (by decide))

private theorem op_118 : (ops : List (HloOp τ sig (Elt F)))[118]? = some (StableHlo.nullary main_cst_8 (constant S_ .f32 0x00000000#32)) := rfl
theorem val_main_cst_8 (V : Valuation τ sig (Elt F)) :
    after ops V (no_index (Proc.devRef .tc main_cst_8)) = (constant S_ .f32 0x00000000#32) :=
  ops_writesAre.read_nullary op_118 V (not_written_from (118 + 1) (by decide))

private theorem op_119 : (ops : List (HloOp τ sig (Elt F)))[119]? = some (StableHlo.binary main_v74 main_cst_8 main_v79 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_v79 (V : Valuation τ sig (Elt F)) :
    after ops V (no_index (Proc.devRef .tc main_v79)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v74)) (after ops V (Proc.devRef .tc main_cst_8)) :=
  ops_writesAre.read_binary op_119 V (not_written_from (119 + 1) (by decide)) (not_written_from 119 (by decide)) (not_written_from 119 (by decide))

private theorem op_120 : (ops : List (HloOp τ sig (Elt F)))[120]? = some (StableHlo.nullary main_cst_9 (constant S_ .f32 0x461C4000#32)) := rfl
theorem val_main_cst_9 (V : Valuation τ sig (Elt F)) :
    after ops V (no_index (Proc.devRef .tc main_cst_9)) = (constant S_ .f32 0x461C4000#32) :=
  ops_writesAre.read_nullary op_120 V (not_written_from (120 + 1) (by decide))

private theorem op_121 : (ops : List (HloOp τ sig (Elt F)))[121]? = some (StableHlo.unary main_cst_9 main_v80 (broadcastInDim S512 ![] bcast_S_S512 : (⟨S_, .f32⟩ : BufTy).Contents (Elt F) → (⟨S512, .f32⟩ : BufTy).Contents (Elt F))) := rfl
theorem val_main_v80 (V : Valuation τ sig (Elt F)) :
    after ops V (no_index (Proc.devRef .tc main_v80)) = (broadcastInDim S512 ![] bcast_S_S512 : (⟨S_, .f32⟩ : BufTy).Contents (Elt F) → (⟨S512, .f32⟩ : BufTy).Contents (Elt F)) (after ops V (Proc.devRef .tc main_cst_9)) :=
  ops_writesAre.read_unary op_121 V (not_written_from (121 + 1) (by decide)) (not_written_from 121 (by decide))

private theorem op_122 : (ops : List (HloOp τ sig (Elt F)))[122]? = some (StableHlo.binary main_v79 main_v80 main_v81 (Host.divf : (⟨S512, .f32⟩ : BufTy).Contents (Elt F) → (⟨S512, .f32⟩ : BufTy).Contents (Elt F) → (⟨S512, .f32⟩ : BufTy).Contents (Elt F))) := rfl
theorem val_main_v81 (V : Valuation τ sig (Elt F)) :
    after ops V (no_index (Proc.devRef .tc main_v81)) = (Host.divf : (⟨S512, .f32⟩ : BufTy).Contents (Elt F) → (⟨S512, .f32⟩ : BufTy).Contents (Elt F) → (⟨S512, .f32⟩ : BufTy).Contents (Elt F)) (after ops V (Proc.devRef .tc main_v79)) (after ops V (Proc.devRef .tc main_v80)) :=
  ops_writesAre.read_binary op_122 V (not_written_from (122 + 1) (by decide)) (not_written_from 122 (by decide)) (not_written_from 122 (by decide))

private theorem op_123 : (ops : List (HloOp τ sig (Elt F)))[123]? = some (StableHlo.nullary main_c_10 (constantI S_ 32 0#32)) := rfl
theorem val_main_c_10 (V : Valuation τ sig (Elt F)) :
    after ops V (no_index (Proc.devRef .tc main_c_10)) = (constantI S_ 32 0#32) :=
  ops_writesAre.read_nullary op_123 V (not_written_from (123 + 1) (by decide))

private theorem op_124 : (ops : List (HloOp τ sig (Elt F)))[124]? = some (StableHlo.nullary main_call5_cst ((constant S_ .f32 0x00000000#32) : (⟨S_, .f32⟩ : BufTy).Contents (Elt F))) := rfl
theorem val_main_call5_cst (V : Valuation τ sig (Elt F)) :
    after ops V (no_index (Proc.devRef .tc main_call5_cst)) = ((constant S_ .f32 0x00000000#32) : (⟨S_, .f32⟩ : BufTy).Contents (Elt F)) :=
  ops_writesAre.read_nullary op_124 V (not_written_from (124 + 1) (by decide))

private theorem op_125 : (ops : List (HloOp τ sig (Elt F)))[125]? = some (StableHlo.binary main_v74 main_call5_cst main_call5_v0 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call5_v0 (V : Valuation τ sig (Elt F)) :
    after ops V (no_index (Proc.devRef .tc main_call5_v0)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v74)) (after ops V (Proc.devRef .tc main_call5_cst)) :=
  ops_writesAre.read_binary op_125 V (not_written_from (125 + 1) (by decide)) (not_written_from 125 (by decide)) (not_written_from 125 (by decide))

private theorem op_126 : (ops : List (HloOp τ sig (Elt F)))[126]? = some (StableHlo.unary main_call5_v0 main_call5_v1 ((broadcastInDim S1x512 ![1] bcast_S512_S1x512_1) : (⟨S512, .f32⟩ : BufTy).Contents (Elt F) → (⟨S1x512, .f32⟩ : BufTy).Contents (Elt F))) := rfl
theorem val_main_call5_v1 (V : Valuation τ sig (Elt F)) :
    after ops V (no_index (Proc.devRef .tc main_call5_v1)) = ((broadcastInDim S1x512 ![1] bcast_S512_S1x512_1) : (⟨S512, .f32⟩ : BufTy).Contents (Elt F) → (⟨S1x512, .f32⟩ : BufTy).Contents (Elt F)) (after ops V (Proc.devRef .tc main_call5_v0)) :=
  ops_writesAre.read_unary op_126 V (not_written_from (126 + 1) (by decide)) (not_written_from 126 (by decide))

private theorem op_127 : (ops : List (HloOp τ sig (Elt F)))[127]? = some (StableHlo.nullary main_call5_cst_0 ((constant S_ .f32 0x461C4000#32) : (⟨S_, .f32⟩ : BufTy).Contents (Elt F))) := rfl
theorem val_main_call5_cst_0 (V : Valuation τ sig (Elt F)) :
    after ops V (no_index (Proc.devRef .tc main_call5_cst_0)) = ((constant S_ .f32 0x461C4000#32) : (⟨S_, .f32⟩ : BufTy).Contents (Elt F)) :=
  ops_writesAre.read_nullary op_127 V (not_written_from (127 + 1) (by decide))

private theorem op_128 : (ops : List (HloOp τ sig (Elt F)))[128]? = some (StableHlo.unary main_call5_cst_0 main_call5_v2 ((broadcastInDim S1x512 ![] bcast_S_S1x512) : (⟨S_, .f32⟩ : BufTy).Contents (Elt F) → (⟨S1x512, .f32⟩ : BufTy).Contents (Elt F))) := rfl
theorem val_main_call5_v2 (V : Valuation τ sig (Elt F)) :
    after ops V (no_index (Proc.devRef .tc main_call5_v2)) = ((broadcastInDim S1x512 ![] bcast_S_S1x512) : (⟨S_, .f32⟩ : BufTy).Contents (Elt F) → (⟨S1x512, .f32⟩ : BufTy).Contents (Elt F)) (after ops V (Proc.devRef .tc main_call5_cst_0)) :=
  ops_writesAre.read_unary op_128 V (not_written_from (128 + 1) (by decide)) (not_written_from 128 (by decide))

private theorem op_129 : (ops : List (HloOp τ sig (Elt F)))[129]? = some (StableHlo.binary main_call5_v1 main_call5_v2 main_call5_v3 (Host.divf : (⟨S1x512, .f32⟩ : BufTy).Contents (Elt F) → (⟨S1x512, .f32⟩ : BufTy).Contents (Elt F) → (⟨S1x512, .f32⟩ : BufTy).Contents (Elt F))) := rfl
theorem val_main_call5_v3 (V : Valuation τ sig (Elt F)) :
    after ops V (no_index (Proc.devRef .tc main_call5_v3)) = (Host.divf : (⟨S1x512, .f32⟩ : BufTy).Contents (Elt F) → (⟨S1x512, .f32⟩ : BufTy).Contents (Elt F) → (⟨S1x512, .f32⟩ : BufTy).Contents (Elt F)) (after ops V (Proc.devRef .tc main_call5_v1)) (after ops V (Proc.devRef .tc main_call5_v2)) :=
  ops_writesAre.read_binary op_129 V (not_written_from (129 + 1) (by decide)) (not_written_from 129 (by decide)) (not_written_from 129 (by decide))

private theorem op_130 : (ops : List (HloOp τ sig (Elt F)))[130]? = some (StableHlo.unary main_call5_v3 main_call5_v4 ((broadcastInDim S10000x512 ![0, 1] bcast_S1x512_S10000x512_0_1) : (⟨S1x512, .f32⟩ : BufTy).Contents (Elt F) → (⟨S10000x512, .f32⟩ : BufTy).Contents (Elt F))) := rfl
theorem val_main_call5_v4 (V : Valuation τ sig (Elt F)) :
    after ops V (no_index (Proc.devRef .tc main_call5_v4)) = ((broadcastInDim S10000x512 ![0, 1] bcast_S1x512_S10000x512_0_1) : (⟨S1x512, .f32⟩ : BufTy).Contents (Elt F) → (⟨S10000x512, .f32⟩ : BufTy).Contents (Elt F)) (after ops V (Proc.devRef .tc main_call5_v3)) :=
  ops_writesAre.read_unary op_130 V (not_written_from (130 + 1) (by decide)) (not_written_from 130 (by decide))

private theorem op_131 : (ops : List (HloOp τ sig (Elt F)))[131]? = some (StableHlo.binary main_v74 main_call5_v4 main_call5_v5 (subf : (⟨S10000x512, .f32⟩ : BufTy).Contents (Elt F) → (⟨S10000x512, .f32⟩ : BufTy).Contents (Elt F) → (⟨S10000x512, .f32⟩ : BufTy).Contents (Elt F))) := rfl
theorem val_main_call5_v5 (V : Valuation τ sig (Elt F)) :
    after ops V (no_index (Proc.devRef .tc main_call5_v5)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v74)) (after ops V (Proc.devRef .tc main_call5_v4)) :=
  ops_writesAre.read_binary op_131 V (not_written_from (131 + 1) (by decide)) (not_written_from 131 (by decide)) (not_written_from 131 (by decide))

private theorem op_132 : (ops : List (HloOp τ sig (Elt F)))[132]? = some (StableHlo.binary main_call5_v5 main_call5_v5 main_call5_v6 (mulf : (⟨S10000x512, .f32⟩ : BufTy).Contents (Elt F) → (⟨S10000x512, .f32⟩ : BufTy).Contents (Elt F) → (⟨S10000x512, .f32⟩ : BufTy).Contents (Elt F))) := rfl
theorem val_main_call5_v6 (V : Valuation τ sig (Elt F)) :
    after ops V (no_index (Proc.devRef .tc main_call5_v6)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_call5_v5)) (after ops V (Proc.devRef .tc main_call5_v5)) :=
  ops_writesAre.read_binary op_132 V (not_written_from (132 + 1) (by decide)) (not_written_from 132 (by decide)) (not_written_from 132 (by decide))

private theorem op_133 : (ops : List (HloOp τ sig (Elt F)))[133]? = some (StableHlo.unary main_c_10 main_call5_v7 ((sitofp .f32) : (⟨S_, .i32⟩ : BufTy).Contents (Elt F) → (⟨S_, .f32⟩ : BufTy).Contents (Elt F))) := rfl
theorem val_main_call5_v7 (V : Valuation τ sig (Elt F)) :
    after ops V (no_index (Proc.devRef .tc main_call5_v7)) = ((sitofp .f32) : (⟨S_, .i32⟩ : BufTy).Contents (Elt F) → (⟨S_, .f32⟩ : BufTy).Contents (Elt F)) (after ops V (Proc.devRef .tc main_c_10)) :=
  ops_writesAre.read_unary op_133 V (not_written_from (133 + 1) (by decide)) (not_written_from 133 (by decide))

private theorem op_134 : (ops : List (HloOp τ sig (Elt F)))[134]? = some (StableHlo.nullary main_call5_cst_1 ((constant S_ .f32 0x461C4000#32) : (⟨S_, .f32⟩ : BufTy).Contents (Elt F))) := rfl
theorem val_main_call5_cst_1 (V : Valuation τ sig (Elt F)) :
    after ops V (no_index (Proc.devRef .tc main_call5_cst_1)) = ((constant S_ .f32 0x461C4000#32) : (⟨S_, .f32⟩ : BufTy).Contents (Elt F)) :=
  ops_writesAre.read_nullary op_134 V (not_written_from (134 + 1) (by decide))

private theorem op_135 : (ops : List (HloOp τ sig (Elt F)))[135]? = some (StableHlo.binary main_call5_cst_1 main_call5_v7 main_call5_v8 (subf : (⟨S_, .f32⟩ : BufTy).Contents (Elt F) → (⟨S_, .f32⟩ : BufTy).Contents (Elt F) → (⟨S_, .f32⟩ : BufTy).Contents (Elt F))) := rfl
theorem val_main_call5_v8 (V : Valuation τ sig (Elt F)) :
    after ops V (no_index (Proc.devRef .tc main_call5_v8)) = (subf : (⟨S_, .f32⟩ : BufTy).Contents (Elt F) → (⟨S_, .f32⟩ : BufTy).Contents (Elt F) → (⟨S_, .f32⟩ : BufTy).Contents (Elt F)) (after ops V (Proc.devRef .tc main_call5_cst_1)) (after ops V (Proc.devRef .tc main_call5_v7)) :=
  ops_writesAre.read_binary op_135 V (not_written_from (135 + 1) (by decide)) (not_written_from 135 (by decide)) (not_written_from 135 (by decide))

private theorem op_136 : (ops : List (HloOp τ sig (Elt F)))[136]? = some (StableHlo.nullary main_call5_cst_2 ((constant S_ .f32 0x00000000#32) : (⟨S_, .f32⟩ : BufTy).Contents (Elt F))) := rfl
theorem val_main_call5_cst_2 (V : Valuation τ sig (Elt F)) :
    after ops V (no_index (Proc.devRef .tc main_call5_cst_2)) = ((constant S_ .f32 0x00000000#32) : (⟨S_, .f32⟩ : BufTy).Contents (Elt F)) :=
  ops_writesAre.read_nullary op_136 V (not_written_from (136 + 1) (by decide))

private theorem op_137 : (ops : List (HloOp τ sig (Elt F)))[137]? = some (StableHlo.binary main_call5_v6 main_call5_cst_2 main_call5_v9 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call5_v9 (V : Valuation τ sig (Elt F)) :
    after ops V (no_index (Proc.devRef .tc main_call5_v9)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_call5_v6)) (after ops V (Proc.devRef .tc main_call5_cst_2)) :=
  ops_writesAre.read_binary op_137 V (not_written_from (137 + 1) (by decide)) (not_written_from 137 (by decide)) (not_written_from 137 (by decide))

private theorem op_138 : (ops : List (HloOp τ sig (Elt F)))[138]? = some (StableHlo.unary main_call5_v8 main_call5_v10 ((broadcastInDim S512 ![] bcast_S_S512) : (⟨S_, .f32⟩ : BufTy).Contents (Elt F) → (⟨S512, .f32⟩ : BufTy).Contents (Elt F))) := rfl
theorem val_main_call5_v10 (V : Valuation τ sig (Elt F)) :
    after ops V (no_index (Proc.devRef .tc main_call5_v10)) = ((broadcastInDim S512 ![] bcast_S_S512) : (⟨S_, .f32⟩ : BufTy).Contents (Elt F) → (⟨S512, .f32⟩ : BufTy).Contents (Elt F)) (after ops V (Proc.devRef .tc main_call5_v8)) :=
  ops_writesAre.read_unary op_138 V (not_written_from (138 + 1) (by decide)) (not_written_from 138 (by decide))

private theorem op_139 : (ops : List (HloOp τ sig (Elt F)))[139]? = some (StableHlo.binary main_call5_v9 main_call5_v10 main_call5_v11 (Host.divf : (⟨S512, .f32⟩ : BufTy).Contents (Elt F) → (⟨S512, .f32⟩ : BufTy).Contents (Elt F) → (⟨S512, .f32⟩ : BufTy).Contents (Elt F))) := rfl
theorem val_main_call5_v11 (V : Valuation τ sig (Elt F)) :
    after ops V (no_index (Proc.devRef .tc main_call5_v11)) = (Host.divf : (⟨S512, .f32⟩ : BufTy).Contents (Elt F) → (⟨S512, .f32⟩ : BufTy).Contents (Elt F) → (⟨S512, .f32⟩ : BufTy).Contents (Elt F)) (after ops V (Proc.devRef .tc main_call5_v9)) (after ops V (Proc.devRef .tc main_call5_v10)) :=
  ops_writesAre.read_binary op_139 V (not_written_from (139 + 1) (by decide)) (not_written_from 139 (by decide)) (not_written_from 139 (by decide))

private theorem op_140 : (ops : List (HloOp τ sig (Elt F)))[140]? = some (StableHlo.nullary main_call5_cst_3 ((constant S_ .f32 0x00000000#32) : (⟨S_, .f32⟩ : BufTy).Contents (Elt F))) := rfl
theorem val_main_call5_cst_3 (V : Valuation τ sig (Elt F)) :
    after ops V (no_index (Proc.devRef .tc main_call5_cst_3)) = ((constant S_ .f32 0x00000000#32) : (⟨S_, .f32⟩ : BufTy).Contents (Elt F)) :=
  ops_writesAre.read_nullary op_140 V (not_written_from (140 + 1) (by decide))

private theorem op_141 : (ops : List (HloOp τ sig (Elt F)))[141]? = some (StableHlo.binary main_call5_v8 main_call5_cst_3 main_call5_v12 ((cmpf .ogt) : (⟨S_, .f32⟩ : BufTy).Contents (Elt F) → (⟨S_, .f32⟩ : BufTy).Contents (Elt F) → (⟨S_, .i1⟩ : BufTy).Contents (Elt F))) := rfl
theorem val_main_call5_v12 (V : Valuation τ sig (Elt F)) :
    after ops V (no_index (Proc.devRef .tc main_call5_v12)) = ((cmpf .ogt) : (⟨S_, .f32⟩ : BufTy).Contents (Elt F) → (⟨S_, .f32⟩ : BufTy).Contents (Elt F) → (⟨S_, .i1⟩ : BufTy).Contents (Elt F)) (after ops V (Proc.devRef .tc main_call5_v8)) (after ops V (Proc.devRef .tc main_call5_cst_3)) :=
  ops_writesAre.read_binary op_141 V (not_written_from (141 + 1) (by decide)) (not_written_from 141 (by decide)) (not_written_from 141 (by decide))

private theorem op_142 : (ops : List (HloOp τ sig (Elt F)))[142]? = some (StableHlo.nullary main_call5_cst_4 ((constant S_ .f32 0x7FC00000#32) : (⟨S_, .f32⟩ : BufTy).Contents (Elt F))) := rfl
theorem val_main_call5_cst_4 (V : Valuation τ sig (Elt F)) :
    after ops V (no_index (Proc.devRef .tc main_call5_cst_4)) = ((constant S_ .f32 0x7FC00000#32) : (⟨S_, .f32⟩ : BufTy).Contents (Elt F)) :=
  ops_writesAre.read_nullary op_142 V (not_written_from (142 + 1) (by decide))

private theorem op_143 : (ops : List (HloOp τ sig (Elt F)))[143]? = some (StableHlo.unary main_call5_cst_4 main_call5_call0_v0 (id : (⟨S_, .f32⟩ : BufTy).Contents (Elt F) → (⟨S_, .f32⟩ : BufTy).Contents (Elt F))) := rfl
theorem val_main_call5_call0_v0 (V : Valuation τ sig (Elt F)) :
    after ops V (no_index (Proc.devRef .tc main_call5_call0_v0)) = (id : (⟨S_, .f32⟩ : BufTy).Contents (Elt F) → (⟨S_, .f32⟩ : BufTy).Contents (Elt F)) (after ops V (Proc.devRef .tc main_call5_cst_4)) :=
  ops_writesAre.read_unary op_143 V (not_written_from (143 + 1) (by decide)) (not_written_from 143 (by decide))

private theorem op_144 : (ops : List (HloOp τ sig (Elt F)))[144]? = some (StableHlo.unary main_call5_call0_v0 main_call5_call0_v1 ((broadcastInDim S512 ![] bcast_S_S512) : (⟨S_, .f32⟩ : BufTy).Contents (Elt F) → (⟨S512, .f32⟩ : BufTy).Contents (Elt F))) := rfl
theorem val_main_call5_call0_v1 (V : Valuation τ sig (Elt F)) :
    after ops V (no_index (Proc.devRef .tc main_call5_call0_v1)) = ((broadcastInDim S512 ![] bcast_S_S512) : (⟨S_, .f32⟩ : BufTy).Contents (Elt F) → (⟨S512, .f32⟩ : BufTy).Contents (Elt F)) (after ops V (Proc.devRef .tc main_call5_call0_v0)) :=
  ops_writesAre.read_unary op_144 V (not_written_from (144 + 1) (by decide)) (not_written_from 144 (by decide))

private theorem op_145 : (ops : List (HloOp τ sig (Elt F)))[145]? = some (StableHlo.ternary main_call5_v12 main_call5_v11 main_call5_call0_v1 main_v82 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F))) := rfl
theorem val_main_v82 (V : Valuation τ sig (Elt F)) :
    after ops V (no_index (Proc.devRef .tc main_v82)) = ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)) (after ops V (Proc.devRef .tc main_call5_v12)) (after ops V (Proc.devRef .tc main_call5_v11)) (after ops V (Proc.devRef .tc main_call5_call0_v1)) :=
  ops_writesAre.read_ternary op_145 V (not_written_from (145 + 1) (by decide)) (not_written_from 145 (by decide)) (not_written_from 145 (by decide)) (not_written_from 145 (by decide))

private theorem op_146 : (ops : List (HloOp τ sig (Elt F)))[146]? = some (StableHlo.unary main_v81 main_v83 (broadcastInDim S1x512 ![1] bcast_S512_S1x512_1 : (⟨S512, .f32⟩ : BufTy).Contents (Elt F) → (⟨S1x512, .f32⟩ : BufTy).Contents (Elt F))) := rfl
theorem val_main_v83 (V : Valuation τ sig (Elt F)) :
    after ops V (no_index (Proc.devRef .tc main_v83)) = (broadcastInDim S1x512 ![1] bcast_S512_S1x512_1 : (⟨S512, .f32⟩ : BufTy).Contents (Elt F) → (⟨S1x512, .f32⟩ : BufTy).Contents (Elt F)) (after ops V (Proc.devRef .tc main_v81)) :=
  ops_writesAre.read_unary op_146 V (not_written_from (146 + 1) (by decide)) (not_written_from 146 (by decide))

private theorem op_147 : (ops : List (HloOp τ sig (Elt F)))[147]? = some (StableHlo.unary main_v83 main_v84 (broadcastInDim S10000x512 ![0, 1] bcast_S1x512_S10000x512_0_1 : (⟨S1x512, .f32⟩ : BufTy).Contents (Elt F) → (⟨S10000x512, .f32⟩ : BufTy).Contents (Elt F))) := rfl
theorem val_main_v84 (V : Valuation τ sig (Elt F)) :
    after ops V (no_index (Proc.devRef .tc main_v84)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v83)) :=
  ops_writesAre.read_unary op_147 V (not_written_from (147 + 1) (by decide)) (not_written_from 147 (by decide))

private theorem op_148 : (ops : List (HloOp τ sig (Elt F)))[148]? = some (StableHlo.binary main_v74 main_v84 main_v85 (subf : (⟨S10000x512, .f32⟩ : BufTy).Contents (Elt F) → (⟨S10000x512, .f32⟩ : BufTy).Contents (Elt F) → (⟨S10000x512, .f32⟩ : BufTy).Contents (Elt F))) := rfl
theorem val_main_v85 (V : Valuation τ sig (Elt F)) :
    after ops V (no_index (Proc.devRef .tc main_v85)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v74)) (after ops V (Proc.devRef .tc main_v84)) :=
  ops_writesAre.read_binary op_148 V (not_written_from (148 + 1) (by decide)) (not_written_from 148 (by decide)) (not_written_from 148 (by decide))

private theorem op_149 : (ops : List (HloOp τ sig (Elt F)))[149]? = some (StableHlo.nullary main_cst_11 (constant S_ .f32 0x3727C5AC#32)) := rfl
theorem val_main_cst_11 (V : Valuation τ sig (Elt F)) :
    after ops V (no_index (Proc.devRef .tc main_cst_11)) = (constant S_ .f32 0x3727C5AC#32) :=
  ops_writesAre.read_nullary op_149 V (not_written_from (149 + 1) (by decide))

private theorem op_150 : (ops : List (HloOp τ sig (Elt F)))[150]? = some (StableHlo.unary main_cst_11 main_v86 (broadcastInDim S512 ![] bcast_S_S512 : (⟨S_, .f32⟩ : BufTy).Contents (Elt F) → (⟨S512, .f32⟩ : BufTy).Contents (Elt F))) := rfl
theorem val_main_v86 (V : Valuation τ sig (Elt F)) :
    after ops V (no_index (Proc.devRef .tc main_v86)) = (broadcastInDim S512 ![] bcast_S_S512 : (⟨S_, .f32⟩ : BufTy).Contents (Elt F) → (⟨S512, .f32⟩ : BufTy).Contents (Elt F)) (after ops V (Proc.devRef .tc main_cst_11)) :=
  ops_writesAre.read_unary op_150 V (not_written_from (150 + 1) (by decide)) (not_written_from 150 (by decide))

private theorem op_151 : (ops : List (HloOp τ sig (Elt F)))[151]? = some (StableHlo.binary main_v82 main_v86 main_v87 (addf : (⟨S512, .f32⟩ : BufTy).Contents (Elt F) → (⟨S512, .f32⟩ : BufTy).Contents (Elt F) → (⟨S512, .f32⟩ : BufTy).Contents (Elt F))) := rfl
theorem val_main_v87 (V : Valuation τ sig (Elt F)) :
    after ops V (no_index (Proc.devRef .tc main_v87)) = (addf : (⟨S512, .f32⟩ : BufTy).Contents (Elt F) → (⟨S512, .f32⟩ : BufTy).Contents (Elt F) → (⟨S512, .f32⟩ : BufTy).Contents (Elt F)) (after ops V (Proc.devRef .tc main_v82)) (after ops V (Proc.devRef .tc main_v86)) :=
  ops_writesAre.read_binary op_151 V (not_written_from (151 + 1) (by decide)) (not_written_from 151 (by decide)) (not_written_from 151 (by decide))

private theorem op_152 : (ops : List (HloOp τ sig (Elt F)))[152]? = some (StableHlo.unary main_v87 main_v88 (Host.rsqrt : (⟨S512, .f32⟩ : BufTy).Contents (Elt F) → (⟨S512, .f32⟩ : BufTy).Contents (Elt F))) := rfl
theorem val_main_v88 (V : Valuation τ sig (Elt F)) :
    after ops V (no_index (Proc.devRef .tc main_v88)) = (Host.rsqrt : (⟨S512, .f32⟩ : BufTy).Contents (Elt F) → (⟨S512, .f32⟩ : BufTy).Contents (Elt F)) (after ops V (Proc.devRef .tc main_v87)) :=
  ops_writesAre.read_unary op_152 V (not_written_from (152 + 1) (by decide)) (not_written_from 152 (by decide))

private theorem op_153 : (ops : List (HloOp τ sig (Elt F)))[153]? = some (StableHlo.binary main_v76 main_v88 main_v89 (mulf : (⟨S512, .f32⟩ : BufTy).Contents (Elt F) → (⟨S512, .f32⟩ : BufTy).Contents (Elt F) → (⟨S512, .f32⟩ : BufTy).Contents (Elt F))) := rfl
theorem val_main_v89 (V : Valuation τ sig (Elt F)) :
    after ops V (no_index (Proc.devRef .tc main_v89)) = (mulf : (⟨S512, .f32⟩ : BufTy).Contents (Elt F) → (⟨S512, .f32⟩ : BufTy).Contents (Elt F) → (⟨S512, .f32⟩ : BufTy).Contents (Elt F)) (after ops V (Proc.devRef .tc main_v76)) (after ops V (Proc.devRef .tc main_v88)) :=
  ops_writesAre.read_binary op_153 V (not_written_from (153 + 1) (by decide)) (not_written_from 153 (by decide)) (not_written_from 153 (by decide))

private theorem op_154 : (ops : List (HloOp τ sig (Elt F)))[154]? = some (StableHlo.unary main_v89 main_v90 (broadcastInDim S1x512 ![1] bcast_S512_S1x512_1 : (⟨S512, .f32⟩ : BufTy).Contents (Elt F) → (⟨S1x512, .f32⟩ : BufTy).Contents (Elt F))) := rfl
theorem val_main_v90 (V : Valuation τ sig (Elt F)) :
    after ops V (no_index (Proc.devRef .tc main_v90)) = (broadcastInDim S1x512 ![1] bcast_S512_S1x512_1 : (⟨S512, .f32⟩ : BufTy).Contents (Elt F) → (⟨S1x512, .f32⟩ : BufTy).Contents (Elt F)) (after ops V (Proc.devRef .tc main_v89)) :=
  ops_writesAre.read_unary op_154 V (not_written_from (154 + 1) (by decide)) (not_written_from 154 (by decide))

private theorem op_155 : (ops : List (HloOp τ sig (Elt F)))[155]? = some (StableHlo.unary main_v90 main_v91 (broadcastInDim S10000x512 ![0, 1] bcast_S1x512_S10000x512_0_1 : (⟨S1x512, .f32⟩ : BufTy).Contents (Elt F) → (⟨S10000x512, .f32⟩ : BufTy).Contents (Elt F))) := rfl
theorem val_main_v91 (V : Valuation τ sig (Elt F)) :
    after ops V (no_index (Proc.devRef .tc main_v91)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v90)) :=
  ops_writesAre.read_unary op_155 V (not_written_from (155 + 1) (by decide)) (not_written_from 155 (by decide))

private theorem op_156 : (ops : List (HloOp τ sig (Elt F)))[156]? = some (StableHlo.binary main_v85 main_v91 main_v92 (mulf : (⟨S10000x512, .f32⟩ : BufTy).Contents (Elt F) → (⟨S10000x512, .f32⟩ : BufTy).Contents (Elt F) → (⟨S10000x512, .f32⟩ : BufTy).Contents (Elt F))) := rfl
theorem val_main_v92 (V : Valuation τ sig (Elt F)) :
    after ops V (no_index (Proc.devRef .tc main_v92)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_v85)) (after ops V (Proc.devRef .tc main_v91)) :=
  ops_writesAre.read_binary op_156 V (not_written_from (156 + 1) (by decide)) (not_written_from 156 (by decide)) (not_written_from 156 (by decide))

private theorem op_157 : (ops : List (HloOp τ sig (Elt F)))[157]? = some (StableHlo.unary main_v78 main_v93 (broadcastInDim S1x512 ![1] bcast_S512_S1x512_1 : (⟨S512, .f32⟩ : BufTy).Contents (Elt F) → (⟨S1x512, .f32⟩ : BufTy).Contents (Elt F))) := rfl
theorem val_main_v93 (V : Valuation τ sig (Elt F)) :
    after ops V (no_index (Proc.devRef .tc main_v93)) = (broadcastInDim S1x512 ![1] bcast_S512_S1x512_1 : (⟨S512, .f32⟩ : BufTy).Contents (Elt F) → (⟨S1x512, .f32⟩ : BufTy).Contents (Elt F)) (after ops V (Proc.devRef .tc main_v78)) :=
  ops_writesAre.read_unary op_157 V (not_written_from (157 + 1) (by decide)) (not_written_from 157 (by decide))

private theorem op_158 : (ops : List (HloOp τ sig (Elt F)))[158]? = some (StableHlo.unary main_v93 main_v94 (broadcastInDim S10000x512 ![0, 1] bcast_S1x512_S10000x512_0_1 : (⟨S1x512, .f32⟩ : BufTy).Contents (Elt F) → (⟨S10000x512, .f32⟩ : BufTy).Contents (Elt F))) := rfl
theorem val_main_v94 (V : Valuation τ sig (Elt F)) :
    after ops V (no_index (Proc.devRef .tc main_v94)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v93)) :=
  ops_writesAre.read_unary op_158 V (not_written_from (158 + 1) (by decide)) (not_written_from 158 (by decide))

private theorem op_159 : (ops : List (HloOp τ sig (Elt F)))[159]? = some (StableHlo.binary main_v92 main_v94 main_v95 (addf : (⟨S10000x512, .f32⟩ : BufTy).Contents (Elt F) → (⟨S10000x512, .f32⟩ : BufTy).Contents (Elt F) → (⟨S10000x512, .f32⟩ : BufTy).Contents (Elt F))) := rfl
theorem val_main_v95 (V : Valuation τ sig (Elt F)) :
    after ops V (no_index (Proc.devRef .tc main_v95)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v92)) (after ops V (Proc.devRef .tc main_v94)) :=
  ops_writesAre.read_binary op_159 V (not_written_from (159 + 1) (by decide)) (not_written_from 159 (by decide)) (not_written_from 159 (by decide))

private theorem op_160 : (ops : List (HloOp τ sig (Elt F)))[160]? = some (StableHlo.nullary main_c_12 (constantI S_ 32 0#32)) := rfl
theorem val_main_c_12 (V : Valuation τ sig (Elt F)) :
    after ops V (no_index (Proc.devRef .tc main_c_12)) = (constantI S_ 32 0#32) :=
  ops_writesAre.read_nullary op_160 V (not_written_from (160 + 1) (by decide))

private theorem op_161 : (ops : List (HloOp τ sig (Elt F)))[161]? = some (StableHlo.unary main_c_12 main_v96 (broadcastInDim S160000 ![] bcast_S_S160000 : (⟨S_, .i32⟩ : BufTy).Contents (Elt F) → (⟨S160000, .i32⟩ : BufTy).Contents (Elt F))) := rfl
theorem val_main_v96 (V : Valuation τ sig (Elt F)) :
    after ops V (no_index (Proc.devRef .tc main_v96)) = (broadcastInDim S160000 ![] bcast_S_S160000 : (⟨S_, .i32⟩ : BufTy).Contents (Elt F) → (⟨S160000, .i32⟩ : BufTy).Contents (Elt F)) (after ops V (Proc.devRef .tc main_c_12)) :=
  ops_writesAre.read_unary op_161 V (not_written_from (161 + 1) (by decide)) (not_written_from 161 (by decide))

private theorem op_162 : (ops : List (HloOp τ sig (Elt F)))[162]? = some (StableHlo.binary main_v1 main_v96 main_v97 (cmpi .slt : (⟨S160000, .i32⟩ : BufTy).Contents (Elt F) → (⟨S160000, .i32⟩ : BufTy).Contents (Elt F) → (⟨S160000, .i1⟩ : BufTy).Contents (Elt F))) := rfl
theorem val_main_v97 (V : Valuation τ sig (Elt F)) :
    after ops V (no_index (Proc.devRef .tc main_v97)) = (cmpi .slt : (⟨S160000, .i32⟩ : BufTy).Contents (Elt F) → (⟨S160000, .i32⟩ : BufTy).Contents (Elt F) → (⟨S160000, .i1⟩ : BufTy).Contents (Elt F)) (after ops V (Proc.devRef .tc main_v1)) (after ops V (Proc.devRef .tc main_v96)) :=
  ops_writesAre.read_binary op_162 V (not_written_from (162 + 1) (by decide)) (not_written_from 162 (by decide)) (not_written_from 162 (by decide))

private theorem op_163 : (ops : List (HloOp τ sig (Elt F)))[163]? = some (StableHlo.nullary main_c_13 (constantI S_ 32 10000#32)) := rfl
theorem val_main_c_13 (V : Valuation τ sig (Elt F)) :
    after ops V (no_index (Proc.devRef .tc main_c_13)) = (constantI S_ 32 10000#32) :=
  ops_writesAre.read_nullary op_163 V (not_written_from (163 + 1) (by decide))

private theorem op_164 : (ops : List (HloOp τ sig (Elt F)))[164]? = some (StableHlo.unary main_c_13 main_v98 (broadcastInDim S160000 ![] bcast_S_S160000 : (⟨S_, .i32⟩ : BufTy).Contents (Elt F) → (⟨S160000, .i32⟩ : BufTy).Contents (Elt F))) := rfl
theorem val_main_v98 (V : Valuation τ sig (Elt F)) :
    after ops V (no_index (Proc.devRef .tc main_v98)) = (broadcastInDim S160000 ![] bcast_S_S160000 : (⟨S_, .i32⟩ : BufTy).Contents (Elt F) → (⟨S160000, .i32⟩ : BufTy).Contents (Elt F)) (after ops V (Proc.devRef .tc main_c_13)) :=
  ops_writesAre.read_unary op_164 V (not_written_from (164 + 1) (by decide)) (not_written_from 164 (by decide))

private theorem op_165 : (ops : List (HloOp τ sig (Elt F)))[165]? = some (StableHlo.binary main_v1 main_v98 main_v99 (addi : (⟨S160000, .i32⟩ : BufTy).Contents (Elt F) → (⟨S160000, .i32⟩ : BufTy).Contents (Elt F) → (⟨S160000, .i32⟩ : BufTy).Contents (Elt F))) := rfl
theorem val_main_v99 (V : Valuation τ sig (Elt F)) :
    after ops V (no_index (Proc.devRef .tc main_v99)) = (addi : (⟨S160000, .i32⟩ : BufTy).Contents (Elt F) → (⟨S160000, .i32⟩ : BufTy).Contents (Elt F) → (⟨S160000, .i32⟩ : BufTy).Contents (Elt F)) (after ops V (Proc.devRef .tc main_v1)) (after ops V (Proc.devRef .tc main_v98)) :=
  ops_writesAre.read_binary op_165 V (not_written_from (165 + 1) (by decide)) (not_written_from 165 (by decide)) (not_written_from 165 (by decide))

private theorem op_166 : (ops : List (HloOp τ sig (Elt F)))[166]? = some (StableHlo.ternary main_v97 main_v99 main_v1 main_v100 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) := rfl
theorem val_main_v100 (V : Valuation τ sig (Elt F)) :
    after ops V (no_index (Proc.devRef .tc main_v100)) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v97)) (after ops V (Proc.devRef .tc main_v99)) (after ops V (Proc.devRef .tc main_v1)) :=
  ops_writesAre.read_ternary op_166 V (not_written_from (166 + 1) (by decide)) (not_written_from 166 (by decide)) (not_written_from 166 (by decide)) (not_written_from 166 (by decide))

private theorem op_167 : (ops : List (HloOp τ sig (Elt F)))[167]? = some (StableHlo.unary main_v100 main_v101 (broadcastInDim S160000x1 ![0] bcast_S160000_S160000x1_0 : (⟨S160000, .i32⟩ : BufTy).Contents (Elt F) → (⟨S160000x1, .i32⟩ : BufTy).Contents (Elt F))) := rfl
theorem val_main_v101 (V : Valuation τ sig (Elt F)) :
    after ops V (no_index (Proc.devRef .tc main_v101)) = (broadcastInDim S160000x1 ![0] bcast_S160000_S160000x1_0 : (⟨S160000, .i32⟩ : BufTy).Contents (Elt F) → (⟨S160000x1, .i32⟩ : BufTy).Contents (Elt F)) (after ops V (Proc.devRef .tc main_v100)) :=
  ops_writesAre.read_unary op_167 V (not_written_from (167 + 1) (by decide)) (not_written_from 167 (by decide))

private theorem op_168 : (ops : List (HloOp τ sig (Elt F)))[168]? = some (StableHlo.binary main_v95 main_v101 main_v102 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F))) := rfl
theorem val_main_v102 (V : Valuation τ sig (Elt F)) :
    after ops V (no_index (Proc.devRef .tc main_v102)) = ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)) (after ops V (Proc.devRef .tc main_v95)) (after ops V (Proc.devRef .tc main_v101)) :=
  ops_writesAre.read_binary op_168 V (not_written_from (168 + 1) (by decide)) (not_written_from 168 (by decide)) (not_written_from 168 (by decide))

private theorem op_169 : (ops : List (HloOp τ sig (Elt F)))[169]? = some (StableHlo.nullary main_cst_14 (constant S_ .f32 0x00000000#32)) := rfl
theorem val_main_cst_14 (V : Valuation τ sig (Elt F)) :
    after ops V (no_index (Proc.devRef .tc main_cst_14)) = (constant S_ .f32 0x00000000#32) :=
  ops_writesAre.read_nullary op_169 V (not_written_from (169 + 1) (by decide))

end Cert.ReferenceIdeal.RefRun

end
-- ==== Proof.RI.Val2.lean ====
/-
  What each buffer written by operations 171 … 255 of the reference program holds at the end of the run, as ONE
  operation applied to the final contents of its operand buffers. Every buffer is written once and read only
  after it is written: the operation at position j is read off the list (by computation; an operation of an
  unfolded call is stated over the buffers themselves, the typed references' transports being the identity there),
  its result buffer has number 17 + j, below every buffer written after it, and its operand buffers have smaller numbers still.
-/
import proofs.«100381_j2018634629568_1_alg».proof.Proof.RI.Order

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

private theorem op_170 : (ops : List (HloOp τ sig (Elt F)))[170]? = some (StableHlo.unary main_cst_14 main_v103 (broadcastInDim S10000x512 ![] bcast_S_S10000x512 : (⟨S_, .f32⟩ : BufTy).Contents (Elt F) → (⟨S10000x512, .f32⟩ : BufTy).Contents (Elt F))) := rfl
theorem val_main_v103 (V : Valuation τ sig (Elt F)) :
    after ops V (no_index (Proc.devRef .tc main_v103)) = (broadcastInDim S10000x512 ![] bcast_S_S10000x512 : (⟨S_, .f32⟩ : BufTy).Contents (Elt F) → (⟨S10000x512, .f32⟩ : BufTy).Contents (Elt F)) (after ops V (Proc.devRef .tc main_cst_14)) :=
  ops_writesAre.read_unary op_170 V (not_written_from (170 + 1) (by decide)) (not_written_from 170 (by decide))

private theorem op_171 : (ops : List (HloOp τ sig (Elt F)))[171]? = some (StableHlo.unary main_v3 main_v104 (broadcastInDim S160000x1 ![0] bcast_S160000_S160000x1_0 : (⟨S160000, .i32⟩ : BufTy).Contents (Elt F) → (⟨S160000x1, .i32⟩ : BufTy).Contents (Elt F))) := rfl
theorem val_main_v104 (V : Valuation τ sig (Elt F)) :
    after ops V (no_index (Proc.devRef .tc main_v104)) = (broadcastInDim S160000x1 ![0] bcast_S160000_S160000x1_0 : (⟨S160000, .i32⟩ : BufTy).Contents (Elt F) → (⟨S160000x1, .i32⟩ : BufTy).Contents (Elt F)) (after ops V (Proc.devRef .tc main_v3)) :=
  ops_writesAre.read_unary op_171 V (not_written_from (171 + 1) (by decide)) (not_written_from 171 (by decide))

private theorem op_172 : (ops : List (HloOp τ sig (Elt F)))[172]? = some (StableHlo.ternary main_v103 main_v104 main_v102 main_v105 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F))) := rfl
theorem val_main_v105 (V : Valuation τ sig (Elt F)) :
    after ops V (no_index (Proc.devRef .tc main_v105)) = ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)) (after ops V (Proc.devRef .tc main_v103)) (after ops V (Proc.devRef .tc main_v104)) (after ops V (Proc.devRef .tc main_v102)) :=
  ops_writesAre.read_ternary op_172 V (not_written_from (172 + 1) (by decide)) (not_written_from 172 (by decide)) (not_written_from 172 (by decide)) (not_written_from 172 (by decide))

private theorem op_173 : (ops : List (HloOp τ sig (Elt F)))[173]? = some (StableHlo.binary main_v95 main_v105 main_v106 (addf : (⟨S10000x512, .f32⟩ : BufTy).Contents (Elt F) → (⟨S10000x512, .f32⟩ : BufTy).Contents (Elt F) → (⟨S10000x512, .f32⟩ : BufTy).Contents (Elt F))) := rfl
theorem val_main_v106 (V : Valuation τ sig (Elt F)) :
    after ops V (no_index (Proc.devRef .tc main_v106)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v95)) (after ops V (Proc.devRef .tc main_v105)) :=
  ops_writesAre.read_binary op_173 V (not_written_from (173 + 1) (by decide)) (not_written_from 173 (by decide)) (not_written_from 173 (by decide))

private theorem op_174 : (ops : List (HloOp τ sig (Elt F)))[174]? = some (StableHlo.unary main_arg7 main_v107 ((extractStridedSlice S1x512x512 ![1, 0, 0] · slices_S4x512x512_S1x512x512_1_0_0) : (⟨S4x512x512, .f32⟩ : BufTy).Contents (Elt F) → (⟨S1x512x512, .f32⟩ : BufTy).Contents (Elt F))) := rfl
theorem val_main_v107 (V : Valuation τ sig (Elt F)) :
    after ops V (no_index (Proc.devRef .tc main_v107)) = ((extractStridedSlice S1x512x512 ![1, 0, 0] · slices_S4x512x512_S1x512x512_1_0_0) : (⟨S4x512x512, .f32⟩ : BufTy).Contents (Elt F) → (⟨S1x512x512, .f32⟩ : BufTy).Contents (Elt F)) (after ops V (Proc.devRef .tc main_arg7)) :=
  ops_writesAre.read_unary op_174 V (not_written_from (174 + 1) (by decide)) (not_written_from 174 (by decide))

private theorem op_175 : (ops : List (HloOp τ sig (Elt F)))[175]? = some (StableHlo.reshape main_v107 main_v108 rfl shapeCasts_S1x512x512_S512x512) := rfl
theorem val_main_v108 (V : Valuation τ sig (Elt F)) :
    after ops V (no_index (Proc.devRef .tc main_v108)) = shapeCast S512x512 (after ops V (Proc.devRef .tc main_v107)) shapeCasts_S1x512x512_S512x512 :=
  ops_writesAre.read_reshape op_175 V (not_written_from (175 + 1) (by decide)) (not_written_from 175 (by decide))

private theorem op_176 : (ops : List (HloOp τ sig (Elt F)))[176]? = some (StableHlo.unary main_arg8 main_v109 ((extractStridedSlice S1x512 ![1, 0] · slices_S4x512_S1x512_1_0) : (⟨S4x512, .f32⟩ : BufTy).Contents (Elt F) → (⟨S1x512, .f32⟩ : BufTy).Contents (Elt F))) := rfl
theorem val_main_v109 (V : Valuation τ sig (Elt F)) :
    after ops V (no_index (Proc.devRef .tc main_v109)) = ((extractStridedSlice S1x512 ![1, 0] · slices_S4x512_S1x512_1_0) : (⟨S4x512, .f32⟩ : BufTy).Contents (Elt F) → (⟨S1x512, .f32⟩ : BufTy).Contents (Elt F)) (after ops V (Proc.devRef .tc main_arg8)) :=
  ops_writesAre.read_unary op_176 V (not_written_from (176 + 1) (by decide)) (not_written_from 176 (by decide))

private theorem op_177 : (ops : List (HloOp τ sig (Elt F)))[177]? = some (StableHlo.reshape main_v109 main_v110 rfl shapeCasts_S1x512_S512) := rfl
theorem val_main_v110 (V : Valuation τ sig (Elt F)) :
    after ops V (no_index (Proc.devRef .tc main_v110)) = shapeCast S512 (after ops V (Proc.devRef .tc main_v109)) shapeCasts_S1x512_S512 :=
  ops_writesAre.read_reshape op_177 V (not_written_from (177 + 1) (by decide)) (not_written_from 177 (by decide))

private theorem op_178 : (ops : List (HloOp τ sig (Elt F)))[178]? = some (StableHlo.unary main_arg9 main_v111 ((extractStridedSlice S1x512x512 ![1, 0, 0] · slices_S4x512x512_S1x512x512_1_0_0) : (⟨S4x512x512, .f32⟩ : BufTy).Contents (Elt F) → (⟨S1x512x512, .f32⟩ : BufTy).Contents (Elt F))) := rfl
theorem val_main_v111 (V : Valuation τ sig (Elt F)) :
    after ops V (no_index (Proc.devRef .tc main_v111)) = ((extractStridedSlice S1x512x512 ![1, 0, 0] · slices_S4x512x512_S1x512x512_1_0_0) : (⟨S4x512x512, .f32⟩ : BufTy).Contents (Elt F) → (⟨S1x512x512, .f32⟩ : BufTy).Contents (Elt F)) (after ops V (Proc.devRef .tc main_arg9)) :=
  ops_writesAre.read_unary op_178 V (not_written_from (178 + 1) (by decide)) (not_written_from 178 (by decide))

private theorem op_179 : (ops : List (HloOp τ sig (Elt F)))[179]? = some (StableHlo.reshape main_v111 main_v112 rfl shapeCasts_S1x512x512_S512x512) := rfl
theorem val_main_v112 (V : Valuation τ sig (Elt F)) :
    after ops V (no_index (Proc.devRef .tc main_v112)) = shapeCast S512x512 (after ops V (Proc.devRef .tc main_v111)) shapeCasts_S1x512x512_S512x512 :=
  ops_writesAre.read_reshape op_179 V (not_written_from (179 + 1) (by decide)) (not_written_from 179 (by decide))

private theorem op_180 : (ops : List (HloOp τ sig (Elt F)))[180]? = some (StableHlo.unary main_arg10 main_v113 ((extractStridedSlice S1x512 ![1, 0] · slices_S4x512_S1x512_1_0) : (⟨S4x512, .f32⟩ : BufTy).Contents (Elt F) → (⟨S1x512, .f32⟩ : BufTy).Contents (Elt F))) := rfl
theorem val_main_v113 (V : Valuation τ sig (Elt F)) :
    after ops V (no_index (Proc.devRef .tc main_v113)) = ((extractStridedSlice S1x512 ![1, 0] · slices_S4x512_S1x512_1_0) : (⟨S4x512, .f32⟩ : BufTy).Contents (Elt F) → (⟨S1x512, .f32⟩ : BufTy).Contents (Elt F)) (after ops V (Proc.devRef .tc main_arg10)) :=
  ops_writesAre.read_unary op_180 V (not_written_from (180 + 1) (by decide)) (not_written_from 180 (by decide))

private theorem op_181 : (ops : List (HloOp τ sig (Elt F)))[181]? = some (StableHlo.reshape main_v113 main_v114 rfl shapeCasts_S1x512_S512) := rfl
theorem val_main_v114 (V : Valuation τ sig (Elt F)) :
    after ops V (no_index (Proc.devRef .tc main_v114)) = shapeCast S512 (after ops V (Proc.devRef .tc main_v113)) shapeCasts_S1x512_S512 :=
  ops_writesAre.read_reshape op_181 V (not_written_from (181 + 1) (by decide)) (not_written_from 181 (by decide))

private theorem op_182 : (ops : List (HloOp τ sig (Elt F)))[182]? = some (StableHlo.binary main_v106 main_v108 main_v115 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))) := rfl
theorem val_main_v115 (V : Valuation τ sig (Elt F)) :
    after ops V (no_index (Proc.devRef .tc main_v115)) = ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) (after ops V (Proc.devRef .tc main_v106)) (after ops V (Proc.devRef .tc main_v108)) :=
  ops_writesAre.read_binary op_182 V (not_written_from (182 + 1) (by decide)) (not_written_from 182 (by decide)) (not_written_from 182 (by decide))

private theorem op_183 : (ops : List (HloOp τ sig (Elt F)))[183]? = some (StableHlo.unary main_v110 main_v116 (broadcastInDim S1x512 ![1] bcast_S512_S1x512_1 : (⟨S512, .f32⟩ : BufTy).Contents (Elt F) → (⟨S1x512, .f32⟩ : BufTy).Contents (Elt F))) := rfl
theorem val_main_v116 (V : Valuation τ sig (Elt F)) :
    after ops V (no_index (Proc.devRef .tc main_v116)) = (broadcastInDim S1x512 ![1] bcast_S512_S1x512_1 : (⟨S512, .f32⟩ : BufTy).Contents (Elt F) → (⟨S1x512, .f32⟩ : BufTy).Contents (Elt F)) (after ops V (Proc.devRef .tc main_v110)) :=
  ops_writesAre.read_unary op_183 V (not_written_from (183 + 1) (by decide)) (not_written_from 183 (by decide))

private theorem op_184 : (ops : List (HloOp τ sig (Elt F)))[184]? = some (StableHlo.unary main_v116 main_v117 (broadcastInDim S10000x512 ![0, 1] bcast_S1x512_S10000x512_0_1 : (⟨S1x512, .f32⟩ : BufTy).Contents (Elt F) → (⟨S10000x512, .f32⟩ : BufTy).Contents (Elt F))) := rfl
theorem val_main_v117 (V : Valuation τ sig (Elt F)) :
    after ops V (no_index (Proc.devRef .tc main_v117)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v116)) :=
  ops_writesAre.read_unary op_184 V (not_written_from (184 + 1) (by decide)) (not_written_from 184 (by decide))

private theorem op_185 : (ops : List (HloOp τ sig (Elt F)))[185]? = some (StableHlo.binary main_v115 main_v117 main_v118 (addf : (⟨S10000x512, .f32⟩ : BufTy).Contents (Elt F) → (⟨S10000x512, .f32⟩ : BufTy).Contents (Elt F) → (⟨S10000x512, .f32⟩ : BufTy).Contents (Elt F))) := rfl
theorem val_main_v118 (V : Valuation τ sig (Elt F)) :
    after ops V (no_index (Proc.devRef .tc main_v118)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v115)) (after ops V (Proc.devRef .tc main_v117)) :=
  ops_writesAre.read_binary op_185 V (not_written_from (185 + 1) (by decide)) (not_written_from 185 (by decide)) (not_written_from 185 (by decide))

private theorem op_186 : (ops : List (HloOp τ sig (Elt F)))[186]? = some (StableHlo.nullary main_call6_cst ((constant S_ .f32 0x00000000#32) : (⟨S_, .f32⟩ : BufTy).Contents (Elt F))) := rfl
theorem val_main_call6_cst (V : Valuation τ sig (Elt F)) :
    after ops V (no_index (Proc.devRef .tc main_call6_cst)) = ((constant S_ .f32 0x00000000#32) : (⟨S_, .f32⟩ : BufTy).Contents (Elt F)) :=
  ops_writesAre.read_nullary op_186 V (not_written_from (186 + 1) (by decide))

private theorem op_187 : (ops : List (HloOp τ sig (Elt F)))[187]? = some (StableHlo.unary main_call6_cst main_call6_v0 ((broadcastInDim S10000x512 ![] bcast_S_S10000x512) : (⟨S_, .f32⟩ : BufTy).Contents (Elt F) → (⟨S10000x512, .f32⟩ : BufTy).Contents (Elt F))) := rfl
theorem val_main_call6_v0 (V : Valuation τ sig (Elt F)) :
    after ops V (no_index (Proc.devRef .tc main_call6_v0)) = ((broadcastInDim S10000x512 ![] bcast_S_S10000x512) : (⟨S_, .f32⟩ : BufTy).Contents (Elt F) → (⟨S10000x512, .f32⟩ : BufTy).Contents (Elt F)) (after ops V (Proc.devRef .tc main_call6_cst)) :=
  ops_writesAre.read_unary op_187 V (not_written_from (187 + 1) (by decide)) (not_written_from 187 (by decide))

private theorem op_188 : (ops : List (HloOp τ sig (Elt F)))[188]? = some (StableHlo.binary main_v118 main_call6_v0 main_v119 (maximumf : (⟨S10000x512, .f32⟩ : BufTy).Contents (Elt F) → (⟨S10000x512, .f32⟩ : BufTy).Contents (Elt F) → (⟨S10000x512, .f32⟩ : BufTy).Contents (Elt F))) := rfl
theorem val_main_v119 (V : Valuation τ sig (Elt F)) :
    after ops V (no_index (Proc.devRef .tc main_v119)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v118)) (after ops V (Proc.devRef .tc main_call6_v0)) :=
  ops_writesAre.read_binary op_188 V (not_written_from (188 + 1) (by decide)) (not_written_from 188 (by decide)) (not_written_from 188 (by decide))

private theorem op_189 : (ops : List (HloOp τ sig (Elt F)))[189]? = some (StableHlo.binary main_v119 main_v112 main_v120 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))) := rfl
theorem val_main_v120 (V : Valuation τ sig (Elt F)) :
    after ops V (no_index (Proc.devRef .tc main_v120)) = ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) (after ops V (Proc.devRef .tc main_v119)) (after ops V (Proc.devRef .tc main_v112)) :=
  ops_writesAre.read_binary op_189 V (not_written_from (189 + 1) (by decide)) (not_written_from 189 (by decide)) (not_written_from 189 (by decide))

private theorem op_190 : (ops : List (HloOp τ sig (Elt F)))[190]? = some (StableHlo.unary main_v114 main_v121 (broadcastInDim S1x512 ![1] bcast_S512_S1x512_1 : (⟨S512, .f32⟩ : BufTy).Contents (Elt F) → (⟨S1x512, .f32⟩ : BufTy).Contents (Elt F))) := rfl
theorem val_main_v121 (V : Valuation τ sig (Elt F)) :
    after ops V (no_index (Proc.devRef .tc main_v121)) = (broadcastInDim S1x512 ![1] bcast_S512_S1x512_1 : (⟨S512, .f32⟩ : BufTy).Contents (Elt F) → (⟨S1x512, .f32⟩ : BufTy).Contents (Elt F)) (after ops V (Proc.devRef .tc main_v114)) :=
  ops_writesAre.read_unary op_190 V (not_written_from (190 + 1) (by decide)) (not_written_from 190 (by decide))

private theorem op_191 : (ops : List (HloOp τ sig (Elt F)))[191]? = some (StableHlo.unary main_v121 main_v122 (broadcastInDim S10000x512 ![0, 1] bcast_S1x512_S10000x512_0_1 : (⟨S1x512, .f32⟩ : BufTy).Contents (Elt F) → (⟨S10000x512, .f32⟩ : BufTy).Contents (Elt F))) := rfl
theorem val_main_v122 (V : Valuation τ sig (Elt F)) :
    after ops V (no_index (Proc.devRef .tc main_v122)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v121)) :=
  ops_writesAre.read_unary op_191 V (not_written_from (191 + 1) (by decide)) (not_written_from 191 (by decide))

private theorem op_192 : (ops : List (HloOp τ sig (Elt F)))[192]? = some (StableHlo.binary main_v120 main_v122 main_v123 (addf : (⟨S10000x512, .f32⟩ : BufTy).Contents (Elt F) → (⟨S10000x512, .f32⟩ : BufTy).Contents (Elt F) → (⟨S10000x512, .f32⟩ : BufTy).Contents (Elt F))) := rfl
theorem val_main_v123 (V : Valuation τ sig (Elt F)) :
    after ops V (no_index (Proc.devRef .tc main_v123)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v120)) (after ops V (Proc.devRef .tc main_v122)) :=
  ops_writesAre.read_binary op_192 V (not_written_from (192 + 1) (by decide)) (not_written_from 192 (by decide)) (not_written_from 192 (by decide))

private theorem op_193 : (ops : List (HloOp τ sig (Elt F)))[193]? = some (StableHlo.nullary main_call7_cst ((constant S_ .f32 0x00000000#32) : (⟨S_, .f32⟩ : BufTy).Contents (Elt F))) := rfl
theorem val_main_call7_cst (V : Valuation τ sig (Elt F)) :
    after ops V (no_index (Proc.devRef .tc main_call7_cst)) = ((constant S_ .f32 0x00000000#32) : (⟨S_, .f32⟩ : BufTy).Contents (Elt F)) :=
  ops_writesAre.read_nullary op_193 V (not_written_from (193 + 1) (by decide))

private theorem op_194 : (ops : List (HloOp τ sig (Elt F)))[194]? = some (StableHlo.unary main_call7_cst main_call7_v0 ((broadcastInDim S10000x512 ![] bcast_S_S10000x512) : (⟨S_, .f32⟩ : BufTy).Contents (Elt F) → (⟨S10000x512, .f32⟩ : BufTy).Contents (Elt F))) := rfl
theorem val_main_call7_v0 (V : Valuation τ sig (Elt F)) :
    after ops V (no_index (Proc.devRef .tc main_call7_v0)) = ((broadcastInDim S10000x512 ![] bcast_S_S10000x512) : (⟨S_, .f32⟩ : BufTy).Contents (Elt F) → (⟨S10000x512, .f32⟩ : BufTy).Contents (Elt F)) (after ops V (Proc.devRef .tc main_call7_cst)) :=
  ops_writesAre.read_unary op_194 V (not_written_from (194 + 1) (by decide)) (not_written_from 194 (by decide))

private theorem op_195 : (ops : List (HloOp τ sig (Elt F)))[195]? = some (StableHlo.binary main_v123 main_call7_v0 main_v124 (maximumf : (⟨S10000x512, .f32⟩ : BufTy).Contents (Elt F) → (⟨S10000x512, .f32⟩ : BufTy).Contents (Elt F) → (⟨S10000x512, .f32⟩ : BufTy).Contents (Elt F))) := rfl
theorem val_main_v124 (V : Valuation τ sig (Elt F)) :
    after ops V (no_index (Proc.devRef .tc main_v124)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v123)) (after ops V (Proc.devRef .tc main_call7_v0)) :=
  ops_writesAre.read_binary op_195 V (not_written_from (195 + 1) (by decide)) (not_written_from 195 (by decide)) (not_written_from 195 (by decide))

private theorem op_196 : (ops : List (HloOp τ sig (Elt F)))[196]? = some (StableHlo.unary main_arg11 main_v125 ((extractStridedSlice S1x512 ![2, 0] · slices_S5x512_S1x512_2_0) : (⟨S5x512, .f32⟩ : BufTy).Contents (Elt F) → (⟨S1x512, .f32⟩ : BufTy).Contents (Elt F))) := rfl
theorem val_main_v125 (V : Valuation τ sig (Elt F)) :
    after ops V (no_index (Proc.devRef .tc main_v125)) = ((extractStridedSlice S1x512 ![2, 0] · slices_S5x512_S1x512_2_0) : (⟨S5x512, .f32⟩ : BufTy).Contents (Elt F) → (⟨S1x512, .f32⟩ : BufTy).Contents (Elt F)) (after ops V (Proc.devRef .tc main_arg11)) :=
  ops_writesAre.read_unary op_196 V (not_written_from (196 + 1) (by decide)) (not_written_from 196 (by decide))

private theorem op_197 : (ops : List (HloOp τ sig (Elt F)))[197]? = some (StableHlo.reshape main_v125 main_v126 rfl shapeCasts_S1x512_S512) := rfl
theorem val_main_v126 (V : Valuation τ sig (Elt F)) :
    after ops V (no_index (Proc.devRef .tc main_v126)) = shapeCast S512 (after ops V (Proc.devRef .tc main_v125)) shapeCasts_S1x512_S512 :=
  ops_writesAre.read_reshape op_197 V (not_written_from (197 + 1) (by decide)) (not_written_from 197 (by decide))

private theorem op_198 : (ops : List (HloOp τ sig (Elt F)))[198]? = some (StableHlo.unary main_arg12 main_v127 ((extractStridedSlice S1x512 ![2, 0] · slices_S5x512_S1x512_2_0) : (⟨S5x512, .f32⟩ : BufTy).Contents (Elt F) → (⟨S1x512, .f32⟩ : BufTy).Contents (Elt F))) := rfl
theorem val_main_v127 (V : Valuation τ sig (Elt F)) :
    after ops V (no_index (Proc.devRef .tc main_v127)) = ((extractStridedSlice S1x512 ![2, 0] · slices_S5x512_S1x512_2_0) : (⟨S5x512, .f32⟩ : BufTy).Contents (Elt F) → (⟨S1x512, .f32⟩ : BufTy).Contents (Elt F)) (after ops V (Proc.devRef .tc main_arg12)) :=
  ops_writesAre.read_unary op_198 V (not_written_from (198 + 1) (by decide)) (not_written_from 198 (by decide))

private theorem op_199 : (ops : List (HloOp τ sig (Elt F)))[199]? = some (StableHlo.reshape main_v127 main_v128 rfl shapeCasts_S1x512_S512) := rfl
theorem val_main_v128 (V : Valuation τ sig (Elt F)) :
    after ops V (no_index (Proc.devRef .tc main_v128)) = shapeCast S512 (after ops V (Proc.devRef .tc main_v127)) shapeCasts_S1x512_S512 :=
  ops_writesAre.read_reshape op_199 V (not_written_from (199 + 1) (by decide)) (not_written_from 199 (by decide))

private theorem op_200 : (ops : List (HloOp τ sig (Elt F)))[200]? = some (StableHlo.nullary main_cst_15 (constant S_ .f32 0x00000000#32)) := rfl
theorem val_main_cst_15 (V : Valuation τ sig (Elt F)) :
    after ops V (no_index (Proc.devRef .tc main_cst_15)) = (constant S_ .f32 0x00000000#32) :=
  ops_writesAre.read_nullary op_200 V (not_written_from (200 + 1) (by decide))

private theorem op_201 : (ops : List (HloOp τ sig (Elt F)))[201]? = some (StableHlo.binary main_v124 main_cst_15 main_v129 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_v129 (V : Valuation τ sig (Elt F)) :
    after ops V (no_index (Proc.devRef .tc main_v129)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v124)) (after ops V (Proc.devRef .tc main_cst_15)) :=
  ops_writesAre.read_binary op_201 V (not_written_from (201 + 1) (by decide)) (not_written_from 201 (by decide)) (not_written_from 201 (by decide))

private theorem op_202 : (ops : List (HloOp τ sig (Elt F)))[202]? = some (StableHlo.nullary main_cst_16 (constant S_ .f32 0x461C4000#32)) := rfl
theorem val_main_cst_16 (V : Valuation τ sig (Elt F)) :
    after ops V (no_index (Proc.devRef .tc main_cst_16)) = (constant S_ .f32 0x461C4000#32) :=
  ops_writesAre.read_nullary op_202 V (not_written_from (202 + 1) (by decide))

private theorem op_203 : (ops : List (HloOp τ sig (Elt F)))[203]? = some (StableHlo.unary main_cst_16 main_v130 (broadcastInDim S512 ![] bcast_S_S512 : (⟨S_, .f32⟩ : BufTy).Contents (Elt F) → (⟨S512, .f32⟩ : BufTy).Contents (Elt F))) := rfl
theorem val_main_v130 (V : Valuation τ sig (Elt F)) :
    after ops V (no_index (Proc.devRef .tc main_v130)) = (broadcastInDim S512 ![] bcast_S_S512 : (⟨S_, .f32⟩ : BufTy).Contents (Elt F) → (⟨S512, .f32⟩ : BufTy).Contents (Elt F)) (after ops V (Proc.devRef .tc main_cst_16)) :=
  ops_writesAre.read_unary op_203 V (not_written_from (203 + 1) (by decide)) (not_written_from 203 (by decide))

private theorem op_204 : (ops : List (HloOp τ sig (Elt F)))[204]? = some (StableHlo.binary main_v129 main_v130 main_v131 (Host.divf : (⟨S512, .f32⟩ : BufTy).Contents (Elt F) → (⟨S512, .f32⟩ : BufTy).Contents (Elt F) → (⟨S512, .f32⟩ : BufTy).Contents (Elt F))) := rfl
theorem val_main_v131 (V : Valuation τ sig (Elt F)) :
    after ops V (no_index (Proc.devRef .tc main_v131)) = (Host.divf : (⟨S512, .f32⟩ : BufTy).Contents (Elt F) → (⟨S512, .f32⟩ : BufTy).Contents (Elt F) → (⟨S512, .f32⟩ : BufTy).Contents (Elt F)) (after ops V (Proc.devRef .tc main_v129)) (after ops V (Proc.devRef .tc main_v130)) :=
  ops_writesAre.read_binary op_204 V (not_written_from (204 + 1) (by decide)) (not_written_from 204 (by decide)) (not_written_from 204 (by decide))

private theorem op_205 : (ops : List (HloOp τ sig (Elt F)))[205]? = some (StableHlo.nullary main_c_17 (constantI S_ 32 0#32)) := rfl
theorem val_main_c_17 (V : Valuation τ sig (Elt F)) :
    after ops V (no_index (Proc.devRef .tc main_c_17)) = (constantI S_ 32 0#32) :=
  ops_writesAre.read_nullary op_205 V (not_written_from (205 + 1) (by decide))

private theorem op_206 : (ops : List (HloOp τ sig (Elt F)))[206]? = some (StableHlo.nullary main_call8_cst ((constant S_ .f32 0x00000000#32) : (⟨S_, .f32⟩ : BufTy).Contents (Elt F))) := rfl
theorem val_main_call8_cst (V : Valuation τ sig (Elt F)) :
    after ops V (no_index (Proc.devRef .tc main_call8_cst)) = ((constant S_ .f32 0x00000000#32) : (⟨S_, .f32⟩ : BufTy).Contents (Elt F)) :=
  ops_writesAre.read_nullary op_206 V (not_written_from (206 + 1) (by decide))

private theorem op_207 : (ops : List (HloOp τ sig (Elt F)))[207]? = some (StableHlo.binary main_v124 main_call8_cst main_call8_v0 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call8_v0 (V : Valuation τ sig (Elt F)) :
    after ops V (no_index (Proc.devRef .tc main_call8_v0)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v124)) (after ops V (Proc.devRef .tc main_call8_cst)) :=
  ops_writesAre.read_binary op_207 V (not_written_from (207 + 1) (by decide)) (not_written_from 207 (by decide)) (not_written_from 207 (by decide))

private theorem op_208 : (ops : List (HloOp τ sig (Elt F)))[208]? = some (StableHlo.unary main_call8_v0 main_call8_v1 ((broadcastInDim S1x512 ![1] bcast_S512_S1x512_1) : (⟨S512, .f32⟩ : BufTy).Contents (Elt F) → (⟨S1x512, .f32⟩ : BufTy).Contents (Elt F))) := rfl
theorem val_main_call8_v1 (V : Valuation τ sig (Elt F)) :
    after ops V (no_index (Proc.devRef .tc main_call8_v1)) = ((broadcastInDim S1x512 ![1] bcast_S512_S1x512_1) : (⟨S512, .f32⟩ : BufTy).Contents (Elt F) → (⟨S1x512, .f32⟩ : BufTy).Contents (Elt F)) (after ops V (Proc.devRef .tc main_call8_v0)) :=
  ops_writesAre.read_unary op_208 V (not_written_from (208 + 1) (by decide)) (not_written_from 208 (by decide))

private theorem op_209 : (ops : List (HloOp τ sig (Elt F)))[209]? = some (StableHlo.nullary main_call8_cst_0 ((constant S_ .f32 0x461C4000#32) : (⟨S_, .f32⟩ : BufTy).Contents (Elt F))) := rfl
theorem val_main_call8_cst_0 (V : Valuation τ sig (Elt F)) :
    after ops V (no_index (Proc.devRef .tc main_call8_cst_0)) = ((constant S_ .f32 0x461C4000#32) : (⟨S_, .f32⟩ : BufTy).Contents (Elt F)) :=
  ops_writesAre.read_nullary op_209 V (not_written_from (209 + 1) (by decide))

private theorem op_210 : (ops : List (HloOp τ sig (Elt F)))[210]? = some (StableHlo.unary main_call8_cst_0 main_call8_v2 ((broadcastInDim S1x512 ![] bcast_S_S1x512) : (⟨S_, .f32⟩ : BufTy).Contents (Elt F) → (⟨S1x512, .f32⟩ : BufTy).Contents (Elt F))) := rfl
theorem val_main_call8_v2 (V : Valuation τ sig (Elt F)) :
    after ops V (no_index (Proc.devRef .tc main_call8_v2)) = ((broadcastInDim S1x512 ![] bcast_S_S1x512) : (⟨S_, .f32⟩ : BufTy).Contents (Elt F) → (⟨S1x512, .f32⟩ : BufTy).Contents (Elt F)) (after ops V (Proc.devRef .tc main_call8_cst_0)) :=
  ops_writesAre.read_unary op_210 V (not_written_from (210 + 1) (by decide)) (not_written_from 210 (by decide))

private theorem op_211 : (ops : List (HloOp τ sig (Elt F)))[211]? = some (StableHlo.binary main_call8_v1 main_call8_v2 main_call8_v3 (Host.divf : (⟨S1x512, .f32⟩ : BufTy).Contents (Elt F) → (⟨S1x512, .f32⟩ : BufTy).Contents (Elt F) → (⟨S1x512, .f32⟩ : BufTy).Contents (Elt F))) := rfl
theorem val_main_call8_v3 (V : Valuation τ sig (Elt F)) :
    after ops V (no_index (Proc.devRef .tc main_call8_v3)) = (Host.divf : (⟨S1x512, .f32⟩ : BufTy).Contents (Elt F) → (⟨S1x512, .f32⟩ : BufTy).Contents (Elt F) → (⟨S1x512, .f32⟩ : BufTy).Contents (Elt F)) (after ops V (Proc.devRef .tc main_call8_v1)) (after ops V (Proc.devRef .tc main_call8_v2)) :=
  ops_writesAre.read_binary op_211 V (not_written_from (211 + 1) (by decide)) (not_written_from 211 (by decide)) (not_written_from 211 (by decide))

private theorem op_212 : (ops : List (HloOp τ sig (Elt F)))[212]? = some (StableHlo.unary main_call8_v3 main_call8_v4 ((broadcastInDim S10000x512 ![0, 1] bcast_S1x512_S10000x512_0_1) : (⟨S1x512, .f32⟩ : BufTy).Contents (Elt F) → (⟨S10000x512, .f32⟩ : BufTy).Contents (Elt F))) := rfl
theorem val_main_call8_v4 (V : Valuation τ sig (Elt F)) :
    after ops V (no_index (Proc.devRef .tc main_call8_v4)) = ((broadcastInDim S10000x512 ![0, 1] bcast_S1x512_S10000x512_0_1) : (⟨S1x512, .f32⟩ : BufTy).Contents (Elt F) → (⟨S10000x512, .f32⟩ : BufTy).Contents (Elt F)) (after ops V (Proc.devRef .tc main_call8_v3)) :=
  ops_writesAre.read_unary op_212 V (not_written_from (212 + 1) (by decide)) (not_written_from 212 (by decide))

private theorem op_213 : (ops : List (HloOp τ sig (Elt F)))[213]? = some (StableHlo.binary main_v124 main_call8_v4 main_call8_v5 (subf : (⟨S10000x512, .f32⟩ : BufTy).Contents (Elt F) → (⟨S10000x512, .f32⟩ : BufTy).Contents (Elt F) → (⟨S10000x512, .f32⟩ : BufTy).Contents (Elt F))) := rfl
theorem val_main_call8_v5 (V : Valuation τ sig (Elt F)) :
    after ops V (no_index (Proc.devRef .tc main_call8_v5)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v124)) (after ops V (Proc.devRef .tc main_call8_v4)) :=
  ops_writesAre.read_binary op_213 V (not_written_from (213 + 1) (by decide)) (not_written_from 213 (by decide)) (not_written_from 213 (by decide))

private theorem op_214 : (ops : List (HloOp τ sig (Elt F)))[214]? = some (StableHlo.binary main_call8_v5 main_call8_v5 main_call8_v6 (mulf : (⟨S10000x512, .f32⟩ : BufTy).Contents (Elt F) → (⟨S10000x512, .f32⟩ : BufTy).Contents (Elt F) → (⟨S10000x512, .f32⟩ : BufTy).Contents (Elt F))) := rfl
theorem val_main_call8_v6 (V : Valuation τ sig (Elt F)) :
    after ops V (no_index (Proc.devRef .tc main_call8_v6)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_call8_v5)) (after ops V (Proc.devRef .tc main_call8_v5)) :=
  ops_writesAre.read_binary op_214 V (not_written_from (214 + 1) (by decide)) (not_written_from 214 (by decide)) (not_written_from 214 (by decide))

private theorem op_215 : (ops : List (HloOp τ sig (Elt F)))[215]? = some (StableHlo.unary main_c_17 main_call8_v7 ((sitofp .f32) : (⟨S_, .i32⟩ : BufTy).Contents (Elt F) → (⟨S_, .f32⟩ : BufTy).Contents (Elt F))) := rfl
theorem val_main_call8_v7 (V : Valuation τ sig (Elt F)) :
    after ops V (no_index (Proc.devRef .tc main_call8_v7)) = ((sitofp .f32) : (⟨S_, .i32⟩ : BufTy).Contents (Elt F) → (⟨S_, .f32⟩ : BufTy).Contents (Elt F)) (after ops V (Proc.devRef .tc main_c_17)) :=
  ops_writesAre.read_unary op_215 V (not_written_from (215 + 1) (by decide)) (not_written_from 215 (by decide))

private theorem op_216 : (ops : List (HloOp τ sig (Elt F)))[216]? = some (StableHlo.nullary main_call8_cst_1 ((constant S_ .f32 0x461C4000#32) : (⟨S_, .f32⟩ : BufTy).Contents (Elt F))) := rfl
theorem val_main_call8_cst_1 (V : Valuation τ sig (Elt F)) :
    after ops V (no_index (Proc.devRef .tc main_call8_cst_1)) = ((constant S_ .f32 0x461C4000#32) : (⟨S_, .f32⟩ : BufTy).Contents (Elt F)) :=
  ops_writesAre.read_nullary op_216 V (not_written_from (216 + 1) (by decide))

private theorem op_217 : (ops : List (HloOp τ sig (Elt F)))[217]? = some (StableHlo.binary main_call8_cst_1 main_call8_v7 main_call8_v8 (subf : (⟨S_, .f32⟩ : BufTy).Contents (Elt F) → (⟨S_, .f32⟩ : BufTy).Contents (Elt F) → (⟨S_, .f32⟩ : BufTy).Contents (Elt F))) := rfl
theorem val_main_call8_v8 (V : Valuation τ sig (Elt F)) :
    after ops V (no_index (Proc.devRef .tc main_call8_v8)) = (subf : (⟨S_, .f32⟩ : BufTy).Contents (Elt F) → (⟨S_, .f32⟩ : BufTy).Contents (Elt F) → (⟨S_, .f32⟩ : BufTy).Contents (Elt F)) (after ops V (Proc.devRef .tc main_call8_cst_1)) (after ops V (Proc.devRef .tc main_call8_v7)) :=
  ops_writesAre.read_binary op_217 V (not_written_from (217 + 1) (by decide)) (not_written_from 217 (by decide)) (not_written_from 217 (by decide))

private theorem op_218 : (ops : List (HloOp τ sig (Elt F)))[218]? = some (StableHlo.nullary main_call8_cst_2 ((constant S_ .f32 0x00000000#32) : (⟨S_, .f32⟩ : BufTy).Contents (Elt F))) := rfl
theorem val_main_call8_cst_2 (V : Valuation τ sig (Elt F)) :
    after ops V (no_index (Proc.devRef .tc main_call8_cst_2)) = ((constant S_ .f32 0x00000000#32) : (⟨S_, .f32⟩ : BufTy).Contents (Elt F)) :=
  ops_writesAre.read_nullary op_218 V (not_written_from (218 + 1) (by decide))

private theorem op_219 : (ops : List (HloOp τ sig (Elt F)))[219]? = some (StableHlo.binary main_call8_v6 main_call8_cst_2 main_call8_v9 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call8_v9 (V : Valuation τ sig (Elt F)) :
    after ops V (no_index (Proc.devRef .tc main_call8_v9)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_call8_v6)) (after ops V (Proc.devRef .tc main_call8_cst_2)) :=
  ops_writesAre.read_binary op_219 V (not_written_from (219 + 1) (by decide)) (not_written_from 219 (by decide)) (not_written_from 219 (by decide))

private theorem op_220 : (ops : List (HloOp τ sig (Elt F)))[220]? = some (StableHlo.unary main_call8_v8 main_call8_v10 ((broadcastInDim S512 ![] bcast_S_S512) : (⟨S_, .f32⟩ : BufTy).Contents (Elt F) → (⟨S512, .f32⟩ : BufTy).Contents (Elt F))) := rfl
theorem val_main_call8_v10 (V : Valuation τ sig (Elt F)) :
    after ops V (no_index (Proc.devRef .tc main_call8_v10)) = ((broadcastInDim S512 ![] bcast_S_S512) : (⟨S_, .f32⟩ : BufTy).Contents (Elt F) → (⟨S512, .f32⟩ : BufTy).Contents (Elt F)) (after ops V (Proc.devRef .tc main_call8_v8)) :=
  ops_writesAre.read_unary op_220 V (not_written_from (220 + 1) (by decide)) (not_written_from 220 (by decide))

private theorem op_221 : (ops : List (HloOp τ sig (Elt F)))[221]? = some (StableHlo.binary main_call8_v9 main_call8_v10 main_call8_v11 (Host.divf : (⟨S512, .f32⟩ : BufTy).Contents (Elt F) → (⟨S512, .f32⟩ : BufTy).Contents (Elt F) → (⟨S512, .f32⟩ : BufTy).Contents (Elt F))) := rfl
theorem val_main_call8_v11 (V : Valuation τ sig (Elt F)) :
    after ops V (no_index (Proc.devRef .tc main_call8_v11)) = (Host.divf : (⟨S512, .f32⟩ : BufTy).Contents (Elt F) → (⟨S512, .f32⟩ : BufTy).Contents (Elt F) → (⟨S512, .f32⟩ : BufTy).Contents (Elt F)) (after ops V (Proc.devRef .tc main_call8_v9)) (after ops V (Proc.devRef .tc main_call8_v10)) :=
  ops_writesAre.read_binary op_221 V (not_written_from (221 + 1) (by decide)) (not_written_from 221 (by decide)) (not_written_from 221 (by decide))

private theorem op_222 : (ops : List (HloOp τ sig (Elt F)))[222]? = some (StableHlo.nullary main_call8_cst_3 ((constant S_ .f32 0x00000000#32) : (⟨S_, .f32⟩ : BufTy).Contents (Elt F))) := rfl
theorem val_main_call8_cst_3 (V : Valuation τ sig (Elt F)) :
    after ops V (no_index (Proc.devRef .tc main_call8_cst_3)) = ((constant S_ .f32 0x00000000#32) : (⟨S_, .f32⟩ : BufTy).Contents (Elt F)) :=
  ops_writesAre.read_nullary op_222 V (not_written_from (222 + 1) (by decide))

private theorem op_223 : (ops : List (HloOp τ sig (Elt F)))[223]? = some (StableHlo.binary main_call8_v8 main_call8_cst_3 main_call8_v12 ((cmpf .ogt) : (⟨S_, .f32⟩ : BufTy).Contents (Elt F) → (⟨S_, .f32⟩ : BufTy).Contents (Elt F) → (⟨S_, .i1⟩ : BufTy).Contents (Elt F))) := rfl
theorem val_main_call8_v12 (V : Valuation τ sig (Elt F)) :
    after ops V (no_index (Proc.devRef .tc main_call8_v12)) = ((cmpf .ogt) : (⟨S_, .f32⟩ : BufTy).Contents (Elt F) → (⟨S_, .f32⟩ : BufTy).Contents (Elt F) → (⟨S_, .i1⟩ : BufTy).Contents (Elt F)) (after ops V (Proc.devRef .tc main_call8_v8)) (after ops V (Proc.devRef .tc main_call8_cst_3)) :=
  ops_writesAre.read_binary op_223 V (not_written_from (223 + 1) (by decide)) (not_written_from 223 (by decide)) (not_written_from 223 (by decide))

private theorem op_224 : (ops : List (HloOp τ sig (Elt F)))[224]? = some (StableHlo.nullary main_call8_cst_4 ((constant S_ .f32 0x7FC00000#32) : (⟨S_, .f32⟩ : BufTy).Contents (Elt F))) := rfl
theorem val_main_call8_cst_4 (V : Valuation τ sig (Elt F)) :
    after ops V (no_index (Proc.devRef .tc main_call8_cst_4)) = ((constant S_ .f32 0x7FC00000#32) : (⟨S_, .f32⟩ : BufTy).Contents (Elt F)) :=
  ops_writesAre.read_nullary op_224 V (not_written_from (224 + 1) (by decide))

private theorem op_225 : (ops : List (HloOp τ sig (Elt F)))[225]? = some (StableHlo.unary main_call8_cst_4 main_call8_call0_v0 (id : (⟨S_, .f32⟩ : BufTy).Contents (Elt F) → (⟨S_, .f32⟩ : BufTy).Contents (Elt F))) := rfl
theorem val_main_call8_call0_v0 (V : Valuation τ sig (Elt F)) :
    after ops V (no_index (Proc.devRef .tc main_call8_call0_v0)) = (id : (⟨S_, .f32⟩ : BufTy).Contents (Elt F) → (⟨S_, .f32⟩ : BufTy).Contents (Elt F)) (after ops V (Proc.devRef .tc main_call8_cst_4)) :=
  ops_writesAre.read_unary op_225 V (not_written_from (225 + 1) (by decide)) (not_written_from 225 (by decide))

private theorem op_226 : (ops : List (HloOp τ sig (Elt F)))[226]? = some (StableHlo.unary main_call8_call0_v0 main_call8_call0_v1 ((broadcastInDim S512 ![] bcast_S_S512) : (⟨S_, .f32⟩ : BufTy).Contents (Elt F) → (⟨S512, .f32⟩ : BufTy).Contents (Elt F))) := rfl
theorem val_main_call8_call0_v1 (V : Valuation τ sig (Elt F)) :
    after ops V (no_index (Proc.devRef .tc main_call8_call0_v1)) = ((broadcastInDim S512 ![] bcast_S_S512) : (⟨S_, .f32⟩ : BufTy).Contents (Elt F) → (⟨S512, .f32⟩ : BufTy).Contents (Elt F)) (after ops V (Proc.devRef .tc main_call8_call0_v0)) :=
  ops_writesAre.read_unary op_226 V (not_written_from (226 + 1) (by decide)) (not_written_from 226 (by decide))

private theorem op_227 : (ops : List (HloOp τ sig (Elt F)))[227]? = some (StableHlo.ternary main_call8_v12 main_call8_v11 main_call8_call0_v1 main_v132 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F))) := rfl
theorem val_main_v132 (V : Valuation τ sig (Elt F)) :
    after ops V (no_index (Proc.devRef .tc main_v132)) = ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)) (after ops V (Proc.devRef .tc main_call8_v12)) (after ops V (Proc.devRef .tc main_call8_v11)) (after ops V (Proc.devRef .tc main_call8_call0_v1)) :=
  ops_writesAre.read_ternary op_227 V (not_written_from (227 + 1) (by decide)) (not_written_from 227 (by decide)) (not_written_from 227 (by decide)) (not_written_from 227 (by decide))

private theorem op_228 : (ops : List (HloOp τ sig (Elt F)))[228]? = some (StableHlo.unary main_v131 main_v133 (broadcastInDim S1x512 ![1] bcast_S512_S1x512_1 : (⟨S512, .f32⟩ : BufTy).Contents (Elt F) → (⟨S1x512, .f32⟩ : BufTy).Contents (Elt F))) := rfl
theorem val_main_v133 (V : Valuation τ sig (Elt F)) :
    after ops V (no_index (Proc.devRef .tc main_v133)) = (broadcastInDim S1x512 ![1] bcast_S512_S1x512_1 : (⟨S512, .f32⟩ : BufTy).Contents (Elt F) → (⟨S1x512, .f32⟩ : BufTy).Contents (Elt F)) (after ops V (Proc.devRef .tc main_v131)) :=
  ops_writesAre.read_unary op_228 V (not_written_from (228 + 1) (by decide)) (not_written_from 228 (by decide))

private theorem op_229 : (ops : List (HloOp τ sig (Elt F)))[229]? = some (StableHlo.unary main_v133 main_v134 (broadcastInDim S10000x512 ![0, 1] bcast_S1x512_S10000x512_0_1 : (⟨S1x512, .f32⟩ : BufTy).Contents (Elt F) → (⟨S10000x512, .f32⟩ : BufTy).Contents (Elt F))) := rfl
theorem val_main_v134 (V : Valuation τ sig (Elt F)) :
    after ops V (no_index (Proc.devRef .tc main_v134)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v133)) :=
  ops_writesAre.read_unary op_229 V (not_written_from (229 + 1) (by decide)) (not_written_from 229 (by decide))

private theorem op_230 : (ops : List (HloOp τ sig (Elt F)))[230]? = some (StableHlo.binary main_v124 main_v134 main_v135 (subf : (⟨S10000x512, .f32⟩ : BufTy).Contents (Elt F) → (⟨S10000x512, .f32⟩ : BufTy).Contents (Elt F) → (⟨S10000x512, .f32⟩ : BufTy).Contents (Elt F))) := rfl
theorem val_main_v135 (V : Valuation τ sig (Elt F)) :
    after ops V (no_index (Proc.devRef .tc main_v135)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v124)) (after ops V (Proc.devRef .tc main_v134)) :=
  ops_writesAre.read_binary op_230 V (not_written_from (230 + 1) (by decide)) (not_written_from 230 (by decide)) (not_written_from 230 (by decide))

private theorem op_231 : (ops : List (HloOp τ sig (Elt F)))[231]? = some (StableHlo.nullary main_cst_18 (constant S_ .f32 0x3727C5AC#32)) := rfl
theorem val_main_cst_18 (V : Valuation τ sig (Elt F)) :
    after ops V (no_index (Proc.devRef .tc main_cst_18)) = (constant S_ .f32 0x3727C5AC#32) :=
  ops_writesAre.read_nullary op_231 V (not_written_from (231 + 1) (by decide))

private theorem op_232 : (ops : List (HloOp τ sig (Elt F)))[232]? = some (StableHlo.unary main_cst_18 main_v136 (broadcastInDim S512 ![] bcast_S_S512 : (⟨S_, .f32⟩ : BufTy).Contents (Elt F) → (⟨S512, .f32⟩ : BufTy).Contents (Elt F))) := rfl
theorem val_main_v136 (V : Valuation τ sig (Elt F)) :
    after ops V (no_index (Proc.devRef .tc main_v136)) = (broadcastInDim S512 ![] bcast_S_S512 : (⟨S_, .f32⟩ : BufTy).Contents (Elt F) → (⟨S512, .f32⟩ : BufTy).Contents (Elt F)) (after ops V (Proc.devRef .tc main_cst_18)) :=
  ops_writesAre.read_unary op_232 V (not_written_from (232 + 1) (by decide)) (not_written_from 232 (by decide))

private theorem op_233 : (ops : List (HloOp τ sig (Elt F)))[233]? = some (StableHlo.binary main_v132 main_v136 main_v137 (addf : (⟨S512, .f32⟩ : BufTy).Contents (Elt F) → (⟨S512, .f32⟩ : BufTy).Contents (Elt F) → (⟨S512, .f32⟩ : BufTy).Contents (Elt F))) := rfl
theorem val_main_v137 (V : Valuation τ sig (Elt F)) :
    after ops V (no_index (Proc.devRef .tc main_v137)) = (addf : (⟨S512, .f32⟩ : BufTy).Contents (Elt F) → (⟨S512, .f32⟩ : BufTy).Contents (Elt F) → (⟨S512, .f32⟩ : BufTy).Contents (Elt F)) (after ops V (Proc.devRef .tc main_v132)) (after ops V (Proc.devRef .tc main_v136)) :=
  ops_writesAre.read_binary op_233 V (not_written_from (233 + 1) (by decide)) (not_written_from 233 (by decide)) (not_written_from 233 (by decide))

private theorem op_234 : (ops : List (HloOp τ sig (Elt F)))[234]? = some (StableHlo.unary main_v137 main_v138 (Host.rsqrt : (⟨S512, .f32⟩ : BufTy).Contents (Elt F) → (⟨S512, .f32⟩ : BufTy).Contents (Elt F))) := rfl
theorem val_main_v138 (V : Valuation τ sig (Elt F)) :
    after ops V (no_index (Proc.devRef .tc main_v138)) = (Host.rsqrt : (⟨S512, .f32⟩ : BufTy).Contents (Elt F) → (⟨S512, .f32⟩ : BufTy).Contents (Elt F)) (after ops V (Proc.devRef .tc main_v137)) :=
  ops_writesAre.read_unary op_234 V (not_written_from (234 + 1) (by decide)) (not_written_from 234 (by decide))

private theorem op_235 : (ops : List (HloOp τ sig (Elt F)))[235]? = some (StableHlo.binary main_v126 main_v138 main_v139 (mulf : (⟨S512, .f32⟩ : BufTy).Contents (Elt F) → (⟨S512, .f32⟩ : BufTy).Contents (Elt F) → (⟨S512, .f32⟩ : BufTy).Contents (Elt F))) := rfl
theorem val_main_v139 (V : Valuation τ sig (Elt F)) :
    after ops V (no_index (Proc.devRef .tc main_v139)) = (mulf : (⟨S512, .f32⟩ : BufTy).Contents (Elt F) → (⟨S512, .f32⟩ : BufTy).Contents (Elt F) → (⟨S512, .f32⟩ : BufTy).Contents (Elt F)) (after ops V (Proc.devRef .tc main_v126)) (after ops V (Proc.devRef .tc main_v138)) :=
  ops_writesAre.read_binary op_235 V (not_written_from (235 + 1) (by decide)) (not_written_from 235 (by decide)) (not_written_from 235 (by decide))

private theorem op_236 : (ops : List (HloOp τ sig (Elt F)))[236]? = some (StableHlo.unary main_v139 main_v140 (broadcastInDim S1x512 ![1] bcast_S512_S1x512_1 : (⟨S512, .f32⟩ : BufTy).Contents (Elt F) → (⟨S1x512, .f32⟩ : BufTy).Contents (Elt F))) := rfl
theorem val_main_v140 (V : Valuation τ sig (Elt F)) :
    after ops V (no_index (Proc.devRef .tc main_v140)) = (broadcastInDim S1x512 ![1] bcast_S512_S1x512_1 : (⟨S512, .f32⟩ : BufTy).Contents (Elt F) → (⟨S1x512, .f32⟩ : BufTy).Contents (Elt F)) (after ops V (Proc.devRef .tc main_v139)) :=
  ops_writesAre.read_unary op_236 V (not_written_from (236 + 1) (by decide)) (not_written_from 236 (by decide))

private theorem op_237 : (ops : List (HloOp τ sig (Elt F)))[237]? = some (StableHlo.unary main_v140 main_v141 (broadcastInDim S10000x512 ![0, 1] bcast_S1x512_S10000x512_0_1 : (⟨S1x512, .f32⟩ : BufTy).Contents (Elt F) → (⟨S10000x512, .f32⟩ : BufTy).Contents (Elt F))) := rfl
theorem val_main_v141 (V : Valuation τ sig (Elt F)) :
    after ops V (no_index (Proc.devRef .tc main_v141)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v140)) :=
  ops_writesAre.read_unary op_237 V (not_written_from (237 + 1) (by decide)) (not_written_from 237 (by decide))

private theorem op_238 : (ops : List (HloOp τ sig (Elt F)))[238]? = some (StableHlo.binary main_v135 main_v141 main_v142 (mulf : (⟨S10000x512, .f32⟩ : BufTy).Contents (Elt F) → (⟨S10000x512, .f32⟩ : BufTy).Contents (Elt F) → (⟨S10000x512, .f32⟩ : BufTy).Contents (Elt F))) := rfl
theorem val_main_v142 (V : Valuation τ sig (Elt F)) :
    after ops V (no_index (Proc.devRef .tc main_v142)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_v135)) (after ops V (Proc.devRef .tc main_v141)) :=
  ops_writesAre.read_binary op_238 V (not_written_from (238 + 1) (by decide)) (not_written_from 238 (by decide)) (not_written_from 238 (by decide))

private theorem op_239 : (ops : List (HloOp τ sig (Elt F)))[239]? = some (StableHlo.unary main_v128 main_v143 (broadcastInDim S1x512 ![1] bcast_S512_S1x512_1 : (⟨S512, .f32⟩ : BufTy).Contents (Elt F) → (⟨S1x512, .f32⟩ : BufTy).Contents (Elt F))) := rfl
theorem val_main_v143 (V : Valuation τ sig (Elt F)) :
    after ops V (no_index (Proc.devRef .tc main_v143)) = (broadcastInDim S1x512 ![1] bcast_S512_S1x512_1 : (⟨S512, .f32⟩ : BufTy).Contents (Elt F) → (⟨S1x512, .f32⟩ : BufTy).Contents (Elt F)) (after ops V (Proc.devRef .tc main_v128)) :=
  ops_writesAre.read_unary op_239 V (not_written_from (239 + 1) (by decide)) (not_written_from 239 (by decide))

private theorem op_240 : (ops : List (HloOp τ sig (Elt F)))[240]? = some (StableHlo.unary main_v143 main_v144 (broadcastInDim S10000x512 ![0, 1] bcast_S1x512_S10000x512_0_1 : (⟨S1x512, .f32⟩ : BufTy).Contents (Elt F) → (⟨S10000x512, .f32⟩ : BufTy).Contents (Elt F))) := rfl
theorem val_main_v144 (V : Valuation τ sig (Elt F)) :
    after ops V (no_index (Proc.devRef .tc main_v144)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v143)) :=
  ops_writesAre.read_unary op_240 V (not_written_from (240 + 1) (by decide)) (not_written_from 240 (by decide))

private theorem op_241 : (ops : List (HloOp τ sig (Elt F)))[241]? = some (StableHlo.binary main_v142 main_v144 main_v145 (addf : (⟨S10000x512, .f32⟩ : BufTy).Contents (Elt F) → (⟨S10000x512, .f32⟩ : BufTy).Contents (Elt F) → (⟨S10000x512, .f32⟩ : BufTy).Contents (Elt F))) := rfl
theorem val_main_v145 (V : Valuation τ sig (Elt F)) :
    after ops V (no_index (Proc.devRef .tc main_v145)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v142)) (after ops V (Proc.devRef .tc main_v144)) :=
  ops_writesAre.read_binary op_241 V (not_written_from (241 + 1) (by decide)) (not_written_from 241 (by decide)) (not_written_from 241 (by decide))

private theorem op_242 : (ops : List (HloOp τ sig (Elt F)))[242]? = some (StableHlo.nullary main_c_19 (constantI S_ 32 0#32)) := rfl
theorem val_main_c_19 (V : Valuation τ sig (Elt F)) :
    after ops V (no_index (Proc.devRef .tc main_c_19)) = (constantI S_ 32 0#32) :=
  ops_writesAre.read_nullary op_242 V (not_written_from (242 + 1) (by decide))

private theorem op_243 : (ops : List (HloOp τ sig (Elt F)))[243]? = some (StableHlo.unary main_c_19 main_v146 (broadcastInDim S160000 ![] bcast_S_S160000 : (⟨S_, .i32⟩ : BufTy).Contents (Elt F) → (⟨S160000, .i32⟩ : BufTy).Contents (Elt F))) := rfl
theorem val_main_v146 (V : Valuation τ sig (Elt F)) :
    after ops V (no_index (Proc.devRef .tc main_v146)) = (broadcastInDim S160000 ![] bcast_S_S160000 : (⟨S_, .i32⟩ : BufTy).Contents (Elt F) → (⟨S160000, .i32⟩ : BufTy).Contents (Elt F)) (after ops V (Proc.devRef .tc main_c_19)) :=
  ops_writesAre.read_unary op_243 V (not_written_from (243 + 1) (by decide)) (not_written_from 243 (by decide))

private theorem op_244 : (ops : List (HloOp τ sig (Elt F)))[244]? = some (StableHlo.binary main_v1 main_v146 main_v147 (cmpi .slt : (⟨S160000, .i32⟩ : BufTy).Contents (Elt F) → (⟨S160000, .i32⟩ : BufTy).Contents (Elt F) → (⟨S160000, .i1⟩ : BufTy).Contents (Elt F))) := rfl
theorem val_main_v147 (V : Valuation τ sig (Elt F)) :
    after ops V (no_index (Proc.devRef .tc main_v147)) = (cmpi .slt : (⟨S160000, .i32⟩ : BufTy).Contents (Elt F) → (⟨S160000, .i32⟩ : BufTy).Contents (Elt F) → (⟨S160000, .i1⟩ : BufTy).Contents (Elt F)) (after ops V (Proc.devRef .tc main_v1)) (after ops V (Proc.devRef .tc main_v146)) :=
  ops_writesAre.read_binary op_244 V (not_written_from (244 + 1) (by decide)) (not_written_from 244 (by decide)) (not_written_from 244 (by decide))

private theorem op_245 : (ops : List (HloOp τ sig (Elt F)))[245]? = some (StableHlo.nullary main_c_20 (constantI S_ 32 10000#32)) := rfl
theorem val_main_c_20 (V : Valuation τ sig (Elt F)) :
    after ops V (no_index (Proc.devRef .tc main_c_20)) = (constantI S_ 32 10000#32) :=
  ops_writesAre.read_nullary op_245 V (not_written_from (245 + 1) (by decide))

private theorem op_246 : (ops : List (HloOp τ sig (Elt F)))[246]? = some (StableHlo.unary main_c_20 main_v148 (broadcastInDim S160000 ![] bcast_S_S160000 : (⟨S_, .i32⟩ : BufTy).Contents (Elt F) → (⟨S160000, .i32⟩ : BufTy).Contents (Elt F))) := rfl
theorem val_main_v148 (V : Valuation τ sig (Elt F)) :
    after ops V (no_index (Proc.devRef .tc main_v148)) = (broadcastInDim S160000 ![] bcast_S_S160000 : (⟨S_, .i32⟩ : BufTy).Contents (Elt F) → (⟨S160000, .i32⟩ : BufTy).Contents (Elt F)) (after ops V (Proc.devRef .tc main_c_20)) :=
  ops_writesAre.read_unary op_246 V (not_written_from (246 + 1) (by decide)) (not_written_from 246 (by decide))

private theorem op_247 : (ops : List (HloOp τ sig (Elt F)))[247]? = some (StableHlo.binary main_v1 main_v148 main_v149 (addi : (⟨S160000, .i32⟩ : BufTy).Contents (Elt F) → (⟨S160000, .i32⟩ : BufTy).Contents (Elt F) → (⟨S160000, .i32⟩ : BufTy).Contents (Elt F))) := rfl
theorem val_main_v149 (V : Valuation τ sig (Elt F)) :
    after ops V (no_index (Proc.devRef .tc main_v149)) = (addi : (⟨S160000, .i32⟩ : BufTy).Contents (Elt F) → (⟨S160000, .i32⟩ : BufTy).Contents (Elt F) → (⟨S160000, .i32⟩ : BufTy).Contents (Elt F)) (after ops V (Proc.devRef .tc main_v1)) (after ops V (Proc.devRef .tc main_v148)) :=
  ops_writesAre.read_binary op_247 V (not_written_from (247 + 1) (by decide)) (not_written_from 247 (by decide)) (not_written_from 247 (by decide))

private theorem op_248 : (ops : List (HloOp τ sig (Elt F)))[248]? = some (StableHlo.ternary main_v147 main_v149 main_v1 main_v150 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) := rfl
theorem val_main_v150 (V : Valuation τ sig (Elt F)) :
    after ops V (no_index (Proc.devRef .tc main_v150)) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v147)) (after ops V (Proc.devRef .tc main_v149)) (after ops V (Proc.devRef .tc main_v1)) :=
  ops_writesAre.read_ternary op_248 V (not_written_from (248 + 1) (by decide)) (not_written_from 248 (by decide)) (not_written_from 248 (by decide)) (not_written_from 248 (by decide))

private theorem op_249 : (ops : List (HloOp τ sig (Elt F)))[249]? = some (StableHlo.unary main_v150 main_v151 (broadcastInDim S160000x1 ![0] bcast_S160000_S160000x1_0 : (⟨S160000, .i32⟩ : BufTy).Contents (Elt F) → (⟨S160000x1, .i32⟩ : BufTy).Contents (Elt F))) := rfl
theorem val_main_v151 (V : Valuation τ sig (Elt F)) :
    after ops V (no_index (Proc.devRef .tc main_v151)) = (broadcastInDim S160000x1 ![0] bcast_S160000_S160000x1_0 : (⟨S160000, .i32⟩ : BufTy).Contents (Elt F) → (⟨S160000x1, .i32⟩ : BufTy).Contents (Elt F)) (after ops V (Proc.devRef .tc main_v150)) :=
  ops_writesAre.read_unary op_249 V (not_written_from (249 + 1) (by decide)) (not_written_from 249 (by decide))

private theorem op_250 : (ops : List (HloOp τ sig (Elt F)))[250]? = some (StableHlo.binary main_v145 main_v151 main_v152 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F))) := rfl
theorem val_main_v152 (V : Valuation τ sig (Elt F)) :
    after ops V (no_index (Proc.devRef .tc main_v152)) = ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)) (after ops V (Proc.devRef .tc main_v145)) (after ops V (Proc.devRef .tc main_v151)) :=
  ops_writesAre.read_binary op_250 V (not_written_from (250 + 1) (by decide)) (not_written_from 250 (by decide)) (not_written_from 250 (by decide))

private theorem op_251 : (ops : List (HloOp τ sig (Elt F)))[251]? = some (StableHlo.nullary main_cst_21 (constant S_ .f32 0x00000000#32)) := rfl
theorem val_main_cst_21 (V : Valuation τ sig (Elt F)) :
    after ops V (no_index (Proc.devRef .tc main_cst_21)) = (constant S_ .f32 0x00000000#32) :=
  ops_writesAre.read_nullary op_251 V (not_written_from (251 + 1) (by decide))

private theorem op_252 : (ops : List (HloOp τ sig (Elt F)))[252]? = some (StableHlo.unary main_cst_21 main_v153 (broadcastInDim S10000x512 ![] bcast_S_S10000x512 : (⟨S_, .f32⟩ : BufTy).Contents (Elt F) → (⟨S10000x512, .f32⟩ : BufTy).Contents (Elt F))) := rfl
theorem val_main_v153 (V : Valuation τ sig (Elt F)) :
    after ops V (no_index (Proc.devRef .tc main_v153)) = (broadcastInDim S10000x512 ![] bcast_S_S10000x512 : (⟨S_, .f32⟩ : BufTy).Contents (Elt F) → (⟨S10000x512, .f32⟩ : BufTy).Contents (Elt F)) (after ops V (Proc.devRef .tc main_cst_21)) :=
  ops_writesAre.read_unary op_252 V (not_written_from (252 + 1) (by decide)) (not_written_from 252 (by decide))

private theorem op_253 : (ops : List (HloOp τ sig (Elt F)))[253]? = some (StableHlo.unary main_v3 main_v154 (broadcastInDim S160000x1 ![0] bcast_S160000_S160000x1_0 : (⟨S160000, .i32⟩ : BufTy).Contents (Elt F) → (⟨S160000x1, .i32⟩ : BufTy).Contents (Elt F))) := rfl
theorem val_main_v154 (V : Valuation τ sig (Elt F)) :
    after ops V (no_index (Proc.devRef .tc main_v154)) = (broadcastInDim S160000x1 ![0] bcast_S160000_S160000x1_0 : (⟨S160000, .i32⟩ : BufTy).Contents (Elt F) → (⟨S160000x1, .i32⟩ : BufTy).Contents (Elt F)) (after ops V (Proc.devRef .tc main_v3)) :=
  ops_writesAre.read_unary op_253 V (not_written_from (253 + 1) (by decide)) (not_written_from 253 (by decide))

private theorem op_254 : (ops : List (HloOp τ sig (Elt F)))[254]? = some (StableHlo.ternary main_v153 main_v154 main_v152 main_v155 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F))) := rfl
theorem val_main_v155 (V : Valuation τ sig (Elt F)) :
    after ops V (no_index (Proc.devRef .tc main_v155)) = ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)) (after ops V (Proc.devRef .tc main_v153)) (after ops V (Proc.devRef .tc main_v154)) (after ops V (Proc.devRef .tc main_v152)) :=
  ops_writesAre.read_ternary op_254 V (not_written_from (254 + 1) (by decide)) (not_written_from 254 (by decide)) (not_written_from 254 (by decide)) (not_written_from 254 (by decide))

end Cert.ReferenceIdeal.RefRun

end
-- ==== Proof.RI.Val3.lean ====
/-
  What each buffer written by operations 256 … 340 of the reference program holds at the end of the run, as ONE
  operation applied to the final contents of its operand buffers. Every buffer is written once and read only
  after it is written: the operation at position j is read off the list (by computation; an operation of an
  unfolded call is stated over the buffers themselves, the typed references' transports being the identity there),
  its result buffer has number 17 + j, below every buffer written after it, and its operand buffers have smaller numbers still.
-/
import proofs.«100381_j2018634629568_1_alg».proof.Proof.RI.Order

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

private theorem op_255 : (ops : List (HloOp τ sig (Elt F)))[255]? = some (StableHlo.binary main_v145 main_v155 main_v156 (addf : (⟨S10000x512, .f32⟩ : BufTy).Contents (Elt F) → (⟨S10000x512, .f32⟩ : BufTy).Contents (Elt F) → (⟨S10000x512, .f32⟩ : BufTy).Contents (Elt F))) := rfl
theorem val_main_v156 (V : Valuation τ sig (Elt F)) :
    after ops V (no_index (Proc.devRef .tc main_v156)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v145)) (after ops V (Proc.devRef .tc main_v155)) :=
  ops_writesAre.read_binary op_255 V (not_written_from (255 + 1) (by decide)) (not_written_from 255 (by decide)) (not_written_from 255 (by decide))

private theorem op_256 : (ops : List (HloOp τ sig (Elt F)))[256]? = some (StableHlo.unary main_arg7 main_v157 ((extractStridedSlice S1x512x512 ![2, 0, 0] · slices_S4x512x512_S1x512x512_2_0_0) : (⟨S4x512x512, .f32⟩ : BufTy).Contents (Elt F) → (⟨S1x512x512, .f32⟩ : BufTy).Contents (Elt F))) := rfl
theorem val_main_v157 (V : Valuation τ sig (Elt F)) :
    after ops V (no_index (Proc.devRef .tc main_v157)) = ((extractStridedSlice S1x512x512 ![2, 0, 0] · slices_S4x512x512_S1x512x512_2_0_0) : (⟨S4x512x512, .f32⟩ : BufTy).Contents (Elt F) → (⟨S1x512x512, .f32⟩ : BufTy).Contents (Elt F)) (after ops V (Proc.devRef .tc main_arg7)) :=
  ops_writesAre.read_unary op_256 V (not_written_from (256 + 1) (by decide)) (not_written_from 256 (by decide))

private theorem op_257 : (ops : List (HloOp τ sig (Elt F)))[257]? = some (StableHlo.reshape main_v157 main_v158 rfl shapeCasts_S1x512x512_S512x512) := rfl
theorem val_main_v158 (V : Valuation τ sig (Elt F)) :
    after ops V (no_index (Proc.devRef .tc main_v158)) = shapeCast S512x512 (after ops V (Proc.devRef .tc main_v157)) shapeCasts_S1x512x512_S512x512 :=
  ops_writesAre.read_reshape op_257 V (not_written_from (257 + 1) (by decide)) (not_written_from 257 (by decide))

private theorem op_258 : (ops : List (HloOp τ sig (Elt F)))[258]? = some (StableHlo.unary main_arg8 main_v159 ((extractStridedSlice S1x512 ![2, 0] · slices_S4x512_S1x512_2_0) : (⟨S4x512, .f32⟩ : BufTy).Contents (Elt F) → (⟨S1x512, .f32⟩ : BufTy).Contents (Elt F))) := rfl
theorem val_main_v159 (V : Valuation τ sig (Elt F)) :
    after ops V (no_index (Proc.devRef .tc main_v159)) = ((extractStridedSlice S1x512 ![2, 0] · slices_S4x512_S1x512_2_0) : (⟨S4x512, .f32⟩ : BufTy).Contents (Elt F) → (⟨S1x512, .f32⟩ : BufTy).Contents (Elt F)) (after ops V (Proc.devRef .tc main_arg8)) :=
  ops_writesAre.read_unary op_258 V (not_written_from (258 + 1) (by decide)) (not_written_from 258 (by decide))

private theorem op_259 : (ops : List (HloOp τ sig (Elt F)))[259]? = some (StableHlo.reshape main_v159 main_v160 rfl shapeCasts_S1x512_S512) := rfl
theorem val_main_v160 (V : Valuation τ sig (Elt F)) :
    after ops V (no_index (Proc.devRef .tc main_v160)) = shapeCast S512 (after ops V (Proc.devRef .tc main_v159)) shapeCasts_S1x512_S512 :=
  ops_writesAre.read_reshape op_259 V (not_written_from (259 + 1) (by decide)) (not_written_from 259 (by decide))

private theorem op_260 : (ops : List (HloOp τ sig (Elt F)))[260]? = some (StableHlo.unary main_arg9 main_v161 ((extractStridedSlice S1x512x512 ![2, 0, 0] · slices_S4x512x512_S1x512x512_2_0_0) : (⟨S4x512x512, .f32⟩ : BufTy).Contents (Elt F) → (⟨S1x512x512, .f32⟩ : BufTy).Contents (Elt F))) := rfl
theorem val_main_v161 (V : Valuation τ sig (Elt F)) :
    after ops V (no_index (Proc.devRef .tc main_v161)) = ((extractStridedSlice S1x512x512 ![2, 0, 0] · slices_S4x512x512_S1x512x512_2_0_0) : (⟨S4x512x512, .f32⟩ : BufTy).Contents (Elt F) → (⟨S1x512x512, .f32⟩ : BufTy).Contents (Elt F)) (after ops V (Proc.devRef .tc main_arg9)) :=
  ops_writesAre.read_unary op_260 V (not_written_from (260 + 1) (by decide)) (not_written_from 260 (by decide))

private theorem op_261 : (ops : List (HloOp τ sig (Elt F)))[261]? = some (StableHlo.reshape main_v161 main_v162 rfl shapeCasts_S1x512x512_S512x512) := rfl
theorem val_main_v162 (V : Valuation τ sig (Elt F)) :
    after ops V (no_index (Proc.devRef .tc main_v162)) = shapeCast S512x512 (after ops V (Proc.devRef .tc main_v161)) shapeCasts_S1x512x512_S512x512 :=
  ops_writesAre.read_reshape op_261 V (not_written_from (261 + 1) (by decide)) (not_written_from 261 (by decide))

private theorem op_262 : (ops : List (HloOp τ sig (Elt F)))[262]? = some (StableHlo.unary main_arg10 main_v163 ((extractStridedSlice S1x512 ![2, 0] · slices_S4x512_S1x512_2_0) : (⟨S4x512, .f32⟩ : BufTy).Contents (Elt F) → (⟨S1x512, .f32⟩ : BufTy).Contents (Elt F))) := rfl
theorem val_main_v163 (V : Valuation τ sig (Elt F)) :
    after ops V (no_index (Proc.devRef .tc main_v163)) = ((extractStridedSlice S1x512 ![2, 0] · slices_S4x512_S1x512_2_0) : (⟨S4x512, .f32⟩ : BufTy).Contents (Elt F) → (⟨S1x512, .f32⟩ : BufTy).Contents (Elt F)) (after ops V (Proc.devRef .tc main_arg10)) :=
  ops_writesAre.read_unary op_262 V (not_written_from (262 + 1) (by decide)) (not_written_from 262 (by decide))

private theorem op_263 : (ops : List (HloOp τ sig (Elt F)))[263]? = some (StableHlo.reshape main_v163 main_v164 rfl shapeCasts_S1x512_S512) := rfl
theorem val_main_v164 (V : Valuation τ sig (Elt F)) :
    after ops V (no_index (Proc.devRef .tc main_v164)) = shapeCast S512 (after ops V (Proc.devRef .tc main_v163)) shapeCasts_S1x512_S512 :=
  ops_writesAre.read_reshape op_263 V (not_written_from (263 + 1) (by decide)) (not_written_from 263 (by decide))

private theorem op_264 : (ops : List (HloOp τ sig (Elt F)))[264]? = some (StableHlo.binary main_v156 main_v158 main_v165 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))) := rfl
theorem val_main_v165 (V : Valuation τ sig (Elt F)) :
    after ops V (no_index (Proc.devRef .tc main_v165)) = ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) (after ops V (Proc.devRef .tc main_v156)) (after ops V (Proc.devRef .tc main_v158)) :=
  ops_writesAre.read_binary op_264 V (not_written_from (264 + 1) (by decide)) (not_written_from 264 (by decide)) (not_written_from 264 (by decide))

private theorem op_265 : (ops : List (HloOp τ sig (Elt F)))[265]? = some (StableHlo.unary main_v160 main_v166 (broadcastInDim S1x512 ![1] bcast_S512_S1x512_1 : (⟨S512, .f32⟩ : BufTy).Contents (Elt F) → (⟨S1x512, .f32⟩ : BufTy).Contents (Elt F))) := rfl
theorem val_main_v166 (V : Valuation τ sig (Elt F)) :
    after ops V (no_index (Proc.devRef .tc main_v166)) = (broadcastInDim S1x512 ![1] bcast_S512_S1x512_1 : (⟨S512, .f32⟩ : BufTy).Contents (Elt F) → (⟨S1x512, .f32⟩ : BufTy).Contents (Elt F)) (after ops V (Proc.devRef .tc main_v160)) :=
  ops_writesAre.read_unary op_265 V (not_written_from (265 + 1) (by decide)) (not_written_from 265 (by decide))

private theorem op_266 : (ops : List (HloOp τ sig (Elt F)))[266]? = some (StableHlo.unary main_v166 main_v167 (broadcastInDim S10000x512 ![0, 1] bcast_S1x512_S10000x512_0_1 : (⟨S1x512, .f32⟩ : BufTy).Contents (Elt F) → (⟨S10000x512, .f32⟩ : BufTy).Contents (Elt F))) := rfl
theorem val_main_v167 (V : Valuation τ sig (Elt F)) :
    after ops V (no_index (Proc.devRef .tc main_v167)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v166)) :=
  ops_writesAre.read_unary op_266 V (not_written_from (266 + 1) (by decide)) (not_written_from 266 (by decide))

private theorem op_267 : (ops : List (HloOp τ sig (Elt F)))[267]? = some (StableHlo.binary main_v165 main_v167 main_v168 (addf : (⟨S10000x512, .f32⟩ : BufTy).Contents (Elt F) → (⟨S10000x512, .f32⟩ : BufTy).Contents (Elt F) → (⟨S10000x512, .f32⟩ : BufTy).Contents (Elt F))) := rfl
theorem val_main_v168 (V : Valuation τ sig (Elt F)) :
    after ops V (no_index (Proc.devRef .tc main_v168)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v165)) (after ops V (Proc.devRef .tc main_v167)) :=
  ops_writesAre.read_binary op_267 V (not_written_from (267 + 1) (by decide)) (not_written_from 267 (by decide)) (not_written_from 267 (by decide))

private theorem op_268 : (ops : List (HloOp τ sig (Elt F)))[268]? = some (StableHlo.nullary main_call9_cst ((constant S_ .f32 0x00000000#32) : (⟨S_, .f32⟩ : BufTy).Contents (Elt F))) := rfl
theorem val_main_call9_cst (V : Valuation τ sig (Elt F)) :
    after ops V (no_index (Proc.devRef .tc main_call9_cst)) = ((constant S_ .f32 0x00000000#32) : (⟨S_, .f32⟩ : BufTy).Contents (Elt F)) :=
  ops_writesAre.read_nullary op_268 V (not_written_from (268 + 1) (by decide))

private theorem op_269 : (ops : List (HloOp τ sig (Elt F)))[269]? = some (StableHlo.unary main_call9_cst main_call9_v0 ((broadcastInDim S10000x512 ![] bcast_S_S10000x512) : (⟨S_, .f32⟩ : BufTy).Contents (Elt F) → (⟨S10000x512, .f32⟩ : BufTy).Contents (Elt F))) := rfl
theorem val_main_call9_v0 (V : Valuation τ sig (Elt F)) :
    after ops V (no_index (Proc.devRef .tc main_call9_v0)) = ((broadcastInDim S10000x512 ![] bcast_S_S10000x512) : (⟨S_, .f32⟩ : BufTy).Contents (Elt F) → (⟨S10000x512, .f32⟩ : BufTy).Contents (Elt F)) (after ops V (Proc.devRef .tc main_call9_cst)) :=
  ops_writesAre.read_unary op_269 V (not_written_from (269 + 1) (by decide)) (not_written_from 269 (by decide))

private theorem op_270 : (ops : List (HloOp τ sig (Elt F)))[270]? = some (StableHlo.binary main_v168 main_call9_v0 main_v169 (maximumf : (⟨S10000x512, .f32⟩ : BufTy).Contents (Elt F) → (⟨S10000x512, .f32⟩ : BufTy).Contents (Elt F) → (⟨S10000x512, .f32⟩ : BufTy).Contents (Elt F))) := rfl
theorem val_main_v169 (V : Valuation τ sig (Elt F)) :
    after ops V (no_index (Proc.devRef .tc main_v169)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v168)) (after ops V (Proc.devRef .tc main_call9_v0)) :=
  ops_writesAre.read_binary op_270 V (not_written_from (270 + 1) (by decide)) (not_written_from 270 (by decide)) (not_written_from 270 (by decide))

private theorem op_271 : (ops : List (HloOp τ sig (Elt F)))[271]? = some (StableHlo.binary main_v169 main_v162 main_v170 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))) := rfl
theorem val_main_v170 (V : Valuation τ sig (Elt F)) :
    after ops V (no_index (Proc.devRef .tc main_v170)) = ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) (after ops V (Proc.devRef .tc main_v169)) (after ops V (Proc.devRef .tc main_v162)) :=
  ops_writesAre.read_binary op_271 V (not_written_from (271 + 1) (by decide)) (not_written_from 271 (by decide)) (not_written_from 271 (by decide))

private theorem op_272 : (ops : List (HloOp τ sig (Elt F)))[272]? = some (StableHlo.unary main_v164 main_v171 (broadcastInDim S1x512 ![1] bcast_S512_S1x512_1 : (⟨S512, .f32⟩ : BufTy).Contents (Elt F) → (⟨S1x512, .f32⟩ : BufTy).Contents (Elt F))) := rfl
theorem val_main_v171 (V : Valuation τ sig (Elt F)) :
    after ops V (no_index (Proc.devRef .tc main_v171)) = (broadcastInDim S1x512 ![1] bcast_S512_S1x512_1 : (⟨S512, .f32⟩ : BufTy).Contents (Elt F) → (⟨S1x512, .f32⟩ : BufTy).Contents (Elt F)) (after ops V (Proc.devRef .tc main_v164)) :=
  ops_writesAre.read_unary op_272 V (not_written_from (272 + 1) (by decide)) (not_written_from 272 (by decide))

private theorem op_273 : (ops : List (HloOp τ sig (Elt F)))[273]? = some (StableHlo.unary main_v171 main_v172 (broadcastInDim S10000x512 ![0, 1] bcast_S1x512_S10000x512_0_1 : (⟨S1x512, .f32⟩ : BufTy).Contents (Elt F) → (⟨S10000x512, .f32⟩ : BufTy).Contents (Elt F))) := rfl
theorem val_main_v172 (V : Valuation τ sig (Elt F)) :
    after ops V (no_index (Proc.devRef .tc main_v172)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v171)) :=
  ops_writesAre.read_unary op_273 V (not_written_from (273 + 1) (by decide)) (not_written_from 273 (by decide))

private theorem op_274 : (ops : List (HloOp τ sig (Elt F)))[274]? = some (StableHlo.binary main_v170 main_v172 main_v173 (addf : (⟨S10000x512, .f32⟩ : BufTy).Contents (Elt F) → (⟨S10000x512, .f32⟩ : BufTy).Contents (Elt F) → (⟨S10000x512, .f32⟩ : BufTy).Contents (Elt F))) := rfl
theorem val_main_v173 (V : Valuation τ sig (Elt F)) :
    after ops V (no_index (Proc.devRef .tc main_v173)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v170)) (after ops V (Proc.devRef .tc main_v172)) :=
  ops_writesAre.read_binary op_274 V (not_written_from (274 + 1) (by decide)) (not_written_from 274 (by decide)) (not_written_from 274 (by decide))

private theorem op_275 : (ops : List (HloOp τ sig (Elt F)))[275]? = some (StableHlo.nullary main_call10_cst ((constant S_ .f32 0x00000000#32) : (⟨S_, .f32⟩ : BufTy).Contents (Elt F))) := rfl
theorem val_main_call10_cst (V : Valuation τ sig (Elt F)) :
    after ops V (no_index (Proc.devRef .tc main_call10_cst)) = ((constant S_ .f32 0x00000000#32) : (⟨S_, .f32⟩ : BufTy).Contents (Elt F)) :=
  ops_writesAre.read_nullary op_275 V (not_written_from (275 + 1) (by decide))

private theorem op_276 : (ops : List (HloOp τ sig (Elt F)))[276]? = some (StableHlo.unary main_call10_cst main_call10_v0 ((broadcastInDim S10000x512 ![] bcast_S_S10000x512) : (⟨S_, .f32⟩ : BufTy).Contents (Elt F) → (⟨S10000x512, .f32⟩ : BufTy).Contents (Elt F))) := rfl
theorem val_main_call10_v0 (V : Valuation τ sig (Elt F)) :
    after ops V (no_index (Proc.devRef .tc main_call10_v0)) = ((broadcastInDim S10000x512 ![] bcast_S_S10000x512) : (⟨S_, .f32⟩ : BufTy).Contents (Elt F) → (⟨S10000x512, .f32⟩ : BufTy).Contents (Elt F)) (after ops V (Proc.devRef .tc main_call10_cst)) :=
  ops_writesAre.read_unary op_276 V (not_written_from (276 + 1) (by decide)) (not_written_from 276 (by decide))

private theorem op_277 : (ops : List (HloOp τ sig (Elt F)))[277]? = some (StableHlo.binary main_v173 main_call10_v0 main_v174 (maximumf : (⟨S10000x512, .f32⟩ : BufTy).Contents (Elt F) → (⟨S10000x512, .f32⟩ : BufTy).Contents (Elt F) → (⟨S10000x512, .f32⟩ : BufTy).Contents (Elt F))) := rfl
theorem val_main_v174 (V : Valuation τ sig (Elt F)) :
    after ops V (no_index (Proc.devRef .tc main_v174)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v173)) (after ops V (Proc.devRef .tc main_call10_v0)) :=
  ops_writesAre.read_binary op_277 V (not_written_from (277 + 1) (by decide)) (not_written_from 277 (by decide)) (not_written_from 277 (by decide))

private theorem op_278 : (ops : List (HloOp τ sig (Elt F)))[278]? = some (StableHlo.unary main_arg11 main_v175 ((extractStridedSlice S1x512 ![3, 0] · slices_S5x512_S1x512_3_0) : (⟨S5x512, .f32⟩ : BufTy).Contents (Elt F) → (⟨S1x512, .f32⟩ : BufTy).Contents (Elt F))) := rfl
theorem val_main_v175 (V : Valuation τ sig (Elt F)) :
    after ops V (no_index (Proc.devRef .tc main_v175)) = ((extractStridedSlice S1x512 ![3, 0] · slices_S5x512_S1x512_3_0) : (⟨S5x512, .f32⟩ : BufTy).Contents (Elt F) → (⟨S1x512, .f32⟩ : BufTy).Contents (Elt F)) (after ops V (Proc.devRef .tc main_arg11)) :=
  ops_writesAre.read_unary op_278 V (not_written_from (278 + 1) (by decide)) (not_written_from 278 (by decide))

private theorem op_279 : (ops : List (HloOp τ sig (Elt F)))[279]? = some (StableHlo.reshape main_v175 main_v176 rfl shapeCasts_S1x512_S512) := rfl
theorem val_main_v176 (V : Valuation τ sig (Elt F)) :
    after ops V (no_index (Proc.devRef .tc main_v176)) = shapeCast S512 (after ops V (Proc.devRef .tc main_v175)) shapeCasts_S1x512_S512 :=
  ops_writesAre.read_reshape op_279 V (not_written_from (279 + 1) (by decide)) (not_written_from 279 (by decide))

private theorem op_280 : (ops : List (HloOp τ sig (Elt F)))[280]? = some (StableHlo.unary main_arg12 main_v177 ((extractStridedSlice S1x512 ![3, 0] · slices_S5x512_S1x512_3_0) : (⟨S5x512, .f32⟩ : BufTy).Contents (Elt F) → (⟨S1x512, .f32⟩ : BufTy).Contents (Elt F))) := rfl
theorem val_main_v177 (V : Valuation τ sig (Elt F)) :
    after ops V (no_index (Proc.devRef .tc main_v177)) = ((extractStridedSlice S1x512 ![3, 0] · slices_S5x512_S1x512_3_0) : (⟨S5x512, .f32⟩ : BufTy).Contents (Elt F) → (⟨S1x512, .f32⟩ : BufTy).Contents (Elt F)) (after ops V (Proc.devRef .tc main_arg12)) :=
  ops_writesAre.read_unary op_280 V (not_written_from (280 + 1) (by decide)) (not_written_from 280 (by decide))

private theorem op_281 : (ops : List (HloOp τ sig (Elt F)))[281]? = some (StableHlo.reshape main_v177 main_v178 rfl shapeCasts_S1x512_S512) := rfl
theorem val_main_v178 (V : Valuation τ sig (Elt F)) :
    after ops V (no_index (Proc.devRef .tc main_v178)) = shapeCast S512 (after ops V (Proc.devRef .tc main_v177)) shapeCasts_S1x512_S512 :=
  ops_writesAre.read_reshape op_281 V (not_written_from (281 + 1) (by decide)) (not_written_from 281 (by decide))

private theorem op_282 : (ops : List (HloOp τ sig (Elt F)))[282]? = some (StableHlo.nullary main_cst_22 (constant S_ .f32 0x00000000#32)) := rfl
theorem val_main_cst_22 (V : Valuation τ sig (Elt F)) :
    after ops V (no_index (Proc.devRef .tc main_cst_22)) = (constant S_ .f32 0x00000000#32) :=
  ops_writesAre.read_nullary op_282 V (not_written_from (282 + 1) (by decide))

private theorem op_283 : (ops : List (HloOp τ sig (Elt F)))[283]? = some (StableHlo.binary main_v174 main_cst_22 main_v179 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_v179 (V : Valuation τ sig (Elt F)) :
    after ops V (no_index (Proc.devRef .tc main_v179)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v174)) (after ops V (Proc.devRef .tc main_cst_22)) :=
  ops_writesAre.read_binary op_283 V (not_written_from (283 + 1) (by decide)) (not_written_from 283 (by decide)) (not_written_from 283 (by decide))

private theorem op_284 : (ops : List (HloOp τ sig (Elt F)))[284]? = some (StableHlo.nullary main_cst_23 (constant S_ .f32 0x461C4000#32)) := rfl
theorem val_main_cst_23 (V : Valuation τ sig (Elt F)) :
    after ops V (no_index (Proc.devRef .tc main_cst_23)) = (constant S_ .f32 0x461C4000#32) :=
  ops_writesAre.read_nullary op_284 V (not_written_from (284 + 1) (by decide))

private theorem op_285 : (ops : List (HloOp τ sig (Elt F)))[285]? = some (StableHlo.unary main_cst_23 main_v180 (broadcastInDim S512 ![] bcast_S_S512 : (⟨S_, .f32⟩ : BufTy).Contents (Elt F) → (⟨S512, .f32⟩ : BufTy).Contents (Elt F))) := rfl
theorem val_main_v180 (V : Valuation τ sig (Elt F)) :
    after ops V (no_index (Proc.devRef .tc main_v180)) = (broadcastInDim S512 ![] bcast_S_S512 : (⟨S_, .f32⟩ : BufTy).Contents (Elt F) → (⟨S512, .f32⟩ : BufTy).Contents (Elt F)) (after ops V (Proc.devRef .tc main_cst_23)) :=
  ops_writesAre.read_unary op_285 V (not_written_from (285 + 1) (by decide)) (not_written_from 285 (by decide))

private theorem op_286 : (ops : List (HloOp τ sig (Elt F)))[286]? = some (StableHlo.binary main_v179 main_v180 main_v181 (Host.divf : (⟨S512, .f32⟩ : BufTy).Contents (Elt F) → (⟨S512, .f32⟩ : BufTy).Contents (Elt F) → (⟨S512, .f32⟩ : BufTy).Contents (Elt F))) := rfl
theorem val_main_v181 (V : Valuation τ sig (Elt F)) :
    after ops V (no_index (Proc.devRef .tc main_v181)) = (Host.divf : (⟨S512, .f32⟩ : BufTy).Contents (Elt F) → (⟨S512, .f32⟩ : BufTy).Contents (Elt F) → (⟨S512, .f32⟩ : BufTy).Contents (Elt F)) (after ops V (Proc.devRef .tc main_v179)) (after ops V (Proc.devRef .tc main_v180)) :=
  ops_writesAre.read_binary op_286 V (not_written_from (286 + 1) (by decide)) (not_written_from 286 (by decide)) (not_written_from 286 (by decide))

private theorem op_287 : (ops : List (HloOp τ sig (Elt F)))[287]? = some (StableHlo.nullary main_c_24 (constantI S_ 32 0#32)) := rfl
theorem val_main_c_24 (V : Valuation τ sig (Elt F)) :
    after ops V (no_index (Proc.devRef .tc main_c_24)) = (constantI S_ 32 0#32) :=
  ops_writesAre.read_nullary op_287 V (not_written_from (287 + 1) (by decide))

private theorem op_288 : (ops : List (HloOp τ sig (Elt F)))[288]? = some (StableHlo.nullary main_call11_cst ((constant S_ .f32 0x00000000#32) : (⟨S_, .f32⟩ : BufTy).Contents (Elt F))) := rfl
theorem val_main_call11_cst (V : Valuation τ sig (Elt F)) :
    after ops V (no_index (Proc.devRef .tc main_call11_cst)) = ((constant S_ .f32 0x00000000#32) : (⟨S_, .f32⟩ : BufTy).Contents (Elt F)) :=
  ops_writesAre.read_nullary op_288 V (not_written_from (288 + 1) (by decide))

private theorem op_289 : (ops : List (HloOp τ sig (Elt F)))[289]? = some (StableHlo.binary main_v174 main_call11_cst main_call11_v0 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call11_v0 (V : Valuation τ sig (Elt F)) :
    after ops V (no_index (Proc.devRef .tc main_call11_v0)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v174)) (after ops V (Proc.devRef .tc main_call11_cst)) :=
  ops_writesAre.read_binary op_289 V (not_written_from (289 + 1) (by decide)) (not_written_from 289 (by decide)) (not_written_from 289 (by decide))

private theorem op_290 : (ops : List (HloOp τ sig (Elt F)))[290]? = some (StableHlo.unary main_call11_v0 main_call11_v1 ((broadcastInDim S1x512 ![1] bcast_S512_S1x512_1) : (⟨S512, .f32⟩ : BufTy).Contents (Elt F) → (⟨S1x512, .f32⟩ : BufTy).Contents (Elt F))) := rfl
theorem val_main_call11_v1 (V : Valuation τ sig (Elt F)) :
    after ops V (no_index (Proc.devRef .tc main_call11_v1)) = ((broadcastInDim S1x512 ![1] bcast_S512_S1x512_1) : (⟨S512, .f32⟩ : BufTy).Contents (Elt F) → (⟨S1x512, .f32⟩ : BufTy).Contents (Elt F)) (after ops V (Proc.devRef .tc main_call11_v0)) :=
  ops_writesAre.read_unary op_290 V (not_written_from (290 + 1) (by decide)) (not_written_from 290 (by decide))

private theorem op_291 : (ops : List (HloOp τ sig (Elt F)))[291]? = some (StableHlo.nullary main_call11_cst_0 ((constant S_ .f32 0x461C4000#32) : (⟨S_, .f32⟩ : BufTy).Contents (Elt F))) := rfl
theorem val_main_call11_cst_0 (V : Valuation τ sig (Elt F)) :
    after ops V (no_index (Proc.devRef .tc main_call11_cst_0)) = ((constant S_ .f32 0x461C4000#32) : (⟨S_, .f32⟩ : BufTy).Contents (Elt F)) :=
  ops_writesAre.read_nullary op_291 V (not_written_from (291 + 1) (by decide))

private theorem op_292 : (ops : List (HloOp τ sig (Elt F)))[292]? = some (StableHlo.unary main_call11_cst_0 main_call11_v2 ((broadcastInDim S1x512 ![] bcast_S_S1x512) : (⟨S_, .f32⟩ : BufTy).Contents (Elt F) → (⟨S1x512, .f32⟩ : BufTy).Contents (Elt F))) := rfl
theorem val_main_call11_v2 (V : Valuation τ sig (Elt F)) :
    after ops V (no_index (Proc.devRef .tc main_call11_v2)) = ((broadcastInDim S1x512 ![] bcast_S_S1x512) : (⟨S_, .f32⟩ : BufTy).Contents (Elt F) → (⟨S1x512, .f32⟩ : BufTy).Contents (Elt F)) (after ops V (Proc.devRef .tc main_call11_cst_0)) :=
  ops_writesAre.read_unary op_292 V (not_written_from (292 + 1) (by decide)) (not_written_from 292 (by decide))

private theorem op_293 : (ops : List (HloOp τ sig (Elt F)))[293]? = some (StableHlo.binary main_call11_v1 main_call11_v2 main_call11_v3 (Host.divf : (⟨S1x512, .f32⟩ : BufTy).Contents (Elt F) → (⟨S1x512, .f32⟩ : BufTy).Contents (Elt F) → (⟨S1x512, .f32⟩ : BufTy).Contents (Elt F))) := rfl
theorem val_main_call11_v3 (V : Valuation τ sig (Elt F)) :
    after ops V (no_index (Proc.devRef .tc main_call11_v3)) = (Host.divf : (⟨S1x512, .f32⟩ : BufTy).Contents (Elt F) → (⟨S1x512, .f32⟩ : BufTy).Contents (Elt F) → (⟨S1x512, .f32⟩ : BufTy).Contents (Elt F)) (after ops V (Proc.devRef .tc main_call11_v1)) (after ops V (Proc.devRef .tc main_call11_v2)) :=
  ops_writesAre.read_binary op_293 V (not_written_from (293 + 1) (by decide)) (not_written_from 293 (by decide)) (not_written_from 293 (by decide))

private theorem op_294 : (ops : List (HloOp τ sig (Elt F)))[294]? = some (StableHlo.unary main_call11_v3 main_call11_v4 ((broadcastInDim S10000x512 ![0, 1] bcast_S1x512_S10000x512_0_1) : (⟨S1x512, .f32⟩ : BufTy).Contents (Elt F) → (⟨S10000x512, .f32⟩ : BufTy).Contents (Elt F))) := rfl
theorem val_main_call11_v4 (V : Valuation τ sig (Elt F)) :
    after ops V (no_index (Proc.devRef .tc main_call11_v4)) = ((broadcastInDim S10000x512 ![0, 1] bcast_S1x512_S10000x512_0_1) : (⟨S1x512, .f32⟩ : BufTy).Contents (Elt F) → (⟨S10000x512, .f32⟩ : BufTy).Contents (Elt F)) (after ops V (Proc.devRef .tc main_call11_v3)) :=
  ops_writesAre.read_unary op_294 V (not_written_from (294 + 1) (by decide)) (not_written_from 294 (by decide))

private theorem op_295 : (ops : List (HloOp τ sig (Elt F)))[295]? = some (StableHlo.binary main_v174 main_call11_v4 main_call11_v5 (subf : (⟨S10000x512, .f32⟩ : BufTy).Contents (Elt F) → (⟨S10000x512, .f32⟩ : BufTy).Contents (Elt F) → (⟨S10000x512, .f32⟩ : BufTy).Contents (Elt F))) := rfl
theorem val_main_call11_v5 (V : Valuation τ sig (Elt F)) :
    after ops V (no_index (Proc.devRef .tc main_call11_v5)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v174)) (after ops V (Proc.devRef .tc main_call11_v4)) :=
  ops_writesAre.read_binary op_295 V (not_written_from (295 + 1) (by decide)) (not_written_from 295 (by decide)) (not_written_from 295 (by decide))

private theorem op_296 : (ops : List (HloOp τ sig (Elt F)))[296]? = some (StableHlo.binary main_call11_v5 main_call11_v5 main_call11_v6 (mulf : (⟨S10000x512, .f32⟩ : BufTy).Contents (Elt F) → (⟨S10000x512, .f32⟩ : BufTy).Contents (Elt F) → (⟨S10000x512, .f32⟩ : BufTy).Contents (Elt F))) := rfl
theorem val_main_call11_v6 (V : Valuation τ sig (Elt F)) :
    after ops V (no_index (Proc.devRef .tc main_call11_v6)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_call11_v5)) (after ops V (Proc.devRef .tc main_call11_v5)) :=
  ops_writesAre.read_binary op_296 V (not_written_from (296 + 1) (by decide)) (not_written_from 296 (by decide)) (not_written_from 296 (by decide))

private theorem op_297 : (ops : List (HloOp τ sig (Elt F)))[297]? = some (StableHlo.unary main_c_24 main_call11_v7 ((sitofp .f32) : (⟨S_, .i32⟩ : BufTy).Contents (Elt F) → (⟨S_, .f32⟩ : BufTy).Contents (Elt F))) := rfl
theorem val_main_call11_v7 (V : Valuation τ sig (Elt F)) :
    after ops V (no_index (Proc.devRef .tc main_call11_v7)) = ((sitofp .f32) : (⟨S_, .i32⟩ : BufTy).Contents (Elt F) → (⟨S_, .f32⟩ : BufTy).Contents (Elt F)) (after ops V (Proc.devRef .tc main_c_24)) :=
  ops_writesAre.read_unary op_297 V (not_written_from (297 + 1) (by decide)) (not_written_from 297 (by decide))

private theorem op_298 : (ops : List (HloOp τ sig (Elt F)))[298]? = some (StableHlo.nullary main_call11_cst_1 ((constant S_ .f32 0x461C4000#32) : (⟨S_, .f32⟩ : BufTy).Contents (Elt F))) := rfl
theorem val_main_call11_cst_1 (V : Valuation τ sig (Elt F)) :
    after ops V (no_index (Proc.devRef .tc main_call11_cst_1)) = ((constant S_ .f32 0x461C4000#32) : (⟨S_, .f32⟩ : BufTy).Contents (Elt F)) :=
  ops_writesAre.read_nullary op_298 V (not_written_from (298 + 1) (by decide))

private theorem op_299 : (ops : List (HloOp τ sig (Elt F)))[299]? = some (StableHlo.binary main_call11_cst_1 main_call11_v7 main_call11_v8 (subf : (⟨S_, .f32⟩ : BufTy).Contents (Elt F) → (⟨S_, .f32⟩ : BufTy).Contents (Elt F) → (⟨S_, .f32⟩ : BufTy).Contents (Elt F))) := rfl
theorem val_main_call11_v8 (V : Valuation τ sig (Elt F)) :
    after ops V (no_index (Proc.devRef .tc main_call11_v8)) = (subf : (⟨S_, .f32⟩ : BufTy).Contents (Elt F) → (⟨S_, .f32⟩ : BufTy).Contents (Elt F) → (⟨S_, .f32⟩ : BufTy).Contents (Elt F)) (after ops V (Proc.devRef .tc main_call11_cst_1)) (after ops V (Proc.devRef .tc main_call11_v7)) :=
  ops_writesAre.read_binary op_299 V (not_written_from (299 + 1) (by decide)) (not_written_from 299 (by decide)) (not_written_from 299 (by decide))

private theorem op_300 : (ops : List (HloOp τ sig (Elt F)))[300]? = some (StableHlo.nullary main_call11_cst_2 ((constant S_ .f32 0x00000000#32) : (⟨S_, .f32⟩ : BufTy).Contents (Elt F))) := rfl
theorem val_main_call11_cst_2 (V : Valuation τ sig (Elt F)) :
    after ops V (no_index (Proc.devRef .tc main_call11_cst_2)) = ((constant S_ .f32 0x00000000#32) : (⟨S_, .f32⟩ : BufTy).Contents (Elt F)) :=
  ops_writesAre.read_nullary op_300 V (not_written_from (300 + 1) (by decide))

private theorem op_301 : (ops : List (HloOp τ sig (Elt F)))[301]? = some (StableHlo.binary main_call11_v6 main_call11_cst_2 main_call11_v9 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call11_v9 (V : Valuation τ sig (Elt F)) :
    after ops V (no_index (Proc.devRef .tc main_call11_v9)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_call11_v6)) (after ops V (Proc.devRef .tc main_call11_cst_2)) :=
  ops_writesAre.read_binary op_301 V (not_written_from (301 + 1) (by decide)) (not_written_from 301 (by decide)) (not_written_from 301 (by decide))

private theorem op_302 : (ops : List (HloOp τ sig (Elt F)))[302]? = some (StableHlo.unary main_call11_v8 main_call11_v10 ((broadcastInDim S512 ![] bcast_S_S512) : (⟨S_, .f32⟩ : BufTy).Contents (Elt F) → (⟨S512, .f32⟩ : BufTy).Contents (Elt F))) := rfl
theorem val_main_call11_v10 (V : Valuation τ sig (Elt F)) :
    after ops V (no_index (Proc.devRef .tc main_call11_v10)) = ((broadcastInDim S512 ![] bcast_S_S512) : (⟨S_, .f32⟩ : BufTy).Contents (Elt F) → (⟨S512, .f32⟩ : BufTy).Contents (Elt F)) (after ops V (Proc.devRef .tc main_call11_v8)) :=
  ops_writesAre.read_unary op_302 V (not_written_from (302 + 1) (by decide)) (not_written_from 302 (by decide))

private theorem op_303 : (ops : List (HloOp τ sig (Elt F)))[303]? = some (StableHlo.binary main_call11_v9 main_call11_v10 main_call11_v11 (Host.divf : (⟨S512, .f32⟩ : BufTy).Contents (Elt F) → (⟨S512, .f32⟩ : BufTy).Contents (Elt F) → (⟨S512, .f32⟩ : BufTy).Contents (Elt F))) := rfl
theorem val_main_call11_v11 (V : Valuation τ sig (Elt F)) :
    after ops V (no_index (Proc.devRef .tc main_call11_v11)) = (Host.divf : (⟨S512, .f32⟩ : BufTy).Contents (Elt F) → (⟨S512, .f32⟩ : BufTy).Contents (Elt F) → (⟨S512, .f32⟩ : BufTy).Contents (Elt F)) (after ops V (Proc.devRef .tc main_call11_v9)) (after ops V (Proc.devRef .tc main_call11_v10)) :=
  ops_writesAre.read_binary op_303 V (not_written_from (303 + 1) (by decide)) (not_written_from 303 (by decide)) (not_written_from 303 (by decide))

private theorem op_304 : (ops : List (HloOp τ sig (Elt F)))[304]? = some (StableHlo.nullary main_call11_cst_3 ((constant S_ .f32 0x00000000#32) : (⟨S_, .f32⟩ : BufTy).Contents (Elt F))) := rfl
theorem val_main_call11_cst_3 (V : Valuation τ sig (Elt F)) :
    after ops V (no_index (Proc.devRef .tc main_call11_cst_3)) = ((constant S_ .f32 0x00000000#32) : (⟨S_, .f32⟩ : BufTy).Contents (Elt F)) :=
  ops_writesAre.read_nullary op_304 V (not_written_from (304 + 1) (by decide))

private theorem op_305 : (ops : List (HloOp τ sig (Elt F)))[305]? = some (StableHlo.binary main_call11_v8 main_call11_cst_3 main_call11_v12 ((cmpf .ogt) : (⟨S_, .f32⟩ : BufTy).Contents (Elt F) → (⟨S_, .f32⟩ : BufTy).Contents (Elt F) → (⟨S_, .i1⟩ : BufTy).Contents (Elt F))) := rfl
theorem val_main_call11_v12 (V : Valuation τ sig (Elt F)) :
    after ops V (no_index (Proc.devRef .tc main_call11_v12)) = ((cmpf .ogt) : (⟨S_, .f32⟩ : BufTy).Contents (Elt F) → (⟨S_, .f32⟩ : BufTy).Contents (Elt F) → (⟨S_, .i1⟩ : BufTy).Contents (Elt F)) (after ops V (Proc.devRef .tc main_call11_v8)) (after ops V (Proc.devRef .tc main_call11_cst_3)) :=
  ops_writesAre.read_binary op_305 V (not_written_from (305 + 1) (by decide)) (not_written_from 305 (by decide)) (not_written_from 305 (by decide))

private theorem op_306 : (ops : List (HloOp τ sig (Elt F)))[306]? = some (StableHlo.nullary main_call11_cst_4 ((constant S_ .f32 0x7FC00000#32) : (⟨S_, .f32⟩ : BufTy).Contents (Elt F))) := rfl
theorem val_main_call11_cst_4 (V : Valuation τ sig (Elt F)) :
    after ops V (no_index (Proc.devRef .tc main_call11_cst_4)) = ((constant S_ .f32 0x7FC00000#32) : (⟨S_, .f32⟩ : BufTy).Contents (Elt F)) :=
  ops_writesAre.read_nullary op_306 V (not_written_from (306 + 1) (by decide))

private theorem op_307 : (ops : List (HloOp τ sig (Elt F)))[307]? = some (StableHlo.unary main_call11_cst_4 main_call11_call0_v0 (id : (⟨S_, .f32⟩ : BufTy).Contents (Elt F) → (⟨S_, .f32⟩ : BufTy).Contents (Elt F))) := rfl
theorem val_main_call11_call0_v0 (V : Valuation τ sig (Elt F)) :
    after ops V (no_index (Proc.devRef .tc main_call11_call0_v0)) = (id : (⟨S_, .f32⟩ : BufTy).Contents (Elt F) → (⟨S_, .f32⟩ : BufTy).Contents (Elt F)) (after ops V (Proc.devRef .tc main_call11_cst_4)) :=
  ops_writesAre.read_unary op_307 V (not_written_from (307 + 1) (by decide)) (not_written_from 307 (by decide))

private theorem op_308 : (ops : List (HloOp τ sig (Elt F)))[308]? = some (StableHlo.unary main_call11_call0_v0 main_call11_call0_v1 ((broadcastInDim S512 ![] bcast_S_S512) : (⟨S_, .f32⟩ : BufTy).Contents (Elt F) → (⟨S512, .f32⟩ : BufTy).Contents (Elt F))) := rfl
theorem val_main_call11_call0_v1 (V : Valuation τ sig (Elt F)) :
    after ops V (no_index (Proc.devRef .tc main_call11_call0_v1)) = ((broadcastInDim S512 ![] bcast_S_S512) : (⟨S_, .f32⟩ : BufTy).Contents (Elt F) → (⟨S512, .f32⟩ : BufTy).Contents (Elt F)) (after ops V (Proc.devRef .tc main_call11_call0_v0)) :=
  ops_writesAre.read_unary op_308 V (not_written_from (308 + 1) (by decide)) (not_written_from 308 (by decide))

private theorem op_309 : (ops : List (HloOp τ sig (Elt F)))[309]? = some (StableHlo.ternary main_call11_v12 main_call11_v11 main_call11_call0_v1 main_v182 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F))) := rfl
theorem val_main_v182 (V : Valuation τ sig (Elt F)) :
    after ops V (no_index (Proc.devRef .tc main_v182)) = ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)) (after ops V (Proc.devRef .tc main_call11_v12)) (after ops V (Proc.devRef .tc main_call11_v11)) (after ops V (Proc.devRef .tc main_call11_call0_v1)) :=
  ops_writesAre.read_ternary op_309 V (not_written_from (309 + 1) (by decide)) (not_written_from 309 (by decide)) (not_written_from 309 (by decide)) (not_written_from 309 (by decide))

private theorem op_310 : (ops : List (HloOp τ sig (Elt F)))[310]? = some (StableHlo.unary main_v181 main_v183 (broadcastInDim S1x512 ![1] bcast_S512_S1x512_1 : (⟨S512, .f32⟩ : BufTy).Contents (Elt F) → (⟨S1x512, .f32⟩ : BufTy).Contents (Elt F))) := rfl
theorem val_main_v183 (V : Valuation τ sig (Elt F)) :
    after ops V (no_index (Proc.devRef .tc main_v183)) = (broadcastInDim S1x512 ![1] bcast_S512_S1x512_1 : (⟨S512, .f32⟩ : BufTy).Contents (Elt F) → (⟨S1x512, .f32⟩ : BufTy).Contents (Elt F)) (after ops V (Proc.devRef .tc main_v181)) :=
  ops_writesAre.read_unary op_310 V (not_written_from (310 + 1) (by decide)) (not_written_from 310 (by decide))

private theorem op_311 : (ops : List (HloOp τ sig (Elt F)))[311]? = some (StableHlo.unary main_v183 main_v184 (broadcastInDim S10000x512 ![0, 1] bcast_S1x512_S10000x512_0_1 : (⟨S1x512, .f32⟩ : BufTy).Contents (Elt F) → (⟨S10000x512, .f32⟩ : BufTy).Contents (Elt F))) := rfl
theorem val_main_v184 (V : Valuation τ sig (Elt F)) :
    after ops V (no_index (Proc.devRef .tc main_v184)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v183)) :=
  ops_writesAre.read_unary op_311 V (not_written_from (311 + 1) (by decide)) (not_written_from 311 (by decide))

private theorem op_312 : (ops : List (HloOp τ sig (Elt F)))[312]? = some (StableHlo.binary main_v174 main_v184 main_v185 (subf : (⟨S10000x512, .f32⟩ : BufTy).Contents (Elt F) → (⟨S10000x512, .f32⟩ : BufTy).Contents (Elt F) → (⟨S10000x512, .f32⟩ : BufTy).Contents (Elt F))) := rfl
theorem val_main_v185 (V : Valuation τ sig (Elt F)) :
    after ops V (no_index (Proc.devRef .tc main_v185)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v174)) (after ops V (Proc.devRef .tc main_v184)) :=
  ops_writesAre.read_binary op_312 V (not_written_from (312 + 1) (by decide)) (not_written_from 312 (by decide)) (not_written_from 312 (by decide))

private theorem op_313 : (ops : List (HloOp τ sig (Elt F)))[313]? = some (StableHlo.nullary main_cst_25 (constant S_ .f32 0x3727C5AC#32)) := rfl
theorem val_main_cst_25 (V : Valuation τ sig (Elt F)) :
    after ops V (no_index (Proc.devRef .tc main_cst_25)) = (constant S_ .f32 0x3727C5AC#32) :=
  ops_writesAre.read_nullary op_313 V (not_written_from (313 + 1) (by decide))

private theorem op_314 : (ops : List (HloOp τ sig (Elt F)))[314]? = some (StableHlo.unary main_cst_25 main_v186 (broadcastInDim S512 ![] bcast_S_S512 : (⟨S_, .f32⟩ : BufTy).Contents (Elt F) → (⟨S512, .f32⟩ : BufTy).Contents (Elt F))) := rfl
theorem val_main_v186 (V : Valuation τ sig (Elt F)) :
    after ops V (no_index (Proc.devRef .tc main_v186)) = (broadcastInDim S512 ![] bcast_S_S512 : (⟨S_, .f32⟩ : BufTy).Contents (Elt F) → (⟨S512, .f32⟩ : BufTy).Contents (Elt F)) (after ops V (Proc.devRef .tc main_cst_25)) :=
  ops_writesAre.read_unary op_314 V (not_written_from (314 + 1) (by decide)) (not_written_from 314 (by decide))

private theorem op_315 : (ops : List (HloOp τ sig (Elt F)))[315]? = some (StableHlo.binary main_v182 main_v186 main_v187 (addf : (⟨S512, .f32⟩ : BufTy).Contents (Elt F) → (⟨S512, .f32⟩ : BufTy).Contents (Elt F) → (⟨S512, .f32⟩ : BufTy).Contents (Elt F))) := rfl
theorem val_main_v187 (V : Valuation τ sig (Elt F)) :
    after ops V (no_index (Proc.devRef .tc main_v187)) = (addf : (⟨S512, .f32⟩ : BufTy).Contents (Elt F) → (⟨S512, .f32⟩ : BufTy).Contents (Elt F) → (⟨S512, .f32⟩ : BufTy).Contents (Elt F)) (after ops V (Proc.devRef .tc main_v182)) (after ops V (Proc.devRef .tc main_v186)) :=
  ops_writesAre.read_binary op_315 V (not_written_from (315 + 1) (by decide)) (not_written_from 315 (by decide)) (not_written_from 315 (by decide))

private theorem op_316 : (ops : List (HloOp τ sig (Elt F)))[316]? = some (StableHlo.unary main_v187 main_v188 (Host.rsqrt : (⟨S512, .f32⟩ : BufTy).Contents (Elt F) → (⟨S512, .f32⟩ : BufTy).Contents (Elt F))) := rfl
theorem val_main_v188 (V : Valuation τ sig (Elt F)) :
    after ops V (no_index (Proc.devRef .tc main_v188)) = (Host.rsqrt : (⟨S512, .f32⟩ : BufTy).Contents (Elt F) → (⟨S512, .f32⟩ : BufTy).Contents (Elt F)) (after ops V (Proc.devRef .tc main_v187)) :=
  ops_writesAre.read_unary op_316 V (not_written_from (316 + 1) (by decide)) (not_written_from 316 (by decide))

private theorem op_317 : (ops : List (HloOp τ sig (Elt F)))[317]? = some (StableHlo.binary main_v176 main_v188 main_v189 (mulf : (⟨S512, .f32⟩ : BufTy).Contents (Elt F) → (⟨S512, .f32⟩ : BufTy).Contents (Elt F) → (⟨S512, .f32⟩ : BufTy).Contents (Elt F))) := rfl
theorem val_main_v189 (V : Valuation τ sig (Elt F)) :
    after ops V (no_index (Proc.devRef .tc main_v189)) = (mulf : (⟨S512, .f32⟩ : BufTy).Contents (Elt F) → (⟨S512, .f32⟩ : BufTy).Contents (Elt F) → (⟨S512, .f32⟩ : BufTy).Contents (Elt F)) (after ops V (Proc.devRef .tc main_v176)) (after ops V (Proc.devRef .tc main_v188)) :=
  ops_writesAre.read_binary op_317 V (not_written_from (317 + 1) (by decide)) (not_written_from 317 (by decide)) (not_written_from 317 (by decide))

private theorem op_318 : (ops : List (HloOp τ sig (Elt F)))[318]? = some (StableHlo.unary main_v189 main_v190 (broadcastInDim S1x512 ![1] bcast_S512_S1x512_1 : (⟨S512, .f32⟩ : BufTy).Contents (Elt F) → (⟨S1x512, .f32⟩ : BufTy).Contents (Elt F))) := rfl
theorem val_main_v190 (V : Valuation τ sig (Elt F)) :
    after ops V (no_index (Proc.devRef .tc main_v190)) = (broadcastInDim S1x512 ![1] bcast_S512_S1x512_1 : (⟨S512, .f32⟩ : BufTy).Contents (Elt F) → (⟨S1x512, .f32⟩ : BufTy).Contents (Elt F)) (after ops V (Proc.devRef .tc main_v189)) :=
  ops_writesAre.read_unary op_318 V (not_written_from (318 + 1) (by decide)) (not_written_from 318 (by decide))

private theorem op_319 : (ops : List (HloOp τ sig (Elt F)))[319]? = some (StableHlo.unary main_v190 main_v191 (broadcastInDim S10000x512 ![0, 1] bcast_S1x512_S10000x512_0_1 : (⟨S1x512, .f32⟩ : BufTy).Contents (Elt F) → (⟨S10000x512, .f32⟩ : BufTy).Contents (Elt F))) := rfl
theorem val_main_v191 (V : Valuation τ sig (Elt F)) :
    after ops V (no_index (Proc.devRef .tc main_v191)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v190)) :=
  ops_writesAre.read_unary op_319 V (not_written_from (319 + 1) (by decide)) (not_written_from 319 (by decide))

private theorem op_320 : (ops : List (HloOp τ sig (Elt F)))[320]? = some (StableHlo.binary main_v185 main_v191 main_v192 (mulf : (⟨S10000x512, .f32⟩ : BufTy).Contents (Elt F) → (⟨S10000x512, .f32⟩ : BufTy).Contents (Elt F) → (⟨S10000x512, .f32⟩ : BufTy).Contents (Elt F))) := rfl
theorem val_main_v192 (V : Valuation τ sig (Elt F)) :
    after ops V (no_index (Proc.devRef .tc main_v192)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_v185)) (after ops V (Proc.devRef .tc main_v191)) :=
  ops_writesAre.read_binary op_320 V (not_written_from (320 + 1) (by decide)) (not_written_from 320 (by decide)) (not_written_from 320 (by decide))

private theorem op_321 : (ops : List (HloOp τ sig (Elt F)))[321]? = some (StableHlo.unary main_v178 main_v193 (broadcastInDim S1x512 ![1] bcast_S512_S1x512_1 : (⟨S512, .f32⟩ : BufTy).Contents (Elt F) → (⟨S1x512, .f32⟩ : BufTy).Contents (Elt F))) := rfl
theorem val_main_v193 (V : Valuation τ sig (Elt F)) :
    after ops V (no_index (Proc.devRef .tc main_v193)) = (broadcastInDim S1x512 ![1] bcast_S512_S1x512_1 : (⟨S512, .f32⟩ : BufTy).Contents (Elt F) → (⟨S1x512, .f32⟩ : BufTy).Contents (Elt F)) (after ops V (Proc.devRef .tc main_v178)) :=
  ops_writesAre.read_unary op_321 V (not_written_from (321 + 1) (by decide)) (not_written_from 321 (by decide))

private theorem op_322 : (ops : List (HloOp τ sig (Elt F)))[322]? = some (StableHlo.unary main_v193 main_v194 (broadcastInDim S10000x512 ![0, 1] bcast_S1x512_S10000x512_0_1 : (⟨S1x512, .f32⟩ : BufTy).Contents (Elt F) → (⟨S10000x512, .f32⟩ : BufTy).Contents (Elt F))) := rfl
theorem val_main_v194 (V : Valuation τ sig (Elt F)) :
    after ops V (no_index (Proc.devRef .tc main_v194)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v193)) :=
  ops_writesAre.read_unary op_322 V (not_written_from (322 + 1) (by decide)) (not_written_from 322 (by decide))

private theorem op_323 : (ops : List (HloOp τ sig (Elt F)))[323]? = some (StableHlo.binary main_v192 main_v194 main_v195 (addf : (⟨S10000x512, .f32⟩ : BufTy).Contents (Elt F) → (⟨S10000x512, .f32⟩ : BufTy).Contents (Elt F) → (⟨S10000x512, .f32⟩ : BufTy).Contents (Elt F))) := rfl
theorem val_main_v195 (V : Valuation τ sig (Elt F)) :
    after ops V (no_index (Proc.devRef .tc main_v195)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v192)) (after ops V (Proc.devRef .tc main_v194)) :=
  ops_writesAre.read_binary op_323 V (not_written_from (323 + 1) (by decide)) (not_written_from 323 (by decide)) (not_written_from 323 (by decide))

private theorem op_324 : (ops : List (HloOp τ sig (Elt F)))[324]? = some (StableHlo.nullary main_c_26 (constantI S_ 32 0#32)) := rfl
theorem val_main_c_26 (V : Valuation τ sig (Elt F)) :
    after ops V (no_index (Proc.devRef .tc main_c_26)) = (constantI S_ 32 0#32) :=
  ops_writesAre.read_nullary op_324 V (not_written_from (324 + 1) (by decide))

private theorem op_325 : (ops : List (HloOp τ sig (Elt F)))[325]? = some (StableHlo.unary main_c_26 main_v196 (broadcastInDim S160000 ![] bcast_S_S160000 : (⟨S_, .i32⟩ : BufTy).Contents (Elt F) → (⟨S160000, .i32⟩ : BufTy).Contents (Elt F))) := rfl
theorem val_main_v196 (V : Valuation τ sig (Elt F)) :
    after ops V (no_index (Proc.devRef .tc main_v196)) = (broadcastInDim S160000 ![] bcast_S_S160000 : (⟨S_, .i32⟩ : BufTy).Contents (Elt F) → (⟨S160000, .i32⟩ : BufTy).Contents (Elt F)) (after ops V (Proc.devRef .tc main_c_26)) :=
  ops_writesAre.read_unary op_325 V (not_written_from (325 + 1) (by decide)) (not_written_from 325 (by decide))

private theorem op_326 : (ops : List (HloOp τ sig (Elt F)))[326]? = some (StableHlo.binary main_v1 main_v196 main_v197 (cmpi .slt : (⟨S160000, .i32⟩ : BufTy).Contents (Elt F) → (⟨S160000, .i32⟩ : BufTy).Contents (Elt F) → (⟨S160000, .i1⟩ : BufTy).Contents (Elt F))) := rfl
theorem val_main_v197 (V : Valuation τ sig (Elt F)) :
    after ops V (no_index (Proc.devRef .tc main_v197)) = (cmpi .slt : (⟨S160000, .i32⟩ : BufTy).Contents (Elt F) → (⟨S160000, .i32⟩ : BufTy).Contents (Elt F) → (⟨S160000, .i1⟩ : BufTy).Contents (Elt F)) (after ops V (Proc.devRef .tc main_v1)) (after ops V (Proc.devRef .tc main_v196)) :=
  ops_writesAre.read_binary op_326 V (not_written_from (326 + 1) (by decide)) (not_written_from 326 (by decide)) (not_written_from 326 (by decide))

private theorem op_327 : (ops : List (HloOp τ sig (Elt F)))[327]? = some (StableHlo.nullary main_c_27 (constantI S_ 32 10000#32)) := rfl
theorem val_main_c_27 (V : Valuation τ sig (Elt F)) :
    after ops V (no_index (Proc.devRef .tc main_c_27)) = (constantI S_ 32 10000#32) :=
  ops_writesAre.read_nullary op_327 V (not_written_from (327 + 1) (by decide))

private theorem op_328 : (ops : List (HloOp τ sig (Elt F)))[328]? = some (StableHlo.unary main_c_27 main_v198 (broadcastInDim S160000 ![] bcast_S_S160000 : (⟨S_, .i32⟩ : BufTy).Contents (Elt F) → (⟨S160000, .i32⟩ : BufTy).Contents (Elt F))) := rfl
theorem val_main_v198 (V : Valuation τ sig (Elt F)) :
    after ops V (no_index (Proc.devRef .tc main_v198)) = (broadcastInDim S160000 ![] bcast_S_S160000 : (⟨S_, .i32⟩ : BufTy).Contents (Elt F) → (⟨S160000, .i32⟩ : BufTy).Contents (Elt F)) (after ops V (Proc.devRef .tc main_c_27)) :=
  ops_writesAre.read_unary op_328 V (not_written_from (328 + 1) (by decide)) (not_written_from 328 (by decide))

private theorem op_329 : (ops : List (HloOp τ sig (Elt F)))[329]? = some (StableHlo.binary main_v1 main_v198 main_v199 (addi : (⟨S160000, .i32⟩ : BufTy).Contents (Elt F) → (⟨S160000, .i32⟩ : BufTy).Contents (Elt F) → (⟨S160000, .i32⟩ : BufTy).Contents (Elt F))) := rfl
theorem val_main_v199 (V : Valuation τ sig (Elt F)) :
    after ops V (no_index (Proc.devRef .tc main_v199)) = (addi : (⟨S160000, .i32⟩ : BufTy).Contents (Elt F) → (⟨S160000, .i32⟩ : BufTy).Contents (Elt F) → (⟨S160000, .i32⟩ : BufTy).Contents (Elt F)) (after ops V (Proc.devRef .tc main_v1)) (after ops V (Proc.devRef .tc main_v198)) :=
  ops_writesAre.read_binary op_329 V (not_written_from (329 + 1) (by decide)) (not_written_from 329 (by decide)) (not_written_from 329 (by decide))

private theorem op_330 : (ops : List (HloOp τ sig (Elt F)))[330]? = some (StableHlo.ternary main_v197 main_v199 main_v1 main_v200 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) := rfl
theorem val_main_v200 (V : Valuation τ sig (Elt F)) :
    after ops V (no_index (Proc.devRef .tc main_v200)) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v197)) (after ops V (Proc.devRef .tc main_v199)) (after ops V (Proc.devRef .tc main_v1)) :=
  ops_writesAre.read_ternary op_330 V (not_written_from (330 + 1) (by decide)) (not_written_from 330 (by decide)) (not_written_from 330 (by decide)) (not_written_from 330 (by decide))

private theorem op_331 : (ops : List (HloOp τ sig (Elt F)))[331]? = some (StableHlo.unary main_v200 main_v201 (broadcastInDim S160000x1 ![0] bcast_S160000_S160000x1_0 : (⟨S160000, .i32⟩ : BufTy).Contents (Elt F) → (⟨S160000x1, .i32⟩ : BufTy).Contents (Elt F))) := rfl
theorem val_main_v201 (V : Valuation τ sig (Elt F)) :
    after ops V (no_index (Proc.devRef .tc main_v201)) = (broadcastInDim S160000x1 ![0] bcast_S160000_S160000x1_0 : (⟨S160000, .i32⟩ : BufTy).Contents (Elt F) → (⟨S160000x1, .i32⟩ : BufTy).Contents (Elt F)) (after ops V (Proc.devRef .tc main_v200)) :=
  ops_writesAre.read_unary op_331 V (not_written_from (331 + 1) (by decide)) (not_written_from 331 (by decide))

private theorem op_332 : (ops : List (HloOp τ sig (Elt F)))[332]? = some (StableHlo.binary main_v195 main_v201 main_v202 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F))) := rfl
theorem val_main_v202 (V : Valuation τ sig (Elt F)) :
    after ops V (no_index (Proc.devRef .tc main_v202)) = ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)) (after ops V (Proc.devRef .tc main_v195)) (after ops V (Proc.devRef .tc main_v201)) :=
  ops_writesAre.read_binary op_332 V (not_written_from (332 + 1) (by decide)) (not_written_from 332 (by decide)) (not_written_from 332 (by decide))

private theorem op_333 : (ops : List (HloOp τ sig (Elt F)))[333]? = some (StableHlo.nullary main_cst_28 (constant S_ .f32 0x00000000#32)) := rfl
theorem val_main_cst_28 (V : Valuation τ sig (Elt F)) :
    after ops V (no_index (Proc.devRef .tc main_cst_28)) = (constant S_ .f32 0x00000000#32) :=
  ops_writesAre.read_nullary op_333 V (not_written_from (333 + 1) (by decide))

private theorem op_334 : (ops : List (HloOp τ sig (Elt F)))[334]? = some (StableHlo.unary main_cst_28 main_v203 (broadcastInDim S10000x512 ![] bcast_S_S10000x512 : (⟨S_, .f32⟩ : BufTy).Contents (Elt F) → (⟨S10000x512, .f32⟩ : BufTy).Contents (Elt F))) := rfl
theorem val_main_v203 (V : Valuation τ sig (Elt F)) :
    after ops V (no_index (Proc.devRef .tc main_v203)) = (broadcastInDim S10000x512 ![] bcast_S_S10000x512 : (⟨S_, .f32⟩ : BufTy).Contents (Elt F) → (⟨S10000x512, .f32⟩ : BufTy).Contents (Elt F)) (after ops V (Proc.devRef .tc main_cst_28)) :=
  ops_writesAre.read_unary op_334 V (not_written_from (334 + 1) (by decide)) (not_written_from 334 (by decide))

private theorem op_335 : (ops : List (HloOp τ sig (Elt F)))[335]? = some (StableHlo.unary main_v3 main_v204 (broadcastInDim S160000x1 ![0] bcast_S160000_S160000x1_0 : (⟨S160000, .i32⟩ : BufTy).Contents (Elt F) → (⟨S160000x1, .i32⟩ : BufTy).Contents (Elt F))) := rfl
theorem val_main_v204 (V : Valuation τ sig (Elt F)) :
    after ops V (no_index (Proc.devRef .tc main_v204)) = (broadcastInDim S160000x1 ![0] bcast_S160000_S160000x1_0 : (⟨S160000, .i32⟩ : BufTy).Contents (Elt F) → (⟨S160000x1, .i32⟩ : BufTy).Contents (Elt F)) (after ops V (Proc.devRef .tc main_v3)) :=
  ops_writesAre.read_unary op_335 V (not_written_from (335 + 1) (by decide)) (not_written_from 335 (by decide))

private theorem op_336 : (ops : List (HloOp τ sig (Elt F)))[336]? = some (StableHlo.ternary main_v203 main_v204 main_v202 main_v205 ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F))) := rfl
theorem val_main_v205 (V : Valuation τ sig (Elt F)) :
    after ops V (no_index (Proc.devRef .tc main_v205)) = ((fun x i u => Host.scatterAdd scatter_S10000x512_S160000x1_S160000x512_1_0_0_1 x i u) : (⟨S10000x512, .f32⟩ : BufTy).Contents (Elt F) → (⟨S160000x1, .i32⟩ : BufTy).Contents (Elt F) → (⟨S160000x512, .f32⟩ : BufTy).Contents (Elt F) → (⟨S10000x512, .f32⟩ : BufTy).Contents (Elt F)) (after ops V (Proc.devRef .tc main_v203)) (after ops V (Proc.devRef .tc main_v204)) (after ops V (Proc.devRef .tc main_v202)) :=
  ops_writesAre.read_ternary op_336 V (not_written_from (336 + 1) (by decide)) (not_written_from 336 (by decide)) (not_written_from 336 (by decide)) (not_written_from 336 (by decide))

private theorem op_337 : (ops : List (HloOp τ sig (Elt F)))[337]? = some (StableHlo.binary main_v195 main_v205 main_v206 (addf : (⟨S10000x512, .f32⟩ : BufTy).Contents (Elt F) → (⟨S10000x512, .f32⟩ : BufTy).Contents (Elt F) → (⟨S10000x512, .f32⟩ : BufTy).Contents (Elt F))) := rfl
theorem val_main_v206 (V : Valuation τ sig (Elt F)) :
    after ops V (no_index (Proc.devRef .tc main_v206)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v195)) (after ops V (Proc.devRef .tc main_v205)) :=
  ops_writesAre.read_binary op_337 V (not_written_from (337 + 1) (by decide)) (not_written_from 337 (by decide)) (not_written_from 337 (by decide))

private theorem op_338 : (ops : List (HloOp τ sig (Elt F)))[338]? = some (StableHlo.unary main_arg7 main_v207 ((extractStridedSlice S1x512x512 ![3, 0, 0] · slices_S4x512x512_S1x512x512_3_0_0) : (⟨S4x512x512, .f32⟩ : BufTy).Contents (Elt F) → (⟨S1x512x512, .f32⟩ : BufTy).Contents (Elt F))) := rfl
theorem val_main_v207 (V : Valuation τ sig (Elt F)) :
    after ops V (no_index (Proc.devRef .tc main_v207)) = ((extractStridedSlice S1x512x512 ![3, 0, 0] · slices_S4x512x512_S1x512x512_3_0_0) : (⟨S4x512x512, .f32⟩ : BufTy).Contents (Elt F) → (⟨S1x512x512, .f32⟩ : BufTy).Contents (Elt F)) (after ops V (Proc.devRef .tc main_arg7)) :=
  ops_writesAre.read_unary op_338 V (not_written_from (338 + 1) (by decide)) (not_written_from 338 (by decide))

private theorem op_339 : (ops : List (HloOp τ sig (Elt F)))[339]? = some (StableHlo.reshape main_v207 main_v208 rfl shapeCasts_S1x512x512_S512x512) := rfl
theorem val_main_v208 (V : Valuation τ sig (Elt F)) :
    after ops V (no_index (Proc.devRef .tc main_v208)) = shapeCast S512x512 (after ops V (Proc.devRef .tc main_v207)) shapeCasts_S1x512x512_S512x512 :=
  ops_writesAre.read_reshape op_339 V (not_written_from (339 + 1) (by decide)) (not_written_from 339 (by decide))

end Cert.ReferenceIdeal.RefRun

end
-- ==== Proof.RI.Val4.lean ====
/-
  What each buffer written by operations 341 … 425 of the reference program holds at the end of the run, as ONE
  operation applied to the final contents of its operand buffers. Every buffer is written once and read only
  after it is written: the operation at position j is read off the list (by computation; an operation of an
  unfolded call is stated over the buffers themselves, the typed references' transports being the identity there),
  its result buffer has number 17 + j, below every buffer written after it, and its operand buffers have smaller numbers still.
-/
import proofs.«100381_j2018634629568_1_alg».proof.Proof.RI.Order

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

private theorem op_340 : (ops : List (HloOp τ sig (Elt F)))[340]? = some (StableHlo.unary main_arg8 main_v209 ((extractStridedSlice S1x512 ![3, 0] · slices_S4x512_S1x512_3_0) : (⟨S4x512, .f32⟩ : BufTy).Contents (Elt F) → (⟨S1x512, .f32⟩ : BufTy).Contents (Elt F))) := rfl
theorem val_main_v209 (V : Valuation τ sig (Elt F)) :
    after ops V (no_index (Proc.devRef .tc main_v209)) = ((extractStridedSlice S1x512 ![3, 0] · slices_S4x512_S1x512_3_0) : (⟨S4x512, .f32⟩ : BufTy).Contents (Elt F) → (⟨S1x512, .f32⟩ : BufTy).Contents (Elt F)) (after ops V (Proc.devRef .tc main_arg8)) :=
  ops_writesAre.read_unary op_340 V (not_written_from (340 + 1) (by decide)) (not_written_from 340 (by decide))

private theorem op_341 : (ops : List (HloOp τ sig (Elt F)))[341]? = some (StableHlo.reshape main_v209 main_v210 rfl shapeCasts_S1x512_S512) := rfl
theorem val_main_v210 (V : Valuation τ sig (Elt F)) :
    after ops V (no_index (Proc.devRef .tc main_v210)) = shapeCast S512 (after ops V (Proc.devRef .tc main_v209)) shapeCasts_S1x512_S512 :=
  ops_writesAre.read_reshape op_341 V (not_written_from (341 + 1) (by decide)) (not_written_from 341 (by decide))

private theorem op_342 : (ops : List (HloOp τ sig (Elt F)))[342]? = some (StableHlo.unary main_arg9 main_v211 ((extractStridedSlice S1x512x512 ![3, 0, 0] · slices_S4x512x512_S1x512x512_3_0_0) : (⟨S4x512x512, .f32⟩ : BufTy).Contents (Elt F) → (⟨S1x512x512, .f32⟩ : BufTy).Contents (Elt F))) := rfl
theorem val_main_v211 (V : Valuation τ sig (Elt F)) :
    after ops V (no_index (Proc.devRef .tc main_v211)) = ((extractStridedSlice S1x512x512 ![3, 0, 0] · slices_S4x512x512_S1x512x512_3_0_0) : (⟨S4x512x512, .f32⟩ : BufTy).Contents (Elt F) → (⟨S1x512x512, .f32⟩ : BufTy).Contents (Elt F)) (after ops V (Proc.devRef .tc main_arg9)) :=
  ops_writesAre.read_unary op_342 V (not_written_from (342 + 1) (by decide)) (not_written_from 342 (by decide))

private theorem op_343 : (ops : List (HloOp τ sig (Elt F)))[343]? = some (StableHlo.reshape main_v211 main_v212 rfl shapeCasts_S1x512x512_S512x512) := rfl
theorem val_main_v212 (V : Valuation τ sig (Elt F)) :
    after ops V (no_index (Proc.devRef .tc main_v212)) = shapeCast S512x512 (after ops V (Proc.devRef .tc main_v211)) shapeCasts_S1x512x512_S512x512 :=
  ops_writesAre.read_reshape op_343 V (not_written_from (343 + 1) (by decide)) (not_written_from 343 (by decide))

private theorem op_344 : (ops : List (HloOp τ sig (Elt F)))[344]? = some (StableHlo.unary main_arg10 main_v213 ((extractStridedSlice S1x512 ![3, 0] · slices_S4x512_S1x512_3_0) : (⟨S4x512, .f32⟩ : BufTy).Contents (Elt F) → (⟨S1x512, .f32⟩ : BufTy).Contents (Elt F))) := rfl
theorem val_main_v213 (V : Valuation τ sig (Elt F)) :
    after ops V (no_index (Proc.devRef .tc main_v213)) = ((extractStridedSlice S1x512 ![3, 0] · slices_S4x512_S1x512_3_0) : (⟨S4x512, .f32⟩ : BufTy).Contents (Elt F) → (⟨S1x512, .f32⟩ : BufTy).Contents (Elt F)) (after ops V (Proc.devRef .tc main_arg10)) :=
  ops_writesAre.read_unary op_344 V (not_written_from (344 + 1) (by decide)) (not_written_from 344 (by decide))

private theorem op_345 : (ops : List (HloOp τ sig (Elt F)))[345]? = some (StableHlo.reshape main_v213 main_v214 rfl shapeCasts_S1x512_S512) := rfl
theorem val_main_v214 (V : Valuation τ sig (Elt F)) :
    after ops V (no_index (Proc.devRef .tc main_v214)) = shapeCast S512 (after ops V (Proc.devRef .tc main_v213)) shapeCasts_S1x512_S512 :=
  ops_writesAre.read_reshape op_345 V (not_written_from (345 + 1) (by decide)) (not_written_from 345 (by decide))

private theorem op_346 : (ops : List (HloOp τ sig (Elt F)))[346]? = some (StableHlo.binary main_v206 main_v208 main_v215 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))) := rfl
theorem val_main_v215 (V : Valuation τ sig (Elt F)) :
    after ops V (no_index (Proc.devRef .tc main_v215)) = ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) (after ops V (Proc.devRef .tc main_v206)) (after ops V (Proc.devRef .tc main_v208)) :=
  ops_writesAre.read_binary op_346 V (not_written_from (346 + 1) (by decide)) (not_written_from 346 (by decide)) (not_written_from 346 (by decide))

private theorem op_347 : (ops : List (HloOp τ sig (Elt F)))[347]? = some (StableHlo.unary main_v210 main_v216 (broadcastInDim S1x512 ![1] bcast_S512_S1x512_1 : (⟨S512, .f32⟩ : BufTy).Contents (Elt F) → (⟨S1x512, .f32⟩ : BufTy).Contents (Elt F))) := rfl
theorem val_main_v216 (V : Valuation τ sig (Elt F)) :
    after ops V (no_index (Proc.devRef .tc main_v216)) = (broadcastInDim S1x512 ![1] bcast_S512_S1x512_1 : (⟨S512, .f32⟩ : BufTy).Contents (Elt F) → (⟨S1x512, .f32⟩ : BufTy).Contents (Elt F)) (after ops V (Proc.devRef .tc main_v210)) :=
  ops_writesAre.read_unary op_347 V (not_written_from (347 + 1) (by decide)) (not_written_from 347 (by decide))

private theorem op_348 : (ops : List (HloOp τ sig (Elt F)))[348]? = some (StableHlo.unary main_v216 main_v217 (broadcastInDim S10000x512 ![0, 1] bcast_S1x512_S10000x512_0_1 : (⟨S1x512, .f32⟩ : BufTy).Contents (Elt F) → (⟨S10000x512, .f32⟩ : BufTy).Contents (Elt F))) := rfl
theorem val_main_v217 (V : Valuation τ sig (Elt F)) :
    after ops V (no_index (Proc.devRef .tc main_v217)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v216)) :=
  ops_writesAre.read_unary op_348 V (not_written_from (348 + 1) (by decide)) (not_written_from 348 (by decide))

private theorem op_349 : (ops : List (HloOp τ sig (Elt F)))[349]? = some (StableHlo.binary main_v215 main_v217 main_v218 (addf : (⟨S10000x512, .f32⟩ : BufTy).Contents (Elt F) → (⟨S10000x512, .f32⟩ : BufTy).Contents (Elt F) → (⟨S10000x512, .f32⟩ : BufTy).Contents (Elt F))) := rfl
theorem val_main_v218 (V : Valuation τ sig (Elt F)) :
    after ops V (no_index (Proc.devRef .tc main_v218)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v215)) (after ops V (Proc.devRef .tc main_v217)) :=
  ops_writesAre.read_binary op_349 V (not_written_from (349 + 1) (by decide)) (not_written_from 349 (by decide)) (not_written_from 349 (by decide))

private theorem op_350 : (ops : List (HloOp τ sig (Elt F)))[350]? = some (StableHlo.nullary main_call12_cst ((constant S_ .f32 0x00000000#32) : (⟨S_, .f32⟩ : BufTy).Contents (Elt F))) := rfl
theorem val_main_call12_cst (V : Valuation τ sig (Elt F)) :
    after ops V (no_index (Proc.devRef .tc main_call12_cst)) = ((constant S_ .f32 0x00000000#32) : (⟨S_, .f32⟩ : BufTy).Contents (Elt F)) :=
  ops_writesAre.read_nullary op_350 V (not_written_from (350 + 1) (by decide))

private theorem op_351 : (ops : List (HloOp τ sig (Elt F)))[351]? = some (StableHlo.unary main_call12_cst main_call12_v0 ((broadcastInDim S10000x512 ![] bcast_S_S10000x512) : (⟨S_, .f32⟩ : BufTy).Contents (Elt F) → (⟨S10000x512, .f32⟩ : BufTy).Contents (Elt F))) := rfl
theorem val_main_call12_v0 (V : Valuation τ sig (Elt F)) :
    after ops V (no_index (Proc.devRef .tc main_call12_v0)) = ((broadcastInDim S10000x512 ![] bcast_S_S10000x512) : (⟨S_, .f32⟩ : BufTy).Contents (Elt F) → (⟨S10000x512, .f32⟩ : BufTy).Contents (Elt F)) (after ops V (Proc.devRef .tc main_call12_cst)) :=
  ops_writesAre.read_unary op_351 V (not_written_from (351 + 1) (by decide)) (not_written_from 351 (by decide))

private theorem op_352 : (ops : List (HloOp τ sig (Elt F)))[352]? = some (StableHlo.binary main_v218 main_call12_v0 main_v219 (maximumf : (⟨S10000x512, .f32⟩ : BufTy).Contents (Elt F) → (⟨S10000x512, .f32⟩ : BufTy).Contents (Elt F) → (⟨S10000x512, .f32⟩ : BufTy).Contents (Elt F))) := rfl
theorem val_main_v219 (V : Valuation τ sig (Elt F)) :
    after ops V (no_index (Proc.devRef .tc main_v219)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v218)) (after ops V (Proc.devRef .tc main_call12_v0)) :=
  ops_writesAre.read_binary op_352 V (not_written_from (352 + 1) (by decide)) (not_written_from 352 (by decide)) (not_written_from 352 (by decide))

private theorem op_353 : (ops : List (HloOp τ sig (Elt F)))[353]? = some (StableHlo.binary main_v219 main_v212 main_v220 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))) := rfl
theorem val_main_v220 (V : Valuation τ sig (Elt F)) :
    after ops V (no_index (Proc.devRef .tc main_v220)) = ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) (after ops V (Proc.devRef .tc main_v219)) (after ops V (Proc.devRef .tc main_v212)) :=
  ops_writesAre.read_binary op_353 V (not_written_from (353 + 1) (by decide)) (not_written_from 353 (by decide)) (not_written_from 353 (by decide))

private theorem op_354 : (ops : List (HloOp τ sig (Elt F)))[354]? = some (StableHlo.unary main_v214 main_v221 (broadcastInDim S1x512 ![1] bcast_S512_S1x512_1 : (⟨S512, .f32⟩ : BufTy).Contents (Elt F) → (⟨S1x512, .f32⟩ : BufTy).Contents (Elt F))) := rfl
theorem val_main_v221 (V : Valuation τ sig (Elt F)) :
    after ops V (no_index (Proc.devRef .tc main_v221)) = (broadcastInDim S1x512 ![1] bcast_S512_S1x512_1 : (⟨S512, .f32⟩ : BufTy).Contents (Elt F) → (⟨S1x512, .f32⟩ : BufTy).Contents (Elt F)) (after ops V (Proc.devRef .tc main_v214)) :=
  ops_writesAre.read_unary op_354 V (not_written_from (354 + 1) (by decide)) (not_written_from 354 (by decide))

private theorem op_355 : (ops : List (HloOp τ sig (Elt F)))[355]? = some (StableHlo.unary main_v221 main_v222 (broadcastInDim S10000x512 ![0, 1] bcast_S1x512_S10000x512_0_1 : (⟨S1x512, .f32⟩ : BufTy).Contents (Elt F) → (⟨S10000x512, .f32⟩ : BufTy).Contents (Elt F))) := rfl
theorem val_main_v222 (V : Valuation τ sig (Elt F)) :
    after ops V (no_index (Proc.devRef .tc main_v222)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v221)) :=
  ops_writesAre.read_unary op_355 V (not_written_from (355 + 1) (by decide)) (not_written_from 355 (by decide))

private theorem op_356 : (ops : List (HloOp τ sig (Elt F)))[356]? = some (StableHlo.binary main_v220 main_v222 main_v223 (addf : (⟨S10000x512, .f32⟩ : BufTy).Contents (Elt F) → (⟨S10000x512, .f32⟩ : BufTy).Contents (Elt F) → (⟨S10000x512, .f32⟩ : BufTy).Contents (Elt F))) := rfl
theorem val_main_v223 (V : Valuation τ sig (Elt F)) :
    after ops V (no_index (Proc.devRef .tc main_v223)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v220)) (after ops V (Proc.devRef .tc main_v222)) :=
  ops_writesAre.read_binary op_356 V (not_written_from (356 + 1) (by decide)) (not_written_from 356 (by decide)) (not_written_from 356 (by decide))

private theorem op_357 : (ops : List (HloOp τ sig (Elt F)))[357]? = some (StableHlo.nullary main_call13_cst ((constant S_ .f32 0x00000000#32) : (⟨S_, .f32⟩ : BufTy).Contents (Elt F))) := rfl
theorem val_main_call13_cst (V : Valuation τ sig (Elt F)) :
    after ops V (no_index (Proc.devRef .tc main_call13_cst)) = ((constant S_ .f32 0x00000000#32) : (⟨S_, .f32⟩ : BufTy).Contents (Elt F)) :=
  ops_writesAre.read_nullary op_357 V (not_written_from (357 + 1) (by decide))

private theorem op_358 : (ops : List (HloOp τ sig (Elt F)))[358]? = some (StableHlo.unary main_call13_cst main_call13_v0 ((broadcastInDim S10000x512 ![] bcast_S_S10000x512) : (⟨S_, .f32⟩ : BufTy).Contents (Elt F) → (⟨S10000x512, .f32⟩ : BufTy).Contents (Elt F))) := rfl
theorem val_main_call13_v0 (V : Valuation τ sig (Elt F)) :
    after ops V (no_index (Proc.devRef .tc main_call13_v0)) = ((broadcastInDim S10000x512 ![] bcast_S_S10000x512) : (⟨S_, .f32⟩ : BufTy).Contents (Elt F) → (⟨S10000x512, .f32⟩ : BufTy).Contents (Elt F)) (after ops V (Proc.devRef .tc main_call13_cst)) :=
  ops_writesAre.read_unary op_358 V (not_written_from (358 + 1) (by decide)) (not_written_from 358 (by decide))

private theorem op_359 : (ops : List (HloOp τ sig (Elt F)))[359]? = some (StableHlo.binary main_v223 main_call13_v0 main_v224 (maximumf : (⟨S10000x512, .f32⟩ : BufTy).Contents (Elt F) → (⟨S10000x512, .f32⟩ : BufTy).Contents (Elt F) → (⟨S10000x512, .f32⟩ : BufTy).Contents (Elt F))) := rfl
theorem val_main_v224 (V : Valuation τ sig (Elt F)) :
    after ops V (no_index (Proc.devRef .tc main_v224)) = (maximumf : (⟨S10000x512, .f32⟩ : BufTy).Contents (Elt F) → (⟨S10000x512, .f32⟩ : BufTy).Contents (Elt F) → (⟨S10000x512, .f32⟩ : BufTy).Contents (Elt F)) (after ops V (Proc.devRef .tc main_v223)) (after ops V (Proc.devRef .tc main_call13_v0)) :=
  ops_writesAre.read_binary op_359 V (not_written_from (359 + 1) (by decide)) (not_written_from 359 (by decide)) (not_written_from 359 (by decide))

private theorem op_360 : (ops : List (HloOp τ sig (Elt F)))[360]? = some (StableHlo.unary main_arg11 main_v225 ((extractStridedSlice S1x512 ![4, 0] · slices_S5x512_S1x512_4_0) : (⟨S5x512, .f32⟩ : BufTy).Contents (Elt F) → (⟨S1x512, .f32⟩ : BufTy).Contents (Elt F))) := rfl
theorem val_main_v225 (V : Valuation τ sig (Elt F)) :
    after ops V (no_index (Proc.devRef .tc main_v225)) = ((extractStridedSlice S1x512 ![4, 0] · slices_S5x512_S1x512_4_0) : (⟨S5x512, .f32⟩ : BufTy).Contents (Elt F) → (⟨S1x512, .f32⟩ : BufTy).Contents (Elt F)) (after ops V (Proc.devRef .tc main_arg11)) :=
  ops_writesAre.read_unary op_360 V (not_written_from (360 + 1) (by decide)) (not_written_from 360 (by decide))

private theorem op_361 : (ops : List (HloOp τ sig (Elt F)))[361]? = some (StableHlo.reshape main_v225 main_v226 rfl shapeCasts_S1x512_S512) := rfl
theorem val_main_v226 (V : Valuation τ sig (Elt F)) :
    after ops V (no_index (Proc.devRef .tc main_v226)) = shapeCast S512 (after ops V (Proc.devRef .tc main_v225)) shapeCasts_S1x512_S512 :=
  ops_writesAre.read_reshape op_361 V (not_written_from (361 + 1) (by decide)) (not_written_from 361 (by decide))

private theorem op_362 : (ops : List (HloOp τ sig (Elt F)))[362]? = some (StableHlo.unary main_arg12 main_v227 ((extractStridedSlice S1x512 ![4, 0] · slices_S5x512_S1x512_4_0) : (⟨S5x512, .f32⟩ : BufTy).Contents (Elt F) → (⟨S1x512, .f32⟩ : BufTy).Contents (Elt F))) := rfl
theorem val_main_v227 (V : Valuation τ sig (Elt F)) :
    after ops V (no_index (Proc.devRef .tc main_v227)) = ((extractStridedSlice S1x512 ![4, 0] · slices_S5x512_S1x512_4_0) : (⟨S5x512, .f32⟩ : BufTy).Contents (Elt F) → (⟨S1x512, .f32⟩ : BufTy).Contents (Elt F)) (after ops V (Proc.devRef .tc main_arg12)) :=
  ops_writesAre.read_unary op_362 V (not_written_from (362 + 1) (by decide)) (not_written_from 362 (by decide))

private theorem op_363 : (ops : List (HloOp τ sig (Elt F)))[363]? = some (StableHlo.reshape main_v227 main_v228 rfl shapeCasts_S1x512_S512) := rfl
theorem val_main_v228 (V : Valuation τ sig (Elt F)) :
    after ops V (no_index (Proc.devRef .tc main_v228)) = shapeCast S512 (after ops V (Proc.devRef .tc main_v227)) shapeCasts_S1x512_S512 :=
  ops_writesAre.read_reshape op_363 V (not_written_from (363 + 1) (by decide)) (not_written_from 363 (by decide))

private theorem op_364 : (ops : List (HloOp τ sig (Elt F)))[364]? = some (StableHlo.nullary main_cst_29 (constant S_ .f32 0x00000000#32)) := rfl
theorem val_main_cst_29 (V : Valuation τ sig (Elt F)) :
    after ops V (no_index (Proc.devRef .tc main_cst_29)) = (constant S_ .f32 0x00000000#32) :=
  ops_writesAre.read_nullary op_364 V (not_written_from (364 + 1) (by decide))

private theorem op_365 : (ops : List (HloOp τ sig (Elt F)))[365]? = some (StableHlo.binary main_v224 main_cst_29 main_v229 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_v229 (V : Valuation τ sig (Elt F)) :
    after ops V (no_index (Proc.devRef .tc main_v229)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v224)) (after ops V (Proc.devRef .tc main_cst_29)) :=
  ops_writesAre.read_binary op_365 V (not_written_from (365 + 1) (by decide)) (not_written_from 365 (by decide)) (not_written_from 365 (by decide))

private theorem op_366 : (ops : List (HloOp τ sig (Elt F)))[366]? = some (StableHlo.nullary main_cst_30 (constant S_ .f32 0x461C4000#32)) := rfl
theorem val_main_cst_30 (V : Valuation τ sig (Elt F)) :
    after ops V (no_index (Proc.devRef .tc main_cst_30)) = (constant S_ .f32 0x461C4000#32) :=
  ops_writesAre.read_nullary op_366 V (not_written_from (366 + 1) (by decide))

private theorem op_367 : (ops : List (HloOp τ sig (Elt F)))[367]? = some (StableHlo.unary main_cst_30 main_v230 (broadcastInDim S512 ![] bcast_S_S512 : (⟨S_, .f32⟩ : BufTy).Contents (Elt F) → (⟨S512, .f32⟩ : BufTy).Contents (Elt F))) := rfl
theorem val_main_v230 (V : Valuation τ sig (Elt F)) :
    after ops V (no_index (Proc.devRef .tc main_v230)) = (broadcastInDim S512 ![] bcast_S_S512 : (⟨S_, .f32⟩ : BufTy).Contents (Elt F) → (⟨S512, .f32⟩ : BufTy).Contents (Elt F)) (after ops V (Proc.devRef .tc main_cst_30)) :=
  ops_writesAre.read_unary op_367 V (not_written_from (367 + 1) (by decide)) (not_written_from 367 (by decide))

private theorem op_368 : (ops : List (HloOp τ sig (Elt F)))[368]? = some (StableHlo.binary main_v229 main_v230 main_v231 (Host.divf : (⟨S512, .f32⟩ : BufTy).Contents (Elt F) → (⟨S512, .f32⟩ : BufTy).Contents (Elt F) → (⟨S512, .f32⟩ : BufTy).Contents (Elt F))) := rfl
theorem val_main_v231 (V : Valuation τ sig (Elt F)) :
    after ops V (no_index (Proc.devRef .tc main_v231)) = (Host.divf : (⟨S512, .f32⟩ : BufTy).Contents (Elt F) → (⟨S512, .f32⟩ : BufTy).Contents (Elt F) → (⟨S512, .f32⟩ : BufTy).Contents (Elt F)) (after ops V (Proc.devRef .tc main_v229)) (after ops V (Proc.devRef .tc main_v230)) :=
  ops_writesAre.read_binary op_368 V (not_written_from (368 + 1) (by decide)) (not_written_from 368 (by decide)) (not_written_from 368 (by decide))

private theorem op_369 : (ops : List (HloOp τ sig (Elt F)))[369]? = some (StableHlo.nullary main_c_31 (constantI S_ 32 0#32)) := rfl
theorem val_main_c_31 (V : Valuation τ sig (Elt F)) :
    after ops V (no_index (Proc.devRef .tc main_c_31)) = (constantI S_ 32 0#32) :=
  ops_writesAre.read_nullary op_369 V (not_written_from (369 + 1) (by decide))

private theorem op_370 : (ops : List (HloOp τ sig (Elt F)))[370]? = some (StableHlo.nullary main_call14_cst ((constant S_ .f32 0x00000000#32) : (⟨S_, .f32⟩ : BufTy).Contents (Elt F))) := rfl
theorem val_main_call14_cst (V : Valuation τ sig (Elt F)) :
    after ops V (no_index (Proc.devRef .tc main_call14_cst)) = ((constant S_ .f32 0x00000000#32) : (⟨S_, .f32⟩ : BufTy).Contents (Elt F)) :=
  ops_writesAre.read_nullary op_370 V (not_written_from (370 + 1) (by decide))

private theorem op_371 : (ops : List (HloOp τ sig (Elt F)))[371]? = some (StableHlo.binary main_v224 main_call14_cst main_call14_v0 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call14_v0 (V : Valuation τ sig (Elt F)) :
    after ops V (no_index (Proc.devRef .tc main_call14_v0)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_v224)) (after ops V (Proc.devRef .tc main_call14_cst)) :=
  ops_writesAre.read_binary op_371 V (not_written_from (371 + 1) (by decide)) (not_written_from 371 (by decide)) (not_written_from 371 (by decide))

private theorem op_372 : (ops : List (HloOp τ sig (Elt F)))[372]? = some (StableHlo.unary main_call14_v0 main_call14_v1 ((broadcastInDim S1x512 ![1] bcast_S512_S1x512_1) : (⟨S512, .f32⟩ : BufTy).Contents (Elt F) → (⟨S1x512, .f32⟩ : BufTy).Contents (Elt F))) := rfl
theorem val_main_call14_v1 (V : Valuation τ sig (Elt F)) :
    after ops V (no_index (Proc.devRef .tc main_call14_v1)) = ((broadcastInDim S1x512 ![1] bcast_S512_S1x512_1) : (⟨S512, .f32⟩ : BufTy).Contents (Elt F) → (⟨S1x512, .f32⟩ : BufTy).Contents (Elt F)) (after ops V (Proc.devRef .tc main_call14_v0)) :=
  ops_writesAre.read_unary op_372 V (not_written_from (372 + 1) (by decide)) (not_written_from 372 (by decide))

private theorem op_373 : (ops : List (HloOp τ sig (Elt F)))[373]? = some (StableHlo.nullary main_call14_cst_0 ((constant S_ .f32 0x461C4000#32) : (⟨S_, .f32⟩ : BufTy).Contents (Elt F))) := rfl
theorem val_main_call14_cst_0 (V : Valuation τ sig (Elt F)) :
    after ops V (no_index (Proc.devRef .tc main_call14_cst_0)) = ((constant S_ .f32 0x461C4000#32) : (⟨S_, .f32⟩ : BufTy).Contents (Elt F)) :=
  ops_writesAre.read_nullary op_373 V (not_written_from (373 + 1) (by decide))

private theorem op_374 : (ops : List (HloOp τ sig (Elt F)))[374]? = some (StableHlo.unary main_call14_cst_0 main_call14_v2 ((broadcastInDim S1x512 ![] bcast_S_S1x512) : (⟨S_, .f32⟩ : BufTy).Contents (Elt F) → (⟨S1x512, .f32⟩ : BufTy).Contents (Elt F))) := rfl
theorem val_main_call14_v2 (V : Valuation τ sig (Elt F)) :
    after ops V (no_index (Proc.devRef .tc main_call14_v2)) = ((broadcastInDim S1x512 ![] bcast_S_S1x512) : (⟨S_, .f32⟩ : BufTy).Contents (Elt F) → (⟨S1x512, .f32⟩ : BufTy).Contents (Elt F)) (after ops V (Proc.devRef .tc main_call14_cst_0)) :=
  ops_writesAre.read_unary op_374 V (not_written_from (374 + 1) (by decide)) (not_written_from 374 (by decide))

private theorem op_375 : (ops : List (HloOp τ sig (Elt F)))[375]? = some (StableHlo.binary main_call14_v1 main_call14_v2 main_call14_v3 (Host.divf : (⟨S1x512, .f32⟩ : BufTy).Contents (Elt F) → (⟨S1x512, .f32⟩ : BufTy).Contents (Elt F) → (⟨S1x512, .f32⟩ : BufTy).Contents (Elt F))) := rfl
theorem val_main_call14_v3 (V : Valuation τ sig (Elt F)) :
    after ops V (no_index (Proc.devRef .tc main_call14_v3)) = (Host.divf : (⟨S1x512, .f32⟩ : BufTy).Contents (Elt F) → (⟨S1x512, .f32⟩ : BufTy).Contents (Elt F) → (⟨S1x512, .f32⟩ : BufTy).Contents (Elt F)) (after ops V (Proc.devRef .tc main_call14_v1)) (after ops V (Proc.devRef .tc main_call14_v2)) :=
  ops_writesAre.read_binary op_375 V (not_written_from (375 + 1) (by decide)) (not_written_from 375 (by decide)) (not_written_from 375 (by decide))

private theorem op_376 : (ops : List (HloOp τ sig (Elt F)))[376]? = some (StableHlo.unary main_call14_v3 main_call14_v4 ((broadcastInDim S10000x512 ![0, 1] bcast_S1x512_S10000x512_0_1) : (⟨S1x512, .f32⟩ : BufTy).Contents (Elt F) → (⟨S10000x512, .f32⟩ : BufTy).Contents (Elt F))) := rfl
theorem val_main_call14_v4 (V : Valuation τ sig (Elt F)) :
    after ops V (no_index (Proc.devRef .tc main_call14_v4)) = ((broadcastInDim S10000x512 ![0, 1] bcast_S1x512_S10000x512_0_1) : (⟨S1x512, .f32⟩ : BufTy).Contents (Elt F) → (⟨S10000x512, .f32⟩ : BufTy).Contents (Elt F)) (after ops V (Proc.devRef .tc main_call14_v3)) :=
  ops_writesAre.read_unary op_376 V (not_written_from (376 + 1) (by decide)) (not_written_from 376 (by decide))

private theorem op_377 : (ops : List (HloOp τ sig (Elt F)))[377]? = some (StableHlo.binary main_v224 main_call14_v4 main_call14_v5 (subf : (⟨S10000x512, .f32⟩ : BufTy).Contents (Elt F) → (⟨S10000x512, .f32⟩ : BufTy).Contents (Elt F) → (⟨S10000x512, .f32⟩ : BufTy).Contents (Elt F))) := rfl
theorem val_main_call14_v5 (V : Valuation τ sig (Elt F)) :
    after ops V (no_index (Proc.devRef .tc main_call14_v5)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v224)) (after ops V (Proc.devRef .tc main_call14_v4)) :=
  ops_writesAre.read_binary op_377 V (not_written_from (377 + 1) (by decide)) (not_written_from 377 (by decide)) (not_written_from 377 (by decide))

private theorem op_378 : (ops : List (HloOp τ sig (Elt F)))[378]? = some (StableHlo.binary main_call14_v5 main_call14_v5 main_call14_v6 (mulf : (⟨S10000x512, .f32⟩ : BufTy).Contents (Elt F) → (⟨S10000x512, .f32⟩ : BufTy).Contents (Elt F) → (⟨S10000x512, .f32⟩ : BufTy).Contents (Elt F))) := rfl
theorem val_main_call14_v6 (V : Valuation τ sig (Elt F)) :
    after ops V (no_index (Proc.devRef .tc main_call14_v6)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_call14_v5)) (after ops V (Proc.devRef .tc main_call14_v5)) :=
  ops_writesAre.read_binary op_378 V (not_written_from (378 + 1) (by decide)) (not_written_from 378 (by decide)) (not_written_from 378 (by decide))

private theorem op_379 : (ops : List (HloOp τ sig (Elt F)))[379]? = some (StableHlo.unary main_c_31 main_call14_v7 ((sitofp .f32) : (⟨S_, .i32⟩ : BufTy).Contents (Elt F) → (⟨S_, .f32⟩ : BufTy).Contents (Elt F))) := rfl
theorem val_main_call14_v7 (V : Valuation τ sig (Elt F)) :
    after ops V (no_index (Proc.devRef .tc main_call14_v7)) = ((sitofp .f32) : (⟨S_, .i32⟩ : BufTy).Contents (Elt F) → (⟨S_, .f32⟩ : BufTy).Contents (Elt F)) (after ops V (Proc.devRef .tc main_c_31)) :=
  ops_writesAre.read_unary op_379 V (not_written_from (379 + 1) (by decide)) (not_written_from 379 (by decide))

private theorem op_380 : (ops : List (HloOp τ sig (Elt F)))[380]? = some (StableHlo.nullary main_call14_cst_1 ((constant S_ .f32 0x461C4000#32) : (⟨S_, .f32⟩ : BufTy).Contents (Elt F))) := rfl
theorem val_main_call14_cst_1 (V : Valuation τ sig (Elt F)) :
    after ops V (no_index (Proc.devRef .tc main_call14_cst_1)) = ((constant S_ .f32 0x461C4000#32) : (⟨S_, .f32⟩ : BufTy).Contents (Elt F)) :=
  ops_writesAre.read_nullary op_380 V (not_written_from (380 + 1) (by decide))

private theorem op_381 : (ops : List (HloOp τ sig (Elt F)))[381]? = some (StableHlo.binary main_call14_cst_1 main_call14_v7 main_call14_v8 (subf : (⟨S_, .f32⟩ : BufTy).Contents (Elt F) → (⟨S_, .f32⟩ : BufTy).Contents (Elt F) → (⟨S_, .f32⟩ : BufTy).Contents (Elt F))) := rfl
theorem val_main_call14_v8 (V : Valuation τ sig (Elt F)) :
    after ops V (no_index (Proc.devRef .tc main_call14_v8)) = (subf : (⟨S_, .f32⟩ : BufTy).Contents (Elt F) → (⟨S_, .f32⟩ : BufTy).Contents (Elt F) → (⟨S_, .f32⟩ : BufTy).Contents (Elt F)) (after ops V (Proc.devRef .tc main_call14_cst_1)) (after ops V (Proc.devRef .tc main_call14_v7)) :=
  ops_writesAre.read_binary op_381 V (not_written_from (381 + 1) (by decide)) (not_written_from 381 (by decide)) (not_written_from 381 (by decide))

private theorem op_382 : (ops : List (HloOp τ sig (Elt F)))[382]? = some (StableHlo.nullary main_call14_cst_2 ((constant S_ .f32 0x00000000#32) : (⟨S_, .f32⟩ : BufTy).Contents (Elt F))) := rfl
theorem val_main_call14_cst_2 (V : Valuation τ sig (Elt F)) :
    after ops V (no_index (Proc.devRef .tc main_call14_cst_2)) = ((constant S_ .f32 0x00000000#32) : (⟨S_, .f32⟩ : BufTy).Contents (Elt F)) :=
  ops_writesAre.read_nullary op_382 V (not_written_from (382 + 1) (by decide))

private theorem op_383 : (ops : List (HloOp τ sig (Elt F)))[383]? = some (StableHlo.binary main_call14_v6 main_call14_cst_2 main_call14_v9 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F))) := rfl
theorem val_main_call14_v9 (V : Valuation τ sig (Elt F)) :
    after ops V (no_index (Proc.devRef .tc main_call14_v9)) = ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)) (after ops V (Proc.devRef .tc main_call14_v6)) (after ops V (Proc.devRef .tc main_call14_cst_2)) :=
  ops_writesAre.read_binary op_383 V (not_written_from (383 + 1) (by decide)) (not_written_from 383 (by decide)) (not_written_from 383 (by decide))

private theorem op_384 : (ops : List (HloOp τ sig (Elt F)))[384]? = some (StableHlo.unary main_call14_v8 main_call14_v10 ((broadcastInDim S512 ![] bcast_S_S512) : (⟨S_, .f32⟩ : BufTy).Contents (Elt F) → (⟨S512, .f32⟩ : BufTy).Contents (Elt F))) := rfl
theorem val_main_call14_v10 (V : Valuation τ sig (Elt F)) :
    after ops V (no_index (Proc.devRef .tc main_call14_v10)) = ((broadcastInDim S512 ![] bcast_S_S512) : (⟨S_, .f32⟩ : BufTy).Contents (Elt F) → (⟨S512, .f32⟩ : BufTy).Contents (Elt F)) (after ops V (Proc.devRef .tc main_call14_v8)) :=
  ops_writesAre.read_unary op_384 V (not_written_from (384 + 1) (by decide)) (not_written_from 384 (by decide))

private theorem op_385 : (ops : List (HloOp τ sig (Elt F)))[385]? = some (StableHlo.binary main_call14_v9 main_call14_v10 main_call14_v11 (Host.divf : (⟨S512, .f32⟩ : BufTy).Contents (Elt F) → (⟨S512, .f32⟩ : BufTy).Contents (Elt F) → (⟨S512, .f32⟩ : BufTy).Contents (Elt F))) := rfl
theorem val_main_call14_v11 (V : Valuation τ sig (Elt F)) :
    after ops V (no_index (Proc.devRef .tc main_call14_v11)) = (Host.divf : (⟨S512, .f32⟩ : BufTy).Contents (Elt F) → (⟨S512, .f32⟩ : BufTy).Contents (Elt F) → (⟨S512, .f32⟩ : BufTy).Contents (Elt F)) (after ops V (Proc.devRef .tc main_call14_v9)) (after ops V (Proc.devRef .tc main_call14_v10)) :=
  ops_writesAre.read_binary op_385 V (not_written_from (385 + 1) (by decide)) (not_written_from 385 (by decide)) (not_written_from 385 (by decide))

private theorem op_386 : (ops : List (HloOp τ sig (Elt F)))[386]? = some (StableHlo.nullary main_call14_cst_3 ((constant S_ .f32 0x00000000#32) : (⟨S_, .f32⟩ : BufTy).Contents (Elt F))) := rfl
theorem val_main_call14_cst_3 (V : Valuation τ sig (Elt F)) :
    after ops V (no_index (Proc.devRef .tc main_call14_cst_3)) = ((constant S_ .f32 0x00000000#32) : (⟨S_, .f32⟩ : BufTy).Contents (Elt F)) :=
  ops_writesAre.read_nullary op_386 V (not_written_from (386 + 1) (by decide))

private theorem op_387 : (ops : List (HloOp τ sig (Elt F)))[387]? = some (StableHlo.binary main_call14_v8 main_call14_cst_3 main_call14_v12 ((cmpf .ogt) : (⟨S_, .f32⟩ : BufTy).Contents (Elt F) → (⟨S_, .f32⟩ : BufTy).Contents (Elt F) → (⟨S_, .i1⟩ : BufTy).Contents (Elt F))) := rfl
theorem val_main_call14_v12 (V : Valuation τ sig (Elt F)) :
    after ops V (no_index (Proc.devRef .tc main_call14_v12)) = ((cmpf .ogt) : (⟨S_, .f32⟩ : BufTy).Contents (Elt F) → (⟨S_, .f32⟩ : BufTy).Contents (Elt F) → (⟨S_, .i1⟩ : BufTy).Contents (Elt F)) (after ops V (Proc.devRef .tc main_call14_v8)) (after ops V (Proc.devRef .tc main_call14_cst_3)) :=
  ops_writesAre.read_binary op_387 V (not_written_from (387 + 1) (by decide)) (not_written_from 387 (by decide)) (not_written_from 387 (by decide))

private theorem op_388 : (ops : List (HloOp τ sig (Elt F)))[388]? = some (StableHlo.nullary main_call14_cst_4 ((constant S_ .f32 0x7FC00000#32) : (⟨S_, .f32⟩ : BufTy).Contents (Elt F))) := rfl
theorem val_main_call14_cst_4 (V : Valuation τ sig (Elt F)) :
    after ops V (no_index (Proc.devRef .tc main_call14_cst_4)) = ((constant S_ .f32 0x7FC00000#32) : (⟨S_, .f32⟩ : BufTy).Contents (Elt F)) :=
  ops_writesAre.read_nullary op_388 V (not_written_from (388 + 1) (by decide))

private theorem op_389 : (ops : List (HloOp τ sig (Elt F)))[389]? = some (StableHlo.unary main_call14_cst_4 main_call14_call0_v0 (id : (⟨S_, .f32⟩ : BufTy).Contents (Elt F) → (⟨S_, .f32⟩ : BufTy).Contents (Elt F))) := rfl
theorem val_main_call14_call0_v0 (V : Valuation τ sig (Elt F)) :
    after ops V (no_index (Proc.devRef .tc main_call14_call0_v0)) = (id : (⟨S_, .f32⟩ : BufTy).Contents (Elt F) → (⟨S_, .f32⟩ : BufTy).Contents (Elt F)) (after ops V (Proc.devRef .tc main_call14_cst_4)) :=
  ops_writesAre.read_unary op_389 V (not_written_from (389 + 1) (by decide)) (not_written_from 389 (by decide))

private theorem op_390 : (ops : List (HloOp τ sig (Elt F)))[390]? = some (StableHlo.unary main_call14_call0_v0 main_call14_call0_v1 ((broadcastInDim S512 ![] bcast_S_S512) : (⟨S_, .f32⟩ : BufTy).Contents (Elt F) → (⟨S512, .f32⟩ : BufTy).Contents (Elt F))) := rfl
theorem val_main_call14_call0_v1 (V : Valuation τ sig (Elt F)) :
    after ops V (no_index (Proc.devRef .tc main_call14_call0_v1)) = ((broadcastInDim S512 ![] bcast_S_S512) : (⟨S_, .f32⟩ : BufTy).Contents (Elt F) → (⟨S512, .f32⟩ : BufTy).Contents (Elt F)) (after ops V (Proc.devRef .tc main_call14_call0_v0)) :=
  ops_writesAre.read_unary op_390 V (not_written_from (390 + 1) (by decide)) (not_written_from 390 (by decide))

private theorem op_391 : (ops : List (HloOp τ sig (Elt F)))[391]? = some (StableHlo.ternary main_call14_v12 main_call14_v11 main_call14_call0_v1 main_v232 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F))) := rfl
theorem val_main_v232 (V : Valuation τ sig (Elt F)) :
    after ops V (no_index (Proc.devRef .tc main_v232)) = ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)) (after ops V (Proc.devRef .tc main_call14_v12)) (after ops V (Proc.devRef .tc main_call14_v11)) (after ops V (Proc.devRef .tc main_call14_call0_v1)) :=
  ops_writesAre.read_ternary op_391 V (not_written_from (391 + 1) (by decide)) (not_written_from 391 (by decide)) (not_written_from 391 (by decide)) (not_written_from 391 (by decide))

private theorem op_392 : (ops : List (HloOp τ sig (Elt F)))[392]? = some (StableHlo.unary main_v231 main_v233 (broadcastInDim S1x512 ![1] bcast_S512_S1x512_1 : (⟨S512, .f32⟩ : BufTy).Contents (Elt F) → (⟨S1x512, .f32⟩ : BufTy).Contents (Elt F))) := rfl
theorem val_main_v233 (V : Valuation τ sig (Elt F)) :
    after ops V (no_index (Proc.devRef .tc main_v233)) = (broadcastInDim S1x512 ![1] bcast_S512_S1x512_1 : (⟨S512, .f32⟩ : BufTy).Contents (Elt F) → (⟨S1x512, .f32⟩ : BufTy).Contents (Elt F)) (after ops V (Proc.devRef .tc main_v231)) :=
  ops_writesAre.read_unary op_392 V (not_written_from (392 + 1) (by decide)) (not_written_from 392 (by decide))

private theorem op_393 : (ops : List (HloOp τ sig (Elt F)))[393]? = some (StableHlo.unary main_v233 main_v234 (broadcastInDim S10000x512 ![0, 1] bcast_S1x512_S10000x512_0_1 : (⟨S1x512, .f32⟩ : BufTy).Contents (Elt F) → (⟨S10000x512, .f32⟩ : BufTy).Contents (Elt F))) := rfl
theorem val_main_v234 (V : Valuation τ sig (Elt F)) :
    after ops V (no_index (Proc.devRef .tc main_v234)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v233)) :=
  ops_writesAre.read_unary op_393 V (not_written_from (393 + 1) (by decide)) (not_written_from 393 (by decide))

private theorem op_394 : (ops : List (HloOp τ sig (Elt F)))[394]? = some (StableHlo.binary main_v224 main_v234 main_v235 (subf : (⟨S10000x512, .f32⟩ : BufTy).Contents (Elt F) → (⟨S10000x512, .f32⟩ : BufTy).Contents (Elt F) → (⟨S10000x512, .f32⟩ : BufTy).Contents (Elt F))) := rfl
theorem val_main_v235 (V : Valuation τ sig (Elt F)) :
    after ops V (no_index (Proc.devRef .tc main_v235)) = (subf : (⟨S10000x512, .f32⟩ : BufTy).Contents (Elt F) → (⟨S10000x512, .f32⟩ : BufTy).Contents (Elt F) → (⟨S10000x512, .f32⟩ : BufTy).Contents (Elt F)) (after ops V (Proc.devRef .tc main_v224)) (after ops V (Proc.devRef .tc main_v234)) :=
  ops_writesAre.read_binary op_394 V (not_written_from (394 + 1) (by decide)) (not_written_from 394 (by decide)) (not_written_from 394 (by decide))

private theorem op_395 : (ops : List (HloOp τ sig (Elt F)))[395]? = some (StableHlo.nullary main_cst_32 (constant S_ .f32 0x3727C5AC#32)) := rfl
theorem val_main_cst_32 (V : Valuation τ sig (Elt F)) :
    after ops V (no_index (Proc.devRef .tc main_cst_32)) = (constant S_ .f32 0x3727C5AC#32) :=
  ops_writesAre.read_nullary op_395 V (not_written_from (395 + 1) (by decide))

private theorem op_396 : (ops : List (HloOp τ sig (Elt F)))[396]? = some (StableHlo.unary main_cst_32 main_v236 (broadcastInDim S512 ![] bcast_S_S512 : (⟨S_, .f32⟩ : BufTy).Contents (Elt F) → (⟨S512, .f32⟩ : BufTy).Contents (Elt F))) := rfl
theorem val_main_v236 (V : Valuation τ sig (Elt F)) :
    after ops V (no_index (Proc.devRef .tc main_v236)) = (broadcastInDim S512 ![] bcast_S_S512 : (⟨S_, .f32⟩ : BufTy).Contents (Elt F) → (⟨S512, .f32⟩ : BufTy).Contents (Elt F)) (after ops V (Proc.devRef .tc main_cst_32)) :=
  ops_writesAre.read_unary op_396 V (not_written_from (396 + 1) (by decide)) (not_written_from 396 (by decide))

private theorem op_397 : (ops : List (HloOp τ sig (Elt F)))[397]? = some (StableHlo.binary main_v232 main_v236 main_v237 (addf : (⟨S512, .f32⟩ : BufTy).Contents (Elt F) → (⟨S512, .f32⟩ : BufTy).Contents (Elt F) → (⟨S512, .f32⟩ : BufTy).Contents (Elt F))) := rfl
theorem val_main_v237 (V : Valuation τ sig (Elt F)) :
    after ops V (no_index (Proc.devRef .tc main_v237)) = (addf : (⟨S512, .f32⟩ : BufTy).Contents (Elt F) → (⟨S512, .f32⟩ : BufTy).Contents (Elt F) → (⟨S512, .f32⟩ : BufTy).Contents (Elt F)) (after ops V (Proc.devRef .tc main_v232)) (after ops V (Proc.devRef .tc main_v236)) :=
  ops_writesAre.read_binary op_397 V (not_written_from (397 + 1) (by decide)) (not_written_from 397 (by decide)) (not_written_from 397 (by decide))

private theorem op_398 : (ops : List (HloOp τ sig (Elt F)))[398]? = some (StableHlo.unary main_v237 main_v238 (Host.rsqrt : (⟨S512, .f32⟩ : BufTy).Contents (Elt F) → (⟨S512, .f32⟩ : BufTy).Contents (Elt F))) := rfl
theorem val_main_v238 (V : Valuation τ sig (Elt F)) :
    after ops V (no_index (Proc.devRef .tc main_v238)) = (Host.rsqrt : (⟨S512, .f32⟩ : BufTy).Contents (Elt F) → (⟨S512, .f32⟩ : BufTy).Contents (Elt F)) (after ops V (Proc.devRef .tc main_v237)) :=
  ops_writesAre.read_unary op_398 V (not_written_from (398 + 1) (by decide)) (not_written_from 398 (by decide))

private theorem op_399 : (ops : List (HloOp τ sig (Elt F)))[399]? = some (StableHlo.binary main_v226 main_v238 main_v239 (mulf : (⟨S512, .f32⟩ : BufTy).Contents (Elt F) → (⟨S512, .f32⟩ : BufTy).Contents (Elt F) → (⟨S512, .f32⟩ : BufTy).Contents (Elt F))) := rfl
theorem val_main_v239 (V : Valuation τ sig (Elt F)) :
    after ops V (no_index (Proc.devRef .tc main_v239)) = (mulf : (⟨S512, .f32⟩ : BufTy).Contents (Elt F) → (⟨S512, .f32⟩ : BufTy).Contents (Elt F) → (⟨S512, .f32⟩ : BufTy).Contents (Elt F)) (after ops V (Proc.devRef .tc main_v226)) (after ops V (Proc.devRef .tc main_v238)) :=
  ops_writesAre.read_binary op_399 V (not_written_from (399 + 1) (by decide)) (not_written_from 399 (by decide)) (not_written_from 399 (by decide))

private theorem op_400 : (ops : List (HloOp τ sig (Elt F)))[400]? = some (StableHlo.unary main_v239 main_v240 (broadcastInDim S1x512 ![1] bcast_S512_S1x512_1 : (⟨S512, .f32⟩ : BufTy).Contents (Elt F) → (⟨S1x512, .f32⟩ : BufTy).Contents (Elt F))) := rfl
theorem val_main_v240 (V : Valuation τ sig (Elt F)) :
    after ops V (no_index (Proc.devRef .tc main_v240)) = (broadcastInDim S1x512 ![1] bcast_S512_S1x512_1 : (⟨S512, .f32⟩ : BufTy).Contents (Elt F) → (⟨S1x512, .f32⟩ : BufTy).Contents (Elt F)) (after ops V (Proc.devRef .tc main_v239)) :=
  ops_writesAre.read_unary op_400 V (not_written_from (400 + 1) (by decide)) (not_written_from 400 (by decide))

private theorem op_401 : (ops : List (HloOp τ sig (Elt F)))[401]? = some (StableHlo.unary main_v240 main_v241 (broadcastInDim S10000x512 ![0, 1] bcast_S1x512_S10000x512_0_1 : (⟨S1x512, .f32⟩ : BufTy).Contents (Elt F) → (⟨S10000x512, .f32⟩ : BufTy).Contents (Elt F))) := rfl
theorem val_main_v241 (V : Valuation τ sig (Elt F)) :
    after ops V (no_index (Proc.devRef .tc main_v241)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v240)) :=
  ops_writesAre.read_unary op_401 V (not_written_from (401 + 1) (by decide)) (not_written_from 401 (by decide))

private theorem op_402 : (ops : List (HloOp τ sig (Elt F)))[402]? = some (StableHlo.binary main_v235 main_v241 main_v242 (mulf : (⟨S10000x512, .f32⟩ : BufTy).Contents (Elt F) → (⟨S10000x512, .f32⟩ : BufTy).Contents (Elt F) → (⟨S10000x512, .f32⟩ : BufTy).Contents (Elt F))) := rfl
theorem val_main_v242 (V : Valuation τ sig (Elt F)) :
    after ops V (no_index (Proc.devRef .tc main_v242)) = (mulf : (⟨S10000x512, .f32⟩ : BufTy).Contents (Elt F) → (⟨S10000x512, .f32⟩ : BufTy).Contents (Elt F) → (⟨S10000x512, .f32⟩ : BufTy).Contents (Elt F)) (after ops V (Proc.devRef .tc main_v235)) (after ops V (Proc.devRef .tc main_v241)) :=
  ops_writesAre.read_binary op_402 V (not_written_from (402 + 1) (by decide)) (not_written_from 402 (by decide)) (not_written_from 402 (by decide))

private theorem op_403 : (ops : List (HloOp τ sig (Elt F)))[403]? = some (StableHlo.unary main_v228 main_v243 (broadcastInDim S1x512 ![1] bcast_S512_S1x512_1 : (⟨S512, .f32⟩ : BufTy).Contents (Elt F) → (⟨S1x512, .f32⟩ : BufTy).Contents (Elt F))) := rfl
theorem val_main_v243 (V : Valuation τ sig (Elt F)) :
    after ops V (no_index (Proc.devRef .tc main_v243)) = (broadcastInDim S1x512 ![1] bcast_S512_S1x512_1 : (⟨S512, .f32⟩ : BufTy).Contents (Elt F) → (⟨S1x512, .f32⟩ : BufTy).Contents (Elt F)) (after ops V (Proc.devRef .tc main_v228)) :=
  ops_writesAre.read_unary op_403 V (not_written_from (403 + 1) (by decide)) (not_written_from 403 (by decide))

private theorem op_404 : (ops : List (HloOp τ sig (Elt F)))[404]? = some (StableHlo.unary main_v243 main_v244 (broadcastInDim S10000x512 ![0, 1] bcast_S1x512_S10000x512_0_1 : (⟨S1x512, .f32⟩ : BufTy).Contents (Elt F) → (⟨S10000x512, .f32⟩ : BufTy).Contents (Elt F))) := rfl
theorem val_main_v244 (V : Valuation τ sig (Elt F)) :
    after ops V (no_index (Proc.devRef .tc main_v244)) = (broadcastInDim S10000x512 ![0, 1] bcast_S1x512_S10000x512_0_1 : (⟨S1x512, .f32⟩ : BufTy).Contents (Elt F) → (⟨S10000x512, .f32⟩ : BufTy).Contents (Elt F)) (after ops V (Proc.devRef .tc main_v243)) :=
  ops_writesAre.read_unary op_404 V (not_written_from (404 + 1) (by decide)) (not_written_from 404 (by decide))

private theorem op_405 : (ops : List (HloOp τ sig (Elt F)))[405]? = some (StableHlo.binary main_v242 main_v244 main_v245 (addf : (⟨S10000x512, .f32⟩ : BufTy).Contents (Elt F) → (⟨S10000x512, .f32⟩ : BufTy).Contents (Elt F) → (⟨S10000x512, .f32⟩ : BufTy).Contents (Elt F))) := rfl
theorem val_main_v245 (V : Valuation τ sig (Elt F)) :
    after ops V (no_index (Proc.devRef .tc main_v245)) = (addf : (⟨S10000x512, .f32⟩ : BufTy).Contents (Elt F) → (⟨S10000x512, .f32⟩ : BufTy).Contents (Elt F) → (⟨S10000x512, .f32⟩ : BufTy).Contents (Elt F)) (after ops V (Proc.devRef .tc main_v242)) (after ops V (Proc.devRef .tc main_v244)) :=
  ops_writesAre.read_binary op_405 V (not_written_from (405 + 1) (by decide)) (not_written_from 405 (by decide)) (not_written_from 405 (by decide))

private theorem op_406 : (ops : List (HloOp τ sig (Elt F)))[406]? = some (StableHlo.nullary main_cst_33 (constant S_ .f32 0x00000000#32)) := rfl
theorem val_main_cst_33 (V : Valuation τ sig (Elt F)) :
    after ops V (no_index (Proc.devRef .tc main_cst_33)) = (constant S_ .f32 0x00000000#32) :=
  ops_writesAre.read_nullary op_406 V (not_written_from (406 + 1) (by decide))

private theorem op_407 : (ops : List (HloOp τ sig (Elt F)))[407]? = some (StableHlo.unary main_cst_33 main_v246 (broadcastInDim S64x512 ![] bcast_S_S64x512 : (⟨S_, .f32⟩ : BufTy).Contents (Elt F) → (⟨S64x512, .f32⟩ : BufTy).Contents (Elt F))) := rfl
theorem val_main_v246 (V : Valuation τ sig (Elt F)) :
    after ops V (no_index (Proc.devRef .tc main_v246)) = (broadcastInDim S64x512 ![] bcast_S_S64x512 : (⟨S_, .f32⟩ : BufTy).Contents (Elt F) → (⟨S64x512, .f32⟩ : BufTy).Contents (Elt F)) (after ops V (Proc.devRef .tc main_cst_33)) :=
  ops_writesAre.read_unary op_407 V (not_written_from (407 + 1) (by decide)) (not_written_from 407 (by decide))

private theorem op_408 : (ops : List (HloOp τ sig (Elt F)))[408]? = some (StableHlo.unary main_arg2 main_v247 (broadcastInDim S10000x1 ![0] bcast_S10000_S10000x1_0 : (⟨S10000, .i32⟩ : BufTy).Contents (Elt F) → (⟨S10000x1, .i32⟩ : BufTy).Contents (Elt F))) := rfl
theorem val_main_v247 (V : Valuation τ sig (Elt F)) :
    after ops V (no_index (Proc.devRef .tc main_v247)) = (broadcastInDim S10000x1 ![0] bcast_S10000_S10000x1_0 : (⟨S10000, .i32⟩ : BufTy).Contents (Elt F) → (⟨S10000x1, .i32⟩ : BufTy).Contents (Elt F)) (after ops V (Proc.devRef .tc main_arg2)) :=
  ops_writesAre.read_unary op_408 V (not_written_from (408 + 1) (by decide)) (not_written_from 408 (by decide))

private theorem op_409 : (ops : List (HloOp τ sig (Elt F)))[409]? = some (StableHlo.ternary main_v246 main_v247 main_v245 main_v248 ((fun x i u => Host.scatterAdd scatter_S64x512_S10000x1_S10000x512_1_0_0_1 x i u) : (⟨S64x512, .f32⟩ : BufTy).Contents (Elt F) → (⟨S10000x1, .i32⟩ : BufTy).Contents (Elt F) → (⟨S10000x512, .f32⟩ : BufTy).Contents (Elt F) → (⟨S64x512, .f32⟩ : BufTy).Contents (Elt F))) := rfl
theorem val_main_v248 (V : Valuation τ sig (Elt F)) :
    after ops V (no_index (Proc.devRef .tc main_v248)) = ((fun x i u => Host.scatterAdd scatter_S64x512_S10000x1_S10000x512_1_0_0_1 x i u) : (⟨S64x512, .f32⟩ : BufTy).Contents (Elt F) → (⟨S10000x1, .i32⟩ : BufTy).Contents (Elt F) → (⟨S10000x512, .f32⟩ : BufTy).Contents (Elt F) → (⟨S64x512, .f32⟩ : BufTy).Contents (Elt F)) (after ops V (Proc.devRef .tc main_v246)) (after ops V (Proc.devRef .tc main_v247)) (after ops V (Proc.devRef .tc main_v245)) :=
  ops_writesAre.read_ternary op_409 V (not_written_from (409 + 1) (by decide)) (not_written_from 409 (by decide)) (not_written_from 409 (by decide)) (not_written_from 409 (by decide))

private theorem op_410 : (ops : List (HloOp τ sig (Elt F)))[410]? = some (StableHlo.nullary main_cst_34 (constant S_ .f32 0x3F800000#32)) := rfl
theorem val_main_cst_34 (V : Valuation τ sig (Elt F)) :
    after ops V (no_index (Proc.devRef .tc main_cst_34)) = (constant S_ .f32 0x3F800000#32) :=
  ops_writesAre.read_nullary op_410 V (not_written_from (410 + 1) (by decide))

private theorem op_411 : (ops : List (HloOp τ sig (Elt F)))[411]? = some (StableHlo.unary main_cst_34 main_v249 (broadcastInDim S10000 ![] bcast_S_S10000 : (⟨S_, .f32⟩ : BufTy).Contents (Elt F) → (⟨S10000, .f32⟩ : BufTy).Contents (Elt F))) := rfl
theorem val_main_v249 (V : Valuation τ sig (Elt F)) :
    after ops V (no_index (Proc.devRef .tc main_v249)) = (broadcastInDim S10000 ![] bcast_S_S10000 : (⟨S_, .f32⟩ : BufTy).Contents (Elt F) → (⟨S10000, .f32⟩ : BufTy).Contents (Elt F)) (after ops V (Proc.devRef .tc main_cst_34)) :=
  ops_writesAre.read_unary op_411 V (not_written_from (411 + 1) (by decide)) (not_written_from 411 (by decide))

private theorem op_412 : (ops : List (HloOp τ sig (Elt F)))[412]? = some (StableHlo.nullary main_cst_35 (constant S_ .f32 0x00000000#32)) := rfl
theorem val_main_cst_35 (V : Valuation τ sig (Elt F)) :
    after ops V (no_index (Proc.devRef .tc main_cst_35)) = (constant S_ .f32 0x00000000#32) :=
  ops_writesAre.read_nullary op_412 V (not_written_from (412 + 1) (by decide))

private theorem op_413 : (ops : List (HloOp τ sig (Elt F)))[413]? = some (StableHlo.unary main_cst_35 main_v250 (broadcastInDim S64 ![] bcast_S_S64 : (⟨S_, .f32⟩ : BufTy).Contents (Elt F) → (⟨S64, .f32⟩ : BufTy).Contents (Elt F))) := rfl
theorem val_main_v250 (V : Valuation τ sig (Elt F)) :
    after ops V (no_index (Proc.devRef .tc main_v250)) = (broadcastInDim S64 ![] bcast_S_S64 : (⟨S_, .f32⟩ : BufTy).Contents (Elt F) → (⟨S64, .f32⟩ : BufTy).Contents (Elt F)) (after ops V (Proc.devRef .tc main_cst_35)) :=
  ops_writesAre.read_unary op_413 V (not_written_from (413 + 1) (by decide)) (not_written_from 413 (by decide))

private theorem op_414 : (ops : List (HloOp τ sig (Elt F)))[414]? = some (StableHlo.unary main_arg2 main_v251 (broadcastInDim S10000x1 ![0] bcast_S10000_S10000x1_0 : (⟨S10000, .i32⟩ : BufTy).Contents (Elt F) → (⟨S10000x1, .i32⟩ : BufTy).Contents (Elt F))) := rfl
theorem val_main_v251 (V : Valuation τ sig (Elt F)) :
    after ops V (no_index (Proc.devRef .tc main_v251)) = (broadcastInDim S10000x1 ![0] bcast_S10000_S10000x1_0 : (⟨S10000, .i32⟩ : BufTy).Contents (Elt F) → (⟨S10000x1, .i32⟩ : BufTy).Contents (Elt F)) (after ops V (Proc.devRef .tc main_arg2)) :=
  ops_writesAre.read_unary op_414 V (not_written_from (414 + 1) (by decide)) (not_written_from 414 (by decide))

private theorem op_415 : (ops : List (HloOp τ sig (Elt F)))[415]? = some (StableHlo.ternary main_v250 main_v251 main_v249 main_v252 ((fun x i u => Host.scatterAdd scatter_S64_S10000x1_S10000_n_0_0_1 x i u) : (⟨S64, .f32⟩ : BufTy).Contents (Elt F) → (⟨S10000x1, .i32⟩ : BufTy).Contents (Elt F) → (⟨S10000, .f32⟩ : BufTy).Contents (Elt F) → (⟨S64, .f32⟩ : BufTy).Contents (Elt F))) := rfl
theorem val_main_v252 (V : Valuation τ sig (Elt F)) :
    after ops V (no_index (Proc.devRef .tc main_v252)) = ((fun x i u => Host.scatterAdd scatter_S64_S10000x1_S10000_n_0_0_1 x i u) : (⟨S64, .f32⟩ : BufTy).Contents (Elt F) → (⟨S10000x1, .i32⟩ : BufTy).Contents (Elt F) → (⟨S10000, .f32⟩ : BufTy).Contents (Elt F) → (⟨S64, .f32⟩ : BufTy).Contents (Elt F)) (after ops V (Proc.devRef .tc main_v250)) (after ops V (Proc.devRef .tc main_v251)) (after ops V (Proc.devRef .tc main_v249)) :=
  ops_writesAre.read_ternary op_415 V (not_written_from (415 + 1) (by decide)) (not_written_from 415 (by decide)) (not_written_from 415 (by decide)) (not_written_from 415 (by decide))

private theorem op_416 : (ops : List (HloOp τ sig (Elt F)))[416]? = some (StableHlo.nullary main_cst_36 (constant S_ .f32 0x3F800000#32)) := rfl
theorem val_main_cst_36 (V : Valuation τ sig (Elt F)) :
    after ops V (no_index (Proc.devRef .tc main_cst_36)) = (constant S_ .f32 0x3F800000#32) :=
  ops_writesAre.read_nullary op_416 V (not_written_from (416 + 1) (by decide))

private theorem op_417 : (ops : List (HloOp τ sig (Elt F)))[417]? = some (StableHlo.unary main_cst_36 main_v253 (broadcastInDim S64 ![] bcast_S_S64 : (⟨S_, .f32⟩ : BufTy).Contents (Elt F) → (⟨S64, .f32⟩ : BufTy).Contents (Elt F))) := rfl
theorem val_main_v253 (V : Valuation τ sig (Elt F)) :
    after ops V (no_index (Proc.devRef .tc main_v253)) = (broadcastInDim S64 ![] bcast_S_S64 : (⟨S_, .f32⟩ : BufTy).Contents (Elt F) → (⟨S64, .f32⟩ : BufTy).Contents (Elt F)) (after ops V (Proc.devRef .tc main_cst_36)) :=
  ops_writesAre.read_unary op_417 V (not_written_from (417 + 1) (by decide)) (not_written_from 417 (by decide))

private theorem op_418 : (ops : List (HloOp τ sig (Elt F)))[418]? = some (StableHlo.binary main_v252 main_v253 main_v254 (maximumf : (⟨S64, .f32⟩ : BufTy).Contents (Elt F) → (⟨S64, .f32⟩ : BufTy).Contents (Elt F) → (⟨S64, .f32⟩ : BufTy).Contents (Elt F))) := rfl
theorem val_main_v254 (V : Valuation τ sig (Elt F)) :
    after ops V (no_index (Proc.devRef .tc main_v254)) = (maximumf : (⟨S64, .f32⟩ : BufTy).Contents (Elt F) → (⟨S64, .f32⟩ : BufTy).Contents (Elt F) → (⟨S64, .f32⟩ : BufTy).Contents (Elt F)) (after ops V (Proc.devRef .tc main_v252)) (after ops V (Proc.devRef .tc main_v253)) :=
  ops_writesAre.read_binary op_418 V (not_written_from (418 + 1) (by decide)) (not_written_from 418 (by decide)) (not_written_from 418 (by decide))

private theorem op_419 : (ops : List (HloOp τ sig (Elt F)))[419]? = some (StableHlo.unary main_v254 main_v255 (broadcastInDim S64x1 ![0] bcast_S64_S64x1_0 : (⟨S64, .f32⟩ : BufTy).Contents (Elt F) → (⟨S64x1, .f32⟩ : BufTy).Contents (Elt F))) := rfl
theorem val_main_v255 (V : Valuation τ sig (Elt F)) :
    after ops V (no_index (Proc.devRef .tc main_v255)) = (broadcastInDim S64x1 ![0] bcast_S64_S64x1_0 : (⟨S64, .f32⟩ : BufTy).Contents (Elt F) → (⟨S64x1, .f32⟩ : BufTy).Contents (Elt F)) (after ops V (Proc.devRef .tc main_v254)) :=
  ops_writesAre.read_unary op_419 V (not_written_from (419 + 1) (by decide)) (not_written_from 419 (by decide))

private theorem op_420 : (ops : List (HloOp τ sig (Elt F)))[420]? = some (StableHlo.unary main_v255 main_v256 (broadcastInDim S64x512 ![0, 1] bcast_S64x1_S64x512_0_1 : (⟨S64x1, .f32⟩ : BufTy).Contents (Elt F) → (⟨S64x512, .f32⟩ : BufTy).Contents (Elt F))) := rfl
theorem val_main_v256 (V : Valuation τ sig (Elt F)) :
    after ops V (no_index (Proc.devRef .tc main_v256)) = (broadcastInDim S64x512 ![0, 1] bcast_S64x1_S64x512_0_1 : (⟨S64x1, .f32⟩ : BufTy).Contents (Elt F) → (⟨S64x512, .f32⟩ : BufTy).Contents (Elt F)) (after ops V (Proc.devRef .tc main_v255)) :=
  ops_writesAre.read_unary op_420 V (not_written_from (420 + 1) (by decide)) (not_written_from 420 (by decide))

private theorem op_421 : (ops : List (HloOp τ sig (Elt F)))[421]? = some (StableHlo.binary main_v248 main_v256 main_v257 (Host.divf : (⟨S64x512, .f32⟩ : BufTy).Contents (Elt F) → (⟨S64x512, .f32⟩ : BufTy).Contents (Elt F) → (⟨S64x512, .f32⟩ : BufTy).Contents (Elt F))) := rfl
theorem val_main_v257 (V : Valuation τ sig (Elt F)) :
    after ops V (no_index (Proc.devRef .tc main_v257)) = (Host.divf : (⟨S64x512, .f32⟩ : BufTy).Contents (Elt F) → (⟨S64x512, .f32⟩ : BufTy).Contents (Elt F) → (⟨S64x512, .f32⟩ : BufTy).Contents (Elt F)) (after ops V (Proc.devRef .tc main_v248)) (after ops V (Proc.devRef .tc main_v256)) :=
  ops_writesAre.read_binary op_421 V (not_written_from (421 + 1) (by decide)) (not_written_from 421 (by decide)) (not_written_from 421 (by decide))

private theorem op_422 : (ops : List (HloOp τ sig (Elt F)))[422]? = some (StableHlo.binary main_v257 main_arg13 main_v258 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F))) := rfl
theorem val_main_v258 (V : Valuation τ sig (Elt F)) :
    after ops V (no_index (Proc.devRef .tc main_v258)) = ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)) (after ops V (Proc.devRef .tc main_v257)) (after ops V (Proc.devRef .tc main_arg13)) :=
  ops_writesAre.read_binary op_422 V (not_written_from (422 + 1) (by decide)) (not_written_from 422 (by decide)) (not_written_from 422 (by decide))

private theorem op_423 : (ops : List (HloOp τ sig (Elt F)))[423]? = some (StableHlo.unary main_arg14 main_v259 (broadcastInDim S1x512 ![1] bcast_S512_S1x512_1 : (⟨S512, .f32⟩ : BufTy).Contents (Elt F) → (⟨S1x512, .f32⟩ : BufTy).Contents (Elt F))) := rfl
theorem val_main_v259 (V : Valuation τ sig (Elt F)) :
    after ops V (no_index (Proc.devRef .tc main_v259)) = (broadcastInDim S1x512 ![1] bcast_S512_S1x512_1 : (⟨S512, .f32⟩ : BufTy).Contents (Elt F) → (⟨S1x512, .f32⟩ : BufTy).Contents (Elt F)) (after ops V (Proc.devRef .tc main_arg14)) :=
  ops_writesAre.read_unary op_423 V (not_written_from (423 + 1) (by decide)) (not_written_from 423 (by decide))

private theorem op_424 : (ops : List (HloOp τ sig (Elt F)))[424]? = some (StableHlo.unary main_v259 main_v260 (broadcastInDim S64x512 ![0, 1] bcast_S1x512_S64x512_0_1 : (⟨S1x512, .f32⟩ : BufTy).Contents (Elt F) → (⟨S64x512, .f32⟩ : BufTy).Contents (Elt F))) := rfl
theorem val_main_v260 (V : Valuation τ sig (Elt F)) :
    after ops V (no_index (Proc.devRef .tc main_v260)) = (broadcastInDim S64x512 ![0, 1] bcast_S1x512_S64x512_0_1 : (⟨S1x512, .f32⟩ : BufTy).Contents (Elt F) → (⟨S64x512, .f32⟩ : BufTy).Contents (Elt F)) (after ops V (Proc.devRef .tc main_v259)) :=
  ops_writesAre.read_unary op_424 V (not_written_from (424 + 1) (by decide)) (not_written_from 424 (by decide))

end Cert.ReferenceIdeal.RefRun

end
-- ==== Proof.RI.Val5.lean ====
/-
  What each buffer written by operations 426 … 431 of the reference program holds at the end of the run, as ONE
  operation applied to the final contents of its operand buffers. Every buffer is written once and read only
  after it is written: the operation at position j is read off the list (by computation; an operation of an
  unfolded call is stated over the buffers themselves, the typed references' transports being the identity there),
  its result buffer has number 17 + j, below every buffer written after it, and its operand buffers have smaller numbers still.
-/
import proofs.«100381_j2018634629568_1_alg».proof.Proof.RI.Order

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

private theorem op_425 : (ops : List (HloOp τ sig (Elt F)))[425]? = some (StableHlo.binary main_v258 main_v260 main_v261 (addf : (⟨S64x512, .f32⟩ : BufTy).Contents (Elt F) → (⟨S64x512, .f32⟩ : BufTy).Contents (Elt F) → (⟨S64x512, .f32⟩ : BufTy).Contents (Elt F))) := rfl
theorem val_main_v261 (V : Valuation τ sig (Elt F)) :
    after ops V (no_index (Proc.devRef .tc main_v261)) = (addf : (⟨S64x512, .f32⟩ : BufTy).Contents (Elt F) → (⟨S64x512, .f32⟩ : BufTy).Contents (Elt F) → (⟨S64x512, .f32⟩ : BufTy).Contents (Elt F)) (after ops V (Proc.devRef .tc main_v258)) (after ops V (Proc.devRef .tc main_v260)) :=
  ops_writesAre.read_binary op_425 V (not_written_from (425 + 1) (by decide)) (not_written_from 425 (by decide)) (not_written_from 425 (by decide))

private theorem op_426 : (ops : List (HloOp τ sig (Elt F)))[426]? = some (StableHlo.unary main_v261 main_v262 (Host.tanh : (⟨S64x512, .f32⟩ : BufTy).Contents (Elt F) → (⟨S64x512, .f32⟩ : BufTy).Contents (Elt F))) := rfl
theorem val_main_v262 (V : Valuation τ sig (Elt F)) :
    after ops V (no_index (Proc.devRef .tc main_v262)) = (Host.tanh : (⟨S64x512, .f32⟩ : BufTy).Contents (Elt F) → (⟨S64x512, .f32⟩ : BufTy).Contents (Elt F)) (after ops V (Proc.devRef .tc main_v261)) :=
  ops_writesAre.read_unary op_426 V (not_written_from (426 + 1) (by decide)) (not_written_from 426 (by decide))

private theorem op_427 : (ops : List (HloOp τ sig (Elt F)))[427]? = some (StableHlo.binary main_v262 main_arg15 main_v263 ((fun l r => Host.dotGeneral dot_S64x512_S512x18_S64x18_1_0_0_1_n_n none l r) : (⟨S64x512, .f32⟩ : BufTy).Contents (Elt F) → (⟨S512x18, .f32⟩ : BufTy).Contents (Elt F) → (⟨S64x18, .f32⟩ : BufTy).Contents (Elt F))) := rfl
theorem val_main_v263 (V : Valuation τ sig (Elt F)) :
    after ops V (no_index (Proc.devRef .tc main_v263)) = ((fun l r => Host.dotGeneral dot_S64x512_S512x18_S64x18_1_0_0_1_n_n none l r) : (⟨S64x512, .f32⟩ : BufTy).Contents (Elt F) → (⟨S512x18, .f32⟩ : BufTy).Contents (Elt F) → (⟨S64x18, .f32⟩ : BufTy).Contents (Elt F)) (after ops V (Proc.devRef .tc main_v262)) (after ops V (Proc.devRef .tc main_arg15)) :=
  ops_writesAre.read_binary op_427 V (not_written_from (427 + 1) (by decide)) (not_written_from 427 (by decide)) (not_written_from 427 (by decide))

private theorem op_428 : (ops : List (HloOp τ sig (Elt F)))[428]? = some (StableHlo.unary main_arg16 main_v264 (broadcastInDim S1x18 ![1] bcast_S18_S1x18_1 : (⟨S18, .f32⟩ : BufTy).Contents (Elt F) → (⟨S1x18, .f32⟩ : BufTy).Contents (Elt F))) := rfl
theorem val_main_v264 (V : Valuation τ sig (Elt F)) :
    after ops V (no_index (Proc.devRef .tc main_v264)) = (broadcastInDim S1x18 ![1] bcast_S18_S1x18_1 : (⟨S18, .f32⟩ : BufTy).Contents (Elt F) → (⟨S1x18, .f32⟩ : BufTy).Contents (Elt F)) (after ops V (Proc.devRef .tc main_arg16)) :=
  ops_writesAre.read_unary op_428 V (not_written_from (428 + 1) (by decide)) (not_written_from 428 (by decide))

private theorem op_429 : (ops : List (HloOp τ sig (Elt F)))[429]? = some (StableHlo.unary main_v264 main_v265 (broadcastInDim S64x18 ![0, 1] bcast_S1x18_S64x18_0_1 : (⟨S1x18, .f32⟩ : BufTy).Contents (Elt F) → (⟨S64x18, .f32⟩ : BufTy).Contents (Elt F))) := rfl
theorem val_main_v265 (V : Valuation τ sig (Elt F)) :
    after ops V (no_index (Proc.devRef .tc main_v265)) = (broadcastInDim S64x18 ![0, 1] bcast_S1x18_S64x18_0_1 : (⟨S1x18, .f32⟩ : BufTy).Contents (Elt F) → (⟨S64x18, .f32⟩ : BufTy).Contents (Elt F)) (after ops V (Proc.devRef .tc main_v264)) :=
  ops_writesAre.read_unary op_429 V (not_written_from (429 + 1) (by decide)) (not_written_from 429 (by decide))

private theorem op_430 : (ops : List (HloOp τ sig (Elt F)))[430]? = some (StableHlo.binary main_v263 main_v265 main_v266 (addf : (⟨S64x18, .f32⟩ : BufTy).Contents (Elt F) → (⟨S64x18, .f32⟩ : BufTy).Contents (Elt F) → (⟨S64x18, .f32⟩ : BufTy).Contents (Elt F))) := rfl
theorem val_main_v266 (V : Valuation τ sig (Elt F)) :
    after ops V (no_index (Proc.devRef .tc main_v266)) = (addf : (⟨S64x18, .f32⟩ : BufTy).Contents (Elt F) → (⟨S64x18, .f32⟩ : BufTy).Contents (Elt F) → (⟨S64x18, .f32⟩ : BufTy).Contents (Elt F)) (after ops V (Proc.devRef .tc main_v263)) (after ops V (Proc.devRef .tc main_v265)) :=
  ops_writesAre.read_binary op_430 V (not_written_from (430 + 1) (by decide)) (not_written_from 430 (by decide)) (not_written_from 430 (by decide))

end Cert.ReferenceIdeal.RefRun

end
-- ==== Proof.RI.Layers.lean ====
/-
  The reference program's result, read layer by layer at the ideal instance. Each stage's output buffer is the stage
  function (as the reference prints it: aggregation, perceptron, mean, variance, normalisation; pooling; head) of the
  stage's input buffers: the buffers in between are replaced, one operation at a time, by the operations that write
  them, and what is left is the stage function's own text. The index arrays and the parameter cuts, recomputed for
  every layer, are each time the same functions of the arguments. Composed: the result buffer is the closed function
  of the seventeen arguments.
-/
import proofs.«100381_j2018634629568_1_alg».proof.Proof.RI.Val0
import proofs.«100381_j2018634629568_1_alg».proof.Proof.RI.Val1
import proofs.«100381_j2018634629568_1_alg».proof.Proof.RI.Val2
import proofs.«100381_j2018634629568_1_alg».proof.Proof.RI.Val3
import proofs.«100381_j2018634629568_1_alg».proof.Proof.RI.Val4
import proofs.«100381_j2018634629568_1_alg».proof.Proof.RI.Val5
import proofs.«100381_j2018634629568_1_alg».proof.Proof.Ref.Closed

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.Gin.Ref

variable (V : Valuation τ sig (Elt Ideal))

set_option maxRecDepth 8192

/-! ## The arguments keep their contents (restated for rewriting) -/
theorem kept_arg0' : after ops V (no_index (Proc.devRef .tc main_arg0)) = V (Proc.devRef .tc main_arg0) := kept_arg0 V
theorem kept_arg1' : after ops V (no_index (Proc.devRef .tc main_arg1)) = V (Proc.devRef .tc main_arg1) := kept_arg1 V
theorem kept_arg2' : after ops V (no_index (Proc.devRef .tc main_arg2)) = V (Proc.devRef .tc main_arg2) := kept_arg2 V
theorem kept_arg3' : after ops V (no_index (Proc.devRef .tc main_arg3)) = V (Proc.devRef .tc main_arg3) := kept_arg3 V
theorem kept_arg4' : after ops V (no_index (Proc.devRef .tc main_arg4)) = V (Proc.devRef .tc main_arg4) := kept_arg4 V
theorem kept_arg5' : after ops V (no_index (Proc.devRef .tc main_arg5)) = V (Proc.devRef .tc main_arg5) := kept_arg5 V
theorem kept_arg6' : after ops V (no_index (Proc.devRef .tc main_arg6)) = V (Proc.devRef .tc main_arg6) := kept_arg6 V
theorem kept_arg7' : after ops V (no_index (Proc.devRef .tc main_arg7)) = V (Proc.devRef .tc main_arg7) := kept_arg7 V
theorem kept_arg8' : after ops V (no_index (Proc.devRef .tc main_arg8)) = V (Proc.devRef .tc main_arg8) := kept_arg8 V
theorem kept_arg9' : after ops V (no_index (Proc.devRef .tc main_arg9)) = V (Proc.devRef .tc main_arg9) := kept_arg9 V
theorem kept_arg10' : after ops V (no_index (Proc.devRef .tc main_arg10)) = V (Proc.devRef .tc main_arg10) := kept_arg10 V
theorem kept_arg11' : after ops V (no_index (Proc.devRef .tc main_arg11)) = V (Proc.devRef .tc main_arg11) := kept_arg11 V
theorem kept_arg12' : after ops V (no_index (Proc.devRef .tc main_arg12)) = V (Proc.devRef .tc main_arg12) := kept_arg12 V
theorem kept_arg13' : after ops V (no_index (Proc.devRef .tc main_arg13)) = V (Proc.devRef .tc main_arg13) := kept_arg13 V
theorem kept_arg14' : after ops V (no_index (Proc.devRef .tc main_arg14)) = V (Proc.devRef .tc main_arg14) := kept_arg14 V
theorem kept_arg15' : after ops V (no_index (Proc.devRef .tc main_arg15)) = V (Proc.devRef .tc main_arg15) := kept_arg15 V
theorem kept_arg16' : after ops V (no_index (Proc.devRef .tc main_arg16)) = V (Proc.devRef .tc main_arg16) := kept_arg16 V

/-! ## The stages -/

/-- The first layer's gather indices are the wrapped sources, as a column. -/
theorem idxSrc1 : after ops V (Proc.devRef .tc main_v9) = srcIdx (edgeSrc (V (Proc.devRef .tc main_arg1))) := by
  simp only [val_main_v9, val_main_v8, val_main_v5, val_main_v1, val_main_v0, val_main_v4, val_main_c, val_main_v7,
    val_main_v6, val_main_c_0, kept_arg1']
  first
    | done
    | (generalize V (Proc.devRef .tc main_arg1) = a0
       rfl)

/-- The first layer's scatter indices are the destinations, as a column. -/
theorem idxDst1 : after ops V (Proc.devRef .tc main_v12) = dstIdx (edgeDst (V (Proc.devRef .tc main_arg1))) := by
  simp only [val_main_v12, val_main_v3, val_main_v2, kept_arg1']
  first
    | done
    | (generalize V (Proc.devRef .tc main_arg1) = a0
       rfl)

/-- The first layer's scale is row 0 of the stacked scales. -/
theorem cutG1 : after ops V (Proc.devRef .tc main_v26) = cutRow (F := Ideal) (n := 5) 0 (V (Proc.devRef .tc main_arg11)) slices_S5x512_S1x512_0_0 := by
  simp only [val_main_v26, val_main_v25, kept_arg11']
  first
    | done
    | (generalize V (Proc.devRef .tc main_arg11) = a0
       rfl)

/-- The first layer's shift is row 0 of the stacked shifts. -/
theorem cutB1 : after ops V (Proc.devRef .tc main_v28) = cutRow (F := Ideal) (n := 5) 0 (V (Proc.devRef .tc main_arg12)) slices_S5x512_S1x512_0_0 := by
  simp only [val_main_v28, val_main_v27, kept_arg12']
  first
    | done
    | (generalize V (Proc.devRef .tc main_arg12) = a0
       rfl)

/-- The first layer's aggregation. -/
theorem agg1 : after ops V (Proc.devRef .tc main_v14) = refAgg16 (V (Proc.devRef .tc main_arg0)) (after ops V (Proc.devRef .tc main_v9)) (after ops V (Proc.devRef .tc main_v12)) := by
  simp only [val_main_v14, val_main_v13, val_main_v11, val_main_cst, val_main_v10, kept_arg0']
  first
    | done
    | (generalize after ops V (Proc.devRef .tc main_v12) = c0
       generalize after ops V (Proc.devRef .tc main_v9) = c1
       generalize V (Proc.devRef .tc main_arg0) = a0
       rfl)

/-- The first layer's perceptron. -/
theorem mlp1 : after ops V (Proc.devRef .tc main_v24) = refMlp16 (after ops V (Proc.devRef .tc main_v14)) (V (Proc.devRef .tc main_arg3)) (V (Proc.devRef .tc main_arg4)) (V (Proc.devRef .tc main_arg5)) (V (Proc.devRef .tc main_arg6)) := by
  simp only [val_main_v24, val_main_v23, val_main_v20, val_main_v19, val_main_v18, val_main_v15, val_main_v17, val_main_v16,
    val_main_call0_v0, val_main_call0_cst, val_main_v22, val_main_v21, val_main_call1_v0, val_main_call1_cst, kept_arg3', kept_arg4',
    kept_arg5', kept_arg6']
  first
    | done
    | (generalize after ops V (Proc.devRef .tc main_v14) = c0
       generalize V (Proc.devRef .tc main_arg3) = a0
       generalize V (Proc.devRef .tc main_arg4) = a1
       generalize V (Proc.devRef .tc main_arg5) = a2
       generalize V (Proc.devRef .tc main_arg6) = a3
       rfl)

/-- Layer 1's column mean. -/
theorem mean1 : after ops V (Proc.devRef .tc main_v31) = refMean (after ops V (Proc.devRef .tc main_v24)) := by
  simp only [val_main_v31, val_main_v29, val_main_cst_1, val_main_v30, val_main_cst_2]
  first
    | done
    | (generalize after ops V (Proc.devRef .tc main_v24) = c0
       rfl)

/-- Layer 1's column variance (the variance function called with the integer 0). -/
theorem var1 : after ops V (Proc.devRef .tc main_v32) = refVar (after ops V (Proc.devRef .tc main_v24)) (constantI S_ 32 0#32) := by
  rw [val_main_v32, val_main_call2_call0_v1, val_main_call2_call0_v0, val_main_call2_cst_4, val_main_call2_v12, val_main_call2_cst_3, val_main_call2_v11, val_main_call2_v10,
    val_main_call2_v9, val_main_call2_cst_2, val_main_call2_v8, val_main_call2_cst_1, val_main_call2_v7, val_main_call2_v6, val_main_call2_v5, val_main_call2_v4,
    val_main_call2_v3, val_main_call2_v2, val_main_call2_cst_0, val_main_call2_v1, val_main_call2_v0, val_main_call2_cst, val_main_c_3]
  first
    | done
    | (generalize after ops V (Proc.devRef .tc main_v24) = c0
       rfl)

/-- Layer 1's normalisation. -/
theorem norm1 : after ops V (Proc.devRef .tc main_v45) = refNorm (after ops V (Proc.devRef .tc main_v24)) (after ops V (Proc.devRef .tc main_v26)) (after ops V (Proc.devRef .tc main_v28)) := by
  simp only [val_main_v45, val_main_v42, val_main_v35, val_main_v34, val_main_v33, val_main_v41, val_main_v40, val_main_v39,
    val_main_v38, val_main_v37, val_main_v36, val_main_cst_4, val_main_v44, val_main_v43]
  rw [mean1, var1]
  first
    | done
    | (generalize after ops V (Proc.devRef .tc main_v24) = c0
       generalize after ops V (Proc.devRef .tc main_v31) = c1
       generalize after ops V (Proc.devRef .tc main_v26) = c2
       generalize after ops V (Proc.devRef .tc main_v32) = c3
       generalize after ops V (Proc.devRef .tc main_v28) = c4
       rfl)

/-- The first layer's output as the layer function of the arguments. -/
theorem layer1 : after ops V (Proc.devRef .tc main_v45) = refLayer16 (V (Proc.devRef .tc main_arg0)) (srcIdx (edgeSrc (V (Proc.devRef .tc main_arg1)))) (dstIdx (edgeDst (V (Proc.devRef .tc main_arg1)))) (V (Proc.devRef .tc main_arg3)) (V (Proc.devRef .tc main_arg4)) (V (Proc.devRef .tc main_arg5)) (V (Proc.devRef .tc main_arg6))
    (cutRow (F := Ideal) (n := 5) 0 (V (Proc.devRef .tc main_arg11)) slices_S5x512_S1x512_0_0) (cutRow (F := Ideal) (n := 5) 0 (V (Proc.devRef .tc main_arg12)) slices_S5x512_S1x512_0_0) := by
  rw [norm1, mlp1, agg1, idxSrc1, idxDst1, cutG1, cutB1]
  rfl

/-- Layer 2's gather indices, computed again from the edge array, are the same wrapped sources. -/
theorem idxSrc2 : after ops V (Proc.devRef .tc main_v51) = srcIdx (edgeSrc (V (Proc.devRef .tc main_arg1))) := by
  simp only [val_main_v51, val_main_v50, val_main_v47, val_main_v1, val_main_v0, val_main_v46, val_main_c_5, val_main_v49,
    val_main_v48, val_main_c_6, kept_arg1']
  first
    | done
    | (generalize V (Proc.devRef .tc main_arg1) = a0
       rfl)

/-- Layer 2's scatter indices are the same destinations. -/
theorem idxDst2 : after ops V (Proc.devRef .tc main_v54) = dstIdx (edgeDst (V (Proc.devRef .tc main_arg1))) := by
  simp only [val_main_v54, val_main_v3, val_main_v2, kept_arg1']
  first
    | done
    | (generalize V (Proc.devRef .tc main_arg1) = a0
       rfl)

/-- Layer 2's first matrix is matrix 0 of the stack. -/
theorem cutWa2 : after ops V (Proc.devRef .tc main_v58) = cutMat (F := Ideal) 0 (V (Proc.devRef .tc main_arg7)) slices_S4x512x512_S1x512x512_0_0_0 := by
  simp only [val_main_v58, val_main_v57, kept_arg7']
  first
    | done
    | (generalize V (Proc.devRef .tc main_arg7) = a0
       rfl)

/-- Layer 2's first bias is row 0 of the stack. -/
theorem cutBa2 : after ops V (Proc.devRef .tc main_v60) = cutRow (F := Ideal) (n := 4) 0 (V (Proc.devRef .tc main_arg8)) slices_S4x512_S1x512_0_0 := by
  simp only [val_main_v60, val_main_v59, kept_arg8']
  first
    | done
    | (generalize V (Proc.devRef .tc main_arg8) = a0
       rfl)

/-- Layer 2's second matrix is matrix 0 of the stack. -/
theorem cutWb2 : after ops V (Proc.devRef .tc main_v62) = cutMat (F := Ideal) 0 (V (Proc.devRef .tc main_arg9)) slices_S4x512x512_S1x512x512_0_0_0 := by
  simp only [val_main_v62, val_main_v61, kept_arg9']
  first
    | done
    | (generalize V (Proc.devRef .tc main_arg9) = a0
       rfl)

/-- Layer 2's second bias is row 0 of the stack. -/
theorem cutBb2 : after ops V (Proc.devRef .tc main_v64) = cutRow (F := Ideal) (n := 4) 0 (V (Proc.devRef .tc main_arg10)) slices_S4x512_S1x512_0_0 := by
  simp only [val_main_v64, val_main_v63, kept_arg10']
  first
    | done
    | (generalize V (Proc.devRef .tc main_arg10) = a0
       rfl)

/-- Layer 2's scale is row 1 of the stacked scales. -/
theorem cutG2 : after ops V (Proc.devRef .tc main_v76) = cutRow (F := Ideal) (n := 5) 1 (V (Proc.devRef .tc main_arg11)) slices_S5x512_S1x512_1_0 := by
  simp only [val_main_v76, val_main_v75, kept_arg11']
  first
    | done
    | (generalize V (Proc.devRef .tc main_arg11) = a0
       rfl)

/-- Layer 2's shift is row 1 of the stacked shifts. -/
theorem cutB2 : after ops V (Proc.devRef .tc main_v78) = cutRow (F := Ideal) (n := 5) 1 (V (Proc.devRef .tc main_arg12)) slices_S5x512_S1x512_1_0 := by
  simp only [val_main_v78, val_main_v77, kept_arg12']
  first
    | done
    | (generalize V (Proc.devRef .tc main_arg12) = a0
       rfl)

/-- Layer 2's aggregation. -/
theorem agg2 : after ops V (Proc.devRef .tc main_v56) = refAgg512 (after ops V (Proc.devRef .tc main_v45)) (after ops V (Proc.devRef .tc main_v51)) (after ops V (Proc.devRef .tc main_v54)) := by
  simp only [val_main_v56, val_main_v55, val_main_v53, val_main_cst_7, val_main_v52]
  first
    | done
    | (generalize after ops V (Proc.devRef .tc main_v45) = c0
       generalize after ops V (Proc.devRef .tc main_v54) = c1
       generalize after ops V (Proc.devRef .tc main_v51) = c2
       rfl)

/-- Layer 2's perceptron. -/
theorem mlp2 : after ops V (Proc.devRef .tc main_v74) = refMlp512 (after ops V (Proc.devRef .tc main_v56)) (after ops V (Proc.devRef .tc main_v58)) (after ops V (Proc.devRef .tc main_v60)) (after ops V (Proc.devRef .tc main_v62)) (after ops V (Proc.devRef .tc main_v64)) := by
  simp only [val_main_v74, val_main_v73, val_main_v70, val_main_v69, val_main_v68, val_main_v65, val_main_v67, val_main_v66,
    val_main_call3_v0, val_main_call3_cst, val_main_v72, val_main_v71, val_main_call4_v0, val_main_call4_cst]
  first
    | done
    | (generalize after ops V (Proc.devRef .tc main_v56) = c0
       generalize after ops V (Proc.devRef .tc main_v58) = c1
       generalize after ops V (Proc.devRef .tc main_v60) = c2
       generalize after ops V (Proc.devRef .tc main_v62) = c3
       generalize after ops V (Proc.devRef .tc main_v64) = c4
       rfl)

/-- Layer 2's column mean. -/
theorem mean2 : after ops V (Proc.devRef .tc main_v81) = refMean (after ops V (Proc.devRef .tc main_v74)) := by
  simp only [val_main_v81, val_main_v79, val_main_cst_8, val_main_v80, val_main_cst_9]
  first
    | done
    | (generalize after ops V (Proc.devRef .tc main_v74) = c0
       rfl)

/-- Layer 2's column variance (the variance function called with the integer 0). -/
theorem var2 : after ops V (Proc.devRef .tc main_v82) = refVar (after ops V (Proc.devRef .tc main_v74)) (constantI S_ 32 0#32) := by
  rw [val_main_v82, val_main_call5_call0_v1, val_main_call5_call0_v0, val_main_call5_cst_4, val_main_call5_v12, val_main_call5_cst_3, val_main_call5_v11, val_main_call5_v10,
    val_main_call5_v9, val_main_call5_cst_2, val_main_call5_v8, val_main_call5_cst_1, val_main_call5_v7, val_main_call5_v6, val_main_call5_v5, val_main_call5_v4,
    val_main_call5_v3, val_main_call5_v2, val_main_call5_cst_0, val_main_call5_v1, val_main_call5_v0, val_main_call5_cst, val_main_c_10]
  first
    | done
    | (generalize after ops V (Proc.devRef .tc main_v74) = c0
       rfl)

/-- Layer 2's normalisation. -/
theorem norm2 : after ops V (Proc.devRef .tc main_v95) = refNorm (after ops V (Proc.devRef .tc main_v74)) (after ops V (Proc.devRef .tc main_v76)) (after ops V (Proc.devRef .tc main_v78)) := by
  simp only [val_main_v95, val_main_v92, val_main_v85, val_main_v84, val_main_v83, val_main_v91, val_main_v90, val_main_v89,
    val_main_v88, val_main_v87, val_main_v86, val_main_cst_11, val_main_v94, val_main_v93]
  rw [mean2, var2]
  first
    | done
    | (generalize after ops V (Proc.devRef .tc main_v74) = c0
       generalize after ops V (Proc.devRef .tc main_v81) = c1
       generalize after ops V (Proc.devRef .tc main_v76) = c2
       generalize after ops V (Proc.devRef .tc main_v82) = c3
       generalize after ops V (Proc.devRef .tc main_v78) = c4
       rfl)

/-- Layer 2's output as the layer function of layer 1's output and the arguments. -/
theorem layer2 : after ops V (Proc.devRef .tc main_v95) = refLayer512 (after ops V (Proc.devRef .tc main_v45)) (srcIdx (edgeSrc (V (Proc.devRef .tc main_arg1)))) (dstIdx (edgeDst (V (Proc.devRef .tc main_arg1))))
    (cutMat (F := Ideal) 0 (V (Proc.devRef .tc main_arg7)) slices_S4x512x512_S1x512x512_0_0_0) (cutRow (F := Ideal) (n := 4) 0 (V (Proc.devRef .tc main_arg8)) slices_S4x512_S1x512_0_0)
    (cutMat (F := Ideal) 0 (V (Proc.devRef .tc main_arg9)) slices_S4x512x512_S1x512x512_0_0_0) (cutRow (F := Ideal) (n := 4) 0 (V (Proc.devRef .tc main_arg10)) slices_S4x512_S1x512_0_0)
    (cutRow (F := Ideal) (n := 5) 1 (V (Proc.devRef .tc main_arg11)) slices_S5x512_S1x512_1_0) (cutRow (F := Ideal) (n := 5) 1 (V (Proc.devRef .tc main_arg12)) slices_S5x512_S1x512_1_0) := by
  rw [norm2, mlp2, agg2, idxSrc2, idxDst2, cutWa2, cutBa2, cutWb2, cutBb2, cutG2, cutB2]
  rfl

/-- Layer 3's gather indices, computed again from the edge array, are the same wrapped sources. -/
theorem idxSrc3 : after ops V (Proc.devRef .tc main_v101) = srcIdx (edgeSrc (V (Proc.devRef .tc main_arg1))) := by
  simp only [val_main_v101, val_main_v100, val_main_v97, val_main_v1, val_main_v0, val_main_v96, val_main_c_12, val_main_v99,
    val_main_v98, val_main_c_13, kept_arg1']
  first
    | done
    | (generalize V (Proc.devRef .tc main_arg1) = a0
       rfl)

/-- Layer 3's scatter indices are the same destinations. -/
theorem idxDst3 : after ops V (Proc.devRef .tc main_v104) = dstIdx (edgeDst (V (Proc.devRef .tc main_arg1))) := by
  simp only [val_main_v104, val_main_v3, val_main_v2, kept_arg1']
  first
    | done
    | (generalize V (Proc.devRef .tc main_arg1) = a0
       rfl)

/-- Layer 3's first matrix is matrix 1 of the stack. -/
theorem cutWa3 : after ops V (Proc.devRef .tc main_v108) = cutMat (F := Ideal) 1 (V (Proc.devRef .tc main_arg7)) slices_S4x512x512_S1x512x512_1_0_0 := by
  simp only [val_main_v108, val_main_v107, kept_arg7']
  first
    | done
    | (generalize V (Proc.devRef .tc main_arg7) = a0
       rfl)

/-- Layer 3's first bias is row 1 of the stack. -/
theorem cutBa3 : after ops V (Proc.devRef .tc main_v110) = cutRow (F := Ideal) (n := 4) 1 (V (Proc.devRef .tc main_arg8)) slices_S4x512_S1x512_1_0 := by
  simp only [val_main_v110, val_main_v109, kept_arg8']
  first
    | done
    | (generalize V (Proc.devRef .tc main_arg8) = a0
       rfl)

/-- Layer 3's second matrix is matrix 1 of the stack. -/
theorem cutWb3 : after ops V (Proc.devRef .tc main_v112) = cutMat (F := Ideal) 1 (V (Proc.devRef .tc main_arg9)) slices_S4x512x512_S1x512x512_1_0_0 := by
  simp only [val_main_v112, val_main_v111, kept_arg9']
  first
    | done
    | (generalize V (Proc.devRef .tc main_arg9) = a0
       rfl)

/-- Layer 3's second bias is row 1 of the stack. -/
theorem cutBb3 : after ops V (Proc.devRef .tc main_v114) = cutRow (F := Ideal) (n := 4) 1 (V (Proc.devRef .tc main_arg10)) slices_S4x512_S1x512_1_0 := by
  simp only [val_main_v114, val_main_v113, kept_arg10']
  first
    | done
    | (generalize V (Proc.devRef .tc main_arg10) = a0
       rfl)

/-- Layer 3's scale is row 2 of the stacked scales. -/
theorem cutG3 : after ops V (Proc.devRef .tc main_v126) = cutRow (F := Ideal) (n := 5) 2 (V (Proc.devRef .tc main_arg11)) slices_S5x512_S1x512_2_0 := by
  simp only [val_main_v126, val_main_v125, kept_arg11']
  first
    | done
    | (generalize V (Proc.devRef .tc main_arg11) = a0
       rfl)

/-- Layer 3's shift is row 2 of the stacked shifts. -/
theorem cutB3 : after ops V (Proc.devRef .tc main_v128) = cutRow (F := Ideal) (n := 5) 2 (V (Proc.devRef .tc main_arg12)) slices_S5x512_S1x512_2_0 := by
  simp only [val_main_v128, val_main_v127, kept_arg12']
  first
    | done
    | (generalize V (Proc.devRef .tc main_arg12) = a0
       rfl)

/-- Layer 3's aggregation. -/
theorem agg3 : after ops V (Proc.devRef .tc main_v106) = refAgg512 (after ops V (Proc.devRef .tc main_v95)) (after ops V (Proc.devRef .tc main_v101)) (after ops V (Proc.devRef .tc main_v104)) := by
  simp only [val_main_v106, val_main_v105, val_main_v103, val_main_cst_14, val_main_v102]
  first
    | done
    | (generalize after ops V (Proc.devRef .tc main_v95) = c0
       generalize after ops V (Proc.devRef .tc main_v104) = c1
       generalize after ops V (Proc.devRef .tc main_v101) = c2
       rfl)

/-- Layer 3's perceptron. -/
theorem mlp3 : after ops V (Proc.devRef .tc main_v124) = refMlp512 (after ops V (Proc.devRef .tc main_v106)) (after ops V (Proc.devRef .tc main_v108)) (after ops V (Proc.devRef .tc main_v110)) (after ops V (Proc.devRef .tc main_v112)) (after ops V (Proc.devRef .tc main_v114)) := by
  simp only [val_main_v124, val_main_v123, val_main_v120, val_main_v119, val_main_v118, val_main_v115, val_main_v117, val_main_v116,
    val_main_call6_v0, val_main_call6_cst, val_main_v122, val_main_v121, val_main_call7_v0, val_main_call7_cst]
  first
    | done
    | (generalize after ops V (Proc.devRef .tc main_v106) = c0
       generalize after ops V (Proc.devRef .tc main_v108) = c1
       generalize after ops V (Proc.devRef .tc main_v110) = c2
       generalize after ops V (Proc.devRef .tc main_v112) = c3
       generalize after ops V (Proc.devRef .tc main_v114) = c4
       rfl)

/-- Layer 3's column mean. -/
theorem mean3 : after ops V (Proc.devRef .tc main_v131) = refMean (after ops V (Proc.devRef .tc main_v124)) := by
  simp only [val_main_v131, val_main_v129, val_main_cst_15, val_main_v130, val_main_cst_16]
  first
    | done
    | (generalize after ops V (Proc.devRef .tc main_v124) = c0
       rfl)

/-- Layer 3's column variance (the variance function called with the integer 0). -/
theorem var3 : after ops V (Proc.devRef .tc main_v132) = refVar (after ops V (Proc.devRef .tc main_v124)) (constantI S_ 32 0#32) := by
  rw [val_main_v132, val_main_call8_call0_v1, val_main_call8_call0_v0, val_main_call8_cst_4, val_main_call8_v12, val_main_call8_cst_3, val_main_call8_v11, val_main_call8_v10,
    val_main_call8_v9, val_main_call8_cst_2, val_main_call8_v8, val_main_call8_cst_1, val_main_call8_v7, val_main_call8_v6, val_main_call8_v5, val_main_call8_v4,
    val_main_call8_v3, val_main_call8_v2, val_main_call8_cst_0, val_main_call8_v1, val_main_call8_v0, val_main_call8_cst, val_main_c_17]
  first
    | done
    | (generalize after ops V (Proc.devRef .tc main_v124) = c0
       rfl)

/-- Layer 3's normalisation. -/
theorem norm3 : after ops V (Proc.devRef .tc main_v145) = refNorm (after ops V (Proc.devRef .tc main_v124)) (after ops V (Proc.devRef .tc main_v126)) (after ops V (Proc.devRef .tc main_v128)) := by
  simp only [val_main_v145, val_main_v142, val_main_v135, val_main_v134, val_main_v133, val_main_v141, val_main_v140, val_main_v139,
    val_main_v138, val_main_v137, val_main_v136, val_main_cst_18, val_main_v144, val_main_v143]
  rw [mean3, var3]
  first
    | done
    | (generalize after ops V (Proc.devRef .tc main_v124) = c0
       generalize after ops V (Proc.devRef .tc main_v131) = c1
       generalize after ops V (Proc.devRef .tc main_v126) = c2
       generalize after ops V (Proc.devRef .tc main_v132) = c3
       generalize after ops V (Proc.devRef .tc main_v128) = c4
       rfl)

/-- Layer 3's output as the layer function of layer 2's output and the arguments. -/
theorem layer3 : after ops V (Proc.devRef .tc main_v145) = refLayer512 (after ops V (Proc.devRef .tc main_v95)) (srcIdx (edgeSrc (V (Proc.devRef .tc main_arg1)))) (dstIdx (edgeDst (V (Proc.devRef .tc main_arg1))))
    (cutMat (F := Ideal) 1 (V (Proc.devRef .tc main_arg7)) slices_S4x512x512_S1x512x512_1_0_0) (cutRow (F := Ideal) (n := 4) 1 (V (Proc.devRef .tc main_arg8)) slices_S4x512_S1x512_1_0)
    (cutMat (F := Ideal) 1 (V (Proc.devRef .tc main_arg9)) slices_S4x512x512_S1x512x512_1_0_0) (cutRow (F := Ideal) (n := 4) 1 (V (Proc.devRef .tc main_arg10)) slices_S4x512_S1x512_1_0)
    (cutRow (F := Ideal) (n := 5) 2 (V (Proc.devRef .tc main_arg11)) slices_S5x512_S1x512_2_0) (cutRow (F := Ideal) (n := 5) 2 (V (Proc.devRef .tc main_arg12)) slices_S5x512_S1x512_2_0) := by
  rw [norm3, mlp3, agg3, idxSrc3, idxDst3, cutWa3, cutBa3, cutWb3, cutBb3, cutG3, cutB3]
  rfl

/-- Layer 4's gather indices, computed again from the edge array, are the same wrapped sources. -/
theorem idxSrc4 : after ops V (Proc.devRef .tc main_v151) = srcIdx (edgeSrc (V (Proc.devRef .tc main_arg1))) := by
  simp only [val_main_v151, val_main_v150, val_main_v147, val_main_v1, val_main_v0, val_main_v146, val_main_c_19, val_main_v149,
    val_main_v148, val_main_c_20, kept_arg1']
  first
    | done
    | (generalize V (Proc.devRef .tc main_arg1) = a0
       rfl)

/-- Layer 4's scatter indices are the same destinations. -/
theorem idxDst4 : after ops V (Proc.devRef .tc main_v154) = dstIdx (edgeDst (V (Proc.devRef .tc main_arg1))) := by
  simp only [val_main_v154, val_main_v3, val_main_v2, kept_arg1']
  first
    | done
    | (generalize V (Proc.devRef .tc main_arg1) = a0
       rfl)

/-- Layer 4's first matrix is matrix 2 of the stack. -/
theorem cutWa4 : after ops V (Proc.devRef .tc main_v158) = cutMat (F := Ideal) 2 (V (Proc.devRef .tc main_arg7)) slices_S4x512x512_S1x512x512_2_0_0 := by
  simp only [val_main_v158, val_main_v157, kept_arg7']
  first
    | done
    | (generalize V (Proc.devRef .tc main_arg7) = a0
       rfl)

/-- Layer 4's first bias is row 2 of the stack. -/
theorem cutBa4 : after ops V (Proc.devRef .tc main_v160) = cutRow (F := Ideal) (n := 4) 2 (V (Proc.devRef .tc main_arg8)) slices_S4x512_S1x512_2_0 := by
  simp only [val_main_v160, val_main_v159, kept_arg8']
  first
    | done
    | (generalize V (Proc.devRef .tc main_arg8) = a0
       rfl)

/-- Layer 4's second matrix is matrix 2 of the stack. -/
theorem cutWb4 : after ops V (Proc.devRef .tc main_v162) = cutMat (F := Ideal) 2 (V (Proc.devRef .tc main_arg9)) slices_S4x512x512_S1x512x512_2_0_0 := by
  simp only [val_main_v162, val_main_v161, kept_arg9']
  first
    | done
    | (generalize V (Proc.devRef .tc main_arg9) = a0
       rfl)

/-- Layer 4's second bias is row 2 of the stack. -/
theorem cutBb4 : after ops V (Proc.devRef .tc main_v164) = cutRow (F := Ideal) (n := 4) 2 (V (Proc.devRef .tc main_arg10)) slices_S4x512_S1x512_2_0 := by
  simp only [val_main_v164, val_main_v163, kept_arg10']
  first
    | done
    | (generalize V (Proc.devRef .tc main_arg10) = a0
       rfl)

/-- Layer 4's scale is row 3 of the stacked scales. -/
theorem cutG4 : after ops V (Proc.devRef .tc main_v176) = cutRow (F := Ideal) (n := 5) 3 (V (Proc.devRef .tc main_arg11)) slices_S5x512_S1x512_3_0 := by
  simp only [val_main_v176, val_main_v175, kept_arg11']
  first
    | done
    | (generalize V (Proc.devRef .tc main_arg11) = a0
       rfl)

/-- Layer 4's shift is row 3 of the stacked shifts. -/
theorem cutB4 : after ops V (Proc.devRef .tc main_v178) = cutRow (F := Ideal) (n := 5) 3 (V (Proc.devRef .tc main_arg12)) slices_S5x512_S1x512_3_0 := by
  simp only [val_main_v178, val_main_v177, kept_arg12']
  first
    | done
    | (generalize V (Proc.devRef .tc main_arg12) = a0
       rfl)

/-- Layer 4's aggregation. -/
theorem agg4 : after ops V (Proc.devRef .tc main_v156) = refAgg512 (after ops V (Proc.devRef .tc main_v145)) (after ops V (Proc.devRef .tc main_v151)) (after ops V (Proc.devRef .tc main_v154)) := by
  simp only [val_main_v156, val_main_v155, val_main_v153, val_main_cst_21, val_main_v152]
  first
    | done
    | (generalize after ops V (Proc.devRef .tc main_v145) = c0
       generalize after ops V (Proc.devRef .tc main_v154) = c1
       generalize after ops V (Proc.devRef .tc main_v151) = c2
       rfl)

/-- Layer 4's perceptron. -/
theorem mlp4 : after ops V (Proc.devRef .tc main_v174) = refMlp512 (after ops V (Proc.devRef .tc main_v156)) (after ops V (Proc.devRef .tc main_v158)) (after ops V (Proc.devRef .tc main_v160)) (after ops V (Proc.devRef .tc main_v162)) (after ops V (Proc.devRef .tc main_v164)) := by
  simp only [val_main_v174, val_main_v173, val_main_v170, val_main_v169, val_main_v168, val_main_v165, val_main_v167, val_main_v166,
    val_main_call9_v0, val_main_call9_cst, val_main_v172, val_main_v171, val_main_call10_v0, val_main_call10_cst]
  first
    | done
    | (generalize after ops V (Proc.devRef .tc main_v156) = c0
       generalize after ops V (Proc.devRef .tc main_v158) = c1
       generalize after ops V (Proc.devRef .tc main_v160) = c2
       generalize after ops V (Proc.devRef .tc main_v162) = c3
       generalize after ops V (Proc.devRef .tc main_v164) = c4
       rfl)

/-- Layer 4's column mean. -/
theorem mean4 : after ops V (Proc.devRef .tc main_v181) = refMean (after ops V (Proc.devRef .tc main_v174)) := by
  simp only [val_main_v181, val_main_v179, val_main_cst_22, val_main_v180, val_main_cst_23]
  first
    | done
    | (generalize after ops V (Proc.devRef .tc main_v174) = c0
       rfl)

/-- Layer 4's column variance (the variance function called with the integer 0). -/
theorem var4 : after ops V (Proc.devRef .tc main_v182) = refVar (after ops V (Proc.devRef .tc main_v174)) (constantI S_ 32 0#32) := by
  rw [val_main_v182, val_main_call11_call0_v1, val_main_call11_call0_v0, val_main_call11_cst_4, val_main_call11_v12, val_main_call11_cst_3, val_main_call11_v11, val_main_call11_v10,
    val_main_call11_v9, val_main_call11_cst_2, val_main_call11_v8, val_main_call11_cst_1, val_main_call11_v7, val_main_call11_v6, val_main_call11_v5, val_main_call11_v4,
    val_main_call11_v3, val_main_call11_v2, val_main_call11_cst_0, val_main_call11_v1, val_main_call11_v0, val_main_call11_cst, val_main_c_24]
  first
    | done
    | (generalize after ops V (Proc.devRef .tc main_v174) = c0
       rfl)

/-- Layer 4's normalisation. -/
theorem norm4 : after ops V (Proc.devRef .tc main_v195) = refNorm (after ops V (Proc.devRef .tc main_v174)) (after ops V (Proc.devRef .tc main_v176)) (after ops V (Proc.devRef .tc main_v178)) := by
  simp only [val_main_v195, val_main_v192, val_main_v185, val_main_v184, val_main_v183, val_main_v191, val_main_v190, val_main_v189,
    val_main_v188, val_main_v187, val_main_v186, val_main_cst_25, val_main_v194, val_main_v193]
  rw [mean4, var4]
  first
    | done
    | (generalize after ops V (Proc.devRef .tc main_v174) = c0
       generalize after ops V (Proc.devRef .tc main_v181) = c1
       generalize after ops V (Proc.devRef .tc main_v176) = c2
       generalize after ops V (Proc.devRef .tc main_v182) = c3
       generalize after ops V (Proc.devRef .tc main_v178) = c4
       rfl)

/-- Layer 4's output as the layer function of layer 3's output and the arguments. -/
theorem layer4 : after ops V (Proc.devRef .tc main_v195) = refLayer512 (after ops V (Proc.devRef .tc main_v145)) (srcIdx (edgeSrc (V (Proc.devRef .tc main_arg1)))) (dstIdx (edgeDst (V (Proc.devRef .tc main_arg1))))
    (cutMat (F := Ideal) 2 (V (Proc.devRef .tc main_arg7)) slices_S4x512x512_S1x512x512_2_0_0) (cutRow (F := Ideal) (n := 4) 2 (V (Proc.devRef .tc main_arg8)) slices_S4x512_S1x512_2_0)
    (cutMat (F := Ideal) 2 (V (Proc.devRef .tc main_arg9)) slices_S4x512x512_S1x512x512_2_0_0) (cutRow (F := Ideal) (n := 4) 2 (V (Proc.devRef .tc main_arg10)) slices_S4x512_S1x512_2_0)
    (cutRow (F := Ideal) (n := 5) 3 (V (Proc.devRef .tc main_arg11)) slices_S5x512_S1x512_3_0) (cutRow (F := Ideal) (n := 5) 3 (V (Proc.devRef .tc main_arg12)) slices_S5x512_S1x512_3_0) := by
  rw [norm4, mlp4, agg4, idxSrc4, idxDst4, cutWa4, cutBa4, cutWb4, cutBb4, cutG4, cutB4]
  rfl

/-- Layer 5's gather indices, computed again from the edge array, are the same wrapped sources. -/
theorem idxSrc5 : after ops V (Proc.devRef .tc main_v201) = srcIdx (edgeSrc (V (Proc.devRef .tc main_arg1))) := by
  simp only [val_main_v201, val_main_v200, val_main_v197, val_main_v1, val_main_v0, val_main_v196, val_main_c_26, val_main_v199,
    val_main_v198, val_main_c_27, kept_arg1']
  first
    | done
    | (generalize V (Proc.devRef .tc main_arg1) = a0
       rfl)

/-- Layer 5's scatter indices are the same destinations. -/
theorem idxDst5 : after ops V (Proc.devRef .tc main_v204) = dstIdx (edgeDst (V (Proc.devRef .tc main_arg1))) := by
  simp only [val_main_v204, val_main_v3, val_main_v2, kept_arg1']
  first
    | done
    | (generalize V (Proc.devRef .tc main_arg1) = a0
       rfl)

/-- Layer 5's first matrix is matrix 3 of the stack. -/
theorem cutWa5 : after ops V (Proc.devRef .tc main_v208) = cutMat (F := Ideal) 3 (V (Proc.devRef .tc main_arg7)) slices_S4x512x512_S1x512x512_3_0_0 := by
  simp only [val_main_v208, val_main_v207, kept_arg7']
  first
    | done
    | (generalize V (Proc.devRef .tc main_arg7) = a0
       rfl)

/-- Layer 5's first bias is row 3 of the stack. -/
theorem cutBa5 : after ops V (Proc.devRef .tc main_v210) = cutRow (F := Ideal) (n := 4) 3 (V (Proc.devRef .tc main_arg8)) slices_S4x512_S1x512_3_0 := by
  simp only [val_main_v210, val_main_v209, kept_arg8']
  first
    | done
    | (generalize V (Proc.devRef .tc main_arg8) = a0
       rfl)

/-- Layer 5's second matrix is matrix 3 of the stack. -/
theorem cutWb5 : after ops V (Proc.devRef .tc main_v212) = cutMat (F := Ideal) 3 (V (Proc.devRef .tc main_arg9)) slices_S4x512x512_S1x512x512_3_0_0 := by
  simp only [val_main_v212, val_main_v211, kept_arg9']
  first
    | done
    | (generalize V (Proc.devRef .tc main_arg9) = a0
       rfl)

/-- Layer 5's second bias is row 3 of the stack. -/
theorem cutBb5 : after ops V (Proc.devRef .tc main_v214) = cutRow (F := Ideal) (n := 4) 3 (V (Proc.devRef .tc main_arg10)) slices_S4x512_S1x512_3_0 := by
  simp only [val_main_v214, val_main_v213, kept_arg10']
  first
    | done
    | (generalize V (Proc.devRef .tc main_arg10) = a0
       rfl)

/-- Layer 5's scale is row 4 of the stacked scales. -/
theorem cutG5 : after ops V (Proc.devRef .tc main_v226) = cutRow (F := Ideal) (n := 5) 4 (V (Proc.devRef .tc main_arg11)) slices_S5x512_S1x512_4_0 := by
  simp only [val_main_v226, val_main_v225, kept_arg11']
  first
    | done
    | (generalize V (Proc.devRef .tc main_arg11) = a0
       rfl)

/-- Layer 5's shift is row 4 of the stacked shifts. -/
theorem cutB5 : after ops V (Proc.devRef .tc main_v228) = cutRow (F := Ideal) (n := 5) 4 (V (Proc.devRef .tc main_arg12)) slices_S5x512_S1x512_4_0 := by
  simp only [val_main_v228, val_main_v227, kept_arg12']
  first
    | done
    | (generalize V (Proc.devRef .tc main_arg12) = a0
       rfl)

/-- Layer 5's aggregation. -/
theorem agg5 : after ops V (Proc.devRef .tc main_v206) = refAgg512 (after ops V (Proc.devRef .tc main_v195)) (after ops V (Proc.devRef .tc main_v201)) (after ops V (Proc.devRef .tc main_v204)) := by
  simp only [val_main_v206, val_main_v205, val_main_v203, val_main_cst_28, val_main_v202]
  first
    | done
    | (generalize after ops V (Proc.devRef .tc main_v195) = c0
       generalize after ops V (Proc.devRef .tc main_v204) = c1
       generalize after ops V (Proc.devRef .tc main_v201) = c2
       rfl)

/-- Layer 5's perceptron. -/
theorem mlp5 : after ops V (Proc.devRef .tc main_v224) = refMlp512 (after ops V (Proc.devRef .tc main_v206)) (after ops V (Proc.devRef .tc main_v208)) (after ops V (Proc.devRef .tc main_v210)) (after ops V (Proc.devRef .tc main_v212)) (after ops V (Proc.devRef .tc main_v214)) := by
  simp only [val_main_v224, val_main_v223, val_main_v220, val_main_v219, val_main_v218, val_main_v215, val_main_v217, val_main_v216,
    val_main_call12_v0, val_main_call12_cst, val_main_v222, val_main_v221, val_main_call13_v0, val_main_call13_cst]
  first
    | done
    | (generalize after ops V (Proc.devRef .tc main_v206) = c0
       generalize after ops V (Proc.devRef .tc main_v208) = c1
       generalize after ops V (Proc.devRef .tc main_v210) = c2
       generalize after ops V (Proc.devRef .tc main_v212) = c3
       generalize after ops V (Proc.devRef .tc main_v214) = c4
       rfl)

/-- Layer 5's column mean. -/
theorem mean5 : after ops V (Proc.devRef .tc main_v231) = refMean (after ops V (Proc.devRef .tc main_v224)) := by
  simp only [val_main_v231, val_main_v229, val_main_cst_29, val_main_v230, val_main_cst_30]
  first
    | done
    | (generalize after ops V (Proc.devRef .tc main_v224) = c0
       rfl)

/-- Layer 5's column variance (the variance function called with the integer 0). -/
theorem var5 : after ops V (Proc.devRef .tc main_v232) = refVar (after ops V (Proc.devRef .tc main_v224)) (constantI S_ 32 0#32) := by
  rw [val_main_v232, val_main_call14_call0_v1, val_main_call14_call0_v0, val_main_call14_cst_4, val_main_call14_v12, val_main_call14_cst_3, val_main_call14_v11, val_main_call14_v10,
    val_main_call14_v9, val_main_call14_cst_2, val_main_call14_v8, val_main_call14_cst_1, val_main_call14_v7, val_main_call14_v6, val_main_call14_v5, val_main_call14_v4,
    val_main_call14_v3, val_main_call14_v2, val_main_call14_cst_0, val_main_call14_v1, val_main_call14_v0, val_main_call14_cst, val_main_c_31]
  first
    | done
    | (generalize after ops V (Proc.devRef .tc main_v224) = c0
       rfl)

/-- Layer 5's normalisation. -/
theorem norm5 : after ops V (Proc.devRef .tc main_v245) = refNorm (after ops V (Proc.devRef .tc main_v224)) (after ops V (Proc.devRef .tc main_v226)) (after ops V (Proc.devRef .tc main_v228)) := by
  simp only [val_main_v245, val_main_v242, val_main_v235, val_main_v234, val_main_v233, val_main_v241, val_main_v240, val_main_v239,
    val_main_v238, val_main_v237, val_main_v236, val_main_cst_32, val_main_v244, val_main_v243]
  rw [mean5, var5]
  first
    | done
    | (generalize after ops V (Proc.devRef .tc main_v224) = c0
       generalize after ops V (Proc.devRef .tc main_v231) = c1
       generalize after ops V (Proc.devRef .tc main_v226) = c2
       generalize after ops V (Proc.devRef .tc main_v232) = c3
       generalize after ops V (Proc.devRef .tc main_v228) = c4
       rfl)

/-- Layer 5's output as the layer function of layer 4's output and the arguments. -/
theorem layer5 : after ops V (Proc.devRef .tc main_v245) = refLayer512 (after ops V (Proc.devRef .tc main_v195)) (srcIdx (edgeSrc (V (Proc.devRef .tc main_arg1)))) (dstIdx (edgeDst (V (Proc.devRef .tc main_arg1))))
    (cutMat (F := Ideal) 3 (V (Proc.devRef .tc main_arg7)) slices_S4x512x512_S1x512x512_3_0_0) (cutRow (F := Ideal) (n := 4) 3 (V (Proc.devRef .tc main_arg8)) slices_S4x512_S1x512_3_0)
    (cutMat (F := Ideal) 3 (V (Proc.devRef .tc main_arg9)) slices_S4x512x512_S1x512x512_3_0_0) (cutRow (F := Ideal) (n := 4) 3 (V (Proc.devRef .tc main_arg10)) slices_S4x512_S1x512_3_0)
    (cutRow (F := Ideal) (n := 5) 4 (V (Proc.devRef .tc main_arg11)) slices_S5x512_S1x512_4_0) (cutRow (F := Ideal) (n := 5) 4 (V (Proc.devRef .tc main_arg12)) slices_S5x512_S1x512_4_0) := by
  rw [norm5, mlp5, agg5, idxSrc5, idxDst5, cutWa5, cutBa5, cutWb5, cutBb5, cutG5, cutB5]
  rfl

/-- The pooled array is the mean pooling of the last layer's output over the graphs. -/
theorem pool_eq : after ops V (Proc.devRef .tc main_v257) = refPool (after ops V (Proc.devRef .tc main_v245)) (V (Proc.devRef .tc main_arg2)) := by
  simp only [val_main_v257, val_main_v248, val_main_v246, val_main_cst_33, val_main_v247, val_main_v256, val_main_v255, val_main_v254,
    val_main_v252, val_main_v250, val_main_cst_35, val_main_v251, val_main_v249, val_main_cst_34, val_main_v253, val_main_cst_36,
    kept_arg2']
  first
    | done
    | (generalize after ops V (Proc.devRef .tc main_v245) = c0
       generalize V (Proc.devRef .tc main_arg2) = a0
       rfl)

/-- The result is the head of the pooled array. -/
theorem head_eq : after ops V (Proc.devRef .tc main_v266) = refHead (after ops V (Proc.devRef .tc main_v257)) (V (Proc.devRef .tc main_arg13)) (V (Proc.devRef .tc main_arg14)) (V (Proc.devRef .tc main_arg15)) (V (Proc.devRef .tc main_arg16)) := by
  simp only [val_main_v266, val_main_v263, val_main_v262, val_main_v261, val_main_v258, val_main_v260, val_main_v259, val_main_v265,
    val_main_v264, kept_arg13', kept_arg14', kept_arg15', kept_arg16']
  first
    | done
    | (generalize after ops V (Proc.devRef .tc main_v257) = c0
       generalize V (Proc.devRef .tc main_arg13) = a0
       generalize V (Proc.devRef .tc main_arg14) = a1
       generalize V (Proc.devRef .tc main_arg15) = a2
       generalize V (Proc.devRef .tc main_arg16) = a3
       rfl)

/-- THE REFERENCE'S RESULT is the closed function of the seventeen argument arrays. -/
theorem refOut_eq : after ops V (Proc.devRef .tc main_v266)
    = closedOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [head_eq, pool_eq, layer5, layer4, layer3, layer2, layer1]
  rfl

end Cert.ReferenceIdeal.RefRun

end
-- ==== Proof.lean ====
/-
  The certificate of a five-layer graph network with batch normalisation, computed by eleven kernels (per layer: a
  tiled two-layer perceptron that also accumulates the column sums and the column sums of squares of its output,
  then a tiled normalisation from those sums; at the end a head over the pooled features), against a plain reference.
  * The three programs run to the end, fault nowhere, and leave their arguments as launched: for the two kernel
    programs by the run of their 22 items chained through the buffer contents between them, for the reference by the
    run of its 431 host operations.
  * The idealization rewrote nothing, so it is the program's own text read at the ideal instance.
  * At the ideal instance the two results are one function of the seventeen argument arrays: the tiles of a matrix
    product are the rows of the whole product, ten tiles' column sums add up to the whole column sum, and the
    variance from sums of squares, q/n - (s/n)^2, is the mean squared deviation because every entry involved is a
    real number (the inputs are finite and every step keeps reals).
-/
import proofs.«100381_j2018634629568_1_alg».proof.Defs
import proofs.«100381_j2018634629568_1_alg».proof.Proof.Gen.Kernel
import proofs.«100381_j2018634629568_1_alg».proof.Proof.Gen.KernelIdeal
import proofs.«100381_j2018634629568_1_alg».proof.Proof.Gen.ReferenceIdeal
import proofs.«100381_j2018634629568_1_alg».proof.Proof.Gen.Pre_finite_inputs
import proofs.«100381_j2018634629568_1_alg».proof.Proof.K.Whole
import proofs.«100381_j2018634629568_1_alg».proof.Proof.KI.Whole
import proofs.«100381_j2018634629568_1_alg».proof.Proof.RI.Run
import proofs.«100381_j2018634629568_1_alg».proof.Proof.KA.Whole
import proofs.«100381_j2018634629568_1_alg».proof.Proof.RI.Layers
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.X22 m c (Proc.devRef .tc Cert.KernelIdeal.main_v155), Cert.KernelIdeal.Gen.runResult (F := Ideal) m ρ, ?_⟩
  refine (θ_run (Cert.ReferenceIdeal.defs (F := Ideal)) _ _).mono (fun r h c => ?_) (Cert.ReferenceIdeal.RefRun.run (F := Ideal) m' ρ')
  obtain ⟨e0, e1, e2, e3, e4, e5, e6, e7, e8, e9, e10, e11, e12, e13, e14, e15, e16⟩ := hagree c
  refine ⟨?_, (h c Cert.ReferenceIdeal.main_arg0).trans (Cert.ReferenceIdeal.RefRun.kept_arg0 _),
    (h c Cert.ReferenceIdeal.main_arg1).trans (Cert.ReferenceIdeal.RefRun.kept_arg1 _),
    (h c Cert.ReferenceIdeal.main_arg2).trans (Cert.ReferenceIdeal.RefRun.kept_arg2 _),
    (h c Cert.ReferenceIdeal.main_arg3).trans (Cert.ReferenceIdeal.RefRun.kept_arg3 _),
    (h c Cert.ReferenceIdeal.main_arg4).trans (Cert.ReferenceIdeal.RefRun.kept_arg4 _),
    (h c Cert.ReferenceIdeal.main_arg5).trans (Cert.ReferenceIdeal.RefRun.kept_arg5 _),
    (h c Cert.ReferenceIdeal.main_arg6).trans (Cert.ReferenceIdeal.RefRun.kept_arg6 _),
    (h c Cert.ReferenceIdeal.main_arg7).trans (Cert.ReferenceIdeal.RefRun.kept_arg7 _),
    (h c Cert.ReferenceIdeal.main_arg8).trans (Cert.ReferenceIdeal.RefRun.kept_arg8 _),
    (h c Cert.ReferenceIdeal.main_arg9).trans (Cert.ReferenceIdeal.RefRun.kept_arg9 _),
    (h c Cert.ReferenceIdeal.main_arg10).trans (Cert.ReferenceIdeal.RefRun.kept_arg10 _),
    (h c Cert.ReferenceIdeal.main_arg11).trans (Cert.ReferenceIdeal.RefRun.kept_arg11 _),
    (h c Cert.ReferenceIdeal.main_arg12).trans (Cert.ReferenceIdeal.RefRun.kept_arg12 _),
    (h c Cert.ReferenceIdeal.main_arg13).trans (Cert.ReferenceIdeal.RefRun.kept_arg13 _),
    (h c Cert.ReferenceIdeal.main_arg14).trans (Cert.ReferenceIdeal.RefRun.kept_arg14 _),
    (h c Cert.ReferenceIdeal.main_arg15).trans (Cert.ReferenceIdeal.RefRun.kept_arg15 _),
    (h c Cert.ReferenceIdeal.main_arg16).trans (Cert.ReferenceIdeal.RefRun.kept_arg16 _)⟩
  refine (h c Cert.ReferenceIdeal.main_v266).trans (((Cert.ReferenceIdeal.RefRun.refOut_eq _).trans ?_).trans (Cert.Gin.KerWhole.kernelOut m c hpre).symm)
  show Cert.Gin.Ref.closedOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
  rw [e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ri, trivial, algebraic⟩

end Cert.Proof

end
